-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x300 : Shape := ⟨2, ![100000, 300]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S100000x300 .f32) : IVec S_ 1 :=
  let main_v0 : FVec F S100000x300 .f32 := Host.absf main_arg1
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 99999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S100000x300 : Shape := ⟨2, ![100000, 300]⟩
abbrev S300x100000 : Shape := ⟨2, ![300, 100000]⟩
abbrev S300x16384 : Shape := ⟨2, ![300, 16384]⟩
abbrev S100000 : Shape := ⟨1, ![100000]⟩
abbrev S4096 : Shape := ⟨1, ![4096]⟩
abbrev S_ : Shape := ⟨0, ![]⟩
abbrev S1x4096 : Shape := ⟨2, ![1, 4096]⟩
abbrev S1x100000 : Shape := ⟨2, ![1, 100000]⟩
abbrev S16 : Shape := ⟨1, ![16]⟩
abbrev S16384x300 : Shape := ⟨2, ![16384, 300]⟩

abbrev nBuf : Table → Nat
  | .hbm => 5
  | .local .scVector .vmem => 4
  | _ => 0

abbrev bufTy : (tb : Table) → Fin (nBuf tb) → BufTy
  | .hbm, ⟨0, _⟩ => ⟨S16384, .i32⟩
  | .hbm, ⟨1, _⟩ => ⟨S100000x300, .f32⟩
  | .hbm, ⟨2, _⟩ => ⟨S300x100000, .f32⟩
  | .hbm, ⟨3, _⟩ => ⟨S300x16384, .f32⟩
  | .hbm, ⟨4, _⟩ => ⟨S16384x300, .f32⟩
  | .local .scVector .vmem, ⟨0, _⟩ => ⟨S16384, .i32⟩
  | .local .scVector .vmem, ⟨1, _⟩ => ⟨S100000, .f32⟩
  | .local .scVector .vmem, ⟨2, _⟩ => ⟨S4096, .f32⟩
  | .local .scVector .vmem, ⟨3, _⟩ => ⟨S4096, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  ![v1.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  ![v1.toNat, 4096]
@[reducible] def k0_t1_loop : Scf.Loop 32 :=
  let c0_i32_2 : BitVec 32 := 0#32
  let c10_i32 : BitVec 32 := 10#32
  let v10 : BitVec 32 := Scalar.addi c0_i32_2 c10_i32
  let c1_i32 : BitVec 32 := 1#32
  ⟨c0_i32_2, v10, c1_i32⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_11 : BitVec 32 := 0#32
  let c0_i32_2 : BitVec 32 := 0#32
  let c1_i32 : BitVec 32 := 1#32
  let arg11 : BitVec 32 := Scf.iv c0_i32_2 c1_i32 k0_t1
  let c1_i32_10 : BitVec 32 := 1#32
  let v19 : BitVec 32 := Scalar.muli arg11 c1_i32_10
  let v20 : BitVec 32 := Scalar.addi c0_i32_11 v19
  let v21 : BitVec 32 := Scalar.muli c32_i32 v20
  let v22 : BitVec 32 := Scalar.addi v1 v21
  let c300_i32 : BitVec 32 := 300#32
  let v23 : BitVec 1 := Scalar.cmpi .slt v22 c300_i32
  let v24 : BitVec 32 := Scalar.extui v23
  let c0_i32_12 : BitVec 32 := 0#32
  let v25 : BitVec 1 := Scalar.cmpi .ne v24 c0_i32_12
  v25

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_11 : BitVec 32 := 0#32
  let c0_i32_2 : BitVec 32 := 0#32
  let c1_i32 : BitVec 32 := 1#32
  let arg11 : BitVec 32 := Scf.iv c0_i32_2 c1_i32 k0_t1
  let c1_i32_10 : BitVec 32 := 1#32
  let v19 : BitVec 32 := Scalar.muli arg11 c1_i32_10
  let v20 : BitVec 32 := Scalar.addi c0_i32_11 v19
  let v21 : BitVec 32 := Scalar.muli c32_i32 v20
  let v22 : BitVec 32 := Scalar.addi v1 v21
  let c0_i32_1055_r1 : BitVec 32 := 0#32
  ![v22.toNat, 0]

def k0_chk1 (i : grid0.Coords) (k0_t1 : Fin k0_t1_loop.trips) (v30 : IVec S16 32) : Prop :=
  (∀ (k0_h1 : k0_cond1 i k0_t1 = 1#1), ∀ a x, ((![v30] : Fin 1 → IVec S16 32) a x).toNat < S100000.size a)
instance k0_chk1.dec : ∀ (i : grid0.Coords) (k0_t1 : Fin k0_t1_loop.trips) (v30 : IVec S16 32), Decidable (k0_chk1 i k0_t1 v30) := fun i k0_t1 v30 => decidable_of_iff' _ (Iff.of_eq (k0_chk1.eq_1 i k0_t1 v30))
theorem k0_idx1_inb : ∀ (i : grid0.Coords) (k0_t1 : Fin k0_t1_loop.trips) (v30 : IVec S16 32) (k0_hw1 : k0_chk1 i k0_t1 v30), ∀ (k0_h1 : k0_cond1 i k0_t1 = 1#1), ∀ a x, ((![v30] : Fin 1 → IVec S16 32) a x).toNat < S100000.size a := fun i k0_t1 v30 k0_hw1 k0_h1 => k0_hw1 k0_h1

def k0_chk2 (i : grid0.Coords) (k0_t1 : Fin k0_t1_loop.trips) (v31 : IVec S16 32) : Prop :=
  (∀ (k0_h1 : k0_cond1 i k0_t1 = 1#1), ∀ a x, ((![v31] : Fin 1 → IVec S16 32) a x).toNat < S100000.size a)
instance k0_chk2.dec : ∀ (i : grid0.Coords) (k0_t1 : Fin k0_t1_loop.trips) (v31 : IVec S16 32), Decidable (k0_chk2 i k0_t1 v31) := fun i k0_t1 v31 => decidable_of_iff' _ (Iff.of_eq (k0_chk2.eq_1 i k0_t1 v31))
theorem k0_idx2_inb : ∀ (i : grid0.Coords) (k0_t1 : Fin k0_t1_loop.trips) (v31 : IVec S16 32) (k0_hw2 : k0_chk2 i k0_t1 v31), ∀ (k0_h1 : k0_cond1 i k0_t1 = 1#1), ∀ a x, ((![v31] : Fin 1 → IVec S16 32) a x).toNat < S100000.size a := fun i k0_t1 v31 k0_hw2 k0_h1 => k0_hw2 k0_h1

def k0_chk3 (i : grid0.Coords) (k0_t1 : Fin k0_t1_loop.trips) (v32 : IVec S16 32) : Prop :=
  (∀ (k0_h1 : k0_cond1 i k0_t1 = 1#1), ∀ a x, ((![v32] : Fin 1 → IVec S16 32) a x).toNat < S100000.size a)
instance k0_chk3.dec : ∀ (i : grid0.Coords) (k0_t1 : Fin k0_t1_loop.trips) (v32 : IVec S16 32), Decidable (k0_chk3 i k0_t1 v32) := fun i k0_t1 v32 => decidable_of_iff' _ (Iff.of_eq (k0_chk3.eq_1 i k0_t1 v32))
theorem k0_idx3_inb : ∀ (i : grid0.Coords) (k0_t1 : Fin k0_t1_loop.trips) (v32 : IVec S16 32) (k0_hw3 : k0_chk3 i k0_t1 v32), ∀ (k0_h1 : k0_cond1 i k0_t1 = 1#1), ∀ a x, ((![v32] : Fin 1 → IVec S16 32) a x).toNat < S100000.size a := fun i k0_t1 v32 k0_hw3 k0_h1 => k0_hw3 k0_h1

def k0_chk4 (i : grid0.Coords) (k0_t1 : Fin k0_t1_loop.trips) (v33 : IVec S16 32) : Prop :=
  (∀ (k0_h1 : k0_cond1 i k0_t1 = 1#1), ∀ a x, ((![v33] : Fin 1 → IVec S16 32) a x).toNat < S100000.size a)
instance k0_chk4.dec : ∀ (i : grid0.Coords) (k0_t1 : Fin k0_t1_loop.trips) (v33 : IVec S16 32), Decidable (k0_chk4 i k0_t1 v33) := fun i k0_t1 v33 => decidable_of_iff' _ (Iff.of_eq (k0_chk4.eq_1 i k0_t1 v33))
theorem k0_idx4_inb : ∀ (i : grid0.Coords) (k0_t1 : Fin k0_t1_loop.trips) (v33 : IVec S16 32) (k0_hw4 : k0_chk4 i k0_t1 v33), ∀ (k0_h1 : k0_cond1 i k0_t1 = 1#1), ∀ a x, ((![v33] : Fin 1 → IVec S16 32) a x).toNat < S100000.size a := fun i k0_t1 v33 k0_hw4 k0_h1 => k0_hw4 k0_h1

def k0_chk5 (i : grid0.Coords) (k0_t1 : Fin k0_t1_loop.trips) (v34 : IVec S16 32) : Prop :=
  (∀ (k0_h1 : k0_cond1 i k0_t1 = 1#1), ∀ a x, ((![v34] : Fin 1 → IVec S16 32) a x).toNat < S100000.size a)
instance k0_chk5.dec : ∀ (i : grid0.Coords) (k0_t1 : Fin k0_t1_loop.trips) (v34 : IVec S16 32), Decidable (k0_chk5 i k0_t1 v34) := fun i k0_t1 v34 => decidable_of_iff' _ (Iff.of_eq (k0_chk5.eq_1 i k0_t1 v34))
theorem k0_idx5_inb : ∀ (i : grid0.Coords) (k0_t1 : Fin k0_t1_loop.trips) (v34 : IVec S16 32) (k0_hw5 : k0_chk5 i k0_t1 v34), ∀ (k0_h1 : k0_cond1 i k0_t1 = 1#1), ∀ a x, ((![v34] : Fin 1 → IVec S16 32) a x).toNat < S100000.size a := fun i k0_t1 v34 k0_hw5 k0_h1 => k0_hw5 k0_h1

def k0_chk6 (i : grid0.Coords) (k0_t1 : Fin k0_t1_loop.trips) (v35 : IVec S16 32) : Prop :=
  (∀ (k0_h1 : k0_cond1 i k0_t1 = 1#1), ∀ a x, ((![v35] : Fin 1 → IVec S16 32) a x).toNat < S100000.size a)
instance k0_chk6.dec : ∀ (i : grid0.Coords) (k0_t1 : Fin k0_t1_loop.trips) (v35 : IVec S16 32), Decidable (k0_chk6 i k0_t1 v35) := fun i k0_t1 v35 => decidable_of_iff' _ (Iff.of_eq (k0_chk6.eq_1 i k0_t1 v35))
theorem k0_idx6_inb : ∀ (i : grid0.Coords) (k0_t1 : Fin k0_t1_loop.trips) (v35 : IVec S16 32) (k0_hw6 : k0_chk6 i k0_t1 v35), ∀ (k0_h1 : k0_cond1 i k0_t1 = 1#1), ∀ a x, ((![v35] : Fin 1 → IVec S16 32) a x).toNat < S100000.size a := fun i k0_t1 v35 k0_hw6 k0_h1 => k0_hw6 k0_h1

def k0_chk7 (i : grid0.Coords) (k0_t1 : Fin k0_t1_loop.trips) (v36 : IVec S16 32) : Prop :=
  (∀ (k0_h1 : k0_cond1 i k0_t1 = 1#1), ∀ a x, ((![v36] : Fin 1 → IVec S16 32) a x).toNat < S100000.size a)
instance k0_chk7.dec : ∀ (i : grid0.Coords) (k0_t1 : Fin k0_t1_loop.trips) (v36 : IVec S16 32), Decidable (k0_chk7 i k0_t1 v36) := fun i k0_t1 v36 => decidable_of_iff' _ (Iff.of_eq (k0_chk7.eq_1 i k0_t1 v36))
theorem k0_idx7_inb : ∀ (i : grid0.Coords) (k0_t1 : Fin k0_t1_loop.trips) (v36 : IVec S16 32) (k0_hw7 : k0_chk7 i k0_t1 v36), ∀ (k0_h1 : k0_cond1 i k0_t1 = 1#1), ∀ a x, ((![v36] : Fin 1 → IVec S16 32) a x).toNat < S100000.size a := fun i k0_t1 v36 k0_hw7 k0_h1 => k0_hw7 k0_h1

def k0_chk8 (i : grid0.Coords) (k0_t1 : Fin k0_t1_loop.trips) (v37 : IVec S16 32) : Prop :=
  (∀ (k0_h1 : k0_cond1 i k0_t1 = 1#1), ∀ a x, ((![v37] : Fin 1 → IVec S16 32) a x).toNat < S100000.size a)
instance k0_chk8.dec : ∀ (i : grid0.Coords) (k0_t1 : Fin k0_t1_loop.trips) (v37 : IVec S16 32), Decidable (k0_chk8 i k0_t1 v37) := fun i k0_t1 v37 => decidable_of_iff' _ (Iff.of_eq (k0_chk8.eq_1 i k0_t1 v37))
theorem k0_idx8_inb : ∀ (i : grid0.Coords) (k0_t1 : Fin k0_t1_loop.trips) (v37 : IVec S16 32) (k0_hw8 : k0_chk8 i k0_t1 v37), ∀ (k0_h1 : k0_cond1 i k0_t1 = 1#1), ∀ a x, ((![v37] : Fin 1 → IVec S16 32) a x).toNat < S100000.size a := fun i k0_t1 v37 k0_hw8 k0_h1 => k0_hw8 k0_h1

def k0_chk9 (i : grid0.Coords) (k0_t1 : Fin k0_t1_loop.trips) (v54 : IVec S16 32) : Prop :=
  (∀ (k0_h1 : k0_cond1 i k0_t1 = 1#1), ∀ a x, ((![v54] : Fin 1 → IVec S16 32) a x).toNat < S100000.size a)
instance k0_chk9.dec : ∀ (i : grid0.Coords) (k0_t1 : Fin k0_t1_loop.trips) (v54 : IVec S16 32), Decidable (k0_chk9 i k0_t1 v54) := fun i k0_t1 v54 => decidable_of_iff' _ (Iff.of_eq (k0_chk9.eq_1 i k0_t1 v54))
theorem k0_idx9_inb : ∀ (i : grid0.Coords) (k0_t1 : Fin k0_t1_loop.trips) (v54 : IVec S16 32) (k0_hw9 : k0_chk9 i k0_t1 v54), ∀ (k0_h1 : k0_cond1 i k0_t1 = 1#1), ∀ a x, ((![v54] : Fin 1 → IVec S16 32) a x).toNat < S100000.size a := fun i k0_t1 v54 k0_hw9 k0_h1 => k0_hw9 k0_h1

def k0_chk10 (i : grid0.Coords) (k0_t1 : Fin k0_t1_loop.trips) (v55 : IVec S16 32) : Prop :=
  (∀ (k0_h1 : k0_cond1 i k0_t1 = 1#1), ∀ a x, ((![v55] : Fin 1 → IVec S16 32) a x).toNat < S100000.size a)
instance k0_chk10.dec : ∀ (i : grid0.Coords) (k0_t1 : Fin k0_t1_loop.trips) (v55 : IVec S16 32), Decidable (k0_chk10 i k0_t1 v55) := fun i k0_t1 v55 => decidable_of_iff' _ (Iff.of_eq (k0_chk10.eq_1 i k0_t1 v55))
theorem k0_idx10_inb : ∀ (i : grid0.Coords) (k0_t1 : Fin k0_t1_loop.trips) (v55 : IVec S16 32) (k0_hw10 : k0_chk10 i k0_t1 v55), ∀ (k0_h1 : k0_cond1 i k0_t1 = 1#1), ∀ a x, ((![v55] : Fin 1 → IVec S16 32) a x).toNat < S100000.size a := fun i k0_t1 v55 k0_hw10 k0_h1 => k0_hw10 k0_h1

def k0_chk11 (i : grid0.Coords) (k0_t1 : Fin k0_t1_loop.trips) (v56 : IVec S16 32) : Prop :=
  (∀ (k0_h1 : k0_cond1 i k0_t1 = 1#1), ∀ a x, ((![v56] : Fin 1 → IVec S16 32) a x).toNat < S100000.size a)
instance k0_chk11.dec : ∀ (i : grid0.Coords) (k0_t1 : Fin k0_t1_loop.trips) (v56 : IVec S16 32), Decidable (k0_chk11 i k0_t1 v56) := fun i k0_t1 v56 => decidable_of_iff' _ (Iff.of_eq (k0_chk11.eq_1 i k0_t1 v56))
theorem k0_idx11_inb : ∀ (i : grid0.Coords) (k0_t1 : Fin k0_t1_loop.trips) (v56 : IVec S16 32) (k0_hw11 : k0_chk11 i k0_t1 v56), ∀ (k0_h1 : k0_cond1 i k0_t1 = 1#1), ∀ a x, ((![v56] : Fin 1 → IVec S16 32) a x).toNat < S100000.size a := fun i k0_t1 v56 k0_hw11 k0_h1 => k0_hw11 k0_h1

def k0_chk12 (i : grid0.Coords) (k0_t1 : Fin k0_t1_loop.trips) (v57 : IVec S16 32) : Prop :=
  (∀ (k0_h1 : k0_cond1 i k0_t1 = 1#1), ∀ a x, ((![v57] : Fin 1 → IVec S16 32) a x).toNat < S100000.size a)
instance k0_chk12.dec : ∀ (i : grid0.Coords) (k0_t1 : Fin k0_t1_loop.trips) (v57 : IVec S16 32), Decidable (k0_chk12 i k0_t1 v57) := fun i k0_t1 v57 => decidable_of_iff' _ (Iff.of_eq (k0_chk12.eq_1 i k0_t1 v57))
theorem k0_idx12_inb : ∀ (i : grid0.Coords) (k0_t1 : Fin k0_t1_loop.trips) (v57 : IVec S16 32) (k0_hw12 : k0_chk12 i k0_t1 v57), ∀ (k0_h1 : k0_cond1 i k0_t1 = 1#1), ∀ a x, ((![v57] : Fin 1 → IVec S16 32) a x).toNat < S100000.size a := fun i k0_t1 v57 k0_hw12 k0_h1 => k0_hw12 k0_h1

def k0_chk13 (i : grid0.Coords) (k0_t1 : Fin k0_t1_loop.trips) (v58 : IVec S16 32) : Prop :=
  (∀ (k0_h1 : k0_cond1 i k0_t1 = 1#1), ∀ a x, ((![v58] : Fin 1 → IVec S16 32) a x).toNat < S100000.size a)
instance k0_chk13.dec : ∀ (i : grid0.Coords) (k0_t1 : Fin k0_t1_loop.trips) (v58 : IVec S16 32), Decidable (k0_chk13 i k0_t1 v58) := fun i k0_t1 v58 => decidable_of_iff' _ (Iff.of_eq (k0_chk13.eq_1 i k0_t1 v58))
theorem k0_idx13_inb : ∀ (i : grid0.Coords) (k0_t1 : Fin k0_t1_loop.trips) (v58 : IVec S16 32) (k0_hw13 : k0_chk13 i k0_t1 v58), ∀ (k0_h1 : k0_cond1 i k0_t1 = 1#1), ∀ a x, ((![v58] : Fin 1 → IVec S16 32) a x).toNat < S100000.size a := fun i k0_t1 v58 k0_hw13 k0_h1 => k0_hw13 k0_h1

def k0_chk14 (i : grid0.Coords) (k0_t1 : Fin k0_t1_loop.trips) (v59 : IVec S16 32) : Prop :=
  (∀ (k0_h1 : k0_cond1 i k0_t1 = 1#1), ∀ a x, ((![v59] : Fin 1 → IVec S16 32) a x).toNat < S100000.size a)
instance k0_chk14.dec : ∀ (i : grid0.Coords) (k0_t1 : Fin k0_t1_loop.trips) (v59 : IVec S16 32), Decidable (k0_chk14 i k0_t1 v59) := fun i k0_t1 v59 => decidable_of_iff' _ (Iff.of_eq (k0_chk14.eq_1 i k0_t1 v59))
theorem k0_idx14_inb : ∀ (i : grid0.Coords) (k0_t1 : Fin k0_t1_loop.trips) (v59 : IVec S16 32) (k0_hw14 : k0_chk14 i k0_t1 v59), ∀ (k0_h1 : k0_cond1 i k0_t1 = 1#1), ∀ a x, ((![v59] : Fin 1 → IVec S16 32) a x).toNat < S100000.size a := fun i k0_t1 v59 k0_hw14 k0_h1 => k0_hw14 k0_h1

def k0_chk15 (i : grid0.Coords) (k0_t1 : Fin k0_t1_loop.trips) (v60 : IVec S16 32) : Prop :=
  (∀ (k0_h1 : k0_cond1 i k0_t1 = 1#1), ∀ a x, ((![v60] : Fin 1 → IVec S16 32) a x).toNat < S100000.size a)
instance k0_chk15.dec : ∀ (i : grid0.Coords) (k0_t1 : Fin k0_t1_loop.trips) (v60 : IVec S16 32), Decidable (k0_chk15 i k0_t1 v60) := fun i k0_t1 v60 => decidable_of_iff' _ (Iff.of_eq (k0_chk15.eq_1 i k0_t1 v60))
theorem k0_idx15_inb : ∀ (i : grid0.Coords) (k0_t1 : Fin k0_t1_loop.trips) (v60 : IVec S16 32) (k0_hw15 : k0_chk15 i k0_t1 v60), ∀ (k0_h1 : k0_cond1 i k0_t1 = 1#1), ∀ a x, ((![v60] : Fin 1 → IVec S16 32) a x).toNat < S100000.size a := fun i k0_t1 v60 k0_hw15 k0_h1 => k0_hw15 k0_h1

def k0_chk16 (i : grid0.Coords) (k0_t1 : Fin k0_t1_loop.trips) (v61 : IVec S16 32) : Prop :=
  (∀ (k0_h1 : k0_cond1 i k0_t1 = 1#1), ∀ a x, ((![v61] : Fin 1 → IVec S16 32) a x).toNat < S100000.size a)
instance k0_chk16.dec : ∀ (i : grid0.Coords) (k0_t1 : Fin k0_t1_loop.trips) (v61 : IVec S16 32), Decidable (k0_chk16 i k0_t1 v61) := fun i k0_t1 v61 => decidable_of_iff' _ (Iff.of_eq (k0_chk16.eq_1 i k0_t1 v61))
theorem k0_idx16_inb : ∀ (i : grid0.Coords) (k0_t1 : Fin k0_t1_loop.trips) (v61 : IVec S16 32) (k0_hw16 : k0_chk16 i k0_t1 v61), ∀ (k0_h1 : k0_cond1 i k0_t1 = 1#1), ∀ a x, ((![v61] : Fin 1 → IVec S16 32) a x).toNat < S100000.size a := fun i k0_t1 v61 k0_hw16 k0_h1 => k0_hw16 k0_h1

def k0_chk17 (i : grid0.Coords) (k0_t1 : Fin k0_t1_loop.trips) (v78 : IVec S16 32) : Prop :=
  (∀ (k0_h1 : k0_cond1 i k0_t1 = 1#1), ∀ a x, ((![v78] : Fin 1 → IVec S16 32) a x).toNat < S100000.size a)
instance k0_chk17.dec : ∀ (i : grid0.Coords) (k0_t1 : Fin k0_t1_loop.trips) (v78 : IVec S16 32), Decidable (k0_chk17 i k0_t1 v78) := fun i k0_t1 v78 => decidable_of_iff' _ (Iff.of_eq (k0_chk17.eq_1 i k0_t1 v78))
theorem k0_idx17_inb : ∀ (i : grid0.Coords) (k0_t1 : Fin k0_t1_loop.trips) (v78 : IVec S16 32) (k0_hw17 : k0_chk17 i k0_t1 v78), ∀ (k0_h1 : k0_cond1 i k0_t1 = 1#1), ∀ a x, ((![v78] : Fin 1 → IVec S16 32) a x).toNat < S100000.size a := fun i k0_t1 v78 k0_hw17 k0_h1 => k0_hw17 k0_h1

def k0_chk18 (i : grid0.Coords) (k0_t1 : Fin k0_t1_loop.trips) (v79 : IVec S16 32) : Prop :=
  (∀ (k0_h1 : k0_cond1 i k0_t1 = 1#1), ∀ a x, ((![v79] : Fin 1 → IVec S16 32) a x).toNat < S100000.size a)
instance k0_chk18.dec : ∀ (i : grid0.Coords) (k0_t1 : Fin k0_t1_loop.trips) (v79 : IVec S16 32), Decidable (k0_chk18 i k0_t1 v79) := fun i k0_t1 v79 => decidable_of_iff' _ (Iff.of_eq (k0_chk18.eq_1 i k0_t1 v79))
theorem k0_idx18_inb : ∀ (i : grid0.Coords) (k0_t1 : Fin k0_t1_loop.trips) (v79 : IVec S16 32) (k0_hw18 : k0_chk18 i k0_t1 v79), ∀ (k0_h1 : k0_cond1 i k0_t1 = 1#1), ∀ a x, ((![v79] : Fin 1 → IVec S16 32) a x).toNat < S100000.size a := fun i k0_t1 v79 k0_hw18 k0_h1 => k0_hw18 k0_h1

def k0_chk19 (i : grid0.Coords) (k0_t1 : Fin k0_t1_loop.trips) (v80 : IVec S16 32) : Prop :=
  (∀ (k0_h1 : k0_cond1 i k0_t1 = 1#1), ∀ a x, ((![v80] : Fin 1 → IVec S16 32) a x).toNat < S100000.size a)
instance k0_chk19.dec : ∀ (i : grid0.Coords) (k0_t1 : Fin k0_t1_loop.trips) (v80 : IVec S16 32), Decidable (k0_chk19 i k0_t1 v80) := fun i k0_t1 v80 => decidable_of_iff' _ (Iff.of_eq (k0_chk19.eq_1 i k0_t1 v80))
theorem k0_idx19_inb : ∀ (i : grid0.Coords) (k0_t1 : Fin k0_t1_loop.trips) (v80 : IVec S16 32) (k0_hw19 : k0_chk19 i k0_t1 v80), ∀ (k0_h1 : k0_cond1 i k0_t1 = 1#1), ∀ a x, ((![v80] : Fin 1 → IVec S16 32) a x).toNat < S100000.size a := fun i k0_t1 v80 k0_hw19 k0_h1 => k0_hw19 k0_h1

def k0_chk20 (i : grid0.Coords) (k0_t1 : Fin k0_t1_loop.trips) (v81 : IVec S16 32) : Prop :=
  (∀ (k0_h1 : k0_cond1 i k0_t1 = 1#1), ∀ a x, ((![v81] : Fin 1 → IVec S16 32) a x).toNat < S100000.size a)
instance k0_chk20.dec : ∀ (i : grid0.Coords) (k0_t1 : Fin k0_t1_loop.trips) (v81 : IVec S16 32), Decidable (k0_chk20 i k0_t1 v81) := fun i k0_t1 v81 => decidable_of_iff' _ (Iff.of_eq (k0_chk20.eq_1 i k0_t1 v81))
theorem k0_idx20_inb : ∀ (i : grid0.Coords) (k0_t1 : Fin k0_t1_loop.trips) (v81 : IVec S16 32) (k0_hw20 : k0_chk20 i k0_t1 v81), ∀ (k0_h1 : k0_cond1 i k0_t1 = 1#1), ∀ a x, ((![v81] : Fin 1 → IVec S16 32) a x).toNat < S100000.size a := fun i k0_t1 v81 k0_hw20 k0_h1 => k0_hw20 k0_h1

def k0_chk21 (i : grid0.Coords) (k0_t1 : Fin k0_t1_loop.trips) (v82 : IVec S16 32) : Prop :=
  (∀ (k0_h1 : k0_cond1 i k0_t1 = 1#1), ∀ a x, ((![v82] : Fin 1 → IVec S16 32) a x).toNat < S100000.size a)
instance k0_chk21.dec : ∀ (i : grid0.Coords) (k0_t1 : Fin k0_t1_loop.trips) (v82 : IVec S16 32), Decidable (k0_chk21 i k0_t1 v82) := fun i k0_t1 v82 => decidable_of_iff' _ (Iff.of_eq (k0_chk21.eq_1 i k0_t1 v82))
theorem k0_idx21_inb : ∀ (i : grid0.Coords) (k0_t1 : Fin k0_t1_loop.trips) (v82 : IVec S16 32) (k0_hw21 : k0_chk21 i k0_t1 v82), ∀ (k0_h1 : k0_cond1 i k0_t1 = 1#1), ∀ a x, ((![v82] : Fin 1 → IVec S16 32) a x).toNat < S100000.size a := fun i k0_t1 v82 k0_hw21 k0_h1 => k0_hw21 k0_h1

def k0_chk22 (i : grid0.Coords) (k0_t1 : Fin k0_t1_loop.trips) (v83 : IVec S16 32) : Prop :=
  (∀ (k0_h1 : k0_cond1 i k0_t1 = 1#1), ∀ a x, ((![v83] : Fin 1 → IVec S16 32) a x).toNat < S100000.size a)
instance k0_chk22.dec : ∀ (i : grid0.Coords) (k0_t1 : Fin k0_t1_loop.trips) (v83 : IVec S16 32), Decidable (k0_chk22 i k0_t1 v83) := fun i k0_t1 v83 => decidable_of_iff' _ (Iff.of_eq (k0_chk22.eq_1 i k0_t1 v83))
theorem k0_idx22_inb : ∀ (i : grid0.Coords) (k0_t1 : Fin k0_t1_loop.trips) (v83 : IVec S16 32) (k0_hw22 : k0_chk22 i k0_t1 v83), ∀ (k0_h1 : k0_cond1 i k0_t1 = 1#1), ∀ a x, ((![v83] : Fin 1 → IVec S16 32) a x).toNat < S100000.size a := fun i k0_t1 v83 k0_hw22 k0_h1 => k0_hw22 k0_h1

def k0_chk23 (i : grid0.Coords) (k0_t1 : Fin k0_t1_loop.trips) (v84 : IVec S16 32) : Prop :=
  (∀ (k0_h1 : k0_cond1 i k0_t1 = 1#1), ∀ a x, ((![v84] : Fin 1 → IVec S16 32) a x).toNat < S100000.size a)
instance k0_chk23.dec : ∀ (i : grid0.Coords) (k0_t1 : Fin k0_t1_loop.trips) (v84 : IVec S16 32), Decidable (k0_chk23 i k0_t1 v84) := fun i k0_t1 v84 => decidable_of_iff' _ (Iff.of_eq (k0_chk23.eq_1 i k0_t1 v84))
theorem k0_idx23_inb : ∀ (i : grid0.Coords) (k0_t1 : Fin k0_t1_loop.trips) (v84 : IVec S16 32) (k0_hw23 : k0_chk23 i k0_t1 v84), ∀ (k0_h1 : k0_cond1 i k0_t1 = 1#1), ∀ a x, ((![v84] : Fin 1 → IVec S16 32) a x).toNat < S100000.size a := fun i k0_t1 v84 k0_hw23 k0_h1 => k0_hw23 k0_h1

def k0_chk24 (i : grid0.Coords) (k0_t1 : Fin k0_t1_loop.trips) (v85 : IVec S16 32) : Prop :=
  (∀ (k0_h1 : k0_cond1 i k0_t1 = 1#1), ∀ a x, ((![v85] : Fin 1 → IVec S16 32) a x).toNat < S100000.size a)
instance k0_chk24.dec : ∀ (i : grid0.Coords) (k0_t1 : Fin k0_t1_loop.trips) (v85 : IVec S16 32), Decidable (k0_chk24 i k0_t1 v85) := fun i k0_t1 v85 => decidable_of_iff' _ (Iff.of_eq (k0_chk24.eq_1 i k0_t1 v85))
theorem k0_idx24_inb : ∀ (i : grid0.Coords) (k0_t1 : Fin k0_t1_loop.trips) (v85 : IVec S16 32) (k0_hw24 : k0_chk24 i k0_t1 v85), ∀ (k0_h1 : k0_cond1 i k0_t1 = 1#1), ∀ a x, ((![v85] : Fin 1 → IVec S16 32) a x).toNat < S100000.size a := fun i k0_t1 v85 k0_hw24 k0_h1 => k0_hw24 k0_h1

def k0_chk25 (i : grid0.Coords) (k0_t1 : Fin k0_t1_loop.trips) (v102 : IVec S16 32) : Prop :=
  (∀ (k0_h1 : k0_cond1 i k0_t1 = 1#1), ∀ a x, ((![v102] : Fin 1 → IVec S16 32) a x).toNat < S100000.size a)
instance k0_chk25.dec : ∀ (i : grid0.Coords) (k0_t1 : Fin k0_t1_loop.trips) (v102 : IVec S16 32), Decidable (k0_chk25 i k0_t1 v102) := fun i k0_t1 v102 => decidable_of_iff' _ (Iff.of_eq (k0_chk25.eq_1 i k0_t1 v102))
theorem k0_idx25_inb : ∀ (i : grid0.Coords) (k0_t1 : Fin k0_t1_loop.trips) (v102 : IVec S16 32) (k0_hw25 : k0_chk25 i k0_t1 v102), ∀ (k0_h1 : k0_cond1 i k0_t1 = 1#1), ∀ a x, ((![v102] : Fin 1 → IVec S16 32) a x).toNat < S100000.size a := fun i k0_t1 v102 k0_hw25 k0_h1 => k0_hw25 k0_h1

def k0_chk26 (i : grid0.Coords) (k0_t1 : Fin k0_t1_loop.trips) (v103 : IVec S16 32) : Prop :=
  (∀ (k0_h1 : k0_cond1 i k0_t1 = 1#1), ∀ a x, ((![v103] : Fin 1 → IVec S16 32) a x).toNat < S100000.size a)
instance k0_chk26.dec : ∀ (i : grid0.Coords) (k0_t1 : Fin k0_t1_loop.trips) (v103 : IVec S16 32), Decidable (k0_chk26 i k0_t1 v103) := fun i k0_t1 v103 => decidable_of_iff' _ (Iff.of_eq (k0_chk26.eq_1 i k0_t1 v103))
theorem k0_idx26_inb : ∀ (i : grid0.Coords) (k0_t1 : Fin k0_t1_loop.trips) (v103 : IVec S16 32) (k0_hw26 : k0_chk26 i k0_t1 v103), ∀ (k0_h1 : k0_cond1 i k0_t1 = 1#1), ∀ a x, ((![v103] : Fin 1 → IVec S16 32) a x).toNat < S100000.size a := fun i k0_t1 v103 k0_hw26 k0_h1 => k0_hw26 k0_h1

def k0_chk27 (i : grid0.Coords) (k0_t1 : Fin k0_t1_loop.trips) (v104 : IVec S16 32) : Prop :=
  (∀ (k0_h1 : k0_cond1 i k0_t1 = 1#1), ∀ a x, ((![v104] : Fin 1 → IVec S16 32) a x).toNat < S100000.size a)
instance k0_chk27.dec : ∀ (i : grid0.Coords) (k0_t1 : Fin k0_t1_loop.trips) (v104 : IVec S16 32), Decidable (k0_chk27 i k0_t1 v104) := fun i k0_t1 v104 => decidable_of_iff' _ (Iff.of_eq (k0_chk27.eq_1 i k0_t1 v104))
theorem k0_idx27_inb : ∀ (i : grid0.Coords) (k0_t1 : Fin k0_t1_loop.trips) (v104 : IVec S16 32) (k0_hw27 : k0_chk27 i k0_t1 v104), ∀ (k0_h1 : k0_cond1 i k0_t1 = 1#1), ∀ a x, ((![v104] : Fin 1 → IVec S16 32) a x).toNat < S100000.size a := fun i k0_t1 v104 k0_hw27 k0_h1 => k0_hw27 k0_h1

def k0_chk28 (i : grid0.Coords) (k0_t1 : Fin k0_t1_loop.trips) (v105 : IVec S16 32) : Prop :=
  (∀ (k0_h1 : k0_cond1 i k0_t1 = 1#1), ∀ a x, ((![v105] : Fin 1 → IVec S16 32) a x).toNat < S100000.size a)
instance k0_chk28.dec : ∀ (i : grid0.Coords) (k0_t1 : Fin k0_t1_loop.trips) (v105 : IVec S16 32), Decidable (k0_chk28 i k0_t1 v105) := fun i k0_t1 v105 => decidable_of_iff' _ (Iff.of_eq (k0_chk28.eq_1 i k0_t1 v105))
theorem k0_idx28_inb : ∀ (i : grid0.Coords) (k0_t1 : Fin k0_t1_loop.trips) (v105 : IVec S16 32) (k0_hw28 : k0_chk28 i k0_t1 v105), ∀ (k0_h1 : k0_cond1 i k0_t1 = 1#1), ∀ a x, ((![v105] : Fin 1 → IVec S16 32) a x).toNat < S100000.size a := fun i k0_t1 v105 k0_hw28 k0_h1 => k0_hw28 k0_h1

def k0_chk29 (i : grid0.Coords) (k0_t1 : Fin k0_t1_loop.trips) (v106 : IVec S16 32) : Prop :=
  (∀ (k0_h1 : k0_cond1 i k0_t1 = 1#1), ∀ a x, ((![v106] : Fin 1 → IVec S16 32) a x).toNat < S100000.size a)
instance k0_chk29.dec : ∀ (i : grid0.Coords) (k0_t1 : Fin k0_t1_loop.trips) (v106 : IVec S16 32), Decidable (k0_chk29 i k0_t1 v106) := fun i k0_t1 v106 => decidable_of_iff' _ (Iff.of_eq (k0_chk29.eq_1 i k0_t1 v106))
theorem k0_idx29_inb : ∀ (i : grid0.Coords) (k0_t1 : Fin k0_t1_loop.trips) (v106 : IVec S16 32) (k0_hw29 : k0_chk29 i k0_t1 v106), ∀ (k0_h1 : k0_cond1 i k0_t1 = 1#1), ∀ a x, ((![v106] : Fin 1 → IVec S16 32) a x).toNat < S100000.size a := fun i k0_t1 v106 k0_hw29 k0_h1 => k0_hw29 k0_h1

def k0_chk30 (i : grid0.Coords) (k0_t1 : Fin k0_t1_loop.trips) (v107 : IVec S16 32) : Prop :=
  (∀ (k0_h1 : k0_cond1 i k0_t1 = 1#1), ∀ a x, ((![v107] : Fin 1 → IVec S16 32) a x).toNat < S100000.size a)
instance k0_chk30.dec : ∀ (i : grid0.Coords) (k0_t1 : Fin k0_t1_loop.trips) (v107 : IVec S16 32), Decidable (k0_chk30 i k0_t1 v107) := fun i k0_t1 v107 => decidable_of_iff' _ (Iff.of_eq (k0_chk30.eq_1 i k0_t1 v107))
theorem k0_idx30_inb : ∀ (i : grid0.Coords) (k0_t1 : Fin k0_t1_loop.trips) (v107 : IVec S16 32) (k0_hw30 : k0_chk30 i k0_t1 v107), ∀ (k0_h1 : k0_cond1 i k0_t1 = 1#1), ∀ a x, ((![v107] : Fin 1 → IVec S16 32) a x).toNat < S100000.size a := fun i k0_t1 v107 k0_hw30 k0_h1 => k0_hw30 k0_h1

def k0_chk31 (i : grid0.Coords) (k0_t1 : Fin k0_t1_loop.trips) (v108 : IVec S16 32) : Prop :=
  (∀ (k0_h1 : k0_cond1 i k0_t1 = 1#1), ∀ a x, ((![v108] : Fin 1 → IVec S16 32) a x).toNat < S100000.size a)
instance k0_chk31.dec : ∀ (i : grid0.Coords) (k0_t1 : Fin k0_t1_loop.trips) (v108 : IVec S16 32), Decidable (k0_chk31 i k0_t1 v108) := fun i k0_t1 v108 => decidable_of_iff' _ (Iff.of_eq (k0_chk31.eq_1 i k0_t1 v108))
theorem k0_idx31_inb : ∀ (i : grid0.Coords) (k0_t1 : Fin k0_t1_loop.trips) (v108 : IVec S16 32) (k0_hw31 : k0_chk31 i k0_t1 v108), ∀ (k0_h1 : k0_cond1 i k0_t1 = 1#1), ∀ a x, ((![v108] : Fin 1 → IVec S16 32) a x).toNat < S100000.size a := fun i k0_t1 v108 k0_hw31 k0_h1 => k0_hw31 k0_h1

def k0_chk32 (i : grid0.Coords) (k0_t1 : Fin k0_t1_loop.trips) (v109 : IVec S16 32) : Prop :=
  (∀ (k0_h1 : k0_cond1 i k0_t1 = 1#1), ∀ a x, ((![v109] : Fin 1 → IVec S16 32) a x).toNat < S100000.size a)
instance k0_chk32.dec : ∀ (i : grid0.Coords) (k0_t1 : Fin k0_t1_loop.trips) (v109 : IVec S16 32), Decidable (k0_chk32 i k0_t1 v109) := fun i k0_t1 v109 => decidable_of_iff' _ (Iff.of_eq (k0_chk32.eq_1 i k0_t1 v109))
theorem k0_idx32_inb : ∀ (i : grid0.Coords) (k0_t1 : Fin k0_t1_loop.trips) (v109 : IVec S16 32) (k0_hw32 : k0_chk32 i k0_t1 v109), ∀ (k0_h1 : k0_cond1 i k0_t1 = 1#1), ∀ a x, ((![v109] : Fin 1 → IVec S16 32) a x).toNat < S100000.size a := fun i k0_t1 v109 k0_hw32 k0_h1 => k0_hw32 k0_h1

def k0_chk33 (i : grid0.Coords) (k0_t1 : Fin k0_t1_loop.trips) (v126 : IVec S16 32) : Prop :=
  (∀ (k0_h1 : k0_cond1 i k0_t1 = 1#1), ∀ a x, ((![v126] : Fin 1 → IVec S16 32) a x).toNat < S100000.size a)
instance k0_chk33.dec : ∀ (i : grid0.Coords) (k0_t1 : Fin k0_t1_loop.trips) (v126 : IVec S16 32), Decidable (k0_chk33 i k0_t1 v126) := fun i k0_t1 v126 => decidable_of_iff' _ (Iff.of_eq (k0_chk33.eq_1 i k0_t1 v126))
theorem k0_idx33_inb : ∀ (i : grid0.Coords) (k0_t1 : Fin k0_t1_loop.trips) (v126 : IVec S16 32) (k0_hw33 : k0_chk33 i k0_t1 v126), ∀ (k0_h1 : k0_cond1 i k0_t1 = 1#1), ∀ a x, ((![v126] : Fin 1 → IVec S16 32) a x).toNat < S100000.size a := fun i k0_t1 v126 k0_hw33 k0_h1 => k0_hw33 k0_h1

def k0_chk34 (i : grid0.Coords) (k0_t1 : Fin k0_t1_loop.trips) (v127 : IVec S16 32) : Prop :=
  (∀ (k0_h1 : k0_cond1 i k0_t1 = 1#1), ∀ a x, ((![v127] : Fin 1 → IVec S16 32) a x).toNat < S100000.size a)
instance k0_chk34.dec : ∀ (i : grid0.Coords) (k0_t1 : Fin k0_t1_loop.trips) (v127 : IVec S16 32), Decidable (k0_chk34 i k0_t1 v127) := fun i k0_t1 v127 => decidable_of_iff' _ (Iff.of_eq (k0_chk34.eq_1 i k0_t1 v127))
theorem k0_idx34_inb : ∀ (i : grid0.Coords) (k0_t1 : Fin k0_t1_loop.trips) (v127 : IVec S16 32) (k0_hw34 : k0_chk34 i k0_t1 v127), ∀ (k0_h1 : k0_cond1 i k0_t1 = 1#1), ∀ a x, ((![v127] : Fin 1 → IVec S16 32) a x).toNat < S100000.size a := fun i k0_t1 v127 k0_hw34 k0_h1 => k0_hw34 k0_h1

def k0_chk35 (i : grid0.Coords) (k0_t1 : Fin k0_t1_loop.trips) (v128 : IVec S16 32) : Prop :=
  (∀ (k0_h1 : k0_cond1 i k0_t1 = 1#1), ∀ a x, ((![v128] : Fin 1 → IVec S16 32) a x).toNat < S100000.size a)
instance k0_chk35.dec : ∀ (i : grid0.Coords) (k0_t1 : Fin k0_t1_loop.trips) (v128 : IVec S16 32), Decidable (k0_chk35 i k0_t1 v128) := fun i k0_t1 v128 => decidable_of_iff' _ (Iff.of_eq (k0_chk35.eq_1 i k0_t1 v128))
theorem k0_idx35_inb : ∀ (i : grid0.Coords) (k0_t1 : Fin k0_t1_loop.trips) (v128 : IVec S16 32) (k0_hw35 : k0_chk35 i k0_t1 v128), ∀ (k0_h1 : k0_cond1 i k0_t1 = 1#1), ∀ a x, ((![v128] : Fin 1 → IVec S16 32) a x).toNat < S100000.size a := fun i k0_t1 v128 k0_hw35 k0_h1 => k0_hw35 k0_h1

def k0_chk36 (i : grid0.Coords) (k0_t1 : Fin k0_t1_loop.trips) (v129 : IVec S16 32) : Prop :=
  (∀ (k0_h1 : k0_cond1 i k0_t1 = 1#1), ∀ a x, ((![v129] : Fin 1 → IVec S16 32) a x).toNat < S100000.size a)
instance k0_chk36.dec : ∀ (i : grid0.Coords) (k0_t1 : Fin k0_t1_loop.trips) (v129 : IVec S16 32), Decidable (k0_chk36 i k0_t1 v129) := fun i k0_t1 v129 => decidable_of_iff' _ (Iff.of_eq (k0_chk36.eq_1 i k0_t1 v129))
theorem k0_idx36_inb : ∀ (i : grid0.Coords) (k0_t1 : Fin k0_t1_loop.trips) (v129 : IVec S16 32) (k0_hw36 : k0_chk36 i k0_t1 v129), ∀ (k0_h1 : k0_cond1 i k0_t1 = 1#1), ∀ a x, ((![v129] : Fin 1 → IVec S16 32) a x).toNat < S100000.size a := fun i k0_t1 v129 k0_hw36 k0_h1 => k0_hw36 k0_h1

def k0_chk37 (i : grid0.Coords) (k0_t1 : Fin k0_t1_loop.trips) (v130 : IVec S16 32) : Prop :=
  (∀ (k0_h1 : k0_cond1 i k0_t1 = 1#1), ∀ a x, ((![v130] : Fin 1 → IVec S16 32) a x).toNat < S100000.size a)
instance k0_chk37.dec : ∀ (i : grid0.Coords) (k0_t1 : Fin k0_t1_loop.trips) (v130 : IVec S16 32), Decidable (k0_chk37 i k0_t1 v130) := fun i k0_t1 v130 => decidable_of_iff' _ (Iff.of_eq (k0_chk37.eq_1 i k0_t1 v130))
theorem k0_idx37_inb : ∀ (i : grid0.Coords) (k0_t1 : Fin k0_t1_loop.trips) (v130 : IVec S16 32) (k0_hw37 : k0_chk37 i k0_t1 v130), ∀ (k0_h1 : k0_cond1 i k0_t1 = 1#1), ∀ a x, ((![v130] : Fin 1 → IVec S16 32) a x).toNat < S100000.size a := fun i k0_t1 v130 k0_hw37 k0_h1 => k0_hw37 k0_h1

def k0_chk38 (i : grid0.Coords) (k0_t1 : Fin k0_t1_loop.trips) (v131 : IVec S16 32) : Prop :=
  (∀ (k0_h1 : k0_cond1 i k0_t1 = 1#1), ∀ a x, ((![v131] : Fin 1 → IVec S16 32) a x).toNat < S100000.size a)
instance k0_chk38.dec : ∀ (i : grid0.Coords) (k0_t1 : Fin k0_t1_loop.trips) (v131 : IVec S16 32), Decidable (k0_chk38 i k0_t1 v131) := fun i k0_t1 v131 => decidable_of_iff' _ (Iff.of_eq (k0_chk38.eq_1 i k0_t1 v131))
theorem k0_idx38_inb : ∀ (i : grid0.Coords) (k0_t1 : Fin k0_t1_loop.trips) (v131 : IVec S16 32) (k0_hw38 : k0_chk38 i k0_t1 v131), ∀ (k0_h1 : k0_cond1 i k0_t1 = 1#1), ∀ a x, ((![v131] : Fin 1 → IVec S16 32) a x).toNat < S100000.size a := fun i k0_t1 v131 k0_hw38 k0_h1 => k0_hw38 k0_h1

def k0_chk39 (i : grid0.Coords) (k0_t1 : Fin k0_t1_loop.trips) (v132 : IVec S16 32) : Prop :=
  (∀ (k0_h1 : k0_cond1 i k0_t1 = 1#1), ∀ a x, ((![v132] : Fin 1 → IVec S16 32) a x).toNat < S100000.size a)
instance k0_chk39.dec : ∀ (i : grid0.Coords) (k0_t1 : Fin k0_t1_loop.trips) (v132 : IVec S16 32), Decidable (k0_chk39 i k0_t1 v132) := fun i k0_t1 v132 => decidable_of_iff' _ (Iff.of_eq (k0_chk39.eq_1 i k0_t1 v132))
theorem k0_idx39_inb : ∀ (i : grid0.Coords) (k0_t1 : Fin k0_t1_loop.trips) (v132 : IVec S16 32) (k0_hw39 : k0_chk39 i k0_t1 v132), ∀ (k0_h1 : k0_cond1 i k0_t1 = 1#1), ∀ a x, ((![v132] : Fin 1 → IVec S16 32) a x).toNat < S100000.size a := fun i k0_t1 v132 k0_hw39 k0_h1 => k0_hw39 k0_h1

def k0_chk40 (i : grid0.Coords) (k0_t1 : Fin k0_t1_loop.trips) (v133 : IVec S16 32) : Prop :=
  (∀ (k0_h1 : k0_cond1 i k0_t1 = 1#1), ∀ a x, ((![v133] : Fin 1 → IVec S16 32) a x).toNat < S100000.size a)
instance k0_chk40.dec : ∀ (i : grid0.Coords) (k0_t1 : Fin k0_t1_loop.trips) (v133 : IVec S16 32), Decidable (k0_chk40 i k0_t1 v133) := fun i k0_t1 v133 => decidable_of_iff' _ (Iff.of_eq (k0_chk40.eq_1 i k0_t1 v133))
theorem k0_idx40_inb : ∀ (i : grid0.Coords) (k0_t1 : Fin k0_t1_loop.trips) (v133 : IVec S16 32) (k0_hw40 : k0_chk40 i k0_t1 v133), ∀ (k0_h1 : k0_cond1 i k0_t1 = 1#1), ∀ a x, ((![v133] : Fin 1 → IVec S16 32) a x).toNat < S100000.size a := fun i k0_t1 v133 k0_hw40 k0_h1 => k0_hw40 k0_h1

def k0_chk41 (i : grid0.Coords) (k0_t1 : Fin k0_t1_loop.trips) (v150 : IVec S16 32) : Prop :=
  (∀ (k0_h1 : k0_cond1 i k0_t1 = 1#1), ∀ a x, ((![v150] : Fin 1 → IVec S16 32) a x).toNat < S100000.size a)
instance k0_chk41.dec : ∀ (i : grid0.Coords) (k0_t1 : Fin k0_t1_loop.trips) (v150 : IVec S16 32), Decidable (k0_chk41 i k0_t1 v150) := fun i k0_t1 v150 => decidable_of_iff' _ (Iff.of_eq (k0_chk41.eq_1 i k0_t1 v150))
theorem k0_idx41_inb : ∀ (i : grid0.Coords) (k0_t1 : Fin k0_t1_loop.trips) (v150 : IVec S16 32) (k0_hw41 : k0_chk41 i k0_t1 v150), ∀ (k0_h1 : k0_cond1 i k0_t1 = 1#1), ∀ a x, ((![v150] : Fin 1 → IVec S16 32) a x).toNat < S100000.size a := fun i k0_t1 v150 k0_hw41 k0_h1 => k0_hw41 k0_h1

def k0_chk42 (i : grid0.Coords) (k0_t1 : Fin k0_t1_loop.trips) (v151 : IVec S16 32) : Prop :=
  (∀ (k0_h1 : k0_cond1 i k0_t1 = 1#1), ∀ a x, ((![v151] : Fin 1 → IVec S16 32) a x).toNat < S100000.size a)
instance k0_chk42.dec : ∀ (i : grid0.Coords) (k0_t1 : Fin k0_t1_loop.trips) (v151 : IVec S16 32), Decidable (k0_chk42 i k0_t1 v151) := fun i k0_t1 v151 => decidable_of_iff' _ (Iff.of_eq (k0_chk42.eq_1 i k0_t1 v151))
theorem k0_idx42_inb : ∀ (i : grid0.Coords) (k0_t1 : Fin k0_t1_loop.trips) (v151 : IVec S16 32) (k0_hw42 : k0_chk42 i k0_t1 v151), ∀ (k0_h1 : k0_cond1 i k0_t1 = 1#1), ∀ a x, ((![v151] : Fin 1 → IVec S16 32) a x).toNat < S100000.size a := fun i k0_t1 v151 k0_hw42 k0_h1 => k0_hw42 k0_h1

def k0_chk43 (i : grid0.Coords) (k0_t1 : Fin k0_t1_loop.trips) (v152 : IVec S16 32) : Prop :=
  (∀ (k0_h1 : k0_cond1 i k0_t1 = 1#1), ∀ a x, ((![v152] : Fin 1 → IVec S16 32) a x).toNat < S100000.size a)
instance k0_chk43.dec : ∀ (i : grid0.Coords) (k0_t1 : Fin k0_t1_loop.trips) (v152 : IVec S16 32), Decidable (k0_chk43 i k0_t1 v152) := fun i k0_t1 v152 => decidable_of_iff' _ (Iff.of_eq (k0_chk43.eq_1 i k0_t1 v152))
theorem k0_idx43_inb : ∀ (i : grid0.Coords) (k0_t1 : Fin k0_t1_loop.trips) (v152 : IVec S16 32) (k0_hw43 : k0_chk43 i k0_t1 v152), ∀ (k0_h1 : k0_cond1 i k0_t1 = 1#1), ∀ a x, ((![v152] : Fin 1 → IVec S16 32) a x).toNat < S100000.size a := fun i k0_t1 v152 k0_hw43 k0_h1 => k0_hw43 k0_h1

def k0_chk44 (i : grid0.Coords) (k0_t1 : Fin k0_t1_loop.trips) (v153 : IVec S16 32) : Prop :=
  (∀ (k0_h1 : k0_cond1 i k0_t1 = 1#1), ∀ a x, ((![v153] : Fin 1 → IVec S16 32) a x).toNat < S100000.size a)
instance k0_chk44.dec : ∀ (i : grid0.Coords) (k0_t1 : Fin k0_t1_loop.trips) (v153 : IVec S16 32), Decidable (k0_chk44 i k0_t1 v153) := fun i k0_t1 v153 => decidable_of_iff' _ (Iff.of_eq (k0_chk44.eq_1 i k0_t1 v153))
theorem k0_idx44_inb : ∀ (i : grid0.Coords) (k0_t1 : Fin k0_t1_loop.trips) (v153 : IVec S16 32) (k0_hw44 : k0_chk44 i k0_t1 v153), ∀ (k0_h1 : k0_cond1 i k0_t1 = 1#1), ∀ a x, ((![v153] : Fin 1 → IVec S16 32) a x).toNat < S100000.size a := fun i k0_t1 v153 k0_hw44 k0_h1 => k0_hw44 k0_h1

def k0_chk45 (i : grid0.Coords) (k0_t1 : Fin k0_t1_loop.trips) (v154 : IVec S16 32) : Prop :=
  (∀ (k0_h1 : k0_cond1 i k0_t1 = 1#1), ∀ a x, ((![v154] : Fin 1 → IVec S16 32) a x).toNat < S100000.size a)
instance k0_chk45.dec : ∀ (i : grid0.Coords) (k0_t1 : Fin k0_t1_loop.trips) (v154 : IVec S16 32), Decidable (k0_chk45 i k0_t1 v154) := fun i k0_t1 v154 => decidable_of_iff' _ (Iff.of_eq (k0_chk45.eq_1 i k0_t1 v154))
theorem k0_idx45_inb : ∀ (i : grid0.Coords) (k0_t1 : Fin k0_t1_loop.trips) (v154 : IVec S16 32) (k0_hw45 : k0_chk45 i k0_t1 v154), ∀ (k0_h1 : k0_cond1 i k0_t1 = 1#1), ∀ a x, ((![v154] : Fin 1 → IVec S16 32) a x).toNat < S100000.size a := fun i k0_t1 v154 k0_hw45 k0_h1 => k0_hw45 k0_h1

def k0_chk46 (i : grid0.Coords) (k0_t1 : Fin k0_t1_loop.trips) (v155 : IVec S16 32) : Prop :=
  (∀ (k0_h1 : k0_cond1 i k0_t1 = 1#1), ∀ a x, ((![v155] : Fin 1 → IVec S16 32) a x).toNat < S100000.size a)
instance k0_chk46.dec : ∀ (i : grid0.Coords) (k0_t1 : Fin k0_t1_loop.trips) (v155 : IVec S16 32), Decidable (k0_chk46 i k0_t1 v155) := fun i k0_t1 v155 => decidable_of_iff' _ (Iff.of_eq (k0_chk46.eq_1 i k0_t1 v155))
theorem k0_idx46_inb : ∀ (i : grid0.Coords) (k0_t1 : Fin k0_t1_loop.trips) (v155 : IVec S16 32) (k0_hw46 : k0_chk46 i k0_t1 v155), ∀ (k0_h1 : k0_cond1 i k0_t1 = 1#1), ∀ a x, ((![v155] : Fin 1 → IVec S16 32) a x).toNat < S100000.size a := fun i k0_t1 v155 k0_hw46 k0_h1 => k0_hw46 k0_h1

def k0_chk47 (i : grid0.Coords) (k0_t1 : Fin k0_t1_loop.trips) (v156 : IVec S16 32) : Prop :=
  (∀ (k0_h1 : k0_cond1 i k0_t1 = 1#1), ∀ a x, ((![v156] : Fin 1 → IVec S16 32) a x).toNat < S100000.size a)
instance k0_chk47.dec : ∀ (i : grid0.Coords) (k0_t1 : Fin k0_t1_loop.trips) (v156 : IVec S16 32), Decidable (k0_chk47 i k0_t1 v156) := fun i k0_t1 v156 => decidable_of_iff' _ (Iff.of_eq (k0_chk47.eq_1 i k0_t1 v156))
theorem k0_idx47_inb : ∀ (i : grid0.Coords) (k0_t1 : Fin k0_t1_loop.trips) (v156 : IVec S16 32) (k0_hw47 : k0_chk47 i k0_t1 v156), ∀ (k0_h1 : k0_cond1 i k0_t1 = 1#1), ∀ a x, ((![v156] : Fin 1 → IVec S16 32) a x).toNat < S100000.size a := fun i k0_t1 v156 k0_hw47 k0_h1 => k0_hw47 k0_h1

def k0_chk48 (i : grid0.Coords) (k0_t1 : Fin k0_t1_loop.trips) (v157 : IVec S16 32) : Prop :=
  (∀ (k0_h1 : k0_cond1 i k0_t1 = 1#1), ∀ a x, ((![v157] : Fin 1 → IVec S16 32) a x).toNat < S100000.size a)
instance k0_chk48.dec : ∀ (i : grid0.Coords) (k0_t1 : Fin k0_t1_loop.trips) (v157 : IVec S16 32), Decidable (k0_chk48 i k0_t1 v157) := fun i k0_t1 v157 => decidable_of_iff' _ (Iff.of_eq (k0_chk48.eq_1 i k0_t1 v157))
theorem k0_idx48_inb : ∀ (i : grid0.Coords) (k0_t1 : Fin k0_t1_loop.trips) (v157 : IVec S16 32) (k0_hw48 : k0_chk48 i k0_t1 v157), ∀ (k0_h1 : k0_cond1 i k0_t1 = 1#1), ∀ a x, ((![v157] : Fin 1 → IVec S16 32) a x).toNat < S100000.size a := fun i k0_t1 v157 k0_hw48 k0_h1 => k0_hw48 k0_h1

def k0_chk49 (i : grid0.Coords) (k0_t1 : Fin k0_t1_loop.trips) (v174 : IVec S16 32) : Prop :=
  (∀ (k0_h1 : k0_cond1 i k0_t1 = 1#1), ∀ a x, ((![v174] : Fin 1 → IVec S16 32) a x).toNat < S100000.size a)
instance k0_chk49.dec : ∀ (i : grid0.Coords) (k0_t1 : Fin k0_t1_loop.trips) (v174 : IVec S16 32), Decidable (k0_chk49 i k0_t1 v174) := fun i k0_t1 v174 => decidable_of_iff' _ (Iff.of_eq (k0_chk49.eq_1 i k0_t1 v174))
theorem k0_idx49_inb : ∀ (i : grid0.Coords) (k0_t1 : Fin k0_t1_loop.trips) (v174 : IVec S16 32) (k0_hw49 : k0_chk49 i k0_t1 v174), ∀ (k0_h1 : k0_cond1 i k0_t1 = 1#1), ∀ a x, ((![v174] : Fin 1 → IVec S16 32) a x).toNat < S100000.size a := fun i k0_t1 v174 k0_hw49 k0_h1 => k0_hw49 k0_h1

def k0_chk50 (i : grid0.Coords) (k0_t1 : Fin k0_t1_loop.trips) (v175 : IVec S16 32) : Prop :=
  (∀ (k0_h1 : k0_cond1 i k0_t1 = 1#1), ∀ a x, ((![v175] : Fin 1 → IVec S16 32) a x).toNat < S100000.size a)
instance k0_chk50.dec : ∀ (i : grid0.Coords) (k0_t1 : Fin k0_t1_loop.trips) (v175 : IVec S16 32), Decidable (k0_chk50 i k0_t1 v175) := fun i k0_t1 v175 => decidable_of_iff' _ (Iff.of_eq (k0_chk50.eq_1 i k0_t1 v175))
theorem k0_idx50_inb : ∀ (i : grid0.Coords) (k0_t1 : Fin k0_t1_loop.trips) (v175 : IVec S16 32) (k0_hw50 : k0_chk50 i k0_t1 v175), ∀ (k0_h1 : k0_cond1 i k0_t1 = 1#1), ∀ a x, ((![v175] : Fin 1 → IVec S16 32) a x).toNat < S100000.size a := fun i k0_t1 v175 k0_hw50 k0_h1 => k0_hw50 k0_h1

def k0_chk51 (i : grid0.Coords) (k0_t1 : Fin k0_t1_loop.trips) (v176 : IVec S16 32) : Prop :=
  (∀ (k0_h1 : k0_cond1 i k0_t1 = 1#1), ∀ a x, ((![v176] : Fin 1 → IVec S16 32) a x).toNat < S100000.size a)
instance k0_chk51.dec : ∀ (i : grid0.Coords) (k0_t1 : Fin k0_t1_loop.trips) (v176 : IVec S16 32), Decidable (k0_chk51 i k0_t1 v176) := fun i k0_t1 v176 => decidable_of_iff' _ (Iff.of_eq (k0_chk51.eq_1 i k0_t1 v176))
theorem k0_idx51_inb : ∀ (i : grid0.Coords) (k0_t1 : Fin k0_t1_loop.trips) (v176 : IVec S16 32) (k0_hw51 : k0_chk51 i k0_t1 v176), ∀ (k0_h1 : k0_cond1 i k0_t1 = 1#1), ∀ a x, ((![v176] : Fin 1 → IVec S16 32) a x).toNat < S100000.size a := fun i k0_t1 v176 k0_hw51 k0_h1 => k0_hw51 k0_h1

def k0_chk52 (i : grid0.Coords) (k0_t1 : Fin k0_t1_loop.trips) (v177 : IVec S16 32) : Prop :=
  (∀ (k0_h1 : k0_cond1 i k0_t1 = 1#1), ∀ a x, ((![v177] : Fin 1 → IVec S16 32) a x).toNat < S100000.size a)
instance k0_chk52.dec : ∀ (i : grid0.Coords) (k0_t1 : Fin k0_t1_loop.trips) (v177 : IVec S16 32), Decidable (k0_chk52 i k0_t1 v177) := fun i k0_t1 v177 => decidable_of_iff' _ (Iff.of_eq (k0_chk52.eq_1 i k0_t1 v177))
theorem k0_idx52_inb : ∀ (i : grid0.Coords) (k0_t1 : Fin k0_t1_loop.trips) (v177 : IVec S16 32) (k0_hw52 : k0_chk52 i k0_t1 v177), ∀ (k0_h1 : k0_cond1 i k0_t1 = 1#1), ∀ a x, ((![v177] : Fin 1 → IVec S16 32) a x).toNat < S100000.size a := fun i k0_t1 v177 k0_hw52 k0_h1 => k0_hw52 k0_h1

def k0_chk53 (i : grid0.Coords) (k0_t1 : Fin k0_t1_loop.trips) (v178 : IVec S16 32) : Prop :=
  (∀ (k0_h1 : k0_cond1 i k0_t1 = 1#1), ∀ a x, ((![v178] : Fin 1 → IVec S16 32) a x).toNat < S100000.size a)
instance k0_chk53.dec : ∀ (i : grid0.Coords) (k0_t1 : Fin k0_t1_loop.trips) (v178 : IVec S16 32), Decidable (k0_chk53 i k0_t1 v178) := fun i k0_t1 v178 => decidable_of_iff' _ (Iff.of_eq (k0_chk53.eq_1 i k0_t1 v178))
theorem k0_idx53_inb : ∀ (i : grid0.Coords) (k0_t1 : Fin k0_t1_loop.trips) (v178 : IVec S16 32) (k0_hw53 : k0_chk53 i k0_t1 v178), ∀ (k0_h1 : k0_cond1 i k0_t1 = 1#1), ∀ a x, ((![v178] : Fin 1 → IVec S16 32) a x).toNat < S100000.size a := fun i k0_t1 v178 k0_hw53 k0_h1 => k0_hw53 k0_h1

def k0_chk54 (i : grid0.Coords) (k0_t1 : Fin k0_t1_loop.trips) (v179 : IVec S16 32) : Prop :=
  (∀ (k0_h1 : k0_cond1 i k0_t1 = 1#1), ∀ a x, ((![v179] : Fin 1 → IVec S16 32) a x).toNat < S100000.size a)
instance k0_chk54.dec : ∀ (i : grid0.Coords) (k0_t1 : Fin k0_t1_loop.trips) (v179 : IVec S16 32), Decidable (k0_chk54 i k0_t1 v179) := fun i k0_t1 v179 => decidable_of_iff' _ (Iff.of_eq (k0_chk54.eq_1 i k0_t1 v179))
theorem k0_idx54_inb : ∀ (i : grid0.Coords) (k0_t1 : Fin k0_t1_loop.trips) (v179 : IVec S16 32) (k0_hw54 : k0_chk54 i k0_t1 v179), ∀ (k0_h1 : k0_cond1 i k0_t1 = 1#1), ∀ a x, ((![v179] : Fin 1 → IVec S16 32) a x).toNat < S100000.size a := fun i k0_t1 v179 k0_hw54 k0_h1 => k0_hw54 k0_h1

def k0_chk55 (i : grid0.Coords) (k0_t1 : Fin k0_t1_loop.trips) (v180 : IVec S16 32) : Prop :=
  (∀ (k0_h1 : k0_cond1 i k0_t1 = 1#1), ∀ a x, ((![v180] : Fin 1 → IVec S16 32) a x).toNat < S100000.size a)
instance k0_chk55.dec : ∀ (i : grid0.Coords) (k0_t1 : Fin k0_t1_loop.trips) (v180 : IVec S16 32), Decidable (k0_chk55 i k0_t1 v180) := fun i k0_t1 v180 => decidable_of_iff' _ (Iff.of_eq (k0_chk55.eq_1 i k0_t1 v180))
theorem k0_idx55_inb : ∀ (i : grid0.Coords) (k0_t1 : Fin k0_t1_loop.trips) (v180 : IVec S16 32) (k0_hw55 : k0_chk55 i k0_t1 v180), ∀ (k0_h1 : k0_cond1 i k0_t1 = 1#1), ∀ a x, ((![v180] : Fin 1 → IVec S16 32) a x).toNat < S100000.size a := fun i k0_t1 v180 k0_hw55 k0_h1 => k0_hw55 k0_h1

def k0_chk56 (i : grid0.Coords) (k0_t1 : Fin k0_t1_loop.trips) (v181 : IVec S16 32) : Prop :=
  (∀ (k0_h1 : k0_cond1 i k0_t1 = 1#1), ∀ a x, ((![v181] : Fin 1 → IVec S16 32) a x).toNat < S100000.size a)
instance k0_chk56.dec : ∀ (i : grid0.Coords) (k0_t1 : Fin k0_t1_loop.trips) (v181 : IVec S16 32), Decidable (k0_chk56 i k0_t1 v181) := fun i k0_t1 v181 => decidable_of_iff' _ (Iff.of_eq (k0_chk56.eq_1 i k0_t1 v181))
theorem k0_idx56_inb : ∀ (i : grid0.Coords) (k0_t1 : Fin k0_t1_loop.trips) (v181 : IVec S16 32) (k0_hw56 : k0_chk56 i k0_t1 v181), ∀ (k0_h1 : k0_cond1 i k0_t1 = 1#1), ∀ a x, ((![v181] : Fin 1 → IVec S16 32) a x).toNat < S100000.size a := fun i k0_t1 v181 k0_hw56 k0_h1 => k0_hw56 k0_h1

def k0_chk57 (i : grid0.Coords) (k0_t1 : Fin k0_t1_loop.trips) (v198 : IVec S16 32) : Prop :=
  (∀ (k0_h1 : k0_cond1 i k0_t1 = 1#1), ∀ a x, ((![v198] : Fin 1 → IVec S16 32) a x).toNat < S100000.size a)
instance k0_chk57.dec : ∀ (i : grid0.Coords) (k0_t1 : Fin k0_t1_loop.trips) (v198 : IVec S16 32), Decidable (k0_chk57 i k0_t1 v198) := fun i k0_t1 v198 => decidable_of_iff' _ (Iff.of_eq (k0_chk57.eq_1 i k0_t1 v198))
theorem k0_idx57_inb : ∀ (i : grid0.Coords) (k0_t1 : Fin k0_t1_loop.trips) (v198 : IVec S16 32) (k0_hw57 : k0_chk57 i k0_t1 v198), ∀ (k0_h1 : k0_cond1 i k0_t1 = 1#1), ∀ a x, ((![v198] : Fin 1 → IVec S16 32) a x).toNat < S100000.size a := fun i k0_t1 v198 k0_hw57 k0_h1 => k0_hw57 k0_h1

def k0_chk58 (i : grid0.Coords) (k0_t1 : Fin k0_t1_loop.trips) (v199 : IVec S16 32) : Prop :=
  (∀ (k0_h1 : k0_cond1 i k0_t1 = 1#1), ∀ a x, ((![v199] : Fin 1 → IVec S16 32) a x).toNat < S100000.size a)
instance k0_chk58.dec : ∀ (i : grid0.Coords) (k0_t1 : Fin k0_t1_loop.trips) (v199 : IVec S16 32), Decidable (k0_chk58 i k0_t1 v199) := fun i k0_t1 v199 => decidable_of_iff' _ (Iff.of_eq (k0_chk58.eq_1 i k0_t1 v199))
theorem k0_idx58_inb : ∀ (i : grid0.Coords) (k0_t1 : Fin k0_t1_loop.trips) (v199 : IVec S16 32) (k0_hw58 : k0_chk58 i k0_t1 v199), ∀ (k0_h1 : k0_cond1 i k0_t1 = 1#1), ∀ a x, ((![v199] : Fin 1 → IVec S16 32) a x).toNat < S100000.size a := fun i k0_t1 v199 k0_hw58 k0_h1 => k0_hw58 k0_h1

def k0_chk59 (i : grid0.Coords) (k0_t1 : Fin k0_t1_loop.trips) (v200 : IVec S16 32) : Prop :=
  (∀ (k0_h1 : k0_cond1 i k0_t1 = 1#1), ∀ a x, ((![v200] : Fin 1 → IVec S16 32) a x).toNat < S100000.size a)
instance k0_chk59.dec : ∀ (i : grid0.Coords) (k0_t1 : Fin k0_t1_loop.trips) (v200 : IVec S16 32), Decidable (k0_chk59 i k0_t1 v200) := fun i k0_t1 v200 => decidable_of_iff' _ (Iff.of_eq (k0_chk59.eq_1 i k0_t1 v200))
theorem k0_idx59_inb : ∀ (i : grid0.Coords) (k0_t1 : Fin k0_t1_loop.trips) (v200 : IVec S16 32) (k0_hw59 : k0_chk59 i k0_t1 v200), ∀ (k0_h1 : k0_cond1 i k0_t1 = 1#1), ∀ a x, ((![v200] : Fin 1 → IVec S16 32) a x).toNat < S100000.size a := fun i k0_t1 v200 k0_hw59 k0_h1 => k0_hw59 k0_h1

def k0_chk60 (i : grid0.Coords) (k0_t1 : Fin k0_t1_loop.trips) (v201 : IVec S16 32) : Prop :=
  (∀ (k0_h1 : k0_cond1 i k0_t1 = 1#1), ∀ a x, ((![v201] : Fin 1 → IVec S16 32) a x).toNat < S100000.size a)
instance k0_chk60.dec : ∀ (i : grid0.Coords) (k0_t1 : Fin k0_t1_loop.trips) (v201 : IVec S16 32), Decidable (k0_chk60 i k0_t1 v201) := fun i k0_t1 v201 => decidable_of_iff' _ (Iff.of_eq (k0_chk60.eq_1 i k0_t1 v201))
theorem k0_idx60_inb : ∀ (i : grid0.Coords) (k0_t1 : Fin k0_t1_loop.trips) (v201 : IVec S16 32) (k0_hw60 : k0_chk60 i k0_t1 v201), ∀ (k0_h1 : k0_cond1 i k0_t1 = 1#1), ∀ a x, ((![v201] : Fin 1 → IVec S16 32) a x).toNat < S100000.size a := fun i k0_t1 v201 k0_hw60 k0_h1 => k0_hw60 k0_h1

def k0_chk61 (i : grid0.Coords) (k0_t1 : Fin k0_t1_loop.trips) (v202 : IVec S16 32) : Prop :=
  (∀ (k0_h1 : k0_cond1 i k0_t1 = 1#1), ∀ a x, ((![v202] : Fin 1 → IVec S16 32) a x).toNat < S100000.size a)
instance k0_chk61.dec : ∀ (i : grid0.Coords) (k0_t1 : Fin k0_t1_loop.trips) (v202 : IVec S16 32), Decidable (k0_chk61 i k0_t1 v202) := fun i k0_t1 v202 => decidable_of_iff' _ (Iff.of_eq (k0_chk61.eq_1 i k0_t1 v202))
theorem k0_idx61_inb : ∀ (i : grid0.Coords) (k0_t1 : Fin k0_t1_loop.trips) (v202 : IVec S16 32) (k0_hw61 : k0_chk61 i k0_t1 v202), ∀ (k0_h1 : k0_cond1 i k0_t1 = 1#1), ∀ a x, ((![v202] : Fin 1 → IVec S16 32) a x).toNat < S100000.size a := fun i k0_t1 v202 k0_hw61 k0_h1 => k0_hw61 k0_h1

def k0_chk62 (i : grid0.Coords) (k0_t1 : Fin k0_t1_loop.trips) (v203 : IVec S16 32) : Prop :=
  (∀ (k0_h1 : k0_cond1 i k0_t1 = 1#1), ∀ a x, ((![v203] : Fin 1 → IVec S16 32) a x).toNat < S100000.size a)
instance k0_chk62.dec : ∀ (i : grid0.Coords) (k0_t1 : Fin k0_t1_loop.trips) (v203 : IVec S16 32), Decidable (k0_chk62 i k0_t1 v203) := fun i k0_t1 v203 => decidable_of_iff' _ (Iff.of_eq (k0_chk62.eq_1 i k0_t1 v203))
theorem k0_idx62_inb : ∀ (i : grid0.Coords) (k0_t1 : Fin k0_t1_loop.trips) (v203 : IVec S16 32) (k0_hw62 : k0_chk62 i k0_t1 v203), ∀ (k0_h1 : k0_cond1 i k0_t1 = 1#1), ∀ a x, ((![v203] : Fin 1 → IVec S16 32) a x).toNat < S100000.size a := fun i k0_t1 v203 k0_hw62 k0_h1 => k0_hw62 k0_h1

def k0_chk63 (i : grid0.Coords) (k0_t1 : Fin k0_t1_loop.trips) (v204 : IVec S16 32) : Prop :=
  (∀ (k0_h1 : k0_cond1 i k0_t1 = 1#1), ∀ a x, ((![v204] : Fin 1 → IVec S16 32) a x).toNat < S100000.size a)
instance k0_chk63.dec : ∀ (i : grid0.Coords) (k0_t1 : Fin k0_t1_loop.trips) (v204 : IVec S16 32), Decidable (k0_chk63 i k0_t1 v204) := fun i k0_t1 v204 => decidable_of_iff' _ (Iff.of_eq (k0_chk63.eq_1 i k0_t1 v204))
theorem k0_idx63_inb : ∀ (i : grid0.Coords) (k0_t1 : Fin k0_t1_loop.trips) (v204 : IVec S16 32) (k0_hw63 : k0_chk63 i k0_t1 v204), ∀ (k0_h1 : k0_cond1 i k0_t1 = 1#1), ∀ a x, ((![v204] : Fin 1 → IVec S16 32) a x).toNat < S100000.size a := fun i k0_t1 v204 k0_hw63 k0_h1 => k0_hw63 k0_h1

def k0_chk64 (i : grid0.Coords) (k0_t1 : Fin k0_t1_loop.trips) (v205 : IVec S16 32) : Prop :=
  (∀ (k0_h1 : k0_cond1 i k0_t1 = 1#1), ∀ a x, ((![v205] : Fin 1 → IVec S16 32) a x).toNat < S100000.size a)
instance k0_chk64.dec : ∀ (i : grid0.Coords) (k0_t1 : Fin k0_t1_loop.trips) (v205 : IVec S16 32), Decidable (k0_chk64 i k0_t1 v205) := fun i k0_t1 v205 => decidable_of_iff' _ (Iff.of_eq (k0_chk64.eq_1 i k0_t1 v205))
theorem k0_idx64_inb : ∀ (i : grid0.Coords) (k0_t1 : Fin k0_t1_loop.trips) (v205 : IVec S16 32) (k0_hw64 : k0_chk64 i k0_t1 v205), ∀ (k0_h1 : k0_cond1 i k0_t1 = 1#1), ∀ a x, ((![v205] : Fin 1 → IVec S16 32) a x).toNat < S100000.size a := fun i k0_t1 v205 k0_hw64 k0_h1 => k0_hw64 k0_h1

def k0_chk65 (i : grid0.Coords) (k0_t1 : Fin k0_t1_loop.trips) (v222 : IVec S16 32) : Prop :=
  (∀ (k0_h1 : k0_cond1 i k0_t1 = 1#1), ∀ a x, ((![v222] : Fin 1 → IVec S16 32) a x).toNat < S100000.size a)
instance k0_chk65.dec : ∀ (i : grid0.Coords) (k0_t1 : Fin k0_t1_loop.trips) (v222 : IVec S16 32), Decidable (k0_chk65 i k0_t1 v222) := fun i k0_t1 v222 => decidable_of_iff' _ (Iff.of_eq (k0_chk65.eq_1 i k0_t1 v222))
theorem k0_idx65_inb : ∀ (i : grid0.Coords) (k0_t1 : Fin k0_t1_loop.trips) (v222 : IVec S16 32) (k0_hw65 : k0_chk65 i k0_t1 v222), ∀ (k0_h1 : k0_cond1 i k0_t1 = 1#1), ∀ a x, ((![v222] : Fin 1 → IVec S16 32) a x).toNat < S100000.size a := fun i k0_t1 v222 k0_hw65 k0_h1 => k0_hw65 k0_h1

def k0_chk66 (i : grid0.Coords) (k0_t1 : Fin k0_t1_loop.trips) (v223 : IVec S16 32) : Prop :=
  (∀ (k0_h1 : k0_cond1 i k0_t1 = 1#1), ∀ a x, ((![v223] : Fin 1 → IVec S16 32) a x).toNat < S100000.size a)
instance k0_chk66.dec : ∀ (i : grid0.Coords) (k0_t1 : Fin k0_t1_loop.trips) (v223 : IVec S16 32), Decidable (k0_chk66 i k0_t1 v223) := fun i k0_t1 v223 => decidable_of_iff' _ (Iff.of_eq (k0_chk66.eq_1 i k0_t1 v223))
theorem k0_idx66_inb : ∀ (i : grid0.Coords) (k0_t1 : Fin k0_t1_loop.trips) (v223 : IVec S16 32) (k0_hw66 : k0_chk66 i k0_t1 v223), ∀ (k0_h1 : k0_cond1 i k0_t1 = 1#1), ∀ a x, ((![v223] : Fin 1 → IVec S16 32) a x).toNat < S100000.size a := fun i k0_t1 v223 k0_hw66 k0_h1 => k0_hw66 k0_h1

def k0_chk67 (i : grid0.Coords) (k0_t1 : Fin k0_t1_loop.trips) (v224 : IVec S16 32) : Prop :=
  (∀ (k0_h1 : k0_cond1 i k0_t1 = 1#1), ∀ a x, ((![v224] : Fin 1 → IVec S16 32) a x).toNat < S100000.size a)
instance k0_chk67.dec : ∀ (i : grid0.Coords) (k0_t1 : Fin k0_t1_loop.trips) (v224 : IVec S16 32), Decidable (k0_chk67 i k0_t1 v224) := fun i k0_t1 v224 => decidable_of_iff' _ (Iff.of_eq (k0_chk67.eq_1 i k0_t1 v224))
theorem k0_idx67_inb : ∀ (i : grid0.Coords) (k0_t1 : Fin k0_t1_loop.trips) (v224 : IVec S16 32) (k0_hw67 : k0_chk67 i k0_t1 v224), ∀ (k0_h1 : k0_cond1 i k0_t1 = 1#1), ∀ a x, ((![v224] : Fin 1 → IVec S16 32) a x).toNat < S100000.size a := fun i k0_t1 v224 k0_hw67 k0_h1 => k0_hw67 k0_h1

def k0_chk68 (i : grid0.Coords) (k0_t1 : Fin k0_t1_loop.trips) (v225 : IVec S16 32) : Prop :=
  (∀ (k0_h1 : k0_cond1 i k0_t1 = 1#1), ∀ a x, ((![v225] : Fin 1 → IVec S16 32) a x).toNat < S100000.size a)
instance k0_chk68.dec : ∀ (i : grid0.Coords) (k0_t1 : Fin k0_t1_loop.trips) (v225 : IVec S16 32), Decidable (k0_chk68 i k0_t1 v225) := fun i k0_t1 v225 => decidable_of_iff' _ (Iff.of_eq (k0_chk68.eq_1 i k0_t1 v225))
theorem k0_idx68_inb : ∀ (i : grid0.Coords) (k0_t1 : Fin k0_t1_loop.trips) (v225 : IVec S16 32) (k0_hw68 : k0_chk68 i k0_t1 v225), ∀ (k0_h1 : k0_cond1 i k0_t1 = 1#1), ∀ a x, ((![v225] : Fin 1 → IVec S16 32) a x).toNat < S100000.size a := fun i k0_t1 v225 k0_hw68 k0_h1 => k0_hw68 k0_h1

def k0_chk69 (i : grid0.Coords) (k0_t1 : Fin k0_t1_loop.trips) (v226 : IVec S16 32) : Prop :=
  (∀ (k0_h1 : k0_cond1 i k0_t1 = 1#1), ∀ a x, ((![v226] : Fin 1 → IVec S16 32) a x).toNat < S100000.size a)
instance k0_chk69.dec : ∀ (i : grid0.Coords) (k0_t1 : Fin k0_t1_loop.trips) (v226 : IVec S16 32), Decidable (k0_chk69 i k0_t1 v226) := fun i k0_t1 v226 => decidable_of_iff' _ (Iff.of_eq (k0_chk69.eq_1 i k0_t1 v226))
theorem k0_idx69_inb : ∀ (i : grid0.Coords) (k0_t1 : Fin k0_t1_loop.trips) (v226 : IVec S16 32) (k0_hw69 : k0_chk69 i k0_t1 v226), ∀ (k0_h1 : k0_cond1 i k0_t1 = 1#1), ∀ a x, ((![v226] : Fin 1 → IVec S16 32) a x).toNat < S100000.size a := fun i k0_t1 v226 k0_hw69 k0_h1 => k0_hw69 k0_h1

def k0_chk70 (i : grid0.Coords) (k0_t1 : Fin k0_t1_loop.trips) (v227 : IVec S16 32) : Prop :=
  (∀ (k0_h1 : k0_cond1 i k0_t1 = 1#1), ∀ a x, ((![v227] : Fin 1 → IVec S16 32) a x).toNat < S100000.size a)
instance k0_chk70.dec : ∀ (i : grid0.Coords) (k0_t1 : Fin k0_t1_loop.trips) (v227 : IVec S16 32), Decidable (k0_chk70 i k0_t1 v227) := fun i k0_t1 v227 => decidable_of_iff' _ (Iff.of_eq (k0_chk70.eq_1 i k0_t1 v227))
theorem k0_idx70_inb : ∀ (i : grid0.Coords) (k0_t1 : Fin k0_t1_loop.trips) (v227 : IVec S16 32) (k0_hw70 : k0_chk70 i k0_t1 v227), ∀ (k0_h1 : k0_cond1 i k0_t1 = 1#1), ∀ a x, ((![v227] : Fin 1 → IVec S16 32) a x).toNat < S100000.size a := fun i k0_t1 v227 k0_hw70 k0_h1 => k0_hw70 k0_h1

def k0_chk71 (i : grid0.Coords) (k0_t1 : Fin k0_t1_loop.trips) (v228 : IVec S16 32) : Prop :=
  (∀ (k0_h1 : k0_cond1 i k0_t1 = 1#1), ∀ a x, ((![v228] : Fin 1 → IVec S16 32) a x).toNat < S100000.size a)
instance k0_chk71.dec : ∀ (i : grid0.Coords) (k0_t1 : Fin k0_t1_loop.trips) (v228 : IVec S16 32), Decidable (k0_chk71 i k0_t1 v228) := fun i k0_t1 v228 => decidable_of_iff' _ (Iff.of_eq (k0_chk71.eq_1 i k0_t1 v228))
theorem k0_idx71_inb : ∀ (i : grid0.Coords) (k0_t1 : Fin k0_t1_loop.trips) (v228 : IVec S16 32) (k0_hw71 : k0_chk71 i k0_t1 v228), ∀ (k0_h1 : k0_cond1 i k0_t1 = 1#1), ∀ a x, ((![v228] : Fin 1 → IVec S16 32) a x).toNat < S100000.size a := fun i k0_t1 v228 k0_hw71 k0_h1 => k0_hw71 k0_h1

def k0_chk72 (i : grid0.Coords) (k0_t1 : Fin k0_t1_loop.trips) (v229 : IVec S16 32) : Prop :=
  (∀ (k0_h1 : k0_cond1 i k0_t1 = 1#1), ∀ a x, ((![v229] : Fin 1 → IVec S16 32) a x).toNat < S100000.size a)
instance k0_chk72.dec : ∀ (i : grid0.Coords) (k0_t1 : Fin k0_t1_loop.trips) (v229 : IVec S16 32), Decidable (k0_chk72 i k0_t1 v229) := fun i k0_t1 v229 => decidable_of_iff' _ (Iff.of_eq (k0_chk72.eq_1 i k0_t1 v229))
theorem k0_idx72_inb : ∀ (i : grid0.Coords) (k0_t1 : Fin k0_t1_loop.trips) (v229 : IVec S16 32) (k0_hw72 : k0_chk72 i k0_t1 v229), ∀ (k0_h1 : k0_cond1 i k0_t1 = 1#1), ∀ a x, ((![v229] : Fin 1 → IVec S16 32) a x).toNat < S100000.size a := fun i k0_t1 v229 k0_hw72 k0_h1 => k0_hw72 k0_h1

def k0_chk73 (i : grid0.Coords) (k0_t1 : Fin k0_t1_loop.trips) (v246 : IVec S16 32) : Prop :=
  (∀ (k0_h1 : k0_cond1 i k0_t1 = 1#1), ∀ a x, ((![v246] : Fin 1 → IVec S16 32) a x).toNat < S100000.size a)
instance k0_chk73.dec : ∀ (i : grid0.Coords) (k0_t1 : Fin k0_t1_loop.trips) (v246 : IVec S16 32), Decidable (k0_chk73 i k0_t1 v246) := fun i k0_t1 v246 => decidable_of_iff' _ (Iff.of_eq (k0_chk73.eq_1 i k0_t1 v246))
theorem k0_idx73_inb : ∀ (i : grid0.Coords) (k0_t1 : Fin k0_t1_loop.trips) (v246 : IVec S16 32) (k0_hw73 : k0_chk73 i k0_t1 v246), ∀ (k0_h1 : k0_cond1 i k0_t1 = 1#1), ∀ a x, ((![v246] : Fin 1 → IVec S16 32) a x).toNat < S100000.size a := fun i k0_t1 v246 k0_hw73 k0_h1 => k0_hw73 k0_h1

def k0_chk74 (i : grid0.Coords) (k0_t1 : Fin k0_t1_loop.trips) (v247 : IVec S16 32) : Prop :=
  (∀ (k0_h1 : k0_cond1 i k0_t1 = 1#1), ∀ a x, ((![v247] : Fin 1 → IVec S16 32) a x).toNat < S100000.size a)
instance k0_chk74.dec : ∀ (i : grid0.Coords) (k0_t1 : Fin k0_t1_loop.trips) (v247 : IVec S16 32), Decidable (k0_chk74 i k0_t1 v247) := fun i k0_t1 v247 => decidable_of_iff' _ (Iff.of_eq (k0_chk74.eq_1 i k0_t1 v247))
theorem k0_idx74_inb : ∀ (i : grid0.Coords) (k0_t1 : Fin k0_t1_loop.trips) (v247 : IVec S16 32) (k0_hw74 : k0_chk74 i k0_t1 v247), ∀ (k0_h1 : k0_cond1 i k0_t1 = 1#1), ∀ a x, ((![v247] : Fin 1 → IVec S16 32) a x).toNat < S100000.size a := fun i k0_t1 v247 k0_hw74 k0_h1 => k0_hw74 k0_h1

def k0_chk75 (i : grid0.Coords) (k0_t1 : Fin k0_t1_loop.trips) (v248 : IVec S16 32) : Prop :=
  (∀ (k0_h1 : k0_cond1 i k0_t1 = 1#1), ∀ a x, ((![v248] : Fin 1 → IVec S16 32) a x).toNat < S100000.size a)
instance k0_chk75.dec : ∀ (i : grid0.Coords) (k0_t1 : Fin k0_t1_loop.trips) (v248 : IVec S16 32), Decidable (k0_chk75 i k0_t1 v248) := fun i k0_t1 v248 => decidable_of_iff' _ (Iff.of_eq (k0_chk75.eq_1 i k0_t1 v248))
theorem k0_idx75_inb : ∀ (i : grid0.Coords) (k0_t1 : Fin k0_t1_loop.trips) (v248 : IVec S16 32) (k0_hw75 : k0_chk75 i k0_t1 v248), ∀ (k0_h1 : k0_cond1 i k0_t1 = 1#1), ∀ a x, ((![v248] : Fin 1 → IVec S16 32) a x).toNat < S100000.size a := fun i k0_t1 v248 k0_hw75 k0_h1 => k0_hw75 k0_h1

def k0_chk76 (i : grid0.Coords) (k0_t1 : Fin k0_t1_loop.trips) (v249 : IVec S16 32) : Prop :=
  (∀ (k0_h1 : k0_cond1 i k0_t1 = 1#1), ∀ a x, ((![v249] : Fin 1 → IVec S16 32) a x).toNat < S100000.size a)
instance k0_chk76.dec : ∀ (i : grid0.Coords) (k0_t1 : Fin k0_t1_loop.trips) (v249 : IVec S16 32), Decidable (k0_chk76 i k0_t1 v249) := fun i k0_t1 v249 => decidable_of_iff' _ (Iff.of_eq (k0_chk76.eq_1 i k0_t1 v249))
theorem k0_idx76_inb : ∀ (i : grid0.Coords) (k0_t1 : Fin k0_t1_loop.trips) (v249 : IVec S16 32) (k0_hw76 : k0_chk76 i k0_t1 v249), ∀ (k0_h1 : k0_cond1 i k0_t1 = 1#1), ∀ a x, ((![v249] : Fin 1 → IVec S16 32) a x).toNat < S100000.size a := fun i k0_t1 v249 k0_hw76 k0_h1 => k0_hw76 k0_h1

def k0_chk77 (i : grid0.Coords) (k0_t1 : Fin k0_t1_loop.trips) (v250 : IVec S16 32) : Prop :=
  (∀ (k0_h1 : k0_cond1 i k0_t1 = 1#1), ∀ a x, ((![v250] : Fin 1 → IVec S16 32) a x).toNat < S100000.size a)
instance k0_chk77.dec : ∀ (i : grid0.Coords) (k0_t1 : Fin k0_t1_loop.trips) (v250 : IVec S16 32), Decidable (k0_chk77 i k0_t1 v250) := fun i k0_t1 v250 => decidable_of_iff' _ (Iff.of_eq (k0_chk77.eq_1 i k0_t1 v250))
theorem k0_idx77_inb : ∀ (i : grid0.Coords) (k0_t1 : Fin k0_t1_loop.trips) (v250 : IVec S16 32) (k0_hw77 : k0_chk77 i k0_t1 v250), ∀ (k0_h1 : k0_cond1 i k0_t1 = 1#1), ∀ a x, ((![v250] : Fin 1 → IVec S16 32) a x).toNat < S100000.size a := fun i k0_t1 v250 k0_hw77 k0_h1 => k0_hw77 k0_h1

def k0_chk78 (i : grid0.Coords) (k0_t1 : Fin k0_t1_loop.trips) (v251 : IVec S16 32) : Prop :=
  (∀ (k0_h1 : k0_cond1 i k0_t1 = 1#1), ∀ a x, ((![v251] : Fin 1 → IVec S16 32) a x).toNat < S100000.size a)
instance k0_chk78.dec : ∀ (i : grid0.Coords) (k0_t1 : Fin k0_t1_loop.trips) (v251 : IVec S16 32), Decidable (k0_chk78 i k0_t1 v251) := fun i k0_t1 v251 => decidable_of_iff' _ (Iff.of_eq (k0_chk78.eq_1 i k0_t1 v251))
theorem k0_idx78_inb : ∀ (i : grid0.Coords) (k0_t1 : Fin k0_t1_loop.trips) (v251 : IVec S16 32) (k0_hw78 : k0_chk78 i k0_t1 v251), ∀ (k0_h1 : k0_cond1 i k0_t1 = 1#1), ∀ a x, ((![v251] : Fin 1 → IVec S16 32) a x).toNat < S100000.size a := fun i k0_t1 v251 k0_hw78 k0_h1 => k0_hw78 k0_h1

def k0_chk79 (i : grid0.Coords) (k0_t1 : Fin k0_t1_loop.trips) (v252 : IVec S16 32) : Prop :=
  (∀ (k0_h1 : k0_cond1 i k0_t1 = 1#1), ∀ a x, ((![v252] : Fin 1 → IVec S16 32) a x).toNat < S100000.size a)
instance k0_chk79.dec : ∀ (i : grid0.Coords) (k0_t1 : Fin k0_t1_loop.trips) (v252 : IVec S16 32), Decidable (k0_chk79 i k0_t1 v252) := fun i k0_t1 v252 => decidable_of_iff' _ (Iff.of_eq (k0_chk79.eq_1 i k0_t1 v252))
theorem k0_idx79_inb : ∀ (i : grid0.Coords) (k0_t1 : Fin k0_t1_loop.trips) (v252 : IVec S16 32) (k0_hw79 : k0_chk79 i k0_t1 v252), ∀ (k0_h1 : k0_cond1 i k0_t1 = 1#1), ∀ a x, ((![v252] : Fin 1 → IVec S16 32) a x).toNat < S100000.size a := fun i k0_t1 v252 k0_hw79 k0_h1 => k0_hw79 k0_h1

def k0_chk80 (i : grid0.Coords) (k0_t1 : Fin k0_t1_loop.trips) (v253 : IVec S16 32) : Prop :=
  (∀ (k0_h1 : k0_cond1 i k0_t1 = 1#1), ∀ a x, ((![v253] : Fin 1 → IVec S16 32) a x).toNat < S100000.size a)
instance k0_chk80.dec : ∀ (i : grid0.Coords) (k0_t1 : Fin k0_t1_loop.trips) (v253 : IVec S16 32), Decidable (k0_chk80 i k0_t1 v253) := fun i k0_t1 v253 => decidable_of_iff' _ (Iff.of_eq (k0_chk80.eq_1 i k0_t1 v253))
theorem k0_idx80_inb : ∀ (i : grid0.Coords) (k0_t1 : Fin k0_t1_loop.trips) (v253 : IVec S16 32) (k0_hw80 : k0_chk80 i k0_t1 v253), ∀ (k0_h1 : k0_cond1 i k0_t1 = 1#1), ∀ a x, ((![v253] : Fin 1 → IVec S16 32) a x).toNat < S100000.size a := fun i k0_t1 v253 k0_hw80 k0_h1 => k0_hw80 k0_h1

def k0_chk81 (i : grid0.Coords) (k0_t1 : Fin k0_t1_loop.trips) (v270 : IVec S16 32) : Prop :=
  (∀ (k0_h1 : k0_cond1 i k0_t1 = 1#1), ∀ a x, ((![v270] : Fin 1 → IVec S16 32) a x).toNat < S100000.size a)
instance k0_chk81.dec : ∀ (i : grid0.Coords) (k0_t1 : Fin k0_t1_loop.trips) (v270 : IVec S16 32), Decidable (k0_chk81 i k0_t1 v270) := fun i k0_t1 v270 => decidable_of_iff' _ (Iff.of_eq (k0_chk81.eq_1 i k0_t1 v270))
theorem k0_idx81_inb : ∀ (i : grid0.Coords) (k0_t1 : Fin k0_t1_loop.trips) (v270 : IVec S16 32) (k0_hw81 : k0_chk81 i k0_t1 v270), ∀ (k0_h1 : k0_cond1 i k0_t1 = 1#1), ∀ a x, ((![v270] : Fin 1 → IVec S16 32) a x).toNat < S100000.size a := fun i k0_t1 v270 k0_hw81 k0_h1 => k0_hw81 k0_h1

def k0_chk82 (i : grid0.Coords) (k0_t1 : Fin k0_t1_loop.trips) (v271 : IVec S16 32) : Prop :=
  (∀ (k0_h1 : k0_cond1 i k0_t1 = 1#1), ∀ a x, ((![v271] : Fin 1 → IVec S16 32) a x).toNat < S100000.size a)
instance k0_chk82.dec : ∀ (i : grid0.Coords) (k0_t1 : Fin k0_t1_loop.trips) (v271 : IVec S16 32), Decidable (k0_chk82 i k0_t1 v271) := fun i k0_t1 v271 => decidable_of_iff' _ (Iff.of_eq (k0_chk82.eq_1 i k0_t1 v271))
theorem k0_idx82_inb : ∀ (i : grid0.Coords) (k0_t1 : Fin k0_t1_loop.trips) (v271 : IVec S16 32) (k0_hw82 : k0_chk82 i k0_t1 v271), ∀ (k0_h1 : k0_cond1 i k0_t1 = 1#1), ∀ a x, ((![v271] : Fin 1 → IVec S16 32) a x).toNat < S100000.size a := fun i k0_t1 v271 k0_hw82 k0_h1 => k0_hw82 k0_h1

def k0_chk83 (i : grid0.Coords) (k0_t1 : Fin k0_t1_loop.trips) (v272 : IVec S16 32) : Prop :=
  (∀ (k0_h1 : k0_cond1 i k0_t1 = 1#1), ∀ a x, ((![v272] : Fin 1 → IVec S16 32) a x).toNat < S100000.size a)
instance k0_chk83.dec : ∀ (i : grid0.Coords) (k0_t1 : Fin k0_t1_loop.trips) (v272 : IVec S16 32), Decidable (k0_chk83 i k0_t1 v272) := fun i k0_t1 v272 => decidable_of_iff' _ (Iff.of_eq (k0_chk83.eq_1 i k0_t1 v272))
theorem k0_idx83_inb : ∀ (i : grid0.Coords) (k0_t1 : Fin k0_t1_loop.trips) (v272 : IVec S16 32) (k0_hw83 : k0_chk83 i k0_t1 v272), ∀ (k0_h1 : k0_cond1 i k0_t1 = 1#1), ∀ a x, ((![v272] : Fin 1 → IVec S16 32) a x).toNat < S100000.size a := fun i k0_t1 v272 k0_hw83 k0_h1 => k0_hw83 k0_h1

def k0_chk84 (i : grid0.Coords) (k0_t1 : Fin k0_t1_loop.trips) (v273 : IVec S16 32) : Prop :=
  (∀ (k0_h1 : k0_cond1 i k0_t1 = 1#1), ∀ a x, ((![v273] : Fin 1 → IVec S16 32) a x).toNat < S100000.size a)
instance k0_chk84.dec : ∀ (i : grid0.Coords) (k0_t1 : Fin k0_t1_loop.trips) (v273 : IVec S16 32), Decidable (k0_chk84 i k0_t1 v273) := fun i k0_t1 v273 => decidable_of_iff' _ (Iff.of_eq (k0_chk84.eq_1 i k0_t1 v273))
theorem k0_idx84_inb : ∀ (i : grid0.Coords) (k0_t1 : Fin k0_t1_loop.trips) (v273 : IVec S16 32) (k0_hw84 : k0_chk84 i k0_t1 v273), ∀ (k0_h1 : k0_cond1 i k0_t1 = 1#1), ∀ a x, ((![v273] : Fin 1 → IVec S16 32) a x).toNat < S100000.size a := fun i k0_t1 v273 k0_hw84 k0_h1 => k0_hw84 k0_h1

def k0_chk85 (i : grid0.Coords) (k0_t1 : Fin k0_t1_loop.trips) (v274 : IVec S16 32) : Prop :=
  (∀ (k0_h1 : k0_cond1 i k0_t1 = 1#1), ∀ a x, ((![v274] : Fin 1 → IVec S16 32) a x).toNat < S100000.size a)
instance k0_chk85.dec : ∀ (i : grid0.Coords) (k0_t1 : Fin k0_t1_loop.trips) (v274 : IVec S16 32), Decidable (k0_chk85 i k0_t1 v274) := fun i k0_t1 v274 => decidable_of_iff' _ (Iff.of_eq (k0_chk85.eq_1 i k0_t1 v274))
theorem k0_idx85_inb : ∀ (i : grid0.Coords) (k0_t1 : Fin k0_t1_loop.trips) (v274 : IVec S16 32) (k0_hw85 : k0_chk85 i k0_t1 v274), ∀ (k0_h1 : k0_cond1 i k0_t1 = 1#1), ∀ a x, ((![v274] : Fin 1 → IVec S16 32) a x).toNat < S100000.size a := fun i k0_t1 v274 k0_hw85 k0_h1 => k0_hw85 k0_h1

def k0_chk86 (i : grid0.Coords) (k0_t1 : Fin k0_t1_loop.trips) (v275 : IVec S16 32) : Prop :=
  (∀ (k0_h1 : k0_cond1 i k0_t1 = 1#1), ∀ a x, ((![v275] : Fin 1 → IVec S16 32) a x).toNat < S100000.size a)
instance k0_chk86.dec : ∀ (i : grid0.Coords) (k0_t1 : Fin k0_t1_loop.trips) (v275 : IVec S16 32), Decidable (k0_chk86 i k0_t1 v275) := fun i k0_t1 v275 => decidable_of_iff' _ (Iff.of_eq (k0_chk86.eq_1 i k0_t1 v275))
theorem k0_idx86_inb : ∀ (i : grid0.Coords) (k0_t1 : Fin k0_t1_loop.trips) (v275 : IVec S16 32) (k0_hw86 : k0_chk86 i k0_t1 v275), ∀ (k0_h1 : k0_cond1 i k0_t1 = 1#1), ∀ a x, ((![v275] : Fin 1 → IVec S16 32) a x).toNat < S100000.size a := fun i k0_t1 v275 k0_hw86 k0_h1 => k0_hw86 k0_h1

def k0_chk87 (i : grid0.Coords) (k0_t1 : Fin k0_t1_loop.trips) (v276 : IVec S16 32) : Prop :=
  (∀ (k0_h1 : k0_cond1 i k0_t1 = 1#1), ∀ a x, ((![v276] : Fin 1 → IVec S16 32) a x).toNat < S100000.size a)
instance k0_chk87.dec : ∀ (i : grid0.Coords) (k0_t1 : Fin k0_t1_loop.trips) (v276 : IVec S16 32), Decidable (k0_chk87 i k0_t1 v276) := fun i k0_t1 v276 => decidable_of_iff' _ (Iff.of_eq (k0_chk87.eq_1 i k0_t1 v276))
theorem k0_idx87_inb : ∀ (i : grid0.Coords) (k0_t1 : Fin k0_t1_loop.trips) (v276 : IVec S16 32) (k0_hw87 : k0_chk87 i k0_t1 v276), ∀ (k0_h1 : k0_cond1 i k0_t1 = 1#1), ∀ a x, ((![v276] : Fin 1 → IVec S16 32) a x).toNat < S100000.size a := fun i k0_t1 v276 k0_hw87 k0_h1 => k0_hw87 k0_h1

def k0_chk88 (i : grid0.Coords) (k0_t1 : Fin k0_t1_loop.trips) (v277 : IVec S16 32) : Prop :=
  (∀ (k0_h1 : k0_cond1 i k0_t1 = 1#1), ∀ a x, ((![v277] : Fin 1 → IVec S16 32) a x).toNat < S100000.size a)
instance k0_chk88.dec : ∀ (i : grid0.Coords) (k0_t1 : Fin k0_t1_loop.trips) (v277 : IVec S16 32), Decidable (k0_chk88 i k0_t1 v277) := fun i k0_t1 v277 => decidable_of_iff' _ (Iff.of_eq (k0_chk88.eq_1 i k0_t1 v277))
theorem k0_idx88_inb : ∀ (i : grid0.Coords) (k0_t1 : Fin k0_t1_loop.trips) (v277 : IVec S16 32) (k0_hw88 : k0_chk88 i k0_t1 v277), ∀ (k0_h1 : k0_cond1 i k0_t1 = 1#1), ∀ a x, ((![v277] : Fin 1 → IVec S16 32) a x).toNat < S100000.size a := fun i k0_t1 v277 k0_hw88 k0_h1 => k0_hw88 k0_h1

def k0_chk89 (i : grid0.Coords) (k0_t1 : Fin k0_t1_loop.trips) (v294 : IVec S16 32) : Prop :=
  (∀ (k0_h1 : k0_cond1 i k0_t1 = 1#1), ∀ a x, ((![v294] : Fin 1 → IVec S16 32) a x).toNat < S100000.size a)
instance k0_chk89.dec : ∀ (i : grid0.Coords) (k0_t1 : Fin k0_t1_loop.trips) (v294 : IVec S16 32), Decidable (k0_chk89 i k0_t1 v294) := fun i k0_t1 v294 => decidable_of_iff' _ (Iff.of_eq (k0_chk89.eq_1 i k0_t1 v294))
theorem k0_idx89_inb : ∀ (i : grid0.Coords) (k0_t1 : Fin k0_t1_loop.trips) (v294 : IVec S16 32) (k0_hw89 : k0_chk89 i k0_t1 v294), ∀ (k0_h1 : k0_cond1 i k0_t1 = 1#1), ∀ a x, ((![v294] : Fin 1 → IVec S16 32) a x).toNat < S100000.size a := fun i k0_t1 v294 k0_hw89 k0_h1 => k0_hw89 k0_h1

def k0_chk90 (i : grid0.Coords) (k0_t1 : Fin k0_t1_loop.trips) (v295 : IVec S16 32) : Prop :=
  (∀ (k0_h1 : k0_cond1 i k0_t1 = 1#1), ∀ a x, ((![v295] : Fin 1 → IVec S16 32) a x).toNat < S100000.size a)
instance k0_chk90.dec : ∀ (i : grid0.Coords) (k0_t1 : Fin k0_t1_loop.trips) (v295 : IVec S16 32), Decidable (k0_chk90 i k0_t1 v295) := fun i k0_t1 v295 => decidable_of_iff' _ (Iff.of_eq (k0_chk90.eq_1 i k0_t1 v295))
theorem k0_idx90_inb : ∀ (i : grid0.Coords) (k0_t1 : Fin k0_t1_loop.trips) (v295 : IVec S16 32) (k0_hw90 : k0_chk90 i k0_t1 v295), ∀ (k0_h1 : k0_cond1 i k0_t1 = 1#1), ∀ a x, ((![v295] : Fin 1 → IVec S16 32) a x).toNat < S100000.size a := fun i k0_t1 v295 k0_hw90 k0_h1 => k0_hw90 k0_h1

def k0_chk91 (i : grid0.Coords) (k0_t1 : Fin k0_t1_loop.trips) (v296 : IVec S16 32) : Prop :=
  (∀ (k0_h1 : k0_cond1 i k0_t1 = 1#1), ∀ a x, ((![v296] : Fin 1 → IVec S16 32) a x).toNat < S100000.size a)
instance k0_chk91.dec : ∀ (i : grid0.Coords) (k0_t1 : Fin k0_t1_loop.trips) (v296 : IVec S16 32), Decidable (k0_chk91 i k0_t1 v296) := fun i k0_t1 v296 => decidable_of_iff' _ (Iff.of_eq (k0_chk91.eq_1 i k0_t1 v296))
theorem k0_idx91_inb : ∀ (i : grid0.Coords) (k0_t1 : Fin k0_t1_loop.trips) (v296 : IVec S16 32) (k0_hw91 : k0_chk91 i k0_t1 v296), ∀ (k0_h1 : k0_cond1 i k0_t1 = 1#1), ∀ a x, ((![v296] : Fin 1 → IVec S16 32) a x).toNat < S100000.size a := fun i k0_t1 v296 k0_hw91 k0_h1 => k0_hw91 k0_h1

def k0_chk92 (i : grid0.Coords) (k0_t1 : Fin k0_t1_loop.trips) (v297 : IVec S16 32) : Prop :=
  (∀ (k0_h1 : k0_cond1 i k0_t1 = 1#1), ∀ a x, ((![v297] : Fin 1 → IVec S16 32) a x).toNat < S100000.size a)
instance k0_chk92.dec : ∀ (i : grid0.Coords) (k0_t1 : Fin k0_t1_loop.trips) (v297 : IVec S16 32), Decidable (k0_chk92 i k0_t1 v297) := fun i k0_t1 v297 => decidable_of_iff' _ (Iff.of_eq (k0_chk92.eq_1 i k0_t1 v297))
theorem k0_idx92_inb : ∀ (i : grid0.Coords) (k0_t1 : Fin k0_t1_loop.trips) (v297 : IVec S16 32) (k0_hw92 : k0_chk92 i k0_t1 v297), ∀ (k0_h1 : k0_cond1 i k0_t1 = 1#1), ∀ a x, ((![v297] : Fin 1 → IVec S16 32) a x).toNat < S100000.size a := fun i k0_t1 v297 k0_hw92 k0_h1 => k0_hw92 k0_h1

def k0_chk93 (i : grid0.Coords) (k0_t1 : Fin k0_t1_loop.trips) (v298 : IVec S16 32) : Prop :=
  (∀ (k0_h1 : k0_cond1 i k0_t1 = 1#1), ∀ a x, ((![v298] : Fin 1 → IVec S16 32) a x).toNat < S100000.size a)
instance k0_chk93.dec : ∀ (i : grid0.Coords) (k0_t1 : Fin k0_t1_loop.trips) (v298 : IVec S16 32), Decidable (k0_chk93 i k0_t1 v298) := fun i k0_t1 v298 => decidable_of_iff' _ (Iff.of_eq (k0_chk93.eq_1 i k0_t1 v298))
theorem k0_idx93_inb : ∀ (i : grid0.Coords) (k0_t1 : Fin k0_t1_loop.trips) (v298 : IVec S16 32) (k0_hw93 : k0_chk93 i k0_t1 v298), ∀ (k0_h1 : k0_cond1 i k0_t1 = 1#1), ∀ a x, ((![v298] : Fin 1 → IVec S16 32) a x).toNat < S100000.size a := fun i k0_t1 v298 k0_hw93 k0_h1 => k0_hw93 k0_h1

def k0_chk94 (i : grid0.Coords) (k0_t1 : Fin k0_t1_loop.trips) (v299 : IVec S16 32) : Prop :=
  (∀ (k0_h1 : k0_cond1 i k0_t1 = 1#1), ∀ a x, ((![v299] : Fin 1 → IVec S16 32) a x).toNat < S100000.size a)
instance k0_chk94.dec : ∀ (i : grid0.Coords) (k0_t1 : Fin k0_t1_loop.trips) (v299 : IVec S16 32), Decidable (k0_chk94 i k0_t1 v299) := fun i k0_t1 v299 => decidable_of_iff' _ (Iff.of_eq (k0_chk94.eq_1 i k0_t1 v299))
theorem k0_idx94_inb : ∀ (i : grid0.Coords) (k0_t1 : Fin k0_t1_loop.trips) (v299 : IVec S16 32) (k0_hw94 : k0_chk94 i k0_t1 v299), ∀ (k0_h1 : k0_cond1 i k0_t1 = 1#1), ∀ a x, ((![v299] : Fin 1 → IVec S16 32) a x).toNat < S100000.size a := fun i k0_t1 v299 k0_hw94 k0_h1 => k0_hw94 k0_h1

def k0_chk95 (i : grid0.Coords) (k0_t1 : Fin k0_t1_loop.trips) (v300 : IVec S16 32) : Prop :=
  (∀ (k0_h1 : k0_cond1 i k0_t1 = 1#1), ∀ a x, ((![v300] : Fin 1 → IVec S16 32) a x).toNat < S100000.size a)
instance k0_chk95.dec : ∀ (i : grid0.Coords) (k0_t1 : Fin k0_t1_loop.trips) (v300 : IVec S16 32), Decidable (k0_chk95 i k0_t1 v300) := fun i k0_t1 v300 => decidable_of_iff' _ (Iff.of_eq (k0_chk95.eq_1 i k0_t1 v300))
theorem k0_idx95_inb : ∀ (i : grid0.Coords) (k0_t1 : Fin k0_t1_loop.trips) (v300 : IVec S16 32) (k0_hw95 : k0_chk95 i k0_t1 v300), ∀ (k0_h1 : k0_cond1 i k0_t1 = 1#1), ∀ a x, ((![v300] : Fin 1 → IVec S16 32) a x).toNat < S100000.size a := fun i k0_t1 v300 k0_hw95 k0_h1 => k0_hw95 k0_h1

def k0_chk96 (i : grid0.Coords) (k0_t1 : Fin k0_t1_loop.trips) (v301 : IVec S16 32) : Prop :=
  (∀ (k0_h1 : k0_cond1 i k0_t1 = 1#1), ∀ a x, ((![v301] : Fin 1 → IVec S16 32) a x).toNat < S100000.size a)
instance k0_chk96.dec : ∀ (i : grid0.Coords) (k0_t1 : Fin k0_t1_loop.trips) (v301 : IVec S16 32), Decidable (k0_chk96 i k0_t1 v301) := fun i k0_t1 v301 => decidable_of_iff' _ (Iff.of_eq (k0_chk96.eq_1 i k0_t1 v301))
theorem k0_idx96_inb : ∀ (i : grid0.Coords) (k0_t1 : Fin k0_t1_loop.trips) (v301 : IVec S16 32) (k0_hw96 : k0_chk96 i k0_t1 v301), ∀ (k0_h1 : k0_cond1 i k0_t1 = 1#1), ∀ a x, ((![v301] : Fin 1 → IVec S16 32) a x).toNat < S100000.size a := fun i k0_t1 v301 k0_hw96 k0_h1 => k0_hw96 k0_h1

def k0_chk97 (i : grid0.Coords) (k0_t1 : Fin k0_t1_loop.trips) (v318 : IVec S16 32) : Prop :=
  (∀ (k0_h1 : k0_cond1 i k0_t1 = 1#1), ∀ a x, ((![v318] : Fin 1 → IVec S16 32) a x).toNat < S100000.size a)
instance k0_chk97.dec : ∀ (i : grid0.Coords) (k0_t1 : Fin k0_t1_loop.trips) (v318 : IVec S16 32), Decidable (k0_chk97 i k0_t1 v318) := fun i k0_t1 v318 => decidable_of_iff' _ (Iff.of_eq (k0_chk97.eq_1 i k0_t1 v318))
theorem k0_idx97_inb : ∀ (i : grid0.Coords) (k0_t1 : Fin k0_t1_loop.trips) (v318 : IVec S16 32) (k0_hw97 : k0_chk97 i k0_t1 v318), ∀ (k0_h1 : k0_cond1 i k0_t1 = 1#1), ∀ a x, ((![v318] : Fin 1 → IVec S16 32) a x).toNat < S100000.size a := fun i k0_t1 v318 k0_hw97 k0_h1 => k0_hw97 k0_h1

def k0_chk98 (i : grid0.Coords) (k0_t1 : Fin k0_t1_loop.trips) (v319 : IVec S16 32) : Prop :=
  (∀ (k0_h1 : k0_cond1 i k0_t1 = 1#1), ∀ a x, ((![v319] : Fin 1 → IVec S16 32) a x).toNat < S100000.size a)
instance k0_chk98.dec : ∀ (i : grid0.Coords) (k0_t1 : Fin k0_t1_loop.trips) (v319 : IVec S16 32), Decidable (k0_chk98 i k0_t1 v319) := fun i k0_t1 v319 => decidable_of_iff' _ (Iff.of_eq (k0_chk98.eq_1 i k0_t1 v319))
theorem k0_idx98_inb : ∀ (i : grid0.Coords) (k0_t1 : Fin k0_t1_loop.trips) (v319 : IVec S16 32) (k0_hw98 : k0_chk98 i k0_t1 v319), ∀ (k0_h1 : k0_cond1 i k0_t1 = 1#1), ∀ a x, ((![v319] : Fin 1 → IVec S16 32) a x).toNat < S100000.size a := fun i k0_t1 v319 k0_hw98 k0_h1 => k0_hw98 k0_h1

def k0_chk99 (i : grid0.Coords) (k0_t1 : Fin k0_t1_loop.trips) (v320 : IVec S16 32) : Prop :=
  (∀ (k0_h1 : k0_cond1 i k0_t1 = 1#1), ∀ a x, ((![v320] : Fin 1 → IVec S16 32) a x).toNat < S100000.size a)
instance k0_chk99.dec : ∀ (i : grid0.Coords) (k0_t1 : Fin k0_t1_loop.trips) (v320 : IVec S16 32), Decidable (k0_chk99 i k0_t1 v320) := fun i k0_t1 v320 => decidable_of_iff' _ (Iff.of_eq (k0_chk99.eq_1 i k0_t1 v320))
theorem k0_idx99_inb : ∀ (i : grid0.Coords) (k0_t1 : Fin k0_t1_loop.trips) (v320 : IVec S16 32) (k0_hw99 : k0_chk99 i k0_t1 v320), ∀ (k0_h1 : k0_cond1 i k0_t1 = 1#1), ∀ a x, ((![v320] : Fin 1 → IVec S16 32) a x).toNat < S100000.size a := fun i k0_t1 v320 k0_hw99 k0_h1 => k0_hw99 k0_h1

def k0_chk100 (i : grid0.Coords) (k0_t1 : Fin k0_t1_loop.trips) (v321 : IVec S16 32) : Prop :=
  (∀ (k0_h1 : k0_cond1 i k0_t1 = 1#1), ∀ a x, ((![v321] : Fin 1 → IVec S16 32) a x).toNat < S100000.size a)
instance k0_chk100.dec : ∀ (i : grid0.Coords) (k0_t1 : Fin k0_t1_loop.trips) (v321 : IVec S16 32), Decidable (k0_chk100 i k0_t1 v321) := fun i k0_t1 v321 => decidable_of_iff' _ (Iff.of_eq (k0_chk100.eq_1 i k0_t1 v321))
theorem k0_idx100_inb : ∀ (i : grid0.Coords) (k0_t1 : Fin k0_t1_loop.trips) (v321 : IVec S16 32) (k0_hw100 : k0_chk100 i k0_t1 v321), ∀ (k0_h1 : k0_cond1 i k0_t1 = 1#1), ∀ a x, ((![v321] : Fin 1 → IVec S16 32) a x).toNat < S100000.size a := fun i k0_t1 v321 k0_hw100 k0_h1 => k0_hw100 k0_h1

def k0_chk101 (i : grid0.Coords) (k0_t1 : Fin k0_t1_loop.trips) (v322 : IVec S16 32) : Prop :=
  (∀ (k0_h1 : k0_cond1 i k0_t1 = 1#1), ∀ a x, ((![v322] : Fin 1 → IVec S16 32) a x).toNat < S100000.size a)
instance k0_chk101.dec : ∀ (i : grid0.Coords) (k0_t1 : Fin k0_t1_loop.trips) (v322 : IVec S16 32), Decidable (k0_chk101 i k0_t1 v322) := fun i k0_t1 v322 => decidable_of_iff' _ (Iff.of_eq (k0_chk101.eq_1 i k0_t1 v322))
theorem k0_idx101_inb : ∀ (i : grid0.Coords) (k0_t1 : Fin k0_t1_loop.trips) (v322 : IVec S16 32) (k0_hw101 : k0_chk101 i k0_t1 v322), ∀ (k0_h1 : k0_cond1 i k0_t1 = 1#1), ∀ a x, ((![v322] : Fin 1 → IVec S16 32) a x).toNat < S100000.size a := fun i k0_t1 v322 k0_hw101 k0_h1 => k0_hw101 k0_h1

def k0_chk102 (i : grid0.Coords) (k0_t1 : Fin k0_t1_loop.trips) (v323 : IVec S16 32) : Prop :=
  (∀ (k0_h1 : k0_cond1 i k0_t1 = 1#1), ∀ a x, ((![v323] : Fin 1 → IVec S16 32) a x).toNat < S100000.size a)
instance k0_chk102.dec : ∀ (i : grid0.Coords) (k0_t1 : Fin k0_t1_loop.trips) (v323 : IVec S16 32), Decidable (k0_chk102 i k0_t1 v323) := fun i k0_t1 v323 => decidable_of_iff' _ (Iff.of_eq (k0_chk102.eq_1 i k0_t1 v323))
theorem k0_idx102_inb : ∀ (i : grid0.Coords) (k0_t1 : Fin k0_t1_loop.trips) (v323 : IVec S16 32) (k0_hw102 : k0_chk102 i k0_t1 v323), ∀ (k0_h1 : k0_cond1 i k0_t1 = 1#1), ∀ a x, ((![v323] : Fin 1 → IVec S16 32) a x).toNat < S100000.size a := fun i k0_t1 v323 k0_hw102 k0_h1 => k0_hw102 k0_h1

def k0_chk103 (i : grid0.Coords) (k0_t1 : Fin k0_t1_loop.trips) (v324 : IVec S16 32) : Prop :=
  (∀ (k0_h1 : k0_cond1 i k0_t1 = 1#1), ∀ a x, ((![v324] : Fin 1 → IVec S16 32) a x).toNat < S100000.size a)
instance k0_chk103.dec : ∀ (i : grid0.Coords) (k0_t1 : Fin k0_t1_loop.trips) (v324 : IVec S16 32), Decidable (k0_chk103 i k0_t1 v324) := fun i k0_t1 v324 => decidable_of_iff' _ (Iff.of_eq (k0_chk103.eq_1 i k0_t1 v324))
theorem k0_idx103_inb : ∀ (i : grid0.Coords) (k0_t1 : Fin k0_t1_loop.trips) (v324 : IVec S16 32) (k0_hw103 : k0_chk103 i k0_t1 v324), ∀ (k0_h1 : k0_cond1 i k0_t1 = 1#1), ∀ a x, ((![v324] : Fin 1 → IVec S16 32) a x).toNat < S100000.size a := fun i k0_t1 v324 k0_hw103 k0_h1 => k0_hw103 k0_h1

def k0_chk104 (i : grid0.Coords) (k0_t1 : Fin k0_t1_loop.trips) (v325 : IVec S16 32) : Prop :=
  (∀ (k0_h1 : k0_cond1 i k0_t1 = 1#1), ∀ a x, ((![v325] : Fin 1 → IVec S16 32) a x).toNat < S100000.size a)
instance k0_chk104.dec : ∀ (i : grid0.Coords) (k0_t1 : Fin k0_t1_loop.trips) (v325 : IVec S16 32), Decidable (k0_chk104 i k0_t1 v325) := fun i k0_t1 v325 => decidable_of_iff' _ (Iff.of_eq (k0_chk104.eq_1 i k0_t1 v325))
theorem k0_idx104_inb : ∀ (i : grid0.Coords) (k0_t1 : Fin k0_t1_loop.trips) (v325 : IVec S16 32) (k0_hw104 : k0_chk104 i k0_t1 v325), ∀ (k0_h1 : k0_cond1 i k0_t1 = 1#1), ∀ a x, ((![v325] : Fin 1 → IVec S16 32) a x).toNat < S100000.size a := fun i k0_t1 v325 k0_hw104 k0_h1 => k0_hw104 k0_h1

def k0_chk105 (i : grid0.Coords) (k0_t1 : Fin k0_t1_loop.trips) (v342 : IVec S16 32) : Prop :=
  (∀ (k0_h1 : k0_cond1 i k0_t1 = 1#1), ∀ a x, ((![v342] : Fin 1 → IVec S16 32) a x).toNat < S100000.size a)
instance k0_chk105.dec : ∀ (i : grid0.Coords) (k0_t1 : Fin k0_t1_loop.trips) (v342 : IVec S16 32), Decidable (k0_chk105 i k0_t1 v342) := fun i k0_t1 v342 => decidable_of_iff' _ (Iff.of_eq (k0_chk105.eq_1 i k0_t1 v342))
theorem k0_idx105_inb : ∀ (i : grid0.Coords) (k0_t1 : Fin k0_t1_loop.trips) (v342 : IVec S16 32) (k0_hw105 : k0_chk105 i k0_t1 v342), ∀ (k0_h1 : k0_cond1 i k0_t1 = 1#1), ∀ a x, ((![v342] : Fin 1 → IVec S16 32) a x).toNat < S100000.size a := fun i k0_t1 v342 k0_hw105 k0_h1 => k0_hw105 k0_h1

def k0_chk106 (i : grid0.Coords) (k0_t1 : Fin k0_t1_loop.trips) (v343 : IVec S16 32) : Prop :=
  (∀ (k0_h1 : k0_cond1 i k0_t1 = 1#1), ∀ a x, ((![v343] : Fin 1 → IVec S16 32) a x).toNat < S100000.size a)
instance k0_chk106.dec : ∀ (i : grid0.Coords) (k0_t1 : Fin k0_t1_loop.trips) (v343 : IVec S16 32), Decidable (k0_chk106 i k0_t1 v343) := fun i k0_t1 v343 => decidable_of_iff' _ (Iff.of_eq (k0_chk106.eq_1 i k0_t1 v343))
theorem k0_idx106_inb : ∀ (i : grid0.Coords) (k0_t1 : Fin k0_t1_loop.trips) (v343 : IVec S16 32) (k0_hw106 : k0_chk106 i k0_t1 v343), ∀ (k0_h1 : k0_cond1 i k0_t1 = 1#1), ∀ a x, ((![v343] : Fin 1 → IVec S16 32) a x).toNat < S100000.size a := fun i k0_t1 v343 k0_hw106 k0_h1 => k0_hw106 k0_h1

def k0_chk107 (i : grid0.Coords) (k0_t1 : Fin k0_t1_loop.trips) (v344 : IVec S16 32) : Prop :=
  (∀ (k0_h1 : k0_cond1 i k0_t1 = 1#1), ∀ a x, ((![v344] : Fin 1 → IVec S16 32) a x).toNat < S100000.size a)
instance k0_chk107.dec : ∀ (i : grid0.Coords) (k0_t1 : Fin k0_t1_loop.trips) (v344 : IVec S16 32), Decidable (k0_chk107 i k0_t1 v344) := fun i k0_t1 v344 => decidable_of_iff' _ (Iff.of_eq (k0_chk107.eq_1 i k0_t1 v344))
theorem k0_idx107_inb : ∀ (i : grid0.Coords) (k0_t1 : Fin k0_t1_loop.trips) (v344 : IVec S16 32) (k0_hw107 : k0_chk107 i k0_t1 v344), ∀ (k0_h1 : k0_cond1 i k0_t1 = 1#1), ∀ a x, ((![v344] : Fin 1 → IVec S16 32) a x).toNat < S100000.size a := fun i k0_t1 v344 k0_hw107 k0_h1 => k0_hw107 k0_h1

def k0_chk108 (i : grid0.Coords) (k0_t1 : Fin k0_t1_loop.trips) (v345 : IVec S16 32) : Prop :=
  (∀ (k0_h1 : k0_cond1 i k0_t1 = 1#1), ∀ a x, ((![v345] : Fin 1 → IVec S16 32) a x).toNat < S100000.size a)
instance k0_chk108.dec : ∀ (i : grid0.Coords) (k0_t1 : Fin k0_t1_loop.trips) (v345 : IVec S16 32), Decidable (k0_chk108 i k0_t1 v345) := fun i k0_t1 v345 => decidable_of_iff' _ (Iff.of_eq (k0_chk108.eq_1 i k0_t1 v345))
theorem k0_idx108_inb : ∀ (i : grid0.Coords) (k0_t1 : Fin k0_t1_loop.trips) (v345 : IVec S16 32) (k0_hw108 : k0_chk108 i k0_t1 v345), ∀ (k0_h1 : k0_cond1 i k0_t1 = 1#1), ∀ a x, ((![v345] : Fin 1 → IVec S16 32) a x).toNat < S100000.size a := fun i k0_t1 v345 k0_hw108 k0_h1 => k0_hw108 k0_h1

def k0_chk109 (i : grid0.Coords) (k0_t1 : Fin k0_t1_loop.trips) (v346 : IVec S16 32) : Prop :=
  (∀ (k0_h1 : k0_cond1 i k0_t1 = 1#1), ∀ a x, ((![v346] : Fin 1 → IVec S16 32) a x).toNat < S100000.size a)
instance k0_chk109.dec : ∀ (i : grid0.Coords) (k0_t1 : Fin k0_t1_loop.trips) (v346 : IVec S16 32), Decidable (k0_chk109 i k0_t1 v346) := fun i k0_t1 v346 => decidable_of_iff' _ (Iff.of_eq (k0_chk109.eq_1 i k0_t1 v346))
theorem k0_idx109_inb : ∀ (i : grid0.Coords) (k0_t1 : Fin k0_t1_loop.trips) (v346 : IVec S16 32) (k0_hw109 : k0_chk109 i k0_t1 v346), ∀ (k0_h1 : k0_cond1 i k0_t1 = 1#1), ∀ a x, ((![v346] : Fin 1 → IVec S16 32) a x).toNat < S100000.size a := fun i k0_t1 v346 k0_hw109 k0_h1 => k0_hw109 k0_h1

def k0_chk110 (i : grid0.Coords) (k0_t1 : Fin k0_t1_loop.trips) (v347 : IVec S16 32) : Prop :=
  (∀ (k0_h1 : k0_cond1 i k0_t1 = 1#1), ∀ a x, ((![v347] : Fin 1 → IVec S16 32) a x).toNat < S100000.size a)
instance k0_chk110.dec : ∀ (i : grid0.Coords) (k0_t1 : Fin k0_t1_loop.trips) (v347 : IVec S16 32), Decidable (k0_chk110 i k0_t1 v347) := fun i k0_t1 v347 => decidable_of_iff' _ (Iff.of_eq (k0_chk110.eq_1 i k0_t1 v347))
theorem k0_idx110_inb : ∀ (i : grid0.Coords) (k0_t1 : Fin k0_t1_loop.trips) (v347 : IVec S16 32) (k0_hw110 : k0_chk110 i k0_t1 v347), ∀ (k0_h1 : k0_cond1 i k0_t1 = 1#1), ∀ a x, ((![v347] : Fin 1 → IVec S16 32) a x).toNat < S100000.size a := fun i k0_t1 v347 k0_hw110 k0_h1 => k0_hw110 k0_h1

def k0_chk111 (i : grid0.Coords) (k0_t1 : Fin k0_t1_loop.trips) (v348 : IVec S16 32) : Prop :=
  (∀ (k0_h1 : k0_cond1 i k0_t1 = 1#1), ∀ a x, ((![v348] : Fin 1 → IVec S16 32) a x).toNat < S100000.size a)
instance k0_chk111.dec : ∀ (i : grid0.Coords) (k0_t1 : Fin k0_t1_loop.trips) (v348 : IVec S16 32), Decidable (k0_chk111 i k0_t1 v348) := fun i k0_t1 v348 => decidable_of_iff' _ (Iff.of_eq (k0_chk111.eq_1 i k0_t1 v348))
theorem k0_idx111_inb : ∀ (i : grid0.Coords) (k0_t1 : Fin k0_t1_loop.trips) (v348 : IVec S16 32) (k0_hw111 : k0_chk111 i k0_t1 v348), ∀ (k0_h1 : k0_cond1 i k0_t1 = 1#1), ∀ a x, ((![v348] : Fin 1 → IVec S16 32) a x).toNat < S100000.size a := fun i k0_t1 v348 k0_hw111 k0_h1 => k0_hw111 k0_h1

def k0_chk112 (i : grid0.Coords) (k0_t1 : Fin k0_t1_loop.trips) (v349 : IVec S16 32) : Prop :=
  (∀ (k0_h1 : k0_cond1 i k0_t1 = 1#1), ∀ a x, ((![v349] : Fin 1 → IVec S16 32) a x).toNat < S100000.size a)
instance k0_chk112.dec : ∀ (i : grid0.Coords) (k0_t1 : Fin k0_t1_loop.trips) (v349 : IVec S16 32), Decidable (k0_chk112 i k0_t1 v349) := fun i k0_t1 v349 => decidable_of_iff' _ (Iff.of_eq (k0_chk112.eq_1 i k0_t1 v349))
theorem k0_idx112_inb : ∀ (i : grid0.Coords) (k0_t1 : Fin k0_t1_loop.trips) (v349 : IVec S16 32) (k0_hw112 : k0_chk112 i k0_t1 v349), ∀ (k0_h1 : k0_cond1 i k0_t1 = 1#1), ∀ a x, ((![v349] : Fin 1 → IVec S16 32) a x).toNat < S100000.size a := fun i k0_t1 v349 k0_hw112 k0_h1 => k0_hw112 k0_h1

def k0_chk113 (i : grid0.Coords) (k0_t1 : Fin k0_t1_loop.trips) (v366 : IVec S16 32) : Prop :=
  (∀ (k0_h1 : k0_cond1 i k0_t1 = 1#1), ∀ a x, ((![v366] : Fin 1 → IVec S16 32) a x).toNat < S100000.size a)
instance k0_chk113.dec : ∀ (i : grid0.Coords) (k0_t1 : Fin k0_t1_loop.trips) (v366 : IVec S16 32), Decidable (k0_chk113 i k0_t1 v366) := fun i k0_t1 v366 => decidable_of_iff' _ (Iff.of_eq (k0_chk113.eq_1 i k0_t1 v366))
theorem k0_idx113_inb : ∀ (i : grid0.Coords) (k0_t1 : Fin k0_t1_loop.trips) (v366 : IVec S16 32) (k0_hw113 : k0_chk113 i k0_t1 v366), ∀ (k0_h1 : k0_cond1 i k0_t1 = 1#1), ∀ a x, ((![v366] : Fin 1 → IVec S16 32) a x).toNat < S100000.size a := fun i k0_t1 v366 k0_hw113 k0_h1 => k0_hw113 k0_h1

def k0_chk114 (i : grid0.Coords) (k0_t1 : Fin k0_t1_loop.trips) (v367 : IVec S16 32) : Prop :=
  (∀ (k0_h1 : k0_cond1 i k0_t1 = 1#1), ∀ a x, ((![v367] : Fin 1 → IVec S16 32) a x).toNat < S100000.size a)
instance k0_chk114.dec : ∀ (i : grid0.Coords) (k0_t1 : Fin k0_t1_loop.trips) (v367 : IVec S16 32), Decidable (k0_chk114 i k0_t1 v367) := fun i k0_t1 v367 => decidable_of_iff' _ (Iff.of_eq (k0_chk114.eq_1 i k0_t1 v367))
theorem k0_idx114_inb : ∀ (i : grid0.Coords) (k0_t1 : Fin k0_t1_loop.trips) (v367 : IVec S16 32) (k0_hw114 : k0_chk114 i k0_t1 v367), ∀ (k0_h1 : k0_cond1 i k0_t1 = 1#1), ∀ a x, ((![v367] : Fin 1 → IVec S16 32) a x).toNat < S100000.size a := fun i k0_t1 v367 k0_hw114 k0_h1 => k0_hw114 k0_h1

def k0_chk115 (i : grid0.Coords) (k0_t1 : Fin k0_t1_loop.trips) (v368 : IVec S16 32) : Prop :=
  (∀ (k0_h1 : k0_cond1 i k0_t1 = 1#1), ∀ a x, ((![v368] : Fin 1 → IVec S16 32) a x).toNat < S100000.size a)
instance k0_chk115.dec : ∀ (i : grid0.Coords) (k0_t1 : Fin k0_t1_loop.trips) (v368 : IVec S16 32), Decidable (k0_chk115 i k0_t1 v368) := fun i k0_t1 v368 => decidable_of_iff' _ (Iff.of_eq (k0_chk115.eq_1 i k0_t1 v368))
theorem k0_idx115_inb : ∀ (i : grid0.Coords) (k0_t1 : Fin k0_t1_loop.trips) (v368 : IVec S16 32) (k0_hw115 : k0_chk115 i k0_t1 v368), ∀ (k0_h1 : k0_cond1 i k0_t1 = 1#1), ∀ a x, ((![v368] : Fin 1 → IVec S16 32) a x).toNat < S100000.size a := fun i k0_t1 v368 k0_hw115 k0_h1 => k0_hw115 k0_h1

def k0_chk116 (i : grid0.Coords) (k0_t1 : Fin k0_t1_loop.trips) (v369 : IVec S16 32) : Prop :=
  (∀ (k0_h1 : k0_cond1 i k0_t1 = 1#1), ∀ a x, ((![v369] : Fin 1 → IVec S16 32) a x).toNat < S100000.size a)
instance k0_chk116.dec : ∀ (i : grid0.Coords) (k0_t1 : Fin k0_t1_loop.trips) (v369 : IVec S16 32), Decidable (k0_chk116 i k0_t1 v369) := fun i k0_t1 v369 => decidable_of_iff' _ (Iff.of_eq (k0_chk116.eq_1 i k0_t1 v369))
theorem k0_idx116_inb : ∀ (i : grid0.Coords) (k0_t1 : Fin k0_t1_loop.trips) (v369 : IVec S16 32) (k0_hw116 : k0_chk116 i k0_t1 v369), ∀ (k0_h1 : k0_cond1 i k0_t1 = 1#1), ∀ a x, ((![v369] : Fin 1 → IVec S16 32) a x).toNat < S100000.size a := fun i k0_t1 v369 k0_hw116 k0_h1 => k0_hw116 k0_h1

def k0_chk117 (i : grid0.Coords) (k0_t1 : Fin k0_t1_loop.trips) (v370 : IVec S16 32) : Prop :=
  (∀ (k0_h1 : k0_cond1 i k0_t1 = 1#1), ∀ a x, ((![v370] : Fin 1 → IVec S16 32) a x).toNat < S100000.size a)
instance k0_chk117.dec : ∀ (i : grid0.Coords) (k0_t1 : Fin k0_t1_loop.trips) (v370 : IVec S16 32), Decidable (k0_chk117 i k0_t1 v370) := fun i k0_t1 v370 => decidable_of_iff' _ (Iff.of_eq (k0_chk117.eq_1 i k0_t1 v370))
theorem k0_idx117_inb : ∀ (i : grid0.Coords) (k0_t1 : Fin k0_t1_loop.trips) (v370 : IVec S16 32) (k0_hw117 : k0_chk117 i k0_t1 v370), ∀ (k0_h1 : k0_cond1 i k0_t1 = 1#1), ∀ a x, ((![v370] : Fin 1 → IVec S16 32) a x).toNat < S100000.size a := fun i k0_t1 v370 k0_hw117 k0_h1 => k0_hw117 k0_h1

def k0_chk118 (i : grid0.Coords) (k0_t1 : Fin k0_t1_loop.trips) (v371 : IVec S16 32) : Prop :=
  (∀ (k0_h1 : k0_cond1 i k0_t1 = 1#1), ∀ a x, ((![v371] : Fin 1 → IVec S16 32) a x).toNat < S100000.size a)
instance k0_chk118.dec : ∀ (i : grid0.Coords) (k0_t1 : Fin k0_t1_loop.trips) (v371 : IVec S16 32), Decidable (k0_chk118 i k0_t1 v371) := fun i k0_t1 v371 => decidable_of_iff' _ (Iff.of_eq (k0_chk118.eq_1 i k0_t1 v371))
theorem k0_idx118_inb : ∀ (i : grid0.Coords) (k0_t1 : Fin k0_t1_loop.trips) (v371 : IVec S16 32) (k0_hw118 : k0_chk118 i k0_t1 v371), ∀ (k0_h1 : k0_cond1 i k0_t1 = 1#1), ∀ a x, ((![v371] : Fin 1 → IVec S16 32) a x).toNat < S100000.size a := fun i k0_t1 v371 k0_hw118 k0_h1 => k0_hw118 k0_h1

def k0_chk119 (i : grid0.Coords) (k0_t1 : Fin k0_t1_loop.trips) (v372 : IVec S16 32) : Prop :=
  (∀ (k0_h1 : k0_cond1 i k0_t1 = 1#1), ∀ a x, ((![v372] : Fin 1 → IVec S16 32) a x).toNat < S100000.size a)
instance k0_chk119.dec : ∀ (i : grid0.Coords) (k0_t1 : Fin k0_t1_loop.trips) (v372 : IVec S16 32), Decidable (k0_chk119 i k0_t1 v372) := fun i k0_t1 v372 => decidable_of_iff' _ (Iff.of_eq (k0_chk119.eq_1 i k0_t1 v372))
theorem k0_idx119_inb : ∀ (i : grid0.Coords) (k0_t1 : Fin k0_t1_loop.trips) (v372 : IVec S16 32) (k0_hw119 : k0_chk119 i k0_t1 v372), ∀ (k0_h1 : k0_cond1 i k0_t1 = 1#1), ∀ a x, ((![v372] : Fin 1 → IVec S16 32) a x).toNat < S100000.size a := fun i k0_t1 v372 k0_hw119 k0_h1 => k0_hw119 k0_h1

def k0_chk120 (i : grid0.Coords) (k0_t1 : Fin k0_t1_loop.trips) (v373 : IVec S16 32) : Prop :=
  (∀ (k0_h1 : k0_cond1 i k0_t1 = 1#1), ∀ a x, ((![v373] : Fin 1 → IVec S16 32) a x).toNat < S100000.size a)
instance k0_chk120.dec : ∀ (i : grid0.Coords) (k0_t1 : Fin k0_t1_loop.trips) (v373 : IVec S16 32), Decidable (k0_chk120 i k0_t1 v373) := fun i k0_t1 v373 => decidable_of_iff' _ (Iff.of_eq (k0_chk120.eq_1 i k0_t1 v373))
theorem k0_idx120_inb : ∀ (i : grid0.Coords) (k0_t1 : Fin k0_t1_loop.trips) (v373 : IVec S16 32) (k0_hw120 : k0_chk120 i k0_t1 v373), ∀ (k0_h1 : k0_cond1 i k0_t1 = 1#1), ∀ a x, ((![v373] : Fin 1 → IVec S16 32) a x).toNat < S100000.size a := fun i k0_t1 v373 k0_hw120 k0_h1 => k0_hw120 k0_h1

def k0_chk121 (i : grid0.Coords) (k0_t1 : Fin k0_t1_loop.trips) (v390 : IVec S16 32) : Prop :=
  (∀ (k0_h1 : k0_cond1 i k0_t1 = 1#1), ∀ a x, ((![v390] : Fin 1 → IVec S16 32) a x).toNat < S100000.size a)
instance k0_chk121.dec : ∀ (i : grid0.Coords) (k0_t1 : Fin k0_t1_loop.trips) (v390 : IVec S16 32), Decidable (k0_chk121 i k0_t1 v390) := fun i k0_t1 v390 => decidable_of_iff' _ (Iff.of_eq (k0_chk121.eq_1 i k0_t1 v390))
theorem k0_idx121_inb : ∀ (i : grid0.Coords) (k0_t1 : Fin k0_t1_loop.trips) (v390 : IVec S16 32) (k0_hw121 : k0_chk121 i k0_t1 v390), ∀ (k0_h1 : k0_cond1 i k0_t1 = 1#1), ∀ a x, ((![v390] : Fin 1 → IVec S16 32) a x).toNat < S100000.size a := fun i k0_t1 v390 k0_hw121 k0_h1 => k0_hw121 k0_h1

def k0_chk122 (i : grid0.Coords) (k0_t1 : Fin k0_t1_loop.trips) (v391 : IVec S16 32) : Prop :=
  (∀ (k0_h1 : k0_cond1 i k0_t1 = 1#1), ∀ a x, ((![v391] : Fin 1 → IVec S16 32) a x).toNat < S100000.size a)
instance k0_chk122.dec : ∀ (i : grid0.Coords) (k0_t1 : Fin k0_t1_loop.trips) (v391 : IVec S16 32), Decidable (k0_chk122 i k0_t1 v391) := fun i k0_t1 v391 => decidable_of_iff' _ (Iff.of_eq (k0_chk122.eq_1 i k0_t1 v391))
theorem k0_idx122_inb : ∀ (i : grid0.Coords) (k0_t1 : Fin k0_t1_loop.trips) (v391 : IVec S16 32) (k0_hw122 : k0_chk122 i k0_t1 v391), ∀ (k0_h1 : k0_cond1 i k0_t1 = 1#1), ∀ a x, ((![v391] : Fin 1 → IVec S16 32) a x).toNat < S100000.size a := fun i k0_t1 v391 k0_hw122 k0_h1 => k0_hw122 k0_h1

def k0_chk123 (i : grid0.Coords) (k0_t1 : Fin k0_t1_loop.trips) (v392 : IVec S16 32) : Prop :=
  (∀ (k0_h1 : k0_cond1 i k0_t1 = 1#1), ∀ a x, ((![v392] : Fin 1 → IVec S16 32) a x).toNat < S100000.size a)
instance k0_chk123.dec : ∀ (i : grid0.Coords) (k0_t1 : Fin k0_t1_loop.trips) (v392 : IVec S16 32), Decidable (k0_chk123 i k0_t1 v392) := fun i k0_t1 v392 => decidable_of_iff' _ (Iff.of_eq (k0_chk123.eq_1 i k0_t1 v392))
theorem k0_idx123_inb : ∀ (i : grid0.Coords) (k0_t1 : Fin k0_t1_loop.trips) (v392 : IVec S16 32) (k0_hw123 : k0_chk123 i k0_t1 v392), ∀ (k0_h1 : k0_cond1 i k0_t1 = 1#1), ∀ a x, ((![v392] : Fin 1 → IVec S16 32) a x).toNat < S100000.size a := fun i k0_t1 v392 k0_hw123 k0_h1 => k0_hw123 k0_h1

def k0_chk124 (i : grid0.Coords) (k0_t1 : Fin k0_t1_loop.trips) (v393 : IVec S16 32) : Prop :=
  (∀ (k0_h1 : k0_cond1 i k0_t1 = 1#1), ∀ a x, ((![v393] : Fin 1 → IVec S16 32) a x).toNat < S100000.size a)
instance k0_chk124.dec : ∀ (i : grid0.Coords) (k0_t1 : Fin k0_t1_loop.trips) (v393 : IVec S16 32), Decidable (k0_chk124 i k0_t1 v393) := fun i k0_t1 v393 => decidable_of_iff' _ (Iff.of_eq (k0_chk124.eq_1 i k0_t1 v393))
theorem k0_idx124_inb : ∀ (i : grid0.Coords) (k0_t1 : Fin k0_t1_loop.trips) (v393 : IVec S16 32) (k0_hw124 : k0_chk124 i k0_t1 v393), ∀ (k0_h1 : k0_cond1 i k0_t1 = 1#1), ∀ a x, ((![v393] : Fin 1 → IVec S16 32) a x).toNat < S100000.size a := fun i k0_t1 v393 k0_hw124 k0_h1 => k0_hw124 k0_h1

def k0_chk125 (i : grid0.Coords) (k0_t1 : Fin k0_t1_loop.trips) (v394 : IVec S16 32) : Prop :=
  (∀ (k0_h1 : k0_cond1 i k0_t1 = 1#1), ∀ a x, ((![v394] : Fin 1 → IVec S16 32) a x).toNat < S100000.size a)
instance k0_chk125.dec : ∀ (i : grid0.Coords) (k0_t1 : Fin k0_t1_loop.trips) (v394 : IVec S16 32), Decidable (k0_chk125 i k0_t1 v394) := fun i k0_t1 v394 => decidable_of_iff' _ (Iff.of_eq (k0_chk125.eq_1 i k0_t1 v394))
theorem k0_idx125_inb : ∀ (i : grid0.Coords) (k0_t1 : Fin k0_t1_loop.trips) (v394 : IVec S16 32) (k0_hw125 : k0_chk125 i k0_t1 v394), ∀ (k0_h1 : k0_cond1 i k0_t1 = 1#1), ∀ a x, ((![v394] : Fin 1 → IVec S16 32) a x).toNat < S100000.size a := fun i k0_t1 v394 k0_hw125 k0_h1 => k0_hw125 k0_h1

def k0_chk126 (i : grid0.Coords) (k0_t1 : Fin k0_t1_loop.trips) (v395 : IVec S16 32) : Prop :=
  (∀ (k0_h1 : k0_cond1 i k0_t1 = 1#1), ∀ a x, ((![v395] : Fin 1 → IVec S16 32) a x).toNat < S100000.size a)
instance k0_chk126.dec : ∀ (i : grid0.Coords) (k0_t1 : Fin k0_t1_loop.trips) (v395 : IVec S16 32), Decidable (k0_chk126 i k0_t1 v395) := fun i k0_t1 v395 => decidable_of_iff' _ (Iff.of_eq (k0_chk126.eq_1 i k0_t1 v395))
theorem k0_idx126_inb : ∀ (i : grid0.Coords) (k0_t1 : Fin k0_t1_loop.trips) (v395 : IVec S16 32) (k0_hw126 : k0_chk126 i k0_t1 v395), ∀ (k0_h1 : k0_cond1 i k0_t1 = 1#1), ∀ a x, ((![v395] : Fin 1 → IVec S16 32) a x).toNat < S100000.size a := fun i k0_t1 v395 k0_hw126 k0_h1 => k0_hw126 k0_h1

def k0_chk127 (i : grid0.Coords) (k0_t1 : Fin k0_t1_loop.trips) (v396 : IVec S16 32) : Prop :=
  (∀ (k0_h1 : k0_cond1 i k0_t1 = 1#1), ∀ a x, ((![v396] : Fin 1 → IVec S16 32) a x).toNat < S100000.size a)
instance k0_chk127.dec : ∀ (i : grid0.Coords) (k0_t1 : Fin k0_t1_loop.trips) (v396 : IVec S16 32), Decidable (k0_chk127 i k0_t1 v396) := fun i k0_t1 v396 => decidable_of_iff' _ (Iff.of_eq (k0_chk127.eq_1 i k0_t1 v396))
theorem k0_idx127_inb : ∀ (i : grid0.Coords) (k0_t1 : Fin k0_t1_loop.trips) (v396 : IVec S16 32) (k0_hw127 : k0_chk127 i k0_t1 v396), ∀ (k0_h1 : k0_cond1 i k0_t1 = 1#1), ∀ a x, ((![v396] : Fin 1 → IVec S16 32) a x).toNat < S100000.size a := fun i k0_t1 v396 k0_hw127 k0_h1 => k0_hw127 k0_h1

def k0_chk128 (i : grid0.Coords) (k0_t1 : Fin k0_t1_loop.trips) (v397 : IVec S16 32) : Prop :=
  (∀ (k0_h1 : k0_cond1 i k0_t1 = 1#1), ∀ a x, ((![v397] : Fin 1 → IVec S16 32) a x).toNat < S100000.size a)
instance k0_chk128.dec : ∀ (i : grid0.Coords) (k0_t1 : Fin k0_t1_loop.trips) (v397 : IVec S16 32), Decidable (k0_chk128 i k0_t1 v397) := fun i k0_t1 v397 => decidable_of_iff' _ (Iff.of_eq (k0_chk128.eq_1 i k0_t1 v397))
theorem k0_idx128_inb : ∀ (i : grid0.Coords) (k0_t1 : Fin k0_t1_loop.trips) (v397 : IVec S16 32) (k0_hw128 : k0_chk128 i k0_t1 v397), ∀ (k0_h1 : k0_cond1 i k0_t1 = 1#1), ∀ a x, ((![v397] : Fin 1 → IVec S16 32) a x).toNat < S100000.size a := fun i k0_t1 v397 k0_hw128 k0_h1 => k0_hw128 k0_h1

def k0_chk129 (i : grid0.Coords) (k0_t1 : Fin k0_t1_loop.trips) (v414 : IVec S16 32) : Prop :=
  (∀ (k0_h1 : k0_cond1 i k0_t1 = 1#1), ∀ a x, ((![v414] : Fin 1 → IVec S16 32) a x).toNat < S100000.size a)
instance k0_chk129.dec : ∀ (i : grid0.Coords) (k0_t1 : Fin k0_t1_loop.trips) (v414 : IVec S16 32), Decidable (k0_chk129 i k0_t1 v414) := fun i k0_t1 v414 => decidable_of_iff' _ (Iff.of_eq (k0_chk129.eq_1 i k0_t1 v414))
theorem k0_idx129_inb : ∀ (i : grid0.Coords) (k0_t1 : Fin k0_t1_loop.trips) (v414 : IVec S16 32) (k0_hw129 : k0_chk129 i k0_t1 v414), ∀ (k0_h1 : k0_cond1 i k0_t1 = 1#1), ∀ a x, ((![v414] : Fin 1 → IVec S16 32) a x).toNat < S100000.size a := fun i k0_t1 v414 k0_hw129 k0_h1 => k0_hw129 k0_h1

def k0_chk130 (i : grid0.Coords) (k0_t1 : Fin k0_t1_loop.trips) (v415 : IVec S16 32) : Prop :=
  (∀ (k0_h1 : k0_cond1 i k0_t1 = 1#1), ∀ a x, ((![v415] : Fin 1 → IVec S16 32) a x).toNat < S100000.size a)
instance k0_chk130.dec : ∀ (i : grid0.Coords) (k0_t1 : Fin k0_t1_loop.trips) (v415 : IVec S16 32), Decidable (k0_chk130 i k0_t1 v415) := fun i k0_t1 v415 => decidable_of_iff' _ (Iff.of_eq (k0_chk130.eq_1 i k0_t1 v415))
theorem k0_idx130_inb : ∀ (i : grid0.Coords) (k0_t1 : Fin k0_t1_loop.trips) (v415 : IVec S16 32) (k0_hw130 : k0_chk130 i k0_t1 v415), ∀ (k0_h1 : k0_cond1 i k0_t1 = 1#1), ∀ a x, ((![v415] : Fin 1 → IVec S16 32) a x).toNat < S100000.size a := fun i k0_t1 v415 k0_hw130 k0_h1 => k0_hw130 k0_h1

def k0_chk131 (i : grid0.Coords) (k0_t1 : Fin k0_t1_loop.trips) (v416 : IVec S16 32) : Prop :=
  (∀ (k0_h1 : k0_cond1 i k0_t1 = 1#1), ∀ a x, ((![v416] : Fin 1 → IVec S16 32) a x).toNat < S100000.size a)
instance k0_chk131.dec : ∀ (i : grid0.Coords) (k0_t1 : Fin k0_t1_loop.trips) (v416 : IVec S16 32), Decidable (k0_chk131 i k0_t1 v416) := fun i k0_t1 v416 => decidable_of_iff' _ (Iff.of_eq (k0_chk131.eq_1 i k0_t1 v416))
theorem k0_idx131_inb : ∀ (i : grid0.Coords) (k0_t1 : Fin k0_t1_loop.trips) (v416 : IVec S16 32) (k0_hw131 : k0_chk131 i k0_t1 v416), ∀ (k0_h1 : k0_cond1 i k0_t1 = 1#1), ∀ a x, ((![v416] : Fin 1 → IVec S16 32) a x).toNat < S100000.size a := fun i k0_t1 v416 k0_hw131 k0_h1 => k0_hw131 k0_h1

def k0_chk132 (i : grid0.Coords) (k0_t1 : Fin k0_t1_loop.trips) (v417 : IVec S16 32) : Prop :=
  (∀ (k0_h1 : k0_cond1 i k0_t1 = 1#1), ∀ a x, ((![v417] : Fin 1 → IVec S16 32) a x).toNat < S100000.size a)
instance k0_chk132.dec : ∀ (i : grid0.Coords) (k0_t1 : Fin k0_t1_loop.trips) (v417 : IVec S16 32), Decidable (k0_chk132 i k0_t1 v417) := fun i k0_t1 v417 => decidable_of_iff' _ (Iff.of_eq (k0_chk132.eq_1 i k0_t1 v417))
theorem k0_idx132_inb : ∀ (i : grid0.Coords) (k0_t1 : Fin k0_t1_loop.trips) (v417 : IVec S16 32) (k0_hw132 : k0_chk132 i k0_t1 v417), ∀ (k0_h1 : k0_cond1 i k0_t1 = 1#1), ∀ a x, ((![v417] : Fin 1 → IVec S16 32) a x).toNat < S100000.size a := fun i k0_t1 v417 k0_hw132 k0_h1 => k0_hw132 k0_h1

def k0_chk133 (i : grid0.Coords) (k0_t1 : Fin k0_t1_loop.trips) (v418 : IVec S16 32) : Prop :=
  (∀ (k0_h1 : k0_cond1 i k0_t1 = 1#1), ∀ a x, ((![v418] : Fin 1 → IVec S16 32) a x).toNat < S100000.size a)
instance k0_chk133.dec : ∀ (i : grid0.Coords) (k0_t1 : Fin k0_t1_loop.trips) (v418 : IVec S16 32), Decidable (k0_chk133 i k0_t1 v418) := fun i k0_t1 v418 => decidable_of_iff' _ (Iff.of_eq (k0_chk133.eq_1 i k0_t1 v418))
theorem k0_idx133_inb : ∀ (i : grid0.Coords) (k0_t1 : Fin k0_t1_loop.trips) (v418 : IVec S16 32) (k0_hw133 : k0_chk133 i k0_t1 v418), ∀ (k0_h1 : k0_cond1 i k0_t1 = 1#1), ∀ a x, ((![v418] : Fin 1 → IVec S16 32) a x).toNat < S100000.size a := fun i k0_t1 v418 k0_hw133 k0_h1 => k0_hw133 k0_h1

def k0_chk134 (i : grid0.Coords) (k0_t1 : Fin k0_t1_loop.trips) (v419 : IVec S16 32) : Prop :=
  (∀ (k0_h1 : k0_cond1 i k0_t1 = 1#1), ∀ a x, ((![v419] : Fin 1 → IVec S16 32) a x).toNat < S100000.size a)
instance k0_chk134.dec : ∀ (i : grid0.Coords) (k0_t1 : Fin k0_t1_loop.trips) (v419 : IVec S16 32), Decidable (k0_chk134 i k0_t1 v419) := fun i k0_t1 v419 => decidable_of_iff' _ (Iff.of_eq (k0_chk134.eq_1 i k0_t1 v419))
theorem k0_idx134_inb : ∀ (i : grid0.Coords) (k0_t1 : Fin k0_t1_loop.trips) (v419 : IVec S16 32) (k0_hw134 : k0_chk134 i k0_t1 v419), ∀ (k0_h1 : k0_cond1 i k0_t1 = 1#1), ∀ a x, ((![v419] : Fin 1 → IVec S16 32) a x).toNat < S100000.size a := fun i k0_t1 v419 k0_hw134 k0_h1 => k0_hw134 k0_h1

def k0_chk135 (i : grid0.Coords) (k0_t1 : Fin k0_t1_loop.trips) (v420 : IVec S16 32) : Prop :=
  (∀ (k0_h1 : k0_cond1 i k0_t1 = 1#1), ∀ a x, ((![v420] : Fin 1 → IVec S16 32) a x).toNat < S100000.size a)
instance k0_chk135.dec : ∀ (i : grid0.Coords) (k0_t1 : Fin k0_t1_loop.trips) (v420 : IVec S16 32), Decidable (k0_chk135 i k0_t1 v420) := fun i k0_t1 v420 => decidable_of_iff' _ (Iff.of_eq (k0_chk135.eq_1 i k0_t1 v420))
theorem k0_idx135_inb : ∀ (i : grid0.Coords) (k0_t1 : Fin k0_t1_loop.trips) (v420 : IVec S16 32) (k0_hw135 : k0_chk135 i k0_t1 v420), ∀ (k0_h1 : k0_cond1 i k0_t1 = 1#1), ∀ a x, ((![v420] : Fin 1 → IVec S16 32) a x).toNat < S100000.size a := fun i k0_t1 v420 k0_hw135 k0_h1 => k0_hw135 k0_h1

def k0_chk136 (i : grid0.Coords) (k0_t1 : Fin k0_t1_loop.trips) (v421 : IVec S16 32) : Prop :=
  (∀ (k0_h1 : k0_cond1 i k0_t1 = 1#1), ∀ a x, ((![v421] : Fin 1 → IVec S16 32) a x).toNat < S100000.size a)
instance k0_chk136.dec : ∀ (i : grid0.Coords) (k0_t1 : Fin k0_t1_loop.trips) (v421 : IVec S16 32), Decidable (k0_chk136 i k0_t1 v421) := fun i k0_t1 v421 => decidable_of_iff' _ (Iff.of_eq (k0_chk136.eq_1 i k0_t1 v421))
theorem k0_idx136_inb : ∀ (i : grid0.Coords) (k0_t1 : Fin k0_t1_loop.trips) (v421 : IVec S16 32) (k0_hw136 : k0_chk136 i k0_t1 v421), ∀ (k0_h1 : k0_cond1 i k0_t1 = 1#1), ∀ a x, ((![v421] : Fin 1 → IVec S16 32) a x).toNat < S100000.size a := fun i k0_t1 v421 k0_hw136 k0_h1 => k0_hw136 k0_h1

def k0_chk137 (i : grid0.Coords) (k0_t1 : Fin k0_t1_loop.trips) (v438 : IVec S16 32) : Prop :=
  (∀ (k0_h1 : k0_cond1 i k0_t1 = 1#1), ∀ a x, ((![v438] : Fin 1 → IVec S16 32) a x).toNat < S100000.size a)
instance k0_chk137.dec : ∀ (i : grid0.Coords) (k0_t1 : Fin k0_t1_loop.trips) (v438 : IVec S16 32), Decidable (k0_chk137 i k0_t1 v438) := fun i k0_t1 v438 => decidable_of_iff' _ (Iff.of_eq (k0_chk137.eq_1 i k0_t1 v438))
theorem k0_idx137_inb : ∀ (i : grid0.Coords) (k0_t1 : Fin k0_t1_loop.trips) (v438 : IVec S16 32) (k0_hw137 : k0_chk137 i k0_t1 v438), ∀ (k0_h1 : k0_cond1 i k0_t1 = 1#1), ∀ a x, ((![v438] : Fin 1 → IVec S16 32) a x).toNat < S100000.size a := fun i k0_t1 v438 k0_hw137 k0_h1 => k0_hw137 k0_h1

def k0_chk138 (i : grid0.Coords) (k0_t1 : Fin k0_t1_loop.trips) (v439 : IVec S16 32) : Prop :=
  (∀ (k0_h1 : k0_cond1 i k0_t1 = 1#1), ∀ a x, ((![v439] : Fin 1 → IVec S16 32) a x).toNat < S100000.size a)
instance k0_chk138.dec : ∀ (i : grid0.Coords) (k0_t1 : Fin k0_t1_loop.trips) (v439 : IVec S16 32), Decidable (k0_chk138 i k0_t1 v439) := fun i k0_t1 v439 => decidable_of_iff' _ (Iff.of_eq (k0_chk138.eq_1 i k0_t1 v439))
theorem k0_idx138_inb : ∀ (i : grid0.Coords) (k0_t1 : Fin k0_t1_loop.trips) (v439 : IVec S16 32) (k0_hw138 : k0_chk138 i k0_t1 v439), ∀ (k0_h1 : k0_cond1 i k0_t1 = 1#1), ∀ a x, ((![v439] : Fin 1 → IVec S16 32) a x).toNat < S100000.size a := fun i k0_t1 v439 k0_hw138 k0_h1 => k0_hw138 k0_h1

def k0_chk139 (i : grid0.Coords) (k0_t1 : Fin k0_t1_loop.trips) (v440 : IVec S16 32) : Prop :=
  (∀ (k0_h1 : k0_cond1 i k0_t1 = 1#1), ∀ a x, ((![v440] : Fin 1 → IVec S16 32) a x).toNat < S100000.size a)
instance k0_chk139.dec : ∀ (i : grid0.Coords) (k0_t1 : Fin k0_t1_loop.trips) (v440 : IVec S16 32), Decidable (k0_chk139 i k0_t1 v440) := fun i k0_t1 v440 => decidable_of_iff' _ (Iff.of_eq (k0_chk139.eq_1 i k0_t1 v440))
theorem k0_idx139_inb : ∀ (i : grid0.Coords) (k0_t1 : Fin k0_t1_loop.trips) (v440 : IVec S16 32) (k0_hw139 : k0_chk139 i k0_t1 v440), ∀ (k0_h1 : k0_cond1 i k0_t1 = 1#1), ∀ a x, ((![v440] : Fin 1 → IVec S16 32) a x).toNat < S100000.size a := fun i k0_t1 v440 k0_hw139 k0_h1 => k0_hw139 k0_h1

def k0_chk140 (i : grid0.Coords) (k0_t1 : Fin k0_t1_loop.trips) (v441 : IVec S16 32) : Prop :=
  (∀ (k0_h1 : k0_cond1 i k0_t1 = 1#1), ∀ a x, ((![v441] : Fin 1 → IVec S16 32) a x).toNat < S100000.size a)
instance k0_chk140.dec : ∀ (i : grid0.Coords) (k0_t1 : Fin k0_t1_loop.trips) (v441 : IVec S16 32), Decidable (k0_chk140 i k0_t1 v441) := fun i k0_t1 v441 => decidable_of_iff' _ (Iff.of_eq (k0_chk140.eq_1 i k0_t1 v441))
theorem k0_idx140_inb : ∀ (i : grid0.Coords) (k0_t1 : Fin k0_t1_loop.trips) (v441 : IVec S16 32) (k0_hw140 : k0_chk140 i k0_t1 v441), ∀ (k0_h1 : k0_cond1 i k0_t1 = 1#1), ∀ a x, ((![v441] : Fin 1 → IVec S16 32) a x).toNat < S100000.size a := fun i k0_t1 v441 k0_hw140 k0_h1 => k0_hw140 k0_h1

def k0_chk141 (i : grid0.Coords) (k0_t1 : Fin k0_t1_loop.trips) (v442 : IVec S16 32) : Prop :=
  (∀ (k0_h1 : k0_cond1 i k0_t1 = 1#1), ∀ a x, ((![v442] : Fin 1 → IVec S16 32) a x).toNat < S100000.size a)
instance k0_chk141.dec : ∀ (i : grid0.Coords) (k0_t1 : Fin k0_t1_loop.trips) (v442 : IVec S16 32), Decidable (k0_chk141 i k0_t1 v442) := fun i k0_t1 v442 => decidable_of_iff' _ (Iff.of_eq (k0_chk141.eq_1 i k0_t1 v442))
theorem k0_idx141_inb : ∀ (i : grid0.Coords) (k0_t1 : Fin k0_t1_loop.trips) (v442 : IVec S16 32) (k0_hw141 : k0_chk141 i k0_t1 v442), ∀ (k0_h1 : k0_cond1 i k0_t1 = 1#1), ∀ a x, ((![v442] : Fin 1 → IVec S16 32) a x).toNat < S100000.size a := fun i k0_t1 v442 k0_hw141 k0_h1 => k0_hw141 k0_h1

def k0_chk142 (i : grid0.Coords) (k0_t1 : Fin k0_t1_loop.trips) (v443 : IVec S16 32) : Prop :=
  (∀ (k0_h1 : k0_cond1 i k0_t1 = 1#1), ∀ a x, ((![v443] : Fin 1 → IVec S16 32) a x).toNat < S100000.size a)
instance k0_chk142.dec : ∀ (i : grid0.Coords) (k0_t1 : Fin k0_t1_loop.trips) (v443 : IVec S16 32), Decidable (k0_chk142 i k0_t1 v443) := fun i k0_t1 v443 => decidable_of_iff' _ (Iff.of_eq (k0_chk142.eq_1 i k0_t1 v443))
theorem k0_idx142_inb : ∀ (i : grid0.Coords) (k0_t1 : Fin k0_t1_loop.trips) (v443 : IVec S16 32) (k0_hw142 : k0_chk142 i k0_t1 v443), ∀ (k0_h1 : k0_cond1 i k0_t1 = 1#1), ∀ a x, ((![v443] : Fin 1 → IVec S16 32) a x).toNat < S100000.size a := fun i k0_t1 v443 k0_hw142 k0_h1 => k0_hw142 k0_h1

def k0_chk143 (i : grid0.Coords) (k0_t1 : Fin k0_t1_loop.trips) (v444 : IVec S16 32) : Prop :=
  (∀ (k0_h1 : k0_cond1 i k0_t1 = 1#1), ∀ a x, ((![v444] : Fin 1 → IVec S16 32) a x).toNat < S100000.size a)
instance k0_chk143.dec : ∀ (i : grid0.Coords) (k0_t1 : Fin k0_t1_loop.trips) (v444 : IVec S16 32), Decidable (k0_chk143 i k0_t1 v444) := fun i k0_t1 v444 => decidable_of_iff' _ (Iff.of_eq (k0_chk143.eq_1 i k0_t1 v444))
theorem k0_idx143_inb : ∀ (i : grid0.Coords) (k0_t1 : Fin k0_t1_loop.trips) (v444 : IVec S16 32) (k0_hw143 : k0_chk143 i k0_t1 v444), ∀ (k0_h1 : k0_cond1 i k0_t1 = 1#1), ∀ a x, ((![v444] : Fin 1 → IVec S16 32) a x).toNat < S100000.size a := fun i k0_t1 v444 k0_hw143 k0_h1 => k0_hw143 k0_h1

def k0_chk144 (i : grid0.Coords) (k0_t1 : Fin k0_t1_loop.trips) (v445 : IVec S16 32) : Prop :=
  (∀ (k0_h1 : k0_cond1 i k0_t1 = 1#1), ∀ a x, ((![v445] : Fin 1 → IVec S16 32) a x).toNat < S100000.size a)
instance k0_chk144.dec : ∀ (i : grid0.Coords) (k0_t1 : Fin k0_t1_loop.trips) (v445 : IVec S16 32), Decidable (k0_chk144 i k0_t1 v445) := fun i k0_t1 v445 => decidable_of_iff' _ (Iff.of_eq (k0_chk144.eq_1 i k0_t1 v445))
theorem k0_idx144_inb : ∀ (i : grid0.Coords) (k0_t1 : Fin k0_t1_loop.trips) (v445 : IVec S16 32) (k0_hw144 : k0_chk144 i k0_t1 v445), ∀ (k0_h1 : k0_cond1 i k0_t1 = 1#1), ∀ a x, ((![v445] : Fin 1 → IVec S16 32) a x).toNat < S100000.size a := fun i k0_t1 v445 k0_hw144 k0_h1 => k0_hw144 k0_h1

def k0_chk145 (i : grid0.Coords) (k0_t1 : Fin k0_t1_loop.trips) (v462 : IVec S16 32) : Prop :=
  (∀ (k0_h1 : k0_cond1 i k0_t1 = 1#1), ∀ a x, ((![v462] : Fin 1 → IVec S16 32) a x).toNat < S100000.size a)
instance k0_chk145.dec : ∀ (i : grid0.Coords) (k0_t1 : Fin k0_t1_loop.trips) (v462 : IVec S16 32), Decidable (k0_chk145 i k0_t1 v462) := fun i k0_t1 v462 => decidable_of_iff' _ (Iff.of_eq (k0_chk145.eq_1 i k0_t1 v462))
theorem k0_idx145_inb : ∀ (i : grid0.Coords) (k0_t1 : Fin k0_t1_loop.trips) (v462 : IVec S16 32) (k0_hw145 : k0_chk145 i k0_t1 v462), ∀ (k0_h1 : k0_cond1 i k0_t1 = 1#1), ∀ a x, ((![v462] : Fin 1 → IVec S16 32) a x).toNat < S100000.size a := fun i k0_t1 v462 k0_hw145 k0_h1 => k0_hw145 k0_h1

def k0_chk146 (i : grid0.Coords) (k0_t1 : Fin k0_t1_loop.trips) (v463 : IVec S16 32) : Prop :=
  (∀ (k0_h1 : k0_cond1 i k0_t1 = 1#1), ∀ a x, ((![v463] : Fin 1 → IVec S16 32) a x).toNat < S100000.size a)
instance k0_chk146.dec : ∀ (i : grid0.Coords) (k0_t1 : Fin k0_t1_loop.trips) (v463 : IVec S16 32), Decidable (k0_chk146 i k0_t1 v463) := fun i k0_t1 v463 => decidable_of_iff' _ (Iff.of_eq (k0_chk146.eq_1 i k0_t1 v463))
theorem k0_idx146_inb : ∀ (i : grid0.Coords) (k0_t1 : Fin k0_t1_loop.trips) (v463 : IVec S16 32) (k0_hw146 : k0_chk146 i k0_t1 v463), ∀ (k0_h1 : k0_cond1 i k0_t1 = 1#1), ∀ a x, ((![v463] : Fin 1 → IVec S16 32) a x).toNat < S100000.size a := fun i k0_t1 v463 k0_hw146 k0_h1 => k0_hw146 k0_h1

def k0_chk147 (i : grid0.Coords) (k0_t1 : Fin k0_t1_loop.trips) (v464 : IVec S16 32) : Prop :=
  (∀ (k0_h1 : k0_cond1 i k0_t1 = 1#1), ∀ a x, ((![v464] : Fin 1 → IVec S16 32) a x).toNat < S100000.size a)
instance k0_chk147.dec : ∀ (i : grid0.Coords) (k0_t1 : Fin k0_t1_loop.trips) (v464 : IVec S16 32), Decidable (k0_chk147 i k0_t1 v464) := fun i k0_t1 v464 => decidable_of_iff' _ (Iff.of_eq (k0_chk147.eq_1 i k0_t1 v464))
theorem k0_idx147_inb : ∀ (i : grid0.Coords) (k0_t1 : Fin k0_t1_loop.trips) (v464 : IVec S16 32) (k0_hw147 : k0_chk147 i k0_t1 v464), ∀ (k0_h1 : k0_cond1 i k0_t1 = 1#1), ∀ a x, ((![v464] : Fin 1 → IVec S16 32) a x).toNat < S100000.size a := fun i k0_t1 v464 k0_hw147 k0_h1 => k0_hw147 k0_h1

def k0_chk148 (i : grid0.Coords) (k0_t1 : Fin k0_t1_loop.trips) (v465 : IVec S16 32) : Prop :=
  (∀ (k0_h1 : k0_cond1 i k0_t1 = 1#1), ∀ a x, ((![v465] : Fin 1 → IVec S16 32) a x).toNat < S100000.size a)
instance k0_chk148.dec : ∀ (i : grid0.Coords) (k0_t1 : Fin k0_t1_loop.trips) (v465 : IVec S16 32), Decidable (k0_chk148 i k0_t1 v465) := fun i k0_t1 v465 => decidable_of_iff' _ (Iff.of_eq (k0_chk148.eq_1 i k0_t1 v465))
theorem k0_idx148_inb : ∀ (i : grid0.Coords) (k0_t1 : Fin k0_t1_loop.trips) (v465 : IVec S16 32) (k0_hw148 : k0_chk148 i k0_t1 v465), ∀ (k0_h1 : k0_cond1 i k0_t1 = 1#1), ∀ a x, ((![v465] : Fin 1 → IVec S16 32) a x).toNat < S100000.size a := fun i k0_t1 v465 k0_hw148 k0_h1 => k0_hw148 k0_h1

def k0_chk149 (i : grid0.Coords) (k0_t1 : Fin k0_t1_loop.trips) (v466 : IVec S16 32) : Prop :=
  (∀ (k0_h1 : k0_cond1 i k0_t1 = 1#1), ∀ a x, ((![v466] : Fin 1 → IVec S16 32) a x).toNat < S100000.size a)
instance k0_chk149.dec : ∀ (i : grid0.Coords) (k0_t1 : Fin k0_t1_loop.trips) (v466 : IVec S16 32), Decidable (k0_chk149 i k0_t1 v466) := fun i k0_t1 v466 => decidable_of_iff' _ (Iff.of_eq (k0_chk149.eq_1 i k0_t1 v466))
theorem k0_idx149_inb : ∀ (i : grid0.Coords) (k0_t1 : Fin k0_t1_loop.trips) (v466 : IVec S16 32) (k0_hw149 : k0_chk149 i k0_t1 v466), ∀ (k0_h1 : k0_cond1 i k0_t1 = 1#1), ∀ a x, ((![v466] : Fin 1 → IVec S16 32) a x).toNat < S100000.size a := fun i k0_t1 v466 k0_hw149 k0_h1 => k0_hw149 k0_h1

def k0_chk150 (i : grid0.Coords) (k0_t1 : Fin k0_t1_loop.trips) (v467 : IVec S16 32) : Prop :=
  (∀ (k0_h1 : k0_cond1 i k0_t1 = 1#1), ∀ a x, ((![v467] : Fin 1 → IVec S16 32) a x).toNat < S100000.size a)
instance k0_chk150.dec : ∀ (i : grid0.Coords) (k0_t1 : Fin k0_t1_loop.trips) (v467 : IVec S16 32), Decidable (k0_chk150 i k0_t1 v467) := fun i k0_t1 v467 => decidable_of_iff' _ (Iff.of_eq (k0_chk150.eq_1 i k0_t1 v467))
theorem k0_idx150_inb : ∀ (i : grid0.Coords) (k0_t1 : Fin k0_t1_loop.trips) (v467 : IVec S16 32) (k0_hw150 : k0_chk150 i k0_t1 v467), ∀ (k0_h1 : k0_cond1 i k0_t1 = 1#1), ∀ a x, ((![v467] : Fin 1 → IVec S16 32) a x).toNat < S100000.size a := fun i k0_t1 v467 k0_hw150 k0_h1 => k0_hw150 k0_h1

def k0_chk151 (i : grid0.Coords) (k0_t1 : Fin k0_t1_loop.trips) (v468 : IVec S16 32) : Prop :=
  (∀ (k0_h1 : k0_cond1 i k0_t1 = 1#1), ∀ a x, ((![v468] : Fin 1 → IVec S16 32) a x).toNat < S100000.size a)
instance k0_chk151.dec : ∀ (i : grid0.Coords) (k0_t1 : Fin k0_t1_loop.trips) (v468 : IVec S16 32), Decidable (k0_chk151 i k0_t1 v468) := fun i k0_t1 v468 => decidable_of_iff' _ (Iff.of_eq (k0_chk151.eq_1 i k0_t1 v468))
theorem k0_idx151_inb : ∀ (i : grid0.Coords) (k0_t1 : Fin k0_t1_loop.trips) (v468 : IVec S16 32) (k0_hw151 : k0_chk151 i k0_t1 v468), ∀ (k0_h1 : k0_cond1 i k0_t1 = 1#1), ∀ a x, ((![v468] : Fin 1 → IVec S16 32) a x).toNat < S100000.size a := fun i k0_t1 v468 k0_hw151 k0_h1 => k0_hw151 k0_h1

def k0_chk152 (i : grid0.Coords) (k0_t1 : Fin k0_t1_loop.trips) (v469 : IVec S16 32) : Prop :=
  (∀ (k0_h1 : k0_cond1 i k0_t1 = 1#1), ∀ a x, ((![v469] : Fin 1 → IVec S16 32) a x).toNat < S100000.size a)
instance k0_chk152.dec : ∀ (i : grid0.Coords) (k0_t1 : Fin k0_t1_loop.trips) (v469 : IVec S16 32), Decidable (k0_chk152 i k0_t1 v469) := fun i k0_t1 v469 => decidable_of_iff' _ (Iff.of_eq (k0_chk152.eq_1 i k0_t1 v469))
theorem k0_idx152_inb : ∀ (i : grid0.Coords) (k0_t1 : Fin k0_t1_loop.trips) (v469 : IVec S16 32) (k0_hw152 : k0_chk152 i k0_t1 v469), ∀ (k0_h1 : k0_cond1 i k0_t1 = 1#1), ∀ a x, ((![v469] : Fin 1 → IVec S16 32) a x).toNat < S100000.size a := fun i k0_t1 v469 k0_hw152 k0_h1 => k0_hw152 k0_h1

def k0_chk153 (i : grid0.Coords) (k0_t1 : Fin k0_t1_loop.trips) (v486 : IVec S16 32) : Prop :=
  (∀ (k0_h1 : k0_cond1 i k0_t1 = 1#1), ∀ a x, ((![v486] : Fin 1 → IVec S16 32) a x).toNat < S100000.size a)
instance k0_chk153.dec : ∀ (i : grid0.Coords) (k0_t1 : Fin k0_t1_loop.trips) (v486 : IVec S16 32), Decidable (k0_chk153 i k0_t1 v486) := fun i k0_t1 v486 => decidable_of_iff' _ (Iff.of_eq (k0_chk153.eq_1 i k0_t1 v486))
theorem k0_idx153_inb : ∀ (i : grid0.Coords) (k0_t1 : Fin k0_t1_loop.trips) (v486 : IVec S16 32) (k0_hw153 : k0_chk153 i k0_t1 v486), ∀ (k0_h1 : k0_cond1 i k0_t1 = 1#1), ∀ a x, ((![v486] : Fin 1 → IVec S16 32) a x).toNat < S100000.size a := fun i k0_t1 v486 k0_hw153 k0_h1 => k0_hw153 k0_h1

def k0_chk154 (i : grid0.Coords) (k0_t1 : Fin k0_t1_loop.trips) (v487 : IVec S16 32) : Prop :=
  (∀ (k0_h1 : k0_cond1 i k0_t1 = 1#1), ∀ a x, ((![v487] : Fin 1 → IVec S16 32) a x).toNat < S100000.size a)
instance k0_chk154.dec : ∀ (i : grid0.Coords) (k0_t1 : Fin k0_t1_loop.trips) (v487 : IVec S16 32), Decidable (k0_chk154 i k0_t1 v487) := fun i k0_t1 v487 => decidable_of_iff' _ (Iff.of_eq (k0_chk154.eq_1 i k0_t1 v487))
theorem k0_idx154_inb : ∀ (i : grid0.Coords) (k0_t1 : Fin k0_t1_loop.trips) (v487 : IVec S16 32) (k0_hw154 : k0_chk154 i k0_t1 v487), ∀ (k0_h1 : k0_cond1 i k0_t1 = 1#1), ∀ a x, ((![v487] : Fin 1 → IVec S16 32) a x).toNat < S100000.size a := fun i k0_t1 v487 k0_hw154 k0_h1 => k0_hw154 k0_h1

def k0_chk155 (i : grid0.Coords) (k0_t1 : Fin k0_t1_loop.trips) (v488 : IVec S16 32) : Prop :=
  (∀ (k0_h1 : k0_cond1 i k0_t1 = 1#1), ∀ a x, ((![v488] : Fin 1 → IVec S16 32) a x).toNat < S100000.size a)
instance k0_chk155.dec : ∀ (i : grid0.Coords) (k0_t1 : Fin k0_t1_loop.trips) (v488 : IVec S16 32), Decidable (k0_chk155 i k0_t1 v488) := fun i k0_t1 v488 => decidable_of_iff' _ (Iff.of_eq (k0_chk155.eq_1 i k0_t1 v488))
theorem k0_idx155_inb : ∀ (i : grid0.Coords) (k0_t1 : Fin k0_t1_loop.trips) (v488 : IVec S16 32) (k0_hw155 : k0_chk155 i k0_t1 v488), ∀ (k0_h1 : k0_cond1 i k0_t1 = 1#1), ∀ a x, ((![v488] : Fin 1 → IVec S16 32) a x).toNat < S100000.size a := fun i k0_t1 v488 k0_hw155 k0_h1 => k0_hw155 k0_h1

def k0_chk156 (i : grid0.Coords) (k0_t1 : Fin k0_t1_loop.trips) (v489 : IVec S16 32) : Prop :=
  (∀ (k0_h1 : k0_cond1 i k0_t1 = 1#1), ∀ a x, ((![v489] : Fin 1 → IVec S16 32) a x).toNat < S100000.size a)
instance k0_chk156.dec : ∀ (i : grid0.Coords) (k0_t1 : Fin k0_t1_loop.trips) (v489 : IVec S16 32), Decidable (k0_chk156 i k0_t1 v489) := fun i k0_t1 v489 => decidable_of_iff' _ (Iff.of_eq (k0_chk156.eq_1 i k0_t1 v489))
theorem k0_idx156_inb : ∀ (i : grid0.Coords) (k0_t1 : Fin k0_t1_loop.trips) (v489 : IVec S16 32) (k0_hw156 : k0_chk156 i k0_t1 v489), ∀ (k0_h1 : k0_cond1 i k0_t1 = 1#1), ∀ a x, ((![v489] : Fin 1 → IVec S16 32) a x).toNat < S100000.size a := fun i k0_t1 v489 k0_hw156 k0_h1 => k0_hw156 k0_h1

def k0_chk157 (i : grid0.Coords) (k0_t1 : Fin k0_t1_loop.trips) (v490 : IVec S16 32) : Prop :=
  (∀ (k0_h1 : k0_cond1 i k0_t1 = 1#1), ∀ a x, ((![v490] : Fin 1 → IVec S16 32) a x).toNat < S100000.size a)
instance k0_chk157.dec : ∀ (i : grid0.Coords) (k0_t1 : Fin k0_t1_loop.trips) (v490 : IVec S16 32), Decidable (k0_chk157 i k0_t1 v490) := fun i k0_t1 v490 => decidable_of_iff' _ (Iff.of_eq (k0_chk157.eq_1 i k0_t1 v490))
theorem k0_idx157_inb : ∀ (i : grid0.Coords) (k0_t1 : Fin k0_t1_loop.trips) (v490 : IVec S16 32) (k0_hw157 : k0_chk157 i k0_t1 v490), ∀ (k0_h1 : k0_cond1 i k0_t1 = 1#1), ∀ a x, ((![v490] : Fin 1 → IVec S16 32) a x).toNat < S100000.size a := fun i k0_t1 v490 k0_hw157 k0_h1 => k0_hw157 k0_h1

def k0_chk158 (i : grid0.Coords) (k0_t1 : Fin k0_t1_loop.trips) (v491 : IVec S16 32) : Prop :=
  (∀ (k0_h1 : k0_cond1 i k0_t1 = 1#1), ∀ a x, ((![v491] : Fin 1 → IVec S16 32) a x).toNat < S100000.size a)
instance k0_chk158.dec : ∀ (i : grid0.Coords) (k0_t1 : Fin k0_t1_loop.trips) (v491 : IVec S16 32), Decidable (k0_chk158 i k0_t1 v491) := fun i k0_t1 v491 => decidable_of_iff' _ (Iff.of_eq (k0_chk158.eq_1 i k0_t1 v491))
theorem k0_idx158_inb : ∀ (i : grid0.Coords) (k0_t1 : Fin k0_t1_loop.trips) (v491 : IVec S16 32) (k0_hw158 : k0_chk158 i k0_t1 v491), ∀ (k0_h1 : k0_cond1 i k0_t1 = 1#1), ∀ a x, ((![v491] : Fin 1 → IVec S16 32) a x).toNat < S100000.size a := fun i k0_t1 v491 k0_hw158 k0_h1 => k0_hw158 k0_h1

def k0_chk159 (i : grid0.Coords) (k0_t1 : Fin k0_t1_loop.trips) (v492 : IVec S16 32) : Prop :=
  (∀ (k0_h1 : k0_cond1 i k0_t1 = 1#1), ∀ a x, ((![v492] : Fin 1 → IVec S16 32) a x).toNat < S100000.size a)
instance k0_chk159.dec : ∀ (i : grid0.Coords) (k0_t1 : Fin k0_t1_loop.trips) (v492 : IVec S16 32), Decidable (k0_chk159 i k0_t1 v492) := fun i k0_t1 v492 => decidable_of_iff' _ (Iff.of_eq (k0_chk159.eq_1 i k0_t1 v492))
theorem k0_idx159_inb : ∀ (i : grid0.Coords) (k0_t1 : Fin k0_t1_loop.trips) (v492 : IVec S16 32) (k0_hw159 : k0_chk159 i k0_t1 v492), ∀ (k0_h1 : k0_cond1 i k0_t1 = 1#1), ∀ a x, ((![v492] : Fin 1 → IVec S16 32) a x).toNat < S100000.size a := fun i k0_t1 v492 k0_hw159 k0_h1 => k0_hw159 k0_h1

def k0_chk160 (i : grid0.Coords) (k0_t1 : Fin k0_t1_loop.trips) (v493 : IVec S16 32) : Prop :=
  (∀ (k0_h1 : k0_cond1 i k0_t1 = 1#1), ∀ a x, ((![v493] : Fin 1 → IVec S16 32) a x).toNat < S100000.size a)
instance k0_chk160.dec : ∀ (i : grid0.Coords) (k0_t1 : Fin k0_t1_loop.trips) (v493 : IVec S16 32), Decidable (k0_chk160 i k0_t1 v493) := fun i k0_t1 v493 => decidable_of_iff' _ (Iff.of_eq (k0_chk160.eq_1 i k0_t1 v493))
theorem k0_idx160_inb : ∀ (i : grid0.Coords) (k0_t1 : Fin k0_t1_loop.trips) (v493 : IVec S16 32) (k0_hw160 : k0_chk160 i k0_t1 v493), ∀ (k0_h1 : k0_cond1 i k0_t1 = 1#1), ∀ a x, ((![v493] : Fin 1 → IVec S16 32) a x).toNat < S100000.size a := fun i k0_t1 v493 k0_hw160 k0_h1 => k0_hw160 k0_h1

def k0_chk161 (i : grid0.Coords) (k0_t1 : Fin k0_t1_loop.trips) (v510 : IVec S16 32) : Prop :=
  (∀ (k0_h1 : k0_cond1 i k0_t1 = 1#1), ∀ a x, ((![v510] : Fin 1 → IVec S16 32) a x).toNat < S100000.size a)
instance k0_chk161.dec : ∀ (i : grid0.Coords) (k0_t1 : Fin k0_t1_loop.trips) (v510 : IVec S16 32), Decidable (k0_chk161 i k0_t1 v510) := fun i k0_t1 v510 => decidable_of_iff' _ (Iff.of_eq (k0_chk161.eq_1 i k0_t1 v510))
theorem k0_idx161_inb : ∀ (i : grid0.Coords) (k0_t1 : Fin k0_t1_loop.trips) (v510 : IVec S16 32) (k0_hw161 : k0_chk161 i k0_t1 v510), ∀ (k0_h1 : k0_cond1 i k0_t1 = 1#1), ∀ a x, ((![v510] : Fin 1 → IVec S16 32) a x).toNat < S100000.size a := fun i k0_t1 v510 k0_hw161 k0_h1 => k0_hw161 k0_h1

def k0_chk162 (i : grid0.Coords) (k0_t1 : Fin k0_t1_loop.trips) (v511 : IVec S16 32) : Prop :=
  (∀ (k0_h1 : k0_cond1 i k0_t1 = 1#1), ∀ a x, ((![v511] : Fin 1 → IVec S16 32) a x).toNat < S100000.size a)
instance k0_chk162.dec : ∀ (i : grid0.Coords) (k0_t1 : Fin k0_t1_loop.trips) (v511 : IVec S16 32), Decidable (k0_chk162 i k0_t1 v511) := fun i k0_t1 v511 => decidable_of_iff' _ (Iff.of_eq (k0_chk162.eq_1 i k0_t1 v511))
theorem k0_idx162_inb : ∀ (i : grid0.Coords) (k0_t1 : Fin k0_t1_loop.trips) (v511 : IVec S16 32) (k0_hw162 : k0_chk162 i k0_t1 v511), ∀ (k0_h1 : k0_cond1 i k0_t1 = 1#1), ∀ a x, ((![v511] : Fin 1 → IVec S16 32) a x).toNat < S100000.size a := fun i k0_t1 v511 k0_hw162 k0_h1 => k0_hw162 k0_h1

def k0_chk163 (i : grid0.Coords) (k0_t1 : Fin k0_t1_loop.trips) (v512 : IVec S16 32) : Prop :=
  (∀ (k0_h1 : k0_cond1 i k0_t1 = 1#1), ∀ a x, ((![v512] : Fin 1 → IVec S16 32) a x).toNat < S100000.size a)
instance k0_chk163.dec : ∀ (i : grid0.Coords) (k0_t1 : Fin k0_t1_loop.trips) (v512 : IVec S16 32), Decidable (k0_chk163 i k0_t1 v512) := fun i k0_t1 v512 => decidable_of_iff' _ (Iff.of_eq (k0_chk163.eq_1 i k0_t1 v512))
theorem k0_idx163_inb : ∀ (i : grid0.Coords) (k0_t1 : Fin k0_t1_loop.trips) (v512 : IVec S16 32) (k0_hw163 : k0_chk163 i k0_t1 v512), ∀ (k0_h1 : k0_cond1 i k0_t1 = 1#1), ∀ a x, ((![v512] : Fin 1 → IVec S16 32) a x).toNat < S100000.size a := fun i k0_t1 v512 k0_hw163 k0_h1 => k0_hw163 k0_h1

def k0_chk164 (i : grid0.Coords) (k0_t1 : Fin k0_t1_loop.trips) (v513 : IVec S16 32) : Prop :=
  (∀ (k0_h1 : k0_cond1 i k0_t1 = 1#1), ∀ a x, ((![v513] : Fin 1 → IVec S16 32) a x).toNat < S100000.size a)
instance k0_chk164.dec : ∀ (i : grid0.Coords) (k0_t1 : Fin k0_t1_loop.trips) (v513 : IVec S16 32), Decidable (k0_chk164 i k0_t1 v513) := fun i k0_t1 v513 => decidable_of_iff' _ (Iff.of_eq (k0_chk164.eq_1 i k0_t1 v513))
theorem k0_idx164_inb : ∀ (i : grid0.Coords) (k0_t1 : Fin k0_t1_loop.trips) (v513 : IVec S16 32) (k0_hw164 : k0_chk164 i k0_t1 v513), ∀ (k0_h1 : k0_cond1 i k0_t1 = 1#1), ∀ a x, ((![v513] : Fin 1 → IVec S16 32) a x).toNat < S100000.size a := fun i k0_t1 v513 k0_hw164 k0_h1 => k0_hw164 k0_h1

def k0_chk165 (i : grid0.Coords) (k0_t1 : Fin k0_t1_loop.trips) (v514 : IVec S16 32) : Prop :=
  (∀ (k0_h1 : k0_cond1 i k0_t1 = 1#1), ∀ a x, ((![v514] : Fin 1 → IVec S16 32) a x).toNat < S100000.size a)
instance k0_chk165.dec : ∀ (i : grid0.Coords) (k0_t1 : Fin k0_t1_loop.trips) (v514 : IVec S16 32), Decidable (k0_chk165 i k0_t1 v514) := fun i k0_t1 v514 => decidable_of_iff' _ (Iff.of_eq (k0_chk165.eq_1 i k0_t1 v514))
theorem k0_idx165_inb : ∀ (i : grid0.Coords) (k0_t1 : Fin k0_t1_loop.trips) (v514 : IVec S16 32) (k0_hw165 : k0_chk165 i k0_t1 v514), ∀ (k0_h1 : k0_cond1 i k0_t1 = 1#1), ∀ a x, ((![v514] : Fin 1 → IVec S16 32) a x).toNat < S100000.size a := fun i k0_t1 v514 k0_hw165 k0_h1 => k0_hw165 k0_h1

def k0_chk166 (i : grid0.Coords) (k0_t1 : Fin k0_t1_loop.trips) (v515 : IVec S16 32) : Prop :=
  (∀ (k0_h1 : k0_cond1 i k0_t1 = 1#1), ∀ a x, ((![v515] : Fin 1 → IVec S16 32) a x).toNat < S100000.size a)
instance k0_chk166.dec : ∀ (i : grid0.Coords) (k0_t1 : Fin k0_t1_loop.trips) (v515 : IVec S16 32), Decidable (k0_chk166 i k0_t1 v515) := fun i k0_t1 v515 => decidable_of_iff' _ (Iff.of_eq (k0_chk166.eq_1 i k0_t1 v515))
theorem k0_idx166_inb : ∀ (i : grid0.Coords) (k0_t1 : Fin k0_t1_loop.trips) (v515 : IVec S16 32) (k0_hw166 : k0_chk166 i k0_t1 v515), ∀ (k0_h1 : k0_cond1 i k0_t1 = 1#1), ∀ a x, ((![v515] : Fin 1 → IVec S16 32) a x).toNat < S100000.size a := fun i k0_t1 v515 k0_hw166 k0_h1 => k0_hw166 k0_h1

def k0_chk167 (i : grid0.Coords) (k0_t1 : Fin k0_t1_loop.trips) (v516 : IVec S16 32) : Prop :=
  (∀ (k0_h1 : k0_cond1 i k0_t1 = 1#1), ∀ a x, ((![v516] : Fin 1 → IVec S16 32) a x).toNat < S100000.size a)
instance k0_chk167.dec : ∀ (i : grid0.Coords) (k0_t1 : Fin k0_t1_loop.trips) (v516 : IVec S16 32), Decidable (k0_chk167 i k0_t1 v516) := fun i k0_t1 v516 => decidable_of_iff' _ (Iff.of_eq (k0_chk167.eq_1 i k0_t1 v516))
theorem k0_idx167_inb : ∀ (i : grid0.Coords) (k0_t1 : Fin k0_t1_loop.trips) (v516 : IVec S16 32) (k0_hw167 : k0_chk167 i k0_t1 v516), ∀ (k0_h1 : k0_cond1 i k0_t1 = 1#1), ∀ a x, ((![v516] : Fin 1 → IVec S16 32) a x).toNat < S100000.size a := fun i k0_t1 v516 k0_hw167 k0_h1 => k0_hw167 k0_h1

def k0_chk168 (i : grid0.Coords) (k0_t1 : Fin k0_t1_loop.trips) (v517 : IVec S16 32) : Prop :=
  (∀ (k0_h1 : k0_cond1 i k0_t1 = 1#1), ∀ a x, ((![v517] : Fin 1 → IVec S16 32) a x).toNat < S100000.size a)
instance k0_chk168.dec : ∀ (i : grid0.Coords) (k0_t1 : Fin k0_t1_loop.trips) (v517 : IVec S16 32), Decidable (k0_chk168 i k0_t1 v517) := fun i k0_t1 v517 => decidable_of_iff' _ (Iff.of_eq (k0_chk168.eq_1 i k0_t1 v517))
theorem k0_idx168_inb : ∀ (i : grid0.Coords) (k0_t1 : Fin k0_t1_loop.trips) (v517 : IVec S16 32) (k0_hw168 : k0_chk168 i k0_t1 v517), ∀ (k0_h1 : k0_cond1 i k0_t1 = 1#1), ∀ a x, ((![v517] : Fin 1 → IVec S16 32) a x).toNat < S100000.size a := fun i k0_t1 v517 k0_hw168 k0_h1 => k0_hw168 k0_h1

def k0_chk169 (i : grid0.Coords) (k0_t1 : Fin k0_t1_loop.trips) (v534 : IVec S16 32) : Prop :=
  (∀ (k0_h1 : k0_cond1 i k0_t1 = 1#1), ∀ a x, ((![v534] : Fin 1 → IVec S16 32) a x).toNat < S100000.size a)
instance k0_chk169.dec : ∀ (i : grid0.Coords) (k0_t1 : Fin k0_t1_loop.trips) (v534 : IVec S16 32), Decidable (k0_chk169 i k0_t1 v534) := fun i k0_t1 v534 => decidable_of_iff' _ (Iff.of_eq (k0_chk169.eq_1 i k0_t1 v534))
theorem k0_idx169_inb : ∀ (i : grid0.Coords) (k0_t1 : Fin k0_t1_loop.trips) (v534 : IVec S16 32) (k0_hw169 : k0_chk169 i k0_t1 v534), ∀ (k0_h1 : k0_cond1 i k0_t1 = 1#1), ∀ a x, ((![v534] : Fin 1 → IVec S16 32) a x).toNat < S100000.size a := fun i k0_t1 v534 k0_hw169 k0_h1 => k0_hw169 k0_h1

def k0_chk170 (i : grid0.Coords) (k0_t1 : Fin k0_t1_loop.trips) (v535 : IVec S16 32) : Prop :=
  (∀ (k0_h1 : k0_cond1 i k0_t1 = 1#1), ∀ a x, ((![v535] : Fin 1 → IVec S16 32) a x).toNat < S100000.size a)
instance k0_chk170.dec : ∀ (i : grid0.Coords) (k0_t1 : Fin k0_t1_loop.trips) (v535 : IVec S16 32), Decidable (k0_chk170 i k0_t1 v535) := fun i k0_t1 v535 => decidable_of_iff' _ (Iff.of_eq (k0_chk170.eq_1 i k0_t1 v535))
theorem k0_idx170_inb : ∀ (i : grid0.Coords) (k0_t1 : Fin k0_t1_loop.trips) (v535 : IVec S16 32) (k0_hw170 : k0_chk170 i k0_t1 v535), ∀ (k0_h1 : k0_cond1 i k0_t1 = 1#1), ∀ a x, ((![v535] : Fin 1 → IVec S16 32) a x).toNat < S100000.size a := fun i k0_t1 v535 k0_hw170 k0_h1 => k0_hw170 k0_h1

def k0_chk171 (i : grid0.Coords) (k0_t1 : Fin k0_t1_loop.trips) (v536 : IVec S16 32) : Prop :=
  (∀ (k0_h1 : k0_cond1 i k0_t1 = 1#1), ∀ a x, ((![v536] : Fin 1 → IVec S16 32) a x).toNat < S100000.size a)
instance k0_chk171.dec : ∀ (i : grid0.Coords) (k0_t1 : Fin k0_t1_loop.trips) (v536 : IVec S16 32), Decidable (k0_chk171 i k0_t1 v536) := fun i k0_t1 v536 => decidable_of_iff' _ (Iff.of_eq (k0_chk171.eq_1 i k0_t1 v536))
theorem k0_idx171_inb : ∀ (i : grid0.Coords) (k0_t1 : Fin k0_t1_loop.trips) (v536 : IVec S16 32) (k0_hw171 : k0_chk171 i k0_t1 v536), ∀ (k0_h1 : k0_cond1 i k0_t1 = 1#1), ∀ a x, ((![v536] : Fin 1 → IVec S16 32) a x).toNat < S100000.size a := fun i k0_t1 v536 k0_hw171 k0_h1 => k0_hw171 k0_h1

def k0_chk172 (i : grid0.Coords) (k0_t1 : Fin k0_t1_loop.trips) (v537 : IVec S16 32) : Prop :=
  (∀ (k0_h1 : k0_cond1 i k0_t1 = 1#1), ∀ a x, ((![v537] : Fin 1 → IVec S16 32) a x).toNat < S100000.size a)
instance k0_chk172.dec : ∀ (i : grid0.Coords) (k0_t1 : Fin k0_t1_loop.trips) (v537 : IVec S16 32), Decidable (k0_chk172 i k0_t1 v537) := fun i k0_t1 v537 => decidable_of_iff' _ (Iff.of_eq (k0_chk172.eq_1 i k0_t1 v537))
theorem k0_idx172_inb : ∀ (i : grid0.Coords) (k0_t1 : Fin k0_t1_loop.trips) (v537 : IVec S16 32) (k0_hw172 : k0_chk172 i k0_t1 v537), ∀ (k0_h1 : k0_cond1 i k0_t1 = 1#1), ∀ a x, ((![v537] : Fin 1 → IVec S16 32) a x).toNat < S100000.size a := fun i k0_t1 v537 k0_hw172 k0_h1 => k0_hw172 k0_h1

def k0_chk173 (i : grid0.Coords) (k0_t1 : Fin k0_t1_loop.trips) (v538 : IVec S16 32) : Prop :=
  (∀ (k0_h1 : k0_cond1 i k0_t1 = 1#1), ∀ a x, ((![v538] : Fin 1 → IVec S16 32) a x).toNat < S100000.size a)
instance k0_chk173.dec : ∀ (i : grid0.Coords) (k0_t1 : Fin k0_t1_loop.trips) (v538 : IVec S16 32), Decidable (k0_chk173 i k0_t1 v538) := fun i k0_t1 v538 => decidable_of_iff' _ (Iff.of_eq (k0_chk173.eq_1 i k0_t1 v538))
theorem k0_idx173_inb : ∀ (i : grid0.Coords) (k0_t1 : Fin k0_t1_loop.trips) (v538 : IVec S16 32) (k0_hw173 : k0_chk173 i k0_t1 v538), ∀ (k0_h1 : k0_cond1 i k0_t1 = 1#1), ∀ a x, ((![v538] : Fin 1 → IVec S16 32) a x).toNat < S100000.size a := fun i k0_t1 v538 k0_hw173 k0_h1 => k0_hw173 k0_h1

def k0_chk174 (i : grid0.Coords) (k0_t1 : Fin k0_t1_loop.trips) (v539 : IVec S16 32) : Prop :=
  (∀ (k0_h1 : k0_cond1 i k0_t1 = 1#1), ∀ a x, ((![v539] : Fin 1 → IVec S16 32) a x).toNat < S100000.size a)
instance k0_chk174.dec : ∀ (i : grid0.Coords) (k0_t1 : Fin k0_t1_loop.trips) (v539 : IVec S16 32), Decidable (k0_chk174 i k0_t1 v539) := fun i k0_t1 v539 => decidable_of_iff' _ (Iff.of_eq (k0_chk174.eq_1 i k0_t1 v539))
theorem k0_idx174_inb : ∀ (i : grid0.Coords) (k0_t1 : Fin k0_t1_loop.trips) (v539 : IVec S16 32) (k0_hw174 : k0_chk174 i k0_t1 v539), ∀ (k0_h1 : k0_cond1 i k0_t1 = 1#1), ∀ a x, ((![v539] : Fin 1 → IVec S16 32) a x).toNat < S100000.size a := fun i k0_t1 v539 k0_hw174 k0_h1 => k0_hw174 k0_h1

def k0_chk175 (i : grid0.Coords) (k0_t1 : Fin k0_t1_loop.trips) (v540 : IVec S16 32) : Prop :=
  (∀ (k0_h1 : k0_cond1 i k0_t1 = 1#1), ∀ a x, ((![v540] : Fin 1 → IVec S16 32) a x).toNat < S100000.size a)
instance k0_chk175.dec : ∀ (i : grid0.Coords) (k0_t1 : Fin k0_t1_loop.trips) (v540 : IVec S16 32), Decidable (k0_chk175 i k0_t1 v540) := fun i k0_t1 v540 => decidable_of_iff' _ (Iff.of_eq (k0_chk175.eq_1 i k0_t1 v540))
theorem k0_idx175_inb : ∀ (i : grid0.Coords) (k0_t1 : Fin k0_t1_loop.trips) (v540 : IVec S16 32) (k0_hw175 : k0_chk175 i k0_t1 v540), ∀ (k0_h1 : k0_cond1 i k0_t1 = 1#1), ∀ a x, ((![v540] : Fin 1 → IVec S16 32) a x).toNat < S100000.size a := fun i k0_t1 v540 k0_hw175 k0_h1 => k0_hw175 k0_h1

def k0_chk176 (i : grid0.Coords) (k0_t1 : Fin k0_t1_loop.trips) (v541 : IVec S16 32) : Prop :=
  (∀ (k0_h1 : k0_cond1 i k0_t1 = 1#1), ∀ a x, ((![v541] : Fin 1 → IVec S16 32) a x).toNat < S100000.size a)
instance k0_chk176.dec : ∀ (i : grid0.Coords) (k0_t1 : Fin k0_t1_loop.trips) (v541 : IVec S16 32), Decidable (k0_chk176 i k0_t1 v541) := fun i k0_t1 v541 => decidable_of_iff' _ (Iff.of_eq (k0_chk176.eq_1 i k0_t1 v541))
theorem k0_idx176_inb : ∀ (i : grid0.Coords) (k0_t1 : Fin k0_t1_loop.trips) (v541 : IVec S16 32) (k0_hw176 : k0_chk176 i k0_t1 v541), ∀ (k0_h1 : k0_cond1 i k0_t1 = 1#1), ∀ a x, ((![v541] : Fin 1 → IVec S16 32) a x).toNat < S100000.size a := fun i k0_t1 v541 k0_hw176 k0_h1 => k0_hw176 k0_h1

def k0_chk177 (i : grid0.Coords) (k0_t1 : Fin k0_t1_loop.trips) (v558 : IVec S16 32) : Prop :=
  (∀ (k0_h1 : k0_cond1 i k0_t1 = 1#1), ∀ a x, ((![v558] : Fin 1 → IVec S16 32) a x).toNat < S100000.size a)
instance k0_chk177.dec : ∀ (i : grid0.Coords) (k0_t1 : Fin k0_t1_loop.trips) (v558 : IVec S16 32), Decidable (k0_chk177 i k0_t1 v558) := fun i k0_t1 v558 => decidable_of_iff' _ (Iff.of_eq (k0_chk177.eq_1 i k0_t1 v558))
theorem k0_idx177_inb : ∀ (i : grid0.Coords) (k0_t1 : Fin k0_t1_loop.trips) (v558 : IVec S16 32) (k0_hw177 : k0_chk177 i k0_t1 v558), ∀ (k0_h1 : k0_cond1 i k0_t1 = 1#1), ∀ a x, ((![v558] : Fin 1 → IVec S16 32) a x).toNat < S100000.size a := fun i k0_t1 v558 k0_hw177 k0_h1 => k0_hw177 k0_h1

def k0_chk178 (i : grid0.Coords) (k0_t1 : Fin k0_t1_loop.trips) (v559 : IVec S16 32) : Prop :=
  (∀ (k0_h1 : k0_cond1 i k0_t1 = 1#1), ∀ a x, ((![v559] : Fin 1 → IVec S16 32) a x).toNat < S100000.size a)
instance k0_chk178.dec : ∀ (i : grid0.Coords) (k0_t1 : Fin k0_t1_loop.trips) (v559 : IVec S16 32), Decidable (k0_chk178 i k0_t1 v559) := fun i k0_t1 v559 => decidable_of_iff' _ (Iff.of_eq (k0_chk178.eq_1 i k0_t1 v559))
theorem k0_idx178_inb : ∀ (i : grid0.Coords) (k0_t1 : Fin k0_t1_loop.trips) (v559 : IVec S16 32) (k0_hw178 : k0_chk178 i k0_t1 v559), ∀ (k0_h1 : k0_cond1 i k0_t1 = 1#1), ∀ a x, ((![v559] : Fin 1 → IVec S16 32) a x).toNat < S100000.size a := fun i k0_t1 v559 k0_hw178 k0_h1 => k0_hw178 k0_h1

def k0_chk179 (i : grid0.Coords) (k0_t1 : Fin k0_t1_loop.trips) (v560 : IVec S16 32) : Prop :=
  (∀ (k0_h1 : k0_cond1 i k0_t1 = 1#1), ∀ a x, ((![v560] : Fin 1 → IVec S16 32) a x).toNat < S100000.size a)
instance k0_chk179.dec : ∀ (i : grid0.Coords) (k0_t1 : Fin k0_t1_loop.trips) (v560 : IVec S16 32), Decidable (k0_chk179 i k0_t1 v560) := fun i k0_t1 v560 => decidable_of_iff' _ (Iff.of_eq (k0_chk179.eq_1 i k0_t1 v560))
theorem k0_idx179_inb : ∀ (i : grid0.Coords) (k0_t1 : Fin k0_t1_loop.trips) (v560 : IVec S16 32) (k0_hw179 : k0_chk179 i k0_t1 v560), ∀ (k0_h1 : k0_cond1 i k0_t1 = 1#1), ∀ a x, ((![v560] : Fin 1 → IVec S16 32) a x).toNat < S100000.size a := fun i k0_t1 v560 k0_hw179 k0_h1 => k0_hw179 k0_h1

def k0_chk180 (i : grid0.Coords) (k0_t1 : Fin k0_t1_loop.trips) (v561 : IVec S16 32) : Prop :=
  (∀ (k0_h1 : k0_cond1 i k0_t1 = 1#1), ∀ a x, ((![v561] : Fin 1 → IVec S16 32) a x).toNat < S100000.size a)
instance k0_chk180.dec : ∀ (i : grid0.Coords) (k0_t1 : Fin k0_t1_loop.trips) (v561 : IVec S16 32), Decidable (k0_chk180 i k0_t1 v561) := fun i k0_t1 v561 => decidable_of_iff' _ (Iff.of_eq (k0_chk180.eq_1 i k0_t1 v561))
theorem k0_idx180_inb : ∀ (i : grid0.Coords) (k0_t1 : Fin k0_t1_loop.trips) (v561 : IVec S16 32) (k0_hw180 : k0_chk180 i k0_t1 v561), ∀ (k0_h1 : k0_cond1 i k0_t1 = 1#1), ∀ a x, ((![v561] : Fin 1 → IVec S16 32) a x).toNat < S100000.size a := fun i k0_t1 v561 k0_hw180 k0_h1 => k0_hw180 k0_h1

def k0_chk181 (i : grid0.Coords) (k0_t1 : Fin k0_t1_loop.trips) (v562 : IVec S16 32) : Prop :=
  (∀ (k0_h1 : k0_cond1 i k0_t1 = 1#1), ∀ a x, ((![v562] : Fin 1 → IVec S16 32) a x).toNat < S100000.size a)
instance k0_chk181.dec : ∀ (i : grid0.Coords) (k0_t1 : Fin k0_t1_loop.trips) (v562 : IVec S16 32), Decidable (k0_chk181 i k0_t1 v562) := fun i k0_t1 v562 => decidable_of_iff' _ (Iff.of_eq (k0_chk181.eq_1 i k0_t1 v562))
theorem k0_idx181_inb : ∀ (i : grid0.Coords) (k0_t1 : Fin k0_t1_loop.trips) (v562 : IVec S16 32) (k0_hw181 : k0_chk181 i k0_t1 v562), ∀ (k0_h1 : k0_cond1 i k0_t1 = 1#1), ∀ a x, ((![v562] : Fin 1 → IVec S16 32) a x).toNat < S100000.size a := fun i k0_t1 v562 k0_hw181 k0_h1 => k0_hw181 k0_h1

def k0_chk182 (i : grid0.Coords) (k0_t1 : Fin k0_t1_loop.trips) (v563 : IVec S16 32) : Prop :=
  (∀ (k0_h1 : k0_cond1 i k0_t1 = 1#1), ∀ a x, ((![v563] : Fin 1 → IVec S16 32) a x).toNat < S100000.size a)
instance k0_chk182.dec : ∀ (i : grid0.Coords) (k0_t1 : Fin k0_t1_loop.trips) (v563 : IVec S16 32), Decidable (k0_chk182 i k0_t1 v563) := fun i k0_t1 v563 => decidable_of_iff' _ (Iff.of_eq (k0_chk182.eq_1 i k0_t1 v563))
theorem k0_idx182_inb : ∀ (i : grid0.Coords) (k0_t1 : Fin k0_t1_loop.trips) (v563 : IVec S16 32) (k0_hw182 : k0_chk182 i k0_t1 v563), ∀ (k0_h1 : k0_cond1 i k0_t1 = 1#1), ∀ a x, ((![v563] : Fin 1 → IVec S16 32) a x).toNat < S100000.size a := fun i k0_t1 v563 k0_hw182 k0_h1 => k0_hw182 k0_h1

def k0_chk183 (i : grid0.Coords) (k0_t1 : Fin k0_t1_loop.trips) (v564 : IVec S16 32) : Prop :=
  (∀ (k0_h1 : k0_cond1 i k0_t1 = 1#1), ∀ a x, ((![v564] : Fin 1 → IVec S16 32) a x).toNat < S100000.size a)
instance k0_chk183.dec : ∀ (i : grid0.Coords) (k0_t1 : Fin k0_t1_loop.trips) (v564 : IVec S16 32), Decidable (k0_chk183 i k0_t1 v564) := fun i k0_t1 v564 => decidable_of_iff' _ (Iff.of_eq (k0_chk183.eq_1 i k0_t1 v564))
theorem k0_idx183_inb : ∀ (i : grid0.Coords) (k0_t1 : Fin k0_t1_loop.trips) (v564 : IVec S16 32) (k0_hw183 : k0_chk183 i k0_t1 v564), ∀ (k0_h1 : k0_cond1 i k0_t1 = 1#1), ∀ a x, ((![v564] : Fin 1 → IVec S16 32) a x).toNat < S100000.size a := fun i k0_t1 v564 k0_hw183 k0_h1 => k0_hw183 k0_h1

def k0_chk184 (i : grid0.Coords) (k0_t1 : Fin k0_t1_loop.trips) (v565 : IVec S16 32) : Prop :=
  (∀ (k0_h1 : k0_cond1 i k0_t1 = 1#1), ∀ a x, ((![v565] : Fin 1 → IVec S16 32) a x).toNat < S100000.size a)
instance k0_chk184.dec : ∀ (i : grid0.Coords) (k0_t1 : Fin k0_t1_loop.trips) (v565 : IVec S16 32), Decidable (k0_chk184 i k0_t1 v565) := fun i k0_t1 v565 => decidable_of_iff' _ (Iff.of_eq (k0_chk184.eq_1 i k0_t1 v565))
theorem k0_idx184_inb : ∀ (i : grid0.Coords) (k0_t1 : Fin k0_t1_loop.trips) (v565 : IVec S16 32) (k0_hw184 : k0_chk184 i k0_t1 v565), ∀ (k0_h1 : k0_cond1 i k0_t1 = 1#1), ∀ a x, ((![v565] : Fin 1 → IVec S16 32) a x).toNat < S100000.size a := fun i k0_t1 v565 k0_hw184 k0_h1 => k0_hw184 k0_h1

def k0_chk185 (i : grid0.Coords) (k0_t1 : Fin k0_t1_loop.trips) (v582 : IVec S16 32) : Prop :=
  (∀ (k0_h1 : k0_cond1 i k0_t1 = 1#1), ∀ a x, ((![v582] : Fin 1 → IVec S16 32) a x).toNat < S100000.size a)
instance k0_chk185.dec : ∀ (i : grid0.Coords) (k0_t1 : Fin k0_t1_loop.trips) (v582 : IVec S16 32), Decidable (k0_chk185 i k0_t1 v582) := fun i k0_t1 v582 => decidable_of_iff' _ (Iff.of_eq (k0_chk185.eq_1 i k0_t1 v582))
theorem k0_idx185_inb : ∀ (i : grid0.Coords) (k0_t1 : Fin k0_t1_loop.trips) (v582 : IVec S16 32) (k0_hw185 : k0_chk185 i k0_t1 v582), ∀ (k0_h1 : k0_cond1 i k0_t1 = 1#1), ∀ a x, ((![v582] : Fin 1 → IVec S16 32) a x).toNat < S100000.size a := fun i k0_t1 v582 k0_hw185 k0_h1 => k0_hw185 k0_h1

def k0_chk186 (i : grid0.Coords) (k0_t1 : Fin k0_t1_loop.trips) (v583 : IVec S16 32) : Prop :=
  (∀ (k0_h1 : k0_cond1 i k0_t1 = 1#1), ∀ a x, ((![v583] : Fin 1 → IVec S16 32) a x).toNat < S100000.size a)
instance k0_chk186.dec : ∀ (i : grid0.Coords) (k0_t1 : Fin k0_t1_loop.trips) (v583 : IVec S16 32), Decidable (k0_chk186 i k0_t1 v583) := fun i k0_t1 v583 => decidable_of_iff' _ (Iff.of_eq (k0_chk186.eq_1 i k0_t1 v583))
theorem k0_idx186_inb : ∀ (i : grid0.Coords) (k0_t1 : Fin k0_t1_loop.trips) (v583 : IVec S16 32) (k0_hw186 : k0_chk186 i k0_t1 v583), ∀ (k0_h1 : k0_cond1 i k0_t1 = 1#1), ∀ a x, ((![v583] : Fin 1 → IVec S16 32) a x).toNat < S100000.size a := fun i k0_t1 v583 k0_hw186 k0_h1 => k0_hw186 k0_h1

def k0_chk187 (i : grid0.Coords) (k0_t1 : Fin k0_t1_loop.trips) (v584 : IVec S16 32) : Prop :=
  (∀ (k0_h1 : k0_cond1 i k0_t1 = 1#1), ∀ a x, ((![v584] : Fin 1 → IVec S16 32) a x).toNat < S100000.size a)
instance k0_chk187.dec : ∀ (i : grid0.Coords) (k0_t1 : Fin k0_t1_loop.trips) (v584 : IVec S16 32), Decidable (k0_chk187 i k0_t1 v584) := fun i k0_t1 v584 => decidable_of_iff' _ (Iff.of_eq (k0_chk187.eq_1 i k0_t1 v584))
theorem k0_idx187_inb : ∀ (i : grid0.Coords) (k0_t1 : Fin k0_t1_loop.trips) (v584 : IVec S16 32) (k0_hw187 : k0_chk187 i k0_t1 v584), ∀ (k0_h1 : k0_cond1 i k0_t1 = 1#1), ∀ a x, ((![v584] : Fin 1 → IVec S16 32) a x).toNat < S100000.size a := fun i k0_t1 v584 k0_hw187 k0_h1 => k0_hw187 k0_h1

def k0_chk188 (i : grid0.Coords) (k0_t1 : Fin k0_t1_loop.trips) (v585 : IVec S16 32) : Prop :=
  (∀ (k0_h1 : k0_cond1 i k0_t1 = 1#1), ∀ a x, ((![v585] : Fin 1 → IVec S16 32) a x).toNat < S100000.size a)
instance k0_chk188.dec : ∀ (i : grid0.Coords) (k0_t1 : Fin k0_t1_loop.trips) (v585 : IVec S16 32), Decidable (k0_chk188 i k0_t1 v585) := fun i k0_t1 v585 => decidable_of_iff' _ (Iff.of_eq (k0_chk188.eq_1 i k0_t1 v585))
theorem k0_idx188_inb : ∀ (i : grid0.Coords) (k0_t1 : Fin k0_t1_loop.trips) (v585 : IVec S16 32) (k0_hw188 : k0_chk188 i k0_t1 v585), ∀ (k0_h1 : k0_cond1 i k0_t1 = 1#1), ∀ a x, ((![v585] : Fin 1 → IVec S16 32) a x).toNat < S100000.size a := fun i k0_t1 v585 k0_hw188 k0_h1 => k0_hw188 k0_h1

def k0_chk189 (i : grid0.Coords) (k0_t1 : Fin k0_t1_loop.trips) (v586 : IVec S16 32) : Prop :=
  (∀ (k0_h1 : k0_cond1 i k0_t1 = 1#1), ∀ a x, ((![v586] : Fin 1 → IVec S16 32) a x).toNat < S100000.size a)
instance k0_chk189.dec : ∀ (i : grid0.Coords) (k0_t1 : Fin k0_t1_loop.trips) (v586 : IVec S16 32), Decidable (k0_chk189 i k0_t1 v586) := fun i k0_t1 v586 => decidable_of_iff' _ (Iff.of_eq (k0_chk189.eq_1 i k0_t1 v586))
theorem k0_idx189_inb : ∀ (i : grid0.Coords) (k0_t1 : Fin k0_t1_loop.trips) (v586 : IVec S16 32) (k0_hw189 : k0_chk189 i k0_t1 v586), ∀ (k0_h1 : k0_cond1 i k0_t1 = 1#1), ∀ a x, ((![v586] : Fin 1 → IVec S16 32) a x).toNat < S100000.size a := fun i k0_t1 v586 k0_hw189 k0_h1 => k0_hw189 k0_h1

def k0_chk190 (i : grid0.Coords) (k0_t1 : Fin k0_t1_loop.trips) (v587 : IVec S16 32) : Prop :=
  (∀ (k0_h1 : k0_cond1 i k0_t1 = 1#1), ∀ a x, ((![v587] : Fin 1 → IVec S16 32) a x).toNat < S100000.size a)
instance k0_chk190.dec : ∀ (i : grid0.Coords) (k0_t1 : Fin k0_t1_loop.trips) (v587 : IVec S16 32), Decidable (k0_chk190 i k0_t1 v587) := fun i k0_t1 v587 => decidable_of_iff' _ (Iff.of_eq (k0_chk190.eq_1 i k0_t1 v587))
theorem k0_idx190_inb : ∀ (i : grid0.Coords) (k0_t1 : Fin k0_t1_loop.trips) (v587 : IVec S16 32) (k0_hw190 : k0_chk190 i k0_t1 v587), ∀ (k0_h1 : k0_cond1 i k0_t1 = 1#1), ∀ a x, ((![v587] : Fin 1 → IVec S16 32) a x).toNat < S100000.size a := fun i k0_t1 v587 k0_hw190 k0_h1 => k0_hw190 k0_h1

def k0_chk191 (i : grid0.Coords) (k0_t1 : Fin k0_t1_loop.trips) (v588 : IVec S16 32) : Prop :=
  (∀ (k0_h1 : k0_cond1 i k0_t1 = 1#1), ∀ a x, ((![v588] : Fin 1 → IVec S16 32) a x).toNat < S100000.size a)
instance k0_chk191.dec : ∀ (i : grid0.Coords) (k0_t1 : Fin k0_t1_loop.trips) (v588 : IVec S16 32), Decidable (k0_chk191 i k0_t1 v588) := fun i k0_t1 v588 => decidable_of_iff' _ (Iff.of_eq (k0_chk191.eq_1 i k0_t1 v588))
theorem k0_idx191_inb : ∀ (i : grid0.Coords) (k0_t1 : Fin k0_t1_loop.trips) (v588 : IVec S16 32) (k0_hw191 : k0_chk191 i k0_t1 v588), ∀ (k0_h1 : k0_cond1 i k0_t1 = 1#1), ∀ a x, ((![v588] : Fin 1 → IVec S16 32) a x).toNat < S100000.size a := fun i k0_t1 v588 k0_hw191 k0_h1 => k0_hw191 k0_h1

def k0_chk192 (i : grid0.Coords) (k0_t1 : Fin k0_t1_loop.trips) (v589 : IVec S16 32) : Prop :=
  (∀ (k0_h1 : k0_cond1 i k0_t1 = 1#1), ∀ a x, ((![v589] : Fin 1 → IVec S16 32) a x).toNat < S100000.size a)
instance k0_chk192.dec : ∀ (i : grid0.Coords) (k0_t1 : Fin k0_t1_loop.trips) (v589 : IVec S16 32), Decidable (k0_chk192 i k0_t1 v589) := fun i k0_t1 v589 => decidable_of_iff' _ (Iff.of_eq (k0_chk192.eq_1 i k0_t1 v589))
theorem k0_idx192_inb : ∀ (i : grid0.Coords) (k0_t1 : Fin k0_t1_loop.trips) (v589 : IVec S16 32) (k0_hw192 : k0_chk192 i k0_t1 v589), ∀ (k0_h1 : k0_cond1 i k0_t1 = 1#1), ∀ a x, ((![v589] : Fin 1 → IVec S16 32) a x).toNat < S100000.size a := fun i k0_t1 v589 k0_hw192 k0_h1 => k0_hw192 k0_h1

def k0_chk193 (i : grid0.Coords) (k0_t1 : Fin k0_t1_loop.trips) (v606 : IVec S16 32) : Prop :=
  (∀ (k0_h1 : k0_cond1 i k0_t1 = 1#1), ∀ a x, ((![v606] : Fin 1 → IVec S16 32) a x).toNat < S100000.size a)
instance k0_chk193.dec : ∀ (i : grid0.Coords) (k0_t1 : Fin k0_t1_loop.trips) (v606 : IVec S16 32), Decidable (k0_chk193 i k0_t1 v606) := fun i k0_t1 v606 => decidable_of_iff' _ (Iff.of_eq (k0_chk193.eq_1 i k0_t1 v606))
theorem k0_idx193_inb : ∀ (i : grid0.Coords) (k0_t1 : Fin k0_t1_loop.trips) (v606 : IVec S16 32) (k0_hw193 : k0_chk193 i k0_t1 v606), ∀ (k0_h1 : k0_cond1 i k0_t1 = 1#1), ∀ a x, ((![v606] : Fin 1 → IVec S16 32) a x).toNat < S100000.size a := fun i k0_t1 v606 k0_hw193 k0_h1 => k0_hw193 k0_h1

def k0_chk194 (i : grid0.Coords) (k0_t1 : Fin k0_t1_loop.trips) (v607 : IVec S16 32) : Prop :=
  (∀ (k0_h1 : k0_cond1 i k0_t1 = 1#1), ∀ a x, ((![v607] : Fin 1 → IVec S16 32) a x).toNat < S100000.size a)
instance k0_chk194.dec : ∀ (i : grid0.Coords) (k0_t1 : Fin k0_t1_loop.trips) (v607 : IVec S16 32), Decidable (k0_chk194 i k0_t1 v607) := fun i k0_t1 v607 => decidable_of_iff' _ (Iff.of_eq (k0_chk194.eq_1 i k0_t1 v607))
theorem k0_idx194_inb : ∀ (i : grid0.Coords) (k0_t1 : Fin k0_t1_loop.trips) (v607 : IVec S16 32) (k0_hw194 : k0_chk194 i k0_t1 v607), ∀ (k0_h1 : k0_cond1 i k0_t1 = 1#1), ∀ a x, ((![v607] : Fin 1 → IVec S16 32) a x).toNat < S100000.size a := fun i k0_t1 v607 k0_hw194 k0_h1 => k0_hw194 k0_h1

def k0_chk195 (i : grid0.Coords) (k0_t1 : Fin k0_t1_loop.trips) (v608 : IVec S16 32) : Prop :=
  (∀ (k0_h1 : k0_cond1 i k0_t1 = 1#1), ∀ a x, ((![v608] : Fin 1 → IVec S16 32) a x).toNat < S100000.size a)
instance k0_chk195.dec : ∀ (i : grid0.Coords) (k0_t1 : Fin k0_t1_loop.trips) (v608 : IVec S16 32), Decidable (k0_chk195 i k0_t1 v608) := fun i k0_t1 v608 => decidable_of_iff' _ (Iff.of_eq (k0_chk195.eq_1 i k0_t1 v608))
theorem k0_idx195_inb : ∀ (i : grid0.Coords) (k0_t1 : Fin k0_t1_loop.trips) (v608 : IVec S16 32) (k0_hw195 : k0_chk195 i k0_t1 v608), ∀ (k0_h1 : k0_cond1 i k0_t1 = 1#1), ∀ a x, ((![v608] : Fin 1 → IVec S16 32) a x).toNat < S100000.size a := fun i k0_t1 v608 k0_hw195 k0_h1 => k0_hw195 k0_h1

def k0_chk196 (i : grid0.Coords) (k0_t1 : Fin k0_t1_loop.trips) (v609 : IVec S16 32) : Prop :=
  (∀ (k0_h1 : k0_cond1 i k0_t1 = 1#1), ∀ a x, ((![v609] : Fin 1 → IVec S16 32) a x).toNat < S100000.size a)
instance k0_chk196.dec : ∀ (i : grid0.Coords) (k0_t1 : Fin k0_t1_loop.trips) (v609 : IVec S16 32), Decidable (k0_chk196 i k0_t1 v609) := fun i k0_t1 v609 => decidable_of_iff' _ (Iff.of_eq (k0_chk196.eq_1 i k0_t1 v609))
theorem k0_idx196_inb : ∀ (i : grid0.Coords) (k0_t1 : Fin k0_t1_loop.trips) (v609 : IVec S16 32) (k0_hw196 : k0_chk196 i k0_t1 v609), ∀ (k0_h1 : k0_cond1 i k0_t1 = 1#1), ∀ a x, ((![v609] : Fin 1 → IVec S16 32) a x).toNat < S100000.size a := fun i k0_t1 v609 k0_hw196 k0_h1 => k0_hw196 k0_h1

def k0_chk197 (i : grid0.Coords) (k0_t1 : Fin k0_t1_loop.trips) (v610 : IVec S16 32) : Prop :=
  (∀ (k0_h1 : k0_cond1 i k0_t1 = 1#1), ∀ a x, ((![v610] : Fin 1 → IVec S16 32) a x).toNat < S100000.size a)
instance k0_chk197.dec : ∀ (i : grid0.Coords) (k0_t1 : Fin k0_t1_loop.trips) (v610 : IVec S16 32), Decidable (k0_chk197 i k0_t1 v610) := fun i k0_t1 v610 => decidable_of_iff' _ (Iff.of_eq (k0_chk197.eq_1 i k0_t1 v610))
theorem k0_idx197_inb : ∀ (i : grid0.Coords) (k0_t1 : Fin k0_t1_loop.trips) (v610 : IVec S16 32) (k0_hw197 : k0_chk197 i k0_t1 v610), ∀ (k0_h1 : k0_cond1 i k0_t1 = 1#1), ∀ a x, ((![v610] : Fin 1 → IVec S16 32) a x).toNat < S100000.size a := fun i k0_t1 v610 k0_hw197 k0_h1 => k0_hw197 k0_h1

def k0_chk198 (i : grid0.Coords) (k0_t1 : Fin k0_t1_loop.trips) (v611 : IVec S16 32) : Prop :=
  (∀ (k0_h1 : k0_cond1 i k0_t1 = 1#1), ∀ a x, ((![v611] : Fin 1 → IVec S16 32) a x).toNat < S100000.size a)
instance k0_chk198.dec : ∀ (i : grid0.Coords) (k0_t1 : Fin k0_t1_loop.trips) (v611 : IVec S16 32), Decidable (k0_chk198 i k0_t1 v611) := fun i k0_t1 v611 => decidable_of_iff' _ (Iff.of_eq (k0_chk198.eq_1 i k0_t1 v611))
theorem k0_idx198_inb : ∀ (i : grid0.Coords) (k0_t1 : Fin k0_t1_loop.trips) (v611 : IVec S16 32) (k0_hw198 : k0_chk198 i k0_t1 v611), ∀ (k0_h1 : k0_cond1 i k0_t1 = 1#1), ∀ a x, ((![v611] : Fin 1 → IVec S16 32) a x).toNat < S100000.size a := fun i k0_t1 v611 k0_hw198 k0_h1 => k0_hw198 k0_h1

def k0_chk199 (i : grid0.Coords) (k0_t1 : Fin k0_t1_loop.trips) (v612 : IVec S16 32) : Prop :=
  (∀ (k0_h1 : k0_cond1 i k0_t1 = 1#1), ∀ a x, ((![v612] : Fin 1 → IVec S16 32) a x).toNat < S100000.size a)
instance k0_chk199.dec : ∀ (i : grid0.Coords) (k0_t1 : Fin k0_t1_loop.trips) (v612 : IVec S16 32), Decidable (k0_chk199 i k0_t1 v612) := fun i k0_t1 v612 => decidable_of_iff' _ (Iff.of_eq (k0_chk199.eq_1 i k0_t1 v612))
theorem k0_idx199_inb : ∀ (i : grid0.Coords) (k0_t1 : Fin k0_t1_loop.trips) (v612 : IVec S16 32) (k0_hw199 : k0_chk199 i k0_t1 v612), ∀ (k0_h1 : k0_cond1 i k0_t1 = 1#1), ∀ a x, ((![v612] : Fin 1 → IVec S16 32) a x).toNat < S100000.size a := fun i k0_t1 v612 k0_hw199 k0_h1 => k0_hw199 k0_h1

def k0_chk200 (i : grid0.Coords) (k0_t1 : Fin k0_t1_loop.trips) (v613 : IVec S16 32) : Prop :=
  (∀ (k0_h1 : k0_cond1 i k0_t1 = 1#1), ∀ a x, ((![v613] : Fin 1 → IVec S16 32) a x).toNat < S100000.size a)
instance k0_chk200.dec : ∀ (i : grid0.Coords) (k0_t1 : Fin k0_t1_loop.trips) (v613 : IVec S16 32), Decidable (k0_chk200 i k0_t1 v613) := fun i k0_t1 v613 => decidable_of_iff' _ (Iff.of_eq (k0_chk200.eq_1 i k0_t1 v613))
theorem k0_idx200_inb : ∀ (i : grid0.Coords) (k0_t1 : Fin k0_t1_loop.trips) (v613 : IVec S16 32) (k0_hw200 : k0_chk200 i k0_t1 v613), ∀ (k0_h1 : k0_cond1 i k0_t1 = 1#1), ∀ a x, ((![v613] : Fin 1 → IVec S16 32) a x).toNat < S100000.size a := fun i k0_t1 v613 k0_hw200 k0_h1 => k0_hw200 k0_h1

def k0_chk201 (i : grid0.Coords) (k0_t1 : Fin k0_t1_loop.trips) (v630 : IVec S16 32) : Prop :=
  (∀ (k0_h1 : k0_cond1 i k0_t1 = 1#1), ∀ a x, ((![v630] : Fin 1 → IVec S16 32) a x).toNat < S100000.size a)
instance k0_chk201.dec : ∀ (i : grid0.Coords) (k0_t1 : Fin k0_t1_loop.trips) (v630 : IVec S16 32), Decidable (k0_chk201 i k0_t1 v630) := fun i k0_t1 v630 => decidable_of_iff' _ (Iff.of_eq (k0_chk201.eq_1 i k0_t1 v630))
theorem k0_idx201_inb : ∀ (i : grid0.Coords) (k0_t1 : Fin k0_t1_loop.trips) (v630 : IVec S16 32) (k0_hw201 : k0_chk201 i k0_t1 v630), ∀ (k0_h1 : k0_cond1 i k0_t1 = 1#1), ∀ a x, ((![v630] : Fin 1 → IVec S16 32) a x).toNat < S100000.size a := fun i k0_t1 v630 k0_hw201 k0_h1 => k0_hw201 k0_h1

def k0_chk202 (i : grid0.Coords) (k0_t1 : Fin k0_t1_loop.trips) (v631 : IVec S16 32) : Prop :=
  (∀ (k0_h1 : k0_cond1 i k0_t1 = 1#1), ∀ a x, ((![v631] : Fin 1 → IVec S16 32) a x).toNat < S100000.size a)
instance k0_chk202.dec : ∀ (i : grid0.Coords) (k0_t1 : Fin k0_t1_loop.trips) (v631 : IVec S16 32), Decidable (k0_chk202 i k0_t1 v631) := fun i k0_t1 v631 => decidable_of_iff' _ (Iff.of_eq (k0_chk202.eq_1 i k0_t1 v631))
theorem k0_idx202_inb : ∀ (i : grid0.Coords) (k0_t1 : Fin k0_t1_loop.trips) (v631 : IVec S16 32) (k0_hw202 : k0_chk202 i k0_t1 v631), ∀ (k0_h1 : k0_cond1 i k0_t1 = 1#1), ∀ a x, ((![v631] : Fin 1 → IVec S16 32) a x).toNat < S100000.size a := fun i k0_t1 v631 k0_hw202 k0_h1 => k0_hw202 k0_h1

def k0_chk203 (i : grid0.Coords) (k0_t1 : Fin k0_t1_loop.trips) (v632 : IVec S16 32) : Prop :=
  (∀ (k0_h1 : k0_cond1 i k0_t1 = 1#1), ∀ a x, ((![v632] : Fin 1 → IVec S16 32) a x).toNat < S100000.size a)
instance k0_chk203.dec : ∀ (i : grid0.Coords) (k0_t1 : Fin k0_t1_loop.trips) (v632 : IVec S16 32), Decidable (k0_chk203 i k0_t1 v632) := fun i k0_t1 v632 => decidable_of_iff' _ (Iff.of_eq (k0_chk203.eq_1 i k0_t1 v632))
theorem k0_idx203_inb : ∀ (i : grid0.Coords) (k0_t1 : Fin k0_t1_loop.trips) (v632 : IVec S16 32) (k0_hw203 : k0_chk203 i k0_t1 v632), ∀ (k0_h1 : k0_cond1 i k0_t1 = 1#1), ∀ a x, ((![v632] : Fin 1 → IVec S16 32) a x).toNat < S100000.size a := fun i k0_t1 v632 k0_hw203 k0_h1 => k0_hw203 k0_h1

def k0_chk204 (i : grid0.Coords) (k0_t1 : Fin k0_t1_loop.trips) (v633 : IVec S16 32) : Prop :=
  (∀ (k0_h1 : k0_cond1 i k0_t1 = 1#1), ∀ a x, ((![v633] : Fin 1 → IVec S16 32) a x).toNat < S100000.size a)
instance k0_chk204.dec : ∀ (i : grid0.Coords) (k0_t1 : Fin k0_t1_loop.trips) (v633 : IVec S16 32), Decidable (k0_chk204 i k0_t1 v633) := fun i k0_t1 v633 => decidable_of_iff' _ (Iff.of_eq (k0_chk204.eq_1 i k0_t1 v633))
theorem k0_idx204_inb : ∀ (i : grid0.Coords) (k0_t1 : Fin k0_t1_loop.trips) (v633 : IVec S16 32) (k0_hw204 : k0_chk204 i k0_t1 v633), ∀ (k0_h1 : k0_cond1 i k0_t1 = 1#1), ∀ a x, ((![v633] : Fin 1 → IVec S16 32) a x).toNat < S100000.size a := fun i k0_t1 v633 k0_hw204 k0_h1 => k0_hw204 k0_h1

def k0_chk205 (i : grid0.Coords) (k0_t1 : Fin k0_t1_loop.trips) (v634 : IVec S16 32) : Prop :=
  (∀ (k0_h1 : k0_cond1 i k0_t1 = 1#1), ∀ a x, ((![v634] : Fin 1 → IVec S16 32) a x).toNat < S100000.size a)
instance k0_chk205.dec : ∀ (i : grid0.Coords) (k0_t1 : Fin k0_t1_loop.trips) (v634 : IVec S16 32), Decidable (k0_chk205 i k0_t1 v634) := fun i k0_t1 v634 => decidable_of_iff' _ (Iff.of_eq (k0_chk205.eq_1 i k0_t1 v634))
theorem k0_idx205_inb : ∀ (i : grid0.Coords) (k0_t1 : Fin k0_t1_loop.trips) (v634 : IVec S16 32) (k0_hw205 : k0_chk205 i k0_t1 v634), ∀ (k0_h1 : k0_cond1 i k0_t1 = 1#1), ∀ a x, ((![v634] : Fin 1 → IVec S16 32) a x).toNat < S100000.size a := fun i k0_t1 v634 k0_hw205 k0_h1 => k0_hw205 k0_h1

def k0_chk206 (i : grid0.Coords) (k0_t1 : Fin k0_t1_loop.trips) (v635 : IVec S16 32) : Prop :=
  (∀ (k0_h1 : k0_cond1 i k0_t1 = 1#1), ∀ a x, ((![v635] : Fin 1 → IVec S16 32) a x).toNat < S100000.size a)
instance k0_chk206.dec : ∀ (i : grid0.Coords) (k0_t1 : Fin k0_t1_loop.trips) (v635 : IVec S16 32), Decidable (k0_chk206 i k0_t1 v635) := fun i k0_t1 v635 => decidable_of_iff' _ (Iff.of_eq (k0_chk206.eq_1 i k0_t1 v635))
theorem k0_idx206_inb : ∀ (i : grid0.Coords) (k0_t1 : Fin k0_t1_loop.trips) (v635 : IVec S16 32) (k0_hw206 : k0_chk206 i k0_t1 v635), ∀ (k0_h1 : k0_cond1 i k0_t1 = 1#1), ∀ a x, ((![v635] : Fin 1 → IVec S16 32) a x).toNat < S100000.size a := fun i k0_t1 v635 k0_hw206 k0_h1 => k0_hw206 k0_h1

def k0_chk207 (i : grid0.Coords) (k0_t1 : Fin k0_t1_loop.trips) (v636 : IVec S16 32) : Prop :=
  (∀ (k0_h1 : k0_cond1 i k0_t1 = 1#1), ∀ a x, ((![v636] : Fin 1 → IVec S16 32) a x).toNat < S100000.size a)
instance k0_chk207.dec : ∀ (i : grid0.Coords) (k0_t1 : Fin k0_t1_loop.trips) (v636 : IVec S16 32), Decidable (k0_chk207 i k0_t1 v636) := fun i k0_t1 v636 => decidable_of_iff' _ (Iff.of_eq (k0_chk207.eq_1 i k0_t1 v636))
theorem k0_idx207_inb : ∀ (i : grid0.Coords) (k0_t1 : Fin k0_t1_loop.trips) (v636 : IVec S16 32) (k0_hw207 : k0_chk207 i k0_t1 v636), ∀ (k0_h1 : k0_cond1 i k0_t1 = 1#1), ∀ a x, ((![v636] : Fin 1 → IVec S16 32) a x).toNat < S100000.size a := fun i k0_t1 v636 k0_hw207 k0_h1 => k0_hw207 k0_h1

def k0_chk208 (i : grid0.Coords) (k0_t1 : Fin k0_t1_loop.trips) (v637 : IVec S16 32) : Prop :=
  (∀ (k0_h1 : k0_cond1 i k0_t1 = 1#1), ∀ a x, ((![v637] : Fin 1 → IVec S16 32) a x).toNat < S100000.size a)
instance k0_chk208.dec : ∀ (i : grid0.Coords) (k0_t1 : Fin k0_t1_loop.trips) (v637 : IVec S16 32), Decidable (k0_chk208 i k0_t1 v637) := fun i k0_t1 v637 => decidable_of_iff' _ (Iff.of_eq (k0_chk208.eq_1 i k0_t1 v637))
theorem k0_idx208_inb : ∀ (i : grid0.Coords) (k0_t1 : Fin k0_t1_loop.trips) (v637 : IVec S16 32) (k0_hw208 : k0_chk208 i k0_t1 v637), ∀ (k0_h1 : k0_cond1 i k0_t1 = 1#1), ∀ a x, ((![v637] : Fin 1 → IVec S16 32) a x).toNat < S100000.size a := fun i k0_t1 v637 k0_hw208 k0_h1 => k0_hw208 k0_h1

def k0_chk209 (i : grid0.Coords) (k0_t1 : Fin k0_t1_loop.trips) (v654 : IVec S16 32) : Prop :=
  (∀ (k0_h1 : k0_cond1 i k0_t1 = 1#1), ∀ a x, ((![v654] : Fin 1 → IVec S16 32) a x).toNat < S100000.size a)
instance k0_chk209.dec : ∀ (i : grid0.Coords) (k0_t1 : Fin k0_t1_loop.trips) (v654 : IVec S16 32), Decidable (k0_chk209 i k0_t1 v654) := fun i k0_t1 v654 => decidable_of_iff' _ (Iff.of_eq (k0_chk209.eq_1 i k0_t1 v654))
theorem k0_idx209_inb : ∀ (i : grid0.Coords) (k0_t1 : Fin k0_t1_loop.trips) (v654 : IVec S16 32) (k0_hw209 : k0_chk209 i k0_t1 v654), ∀ (k0_h1 : k0_cond1 i k0_t1 = 1#1), ∀ a x, ((![v654] : Fin 1 → IVec S16 32) a x).toNat < S100000.size a := fun i k0_t1 v654 k0_hw209 k0_h1 => k0_hw209 k0_h1

def k0_chk210 (i : grid0.Coords) (k0_t1 : Fin k0_t1_loop.trips) (v655 : IVec S16 32) : Prop :=
  (∀ (k0_h1 : k0_cond1 i k0_t1 = 1#1), ∀ a x, ((![v655] : Fin 1 → IVec S16 32) a x).toNat < S100000.size a)
instance k0_chk210.dec : ∀ (i : grid0.Coords) (k0_t1 : Fin k0_t1_loop.trips) (v655 : IVec S16 32), Decidable (k0_chk210 i k0_t1 v655) := fun i k0_t1 v655 => decidable_of_iff' _ (Iff.of_eq (k0_chk210.eq_1 i k0_t1 v655))
theorem k0_idx210_inb : ∀ (i : grid0.Coords) (k0_t1 : Fin k0_t1_loop.trips) (v655 : IVec S16 32) (k0_hw210 : k0_chk210 i k0_t1 v655), ∀ (k0_h1 : k0_cond1 i k0_t1 = 1#1), ∀ a x, ((![v655] : Fin 1 → IVec S16 32) a x).toNat < S100000.size a := fun i k0_t1 v655 k0_hw210 k0_h1 => k0_hw210 k0_h1

def k0_chk211 (i : grid0.Coords) (k0_t1 : Fin k0_t1_loop.trips) (v656 : IVec S16 32) : Prop :=
  (∀ (k0_h1 : k0_cond1 i k0_t1 = 1#1), ∀ a x, ((![v656] : Fin 1 → IVec S16 32) a x).toNat < S100000.size a)
instance k0_chk211.dec : ∀ (i : grid0.Coords) (k0_t1 : Fin k0_t1_loop.trips) (v656 : IVec S16 32), Decidable (k0_chk211 i k0_t1 v656) := fun i k0_t1 v656 => decidable_of_iff' _ (Iff.of_eq (k0_chk211.eq_1 i k0_t1 v656))
theorem k0_idx211_inb : ∀ (i : grid0.Coords) (k0_t1 : Fin k0_t1_loop.trips) (v656 : IVec S16 32) (k0_hw211 : k0_chk211 i k0_t1 v656), ∀ (k0_h1 : k0_cond1 i k0_t1 = 1#1), ∀ a x, ((![v656] : Fin 1 → IVec S16 32) a x).toNat < S100000.size a := fun i k0_t1 v656 k0_hw211 k0_h1 => k0_hw211 k0_h1

def k0_chk212 (i : grid0.Coords) (k0_t1 : Fin k0_t1_loop.trips) (v657 : IVec S16 32) : Prop :=
  (∀ (k0_h1 : k0_cond1 i k0_t1 = 1#1), ∀ a x, ((![v657] : Fin 1 → IVec S16 32) a x).toNat < S100000.size a)
instance k0_chk212.dec : ∀ (i : grid0.Coords) (k0_t1 : Fin k0_t1_loop.trips) (v657 : IVec S16 32), Decidable (k0_chk212 i k0_t1 v657) := fun i k0_t1 v657 => decidable_of_iff' _ (Iff.of_eq (k0_chk212.eq_1 i k0_t1 v657))
theorem k0_idx212_inb : ∀ (i : grid0.Coords) (k0_t1 : Fin k0_t1_loop.trips) (v657 : IVec S16 32) (k0_hw212 : k0_chk212 i k0_t1 v657), ∀ (k0_h1 : k0_cond1 i k0_t1 = 1#1), ∀ a x, ((![v657] : Fin 1 → IVec S16 32) a x).toNat < S100000.size a := fun i k0_t1 v657 k0_hw212 k0_h1 => k0_hw212 k0_h1

def k0_chk213 (i : grid0.Coords) (k0_t1 : Fin k0_t1_loop.trips) (v658 : IVec S16 32) : Prop :=
  (∀ (k0_h1 : k0_cond1 i k0_t1 = 1#1), ∀ a x, ((![v658] : Fin 1 → IVec S16 32) a x).toNat < S100000.size a)
instance k0_chk213.dec : ∀ (i : grid0.Coords) (k0_t1 : Fin k0_t1_loop.trips) (v658 : IVec S16 32), Decidable (k0_chk213 i k0_t1 v658) := fun i k0_t1 v658 => decidable_of_iff' _ (Iff.of_eq (k0_chk213.eq_1 i k0_t1 v658))
theorem k0_idx213_inb : ∀ (i : grid0.Coords) (k0_t1 : Fin k0_t1_loop.trips) (v658 : IVec S16 32) (k0_hw213 : k0_chk213 i k0_t1 v658), ∀ (k0_h1 : k0_cond1 i k0_t1 = 1#1), ∀ a x, ((![v658] : Fin 1 → IVec S16 32) a x).toNat < S100000.size a := fun i k0_t1 v658 k0_hw213 k0_h1 => k0_hw213 k0_h1

def k0_chk214 (i : grid0.Coords) (k0_t1 : Fin k0_t1_loop.trips) (v659 : IVec S16 32) : Prop :=
  (∀ (k0_h1 : k0_cond1 i k0_t1 = 1#1), ∀ a x, ((![v659] : Fin 1 → IVec S16 32) a x).toNat < S100000.size a)
instance k0_chk214.dec : ∀ (i : grid0.Coords) (k0_t1 : Fin k0_t1_loop.trips) (v659 : IVec S16 32), Decidable (k0_chk214 i k0_t1 v659) := fun i k0_t1 v659 => decidable_of_iff' _ (Iff.of_eq (k0_chk214.eq_1 i k0_t1 v659))
theorem k0_idx214_inb : ∀ (i : grid0.Coords) (k0_t1 : Fin k0_t1_loop.trips) (v659 : IVec S16 32) (k0_hw214 : k0_chk214 i k0_t1 v659), ∀ (k0_h1 : k0_cond1 i k0_t1 = 1#1), ∀ a x, ((![v659] : Fin 1 → IVec S16 32) a x).toNat < S100000.size a := fun i k0_t1 v659 k0_hw214 k0_h1 => k0_hw214 k0_h1

def k0_chk215 (i : grid0.Coords) (k0_t1 : Fin k0_t1_loop.trips) (v660 : IVec S16 32) : Prop :=
  (∀ (k0_h1 : k0_cond1 i k0_t1 = 1#1), ∀ a x, ((![v660] : Fin 1 → IVec S16 32) a x).toNat < S100000.size a)
instance k0_chk215.dec : ∀ (i : grid0.Coords) (k0_t1 : Fin k0_t1_loop.trips) (v660 : IVec S16 32), Decidable (k0_chk215 i k0_t1 v660) := fun i k0_t1 v660 => decidable_of_iff' _ (Iff.of_eq (k0_chk215.eq_1 i k0_t1 v660))
theorem k0_idx215_inb : ∀ (i : grid0.Coords) (k0_t1 : Fin k0_t1_loop.trips) (v660 : IVec S16 32) (k0_hw215 : k0_chk215 i k0_t1 v660), ∀ (k0_h1 : k0_cond1 i k0_t1 = 1#1), ∀ a x, ((![v660] : Fin 1 → IVec S16 32) a x).toNat < S100000.size a := fun i k0_t1 v660 k0_hw215 k0_h1 => k0_hw215 k0_h1

def k0_chk216 (i : grid0.Coords) (k0_t1 : Fin k0_t1_loop.trips) (v661 : IVec S16 32) : Prop :=
  (∀ (k0_h1 : k0_cond1 i k0_t1 = 1#1), ∀ a x, ((![v661] : Fin 1 → IVec S16 32) a x).toNat < S100000.size a)
instance k0_chk216.dec : ∀ (i : grid0.Coords) (k0_t1 : Fin k0_t1_loop.trips) (v661 : IVec S16 32), Decidable (k0_chk216 i k0_t1 v661) := fun i k0_t1 v661 => decidable_of_iff' _ (Iff.of_eq (k0_chk216.eq_1 i k0_t1 v661))
theorem k0_idx216_inb : ∀ (i : grid0.Coords) (k0_t1 : Fin k0_t1_loop.trips) (v661 : IVec S16 32) (k0_hw216 : k0_chk216 i k0_t1 v661), ∀ (k0_h1 : k0_cond1 i k0_t1 = 1#1), ∀ a x, ((![v661] : Fin 1 → IVec S16 32) a x).toNat < S100000.size a := fun i k0_t1 v661 k0_hw216 k0_h1 => k0_hw216 k0_h1

def k0_chk217 (i : grid0.Coords) (k0_t1 : Fin k0_t1_loop.trips) (v678 : IVec S16 32) : Prop :=
  (∀ (k0_h1 : k0_cond1 i k0_t1 = 1#1), ∀ a x, ((![v678] : Fin 1 → IVec S16 32) a x).toNat < S100000.size a)
instance k0_chk217.dec : ∀ (i : grid0.Coords) (k0_t1 : Fin k0_t1_loop.trips) (v678 : IVec S16 32), Decidable (k0_chk217 i k0_t1 v678) := fun i k0_t1 v678 => decidable_of_iff' _ (Iff.of_eq (k0_chk217.eq_1 i k0_t1 v678))
theorem k0_idx217_inb : ∀ (i : grid0.Coords) (k0_t1 : Fin k0_t1_loop.trips) (v678 : IVec S16 32) (k0_hw217 : k0_chk217 i k0_t1 v678), ∀ (k0_h1 : k0_cond1 i k0_t1 = 1#1), ∀ a x, ((![v678] : Fin 1 → IVec S16 32) a x).toNat < S100000.size a := fun i k0_t1 v678 k0_hw217 k0_h1 => k0_hw217 k0_h1

def k0_chk218 (i : grid0.Coords) (k0_t1 : Fin k0_t1_loop.trips) (v679 : IVec S16 32) : Prop :=
  (∀ (k0_h1 : k0_cond1 i k0_t1 = 1#1), ∀ a x, ((![v679] : Fin 1 → IVec S16 32) a x).toNat < S100000.size a)
instance k0_chk218.dec : ∀ (i : grid0.Coords) (k0_t1 : Fin k0_t1_loop.trips) (v679 : IVec S16 32), Decidable (k0_chk218 i k0_t1 v679) := fun i k0_t1 v679 => decidable_of_iff' _ (Iff.of_eq (k0_chk218.eq_1 i k0_t1 v679))
theorem k0_idx218_inb : ∀ (i : grid0.Coords) (k0_t1 : Fin k0_t1_loop.trips) (v679 : IVec S16 32) (k0_hw218 : k0_chk218 i k0_t1 v679), ∀ (k0_h1 : k0_cond1 i k0_t1 = 1#1), ∀ a x, ((![v679] : Fin 1 → IVec S16 32) a x).toNat < S100000.size a := fun i k0_t1 v679 k0_hw218 k0_h1 => k0_hw218 k0_h1

def k0_chk219 (i : grid0.Coords) (k0_t1 : Fin k0_t1_loop.trips) (v680 : IVec S16 32) : Prop :=
  (∀ (k0_h1 : k0_cond1 i k0_t1 = 1#1), ∀ a x, ((![v680] : Fin 1 → IVec S16 32) a x).toNat < S100000.size a)
instance k0_chk219.dec : ∀ (i : grid0.Coords) (k0_t1 : Fin k0_t1_loop.trips) (v680 : IVec S16 32), Decidable (k0_chk219 i k0_t1 v680) := fun i k0_t1 v680 => decidable_of_iff' _ (Iff.of_eq (k0_chk219.eq_1 i k0_t1 v680))
theorem k0_idx219_inb : ∀ (i : grid0.Coords) (k0_t1 : Fin k0_t1_loop.trips) (v680 : IVec S16 32) (k0_hw219 : k0_chk219 i k0_t1 v680), ∀ (k0_h1 : k0_cond1 i k0_t1 = 1#1), ∀ a x, ((![v680] : Fin 1 → IVec S16 32) a x).toNat < S100000.size a := fun i k0_t1 v680 k0_hw219 k0_h1 => k0_hw219 k0_h1

def k0_chk220 (i : grid0.Coords) (k0_t1 : Fin k0_t1_loop.trips) (v681 : IVec S16 32) : Prop :=
  (∀ (k0_h1 : k0_cond1 i k0_t1 = 1#1), ∀ a x, ((![v681] : Fin 1 → IVec S16 32) a x).toNat < S100000.size a)
instance k0_chk220.dec : ∀ (i : grid0.Coords) (k0_t1 : Fin k0_t1_loop.trips) (v681 : IVec S16 32), Decidable (k0_chk220 i k0_t1 v681) := fun i k0_t1 v681 => decidable_of_iff' _ (Iff.of_eq (k0_chk220.eq_1 i k0_t1 v681))
theorem k0_idx220_inb : ∀ (i : grid0.Coords) (k0_t1 : Fin k0_t1_loop.trips) (v681 : IVec S16 32) (k0_hw220 : k0_chk220 i k0_t1 v681), ∀ (k0_h1 : k0_cond1 i k0_t1 = 1#1), ∀ a x, ((![v681] : Fin 1 → IVec S16 32) a x).toNat < S100000.size a := fun i k0_t1 v681 k0_hw220 k0_h1 => k0_hw220 k0_h1

def k0_chk221 (i : grid0.Coords) (k0_t1 : Fin k0_t1_loop.trips) (v682 : IVec S16 32) : Prop :=
  (∀ (k0_h1 : k0_cond1 i k0_t1 = 1#1), ∀ a x, ((![v682] : Fin 1 → IVec S16 32) a x).toNat < S100000.size a)
instance k0_chk221.dec : ∀ (i : grid0.Coords) (k0_t1 : Fin k0_t1_loop.trips) (v682 : IVec S16 32), Decidable (k0_chk221 i k0_t1 v682) := fun i k0_t1 v682 => decidable_of_iff' _ (Iff.of_eq (k0_chk221.eq_1 i k0_t1 v682))
theorem k0_idx221_inb : ∀ (i : grid0.Coords) (k0_t1 : Fin k0_t1_loop.trips) (v682 : IVec S16 32) (k0_hw221 : k0_chk221 i k0_t1 v682), ∀ (k0_h1 : k0_cond1 i k0_t1 = 1#1), ∀ a x, ((![v682] : Fin 1 → IVec S16 32) a x).toNat < S100000.size a := fun i k0_t1 v682 k0_hw221 k0_h1 => k0_hw221 k0_h1

def k0_chk222 (i : grid0.Coords) (k0_t1 : Fin k0_t1_loop.trips) (v683 : IVec S16 32) : Prop :=
  (∀ (k0_h1 : k0_cond1 i k0_t1 = 1#1), ∀ a x, ((![v683] : Fin 1 → IVec S16 32) a x).toNat < S100000.size a)
instance k0_chk222.dec : ∀ (i : grid0.Coords) (k0_t1 : Fin k0_t1_loop.trips) (v683 : IVec S16 32), Decidable (k0_chk222 i k0_t1 v683) := fun i k0_t1 v683 => decidable_of_iff' _ (Iff.of_eq (k0_chk222.eq_1 i k0_t1 v683))
theorem k0_idx222_inb : ∀ (i : grid0.Coords) (k0_t1 : Fin k0_t1_loop.trips) (v683 : IVec S16 32) (k0_hw222 : k0_chk222 i k0_t1 v683), ∀ (k0_h1 : k0_cond1 i k0_t1 = 1#1), ∀ a x, ((![v683] : Fin 1 → IVec S16 32) a x).toNat < S100000.size a := fun i k0_t1 v683 k0_hw222 k0_h1 => k0_hw222 k0_h1

def k0_chk223 (i : grid0.Coords) (k0_t1 : Fin k0_t1_loop.trips) (v684 : IVec S16 32) : Prop :=
  (∀ (k0_h1 : k0_cond1 i k0_t1 = 1#1), ∀ a x, ((![v684] : Fin 1 → IVec S16 32) a x).toNat < S100000.size a)
instance k0_chk223.dec : ∀ (i : grid0.Coords) (k0_t1 : Fin k0_t1_loop.trips) (v684 : IVec S16 32), Decidable (k0_chk223 i k0_t1 v684) := fun i k0_t1 v684 => decidable_of_iff' _ (Iff.of_eq (k0_chk223.eq_1 i k0_t1 v684))
theorem k0_idx223_inb : ∀ (i : grid0.Coords) (k0_t1 : Fin k0_t1_loop.trips) (v684 : IVec S16 32) (k0_hw223 : k0_chk223 i k0_t1 v684), ∀ (k0_h1 : k0_cond1 i k0_t1 = 1#1), ∀ a x, ((![v684] : Fin 1 → IVec S16 32) a x).toNat < S100000.size a := fun i k0_t1 v684 k0_hw223 k0_h1 => k0_hw223 k0_h1

def k0_chk224 (i : grid0.Coords) (k0_t1 : Fin k0_t1_loop.trips) (v685 : IVec S16 32) : Prop :=
  (∀ (k0_h1 : k0_cond1 i k0_t1 = 1#1), ∀ a x, ((![v685] : Fin 1 → IVec S16 32) a x).toNat < S100000.size a)
instance k0_chk224.dec : ∀ (i : grid0.Coords) (k0_t1 : Fin k0_t1_loop.trips) (v685 : IVec S16 32), Decidable (k0_chk224 i k0_t1 v685) := fun i k0_t1 v685 => decidable_of_iff' _ (Iff.of_eq (k0_chk224.eq_1 i k0_t1 v685))
theorem k0_idx224_inb : ∀ (i : grid0.Coords) (k0_t1 : Fin k0_t1_loop.trips) (v685 : IVec S16 32) (k0_hw224 : k0_chk224 i k0_t1 v685), ∀ (k0_h1 : k0_cond1 i k0_t1 = 1#1), ∀ a x, ((![v685] : Fin 1 → IVec S16 32) a x).toNat < S100000.size a := fun i k0_t1 v685 k0_hw224 k0_h1 => k0_hw224 k0_h1

def k0_chk225 (i : grid0.Coords) (k0_t1 : Fin k0_t1_loop.trips) (v702 : IVec S16 32) : Prop :=
  (∀ (k0_h1 : k0_cond1 i k0_t1 = 1#1), ∀ a x, ((![v702] : Fin 1 → IVec S16 32) a x).toNat < S100000.size a)
instance k0_chk225.dec : ∀ (i : grid0.Coords) (k0_t1 : Fin k0_t1_loop.trips) (v702 : IVec S16 32), Decidable (k0_chk225 i k0_t1 v702) := fun i k0_t1 v702 => decidable_of_iff' _ (Iff.of_eq (k0_chk225.eq_1 i k0_t1 v702))
theorem k0_idx225_inb : ∀ (i : grid0.Coords) (k0_t1 : Fin k0_t1_loop.trips) (v702 : IVec S16 32) (k0_hw225 : k0_chk225 i k0_t1 v702), ∀ (k0_h1 : k0_cond1 i k0_t1 = 1#1), ∀ a x, ((![v702] : Fin 1 → IVec S16 32) a x).toNat < S100000.size a := fun i k0_t1 v702 k0_hw225 k0_h1 => k0_hw225 k0_h1

def k0_chk226 (i : grid0.Coords) (k0_t1 : Fin k0_t1_loop.trips) (v703 : IVec S16 32) : Prop :=
  (∀ (k0_h1 : k0_cond1 i k0_t1 = 1#1), ∀ a x, ((![v703] : Fin 1 → IVec S16 32) a x).toNat < S100000.size a)
instance k0_chk226.dec : ∀ (i : grid0.Coords) (k0_t1 : Fin k0_t1_loop.trips) (v703 : IVec S16 32), Decidable (k0_chk226 i k0_t1 v703) := fun i k0_t1 v703 => decidable_of_iff' _ (Iff.of_eq (k0_chk226.eq_1 i k0_t1 v703))
theorem k0_idx226_inb : ∀ (i : grid0.Coords) (k0_t1 : Fin k0_t1_loop.trips) (v703 : IVec S16 32) (k0_hw226 : k0_chk226 i k0_t1 v703), ∀ (k0_h1 : k0_cond1 i k0_t1 = 1#1), ∀ a x, ((![v703] : Fin 1 → IVec S16 32) a x).toNat < S100000.size a := fun i k0_t1 v703 k0_hw226 k0_h1 => k0_hw226 k0_h1

def k0_chk227 (i : grid0.Coords) (k0_t1 : Fin k0_t1_loop.trips) (v704 : IVec S16 32) : Prop :=
  (∀ (k0_h1 : k0_cond1 i k0_t1 = 1#1), ∀ a x, ((![v704] : Fin 1 → IVec S16 32) a x).toNat < S100000.size a)
instance k0_chk227.dec : ∀ (i : grid0.Coords) (k0_t1 : Fin k0_t1_loop.trips) (v704 : IVec S16 32), Decidable (k0_chk227 i k0_t1 v704) := fun i k0_t1 v704 => decidable_of_iff' _ (Iff.of_eq (k0_chk227.eq_1 i k0_t1 v704))
theorem k0_idx227_inb : ∀ (i : grid0.Coords) (k0_t1 : Fin k0_t1_loop.trips) (v704 : IVec S16 32) (k0_hw227 : k0_chk227 i k0_t1 v704), ∀ (k0_h1 : k0_cond1 i k0_t1 = 1#1), ∀ a x, ((![v704] : Fin 1 → IVec S16 32) a x).toNat < S100000.size a := fun i k0_t1 v704 k0_hw227 k0_h1 => k0_hw227 k0_h1

def k0_chk228 (i : grid0.Coords) (k0_t1 : Fin k0_t1_loop.trips) (v705 : IVec S16 32) : Prop :=
  (∀ (k0_h1 : k0_cond1 i k0_t1 = 1#1), ∀ a x, ((![v705] : Fin 1 → IVec S16 32) a x).toNat < S100000.size a)
instance k0_chk228.dec : ∀ (i : grid0.Coords) (k0_t1 : Fin k0_t1_loop.trips) (v705 : IVec S16 32), Decidable (k0_chk228 i k0_t1 v705) := fun i k0_t1 v705 => decidable_of_iff' _ (Iff.of_eq (k0_chk228.eq_1 i k0_t1 v705))
theorem k0_idx228_inb : ∀ (i : grid0.Coords) (k0_t1 : Fin k0_t1_loop.trips) (v705 : IVec S16 32) (k0_hw228 : k0_chk228 i k0_t1 v705), ∀ (k0_h1 : k0_cond1 i k0_t1 = 1#1), ∀ a x, ((![v705] : Fin 1 → IVec S16 32) a x).toNat < S100000.size a := fun i k0_t1 v705 k0_hw228 k0_h1 => k0_hw228 k0_h1

def k0_chk229 (i : grid0.Coords) (k0_t1 : Fin k0_t1_loop.trips) (v706 : IVec S16 32) : Prop :=
  (∀ (k0_h1 : k0_cond1 i k0_t1 = 1#1), ∀ a x, ((![v706] : Fin 1 → IVec S16 32) a x).toNat < S100000.size a)
instance k0_chk229.dec : ∀ (i : grid0.Coords) (k0_t1 : Fin k0_t1_loop.trips) (v706 : IVec S16 32), Decidable (k0_chk229 i k0_t1 v706) := fun i k0_t1 v706 => decidable_of_iff' _ (Iff.of_eq (k0_chk229.eq_1 i k0_t1 v706))
theorem k0_idx229_inb : ∀ (i : grid0.Coords) (k0_t1 : Fin k0_t1_loop.trips) (v706 : IVec S16 32) (k0_hw229 : k0_chk229 i k0_t1 v706), ∀ (k0_h1 : k0_cond1 i k0_t1 = 1#1), ∀ a x, ((![v706] : Fin 1 → IVec S16 32) a x).toNat < S100000.size a := fun i k0_t1 v706 k0_hw229 k0_h1 => k0_hw229 k0_h1

def k0_chk230 (i : grid0.Coords) (k0_t1 : Fin k0_t1_loop.trips) (v707 : IVec S16 32) : Prop :=
  (∀ (k0_h1 : k0_cond1 i k0_t1 = 1#1), ∀ a x, ((![v707] : Fin 1 → IVec S16 32) a x).toNat < S100000.size a)
instance k0_chk230.dec : ∀ (i : grid0.Coords) (k0_t1 : Fin k0_t1_loop.trips) (v707 : IVec S16 32), Decidable (k0_chk230 i k0_t1 v707) := fun i k0_t1 v707 => decidable_of_iff' _ (Iff.of_eq (k0_chk230.eq_1 i k0_t1 v707))
theorem k0_idx230_inb : ∀ (i : grid0.Coords) (k0_t1 : Fin k0_t1_loop.trips) (v707 : IVec S16 32) (k0_hw230 : k0_chk230 i k0_t1 v707), ∀ (k0_h1 : k0_cond1 i k0_t1 = 1#1), ∀ a x, ((![v707] : Fin 1 → IVec S16 32) a x).toNat < S100000.size a := fun i k0_t1 v707 k0_hw230 k0_h1 => k0_hw230 k0_h1

def k0_chk231 (i : grid0.Coords) (k0_t1 : Fin k0_t1_loop.trips) (v708 : IVec S16 32) : Prop :=
  (∀ (k0_h1 : k0_cond1 i k0_t1 = 1#1), ∀ a x, ((![v708] : Fin 1 → IVec S16 32) a x).toNat < S100000.size a)
instance k0_chk231.dec : ∀ (i : grid0.Coords) (k0_t1 : Fin k0_t1_loop.trips) (v708 : IVec S16 32), Decidable (k0_chk231 i k0_t1 v708) := fun i k0_t1 v708 => decidable_of_iff' _ (Iff.of_eq (k0_chk231.eq_1 i k0_t1 v708))
theorem k0_idx231_inb : ∀ (i : grid0.Coords) (k0_t1 : Fin k0_t1_loop.trips) (v708 : IVec S16 32) (k0_hw231 : k0_chk231 i k0_t1 v708), ∀ (k0_h1 : k0_cond1 i k0_t1 = 1#1), ∀ a x, ((![v708] : Fin 1 → IVec S16 32) a x).toNat < S100000.size a := fun i k0_t1 v708 k0_hw231 k0_h1 => k0_hw231 k0_h1

def k0_chk232 (i : grid0.Coords) (k0_t1 : Fin k0_t1_loop.trips) (v709 : IVec S16 32) : Prop :=
  (∀ (k0_h1 : k0_cond1 i k0_t1 = 1#1), ∀ a x, ((![v709] : Fin 1 → IVec S16 32) a x).toNat < S100000.size a)
instance k0_chk232.dec : ∀ (i : grid0.Coords) (k0_t1 : Fin k0_t1_loop.trips) (v709 : IVec S16 32), Decidable (k0_chk232 i k0_t1 v709) := fun i k0_t1 v709 => decidable_of_iff' _ (Iff.of_eq (k0_chk232.eq_1 i k0_t1 v709))
theorem k0_idx232_inb : ∀ (i : grid0.Coords) (k0_t1 : Fin k0_t1_loop.trips) (v709 : IVec S16 32) (k0_hw232 : k0_chk232 i k0_t1 v709), ∀ (k0_h1 : k0_cond1 i k0_t1 = 1#1), ∀ a x, ((![v709] : Fin 1 → IVec S16 32) a x).toNat < S100000.size a := fun i k0_t1 v709 k0_hw232 k0_h1 => k0_hw232 k0_h1

def k0_chk233 (i : grid0.Coords) (k0_t1 : Fin k0_t1_loop.trips) (v726 : IVec S16 32) : Prop :=
  (∀ (k0_h1 : k0_cond1 i k0_t1 = 1#1), ∀ a x, ((![v726] : Fin 1 → IVec S16 32) a x).toNat < S100000.size a)
instance k0_chk233.dec : ∀ (i : grid0.Coords) (k0_t1 : Fin k0_t1_loop.trips) (v726 : IVec S16 32), Decidable (k0_chk233 i k0_t1 v726) := fun i k0_t1 v726 => decidable_of_iff' _ (Iff.of_eq (k0_chk233.eq_1 i k0_t1 v726))
theorem k0_idx233_inb : ∀ (i : grid0.Coords) (k0_t1 : Fin k0_t1_loop.trips) (v726 : IVec S16 32) (k0_hw233 : k0_chk233 i k0_t1 v726), ∀ (k0_h1 : k0_cond1 i k0_t1 = 1#1), ∀ a x, ((![v726] : Fin 1 → IVec S16 32) a x).toNat < S100000.size a := fun i k0_t1 v726 k0_hw233 k0_h1 => k0_hw233 k0_h1

def k0_chk234 (i : grid0.Coords) (k0_t1 : Fin k0_t1_loop.trips) (v727 : IVec S16 32) : Prop :=
  (∀ (k0_h1 : k0_cond1 i k0_t1 = 1#1), ∀ a x, ((![v727] : Fin 1 → IVec S16 32) a x).toNat < S100000.size a)
instance k0_chk234.dec : ∀ (i : grid0.Coords) (k0_t1 : Fin k0_t1_loop.trips) (v727 : IVec S16 32), Decidable (k0_chk234 i k0_t1 v727) := fun i k0_t1 v727 => decidable_of_iff' _ (Iff.of_eq (k0_chk234.eq_1 i k0_t1 v727))
theorem k0_idx234_inb : ∀ (i : grid0.Coords) (k0_t1 : Fin k0_t1_loop.trips) (v727 : IVec S16 32) (k0_hw234 : k0_chk234 i k0_t1 v727), ∀ (k0_h1 : k0_cond1 i k0_t1 = 1#1), ∀ a x, ((![v727] : Fin 1 → IVec S16 32) a x).toNat < S100000.size a := fun i k0_t1 v727 k0_hw234 k0_h1 => k0_hw234 k0_h1

def k0_chk235 (i : grid0.Coords) (k0_t1 : Fin k0_t1_loop.trips) (v728 : IVec S16 32) : Prop :=
  (∀ (k0_h1 : k0_cond1 i k0_t1 = 1#1), ∀ a x, ((![v728] : Fin 1 → IVec S16 32) a x).toNat < S100000.size a)
instance k0_chk235.dec : ∀ (i : grid0.Coords) (k0_t1 : Fin k0_t1_loop.trips) (v728 : IVec S16 32), Decidable (k0_chk235 i k0_t1 v728) := fun i k0_t1 v728 => decidable_of_iff' _ (Iff.of_eq (k0_chk235.eq_1 i k0_t1 v728))
theorem k0_idx235_inb : ∀ (i : grid0.Coords) (k0_t1 : Fin k0_t1_loop.trips) (v728 : IVec S16 32) (k0_hw235 : k0_chk235 i k0_t1 v728), ∀ (k0_h1 : k0_cond1 i k0_t1 = 1#1), ∀ a x, ((![v728] : Fin 1 → IVec S16 32) a x).toNat < S100000.size a := fun i k0_t1 v728 k0_hw235 k0_h1 => k0_hw235 k0_h1

def k0_chk236 (i : grid0.Coords) (k0_t1 : Fin k0_t1_loop.trips) (v729 : IVec S16 32) : Prop :=
  (∀ (k0_h1 : k0_cond1 i k0_t1 = 1#1), ∀ a x, ((![v729] : Fin 1 → IVec S16 32) a x).toNat < S100000.size a)
instance k0_chk236.dec : ∀ (i : grid0.Coords) (k0_t1 : Fin k0_t1_loop.trips) (v729 : IVec S16 32), Decidable (k0_chk236 i k0_t1 v729) := fun i k0_t1 v729 => decidable_of_iff' _ (Iff.of_eq (k0_chk236.eq_1 i k0_t1 v729))
theorem k0_idx236_inb : ∀ (i : grid0.Coords) (k0_t1 : Fin k0_t1_loop.trips) (v729 : IVec S16 32) (k0_hw236 : k0_chk236 i k0_t1 v729), ∀ (k0_h1 : k0_cond1 i k0_t1 = 1#1), ∀ a x, ((![v729] : Fin 1 → IVec S16 32) a x).toNat < S100000.size a := fun i k0_t1 v729 k0_hw236 k0_h1 => k0_hw236 k0_h1

def k0_chk237 (i : grid0.Coords) (k0_t1 : Fin k0_t1_loop.trips) (v730 : IVec S16 32) : Prop :=
  (∀ (k0_h1 : k0_cond1 i k0_t1 = 1#1), ∀ a x, ((![v730] : Fin 1 → IVec S16 32) a x).toNat < S100000.size a)
instance k0_chk237.dec : ∀ (i : grid0.Coords) (k0_t1 : Fin k0_t1_loop.trips) (v730 : IVec S16 32), Decidable (k0_chk237 i k0_t1 v730) := fun i k0_t1 v730 => decidable_of_iff' _ (Iff.of_eq (k0_chk237.eq_1 i k0_t1 v730))
theorem k0_idx237_inb : ∀ (i : grid0.Coords) (k0_t1 : Fin k0_t1_loop.trips) (v730 : IVec S16 32) (k0_hw237 : k0_chk237 i k0_t1 v730), ∀ (k0_h1 : k0_cond1 i k0_t1 = 1#1), ∀ a x, ((![v730] : Fin 1 → IVec S16 32) a x).toNat < S100000.size a := fun i k0_t1 v730 k0_hw237 k0_h1 => k0_hw237 k0_h1

def k0_chk238 (i : grid0.Coords) (k0_t1 : Fin k0_t1_loop.trips) (v731 : IVec S16 32) : Prop :=
  (∀ (k0_h1 : k0_cond1 i k0_t1 = 1#1), ∀ a x, ((![v731] : Fin 1 → IVec S16 32) a x).toNat < S100000.size a)
instance k0_chk238.dec : ∀ (i : grid0.Coords) (k0_t1 : Fin k0_t1_loop.trips) (v731 : IVec S16 32), Decidable (k0_chk238 i k0_t1 v731) := fun i k0_t1 v731 => decidable_of_iff' _ (Iff.of_eq (k0_chk238.eq_1 i k0_t1 v731))
theorem k0_idx238_inb : ∀ (i : grid0.Coords) (k0_t1 : Fin k0_t1_loop.trips) (v731 : IVec S16 32) (k0_hw238 : k0_chk238 i k0_t1 v731), ∀ (k0_h1 : k0_cond1 i k0_t1 = 1#1), ∀ a x, ((![v731] : Fin 1 → IVec S16 32) a x).toNat < S100000.size a := fun i k0_t1 v731 k0_hw238 k0_h1 => k0_hw238 k0_h1

def k0_chk239 (i : grid0.Coords) (k0_t1 : Fin k0_t1_loop.trips) (v732 : IVec S16 32) : Prop :=
  (∀ (k0_h1 : k0_cond1 i k0_t1 = 1#1), ∀ a x, ((![v732] : Fin 1 → IVec S16 32) a x).toNat < S100000.size a)
instance k0_chk239.dec : ∀ (i : grid0.Coords) (k0_t1 : Fin k0_t1_loop.trips) (v732 : IVec S16 32), Decidable (k0_chk239 i k0_t1 v732) := fun i k0_t1 v732 => decidable_of_iff' _ (Iff.of_eq (k0_chk239.eq_1 i k0_t1 v732))
theorem k0_idx239_inb : ∀ (i : grid0.Coords) (k0_t1 : Fin k0_t1_loop.trips) (v732 : IVec S16 32) (k0_hw239 : k0_chk239 i k0_t1 v732), ∀ (k0_h1 : k0_cond1 i k0_t1 = 1#1), ∀ a x, ((![v732] : Fin 1 → IVec S16 32) a x).toNat < S100000.size a := fun i k0_t1 v732 k0_hw239 k0_h1 => k0_hw239 k0_h1

def k0_chk240 (i : grid0.Coords) (k0_t1 : Fin k0_t1_loop.trips) (v733 : IVec S16 32) : Prop :=
  (∀ (k0_h1 : k0_cond1 i k0_t1 = 1#1), ∀ a x, ((![v733] : Fin 1 → IVec S16 32) a x).toNat < S100000.size a)
instance k0_chk240.dec : ∀ (i : grid0.Coords) (k0_t1 : Fin k0_t1_loop.trips) (v733 : IVec S16 32), Decidable (k0_chk240 i k0_t1 v733) := fun i k0_t1 v733 => decidable_of_iff' _ (Iff.of_eq (k0_chk240.eq_1 i k0_t1 v733))
theorem k0_idx240_inb : ∀ (i : grid0.Coords) (k0_t1 : Fin k0_t1_loop.trips) (v733 : IVec S16 32) (k0_hw240 : k0_chk240 i k0_t1 v733), ∀ (k0_h1 : k0_cond1 i k0_t1 = 1#1), ∀ a x, ((![v733] : Fin 1 → IVec S16 32) a x).toNat < S100000.size a := fun i k0_t1 v733 k0_hw240 k0_h1 => k0_hw240 k0_h1

def k0_chk241 (i : grid0.Coords) (k0_t1 : Fin k0_t1_loop.trips) (v750 : IVec S16 32) : Prop :=
  (∀ (k0_h1 : k0_cond1 i k0_t1 = 1#1), ∀ a x, ((![v750] : Fin 1 → IVec S16 32) a x).toNat < S100000.size a)
instance k0_chk241.dec : ∀ (i : grid0.Coords) (k0_t1 : Fin k0_t1_loop.trips) (v750 : IVec S16 32), Decidable (k0_chk241 i k0_t1 v750) := fun i k0_t1 v750 => decidable_of_iff' _ (Iff.of_eq (k0_chk241.eq_1 i k0_t1 v750))
theorem k0_idx241_inb : ∀ (i : grid0.Coords) (k0_t1 : Fin k0_t1_loop.trips) (v750 : IVec S16 32) (k0_hw241 : k0_chk241 i k0_t1 v750), ∀ (k0_h1 : k0_cond1 i k0_t1 = 1#1), ∀ a x, ((![v750] : Fin 1 → IVec S16 32) a x).toNat < S100000.size a := fun i k0_t1 v750 k0_hw241 k0_h1 => k0_hw241 k0_h1

def k0_chk242 (i : grid0.Coords) (k0_t1 : Fin k0_t1_loop.trips) (v751 : IVec S16 32) : Prop :=
  (∀ (k0_h1 : k0_cond1 i k0_t1 = 1#1), ∀ a x, ((![v751] : Fin 1 → IVec S16 32) a x).toNat < S100000.size a)
instance k0_chk242.dec : ∀ (i : grid0.Coords) (k0_t1 : Fin k0_t1_loop.trips) (v751 : IVec S16 32), Decidable (k0_chk242 i k0_t1 v751) := fun i k0_t1 v751 => decidable_of_iff' _ (Iff.of_eq (k0_chk242.eq_1 i k0_t1 v751))
theorem k0_idx242_inb : ∀ (i : grid0.Coords) (k0_t1 : Fin k0_t1_loop.trips) (v751 : IVec S16 32) (k0_hw242 : k0_chk242 i k0_t1 v751), ∀ (k0_h1 : k0_cond1 i k0_t1 = 1#1), ∀ a x, ((![v751] : Fin 1 → IVec S16 32) a x).toNat < S100000.size a := fun i k0_t1 v751 k0_hw242 k0_h1 => k0_hw242 k0_h1

def k0_chk243 (i : grid0.Coords) (k0_t1 : Fin k0_t1_loop.trips) (v752 : IVec S16 32) : Prop :=
  (∀ (k0_h1 : k0_cond1 i k0_t1 = 1#1), ∀ a x, ((![v752] : Fin 1 → IVec S16 32) a x).toNat < S100000.size a)
instance k0_chk243.dec : ∀ (i : grid0.Coords) (k0_t1 : Fin k0_t1_loop.trips) (v752 : IVec S16 32), Decidable (k0_chk243 i k0_t1 v752) := fun i k0_t1 v752 => decidable_of_iff' _ (Iff.of_eq (k0_chk243.eq_1 i k0_t1 v752))
theorem k0_idx243_inb : ∀ (i : grid0.Coords) (k0_t1 : Fin k0_t1_loop.trips) (v752 : IVec S16 32) (k0_hw243 : k0_chk243 i k0_t1 v752), ∀ (k0_h1 : k0_cond1 i k0_t1 = 1#1), ∀ a x, ((![v752] : Fin 1 → IVec S16 32) a x).toNat < S100000.size a := fun i k0_t1 v752 k0_hw243 k0_h1 => k0_hw243 k0_h1

def k0_chk244 (i : grid0.Coords) (k0_t1 : Fin k0_t1_loop.trips) (v753 : IVec S16 32) : Prop :=
  (∀ (k0_h1 : k0_cond1 i k0_t1 = 1#1), ∀ a x, ((![v753] : Fin 1 → IVec S16 32) a x).toNat < S100000.size a)
instance k0_chk244.dec : ∀ (i : grid0.Coords) (k0_t1 : Fin k0_t1_loop.trips) (v753 : IVec S16 32), Decidable (k0_chk244 i k0_t1 v753) := fun i k0_t1 v753 => decidable_of_iff' _ (Iff.of_eq (k0_chk244.eq_1 i k0_t1 v753))
theorem k0_idx244_inb : ∀ (i : grid0.Coords) (k0_t1 : Fin k0_t1_loop.trips) (v753 : IVec S16 32) (k0_hw244 : k0_chk244 i k0_t1 v753), ∀ (k0_h1 : k0_cond1 i k0_t1 = 1#1), ∀ a x, ((![v753] : Fin 1 → IVec S16 32) a x).toNat < S100000.size a := fun i k0_t1 v753 k0_hw244 k0_h1 => k0_hw244 k0_h1

def k0_chk245 (i : grid0.Coords) (k0_t1 : Fin k0_t1_loop.trips) (v754 : IVec S16 32) : Prop :=
  (∀ (k0_h1 : k0_cond1 i k0_t1 = 1#1), ∀ a x, ((![v754] : Fin 1 → IVec S16 32) a x).toNat < S100000.size a)
instance k0_chk245.dec : ∀ (i : grid0.Coords) (k0_t1 : Fin k0_t1_loop.trips) (v754 : IVec S16 32), Decidable (k0_chk245 i k0_t1 v754) := fun i k0_t1 v754 => decidable_of_iff' _ (Iff.of_eq (k0_chk245.eq_1 i k0_t1 v754))
theorem k0_idx245_inb : ∀ (i : grid0.Coords) (k0_t1 : Fin k0_t1_loop.trips) (v754 : IVec S16 32) (k0_hw245 : k0_chk245 i k0_t1 v754), ∀ (k0_h1 : k0_cond1 i k0_t1 = 1#1), ∀ a x, ((![v754] : Fin 1 → IVec S16 32) a x).toNat < S100000.size a := fun i k0_t1 v754 k0_hw245 k0_h1 => k0_hw245 k0_h1

def k0_chk246 (i : grid0.Coords) (k0_t1 : Fin k0_t1_loop.trips) (v755 : IVec S16 32) : Prop :=
  (∀ (k0_h1 : k0_cond1 i k0_t1 = 1#1), ∀ a x, ((![v755] : Fin 1 → IVec S16 32) a x).toNat < S100000.size a)
instance k0_chk246.dec : ∀ (i : grid0.Coords) (k0_t1 : Fin k0_t1_loop.trips) (v755 : IVec S16 32), Decidable (k0_chk246 i k0_t1 v755) := fun i k0_t1 v755 => decidable_of_iff' _ (Iff.of_eq (k0_chk246.eq_1 i k0_t1 v755))
theorem k0_idx246_inb : ∀ (i : grid0.Coords) (k0_t1 : Fin k0_t1_loop.trips) (v755 : IVec S16 32) (k0_hw246 : k0_chk246 i k0_t1 v755), ∀ (k0_h1 : k0_cond1 i k0_t1 = 1#1), ∀ a x, ((![v755] : Fin 1 → IVec S16 32) a x).toNat < S100000.size a := fun i k0_t1 v755 k0_hw246 k0_h1 => k0_hw246 k0_h1

def k0_chk247 (i : grid0.Coords) (k0_t1 : Fin k0_t1_loop.trips) (v756 : IVec S16 32) : Prop :=
  (∀ (k0_h1 : k0_cond1 i k0_t1 = 1#1), ∀ a x, ((![v756] : Fin 1 → IVec S16 32) a x).toNat < S100000.size a)
instance k0_chk247.dec : ∀ (i : grid0.Coords) (k0_t1 : Fin k0_t1_loop.trips) (v756 : IVec S16 32), Decidable (k0_chk247 i k0_t1 v756) := fun i k0_t1 v756 => decidable_of_iff' _ (Iff.of_eq (k0_chk247.eq_1 i k0_t1 v756))
theorem k0_idx247_inb : ∀ (i : grid0.Coords) (k0_t1 : Fin k0_t1_loop.trips) (v756 : IVec S16 32) (k0_hw247 : k0_chk247 i k0_t1 v756), ∀ (k0_h1 : k0_cond1 i k0_t1 = 1#1), ∀ a x, ((![v756] : Fin 1 → IVec S16 32) a x).toNat < S100000.size a := fun i k0_t1 v756 k0_hw247 k0_h1 => k0_hw247 k0_h1

def k0_chk248 (i : grid0.Coords) (k0_t1 : Fin k0_t1_loop.trips) (v757 : IVec S16 32) : Prop :=
  (∀ (k0_h1 : k0_cond1 i k0_t1 = 1#1), ∀ a x, ((![v757] : Fin 1 → IVec S16 32) a x).toNat < S100000.size a)
instance k0_chk248.dec : ∀ (i : grid0.Coords) (k0_t1 : Fin k0_t1_loop.trips) (v757 : IVec S16 32), Decidable (k0_chk248 i k0_t1 v757) := fun i k0_t1 v757 => decidable_of_iff' _ (Iff.of_eq (k0_chk248.eq_1 i k0_t1 v757))
theorem k0_idx248_inb : ∀ (i : grid0.Coords) (k0_t1 : Fin k0_t1_loop.trips) (v757 : IVec S16 32) (k0_hw248 : k0_chk248 i k0_t1 v757), ∀ (k0_h1 : k0_cond1 i k0_t1 = 1#1), ∀ a x, ((![v757] : Fin 1 → IVec S16 32) a x).toNat < S100000.size a := fun i k0_t1 v757 k0_hw248 k0_h1 => k0_hw248 k0_h1

def k0_chk249 (i : grid0.Coords) (k0_t1 : Fin k0_t1_loop.trips) (v774 : IVec S16 32) : Prop :=
  (∀ (k0_h1 : k0_cond1 i k0_t1 = 1#1), ∀ a x, ((![v774] : Fin 1 → IVec S16 32) a x).toNat < S100000.size a)
instance k0_chk249.dec : ∀ (i : grid0.Coords) (k0_t1 : Fin k0_t1_loop.trips) (v774 : IVec S16 32), Decidable (k0_chk249 i k0_t1 v774) := fun i k0_t1 v774 => decidable_of_iff' _ (Iff.of_eq (k0_chk249.eq_1 i k0_t1 v774))
theorem k0_idx249_inb : ∀ (i : grid0.Coords) (k0_t1 : Fin k0_t1_loop.trips) (v774 : IVec S16 32) (k0_hw249 : k0_chk249 i k0_t1 v774), ∀ (k0_h1 : k0_cond1 i k0_t1 = 1#1), ∀ a x, ((![v774] : Fin 1 → IVec S16 32) a x).toNat < S100000.size a := fun i k0_t1 v774 k0_hw249 k0_h1 => k0_hw249 k0_h1

def k0_chk250 (i : grid0.Coords) (k0_t1 : Fin k0_t1_loop.trips) (v775 : IVec S16 32) : Prop :=
  (∀ (k0_h1 : k0_cond1 i k0_t1 = 1#1), ∀ a x, ((![v775] : Fin 1 → IVec S16 32) a x).toNat < S100000.size a)
instance k0_chk250.dec : ∀ (i : grid0.Coords) (k0_t1 : Fin k0_t1_loop.trips) (v775 : IVec S16 32), Decidable (k0_chk250 i k0_t1 v775) := fun i k0_t1 v775 => decidable_of_iff' _ (Iff.of_eq (k0_chk250.eq_1 i k0_t1 v775))
theorem k0_idx250_inb : ∀ (i : grid0.Coords) (k0_t1 : Fin k0_t1_loop.trips) (v775 : IVec S16 32) (k0_hw250 : k0_chk250 i k0_t1 v775), ∀ (k0_h1 : k0_cond1 i k0_t1 = 1#1), ∀ a x, ((![v775] : Fin 1 → IVec S16 32) a x).toNat < S100000.size a := fun i k0_t1 v775 k0_hw250 k0_h1 => k0_hw250 k0_h1

def k0_chk251 (i : grid0.Coords) (k0_t1 : Fin k0_t1_loop.trips) (v776 : IVec S16 32) : Prop :=
  (∀ (k0_h1 : k0_cond1 i k0_t1 = 1#1), ∀ a x, ((![v776] : Fin 1 → IVec S16 32) a x).toNat < S100000.size a)
instance k0_chk251.dec : ∀ (i : grid0.Coords) (k0_t1 : Fin k0_t1_loop.trips) (v776 : IVec S16 32), Decidable (k0_chk251 i k0_t1 v776) := fun i k0_t1 v776 => decidable_of_iff' _ (Iff.of_eq (k0_chk251.eq_1 i k0_t1 v776))
theorem k0_idx251_inb : ∀ (i : grid0.Coords) (k0_t1 : Fin k0_t1_loop.trips) (v776 : IVec S16 32) (k0_hw251 : k0_chk251 i k0_t1 v776), ∀ (k0_h1 : k0_cond1 i k0_t1 = 1#1), ∀ a x, ((![v776] : Fin 1 → IVec S16 32) a x).toNat < S100000.size a := fun i k0_t1 v776 k0_hw251 k0_h1 => k0_hw251 k0_h1

def k0_chk252 (i : grid0.Coords) (k0_t1 : Fin k0_t1_loop.trips) (v777 : IVec S16 32) : Prop :=
  (∀ (k0_h1 : k0_cond1 i k0_t1 = 1#1), ∀ a x, ((![v777] : Fin 1 → IVec S16 32) a x).toNat < S100000.size a)
instance k0_chk252.dec : ∀ (i : grid0.Coords) (k0_t1 : Fin k0_t1_loop.trips) (v777 : IVec S16 32), Decidable (k0_chk252 i k0_t1 v777) := fun i k0_t1 v777 => decidable_of_iff' _ (Iff.of_eq (k0_chk252.eq_1 i k0_t1 v777))
theorem k0_idx252_inb : ∀ (i : grid0.Coords) (k0_t1 : Fin k0_t1_loop.trips) (v777 : IVec S16 32) (k0_hw252 : k0_chk252 i k0_t1 v777), ∀ (k0_h1 : k0_cond1 i k0_t1 = 1#1), ∀ a x, ((![v777] : Fin 1 → IVec S16 32) a x).toNat < S100000.size a := fun i k0_t1 v777 k0_hw252 k0_h1 => k0_hw252 k0_h1

def k0_chk253 (i : grid0.Coords) (k0_t1 : Fin k0_t1_loop.trips) (v778 : IVec S16 32) : Prop :=
  (∀ (k0_h1 : k0_cond1 i k0_t1 = 1#1), ∀ a x, ((![v778] : Fin 1 → IVec S16 32) a x).toNat < S100000.size a)
instance k0_chk253.dec : ∀ (i : grid0.Coords) (k0_t1 : Fin k0_t1_loop.trips) (v778 : IVec S16 32), Decidable (k0_chk253 i k0_t1 v778) := fun i k0_t1 v778 => decidable_of_iff' _ (Iff.of_eq (k0_chk253.eq_1 i k0_t1 v778))
theorem k0_idx253_inb : ∀ (i : grid0.Coords) (k0_t1 : Fin k0_t1_loop.trips) (v778 : IVec S16 32) (k0_hw253 : k0_chk253 i k0_t1 v778), ∀ (k0_h1 : k0_cond1 i k0_t1 = 1#1), ∀ a x, ((![v778] : Fin 1 → IVec S16 32) a x).toNat < S100000.size a := fun i k0_t1 v778 k0_hw253 k0_h1 => k0_hw253 k0_h1

def k0_chk254 (i : grid0.Coords) (k0_t1 : Fin k0_t1_loop.trips) (v779 : IVec S16 32) : Prop :=
  (∀ (k0_h1 : k0_cond1 i k0_t1 = 1#1), ∀ a x, ((![v779] : Fin 1 → IVec S16 32) a x).toNat < S100000.size a)
instance k0_chk254.dec : ∀ (i : grid0.Coords) (k0_t1 : Fin k0_t1_loop.trips) (v779 : IVec S16 32), Decidable (k0_chk254 i k0_t1 v779) := fun i k0_t1 v779 => decidable_of_iff' _ (Iff.of_eq (k0_chk254.eq_1 i k0_t1 v779))
theorem k0_idx254_inb : ∀ (i : grid0.Coords) (k0_t1 : Fin k0_t1_loop.trips) (v779 : IVec S16 32) (k0_hw254 : k0_chk254 i k0_t1 v779), ∀ (k0_h1 : k0_cond1 i k0_t1 = 1#1), ∀ a x, ((![v779] : Fin 1 → IVec S16 32) a x).toNat < S100000.size a := fun i k0_t1 v779 k0_hw254 k0_h1 => k0_hw254 k0_h1

def k0_chk255 (i : grid0.Coords) (k0_t1 : Fin k0_t1_loop.trips) (v780 : IVec S16 32) : Prop :=
  (∀ (k0_h1 : k0_cond1 i k0_t1 = 1#1), ∀ a x, ((![v780] : Fin 1 → IVec S16 32) a x).toNat < S100000.size a)
instance k0_chk255.dec : ∀ (i : grid0.Coords) (k0_t1 : Fin k0_t1_loop.trips) (v780 : IVec S16 32), Decidable (k0_chk255 i k0_t1 v780) := fun i k0_t1 v780 => decidable_of_iff' _ (Iff.of_eq (k0_chk255.eq_1 i k0_t1 v780))
theorem k0_idx255_inb : ∀ (i : grid0.Coords) (k0_t1 : Fin k0_t1_loop.trips) (v780 : IVec S16 32) (k0_hw255 : k0_chk255 i k0_t1 v780), ∀ (k0_h1 : k0_cond1 i k0_t1 = 1#1), ∀ a x, ((![v780] : Fin 1 → IVec S16 32) a x).toNat < S100000.size a := fun i k0_t1 v780 k0_hw255 k0_h1 => k0_hw255 k0_h1

def k0_chk256 (i : grid0.Coords) (k0_t1 : Fin k0_t1_loop.trips) (v781 : IVec S16 32) : Prop :=
  (∀ (k0_h1 : k0_cond1 i k0_t1 = 1#1), ∀ a x, ((![v781] : Fin 1 → IVec S16 32) a x).toNat < S100000.size a)
instance k0_chk256.dec : ∀ (i : grid0.Coords) (k0_t1 : Fin k0_t1_loop.trips) (v781 : IVec S16 32), Decidable (k0_chk256 i k0_t1 v781) := fun i k0_t1 v781 => decidable_of_iff' _ (Iff.of_eq (k0_chk256.eq_1 i k0_t1 v781))
theorem k0_idx256_inb : ∀ (i : grid0.Coords) (k0_t1 : Fin k0_t1_loop.trips) (v781 : IVec S16 32) (k0_hw256 : k0_chk256 i k0_t1 v781), ∀ (k0_h1 : k0_cond1 i k0_t1 = 1#1), ∀ a x, ((![v781] : Fin 1 → IVec S16 32) a x).toNat < S100000.size a := fun i k0_t1 v781 k0_hw256 k0_h1 => k0_hw256 k0_h1
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_11 : BitVec 32 := 0#32
  let c0_i32_2 : BitVec 32 := 0#32
  let c1_i32 : BitVec 32 := 1#32
  let arg11 : BitVec 32 := Scf.iv c0_i32_2 c1_i32 k0_t1
  let c1_i32_10 : BitVec 32 := 1#32
  let v19 : BitVec 32 := Scalar.muli arg11 c1_i32_10
  let v20 : BitVec 32 := Scalar.addi c0_i32_11 v19
  let v21 : BitVec 32 := Scalar.muli c32_i32 v20
  let v22 : BitVec 32 := Scalar.addi v1 v21
  let c0_i32_272 : BitVec 32 := 0#32
  ![v22.toNat, 0]

def k0_chk257 (i : grid0.Coords) (k0_t1 : Fin k0_t1_loop.trips) (v806 : IVec S16 32) : Prop :=
  (∀ (k0_h1 : k0_cond1 i k0_t1 = 1#1), ∀ a x, ((![v806] : Fin 1 → IVec S16 32) a x).toNat < S100000.size a)
instance k0_chk257.dec : ∀ (i : grid0.Coords) (k0_t1 : Fin k0_t1_loop.trips) (v806 : IVec S16 32), Decidable (k0_chk257 i k0_t1 v806) := fun i k0_t1 v806 => decidable_of_iff' _ (Iff.of_eq (k0_chk257.eq_1 i k0_t1 v806))
theorem k0_idx257_inb : ∀ (i : grid0.Coords) (k0_t1 : Fin k0_t1_loop.trips) (v806 : IVec S16 32) (k0_hw257 : k0_chk257 i k0_t1 v806), ∀ (k0_h1 : k0_cond1 i k0_t1 = 1#1), ∀ a x, ((![v806] : Fin 1 → IVec S16 32) a x).toNat < S100000.size a := fun i k0_t1 v806 k0_hw257 k0_h1 => k0_hw257 k0_h1

def k0_chk258 (i : grid0.Coords) (k0_t1 : Fin k0_t1_loop.trips) (v807 : IVec S16 32) : Prop :=
  (∀ (k0_h1 : k0_cond1 i k0_t1 = 1#1), ∀ a x, ((![v807] : Fin 1 → IVec S16 32) a x).toNat < S100000.size a)
instance k0_chk258.dec : ∀ (i : grid0.Coords) (k0_t1 : Fin k0_t1_loop.trips) (v807 : IVec S16 32), Decidable (k0_chk258 i k0_t1 v807) := fun i k0_t1 v807 => decidable_of_iff' _ (Iff.of_eq (k0_chk258.eq_1 i k0_t1 v807))
theorem k0_idx258_inb : ∀ (i : grid0.Coords) (k0_t1 : Fin k0_t1_loop.trips) (v807 : IVec S16 32) (k0_hw258 : k0_chk258 i k0_t1 v807), ∀ (k0_h1 : k0_cond1 i k0_t1 = 1#1), ∀ a x, ((![v807] : Fin 1 → IVec S16 32) a x).toNat < S100000.size a := fun i k0_t1 v807 k0_hw258 k0_h1 => k0_hw258 k0_h1

def k0_chk259 (i : grid0.Coords) (k0_t1 : Fin k0_t1_loop.trips) (v808 : IVec S16 32) : Prop :=
  (∀ (k0_h1 : k0_cond1 i k0_t1 = 1#1), ∀ a x, ((![v808] : Fin 1 → IVec S16 32) a x).toNat < S100000.size a)
instance k0_chk259.dec : ∀ (i : grid0.Coords) (k0_t1 : Fin k0_t1_loop.trips) (v808 : IVec S16 32), Decidable (k0_chk259 i k0_t1 v808) := fun i k0_t1 v808 => decidable_of_iff' _ (Iff.of_eq (k0_chk259.eq_1 i k0_t1 v808))
theorem k0_idx259_inb : ∀ (i : grid0.Coords) (k0_t1 : Fin k0_t1_loop.trips) (v808 : IVec S16 32) (k0_hw259 : k0_chk259 i k0_t1 v808), ∀ (k0_h1 : k0_cond1 i k0_t1 = 1#1), ∀ a x, ((![v808] : Fin 1 → IVec S16 32) a x).toNat < S100000.size a := fun i k0_t1 v808 k0_hw259 k0_h1 => k0_hw259 k0_h1

def k0_chk260 (i : grid0.Coords) (k0_t1 : Fin k0_t1_loop.trips) (v809 : IVec S16 32) : Prop :=
  (∀ (k0_h1 : k0_cond1 i k0_t1 = 1#1), ∀ a x, ((![v809] : Fin 1 → IVec S16 32) a x).toNat < S100000.size a)
instance k0_chk260.dec : ∀ (i : grid0.Coords) (k0_t1 : Fin k0_t1_loop.trips) (v809 : IVec S16 32), Decidable (k0_chk260 i k0_t1 v809) := fun i k0_t1 v809 => decidable_of_iff' _ (Iff.of_eq (k0_chk260.eq_1 i k0_t1 v809))
theorem k0_idx260_inb : ∀ (i : grid0.Coords) (k0_t1 : Fin k0_t1_loop.trips) (v809 : IVec S16 32) (k0_hw260 : k0_chk260 i k0_t1 v809), ∀ (k0_h1 : k0_cond1 i k0_t1 = 1#1), ∀ a x, ((![v809] : Fin 1 → IVec S16 32) a x).toNat < S100000.size a := fun i k0_t1 v809 k0_hw260 k0_h1 => k0_hw260 k0_h1

def k0_chk261 (i : grid0.Coords) (k0_t1 : Fin k0_t1_loop.trips) (v810 : IVec S16 32) : Prop :=
  (∀ (k0_h1 : k0_cond1 i k0_t1 = 1#1), ∀ a x, ((![v810] : Fin 1 → IVec S16 32) a x).toNat < S100000.size a)
instance k0_chk261.dec : ∀ (i : grid0.Coords) (k0_t1 : Fin k0_t1_loop.trips) (v810 : IVec S16 32), Decidable (k0_chk261 i k0_t1 v810) := fun i k0_t1 v810 => decidable_of_iff' _ (Iff.of_eq (k0_chk261.eq_1 i k0_t1 v810))
theorem k0_idx261_inb : ∀ (i : grid0.Coords) (k0_t1 : Fin k0_t1_loop.trips) (v810 : IVec S16 32) (k0_hw261 : k0_chk261 i k0_t1 v810), ∀ (k0_h1 : k0_cond1 i k0_t1 = 1#1), ∀ a x, ((![v810] : Fin 1 → IVec S16 32) a x).toNat < S100000.size a := fun i k0_t1 v810 k0_hw261 k0_h1 => k0_hw261 k0_h1

def k0_chk262 (i : grid0.Coords) (k0_t1 : Fin k0_t1_loop.trips) (v811 : IVec S16 32) : Prop :=
  (∀ (k0_h1 : k0_cond1 i k0_t1 = 1#1), ∀ a x, ((![v811] : Fin 1 → IVec S16 32) a x).toNat < S100000.size a)
instance k0_chk262.dec : ∀ (i : grid0.Coords) (k0_t1 : Fin k0_t1_loop.trips) (v811 : IVec S16 32), Decidable (k0_chk262 i k0_t1 v811) := fun i k0_t1 v811 => decidable_of_iff' _ (Iff.of_eq (k0_chk262.eq_1 i k0_t1 v811))
theorem k0_idx262_inb : ∀ (i : grid0.Coords) (k0_t1 : Fin k0_t1_loop.trips) (v811 : IVec S16 32) (k0_hw262 : k0_chk262 i k0_t1 v811), ∀ (k0_h1 : k0_cond1 i k0_t1 = 1#1), ∀ a x, ((![v811] : Fin 1 → IVec S16 32) a x).toNat < S100000.size a := fun i k0_t1 v811 k0_hw262 k0_h1 => k0_hw262 k0_h1

def k0_chk263 (i : grid0.Coords) (k0_t1 : Fin k0_t1_loop.trips) (v812 : IVec S16 32) : Prop :=
  (∀ (k0_h1 : k0_cond1 i k0_t1 = 1#1), ∀ a x, ((![v812] : Fin 1 → IVec S16 32) a x).toNat < S100000.size a)
instance k0_chk263.dec : ∀ (i : grid0.Coords) (k0_t1 : Fin k0_t1_loop.trips) (v812 : IVec S16 32), Decidable (k0_chk263 i k0_t1 v812) := fun i k0_t1 v812 => decidable_of_iff' _ (Iff.of_eq (k0_chk263.eq_1 i k0_t1 v812))
theorem k0_idx263_inb : ∀ (i : grid0.Coords) (k0_t1 : Fin k0_t1_loop.trips) (v812 : IVec S16 32) (k0_hw263 : k0_chk263 i k0_t1 v812), ∀ (k0_h1 : k0_cond1 i k0_t1 = 1#1), ∀ a x, ((![v812] : Fin 1 → IVec S16 32) a x).toNat < S100000.size a := fun i k0_t1 v812 k0_hw263 k0_h1 => k0_hw263 k0_h1

def k0_chk264 (i : grid0.Coords) (k0_t1 : Fin k0_t1_loop.trips) (v813 : IVec S16 32) : Prop :=
  (∀ (k0_h1 : k0_cond1 i k0_t1 = 1#1), ∀ a x, ((![v813] : Fin 1 → IVec S16 32) a x).toNat < S100000.size a)
instance k0_chk264.dec : ∀ (i : grid0.Coords) (k0_t1 : Fin k0_t1_loop.trips) (v813 : IVec S16 32), Decidable (k0_chk264 i k0_t1 v813) := fun i k0_t1 v813 => decidable_of_iff' _ (Iff.of_eq (k0_chk264.eq_1 i k0_t1 v813))
theorem k0_idx264_inb : ∀ (i : grid0.Coords) (k0_t1 : Fin k0_t1_loop.trips) (v813 : IVec S16 32) (k0_hw264 : k0_chk264 i k0_t1 v813), ∀ (k0_h1 : k0_cond1 i k0_t1 = 1#1), ∀ a x, ((![v813] : Fin 1 → IVec S16 32) a x).toNat < S100000.size a := fun i k0_t1 v813 k0_hw264 k0_h1 => k0_hw264 k0_h1

def k0_chk265 (i : grid0.Coords) (k0_t1 : Fin k0_t1_loop.trips) (v830 : IVec S16 32) : Prop :=
  (∀ (k0_h1 : k0_cond1 i k0_t1 = 1#1), ∀ a x, ((![v830] : Fin 1 → IVec S16 32) a x).toNat < S100000.size a)
instance k0_chk265.dec : ∀ (i : grid0.Coords) (k0_t1 : Fin k0_t1_loop.trips) (v830 : IVec S16 32), Decidable (k0_chk265 i k0_t1 v830) := fun i k0_t1 v830 => decidable_of_iff' _ (Iff.of_eq (k0_chk265.eq_1 i k0_t1 v830))
theorem k0_idx265_inb : ∀ (i : grid0.Coords) (k0_t1 : Fin k0_t1_loop.trips) (v830 : IVec S16 32) (k0_hw265 : k0_chk265 i k0_t1 v830), ∀ (k0_h1 : k0_cond1 i k0_t1 = 1#1), ∀ a x, ((![v830] : Fin 1 → IVec S16 32) a x).toNat < S100000.size a := fun i k0_t1 v830 k0_hw265 k0_h1 => k0_hw265 k0_h1

def k0_chk266 (i : grid0.Coords) (k0_t1 : Fin k0_t1_loop.trips) (v831 : IVec S16 32) : Prop :=
  (∀ (k0_h1 : k0_cond1 i k0_t1 = 1#1), ∀ a x, ((![v831] : Fin 1 → IVec S16 32) a x).toNat < S100000.size a)
instance k0_chk266.dec : ∀ (i : grid0.Coords) (k0_t1 : Fin k0_t1_loop.trips) (v831 : IVec S16 32), Decidable (k0_chk266 i k0_t1 v831) := fun i k0_t1 v831 => decidable_of_iff' _ (Iff.of_eq (k0_chk266.eq_1 i k0_t1 v831))
theorem k0_idx266_inb : ∀ (i : grid0.Coords) (k0_t1 : Fin k0_t1_loop.trips) (v831 : IVec S16 32) (k0_hw266 : k0_chk266 i k0_t1 v831), ∀ (k0_h1 : k0_cond1 i k0_t1 = 1#1), ∀ a x, ((![v831] : Fin 1 → IVec S16 32) a x).toNat < S100000.size a := fun i k0_t1 v831 k0_hw266 k0_h1 => k0_hw266 k0_h1

def k0_chk267 (i : grid0.Coords) (k0_t1 : Fin k0_t1_loop.trips) (v832 : IVec S16 32) : Prop :=
  (∀ (k0_h1 : k0_cond1 i k0_t1 = 1#1), ∀ a x, ((![v832] : Fin 1 → IVec S16 32) a x).toNat < S100000.size a)
instance k0_chk267.dec : ∀ (i : grid0.Coords) (k0_t1 : Fin k0_t1_loop.trips) (v832 : IVec S16 32), Decidable (k0_chk267 i k0_t1 v832) := fun i k0_t1 v832 => decidable_of_iff' _ (Iff.of_eq (k0_chk267.eq_1 i k0_t1 v832))
theorem k0_idx267_inb : ∀ (i : grid0.Coords) (k0_t1 : Fin k0_t1_loop.trips) (v832 : IVec S16 32) (k0_hw267 : k0_chk267 i k0_t1 v832), ∀ (k0_h1 : k0_cond1 i k0_t1 = 1#1), ∀ a x, ((![v832] : Fin 1 → IVec S16 32) a x).toNat < S100000.size a := fun i k0_t1 v832 k0_hw267 k0_h1 => k0_hw267 k0_h1

def k0_chk268 (i : grid0.Coords) (k0_t1 : Fin k0_t1_loop.trips) (v833 : IVec S16 32) : Prop :=
  (∀ (k0_h1 : k0_cond1 i k0_t1 = 1#1), ∀ a x, ((![v833] : Fin 1 → IVec S16 32) a x).toNat < S100000.size a)
instance k0_chk268.dec : ∀ (i : grid0.Coords) (k0_t1 : Fin k0_t1_loop.trips) (v833 : IVec S16 32), Decidable (k0_chk268 i k0_t1 v833) := fun i k0_t1 v833 => decidable_of_iff' _ (Iff.of_eq (k0_chk268.eq_1 i k0_t1 v833))
theorem k0_idx268_inb : ∀ (i : grid0.Coords) (k0_t1 : Fin k0_t1_loop.trips) (v833 : IVec S16 32) (k0_hw268 : k0_chk268 i k0_t1 v833), ∀ (k0_h1 : k0_cond1 i k0_t1 = 1#1), ∀ a x, ((![v833] : Fin 1 → IVec S16 32) a x).toNat < S100000.size a := fun i k0_t1 v833 k0_hw268 k0_h1 => k0_hw268 k0_h1

def k0_chk269 (i : grid0.Coords) (k0_t1 : Fin k0_t1_loop.trips) (v834 : IVec S16 32) : Prop :=
  (∀ (k0_h1 : k0_cond1 i k0_t1 = 1#1), ∀ a x, ((![v834] : Fin 1 → IVec S16 32) a x).toNat < S100000.size a)
instance k0_chk269.dec : ∀ (i : grid0.Coords) (k0_t1 : Fin k0_t1_loop.trips) (v834 : IVec S16 32), Decidable (k0_chk269 i k0_t1 v834) := fun i k0_t1 v834 => decidable_of_iff' _ (Iff.of_eq (k0_chk269.eq_1 i k0_t1 v834))
theorem k0_idx269_inb : ∀ (i : grid0.Coords) (k0_t1 : Fin k0_t1_loop.trips) (v834 : IVec S16 32) (k0_hw269 : k0_chk269 i k0_t1 v834), ∀ (k0_h1 : k0_cond1 i k0_t1 = 1#1), ∀ a x, ((![v834] : Fin 1 → IVec S16 32) a x).toNat < S100000.size a := fun i k0_t1 v834 k0_hw269 k0_h1 => k0_hw269 k0_h1

def k0_chk270 (i : grid0.Coords) (k0_t1 : Fin k0_t1_loop.trips) (v835 : IVec S16 32) : Prop :=
  (∀ (k0_h1 : k0_cond1 i k0_t1 = 1#1), ∀ a x, ((![v835] : Fin 1 → IVec S16 32) a x).toNat < S100000.size a)
instance k0_chk270.dec : ∀ (i : grid0.Coords) (k0_t1 : Fin k0_t1_loop.trips) (v835 : IVec S16 32), Decidable (k0_chk270 i k0_t1 v835) := fun i k0_t1 v835 => decidable_of_iff' _ (Iff.of_eq (k0_chk270.eq_1 i k0_t1 v835))
theorem k0_idx270_inb : ∀ (i : grid0.Coords) (k0_t1 : Fin k0_t1_loop.trips) (v835 : IVec S16 32) (k0_hw270 : k0_chk270 i k0_t1 v835), ∀ (k0_h1 : k0_cond1 i k0_t1 = 1#1), ∀ a x, ((![v835] : Fin 1 → IVec S16 32) a x).toNat < S100000.size a := fun i k0_t1 v835 k0_hw270 k0_h1 => k0_hw270 k0_h1

def k0_chk271 (i : grid0.Coords) (k0_t1 : Fin k0_t1_loop.trips) (v836 : IVec S16 32) : Prop :=
  (∀ (k0_h1 : k0_cond1 i k0_t1 = 1#1), ∀ a x, ((![v836] : Fin 1 → IVec S16 32) a x).toNat < S100000.size a)
instance k0_chk271.dec : ∀ (i : grid0.Coords) (k0_t1 : Fin k0_t1_loop.trips) (v836 : IVec S16 32), Decidable (k0_chk271 i k0_t1 v836) := fun i k0_t1 v836 => decidable_of_iff' _ (Iff.of_eq (k0_chk271.eq_1 i k0_t1 v836))
theorem k0_idx271_inb : ∀ (i : grid0.Coords) (k0_t1 : Fin k0_t1_loop.trips) (v836 : IVec S16 32) (k0_hw271 : k0_chk271 i k0_t1 v836), ∀ (k0_h1 : k0_cond1 i k0_t1 = 1#1), ∀ a x, ((![v836] : Fin 1 → IVec S16 32) a x).toNat < S100000.size a := fun i k0_t1 v836 k0_hw271 k0_h1 => k0_hw271 k0_h1

def k0_chk272 (i : grid0.Coords) (k0_t1 : Fin k0_t1_loop.trips) (v837 : IVec S16 32) : Prop :=
  (∀ (k0_h1 : k0_cond1 i k0_t1 = 1#1), ∀ a x, ((![v837] : Fin 1 → IVec S16 32) a x).toNat < S100000.size a)
instance k0_chk272.dec : ∀ (i : grid0.Coords) (k0_t1 : Fin k0_t1_loop.trips) (v837 : IVec S16 32), Decidable (k0_chk272 i k0_t1 v837) := fun i k0_t1 v837 => decidable_of_iff' _ (Iff.of_eq (k0_chk272.eq_1 i k0_t1 v837))
theorem k0_idx272_inb : ∀ (i : grid0.Coords) (k0_t1 : Fin k0_t1_loop.trips) (v837 : IVec S16 32) (k0_hw272 : k0_chk272 i k0_t1 v837), ∀ (k0_h1 : k0_cond1 i k0_t1 = 1#1), ∀ a x, ((![v837] : Fin 1 → IVec S16 32) a x).toNat < S100000.size a := fun i k0_t1 v837 k0_hw272 k0_h1 => k0_hw272 k0_h1

def k0_chk273 (i : grid0.Coords) (k0_t1 : Fin k0_t1_loop.trips) (v854 : IVec S16 32) : Prop :=
  (∀ (k0_h1 : k0_cond1 i k0_t1 = 1#1), ∀ a x, ((![v854] : Fin 1 → IVec S16 32) a x).toNat < S100000.size a)
instance k0_chk273.dec : ∀ (i : grid0.Coords) (k0_t1 : Fin k0_t1_loop.trips) (v854 : IVec S16 32), Decidable (k0_chk273 i k0_t1 v854) := fun i k0_t1 v854 => decidable_of_iff' _ (Iff.of_eq (k0_chk273.eq_1 i k0_t1 v854))
theorem k0_idx273_inb : ∀ (i : grid0.Coords) (k0_t1 : Fin k0_t1_loop.trips) (v854 : IVec S16 32) (k0_hw273 : k0_chk273 i k0_t1 v854), ∀ (k0_h1 : k0_cond1 i k0_t1 = 1#1), ∀ a x, ((![v854] : Fin 1 → IVec S16 32) a x).toNat < S100000.size a := fun i k0_t1 v854 k0_hw273 k0_h1 => k0_hw273 k0_h1

def k0_chk274 (i : grid0.Coords) (k0_t1 : Fin k0_t1_loop.trips) (v855 : IVec S16 32) : Prop :=
  (∀ (k0_h1 : k0_cond1 i k0_t1 = 1#1), ∀ a x, ((![v855] : Fin 1 → IVec S16 32) a x).toNat < S100000.size a)
instance k0_chk274.dec : ∀ (i : grid0.Coords) (k0_t1 : Fin k0_t1_loop.trips) (v855 : IVec S16 32), Decidable (k0_chk274 i k0_t1 v855) := fun i k0_t1 v855 => decidable_of_iff' _ (Iff.of_eq (k0_chk274.eq_1 i k0_t1 v855))
theorem k0_idx274_inb : ∀ (i : grid0.Coords) (k0_t1 : Fin k0_t1_loop.trips) (v855 : IVec S16 32) (k0_hw274 : k0_chk274 i k0_t1 v855), ∀ (k0_h1 : k0_cond1 i k0_t1 = 1#1), ∀ a x, ((![v855] : Fin 1 → IVec S16 32) a x).toNat < S100000.size a := fun i k0_t1 v855 k0_hw274 k0_h1 => k0_hw274 k0_h1

def k0_chk275 (i : grid0.Coords) (k0_t1 : Fin k0_t1_loop.trips) (v856 : IVec S16 32) : Prop :=
  (∀ (k0_h1 : k0_cond1 i k0_t1 = 1#1), ∀ a x, ((![v856] : Fin 1 → IVec S16 32) a x).toNat < S100000.size a)
instance k0_chk275.dec : ∀ (i : grid0.Coords) (k0_t1 : Fin k0_t1_loop.trips) (v856 : IVec S16 32), Decidable (k0_chk275 i k0_t1 v856) := fun i k0_t1 v856 => decidable_of_iff' _ (Iff.of_eq (k0_chk275.eq_1 i k0_t1 v856))
theorem k0_idx275_inb : ∀ (i : grid0.Coords) (k0_t1 : Fin k0_t1_loop.trips) (v856 : IVec S16 32) (k0_hw275 : k0_chk275 i k0_t1 v856), ∀ (k0_h1 : k0_cond1 i k0_t1 = 1#1), ∀ a x, ((![v856] : Fin 1 → IVec S16 32) a x).toNat < S100000.size a := fun i k0_t1 v856 k0_hw275 k0_h1 => k0_hw275 k0_h1

def k0_chk276 (i : grid0.Coords) (k0_t1 : Fin k0_t1_loop.trips) (v857 : IVec S16 32) : Prop :=
  (∀ (k0_h1 : k0_cond1 i k0_t1 = 1#1), ∀ a x, ((![v857] : Fin 1 → IVec S16 32) a x).toNat < S100000.size a)
instance k0_chk276.dec : ∀ (i : grid0.Coords) (k0_t1 : Fin k0_t1_loop.trips) (v857 : IVec S16 32), Decidable (k0_chk276 i k0_t1 v857) := fun i k0_t1 v857 => decidable_of_iff' _ (Iff.of_eq (k0_chk276.eq_1 i k0_t1 v857))
theorem k0_idx276_inb : ∀ (i : grid0.Coords) (k0_t1 : Fin k0_t1_loop.trips) (v857 : IVec S16 32) (k0_hw276 : k0_chk276 i k0_t1 v857), ∀ (k0_h1 : k0_cond1 i k0_t1 = 1#1), ∀ a x, ((![v857] : Fin 1 → IVec S16 32) a x).toNat < S100000.size a := fun i k0_t1 v857 k0_hw276 k0_h1 => k0_hw276 k0_h1

def k0_chk277 (i : grid0.Coords) (k0_t1 : Fin k0_t1_loop.trips) (v858 : IVec S16 32) : Prop :=
  (∀ (k0_h1 : k0_cond1 i k0_t1 = 1#1), ∀ a x, ((![v858] : Fin 1 → IVec S16 32) a x).toNat < S100000.size a)
instance k0_chk277.dec : ∀ (i : grid0.Coords) (k0_t1 : Fin k0_t1_loop.trips) (v858 : IVec S16 32), Decidable (k0_chk277 i k0_t1 v858) := fun i k0_t1 v858 => decidable_of_iff' _ (Iff.of_eq (k0_chk277.eq_1 i k0_t1 v858))
theorem k0_idx277_inb : ∀ (i : grid0.Coords) (k0_t1 : Fin k0_t1_loop.trips) (v858 : IVec S16 32) (k0_hw277 : k0_chk277 i k0_t1 v858), ∀ (k0_h1 : k0_cond1 i k0_t1 = 1#1), ∀ a x, ((![v858] : Fin 1 → IVec S16 32) a x).toNat < S100000.size a := fun i k0_t1 v858 k0_hw277 k0_h1 => k0_hw277 k0_h1

def k0_chk278 (i : grid0.Coords) (k0_t1 : Fin k0_t1_loop.trips) (v859 : IVec S16 32) : Prop :=
  (∀ (k0_h1 : k0_cond1 i k0_t1 = 1#1), ∀ a x, ((![v859] : Fin 1 → IVec S16 32) a x).toNat < S100000.size a)
instance k0_chk278.dec : ∀ (i : grid0.Coords) (k0_t1 : Fin k0_t1_loop.trips) (v859 : IVec S16 32), Decidable (k0_chk278 i k0_t1 v859) := fun i k0_t1 v859 => decidable_of_iff' _ (Iff.of_eq (k0_chk278.eq_1 i k0_t1 v859))
theorem k0_idx278_inb : ∀ (i : grid0.Coords) (k0_t1 : Fin k0_t1_loop.trips) (v859 : IVec S16 32) (k0_hw278 : k0_chk278 i k0_t1 v859), ∀ (k0_h1 : k0_cond1 i k0_t1 = 1#1), ∀ a x, ((![v859] : Fin 1 → IVec S16 32) a x).toNat < S100000.size a := fun i k0_t1 v859 k0_hw278 k0_h1 => k0_hw278 k0_h1

def k0_chk279 (i : grid0.Coords) (k0_t1 : Fin k0_t1_loop.trips) (v860 : IVec S16 32) : Prop :=
  (∀ (k0_h1 : k0_cond1 i k0_t1 = 1#1), ∀ a x, ((![v860] : Fin 1 → IVec S16 32) a x).toNat < S100000.size a)
instance k0_chk279.dec : ∀ (i : grid0.Coords) (k0_t1 : Fin k0_t1_loop.trips) (v860 : IVec S16 32), Decidable (k0_chk279 i k0_t1 v860) := fun i k0_t1 v860 => decidable_of_iff' _ (Iff.of_eq (k0_chk279.eq_1 i k0_t1 v860))
theorem k0_idx279_inb : ∀ (i : grid0.Coords) (k0_t1 : Fin k0_t1_loop.trips) (v860 : IVec S16 32) (k0_hw279 : k0_chk279 i k0_t1 v860), ∀ (k0_h1 : k0_cond1 i k0_t1 = 1#1), ∀ a x, ((![v860] : Fin 1 → IVec S16 32) a x).toNat < S100000.size a := fun i k0_t1 v860 k0_hw279 k0_h1 => k0_hw279 k0_h1

def k0_chk280 (i : grid0.Coords) (k0_t1 : Fin k0_t1_loop.trips) (v861 : IVec S16 32) : Prop :=
  (∀ (k0_h1 : k0_cond1 i k0_t1 = 1#1), ∀ a x, ((![v861] : Fin 1 → IVec S16 32) a x).toNat < S100000.size a)
instance k0_chk280.dec : ∀ (i : grid0.Coords) (k0_t1 : Fin k0_t1_loop.trips) (v861 : IVec S16 32), Decidable (k0_chk280 i k0_t1 v861) := fun i k0_t1 v861 => decidable_of_iff' _ (Iff.of_eq (k0_chk280.eq_1 i k0_t1 v861))
theorem k0_idx280_inb : ∀ (i : grid0.Coords) (k0_t1 : Fin k0_t1_loop.trips) (v861 : IVec S16 32) (k0_hw280 : k0_chk280 i k0_t1 v861), ∀ (k0_h1 : k0_cond1 i k0_t1 = 1#1), ∀ a x, ((![v861] : Fin 1 → IVec S16 32) a x).toNat < S100000.size a := fun i k0_t1 v861 k0_hw280 k0_h1 => k0_hw280 k0_h1

def k0_chk281 (i : grid0.Coords) (k0_t1 : Fin k0_t1_loop.trips) (v878 : IVec S16 32) : Prop :=
  (∀ (k0_h1 : k0_cond1 i k0_t1 = 1#1), ∀ a x, ((![v878] : Fin 1 → IVec S16 32) a x).toNat < S100000.size a)
instance k0_chk281.dec : ∀ (i : grid0.Coords) (k0_t1 : Fin k0_t1_loop.trips) (v878 : IVec S16 32), Decidable (k0_chk281 i k0_t1 v878) := fun i k0_t1 v878 => decidable_of_iff' _ (Iff.of_eq (k0_chk281.eq_1 i k0_t1 v878))
theorem k0_idx281_inb : ∀ (i : grid0.Coords) (k0_t1 : Fin k0_t1_loop.trips) (v878 : IVec S16 32) (k0_hw281 : k0_chk281 i k0_t1 v878), ∀ (k0_h1 : k0_cond1 i k0_t1 = 1#1), ∀ a x, ((![v878] : Fin 1 → IVec S16 32) a x).toNat < S100000.size a := fun i k0_t1 v878 k0_hw281 k0_h1 => k0_hw281 k0_h1

def k0_chk282 (i : grid0.Coords) (k0_t1 : Fin k0_t1_loop.trips) (v879 : IVec S16 32) : Prop :=
  (∀ (k0_h1 : k0_cond1 i k0_t1 = 1#1), ∀ a x, ((![v879] : Fin 1 → IVec S16 32) a x).toNat < S100000.size a)
instance k0_chk282.dec : ∀ (i : grid0.Coords) (k0_t1 : Fin k0_t1_loop.trips) (v879 : IVec S16 32), Decidable (k0_chk282 i k0_t1 v879) := fun i k0_t1 v879 => decidable_of_iff' _ (Iff.of_eq (k0_chk282.eq_1 i k0_t1 v879))
theorem k0_idx282_inb : ∀ (i : grid0.Coords) (k0_t1 : Fin k0_t1_loop.trips) (v879 : IVec S16 32) (k0_hw282 : k0_chk282 i k0_t1 v879), ∀ (k0_h1 : k0_cond1 i k0_t1 = 1#1), ∀ a x, ((![v879] : Fin 1 → IVec S16 32) a x).toNat < S100000.size a := fun i k0_t1 v879 k0_hw282 k0_h1 => k0_hw282 k0_h1

def k0_chk283 (i : grid0.Coords) (k0_t1 : Fin k0_t1_loop.trips) (v880 : IVec S16 32) : Prop :=
  (∀ (k0_h1 : k0_cond1 i k0_t1 = 1#1), ∀ a x, ((![v880] : Fin 1 → IVec S16 32) a x).toNat < S100000.size a)
instance k0_chk283.dec : ∀ (i : grid0.Coords) (k0_t1 : Fin k0_t1_loop.trips) (v880 : IVec S16 32), Decidable (k0_chk283 i k0_t1 v880) := fun i k0_t1 v880 => decidable_of_iff' _ (Iff.of_eq (k0_chk283.eq_1 i k0_t1 v880))
theorem k0_idx283_inb : ∀ (i : grid0.Coords) (k0_t1 : Fin k0_t1_loop.trips) (v880 : IVec S16 32) (k0_hw283 : k0_chk283 i k0_t1 v880), ∀ (k0_h1 : k0_cond1 i k0_t1 = 1#1), ∀ a x, ((![v880] : Fin 1 → IVec S16 32) a x).toNat < S100000.size a := fun i k0_t1 v880 k0_hw283 k0_h1 => k0_hw283 k0_h1

def k0_chk284 (i : grid0.Coords) (k0_t1 : Fin k0_t1_loop.trips) (v881 : IVec S16 32) : Prop :=
  (∀ (k0_h1 : k0_cond1 i k0_t1 = 1#1), ∀ a x, ((![v881] : Fin 1 → IVec S16 32) a x).toNat < S100000.size a)
instance k0_chk284.dec : ∀ (i : grid0.Coords) (k0_t1 : Fin k0_t1_loop.trips) (v881 : IVec S16 32), Decidable (k0_chk284 i k0_t1 v881) := fun i k0_t1 v881 => decidable_of_iff' _ (Iff.of_eq (k0_chk284.eq_1 i k0_t1 v881))
theorem k0_idx284_inb : ∀ (i : grid0.Coords) (k0_t1 : Fin k0_t1_loop.trips) (v881 : IVec S16 32) (k0_hw284 : k0_chk284 i k0_t1 v881), ∀ (k0_h1 : k0_cond1 i k0_t1 = 1#1), ∀ a x, ((![v881] : Fin 1 → IVec S16 32) a x).toNat < S100000.size a := fun i k0_t1 v881 k0_hw284 k0_h1 => k0_hw284 k0_h1

def k0_chk285 (i : grid0.Coords) (k0_t1 : Fin k0_t1_loop.trips) (v882 : IVec S16 32) : Prop :=
  (∀ (k0_h1 : k0_cond1 i k0_t1 = 1#1), ∀ a x, ((![v882] : Fin 1 → IVec S16 32) a x).toNat < S100000.size a)
instance k0_chk285.dec : ∀ (i : grid0.Coords) (k0_t1 : Fin k0_t1_loop.trips) (v882 : IVec S16 32), Decidable (k0_chk285 i k0_t1 v882) := fun i k0_t1 v882 => decidable_of_iff' _ (Iff.of_eq (k0_chk285.eq_1 i k0_t1 v882))
theorem k0_idx285_inb : ∀ (i : grid0.Coords) (k0_t1 : Fin k0_t1_loop.trips) (v882 : IVec S16 32) (k0_hw285 : k0_chk285 i k0_t1 v882), ∀ (k0_h1 : k0_cond1 i k0_t1 = 1#1), ∀ a x, ((![v882] : Fin 1 → IVec S16 32) a x).toNat < S100000.size a := fun i k0_t1 v882 k0_hw285 k0_h1 => k0_hw285 k0_h1

def k0_chk286 (i : grid0.Coords) (k0_t1 : Fin k0_t1_loop.trips) (v883 : IVec S16 32) : Prop :=
  (∀ (k0_h1 : k0_cond1 i k0_t1 = 1#1), ∀ a x, ((![v883] : Fin 1 → IVec S16 32) a x).toNat < S100000.size a)
instance k0_chk286.dec : ∀ (i : grid0.Coords) (k0_t1 : Fin k0_t1_loop.trips) (v883 : IVec S16 32), Decidable (k0_chk286 i k0_t1 v883) := fun i k0_t1 v883 => decidable_of_iff' _ (Iff.of_eq (k0_chk286.eq_1 i k0_t1 v883))
theorem k0_idx286_inb : ∀ (i : grid0.Coords) (k0_t1 : Fin k0_t1_loop.trips) (v883 : IVec S16 32) (k0_hw286 : k0_chk286 i k0_t1 v883), ∀ (k0_h1 : k0_cond1 i k0_t1 = 1#1), ∀ a x, ((![v883] : Fin 1 → IVec S16 32) a x).toNat < S100000.size a := fun i k0_t1 v883 k0_hw286 k0_h1 => k0_hw286 k0_h1

def k0_chk287 (i : grid0.Coords) (k0_t1 : Fin k0_t1_loop.trips) (v884 : IVec S16 32) : Prop :=
  (∀ (k0_h1 : k0_cond1 i k0_t1 = 1#1), ∀ a x, ((![v884] : Fin 1 → IVec S16 32) a x).toNat < S100000.size a)
instance k0_chk287.dec : ∀ (i : grid0.Coords) (k0_t1 : Fin k0_t1_loop.trips) (v884 : IVec S16 32), Decidable (k0_chk287 i k0_t1 v884) := fun i k0_t1 v884 => decidable_of_iff' _ (Iff.of_eq (k0_chk287.eq_1 i k0_t1 v884))
theorem k0_idx287_inb : ∀ (i : grid0.Coords) (k0_t1 : Fin k0_t1_loop.trips) (v884 : IVec S16 32) (k0_hw287 : k0_chk287 i k0_t1 v884), ∀ (k0_h1 : k0_cond1 i k0_t1 = 1#1), ∀ a x, ((![v884] : Fin 1 → IVec S16 32) a x).toNat < S100000.size a := fun i k0_t1 v884 k0_hw287 k0_h1 => k0_hw287 k0_h1

def k0_chk288 (i : grid0.Coords) (k0_t1 : Fin k0_t1_loop.trips) (v885 : IVec S16 32) : Prop :=
  (∀ (k0_h1 : k0_cond1 i k0_t1 = 1#1), ∀ a x, ((![v885] : Fin 1 → IVec S16 32) a x).toNat < S100000.size a)
instance k0_chk288.dec : ∀ (i : grid0.Coords) (k0_t1 : Fin k0_t1_loop.trips) (v885 : IVec S16 32), Decidable (k0_chk288 i k0_t1 v885) := fun i k0_t1 v885 => decidable_of_iff' _ (Iff.of_eq (k0_chk288.eq_1 i k0_t1 v885))
theorem k0_idx288_inb : ∀ (i : grid0.Coords) (k0_t1 : Fin k0_t1_loop.trips) (v885 : IVec S16 32) (k0_hw288 : k0_chk288 i k0_t1 v885), ∀ (k0_h1 : k0_cond1 i k0_t1 = 1#1), ∀ a x, ((![v885] : Fin 1 → IVec S16 32) a x).toNat < S100000.size a := fun i k0_t1 v885 k0_hw288 k0_h1 => k0_hw288 k0_h1

def k0_chk289 (i : grid0.Coords) (k0_t1 : Fin k0_t1_loop.trips) (v902 : IVec S16 32) : Prop :=
  (∀ (k0_h1 : k0_cond1 i k0_t1 = 1#1), ∀ a x, ((![v902] : Fin 1 → IVec S16 32) a x).toNat < S100000.size a)
instance k0_chk289.dec : ∀ (i : grid0.Coords) (k0_t1 : Fin k0_t1_loop.trips) (v902 : IVec S16 32), Decidable (k0_chk289 i k0_t1 v902) := fun i k0_t1 v902 => decidable_of_iff' _ (Iff.of_eq (k0_chk289.eq_1 i k0_t1 v902))
theorem k0_idx289_inb : ∀ (i : grid0.Coords) (k0_t1 : Fin k0_t1_loop.trips) (v902 : IVec S16 32) (k0_hw289 : k0_chk289 i k0_t1 v902), ∀ (k0_h1 : k0_cond1 i k0_t1 = 1#1), ∀ a x, ((![v902] : Fin 1 → IVec S16 32) a x).toNat < S100000.size a := fun i k0_t1 v902 k0_hw289 k0_h1 => k0_hw289 k0_h1

def k0_chk290 (i : grid0.Coords) (k0_t1 : Fin k0_t1_loop.trips) (v903 : IVec S16 32) : Prop :=
  (∀ (k0_h1 : k0_cond1 i k0_t1 = 1#1), ∀ a x, ((![v903] : Fin 1 → IVec S16 32) a x).toNat < S100000.size a)
instance k0_chk290.dec : ∀ (i : grid0.Coords) (k0_t1 : Fin k0_t1_loop.trips) (v903 : IVec S16 32), Decidable (k0_chk290 i k0_t1 v903) := fun i k0_t1 v903 => decidable_of_iff' _ (Iff.of_eq (k0_chk290.eq_1 i k0_t1 v903))
theorem k0_idx290_inb : ∀ (i : grid0.Coords) (k0_t1 : Fin k0_t1_loop.trips) (v903 : IVec S16 32) (k0_hw290 : k0_chk290 i k0_t1 v903), ∀ (k0_h1 : k0_cond1 i k0_t1 = 1#1), ∀ a x, ((![v903] : Fin 1 → IVec S16 32) a x).toNat < S100000.size a := fun i k0_t1 v903 k0_hw290 k0_h1 => k0_hw290 k0_h1

def k0_chk291 (i : grid0.Coords) (k0_t1 : Fin k0_t1_loop.trips) (v904 : IVec S16 32) : Prop :=
  (∀ (k0_h1 : k0_cond1 i k0_t1 = 1#1), ∀ a x, ((![v904] : Fin 1 → IVec S16 32) a x).toNat < S100000.size a)
instance k0_chk291.dec : ∀ (i : grid0.Coords) (k0_t1 : Fin k0_t1_loop.trips) (v904 : IVec S16 32), Decidable (k0_chk291 i k0_t1 v904) := fun i k0_t1 v904 => decidable_of_iff' _ (Iff.of_eq (k0_chk291.eq_1 i k0_t1 v904))
theorem k0_idx291_inb : ∀ (i : grid0.Coords) (k0_t1 : Fin k0_t1_loop.trips) (v904 : IVec S16 32) (k0_hw291 : k0_chk291 i k0_t1 v904), ∀ (k0_h1 : k0_cond1 i k0_t1 = 1#1), ∀ a x, ((![v904] : Fin 1 → IVec S16 32) a x).toNat < S100000.size a := fun i k0_t1 v904 k0_hw291 k0_h1 => k0_hw291 k0_h1

def k0_chk292 (i : grid0.Coords) (k0_t1 : Fin k0_t1_loop.trips) (v905 : IVec S16 32) : Prop :=
  (∀ (k0_h1 : k0_cond1 i k0_t1 = 1#1), ∀ a x, ((![v905] : Fin 1 → IVec S16 32) a x).toNat < S100000.size a)
instance k0_chk292.dec : ∀ (i : grid0.Coords) (k0_t1 : Fin k0_t1_loop.trips) (v905 : IVec S16 32), Decidable (k0_chk292 i k0_t1 v905) := fun i k0_t1 v905 => decidable_of_iff' _ (Iff.of_eq (k0_chk292.eq_1 i k0_t1 v905))
theorem k0_idx292_inb : ∀ (i : grid0.Coords) (k0_t1 : Fin k0_t1_loop.trips) (v905 : IVec S16 32) (k0_hw292 : k0_chk292 i k0_t1 v905), ∀ (k0_h1 : k0_cond1 i k0_t1 = 1#1), ∀ a x, ((![v905] : Fin 1 → IVec S16 32) a x).toNat < S100000.size a := fun i k0_t1 v905 k0_hw292 k0_h1 => k0_hw292 k0_h1

def k0_chk293 (i : grid0.Coords) (k0_t1 : Fin k0_t1_loop.trips) (v906 : IVec S16 32) : Prop :=
  (∀ (k0_h1 : k0_cond1 i k0_t1 = 1#1), ∀ a x, ((![v906] : Fin 1 → IVec S16 32) a x).toNat < S100000.size a)
instance k0_chk293.dec : ∀ (i : grid0.Coords) (k0_t1 : Fin k0_t1_loop.trips) (v906 : IVec S16 32), Decidable (k0_chk293 i k0_t1 v906) := fun i k0_t1 v906 => decidable_of_iff' _ (Iff.of_eq (k0_chk293.eq_1 i k0_t1 v906))
theorem k0_idx293_inb : ∀ (i : grid0.Coords) (k0_t1 : Fin k0_t1_loop.trips) (v906 : IVec S16 32) (k0_hw293 : k0_chk293 i k0_t1 v906), ∀ (k0_h1 : k0_cond1 i k0_t1 = 1#1), ∀ a x, ((![v906] : Fin 1 → IVec S16 32) a x).toNat < S100000.size a := fun i k0_t1 v906 k0_hw293 k0_h1 => k0_hw293 k0_h1

def k0_chk294 (i : grid0.Coords) (k0_t1 : Fin k0_t1_loop.trips) (v907 : IVec S16 32) : Prop :=
  (∀ (k0_h1 : k0_cond1 i k0_t1 = 1#1), ∀ a x, ((![v907] : Fin 1 → IVec S16 32) a x).toNat < S100000.size a)
instance k0_chk294.dec : ∀ (i : grid0.Coords) (k0_t1 : Fin k0_t1_loop.trips) (v907 : IVec S16 32), Decidable (k0_chk294 i k0_t1 v907) := fun i k0_t1 v907 => decidable_of_iff' _ (Iff.of_eq (k0_chk294.eq_1 i k0_t1 v907))
theorem k0_idx294_inb : ∀ (i : grid0.Coords) (k0_t1 : Fin k0_t1_loop.trips) (v907 : IVec S16 32) (k0_hw294 : k0_chk294 i k0_t1 v907), ∀ (k0_h1 : k0_cond1 i k0_t1 = 1#1), ∀ a x, ((![v907] : Fin 1 → IVec S16 32) a x).toNat < S100000.size a := fun i k0_t1 v907 k0_hw294 k0_h1 => k0_hw294 k0_h1

def k0_chk295 (i : grid0.Coords) (k0_t1 : Fin k0_t1_loop.trips) (v908 : IVec S16 32) : Prop :=
  (∀ (k0_h1 : k0_cond1 i k0_t1 = 1#1), ∀ a x, ((![v908] : Fin 1 → IVec S16 32) a x).toNat < S100000.size a)
instance k0_chk295.dec : ∀ (i : grid0.Coords) (k0_t1 : Fin k0_t1_loop.trips) (v908 : IVec S16 32), Decidable (k0_chk295 i k0_t1 v908) := fun i k0_t1 v908 => decidable_of_iff' _ (Iff.of_eq (k0_chk295.eq_1 i k0_t1 v908))
theorem k0_idx295_inb : ∀ (i : grid0.Coords) (k0_t1 : Fin k0_t1_loop.trips) (v908 : IVec S16 32) (k0_hw295 : k0_chk295 i k0_t1 v908), ∀ (k0_h1 : k0_cond1 i k0_t1 = 1#1), ∀ a x, ((![v908] : Fin 1 → IVec S16 32) a x).toNat < S100000.size a := fun i k0_t1 v908 k0_hw295 k0_h1 => k0_hw295 k0_h1

def k0_chk296 (i : grid0.Coords) (k0_t1 : Fin k0_t1_loop.trips) (v909 : IVec S16 32) : Prop :=
  (∀ (k0_h1 : k0_cond1 i k0_t1 = 1#1), ∀ a x, ((![v909] : Fin 1 → IVec S16 32) a x).toNat < S100000.size a)
instance k0_chk296.dec : ∀ (i : grid0.Coords) (k0_t1 : Fin k0_t1_loop.trips) (v909 : IVec S16 32), Decidable (k0_chk296 i k0_t1 v909) := fun i k0_t1 v909 => decidable_of_iff' _ (Iff.of_eq (k0_chk296.eq_1 i k0_t1 v909))
theorem k0_idx296_inb : ∀ (i : grid0.Coords) (k0_t1 : Fin k0_t1_loop.trips) (v909 : IVec S16 32) (k0_hw296 : k0_chk296 i k0_t1 v909), ∀ (k0_h1 : k0_cond1 i k0_t1 = 1#1), ∀ a x, ((![v909] : Fin 1 → IVec S16 32) a x).toNat < S100000.size a := fun i k0_t1 v909 k0_hw296 k0_h1 => k0_hw296 k0_h1

def k0_chk297 (i : grid0.Coords) (k0_t1 : Fin k0_t1_loop.trips) (v926 : IVec S16 32) : Prop :=
  (∀ (k0_h1 : k0_cond1 i k0_t1 = 1#1), ∀ a x, ((![v926] : Fin 1 → IVec S16 32) a x).toNat < S100000.size a)
instance k0_chk297.dec : ∀ (i : grid0.Coords) (k0_t1 : Fin k0_t1_loop.trips) (v926 : IVec S16 32), Decidable (k0_chk297 i k0_t1 v926) := fun i k0_t1 v926 => decidable_of_iff' _ (Iff.of_eq (k0_chk297.eq_1 i k0_t1 v926))
theorem k0_idx297_inb : ∀ (i : grid0.Coords) (k0_t1 : Fin k0_t1_loop.trips) (v926 : IVec S16 32) (k0_hw297 : k0_chk297 i k0_t1 v926), ∀ (k0_h1 : k0_cond1 i k0_t1 = 1#1), ∀ a x, ((![v926] : Fin 1 → IVec S16 32) a x).toNat < S100000.size a := fun i k0_t1 v926 k0_hw297 k0_h1 => k0_hw297 k0_h1

def k0_chk298 (i : grid0.Coords) (k0_t1 : Fin k0_t1_loop.trips) (v927 : IVec S16 32) : Prop :=
  (∀ (k0_h1 : k0_cond1 i k0_t1 = 1#1), ∀ a x, ((![v927] : Fin 1 → IVec S16 32) a x).toNat < S100000.size a)
instance k0_chk298.dec : ∀ (i : grid0.Coords) (k0_t1 : Fin k0_t1_loop.trips) (v927 : IVec S16 32), Decidable (k0_chk298 i k0_t1 v927) := fun i k0_t1 v927 => decidable_of_iff' _ (Iff.of_eq (k0_chk298.eq_1 i k0_t1 v927))
theorem k0_idx298_inb : ∀ (i : grid0.Coords) (k0_t1 : Fin k0_t1_loop.trips) (v927 : IVec S16 32) (k0_hw298 : k0_chk298 i k0_t1 v927), ∀ (k0_h1 : k0_cond1 i k0_t1 = 1#1), ∀ a x, ((![v927] : Fin 1 → IVec S16 32) a x).toNat < S100000.size a := fun i k0_t1 v927 k0_hw298 k0_h1 => k0_hw298 k0_h1

def k0_chk299 (i : grid0.Coords) (k0_t1 : Fin k0_t1_loop.trips) (v928 : IVec S16 32) : Prop :=
  (∀ (k0_h1 : k0_cond1 i k0_t1 = 1#1), ∀ a x, ((![v928] : Fin 1 → IVec S16 32) a x).toNat < S100000.size a)
instance k0_chk299.dec : ∀ (i : grid0.Coords) (k0_t1 : Fin k0_t1_loop.trips) (v928 : IVec S16 32), Decidable (k0_chk299 i k0_t1 v928) := fun i k0_t1 v928 => decidable_of_iff' _ (Iff.of_eq (k0_chk299.eq_1 i k0_t1 v928))
theorem k0_idx299_inb : ∀ (i : grid0.Coords) (k0_t1 : Fin k0_t1_loop.trips) (v928 : IVec S16 32) (k0_hw299 : k0_chk299 i k0_t1 v928), ∀ (k0_h1 : k0_cond1 i k0_t1 = 1#1), ∀ a x, ((![v928] : Fin 1 → IVec S16 32) a x).toNat < S100000.size a := fun i k0_t1 v928 k0_hw299 k0_h1 => k0_hw299 k0_h1

def k0_chk300 (i : grid0.Coords) (k0_t1 : Fin k0_t1_loop.trips) (v929 : IVec S16 32) : Prop :=
  (∀ (k0_h1 : k0_cond1 i k0_t1 = 1#1), ∀ a x, ((![v929] : Fin 1 → IVec S16 32) a x).toNat < S100000.size a)
instance k0_chk300.dec : ∀ (i : grid0.Coords) (k0_t1 : Fin k0_t1_loop.trips) (v929 : IVec S16 32), Decidable (k0_chk300 i k0_t1 v929) := fun i k0_t1 v929 => decidable_of_iff' _ (Iff.of_eq (k0_chk300.eq_1 i k0_t1 v929))
theorem k0_idx300_inb : ∀ (i : grid0.Coords) (k0_t1 : Fin k0_t1_loop.trips) (v929 : IVec S16 32) (k0_hw300 : k0_chk300 i k0_t1 v929), ∀ (k0_h1 : k0_cond1 i k0_t1 = 1#1), ∀ a x, ((![v929] : Fin 1 → IVec S16 32) a x).toNat < S100000.size a := fun i k0_t1 v929 k0_hw300 k0_h1 => k0_hw300 k0_h1

def k0_chk301 (i : grid0.Coords) (k0_t1 : Fin k0_t1_loop.trips) (v930 : IVec S16 32) : Prop :=
  (∀ (k0_h1 : k0_cond1 i k0_t1 = 1#1), ∀ a x, ((![v930] : Fin 1 → IVec S16 32) a x).toNat < S100000.size a)
instance k0_chk301.dec : ∀ (i : grid0.Coords) (k0_t1 : Fin k0_t1_loop.trips) (v930 : IVec S16 32), Decidable (k0_chk301 i k0_t1 v930) := fun i k0_t1 v930 => decidable_of_iff' _ (Iff.of_eq (k0_chk301.eq_1 i k0_t1 v930))
theorem k0_idx301_inb : ∀ (i : grid0.Coords) (k0_t1 : Fin k0_t1_loop.trips) (v930 : IVec S16 32) (k0_hw301 : k0_chk301 i k0_t1 v930), ∀ (k0_h1 : k0_cond1 i k0_t1 = 1#1), ∀ a x, ((![v930] : Fin 1 → IVec S16 32) a x).toNat < S100000.size a := fun i k0_t1 v930 k0_hw301 k0_h1 => k0_hw301 k0_h1

def k0_chk302 (i : grid0.Coords) (k0_t1 : Fin k0_t1_loop.trips) (v931 : IVec S16 32) : Prop :=
  (∀ (k0_h1 : k0_cond1 i k0_t1 = 1#1), ∀ a x, ((![v931] : Fin 1 → IVec S16 32) a x).toNat < S100000.size a)
instance k0_chk302.dec : ∀ (i : grid0.Coords) (k0_t1 : Fin k0_t1_loop.trips) (v931 : IVec S16 32), Decidable (k0_chk302 i k0_t1 v931) := fun i k0_t1 v931 => decidable_of_iff' _ (Iff.of_eq (k0_chk302.eq_1 i k0_t1 v931))
theorem k0_idx302_inb : ∀ (i : grid0.Coords) (k0_t1 : Fin k0_t1_loop.trips) (v931 : IVec S16 32) (k0_hw302 : k0_chk302 i k0_t1 v931), ∀ (k0_h1 : k0_cond1 i k0_t1 = 1#1), ∀ a x, ((![v931] : Fin 1 → IVec S16 32) a x).toNat < S100000.size a := fun i k0_t1 v931 k0_hw302 k0_h1 => k0_hw302 k0_h1

def k0_chk303 (i : grid0.Coords) (k0_t1 : Fin k0_t1_loop.trips) (v932 : IVec S16 32) : Prop :=
  (∀ (k0_h1 : k0_cond1 i k0_t1 = 1#1), ∀ a x, ((![v932] : Fin 1 → IVec S16 32) a x).toNat < S100000.size a)
instance k0_chk303.dec : ∀ (i : grid0.Coords) (k0_t1 : Fin k0_t1_loop.trips) (v932 : IVec S16 32), Decidable (k0_chk303 i k0_t1 v932) := fun i k0_t1 v932 => decidable_of_iff' _ (Iff.of_eq (k0_chk303.eq_1 i k0_t1 v932))
theorem k0_idx303_inb : ∀ (i : grid0.Coords) (k0_t1 : Fin k0_t1_loop.trips) (v932 : IVec S16 32) (k0_hw303 : k0_chk303 i k0_t1 v932), ∀ (k0_h1 : k0_cond1 i k0_t1 = 1#1), ∀ a x, ((![v932] : Fin 1 → IVec S16 32) a x).toNat < S100000.size a := fun i k0_t1 v932 k0_hw303 k0_h1 => k0_hw303 k0_h1

def k0_chk304 (i : grid0.Coords) (k0_t1 : Fin k0_t1_loop.trips) (v933 : IVec S16 32) : Prop :=
  (∀ (k0_h1 : k0_cond1 i k0_t1 = 1#1), ∀ a x, ((![v933] : Fin 1 → IVec S16 32) a x).toNat < S100000.size a)
instance k0_chk304.dec : ∀ (i : grid0.Coords) (k0_t1 : Fin k0_t1_loop.trips) (v933 : IVec S16 32), Decidable (k0_chk304 i k0_t1 v933) := fun i k0_t1 v933 => decidable_of_iff' _ (Iff.of_eq (k0_chk304.eq_1 i k0_t1 v933))
theorem k0_idx304_inb : ∀ (i : grid0.Coords) (k0_t1 : Fin k0_t1_loop.trips) (v933 : IVec S16 32) (k0_hw304 : k0_chk304 i k0_t1 v933), ∀ (k0_h1 : k0_cond1 i k0_t1 = 1#1), ∀ a x, ((![v933] : Fin 1 → IVec S16 32) a x).toNat < S100000.size a := fun i k0_t1 v933 k0_hw304 k0_h1 => k0_hw304 k0_h1

def k0_chk305 (i : grid0.Coords) (k0_t1 : Fin k0_t1_loop.trips) (v950 : IVec S16 32) : Prop :=
  (∀ (k0_h1 : k0_cond1 i k0_t1 = 1#1), ∀ a x, ((![v950] : Fin 1 → IVec S16 32) a x).toNat < S100000.size a)
instance k0_chk305.dec : ∀ (i : grid0.Coords) (k0_t1 : Fin k0_t1_loop.trips) (v950 : IVec S16 32), Decidable (k0_chk305 i k0_t1 v950) := fun i k0_t1 v950 => decidable_of_iff' _ (Iff.of_eq (k0_chk305.eq_1 i k0_t1 v950))
theorem k0_idx305_inb : ∀ (i : grid0.Coords) (k0_t1 : Fin k0_t1_loop.trips) (v950 : IVec S16 32) (k0_hw305 : k0_chk305 i k0_t1 v950), ∀ (k0_h1 : k0_cond1 i k0_t1 = 1#1), ∀ a x, ((![v950] : Fin 1 → IVec S16 32) a x).toNat < S100000.size a := fun i k0_t1 v950 k0_hw305 k0_h1 => k0_hw305 k0_h1

def k0_chk306 (i : grid0.Coords) (k0_t1 : Fin k0_t1_loop.trips) (v951 : IVec S16 32) : Prop :=
  (∀ (k0_h1 : k0_cond1 i k0_t1 = 1#1), ∀ a x, ((![v951] : Fin 1 → IVec S16 32) a x).toNat < S100000.size a)
instance k0_chk306.dec : ∀ (i : grid0.Coords) (k0_t1 : Fin k0_t1_loop.trips) (v951 : IVec S16 32), Decidable (k0_chk306 i k0_t1 v951) := fun i k0_t1 v951 => decidable_of_iff' _ (Iff.of_eq (k0_chk306.eq_1 i k0_t1 v951))
theorem k0_idx306_inb : ∀ (i : grid0.Coords) (k0_t1 : Fin k0_t1_loop.trips) (v951 : IVec S16 32) (k0_hw306 : k0_chk306 i k0_t1 v951), ∀ (k0_h1 : k0_cond1 i k0_t1 = 1#1), ∀ a x, ((![v951] : Fin 1 → IVec S16 32) a x).toNat < S100000.size a := fun i k0_t1 v951 k0_hw306 k0_h1 => k0_hw306 k0_h1

def k0_chk307 (i : grid0.Coords) (k0_t1 : Fin k0_t1_loop.trips) (v952 : IVec S16 32) : Prop :=
  (∀ (k0_h1 : k0_cond1 i k0_t1 = 1#1), ∀ a x, ((![v952] : Fin 1 → IVec S16 32) a x).toNat < S100000.size a)
instance k0_chk307.dec : ∀ (i : grid0.Coords) (k0_t1 : Fin k0_t1_loop.trips) (v952 : IVec S16 32), Decidable (k0_chk307 i k0_t1 v952) := fun i k0_t1 v952 => decidable_of_iff' _ (Iff.of_eq (k0_chk307.eq_1 i k0_t1 v952))
theorem k0_idx307_inb : ∀ (i : grid0.Coords) (k0_t1 : Fin k0_t1_loop.trips) (v952 : IVec S16 32) (k0_hw307 : k0_chk307 i k0_t1 v952), ∀ (k0_h1 : k0_cond1 i k0_t1 = 1#1), ∀ a x, ((![v952] : Fin 1 → IVec S16 32) a x).toNat < S100000.size a := fun i k0_t1 v952 k0_hw307 k0_h1 => k0_hw307 k0_h1

def k0_chk308 (i : grid0.Coords) (k0_t1 : Fin k0_t1_loop.trips) (v953 : IVec S16 32) : Prop :=
  (∀ (k0_h1 : k0_cond1 i k0_t1 = 1#1), ∀ a x, ((![v953] : Fin 1 → IVec S16 32) a x).toNat < S100000.size a)
instance k0_chk308.dec : ∀ (i : grid0.Coords) (k0_t1 : Fin k0_t1_loop.trips) (v953 : IVec S16 32), Decidable (k0_chk308 i k0_t1 v953) := fun i k0_t1 v953 => decidable_of_iff' _ (Iff.of_eq (k0_chk308.eq_1 i k0_t1 v953))
theorem k0_idx308_inb : ∀ (i : grid0.Coords) (k0_t1 : Fin k0_t1_loop.trips) (v953 : IVec S16 32) (k0_hw308 : k0_chk308 i k0_t1 v953), ∀ (k0_h1 : k0_cond1 i k0_t1 = 1#1), ∀ a x, ((![v953] : Fin 1 → IVec S16 32) a x).toNat < S100000.size a := fun i k0_t1 v953 k0_hw308 k0_h1 => k0_hw308 k0_h1

def k0_chk309 (i : grid0.Coords) (k0_t1 : Fin k0_t1_loop.trips) (v954 : IVec S16 32) : Prop :=
  (∀ (k0_h1 : k0_cond1 i k0_t1 = 1#1), ∀ a x, ((![v954] : Fin 1 → IVec S16 32) a x).toNat < S100000.size a)
instance k0_chk309.dec : ∀ (i : grid0.Coords) (k0_t1 : Fin k0_t1_loop.trips) (v954 : IVec S16 32), Decidable (k0_chk309 i k0_t1 v954) := fun i k0_t1 v954 => decidable_of_iff' _ (Iff.of_eq (k0_chk309.eq_1 i k0_t1 v954))
theorem k0_idx309_inb : ∀ (i : grid0.Coords) (k0_t1 : Fin k0_t1_loop.trips) (v954 : IVec S16 32) (k0_hw309 : k0_chk309 i k0_t1 v954), ∀ (k0_h1 : k0_cond1 i k0_t1 = 1#1), ∀ a x, ((![v954] : Fin 1 → IVec S16 32) a x).toNat < S100000.size a := fun i k0_t1 v954 k0_hw309 k0_h1 => k0_hw309 k0_h1

def k0_chk310 (i : grid0.Coords) (k0_t1 : Fin k0_t1_loop.trips) (v955 : IVec S16 32) : Prop :=
  (∀ (k0_h1 : k0_cond1 i k0_t1 = 1#1), ∀ a x, ((![v955] : Fin 1 → IVec S16 32) a x).toNat < S100000.size a)
instance k0_chk310.dec : ∀ (i : grid0.Coords) (k0_t1 : Fin k0_t1_loop.trips) (v955 : IVec S16 32), Decidable (k0_chk310 i k0_t1 v955) := fun i k0_t1 v955 => decidable_of_iff' _ (Iff.of_eq (k0_chk310.eq_1 i k0_t1 v955))
theorem k0_idx310_inb : ∀ (i : grid0.Coords) (k0_t1 : Fin k0_t1_loop.trips) (v955 : IVec S16 32) (k0_hw310 : k0_chk310 i k0_t1 v955), ∀ (k0_h1 : k0_cond1 i k0_t1 = 1#1), ∀ a x, ((![v955] : Fin 1 → IVec S16 32) a x).toNat < S100000.size a := fun i k0_t1 v955 k0_hw310 k0_h1 => k0_hw310 k0_h1

def k0_chk311 (i : grid0.Coords) (k0_t1 : Fin k0_t1_loop.trips) (v956 : IVec S16 32) : Prop :=
  (∀ (k0_h1 : k0_cond1 i k0_t1 = 1#1), ∀ a x, ((![v956] : Fin 1 → IVec S16 32) a x).toNat < S100000.size a)
instance k0_chk311.dec : ∀ (i : grid0.Coords) (k0_t1 : Fin k0_t1_loop.trips) (v956 : IVec S16 32), Decidable (k0_chk311 i k0_t1 v956) := fun i k0_t1 v956 => decidable_of_iff' _ (Iff.of_eq (k0_chk311.eq_1 i k0_t1 v956))
theorem k0_idx311_inb : ∀ (i : grid0.Coords) (k0_t1 : Fin k0_t1_loop.trips) (v956 : IVec S16 32) (k0_hw311 : k0_chk311 i k0_t1 v956), ∀ (k0_h1 : k0_cond1 i k0_t1 = 1#1), ∀ a x, ((![v956] : Fin 1 → IVec S16 32) a x).toNat < S100000.size a := fun i k0_t1 v956 k0_hw311 k0_h1 => k0_hw311 k0_h1

def k0_chk312 (i : grid0.Coords) (k0_t1 : Fin k0_t1_loop.trips) (v957 : IVec S16 32) : Prop :=
  (∀ (k0_h1 : k0_cond1 i k0_t1 = 1#1), ∀ a x, ((![v957] : Fin 1 → IVec S16 32) a x).toNat < S100000.size a)
instance k0_chk312.dec : ∀ (i : grid0.Coords) (k0_t1 : Fin k0_t1_loop.trips) (v957 : IVec S16 32), Decidable (k0_chk312 i k0_t1 v957) := fun i k0_t1 v957 => decidable_of_iff' _ (Iff.of_eq (k0_chk312.eq_1 i k0_t1 v957))
theorem k0_idx312_inb : ∀ (i : grid0.Coords) (k0_t1 : Fin k0_t1_loop.trips) (v957 : IVec S16 32) (k0_hw312 : k0_chk312 i k0_t1 v957), ∀ (k0_h1 : k0_cond1 i k0_t1 = 1#1), ∀ a x, ((![v957] : Fin 1 → IVec S16 32) a x).toNat < S100000.size a := fun i k0_t1 v957 k0_hw312 k0_h1 => k0_hw312 k0_h1

def k0_chk313 (i : grid0.Coords) (k0_t1 : Fin k0_t1_loop.trips) (v974 : IVec S16 32) : Prop :=
  (∀ (k0_h1 : k0_cond1 i k0_t1 = 1#1), ∀ a x, ((![v974] : Fin 1 → IVec S16 32) a x).toNat < S100000.size a)
instance k0_chk313.dec : ∀ (i : grid0.Coords) (k0_t1 : Fin k0_t1_loop.trips) (v974 : IVec S16 32), Decidable (k0_chk313 i k0_t1 v974) := fun i k0_t1 v974 => decidable_of_iff' _ (Iff.of_eq (k0_chk313.eq_1 i k0_t1 v974))
theorem k0_idx313_inb : ∀ (i : grid0.Coords) (k0_t1 : Fin k0_t1_loop.trips) (v974 : IVec S16 32) (k0_hw313 : k0_chk313 i k0_t1 v974), ∀ (k0_h1 : k0_cond1 i k0_t1 = 1#1), ∀ a x, ((![v974] : Fin 1 → IVec S16 32) a x).toNat < S100000.size a := fun i k0_t1 v974 k0_hw313 k0_h1 => k0_hw313 k0_h1

def k0_chk314 (i : grid0.Coords) (k0_t1 : Fin k0_t1_loop.trips) (v975 : IVec S16 32) : Prop :=
  (∀ (k0_h1 : k0_cond1 i k0_t1 = 1#1), ∀ a x, ((![v975] : Fin 1 → IVec S16 32) a x).toNat < S100000.size a)
instance k0_chk314.dec : ∀ (i : grid0.Coords) (k0_t1 : Fin k0_t1_loop.trips) (v975 : IVec S16 32), Decidable (k0_chk314 i k0_t1 v975) := fun i k0_t1 v975 => decidable_of_iff' _ (Iff.of_eq (k0_chk314.eq_1 i k0_t1 v975))
theorem k0_idx314_inb : ∀ (i : grid0.Coords) (k0_t1 : Fin k0_t1_loop.trips) (v975 : IVec S16 32) (k0_hw314 : k0_chk314 i k0_t1 v975), ∀ (k0_h1 : k0_cond1 i k0_t1 = 1#1), ∀ a x, ((![v975] : Fin 1 → IVec S16 32) a x).toNat < S100000.size a := fun i k0_t1 v975 k0_hw314 k0_h1 => k0_hw314 k0_h1

def k0_chk315 (i : grid0.Coords) (k0_t1 : Fin k0_t1_loop.trips) (v976 : IVec S16 32) : Prop :=
  (∀ (k0_h1 : k0_cond1 i k0_t1 = 1#1), ∀ a x, ((![v976] : Fin 1 → IVec S16 32) a x).toNat < S100000.size a)
instance k0_chk315.dec : ∀ (i : grid0.Coords) (k0_t1 : Fin k0_t1_loop.trips) (v976 : IVec S16 32), Decidable (k0_chk315 i k0_t1 v976) := fun i k0_t1 v976 => decidable_of_iff' _ (Iff.of_eq (k0_chk315.eq_1 i k0_t1 v976))
theorem k0_idx315_inb : ∀ (i : grid0.Coords) (k0_t1 : Fin k0_t1_loop.trips) (v976 : IVec S16 32) (k0_hw315 : k0_chk315 i k0_t1 v976), ∀ (k0_h1 : k0_cond1 i k0_t1 = 1#1), ∀ a x, ((![v976] : Fin 1 → IVec S16 32) a x).toNat < S100000.size a := fun i k0_t1 v976 k0_hw315 k0_h1 => k0_hw315 k0_h1

def k0_chk316 (i : grid0.Coords) (k0_t1 : Fin k0_t1_loop.trips) (v977 : IVec S16 32) : Prop :=
  (∀ (k0_h1 : k0_cond1 i k0_t1 = 1#1), ∀ a x, ((![v977] : Fin 1 → IVec S16 32) a x).toNat < S100000.size a)
instance k0_chk316.dec : ∀ (i : grid0.Coords) (k0_t1 : Fin k0_t1_loop.trips) (v977 : IVec S16 32), Decidable (k0_chk316 i k0_t1 v977) := fun i k0_t1 v977 => decidable_of_iff' _ (Iff.of_eq (k0_chk316.eq_1 i k0_t1 v977))
theorem k0_idx316_inb : ∀ (i : grid0.Coords) (k0_t1 : Fin k0_t1_loop.trips) (v977 : IVec S16 32) (k0_hw316 : k0_chk316 i k0_t1 v977), ∀ (k0_h1 : k0_cond1 i k0_t1 = 1#1), ∀ a x, ((![v977] : Fin 1 → IVec S16 32) a x).toNat < S100000.size a := fun i k0_t1 v977 k0_hw316 k0_h1 => k0_hw316 k0_h1

def k0_chk317 (i : grid0.Coords) (k0_t1 : Fin k0_t1_loop.trips) (v978 : IVec S16 32) : Prop :=
  (∀ (k0_h1 : k0_cond1 i k0_t1 = 1#1), ∀ a x, ((![v978] : Fin 1 → IVec S16 32) a x).toNat < S100000.size a)
instance k0_chk317.dec : ∀ (i : grid0.Coords) (k0_t1 : Fin k0_t1_loop.trips) (v978 : IVec S16 32), Decidable (k0_chk317 i k0_t1 v978) := fun i k0_t1 v978 => decidable_of_iff' _ (Iff.of_eq (k0_chk317.eq_1 i k0_t1 v978))
theorem k0_idx317_inb : ∀ (i : grid0.Coords) (k0_t1 : Fin k0_t1_loop.trips) (v978 : IVec S16 32) (k0_hw317 : k0_chk317 i k0_t1 v978), ∀ (k0_h1 : k0_cond1 i k0_t1 = 1#1), ∀ a x, ((![v978] : Fin 1 → IVec S16 32) a x).toNat < S100000.size a := fun i k0_t1 v978 k0_hw317 k0_h1 => k0_hw317 k0_h1

def k0_chk318 (i : grid0.Coords) (k0_t1 : Fin k0_t1_loop.trips) (v979 : IVec S16 32) : Prop :=
  (∀ (k0_h1 : k0_cond1 i k0_t1 = 1#1), ∀ a x, ((![v979] : Fin 1 → IVec S16 32) a x).toNat < S100000.size a)
instance k0_chk318.dec : ∀ (i : grid0.Coords) (k0_t1 : Fin k0_t1_loop.trips) (v979 : IVec S16 32), Decidable (k0_chk318 i k0_t1 v979) := fun i k0_t1 v979 => decidable_of_iff' _ (Iff.of_eq (k0_chk318.eq_1 i k0_t1 v979))
theorem k0_idx318_inb : ∀ (i : grid0.Coords) (k0_t1 : Fin k0_t1_loop.trips) (v979 : IVec S16 32) (k0_hw318 : k0_chk318 i k0_t1 v979), ∀ (k0_h1 : k0_cond1 i k0_t1 = 1#1), ∀ a x, ((![v979] : Fin 1 → IVec S16 32) a x).toNat < S100000.size a := fun i k0_t1 v979 k0_hw318 k0_h1 => k0_hw318 k0_h1

def k0_chk319 (i : grid0.Coords) (k0_t1 : Fin k0_t1_loop.trips) (v980 : IVec S16 32) : Prop :=
  (∀ (k0_h1 : k0_cond1 i k0_t1 = 1#1), ∀ a x, ((![v980] : Fin 1 → IVec S16 32) a x).toNat < S100000.size a)
instance k0_chk319.dec : ∀ (i : grid0.Coords) (k0_t1 : Fin k0_t1_loop.trips) (v980 : IVec S16 32), Decidable (k0_chk319 i k0_t1 v980) := fun i k0_t1 v980 => decidable_of_iff' _ (Iff.of_eq (k0_chk319.eq_1 i k0_t1 v980))
theorem k0_idx319_inb : ∀ (i : grid0.Coords) (k0_t1 : Fin k0_t1_loop.trips) (v980 : IVec S16 32) (k0_hw319 : k0_chk319 i k0_t1 v980), ∀ (k0_h1 : k0_cond1 i k0_t1 = 1#1), ∀ a x, ((![v980] : Fin 1 → IVec S16 32) a x).toNat < S100000.size a := fun i k0_t1 v980 k0_hw319 k0_h1 => k0_hw319 k0_h1

def k0_chk320 (i : grid0.Coords) (k0_t1 : Fin k0_t1_loop.trips) (v981 : IVec S16 32) : Prop :=
  (∀ (k0_h1 : k0_cond1 i k0_t1 = 1#1), ∀ a x, ((![v981] : Fin 1 → IVec S16 32) a x).toNat < S100000.size a)
instance k0_chk320.dec : ∀ (i : grid0.Coords) (k0_t1 : Fin k0_t1_loop.trips) (v981 : IVec S16 32), Decidable (k0_chk320 i k0_t1 v981) := fun i k0_t1 v981 => decidable_of_iff' _ (Iff.of_eq (k0_chk320.eq_1 i k0_t1 v981))
theorem k0_idx320_inb : ∀ (i : grid0.Coords) (k0_t1 : Fin k0_t1_loop.trips) (v981 : IVec S16 32) (k0_hw320 : k0_chk320 i k0_t1 v981), ∀ (k0_h1 : k0_cond1 i k0_t1 = 1#1), ∀ a x, ((![v981] : Fin 1 → IVec S16 32) a x).toNat < S100000.size a := fun i k0_t1 v981 k0_hw320 k0_h1 => k0_hw320 k0_h1

def k0_chk321 (i : grid0.Coords) (k0_t1 : Fin k0_t1_loop.trips) (v998 : IVec S16 32) : Prop :=
  (∀ (k0_h1 : k0_cond1 i k0_t1 = 1#1), ∀ a x, ((![v998] : Fin 1 → IVec S16 32) a x).toNat < S100000.size a)
instance k0_chk321.dec : ∀ (i : grid0.Coords) (k0_t1 : Fin k0_t1_loop.trips) (v998 : IVec S16 32), Decidable (k0_chk321 i k0_t1 v998) := fun i k0_t1 v998 => decidable_of_iff' _ (Iff.of_eq (k0_chk321.eq_1 i k0_t1 v998))
theorem k0_idx321_inb : ∀ (i : grid0.Coords) (k0_t1 : Fin k0_t1_loop.trips) (v998 : IVec S16 32) (k0_hw321 : k0_chk321 i k0_t1 v998), ∀ (k0_h1 : k0_cond1 i k0_t1 = 1#1), ∀ a x, ((![v998] : Fin 1 → IVec S16 32) a x).toNat < S100000.size a := fun i k0_t1 v998 k0_hw321 k0_h1 => k0_hw321 k0_h1

def k0_chk322 (i : grid0.Coords) (k0_t1 : Fin k0_t1_loop.trips) (v999 : IVec S16 32) : Prop :=
  (∀ (k0_h1 : k0_cond1 i k0_t1 = 1#1), ∀ a x, ((![v999] : Fin 1 → IVec S16 32) a x).toNat < S100000.size a)
instance k0_chk322.dec : ∀ (i : grid0.Coords) (k0_t1 : Fin k0_t1_loop.trips) (v999 : IVec S16 32), Decidable (k0_chk322 i k0_t1 v999) := fun i k0_t1 v999 => decidable_of_iff' _ (Iff.of_eq (k0_chk322.eq_1 i k0_t1 v999))
theorem k0_idx322_inb : ∀ (i : grid0.Coords) (k0_t1 : Fin k0_t1_loop.trips) (v999 : IVec S16 32) (k0_hw322 : k0_chk322 i k0_t1 v999), ∀ (k0_h1 : k0_cond1 i k0_t1 = 1#1), ∀ a x, ((![v999] : Fin 1 → IVec S16 32) a x).toNat < S100000.size a := fun i k0_t1 v999 k0_hw322 k0_h1 => k0_hw322 k0_h1

def k0_chk323 (i : grid0.Coords) (k0_t1 : Fin k0_t1_loop.trips) (v1000 : IVec S16 32) : Prop :=
  (∀ (k0_h1 : k0_cond1 i k0_t1 = 1#1), ∀ a x, ((![v1000] : Fin 1 → IVec S16 32) a x).toNat < S100000.size a)
instance k0_chk323.dec : ∀ (i : grid0.Coords) (k0_t1 : Fin k0_t1_loop.trips) (v1000 : IVec S16 32), Decidable (k0_chk323 i k0_t1 v1000) := fun i k0_t1 v1000 => decidable_of_iff' _ (Iff.of_eq (k0_chk323.eq_1 i k0_t1 v1000))
theorem k0_idx323_inb : ∀ (i : grid0.Coords) (k0_t1 : Fin k0_t1_loop.trips) (v1000 : IVec S16 32) (k0_hw323 : k0_chk323 i k0_t1 v1000), ∀ (k0_h1 : k0_cond1 i k0_t1 = 1#1), ∀ a x, ((![v1000] : Fin 1 → IVec S16 32) a x).toNat < S100000.size a := fun i k0_t1 v1000 k0_hw323 k0_h1 => k0_hw323 k0_h1

def k0_chk324 (i : grid0.Coords) (k0_t1 : Fin k0_t1_loop.trips) (v1001 : IVec S16 32) : Prop :=
  (∀ (k0_h1 : k0_cond1 i k0_t1 = 1#1), ∀ a x, ((![v1001] : Fin 1 → IVec S16 32) a x).toNat < S100000.size a)
instance k0_chk324.dec : ∀ (i : grid0.Coords) (k0_t1 : Fin k0_t1_loop.trips) (v1001 : IVec S16 32), Decidable (k0_chk324 i k0_t1 v1001) := fun i k0_t1 v1001 => decidable_of_iff' _ (Iff.of_eq (k0_chk324.eq_1 i k0_t1 v1001))
theorem k0_idx324_inb : ∀ (i : grid0.Coords) (k0_t1 : Fin k0_t1_loop.trips) (v1001 : IVec S16 32) (k0_hw324 : k0_chk324 i k0_t1 v1001), ∀ (k0_h1 : k0_cond1 i k0_t1 = 1#1), ∀ a x, ((![v1001] : Fin 1 → IVec S16 32) a x).toNat < S100000.size a := fun i k0_t1 v1001 k0_hw324 k0_h1 => k0_hw324 k0_h1

def k0_chk325 (i : grid0.Coords) (k0_t1 : Fin k0_t1_loop.trips) (v1002 : IVec S16 32) : Prop :=
  (∀ (k0_h1 : k0_cond1 i k0_t1 = 1#1), ∀ a x, ((![v1002] : Fin 1 → IVec S16 32) a x).toNat < S100000.size a)
instance k0_chk325.dec : ∀ (i : grid0.Coords) (k0_t1 : Fin k0_t1_loop.trips) (v1002 : IVec S16 32), Decidable (k0_chk325 i k0_t1 v1002) := fun i k0_t1 v1002 => decidable_of_iff' _ (Iff.of_eq (k0_chk325.eq_1 i k0_t1 v1002))
theorem k0_idx325_inb : ∀ (i : grid0.Coords) (k0_t1 : Fin k0_t1_loop.trips) (v1002 : IVec S16 32) (k0_hw325 : k0_chk325 i k0_t1 v1002), ∀ (k0_h1 : k0_cond1 i k0_t1 = 1#1), ∀ a x, ((![v1002] : Fin 1 → IVec S16 32) a x).toNat < S100000.size a := fun i k0_t1 v1002 k0_hw325 k0_h1 => k0_hw325 k0_h1

def k0_chk326 (i : grid0.Coords) (k0_t1 : Fin k0_t1_loop.trips) (v1003 : IVec S16 32) : Prop :=
  (∀ (k0_h1 : k0_cond1 i k0_t1 = 1#1), ∀ a x, ((![v1003] : Fin 1 → IVec S16 32) a x).toNat < S100000.size a)
instance k0_chk326.dec : ∀ (i : grid0.Coords) (k0_t1 : Fin k0_t1_loop.trips) (v1003 : IVec S16 32), Decidable (k0_chk326 i k0_t1 v1003) := fun i k0_t1 v1003 => decidable_of_iff' _ (Iff.of_eq (k0_chk326.eq_1 i k0_t1 v1003))
theorem k0_idx326_inb : ∀ (i : grid0.Coords) (k0_t1 : Fin k0_t1_loop.trips) (v1003 : IVec S16 32) (k0_hw326 : k0_chk326 i k0_t1 v1003), ∀ (k0_h1 : k0_cond1 i k0_t1 = 1#1), ∀ a x, ((![v1003] : Fin 1 → IVec S16 32) a x).toNat < S100000.size a := fun i k0_t1 v1003 k0_hw326 k0_h1 => k0_hw326 k0_h1

def k0_chk327 (i : grid0.Coords) (k0_t1 : Fin k0_t1_loop.trips) (v1004 : IVec S16 32) : Prop :=
  (∀ (k0_h1 : k0_cond1 i k0_t1 = 1#1), ∀ a x, ((![v1004] : Fin 1 → IVec S16 32) a x).toNat < S100000.size a)
instance k0_chk327.dec : ∀ (i : grid0.Coords) (k0_t1 : Fin k0_t1_loop.trips) (v1004 : IVec S16 32), Decidable (k0_chk327 i k0_t1 v1004) := fun i k0_t1 v1004 => decidable_of_iff' _ (Iff.of_eq (k0_chk327.eq_1 i k0_t1 v1004))
theorem k0_idx327_inb : ∀ (i : grid0.Coords) (k0_t1 : Fin k0_t1_loop.trips) (v1004 : IVec S16 32) (k0_hw327 : k0_chk327 i k0_t1 v1004), ∀ (k0_h1 : k0_cond1 i k0_t1 = 1#1), ∀ a x, ((![v1004] : Fin 1 → IVec S16 32) a x).toNat < S100000.size a := fun i k0_t1 v1004 k0_hw327 k0_h1 => k0_hw327 k0_h1

def k0_chk328 (i : grid0.Coords) (k0_t1 : Fin k0_t1_loop.trips) (v1005 : IVec S16 32) : Prop :=
  (∀ (k0_h1 : k0_cond1 i k0_t1 = 1#1), ∀ a x, ((![v1005] : Fin 1 → IVec S16 32) a x).toNat < S100000.size a)
instance k0_chk328.dec : ∀ (i : grid0.Coords) (k0_t1 : Fin k0_t1_loop.trips) (v1005 : IVec S16 32), Decidable (k0_chk328 i k0_t1 v1005) := fun i k0_t1 v1005 => decidable_of_iff' _ (Iff.of_eq (k0_chk328.eq_1 i k0_t1 v1005))
theorem k0_idx328_inb : ∀ (i : grid0.Coords) (k0_t1 : Fin k0_t1_loop.trips) (v1005 : IVec S16 32) (k0_hw328 : k0_chk328 i k0_t1 v1005), ∀ (k0_h1 : k0_cond1 i k0_t1 = 1#1), ∀ a x, ((![v1005] : Fin 1 → IVec S16 32) a x).toNat < S100000.size a := fun i k0_t1 v1005 k0_hw328 k0_h1 => k0_hw328 k0_h1

def k0_chk329 (i : grid0.Coords) (k0_t1 : Fin k0_t1_loop.trips) (v1022 : IVec S16 32) : Prop :=
  (∀ (k0_h1 : k0_cond1 i k0_t1 = 1#1), ∀ a x, ((![v1022] : Fin 1 → IVec S16 32) a x).toNat < S100000.size a)
instance k0_chk329.dec : ∀ (i : grid0.Coords) (k0_t1 : Fin k0_t1_loop.trips) (v1022 : IVec S16 32), Decidable (k0_chk329 i k0_t1 v1022) := fun i k0_t1 v1022 => decidable_of_iff' _ (Iff.of_eq (k0_chk329.eq_1 i k0_t1 v1022))
theorem k0_idx329_inb : ∀ (i : grid0.Coords) (k0_t1 : Fin k0_t1_loop.trips) (v1022 : IVec S16 32) (k0_hw329 : k0_chk329 i k0_t1 v1022), ∀ (k0_h1 : k0_cond1 i k0_t1 = 1#1), ∀ a x, ((![v1022] : Fin 1 → IVec S16 32) a x).toNat < S100000.size a := fun i k0_t1 v1022 k0_hw329 k0_h1 => k0_hw329 k0_h1

def k0_chk330 (i : grid0.Coords) (k0_t1 : Fin k0_t1_loop.trips) (v1023 : IVec S16 32) : Prop :=
  (∀ (k0_h1 : k0_cond1 i k0_t1 = 1#1), ∀ a x, ((![v1023] : Fin 1 → IVec S16 32) a x).toNat < S100000.size a)
instance k0_chk330.dec : ∀ (i : grid0.Coords) (k0_t1 : Fin k0_t1_loop.trips) (v1023 : IVec S16 32), Decidable (k0_chk330 i k0_t1 v1023) := fun i k0_t1 v1023 => decidable_of_iff' _ (Iff.of_eq (k0_chk330.eq_1 i k0_t1 v1023))
theorem k0_idx330_inb : ∀ (i : grid0.Coords) (k0_t1 : Fin k0_t1_loop.trips) (v1023 : IVec S16 32) (k0_hw330 : k0_chk330 i k0_t1 v1023), ∀ (k0_h1 : k0_cond1 i k0_t1 = 1#1), ∀ a x, ((![v1023] : Fin 1 → IVec S16 32) a x).toNat < S100000.size a := fun i k0_t1 v1023 k0_hw330 k0_h1 => k0_hw330 k0_h1

def k0_chk331 (i : grid0.Coords) (k0_t1 : Fin k0_t1_loop.trips) (v1024 : IVec S16 32) : Prop :=
  (∀ (k0_h1 : k0_cond1 i k0_t1 = 1#1), ∀ a x, ((![v1024] : Fin 1 → IVec S16 32) a x).toNat < S100000.size a)
instance k0_chk331.dec : ∀ (i : grid0.Coords) (k0_t1 : Fin k0_t1_loop.trips) (v1024 : IVec S16 32), Decidable (k0_chk331 i k0_t1 v1024) := fun i k0_t1 v1024 => decidable_of_iff' _ (Iff.of_eq (k0_chk331.eq_1 i k0_t1 v1024))
theorem k0_idx331_inb : ∀ (i : grid0.Coords) (k0_t1 : Fin k0_t1_loop.trips) (v1024 : IVec S16 32) (k0_hw331 : k0_chk331 i k0_t1 v1024), ∀ (k0_h1 : k0_cond1 i k0_t1 = 1#1), ∀ a x, ((![v1024] : Fin 1 → IVec S16 32) a x).toNat < S100000.size a := fun i k0_t1 v1024 k0_hw331 k0_h1 => k0_hw331 k0_h1

def k0_chk332 (i : grid0.Coords) (k0_t1 : Fin k0_t1_loop.trips) (v1025 : IVec S16 32) : Prop :=
  (∀ (k0_h1 : k0_cond1 i k0_t1 = 1#1), ∀ a x, ((![v1025] : Fin 1 → IVec S16 32) a x).toNat < S100000.size a)
instance k0_chk332.dec : ∀ (i : grid0.Coords) (k0_t1 : Fin k0_t1_loop.trips) (v1025 : IVec S16 32), Decidable (k0_chk332 i k0_t1 v1025) := fun i k0_t1 v1025 => decidable_of_iff' _ (Iff.of_eq (k0_chk332.eq_1 i k0_t1 v1025))
theorem k0_idx332_inb : ∀ (i : grid0.Coords) (k0_t1 : Fin k0_t1_loop.trips) (v1025 : IVec S16 32) (k0_hw332 : k0_chk332 i k0_t1 v1025), ∀ (k0_h1 : k0_cond1 i k0_t1 = 1#1), ∀ a x, ((![v1025] : Fin 1 → IVec S16 32) a x).toNat < S100000.size a := fun i k0_t1 v1025 k0_hw332 k0_h1 => k0_hw332 k0_h1

def k0_chk333 (i : grid0.Coords) (k0_t1 : Fin k0_t1_loop.trips) (v1026 : IVec S16 32) : Prop :=
  (∀ (k0_h1 : k0_cond1 i k0_t1 = 1#1), ∀ a x, ((![v1026] : Fin 1 → IVec S16 32) a x).toNat < S100000.size a)
instance k0_chk333.dec : ∀ (i : grid0.Coords) (k0_t1 : Fin k0_t1_loop.trips) (v1026 : IVec S16 32), Decidable (k0_chk333 i k0_t1 v1026) := fun i k0_t1 v1026 => decidable_of_iff' _ (Iff.of_eq (k0_chk333.eq_1 i k0_t1 v1026))
theorem k0_idx333_inb : ∀ (i : grid0.Coords) (k0_t1 : Fin k0_t1_loop.trips) (v1026 : IVec S16 32) (k0_hw333 : k0_chk333 i k0_t1 v1026), ∀ (k0_h1 : k0_cond1 i k0_t1 = 1#1), ∀ a x, ((![v1026] : Fin 1 → IVec S16 32) a x).toNat < S100000.size a := fun i k0_t1 v1026 k0_hw333 k0_h1 => k0_hw333 k0_h1

def k0_chk334 (i : grid0.Coords) (k0_t1 : Fin k0_t1_loop.trips) (v1027 : IVec S16 32) : Prop :=
  (∀ (k0_h1 : k0_cond1 i k0_t1 = 1#1), ∀ a x, ((![v1027] : Fin 1 → IVec S16 32) a x).toNat < S100000.size a)
instance k0_chk334.dec : ∀ (i : grid0.Coords) (k0_t1 : Fin k0_t1_loop.trips) (v1027 : IVec S16 32), Decidable (k0_chk334 i k0_t1 v1027) := fun i k0_t1 v1027 => decidable_of_iff' _ (Iff.of_eq (k0_chk334.eq_1 i k0_t1 v1027))
theorem k0_idx334_inb : ∀ (i : grid0.Coords) (k0_t1 : Fin k0_t1_loop.trips) (v1027 : IVec S16 32) (k0_hw334 : k0_chk334 i k0_t1 v1027), ∀ (k0_h1 : k0_cond1 i k0_t1 = 1#1), ∀ a x, ((![v1027] : Fin 1 → IVec S16 32) a x).toNat < S100000.size a := fun i k0_t1 v1027 k0_hw334 k0_h1 => k0_hw334 k0_h1

def k0_chk335 (i : grid0.Coords) (k0_t1 : Fin k0_t1_loop.trips) (v1028 : IVec S16 32) : Prop :=
  (∀ (k0_h1 : k0_cond1 i k0_t1 = 1#1), ∀ a x, ((![v1028] : Fin 1 → IVec S16 32) a x).toNat < S100000.size a)
instance k0_chk335.dec : ∀ (i : grid0.Coords) (k0_t1 : Fin k0_t1_loop.trips) (v1028 : IVec S16 32), Decidable (k0_chk335 i k0_t1 v1028) := fun i k0_t1 v1028 => decidable_of_iff' _ (Iff.of_eq (k0_chk335.eq_1 i k0_t1 v1028))
theorem k0_idx335_inb : ∀ (i : grid0.Coords) (k0_t1 : Fin k0_t1_loop.trips) (v1028 : IVec S16 32) (k0_hw335 : k0_chk335 i k0_t1 v1028), ∀ (k0_h1 : k0_cond1 i k0_t1 = 1#1), ∀ a x, ((![v1028] : Fin 1 → IVec S16 32) a x).toNat < S100000.size a := fun i k0_t1 v1028 k0_hw335 k0_h1 => k0_hw335 k0_h1

def k0_chk336 (i : grid0.Coords) (k0_t1 : Fin k0_t1_loop.trips) (v1029 : IVec S16 32) : Prop :=
  (∀ (k0_h1 : k0_cond1 i k0_t1 = 1#1), ∀ a x, ((![v1029] : Fin 1 → IVec S16 32) a x).toNat < S100000.size a)
instance k0_chk336.dec : ∀ (i : grid0.Coords) (k0_t1 : Fin k0_t1_loop.trips) (v1029 : IVec S16 32), Decidable (k0_chk336 i k0_t1 v1029) := fun i k0_t1 v1029 => decidable_of_iff' _ (Iff.of_eq (k0_chk336.eq_1 i k0_t1 v1029))
theorem k0_idx336_inb : ∀ (i : grid0.Coords) (k0_t1 : Fin k0_t1_loop.trips) (v1029 : IVec S16 32) (k0_hw336 : k0_chk336 i k0_t1 v1029), ∀ (k0_h1 : k0_cond1 i k0_t1 = 1#1), ∀ a x, ((![v1029] : Fin 1 → IVec S16 32) a x).toNat < S100000.size a := fun i k0_t1 v1029 k0_hw336 k0_h1 => k0_hw336 k0_h1

def k0_chk337 (i : grid0.Coords) (k0_t1 : Fin k0_t1_loop.trips) (v1046 : IVec S16 32) : Prop :=
  (∀ (k0_h1 : k0_cond1 i k0_t1 = 1#1), ∀ a x, ((![v1046] : Fin 1 → IVec S16 32) a x).toNat < S100000.size a)
instance k0_chk337.dec : ∀ (i : grid0.Coords) (k0_t1 : Fin k0_t1_loop.trips) (v1046 : IVec S16 32), Decidable (k0_chk337 i k0_t1 v1046) := fun i k0_t1 v1046 => decidable_of_iff' _ (Iff.of_eq (k0_chk337.eq_1 i k0_t1 v1046))
theorem k0_idx337_inb : ∀ (i : grid0.Coords) (k0_t1 : Fin k0_t1_loop.trips) (v1046 : IVec S16 32) (k0_hw337 : k0_chk337 i k0_t1 v1046), ∀ (k0_h1 : k0_cond1 i k0_t1 = 1#1), ∀ a x, ((![v1046] : Fin 1 → IVec S16 32) a x).toNat < S100000.size a := fun i k0_t1 v1046 k0_hw337 k0_h1 => k0_hw337 k0_h1

def k0_chk338 (i : grid0.Coords) (k0_t1 : Fin k0_t1_loop.trips) (v1047 : IVec S16 32) : Prop :=
  (∀ (k0_h1 : k0_cond1 i k0_t1 = 1#1), ∀ a x, ((![v1047] : Fin 1 → IVec S16 32) a x).toNat < S100000.size a)
instance k0_chk338.dec : ∀ (i : grid0.Coords) (k0_t1 : Fin k0_t1_loop.trips) (v1047 : IVec S16 32), Decidable (k0_chk338 i k0_t1 v1047) := fun i k0_t1 v1047 => decidable_of_iff' _ (Iff.of_eq (k0_chk338.eq_1 i k0_t1 v1047))
theorem k0_idx338_inb : ∀ (i : grid0.Coords) (k0_t1 : Fin k0_t1_loop.trips) (v1047 : IVec S16 32) (k0_hw338 : k0_chk338 i k0_t1 v1047), ∀ (k0_h1 : k0_cond1 i k0_t1 = 1#1), ∀ a x, ((![v1047] : Fin 1 → IVec S16 32) a x).toNat < S100000.size a := fun i k0_t1 v1047 k0_hw338 k0_h1 => k0_hw338 k0_h1

def k0_chk339 (i : grid0.Coords) (k0_t1 : Fin k0_t1_loop.trips) (v1048 : IVec S16 32) : Prop :=
  (∀ (k0_h1 : k0_cond1 i k0_t1 = 1#1), ∀ a x, ((![v1048] : Fin 1 → IVec S16 32) a x).toNat < S100000.size a)
instance k0_chk339.dec : ∀ (i : grid0.Coords) (k0_t1 : Fin k0_t1_loop.trips) (v1048 : IVec S16 32), Decidable (k0_chk339 i k0_t1 v1048) := fun i k0_t1 v1048 => decidable_of_iff' _ (Iff.of_eq (k0_chk339.eq_1 i k0_t1 v1048))
theorem k0_idx339_inb : ∀ (i : grid0.Coords) (k0_t1 : Fin k0_t1_loop.trips) (v1048 : IVec S16 32) (k0_hw339 : k0_chk339 i k0_t1 v1048), ∀ (k0_h1 : k0_cond1 i k0_t1 = 1#1), ∀ a x, ((![v1048] : Fin 1 → IVec S16 32) a x).toNat < S100000.size a := fun i k0_t1 v1048 k0_hw339 k0_h1 => k0_hw339 k0_h1

def k0_chk340 (i : grid0.Coords) (k0_t1 : Fin k0_t1_loop.trips) (v1049 : IVec S16 32) : Prop :=
  (∀ (k0_h1 : k0_cond1 i k0_t1 = 1#1), ∀ a x, ((![v1049] : Fin 1 → IVec S16 32) a x).toNat < S100000.size a)
instance k0_chk340.dec : ∀ (i : grid0.Coords) (k0_t1 : Fin k0_t1_loop.trips) (v1049 : IVec S16 32), Decidable (k0_chk340 i k0_t1 v1049) := fun i k0_t1 v1049 => decidable_of_iff' _ (Iff.of_eq (k0_chk340.eq_1 i k0_t1 v1049))
theorem k0_idx340_inb : ∀ (i : grid0.Coords) (k0_t1 : Fin k0_t1_loop.trips) (v1049 : IVec S16 32) (k0_hw340 : k0_chk340 i k0_t1 v1049), ∀ (k0_h1 : k0_cond1 i k0_t1 = 1#1), ∀ a x, ((![v1049] : Fin 1 → IVec S16 32) a x).toNat < S100000.size a := fun i k0_t1 v1049 k0_hw340 k0_h1 => k0_hw340 k0_h1

def k0_chk341 (i : grid0.Coords) (k0_t1 : Fin k0_t1_loop.trips) (v1050 : IVec S16 32) : Prop :=
  (∀ (k0_h1 : k0_cond1 i k0_t1 = 1#1), ∀ a x, ((![v1050] : Fin 1 → IVec S16 32) a x).toNat < S100000.size a)
instance k0_chk341.dec : ∀ (i : grid0.Coords) (k0_t1 : Fin k0_t1_loop.trips) (v1050 : IVec S16 32), Decidable (k0_chk341 i k0_t1 v1050) := fun i k0_t1 v1050 => decidable_of_iff' _ (Iff.of_eq (k0_chk341.eq_1 i k0_t1 v1050))
theorem k0_idx341_inb : ∀ (i : grid0.Coords) (k0_t1 : Fin k0_t1_loop.trips) (v1050 : IVec S16 32) (k0_hw341 : k0_chk341 i k0_t1 v1050), ∀ (k0_h1 : k0_cond1 i k0_t1 = 1#1), ∀ a x, ((![v1050] : Fin 1 → IVec S16 32) a x).toNat < S100000.size a := fun i k0_t1 v1050 k0_hw341 k0_h1 => k0_hw341 k0_h1

def k0_chk342 (i : grid0.Coords) (k0_t1 : Fin k0_t1_loop.trips) (v1051 : IVec S16 32) : Prop :=
  (∀ (k0_h1 : k0_cond1 i k0_t1 = 1#1), ∀ a x, ((![v1051] : Fin 1 → IVec S16 32) a x).toNat < S100000.size a)
instance k0_chk342.dec : ∀ (i : grid0.Coords) (k0_t1 : Fin k0_t1_loop.trips) (v1051 : IVec S16 32), Decidable (k0_chk342 i k0_t1 v1051) := fun i k0_t1 v1051 => decidable_of_iff' _ (Iff.of_eq (k0_chk342.eq_1 i k0_t1 v1051))
theorem k0_idx342_inb : ∀ (i : grid0.Coords) (k0_t1 : Fin k0_t1_loop.trips) (v1051 : IVec S16 32) (k0_hw342 : k0_chk342 i k0_t1 v1051), ∀ (k0_h1 : k0_cond1 i k0_t1 = 1#1), ∀ a x, ((![v1051] : Fin 1 → IVec S16 32) a x).toNat < S100000.size a := fun i k0_t1 v1051 k0_hw342 k0_h1 => k0_hw342 k0_h1

def k0_chk343 (i : grid0.Coords) (k0_t1 : Fin k0_t1_loop.trips) (v1052 : IVec S16 32) : Prop :=
  (∀ (k0_h1 : k0_cond1 i k0_t1 = 1#1), ∀ a x, ((![v1052] : Fin 1 → IVec S16 32) a x).toNat < S100000.size a)
instance k0_chk343.dec : ∀ (i : grid0.Coords) (k0_t1 : Fin k0_t1_loop.trips) (v1052 : IVec S16 32), Decidable (k0_chk343 i k0_t1 v1052) := fun i k0_t1 v1052 => decidable_of_iff' _ (Iff.of_eq (k0_chk343.eq_1 i k0_t1 v1052))
theorem k0_idx343_inb : ∀ (i : grid0.Coords) (k0_t1 : Fin k0_t1_loop.trips) (v1052 : IVec S16 32) (k0_hw343 : k0_chk343 i k0_t1 v1052), ∀ (k0_h1 : k0_cond1 i k0_t1 = 1#1), ∀ a x, ((![v1052] : Fin 1 → IVec S16 32) a x).toNat < S100000.size a := fun i k0_t1 v1052 k0_hw343 k0_h1 => k0_hw343 k0_h1

def k0_chk344 (i : grid0.Coords) (k0_t1 : Fin k0_t1_loop.trips) (v1053 : IVec S16 32) : Prop :=
  (∀ (k0_h1 : k0_cond1 i k0_t1 = 1#1), ∀ a x, ((![v1053] : Fin 1 → IVec S16 32) a x).toNat < S100000.size a)
instance k0_chk344.dec : ∀ (i : grid0.Coords) (k0_t1 : Fin k0_t1_loop.trips) (v1053 : IVec S16 32), Decidable (k0_chk344 i k0_t1 v1053) := fun i k0_t1 v1053 => decidable_of_iff' _ (Iff.of_eq (k0_chk344.eq_1 i k0_t1 v1053))
theorem k0_idx344_inb : ∀ (i : grid0.Coords) (k0_t1 : Fin k0_t1_loop.trips) (v1053 : IVec S16 32) (k0_hw344 : k0_chk344 i k0_t1 v1053), ∀ (k0_h1 : k0_cond1 i k0_t1 = 1#1), ∀ a x, ((![v1053] : Fin 1 → IVec S16 32) a x).toNat < S100000.size a := fun i k0_t1 v1053 k0_hw344 k0_h1 => k0_hw344 k0_h1

def k0_chk345 (i : grid0.Coords) (k0_t1 : Fin k0_t1_loop.trips) (v1070 : IVec S16 32) : Prop :=
  (∀ (k0_h1 : k0_cond1 i k0_t1 = 1#1), ∀ a x, ((![v1070] : Fin 1 → IVec S16 32) a x).toNat < S100000.size a)
instance k0_chk345.dec : ∀ (i : grid0.Coords) (k0_t1 : Fin k0_t1_loop.trips) (v1070 : IVec S16 32), Decidable (k0_chk345 i k0_t1 v1070) := fun i k0_t1 v1070 => decidable_of_iff' _ (Iff.of_eq (k0_chk345.eq_1 i k0_t1 v1070))
theorem k0_idx345_inb : ∀ (i : grid0.Coords) (k0_t1 : Fin k0_t1_loop.trips) (v1070 : IVec S16 32) (k0_hw345 : k0_chk345 i k0_t1 v1070), ∀ (k0_h1 : k0_cond1 i k0_t1 = 1#1), ∀ a x, ((![v1070] : Fin 1 → IVec S16 32) a x).toNat < S100000.size a := fun i k0_t1 v1070 k0_hw345 k0_h1 => k0_hw345 k0_h1

def k0_chk346 (i : grid0.Coords) (k0_t1 : Fin k0_t1_loop.trips) (v1071 : IVec S16 32) : Prop :=
  (∀ (k0_h1 : k0_cond1 i k0_t1 = 1#1), ∀ a x, ((![v1071] : Fin 1 → IVec S16 32) a x).toNat < S100000.size a)
instance k0_chk346.dec : ∀ (i : grid0.Coords) (k0_t1 : Fin k0_t1_loop.trips) (v1071 : IVec S16 32), Decidable (k0_chk346 i k0_t1 v1071) := fun i k0_t1 v1071 => decidable_of_iff' _ (Iff.of_eq (k0_chk346.eq_1 i k0_t1 v1071))
theorem k0_idx346_inb : ∀ (i : grid0.Coords) (k0_t1 : Fin k0_t1_loop.trips) (v1071 : IVec S16 32) (k0_hw346 : k0_chk346 i k0_t1 v1071), ∀ (k0_h1 : k0_cond1 i k0_t1 = 1#1), ∀ a x, ((![v1071] : Fin 1 → IVec S16 32) a x).toNat < S100000.size a := fun i k0_t1 v1071 k0_hw346 k0_h1 => k0_hw346 k0_h1

def k0_chk347 (i : grid0.Coords) (k0_t1 : Fin k0_t1_loop.trips) (v1072 : IVec S16 32) : Prop :=
  (∀ (k0_h1 : k0_cond1 i k0_t1 = 1#1), ∀ a x, ((![v1072] : Fin 1 → IVec S16 32) a x).toNat < S100000.size a)
instance k0_chk347.dec : ∀ (i : grid0.Coords) (k0_t1 : Fin k0_t1_loop.trips) (v1072 : IVec S16 32), Decidable (k0_chk347 i k0_t1 v1072) := fun i k0_t1 v1072 => decidable_of_iff' _ (Iff.of_eq (k0_chk347.eq_1 i k0_t1 v1072))
theorem k0_idx347_inb : ∀ (i : grid0.Coords) (k0_t1 : Fin k0_t1_loop.trips) (v1072 : IVec S16 32) (k0_hw347 : k0_chk347 i k0_t1 v1072), ∀ (k0_h1 : k0_cond1 i k0_t1 = 1#1), ∀ a x, ((![v1072] : Fin 1 → IVec S16 32) a x).toNat < S100000.size a := fun i k0_t1 v1072 k0_hw347 k0_h1 => k0_hw347 k0_h1

def k0_chk348 (i : grid0.Coords) (k0_t1 : Fin k0_t1_loop.trips) (v1073 : IVec S16 32) : Prop :=
  (∀ (k0_h1 : k0_cond1 i k0_t1 = 1#1), ∀ a x, ((![v1073] : Fin 1 → IVec S16 32) a x).toNat < S100000.size a)
instance k0_chk348.dec : ∀ (i : grid0.Coords) (k0_t1 : Fin k0_t1_loop.trips) (v1073 : IVec S16 32), Decidable (k0_chk348 i k0_t1 v1073) := fun i k0_t1 v1073 => decidable_of_iff' _ (Iff.of_eq (k0_chk348.eq_1 i k0_t1 v1073))
theorem k0_idx348_inb : ∀ (i : grid0.Coords) (k0_t1 : Fin k0_t1_loop.trips) (v1073 : IVec S16 32) (k0_hw348 : k0_chk348 i k0_t1 v1073), ∀ (k0_h1 : k0_cond1 i k0_t1 = 1#1), ∀ a x, ((![v1073] : Fin 1 → IVec S16 32) a x).toNat < S100000.size a := fun i k0_t1 v1073 k0_hw348 k0_h1 => k0_hw348 k0_h1

def k0_chk349 (i : grid0.Coords) (k0_t1 : Fin k0_t1_loop.trips) (v1074 : IVec S16 32) : Prop :=
  (∀ (k0_h1 : k0_cond1 i k0_t1 = 1#1), ∀ a x, ((![v1074] : Fin 1 → IVec S16 32) a x).toNat < S100000.size a)
instance k0_chk349.dec : ∀ (i : grid0.Coords) (k0_t1 : Fin k0_t1_loop.trips) (v1074 : IVec S16 32), Decidable (k0_chk349 i k0_t1 v1074) := fun i k0_t1 v1074 => decidable_of_iff' _ (Iff.of_eq (k0_chk349.eq_1 i k0_t1 v1074))
theorem k0_idx349_inb : ∀ (i : grid0.Coords) (k0_t1 : Fin k0_t1_loop.trips) (v1074 : IVec S16 32) (k0_hw349 : k0_chk349 i k0_t1 v1074), ∀ (k0_h1 : k0_cond1 i k0_t1 = 1#1), ∀ a x, ((![v1074] : Fin 1 → IVec S16 32) a x).toNat < S100000.size a := fun i k0_t1 v1074 k0_hw349 k0_h1 => k0_hw349 k0_h1

def k0_chk350 (i : grid0.Coords) (k0_t1 : Fin k0_t1_loop.trips) (v1075 : IVec S16 32) : Prop :=
  (∀ (k0_h1 : k0_cond1 i k0_t1 = 1#1), ∀ a x, ((![v1075] : Fin 1 → IVec S16 32) a x).toNat < S100000.size a)
instance k0_chk350.dec : ∀ (i : grid0.Coords) (k0_t1 : Fin k0_t1_loop.trips) (v1075 : IVec S16 32), Decidable (k0_chk350 i k0_t1 v1075) := fun i k0_t1 v1075 => decidable_of_iff' _ (Iff.of_eq (k0_chk350.eq_1 i k0_t1 v1075))
theorem k0_idx350_inb : ∀ (i : grid0.Coords) (k0_t1 : Fin k0_t1_loop.trips) (v1075 : IVec S16 32) (k0_hw350 : k0_chk350 i k0_t1 v1075), ∀ (k0_h1 : k0_cond1 i k0_t1 = 1#1), ∀ a x, ((![v1075] : Fin 1 → IVec S16 32) a x).toNat < S100000.size a := fun i k0_t1 v1075 k0_hw350 k0_h1 => k0_hw350 k0_h1

def k0_chk351 (i : grid0.Coords) (k0_t1 : Fin k0_t1_loop.trips) (v1076 : IVec S16 32) : Prop :=
  (∀ (k0_h1 : k0_cond1 i k0_t1 = 1#1), ∀ a x, ((![v1076] : Fin 1 → IVec S16 32) a x).toNat < S100000.size a)
instance k0_chk351.dec : ∀ (i : grid0.Coords) (k0_t1 : Fin k0_t1_loop.trips) (v1076 : IVec S16 32), Decidable (k0_chk351 i k0_t1 v1076) := fun i k0_t1 v1076 => decidable_of_iff' _ (Iff.of_eq (k0_chk351.eq_1 i k0_t1 v1076))
theorem k0_idx351_inb : ∀ (i : grid0.Coords) (k0_t1 : Fin k0_t1_loop.trips) (v1076 : IVec S16 32) (k0_hw351 : k0_chk351 i k0_t1 v1076), ∀ (k0_h1 : k0_cond1 i k0_t1 = 1#1), ∀ a x, ((![v1076] : Fin 1 → IVec S16 32) a x).toNat < S100000.size a := fun i k0_t1 v1076 k0_hw351 k0_h1 => k0_hw351 k0_h1

def k0_chk352 (i : grid0.Coords) (k0_t1 : Fin k0_t1_loop.trips) (v1077 : IVec S16 32) : Prop :=
  (∀ (k0_h1 : k0_cond1 i k0_t1 = 1#1), ∀ a x, ((![v1077] : Fin 1 → IVec S16 32) a x).toNat < S100000.size a)
instance k0_chk352.dec : ∀ (i : grid0.Coords) (k0_t1 : Fin k0_t1_loop.trips) (v1077 : IVec S16 32), Decidable (k0_chk352 i k0_t1 v1077) := fun i k0_t1 v1077 => decidable_of_iff' _ (Iff.of_eq (k0_chk352.eq_1 i k0_t1 v1077))
theorem k0_idx352_inb : ∀ (i : grid0.Coords) (k0_t1 : Fin k0_t1_loop.trips) (v1077 : IVec S16 32) (k0_hw352 : k0_chk352 i k0_t1 v1077), ∀ (k0_h1 : k0_cond1 i k0_t1 = 1#1), ∀ a x, ((![v1077] : Fin 1 → IVec S16 32) a x).toNat < S100000.size a := fun i k0_t1 v1077 k0_hw352 k0_h1 => k0_hw352 k0_h1

def k0_chk353 (i : grid0.Coords) (k0_t1 : Fin k0_t1_loop.trips) (v1094 : IVec S16 32) : Prop :=
  (∀ (k0_h1 : k0_cond1 i k0_t1 = 1#1), ∀ a x, ((![v1094] : Fin 1 → IVec S16 32) a x).toNat < S100000.size a)
instance k0_chk353.dec : ∀ (i : grid0.Coords) (k0_t1 : Fin k0_t1_loop.trips) (v1094 : IVec S16 32), Decidable (k0_chk353 i k0_t1 v1094) := fun i k0_t1 v1094 => decidable_of_iff' _ (Iff.of_eq (k0_chk353.eq_1 i k0_t1 v1094))
theorem k0_idx353_inb : ∀ (i : grid0.Coords) (k0_t1 : Fin k0_t1_loop.trips) (v1094 : IVec S16 32) (k0_hw353 : k0_chk353 i k0_t1 v1094), ∀ (k0_h1 : k0_cond1 i k0_t1 = 1#1), ∀ a x, ((![v1094] : Fin 1 → IVec S16 32) a x).toNat < S100000.size a := fun i k0_t1 v1094 k0_hw353 k0_h1 => k0_hw353 k0_h1

def k0_chk354 (i : grid0.Coords) (k0_t1 : Fin k0_t1_loop.trips) (v1095 : IVec S16 32) : Prop :=
  (∀ (k0_h1 : k0_cond1 i k0_t1 = 1#1), ∀ a x, ((![v1095] : Fin 1 → IVec S16 32) a x).toNat < S100000.size a)
instance k0_chk354.dec : ∀ (i : grid0.Coords) (k0_t1 : Fin k0_t1_loop.trips) (v1095 : IVec S16 32), Decidable (k0_chk354 i k0_t1 v1095) := fun i k0_t1 v1095 => decidable_of_iff' _ (Iff.of_eq (k0_chk354.eq_1 i k0_t1 v1095))
theorem k0_idx354_inb : ∀ (i : grid0.Coords) (k0_t1 : Fin k0_t1_loop.trips) (v1095 : IVec S16 32) (k0_hw354 : k0_chk354 i k0_t1 v1095), ∀ (k0_h1 : k0_cond1 i k0_t1 = 1#1), ∀ a x, ((![v1095] : Fin 1 → IVec S16 32) a x).toNat < S100000.size a := fun i k0_t1 v1095 k0_hw354 k0_h1 => k0_hw354 k0_h1

def k0_chk355 (i : grid0.Coords) (k0_t1 : Fin k0_t1_loop.trips) (v1096 : IVec S16 32) : Prop :=
  (∀ (k0_h1 : k0_cond1 i k0_t1 = 1#1), ∀ a x, ((![v1096] : Fin 1 → IVec S16 32) a x).toNat < S100000.size a)
instance k0_chk355.dec : ∀ (i : grid0.Coords) (k0_t1 : Fin k0_t1_loop.trips) (v1096 : IVec S16 32), Decidable (k0_chk355 i k0_t1 v1096) := fun i k0_t1 v1096 => decidable_of_iff' _ (Iff.of_eq (k0_chk355.eq_1 i k0_t1 v1096))
theorem k0_idx355_inb : ∀ (i : grid0.Coords) (k0_t1 : Fin k0_t1_loop.trips) (v1096 : IVec S16 32) (k0_hw355 : k0_chk355 i k0_t1 v1096), ∀ (k0_h1 : k0_cond1 i k0_t1 = 1#1), ∀ a x, ((![v1096] : Fin 1 → IVec S16 32) a x).toNat < S100000.size a := fun i k0_t1 v1096 k0_hw355 k0_h1 => k0_hw355 k0_h1

def k0_chk356 (i : grid0.Coords) (k0_t1 : Fin k0_t1_loop.trips) (v1097 : IVec S16 32) : Prop :=
  (∀ (k0_h1 : k0_cond1 i k0_t1 = 1#1), ∀ a x, ((![v1097] : Fin 1 → IVec S16 32) a x).toNat < S100000.size a)
instance k0_chk356.dec : ∀ (i : grid0.Coords) (k0_t1 : Fin k0_t1_loop.trips) (v1097 : IVec S16 32), Decidable (k0_chk356 i k0_t1 v1097) := fun i k0_t1 v1097 => decidable_of_iff' _ (Iff.of_eq (k0_chk356.eq_1 i k0_t1 v1097))
theorem k0_idx356_inb : ∀ (i : grid0.Coords) (k0_t1 : Fin k0_t1_loop.trips) (v1097 : IVec S16 32) (k0_hw356 : k0_chk356 i k0_t1 v1097), ∀ (k0_h1 : k0_cond1 i k0_t1 = 1#1), ∀ a x, ((![v1097] : Fin 1 → IVec S16 32) a x).toNat < S100000.size a := fun i k0_t1 v1097 k0_hw356 k0_h1 => k0_hw356 k0_h1

def k0_chk357 (i : grid0.Coords) (k0_t1 : Fin k0_t1_loop.trips) (v1098 : IVec S16 32) : Prop :=
  (∀ (k0_h1 : k0_cond1 i k0_t1 = 1#1), ∀ a x, ((![v1098] : Fin 1 → IVec S16 32) a x).toNat < S100000.size a)
instance k0_chk357.dec : ∀ (i : grid0.Coords) (k0_t1 : Fin k0_t1_loop.trips) (v1098 : IVec S16 32), Decidable (k0_chk357 i k0_t1 v1098) := fun i k0_t1 v1098 => decidable_of_iff' _ (Iff.of_eq (k0_chk357.eq_1 i k0_t1 v1098))
theorem k0_idx357_inb : ∀ (i : grid0.Coords) (k0_t1 : Fin k0_t1_loop.trips) (v1098 : IVec S16 32) (k0_hw357 : k0_chk357 i k0_t1 v1098), ∀ (k0_h1 : k0_cond1 i k0_t1 = 1#1), ∀ a x, ((![v1098] : Fin 1 → IVec S16 32) a x).toNat < S100000.size a := fun i k0_t1 v1098 k0_hw357 k0_h1 => k0_hw357 k0_h1

def k0_chk358 (i : grid0.Coords) (k0_t1 : Fin k0_t1_loop.trips) (v1099 : IVec S16 32) : Prop :=
  (∀ (k0_h1 : k0_cond1 i k0_t1 = 1#1), ∀ a x, ((![v1099] : Fin 1 → IVec S16 32) a x).toNat < S100000.size a)
instance k0_chk358.dec : ∀ (i : grid0.Coords) (k0_t1 : Fin k0_t1_loop.trips) (v1099 : IVec S16 32), Decidable (k0_chk358 i k0_t1 v1099) := fun i k0_t1 v1099 => decidable_of_iff' _ (Iff.of_eq (k0_chk358.eq_1 i k0_t1 v1099))
theorem k0_idx358_inb : ∀ (i : grid0.Coords) (k0_t1 : Fin k0_t1_loop.trips) (v1099 : IVec S16 32) (k0_hw358 : k0_chk358 i k0_t1 v1099), ∀ (k0_h1 : k0_cond1 i k0_t1 = 1#1), ∀ a x, ((![v1099] : Fin 1 → IVec S16 32) a x).toNat < S100000.size a := fun i k0_t1 v1099 k0_hw358 k0_h1 => k0_hw358 k0_h1

def k0_chk359 (i : grid0.Coords) (k0_t1 : Fin k0_t1_loop.trips) (v1100 : IVec S16 32) : Prop :=
  (∀ (k0_h1 : k0_cond1 i k0_t1 = 1#1), ∀ a x, ((![v1100] : Fin 1 → IVec S16 32) a x).toNat < S100000.size a)
instance k0_chk359.dec : ∀ (i : grid0.Coords) (k0_t1 : Fin k0_t1_loop.trips) (v1100 : IVec S16 32), Decidable (k0_chk359 i k0_t1 v1100) := fun i k0_t1 v1100 => decidable_of_iff' _ (Iff.of_eq (k0_chk359.eq_1 i k0_t1 v1100))
theorem k0_idx359_inb : ∀ (i : grid0.Coords) (k0_t1 : Fin k0_t1_loop.trips) (v1100 : IVec S16 32) (k0_hw359 : k0_chk359 i k0_t1 v1100), ∀ (k0_h1 : k0_cond1 i k0_t1 = 1#1), ∀ a x, ((![v1100] : Fin 1 → IVec S16 32) a x).toNat < S100000.size a := fun i k0_t1 v1100 k0_hw359 k0_h1 => k0_hw359 k0_h1

def k0_chk360 (i : grid0.Coords) (k0_t1 : Fin k0_t1_loop.trips) (v1101 : IVec S16 32) : Prop :=
  (∀ (k0_h1 : k0_cond1 i k0_t1 = 1#1), ∀ a x, ((![v1101] : Fin 1 → IVec S16 32) a x).toNat < S100000.size a)
instance k0_chk360.dec : ∀ (i : grid0.Coords) (k0_t1 : Fin k0_t1_loop.trips) (v1101 : IVec S16 32), Decidable (k0_chk360 i k0_t1 v1101) := fun i k0_t1 v1101 => decidable_of_iff' _ (Iff.of_eq (k0_chk360.eq_1 i k0_t1 v1101))
theorem k0_idx360_inb : ∀ (i : grid0.Coords) (k0_t1 : Fin k0_t1_loop.trips) (v1101 : IVec S16 32) (k0_hw360 : k0_chk360 i k0_t1 v1101), ∀ (k0_h1 : k0_cond1 i k0_t1 = 1#1), ∀ a x, ((![v1101] : Fin 1 → IVec S16 32) a x).toNat < S100000.size a := fun i k0_t1 v1101 k0_hw360 k0_h1 => k0_hw360 k0_h1

def k0_chk361 (i : grid0.Coords) (k0_t1 : Fin k0_t1_loop.trips) (v1118 : IVec S16 32) : Prop :=
  (∀ (k0_h1 : k0_cond1 i k0_t1 = 1#1), ∀ a x, ((![v1118] : Fin 1 → IVec S16 32) a x).toNat < S100000.size a)
instance k0_chk361.dec : ∀ (i : grid0.Coords) (k0_t1 : Fin k0_t1_loop.trips) (v1118 : IVec S16 32), Decidable (k0_chk361 i k0_t1 v1118) := fun i k0_t1 v1118 => decidable_of_iff' _ (Iff.of_eq (k0_chk361.eq_1 i k0_t1 v1118))
theorem k0_idx361_inb : ∀ (i : grid0.Coords) (k0_t1 : Fin k0_t1_loop.trips) (v1118 : IVec S16 32) (k0_hw361 : k0_chk361 i k0_t1 v1118), ∀ (k0_h1 : k0_cond1 i k0_t1 = 1#1), ∀ a x, ((![v1118] : Fin 1 → IVec S16 32) a x).toNat < S100000.size a := fun i k0_t1 v1118 k0_hw361 k0_h1 => k0_hw361 k0_h1

def k0_chk362 (i : grid0.Coords) (k0_t1 : Fin k0_t1_loop.trips) (v1119 : IVec S16 32) : Prop :=
  (∀ (k0_h1 : k0_cond1 i k0_t1 = 1#1), ∀ a x, ((![v1119] : Fin 1 → IVec S16 32) a x).toNat < S100000.size a)
instance k0_chk362.dec : ∀ (i : grid0.Coords) (k0_t1 : Fin k0_t1_loop.trips) (v1119 : IVec S16 32), Decidable (k0_chk362 i k0_t1 v1119) := fun i k0_t1 v1119 => decidable_of_iff' _ (Iff.of_eq (k0_chk362.eq_1 i k0_t1 v1119))
theorem k0_idx362_inb : ∀ (i : grid0.Coords) (k0_t1 : Fin k0_t1_loop.trips) (v1119 : IVec S16 32) (k0_hw362 : k0_chk362 i k0_t1 v1119), ∀ (k0_h1 : k0_cond1 i k0_t1 = 1#1), ∀ a x, ((![v1119] : Fin 1 → IVec S16 32) a x).toNat < S100000.size a := fun i k0_t1 v1119 k0_hw362 k0_h1 => k0_hw362 k0_h1

def k0_chk363 (i : grid0.Coords) (k0_t1 : Fin k0_t1_loop.trips) (v1120 : IVec S16 32) : Prop :=
  (∀ (k0_h1 : k0_cond1 i k0_t1 = 1#1), ∀ a x, ((![v1120] : Fin 1 → IVec S16 32) a x).toNat < S100000.size a)
instance k0_chk363.dec : ∀ (i : grid0.Coords) (k0_t1 : Fin k0_t1_loop.trips) (v1120 : IVec S16 32), Decidable (k0_chk363 i k0_t1 v1120) := fun i k0_t1 v1120 => decidable_of_iff' _ (Iff.of_eq (k0_chk363.eq_1 i k0_t1 v1120))
theorem k0_idx363_inb : ∀ (i : grid0.Coords) (k0_t1 : Fin k0_t1_loop.trips) (v1120 : IVec S16 32) (k0_hw363 : k0_chk363 i k0_t1 v1120), ∀ (k0_h1 : k0_cond1 i k0_t1 = 1#1), ∀ a x, ((![v1120] : Fin 1 → IVec S16 32) a x).toNat < S100000.size a := fun i k0_t1 v1120 k0_hw363 k0_h1 => k0_hw363 k0_h1

def k0_chk364 (i : grid0.Coords) (k0_t1 : Fin k0_t1_loop.trips) (v1121 : IVec S16 32) : Prop :=
  (∀ (k0_h1 : k0_cond1 i k0_t1 = 1#1), ∀ a x, ((![v1121] : Fin 1 → IVec S16 32) a x).toNat < S100000.size a)
instance k0_chk364.dec : ∀ (i : grid0.Coords) (k0_t1 : Fin k0_t1_loop.trips) (v1121 : IVec S16 32), Decidable (k0_chk364 i k0_t1 v1121) := fun i k0_t1 v1121 => decidable_of_iff' _ (Iff.of_eq (k0_chk364.eq_1 i k0_t1 v1121))
theorem k0_idx364_inb : ∀ (i : grid0.Coords) (k0_t1 : Fin k0_t1_loop.trips) (v1121 : IVec S16 32) (k0_hw364 : k0_chk364 i k0_t1 v1121), ∀ (k0_h1 : k0_cond1 i k0_t1 = 1#1), ∀ a x, ((![v1121] : Fin 1 → IVec S16 32) a x).toNat < S100000.size a := fun i k0_t1 v1121 k0_hw364 k0_h1 => k0_hw364 k0_h1

def k0_chk365 (i : grid0.Coords) (k0_t1 : Fin k0_t1_loop.trips) (v1122 : IVec S16 32) : Prop :=
  (∀ (k0_h1 : k0_cond1 i k0_t1 = 1#1), ∀ a x, ((![v1122] : Fin 1 → IVec S16 32) a x).toNat < S100000.size a)
instance k0_chk365.dec : ∀ (i : grid0.Coords) (k0_t1 : Fin k0_t1_loop.trips) (v1122 : IVec S16 32), Decidable (k0_chk365 i k0_t1 v1122) := fun i k0_t1 v1122 => decidable_of_iff' _ (Iff.of_eq (k0_chk365.eq_1 i k0_t1 v1122))
theorem k0_idx365_inb : ∀ (i : grid0.Coords) (k0_t1 : Fin k0_t1_loop.trips) (v1122 : IVec S16 32) (k0_hw365 : k0_chk365 i k0_t1 v1122), ∀ (k0_h1 : k0_cond1 i k0_t1 = 1#1), ∀ a x, ((![v1122] : Fin 1 → IVec S16 32) a x).toNat < S100000.size a := fun i k0_t1 v1122 k0_hw365 k0_h1 => k0_hw365 k0_h1

def k0_chk366 (i : grid0.Coords) (k0_t1 : Fin k0_t1_loop.trips) (v1123 : IVec S16 32) : Prop :=
  (∀ (k0_h1 : k0_cond1 i k0_t1 = 1#1), ∀ a x, ((![v1123] : Fin 1 → IVec S16 32) a x).toNat < S100000.size a)
instance k0_chk366.dec : ∀ (i : grid0.Coords) (k0_t1 : Fin k0_t1_loop.trips) (v1123 : IVec S16 32), Decidable (k0_chk366 i k0_t1 v1123) := fun i k0_t1 v1123 => decidable_of_iff' _ (Iff.of_eq (k0_chk366.eq_1 i k0_t1 v1123))
theorem k0_idx366_inb : ∀ (i : grid0.Coords) (k0_t1 : Fin k0_t1_loop.trips) (v1123 : IVec S16 32) (k0_hw366 : k0_chk366 i k0_t1 v1123), ∀ (k0_h1 : k0_cond1 i k0_t1 = 1#1), ∀ a x, ((![v1123] : Fin 1 → IVec S16 32) a x).toNat < S100000.size a := fun i k0_t1 v1123 k0_hw366 k0_h1 => k0_hw366 k0_h1

def k0_chk367 (i : grid0.Coords) (k0_t1 : Fin k0_t1_loop.trips) (v1124 : IVec S16 32) : Prop :=
  (∀ (k0_h1 : k0_cond1 i k0_t1 = 1#1), ∀ a x, ((![v1124] : Fin 1 → IVec S16 32) a x).toNat < S100000.size a)
instance k0_chk367.dec : ∀ (i : grid0.Coords) (k0_t1 : Fin k0_t1_loop.trips) (v1124 : IVec S16 32), Decidable (k0_chk367 i k0_t1 v1124) := fun i k0_t1 v1124 => decidable_of_iff' _ (Iff.of_eq (k0_chk367.eq_1 i k0_t1 v1124))
theorem k0_idx367_inb : ∀ (i : grid0.Coords) (k0_t1 : Fin k0_t1_loop.trips) (v1124 : IVec S16 32) (k0_hw367 : k0_chk367 i k0_t1 v1124), ∀ (k0_h1 : k0_cond1 i k0_t1 = 1#1), ∀ a x, ((![v1124] : Fin 1 → IVec S16 32) a x).toNat < S100000.size a := fun i k0_t1 v1124 k0_hw367 k0_h1 => k0_hw367 k0_h1

def k0_chk368 (i : grid0.Coords) (k0_t1 : Fin k0_t1_loop.trips) (v1125 : IVec S16 32) : Prop :=
  (∀ (k0_h1 : k0_cond1 i k0_t1 = 1#1), ∀ a x, ((![v1125] : Fin 1 → IVec S16 32) a x).toNat < S100000.size a)
instance k0_chk368.dec : ∀ (i : grid0.Coords) (k0_t1 : Fin k0_t1_loop.trips) (v1125 : IVec S16 32), Decidable (k0_chk368 i k0_t1 v1125) := fun i k0_t1 v1125 => decidable_of_iff' _ (Iff.of_eq (k0_chk368.eq_1 i k0_t1 v1125))
theorem k0_idx368_inb : ∀ (i : grid0.Coords) (k0_t1 : Fin k0_t1_loop.trips) (v1125 : IVec S16 32) (k0_hw368 : k0_chk368 i k0_t1 v1125), ∀ (k0_h1 : k0_cond1 i k0_t1 = 1#1), ∀ a x, ((![v1125] : Fin 1 → IVec S16 32) a x).toNat < S100000.size a := fun i k0_t1 v1125 k0_hw368 k0_h1 => k0_hw368 k0_h1

def k0_chk369 (i : grid0.Coords) (k0_t1 : Fin k0_t1_loop.trips) (v1142 : IVec S16 32) : Prop :=
  (∀ (k0_h1 : k0_cond1 i k0_t1 = 1#1), ∀ a x, ((![v1142] : Fin 1 → IVec S16 32) a x).toNat < S100000.size a)
instance k0_chk369.dec : ∀ (i : grid0.Coords) (k0_t1 : Fin k0_t1_loop.trips) (v1142 : IVec S16 32), Decidable (k0_chk369 i k0_t1 v1142) := fun i k0_t1 v1142 => decidable_of_iff' _ (Iff.of_eq (k0_chk369.eq_1 i k0_t1 v1142))
theorem k0_idx369_inb : ∀ (i : grid0.Coords) (k0_t1 : Fin k0_t1_loop.trips) (v1142 : IVec S16 32) (k0_hw369 : k0_chk369 i k0_t1 v1142), ∀ (k0_h1 : k0_cond1 i k0_t1 = 1#1), ∀ a x, ((![v1142] : Fin 1 → IVec S16 32) a x).toNat < S100000.size a := fun i k0_t1 v1142 k0_hw369 k0_h1 => k0_hw369 k0_h1

def k0_chk370 (i : grid0.Coords) (k0_t1 : Fin k0_t1_loop.trips) (v1143 : IVec S16 32) : Prop :=
  (∀ (k0_h1 : k0_cond1 i k0_t1 = 1#1), ∀ a x, ((![v1143] : Fin 1 → IVec S16 32) a x).toNat < S100000.size a)
instance k0_chk370.dec : ∀ (i : grid0.Coords) (k0_t1 : Fin k0_t1_loop.trips) (v1143 : IVec S16 32), Decidable (k0_chk370 i k0_t1 v1143) := fun i k0_t1 v1143 => decidable_of_iff' _ (Iff.of_eq (k0_chk370.eq_1 i k0_t1 v1143))
theorem k0_idx370_inb : ∀ (i : grid0.Coords) (k0_t1 : Fin k0_t1_loop.trips) (v1143 : IVec S16 32) (k0_hw370 : k0_chk370 i k0_t1 v1143), ∀ (k0_h1 : k0_cond1 i k0_t1 = 1#1), ∀ a x, ((![v1143] : Fin 1 → IVec S16 32) a x).toNat < S100000.size a := fun i k0_t1 v1143 k0_hw370 k0_h1 => k0_hw370 k0_h1

def k0_chk371 (i : grid0.Coords) (k0_t1 : Fin k0_t1_loop.trips) (v1144 : IVec S16 32) : Prop :=
  (∀ (k0_h1 : k0_cond1 i k0_t1 = 1#1), ∀ a x, ((![v1144] : Fin 1 → IVec S16 32) a x).toNat < S100000.size a)
instance k0_chk371.dec : ∀ (i : grid0.Coords) (k0_t1 : Fin k0_t1_loop.trips) (v1144 : IVec S16 32), Decidable (k0_chk371 i k0_t1 v1144) := fun i k0_t1 v1144 => decidable_of_iff' _ (Iff.of_eq (k0_chk371.eq_1 i k0_t1 v1144))
theorem k0_idx371_inb : ∀ (i : grid0.Coords) (k0_t1 : Fin k0_t1_loop.trips) (v1144 : IVec S16 32) (k0_hw371 : k0_chk371 i k0_t1 v1144), ∀ (k0_h1 : k0_cond1 i k0_t1 = 1#1), ∀ a x, ((![v1144] : Fin 1 → IVec S16 32) a x).toNat < S100000.size a := fun i k0_t1 v1144 k0_hw371 k0_h1 => k0_hw371 k0_h1

def k0_chk372 (i : grid0.Coords) (k0_t1 : Fin k0_t1_loop.trips) (v1145 : IVec S16 32) : Prop :=
  (∀ (k0_h1 : k0_cond1 i k0_t1 = 1#1), ∀ a x, ((![v1145] : Fin 1 → IVec S16 32) a x).toNat < S100000.size a)
instance k0_chk372.dec : ∀ (i : grid0.Coords) (k0_t1 : Fin k0_t1_loop.trips) (v1145 : IVec S16 32), Decidable (k0_chk372 i k0_t1 v1145) := fun i k0_t1 v1145 => decidable_of_iff' _ (Iff.of_eq (k0_chk372.eq_1 i k0_t1 v1145))
theorem k0_idx372_inb : ∀ (i : grid0.Coords) (k0_t1 : Fin k0_t1_loop.trips) (v1145 : IVec S16 32) (k0_hw372 : k0_chk372 i k0_t1 v1145), ∀ (k0_h1 : k0_cond1 i k0_t1 = 1#1), ∀ a x, ((![v1145] : Fin 1 → IVec S16 32) a x).toNat < S100000.size a := fun i k0_t1 v1145 k0_hw372 k0_h1 => k0_hw372 k0_h1

def k0_chk373 (i : grid0.Coords) (k0_t1 : Fin k0_t1_loop.trips) (v1146 : IVec S16 32) : Prop :=
  (∀ (k0_h1 : k0_cond1 i k0_t1 = 1#1), ∀ a x, ((![v1146] : Fin 1 → IVec S16 32) a x).toNat < S100000.size a)
instance k0_chk373.dec : ∀ (i : grid0.Coords) (k0_t1 : Fin k0_t1_loop.trips) (v1146 : IVec S16 32), Decidable (k0_chk373 i k0_t1 v1146) := fun i k0_t1 v1146 => decidable_of_iff' _ (Iff.of_eq (k0_chk373.eq_1 i k0_t1 v1146))
theorem k0_idx373_inb : ∀ (i : grid0.Coords) (k0_t1 : Fin k0_t1_loop.trips) (v1146 : IVec S16 32) (k0_hw373 : k0_chk373 i k0_t1 v1146), ∀ (k0_h1 : k0_cond1 i k0_t1 = 1#1), ∀ a x, ((![v1146] : Fin 1 → IVec S16 32) a x).toNat < S100000.size a := fun i k0_t1 v1146 k0_hw373 k0_h1 => k0_hw373 k0_h1

def k0_chk374 (i : grid0.Coords) (k0_t1 : Fin k0_t1_loop.trips) (v1147 : IVec S16 32) : Prop :=
  (∀ (k0_h1 : k0_cond1 i k0_t1 = 1#1), ∀ a x, ((![v1147] : Fin 1 → IVec S16 32) a x).toNat < S100000.size a)
instance k0_chk374.dec : ∀ (i : grid0.Coords) (k0_t1 : Fin k0_t1_loop.trips) (v1147 : IVec S16 32), Decidable (k0_chk374 i k0_t1 v1147) := fun i k0_t1 v1147 => decidable_of_iff' _ (Iff.of_eq (k0_chk374.eq_1 i k0_t1 v1147))
theorem k0_idx374_inb : ∀ (i : grid0.Coords) (k0_t1 : Fin k0_t1_loop.trips) (v1147 : IVec S16 32) (k0_hw374 : k0_chk374 i k0_t1 v1147), ∀ (k0_h1 : k0_cond1 i k0_t1 = 1#1), ∀ a x, ((![v1147] : Fin 1 → IVec S16 32) a x).toNat < S100000.size a := fun i k0_t1 v1147 k0_hw374 k0_h1 => k0_hw374 k0_h1

def k0_chk375 (i : grid0.Coords) (k0_t1 : Fin k0_t1_loop.trips) (v1148 : IVec S16 32) : Prop :=
  (∀ (k0_h1 : k0_cond1 i k0_t1 = 1#1), ∀ a x, ((![v1148] : Fin 1 → IVec S16 32) a x).toNat < S100000.size a)
instance k0_chk375.dec : ∀ (i : grid0.Coords) (k0_t1 : Fin k0_t1_loop.trips) (v1148 : IVec S16 32), Decidable (k0_chk375 i k0_t1 v1148) := fun i k0_t1 v1148 => decidable_of_iff' _ (Iff.of_eq (k0_chk375.eq_1 i k0_t1 v1148))
theorem k0_idx375_inb : ∀ (i : grid0.Coords) (k0_t1 : Fin k0_t1_loop.trips) (v1148 : IVec S16 32) (k0_hw375 : k0_chk375 i k0_t1 v1148), ∀ (k0_h1 : k0_cond1 i k0_t1 = 1#1), ∀ a x, ((![v1148] : Fin 1 → IVec S16 32) a x).toNat < S100000.size a := fun i k0_t1 v1148 k0_hw375 k0_h1 => k0_hw375 k0_h1

def k0_chk376 (i : grid0.Coords) (k0_t1 : Fin k0_t1_loop.trips) (v1149 : IVec S16 32) : Prop :=
  (∀ (k0_h1 : k0_cond1 i k0_t1 = 1#1), ∀ a x, ((![v1149] : Fin 1 → IVec S16 32) a x).toNat < S100000.size a)
instance k0_chk376.dec : ∀ (i : grid0.Coords) (k0_t1 : Fin k0_t1_loop.trips) (v1149 : IVec S16 32), Decidable (k0_chk376 i k0_t1 v1149) := fun i k0_t1 v1149 => decidable_of_iff' _ (Iff.of_eq (k0_chk376.eq_1 i k0_t1 v1149))
theorem k0_idx376_inb : ∀ (i : grid0.Coords) (k0_t1 : Fin k0_t1_loop.trips) (v1149 : IVec S16 32) (k0_hw376 : k0_chk376 i k0_t1 v1149), ∀ (k0_h1 : k0_cond1 i k0_t1 = 1#1), ∀ a x, ((![v1149] : Fin 1 → IVec S16 32) a x).toNat < S100000.size a := fun i k0_t1 v1149 k0_hw376 k0_h1 => k0_hw376 k0_h1

def k0_chk377 (i : grid0.Coords) (k0_t1 : Fin k0_t1_loop.trips) (v1166 : IVec S16 32) : Prop :=
  (∀ (k0_h1 : k0_cond1 i k0_t1 = 1#1), ∀ a x, ((![v1166] : Fin 1 → IVec S16 32) a x).toNat < S100000.size a)
instance k0_chk377.dec : ∀ (i : grid0.Coords) (k0_t1 : Fin k0_t1_loop.trips) (v1166 : IVec S16 32), Decidable (k0_chk377 i k0_t1 v1166) := fun i k0_t1 v1166 => decidable_of_iff' _ (Iff.of_eq (k0_chk377.eq_1 i k0_t1 v1166))
theorem k0_idx377_inb : ∀ (i : grid0.Coords) (k0_t1 : Fin k0_t1_loop.trips) (v1166 : IVec S16 32) (k0_hw377 : k0_chk377 i k0_t1 v1166), ∀ (k0_h1 : k0_cond1 i k0_t1 = 1#1), ∀ a x, ((![v1166] : Fin 1 → IVec S16 32) a x).toNat < S100000.size a := fun i k0_t1 v1166 k0_hw377 k0_h1 => k0_hw377 k0_h1

def k0_chk378 (i : grid0.Coords) (k0_t1 : Fin k0_t1_loop.trips) (v1167 : IVec S16 32) : Prop :=
  (∀ (k0_h1 : k0_cond1 i k0_t1 = 1#1), ∀ a x, ((![v1167] : Fin 1 → IVec S16 32) a x).toNat < S100000.size a)
instance k0_chk378.dec : ∀ (i : grid0.Coords) (k0_t1 : Fin k0_t1_loop.trips) (v1167 : IVec S16 32), Decidable (k0_chk378 i k0_t1 v1167) := fun i k0_t1 v1167 => decidable_of_iff' _ (Iff.of_eq (k0_chk378.eq_1 i k0_t1 v1167))
theorem k0_idx378_inb : ∀ (i : grid0.Coords) (k0_t1 : Fin k0_t1_loop.trips) (v1167 : IVec S16 32) (k0_hw378 : k0_chk378 i k0_t1 v1167), ∀ (k0_h1 : k0_cond1 i k0_t1 = 1#1), ∀ a x, ((![v1167] : Fin 1 → IVec S16 32) a x).toNat < S100000.size a := fun i k0_t1 v1167 k0_hw378 k0_h1 => k0_hw378 k0_h1

def k0_chk379 (i : grid0.Coords) (k0_t1 : Fin k0_t1_loop.trips) (v1168 : IVec S16 32) : Prop :=
  (∀ (k0_h1 : k0_cond1 i k0_t1 = 1#1), ∀ a x, ((![v1168] : Fin 1 → IVec S16 32) a x).toNat < S100000.size a)
instance k0_chk379.dec : ∀ (i : grid0.Coords) (k0_t1 : Fin k0_t1_loop.trips) (v1168 : IVec S16 32), Decidable (k0_chk379 i k0_t1 v1168) := fun i k0_t1 v1168 => decidable_of_iff' _ (Iff.of_eq (k0_chk379.eq_1 i k0_t1 v1168))
theorem k0_idx379_inb : ∀ (i : grid0.Coords) (k0_t1 : Fin k0_t1_loop.trips) (v1168 : IVec S16 32) (k0_hw379 : k0_chk379 i k0_t1 v1168), ∀ (k0_h1 : k0_cond1 i k0_t1 = 1#1), ∀ a x, ((![v1168] : Fin 1 → IVec S16 32) a x).toNat < S100000.size a := fun i k0_t1 v1168 k0_hw379 k0_h1 => k0_hw379 k0_h1

def k0_chk380 (i : grid0.Coords) (k0_t1 : Fin k0_t1_loop.trips) (v1169 : IVec S16 32) : Prop :=
  (∀ (k0_h1 : k0_cond1 i k0_t1 = 1#1), ∀ a x, ((![v1169] : Fin 1 → IVec S16 32) a x).toNat < S100000.size a)
instance k0_chk380.dec : ∀ (i : grid0.Coords) (k0_t1 : Fin k0_t1_loop.trips) (v1169 : IVec S16 32), Decidable (k0_chk380 i k0_t1 v1169) := fun i k0_t1 v1169 => decidable_of_iff' _ (Iff.of_eq (k0_chk380.eq_1 i k0_t1 v1169))
theorem k0_idx380_inb : ∀ (i : grid0.Coords) (k0_t1 : Fin k0_t1_loop.trips) (v1169 : IVec S16 32) (k0_hw380 : k0_chk380 i k0_t1 v1169), ∀ (k0_h1 : k0_cond1 i k0_t1 = 1#1), ∀ a x, ((![v1169] : Fin 1 → IVec S16 32) a x).toNat < S100000.size a := fun i k0_t1 v1169 k0_hw380 k0_h1 => k0_hw380 k0_h1

def k0_chk381 (i : grid0.Coords) (k0_t1 : Fin k0_t1_loop.trips) (v1170 : IVec S16 32) : Prop :=
  (∀ (k0_h1 : k0_cond1 i k0_t1 = 1#1), ∀ a x, ((![v1170] : Fin 1 → IVec S16 32) a x).toNat < S100000.size a)
instance k0_chk381.dec : ∀ (i : grid0.Coords) (k0_t1 : Fin k0_t1_loop.trips) (v1170 : IVec S16 32), Decidable (k0_chk381 i k0_t1 v1170) := fun i k0_t1 v1170 => decidable_of_iff' _ (Iff.of_eq (k0_chk381.eq_1 i k0_t1 v1170))
theorem k0_idx381_inb : ∀ (i : grid0.Coords) (k0_t1 : Fin k0_t1_loop.trips) (v1170 : IVec S16 32) (k0_hw381 : k0_chk381 i k0_t1 v1170), ∀ (k0_h1 : k0_cond1 i k0_t1 = 1#1), ∀ a x, ((![v1170] : Fin 1 → IVec S16 32) a x).toNat < S100000.size a := fun i k0_t1 v1170 k0_hw381 k0_h1 => k0_hw381 k0_h1

def k0_chk382 (i : grid0.Coords) (k0_t1 : Fin k0_t1_loop.trips) (v1171 : IVec S16 32) : Prop :=
  (∀ (k0_h1 : k0_cond1 i k0_t1 = 1#1), ∀ a x, ((![v1171] : Fin 1 → IVec S16 32) a x).toNat < S100000.size a)
instance k0_chk382.dec : ∀ (i : grid0.Coords) (k0_t1 : Fin k0_t1_loop.trips) (v1171 : IVec S16 32), Decidable (k0_chk382 i k0_t1 v1171) := fun i k0_t1 v1171 => decidable_of_iff' _ (Iff.of_eq (k0_chk382.eq_1 i k0_t1 v1171))
theorem k0_idx382_inb : ∀ (i : grid0.Coords) (k0_t1 : Fin k0_t1_loop.trips) (v1171 : IVec S16 32) (k0_hw382 : k0_chk382 i k0_t1 v1171), ∀ (k0_h1 : k0_cond1 i k0_t1 = 1#1), ∀ a x, ((![v1171] : Fin 1 → IVec S16 32) a x).toNat < S100000.size a := fun i k0_t1 v1171 k0_hw382 k0_h1 => k0_hw382 k0_h1

def k0_chk383 (i : grid0.Coords) (k0_t1 : Fin k0_t1_loop.trips) (v1172 : IVec S16 32) : Prop :=
  (∀ (k0_h1 : k0_cond1 i k0_t1 = 1#1), ∀ a x, ((![v1172] : Fin 1 → IVec S16 32) a x).toNat < S100000.size a)
instance k0_chk383.dec : ∀ (i : grid0.Coords) (k0_t1 : Fin k0_t1_loop.trips) (v1172 : IVec S16 32), Decidable (k0_chk383 i k0_t1 v1172) := fun i k0_t1 v1172 => decidable_of_iff' _ (Iff.of_eq (k0_chk383.eq_1 i k0_t1 v1172))
theorem k0_idx383_inb : ∀ (i : grid0.Coords) (k0_t1 : Fin k0_t1_loop.trips) (v1172 : IVec S16 32) (k0_hw383 : k0_chk383 i k0_t1 v1172), ∀ (k0_h1 : k0_cond1 i k0_t1 = 1#1), ∀ a x, ((![v1172] : Fin 1 → IVec S16 32) a x).toNat < S100000.size a := fun i k0_t1 v1172 k0_hw383 k0_h1 => k0_hw383 k0_h1

def k0_chk384 (i : grid0.Coords) (k0_t1 : Fin k0_t1_loop.trips) (v1173 : IVec S16 32) : Prop :=
  (∀ (k0_h1 : k0_cond1 i k0_t1 = 1#1), ∀ a x, ((![v1173] : Fin 1 → IVec S16 32) a x).toNat < S100000.size a)
instance k0_chk384.dec : ∀ (i : grid0.Coords) (k0_t1 : Fin k0_t1_loop.trips) (v1173 : IVec S16 32), Decidable (k0_chk384 i k0_t1 v1173) := fun i k0_t1 v1173 => decidable_of_iff' _ (Iff.of_eq (k0_chk384.eq_1 i k0_t1 v1173))
theorem k0_idx384_inb : ∀ (i : grid0.Coords) (k0_t1 : Fin k0_t1_loop.trips) (v1173 : IVec S16 32) (k0_hw384 : k0_chk384 i k0_t1 v1173), ∀ (k0_h1 : k0_cond1 i k0_t1 = 1#1), ∀ a x, ((![v1173] : Fin 1 → IVec S16 32) a x).toNat < S100000.size a := fun i k0_t1 v1173 k0_hw384 k0_h1 => k0_hw384 k0_h1

def k0_chk385 (i : grid0.Coords) (k0_t1 : Fin k0_t1_loop.trips) (v1190 : IVec S16 32) : Prop :=
  (∀ (k0_h1 : k0_cond1 i k0_t1 = 1#1), ∀ a x, ((![v1190] : Fin 1 → IVec S16 32) a x).toNat < S100000.size a)
instance k0_chk385.dec : ∀ (i : grid0.Coords) (k0_t1 : Fin k0_t1_loop.trips) (v1190 : IVec S16 32), Decidable (k0_chk385 i k0_t1 v1190) := fun i k0_t1 v1190 => decidable_of_iff' _ (Iff.of_eq (k0_chk385.eq_1 i k0_t1 v1190))
theorem k0_idx385_inb : ∀ (i : grid0.Coords) (k0_t1 : Fin k0_t1_loop.trips) (v1190 : IVec S16 32) (k0_hw385 : k0_chk385 i k0_t1 v1190), ∀ (k0_h1 : k0_cond1 i k0_t1 = 1#1), ∀ a x, ((![v1190] : Fin 1 → IVec S16 32) a x).toNat < S100000.size a := fun i k0_t1 v1190 k0_hw385 k0_h1 => k0_hw385 k0_h1

def k0_chk386 (i : grid0.Coords) (k0_t1 : Fin k0_t1_loop.trips) (v1191 : IVec S16 32) : Prop :=
  (∀ (k0_h1 : k0_cond1 i k0_t1 = 1#1), ∀ a x, ((![v1191] : Fin 1 → IVec S16 32) a x).toNat < S100000.size a)
instance k0_chk386.dec : ∀ (i : grid0.Coords) (k0_t1 : Fin k0_t1_loop.trips) (v1191 : IVec S16 32), Decidable (k0_chk386 i k0_t1 v1191) := fun i k0_t1 v1191 => decidable_of_iff' _ (Iff.of_eq (k0_chk386.eq_1 i k0_t1 v1191))
theorem k0_idx386_inb : ∀ (i : grid0.Coords) (k0_t1 : Fin k0_t1_loop.trips) (v1191 : IVec S16 32) (k0_hw386 : k0_chk386 i k0_t1 v1191), ∀ (k0_h1 : k0_cond1 i k0_t1 = 1#1), ∀ a x, ((![v1191] : Fin 1 → IVec S16 32) a x).toNat < S100000.size a := fun i k0_t1 v1191 k0_hw386 k0_h1 => k0_hw386 k0_h1

def k0_chk387 (i : grid0.Coords) (k0_t1 : Fin k0_t1_loop.trips) (v1192 : IVec S16 32) : Prop :=
  (∀ (k0_h1 : k0_cond1 i k0_t1 = 1#1), ∀ a x, ((![v1192] : Fin 1 → IVec S16 32) a x).toNat < S100000.size a)
instance k0_chk387.dec : ∀ (i : grid0.Coords) (k0_t1 : Fin k0_t1_loop.trips) (v1192 : IVec S16 32), Decidable (k0_chk387 i k0_t1 v1192) := fun i k0_t1 v1192 => decidable_of_iff' _ (Iff.of_eq (k0_chk387.eq_1 i k0_t1 v1192))
theorem k0_idx387_inb : ∀ (i : grid0.Coords) (k0_t1 : Fin k0_t1_loop.trips) (v1192 : IVec S16 32) (k0_hw387 : k0_chk387 i k0_t1 v1192), ∀ (k0_h1 : k0_cond1 i k0_t1 = 1#1), ∀ a x, ((![v1192] : Fin 1 → IVec S16 32) a x).toNat < S100000.size a := fun i k0_t1 v1192 k0_hw387 k0_h1 => k0_hw387 k0_h1

def k0_chk388 (i : grid0.Coords) (k0_t1 : Fin k0_t1_loop.trips) (v1193 : IVec S16 32) : Prop :=
  (∀ (k0_h1 : k0_cond1 i k0_t1 = 1#1), ∀ a x, ((![v1193] : Fin 1 → IVec S16 32) a x).toNat < S100000.size a)
instance k0_chk388.dec : ∀ (i : grid0.Coords) (k0_t1 : Fin k0_t1_loop.trips) (v1193 : IVec S16 32), Decidable (k0_chk388 i k0_t1 v1193) := fun i k0_t1 v1193 => decidable_of_iff' _ (Iff.of_eq (k0_chk388.eq_1 i k0_t1 v1193))
theorem k0_idx388_inb : ∀ (i : grid0.Coords) (k0_t1 : Fin k0_t1_loop.trips) (v1193 : IVec S16 32) (k0_hw388 : k0_chk388 i k0_t1 v1193), ∀ (k0_h1 : k0_cond1 i k0_t1 = 1#1), ∀ a x, ((![v1193] : Fin 1 → IVec S16 32) a x).toNat < S100000.size a := fun i k0_t1 v1193 k0_hw388 k0_h1 => k0_hw388 k0_h1

def k0_chk389 (i : grid0.Coords) (k0_t1 : Fin k0_t1_loop.trips) (v1194 : IVec S16 32) : Prop :=
  (∀ (k0_h1 : k0_cond1 i k0_t1 = 1#1), ∀ a x, ((![v1194] : Fin 1 → IVec S16 32) a x).toNat < S100000.size a)
instance k0_chk389.dec : ∀ (i : grid0.Coords) (k0_t1 : Fin k0_t1_loop.trips) (v1194 : IVec S16 32), Decidable (k0_chk389 i k0_t1 v1194) := fun i k0_t1 v1194 => decidable_of_iff' _ (Iff.of_eq (k0_chk389.eq_1 i k0_t1 v1194))
theorem k0_idx389_inb : ∀ (i : grid0.Coords) (k0_t1 : Fin k0_t1_loop.trips) (v1194 : IVec S16 32) (k0_hw389 : k0_chk389 i k0_t1 v1194), ∀ (k0_h1 : k0_cond1 i k0_t1 = 1#1), ∀ a x, ((![v1194] : Fin 1 → IVec S16 32) a x).toNat < S100000.size a := fun i k0_t1 v1194 k0_hw389 k0_h1 => k0_hw389 k0_h1

def k0_chk390 (i : grid0.Coords) (k0_t1 : Fin k0_t1_loop.trips) (v1195 : IVec S16 32) : Prop :=
  (∀ (k0_h1 : k0_cond1 i k0_t1 = 1#1), ∀ a x, ((![v1195] : Fin 1 → IVec S16 32) a x).toNat < S100000.size a)
instance k0_chk390.dec : ∀ (i : grid0.Coords) (k0_t1 : Fin k0_t1_loop.trips) (v1195 : IVec S16 32), Decidable (k0_chk390 i k0_t1 v1195) := fun i k0_t1 v1195 => decidable_of_iff' _ (Iff.of_eq (k0_chk390.eq_1 i k0_t1 v1195))
theorem k0_idx390_inb : ∀ (i : grid0.Coords) (k0_t1 : Fin k0_t1_loop.trips) (v1195 : IVec S16 32) (k0_hw390 : k0_chk390 i k0_t1 v1195), ∀ (k0_h1 : k0_cond1 i k0_t1 = 1#1), ∀ a x, ((![v1195] : Fin 1 → IVec S16 32) a x).toNat < S100000.size a := fun i k0_t1 v1195 k0_hw390 k0_h1 => k0_hw390 k0_h1

def k0_chk391 (i : grid0.Coords) (k0_t1 : Fin k0_t1_loop.trips) (v1196 : IVec S16 32) : Prop :=
  (∀ (k0_h1 : k0_cond1 i k0_t1 = 1#1), ∀ a x, ((![v1196] : Fin 1 → IVec S16 32) a x).toNat < S100000.size a)
instance k0_chk391.dec : ∀ (i : grid0.Coords) (k0_t1 : Fin k0_t1_loop.trips) (v1196 : IVec S16 32), Decidable (k0_chk391 i k0_t1 v1196) := fun i k0_t1 v1196 => decidable_of_iff' _ (Iff.of_eq (k0_chk391.eq_1 i k0_t1 v1196))
theorem k0_idx391_inb : ∀ (i : grid0.Coords) (k0_t1 : Fin k0_t1_loop.trips) (v1196 : IVec S16 32) (k0_hw391 : k0_chk391 i k0_t1 v1196), ∀ (k0_h1 : k0_cond1 i k0_t1 = 1#1), ∀ a x, ((![v1196] : Fin 1 → IVec S16 32) a x).toNat < S100000.size a := fun i k0_t1 v1196 k0_hw391 k0_h1 => k0_hw391 k0_h1

def k0_chk392 (i : grid0.Coords) (k0_t1 : Fin k0_t1_loop.trips) (v1197 : IVec S16 32) : Prop :=
  (∀ (k0_h1 : k0_cond1 i k0_t1 = 1#1), ∀ a x, ((![v1197] : Fin 1 → IVec S16 32) a x).toNat < S100000.size a)
instance k0_chk392.dec : ∀ (i : grid0.Coords) (k0_t1 : Fin k0_t1_loop.trips) (v1197 : IVec S16 32), Decidable (k0_chk392 i k0_t1 v1197) := fun i k0_t1 v1197 => decidable_of_iff' _ (Iff.of_eq (k0_chk392.eq_1 i k0_t1 v1197))
theorem k0_idx392_inb : ∀ (i : grid0.Coords) (k0_t1 : Fin k0_t1_loop.trips) (v1197 : IVec S16 32) (k0_hw392 : k0_chk392 i k0_t1 v1197), ∀ (k0_h1 : k0_cond1 i k0_t1 = 1#1), ∀ a x, ((![v1197] : Fin 1 → IVec S16 32) a x).toNat < S100000.size a := fun i k0_t1 v1197 k0_hw392 k0_h1 => k0_hw392 k0_h1

def k0_chk393 (i : grid0.Coords) (k0_t1 : Fin k0_t1_loop.trips) (v1214 : IVec S16 32) : Prop :=
  (∀ (k0_h1 : k0_cond1 i k0_t1 = 1#1), ∀ a x, ((![v1214] : Fin 1 → IVec S16 32) a x).toNat < S100000.size a)
instance k0_chk393.dec : ∀ (i : grid0.Coords) (k0_t1 : Fin k0_t1_loop.trips) (v1214 : IVec S16 32), Decidable (k0_chk393 i k0_t1 v1214) := fun i k0_t1 v1214 => decidable_of_iff' _ (Iff.of_eq (k0_chk393.eq_1 i k0_t1 v1214))
theorem k0_idx393_inb : ∀ (i : grid0.Coords) (k0_t1 : Fin k0_t1_loop.trips) (v1214 : IVec S16 32) (k0_hw393 : k0_chk393 i k0_t1 v1214), ∀ (k0_h1 : k0_cond1 i k0_t1 = 1#1), ∀ a x, ((![v1214] : Fin 1 → IVec S16 32) a x).toNat < S100000.size a := fun i k0_t1 v1214 k0_hw393 k0_h1 => k0_hw393 k0_h1

def k0_chk394 (i : grid0.Coords) (k0_t1 : Fin k0_t1_loop.trips) (v1215 : IVec S16 32) : Prop :=
  (∀ (k0_h1 : k0_cond1 i k0_t1 = 1#1), ∀ a x, ((![v1215] : Fin 1 → IVec S16 32) a x).toNat < S100000.size a)
instance k0_chk394.dec : ∀ (i : grid0.Coords) (k0_t1 : Fin k0_t1_loop.trips) (v1215 : IVec S16 32), Decidable (k0_chk394 i k0_t1 v1215) := fun i k0_t1 v1215 => decidable_of_iff' _ (Iff.of_eq (k0_chk394.eq_1 i k0_t1 v1215))
theorem k0_idx394_inb : ∀ (i : grid0.Coords) (k0_t1 : Fin k0_t1_loop.trips) (v1215 : IVec S16 32) (k0_hw394 : k0_chk394 i k0_t1 v1215), ∀ (k0_h1 : k0_cond1 i k0_t1 = 1#1), ∀ a x, ((![v1215] : Fin 1 → IVec S16 32) a x).toNat < S100000.size a := fun i k0_t1 v1215 k0_hw394 k0_h1 => k0_hw394 k0_h1

def k0_chk395 (i : grid0.Coords) (k0_t1 : Fin k0_t1_loop.trips) (v1216 : IVec S16 32) : Prop :=
  (∀ (k0_h1 : k0_cond1 i k0_t1 = 1#1), ∀ a x, ((![v1216] : Fin 1 → IVec S16 32) a x).toNat < S100000.size a)
instance k0_chk395.dec : ∀ (i : grid0.Coords) (k0_t1 : Fin k0_t1_loop.trips) (v1216 : IVec S16 32), Decidable (k0_chk395 i k0_t1 v1216) := fun i k0_t1 v1216 => decidable_of_iff' _ (Iff.of_eq (k0_chk395.eq_1 i k0_t1 v1216))
theorem k0_idx395_inb : ∀ (i : grid0.Coords) (k0_t1 : Fin k0_t1_loop.trips) (v1216 : IVec S16 32) (k0_hw395 : k0_chk395 i k0_t1 v1216), ∀ (k0_h1 : k0_cond1 i k0_t1 = 1#1), ∀ a x, ((![v1216] : Fin 1 → IVec S16 32) a x).toNat < S100000.size a := fun i k0_t1 v1216 k0_hw395 k0_h1 => k0_hw395 k0_h1

def k0_chk396 (i : grid0.Coords) (k0_t1 : Fin k0_t1_loop.trips) (v1217 : IVec S16 32) : Prop :=
  (∀ (k0_h1 : k0_cond1 i k0_t1 = 1#1), ∀ a x, ((![v1217] : Fin 1 → IVec S16 32) a x).toNat < S100000.size a)
instance k0_chk396.dec : ∀ (i : grid0.Coords) (k0_t1 : Fin k0_t1_loop.trips) (v1217 : IVec S16 32), Decidable (k0_chk396 i k0_t1 v1217) := fun i k0_t1 v1217 => decidable_of_iff' _ (Iff.of_eq (k0_chk396.eq_1 i k0_t1 v1217))
theorem k0_idx396_inb : ∀ (i : grid0.Coords) (k0_t1 : Fin k0_t1_loop.trips) (v1217 : IVec S16 32) (k0_hw396 : k0_chk396 i k0_t1 v1217), ∀ (k0_h1 : k0_cond1 i k0_t1 = 1#1), ∀ a x, ((![v1217] : Fin 1 → IVec S16 32) a x).toNat < S100000.size a := fun i k0_t1 v1217 k0_hw396 k0_h1 => k0_hw396 k0_h1

def k0_chk397 (i : grid0.Coords) (k0_t1 : Fin k0_t1_loop.trips) (v1218 : IVec S16 32) : Prop :=
  (∀ (k0_h1 : k0_cond1 i k0_t1 = 1#1), ∀ a x, ((![v1218] : Fin 1 → IVec S16 32) a x).toNat < S100000.size a)
instance k0_chk397.dec : ∀ (i : grid0.Coords) (k0_t1 : Fin k0_t1_loop.trips) (v1218 : IVec S16 32), Decidable (k0_chk397 i k0_t1 v1218) := fun i k0_t1 v1218 => decidable_of_iff' _ (Iff.of_eq (k0_chk397.eq_1 i k0_t1 v1218))
theorem k0_idx397_inb : ∀ (i : grid0.Coords) (k0_t1 : Fin k0_t1_loop.trips) (v1218 : IVec S16 32) (k0_hw397 : k0_chk397 i k0_t1 v1218), ∀ (k0_h1 : k0_cond1 i k0_t1 = 1#1), ∀ a x, ((![v1218] : Fin 1 → IVec S16 32) a x).toNat < S100000.size a := fun i k0_t1 v1218 k0_hw397 k0_h1 => k0_hw397 k0_h1

def k0_chk398 (i : grid0.Coords) (k0_t1 : Fin k0_t1_loop.trips) (v1219 : IVec S16 32) : Prop :=
  (∀ (k0_h1 : k0_cond1 i k0_t1 = 1#1), ∀ a x, ((![v1219] : Fin 1 → IVec S16 32) a x).toNat < S100000.size a)
instance k0_chk398.dec : ∀ (i : grid0.Coords) (k0_t1 : Fin k0_t1_loop.trips) (v1219 : IVec S16 32), Decidable (k0_chk398 i k0_t1 v1219) := fun i k0_t1 v1219 => decidable_of_iff' _ (Iff.of_eq (k0_chk398.eq_1 i k0_t1 v1219))
theorem k0_idx398_inb : ∀ (i : grid0.Coords) (k0_t1 : Fin k0_t1_loop.trips) (v1219 : IVec S16 32) (k0_hw398 : k0_chk398 i k0_t1 v1219), ∀ (k0_h1 : k0_cond1 i k0_t1 = 1#1), ∀ a x, ((![v1219] : Fin 1 → IVec S16 32) a x).toNat < S100000.size a := fun i k0_t1 v1219 k0_hw398 k0_h1 => k0_hw398 k0_h1

def k0_chk399 (i : grid0.Coords) (k0_t1 : Fin k0_t1_loop.trips) (v1220 : IVec S16 32) : Prop :=
  (∀ (k0_h1 : k0_cond1 i k0_t1 = 1#1), ∀ a x, ((![v1220] : Fin 1 → IVec S16 32) a x).toNat < S100000.size a)
instance k0_chk399.dec : ∀ (i : grid0.Coords) (k0_t1 : Fin k0_t1_loop.trips) (v1220 : IVec S16 32), Decidable (k0_chk399 i k0_t1 v1220) := fun i k0_t1 v1220 => decidable_of_iff' _ (Iff.of_eq (k0_chk399.eq_1 i k0_t1 v1220))
theorem k0_idx399_inb : ∀ (i : grid0.Coords) (k0_t1 : Fin k0_t1_loop.trips) (v1220 : IVec S16 32) (k0_hw399 : k0_chk399 i k0_t1 v1220), ∀ (k0_h1 : k0_cond1 i k0_t1 = 1#1), ∀ a x, ((![v1220] : Fin 1 → IVec S16 32) a x).toNat < S100000.size a := fun i k0_t1 v1220 k0_hw399 k0_h1 => k0_hw399 k0_h1

def k0_chk400 (i : grid0.Coords) (k0_t1 : Fin k0_t1_loop.trips) (v1221 : IVec S16 32) : Prop :=
  (∀ (k0_h1 : k0_cond1 i k0_t1 = 1#1), ∀ a x, ((![v1221] : Fin 1 → IVec S16 32) a x).toNat < S100000.size a)
instance k0_chk400.dec : ∀ (i : grid0.Coords) (k0_t1 : Fin k0_t1_loop.trips) (v1221 : IVec S16 32), Decidable (k0_chk400 i k0_t1 v1221) := fun i k0_t1 v1221 => decidable_of_iff' _ (Iff.of_eq (k0_chk400.eq_1 i k0_t1 v1221))
theorem k0_idx400_inb : ∀ (i : grid0.Coords) (k0_t1 : Fin k0_t1_loop.trips) (v1221 : IVec S16 32) (k0_hw400 : k0_chk400 i k0_t1 v1221), ∀ (k0_h1 : k0_cond1 i k0_t1 = 1#1), ∀ a x, ((![v1221] : Fin 1 → IVec S16 32) a x).toNat < S100000.size a := fun i k0_t1 v1221 k0_hw400 k0_h1 => k0_hw400 k0_h1

def k0_chk401 (i : grid0.Coords) (k0_t1 : Fin k0_t1_loop.trips) (v1238 : IVec S16 32) : Prop :=
  (∀ (k0_h1 : k0_cond1 i k0_t1 = 1#1), ∀ a x, ((![v1238] : Fin 1 → IVec S16 32) a x).toNat < S100000.size a)
instance k0_chk401.dec : ∀ (i : grid0.Coords) (k0_t1 : Fin k0_t1_loop.trips) (v1238 : IVec S16 32), Decidable (k0_chk401 i k0_t1 v1238) := fun i k0_t1 v1238 => decidable_of_iff' _ (Iff.of_eq (k0_chk401.eq_1 i k0_t1 v1238))
theorem k0_idx401_inb : ∀ (i : grid0.Coords) (k0_t1 : Fin k0_t1_loop.trips) (v1238 : IVec S16 32) (k0_hw401 : k0_chk401 i k0_t1 v1238), ∀ (k0_h1 : k0_cond1 i k0_t1 = 1#1), ∀ a x, ((![v1238] : Fin 1 → IVec S16 32) a x).toNat < S100000.size a := fun i k0_t1 v1238 k0_hw401 k0_h1 => k0_hw401 k0_h1

def k0_chk402 (i : grid0.Coords) (k0_t1 : Fin k0_t1_loop.trips) (v1239 : IVec S16 32) : Prop :=
  (∀ (k0_h1 : k0_cond1 i k0_t1 = 1#1), ∀ a x, ((![v1239] : Fin 1 → IVec S16 32) a x).toNat < S100000.size a)
instance k0_chk402.dec : ∀ (i : grid0.Coords) (k0_t1 : Fin k0_t1_loop.trips) (v1239 : IVec S16 32), Decidable (k0_chk402 i k0_t1 v1239) := fun i k0_t1 v1239 => decidable_of_iff' _ (Iff.of_eq (k0_chk402.eq_1 i k0_t1 v1239))
theorem k0_idx402_inb : ∀ (i : grid0.Coords) (k0_t1 : Fin k0_t1_loop.trips) (v1239 : IVec S16 32) (k0_hw402 : k0_chk402 i k0_t1 v1239), ∀ (k0_h1 : k0_cond1 i k0_t1 = 1#1), ∀ a x, ((![v1239] : Fin 1 → IVec S16 32) a x).toNat < S100000.size a := fun i k0_t1 v1239 k0_hw402 k0_h1 => k0_hw402 k0_h1

def k0_chk403 (i : grid0.Coords) (k0_t1 : Fin k0_t1_loop.trips) (v1240 : IVec S16 32) : Prop :=
  (∀ (k0_h1 : k0_cond1 i k0_t1 = 1#1), ∀ a x, ((![v1240] : Fin 1 → IVec S16 32) a x).toNat < S100000.size a)
instance k0_chk403.dec : ∀ (i : grid0.Coords) (k0_t1 : Fin k0_t1_loop.trips) (v1240 : IVec S16 32), Decidable (k0_chk403 i k0_t1 v1240) := fun i k0_t1 v1240 => decidable_of_iff' _ (Iff.of_eq (k0_chk403.eq_1 i k0_t1 v1240))
theorem k0_idx403_inb : ∀ (i : grid0.Coords) (k0_t1 : Fin k0_t1_loop.trips) (v1240 : IVec S16 32) (k0_hw403 : k0_chk403 i k0_t1 v1240), ∀ (k0_h1 : k0_cond1 i k0_t1 = 1#1), ∀ a x, ((![v1240] : Fin 1 → IVec S16 32) a x).toNat < S100000.size a := fun i k0_t1 v1240 k0_hw403 k0_h1 => k0_hw403 k0_h1

def k0_chk404 (i : grid0.Coords) (k0_t1 : Fin k0_t1_loop.trips) (v1241 : IVec S16 32) : Prop :=
  (∀ (k0_h1 : k0_cond1 i k0_t1 = 1#1), ∀ a x, ((![v1241] : Fin 1 → IVec S16 32) a x).toNat < S100000.size a)
instance k0_chk404.dec : ∀ (i : grid0.Coords) (k0_t1 : Fin k0_t1_loop.trips) (v1241 : IVec S16 32), Decidable (k0_chk404 i k0_t1 v1241) := fun i k0_t1 v1241 => decidable_of_iff' _ (Iff.of_eq (k0_chk404.eq_1 i k0_t1 v1241))
theorem k0_idx404_inb : ∀ (i : grid0.Coords) (k0_t1 : Fin k0_t1_loop.trips) (v1241 : IVec S16 32) (k0_hw404 : k0_chk404 i k0_t1 v1241), ∀ (k0_h1 : k0_cond1 i k0_t1 = 1#1), ∀ a x, ((![v1241] : Fin 1 → IVec S16 32) a x).toNat < S100000.size a := fun i k0_t1 v1241 k0_hw404 k0_h1 => k0_hw404 k0_h1

def k0_chk405 (i : grid0.Coords) (k0_t1 : Fin k0_t1_loop.trips) (v1242 : IVec S16 32) : Prop :=
  (∀ (k0_h1 : k0_cond1 i k0_t1 = 1#1), ∀ a x, ((![v1242] : Fin 1 → IVec S16 32) a x).toNat < S100000.size a)
instance k0_chk405.dec : ∀ (i : grid0.Coords) (k0_t1 : Fin k0_t1_loop.trips) (v1242 : IVec S16 32), Decidable (k0_chk405 i k0_t1 v1242) := fun i k0_t1 v1242 => decidable_of_iff' _ (Iff.of_eq (k0_chk405.eq_1 i k0_t1 v1242))
theorem k0_idx405_inb : ∀ (i : grid0.Coords) (k0_t1 : Fin k0_t1_loop.trips) (v1242 : IVec S16 32) (k0_hw405 : k0_chk405 i k0_t1 v1242), ∀ (k0_h1 : k0_cond1 i k0_t1 = 1#1), ∀ a x, ((![v1242] : Fin 1 → IVec S16 32) a x).toNat < S100000.size a := fun i k0_t1 v1242 k0_hw405 k0_h1 => k0_hw405 k0_h1

def k0_chk406 (i : grid0.Coords) (k0_t1 : Fin k0_t1_loop.trips) (v1243 : IVec S16 32) : Prop :=
  (∀ (k0_h1 : k0_cond1 i k0_t1 = 1#1), ∀ a x, ((![v1243] : Fin 1 → IVec S16 32) a x).toNat < S100000.size a)
instance k0_chk406.dec : ∀ (i : grid0.Coords) (k0_t1 : Fin k0_t1_loop.trips) (v1243 : IVec S16 32), Decidable (k0_chk406 i k0_t1 v1243) := fun i k0_t1 v1243 => decidable_of_iff' _ (Iff.of_eq (k0_chk406.eq_1 i k0_t1 v1243))
theorem k0_idx406_inb : ∀ (i : grid0.Coords) (k0_t1 : Fin k0_t1_loop.trips) (v1243 : IVec S16 32) (k0_hw406 : k0_chk406 i k0_t1 v1243), ∀ (k0_h1 : k0_cond1 i k0_t1 = 1#1), ∀ a x, ((![v1243] : Fin 1 → IVec S16 32) a x).toNat < S100000.size a := fun i k0_t1 v1243 k0_hw406 k0_h1 => k0_hw406 k0_h1

def k0_chk407 (i : grid0.Coords) (k0_t1 : Fin k0_t1_loop.trips) (v1244 : IVec S16 32) : Prop :=
  (∀ (k0_h1 : k0_cond1 i k0_t1 = 1#1), ∀ a x, ((![v1244] : Fin 1 → IVec S16 32) a x).toNat < S100000.size a)
instance k0_chk407.dec : ∀ (i : grid0.Coords) (k0_t1 : Fin k0_t1_loop.trips) (v1244 : IVec S16 32), Decidable (k0_chk407 i k0_t1 v1244) := fun i k0_t1 v1244 => decidable_of_iff' _ (Iff.of_eq (k0_chk407.eq_1 i k0_t1 v1244))
theorem k0_idx407_inb : ∀ (i : grid0.Coords) (k0_t1 : Fin k0_t1_loop.trips) (v1244 : IVec S16 32) (k0_hw407 : k0_chk407 i k0_t1 v1244), ∀ (k0_h1 : k0_cond1 i k0_t1 = 1#1), ∀ a x, ((![v1244] : Fin 1 → IVec S16 32) a x).toNat < S100000.size a := fun i k0_t1 v1244 k0_hw407 k0_h1 => k0_hw407 k0_h1

def k0_chk408 (i : grid0.Coords) (k0_t1 : Fin k0_t1_loop.trips) (v1245 : IVec S16 32) : Prop :=
  (∀ (k0_h1 : k0_cond1 i k0_t1 = 1#1), ∀ a x, ((![v1245] : Fin 1 → IVec S16 32) a x).toNat < S100000.size a)
instance k0_chk408.dec : ∀ (i : grid0.Coords) (k0_t1 : Fin k0_t1_loop.trips) (v1245 : IVec S16 32), Decidable (k0_chk408 i k0_t1 v1245) := fun i k0_t1 v1245 => decidable_of_iff' _ (Iff.of_eq (k0_chk408.eq_1 i k0_t1 v1245))
theorem k0_idx408_inb : ∀ (i : grid0.Coords) (k0_t1 : Fin k0_t1_loop.trips) (v1245 : IVec S16 32) (k0_hw408 : k0_chk408 i k0_t1 v1245), ∀ (k0_h1 : k0_cond1 i k0_t1 = 1#1), ∀ a x, ((![v1245] : Fin 1 → IVec S16 32) a x).toNat < S100000.size a := fun i k0_t1 v1245 k0_hw408 k0_h1 => k0_hw408 k0_h1

def k0_chk409 (i : grid0.Coords) (k0_t1 : Fin k0_t1_loop.trips) (v1262 : IVec S16 32) : Prop :=
  (∀ (k0_h1 : k0_cond1 i k0_t1 = 1#1), ∀ a x, ((![v1262] : Fin 1 → IVec S16 32) a x).toNat < S100000.size a)
instance k0_chk409.dec : ∀ (i : grid0.Coords) (k0_t1 : Fin k0_t1_loop.trips) (v1262 : IVec S16 32), Decidable (k0_chk409 i k0_t1 v1262) := fun i k0_t1 v1262 => decidable_of_iff' _ (Iff.of_eq (k0_chk409.eq_1 i k0_t1 v1262))
theorem k0_idx409_inb : ∀ (i : grid0.Coords) (k0_t1 : Fin k0_t1_loop.trips) (v1262 : IVec S16 32) (k0_hw409 : k0_chk409 i k0_t1 v1262), ∀ (k0_h1 : k0_cond1 i k0_t1 = 1#1), ∀ a x, ((![v1262] : Fin 1 → IVec S16 32) a x).toNat < S100000.size a := fun i k0_t1 v1262 k0_hw409 k0_h1 => k0_hw409 k0_h1

def k0_chk410 (i : grid0.Coords) (k0_t1 : Fin k0_t1_loop.trips) (v1263 : IVec S16 32) : Prop :=
  (∀ (k0_h1 : k0_cond1 i k0_t1 = 1#1), ∀ a x, ((![v1263] : Fin 1 → IVec S16 32) a x).toNat < S100000.size a)
instance k0_chk410.dec : ∀ (i : grid0.Coords) (k0_t1 : Fin k0_t1_loop.trips) (v1263 : IVec S16 32), Decidable (k0_chk410 i k0_t1 v1263) := fun i k0_t1 v1263 => decidable_of_iff' _ (Iff.of_eq (k0_chk410.eq_1 i k0_t1 v1263))
theorem k0_idx410_inb : ∀ (i : grid0.Coords) (k0_t1 : Fin k0_t1_loop.trips) (v1263 : IVec S16 32) (k0_hw410 : k0_chk410 i k0_t1 v1263), ∀ (k0_h1 : k0_cond1 i k0_t1 = 1#1), ∀ a x, ((![v1263] : Fin 1 → IVec S16 32) a x).toNat < S100000.size a := fun i k0_t1 v1263 k0_hw410 k0_h1 => k0_hw410 k0_h1

def k0_chk411 (i : grid0.Coords) (k0_t1 : Fin k0_t1_loop.trips) (v1264 : IVec S16 32) : Prop :=
  (∀ (k0_h1 : k0_cond1 i k0_t1 = 1#1), ∀ a x, ((![v1264] : Fin 1 → IVec S16 32) a x).toNat < S100000.size a)
instance k0_chk411.dec : ∀ (i : grid0.Coords) (k0_t1 : Fin k0_t1_loop.trips) (v1264 : IVec S16 32), Decidable (k0_chk411 i k0_t1 v1264) := fun i k0_t1 v1264 => decidable_of_iff' _ (Iff.of_eq (k0_chk411.eq_1 i k0_t1 v1264))
theorem k0_idx411_inb : ∀ (i : grid0.Coords) (k0_t1 : Fin k0_t1_loop.trips) (v1264 : IVec S16 32) (k0_hw411 : k0_chk411 i k0_t1 v1264), ∀ (k0_h1 : k0_cond1 i k0_t1 = 1#1), ∀ a x, ((![v1264] : Fin 1 → IVec S16 32) a x).toNat < S100000.size a := fun i k0_t1 v1264 k0_hw411 k0_h1 => k0_hw411 k0_h1

def k0_chk412 (i : grid0.Coords) (k0_t1 : Fin k0_t1_loop.trips) (v1265 : IVec S16 32) : Prop :=
  (∀ (k0_h1 : k0_cond1 i k0_t1 = 1#1), ∀ a x, ((![v1265] : Fin 1 → IVec S16 32) a x).toNat < S100000.size a)
instance k0_chk412.dec : ∀ (i : grid0.Coords) (k0_t1 : Fin k0_t1_loop.trips) (v1265 : IVec S16 32), Decidable (k0_chk412 i k0_t1 v1265) := fun i k0_t1 v1265 => decidable_of_iff' _ (Iff.of_eq (k0_chk412.eq_1 i k0_t1 v1265))
theorem k0_idx412_inb : ∀ (i : grid0.Coords) (k0_t1 : Fin k0_t1_loop.trips) (v1265 : IVec S16 32) (k0_hw412 : k0_chk412 i k0_t1 v1265), ∀ (k0_h1 : k0_cond1 i k0_t1 = 1#1), ∀ a x, ((![v1265] : Fin 1 → IVec S16 32) a x).toNat < S100000.size a := fun i k0_t1 v1265 k0_hw412 k0_h1 => k0_hw412 k0_h1

def k0_chk413 (i : grid0.Coords) (k0_t1 : Fin k0_t1_loop.trips) (v1266 : IVec S16 32) : Prop :=
  (∀ (k0_h1 : k0_cond1 i k0_t1 = 1#1), ∀ a x, ((![v1266] : Fin 1 → IVec S16 32) a x).toNat < S100000.size a)
instance k0_chk413.dec : ∀ (i : grid0.Coords) (k0_t1 : Fin k0_t1_loop.trips) (v1266 : IVec S16 32), Decidable (k0_chk413 i k0_t1 v1266) := fun i k0_t1 v1266 => decidable_of_iff' _ (Iff.of_eq (k0_chk413.eq_1 i k0_t1 v1266))
theorem k0_idx413_inb : ∀ (i : grid0.Coords) (k0_t1 : Fin k0_t1_loop.trips) (v1266 : IVec S16 32) (k0_hw413 : k0_chk413 i k0_t1 v1266), ∀ (k0_h1 : k0_cond1 i k0_t1 = 1#1), ∀ a x, ((![v1266] : Fin 1 → IVec S16 32) a x).toNat < S100000.size a := fun i k0_t1 v1266 k0_hw413 k0_h1 => k0_hw413 k0_h1

def k0_chk414 (i : grid0.Coords) (k0_t1 : Fin k0_t1_loop.trips) (v1267 : IVec S16 32) : Prop :=
  (∀ (k0_h1 : k0_cond1 i k0_t1 = 1#1), ∀ a x, ((![v1267] : Fin 1 → IVec S16 32) a x).toNat < S100000.size a)
instance k0_chk414.dec : ∀ (i : grid0.Coords) (k0_t1 : Fin k0_t1_loop.trips) (v1267 : IVec S16 32), Decidable (k0_chk414 i k0_t1 v1267) := fun i k0_t1 v1267 => decidable_of_iff' _ (Iff.of_eq (k0_chk414.eq_1 i k0_t1 v1267))
theorem k0_idx414_inb : ∀ (i : grid0.Coords) (k0_t1 : Fin k0_t1_loop.trips) (v1267 : IVec S16 32) (k0_hw414 : k0_chk414 i k0_t1 v1267), ∀ (k0_h1 : k0_cond1 i k0_t1 = 1#1), ∀ a x, ((![v1267] : Fin 1 → IVec S16 32) a x).toNat < S100000.size a := fun i k0_t1 v1267 k0_hw414 k0_h1 => k0_hw414 k0_h1

def k0_chk415 (i : grid0.Coords) (k0_t1 : Fin k0_t1_loop.trips) (v1268 : IVec S16 32) : Prop :=
  (∀ (k0_h1 : k0_cond1 i k0_t1 = 1#1), ∀ a x, ((![v1268] : Fin 1 → IVec S16 32) a x).toNat < S100000.size a)
instance k0_chk415.dec : ∀ (i : grid0.Coords) (k0_t1 : Fin k0_t1_loop.trips) (v1268 : IVec S16 32), Decidable (k0_chk415 i k0_t1 v1268) := fun i k0_t1 v1268 => decidable_of_iff' _ (Iff.of_eq (k0_chk415.eq_1 i k0_t1 v1268))
theorem k0_idx415_inb : ∀ (i : grid0.Coords) (k0_t1 : Fin k0_t1_loop.trips) (v1268 : IVec S16 32) (k0_hw415 : k0_chk415 i k0_t1 v1268), ∀ (k0_h1 : k0_cond1 i k0_t1 = 1#1), ∀ a x, ((![v1268] : Fin 1 → IVec S16 32) a x).toNat < S100000.size a := fun i k0_t1 v1268 k0_hw415 k0_h1 => k0_hw415 k0_h1

def k0_chk416 (i : grid0.Coords) (k0_t1 : Fin k0_t1_loop.trips) (v1269 : IVec S16 32) : Prop :=
  (∀ (k0_h1 : k0_cond1 i k0_t1 = 1#1), ∀ a x, ((![v1269] : Fin 1 → IVec S16 32) a x).toNat < S100000.size a)
instance k0_chk416.dec : ∀ (i : grid0.Coords) (k0_t1 : Fin k0_t1_loop.trips) (v1269 : IVec S16 32), Decidable (k0_chk416 i k0_t1 v1269) := fun i k0_t1 v1269 => decidable_of_iff' _ (Iff.of_eq (k0_chk416.eq_1 i k0_t1 v1269))
theorem k0_idx416_inb : ∀ (i : grid0.Coords) (k0_t1 : Fin k0_t1_loop.trips) (v1269 : IVec S16 32) (k0_hw416 : k0_chk416 i k0_t1 v1269), ∀ (k0_h1 : k0_cond1 i k0_t1 = 1#1), ∀ a x, ((![v1269] : Fin 1 → IVec S16 32) a x).toNat < S100000.size a := fun i k0_t1 v1269 k0_hw416 k0_h1 => k0_hw416 k0_h1

def k0_chk417 (i : grid0.Coords) (k0_t1 : Fin k0_t1_loop.trips) (v1286 : IVec S16 32) : Prop :=
  (∀ (k0_h1 : k0_cond1 i k0_t1 = 1#1), ∀ a x, ((![v1286] : Fin 1 → IVec S16 32) a x).toNat < S100000.size a)
instance k0_chk417.dec : ∀ (i : grid0.Coords) (k0_t1 : Fin k0_t1_loop.trips) (v1286 : IVec S16 32), Decidable (k0_chk417 i k0_t1 v1286) := fun i k0_t1 v1286 => decidable_of_iff' _ (Iff.of_eq (k0_chk417.eq_1 i k0_t1 v1286))
theorem k0_idx417_inb : ∀ (i : grid0.Coords) (k0_t1 : Fin k0_t1_loop.trips) (v1286 : IVec S16 32) (k0_hw417 : k0_chk417 i k0_t1 v1286), ∀ (k0_h1 : k0_cond1 i k0_t1 = 1#1), ∀ a x, ((![v1286] : Fin 1 → IVec S16 32) a x).toNat < S100000.size a := fun i k0_t1 v1286 k0_hw417 k0_h1 => k0_hw417 k0_h1

def k0_chk418 (i : grid0.Coords) (k0_t1 : Fin k0_t1_loop.trips) (v1287 : IVec S16 32) : Prop :=
  (∀ (k0_h1 : k0_cond1 i k0_t1 = 1#1), ∀ a x, ((![v1287] : Fin 1 → IVec S16 32) a x).toNat < S100000.size a)
instance k0_chk418.dec : ∀ (i : grid0.Coords) (k0_t1 : Fin k0_t1_loop.trips) (v1287 : IVec S16 32), Decidable (k0_chk418 i k0_t1 v1287) := fun i k0_t1 v1287 => decidable_of_iff' _ (Iff.of_eq (k0_chk418.eq_1 i k0_t1 v1287))
theorem k0_idx418_inb : ∀ (i : grid0.Coords) (k0_t1 : Fin k0_t1_loop.trips) (v1287 : IVec S16 32) (k0_hw418 : k0_chk418 i k0_t1 v1287), ∀ (k0_h1 : k0_cond1 i k0_t1 = 1#1), ∀ a x, ((![v1287] : Fin 1 → IVec S16 32) a x).toNat < S100000.size a := fun i k0_t1 v1287 k0_hw418 k0_h1 => k0_hw418 k0_h1

def k0_chk419 (i : grid0.Coords) (k0_t1 : Fin k0_t1_loop.trips) (v1288 : IVec S16 32) : Prop :=
  (∀ (k0_h1 : k0_cond1 i k0_t1 = 1#1), ∀ a x, ((![v1288] : Fin 1 → IVec S16 32) a x).toNat < S100000.size a)
instance k0_chk419.dec : ∀ (i : grid0.Coords) (k0_t1 : Fin k0_t1_loop.trips) (v1288 : IVec S16 32), Decidable (k0_chk419 i k0_t1 v1288) := fun i k0_t1 v1288 => decidable_of_iff' _ (Iff.of_eq (k0_chk419.eq_1 i k0_t1 v1288))
theorem k0_idx419_inb : ∀ (i : grid0.Coords) (k0_t1 : Fin k0_t1_loop.trips) (v1288 : IVec S16 32) (k0_hw419 : k0_chk419 i k0_t1 v1288), ∀ (k0_h1 : k0_cond1 i k0_t1 = 1#1), ∀ a x, ((![v1288] : Fin 1 → IVec S16 32) a x).toNat < S100000.size a := fun i k0_t1 v1288 k0_hw419 k0_h1 => k0_hw419 k0_h1

def k0_chk420 (i : grid0.Coords) (k0_t1 : Fin k0_t1_loop.trips) (v1289 : IVec S16 32) : Prop :=
  (∀ (k0_h1 : k0_cond1 i k0_t1 = 1#1), ∀ a x, ((![v1289] : Fin 1 → IVec S16 32) a x).toNat < S100000.size a)
instance k0_chk420.dec : ∀ (i : grid0.Coords) (k0_t1 : Fin k0_t1_loop.trips) (v1289 : IVec S16 32), Decidable (k0_chk420 i k0_t1 v1289) := fun i k0_t1 v1289 => decidable_of_iff' _ (Iff.of_eq (k0_chk420.eq_1 i k0_t1 v1289))
theorem k0_idx420_inb : ∀ (i : grid0.Coords) (k0_t1 : Fin k0_t1_loop.trips) (v1289 : IVec S16 32) (k0_hw420 : k0_chk420 i k0_t1 v1289), ∀ (k0_h1 : k0_cond1 i k0_t1 = 1#1), ∀ a x, ((![v1289] : Fin 1 → IVec S16 32) a x).toNat < S100000.size a := fun i k0_t1 v1289 k0_hw420 k0_h1 => k0_hw420 k0_h1

def k0_chk421 (i : grid0.Coords) (k0_t1 : Fin k0_t1_loop.trips) (v1290 : IVec S16 32) : Prop :=
  (∀ (k0_h1 : k0_cond1 i k0_t1 = 1#1), ∀ a x, ((![v1290] : Fin 1 → IVec S16 32) a x).toNat < S100000.size a)
instance k0_chk421.dec : ∀ (i : grid0.Coords) (k0_t1 : Fin k0_t1_loop.trips) (v1290 : IVec S16 32), Decidable (k0_chk421 i k0_t1 v1290) := fun i k0_t1 v1290 => decidable_of_iff' _ (Iff.of_eq (k0_chk421.eq_1 i k0_t1 v1290))
theorem k0_idx421_inb : ∀ (i : grid0.Coords) (k0_t1 : Fin k0_t1_loop.trips) (v1290 : IVec S16 32) (k0_hw421 : k0_chk421 i k0_t1 v1290), ∀ (k0_h1 : k0_cond1 i k0_t1 = 1#1), ∀ a x, ((![v1290] : Fin 1 → IVec S16 32) a x).toNat < S100000.size a := fun i k0_t1 v1290 k0_hw421 k0_h1 => k0_hw421 k0_h1

def k0_chk422 (i : grid0.Coords) (k0_t1 : Fin k0_t1_loop.trips) (v1291 : IVec S16 32) : Prop :=
  (∀ (k0_h1 : k0_cond1 i k0_t1 = 1#1), ∀ a x, ((![v1291] : Fin 1 → IVec S16 32) a x).toNat < S100000.size a)
instance k0_chk422.dec : ∀ (i : grid0.Coords) (k0_t1 : Fin k0_t1_loop.trips) (v1291 : IVec S16 32), Decidable (k0_chk422 i k0_t1 v1291) := fun i k0_t1 v1291 => decidable_of_iff' _ (Iff.of_eq (k0_chk422.eq_1 i k0_t1 v1291))
theorem k0_idx422_inb : ∀ (i : grid0.Coords) (k0_t1 : Fin k0_t1_loop.trips) (v1291 : IVec S16 32) (k0_hw422 : k0_chk422 i k0_t1 v1291), ∀ (k0_h1 : k0_cond1 i k0_t1 = 1#1), ∀ a x, ((![v1291] : Fin 1 → IVec S16 32) a x).toNat < S100000.size a := fun i k0_t1 v1291 k0_hw422 k0_h1 => k0_hw422 k0_h1

def k0_chk423 (i : grid0.Coords) (k0_t1 : Fin k0_t1_loop.trips) (v1292 : IVec S16 32) : Prop :=
  (∀ (k0_h1 : k0_cond1 i k0_t1 = 1#1), ∀ a x, ((![v1292] : Fin 1 → IVec S16 32) a x).toNat < S100000.size a)
instance k0_chk423.dec : ∀ (i : grid0.Coords) (k0_t1 : Fin k0_t1_loop.trips) (v1292 : IVec S16 32), Decidable (k0_chk423 i k0_t1 v1292) := fun i k0_t1 v1292 => decidable_of_iff' _ (Iff.of_eq (k0_chk423.eq_1 i k0_t1 v1292))
theorem k0_idx423_inb : ∀ (i : grid0.Coords) (k0_t1 : Fin k0_t1_loop.trips) (v1292 : IVec S16 32) (k0_hw423 : k0_chk423 i k0_t1 v1292), ∀ (k0_h1 : k0_cond1 i k0_t1 = 1#1), ∀ a x, ((![v1292] : Fin 1 → IVec S16 32) a x).toNat < S100000.size a := fun i k0_t1 v1292 k0_hw423 k0_h1 => k0_hw423 k0_h1

def k0_chk424 (i : grid0.Coords) (k0_t1 : Fin k0_t1_loop.trips) (v1293 : IVec S16 32) : Prop :=
  (∀ (k0_h1 : k0_cond1 i k0_t1 = 1#1), ∀ a x, ((![v1293] : Fin 1 → IVec S16 32) a x).toNat < S100000.size a)
instance k0_chk424.dec : ∀ (i : grid0.Coords) (k0_t1 : Fin k0_t1_loop.trips) (v1293 : IVec S16 32), Decidable (k0_chk424 i k0_t1 v1293) := fun i k0_t1 v1293 => decidable_of_iff' _ (Iff.of_eq (k0_chk424.eq_1 i k0_t1 v1293))
theorem k0_idx424_inb : ∀ (i : grid0.Coords) (k0_t1 : Fin k0_t1_loop.trips) (v1293 : IVec S16 32) (k0_hw424 : k0_chk424 i k0_t1 v1293), ∀ (k0_h1 : k0_cond1 i k0_t1 = 1#1), ∀ a x, ((![v1293] : Fin 1 → IVec S16 32) a x).toNat < S100000.size a := fun i k0_t1 v1293 k0_hw424 k0_h1 => k0_hw424 k0_h1

def k0_chk425 (i : grid0.Coords) (k0_t1 : Fin k0_t1_loop.trips) (v1310 : IVec S16 32) : Prop :=
  (∀ (k0_h1 : k0_cond1 i k0_t1 = 1#1), ∀ a x, ((![v1310] : Fin 1 → IVec S16 32) a x).toNat < S100000.size a)
instance k0_chk425.dec : ∀ (i : grid0.Coords) (k0_t1 : Fin k0_t1_loop.trips) (v1310 : IVec S16 32), Decidable (k0_chk425 i k0_t1 v1310) := fun i k0_t1 v1310 => decidable_of_iff' _ (Iff.of_eq (k0_chk425.eq_1 i k0_t1 v1310))
theorem k0_idx425_inb : ∀ (i : grid0.Coords) (k0_t1 : Fin k0_t1_loop.trips) (v1310 : IVec S16 32) (k0_hw425 : k0_chk425 i k0_t1 v1310), ∀ (k0_h1 : k0_cond1 i k0_t1 = 1#1), ∀ a x, ((![v1310] : Fin 1 → IVec S16 32) a x).toNat < S100000.size a := fun i k0_t1 v1310 k0_hw425 k0_h1 => k0_hw425 k0_h1

def k0_chk426 (i : grid0.Coords) (k0_t1 : Fin k0_t1_loop.trips) (v1311 : IVec S16 32) : Prop :=
  (∀ (k0_h1 : k0_cond1 i k0_t1 = 1#1), ∀ a x, ((![v1311] : Fin 1 → IVec S16 32) a x).toNat < S100000.size a)
instance k0_chk426.dec : ∀ (i : grid0.Coords) (k0_t1 : Fin k0_t1_loop.trips) (v1311 : IVec S16 32), Decidable (k0_chk426 i k0_t1 v1311) := fun i k0_t1 v1311 => decidable_of_iff' _ (Iff.of_eq (k0_chk426.eq_1 i k0_t1 v1311))
theorem k0_idx426_inb : ∀ (i : grid0.Coords) (k0_t1 : Fin k0_t1_loop.trips) (v1311 : IVec S16 32) (k0_hw426 : k0_chk426 i k0_t1 v1311), ∀ (k0_h1 : k0_cond1 i k0_t1 = 1#1), ∀ a x, ((![v1311] : Fin 1 → IVec S16 32) a x).toNat < S100000.size a := fun i k0_t1 v1311 k0_hw426 k0_h1 => k0_hw426 k0_h1

def k0_chk427 (i : grid0.Coords) (k0_t1 : Fin k0_t1_loop.trips) (v1312 : IVec S16 32) : Prop :=
  (∀ (k0_h1 : k0_cond1 i k0_t1 = 1#1), ∀ a x, ((![v1312] : Fin 1 → IVec S16 32) a x).toNat < S100000.size a)
instance k0_chk427.dec : ∀ (i : grid0.Coords) (k0_t1 : Fin k0_t1_loop.trips) (v1312 : IVec S16 32), Decidable (k0_chk427 i k0_t1 v1312) := fun i k0_t1 v1312 => decidable_of_iff' _ (Iff.of_eq (k0_chk427.eq_1 i k0_t1 v1312))
theorem k0_idx427_inb : ∀ (i : grid0.Coords) (k0_t1 : Fin k0_t1_loop.trips) (v1312 : IVec S16 32) (k0_hw427 : k0_chk427 i k0_t1 v1312), ∀ (k0_h1 : k0_cond1 i k0_t1 = 1#1), ∀ a x, ((![v1312] : Fin 1 → IVec S16 32) a x).toNat < S100000.size a := fun i k0_t1 v1312 k0_hw427 k0_h1 => k0_hw427 k0_h1

def k0_chk428 (i : grid0.Coords) (k0_t1 : Fin k0_t1_loop.trips) (v1313 : IVec S16 32) : Prop :=
  (∀ (k0_h1 : k0_cond1 i k0_t1 = 1#1), ∀ a x, ((![v1313] : Fin 1 → IVec S16 32) a x).toNat < S100000.size a)
instance k0_chk428.dec : ∀ (i : grid0.Coords) (k0_t1 : Fin k0_t1_loop.trips) (v1313 : IVec S16 32), Decidable (k0_chk428 i k0_t1 v1313) := fun i k0_t1 v1313 => decidable_of_iff' _ (Iff.of_eq (k0_chk428.eq_1 i k0_t1 v1313))
theorem k0_idx428_inb : ∀ (i : grid0.Coords) (k0_t1 : Fin k0_t1_loop.trips) (v1313 : IVec S16 32) (k0_hw428 : k0_chk428 i k0_t1 v1313), ∀ (k0_h1 : k0_cond1 i k0_t1 = 1#1), ∀ a x, ((![v1313] : Fin 1 → IVec S16 32) a x).toNat < S100000.size a := fun i k0_t1 v1313 k0_hw428 k0_h1 => k0_hw428 k0_h1

def k0_chk429 (i : grid0.Coords) (k0_t1 : Fin k0_t1_loop.trips) (v1314 : IVec S16 32) : Prop :=
  (∀ (k0_h1 : k0_cond1 i k0_t1 = 1#1), ∀ a x, ((![v1314] : Fin 1 → IVec S16 32) a x).toNat < S100000.size a)
instance k0_chk429.dec : ∀ (i : grid0.Coords) (k0_t1 : Fin k0_t1_loop.trips) (v1314 : IVec S16 32), Decidable (k0_chk429 i k0_t1 v1314) := fun i k0_t1 v1314 => decidable_of_iff' _ (Iff.of_eq (k0_chk429.eq_1 i k0_t1 v1314))
theorem k0_idx429_inb : ∀ (i : grid0.Coords) (k0_t1 : Fin k0_t1_loop.trips) (v1314 : IVec S16 32) (k0_hw429 : k0_chk429 i k0_t1 v1314), ∀ (k0_h1 : k0_cond1 i k0_t1 = 1#1), ∀ a x, ((![v1314] : Fin 1 → IVec S16 32) a x).toNat < S100000.size a := fun i k0_t1 v1314 k0_hw429 k0_h1 => k0_hw429 k0_h1

def k0_chk430 (i : grid0.Coords) (k0_t1 : Fin k0_t1_loop.trips) (v1315 : IVec S16 32) : Prop :=
  (∀ (k0_h1 : k0_cond1 i k0_t1 = 1#1), ∀ a x, ((![v1315] : Fin 1 → IVec S16 32) a x).toNat < S100000.size a)
instance k0_chk430.dec : ∀ (i : grid0.Coords) (k0_t1 : Fin k0_t1_loop.trips) (v1315 : IVec S16 32), Decidable (k0_chk430 i k0_t1 v1315) := fun i k0_t1 v1315 => decidable_of_iff' _ (Iff.of_eq (k0_chk430.eq_1 i k0_t1 v1315))
theorem k0_idx430_inb : ∀ (i : grid0.Coords) (k0_t1 : Fin k0_t1_loop.trips) (v1315 : IVec S16 32) (k0_hw430 : k0_chk430 i k0_t1 v1315), ∀ (k0_h1 : k0_cond1 i k0_t1 = 1#1), ∀ a x, ((![v1315] : Fin 1 → IVec S16 32) a x).toNat < S100000.size a := fun i k0_t1 v1315 k0_hw430 k0_h1 => k0_hw430 k0_h1

def k0_chk431 (i : grid0.Coords) (k0_t1 : Fin k0_t1_loop.trips) (v1316 : IVec S16 32) : Prop :=
  (∀ (k0_h1 : k0_cond1 i k0_t1 = 1#1), ∀ a x, ((![v1316] : Fin 1 → IVec S16 32) a x).toNat < S100000.size a)
instance k0_chk431.dec : ∀ (i : grid0.Coords) (k0_t1 : Fin k0_t1_loop.trips) (v1316 : IVec S16 32), Decidable (k0_chk431 i k0_t1 v1316) := fun i k0_t1 v1316 => decidable_of_iff' _ (Iff.of_eq (k0_chk431.eq_1 i k0_t1 v1316))
theorem k0_idx431_inb : ∀ (i : grid0.Coords) (k0_t1 : Fin k0_t1_loop.trips) (v1316 : IVec S16 32) (k0_hw431 : k0_chk431 i k0_t1 v1316), ∀ (k0_h1 : k0_cond1 i k0_t1 = 1#1), ∀ a x, ((![v1316] : Fin 1 → IVec S16 32) a x).toNat < S100000.size a := fun i k0_t1 v1316 k0_hw431 k0_h1 => k0_hw431 k0_h1

def k0_chk432 (i : grid0.Coords) (k0_t1 : Fin k0_t1_loop.trips) (v1317 : IVec S16 32) : Prop :=
  (∀ (k0_h1 : k0_cond1 i k0_t1 = 1#1), ∀ a x, ((![v1317] : Fin 1 → IVec S16 32) a x).toNat < S100000.size a)
instance k0_chk432.dec : ∀ (i : grid0.Coords) (k0_t1 : Fin k0_t1_loop.trips) (v1317 : IVec S16 32), Decidable (k0_chk432 i k0_t1 v1317) := fun i k0_t1 v1317 => decidable_of_iff' _ (Iff.of_eq (k0_chk432.eq_1 i k0_t1 v1317))
theorem k0_idx432_inb : ∀ (i : grid0.Coords) (k0_t1 : Fin k0_t1_loop.trips) (v1317 : IVec S16 32) (k0_hw432 : k0_chk432 i k0_t1 v1317), ∀ (k0_h1 : k0_cond1 i k0_t1 = 1#1), ∀ a x, ((![v1317] : Fin 1 → IVec S16 32) a x).toNat < S100000.size a := fun i k0_t1 v1317 k0_hw432 k0_h1 => k0_hw432 k0_h1

def k0_chk433 (i : grid0.Coords) (k0_t1 : Fin k0_t1_loop.trips) (v1334 : IVec S16 32) : Prop :=
  (∀ (k0_h1 : k0_cond1 i k0_t1 = 1#1), ∀ a x, ((![v1334] : Fin 1 → IVec S16 32) a x).toNat < S100000.size a)
instance k0_chk433.dec : ∀ (i : grid0.Coords) (k0_t1 : Fin k0_t1_loop.trips) (v1334 : IVec S16 32), Decidable (k0_chk433 i k0_t1 v1334) := fun i k0_t1 v1334 => decidable_of_iff' _ (Iff.of_eq (k0_chk433.eq_1 i k0_t1 v1334))
theorem k0_idx433_inb : ∀ (i : grid0.Coords) (k0_t1 : Fin k0_t1_loop.trips) (v1334 : IVec S16 32) (k0_hw433 : k0_chk433 i k0_t1 v1334), ∀ (k0_h1 : k0_cond1 i k0_t1 = 1#1), ∀ a x, ((![v1334] : Fin 1 → IVec S16 32) a x).toNat < S100000.size a := fun i k0_t1 v1334 k0_hw433 k0_h1 => k0_hw433 k0_h1

def k0_chk434 (i : grid0.Coords) (k0_t1 : Fin k0_t1_loop.trips) (v1335 : IVec S16 32) : Prop :=
  (∀ (k0_h1 : k0_cond1 i k0_t1 = 1#1), ∀ a x, ((![v1335] : Fin 1 → IVec S16 32) a x).toNat < S100000.size a)
instance k0_chk434.dec : ∀ (i : grid0.Coords) (k0_t1 : Fin k0_t1_loop.trips) (v1335 : IVec S16 32), Decidable (k0_chk434 i k0_t1 v1335) := fun i k0_t1 v1335 => decidable_of_iff' _ (Iff.of_eq (k0_chk434.eq_1 i k0_t1 v1335))
theorem k0_idx434_inb : ∀ (i : grid0.Coords) (k0_t1 : Fin k0_t1_loop.trips) (v1335 : IVec S16 32) (k0_hw434 : k0_chk434 i k0_t1 v1335), ∀ (k0_h1 : k0_cond1 i k0_t1 = 1#1), ∀ a x, ((![v1335] : Fin 1 → IVec S16 32) a x).toNat < S100000.size a := fun i k0_t1 v1335 k0_hw434 k0_h1 => k0_hw434 k0_h1

def k0_chk435 (i : grid0.Coords) (k0_t1 : Fin k0_t1_loop.trips) (v1336 : IVec S16 32) : Prop :=
  (∀ (k0_h1 : k0_cond1 i k0_t1 = 1#1), ∀ a x, ((![v1336] : Fin 1 → IVec S16 32) a x).toNat < S100000.size a)
instance k0_chk435.dec : ∀ (i : grid0.Coords) (k0_t1 : Fin k0_t1_loop.trips) (v1336 : IVec S16 32), Decidable (k0_chk435 i k0_t1 v1336) := fun i k0_t1 v1336 => decidable_of_iff' _ (Iff.of_eq (k0_chk435.eq_1 i k0_t1 v1336))
theorem k0_idx435_inb : ∀ (i : grid0.Coords) (k0_t1 : Fin k0_t1_loop.trips) (v1336 : IVec S16 32) (k0_hw435 : k0_chk435 i k0_t1 v1336), ∀ (k0_h1 : k0_cond1 i k0_t1 = 1#1), ∀ a x, ((![v1336] : Fin 1 → IVec S16 32) a x).toNat < S100000.size a := fun i k0_t1 v1336 k0_hw435 k0_h1 => k0_hw435 k0_h1

def k0_chk436 (i : grid0.Coords) (k0_t1 : Fin k0_t1_loop.trips) (v1337 : IVec S16 32) : Prop :=
  (∀ (k0_h1 : k0_cond1 i k0_t1 = 1#1), ∀ a x, ((![v1337] : Fin 1 → IVec S16 32) a x).toNat < S100000.size a)
instance k0_chk436.dec : ∀ (i : grid0.Coords) (k0_t1 : Fin k0_t1_loop.trips) (v1337 : IVec S16 32), Decidable (k0_chk436 i k0_t1 v1337) := fun i k0_t1 v1337 => decidable_of_iff' _ (Iff.of_eq (k0_chk436.eq_1 i k0_t1 v1337))
theorem k0_idx436_inb : ∀ (i : grid0.Coords) (k0_t1 : Fin k0_t1_loop.trips) (v1337 : IVec S16 32) (k0_hw436 : k0_chk436 i k0_t1 v1337), ∀ (k0_h1 : k0_cond1 i k0_t1 = 1#1), ∀ a x, ((![v1337] : Fin 1 → IVec S16 32) a x).toNat < S100000.size a := fun i k0_t1 v1337 k0_hw436 k0_h1 => k0_hw436 k0_h1

def k0_chk437 (i : grid0.Coords) (k0_t1 : Fin k0_t1_loop.trips) (v1338 : IVec S16 32) : Prop :=
  (∀ (k0_h1 : k0_cond1 i k0_t1 = 1#1), ∀ a x, ((![v1338] : Fin 1 → IVec S16 32) a x).toNat < S100000.size a)
instance k0_chk437.dec : ∀ (i : grid0.Coords) (k0_t1 : Fin k0_t1_loop.trips) (v1338 : IVec S16 32), Decidable (k0_chk437 i k0_t1 v1338) := fun i k0_t1 v1338 => decidable_of_iff' _ (Iff.of_eq (k0_chk437.eq_1 i k0_t1 v1338))
theorem k0_idx437_inb : ∀ (i : grid0.Coords) (k0_t1 : Fin k0_t1_loop.trips) (v1338 : IVec S16 32) (k0_hw437 : k0_chk437 i k0_t1 v1338), ∀ (k0_h1 : k0_cond1 i k0_t1 = 1#1), ∀ a x, ((![v1338] : Fin 1 → IVec S16 32) a x).toNat < S100000.size a := fun i k0_t1 v1338 k0_hw437 k0_h1 => k0_hw437 k0_h1

def k0_chk438 (i : grid0.Coords) (k0_t1 : Fin k0_t1_loop.trips) (v1339 : IVec S16 32) : Prop :=
  (∀ (k0_h1 : k0_cond1 i k0_t1 = 1#1), ∀ a x, ((![v1339] : Fin 1 → IVec S16 32) a x).toNat < S100000.size a)
instance k0_chk438.dec : ∀ (i : grid0.Coords) (k0_t1 : Fin k0_t1_loop.trips) (v1339 : IVec S16 32), Decidable (k0_chk438 i k0_t1 v1339) := fun i k0_t1 v1339 => decidable_of_iff' _ (Iff.of_eq (k0_chk438.eq_1 i k0_t1 v1339))
theorem k0_idx438_inb : ∀ (i : grid0.Coords) (k0_t1 : Fin k0_t1_loop.trips) (v1339 : IVec S16 32) (k0_hw438 : k0_chk438 i k0_t1 v1339), ∀ (k0_h1 : k0_cond1 i k0_t1 = 1#1), ∀ a x, ((![v1339] : Fin 1 → IVec S16 32) a x).toNat < S100000.size a := fun i k0_t1 v1339 k0_hw438 k0_h1 => k0_hw438 k0_h1

def k0_chk439 (i : grid0.Coords) (k0_t1 : Fin k0_t1_loop.trips) (v1340 : IVec S16 32) : Prop :=
  (∀ (k0_h1 : k0_cond1 i k0_t1 = 1#1), ∀ a x, ((![v1340] : Fin 1 → IVec S16 32) a x).toNat < S100000.size a)
instance k0_chk439.dec : ∀ (i : grid0.Coords) (k0_t1 : Fin k0_t1_loop.trips) (v1340 : IVec S16 32), Decidable (k0_chk439 i k0_t1 v1340) := fun i k0_t1 v1340 => decidable_of_iff' _ (Iff.of_eq (k0_chk439.eq_1 i k0_t1 v1340))
theorem k0_idx439_inb : ∀ (i : grid0.Coords) (k0_t1 : Fin k0_t1_loop.trips) (v1340 : IVec S16 32) (k0_hw439 : k0_chk439 i k0_t1 v1340), ∀ (k0_h1 : k0_cond1 i k0_t1 = 1#1), ∀ a x, ((![v1340] : Fin 1 → IVec S16 32) a x).toNat < S100000.size a := fun i k0_t1 v1340 k0_hw439 k0_h1 => k0_hw439 k0_h1

def k0_chk440 (i : grid0.Coords) (k0_t1 : Fin k0_t1_loop.trips) (v1341 : IVec S16 32) : Prop :=
  (∀ (k0_h1 : k0_cond1 i k0_t1 = 1#1), ∀ a x, ((![v1341] : Fin 1 → IVec S16 32) a x).toNat < S100000.size a)
instance k0_chk440.dec : ∀ (i : grid0.Coords) (k0_t1 : Fin k0_t1_loop.trips) (v1341 : IVec S16 32), Decidable (k0_chk440 i k0_t1 v1341) := fun i k0_t1 v1341 => decidable_of_iff' _ (Iff.of_eq (k0_chk440.eq_1 i k0_t1 v1341))
theorem k0_idx440_inb : ∀ (i : grid0.Coords) (k0_t1 : Fin k0_t1_loop.trips) (v1341 : IVec S16 32) (k0_hw440 : k0_chk440 i k0_t1 v1341), ∀ (k0_h1 : k0_cond1 i k0_t1 = 1#1), ∀ a x, ((![v1341] : Fin 1 → IVec S16 32) a x).toNat < S100000.size a := fun i k0_t1 v1341 k0_hw440 k0_h1 => k0_hw440 k0_h1

def k0_chk441 (i : grid0.Coords) (k0_t1 : Fin k0_t1_loop.trips) (v1358 : IVec S16 32) : Prop :=
  (∀ (k0_h1 : k0_cond1 i k0_t1 = 1#1), ∀ a x, ((![v1358] : Fin 1 → IVec S16 32) a x).toNat < S100000.size a)
instance k0_chk441.dec : ∀ (i : grid0.Coords) (k0_t1 : Fin k0_t1_loop.trips) (v1358 : IVec S16 32), Decidable (k0_chk441 i k0_t1 v1358) := fun i k0_t1 v1358 => decidable_of_iff' _ (Iff.of_eq (k0_chk441.eq_1 i k0_t1 v1358))
theorem k0_idx441_inb : ∀ (i : grid0.Coords) (k0_t1 : Fin k0_t1_loop.trips) (v1358 : IVec S16 32) (k0_hw441 : k0_chk441 i k0_t1 v1358), ∀ (k0_h1 : k0_cond1 i k0_t1 = 1#1), ∀ a x, ((![v1358] : Fin 1 → IVec S16 32) a x).toNat < S100000.size a := fun i k0_t1 v1358 k0_hw441 k0_h1 => k0_hw441 k0_h1

def k0_chk442 (i : grid0.Coords) (k0_t1 : Fin k0_t1_loop.trips) (v1359 : IVec S16 32) : Prop :=
  (∀ (k0_h1 : k0_cond1 i k0_t1 = 1#1), ∀ a x, ((![v1359] : Fin 1 → IVec S16 32) a x).toNat < S100000.size a)
instance k0_chk442.dec : ∀ (i : grid0.Coords) (k0_t1 : Fin k0_t1_loop.trips) (v1359 : IVec S16 32), Decidable (k0_chk442 i k0_t1 v1359) := fun i k0_t1 v1359 => decidable_of_iff' _ (Iff.of_eq (k0_chk442.eq_1 i k0_t1 v1359))
theorem k0_idx442_inb : ∀ (i : grid0.Coords) (k0_t1 : Fin k0_t1_loop.trips) (v1359 : IVec S16 32) (k0_hw442 : k0_chk442 i k0_t1 v1359), ∀ (k0_h1 : k0_cond1 i k0_t1 = 1#1), ∀ a x, ((![v1359] : Fin 1 → IVec S16 32) a x).toNat < S100000.size a := fun i k0_t1 v1359 k0_hw442 k0_h1 => k0_hw442 k0_h1

def k0_chk443 (i : grid0.Coords) (k0_t1 : Fin k0_t1_loop.trips) (v1360 : IVec S16 32) : Prop :=
  (∀ (k0_h1 : k0_cond1 i k0_t1 = 1#1), ∀ a x, ((![v1360] : Fin 1 → IVec S16 32) a x).toNat < S100000.size a)
instance k0_chk443.dec : ∀ (i : grid0.Coords) (k0_t1 : Fin k0_t1_loop.trips) (v1360 : IVec S16 32), Decidable (k0_chk443 i k0_t1 v1360) := fun i k0_t1 v1360 => decidable_of_iff' _ (Iff.of_eq (k0_chk443.eq_1 i k0_t1 v1360))
theorem k0_idx443_inb : ∀ (i : grid0.Coords) (k0_t1 : Fin k0_t1_loop.trips) (v1360 : IVec S16 32) (k0_hw443 : k0_chk443 i k0_t1 v1360), ∀ (k0_h1 : k0_cond1 i k0_t1 = 1#1), ∀ a x, ((![v1360] : Fin 1 → IVec S16 32) a x).toNat < S100000.size a := fun i k0_t1 v1360 k0_hw443 k0_h1 => k0_hw443 k0_h1

def k0_chk444 (i : grid0.Coords) (k0_t1 : Fin k0_t1_loop.trips) (v1361 : IVec S16 32) : Prop :=
  (∀ (k0_h1 : k0_cond1 i k0_t1 = 1#1), ∀ a x, ((![v1361] : Fin 1 → IVec S16 32) a x).toNat < S100000.size a)
instance k0_chk444.dec : ∀ (i : grid0.Coords) (k0_t1 : Fin k0_t1_loop.trips) (v1361 : IVec S16 32), Decidable (k0_chk444 i k0_t1 v1361) := fun i k0_t1 v1361 => decidable_of_iff' _ (Iff.of_eq (k0_chk444.eq_1 i k0_t1 v1361))
theorem k0_idx444_inb : ∀ (i : grid0.Coords) (k0_t1 : Fin k0_t1_loop.trips) (v1361 : IVec S16 32) (k0_hw444 : k0_chk444 i k0_t1 v1361), ∀ (k0_h1 : k0_cond1 i k0_t1 = 1#1), ∀ a x, ((![v1361] : Fin 1 → IVec S16 32) a x).toNat < S100000.size a := fun i k0_t1 v1361 k0_hw444 k0_h1 => k0_hw444 k0_h1

def k0_chk445 (i : grid0.Coords) (k0_t1 : Fin k0_t1_loop.trips) (v1362 : IVec S16 32) : Prop :=
  (∀ (k0_h1 : k0_cond1 i k0_t1 = 1#1), ∀ a x, ((![v1362] : Fin 1 → IVec S16 32) a x).toNat < S100000.size a)
instance k0_chk445.dec : ∀ (i : grid0.Coords) (k0_t1 : Fin k0_t1_loop.trips) (v1362 : IVec S16 32), Decidable (k0_chk445 i k0_t1 v1362) := fun i k0_t1 v1362 => decidable_of_iff' _ (Iff.of_eq (k0_chk445.eq_1 i k0_t1 v1362))
theorem k0_idx445_inb : ∀ (i : grid0.Coords) (k0_t1 : Fin k0_t1_loop.trips) (v1362 : IVec S16 32) (k0_hw445 : k0_chk445 i k0_t1 v1362), ∀ (k0_h1 : k0_cond1 i k0_t1 = 1#1), ∀ a x, ((![v1362] : Fin 1 → IVec S16 32) a x).toNat < S100000.size a := fun i k0_t1 v1362 k0_hw445 k0_h1 => k0_hw445 k0_h1

def k0_chk446 (i : grid0.Coords) (k0_t1 : Fin k0_t1_loop.trips) (v1363 : IVec S16 32) : Prop :=
  (∀ (k0_h1 : k0_cond1 i k0_t1 = 1#1), ∀ a x, ((![v1363] : Fin 1 → IVec S16 32) a x).toNat < S100000.size a)
instance k0_chk446.dec : ∀ (i : grid0.Coords) (k0_t1 : Fin k0_t1_loop.trips) (v1363 : IVec S16 32), Decidable (k0_chk446 i k0_t1 v1363) := fun i k0_t1 v1363 => decidable_of_iff' _ (Iff.of_eq (k0_chk446.eq_1 i k0_t1 v1363))
theorem k0_idx446_inb : ∀ (i : grid0.Coords) (k0_t1 : Fin k0_t1_loop.trips) (v1363 : IVec S16 32) (k0_hw446 : k0_chk446 i k0_t1 v1363), ∀ (k0_h1 : k0_cond1 i k0_t1 = 1#1), ∀ a x, ((![v1363] : Fin 1 → IVec S16 32) a x).toNat < S100000.size a := fun i k0_t1 v1363 k0_hw446 k0_h1 => k0_hw446 k0_h1

def k0_chk447 (i : grid0.Coords) (k0_t1 : Fin k0_t1_loop.trips) (v1364 : IVec S16 32) : Prop :=
  (∀ (k0_h1 : k0_cond1 i k0_t1 = 1#1), ∀ a x, ((![v1364] : Fin 1 → IVec S16 32) a x).toNat < S100000.size a)
instance k0_chk447.dec : ∀ (i : grid0.Coords) (k0_t1 : Fin k0_t1_loop.trips) (v1364 : IVec S16 32), Decidable (k0_chk447 i k0_t1 v1364) := fun i k0_t1 v1364 => decidable_of_iff' _ (Iff.of_eq (k0_chk447.eq_1 i k0_t1 v1364))
theorem k0_idx447_inb : ∀ (i : grid0.Coords) (k0_t1 : Fin k0_t1_loop.trips) (v1364 : IVec S16 32) (k0_hw447 : k0_chk447 i k0_t1 v1364), ∀ (k0_h1 : k0_cond1 i k0_t1 = 1#1), ∀ a x, ((![v1364] : Fin 1 → IVec S16 32) a x).toNat < S100000.size a := fun i k0_t1 v1364 k0_hw447 k0_h1 => k0_hw447 k0_h1

def k0_chk448 (i : grid0.Coords) (k0_t1 : Fin k0_t1_loop.trips) (v1365 : IVec S16 32) : Prop :=
  (∀ (k0_h1 : k0_cond1 i k0_t1 = 1#1), ∀ a x, ((![v1365] : Fin 1 → IVec S16 32) a x).toNat < S100000.size a)
instance k0_chk448.dec : ∀ (i : grid0.Coords) (k0_t1 : Fin k0_t1_loop.trips) (v1365 : IVec S16 32), Decidable (k0_chk448 i k0_t1 v1365) := fun i k0_t1 v1365 => decidable_of_iff' _ (Iff.of_eq (k0_chk448.eq_1 i k0_t1 v1365))
theorem k0_idx448_inb : ∀ (i : grid0.Coords) (k0_t1 : Fin k0_t1_loop.trips) (v1365 : IVec S16 32) (k0_hw448 : k0_chk448 i k0_t1 v1365), ∀ (k0_h1 : k0_cond1 i k0_t1 = 1#1), ∀ a x, ((![v1365] : Fin 1 → IVec S16 32) a x).toNat < S100000.size a := fun i k0_t1 v1365 k0_hw448 k0_h1 => k0_hw448 k0_h1

def k0_chk449 (i : grid0.Coords) (k0_t1 : Fin k0_t1_loop.trips) (v1382 : IVec S16 32) : Prop :=
  (∀ (k0_h1 : k0_cond1 i k0_t1 = 1#1), ∀ a x, ((![v1382] : Fin 1 → IVec S16 32) a x).toNat < S100000.size a)
instance k0_chk449.dec : ∀ (i : grid0.Coords) (k0_t1 : Fin k0_t1_loop.trips) (v1382 : IVec S16 32), Decidable (k0_chk449 i k0_t1 v1382) := fun i k0_t1 v1382 => decidable_of_iff' _ (Iff.of_eq (k0_chk449.eq_1 i k0_t1 v1382))
theorem k0_idx449_inb : ∀ (i : grid0.Coords) (k0_t1 : Fin k0_t1_loop.trips) (v1382 : IVec S16 32) (k0_hw449 : k0_chk449 i k0_t1 v1382), ∀ (k0_h1 : k0_cond1 i k0_t1 = 1#1), ∀ a x, ((![v1382] : Fin 1 → IVec S16 32) a x).toNat < S100000.size a := fun i k0_t1 v1382 k0_hw449 k0_h1 => k0_hw449 k0_h1

def k0_chk450 (i : grid0.Coords) (k0_t1 : Fin k0_t1_loop.trips) (v1383 : IVec S16 32) : Prop :=
  (∀ (k0_h1 : k0_cond1 i k0_t1 = 1#1), ∀ a x, ((![v1383] : Fin 1 → IVec S16 32) a x).toNat < S100000.size a)
instance k0_chk450.dec : ∀ (i : grid0.Coords) (k0_t1 : Fin k0_t1_loop.trips) (v1383 : IVec S16 32), Decidable (k0_chk450 i k0_t1 v1383) := fun i k0_t1 v1383 => decidable_of_iff' _ (Iff.of_eq (k0_chk450.eq_1 i k0_t1 v1383))
theorem k0_idx450_inb : ∀ (i : grid0.Coords) (k0_t1 : Fin k0_t1_loop.trips) (v1383 : IVec S16 32) (k0_hw450 : k0_chk450 i k0_t1 v1383), ∀ (k0_h1 : k0_cond1 i k0_t1 = 1#1), ∀ a x, ((![v1383] : Fin 1 → IVec S16 32) a x).toNat < S100000.size a := fun i k0_t1 v1383 k0_hw450 k0_h1 => k0_hw450 k0_h1

def k0_chk451 (i : grid0.Coords) (k0_t1 : Fin k0_t1_loop.trips) (v1384 : IVec S16 32) : Prop :=
  (∀ (k0_h1 : k0_cond1 i k0_t1 = 1#1), ∀ a x, ((![v1384] : Fin 1 → IVec S16 32) a x).toNat < S100000.size a)
instance k0_chk451.dec : ∀ (i : grid0.Coords) (k0_t1 : Fin k0_t1_loop.trips) (v1384 : IVec S16 32), Decidable (k0_chk451 i k0_t1 v1384) := fun i k0_t1 v1384 => decidable_of_iff' _ (Iff.of_eq (k0_chk451.eq_1 i k0_t1 v1384))
theorem k0_idx451_inb : ∀ (i : grid0.Coords) (k0_t1 : Fin k0_t1_loop.trips) (v1384 : IVec S16 32) (k0_hw451 : k0_chk451 i k0_t1 v1384), ∀ (k0_h1 : k0_cond1 i k0_t1 = 1#1), ∀ a x, ((![v1384] : Fin 1 → IVec S16 32) a x).toNat < S100000.size a := fun i k0_t1 v1384 k0_hw451 k0_h1 => k0_hw451 k0_h1

def k0_chk452 (i : grid0.Coords) (k0_t1 : Fin k0_t1_loop.trips) (v1385 : IVec S16 32) : Prop :=
  (∀ (k0_h1 : k0_cond1 i k0_t1 = 1#1), ∀ a x, ((![v1385] : Fin 1 → IVec S16 32) a x).toNat < S100000.size a)
instance k0_chk452.dec : ∀ (i : grid0.Coords) (k0_t1 : Fin k0_t1_loop.trips) (v1385 : IVec S16 32), Decidable (k0_chk452 i k0_t1 v1385) := fun i k0_t1 v1385 => decidable_of_iff' _ (Iff.of_eq (k0_chk452.eq_1 i k0_t1 v1385))
theorem k0_idx452_inb : ∀ (i : grid0.Coords) (k0_t1 : Fin k0_t1_loop.trips) (v1385 : IVec S16 32) (k0_hw452 : k0_chk452 i k0_t1 v1385), ∀ (k0_h1 : k0_cond1 i k0_t1 = 1#1), ∀ a x, ((![v1385] : Fin 1 → IVec S16 32) a x).toNat < S100000.size a := fun i k0_t1 v1385 k0_hw452 k0_h1 => k0_hw452 k0_h1

def k0_chk453 (i : grid0.Coords) (k0_t1 : Fin k0_t1_loop.trips) (v1386 : IVec S16 32) : Prop :=
  (∀ (k0_h1 : k0_cond1 i k0_t1 = 1#1), ∀ a x, ((![v1386] : Fin 1 → IVec S16 32) a x).toNat < S100000.size a)
instance k0_chk453.dec : ∀ (i : grid0.Coords) (k0_t1 : Fin k0_t1_loop.trips) (v1386 : IVec S16 32), Decidable (k0_chk453 i k0_t1 v1386) := fun i k0_t1 v1386 => decidable_of_iff' _ (Iff.of_eq (k0_chk453.eq_1 i k0_t1 v1386))
theorem k0_idx453_inb : ∀ (i : grid0.Coords) (k0_t1 : Fin k0_t1_loop.trips) (v1386 : IVec S16 32) (k0_hw453 : k0_chk453 i k0_t1 v1386), ∀ (k0_h1 : k0_cond1 i k0_t1 = 1#1), ∀ a x, ((![v1386] : Fin 1 → IVec S16 32) a x).toNat < S100000.size a := fun i k0_t1 v1386 k0_hw453 k0_h1 => k0_hw453 k0_h1

def k0_chk454 (i : grid0.Coords) (k0_t1 : Fin k0_t1_loop.trips) (v1387 : IVec S16 32) : Prop :=
  (∀ (k0_h1 : k0_cond1 i k0_t1 = 1#1), ∀ a x, ((![v1387] : Fin 1 → IVec S16 32) a x).toNat < S100000.size a)
instance k0_chk454.dec : ∀ (i : grid0.Coords) (k0_t1 : Fin k0_t1_loop.trips) (v1387 : IVec S16 32), Decidable (k0_chk454 i k0_t1 v1387) := fun i k0_t1 v1387 => decidable_of_iff' _ (Iff.of_eq (k0_chk454.eq_1 i k0_t1 v1387))
theorem k0_idx454_inb : ∀ (i : grid0.Coords) (k0_t1 : Fin k0_t1_loop.trips) (v1387 : IVec S16 32) (k0_hw454 : k0_chk454 i k0_t1 v1387), ∀ (k0_h1 : k0_cond1 i k0_t1 = 1#1), ∀ a x, ((![v1387] : Fin 1 → IVec S16 32) a x).toNat < S100000.size a := fun i k0_t1 v1387 k0_hw454 k0_h1 => k0_hw454 k0_h1

def k0_chk455 (i : grid0.Coords) (k0_t1 : Fin k0_t1_loop.trips) (v1388 : IVec S16 32) : Prop :=
  (∀ (k0_h1 : k0_cond1 i k0_t1 = 1#1), ∀ a x, ((![v1388] : Fin 1 → IVec S16 32) a x).toNat < S100000.size a)
instance k0_chk455.dec : ∀ (i : grid0.Coords) (k0_t1 : Fin k0_t1_loop.trips) (v1388 : IVec S16 32), Decidable (k0_chk455 i k0_t1 v1388) := fun i k0_t1 v1388 => decidable_of_iff' _ (Iff.of_eq (k0_chk455.eq_1 i k0_t1 v1388))
theorem k0_idx455_inb : ∀ (i : grid0.Coords) (k0_t1 : Fin k0_t1_loop.trips) (v1388 : IVec S16 32) (k0_hw455 : k0_chk455 i k0_t1 v1388), ∀ (k0_h1 : k0_cond1 i k0_t1 = 1#1), ∀ a x, ((![v1388] : Fin 1 → IVec S16 32) a x).toNat < S100000.size a := fun i k0_t1 v1388 k0_hw455 k0_h1 => k0_hw455 k0_h1

def k0_chk456 (i : grid0.Coords) (k0_t1 : Fin k0_t1_loop.trips) (v1389 : IVec S16 32) : Prop :=
  (∀ (k0_h1 : k0_cond1 i k0_t1 = 1#1), ∀ a x, ((![v1389] : Fin 1 → IVec S16 32) a x).toNat < S100000.size a)
instance k0_chk456.dec : ∀ (i : grid0.Coords) (k0_t1 : Fin k0_t1_loop.trips) (v1389 : IVec S16 32), Decidable (k0_chk456 i k0_t1 v1389) := fun i k0_t1 v1389 => decidable_of_iff' _ (Iff.of_eq (k0_chk456.eq_1 i k0_t1 v1389))
theorem k0_idx456_inb : ∀ (i : grid0.Coords) (k0_t1 : Fin k0_t1_loop.trips) (v1389 : IVec S16 32) (k0_hw456 : k0_chk456 i k0_t1 v1389), ∀ (k0_h1 : k0_cond1 i k0_t1 = 1#1), ∀ a x, ((![v1389] : Fin 1 → IVec S16 32) a x).toNat < S100000.size a := fun i k0_t1 v1389 k0_hw456 k0_h1 => k0_hw456 k0_h1

def k0_chk457 (i : grid0.Coords) (k0_t1 : Fin k0_t1_loop.trips) (v1406 : IVec S16 32) : Prop :=
  (∀ (k0_h1 : k0_cond1 i k0_t1 = 1#1), ∀ a x, ((![v1406] : Fin 1 → IVec S16 32) a x).toNat < S100000.size a)
instance k0_chk457.dec : ∀ (i : grid0.Coords) (k0_t1 : Fin k0_t1_loop.trips) (v1406 : IVec S16 32), Decidable (k0_chk457 i k0_t1 v1406) := fun i k0_t1 v1406 => decidable_of_iff' _ (Iff.of_eq (k0_chk457.eq_1 i k0_t1 v1406))
theorem k0_idx457_inb : ∀ (i : grid0.Coords) (k0_t1 : Fin k0_t1_loop.trips) (v1406 : IVec S16 32) (k0_hw457 : k0_chk457 i k0_t1 v1406), ∀ (k0_h1 : k0_cond1 i k0_t1 = 1#1), ∀ a x, ((![v1406] : Fin 1 → IVec S16 32) a x).toNat < S100000.size a := fun i k0_t1 v1406 k0_hw457 k0_h1 => k0_hw457 k0_h1

def k0_chk458 (i : grid0.Coords) (k0_t1 : Fin k0_t1_loop.trips) (v1407 : IVec S16 32) : Prop :=
  (∀ (k0_h1 : k0_cond1 i k0_t1 = 1#1), ∀ a x, ((![v1407] : Fin 1 → IVec S16 32) a x).toNat < S100000.size a)
instance k0_chk458.dec : ∀ (i : grid0.Coords) (k0_t1 : Fin k0_t1_loop.trips) (v1407 : IVec S16 32), Decidable (k0_chk458 i k0_t1 v1407) := fun i k0_t1 v1407 => decidable_of_iff' _ (Iff.of_eq (k0_chk458.eq_1 i k0_t1 v1407))
theorem k0_idx458_inb : ∀ (i : grid0.Coords) (k0_t1 : Fin k0_t1_loop.trips) (v1407 : IVec S16 32) (k0_hw458 : k0_chk458 i k0_t1 v1407), ∀ (k0_h1 : k0_cond1 i k0_t1 = 1#1), ∀ a x, ((![v1407] : Fin 1 → IVec S16 32) a x).toNat < S100000.size a := fun i k0_t1 v1407 k0_hw458 k0_h1 => k0_hw458 k0_h1

def k0_chk459 (i : grid0.Coords) (k0_t1 : Fin k0_t1_loop.trips) (v1408 : IVec S16 32) : Prop :=
  (∀ (k0_h1 : k0_cond1 i k0_t1 = 1#1), ∀ a x, ((![v1408] : Fin 1 → IVec S16 32) a x).toNat < S100000.size a)
instance k0_chk459.dec : ∀ (i : grid0.Coords) (k0_t1 : Fin k0_t1_loop.trips) (v1408 : IVec S16 32), Decidable (k0_chk459 i k0_t1 v1408) := fun i k0_t1 v1408 => decidable_of_iff' _ (Iff.of_eq (k0_chk459.eq_1 i k0_t1 v1408))
theorem k0_idx459_inb : ∀ (i : grid0.Coords) (k0_t1 : Fin k0_t1_loop.trips) (v1408 : IVec S16 32) (k0_hw459 : k0_chk459 i k0_t1 v1408), ∀ (k0_h1 : k0_cond1 i k0_t1 = 1#1), ∀ a x, ((![v1408] : Fin 1 → IVec S16 32) a x).toNat < S100000.size a := fun i k0_t1 v1408 k0_hw459 k0_h1 => k0_hw459 k0_h1

def k0_chk460 (i : grid0.Coords) (k0_t1 : Fin k0_t1_loop.trips) (v1409 : IVec S16 32) : Prop :=
  (∀ (k0_h1 : k0_cond1 i k0_t1 = 1#1), ∀ a x, ((![v1409] : Fin 1 → IVec S16 32) a x).toNat < S100000.size a)
instance k0_chk460.dec : ∀ (i : grid0.Coords) (k0_t1 : Fin k0_t1_loop.trips) (v1409 : IVec S16 32), Decidable (k0_chk460 i k0_t1 v1409) := fun i k0_t1 v1409 => decidable_of_iff' _ (Iff.of_eq (k0_chk460.eq_1 i k0_t1 v1409))
theorem k0_idx460_inb : ∀ (i : grid0.Coords) (k0_t1 : Fin k0_t1_loop.trips) (v1409 : IVec S16 32) (k0_hw460 : k0_chk460 i k0_t1 v1409), ∀ (k0_h1 : k0_cond1 i k0_t1 = 1#1), ∀ a x, ((![v1409] : Fin 1 → IVec S16 32) a x).toNat < S100000.size a := fun i k0_t1 v1409 k0_hw460 k0_h1 => k0_hw460 k0_h1

def k0_chk461 (i : grid0.Coords) (k0_t1 : Fin k0_t1_loop.trips) (v1410 : IVec S16 32) : Prop :=
  (∀ (k0_h1 : k0_cond1 i k0_t1 = 1#1), ∀ a x, ((![v1410] : Fin 1 → IVec S16 32) a x).toNat < S100000.size a)
instance k0_chk461.dec : ∀ (i : grid0.Coords) (k0_t1 : Fin k0_t1_loop.trips) (v1410 : IVec S16 32), Decidable (k0_chk461 i k0_t1 v1410) := fun i k0_t1 v1410 => decidable_of_iff' _ (Iff.of_eq (k0_chk461.eq_1 i k0_t1 v1410))
theorem k0_idx461_inb : ∀ (i : grid0.Coords) (k0_t1 : Fin k0_t1_loop.trips) (v1410 : IVec S16 32) (k0_hw461 : k0_chk461 i k0_t1 v1410), ∀ (k0_h1 : k0_cond1 i k0_t1 = 1#1), ∀ a x, ((![v1410] : Fin 1 → IVec S16 32) a x).toNat < S100000.size a := fun i k0_t1 v1410 k0_hw461 k0_h1 => k0_hw461 k0_h1

def k0_chk462 (i : grid0.Coords) (k0_t1 : Fin k0_t1_loop.trips) (v1411 : IVec S16 32) : Prop :=
  (∀ (k0_h1 : k0_cond1 i k0_t1 = 1#1), ∀ a x, ((![v1411] : Fin 1 → IVec S16 32) a x).toNat < S100000.size a)
instance k0_chk462.dec : ∀ (i : grid0.Coords) (k0_t1 : Fin k0_t1_loop.trips) (v1411 : IVec S16 32), Decidable (k0_chk462 i k0_t1 v1411) := fun i k0_t1 v1411 => decidable_of_iff' _ (Iff.of_eq (k0_chk462.eq_1 i k0_t1 v1411))
theorem k0_idx462_inb : ∀ (i : grid0.Coords) (k0_t1 : Fin k0_t1_loop.trips) (v1411 : IVec S16 32) (k0_hw462 : k0_chk462 i k0_t1 v1411), ∀ (k0_h1 : k0_cond1 i k0_t1 = 1#1), ∀ a x, ((![v1411] : Fin 1 → IVec S16 32) a x).toNat < S100000.size a := fun i k0_t1 v1411 k0_hw462 k0_h1 => k0_hw462 k0_h1

def k0_chk463 (i : grid0.Coords) (k0_t1 : Fin k0_t1_loop.trips) (v1412 : IVec S16 32) : Prop :=
  (∀ (k0_h1 : k0_cond1 i k0_t1 = 1#1), ∀ a x, ((![v1412] : Fin 1 → IVec S16 32) a x).toNat < S100000.size a)
instance k0_chk463.dec : ∀ (i : grid0.Coords) (k0_t1 : Fin k0_t1_loop.trips) (v1412 : IVec S16 32), Decidable (k0_chk463 i k0_t1 v1412) := fun i k0_t1 v1412 => decidable_of_iff' _ (Iff.of_eq (k0_chk463.eq_1 i k0_t1 v1412))
theorem k0_idx463_inb : ∀ (i : grid0.Coords) (k0_t1 : Fin k0_t1_loop.trips) (v1412 : IVec S16 32) (k0_hw463 : k0_chk463 i k0_t1 v1412), ∀ (k0_h1 : k0_cond1 i k0_t1 = 1#1), ∀ a x, ((![v1412] : Fin 1 → IVec S16 32) a x).toNat < S100000.size a := fun i k0_t1 v1412 k0_hw463 k0_h1 => k0_hw463 k0_h1

def k0_chk464 (i : grid0.Coords) (k0_t1 : Fin k0_t1_loop.trips) (v1413 : IVec S16 32) : Prop :=
  (∀ (k0_h1 : k0_cond1 i k0_t1 = 1#1), ∀ a x, ((![v1413] : Fin 1 → IVec S16 32) a x).toNat < S100000.size a)
instance k0_chk464.dec : ∀ (i : grid0.Coords) (k0_t1 : Fin k0_t1_loop.trips) (v1413 : IVec S16 32), Decidable (k0_chk464 i k0_t1 v1413) := fun i k0_t1 v1413 => decidable_of_iff' _ (Iff.of_eq (k0_chk464.eq_1 i k0_t1 v1413))
theorem k0_idx464_inb : ∀ (i : grid0.Coords) (k0_t1 : Fin k0_t1_loop.trips) (v1413 : IVec S16 32) (k0_hw464 : k0_chk464 i k0_t1 v1413), ∀ (k0_h1 : k0_cond1 i k0_t1 = 1#1), ∀ a x, ((![v1413] : Fin 1 → IVec S16 32) a x).toNat < S100000.size a := fun i k0_t1 v1413 k0_hw464 k0_h1 => k0_hw464 k0_h1

def k0_chk465 (i : grid0.Coords) (k0_t1 : Fin k0_t1_loop.trips) (v1430 : IVec S16 32) : Prop :=
  (∀ (k0_h1 : k0_cond1 i k0_t1 = 1#1), ∀ a x, ((![v1430] : Fin 1 → IVec S16 32) a x).toNat < S100000.size a)
instance k0_chk465.dec : ∀ (i : grid0.Coords) (k0_t1 : Fin k0_t1_loop.trips) (v1430 : IVec S16 32), Decidable (k0_chk465 i k0_t1 v1430) := fun i k0_t1 v1430 => decidable_of_iff' _ (Iff.of_eq (k0_chk465.eq_1 i k0_t1 v1430))
theorem k0_idx465_inb : ∀ (i : grid0.Coords) (k0_t1 : Fin k0_t1_loop.trips) (v1430 : IVec S16 32) (k0_hw465 : k0_chk465 i k0_t1 v1430), ∀ (k0_h1 : k0_cond1 i k0_t1 = 1#1), ∀ a x, ((![v1430] : Fin 1 → IVec S16 32) a x).toNat < S100000.size a := fun i k0_t1 v1430 k0_hw465 k0_h1 => k0_hw465 k0_h1

def k0_chk466 (i : grid0.Coords) (k0_t1 : Fin k0_t1_loop.trips) (v1431 : IVec S16 32) : Prop :=
  (∀ (k0_h1 : k0_cond1 i k0_t1 = 1#1), ∀ a x, ((![v1431] : Fin 1 → IVec S16 32) a x).toNat < S100000.size a)
instance k0_chk466.dec : ∀ (i : grid0.Coords) (k0_t1 : Fin k0_t1_loop.trips) (v1431 : IVec S16 32), Decidable (k0_chk466 i k0_t1 v1431) := fun i k0_t1 v1431 => decidable_of_iff' _ (Iff.of_eq (k0_chk466.eq_1 i k0_t1 v1431))
theorem k0_idx466_inb : ∀ (i : grid0.Coords) (k0_t1 : Fin k0_t1_loop.trips) (v1431 : IVec S16 32) (k0_hw466 : k0_chk466 i k0_t1 v1431), ∀ (k0_h1 : k0_cond1 i k0_t1 = 1#1), ∀ a x, ((![v1431] : Fin 1 → IVec S16 32) a x).toNat < S100000.size a := fun i k0_t1 v1431 k0_hw466 k0_h1 => k0_hw466 k0_h1

def k0_chk467 (i : grid0.Coords) (k0_t1 : Fin k0_t1_loop.trips) (v1432 : IVec S16 32) : Prop :=
  (∀ (k0_h1 : k0_cond1 i k0_t1 = 1#1), ∀ a x, ((![v1432] : Fin 1 → IVec S16 32) a x).toNat < S100000.size a)
instance k0_chk467.dec : ∀ (i : grid0.Coords) (k0_t1 : Fin k0_t1_loop.trips) (v1432 : IVec S16 32), Decidable (k0_chk467 i k0_t1 v1432) := fun i k0_t1 v1432 => decidable_of_iff' _ (Iff.of_eq (k0_chk467.eq_1 i k0_t1 v1432))
theorem k0_idx467_inb : ∀ (i : grid0.Coords) (k0_t1 : Fin k0_t1_loop.trips) (v1432 : IVec S16 32) (k0_hw467 : k0_chk467 i k0_t1 v1432), ∀ (k0_h1 : k0_cond1 i k0_t1 = 1#1), ∀ a x, ((![v1432] : Fin 1 → IVec S16 32) a x).toNat < S100000.size a := fun i k0_t1 v1432 k0_hw467 k0_h1 => k0_hw467 k0_h1

def k0_chk468 (i : grid0.Coords) (k0_t1 : Fin k0_t1_loop.trips) (v1433 : IVec S16 32) : Prop :=
  (∀ (k0_h1 : k0_cond1 i k0_t1 = 1#1), ∀ a x, ((![v1433] : Fin 1 → IVec S16 32) a x).toNat < S100000.size a)
instance k0_chk468.dec : ∀ (i : grid0.Coords) (k0_t1 : Fin k0_t1_loop.trips) (v1433 : IVec S16 32), Decidable (k0_chk468 i k0_t1 v1433) := fun i k0_t1 v1433 => decidable_of_iff' _ (Iff.of_eq (k0_chk468.eq_1 i k0_t1 v1433))
theorem k0_idx468_inb : ∀ (i : grid0.Coords) (k0_t1 : Fin k0_t1_loop.trips) (v1433 : IVec S16 32) (k0_hw468 : k0_chk468 i k0_t1 v1433), ∀ (k0_h1 : k0_cond1 i k0_t1 = 1#1), ∀ a x, ((![v1433] : Fin 1 → IVec S16 32) a x).toNat < S100000.size a := fun i k0_t1 v1433 k0_hw468 k0_h1 => k0_hw468 k0_h1

def k0_chk469 (i : grid0.Coords) (k0_t1 : Fin k0_t1_loop.trips) (v1434 : IVec S16 32) : Prop :=
  (∀ (k0_h1 : k0_cond1 i k0_t1 = 1#1), ∀ a x, ((![v1434] : Fin 1 → IVec S16 32) a x).toNat < S100000.size a)
instance k0_chk469.dec : ∀ (i : grid0.Coords) (k0_t1 : Fin k0_t1_loop.trips) (v1434 : IVec S16 32), Decidable (k0_chk469 i k0_t1 v1434) := fun i k0_t1 v1434 => decidable_of_iff' _ (Iff.of_eq (k0_chk469.eq_1 i k0_t1 v1434))
theorem k0_idx469_inb : ∀ (i : grid0.Coords) (k0_t1 : Fin k0_t1_loop.trips) (v1434 : IVec S16 32) (k0_hw469 : k0_chk469 i k0_t1 v1434), ∀ (k0_h1 : k0_cond1 i k0_t1 = 1#1), ∀ a x, ((![v1434] : Fin 1 → IVec S16 32) a x).toNat < S100000.size a := fun i k0_t1 v1434 k0_hw469 k0_h1 => k0_hw469 k0_h1

def k0_chk470 (i : grid0.Coords) (k0_t1 : Fin k0_t1_loop.trips) (v1435 : IVec S16 32) : Prop :=
  (∀ (k0_h1 : k0_cond1 i k0_t1 = 1#1), ∀ a x, ((![v1435] : Fin 1 → IVec S16 32) a x).toNat < S100000.size a)
instance k0_chk470.dec : ∀ (i : grid0.Coords) (k0_t1 : Fin k0_t1_loop.trips) (v1435 : IVec S16 32), Decidable (k0_chk470 i k0_t1 v1435) := fun i k0_t1 v1435 => decidable_of_iff' _ (Iff.of_eq (k0_chk470.eq_1 i k0_t1 v1435))
theorem k0_idx470_inb : ∀ (i : grid0.Coords) (k0_t1 : Fin k0_t1_loop.trips) (v1435 : IVec S16 32) (k0_hw470 : k0_chk470 i k0_t1 v1435), ∀ (k0_h1 : k0_cond1 i k0_t1 = 1#1), ∀ a x, ((![v1435] : Fin 1 → IVec S16 32) a x).toNat < S100000.size a := fun i k0_t1 v1435 k0_hw470 k0_h1 => k0_hw470 k0_h1

def k0_chk471 (i : grid0.Coords) (k0_t1 : Fin k0_t1_loop.trips) (v1436 : IVec S16 32) : Prop :=
  (∀ (k0_h1 : k0_cond1 i k0_t1 = 1#1), ∀ a x, ((![v1436] : Fin 1 → IVec S16 32) a x).toNat < S100000.size a)
instance k0_chk471.dec : ∀ (i : grid0.Coords) (k0_t1 : Fin k0_t1_loop.trips) (v1436 : IVec S16 32), Decidable (k0_chk471 i k0_t1 v1436) := fun i k0_t1 v1436 => decidable_of_iff' _ (Iff.of_eq (k0_chk471.eq_1 i k0_t1 v1436))
theorem k0_idx471_inb : ∀ (i : grid0.Coords) (k0_t1 : Fin k0_t1_loop.trips) (v1436 : IVec S16 32) (k0_hw471 : k0_chk471 i k0_t1 v1436), ∀ (k0_h1 : k0_cond1 i k0_t1 = 1#1), ∀ a x, ((![v1436] : Fin 1 → IVec S16 32) a x).toNat < S100000.size a := fun i k0_t1 v1436 k0_hw471 k0_h1 => k0_hw471 k0_h1

def k0_chk472 (i : grid0.Coords) (k0_t1 : Fin k0_t1_loop.trips) (v1437 : IVec S16 32) : Prop :=
  (∀ (k0_h1 : k0_cond1 i k0_t1 = 1#1), ∀ a x, ((![v1437] : Fin 1 → IVec S16 32) a x).toNat < S100000.size a)
instance k0_chk472.dec : ∀ (i : grid0.Coords) (k0_t1 : Fin k0_t1_loop.trips) (v1437 : IVec S16 32), Decidable (k0_chk472 i k0_t1 v1437) := fun i k0_t1 v1437 => decidable_of_iff' _ (Iff.of_eq (k0_chk472.eq_1 i k0_t1 v1437))
theorem k0_idx472_inb : ∀ (i : grid0.Coords) (k0_t1 : Fin k0_t1_loop.trips) (v1437 : IVec S16 32) (k0_hw472 : k0_chk472 i k0_t1 v1437), ∀ (k0_h1 : k0_cond1 i k0_t1 = 1#1), ∀ a x, ((![v1437] : Fin 1 → IVec S16 32) a x).toNat < S100000.size a := fun i k0_t1 v1437 k0_hw472 k0_h1 => k0_hw472 k0_h1

def k0_chk473 (i : grid0.Coords) (k0_t1 : Fin k0_t1_loop.trips) (v1454 : IVec S16 32) : Prop :=
  (∀ (k0_h1 : k0_cond1 i k0_t1 = 1#1), ∀ a x, ((![v1454] : Fin 1 → IVec S16 32) a x).toNat < S100000.size a)
instance k0_chk473.dec : ∀ (i : grid0.Coords) (k0_t1 : Fin k0_t1_loop.trips) (v1454 : IVec S16 32), Decidable (k0_chk473 i k0_t1 v1454) := fun i k0_t1 v1454 => decidable_of_iff' _ (Iff.of_eq (k0_chk473.eq_1 i k0_t1 v1454))
theorem k0_idx473_inb : ∀ (i : grid0.Coords) (k0_t1 : Fin k0_t1_loop.trips) (v1454 : IVec S16 32) (k0_hw473 : k0_chk473 i k0_t1 v1454), ∀ (k0_h1 : k0_cond1 i k0_t1 = 1#1), ∀ a x, ((![v1454] : Fin 1 → IVec S16 32) a x).toNat < S100000.size a := fun i k0_t1 v1454 k0_hw473 k0_h1 => k0_hw473 k0_h1

def k0_chk474 (i : grid0.Coords) (k0_t1 : Fin k0_t1_loop.trips) (v1455 : IVec S16 32) : Prop :=
  (∀ (k0_h1 : k0_cond1 i k0_t1 = 1#1), ∀ a x, ((![v1455] : Fin 1 → IVec S16 32) a x).toNat < S100000.size a)
instance k0_chk474.dec : ∀ (i : grid0.Coords) (k0_t1 : Fin k0_t1_loop.trips) (v1455 : IVec S16 32), Decidable (k0_chk474 i k0_t1 v1455) := fun i k0_t1 v1455 => decidable_of_iff' _ (Iff.of_eq (k0_chk474.eq_1 i k0_t1 v1455))
theorem k0_idx474_inb : ∀ (i : grid0.Coords) (k0_t1 : Fin k0_t1_loop.trips) (v1455 : IVec S16 32) (k0_hw474 : k0_chk474 i k0_t1 v1455), ∀ (k0_h1 : k0_cond1 i k0_t1 = 1#1), ∀ a x, ((![v1455] : Fin 1 → IVec S16 32) a x).toNat < S100000.size a := fun i k0_t1 v1455 k0_hw474 k0_h1 => k0_hw474 k0_h1

def k0_chk475 (i : grid0.Coords) (k0_t1 : Fin k0_t1_loop.trips) (v1456 : IVec S16 32) : Prop :=
  (∀ (k0_h1 : k0_cond1 i k0_t1 = 1#1), ∀ a x, ((![v1456] : Fin 1 → IVec S16 32) a x).toNat < S100000.size a)
instance k0_chk475.dec : ∀ (i : grid0.Coords) (k0_t1 : Fin k0_t1_loop.trips) (v1456 : IVec S16 32), Decidable (k0_chk475 i k0_t1 v1456) := fun i k0_t1 v1456 => decidable_of_iff' _ (Iff.of_eq (k0_chk475.eq_1 i k0_t1 v1456))
theorem k0_idx475_inb : ∀ (i : grid0.Coords) (k0_t1 : Fin k0_t1_loop.trips) (v1456 : IVec S16 32) (k0_hw475 : k0_chk475 i k0_t1 v1456), ∀ (k0_h1 : k0_cond1 i k0_t1 = 1#1), ∀ a x, ((![v1456] : Fin 1 → IVec S16 32) a x).toNat < S100000.size a := fun i k0_t1 v1456 k0_hw475 k0_h1 => k0_hw475 k0_h1

def k0_chk476 (i : grid0.Coords) (k0_t1 : Fin k0_t1_loop.trips) (v1457 : IVec S16 32) : Prop :=
  (∀ (k0_h1 : k0_cond1 i k0_t1 = 1#1), ∀ a x, ((![v1457] : Fin 1 → IVec S16 32) a x).toNat < S100000.size a)
instance k0_chk476.dec : ∀ (i : grid0.Coords) (k0_t1 : Fin k0_t1_loop.trips) (v1457 : IVec S16 32), Decidable (k0_chk476 i k0_t1 v1457) := fun i k0_t1 v1457 => decidable_of_iff' _ (Iff.of_eq (k0_chk476.eq_1 i k0_t1 v1457))
theorem k0_idx476_inb : ∀ (i : grid0.Coords) (k0_t1 : Fin k0_t1_loop.trips) (v1457 : IVec S16 32) (k0_hw476 : k0_chk476 i k0_t1 v1457), ∀ (k0_h1 : k0_cond1 i k0_t1 = 1#1), ∀ a x, ((![v1457] : Fin 1 → IVec S16 32) a x).toNat < S100000.size a := fun i k0_t1 v1457 k0_hw476 k0_h1 => k0_hw476 k0_h1

def k0_chk477 (i : grid0.Coords) (k0_t1 : Fin k0_t1_loop.trips) (v1458 : IVec S16 32) : Prop :=
  (∀ (k0_h1 : k0_cond1 i k0_t1 = 1#1), ∀ a x, ((![v1458] : Fin 1 → IVec S16 32) a x).toNat < S100000.size a)
instance k0_chk477.dec : ∀ (i : grid0.Coords) (k0_t1 : Fin k0_t1_loop.trips) (v1458 : IVec S16 32), Decidable (k0_chk477 i k0_t1 v1458) := fun i k0_t1 v1458 => decidable_of_iff' _ (Iff.of_eq (k0_chk477.eq_1 i k0_t1 v1458))
theorem k0_idx477_inb : ∀ (i : grid0.Coords) (k0_t1 : Fin k0_t1_loop.trips) (v1458 : IVec S16 32) (k0_hw477 : k0_chk477 i k0_t1 v1458), ∀ (k0_h1 : k0_cond1 i k0_t1 = 1#1), ∀ a x, ((![v1458] : Fin 1 → IVec S16 32) a x).toNat < S100000.size a := fun i k0_t1 v1458 k0_hw477 k0_h1 => k0_hw477 k0_h1

def k0_chk478 (i : grid0.Coords) (k0_t1 : Fin k0_t1_loop.trips) (v1459 : IVec S16 32) : Prop :=
  (∀ (k0_h1 : k0_cond1 i k0_t1 = 1#1), ∀ a x, ((![v1459] : Fin 1 → IVec S16 32) a x).toNat < S100000.size a)
instance k0_chk478.dec : ∀ (i : grid0.Coords) (k0_t1 : Fin k0_t1_loop.trips) (v1459 : IVec S16 32), Decidable (k0_chk478 i k0_t1 v1459) := fun i k0_t1 v1459 => decidable_of_iff' _ (Iff.of_eq (k0_chk478.eq_1 i k0_t1 v1459))
theorem k0_idx478_inb : ∀ (i : grid0.Coords) (k0_t1 : Fin k0_t1_loop.trips) (v1459 : IVec S16 32) (k0_hw478 : k0_chk478 i k0_t1 v1459), ∀ (k0_h1 : k0_cond1 i k0_t1 = 1#1), ∀ a x, ((![v1459] : Fin 1 → IVec S16 32) a x).toNat < S100000.size a := fun i k0_t1 v1459 k0_hw478 k0_h1 => k0_hw478 k0_h1

def k0_chk479 (i : grid0.Coords) (k0_t1 : Fin k0_t1_loop.trips) (v1460 : IVec S16 32) : Prop :=
  (∀ (k0_h1 : k0_cond1 i k0_t1 = 1#1), ∀ a x, ((![v1460] : Fin 1 → IVec S16 32) a x).toNat < S100000.size a)
instance k0_chk479.dec : ∀ (i : grid0.Coords) (k0_t1 : Fin k0_t1_loop.trips) (v1460 : IVec S16 32), Decidable (k0_chk479 i k0_t1 v1460) := fun i k0_t1 v1460 => decidable_of_iff' _ (Iff.of_eq (k0_chk479.eq_1 i k0_t1 v1460))
theorem k0_idx479_inb : ∀ (i : grid0.Coords) (k0_t1 : Fin k0_t1_loop.trips) (v1460 : IVec S16 32) (k0_hw479 : k0_chk479 i k0_t1 v1460), ∀ (k0_h1 : k0_cond1 i k0_t1 = 1#1), ∀ a x, ((![v1460] : Fin 1 → IVec S16 32) a x).toNat < S100000.size a := fun i k0_t1 v1460 k0_hw479 k0_h1 => k0_hw479 k0_h1

def k0_chk480 (i : grid0.Coords) (k0_t1 : Fin k0_t1_loop.trips) (v1461 : IVec S16 32) : Prop :=
  (∀ (k0_h1 : k0_cond1 i k0_t1 = 1#1), ∀ a x, ((![v1461] : Fin 1 → IVec S16 32) a x).toNat < S100000.size a)
instance k0_chk480.dec : ∀ (i : grid0.Coords) (k0_t1 : Fin k0_t1_loop.trips) (v1461 : IVec S16 32), Decidable (k0_chk480 i k0_t1 v1461) := fun i k0_t1 v1461 => decidable_of_iff' _ (Iff.of_eq (k0_chk480.eq_1 i k0_t1 v1461))
theorem k0_idx480_inb : ∀ (i : grid0.Coords) (k0_t1 : Fin k0_t1_loop.trips) (v1461 : IVec S16 32) (k0_hw480 : k0_chk480 i k0_t1 v1461), ∀ (k0_h1 : k0_cond1 i k0_t1 = 1#1), ∀ a x, ((![v1461] : Fin 1 → IVec S16 32) a x).toNat < S100000.size a := fun i k0_t1 v1461 k0_hw480 k0_h1 => k0_hw480 k0_h1

def k0_chk481 (i : grid0.Coords) (k0_t1 : Fin k0_t1_loop.trips) (v1478 : IVec S16 32) : Prop :=
  (∀ (k0_h1 : k0_cond1 i k0_t1 = 1#1), ∀ a x, ((![v1478] : Fin 1 → IVec S16 32) a x).toNat < S100000.size a)
instance k0_chk481.dec : ∀ (i : grid0.Coords) (k0_t1 : Fin k0_t1_loop.trips) (v1478 : IVec S16 32), Decidable (k0_chk481 i k0_t1 v1478) := fun i k0_t1 v1478 => decidable_of_iff' _ (Iff.of_eq (k0_chk481.eq_1 i k0_t1 v1478))
theorem k0_idx481_inb : ∀ (i : grid0.Coords) (k0_t1 : Fin k0_t1_loop.trips) (v1478 : IVec S16 32) (k0_hw481 : k0_chk481 i k0_t1 v1478), ∀ (k0_h1 : k0_cond1 i k0_t1 = 1#1), ∀ a x, ((![v1478] : Fin 1 → IVec S16 32) a x).toNat < S100000.size a := fun i k0_t1 v1478 k0_hw481 k0_h1 => k0_hw481 k0_h1

def k0_chk482 (i : grid0.Coords) (k0_t1 : Fin k0_t1_loop.trips) (v1479 : IVec S16 32) : Prop :=
  (∀ (k0_h1 : k0_cond1 i k0_t1 = 1#1), ∀ a x, ((![v1479] : Fin 1 → IVec S16 32) a x).toNat < S100000.size a)
instance k0_chk482.dec : ∀ (i : grid0.Coords) (k0_t1 : Fin k0_t1_loop.trips) (v1479 : IVec S16 32), Decidable (k0_chk482 i k0_t1 v1479) := fun i k0_t1 v1479 => decidable_of_iff' _ (Iff.of_eq (k0_chk482.eq_1 i k0_t1 v1479))
theorem k0_idx482_inb : ∀ (i : grid0.Coords) (k0_t1 : Fin k0_t1_loop.trips) (v1479 : IVec S16 32) (k0_hw482 : k0_chk482 i k0_t1 v1479), ∀ (k0_h1 : k0_cond1 i k0_t1 = 1#1), ∀ a x, ((![v1479] : Fin 1 → IVec S16 32) a x).toNat < S100000.size a := fun i k0_t1 v1479 k0_hw482 k0_h1 => k0_hw482 k0_h1

def k0_chk483 (i : grid0.Coords) (k0_t1 : Fin k0_t1_loop.trips) (v1480 : IVec S16 32) : Prop :=
  (∀ (k0_h1 : k0_cond1 i k0_t1 = 1#1), ∀ a x, ((![v1480] : Fin 1 → IVec S16 32) a x).toNat < S100000.size a)
instance k0_chk483.dec : ∀ (i : grid0.Coords) (k0_t1 : Fin k0_t1_loop.trips) (v1480 : IVec S16 32), Decidable (k0_chk483 i k0_t1 v1480) := fun i k0_t1 v1480 => decidable_of_iff' _ (Iff.of_eq (k0_chk483.eq_1 i k0_t1 v1480))
theorem k0_idx483_inb : ∀ (i : grid0.Coords) (k0_t1 : Fin k0_t1_loop.trips) (v1480 : IVec S16 32) (k0_hw483 : k0_chk483 i k0_t1 v1480), ∀ (k0_h1 : k0_cond1 i k0_t1 = 1#1), ∀ a x, ((![v1480] : Fin 1 → IVec S16 32) a x).toNat < S100000.size a := fun i k0_t1 v1480 k0_hw483 k0_h1 => k0_hw483 k0_h1

def k0_chk484 (i : grid0.Coords) (k0_t1 : Fin k0_t1_loop.trips) (v1481 : IVec S16 32) : Prop :=
  (∀ (k0_h1 : k0_cond1 i k0_t1 = 1#1), ∀ a x, ((![v1481] : Fin 1 → IVec S16 32) a x).toNat < S100000.size a)
instance k0_chk484.dec : ∀ (i : grid0.Coords) (k0_t1 : Fin k0_t1_loop.trips) (v1481 : IVec S16 32), Decidable (k0_chk484 i k0_t1 v1481) := fun i k0_t1 v1481 => decidable_of_iff' _ (Iff.of_eq (k0_chk484.eq_1 i k0_t1 v1481))
theorem k0_idx484_inb : ∀ (i : grid0.Coords) (k0_t1 : Fin k0_t1_loop.trips) (v1481 : IVec S16 32) (k0_hw484 : k0_chk484 i k0_t1 v1481), ∀ (k0_h1 : k0_cond1 i k0_t1 = 1#1), ∀ a x, ((![v1481] : Fin 1 → IVec S16 32) a x).toNat < S100000.size a := fun i k0_t1 v1481 k0_hw484 k0_h1 => k0_hw484 k0_h1

def k0_chk485 (i : grid0.Coords) (k0_t1 : Fin k0_t1_loop.trips) (v1482 : IVec S16 32) : Prop :=
  (∀ (k0_h1 : k0_cond1 i k0_t1 = 1#1), ∀ a x, ((![v1482] : Fin 1 → IVec S16 32) a x).toNat < S100000.size a)
instance k0_chk485.dec : ∀ (i : grid0.Coords) (k0_t1 : Fin k0_t1_loop.trips) (v1482 : IVec S16 32), Decidable (k0_chk485 i k0_t1 v1482) := fun i k0_t1 v1482 => decidable_of_iff' _ (Iff.of_eq (k0_chk485.eq_1 i k0_t1 v1482))
theorem k0_idx485_inb : ∀ (i : grid0.Coords) (k0_t1 : Fin k0_t1_loop.trips) (v1482 : IVec S16 32) (k0_hw485 : k0_chk485 i k0_t1 v1482), ∀ (k0_h1 : k0_cond1 i k0_t1 = 1#1), ∀ a x, ((![v1482] : Fin 1 → IVec S16 32) a x).toNat < S100000.size a := fun i k0_t1 v1482 k0_hw485 k0_h1 => k0_hw485 k0_h1

def k0_chk486 (i : grid0.Coords) (k0_t1 : Fin k0_t1_loop.trips) (v1483 : IVec S16 32) : Prop :=
  (∀ (k0_h1 : k0_cond1 i k0_t1 = 1#1), ∀ a x, ((![v1483] : Fin 1 → IVec S16 32) a x).toNat < S100000.size a)
instance k0_chk486.dec : ∀ (i : grid0.Coords) (k0_t1 : Fin k0_t1_loop.trips) (v1483 : IVec S16 32), Decidable (k0_chk486 i k0_t1 v1483) := fun i k0_t1 v1483 => decidable_of_iff' _ (Iff.of_eq (k0_chk486.eq_1 i k0_t1 v1483))
theorem k0_idx486_inb : ∀ (i : grid0.Coords) (k0_t1 : Fin k0_t1_loop.trips) (v1483 : IVec S16 32) (k0_hw486 : k0_chk486 i k0_t1 v1483), ∀ (k0_h1 : k0_cond1 i k0_t1 = 1#1), ∀ a x, ((![v1483] : Fin 1 → IVec S16 32) a x).toNat < S100000.size a := fun i k0_t1 v1483 k0_hw486 k0_h1 => k0_hw486 k0_h1

def k0_chk487 (i : grid0.Coords) (k0_t1 : Fin k0_t1_loop.trips) (v1484 : IVec S16 32) : Prop :=
  (∀ (k0_h1 : k0_cond1 i k0_t1 = 1#1), ∀ a x, ((![v1484] : Fin 1 → IVec S16 32) a x).toNat < S100000.size a)
instance k0_chk487.dec : ∀ (i : grid0.Coords) (k0_t1 : Fin k0_t1_loop.trips) (v1484 : IVec S16 32), Decidable (k0_chk487 i k0_t1 v1484) := fun i k0_t1 v1484 => decidable_of_iff' _ (Iff.of_eq (k0_chk487.eq_1 i k0_t1 v1484))
theorem k0_idx487_inb : ∀ (i : grid0.Coords) (k0_t1 : Fin k0_t1_loop.trips) (v1484 : IVec S16 32) (k0_hw487 : k0_chk487 i k0_t1 v1484), ∀ (k0_h1 : k0_cond1 i k0_t1 = 1#1), ∀ a x, ((![v1484] : Fin 1 → IVec S16 32) a x).toNat < S100000.size a := fun i k0_t1 v1484 k0_hw487 k0_h1 => k0_hw487 k0_h1

def k0_chk488 (i : grid0.Coords) (k0_t1 : Fin k0_t1_loop.trips) (v1485 : IVec S16 32) : Prop :=
  (∀ (k0_h1 : k0_cond1 i k0_t1 = 1#1), ∀ a x, ((![v1485] : Fin 1 → IVec S16 32) a x).toNat < S100000.size a)
instance k0_chk488.dec : ∀ (i : grid0.Coords) (k0_t1 : Fin k0_t1_loop.trips) (v1485 : IVec S16 32), Decidable (k0_chk488 i k0_t1 v1485) := fun i k0_t1 v1485 => decidable_of_iff' _ (Iff.of_eq (k0_chk488.eq_1 i k0_t1 v1485))
theorem k0_idx488_inb : ∀ (i : grid0.Coords) (k0_t1 : Fin k0_t1_loop.trips) (v1485 : IVec S16 32) (k0_hw488 : k0_chk488 i k0_t1 v1485), ∀ (k0_h1 : k0_cond1 i k0_t1 = 1#1), ∀ a x, ((![v1485] : Fin 1 → IVec S16 32) a x).toNat < S100000.size a := fun i k0_t1 v1485 k0_hw488 k0_h1 => k0_hw488 k0_h1

def k0_chk489 (i : grid0.Coords) (k0_t1 : Fin k0_t1_loop.trips) (v1502 : IVec S16 32) : Prop :=
  (∀ (k0_h1 : k0_cond1 i k0_t1 = 1#1), ∀ a x, ((![v1502] : Fin 1 → IVec S16 32) a x).toNat < S100000.size a)
instance k0_chk489.dec : ∀ (i : grid0.Coords) (k0_t1 : Fin k0_t1_loop.trips) (v1502 : IVec S16 32), Decidable (k0_chk489 i k0_t1 v1502) := fun i k0_t1 v1502 => decidable_of_iff' _ (Iff.of_eq (k0_chk489.eq_1 i k0_t1 v1502))
theorem k0_idx489_inb : ∀ (i : grid0.Coords) (k0_t1 : Fin k0_t1_loop.trips) (v1502 : IVec S16 32) (k0_hw489 : k0_chk489 i k0_t1 v1502), ∀ (k0_h1 : k0_cond1 i k0_t1 = 1#1), ∀ a x, ((![v1502] : Fin 1 → IVec S16 32) a x).toNat < S100000.size a := fun i k0_t1 v1502 k0_hw489 k0_h1 => k0_hw489 k0_h1

def k0_chk490 (i : grid0.Coords) (k0_t1 : Fin k0_t1_loop.trips) (v1503 : IVec S16 32) : Prop :=
  (∀ (k0_h1 : k0_cond1 i k0_t1 = 1#1), ∀ a x, ((![v1503] : Fin 1 → IVec S16 32) a x).toNat < S100000.size a)
instance k0_chk490.dec : ∀ (i : grid0.Coords) (k0_t1 : Fin k0_t1_loop.trips) (v1503 : IVec S16 32), Decidable (k0_chk490 i k0_t1 v1503) := fun i k0_t1 v1503 => decidable_of_iff' _ (Iff.of_eq (k0_chk490.eq_1 i k0_t1 v1503))
theorem k0_idx490_inb : ∀ (i : grid0.Coords) (k0_t1 : Fin k0_t1_loop.trips) (v1503 : IVec S16 32) (k0_hw490 : k0_chk490 i k0_t1 v1503), ∀ (k0_h1 : k0_cond1 i k0_t1 = 1#1), ∀ a x, ((![v1503] : Fin 1 → IVec S16 32) a x).toNat < S100000.size a := fun i k0_t1 v1503 k0_hw490 k0_h1 => k0_hw490 k0_h1

def k0_chk491 (i : grid0.Coords) (k0_t1 : Fin k0_t1_loop.trips) (v1504 : IVec S16 32) : Prop :=
  (∀ (k0_h1 : k0_cond1 i k0_t1 = 1#1), ∀ a x, ((![v1504] : Fin 1 → IVec S16 32) a x).toNat < S100000.size a)
instance k0_chk491.dec : ∀ (i : grid0.Coords) (k0_t1 : Fin k0_t1_loop.trips) (v1504 : IVec S16 32), Decidable (k0_chk491 i k0_t1 v1504) := fun i k0_t1 v1504 => decidable_of_iff' _ (Iff.of_eq (k0_chk491.eq_1 i k0_t1 v1504))
theorem k0_idx491_inb : ∀ (i : grid0.Coords) (k0_t1 : Fin k0_t1_loop.trips) (v1504 : IVec S16 32) (k0_hw491 : k0_chk491 i k0_t1 v1504), ∀ (k0_h1 : k0_cond1 i k0_t1 = 1#1), ∀ a x, ((![v1504] : Fin 1 → IVec S16 32) a x).toNat < S100000.size a := fun i k0_t1 v1504 k0_hw491 k0_h1 => k0_hw491 k0_h1

def k0_chk492 (i : grid0.Coords) (k0_t1 : Fin k0_t1_loop.trips) (v1505 : IVec S16 32) : Prop :=
  (∀ (k0_h1 : k0_cond1 i k0_t1 = 1#1), ∀ a x, ((![v1505] : Fin 1 → IVec S16 32) a x).toNat < S100000.size a)
instance k0_chk492.dec : ∀ (i : grid0.Coords) (k0_t1 : Fin k0_t1_loop.trips) (v1505 : IVec S16 32), Decidable (k0_chk492 i k0_t1 v1505) := fun i k0_t1 v1505 => decidable_of_iff' _ (Iff.of_eq (k0_chk492.eq_1 i k0_t1 v1505))
theorem k0_idx492_inb : ∀ (i : grid0.Coords) (k0_t1 : Fin k0_t1_loop.trips) (v1505 : IVec S16 32) (k0_hw492 : k0_chk492 i k0_t1 v1505), ∀ (k0_h1 : k0_cond1 i k0_t1 = 1#1), ∀ a x, ((![v1505] : Fin 1 → IVec S16 32) a x).toNat < S100000.size a := fun i k0_t1 v1505 k0_hw492 k0_h1 => k0_hw492 k0_h1

def k0_chk493 (i : grid0.Coords) (k0_t1 : Fin k0_t1_loop.trips) (v1506 : IVec S16 32) : Prop :=
  (∀ (k0_h1 : k0_cond1 i k0_t1 = 1#1), ∀ a x, ((![v1506] : Fin 1 → IVec S16 32) a x).toNat < S100000.size a)
instance k0_chk493.dec : ∀ (i : grid0.Coords) (k0_t1 : Fin k0_t1_loop.trips) (v1506 : IVec S16 32), Decidable (k0_chk493 i k0_t1 v1506) := fun i k0_t1 v1506 => decidable_of_iff' _ (Iff.of_eq (k0_chk493.eq_1 i k0_t1 v1506))
theorem k0_idx493_inb : ∀ (i : grid0.Coords) (k0_t1 : Fin k0_t1_loop.trips) (v1506 : IVec S16 32) (k0_hw493 : k0_chk493 i k0_t1 v1506), ∀ (k0_h1 : k0_cond1 i k0_t1 = 1#1), ∀ a x, ((![v1506] : Fin 1 → IVec S16 32) a x).toNat < S100000.size a := fun i k0_t1 v1506 k0_hw493 k0_h1 => k0_hw493 k0_h1

def k0_chk494 (i : grid0.Coords) (k0_t1 : Fin k0_t1_loop.trips) (v1507 : IVec S16 32) : Prop :=
  (∀ (k0_h1 : k0_cond1 i k0_t1 = 1#1), ∀ a x, ((![v1507] : Fin 1 → IVec S16 32) a x).toNat < S100000.size a)
instance k0_chk494.dec : ∀ (i : grid0.Coords) (k0_t1 : Fin k0_t1_loop.trips) (v1507 : IVec S16 32), Decidable (k0_chk494 i k0_t1 v1507) := fun i k0_t1 v1507 => decidable_of_iff' _ (Iff.of_eq (k0_chk494.eq_1 i k0_t1 v1507))
theorem k0_idx494_inb : ∀ (i : grid0.Coords) (k0_t1 : Fin k0_t1_loop.trips) (v1507 : IVec S16 32) (k0_hw494 : k0_chk494 i k0_t1 v1507), ∀ (k0_h1 : k0_cond1 i k0_t1 = 1#1), ∀ a x, ((![v1507] : Fin 1 → IVec S16 32) a x).toNat < S100000.size a := fun i k0_t1 v1507 k0_hw494 k0_h1 => k0_hw494 k0_h1

def k0_chk495 (i : grid0.Coords) (k0_t1 : Fin k0_t1_loop.trips) (v1508 : IVec S16 32) : Prop :=
  (∀ (k0_h1 : k0_cond1 i k0_t1 = 1#1), ∀ a x, ((![v1508] : Fin 1 → IVec S16 32) a x).toNat < S100000.size a)
instance k0_chk495.dec : ∀ (i : grid0.Coords) (k0_t1 : Fin k0_t1_loop.trips) (v1508 : IVec S16 32), Decidable (k0_chk495 i k0_t1 v1508) := fun i k0_t1 v1508 => decidable_of_iff' _ (Iff.of_eq (k0_chk495.eq_1 i k0_t1 v1508))
theorem k0_idx495_inb : ∀ (i : grid0.Coords) (k0_t1 : Fin k0_t1_loop.trips) (v1508 : IVec S16 32) (k0_hw495 : k0_chk495 i k0_t1 v1508), ∀ (k0_h1 : k0_cond1 i k0_t1 = 1#1), ∀ a x, ((![v1508] : Fin 1 → IVec S16 32) a x).toNat < S100000.size a := fun i k0_t1 v1508 k0_hw495 k0_h1 => k0_hw495 k0_h1

def k0_chk496 (i : grid0.Coords) (k0_t1 : Fin k0_t1_loop.trips) (v1509 : IVec S16 32) : Prop :=
  (∀ (k0_h1 : k0_cond1 i k0_t1 = 1#1), ∀ a x, ((![v1509] : Fin 1 → IVec S16 32) a x).toNat < S100000.size a)
instance k0_chk496.dec : ∀ (i : grid0.Coords) (k0_t1 : Fin k0_t1_loop.trips) (v1509 : IVec S16 32), Decidable (k0_chk496 i k0_t1 v1509) := fun i k0_t1 v1509 => decidable_of_iff' _ (Iff.of_eq (k0_chk496.eq_1 i k0_t1 v1509))
theorem k0_idx496_inb : ∀ (i : grid0.Coords) (k0_t1 : Fin k0_t1_loop.trips) (v1509 : IVec S16 32) (k0_hw496 : k0_chk496 i k0_t1 v1509), ∀ (k0_h1 : k0_cond1 i k0_t1 = 1#1), ∀ a x, ((![v1509] : Fin 1 → IVec S16 32) a x).toNat < S100000.size a := fun i k0_t1 v1509 k0_hw496 k0_h1 => k0_hw496 k0_h1

def k0_chk497 (i : grid0.Coords) (k0_t1 : Fin k0_t1_loop.trips) (v1526 : IVec S16 32) : Prop :=
  (∀ (k0_h1 : k0_cond1 i k0_t1 = 1#1), ∀ a x, ((![v1526] : Fin 1 → IVec S16 32) a x).toNat < S100000.size a)
instance k0_chk497.dec : ∀ (i : grid0.Coords) (k0_t1 : Fin k0_t1_loop.trips) (v1526 : IVec S16 32), Decidable (k0_chk497 i k0_t1 v1526) := fun i k0_t1 v1526 => decidable_of_iff' _ (Iff.of_eq (k0_chk497.eq_1 i k0_t1 v1526))
theorem k0_idx497_inb : ∀ (i : grid0.Coords) (k0_t1 : Fin k0_t1_loop.trips) (v1526 : IVec S16 32) (k0_hw497 : k0_chk497 i k0_t1 v1526), ∀ (k0_h1 : k0_cond1 i k0_t1 = 1#1), ∀ a x, ((![v1526] : Fin 1 → IVec S16 32) a x).toNat < S100000.size a := fun i k0_t1 v1526 k0_hw497 k0_h1 => k0_hw497 k0_h1

def k0_chk498 (i : grid0.Coords) (k0_t1 : Fin k0_t1_loop.trips) (v1527 : IVec S16 32) : Prop :=
  (∀ (k0_h1 : k0_cond1 i k0_t1 = 1#1), ∀ a x, ((![v1527] : Fin 1 → IVec S16 32) a x).toNat < S100000.size a)
instance k0_chk498.dec : ∀ (i : grid0.Coords) (k0_t1 : Fin k0_t1_loop.trips) (v1527 : IVec S16 32), Decidable (k0_chk498 i k0_t1 v1527) := fun i k0_t1 v1527 => decidable_of_iff' _ (Iff.of_eq (k0_chk498.eq_1 i k0_t1 v1527))
theorem k0_idx498_inb : ∀ (i : grid0.Coords) (k0_t1 : Fin k0_t1_loop.trips) (v1527 : IVec S16 32) (k0_hw498 : k0_chk498 i k0_t1 v1527), ∀ (k0_h1 : k0_cond1 i k0_t1 = 1#1), ∀ a x, ((![v1527] : Fin 1 → IVec S16 32) a x).toNat < S100000.size a := fun i k0_t1 v1527 k0_hw498 k0_h1 => k0_hw498 k0_h1

def k0_chk499 (i : grid0.Coords) (k0_t1 : Fin k0_t1_loop.trips) (v1528 : IVec S16 32) : Prop :=
  (∀ (k0_h1 : k0_cond1 i k0_t1 = 1#1), ∀ a x, ((![v1528] : Fin 1 → IVec S16 32) a x).toNat < S100000.size a)
instance k0_chk499.dec : ∀ (i : grid0.Coords) (k0_t1 : Fin k0_t1_loop.trips) (v1528 : IVec S16 32), Decidable (k0_chk499 i k0_t1 v1528) := fun i k0_t1 v1528 => decidable_of_iff' _ (Iff.of_eq (k0_chk499.eq_1 i k0_t1 v1528))
theorem k0_idx499_inb : ∀ (i : grid0.Coords) (k0_t1 : Fin k0_t1_loop.trips) (v1528 : IVec S16 32) (k0_hw499 : k0_chk499 i k0_t1 v1528), ∀ (k0_h1 : k0_cond1 i k0_t1 = 1#1), ∀ a x, ((![v1528] : Fin 1 → IVec S16 32) a x).toNat < S100000.size a := fun i k0_t1 v1528 k0_hw499 k0_h1 => k0_hw499 k0_h1

def k0_chk500 (i : grid0.Coords) (k0_t1 : Fin k0_t1_loop.trips) (v1529 : IVec S16 32) : Prop :=
  (∀ (k0_h1 : k0_cond1 i k0_t1 = 1#1), ∀ a x, ((![v1529] : Fin 1 → IVec S16 32) a x).toNat < S100000.size a)
instance k0_chk500.dec : ∀ (i : grid0.Coords) (k0_t1 : Fin k0_t1_loop.trips) (v1529 : IVec S16 32), Decidable (k0_chk500 i k0_t1 v1529) := fun i k0_t1 v1529 => decidable_of_iff' _ (Iff.of_eq (k0_chk500.eq_1 i k0_t1 v1529))
theorem k0_idx500_inb : ∀ (i : grid0.Coords) (k0_t1 : Fin k0_t1_loop.trips) (v1529 : IVec S16 32) (k0_hw500 : k0_chk500 i k0_t1 v1529), ∀ (k0_h1 : k0_cond1 i k0_t1 = 1#1), ∀ a x, ((![v1529] : Fin 1 → IVec S16 32) a x).toNat < S100000.size a := fun i k0_t1 v1529 k0_hw500 k0_h1 => k0_hw500 k0_h1

def k0_chk501 (i : grid0.Coords) (k0_t1 : Fin k0_t1_loop.trips) (v1530 : IVec S16 32) : Prop :=
  (∀ (k0_h1 : k0_cond1 i k0_t1 = 1#1), ∀ a x, ((![v1530] : Fin 1 → IVec S16 32) a x).toNat < S100000.size a)
instance k0_chk501.dec : ∀ (i : grid0.Coords) (k0_t1 : Fin k0_t1_loop.trips) (v1530 : IVec S16 32), Decidable (k0_chk501 i k0_t1 v1530) := fun i k0_t1 v1530 => decidable_of_iff' _ (Iff.of_eq (k0_chk501.eq_1 i k0_t1 v1530))
theorem k0_idx501_inb : ∀ (i : grid0.Coords) (k0_t1 : Fin k0_t1_loop.trips) (v1530 : IVec S16 32) (k0_hw501 : k0_chk501 i k0_t1 v1530), ∀ (k0_h1 : k0_cond1 i k0_t1 = 1#1), ∀ a x, ((![v1530] : Fin 1 → IVec S16 32) a x).toNat < S100000.size a := fun i k0_t1 v1530 k0_hw501 k0_h1 => k0_hw501 k0_h1

def k0_chk502 (i : grid0.Coords) (k0_t1 : Fin k0_t1_loop.trips) (v1531 : IVec S16 32) : Prop :=
  (∀ (k0_h1 : k0_cond1 i k0_t1 = 1#1), ∀ a x, ((![v1531] : Fin 1 → IVec S16 32) a x).toNat < S100000.size a)
instance k0_chk502.dec : ∀ (i : grid0.Coords) (k0_t1 : Fin k0_t1_loop.trips) (v1531 : IVec S16 32), Decidable (k0_chk502 i k0_t1 v1531) := fun i k0_t1 v1531 => decidable_of_iff' _ (Iff.of_eq (k0_chk502.eq_1 i k0_t1 v1531))
theorem k0_idx502_inb : ∀ (i : grid0.Coords) (k0_t1 : Fin k0_t1_loop.trips) (v1531 : IVec S16 32) (k0_hw502 : k0_chk502 i k0_t1 v1531), ∀ (k0_h1 : k0_cond1 i k0_t1 = 1#1), ∀ a x, ((![v1531] : Fin 1 → IVec S16 32) a x).toNat < S100000.size a := fun i k0_t1 v1531 k0_hw502 k0_h1 => k0_hw502 k0_h1

def k0_chk503 (i : grid0.Coords) (k0_t1 : Fin k0_t1_loop.trips) (v1532 : IVec S16 32) : Prop :=
  (∀ (k0_h1 : k0_cond1 i k0_t1 = 1#1), ∀ a x, ((![v1532] : Fin 1 → IVec S16 32) a x).toNat < S100000.size a)
instance k0_chk503.dec : ∀ (i : grid0.Coords) (k0_t1 : Fin k0_t1_loop.trips) (v1532 : IVec S16 32), Decidable (k0_chk503 i k0_t1 v1532) := fun i k0_t1 v1532 => decidable_of_iff' _ (Iff.of_eq (k0_chk503.eq_1 i k0_t1 v1532))
theorem k0_idx503_inb : ∀ (i : grid0.Coords) (k0_t1 : Fin k0_t1_loop.trips) (v1532 : IVec S16 32) (k0_hw503 : k0_chk503 i k0_t1 v1532), ∀ (k0_h1 : k0_cond1 i k0_t1 = 1#1), ∀ a x, ((![v1532] : Fin 1 → IVec S16 32) a x).toNat < S100000.size a := fun i k0_t1 v1532 k0_hw503 k0_h1 => k0_hw503 k0_h1

def k0_chk504 (i : grid0.Coords) (k0_t1 : Fin k0_t1_loop.trips) (v1533 : IVec S16 32) : Prop :=
  (∀ (k0_h1 : k0_cond1 i k0_t1 = 1#1), ∀ a x, ((![v1533] : Fin 1 → IVec S16 32) a x).toNat < S100000.size a)
instance k0_chk504.dec : ∀ (i : grid0.Coords) (k0_t1 : Fin k0_t1_loop.trips) (v1533 : IVec S16 32), Decidable (k0_chk504 i k0_t1 v1533) := fun i k0_t1 v1533 => decidable_of_iff' _ (Iff.of_eq (k0_chk504.eq_1 i k0_t1 v1533))
theorem k0_idx504_inb : ∀ (i : grid0.Coords) (k0_t1 : Fin k0_t1_loop.trips) (v1533 : IVec S16 32) (k0_hw504 : k0_chk504 i k0_t1 v1533), ∀ (k0_h1 : k0_cond1 i k0_t1 = 1#1), ∀ a x, ((![v1533] : Fin 1 → IVec S16 32) a x).toNat < S100000.size a := fun i k0_t1 v1533 k0_hw504 k0_h1 => k0_hw504 k0_h1

def k0_chk505 (i : grid0.Coords) (k0_t1 : Fin k0_t1_loop.trips) (v1550 : IVec S16 32) : Prop :=
  (∀ (k0_h1 : k0_cond1 i k0_t1 = 1#1), ∀ a x, ((![v1550] : Fin 1 → IVec S16 32) a x).toNat < S100000.size a)
instance k0_chk505.dec : ∀ (i : grid0.Coords) (k0_t1 : Fin k0_t1_loop.trips) (v1550 : IVec S16 32), Decidable (k0_chk505 i k0_t1 v1550) := fun i k0_t1 v1550 => decidable_of_iff' _ (Iff.of_eq (k0_chk505.eq_1 i k0_t1 v1550))
theorem k0_idx505_inb : ∀ (i : grid0.Coords) (k0_t1 : Fin k0_t1_loop.trips) (v1550 : IVec S16 32) (k0_hw505 : k0_chk505 i k0_t1 v1550), ∀ (k0_h1 : k0_cond1 i k0_t1 = 1#1), ∀ a x, ((![v1550] : Fin 1 → IVec S16 32) a x).toNat < S100000.size a := fun i k0_t1 v1550 k0_hw505 k0_h1 => k0_hw505 k0_h1

def k0_chk506 (i : grid0.Coords) (k0_t1 : Fin k0_t1_loop.trips) (v1551 : IVec S16 32) : Prop :=
  (∀ (k0_h1 : k0_cond1 i k0_t1 = 1#1), ∀ a x, ((![v1551] : Fin 1 → IVec S16 32) a x).toNat < S100000.size a)
instance k0_chk506.dec : ∀ (i : grid0.Coords) (k0_t1 : Fin k0_t1_loop.trips) (v1551 : IVec S16 32), Decidable (k0_chk506 i k0_t1 v1551) := fun i k0_t1 v1551 => decidable_of_iff' _ (Iff.of_eq (k0_chk506.eq_1 i k0_t1 v1551))
theorem k0_idx506_inb : ∀ (i : grid0.Coords) (k0_t1 : Fin k0_t1_loop.trips) (v1551 : IVec S16 32) (k0_hw506 : k0_chk506 i k0_t1 v1551), ∀ (k0_h1 : k0_cond1 i k0_t1 = 1#1), ∀ a x, ((![v1551] : Fin 1 → IVec S16 32) a x).toNat < S100000.size a := fun i k0_t1 v1551 k0_hw506 k0_h1 => k0_hw506 k0_h1

def k0_chk507 (i : grid0.Coords) (k0_t1 : Fin k0_t1_loop.trips) (v1552 : IVec S16 32) : Prop :=
  (∀ (k0_h1 : k0_cond1 i k0_t1 = 1#1), ∀ a x, ((![v1552] : Fin 1 → IVec S16 32) a x).toNat < S100000.size a)
instance k0_chk507.dec : ∀ (i : grid0.Coords) (k0_t1 : Fin k0_t1_loop.trips) (v1552 : IVec S16 32), Decidable (k0_chk507 i k0_t1 v1552) := fun i k0_t1 v1552 => decidable_of_iff' _ (Iff.of_eq (k0_chk507.eq_1 i k0_t1 v1552))
theorem k0_idx507_inb : ∀ (i : grid0.Coords) (k0_t1 : Fin k0_t1_loop.trips) (v1552 : IVec S16 32) (k0_hw507 : k0_chk507 i k0_t1 v1552), ∀ (k0_h1 : k0_cond1 i k0_t1 = 1#1), ∀ a x, ((![v1552] : Fin 1 → IVec S16 32) a x).toNat < S100000.size a := fun i k0_t1 v1552 k0_hw507 k0_h1 => k0_hw507 k0_h1

def k0_chk508 (i : grid0.Coords) (k0_t1 : Fin k0_t1_loop.trips) (v1553 : IVec S16 32) : Prop :=
  (∀ (k0_h1 : k0_cond1 i k0_t1 = 1#1), ∀ a x, ((![v1553] : Fin 1 → IVec S16 32) a x).toNat < S100000.size a)
instance k0_chk508.dec : ∀ (i : grid0.Coords) (k0_t1 : Fin k0_t1_loop.trips) (v1553 : IVec S16 32), Decidable (k0_chk508 i k0_t1 v1553) := fun i k0_t1 v1553 => decidable_of_iff' _ (Iff.of_eq (k0_chk508.eq_1 i k0_t1 v1553))
theorem k0_idx508_inb : ∀ (i : grid0.Coords) (k0_t1 : Fin k0_t1_loop.trips) (v1553 : IVec S16 32) (k0_hw508 : k0_chk508 i k0_t1 v1553), ∀ (k0_h1 : k0_cond1 i k0_t1 = 1#1), ∀ a x, ((![v1553] : Fin 1 → IVec S16 32) a x).toNat < S100000.size a := fun i k0_t1 v1553 k0_hw508 k0_h1 => k0_hw508 k0_h1

def k0_chk509 (i : grid0.Coords) (k0_t1 : Fin k0_t1_loop.trips) (v1554 : IVec S16 32) : Prop :=
  (∀ (k0_h1 : k0_cond1 i k0_t1 = 1#1), ∀ a x, ((![v1554] : Fin 1 → IVec S16 32) a x).toNat < S100000.size a)
instance k0_chk509.dec : ∀ (i : grid0.Coords) (k0_t1 : Fin k0_t1_loop.trips) (v1554 : IVec S16 32), Decidable (k0_chk509 i k0_t1 v1554) := fun i k0_t1 v1554 => decidable_of_iff' _ (Iff.of_eq (k0_chk509.eq_1 i k0_t1 v1554))
theorem k0_idx509_inb : ∀ (i : grid0.Coords) (k0_t1 : Fin k0_t1_loop.trips) (v1554 : IVec S16 32) (k0_hw509 : k0_chk509 i k0_t1 v1554), ∀ (k0_h1 : k0_cond1 i k0_t1 = 1#1), ∀ a x, ((![v1554] : Fin 1 → IVec S16 32) a x).toNat < S100000.size a := fun i k0_t1 v1554 k0_hw509 k0_h1 => k0_hw509 k0_h1

def k0_chk510 (i : grid0.Coords) (k0_t1 : Fin k0_t1_loop.trips) (v1555 : IVec S16 32) : Prop :=
  (∀ (k0_h1 : k0_cond1 i k0_t1 = 1#1), ∀ a x, ((![v1555] : Fin 1 → IVec S16 32) a x).toNat < S100000.size a)
instance k0_chk510.dec : ∀ (i : grid0.Coords) (k0_t1 : Fin k0_t1_loop.trips) (v1555 : IVec S16 32), Decidable (k0_chk510 i k0_t1 v1555) := fun i k0_t1 v1555 => decidable_of_iff' _ (Iff.of_eq (k0_chk510.eq_1 i k0_t1 v1555))
theorem k0_idx510_inb : ∀ (i : grid0.Coords) (k0_t1 : Fin k0_t1_loop.trips) (v1555 : IVec S16 32) (k0_hw510 : k0_chk510 i k0_t1 v1555), ∀ (k0_h1 : k0_cond1 i k0_t1 = 1#1), ∀ a x, ((![v1555] : Fin 1 → IVec S16 32) a x).toNat < S100000.size a := fun i k0_t1 v1555 k0_hw510 k0_h1 => k0_hw510 k0_h1

def k0_chk511 (i : grid0.Coords) (k0_t1 : Fin k0_t1_loop.trips) (v1556 : IVec S16 32) : Prop :=
  (∀ (k0_h1 : k0_cond1 i k0_t1 = 1#1), ∀ a x, ((![v1556] : Fin 1 → IVec S16 32) a x).toNat < S100000.size a)
instance k0_chk511.dec : ∀ (i : grid0.Coords) (k0_t1 : Fin k0_t1_loop.trips) (v1556 : IVec S16 32), Decidable (k0_chk511 i k0_t1 v1556) := fun i k0_t1 v1556 => decidable_of_iff' _ (Iff.of_eq (k0_chk511.eq_1 i k0_t1 v1556))
theorem k0_idx511_inb : ∀ (i : grid0.Coords) (k0_t1 : Fin k0_t1_loop.trips) (v1556 : IVec S16 32) (k0_hw511 : k0_chk511 i k0_t1 v1556), ∀ (k0_h1 : k0_cond1 i k0_t1 = 1#1), ∀ a x, ((![v1556] : Fin 1 → IVec S16 32) a x).toNat < S100000.size a := fun i k0_t1 v1556 k0_hw511 k0_h1 => k0_hw511 k0_h1

def k0_chk512 (i : grid0.Coords) (k0_t1 : Fin k0_t1_loop.trips) (v1557 : IVec S16 32) : Prop :=
  (∀ (k0_h1 : k0_cond1 i k0_t1 = 1#1), ∀ a x, ((![v1557] : Fin 1 → IVec S16 32) a x).toNat < S100000.size a)
instance k0_chk512.dec : ∀ (i : grid0.Coords) (k0_t1 : Fin k0_t1_loop.trips) (v1557 : IVec S16 32), Decidable (k0_chk512 i k0_t1 v1557) := fun i k0_t1 v1557 => decidable_of_iff' _ (Iff.of_eq (k0_chk512.eq_1 i k0_t1 v1557))
theorem k0_idx512_inb : ∀ (i : grid0.Coords) (k0_t1 : Fin k0_t1_loop.trips) (v1557 : IVec S16 32) (k0_hw512 : k0_chk512 i k0_t1 v1557), ∀ (k0_h1 : k0_cond1 i k0_t1 = 1#1), ∀ a x, ((![v1557] : Fin 1 → IVec S16 32) a x).toNat < S100000.size a := fun i k0_t1 v1557 k0_hw512 k0_h1 => k0_hw512 k0_h1
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_11 : BitVec 32 := 0#32
  let c0_i32_2 : BitVec 32 := 0#32
  let c1_i32 : BitVec 32 := 1#32
  let arg11 : BitVec 32 := Scf.iv c0_i32_2 c1_i32 k0_t1
  let c1_i32_10 : BitVec 32 := 1#32
  let v19 : BitVec 32 := Scalar.muli arg11 c1_i32_10
  let v20 : BitVec 32 := Scalar.addi c0_i32_11 v19
  let v21 : BitVec 32 := Scalar.muli c32_i32 v20
  let v22 : BitVec 32 := Scalar.addi v1 v21
  let c4096_i32_533 : BitVec 32 := 4096#32
  ![v22.toNat, 4096]

def k0_chk513 (i : grid0.Coords) (k0_t1 : Fin k0_t1_loop.trips) (v1582 : IVec S16 32) : Prop :=
  (∀ (k0_h1 : k0_cond1 i k0_t1 = 1#1), ∀ a x, ((![v1582] : Fin 1 → IVec S16 32) a x).toNat < S100000.size a)
instance k0_chk513.dec : ∀ (i : grid0.Coords) (k0_t1 : Fin k0_t1_loop.trips) (v1582 : IVec S16 32), Decidable (k0_chk513 i k0_t1 v1582) := fun i k0_t1 v1582 => decidable_of_iff' _ (Iff.of_eq (k0_chk513.eq_1 i k0_t1 v1582))
theorem k0_idx513_inb : ∀ (i : grid0.Coords) (k0_t1 : Fin k0_t1_loop.trips) (v1582 : IVec S16 32) (k0_hw513 : k0_chk513 i k0_t1 v1582), ∀ (k0_h1 : k0_cond1 i k0_t1 = 1#1), ∀ a x, ((![v1582] : Fin 1 → IVec S16 32) a x).toNat < S100000.size a := fun i k0_t1 v1582 k0_hw513 k0_h1 => k0_hw513 k0_h1

def k0_chk514 (i : grid0.Coords) (k0_t1 : Fin k0_t1_loop.trips) (v1583 : IVec S16 32) : Prop :=
  (∀ (k0_h1 : k0_cond1 i k0_t1 = 1#1), ∀ a x, ((![v1583] : Fin 1 → IVec S16 32) a x).toNat < S100000.size a)
instance k0_chk514.dec : ∀ (i : grid0.Coords) (k0_t1 : Fin k0_t1_loop.trips) (v1583 : IVec S16 32), Decidable (k0_chk514 i k0_t1 v1583) := fun i k0_t1 v1583 => decidable_of_iff' _ (Iff.of_eq (k0_chk514.eq_1 i k0_t1 v1583))
theorem k0_idx514_inb : ∀ (i : grid0.Coords) (k0_t1 : Fin k0_t1_loop.trips) (v1583 : IVec S16 32) (k0_hw514 : k0_chk514 i k0_t1 v1583), ∀ (k0_h1 : k0_cond1 i k0_t1 = 1#1), ∀ a x, ((![v1583] : Fin 1 → IVec S16 32) a x).toNat < S100000.size a := fun i k0_t1 v1583 k0_hw514 k0_h1 => k0_hw514 k0_h1

def k0_chk515 (i : grid0.Coords) (k0_t1 : Fin k0_t1_loop.trips) (v1584 : IVec S16 32) : Prop :=
  (∀ (k0_h1 : k0_cond1 i k0_t1 = 1#1), ∀ a x, ((![v1584] : Fin 1 → IVec S16 32) a x).toNat < S100000.size a)
instance k0_chk515.dec : ∀ (i : grid0.Coords) (k0_t1 : Fin k0_t1_loop.trips) (v1584 : IVec S16 32), Decidable (k0_chk515 i k0_t1 v1584) := fun i k0_t1 v1584 => decidable_of_iff' _ (Iff.of_eq (k0_chk515.eq_1 i k0_t1 v1584))
theorem k0_idx515_inb : ∀ (i : grid0.Coords) (k0_t1 : Fin k0_t1_loop.trips) (v1584 : IVec S16 32) (k0_hw515 : k0_chk515 i k0_t1 v1584), ∀ (k0_h1 : k0_cond1 i k0_t1 = 1#1), ∀ a x, ((![v1584] : Fin 1 → IVec S16 32) a x).toNat < S100000.size a := fun i k0_t1 v1584 k0_hw515 k0_h1 => k0_hw515 k0_h1

def k0_chk516 (i : grid0.Coords) (k0_t1 : Fin k0_t1_loop.trips) (v1585 : IVec S16 32) : Prop :=
  (∀ (k0_h1 : k0_cond1 i k0_t1 = 1#1), ∀ a x, ((![v1585] : Fin 1 → IVec S16 32) a x).toNat < S100000.size a)
instance k0_chk516.dec : ∀ (i : grid0.Coords) (k0_t1 : Fin k0_t1_loop.trips) (v1585 : IVec S16 32), Decidable (k0_chk516 i k0_t1 v1585) := fun i k0_t1 v1585 => decidable_of_iff' _ (Iff.of_eq (k0_chk516.eq_1 i k0_t1 v1585))
theorem k0_idx516_inb : ∀ (i : grid0.Coords) (k0_t1 : Fin k0_t1_loop.trips) (v1585 : IVec S16 32) (k0_hw516 : k0_chk516 i k0_t1 v1585), ∀ (k0_h1 : k0_cond1 i k0_t1 = 1#1), ∀ a x, ((![v1585] : Fin 1 → IVec S16 32) a x).toNat < S100000.size a := fun i k0_t1 v1585 k0_hw516 k0_h1 => k0_hw516 k0_h1

def k0_chk517 (i : grid0.Coords) (k0_t1 : Fin k0_t1_loop.trips) (v1586 : IVec S16 32) : Prop :=
  (∀ (k0_h1 : k0_cond1 i k0_t1 = 1#1), ∀ a x, ((![v1586] : Fin 1 → IVec S16 32) a x).toNat < S100000.size a)
instance k0_chk517.dec : ∀ (i : grid0.Coords) (k0_t1 : Fin k0_t1_loop.trips) (v1586 : IVec S16 32), Decidable (k0_chk517 i k0_t1 v1586) := fun i k0_t1 v1586 => decidable_of_iff' _ (Iff.of_eq (k0_chk517.eq_1 i k0_t1 v1586))
theorem k0_idx517_inb : ∀ (i : grid0.Coords) (k0_t1 : Fin k0_t1_loop.trips) (v1586 : IVec S16 32) (k0_hw517 : k0_chk517 i k0_t1 v1586), ∀ (k0_h1 : k0_cond1 i k0_t1 = 1#1), ∀ a x, ((![v1586] : Fin 1 → IVec S16 32) a x).toNat < S100000.size a := fun i k0_t1 v1586 k0_hw517 k0_h1 => k0_hw517 k0_h1

def k0_chk518 (i : grid0.Coords) (k0_t1 : Fin k0_t1_loop.trips) (v1587 : IVec S16 32) : Prop :=
  (∀ (k0_h1 : k0_cond1 i k0_t1 = 1#1), ∀ a x, ((![v1587] : Fin 1 → IVec S16 32) a x).toNat < S100000.size a)
instance k0_chk518.dec : ∀ (i : grid0.Coords) (k0_t1 : Fin k0_t1_loop.trips) (v1587 : IVec S16 32), Decidable (k0_chk518 i k0_t1 v1587) := fun i k0_t1 v1587 => decidable_of_iff' _ (Iff.of_eq (k0_chk518.eq_1 i k0_t1 v1587))
theorem k0_idx518_inb : ∀ (i : grid0.Coords) (k0_t1 : Fin k0_t1_loop.trips) (v1587 : IVec S16 32) (k0_hw518 : k0_chk518 i k0_t1 v1587), ∀ (k0_h1 : k0_cond1 i k0_t1 = 1#1), ∀ a x, ((![v1587] : Fin 1 → IVec S16 32) a x).toNat < S100000.size a := fun i k0_t1 v1587 k0_hw518 k0_h1 => k0_hw518 k0_h1

def k0_chk519 (i : grid0.Coords) (k0_t1 : Fin k0_t1_loop.trips) (v1588 : IVec S16 32) : Prop :=
  (∀ (k0_h1 : k0_cond1 i k0_t1 = 1#1), ∀ a x, ((![v1588] : Fin 1 → IVec S16 32) a x).toNat < S100000.size a)
instance k0_chk519.dec : ∀ (i : grid0.Coords) (k0_t1 : Fin k0_t1_loop.trips) (v1588 : IVec S16 32), Decidable (k0_chk519 i k0_t1 v1588) := fun i k0_t1 v1588 => decidable_of_iff' _ (Iff.of_eq (k0_chk519.eq_1 i k0_t1 v1588))
theorem k0_idx519_inb : ∀ (i : grid0.Coords) (k0_t1 : Fin k0_t1_loop.trips) (v1588 : IVec S16 32) (k0_hw519 : k0_chk519 i k0_t1 v1588), ∀ (k0_h1 : k0_cond1 i k0_t1 = 1#1), ∀ a x, ((![v1588] : Fin 1 → IVec S16 32) a x).toNat < S100000.size a := fun i k0_t1 v1588 k0_hw519 k0_h1 => k0_hw519 k0_h1

def k0_chk520 (i : grid0.Coords) (k0_t1 : Fin k0_t1_loop.trips) (v1589 : IVec S16 32) : Prop :=
  (∀ (k0_h1 : k0_cond1 i k0_t1 = 1#1), ∀ a x, ((![v1589] : Fin 1 → IVec S16 32) a x).toNat < S100000.size a)
instance k0_chk520.dec : ∀ (i : grid0.Coords) (k0_t1 : Fin k0_t1_loop.trips) (v1589 : IVec S16 32), Decidable (k0_chk520 i k0_t1 v1589) := fun i k0_t1 v1589 => decidable_of_iff' _ (Iff.of_eq (k0_chk520.eq_1 i k0_t1 v1589))
theorem k0_idx520_inb : ∀ (i : grid0.Coords) (k0_t1 : Fin k0_t1_loop.trips) (v1589 : IVec S16 32) (k0_hw520 : k0_chk520 i k0_t1 v1589), ∀ (k0_h1 : k0_cond1 i k0_t1 = 1#1), ∀ a x, ((![v1589] : Fin 1 → IVec S16 32) a x).toNat < S100000.size a := fun i k0_t1 v1589 k0_hw520 k0_h1 => k0_hw520 k0_h1

def k0_chk521 (i : grid0.Coords) (k0_t1 : Fin k0_t1_loop.trips) (v1606 : IVec S16 32) : Prop :=
  (∀ (k0_h1 : k0_cond1 i k0_t1 = 1#1), ∀ a x, ((![v1606] : Fin 1 → IVec S16 32) a x).toNat < S100000.size a)
instance k0_chk521.dec : ∀ (i : grid0.Coords) (k0_t1 : Fin k0_t1_loop.trips) (v1606 : IVec S16 32), Decidable (k0_chk521 i k0_t1 v1606) := fun i k0_t1 v1606 => decidable_of_iff' _ (Iff.of_eq (k0_chk521.eq_1 i k0_t1 v1606))
theorem k0_idx521_inb : ∀ (i : grid0.Coords) (k0_t1 : Fin k0_t1_loop.trips) (v1606 : IVec S16 32) (k0_hw521 : k0_chk521 i k0_t1 v1606), ∀ (k0_h1 : k0_cond1 i k0_t1 = 1#1), ∀ a x, ((![v1606] : Fin 1 → IVec S16 32) a x).toNat < S100000.size a := fun i k0_t1 v1606 k0_hw521 k0_h1 => k0_hw521 k0_h1

def k0_chk522 (i : grid0.Coords) (k0_t1 : Fin k0_t1_loop.trips) (v1607 : IVec S16 32) : Prop :=
  (∀ (k0_h1 : k0_cond1 i k0_t1 = 1#1), ∀ a x, ((![v1607] : Fin 1 → IVec S16 32) a x).toNat < S100000.size a)
instance k0_chk522.dec : ∀ (i : grid0.Coords) (k0_t1 : Fin k0_t1_loop.trips) (v1607 : IVec S16 32), Decidable (k0_chk522 i k0_t1 v1607) := fun i k0_t1 v1607 => decidable_of_iff' _ (Iff.of_eq (k0_chk522.eq_1 i k0_t1 v1607))
theorem k0_idx522_inb : ∀ (i : grid0.Coords) (k0_t1 : Fin k0_t1_loop.trips) (v1607 : IVec S16 32) (k0_hw522 : k0_chk522 i k0_t1 v1607), ∀ (k0_h1 : k0_cond1 i k0_t1 = 1#1), ∀ a x, ((![v1607] : Fin 1 → IVec S16 32) a x).toNat < S100000.size a := fun i k0_t1 v1607 k0_hw522 k0_h1 => k0_hw522 k0_h1

def k0_chk523 (i : grid0.Coords) (k0_t1 : Fin k0_t1_loop.trips) (v1608 : IVec S16 32) : Prop :=
  (∀ (k0_h1 : k0_cond1 i k0_t1 = 1#1), ∀ a x, ((![v1608] : Fin 1 → IVec S16 32) a x).toNat < S100000.size a)
instance k0_chk523.dec : ∀ (i : grid0.Coords) (k0_t1 : Fin k0_t1_loop.trips) (v1608 : IVec S16 32), Decidable (k0_chk523 i k0_t1 v1608) := fun i k0_t1 v1608 => decidable_of_iff' _ (Iff.of_eq (k0_chk523.eq_1 i k0_t1 v1608))
theorem k0_idx523_inb : ∀ (i : grid0.Coords) (k0_t1 : Fin k0_t1_loop.trips) (v1608 : IVec S16 32) (k0_hw523 : k0_chk523 i k0_t1 v1608), ∀ (k0_h1 : k0_cond1 i k0_t1 = 1#1), ∀ a x, ((![v1608] : Fin 1 → IVec S16 32) a x).toNat < S100000.size a := fun i k0_t1 v1608 k0_hw523 k0_h1 => k0_hw523 k0_h1

def k0_chk524 (i : grid0.Coords) (k0_t1 : Fin k0_t1_loop.trips) (v1609 : IVec S16 32) : Prop :=
  (∀ (k0_h1 : k0_cond1 i k0_t1 = 1#1), ∀ a x, ((![v1609] : Fin 1 → IVec S16 32) a x).toNat < S100000.size a)
instance k0_chk524.dec : ∀ (i : grid0.Coords) (k0_t1 : Fin k0_t1_loop.trips) (v1609 : IVec S16 32), Decidable (k0_chk524 i k0_t1 v1609) := fun i k0_t1 v1609 => decidable_of_iff' _ (Iff.of_eq (k0_chk524.eq_1 i k0_t1 v1609))
theorem k0_idx524_inb : ∀ (i : grid0.Coords) (k0_t1 : Fin k0_t1_loop.trips) (v1609 : IVec S16 32) (k0_hw524 : k0_chk524 i k0_t1 v1609), ∀ (k0_h1 : k0_cond1 i k0_t1 = 1#1), ∀ a x, ((![v1609] : Fin 1 → IVec S16 32) a x).toNat < S100000.size a := fun i k0_t1 v1609 k0_hw524 k0_h1 => k0_hw524 k0_h1

def k0_chk525 (i : grid0.Coords) (k0_t1 : Fin k0_t1_loop.trips) (v1610 : IVec S16 32) : Prop :=
  (∀ (k0_h1 : k0_cond1 i k0_t1 = 1#1), ∀ a x, ((![v1610] : Fin 1 → IVec S16 32) a x).toNat < S100000.size a)
instance k0_chk525.dec : ∀ (i : grid0.Coords) (k0_t1 : Fin k0_t1_loop.trips) (v1610 : IVec S16 32), Decidable (k0_chk525 i k0_t1 v1610) := fun i k0_t1 v1610 => decidable_of_iff' _ (Iff.of_eq (k0_chk525.eq_1 i k0_t1 v1610))
theorem k0_idx525_inb : ∀ (i : grid0.Coords) (k0_t1 : Fin k0_t1_loop.trips) (v1610 : IVec S16 32) (k0_hw525 : k0_chk525 i k0_t1 v1610), ∀ (k0_h1 : k0_cond1 i k0_t1 = 1#1), ∀ a x, ((![v1610] : Fin 1 → IVec S16 32) a x).toNat < S100000.size a := fun i k0_t1 v1610 k0_hw525 k0_h1 => k0_hw525 k0_h1

def k0_chk526 (i : grid0.Coords) (k0_t1 : Fin k0_t1_loop.trips) (v1611 : IVec S16 32) : Prop :=
  (∀ (k0_h1 : k0_cond1 i k0_t1 = 1#1), ∀ a x, ((![v1611] : Fin 1 → IVec S16 32) a x).toNat < S100000.size a)
instance k0_chk526.dec : ∀ (i : grid0.Coords) (k0_t1 : Fin k0_t1_loop.trips) (v1611 : IVec S16 32), Decidable (k0_chk526 i k0_t1 v1611) := fun i k0_t1 v1611 => decidable_of_iff' _ (Iff.of_eq (k0_chk526.eq_1 i k0_t1 v1611))
theorem k0_idx526_inb : ∀ (i : grid0.Coords) (k0_t1 : Fin k0_t1_loop.trips) (v1611 : IVec S16 32) (k0_hw526 : k0_chk526 i k0_t1 v1611), ∀ (k0_h1 : k0_cond1 i k0_t1 = 1#1), ∀ a x, ((![v1611] : Fin 1 → IVec S16 32) a x).toNat < S100000.size a := fun i k0_t1 v1611 k0_hw526 k0_h1 => k0_hw526 k0_h1

def k0_chk527 (i : grid0.Coords) (k0_t1 : Fin k0_t1_loop.trips) (v1612 : IVec S16 32) : Prop :=
  (∀ (k0_h1 : k0_cond1 i k0_t1 = 1#1), ∀ a x, ((![v1612] : Fin 1 → IVec S16 32) a x).toNat < S100000.size a)
instance k0_chk527.dec : ∀ (i : grid0.Coords) (k0_t1 : Fin k0_t1_loop.trips) (v1612 : IVec S16 32), Decidable (k0_chk527 i k0_t1 v1612) := fun i k0_t1 v1612 => decidable_of_iff' _ (Iff.of_eq (k0_chk527.eq_1 i k0_t1 v1612))
theorem k0_idx527_inb : ∀ (i : grid0.Coords) (k0_t1 : Fin k0_t1_loop.trips) (v1612 : IVec S16 32) (k0_hw527 : k0_chk527 i k0_t1 v1612), ∀ (k0_h1 : k0_cond1 i k0_t1 = 1#1), ∀ a x, ((![v1612] : Fin 1 → IVec S16 32) a x).toNat < S100000.size a := fun i k0_t1 v1612 k0_hw527 k0_h1 => k0_hw527 k0_h1

def k0_chk528 (i : grid0.Coords) (k0_t1 : Fin k0_t1_loop.trips) (v1613 : IVec S16 32) : Prop :=
  (∀ (k0_h1 : k0_cond1 i k0_t1 = 1#1), ∀ a x, ((![v1613] : Fin 1 → IVec S16 32) a x).toNat < S100000.size a)
instance k0_chk528.dec : ∀ (i : grid0.Coords) (k0_t1 : Fin k0_t1_loop.trips) (v1613 : IVec S16 32), Decidable (k0_chk528 i k0_t1 v1613) := fun i k0_t1 v1613 => decidable_of_iff' _ (Iff.of_eq (k0_chk528.eq_1 i k0_t1 v1613))
theorem k0_idx528_inb : ∀ (i : grid0.Coords) (k0_t1 : Fin k0_t1_loop.trips) (v1613 : IVec S16 32) (k0_hw528 : k0_chk528 i k0_t1 v1613), ∀ (k0_h1 : k0_cond1 i k0_t1 = 1#1), ∀ a x, ((![v1613] : Fin 1 → IVec S16 32) a x).toNat < S100000.size a := fun i k0_t1 v1613 k0_hw528 k0_h1 => k0_hw528 k0_h1

def k0_chk529 (i : grid0.Coords) (k0_t1 : Fin k0_t1_loop.trips) (v1630 : IVec S16 32) : Prop :=
  (∀ (k0_h1 : k0_cond1 i k0_t1 = 1#1), ∀ a x, ((![v1630] : Fin 1 → IVec S16 32) a x).toNat < S100000.size a)
instance k0_chk529.dec : ∀ (i : grid0.Coords) (k0_t1 : Fin k0_t1_loop.trips) (v1630 : IVec S16 32), Decidable (k0_chk529 i k0_t1 v1630) := fun i k0_t1 v1630 => decidable_of_iff' _ (Iff.of_eq (k0_chk529.eq_1 i k0_t1 v1630))
theorem k0_idx529_inb : ∀ (i : grid0.Coords) (k0_t1 : Fin k0_t1_loop.trips) (v1630 : IVec S16 32) (k0_hw529 : k0_chk529 i k0_t1 v1630), ∀ (k0_h1 : k0_cond1 i k0_t1 = 1#1), ∀ a x, ((![v1630] : Fin 1 → IVec S16 32) a x).toNat < S100000.size a := fun i k0_t1 v1630 k0_hw529 k0_h1 => k0_hw529 k0_h1

def k0_chk530 (i : grid0.Coords) (k0_t1 : Fin k0_t1_loop.trips) (v1631 : IVec S16 32) : Prop :=
  (∀ (k0_h1 : k0_cond1 i k0_t1 = 1#1), ∀ a x, ((![v1631] : Fin 1 → IVec S16 32) a x).toNat < S100000.size a)
instance k0_chk530.dec : ∀ (i : grid0.Coords) (k0_t1 : Fin k0_t1_loop.trips) (v1631 : IVec S16 32), Decidable (k0_chk530 i k0_t1 v1631) := fun i k0_t1 v1631 => decidable_of_iff' _ (Iff.of_eq (k0_chk530.eq_1 i k0_t1 v1631))
theorem k0_idx530_inb : ∀ (i : grid0.Coords) (k0_t1 : Fin k0_t1_loop.trips) (v1631 : IVec S16 32) (k0_hw530 : k0_chk530 i k0_t1 v1631), ∀ (k0_h1 : k0_cond1 i k0_t1 = 1#1), ∀ a x, ((![v1631] : Fin 1 → IVec S16 32) a x).toNat < S100000.size a := fun i k0_t1 v1631 k0_hw530 k0_h1 => k0_hw530 k0_h1

def k0_chk531 (i : grid0.Coords) (k0_t1 : Fin k0_t1_loop.trips) (v1632 : IVec S16 32) : Prop :=
  (∀ (k0_h1 : k0_cond1 i k0_t1 = 1#1), ∀ a x, ((![v1632] : Fin 1 → IVec S16 32) a x).toNat < S100000.size a)
instance k0_chk531.dec : ∀ (i : grid0.Coords) (k0_t1 : Fin k0_t1_loop.trips) (v1632 : IVec S16 32), Decidable (k0_chk531 i k0_t1 v1632) := fun i k0_t1 v1632 => decidable_of_iff' _ (Iff.of_eq (k0_chk531.eq_1 i k0_t1 v1632))
theorem k0_idx531_inb : ∀ (i : grid0.Coords) (k0_t1 : Fin k0_t1_loop.trips) (v1632 : IVec S16 32) (k0_hw531 : k0_chk531 i k0_t1 v1632), ∀ (k0_h1 : k0_cond1 i k0_t1 = 1#1), ∀ a x, ((![v1632] : Fin 1 → IVec S16 32) a x).toNat < S100000.size a := fun i k0_t1 v1632 k0_hw531 k0_h1 => k0_hw531 k0_h1

def k0_chk532 (i : grid0.Coords) (k0_t1 : Fin k0_t1_loop.trips) (v1633 : IVec S16 32) : Prop :=
  (∀ (k0_h1 : k0_cond1 i k0_t1 = 1#1), ∀ a x, ((![v1633] : Fin 1 → IVec S16 32) a x).toNat < S100000.size a)
instance k0_chk532.dec : ∀ (i : grid0.Coords) (k0_t1 : Fin k0_t1_loop.trips) (v1633 : IVec S16 32), Decidable (k0_chk532 i k0_t1 v1633) := fun i k0_t1 v1633 => decidable_of_iff' _ (Iff.of_eq (k0_chk532.eq_1 i k0_t1 v1633))
theorem k0_idx532_inb : ∀ (i : grid0.Coords) (k0_t1 : Fin k0_t1_loop.trips) (v1633 : IVec S16 32) (k0_hw532 : k0_chk532 i k0_t1 v1633), ∀ (k0_h1 : k0_cond1 i k0_t1 = 1#1), ∀ a x, ((![v1633] : Fin 1 → IVec S16 32) a x).toNat < S100000.size a := fun i k0_t1 v1633 k0_hw532 k0_h1 => k0_hw532 k0_h1

def k0_chk533 (i : grid0.Coords) (k0_t1 : Fin k0_t1_loop.trips) (v1634 : IVec S16 32) : Prop :=
  (∀ (k0_h1 : k0_cond1 i k0_t1 = 1#1), ∀ a x, ((![v1634] : Fin 1 → IVec S16 32) a x).toNat < S100000.size a)
instance k0_chk533.dec : ∀ (i : grid0.Coords) (k0_t1 : Fin k0_t1_loop.trips) (v1634 : IVec S16 32), Decidable (k0_chk533 i k0_t1 v1634) := fun i k0_t1 v1634 => decidable_of_iff' _ (Iff.of_eq (k0_chk533.eq_1 i k0_t1 v1634))
theorem k0_idx533_inb : ∀ (i : grid0.Coords) (k0_t1 : Fin k0_t1_loop.trips) (v1634 : IVec S16 32) (k0_hw533 : k0_chk533 i k0_t1 v1634), ∀ (k0_h1 : k0_cond1 i k0_t1 = 1#1), ∀ a x, ((![v1634] : Fin 1 → IVec S16 32) a x).toNat < S100000.size a := fun i k0_t1 v1634 k0_hw533 k0_h1 => k0_hw533 k0_h1

def k0_chk534 (i : grid0.Coords) (k0_t1 : Fin k0_t1_loop.trips) (v1635 : IVec S16 32) : Prop :=
  (∀ (k0_h1 : k0_cond1 i k0_t1 = 1#1), ∀ a x, ((![v1635] : Fin 1 → IVec S16 32) a x).toNat < S100000.size a)
instance k0_chk534.dec : ∀ (i : grid0.Coords) (k0_t1 : Fin k0_t1_loop.trips) (v1635 : IVec S16 32), Decidable (k0_chk534 i k0_t1 v1635) := fun i k0_t1 v1635 => decidable_of_iff' _ (Iff.of_eq (k0_chk534.eq_1 i k0_t1 v1635))
theorem k0_idx534_inb : ∀ (i : grid0.Coords) (k0_t1 : Fin k0_t1_loop.trips) (v1635 : IVec S16 32) (k0_hw534 : k0_chk534 i k0_t1 v1635), ∀ (k0_h1 : k0_cond1 i k0_t1 = 1#1), ∀ a x, ((![v1635] : Fin 1 → IVec S16 32) a x).toNat < S100000.size a := fun i k0_t1 v1635 k0_hw534 k0_h1 => k0_hw534 k0_h1

def k0_chk535 (i : grid0.Coords) (k0_t1 : Fin k0_t1_loop.trips) (v1636 : IVec S16 32) : Prop :=
  (∀ (k0_h1 : k0_cond1 i k0_t1 = 1#1), ∀ a x, ((![v1636] : Fin 1 → IVec S16 32) a x).toNat < S100000.size a)
instance k0_chk535.dec : ∀ (i : grid0.Coords) (k0_t1 : Fin k0_t1_loop.trips) (v1636 : IVec S16 32), Decidable (k0_chk535 i k0_t1 v1636) := fun i k0_t1 v1636 => decidable_of_iff' _ (Iff.of_eq (k0_chk535.eq_1 i k0_t1 v1636))
theorem k0_idx535_inb : ∀ (i : grid0.Coords) (k0_t1 : Fin k0_t1_loop.trips) (v1636 : IVec S16 32) (k0_hw535 : k0_chk535 i k0_t1 v1636), ∀ (k0_h1 : k0_cond1 i k0_t1 = 1#1), ∀ a x, ((![v1636] : Fin 1 → IVec S16 32) a x).toNat < S100000.size a := fun i k0_t1 v1636 k0_hw535 k0_h1 => k0_hw535 k0_h1

def k0_chk536 (i : grid0.Coords) (k0_t1 : Fin k0_t1_loop.trips) (v1637 : IVec S16 32) : Prop :=
  (∀ (k0_h1 : k0_cond1 i k0_t1 = 1#1), ∀ a x, ((![v1637] : Fin 1 → IVec S16 32) a x).toNat < S100000.size a)
instance k0_chk536.dec : ∀ (i : grid0.Coords) (k0_t1 : Fin k0_t1_loop.trips) (v1637 : IVec S16 32), Decidable (k0_chk536 i k0_t1 v1637) := fun i k0_t1 v1637 => decidable_of_iff' _ (Iff.of_eq (k0_chk536.eq_1 i k0_t1 v1637))
theorem k0_idx536_inb : ∀ (i : grid0.Coords) (k0_t1 : Fin k0_t1_loop.trips) (v1637 : IVec S16 32) (k0_hw536 : k0_chk536 i k0_t1 v1637), ∀ (k0_h1 : k0_cond1 i k0_t1 = 1#1), ∀ a x, ((![v1637] : Fin 1 → IVec S16 32) a x).toNat < S100000.size a := fun i k0_t1 v1637 k0_hw536 k0_h1 => k0_hw536 k0_h1

def k0_chk537 (i : grid0.Coords) (k0_t1 : Fin k0_t1_loop.trips) (v1654 : IVec S16 32) : Prop :=
  (∀ (k0_h1 : k0_cond1 i k0_t1 = 1#1), ∀ a x, ((![v1654] : Fin 1 → IVec S16 32) a x).toNat < S100000.size a)
instance k0_chk537.dec : ∀ (i : grid0.Coords) (k0_t1 : Fin k0_t1_loop.trips) (v1654 : IVec S16 32), Decidable (k0_chk537 i k0_t1 v1654) := fun i k0_t1 v1654 => decidable_of_iff' _ (Iff.of_eq (k0_chk537.eq_1 i k0_t1 v1654))
theorem k0_idx537_inb : ∀ (i : grid0.Coords) (k0_t1 : Fin k0_t1_loop.trips) (v1654 : IVec S16 32) (k0_hw537 : k0_chk537 i k0_t1 v1654), ∀ (k0_h1 : k0_cond1 i k0_t1 = 1#1), ∀ a x, ((![v1654] : Fin 1 → IVec S16 32) a x).toNat < S100000.size a := fun i k0_t1 v1654 k0_hw537 k0_h1 => k0_hw537 k0_h1

def k0_chk538 (i : grid0.Coords) (k0_t1 : Fin k0_t1_loop.trips) (v1655 : IVec S16 32) : Prop :=
  (∀ (k0_h1 : k0_cond1 i k0_t1 = 1#1), ∀ a x, ((![v1655] : Fin 1 → IVec S16 32) a x).toNat < S100000.size a)
instance k0_chk538.dec : ∀ (i : grid0.Coords) (k0_t1 : Fin k0_t1_loop.trips) (v1655 : IVec S16 32), Decidable (k0_chk538 i k0_t1 v1655) := fun i k0_t1 v1655 => decidable_of_iff' _ (Iff.of_eq (k0_chk538.eq_1 i k0_t1 v1655))
theorem k0_idx538_inb : ∀ (i : grid0.Coords) (k0_t1 : Fin k0_t1_loop.trips) (v1655 : IVec S16 32) (k0_hw538 : k0_chk538 i k0_t1 v1655), ∀ (k0_h1 : k0_cond1 i k0_t1 = 1#1), ∀ a x, ((![v1655] : Fin 1 → IVec S16 32) a x).toNat < S100000.size a := fun i k0_t1 v1655 k0_hw538 k0_h1 => k0_hw538 k0_h1

def k0_chk539 (i : grid0.Coords) (k0_t1 : Fin k0_t1_loop.trips) (v1656 : IVec S16 32) : Prop :=
  (∀ (k0_h1 : k0_cond1 i k0_t1 = 1#1), ∀ a x, ((![v1656] : Fin 1 → IVec S16 32) a x).toNat < S100000.size a)
instance k0_chk539.dec : ∀ (i : grid0.Coords) (k0_t1 : Fin k0_t1_loop.trips) (v1656 : IVec S16 32), Decidable (k0_chk539 i k0_t1 v1656) := fun i k0_t1 v1656 => decidable_of_iff' _ (Iff.of_eq (k0_chk539.eq_1 i k0_t1 v1656))
theorem k0_idx539_inb : ∀ (i : grid0.Coords) (k0_t1 : Fin k0_t1_loop.trips) (v1656 : IVec S16 32) (k0_hw539 : k0_chk539 i k0_t1 v1656), ∀ (k0_h1 : k0_cond1 i k0_t1 = 1#1), ∀ a x, ((![v1656] : Fin 1 → IVec S16 32) a x).toNat < S100000.size a := fun i k0_t1 v1656 k0_hw539 k0_h1 => k0_hw539 k0_h1

def k0_chk540 (i : grid0.Coords) (k0_t1 : Fin k0_t1_loop.trips) (v1657 : IVec S16 32) : Prop :=
  (∀ (k0_h1 : k0_cond1 i k0_t1 = 1#1), ∀ a x, ((![v1657] : Fin 1 → IVec S16 32) a x).toNat < S100000.size a)
instance k0_chk540.dec : ∀ (i : grid0.Coords) (k0_t1 : Fin k0_t1_loop.trips) (v1657 : IVec S16 32), Decidable (k0_chk540 i k0_t1 v1657) := fun i k0_t1 v1657 => decidable_of_iff' _ (Iff.of_eq (k0_chk540.eq_1 i k0_t1 v1657))
theorem k0_idx540_inb : ∀ (i : grid0.Coords) (k0_t1 : Fin k0_t1_loop.trips) (v1657 : IVec S16 32) (k0_hw540 : k0_chk540 i k0_t1 v1657), ∀ (k0_h1 : k0_cond1 i k0_t1 = 1#1), ∀ a x, ((![v1657] : Fin 1 → IVec S16 32) a x).toNat < S100000.size a := fun i k0_t1 v1657 k0_hw540 k0_h1 => k0_hw540 k0_h1

def k0_chk541 (i : grid0.Coords) (k0_t1 : Fin k0_t1_loop.trips) (v1658 : IVec S16 32) : Prop :=
  (∀ (k0_h1 : k0_cond1 i k0_t1 = 1#1), ∀ a x, ((![v1658] : Fin 1 → IVec S16 32) a x).toNat < S100000.size a)
instance k0_chk541.dec : ∀ (i : grid0.Coords) (k0_t1 : Fin k0_t1_loop.trips) (v1658 : IVec S16 32), Decidable (k0_chk541 i k0_t1 v1658) := fun i k0_t1 v1658 => decidable_of_iff' _ (Iff.of_eq (k0_chk541.eq_1 i k0_t1 v1658))
theorem k0_idx541_inb : ∀ (i : grid0.Coords) (k0_t1 : Fin k0_t1_loop.trips) (v1658 : IVec S16 32) (k0_hw541 : k0_chk541 i k0_t1 v1658), ∀ (k0_h1 : k0_cond1 i k0_t1 = 1#1), ∀ a x, ((![v1658] : Fin 1 → IVec S16 32) a x).toNat < S100000.size a := fun i k0_t1 v1658 k0_hw541 k0_h1 => k0_hw541 k0_h1

def k0_chk542 (i : grid0.Coords) (k0_t1 : Fin k0_t1_loop.trips) (v1659 : IVec S16 32) : Prop :=
  (∀ (k0_h1 : k0_cond1 i k0_t1 = 1#1), ∀ a x, ((![v1659] : Fin 1 → IVec S16 32) a x).toNat < S100000.size a)
instance k0_chk542.dec : ∀ (i : grid0.Coords) (k0_t1 : Fin k0_t1_loop.trips) (v1659 : IVec S16 32), Decidable (k0_chk542 i k0_t1 v1659) := fun i k0_t1 v1659 => decidable_of_iff' _ (Iff.of_eq (k0_chk542.eq_1 i k0_t1 v1659))
theorem k0_idx542_inb : ∀ (i : grid0.Coords) (k0_t1 : Fin k0_t1_loop.trips) (v1659 : IVec S16 32) (k0_hw542 : k0_chk542 i k0_t1 v1659), ∀ (k0_h1 : k0_cond1 i k0_t1 = 1#1), ∀ a x, ((![v1659] : Fin 1 → IVec S16 32) a x).toNat < S100000.size a := fun i k0_t1 v1659 k0_hw542 k0_h1 => k0_hw542 k0_h1

def k0_chk543 (i : grid0.Coords) (k0_t1 : Fin k0_t1_loop.trips) (v1660 : IVec S16 32) : Prop :=
  (∀ (k0_h1 : k0_cond1 i k0_t1 = 1#1), ∀ a x, ((![v1660] : Fin 1 → IVec S16 32) a x).toNat < S100000.size a)
instance k0_chk543.dec : ∀ (i : grid0.Coords) (k0_t1 : Fin k0_t1_loop.trips) (v1660 : IVec S16 32), Decidable (k0_chk543 i k0_t1 v1660) := fun i k0_t1 v1660 => decidable_of_iff' _ (Iff.of_eq (k0_chk543.eq_1 i k0_t1 v1660))
theorem k0_idx543_inb : ∀ (i : grid0.Coords) (k0_t1 : Fin k0_t1_loop.trips) (v1660 : IVec S16 32) (k0_hw543 : k0_chk543 i k0_t1 v1660), ∀ (k0_h1 : k0_cond1 i k0_t1 = 1#1), ∀ a x, ((![v1660] : Fin 1 → IVec S16 32) a x).toNat < S100000.size a := fun i k0_t1 v1660 k0_hw543 k0_h1 => k0_hw543 k0_h1

def k0_chk544 (i : grid0.Coords) (k0_t1 : Fin k0_t1_loop.trips) (v1661 : IVec S16 32) : Prop :=
  (∀ (k0_h1 : k0_cond1 i k0_t1 = 1#1), ∀ a x, ((![v1661] : Fin 1 → IVec S16 32) a x).toNat < S100000.size a)
instance k0_chk544.dec : ∀ (i : grid0.Coords) (k0_t1 : Fin k0_t1_loop.trips) (v1661 : IVec S16 32), Decidable (k0_chk544 i k0_t1 v1661) := fun i k0_t1 v1661 => decidable_of_iff' _ (Iff.of_eq (k0_chk544.eq_1 i k0_t1 v1661))
theorem k0_idx544_inb : ∀ (i : grid0.Coords) (k0_t1 : Fin k0_t1_loop.trips) (v1661 : IVec S16 32) (k0_hw544 : k0_chk544 i k0_t1 v1661), ∀ (k0_h1 : k0_cond1 i k0_t1 = 1#1), ∀ a x, ((![v1661] : Fin 1 → IVec S16 32) a x).toNat < S100000.size a := fun i k0_t1 v1661 k0_hw544 k0_h1 => k0_hw544 k0_h1

def k0_chk545 (i : grid0.Coords) (k0_t1 : Fin k0_t1_loop.trips) (v1678 : IVec S16 32) : Prop :=
  (∀ (k0_h1 : k0_cond1 i k0_t1 = 1#1), ∀ a x, ((![v1678] : Fin 1 → IVec S16 32) a x).toNat < S100000.size a)
instance k0_chk545.dec : ∀ (i : grid0.Coords) (k0_t1 : Fin k0_t1_loop.trips) (v1678 : IVec S16 32), Decidable (k0_chk545 i k0_t1 v1678) := fun i k0_t1 v1678 => decidable_of_iff' _ (Iff.of_eq (k0_chk545.eq_1 i k0_t1 v1678))
theorem k0_idx545_inb : ∀ (i : grid0.Coords) (k0_t1 : Fin k0_t1_loop.trips) (v1678 : IVec S16 32) (k0_hw545 : k0_chk545 i k0_t1 v1678), ∀ (k0_h1 : k0_cond1 i k0_t1 = 1#1), ∀ a x, ((![v1678] : Fin 1 → IVec S16 32) a x).toNat < S100000.size a := fun i k0_t1 v1678 k0_hw545 k0_h1 => k0_hw545 k0_h1

def k0_chk546 (i : grid0.Coords) (k0_t1 : Fin k0_t1_loop.trips) (v1679 : IVec S16 32) : Prop :=
  (∀ (k0_h1 : k0_cond1 i k0_t1 = 1#1), ∀ a x, ((![v1679] : Fin 1 → IVec S16 32) a x).toNat < S100000.size a)
instance k0_chk546.dec : ∀ (i : grid0.Coords) (k0_t1 : Fin k0_t1_loop.trips) (v1679 : IVec S16 32), Decidable (k0_chk546 i k0_t1 v1679) := fun i k0_t1 v1679 => decidable_of_iff' _ (Iff.of_eq (k0_chk546.eq_1 i k0_t1 v1679))
theorem k0_idx546_inb : ∀ (i : grid0.Coords) (k0_t1 : Fin k0_t1_loop.trips) (v1679 : IVec S16 32) (k0_hw546 : k0_chk546 i k0_t1 v1679), ∀ (k0_h1 : k0_cond1 i k0_t1 = 1#1), ∀ a x, ((![v1679] : Fin 1 → IVec S16 32) a x).toNat < S100000.size a := fun i k0_t1 v1679 k0_hw546 k0_h1 => k0_hw546 k0_h1

def k0_chk547 (i : grid0.Coords) (k0_t1 : Fin k0_t1_loop.trips) (v1680 : IVec S16 32) : Prop :=
  (∀ (k0_h1 : k0_cond1 i k0_t1 = 1#1), ∀ a x, ((![v1680] : Fin 1 → IVec S16 32) a x).toNat < S100000.size a)
instance k0_chk547.dec : ∀ (i : grid0.Coords) (k0_t1 : Fin k0_t1_loop.trips) (v1680 : IVec S16 32), Decidable (k0_chk547 i k0_t1 v1680) := fun i k0_t1 v1680 => decidable_of_iff' _ (Iff.of_eq (k0_chk547.eq_1 i k0_t1 v1680))
theorem k0_idx547_inb : ∀ (i : grid0.Coords) (k0_t1 : Fin k0_t1_loop.trips) (v1680 : IVec S16 32) (k0_hw547 : k0_chk547 i k0_t1 v1680), ∀ (k0_h1 : k0_cond1 i k0_t1 = 1#1), ∀ a x, ((![v1680] : Fin 1 → IVec S16 32) a x).toNat < S100000.size a := fun i k0_t1 v1680 k0_hw547 k0_h1 => k0_hw547 k0_h1

def k0_chk548 (i : grid0.Coords) (k0_t1 : Fin k0_t1_loop.trips) (v1681 : IVec S16 32) : Prop :=
  (∀ (k0_h1 : k0_cond1 i k0_t1 = 1#1), ∀ a x, ((![v1681] : Fin 1 → IVec S16 32) a x).toNat < S100000.size a)
instance k0_chk548.dec : ∀ (i : grid0.Coords) (k0_t1 : Fin k0_t1_loop.trips) (v1681 : IVec S16 32), Decidable (k0_chk548 i k0_t1 v1681) := fun i k0_t1 v1681 => decidable_of_iff' _ (Iff.of_eq (k0_chk548.eq_1 i k0_t1 v1681))
theorem k0_idx548_inb : ∀ (i : grid0.Coords) (k0_t1 : Fin k0_t1_loop.trips) (v1681 : IVec S16 32) (k0_hw548 : k0_chk548 i k0_t1 v1681), ∀ (k0_h1 : k0_cond1 i k0_t1 = 1#1), ∀ a x, ((![v1681] : Fin 1 → IVec S16 32) a x).toNat < S100000.size a := fun i k0_t1 v1681 k0_hw548 k0_h1 => k0_hw548 k0_h1

def k0_chk549 (i : grid0.Coords) (k0_t1 : Fin k0_t1_loop.trips) (v1682 : IVec S16 32) : Prop :=
  (∀ (k0_h1 : k0_cond1 i k0_t1 = 1#1), ∀ a x, ((![v1682] : Fin 1 → IVec S16 32) a x).toNat < S100000.size a)
instance k0_chk549.dec : ∀ (i : grid0.Coords) (k0_t1 : Fin k0_t1_loop.trips) (v1682 : IVec S16 32), Decidable (k0_chk549 i k0_t1 v1682) := fun i k0_t1 v1682 => decidable_of_iff' _ (Iff.of_eq (k0_chk549.eq_1 i k0_t1 v1682))
theorem k0_idx549_inb : ∀ (i : grid0.Coords) (k0_t1 : Fin k0_t1_loop.trips) (v1682 : IVec S16 32) (k0_hw549 : k0_chk549 i k0_t1 v1682), ∀ (k0_h1 : k0_cond1 i k0_t1 = 1#1), ∀ a x, ((![v1682] : Fin 1 → IVec S16 32) a x).toNat < S100000.size a := fun i k0_t1 v1682 k0_hw549 k0_h1 => k0_hw549 k0_h1

def k0_chk550 (i : grid0.Coords) (k0_t1 : Fin k0_t1_loop.trips) (v1683 : IVec S16 32) : Prop :=
  (∀ (k0_h1 : k0_cond1 i k0_t1 = 1#1), ∀ a x, ((![v1683] : Fin 1 → IVec S16 32) a x).toNat < S100000.size a)
instance k0_chk550.dec : ∀ (i : grid0.Coords) (k0_t1 : Fin k0_t1_loop.trips) (v1683 : IVec S16 32), Decidable (k0_chk550 i k0_t1 v1683) := fun i k0_t1 v1683 => decidable_of_iff' _ (Iff.of_eq (k0_chk550.eq_1 i k0_t1 v1683))
theorem k0_idx550_inb : ∀ (i : grid0.Coords) (k0_t1 : Fin k0_t1_loop.trips) (v1683 : IVec S16 32) (k0_hw550 : k0_chk550 i k0_t1 v1683), ∀ (k0_h1 : k0_cond1 i k0_t1 = 1#1), ∀ a x, ((![v1683] : Fin 1 → IVec S16 32) a x).toNat < S100000.size a := fun i k0_t1 v1683 k0_hw550 k0_h1 => k0_hw550 k0_h1

def k0_chk551 (i : grid0.Coords) (k0_t1 : Fin k0_t1_loop.trips) (v1684 : IVec S16 32) : Prop :=
  (∀ (k0_h1 : k0_cond1 i k0_t1 = 1#1), ∀ a x, ((![v1684] : Fin 1 → IVec S16 32) a x).toNat < S100000.size a)
instance k0_chk551.dec : ∀ (i : grid0.Coords) (k0_t1 : Fin k0_t1_loop.trips) (v1684 : IVec S16 32), Decidable (k0_chk551 i k0_t1 v1684) := fun i k0_t1 v1684 => decidable_of_iff' _ (Iff.of_eq (k0_chk551.eq_1 i k0_t1 v1684))
theorem k0_idx551_inb : ∀ (i : grid0.Coords) (k0_t1 : Fin k0_t1_loop.trips) (v1684 : IVec S16 32) (k0_hw551 : k0_chk551 i k0_t1 v1684), ∀ (k0_h1 : k0_cond1 i k0_t1 = 1#1), ∀ a x, ((![v1684] : Fin 1 → IVec S16 32) a x).toNat < S100000.size a := fun i k0_t1 v1684 k0_hw551 k0_h1 => k0_hw551 k0_h1

def k0_chk552 (i : grid0.Coords) (k0_t1 : Fin k0_t1_loop.trips) (v1685 : IVec S16 32) : Prop :=
  (∀ (k0_h1 : k0_cond1 i k0_t1 = 1#1), ∀ a x, ((![v1685] : Fin 1 → IVec S16 32) a x).toNat < S100000.size a)
instance k0_chk552.dec : ∀ (i : grid0.Coords) (k0_t1 : Fin k0_t1_loop.trips) (v1685 : IVec S16 32), Decidable (k0_chk552 i k0_t1 v1685) := fun i k0_t1 v1685 => decidable_of_iff' _ (Iff.of_eq (k0_chk552.eq_1 i k0_t1 v1685))
theorem k0_idx552_inb : ∀ (i : grid0.Coords) (k0_t1 : Fin k0_t1_loop.trips) (v1685 : IVec S16 32) (k0_hw552 : k0_chk552 i k0_t1 v1685), ∀ (k0_h1 : k0_cond1 i k0_t1 = 1#1), ∀ a x, ((![v1685] : Fin 1 → IVec S16 32) a x).toNat < S100000.size a := fun i k0_t1 v1685 k0_hw552 k0_h1 => k0_hw552 k0_h1

def k0_chk553 (i : grid0.Coords) (k0_t1 : Fin k0_t1_loop.trips) (v1702 : IVec S16 32) : Prop :=
  (∀ (k0_h1 : k0_cond1 i k0_t1 = 1#1), ∀ a x, ((![v1702] : Fin 1 → IVec S16 32) a x).toNat < S100000.size a)
instance k0_chk553.dec : ∀ (i : grid0.Coords) (k0_t1 : Fin k0_t1_loop.trips) (v1702 : IVec S16 32), Decidable (k0_chk553 i k0_t1 v1702) := fun i k0_t1 v1702 => decidable_of_iff' _ (Iff.of_eq (k0_chk553.eq_1 i k0_t1 v1702))
theorem k0_idx553_inb : ∀ (i : grid0.Coords) (k0_t1 : Fin k0_t1_loop.trips) (v1702 : IVec S16 32) (k0_hw553 : k0_chk553 i k0_t1 v1702), ∀ (k0_h1 : k0_cond1 i k0_t1 = 1#1), ∀ a x, ((![v1702] : Fin 1 → IVec S16 32) a x).toNat < S100000.size a := fun i k0_t1 v1702 k0_hw553 k0_h1 => k0_hw553 k0_h1

def k0_chk554 (i : grid0.Coords) (k0_t1 : Fin k0_t1_loop.trips) (v1703 : IVec S16 32) : Prop :=
  (∀ (k0_h1 : k0_cond1 i k0_t1 = 1#1), ∀ a x, ((![v1703] : Fin 1 → IVec S16 32) a x).toNat < S100000.size a)
instance k0_chk554.dec : ∀ (i : grid0.Coords) (k0_t1 : Fin k0_t1_loop.trips) (v1703 : IVec S16 32), Decidable (k0_chk554 i k0_t1 v1703) := fun i k0_t1 v1703 => decidable_of_iff' _ (Iff.of_eq (k0_chk554.eq_1 i k0_t1 v1703))
theorem k0_idx554_inb : ∀ (i : grid0.Coords) (k0_t1 : Fin k0_t1_loop.trips) (v1703 : IVec S16 32) (k0_hw554 : k0_chk554 i k0_t1 v1703), ∀ (k0_h1 : k0_cond1 i k0_t1 = 1#1), ∀ a x, ((![v1703] : Fin 1 → IVec S16 32) a x).toNat < S100000.size a := fun i k0_t1 v1703 k0_hw554 k0_h1 => k0_hw554 k0_h1

def k0_chk555 (i : grid0.Coords) (k0_t1 : Fin k0_t1_loop.trips) (v1704 : IVec S16 32) : Prop :=
  (∀ (k0_h1 : k0_cond1 i k0_t1 = 1#1), ∀ a x, ((![v1704] : Fin 1 → IVec S16 32) a x).toNat < S100000.size a)
instance k0_chk555.dec : ∀ (i : grid0.Coords) (k0_t1 : Fin k0_t1_loop.trips) (v1704 : IVec S16 32), Decidable (k0_chk555 i k0_t1 v1704) := fun i k0_t1 v1704 => decidable_of_iff' _ (Iff.of_eq (k0_chk555.eq_1 i k0_t1 v1704))
theorem k0_idx555_inb : ∀ (i : grid0.Coords) (k0_t1 : Fin k0_t1_loop.trips) (v1704 : IVec S16 32) (k0_hw555 : k0_chk555 i k0_t1 v1704), ∀ (k0_h1 : k0_cond1 i k0_t1 = 1#1), ∀ a x, ((![v1704] : Fin 1 → IVec S16 32) a x).toNat < S100000.size a := fun i k0_t1 v1704 k0_hw555 k0_h1 => k0_hw555 k0_h1

def k0_chk556 (i : grid0.Coords) (k0_t1 : Fin k0_t1_loop.trips) (v1705 : IVec S16 32) : Prop :=
  (∀ (k0_h1 : k0_cond1 i k0_t1 = 1#1), ∀ a x, ((![v1705] : Fin 1 → IVec S16 32) a x).toNat < S100000.size a)
instance k0_chk556.dec : ∀ (i : grid0.Coords) (k0_t1 : Fin k0_t1_loop.trips) (v1705 : IVec S16 32), Decidable (k0_chk556 i k0_t1 v1705) := fun i k0_t1 v1705 => decidable_of_iff' _ (Iff.of_eq (k0_chk556.eq_1 i k0_t1 v1705))
theorem k0_idx556_inb : ∀ (i : grid0.Coords) (k0_t1 : Fin k0_t1_loop.trips) (v1705 : IVec S16 32) (k0_hw556 : k0_chk556 i k0_t1 v1705), ∀ (k0_h1 : k0_cond1 i k0_t1 = 1#1), ∀ a x, ((![v1705] : Fin 1 → IVec S16 32) a x).toNat < S100000.size a := fun i k0_t1 v1705 k0_hw556 k0_h1 => k0_hw556 k0_h1

def k0_chk557 (i : grid0.Coords) (k0_t1 : Fin k0_t1_loop.trips) (v1706 : IVec S16 32) : Prop :=
  (∀ (k0_h1 : k0_cond1 i k0_t1 = 1#1), ∀ a x, ((![v1706] : Fin 1 → IVec S16 32) a x).toNat < S100000.size a)
instance k0_chk557.dec : ∀ (i : grid0.Coords) (k0_t1 : Fin k0_t1_loop.trips) (v1706 : IVec S16 32), Decidable (k0_chk557 i k0_t1 v1706) := fun i k0_t1 v1706 => decidable_of_iff' _ (Iff.of_eq (k0_chk557.eq_1 i k0_t1 v1706))
theorem k0_idx557_inb : ∀ (i : grid0.Coords) (k0_t1 : Fin k0_t1_loop.trips) (v1706 : IVec S16 32) (k0_hw557 : k0_chk557 i k0_t1 v1706), ∀ (k0_h1 : k0_cond1 i k0_t1 = 1#1), ∀ a x, ((![v1706] : Fin 1 → IVec S16 32) a x).toNat < S100000.size a := fun i k0_t1 v1706 k0_hw557 k0_h1 => k0_hw557 k0_h1

def k0_chk558 (i : grid0.Coords) (k0_t1 : Fin k0_t1_loop.trips) (v1707 : IVec S16 32) : Prop :=
  (∀ (k0_h1 : k0_cond1 i k0_t1 = 1#1), ∀ a x, ((![v1707] : Fin 1 → IVec S16 32) a x).toNat < S100000.size a)
instance k0_chk558.dec : ∀ (i : grid0.Coords) (k0_t1 : Fin k0_t1_loop.trips) (v1707 : IVec S16 32), Decidable (k0_chk558 i k0_t1 v1707) := fun i k0_t1 v1707 => decidable_of_iff' _ (Iff.of_eq (k0_chk558.eq_1 i k0_t1 v1707))
theorem k0_idx558_inb : ∀ (i : grid0.Coords) (k0_t1 : Fin k0_t1_loop.trips) (v1707 : IVec S16 32) (k0_hw558 : k0_chk558 i k0_t1 v1707), ∀ (k0_h1 : k0_cond1 i k0_t1 = 1#1), ∀ a x, ((![v1707] : Fin 1 → IVec S16 32) a x).toNat < S100000.size a := fun i k0_t1 v1707 k0_hw558 k0_h1 => k0_hw558 k0_h1

def k0_chk559 (i : grid0.Coords) (k0_t1 : Fin k0_t1_loop.trips) (v1708 : IVec S16 32) : Prop :=
  (∀ (k0_h1 : k0_cond1 i k0_t1 = 1#1), ∀ a x, ((![v1708] : Fin 1 → IVec S16 32) a x).toNat < S100000.size a)
instance k0_chk559.dec : ∀ (i : grid0.Coords) (k0_t1 : Fin k0_t1_loop.trips) (v1708 : IVec S16 32), Decidable (k0_chk559 i k0_t1 v1708) := fun i k0_t1 v1708 => decidable_of_iff' _ (Iff.of_eq (k0_chk559.eq_1 i k0_t1 v1708))
theorem k0_idx559_inb : ∀ (i : grid0.Coords) (k0_t1 : Fin k0_t1_loop.trips) (v1708 : IVec S16 32) (k0_hw559 : k0_chk559 i k0_t1 v1708), ∀ (k0_h1 : k0_cond1 i k0_t1 = 1#1), ∀ a x, ((![v1708] : Fin 1 → IVec S16 32) a x).toNat < S100000.size a := fun i k0_t1 v1708 k0_hw559 k0_h1 => k0_hw559 k0_h1

def k0_chk560 (i : grid0.Coords) (k0_t1 : Fin k0_t1_loop.trips) (v1709 : IVec S16 32) : Prop :=
  (∀ (k0_h1 : k0_cond1 i k0_t1 = 1#1), ∀ a x, ((![v1709] : Fin 1 → IVec S16 32) a x).toNat < S100000.size a)
instance k0_chk560.dec : ∀ (i : grid0.Coords) (k0_t1 : Fin k0_t1_loop.trips) (v1709 : IVec S16 32), Decidable (k0_chk560 i k0_t1 v1709) := fun i k0_t1 v1709 => decidable_of_iff' _ (Iff.of_eq (k0_chk560.eq_1 i k0_t1 v1709))
theorem k0_idx560_inb : ∀ (i : grid0.Coords) (k0_t1 : Fin k0_t1_loop.trips) (v1709 : IVec S16 32) (k0_hw560 : k0_chk560 i k0_t1 v1709), ∀ (k0_h1 : k0_cond1 i k0_t1 = 1#1), ∀ a x, ((![v1709] : Fin 1 → IVec S16 32) a x).toNat < S100000.size a := fun i k0_t1 v1709 k0_hw560 k0_h1 => k0_hw560 k0_h1

def k0_chk561 (i : grid0.Coords) (k0_t1 : Fin k0_t1_loop.trips) (v1726 : IVec S16 32) : Prop :=
  (∀ (k0_h1 : k0_cond1 i k0_t1 = 1#1), ∀ a x, ((![v1726] : Fin 1 → IVec S16 32) a x).toNat < S100000.size a)
instance k0_chk561.dec : ∀ (i : grid0.Coords) (k0_t1 : Fin k0_t1_loop.trips) (v1726 : IVec S16 32), Decidable (k0_chk561 i k0_t1 v1726) := fun i k0_t1 v1726 => decidable_of_iff' _ (Iff.of_eq (k0_chk561.eq_1 i k0_t1 v1726))
theorem k0_idx561_inb : ∀ (i : grid0.Coords) (k0_t1 : Fin k0_t1_loop.trips) (v1726 : IVec S16 32) (k0_hw561 : k0_chk561 i k0_t1 v1726), ∀ (k0_h1 : k0_cond1 i k0_t1 = 1#1), ∀ a x, ((![v1726] : Fin 1 → IVec S16 32) a x).toNat < S100000.size a := fun i k0_t1 v1726 k0_hw561 k0_h1 => k0_hw561 k0_h1

def k0_chk562 (i : grid0.Coords) (k0_t1 : Fin k0_t1_loop.trips) (v1727 : IVec S16 32) : Prop :=
  (∀ (k0_h1 : k0_cond1 i k0_t1 = 1#1), ∀ a x, ((![v1727] : Fin 1 → IVec S16 32) a x).toNat < S100000.size a)
instance k0_chk562.dec : ∀ (i : grid0.Coords) (k0_t1 : Fin k0_t1_loop.trips) (v1727 : IVec S16 32), Decidable (k0_chk562 i k0_t1 v1727) := fun i k0_t1 v1727 => decidable_of_iff' _ (Iff.of_eq (k0_chk562.eq_1 i k0_t1 v1727))
theorem k0_idx562_inb : ∀ (i : grid0.Coords) (k0_t1 : Fin k0_t1_loop.trips) (v1727 : IVec S16 32) (k0_hw562 : k0_chk562 i k0_t1 v1727), ∀ (k0_h1 : k0_cond1 i k0_t1 = 1#1), ∀ a x, ((![v1727] : Fin 1 → IVec S16 32) a x).toNat < S100000.size a := fun i k0_t1 v1727 k0_hw562 k0_h1 => k0_hw562 k0_h1

def k0_chk563 (i : grid0.Coords) (k0_t1 : Fin k0_t1_loop.trips) (v1728 : IVec S16 32) : Prop :=
  (∀ (k0_h1 : k0_cond1 i k0_t1 = 1#1), ∀ a x, ((![v1728] : Fin 1 → IVec S16 32) a x).toNat < S100000.size a)
instance k0_chk563.dec : ∀ (i : grid0.Coords) (k0_t1 : Fin k0_t1_loop.trips) (v1728 : IVec S16 32), Decidable (k0_chk563 i k0_t1 v1728) := fun i k0_t1 v1728 => decidable_of_iff' _ (Iff.of_eq (k0_chk563.eq_1 i k0_t1 v1728))
theorem k0_idx563_inb : ∀ (i : grid0.Coords) (k0_t1 : Fin k0_t1_loop.trips) (v1728 : IVec S16 32) (k0_hw563 : k0_chk563 i k0_t1 v1728), ∀ (k0_h1 : k0_cond1 i k0_t1 = 1#1), ∀ a x, ((![v1728] : Fin 1 → IVec S16 32) a x).toNat < S100000.size a := fun i k0_t1 v1728 k0_hw563 k0_h1 => k0_hw563 k0_h1

def k0_chk564 (i : grid0.Coords) (k0_t1 : Fin k0_t1_loop.trips) (v1729 : IVec S16 32) : Prop :=
  (∀ (k0_h1 : k0_cond1 i k0_t1 = 1#1), ∀ a x, ((![v1729] : Fin 1 → IVec S16 32) a x).toNat < S100000.size a)
instance k0_chk564.dec : ∀ (i : grid0.Coords) (k0_t1 : Fin k0_t1_loop.trips) (v1729 : IVec S16 32), Decidable (k0_chk564 i k0_t1 v1729) := fun i k0_t1 v1729 => decidable_of_iff' _ (Iff.of_eq (k0_chk564.eq_1 i k0_t1 v1729))
theorem k0_idx564_inb : ∀ (i : grid0.Coords) (k0_t1 : Fin k0_t1_loop.trips) (v1729 : IVec S16 32) (k0_hw564 : k0_chk564 i k0_t1 v1729), ∀ (k0_h1 : k0_cond1 i k0_t1 = 1#1), ∀ a x, ((![v1729] : Fin 1 → IVec S16 32) a x).toNat < S100000.size a := fun i k0_t1 v1729 k0_hw564 k0_h1 => k0_hw564 k0_h1

def k0_chk565 (i : grid0.Coords) (k0_t1 : Fin k0_t1_loop.trips) (v1730 : IVec S16 32) : Prop :=
  (∀ (k0_h1 : k0_cond1 i k0_t1 = 1#1), ∀ a x, ((![v1730] : Fin 1 → IVec S16 32) a x).toNat < S100000.size a)
instance k0_chk565.dec : ∀ (i : grid0.Coords) (k0_t1 : Fin k0_t1_loop.trips) (v1730 : IVec S16 32), Decidable (k0_chk565 i k0_t1 v1730) := fun i k0_t1 v1730 => decidable_of_iff' _ (Iff.of_eq (k0_chk565.eq_1 i k0_t1 v1730))
theorem k0_idx565_inb : ∀ (i : grid0.Coords) (k0_t1 : Fin k0_t1_loop.trips) (v1730 : IVec S16 32) (k0_hw565 : k0_chk565 i k0_t1 v1730), ∀ (k0_h1 : k0_cond1 i k0_t1 = 1#1), ∀ a x, ((![v1730] : Fin 1 → IVec S16 32) a x).toNat < S100000.size a := fun i k0_t1 v1730 k0_hw565 k0_h1 => k0_hw565 k0_h1

def k0_chk566 (i : grid0.Coords) (k0_t1 : Fin k0_t1_loop.trips) (v1731 : IVec S16 32) : Prop :=
  (∀ (k0_h1 : k0_cond1 i k0_t1 = 1#1), ∀ a x, ((![v1731] : Fin 1 → IVec S16 32) a x).toNat < S100000.size a)
instance k0_chk566.dec : ∀ (i : grid0.Coords) (k0_t1 : Fin k0_t1_loop.trips) (v1731 : IVec S16 32), Decidable (k0_chk566 i k0_t1 v1731) := fun i k0_t1 v1731 => decidable_of_iff' _ (Iff.of_eq (k0_chk566.eq_1 i k0_t1 v1731))
theorem k0_idx566_inb : ∀ (i : grid0.Coords) (k0_t1 : Fin k0_t1_loop.trips) (v1731 : IVec S16 32) (k0_hw566 : k0_chk566 i k0_t1 v1731), ∀ (k0_h1 : k0_cond1 i k0_t1 = 1#1), ∀ a x, ((![v1731] : Fin 1 → IVec S16 32) a x).toNat < S100000.size a := fun i k0_t1 v1731 k0_hw566 k0_h1 => k0_hw566 k0_h1

def k0_chk567 (i : grid0.Coords) (k0_t1 : Fin k0_t1_loop.trips) (v1732 : IVec S16 32) : Prop :=
  (∀ (k0_h1 : k0_cond1 i k0_t1 = 1#1), ∀ a x, ((![v1732] : Fin 1 → IVec S16 32) a x).toNat < S100000.size a)
instance k0_chk567.dec : ∀ (i : grid0.Coords) (k0_t1 : Fin k0_t1_loop.trips) (v1732 : IVec S16 32), Decidable (k0_chk567 i k0_t1 v1732) := fun i k0_t1 v1732 => decidable_of_iff' _ (Iff.of_eq (k0_chk567.eq_1 i k0_t1 v1732))
theorem k0_idx567_inb : ∀ (i : grid0.Coords) (k0_t1 : Fin k0_t1_loop.trips) (v1732 : IVec S16 32) (k0_hw567 : k0_chk567 i k0_t1 v1732), ∀ (k0_h1 : k0_cond1 i k0_t1 = 1#1), ∀ a x, ((![v1732] : Fin 1 → IVec S16 32) a x).toNat < S100000.size a := fun i k0_t1 v1732 k0_hw567 k0_h1 => k0_hw567 k0_h1

def k0_chk568 (i : grid0.Coords) (k0_t1 : Fin k0_t1_loop.trips) (v1733 : IVec S16 32) : Prop :=
  (∀ (k0_h1 : k0_cond1 i k0_t1 = 1#1), ∀ a x, ((![v1733] : Fin 1 → IVec S16 32) a x).toNat < S100000.size a)
instance k0_chk568.dec : ∀ (i : grid0.Coords) (k0_t1 : Fin k0_t1_loop.trips) (v1733 : IVec S16 32), Decidable (k0_chk568 i k0_t1 v1733) := fun i k0_t1 v1733 => decidable_of_iff' _ (Iff.of_eq (k0_chk568.eq_1 i k0_t1 v1733))
theorem k0_idx568_inb : ∀ (i : grid0.Coords) (k0_t1 : Fin k0_t1_loop.trips) (v1733 : IVec S16 32) (k0_hw568 : k0_chk568 i k0_t1 v1733), ∀ (k0_h1 : k0_cond1 i k0_t1 = 1#1), ∀ a x, ((![v1733] : Fin 1 → IVec S16 32) a x).toNat < S100000.size a := fun i k0_t1 v1733 k0_hw568 k0_h1 => k0_hw568 k0_h1

def k0_chk569 (i : grid0.Coords) (k0_t1 : Fin k0_t1_loop.trips) (v1750 : IVec S16 32) : Prop :=
  (∀ (k0_h1 : k0_cond1 i k0_t1 = 1#1), ∀ a x, ((![v1750] : Fin 1 → IVec S16 32) a x).toNat < S100000.size a)
instance k0_chk569.dec : ∀ (i : grid0.Coords) (k0_t1 : Fin k0_t1_loop.trips) (v1750 : IVec S16 32), Decidable (k0_chk569 i k0_t1 v1750) := fun i k0_t1 v1750 => decidable_of_iff' _ (Iff.of_eq (k0_chk569.eq_1 i k0_t1 v1750))
theorem k0_idx569_inb : ∀ (i : grid0.Coords) (k0_t1 : Fin k0_t1_loop.trips) (v1750 : IVec S16 32) (k0_hw569 : k0_chk569 i k0_t1 v1750), ∀ (k0_h1 : k0_cond1 i k0_t1 = 1#1), ∀ a x, ((![v1750] : Fin 1 → IVec S16 32) a x).toNat < S100000.size a := fun i k0_t1 v1750 k0_hw569 k0_h1 => k0_hw569 k0_h1

def k0_chk570 (i : grid0.Coords) (k0_t1 : Fin k0_t1_loop.trips) (v1751 : IVec S16 32) : Prop :=
  (∀ (k0_h1 : k0_cond1 i k0_t1 = 1#1), ∀ a x, ((![v1751] : Fin 1 → IVec S16 32) a x).toNat < S100000.size a)
instance k0_chk570.dec : ∀ (i : grid0.Coords) (k0_t1 : Fin k0_t1_loop.trips) (v1751 : IVec S16 32), Decidable (k0_chk570 i k0_t1 v1751) := fun i k0_t1 v1751 => decidable_of_iff' _ (Iff.of_eq (k0_chk570.eq_1 i k0_t1 v1751))
theorem k0_idx570_inb : ∀ (i : grid0.Coords) (k0_t1 : Fin k0_t1_loop.trips) (v1751 : IVec S16 32) (k0_hw570 : k0_chk570 i k0_t1 v1751), ∀ (k0_h1 : k0_cond1 i k0_t1 = 1#1), ∀ a x, ((![v1751] : Fin 1 → IVec S16 32) a x).toNat < S100000.size a := fun i k0_t1 v1751 k0_hw570 k0_h1 => k0_hw570 k0_h1

def k0_chk571 (i : grid0.Coords) (k0_t1 : Fin k0_t1_loop.trips) (v1752 : IVec S16 32) : Prop :=
  (∀ (k0_h1 : k0_cond1 i k0_t1 = 1#1), ∀ a x, ((![v1752] : Fin 1 → IVec S16 32) a x).toNat < S100000.size a)
instance k0_chk571.dec : ∀ (i : grid0.Coords) (k0_t1 : Fin k0_t1_loop.trips) (v1752 : IVec S16 32), Decidable (k0_chk571 i k0_t1 v1752) := fun i k0_t1 v1752 => decidable_of_iff' _ (Iff.of_eq (k0_chk571.eq_1 i k0_t1 v1752))
theorem k0_idx571_inb : ∀ (i : grid0.Coords) (k0_t1 : Fin k0_t1_loop.trips) (v1752 : IVec S16 32) (k0_hw571 : k0_chk571 i k0_t1 v1752), ∀ (k0_h1 : k0_cond1 i k0_t1 = 1#1), ∀ a x, ((![v1752] : Fin 1 → IVec S16 32) a x).toNat < S100000.size a := fun i k0_t1 v1752 k0_hw571 k0_h1 => k0_hw571 k0_h1

def k0_chk572 (i : grid0.Coords) (k0_t1 : Fin k0_t1_loop.trips) (v1753 : IVec S16 32) : Prop :=
  (∀ (k0_h1 : k0_cond1 i k0_t1 = 1#1), ∀ a x, ((![v1753] : Fin 1 → IVec S16 32) a x).toNat < S100000.size a)
instance k0_chk572.dec : ∀ (i : grid0.Coords) (k0_t1 : Fin k0_t1_loop.trips) (v1753 : IVec S16 32), Decidable (k0_chk572 i k0_t1 v1753) := fun i k0_t1 v1753 => decidable_of_iff' _ (Iff.of_eq (k0_chk572.eq_1 i k0_t1 v1753))
theorem k0_idx572_inb : ∀ (i : grid0.Coords) (k0_t1 : Fin k0_t1_loop.trips) (v1753 : IVec S16 32) (k0_hw572 : k0_chk572 i k0_t1 v1753), ∀ (k0_h1 : k0_cond1 i k0_t1 = 1#1), ∀ a x, ((![v1753] : Fin 1 → IVec S16 32) a x).toNat < S100000.size a := fun i k0_t1 v1753 k0_hw572 k0_h1 => k0_hw572 k0_h1

def k0_chk573 (i : grid0.Coords) (k0_t1 : Fin k0_t1_loop.trips) (v1754 : IVec S16 32) : Prop :=
  (∀ (k0_h1 : k0_cond1 i k0_t1 = 1#1), ∀ a x, ((![v1754] : Fin 1 → IVec S16 32) a x).toNat < S100000.size a)
instance k0_chk573.dec : ∀ (i : grid0.Coords) (k0_t1 : Fin k0_t1_loop.trips) (v1754 : IVec S16 32), Decidable (k0_chk573 i k0_t1 v1754) := fun i k0_t1 v1754 => decidable_of_iff' _ (Iff.of_eq (k0_chk573.eq_1 i k0_t1 v1754))
theorem k0_idx573_inb : ∀ (i : grid0.Coords) (k0_t1 : Fin k0_t1_loop.trips) (v1754 : IVec S16 32) (k0_hw573 : k0_chk573 i k0_t1 v1754), ∀ (k0_h1 : k0_cond1 i k0_t1 = 1#1), ∀ a x, ((![v1754] : Fin 1 → IVec S16 32) a x).toNat < S100000.size a := fun i k0_t1 v1754 k0_hw573 k0_h1 => k0_hw573 k0_h1

def k0_chk574 (i : grid0.Coords) (k0_t1 : Fin k0_t1_loop.trips) (v1755 : IVec S16 32) : Prop :=
  (∀ (k0_h1 : k0_cond1 i k0_t1 = 1#1), ∀ a x, ((![v1755] : Fin 1 → IVec S16 32) a x).toNat < S100000.size a)
instance k0_chk574.dec : ∀ (i : grid0.Coords) (k0_t1 : Fin k0_t1_loop.trips) (v1755 : IVec S16 32), Decidable (k0_chk574 i k0_t1 v1755) := fun i k0_t1 v1755 => decidable_of_iff' _ (Iff.of_eq (k0_chk574.eq_1 i k0_t1 v1755))
theorem k0_idx574_inb : ∀ (i : grid0.Coords) (k0_t1 : Fin k0_t1_loop.trips) (v1755 : IVec S16 32) (k0_hw574 : k0_chk574 i k0_t1 v1755), ∀ (k0_h1 : k0_cond1 i k0_t1 = 1#1), ∀ a x, ((![v1755] : Fin 1 → IVec S16 32) a x).toNat < S100000.size a := fun i k0_t1 v1755 k0_hw574 k0_h1 => k0_hw574 k0_h1

def k0_chk575 (i : grid0.Coords) (k0_t1 : Fin k0_t1_loop.trips) (v1756 : IVec S16 32) : Prop :=
  (∀ (k0_h1 : k0_cond1 i k0_t1 = 1#1), ∀ a x, ((![v1756] : Fin 1 → IVec S16 32) a x).toNat < S100000.size a)
instance k0_chk575.dec : ∀ (i : grid0.Coords) (k0_t1 : Fin k0_t1_loop.trips) (v1756 : IVec S16 32), Decidable (k0_chk575 i k0_t1 v1756) := fun i k0_t1 v1756 => decidable_of_iff' _ (Iff.of_eq (k0_chk575.eq_1 i k0_t1 v1756))
theorem k0_idx575_inb : ∀ (i : grid0.Coords) (k0_t1 : Fin k0_t1_loop.trips) (v1756 : IVec S16 32) (k0_hw575 : k0_chk575 i k0_t1 v1756), ∀ (k0_h1 : k0_cond1 i k0_t1 = 1#1), ∀ a x, ((![v1756] : Fin 1 → IVec S16 32) a x).toNat < S100000.size a := fun i k0_t1 v1756 k0_hw575 k0_h1 => k0_hw575 k0_h1

def k0_chk576 (i : grid0.Coords) (k0_t1 : Fin k0_t1_loop.trips) (v1757 : IVec S16 32) : Prop :=
  (∀ (k0_h1 : k0_cond1 i k0_t1 = 1#1), ∀ a x, ((![v1757] : Fin 1 → IVec S16 32) a x).toNat < S100000.size a)
instance k0_chk576.dec : ∀ (i : grid0.Coords) (k0_t1 : Fin k0_t1_loop.trips) (v1757 : IVec S16 32), Decidable (k0_chk576 i k0_t1 v1757) := fun i k0_t1 v1757 => decidable_of_iff' _ (Iff.of_eq (k0_chk576.eq_1 i k0_t1 v1757))
theorem k0_idx576_inb : ∀ (i : grid0.Coords) (k0_t1 : Fin k0_t1_loop.trips) (v1757 : IVec S16 32) (k0_hw576 : k0_chk576 i k0_t1 v1757), ∀ (k0_h1 : k0_cond1 i k0_t1 = 1#1), ∀ a x, ((![v1757] : Fin 1 → IVec S16 32) a x).toNat < S100000.size a := fun i k0_t1 v1757 k0_hw576 k0_h1 => k0_hw576 k0_h1

def k0_chk577 (i : grid0.Coords) (k0_t1 : Fin k0_t1_loop.trips) (v1774 : IVec S16 32) : Prop :=
  (∀ (k0_h1 : k0_cond1 i k0_t1 = 1#1), ∀ a x, ((![v1774] : Fin 1 → IVec S16 32) a x).toNat < S100000.size a)
instance k0_chk577.dec : ∀ (i : grid0.Coords) (k0_t1 : Fin k0_t1_loop.trips) (v1774 : IVec S16 32), Decidable (k0_chk577 i k0_t1 v1774) := fun i k0_t1 v1774 => decidable_of_iff' _ (Iff.of_eq (k0_chk577.eq_1 i k0_t1 v1774))
theorem k0_idx577_inb : ∀ (i : grid0.Coords) (k0_t1 : Fin k0_t1_loop.trips) (v1774 : IVec S16 32) (k0_hw577 : k0_chk577 i k0_t1 v1774), ∀ (k0_h1 : k0_cond1 i k0_t1 = 1#1), ∀ a x, ((![v1774] : Fin 1 → IVec S16 32) a x).toNat < S100000.size a := fun i k0_t1 v1774 k0_hw577 k0_h1 => k0_hw577 k0_h1

def k0_chk578 (i : grid0.Coords) (k0_t1 : Fin k0_t1_loop.trips) (v1775 : IVec S16 32) : Prop :=
  (∀ (k0_h1 : k0_cond1 i k0_t1 = 1#1), ∀ a x, ((![v1775] : Fin 1 → IVec S16 32) a x).toNat < S100000.size a)
instance k0_chk578.dec : ∀ (i : grid0.Coords) (k0_t1 : Fin k0_t1_loop.trips) (v1775 : IVec S16 32), Decidable (k0_chk578 i k0_t1 v1775) := fun i k0_t1 v1775 => decidable_of_iff' _ (Iff.of_eq (k0_chk578.eq_1 i k0_t1 v1775))
theorem k0_idx578_inb : ∀ (i : grid0.Coords) (k0_t1 : Fin k0_t1_loop.trips) (v1775 : IVec S16 32) (k0_hw578 : k0_chk578 i k0_t1 v1775), ∀ (k0_h1 : k0_cond1 i k0_t1 = 1#1), ∀ a x, ((![v1775] : Fin 1 → IVec S16 32) a x).toNat < S100000.size a := fun i k0_t1 v1775 k0_hw578 k0_h1 => k0_hw578 k0_h1

def k0_chk579 (i : grid0.Coords) (k0_t1 : Fin k0_t1_loop.trips) (v1776 : IVec S16 32) : Prop :=
  (∀ (k0_h1 : k0_cond1 i k0_t1 = 1#1), ∀ a x, ((![v1776] : Fin 1 → IVec S16 32) a x).toNat < S100000.size a)
instance k0_chk579.dec : ∀ (i : grid0.Coords) (k0_t1 : Fin k0_t1_loop.trips) (v1776 : IVec S16 32), Decidable (k0_chk579 i k0_t1 v1776) := fun i k0_t1 v1776 => decidable_of_iff' _ (Iff.of_eq (k0_chk579.eq_1 i k0_t1 v1776))
theorem k0_idx579_inb : ∀ (i : grid0.Coords) (k0_t1 : Fin k0_t1_loop.trips) (v1776 : IVec S16 32) (k0_hw579 : k0_chk579 i k0_t1 v1776), ∀ (k0_h1 : k0_cond1 i k0_t1 = 1#1), ∀ a x, ((![v1776] : Fin 1 → IVec S16 32) a x).toNat < S100000.size a := fun i k0_t1 v1776 k0_hw579 k0_h1 => k0_hw579 k0_h1

def k0_chk580 (i : grid0.Coords) (k0_t1 : Fin k0_t1_loop.trips) (v1777 : IVec S16 32) : Prop :=
  (∀ (k0_h1 : k0_cond1 i k0_t1 = 1#1), ∀ a x, ((![v1777] : Fin 1 → IVec S16 32) a x).toNat < S100000.size a)
instance k0_chk580.dec : ∀ (i : grid0.Coords) (k0_t1 : Fin k0_t1_loop.trips) (v1777 : IVec S16 32), Decidable (k0_chk580 i k0_t1 v1777) := fun i k0_t1 v1777 => decidable_of_iff' _ (Iff.of_eq (k0_chk580.eq_1 i k0_t1 v1777))
theorem k0_idx580_inb : ∀ (i : grid0.Coords) (k0_t1 : Fin k0_t1_loop.trips) (v1777 : IVec S16 32) (k0_hw580 : k0_chk580 i k0_t1 v1777), ∀ (k0_h1 : k0_cond1 i k0_t1 = 1#1), ∀ a x, ((![v1777] : Fin 1 → IVec S16 32) a x).toNat < S100000.size a := fun i k0_t1 v1777 k0_hw580 k0_h1 => k0_hw580 k0_h1

def k0_chk581 (i : grid0.Coords) (k0_t1 : Fin k0_t1_loop.trips) (v1778 : IVec S16 32) : Prop :=
  (∀ (k0_h1 : k0_cond1 i k0_t1 = 1#1), ∀ a x, ((![v1778] : Fin 1 → IVec S16 32) a x).toNat < S100000.size a)
instance k0_chk581.dec : ∀ (i : grid0.Coords) (k0_t1 : Fin k0_t1_loop.trips) (v1778 : IVec S16 32), Decidable (k0_chk581 i k0_t1 v1778) := fun i k0_t1 v1778 => decidable_of_iff' _ (Iff.of_eq (k0_chk581.eq_1 i k0_t1 v1778))
theorem k0_idx581_inb : ∀ (i : grid0.Coords) (k0_t1 : Fin k0_t1_loop.trips) (v1778 : IVec S16 32) (k0_hw581 : k0_chk581 i k0_t1 v1778), ∀ (k0_h1 : k0_cond1 i k0_t1 = 1#1), ∀ a x, ((![v1778] : Fin 1 → IVec S16 32) a x).toNat < S100000.size a := fun i k0_t1 v1778 k0_hw581 k0_h1 => k0_hw581 k0_h1

def k0_chk582 (i : grid0.Coords) (k0_t1 : Fin k0_t1_loop.trips) (v1779 : IVec S16 32) : Prop :=
  (∀ (k0_h1 : k0_cond1 i k0_t1 = 1#1), ∀ a x, ((![v1779] : Fin 1 → IVec S16 32) a x).toNat < S100000.size a)
instance k0_chk582.dec : ∀ (i : grid0.Coords) (k0_t1 : Fin k0_t1_loop.trips) (v1779 : IVec S16 32), Decidable (k0_chk582 i k0_t1 v1779) := fun i k0_t1 v1779 => decidable_of_iff' _ (Iff.of_eq (k0_chk582.eq_1 i k0_t1 v1779))
theorem k0_idx582_inb : ∀ (i : grid0.Coords) (k0_t1 : Fin k0_t1_loop.trips) (v1779 : IVec S16 32) (k0_hw582 : k0_chk582 i k0_t1 v1779), ∀ (k0_h1 : k0_cond1 i k0_t1 = 1#1), ∀ a x, ((![v1779] : Fin 1 → IVec S16 32) a x).toNat < S100000.size a := fun i k0_t1 v1779 k0_hw582 k0_h1 => k0_hw582 k0_h1

def k0_chk583 (i : grid0.Coords) (k0_t1 : Fin k0_t1_loop.trips) (v1780 : IVec S16 32) : Prop :=
  (∀ (k0_h1 : k0_cond1 i k0_t1 = 1#1), ∀ a x, ((![v1780] : Fin 1 → IVec S16 32) a x).toNat < S100000.size a)
instance k0_chk583.dec : ∀ (i : grid0.Coords) (k0_t1 : Fin k0_t1_loop.trips) (v1780 : IVec S16 32), Decidable (k0_chk583 i k0_t1 v1780) := fun i k0_t1 v1780 => decidable_of_iff' _ (Iff.of_eq (k0_chk583.eq_1 i k0_t1 v1780))
theorem k0_idx583_inb : ∀ (i : grid0.Coords) (k0_t1 : Fin k0_t1_loop.trips) (v1780 : IVec S16 32) (k0_hw583 : k0_chk583 i k0_t1 v1780), ∀ (k0_h1 : k0_cond1 i k0_t1 = 1#1), ∀ a x, ((![v1780] : Fin 1 → IVec S16 32) a x).toNat < S100000.size a := fun i k0_t1 v1780 k0_hw583 k0_h1 => k0_hw583 k0_h1

def k0_chk584 (i : grid0.Coords) (k0_t1 : Fin k0_t1_loop.trips) (v1781 : IVec S16 32) : Prop :=
  (∀ (k0_h1 : k0_cond1 i k0_t1 = 1#1), ∀ a x, ((![v1781] : Fin 1 → IVec S16 32) a x).toNat < S100000.size a)
instance k0_chk584.dec : ∀ (i : grid0.Coords) (k0_t1 : Fin k0_t1_loop.trips) (v1781 : IVec S16 32), Decidable (k0_chk584 i k0_t1 v1781) := fun i k0_t1 v1781 => decidable_of_iff' _ (Iff.of_eq (k0_chk584.eq_1 i k0_t1 v1781))
theorem k0_idx584_inb : ∀ (i : grid0.Coords) (k0_t1 : Fin k0_t1_loop.trips) (v1781 : IVec S16 32) (k0_hw584 : k0_chk584 i k0_t1 v1781), ∀ (k0_h1 : k0_cond1 i k0_t1 = 1#1), ∀ a x, ((![v1781] : Fin 1 → IVec S16 32) a x).toNat < S100000.size a := fun i k0_t1 v1781 k0_hw584 k0_h1 => k0_hw584 k0_h1

def k0_chk585 (i : grid0.Coords) (k0_t1 : Fin k0_t1_loop.trips) (v1798 : IVec S16 32) : Prop :=
  (∀ (k0_h1 : k0_cond1 i k0_t1 = 1#1), ∀ a x, ((![v1798] : Fin 1 → IVec S16 32) a x).toNat < S100000.size a)
instance k0_chk585.dec : ∀ (i : grid0.Coords) (k0_t1 : Fin k0_t1_loop.trips) (v1798 : IVec S16 32), Decidable (k0_chk585 i k0_t1 v1798) := fun i k0_t1 v1798 => decidable_of_iff' _ (Iff.of_eq (k0_chk585.eq_1 i k0_t1 v1798))
theorem k0_idx585_inb : ∀ (i : grid0.Coords) (k0_t1 : Fin k0_t1_loop.trips) (v1798 : IVec S16 32) (k0_hw585 : k0_chk585 i k0_t1 v1798), ∀ (k0_h1 : k0_cond1 i k0_t1 = 1#1), ∀ a x, ((![v1798] : Fin 1 → IVec S16 32) a x).toNat < S100000.size a := fun i k0_t1 v1798 k0_hw585 k0_h1 => k0_hw585 k0_h1

def k0_chk586 (i : grid0.Coords) (k0_t1 : Fin k0_t1_loop.trips) (v1799 : IVec S16 32) : Prop :=
  (∀ (k0_h1 : k0_cond1 i k0_t1 = 1#1), ∀ a x, ((![v1799] : Fin 1 → IVec S16 32) a x).toNat < S100000.size a)
instance k0_chk586.dec : ∀ (i : grid0.Coords) (k0_t1 : Fin k0_t1_loop.trips) (v1799 : IVec S16 32), Decidable (k0_chk586 i k0_t1 v1799) := fun i k0_t1 v1799 => decidable_of_iff' _ (Iff.of_eq (k0_chk586.eq_1 i k0_t1 v1799))
theorem k0_idx586_inb : ∀ (i : grid0.Coords) (k0_t1 : Fin k0_t1_loop.trips) (v1799 : IVec S16 32) (k0_hw586 : k0_chk586 i k0_t1 v1799), ∀ (k0_h1 : k0_cond1 i k0_t1 = 1#1), ∀ a x, ((![v1799] : Fin 1 → IVec S16 32) a x).toNat < S100000.size a := fun i k0_t1 v1799 k0_hw586 k0_h1 => k0_hw586 k0_h1

def k0_chk587 (i : grid0.Coords) (k0_t1 : Fin k0_t1_loop.trips) (v1800 : IVec S16 32) : Prop :=
  (∀ (k0_h1 : k0_cond1 i k0_t1 = 1#1), ∀ a x, ((![v1800] : Fin 1 → IVec S16 32) a x).toNat < S100000.size a)
instance k0_chk587.dec : ∀ (i : grid0.Coords) (k0_t1 : Fin k0_t1_loop.trips) (v1800 : IVec S16 32), Decidable (k0_chk587 i k0_t1 v1800) := fun i k0_t1 v1800 => decidable_of_iff' _ (Iff.of_eq (k0_chk587.eq_1 i k0_t1 v1800))
theorem k0_idx587_inb : ∀ (i : grid0.Coords) (k0_t1 : Fin k0_t1_loop.trips) (v1800 : IVec S16 32) (k0_hw587 : k0_chk587 i k0_t1 v1800), ∀ (k0_h1 : k0_cond1 i k0_t1 = 1#1), ∀ a x, ((![v1800] : Fin 1 → IVec S16 32) a x).toNat < S100000.size a := fun i k0_t1 v1800 k0_hw587 k0_h1 => k0_hw587 k0_h1

def k0_chk588 (i : grid0.Coords) (k0_t1 : Fin k0_t1_loop.trips) (v1801 : IVec S16 32) : Prop :=
  (∀ (k0_h1 : k0_cond1 i k0_t1 = 1#1), ∀ a x, ((![v1801] : Fin 1 → IVec S16 32) a x).toNat < S100000.size a)
instance k0_chk588.dec : ∀ (i : grid0.Coords) (k0_t1 : Fin k0_t1_loop.trips) (v1801 : IVec S16 32), Decidable (k0_chk588 i k0_t1 v1801) := fun i k0_t1 v1801 => decidable_of_iff' _ (Iff.of_eq (k0_chk588.eq_1 i k0_t1 v1801))
theorem k0_idx588_inb : ∀ (i : grid0.Coords) (k0_t1 : Fin k0_t1_loop.trips) (v1801 : IVec S16 32) (k0_hw588 : k0_chk588 i k0_t1 v1801), ∀ (k0_h1 : k0_cond1 i k0_t1 = 1#1), ∀ a x, ((![v1801] : Fin 1 → IVec S16 32) a x).toNat < S100000.size a := fun i k0_t1 v1801 k0_hw588 k0_h1 => k0_hw588 k0_h1

def k0_chk589 (i : grid0.Coords) (k0_t1 : Fin k0_t1_loop.trips) (v1802 : IVec S16 32) : Prop :=
  (∀ (k0_h1 : k0_cond1 i k0_t1 = 1#1), ∀ a x, ((![v1802] : Fin 1 → IVec S16 32) a x).toNat < S100000.size a)
instance k0_chk589.dec : ∀ (i : grid0.Coords) (k0_t1 : Fin k0_t1_loop.trips) (v1802 : IVec S16 32), Decidable (k0_chk589 i k0_t1 v1802) := fun i k0_t1 v1802 => decidable_of_iff' _ (Iff.of_eq (k0_chk589.eq_1 i k0_t1 v1802))
theorem k0_idx589_inb : ∀ (i : grid0.Coords) (k0_t1 : Fin k0_t1_loop.trips) (v1802 : IVec S16 32) (k0_hw589 : k0_chk589 i k0_t1 v1802), ∀ (k0_h1 : k0_cond1 i k0_t1 = 1#1), ∀ a x, ((![v1802] : Fin 1 → IVec S16 32) a x).toNat < S100000.size a := fun i k0_t1 v1802 k0_hw589 k0_h1 => k0_hw589 k0_h1

def k0_chk590 (i : grid0.Coords) (k0_t1 : Fin k0_t1_loop.trips) (v1803 : IVec S16 32) : Prop :=
  (∀ (k0_h1 : k0_cond1 i k0_t1 = 1#1), ∀ a x, ((![v1803] : Fin 1 → IVec S16 32) a x).toNat < S100000.size a)
instance k0_chk590.dec : ∀ (i : grid0.Coords) (k0_t1 : Fin k0_t1_loop.trips) (v1803 : IVec S16 32), Decidable (k0_chk590 i k0_t1 v1803) := fun i k0_t1 v1803 => decidable_of_iff' _ (Iff.of_eq (k0_chk590.eq_1 i k0_t1 v1803))
theorem k0_idx590_inb : ∀ (i : grid0.Coords) (k0_t1 : Fin k0_t1_loop.trips) (v1803 : IVec S16 32) (k0_hw590 : k0_chk590 i k0_t1 v1803), ∀ (k0_h1 : k0_cond1 i k0_t1 = 1#1), ∀ a x, ((![v1803] : Fin 1 → IVec S16 32) a x).toNat < S100000.size a := fun i k0_t1 v1803 k0_hw590 k0_h1 => k0_hw590 k0_h1

def k0_chk591 (i : grid0.Coords) (k0_t1 : Fin k0_t1_loop.trips) (v1804 : IVec S16 32) : Prop :=
  (∀ (k0_h1 : k0_cond1 i k0_t1 = 1#1), ∀ a x, ((![v1804] : Fin 1 → IVec S16 32) a x).toNat < S100000.size a)
instance k0_chk591.dec : ∀ (i : grid0.Coords) (k0_t1 : Fin k0_t1_loop.trips) (v1804 : IVec S16 32), Decidable (k0_chk591 i k0_t1 v1804) := fun i k0_t1 v1804 => decidable_of_iff' _ (Iff.of_eq (k0_chk591.eq_1 i k0_t1 v1804))
theorem k0_idx591_inb : ∀ (i : grid0.Coords) (k0_t1 : Fin k0_t1_loop.trips) (v1804 : IVec S16 32) (k0_hw591 : k0_chk591 i k0_t1 v1804), ∀ (k0_h1 : k0_cond1 i k0_t1 = 1#1), ∀ a x, ((![v1804] : Fin 1 → IVec S16 32) a x).toNat < S100000.size a := fun i k0_t1 v1804 k0_hw591 k0_h1 => k0_hw591 k0_h1

def k0_chk592 (i : grid0.Coords) (k0_t1 : Fin k0_t1_loop.trips) (v1805 : IVec S16 32) : Prop :=
  (∀ (k0_h1 : k0_cond1 i k0_t1 = 1#1), ∀ a x, ((![v1805] : Fin 1 → IVec S16 32) a x).toNat < S100000.size a)
instance k0_chk592.dec : ∀ (i : grid0.Coords) (k0_t1 : Fin k0_t1_loop.trips) (v1805 : IVec S16 32), Decidable (k0_chk592 i k0_t1 v1805) := fun i k0_t1 v1805 => decidable_of_iff' _ (Iff.of_eq (k0_chk592.eq_1 i k0_t1 v1805))
theorem k0_idx592_inb : ∀ (i : grid0.Coords) (k0_t1 : Fin k0_t1_loop.trips) (v1805 : IVec S16 32) (k0_hw592 : k0_chk592 i k0_t1 v1805), ∀ (k0_h1 : k0_cond1 i k0_t1 = 1#1), ∀ a x, ((![v1805] : Fin 1 → IVec S16 32) a x).toNat < S100000.size a := fun i k0_t1 v1805 k0_hw592 k0_h1 => k0_hw592 k0_h1

def k0_chk593 (i : grid0.Coords) (k0_t1 : Fin k0_t1_loop.trips) (v1822 : IVec S16 32) : Prop :=
  (∀ (k0_h1 : k0_cond1 i k0_t1 = 1#1), ∀ a x, ((![v1822] : Fin 1 → IVec S16 32) a x).toNat < S100000.size a)
instance k0_chk593.dec : ∀ (i : grid0.Coords) (k0_t1 : Fin k0_t1_loop.trips) (v1822 : IVec S16 32), Decidable (k0_chk593 i k0_t1 v1822) := fun i k0_t1 v1822 => decidable_of_iff' _ (Iff.of_eq (k0_chk593.eq_1 i k0_t1 v1822))
theorem k0_idx593_inb : ∀ (i : grid0.Coords) (k0_t1 : Fin k0_t1_loop.trips) (v1822 : IVec S16 32) (k0_hw593 : k0_chk593 i k0_t1 v1822), ∀ (k0_h1 : k0_cond1 i k0_t1 = 1#1), ∀ a x, ((![v1822] : Fin 1 → IVec S16 32) a x).toNat < S100000.size a := fun i k0_t1 v1822 k0_hw593 k0_h1 => k0_hw593 k0_h1

def k0_chk594 (i : grid0.Coords) (k0_t1 : Fin k0_t1_loop.trips) (v1823 : IVec S16 32) : Prop :=
  (∀ (k0_h1 : k0_cond1 i k0_t1 = 1#1), ∀ a x, ((![v1823] : Fin 1 → IVec S16 32) a x).toNat < S100000.size a)
instance k0_chk594.dec : ∀ (i : grid0.Coords) (k0_t1 : Fin k0_t1_loop.trips) (v1823 : IVec S16 32), Decidable (k0_chk594 i k0_t1 v1823) := fun i k0_t1 v1823 => decidable_of_iff' _ (Iff.of_eq (k0_chk594.eq_1 i k0_t1 v1823))
theorem k0_idx594_inb : ∀ (i : grid0.Coords) (k0_t1 : Fin k0_t1_loop.trips) (v1823 : IVec S16 32) (k0_hw594 : k0_chk594 i k0_t1 v1823), ∀ (k0_h1 : k0_cond1 i k0_t1 = 1#1), ∀ a x, ((![v1823] : Fin 1 → IVec S16 32) a x).toNat < S100000.size a := fun i k0_t1 v1823 k0_hw594 k0_h1 => k0_hw594 k0_h1

def k0_chk595 (i : grid0.Coords) (k0_t1 : Fin k0_t1_loop.trips) (v1824 : IVec S16 32) : Prop :=
  (∀ (k0_h1 : k0_cond1 i k0_t1 = 1#1), ∀ a x, ((![v1824] : Fin 1 → IVec S16 32) a x).toNat < S100000.size a)
instance k0_chk595.dec : ∀ (i : grid0.Coords) (k0_t1 : Fin k0_t1_loop.trips) (v1824 : IVec S16 32), Decidable (k0_chk595 i k0_t1 v1824) := fun i k0_t1 v1824 => decidable_of_iff' _ (Iff.of_eq (k0_chk595.eq_1 i k0_t1 v1824))
theorem k0_idx595_inb : ∀ (i : grid0.Coords) (k0_t1 : Fin k0_t1_loop.trips) (v1824 : IVec S16 32) (k0_hw595 : k0_chk595 i k0_t1 v1824), ∀ (k0_h1 : k0_cond1 i k0_t1 = 1#1), ∀ a x, ((![v1824] : Fin 1 → IVec S16 32) a x).toNat < S100000.size a := fun i k0_t1 v1824 k0_hw595 k0_h1 => k0_hw595 k0_h1

def k0_chk596 (i : grid0.Coords) (k0_t1 : Fin k0_t1_loop.trips) (v1825 : IVec S16 32) : Prop :=
  (∀ (k0_h1 : k0_cond1 i k0_t1 = 1#1), ∀ a x, ((![v1825] : Fin 1 → IVec S16 32) a x).toNat < S100000.size a)
instance k0_chk596.dec : ∀ (i : grid0.Coords) (k0_t1 : Fin k0_t1_loop.trips) (v1825 : IVec S16 32), Decidable (k0_chk596 i k0_t1 v1825) := fun i k0_t1 v1825 => decidable_of_iff' _ (Iff.of_eq (k0_chk596.eq_1 i k0_t1 v1825))
theorem k0_idx596_inb : ∀ (i : grid0.Coords) (k0_t1 : Fin k0_t1_loop.trips) (v1825 : IVec S16 32) (k0_hw596 : k0_chk596 i k0_t1 v1825), ∀ (k0_h1 : k0_cond1 i k0_t1 = 1#1), ∀ a x, ((![v1825] : Fin 1 → IVec S16 32) a x).toNat < S100000.size a := fun i k0_t1 v1825 k0_hw596 k0_h1 => k0_hw596 k0_h1

def k0_chk597 (i : grid0.Coords) (k0_t1 : Fin k0_t1_loop.trips) (v1826 : IVec S16 32) : Prop :=
  (∀ (k0_h1 : k0_cond1 i k0_t1 = 1#1), ∀ a x, ((![v1826] : Fin 1 → IVec S16 32) a x).toNat < S100000.size a)
instance k0_chk597.dec : ∀ (i : grid0.Coords) (k0_t1 : Fin k0_t1_loop.trips) (v1826 : IVec S16 32), Decidable (k0_chk597 i k0_t1 v1826) := fun i k0_t1 v1826 => decidable_of_iff' _ (Iff.of_eq (k0_chk597.eq_1 i k0_t1 v1826))
theorem k0_idx597_inb : ∀ (i : grid0.Coords) (k0_t1 : Fin k0_t1_loop.trips) (v1826 : IVec S16 32) (k0_hw597 : k0_chk597 i k0_t1 v1826), ∀ (k0_h1 : k0_cond1 i k0_t1 = 1#1), ∀ a x, ((![v1826] : Fin 1 → IVec S16 32) a x).toNat < S100000.size a := fun i k0_t1 v1826 k0_hw597 k0_h1 => k0_hw597 k0_h1

def k0_chk598 (i : grid0.Coords) (k0_t1 : Fin k0_t1_loop.trips) (v1827 : IVec S16 32) : Prop :=
  (∀ (k0_h1 : k0_cond1 i k0_t1 = 1#1), ∀ a x, ((![v1827] : Fin 1 → IVec S16 32) a x).toNat < S100000.size a)
instance k0_chk598.dec : ∀ (i : grid0.Coords) (k0_t1 : Fin k0_t1_loop.trips) (v1827 : IVec S16 32), Decidable (k0_chk598 i k0_t1 v1827) := fun i k0_t1 v1827 => decidable_of_iff' _ (Iff.of_eq (k0_chk598.eq_1 i k0_t1 v1827))
theorem k0_idx598_inb : ∀ (i : grid0.Coords) (k0_t1 : Fin k0_t1_loop.trips) (v1827 : IVec S16 32) (k0_hw598 : k0_chk598 i k0_t1 v1827), ∀ (k0_h1 : k0_cond1 i k0_t1 = 1#1), ∀ a x, ((![v1827] : Fin 1 → IVec S16 32) a x).toNat < S100000.size a := fun i k0_t1 v1827 k0_hw598 k0_h1 => k0_hw598 k0_h1

def k0_chk599 (i : grid0.Coords) (k0_t1 : Fin k0_t1_loop.trips) (v1828 : IVec S16 32) : Prop :=
  (∀ (k0_h1 : k0_cond1 i k0_t1 = 1#1), ∀ a x, ((![v1828] : Fin 1 → IVec S16 32) a x).toNat < S100000.size a)
instance k0_chk599.dec : ∀ (i : grid0.Coords) (k0_t1 : Fin k0_t1_loop.trips) (v1828 : IVec S16 32), Decidable (k0_chk599 i k0_t1 v1828) := fun i k0_t1 v1828 => decidable_of_iff' _ (Iff.of_eq (k0_chk599.eq_1 i k0_t1 v1828))
theorem k0_idx599_inb : ∀ (i : grid0.Coords) (k0_t1 : Fin k0_t1_loop.trips) (v1828 : IVec S16 32) (k0_hw599 : k0_chk599 i k0_t1 v1828), ∀ (k0_h1 : k0_cond1 i k0_t1 = 1#1), ∀ a x, ((![v1828] : Fin 1 → IVec S16 32) a x).toNat < S100000.size a := fun i k0_t1 v1828 k0_hw599 k0_h1 => k0_hw599 k0_h1

def k0_chk600 (i : grid0.Coords) (k0_t1 : Fin k0_t1_loop.trips) (v1829 : IVec S16 32) : Prop :=
  (∀ (k0_h1 : k0_cond1 i k0_t1 = 1#1), ∀ a x, ((![v1829] : Fin 1 → IVec S16 32) a x).toNat < S100000.size a)
instance k0_chk600.dec : ∀ (i : grid0.Coords) (k0_t1 : Fin k0_t1_loop.trips) (v1829 : IVec S16 32), Decidable (k0_chk600 i k0_t1 v1829) := fun i k0_t1 v1829 => decidable_of_iff' _ (Iff.of_eq (k0_chk600.eq_1 i k0_t1 v1829))
theorem k0_idx600_inb : ∀ (i : grid0.Coords) (k0_t1 : Fin k0_t1_loop.trips) (v1829 : IVec S16 32) (k0_hw600 : k0_chk600 i k0_t1 v1829), ∀ (k0_h1 : k0_cond1 i k0_t1 = 1#1), ∀ a x, ((![v1829] : Fin 1 → IVec S16 32) a x).toNat < S100000.size a := fun i k0_t1 v1829 k0_hw600 k0_h1 => k0_hw600 k0_h1

def k0_chk601 (i : grid0.Coords) (k0_t1 : Fin k0_t1_loop.trips) (v1846 : IVec S16 32) : Prop :=
  (∀ (k0_h1 : k0_cond1 i k0_t1 = 1#1), ∀ a x, ((![v1846] : Fin 1 → IVec S16 32) a x).toNat < S100000.size a)
instance k0_chk601.dec : ∀ (i : grid0.Coords) (k0_t1 : Fin k0_t1_loop.trips) (v1846 : IVec S16 32), Decidable (k0_chk601 i k0_t1 v1846) := fun i k0_t1 v1846 => decidable_of_iff' _ (Iff.of_eq (k0_chk601.eq_1 i k0_t1 v1846))
theorem k0_idx601_inb : ∀ (i : grid0.Coords) (k0_t1 : Fin k0_t1_loop.trips) (v1846 : IVec S16 32) (k0_hw601 : k0_chk601 i k0_t1 v1846), ∀ (k0_h1 : k0_cond1 i k0_t1 = 1#1), ∀ a x, ((![v1846] : Fin 1 → IVec S16 32) a x).toNat < S100000.size a := fun i k0_t1 v1846 k0_hw601 k0_h1 => k0_hw601 k0_h1

def k0_chk602 (i : grid0.Coords) (k0_t1 : Fin k0_t1_loop.trips) (v1847 : IVec S16 32) : Prop :=
  (∀ (k0_h1 : k0_cond1 i k0_t1 = 1#1), ∀ a x, ((![v1847] : Fin 1 → IVec S16 32) a x).toNat < S100000.size a)
instance k0_chk602.dec : ∀ (i : grid0.Coords) (k0_t1 : Fin k0_t1_loop.trips) (v1847 : IVec S16 32), Decidable (k0_chk602 i k0_t1 v1847) := fun i k0_t1 v1847 => decidable_of_iff' _ (Iff.of_eq (k0_chk602.eq_1 i k0_t1 v1847))
theorem k0_idx602_inb : ∀ (i : grid0.Coords) (k0_t1 : Fin k0_t1_loop.trips) (v1847 : IVec S16 32) (k0_hw602 : k0_chk602 i k0_t1 v1847), ∀ (k0_h1 : k0_cond1 i k0_t1 = 1#1), ∀ a x, ((![v1847] : Fin 1 → IVec S16 32) a x).toNat < S100000.size a := fun i k0_t1 v1847 k0_hw602 k0_h1 => k0_hw602 k0_h1

def k0_chk603 (i : grid0.Coords) (k0_t1 : Fin k0_t1_loop.trips) (v1848 : IVec S16 32) : Prop :=
  (∀ (k0_h1 : k0_cond1 i k0_t1 = 1#1), ∀ a x, ((![v1848] : Fin 1 → IVec S16 32) a x).toNat < S100000.size a)
instance k0_chk603.dec : ∀ (i : grid0.Coords) (k0_t1 : Fin k0_t1_loop.trips) (v1848 : IVec S16 32), Decidable (k0_chk603 i k0_t1 v1848) := fun i k0_t1 v1848 => decidable_of_iff' _ (Iff.of_eq (k0_chk603.eq_1 i k0_t1 v1848))
theorem k0_idx603_inb : ∀ (i : grid0.Coords) (k0_t1 : Fin k0_t1_loop.trips) (v1848 : IVec S16 32) (k0_hw603 : k0_chk603 i k0_t1 v1848), ∀ (k0_h1 : k0_cond1 i k0_t1 = 1#1), ∀ a x, ((![v1848] : Fin 1 → IVec S16 32) a x).toNat < S100000.size a := fun i k0_t1 v1848 k0_hw603 k0_h1 => k0_hw603 k0_h1

def k0_chk604 (i : grid0.Coords) (k0_t1 : Fin k0_t1_loop.trips) (v1849 : IVec S16 32) : Prop :=
  (∀ (k0_h1 : k0_cond1 i k0_t1 = 1#1), ∀ a x, ((![v1849] : Fin 1 → IVec S16 32) a x).toNat < S100000.size a)
instance k0_chk604.dec : ∀ (i : grid0.Coords) (k0_t1 : Fin k0_t1_loop.trips) (v1849 : IVec S16 32), Decidable (k0_chk604 i k0_t1 v1849) := fun i k0_t1 v1849 => decidable_of_iff' _ (Iff.of_eq (k0_chk604.eq_1 i k0_t1 v1849))
theorem k0_idx604_inb : ∀ (i : grid0.Coords) (k0_t1 : Fin k0_t1_loop.trips) (v1849 : IVec S16 32) (k0_hw604 : k0_chk604 i k0_t1 v1849), ∀ (k0_h1 : k0_cond1 i k0_t1 = 1#1), ∀ a x, ((![v1849] : Fin 1 → IVec S16 32) a x).toNat < S100000.size a := fun i k0_t1 v1849 k0_hw604 k0_h1 => k0_hw604 k0_h1

def k0_chk605 (i : grid0.Coords) (k0_t1 : Fin k0_t1_loop.trips) (v1850 : IVec S16 32) : Prop :=
  (∀ (k0_h1 : k0_cond1 i k0_t1 = 1#1), ∀ a x, ((![v1850] : Fin 1 → IVec S16 32) a x).toNat < S100000.size a)
instance k0_chk605.dec : ∀ (i : grid0.Coords) (k0_t1 : Fin k0_t1_loop.trips) (v1850 : IVec S16 32), Decidable (k0_chk605 i k0_t1 v1850) := fun i k0_t1 v1850 => decidable_of_iff' _ (Iff.of_eq (k0_chk605.eq_1 i k0_t1 v1850))
theorem k0_idx605_inb : ∀ (i : grid0.Coords) (k0_t1 : Fin k0_t1_loop.trips) (v1850 : IVec S16 32) (k0_hw605 : k0_chk605 i k0_t1 v1850), ∀ (k0_h1 : k0_cond1 i k0_t1 = 1#1), ∀ a x, ((![v1850] : Fin 1 → IVec S16 32) a x).toNat < S100000.size a := fun i k0_t1 v1850 k0_hw605 k0_h1 => k0_hw605 k0_h1

def k0_chk606 (i : grid0.Coords) (k0_t1 : Fin k0_t1_loop.trips) (v1851 : IVec S16 32) : Prop :=
  (∀ (k0_h1 : k0_cond1 i k0_t1 = 1#1), ∀ a x, ((![v1851] : Fin 1 → IVec S16 32) a x).toNat < S100000.size a)
instance k0_chk606.dec : ∀ (i : grid0.Coords) (k0_t1 : Fin k0_t1_loop.trips) (v1851 : IVec S16 32), Decidable (k0_chk606 i k0_t1 v1851) := fun i k0_t1 v1851 => decidable_of_iff' _ (Iff.of_eq (k0_chk606.eq_1 i k0_t1 v1851))
theorem k0_idx606_inb : ∀ (i : grid0.Coords) (k0_t1 : Fin k0_t1_loop.trips) (v1851 : IVec S16 32) (k0_hw606 : k0_chk606 i k0_t1 v1851), ∀ (k0_h1 : k0_cond1 i k0_t1 = 1#1), ∀ a x, ((![v1851] : Fin 1 → IVec S16 32) a x).toNat < S100000.size a := fun i k0_t1 v1851 k0_hw606 k0_h1 => k0_hw606 k0_h1

def k0_chk607 (i : grid0.Coords) (k0_t1 : Fin k0_t1_loop.trips) (v1852 : IVec S16 32) : Prop :=
  (∀ (k0_h1 : k0_cond1 i k0_t1 = 1#1), ∀ a x, ((![v1852] : Fin 1 → IVec S16 32) a x).toNat < S100000.size a)
instance k0_chk607.dec : ∀ (i : grid0.Coords) (k0_t1 : Fin k0_t1_loop.trips) (v1852 : IVec S16 32), Decidable (k0_chk607 i k0_t1 v1852) := fun i k0_t1 v1852 => decidable_of_iff' _ (Iff.of_eq (k0_chk607.eq_1 i k0_t1 v1852))
theorem k0_idx607_inb : ∀ (i : grid0.Coords) (k0_t1 : Fin k0_t1_loop.trips) (v1852 : IVec S16 32) (k0_hw607 : k0_chk607 i k0_t1 v1852), ∀ (k0_h1 : k0_cond1 i k0_t1 = 1#1), ∀ a x, ((![v1852] : Fin 1 → IVec S16 32) a x).toNat < S100000.size a := fun i k0_t1 v1852 k0_hw607 k0_h1 => k0_hw607 k0_h1

def k0_chk608 (i : grid0.Coords) (k0_t1 : Fin k0_t1_loop.trips) (v1853 : IVec S16 32) : Prop :=
  (∀ (k0_h1 : k0_cond1 i k0_t1 = 1#1), ∀ a x, ((![v1853] : Fin 1 → IVec S16 32) a x).toNat < S100000.size a)
instance k0_chk608.dec : ∀ (i : grid0.Coords) (k0_t1 : Fin k0_t1_loop.trips) (v1853 : IVec S16 32), Decidable (k0_chk608 i k0_t1 v1853) := fun i k0_t1 v1853 => decidable_of_iff' _ (Iff.of_eq (k0_chk608.eq_1 i k0_t1 v1853))
theorem k0_idx608_inb : ∀ (i : grid0.Coords) (k0_t1 : Fin k0_t1_loop.trips) (v1853 : IVec S16 32) (k0_hw608 : k0_chk608 i k0_t1 v1853), ∀ (k0_h1 : k0_cond1 i k0_t1 = 1#1), ∀ a x, ((![v1853] : Fin 1 → IVec S16 32) a x).toNat < S100000.size a := fun i k0_t1 v1853 k0_hw608 k0_h1 => k0_hw608 k0_h1

def k0_chk609 (i : grid0.Coords) (k0_t1 : Fin k0_t1_loop.trips) (v1870 : IVec S16 32) : Prop :=
  (∀ (k0_h1 : k0_cond1 i k0_t1 = 1#1), ∀ a x, ((![v1870] : Fin 1 → IVec S16 32) a x).toNat < S100000.size a)
instance k0_chk609.dec : ∀ (i : grid0.Coords) (k0_t1 : Fin k0_t1_loop.trips) (v1870 : IVec S16 32), Decidable (k0_chk609 i k0_t1 v1870) := fun i k0_t1 v1870 => decidable_of_iff' _ (Iff.of_eq (k0_chk609.eq_1 i k0_t1 v1870))
theorem k0_idx609_inb : ∀ (i : grid0.Coords) (k0_t1 : Fin k0_t1_loop.trips) (v1870 : IVec S16 32) (k0_hw609 : k0_chk609 i k0_t1 v1870), ∀ (k0_h1 : k0_cond1 i k0_t1 = 1#1), ∀ a x, ((![v1870] : Fin 1 → IVec S16 32) a x).toNat < S100000.size a := fun i k0_t1 v1870 k0_hw609 k0_h1 => k0_hw609 k0_h1

def k0_chk610 (i : grid0.Coords) (k0_t1 : Fin k0_t1_loop.trips) (v1871 : IVec S16 32) : Prop :=
  (∀ (k0_h1 : k0_cond1 i k0_t1 = 1#1), ∀ a x, ((![v1871] : Fin 1 → IVec S16 32) a x).toNat < S100000.size a)
instance k0_chk610.dec : ∀ (i : grid0.Coords) (k0_t1 : Fin k0_t1_loop.trips) (v1871 : IVec S16 32), Decidable (k0_chk610 i k0_t1 v1871) := fun i k0_t1 v1871 => decidable_of_iff' _ (Iff.of_eq (k0_chk610.eq_1 i k0_t1 v1871))
theorem k0_idx610_inb : ∀ (i : grid0.Coords) (k0_t1 : Fin k0_t1_loop.trips) (v1871 : IVec S16 32) (k0_hw610 : k0_chk610 i k0_t1 v1871), ∀ (k0_h1 : k0_cond1 i k0_t1 = 1#1), ∀ a x, ((![v1871] : Fin 1 → IVec S16 32) a x).toNat < S100000.size a := fun i k0_t1 v1871 k0_hw610 k0_h1 => k0_hw610 k0_h1

def k0_chk611 (i : grid0.Coords) (k0_t1 : Fin k0_t1_loop.trips) (v1872 : IVec S16 32) : Prop :=
  (∀ (k0_h1 : k0_cond1 i k0_t1 = 1#1), ∀ a x, ((![v1872] : Fin 1 → IVec S16 32) a x).toNat < S100000.size a)
instance k0_chk611.dec : ∀ (i : grid0.Coords) (k0_t1 : Fin k0_t1_loop.trips) (v1872 : IVec S16 32), Decidable (k0_chk611 i k0_t1 v1872) := fun i k0_t1 v1872 => decidable_of_iff' _ (Iff.of_eq (k0_chk611.eq_1 i k0_t1 v1872))
theorem k0_idx611_inb : ∀ (i : grid0.Coords) (k0_t1 : Fin k0_t1_loop.trips) (v1872 : IVec S16 32) (k0_hw611 : k0_chk611 i k0_t1 v1872), ∀ (k0_h1 : k0_cond1 i k0_t1 = 1#1), ∀ a x, ((![v1872] : Fin 1 → IVec S16 32) a x).toNat < S100000.size a := fun i k0_t1 v1872 k0_hw611 k0_h1 => k0_hw611 k0_h1

def k0_chk612 (i : grid0.Coords) (k0_t1 : Fin k0_t1_loop.trips) (v1873 : IVec S16 32) : Prop :=
  (∀ (k0_h1 : k0_cond1 i k0_t1 = 1#1), ∀ a x, ((![v1873] : Fin 1 → IVec S16 32) a x).toNat < S100000.size a)
instance k0_chk612.dec : ∀ (i : grid0.Coords) (k0_t1 : Fin k0_t1_loop.trips) (v1873 : IVec S16 32), Decidable (k0_chk612 i k0_t1 v1873) := fun i k0_t1 v1873 => decidable_of_iff' _ (Iff.of_eq (k0_chk612.eq_1 i k0_t1 v1873))
theorem k0_idx612_inb : ∀ (i : grid0.Coords) (k0_t1 : Fin k0_t1_loop.trips) (v1873 : IVec S16 32) (k0_hw612 : k0_chk612 i k0_t1 v1873), ∀ (k0_h1 : k0_cond1 i k0_t1 = 1#1), ∀ a x, ((![v1873] : Fin 1 → IVec S16 32) a x).toNat < S100000.size a := fun i k0_t1 v1873 k0_hw612 k0_h1 => k0_hw612 k0_h1

def k0_chk613 (i : grid0.Coords) (k0_t1 : Fin k0_t1_loop.trips) (v1874 : IVec S16 32) : Prop :=
  (∀ (k0_h1 : k0_cond1 i k0_t1 = 1#1), ∀ a x, ((![v1874] : Fin 1 → IVec S16 32) a x).toNat < S100000.size a)
instance k0_chk613.dec : ∀ (i : grid0.Coords) (k0_t1 : Fin k0_t1_loop.trips) (v1874 : IVec S16 32), Decidable (k0_chk613 i k0_t1 v1874) := fun i k0_t1 v1874 => decidable_of_iff' _ (Iff.of_eq (k0_chk613.eq_1 i k0_t1 v1874))
theorem k0_idx613_inb : ∀ (i : grid0.Coords) (k0_t1 : Fin k0_t1_loop.trips) (v1874 : IVec S16 32) (k0_hw613 : k0_chk613 i k0_t1 v1874), ∀ (k0_h1 : k0_cond1 i k0_t1 = 1#1), ∀ a x, ((![v1874] : Fin 1 → IVec S16 32) a x).toNat < S100000.size a := fun i k0_t1 v1874 k0_hw613 k0_h1 => k0_hw613 k0_h1

def k0_chk614 (i : grid0.Coords) (k0_t1 : Fin k0_t1_loop.trips) (v1875 : IVec S16 32) : Prop :=
  (∀ (k0_h1 : k0_cond1 i k0_t1 = 1#1), ∀ a x, ((![v1875] : Fin 1 → IVec S16 32) a x).toNat < S100000.size a)
instance k0_chk614.dec : ∀ (i : grid0.Coords) (k0_t1 : Fin k0_t1_loop.trips) (v1875 : IVec S16 32), Decidable (k0_chk614 i k0_t1 v1875) := fun i k0_t1 v1875 => decidable_of_iff' _ (Iff.of_eq (k0_chk614.eq_1 i k0_t1 v1875))
theorem k0_idx614_inb : ∀ (i : grid0.Coords) (k0_t1 : Fin k0_t1_loop.trips) (v1875 : IVec S16 32) (k0_hw614 : k0_chk614 i k0_t1 v1875), ∀ (k0_h1 : k0_cond1 i k0_t1 = 1#1), ∀ a x, ((![v1875] : Fin 1 → IVec S16 32) a x).toNat < S100000.size a := fun i k0_t1 v1875 k0_hw614 k0_h1 => k0_hw614 k0_h1

def k0_chk615 (i : grid0.Coords) (k0_t1 : Fin k0_t1_loop.trips) (v1876 : IVec S16 32) : Prop :=
  (∀ (k0_h1 : k0_cond1 i k0_t1 = 1#1), ∀ a x, ((![v1876] : Fin 1 → IVec S16 32) a x).toNat < S100000.size a)
instance k0_chk615.dec : ∀ (i : grid0.Coords) (k0_t1 : Fin k0_t1_loop.trips) (v1876 : IVec S16 32), Decidable (k0_chk615 i k0_t1 v1876) := fun i k0_t1 v1876 => decidable_of_iff' _ (Iff.of_eq (k0_chk615.eq_1 i k0_t1 v1876))
theorem k0_idx615_inb : ∀ (i : grid0.Coords) (k0_t1 : Fin k0_t1_loop.trips) (v1876 : IVec S16 32) (k0_hw615 : k0_chk615 i k0_t1 v1876), ∀ (k0_h1 : k0_cond1 i k0_t1 = 1#1), ∀ a x, ((![v1876] : Fin 1 → IVec S16 32) a x).toNat < S100000.size a := fun i k0_t1 v1876 k0_hw615 k0_h1 => k0_hw615 k0_h1

def k0_chk616 (i : grid0.Coords) (k0_t1 : Fin k0_t1_loop.trips) (v1877 : IVec S16 32) : Prop :=
  (∀ (k0_h1 : k0_cond1 i k0_t1 = 1#1), ∀ a x, ((![v1877] : Fin 1 → IVec S16 32) a x).toNat < S100000.size a)
instance k0_chk616.dec : ∀ (i : grid0.Coords) (k0_t1 : Fin k0_t1_loop.trips) (v1877 : IVec S16 32), Decidable (k0_chk616 i k0_t1 v1877) := fun i k0_t1 v1877 => decidable_of_iff' _ (Iff.of_eq (k0_chk616.eq_1 i k0_t1 v1877))
theorem k0_idx616_inb : ∀ (i : grid0.Coords) (k0_t1 : Fin k0_t1_loop.trips) (v1877 : IVec S16 32) (k0_hw616 : k0_chk616 i k0_t1 v1877), ∀ (k0_h1 : k0_cond1 i k0_t1 = 1#1), ∀ a x, ((![v1877] : Fin 1 → IVec S16 32) a x).toNat < S100000.size a := fun i k0_t1 v1877 k0_hw616 k0_h1 => k0_hw616 k0_h1

def k0_chk617 (i : grid0.Coords) (k0_t1 : Fin k0_t1_loop.trips) (v1894 : IVec S16 32) : Prop :=
  (∀ (k0_h1 : k0_cond1 i k0_t1 = 1#1), ∀ a x, ((![v1894] : Fin 1 → IVec S16 32) a x).toNat < S100000.size a)
instance k0_chk617.dec : ∀ (i : grid0.Coords) (k0_t1 : Fin k0_t1_loop.trips) (v1894 : IVec S16 32), Decidable (k0_chk617 i k0_t1 v1894) := fun i k0_t1 v1894 => decidable_of_iff' _ (Iff.of_eq (k0_chk617.eq_1 i k0_t1 v1894))
theorem k0_idx617_inb : ∀ (i : grid0.Coords) (k0_t1 : Fin k0_t1_loop.trips) (v1894 : IVec S16 32) (k0_hw617 : k0_chk617 i k0_t1 v1894), ∀ (k0_h1 : k0_cond1 i k0_t1 = 1#1), ∀ a x, ((![v1894] : Fin 1 → IVec S16 32) a x).toNat < S100000.size a := fun i k0_t1 v1894 k0_hw617 k0_h1 => k0_hw617 k0_h1

def k0_chk618 (i : grid0.Coords) (k0_t1 : Fin k0_t1_loop.trips) (v1895 : IVec S16 32) : Prop :=
  (∀ (k0_h1 : k0_cond1 i k0_t1 = 1#1), ∀ a x, ((![v1895] : Fin 1 → IVec S16 32) a x).toNat < S100000.size a)
instance k0_chk618.dec : ∀ (i : grid0.Coords) (k0_t1 : Fin k0_t1_loop.trips) (v1895 : IVec S16 32), Decidable (k0_chk618 i k0_t1 v1895) := fun i k0_t1 v1895 => decidable_of_iff' _ (Iff.of_eq (k0_chk618.eq_1 i k0_t1 v1895))
theorem k0_idx618_inb : ∀ (i : grid0.Coords) (k0_t1 : Fin k0_t1_loop.trips) (v1895 : IVec S16 32) (k0_hw618 : k0_chk618 i k0_t1 v1895), ∀ (k0_h1 : k0_cond1 i k0_t1 = 1#1), ∀ a x, ((![v1895] : Fin 1 → IVec S16 32) a x).toNat < S100000.size a := fun i k0_t1 v1895 k0_hw618 k0_h1 => k0_hw618 k0_h1

def k0_chk619 (i : grid0.Coords) (k0_t1 : Fin k0_t1_loop.trips) (v1896 : IVec S16 32) : Prop :=
  (∀ (k0_h1 : k0_cond1 i k0_t1 = 1#1), ∀ a x, ((![v1896] : Fin 1 → IVec S16 32) a x).toNat < S100000.size a)
instance k0_chk619.dec : ∀ (i : grid0.Coords) (k0_t1 : Fin k0_t1_loop.trips) (v1896 : IVec S16 32), Decidable (k0_chk619 i k0_t1 v1896) := fun i k0_t1 v1896 => decidable_of_iff' _ (Iff.of_eq (k0_chk619.eq_1 i k0_t1 v1896))
theorem k0_idx619_inb : ∀ (i : grid0.Coords) (k0_t1 : Fin k0_t1_loop.trips) (v1896 : IVec S16 32) (k0_hw619 : k0_chk619 i k0_t1 v1896), ∀ (k0_h1 : k0_cond1 i k0_t1 = 1#1), ∀ a x, ((![v1896] : Fin 1 → IVec S16 32) a x).toNat < S100000.size a := fun i k0_t1 v1896 k0_hw619 k0_h1 => k0_hw619 k0_h1

def k0_chk620 (i : grid0.Coords) (k0_t1 : Fin k0_t1_loop.trips) (v1897 : IVec S16 32) : Prop :=
  (∀ (k0_h1 : k0_cond1 i k0_t1 = 1#1), ∀ a x, ((![v1897] : Fin 1 → IVec S16 32) a x).toNat < S100000.size a)
instance k0_chk620.dec : ∀ (i : grid0.Coords) (k0_t1 : Fin k0_t1_loop.trips) (v1897 : IVec S16 32), Decidable (k0_chk620 i k0_t1 v1897) := fun i k0_t1 v1897 => decidable_of_iff' _ (Iff.of_eq (k0_chk620.eq_1 i k0_t1 v1897))
theorem k0_idx620_inb : ∀ (i : grid0.Coords) (k0_t1 : Fin k0_t1_loop.trips) (v1897 : IVec S16 32) (k0_hw620 : k0_chk620 i k0_t1 v1897), ∀ (k0_h1 : k0_cond1 i k0_t1 = 1#1), ∀ a x, ((![v1897] : Fin 1 → IVec S16 32) a x).toNat < S100000.size a := fun i k0_t1 v1897 k0_hw620 k0_h1 => k0_hw620 k0_h1

def k0_chk621 (i : grid0.Coords) (k0_t1 : Fin k0_t1_loop.trips) (v1898 : IVec S16 32) : Prop :=
  (∀ (k0_h1 : k0_cond1 i k0_t1 = 1#1), ∀ a x, ((![v1898] : Fin 1 → IVec S16 32) a x).toNat < S100000.size a)
instance k0_chk621.dec : ∀ (i : grid0.Coords) (k0_t1 : Fin k0_t1_loop.trips) (v1898 : IVec S16 32), Decidable (k0_chk621 i k0_t1 v1898) := fun i k0_t1 v1898 => decidable_of_iff' _ (Iff.of_eq (k0_chk621.eq_1 i k0_t1 v1898))
theorem k0_idx621_inb : ∀ (i : grid0.Coords) (k0_t1 : Fin k0_t1_loop.trips) (v1898 : IVec S16 32) (k0_hw621 : k0_chk621 i k0_t1 v1898), ∀ (k0_h1 : k0_cond1 i k0_t1 = 1#1), ∀ a x, ((![v1898] : Fin 1 → IVec S16 32) a x).toNat < S100000.size a := fun i k0_t1 v1898 k0_hw621 k0_h1 => k0_hw621 k0_h1

def k0_chk622 (i : grid0.Coords) (k0_t1 : Fin k0_t1_loop.trips) (v1899 : IVec S16 32) : Prop :=
  (∀ (k0_h1 : k0_cond1 i k0_t1 = 1#1), ∀ a x, ((![v1899] : Fin 1 → IVec S16 32) a x).toNat < S100000.size a)
instance k0_chk622.dec : ∀ (i : grid0.Coords) (k0_t1 : Fin k0_t1_loop.trips) (v1899 : IVec S16 32), Decidable (k0_chk622 i k0_t1 v1899) := fun i k0_t1 v1899 => decidable_of_iff' _ (Iff.of_eq (k0_chk622.eq_1 i k0_t1 v1899))
theorem k0_idx622_inb : ∀ (i : grid0.Coords) (k0_t1 : Fin k0_t1_loop.trips) (v1899 : IVec S16 32) (k0_hw622 : k0_chk622 i k0_t1 v1899), ∀ (k0_h1 : k0_cond1 i k0_t1 = 1#1), ∀ a x, ((![v1899] : Fin 1 → IVec S16 32) a x).toNat < S100000.size a := fun i k0_t1 v1899 k0_hw622 k0_h1 => k0_hw622 k0_h1

def k0_chk623 (i : grid0.Coords) (k0_t1 : Fin k0_t1_loop.trips) (v1900 : IVec S16 32) : Prop :=
  (∀ (k0_h1 : k0_cond1 i k0_t1 = 1#1), ∀ a x, ((![v1900] : Fin 1 → IVec S16 32) a x).toNat < S100000.size a)
instance k0_chk623.dec : ∀ (i : grid0.Coords) (k0_t1 : Fin k0_t1_loop.trips) (v1900 : IVec S16 32), Decidable (k0_chk623 i k0_t1 v1900) := fun i k0_t1 v1900 => decidable_of_iff' _ (Iff.of_eq (k0_chk623.eq_1 i k0_t1 v1900))
theorem k0_idx623_inb : ∀ (i : grid0.Coords) (k0_t1 : Fin k0_t1_loop.trips) (v1900 : IVec S16 32) (k0_hw623 : k0_chk623 i k0_t1 v1900), ∀ (k0_h1 : k0_cond1 i k0_t1 = 1#1), ∀ a x, ((![v1900] : Fin 1 → IVec S16 32) a x).toNat < S100000.size a := fun i k0_t1 v1900 k0_hw623 k0_h1 => k0_hw623 k0_h1

def k0_chk624 (i : grid0.Coords) (k0_t1 : Fin k0_t1_loop.trips) (v1901 : IVec S16 32) : Prop :=
  (∀ (k0_h1 : k0_cond1 i k0_t1 = 1#1), ∀ a x, ((![v1901] : Fin 1 → IVec S16 32) a x).toNat < S100000.size a)
instance k0_chk624.dec : ∀ (i : grid0.Coords) (k0_t1 : Fin k0_t1_loop.trips) (v1901 : IVec S16 32), Decidable (k0_chk624 i k0_t1 v1901) := fun i k0_t1 v1901 => decidable_of_iff' _ (Iff.of_eq (k0_chk624.eq_1 i k0_t1 v1901))
theorem k0_idx624_inb : ∀ (i : grid0.Coords) (k0_t1 : Fin k0_t1_loop.trips) (v1901 : IVec S16 32) (k0_hw624 : k0_chk624 i k0_t1 v1901), ∀ (k0_h1 : k0_cond1 i k0_t1 = 1#1), ∀ a x, ((![v1901] : Fin 1 → IVec S16 32) a x).toNat < S100000.size a := fun i k0_t1 v1901 k0_hw624 k0_h1 => k0_hw624 k0_h1

def k0_chk625 (i : grid0.Coords) (k0_t1 : Fin k0_t1_loop.trips) (v1918 : IVec S16 32) : Prop :=
  (∀ (k0_h1 : k0_cond1 i k0_t1 = 1#1), ∀ a x, ((![v1918] : Fin 1 → IVec S16 32) a x).toNat < S100000.size a)
instance k0_chk625.dec : ∀ (i : grid0.Coords) (k0_t1 : Fin k0_t1_loop.trips) (v1918 : IVec S16 32), Decidable (k0_chk625 i k0_t1 v1918) := fun i k0_t1 v1918 => decidable_of_iff' _ (Iff.of_eq (k0_chk625.eq_1 i k0_t1 v1918))
theorem k0_idx625_inb : ∀ (i : grid0.Coords) (k0_t1 : Fin k0_t1_loop.trips) (v1918 : IVec S16 32) (k0_hw625 : k0_chk625 i k0_t1 v1918), ∀ (k0_h1 : k0_cond1 i k0_t1 = 1#1), ∀ a x, ((![v1918] : Fin 1 → IVec S16 32) a x).toNat < S100000.size a := fun i k0_t1 v1918 k0_hw625 k0_h1 => k0_hw625 k0_h1

def k0_chk626 (i : grid0.Coords) (k0_t1 : Fin k0_t1_loop.trips) (v1919 : IVec S16 32) : Prop :=
  (∀ (k0_h1 : k0_cond1 i k0_t1 = 1#1), ∀ a x, ((![v1919] : Fin 1 → IVec S16 32) a x).toNat < S100000.size a)
instance k0_chk626.dec : ∀ (i : grid0.Coords) (k0_t1 : Fin k0_t1_loop.trips) (v1919 : IVec S16 32), Decidable (k0_chk626 i k0_t1 v1919) := fun i k0_t1 v1919 => decidable_of_iff' _ (Iff.of_eq (k0_chk626.eq_1 i k0_t1 v1919))
theorem k0_idx626_inb : ∀ (i : grid0.Coords) (k0_t1 : Fin k0_t1_loop.trips) (v1919 : IVec S16 32) (k0_hw626 : k0_chk626 i k0_t1 v1919), ∀ (k0_h1 : k0_cond1 i k0_t1 = 1#1), ∀ a x, ((![v1919] : Fin 1 → IVec S16 32) a x).toNat < S100000.size a := fun i k0_t1 v1919 k0_hw626 k0_h1 => k0_hw626 k0_h1

def k0_chk627 (i : grid0.Coords) (k0_t1 : Fin k0_t1_loop.trips) (v1920 : IVec S16 32) : Prop :=
  (∀ (k0_h1 : k0_cond1 i k0_t1 = 1#1), ∀ a x, ((![v1920] : Fin 1 → IVec S16 32) a x).toNat < S100000.size a)
instance k0_chk627.dec : ∀ (i : grid0.Coords) (k0_t1 : Fin k0_t1_loop.trips) (v1920 : IVec S16 32), Decidable (k0_chk627 i k0_t1 v1920) := fun i k0_t1 v1920 => decidable_of_iff' _ (Iff.of_eq (k0_chk627.eq_1 i k0_t1 v1920))
theorem k0_idx627_inb : ∀ (i : grid0.Coords) (k0_t1 : Fin k0_t1_loop.trips) (v1920 : IVec S16 32) (k0_hw627 : k0_chk627 i k0_t1 v1920), ∀ (k0_h1 : k0_cond1 i k0_t1 = 1#1), ∀ a x, ((![v1920] : Fin 1 → IVec S16 32) a x).toNat < S100000.size a := fun i k0_t1 v1920 k0_hw627 k0_h1 => k0_hw627 k0_h1

def k0_chk628 (i : grid0.Coords) (k0_t1 : Fin k0_t1_loop.trips) (v1921 : IVec S16 32) : Prop :=
  (∀ (k0_h1 : k0_cond1 i k0_t1 = 1#1), ∀ a x, ((![v1921] : Fin 1 → IVec S16 32) a x).toNat < S100000.size a)
instance k0_chk628.dec : ∀ (i : grid0.Coords) (k0_t1 : Fin k0_t1_loop.trips) (v1921 : IVec S16 32), Decidable (k0_chk628 i k0_t1 v1921) := fun i k0_t1 v1921 => decidable_of_iff' _ (Iff.of_eq (k0_chk628.eq_1 i k0_t1 v1921))
theorem k0_idx628_inb : ∀ (i : grid0.Coords) (k0_t1 : Fin k0_t1_loop.trips) (v1921 : IVec S16 32) (k0_hw628 : k0_chk628 i k0_t1 v1921), ∀ (k0_h1 : k0_cond1 i k0_t1 = 1#1), ∀ a x, ((![v1921] : Fin 1 → IVec S16 32) a x).toNat < S100000.size a := fun i k0_t1 v1921 k0_hw628 k0_h1 => k0_hw628 k0_h1

def k0_chk629 (i : grid0.Coords) (k0_t1 : Fin k0_t1_loop.trips) (v1922 : IVec S16 32) : Prop :=
  (∀ (k0_h1 : k0_cond1 i k0_t1 = 1#1), ∀ a x, ((![v1922] : Fin 1 → IVec S16 32) a x).toNat < S100000.size a)
instance k0_chk629.dec : ∀ (i : grid0.Coords) (k0_t1 : Fin k0_t1_loop.trips) (v1922 : IVec S16 32), Decidable (k0_chk629 i k0_t1 v1922) := fun i k0_t1 v1922 => decidable_of_iff' _ (Iff.of_eq (k0_chk629.eq_1 i k0_t1 v1922))
theorem k0_idx629_inb : ∀ (i : grid0.Coords) (k0_t1 : Fin k0_t1_loop.trips) (v1922 : IVec S16 32) (k0_hw629 : k0_chk629 i k0_t1 v1922), ∀ (k0_h1 : k0_cond1 i k0_t1 = 1#1), ∀ a x, ((![v1922] : Fin 1 → IVec S16 32) a x).toNat < S100000.size a := fun i k0_t1 v1922 k0_hw629 k0_h1 => k0_hw629 k0_h1

def k0_chk630 (i : grid0.Coords) (k0_t1 : Fin k0_t1_loop.trips) (v1923 : IVec S16 32) : Prop :=
  (∀ (k0_h1 : k0_cond1 i k0_t1 = 1#1), ∀ a x, ((![v1923] : Fin 1 → IVec S16 32) a x).toNat < S100000.size a)
instance k0_chk630.dec : ∀ (i : grid0.Coords) (k0_t1 : Fin k0_t1_loop.trips) (v1923 : IVec S16 32), Decidable (k0_chk630 i k0_t1 v1923) := fun i k0_t1 v1923 => decidable_of_iff' _ (Iff.of_eq (k0_chk630.eq_1 i k0_t1 v1923))
theorem k0_idx630_inb : ∀ (i : grid0.Coords) (k0_t1 : Fin k0_t1_loop.trips) (v1923 : IVec S16 32) (k0_hw630 : k0_chk630 i k0_t1 v1923), ∀ (k0_h1 : k0_cond1 i k0_t1 = 1#1), ∀ a x, ((![v1923] : Fin 1 → IVec S16 32) a x).toNat < S100000.size a := fun i k0_t1 v1923 k0_hw630 k0_h1 => k0_hw630 k0_h1

def k0_chk631 (i : grid0.Coords) (k0_t1 : Fin k0_t1_loop.trips) (v1924 : IVec S16 32) : Prop :=
  (∀ (k0_h1 : k0_cond1 i k0_t1 = 1#1), ∀ a x, ((![v1924] : Fin 1 → IVec S16 32) a x).toNat < S100000.size a)
instance k0_chk631.dec : ∀ (i : grid0.Coords) (k0_t1 : Fin k0_t1_loop.trips) (v1924 : IVec S16 32), Decidable (k0_chk631 i k0_t1 v1924) := fun i k0_t1 v1924 => decidable_of_iff' _ (Iff.of_eq (k0_chk631.eq_1 i k0_t1 v1924))
theorem k0_idx631_inb : ∀ (i : grid0.Coords) (k0_t1 : Fin k0_t1_loop.trips) (v1924 : IVec S16 32) (k0_hw631 : k0_chk631 i k0_t1 v1924), ∀ (k0_h1 : k0_cond1 i k0_t1 = 1#1), ∀ a x, ((![v1924] : Fin 1 → IVec S16 32) a x).toNat < S100000.size a := fun i k0_t1 v1924 k0_hw631 k0_h1 => k0_hw631 k0_h1

def k0_chk632 (i : grid0.Coords) (k0_t1 : Fin k0_t1_loop.trips) (v1925 : IVec S16 32) : Prop :=
  (∀ (k0_h1 : k0_cond1 i k0_t1 = 1#1), ∀ a x, ((![v1925] : Fin 1 → IVec S16 32) a x).toNat < S100000.size a)
instance k0_chk632.dec : ∀ (i : grid0.Coords) (k0_t1 : Fin k0_t1_loop.trips) (v1925 : IVec S16 32), Decidable (k0_chk632 i k0_t1 v1925) := fun i k0_t1 v1925 => decidable_of_iff' _ (Iff.of_eq (k0_chk632.eq_1 i k0_t1 v1925))
theorem k0_idx632_inb : ∀ (i : grid0.Coords) (k0_t1 : Fin k0_t1_loop.trips) (v1925 : IVec S16 32) (k0_hw632 : k0_chk632 i k0_t1 v1925), ∀ (k0_h1 : k0_cond1 i k0_t1 = 1#1), ∀ a x, ((![v1925] : Fin 1 → IVec S16 32) a x).toNat < S100000.size a := fun i k0_t1 v1925 k0_hw632 k0_h1 => k0_hw632 k0_h1

def k0_chk633 (i : grid0.Coords) (k0_t1 : Fin k0_t1_loop.trips) (v1942 : IVec S16 32) : Prop :=
  (∀ (k0_h1 : k0_cond1 i k0_t1 = 1#1), ∀ a x, ((![v1942] : Fin 1 → IVec S16 32) a x).toNat < S100000.size a)
instance k0_chk633.dec : ∀ (i : grid0.Coords) (k0_t1 : Fin k0_t1_loop.trips) (v1942 : IVec S16 32), Decidable (k0_chk633 i k0_t1 v1942) := fun i k0_t1 v1942 => decidable_of_iff' _ (Iff.of_eq (k0_chk633.eq_1 i k0_t1 v1942))
theorem k0_idx633_inb : ∀ (i : grid0.Coords) (k0_t1 : Fin k0_t1_loop.trips) (v1942 : IVec S16 32) (k0_hw633 : k0_chk633 i k0_t1 v1942), ∀ (k0_h1 : k0_cond1 i k0_t1 = 1#1), ∀ a x, ((![v1942] : Fin 1 → IVec S16 32) a x).toNat < S100000.size a := fun i k0_t1 v1942 k0_hw633 k0_h1 => k0_hw633 k0_h1

def k0_chk634 (i : grid0.Coords) (k0_t1 : Fin k0_t1_loop.trips) (v1943 : IVec S16 32) : Prop :=
  (∀ (k0_h1 : k0_cond1 i k0_t1 = 1#1), ∀ a x, ((![v1943] : Fin 1 → IVec S16 32) a x).toNat < S100000.size a)
instance k0_chk634.dec : ∀ (i : grid0.Coords) (k0_t1 : Fin k0_t1_loop.trips) (v1943 : IVec S16 32), Decidable (k0_chk634 i k0_t1 v1943) := fun i k0_t1 v1943 => decidable_of_iff' _ (Iff.of_eq (k0_chk634.eq_1 i k0_t1 v1943))
theorem k0_idx634_inb : ∀ (i : grid0.Coords) (k0_t1 : Fin k0_t1_loop.trips) (v1943 : IVec S16 32) (k0_hw634 : k0_chk634 i k0_t1 v1943), ∀ (k0_h1 : k0_cond1 i k0_t1 = 1#1), ∀ a x, ((![v1943] : Fin 1 → IVec S16 32) a x).toNat < S100000.size a := fun i k0_t1 v1943 k0_hw634 k0_h1 => k0_hw634 k0_h1

def k0_chk635 (i : grid0.Coords) (k0_t1 : Fin k0_t1_loop.trips) (v1944 : IVec S16 32) : Prop :=
  (∀ (k0_h1 : k0_cond1 i k0_t1 = 1#1), ∀ a x, ((![v1944] : Fin 1 → IVec S16 32) a x).toNat < S100000.size a)
instance k0_chk635.dec : ∀ (i : grid0.Coords) (k0_t1 : Fin k0_t1_loop.trips) (v1944 : IVec S16 32), Decidable (k0_chk635 i k0_t1 v1944) := fun i k0_t1 v1944 => decidable_of_iff' _ (Iff.of_eq (k0_chk635.eq_1 i k0_t1 v1944))
theorem k0_idx635_inb : ∀ (i : grid0.Coords) (k0_t1 : Fin k0_t1_loop.trips) (v1944 : IVec S16 32) (k0_hw635 : k0_chk635 i k0_t1 v1944), ∀ (k0_h1 : k0_cond1 i k0_t1 = 1#1), ∀ a x, ((![v1944] : Fin 1 → IVec S16 32) a x).toNat < S100000.size a := fun i k0_t1 v1944 k0_hw635 k0_h1 => k0_hw635 k0_h1

def k0_chk636 (i : grid0.Coords) (k0_t1 : Fin k0_t1_loop.trips) (v1945 : IVec S16 32) : Prop :=
  (∀ (k0_h1 : k0_cond1 i k0_t1 = 1#1), ∀ a x, ((![v1945] : Fin 1 → IVec S16 32) a x).toNat < S100000.size a)
instance k0_chk636.dec : ∀ (i : grid0.Coords) (k0_t1 : Fin k0_t1_loop.trips) (v1945 : IVec S16 32), Decidable (k0_chk636 i k0_t1 v1945) := fun i k0_t1 v1945 => decidable_of_iff' _ (Iff.of_eq (k0_chk636.eq_1 i k0_t1 v1945))
theorem k0_idx636_inb : ∀ (i : grid0.Coords) (k0_t1 : Fin k0_t1_loop.trips) (v1945 : IVec S16 32) (k0_hw636 : k0_chk636 i k0_t1 v1945), ∀ (k0_h1 : k0_cond1 i k0_t1 = 1#1), ∀ a x, ((![v1945] : Fin 1 → IVec S16 32) a x).toNat < S100000.size a := fun i k0_t1 v1945 k0_hw636 k0_h1 => k0_hw636 k0_h1

def k0_chk637 (i : grid0.Coords) (k0_t1 : Fin k0_t1_loop.trips) (v1946 : IVec S16 32) : Prop :=
  (∀ (k0_h1 : k0_cond1 i k0_t1 = 1#1), ∀ a x, ((![v1946] : Fin 1 → IVec S16 32) a x).toNat < S100000.size a)
instance k0_chk637.dec : ∀ (i : grid0.Coords) (k0_t1 : Fin k0_t1_loop.trips) (v1946 : IVec S16 32), Decidable (k0_chk637 i k0_t1 v1946) := fun i k0_t1 v1946 => decidable_of_iff' _ (Iff.of_eq (k0_chk637.eq_1 i k0_t1 v1946))
theorem k0_idx637_inb : ∀ (i : grid0.Coords) (k0_t1 : Fin k0_t1_loop.trips) (v1946 : IVec S16 32) (k0_hw637 : k0_chk637 i k0_t1 v1946), ∀ (k0_h1 : k0_cond1 i k0_t1 = 1#1), ∀ a x, ((![v1946] : Fin 1 → IVec S16 32) a x).toNat < S100000.size a := fun i k0_t1 v1946 k0_hw637 k0_h1 => k0_hw637 k0_h1

def k0_chk638 (i : grid0.Coords) (k0_t1 : Fin k0_t1_loop.trips) (v1947 : IVec S16 32) : Prop :=
  (∀ (k0_h1 : k0_cond1 i k0_t1 = 1#1), ∀ a x, ((![v1947] : Fin 1 → IVec S16 32) a x).toNat < S100000.size a)
instance k0_chk638.dec : ∀ (i : grid0.Coords) (k0_t1 : Fin k0_t1_loop.trips) (v1947 : IVec S16 32), Decidable (k0_chk638 i k0_t1 v1947) := fun i k0_t1 v1947 => decidable_of_iff' _ (Iff.of_eq (k0_chk638.eq_1 i k0_t1 v1947))
theorem k0_idx638_inb : ∀ (i : grid0.Coords) (k0_t1 : Fin k0_t1_loop.trips) (v1947 : IVec S16 32) (k0_hw638 : k0_chk638 i k0_t1 v1947), ∀ (k0_h1 : k0_cond1 i k0_t1 = 1#1), ∀ a x, ((![v1947] : Fin 1 → IVec S16 32) a x).toNat < S100000.size a := fun i k0_t1 v1947 k0_hw638 k0_h1 => k0_hw638 k0_h1

def k0_chk639 (i : grid0.Coords) (k0_t1 : Fin k0_t1_loop.trips) (v1948 : IVec S16 32) : Prop :=
  (∀ (k0_h1 : k0_cond1 i k0_t1 = 1#1), ∀ a x, ((![v1948] : Fin 1 → IVec S16 32) a x).toNat < S100000.size a)
instance k0_chk639.dec : ∀ (i : grid0.Coords) (k0_t1 : Fin k0_t1_loop.trips) (v1948 : IVec S16 32), Decidable (k0_chk639 i k0_t1 v1948) := fun i k0_t1 v1948 => decidable_of_iff' _ (Iff.of_eq (k0_chk639.eq_1 i k0_t1 v1948))
theorem k0_idx639_inb : ∀ (i : grid0.Coords) (k0_t1 : Fin k0_t1_loop.trips) (v1948 : IVec S16 32) (k0_hw639 : k0_chk639 i k0_t1 v1948), ∀ (k0_h1 : k0_cond1 i k0_t1 = 1#1), ∀ a x, ((![v1948] : Fin 1 → IVec S16 32) a x).toNat < S100000.size a := fun i k0_t1 v1948 k0_hw639 k0_h1 => k0_hw639 k0_h1

def k0_chk640 (i : grid0.Coords) (k0_t1 : Fin k0_t1_loop.trips) (v1949 : IVec S16 32) : Prop :=
  (∀ (k0_h1 : k0_cond1 i k0_t1 = 1#1), ∀ a x, ((![v1949] : Fin 1 → IVec S16 32) a x).toNat < S100000.size a)
instance k0_chk640.dec : ∀ (i : grid0.Coords) (k0_t1 : Fin k0_t1_loop.trips) (v1949 : IVec S16 32), Decidable (k0_chk640 i k0_t1 v1949) := fun i k0_t1 v1949 => decidable_of_iff' _ (Iff.of_eq (k0_chk640.eq_1 i k0_t1 v1949))
theorem k0_idx640_inb : ∀ (i : grid0.Coords) (k0_t1 : Fin k0_t1_loop.trips) (v1949 : IVec S16 32) (k0_hw640 : k0_chk640 i k0_t1 v1949), ∀ (k0_h1 : k0_cond1 i k0_t1 = 1#1), ∀ a x, ((![v1949] : Fin 1 → IVec S16 32) a x).toNat < S100000.size a := fun i k0_t1 v1949 k0_hw640 k0_h1 => k0_hw640 k0_h1

def k0_chk641 (i : grid0.Coords) (k0_t1 : Fin k0_t1_loop.trips) (v1966 : IVec S16 32) : Prop :=
  (∀ (k0_h1 : k0_cond1 i k0_t1 = 1#1), ∀ a x, ((![v1966] : Fin 1 → IVec S16 32) a x).toNat < S100000.size a)
instance k0_chk641.dec : ∀ (i : grid0.Coords) (k0_t1 : Fin k0_t1_loop.trips) (v1966 : IVec S16 32), Decidable (k0_chk641 i k0_t1 v1966) := fun i k0_t1 v1966 => decidable_of_iff' _ (Iff.of_eq (k0_chk641.eq_1 i k0_t1 v1966))
theorem k0_idx641_inb : ∀ (i : grid0.Coords) (k0_t1 : Fin k0_t1_loop.trips) (v1966 : IVec S16 32) (k0_hw641 : k0_chk641 i k0_t1 v1966), ∀ (k0_h1 : k0_cond1 i k0_t1 = 1#1), ∀ a x, ((![v1966] : Fin 1 → IVec S16 32) a x).toNat < S100000.size a := fun i k0_t1 v1966 k0_hw641 k0_h1 => k0_hw641 k0_h1

def k0_chk642 (i : grid0.Coords) (k0_t1 : Fin k0_t1_loop.trips) (v1967 : IVec S16 32) : Prop :=
  (∀ (k0_h1 : k0_cond1 i k0_t1 = 1#1), ∀ a x, ((![v1967] : Fin 1 → IVec S16 32) a x).toNat < S100000.size a)
instance k0_chk642.dec : ∀ (i : grid0.Coords) (k0_t1 : Fin k0_t1_loop.trips) (v1967 : IVec S16 32), Decidable (k0_chk642 i k0_t1 v1967) := fun i k0_t1 v1967 => decidable_of_iff' _ (Iff.of_eq (k0_chk642.eq_1 i k0_t1 v1967))
theorem k0_idx642_inb : ∀ (i : grid0.Coords) (k0_t1 : Fin k0_t1_loop.trips) (v1967 : IVec S16 32) (k0_hw642 : k0_chk642 i k0_t1 v1967), ∀ (k0_h1 : k0_cond1 i k0_t1 = 1#1), ∀ a x, ((![v1967] : Fin 1 → IVec S16 32) a x).toNat < S100000.size a := fun i k0_t1 v1967 k0_hw642 k0_h1 => k0_hw642 k0_h1

def k0_chk643 (i : grid0.Coords) (k0_t1 : Fin k0_t1_loop.trips) (v1968 : IVec S16 32) : Prop :=
  (∀ (k0_h1 : k0_cond1 i k0_t1 = 1#1), ∀ a x, ((![v1968] : Fin 1 → IVec S16 32) a x).toNat < S100000.size a)
instance k0_chk643.dec : ∀ (i : grid0.Coords) (k0_t1 : Fin k0_t1_loop.trips) (v1968 : IVec S16 32), Decidable (k0_chk643 i k0_t1 v1968) := fun i k0_t1 v1968 => decidable_of_iff' _ (Iff.of_eq (k0_chk643.eq_1 i k0_t1 v1968))
theorem k0_idx643_inb : ∀ (i : grid0.Coords) (k0_t1 : Fin k0_t1_loop.trips) (v1968 : IVec S16 32) (k0_hw643 : k0_chk643 i k0_t1 v1968), ∀ (k0_h1 : k0_cond1 i k0_t1 = 1#1), ∀ a x, ((![v1968] : Fin 1 → IVec S16 32) a x).toNat < S100000.size a := fun i k0_t1 v1968 k0_hw643 k0_h1 => k0_hw643 k0_h1

def k0_chk644 (i : grid0.Coords) (k0_t1 : Fin k0_t1_loop.trips) (v1969 : IVec S16 32) : Prop :=
  (∀ (k0_h1 : k0_cond1 i k0_t1 = 1#1), ∀ a x, ((![v1969] : Fin 1 → IVec S16 32) a x).toNat < S100000.size a)
instance k0_chk644.dec : ∀ (i : grid0.Coords) (k0_t1 : Fin k0_t1_loop.trips) (v1969 : IVec S16 32), Decidable (k0_chk644 i k0_t1 v1969) := fun i k0_t1 v1969 => decidable_of_iff' _ (Iff.of_eq (k0_chk644.eq_1 i k0_t1 v1969))
theorem k0_idx644_inb : ∀ (i : grid0.Coords) (k0_t1 : Fin k0_t1_loop.trips) (v1969 : IVec S16 32) (k0_hw644 : k0_chk644 i k0_t1 v1969), ∀ (k0_h1 : k0_cond1 i k0_t1 = 1#1), ∀ a x, ((![v1969] : Fin 1 → IVec S16 32) a x).toNat < S100000.size a := fun i k0_t1 v1969 k0_hw644 k0_h1 => k0_hw644 k0_h1

def k0_chk645 (i : grid0.Coords) (k0_t1 : Fin k0_t1_loop.trips) (v1970 : IVec S16 32) : Prop :=
  (∀ (k0_h1 : k0_cond1 i k0_t1 = 1#1), ∀ a x, ((![v1970] : Fin 1 → IVec S16 32) a x).toNat < S100000.size a)
instance k0_chk645.dec : ∀ (i : grid0.Coords) (k0_t1 : Fin k0_t1_loop.trips) (v1970 : IVec S16 32), Decidable (k0_chk645 i k0_t1 v1970) := fun i k0_t1 v1970 => decidable_of_iff' _ (Iff.of_eq (k0_chk645.eq_1 i k0_t1 v1970))
theorem k0_idx645_inb : ∀ (i : grid0.Coords) (k0_t1 : Fin k0_t1_loop.trips) (v1970 : IVec S16 32) (k0_hw645 : k0_chk645 i k0_t1 v1970), ∀ (k0_h1 : k0_cond1 i k0_t1 = 1#1), ∀ a x, ((![v1970] : Fin 1 → IVec S16 32) a x).toNat < S100000.size a := fun i k0_t1 v1970 k0_hw645 k0_h1 => k0_hw645 k0_h1

def k0_chk646 (i : grid0.Coords) (k0_t1 : Fin k0_t1_loop.trips) (v1971 : IVec S16 32) : Prop :=
  (∀ (k0_h1 : k0_cond1 i k0_t1 = 1#1), ∀ a x, ((![v1971] : Fin 1 → IVec S16 32) a x).toNat < S100000.size a)
instance k0_chk646.dec : ∀ (i : grid0.Coords) (k0_t1 : Fin k0_t1_loop.trips) (v1971 : IVec S16 32), Decidable (k0_chk646 i k0_t1 v1971) := fun i k0_t1 v1971 => decidable_of_iff' _ (Iff.of_eq (k0_chk646.eq_1 i k0_t1 v1971))
theorem k0_idx646_inb : ∀ (i : grid0.Coords) (k0_t1 : Fin k0_t1_loop.trips) (v1971 : IVec S16 32) (k0_hw646 : k0_chk646 i k0_t1 v1971), ∀ (k0_h1 : k0_cond1 i k0_t1 = 1#1), ∀ a x, ((![v1971] : Fin 1 → IVec S16 32) a x).toNat < S100000.size a := fun i k0_t1 v1971 k0_hw646 k0_h1 => k0_hw646 k0_h1

def k0_chk647 (i : grid0.Coords) (k0_t1 : Fin k0_t1_loop.trips) (v1972 : IVec S16 32) : Prop :=
  (∀ (k0_h1 : k0_cond1 i k0_t1 = 1#1), ∀ a x, ((![v1972] : Fin 1 → IVec S16 32) a x).toNat < S100000.size a)
instance k0_chk647.dec : ∀ (i : grid0.Coords) (k0_t1 : Fin k0_t1_loop.trips) (v1972 : IVec S16 32), Decidable (k0_chk647 i k0_t1 v1972) := fun i k0_t1 v1972 => decidable_of_iff' _ (Iff.of_eq (k0_chk647.eq_1 i k0_t1 v1972))
theorem k0_idx647_inb : ∀ (i : grid0.Coords) (k0_t1 : Fin k0_t1_loop.trips) (v1972 : IVec S16 32) (k0_hw647 : k0_chk647 i k0_t1 v1972), ∀ (k0_h1 : k0_cond1 i k0_t1 = 1#1), ∀ a x, ((![v1972] : Fin 1 → IVec S16 32) a x).toNat < S100000.size a := fun i k0_t1 v1972 k0_hw647 k0_h1 => k0_hw647 k0_h1

def k0_chk648 (i : grid0.Coords) (k0_t1 : Fin k0_t1_loop.trips) (v1973 : IVec S16 32) : Prop :=
  (∀ (k0_h1 : k0_cond1 i k0_t1 = 1#1), ∀ a x, ((![v1973] : Fin 1 → IVec S16 32) a x).toNat < S100000.size a)
instance k0_chk648.dec : ∀ (i : grid0.Coords) (k0_t1 : Fin k0_t1_loop.trips) (v1973 : IVec S16 32), Decidable (k0_chk648 i k0_t1 v1973) := fun i k0_t1 v1973 => decidable_of_iff' _ (Iff.of_eq (k0_chk648.eq_1 i k0_t1 v1973))
theorem k0_idx648_inb : ∀ (i : grid0.Coords) (k0_t1 : Fin k0_t1_loop.trips) (v1973 : IVec S16 32) (k0_hw648 : k0_chk648 i k0_t1 v1973), ∀ (k0_h1 : k0_cond1 i k0_t1 = 1#1), ∀ a x, ((![v1973] : Fin 1 → IVec S16 32) a x).toNat < S100000.size a := fun i k0_t1 v1973 k0_hw648 k0_h1 => k0_hw648 k0_h1

def k0_chk649 (i : grid0.Coords) (k0_t1 : Fin k0_t1_loop.trips) (v1990 : IVec S16 32) : Prop :=
  (∀ (k0_h1 : k0_cond1 i k0_t1 = 1#1), ∀ a x, ((![v1990] : Fin 1 → IVec S16 32) a x).toNat < S100000.size a)
instance k0_chk649.dec : ∀ (i : grid0.Coords) (k0_t1 : Fin k0_t1_loop.trips) (v1990 : IVec S16 32), Decidable (k0_chk649 i k0_t1 v1990) := fun i k0_t1 v1990 => decidable_of_iff' _ (Iff.of_eq (k0_chk649.eq_1 i k0_t1 v1990))
theorem k0_idx649_inb : ∀ (i : grid0.Coords) (k0_t1 : Fin k0_t1_loop.trips) (v1990 : IVec S16 32) (k0_hw649 : k0_chk649 i k0_t1 v1990), ∀ (k0_h1 : k0_cond1 i k0_t1 = 1#1), ∀ a x, ((![v1990] : Fin 1 → IVec S16 32) a x).toNat < S100000.size a := fun i k0_t1 v1990 k0_hw649 k0_h1 => k0_hw649 k0_h1

def k0_chk650 (i : grid0.Coords) (k0_t1 : Fin k0_t1_loop.trips) (v1991 : IVec S16 32) : Prop :=
  (∀ (k0_h1 : k0_cond1 i k0_t1 = 1#1), ∀ a x, ((![v1991] : Fin 1 → IVec S16 32) a x).toNat < S100000.size a)
instance k0_chk650.dec : ∀ (i : grid0.Coords) (k0_t1 : Fin k0_t1_loop.trips) (v1991 : IVec S16 32), Decidable (k0_chk650 i k0_t1 v1991) := fun i k0_t1 v1991 => decidable_of_iff' _ (Iff.of_eq (k0_chk650.eq_1 i k0_t1 v1991))
theorem k0_idx650_inb : ∀ (i : grid0.Coords) (k0_t1 : Fin k0_t1_loop.trips) (v1991 : IVec S16 32) (k0_hw650 : k0_chk650 i k0_t1 v1991), ∀ (k0_h1 : k0_cond1 i k0_t1 = 1#1), ∀ a x, ((![v1991] : Fin 1 → IVec S16 32) a x).toNat < S100000.size a := fun i k0_t1 v1991 k0_hw650 k0_h1 => k0_hw650 k0_h1

def k0_chk651 (i : grid0.Coords) (k0_t1 : Fin k0_t1_loop.trips) (v1992 : IVec S16 32) : Prop :=
  (∀ (k0_h1 : k0_cond1 i k0_t1 = 1#1), ∀ a x, ((![v1992] : Fin 1 → IVec S16 32) a x).toNat < S100000.size a)
instance k0_chk651.dec : ∀ (i : grid0.Coords) (k0_t1 : Fin k0_t1_loop.trips) (v1992 : IVec S16 32), Decidable (k0_chk651 i k0_t1 v1992) := fun i k0_t1 v1992 => decidable_of_iff' _ (Iff.of_eq (k0_chk651.eq_1 i k0_t1 v1992))
theorem k0_idx651_inb : ∀ (i : grid0.Coords) (k0_t1 : Fin k0_t1_loop.trips) (v1992 : IVec S16 32) (k0_hw651 : k0_chk651 i k0_t1 v1992), ∀ (k0_h1 : k0_cond1 i k0_t1 = 1#1), ∀ a x, ((![v1992] : Fin 1 → IVec S16 32) a x).toNat < S100000.size a := fun i k0_t1 v1992 k0_hw651 k0_h1 => k0_hw651 k0_h1

def k0_chk652 (i : grid0.Coords) (k0_t1 : Fin k0_t1_loop.trips) (v1993 : IVec S16 32) : Prop :=
  (∀ (k0_h1 : k0_cond1 i k0_t1 = 1#1), ∀ a x, ((![v1993] : Fin 1 → IVec S16 32) a x).toNat < S100000.size a)
instance k0_chk652.dec : ∀ (i : grid0.Coords) (k0_t1 : Fin k0_t1_loop.trips) (v1993 : IVec S16 32), Decidable (k0_chk652 i k0_t1 v1993) := fun i k0_t1 v1993 => decidable_of_iff' _ (Iff.of_eq (k0_chk652.eq_1 i k0_t1 v1993))
theorem k0_idx652_inb : ∀ (i : grid0.Coords) (k0_t1 : Fin k0_t1_loop.trips) (v1993 : IVec S16 32) (k0_hw652 : k0_chk652 i k0_t1 v1993), ∀ (k0_h1 : k0_cond1 i k0_t1 = 1#1), ∀ a x, ((![v1993] : Fin 1 → IVec S16 32) a x).toNat < S100000.size a := fun i k0_t1 v1993 k0_hw652 k0_h1 => k0_hw652 k0_h1

def k0_chk653 (i : grid0.Coords) (k0_t1 : Fin k0_t1_loop.trips) (v1994 : IVec S16 32) : Prop :=
  (∀ (k0_h1 : k0_cond1 i k0_t1 = 1#1), ∀ a x, ((![v1994] : Fin 1 → IVec S16 32) a x).toNat < S100000.size a)
instance k0_chk653.dec : ∀ (i : grid0.Coords) (k0_t1 : Fin k0_t1_loop.trips) (v1994 : IVec S16 32), Decidable (k0_chk653 i k0_t1 v1994) := fun i k0_t1 v1994 => decidable_of_iff' _ (Iff.of_eq (k0_chk653.eq_1 i k0_t1 v1994))
theorem k0_idx653_inb : ∀ (i : grid0.Coords) (k0_t1 : Fin k0_t1_loop.trips) (v1994 : IVec S16 32) (k0_hw653 : k0_chk653 i k0_t1 v1994), ∀ (k0_h1 : k0_cond1 i k0_t1 = 1#1), ∀ a x, ((![v1994] : Fin 1 → IVec S16 32) a x).toNat < S100000.size a := fun i k0_t1 v1994 k0_hw653 k0_h1 => k0_hw653 k0_h1

def k0_chk654 (i : grid0.Coords) (k0_t1 : Fin k0_t1_loop.trips) (v1995 : IVec S16 32) : Prop :=
  (∀ (k0_h1 : k0_cond1 i k0_t1 = 1#1), ∀ a x, ((![v1995] : Fin 1 → IVec S16 32) a x).toNat < S100000.size a)
instance k0_chk654.dec : ∀ (i : grid0.Coords) (k0_t1 : Fin k0_t1_loop.trips) (v1995 : IVec S16 32), Decidable (k0_chk654 i k0_t1 v1995) := fun i k0_t1 v1995 => decidable_of_iff' _ (Iff.of_eq (k0_chk654.eq_1 i k0_t1 v1995))
theorem k0_idx654_inb : ∀ (i : grid0.Coords) (k0_t1 : Fin k0_t1_loop.trips) (v1995 : IVec S16 32) (k0_hw654 : k0_chk654 i k0_t1 v1995), ∀ (k0_h1 : k0_cond1 i k0_t1 = 1#1), ∀ a x, ((![v1995] : Fin 1 → IVec S16 32) a x).toNat < S100000.size a := fun i k0_t1 v1995 k0_hw654 k0_h1 => k0_hw654 k0_h1

def k0_chk655 (i : grid0.Coords) (k0_t1 : Fin k0_t1_loop.trips) (v1996 : IVec S16 32) : Prop :=
  (∀ (k0_h1 : k0_cond1 i k0_t1 = 1#1), ∀ a x, ((![v1996] : Fin 1 → IVec S16 32) a x).toNat < S100000.size a)
instance k0_chk655.dec : ∀ (i : grid0.Coords) (k0_t1 : Fin k0_t1_loop.trips) (v1996 : IVec S16 32), Decidable (k0_chk655 i k0_t1 v1996) := fun i k0_t1 v1996 => decidable_of_iff' _ (Iff.of_eq (k0_chk655.eq_1 i k0_t1 v1996))
theorem k0_idx655_inb : ∀ (i : grid0.Coords) (k0_t1 : Fin k0_t1_loop.trips) (v1996 : IVec S16 32) (k0_hw655 : k0_chk655 i k0_t1 v1996), ∀ (k0_h1 : k0_cond1 i k0_t1 = 1#1), ∀ a x, ((![v1996] : Fin 1 → IVec S16 32) a x).toNat < S100000.size a := fun i k0_t1 v1996 k0_hw655 k0_h1 => k0_hw655 k0_h1

def k0_chk656 (i : grid0.Coords) (k0_t1 : Fin k0_t1_loop.trips) (v1997 : IVec S16 32) : Prop :=
  (∀ (k0_h1 : k0_cond1 i k0_t1 = 1#1), ∀ a x, ((![v1997] : Fin 1 → IVec S16 32) a x).toNat < S100000.size a)
instance k0_chk656.dec : ∀ (i : grid0.Coords) (k0_t1 : Fin k0_t1_loop.trips) (v1997 : IVec S16 32), Decidable (k0_chk656 i k0_t1 v1997) := fun i k0_t1 v1997 => decidable_of_iff' _ (Iff.of_eq (k0_chk656.eq_1 i k0_t1 v1997))
theorem k0_idx656_inb : ∀ (i : grid0.Coords) (k0_t1 : Fin k0_t1_loop.trips) (v1997 : IVec S16 32) (k0_hw656 : k0_chk656 i k0_t1 v1997), ∀ (k0_h1 : k0_cond1 i k0_t1 = 1#1), ∀ a x, ((![v1997] : Fin 1 → IVec S16 32) a x).toNat < S100000.size a := fun i k0_t1 v1997 k0_hw656 k0_h1 => k0_hw656 k0_h1

def k0_chk657 (i : grid0.Coords) (k0_t1 : Fin k0_t1_loop.trips) (v2014 : IVec S16 32) : Prop :=
  (∀ (k0_h1 : k0_cond1 i k0_t1 = 1#1), ∀ a x, ((![v2014] : Fin 1 → IVec S16 32) a x).toNat < S100000.size a)
instance k0_chk657.dec : ∀ (i : grid0.Coords) (k0_t1 : Fin k0_t1_loop.trips) (v2014 : IVec S16 32), Decidable (k0_chk657 i k0_t1 v2014) := fun i k0_t1 v2014 => decidable_of_iff' _ (Iff.of_eq (k0_chk657.eq_1 i k0_t1 v2014))
theorem k0_idx657_inb : ∀ (i : grid0.Coords) (k0_t1 : Fin k0_t1_loop.trips) (v2014 : IVec S16 32) (k0_hw657 : k0_chk657 i k0_t1 v2014), ∀ (k0_h1 : k0_cond1 i k0_t1 = 1#1), ∀ a x, ((![v2014] : Fin 1 → IVec S16 32) a x).toNat < S100000.size a := fun i k0_t1 v2014 k0_hw657 k0_h1 => k0_hw657 k0_h1

def k0_chk658 (i : grid0.Coords) (k0_t1 : Fin k0_t1_loop.trips) (v2015 : IVec S16 32) : Prop :=
  (∀ (k0_h1 : k0_cond1 i k0_t1 = 1#1), ∀ a x, ((![v2015] : Fin 1 → IVec S16 32) a x).toNat < S100000.size a)
instance k0_chk658.dec : ∀ (i : grid0.Coords) (k0_t1 : Fin k0_t1_loop.trips) (v2015 : IVec S16 32), Decidable (k0_chk658 i k0_t1 v2015) := fun i k0_t1 v2015 => decidable_of_iff' _ (Iff.of_eq (k0_chk658.eq_1 i k0_t1 v2015))
theorem k0_idx658_inb : ∀ (i : grid0.Coords) (k0_t1 : Fin k0_t1_loop.trips) (v2015 : IVec S16 32) (k0_hw658 : k0_chk658 i k0_t1 v2015), ∀ (k0_h1 : k0_cond1 i k0_t1 = 1#1), ∀ a x, ((![v2015] : Fin 1 → IVec S16 32) a x).toNat < S100000.size a := fun i k0_t1 v2015 k0_hw658 k0_h1 => k0_hw658 k0_h1

def k0_chk659 (i : grid0.Coords) (k0_t1 : Fin k0_t1_loop.trips) (v2016 : IVec S16 32) : Prop :=
  (∀ (k0_h1 : k0_cond1 i k0_t1 = 1#1), ∀ a x, ((![v2016] : Fin 1 → IVec S16 32) a x).toNat < S100000.size a)
instance k0_chk659.dec : ∀ (i : grid0.Coords) (k0_t1 : Fin k0_t1_loop.trips) (v2016 : IVec S16 32), Decidable (k0_chk659 i k0_t1 v2016) := fun i k0_t1 v2016 => decidable_of_iff' _ (Iff.of_eq (k0_chk659.eq_1 i k0_t1 v2016))
theorem k0_idx659_inb : ∀ (i : grid0.Coords) (k0_t1 : Fin k0_t1_loop.trips) (v2016 : IVec S16 32) (k0_hw659 : k0_chk659 i k0_t1 v2016), ∀ (k0_h1 : k0_cond1 i k0_t1 = 1#1), ∀ a x, ((![v2016] : Fin 1 → IVec S16 32) a x).toNat < S100000.size a := fun i k0_t1 v2016 k0_hw659 k0_h1 => k0_hw659 k0_h1

def k0_chk660 (i : grid0.Coords) (k0_t1 : Fin k0_t1_loop.trips) (v2017 : IVec S16 32) : Prop :=
  (∀ (k0_h1 : k0_cond1 i k0_t1 = 1#1), ∀ a x, ((![v2017] : Fin 1 → IVec S16 32) a x).toNat < S100000.size a)
instance k0_chk660.dec : ∀ (i : grid0.Coords) (k0_t1 : Fin k0_t1_loop.trips) (v2017 : IVec S16 32), Decidable (k0_chk660 i k0_t1 v2017) := fun i k0_t1 v2017 => decidable_of_iff' _ (Iff.of_eq (k0_chk660.eq_1 i k0_t1 v2017))
theorem k0_idx660_inb : ∀ (i : grid0.Coords) (k0_t1 : Fin k0_t1_loop.trips) (v2017 : IVec S16 32) (k0_hw660 : k0_chk660 i k0_t1 v2017), ∀ (k0_h1 : k0_cond1 i k0_t1 = 1#1), ∀ a x, ((![v2017] : Fin 1 → IVec S16 32) a x).toNat < S100000.size a := fun i k0_t1 v2017 k0_hw660 k0_h1 => k0_hw660 k0_h1

def k0_chk661 (i : grid0.Coords) (k0_t1 : Fin k0_t1_loop.trips) (v2018 : IVec S16 32) : Prop :=
  (∀ (k0_h1 : k0_cond1 i k0_t1 = 1#1), ∀ a x, ((![v2018] : Fin 1 → IVec S16 32) a x).toNat < S100000.size a)
instance k0_chk661.dec : ∀ (i : grid0.Coords) (k0_t1 : Fin k0_t1_loop.trips) (v2018 : IVec S16 32), Decidable (k0_chk661 i k0_t1 v2018) := fun i k0_t1 v2018 => decidable_of_iff' _ (Iff.of_eq (k0_chk661.eq_1 i k0_t1 v2018))
theorem k0_idx661_inb : ∀ (i : grid0.Coords) (k0_t1 : Fin k0_t1_loop.trips) (v2018 : IVec S16 32) (k0_hw661 : k0_chk661 i k0_t1 v2018), ∀ (k0_h1 : k0_cond1 i k0_t1 = 1#1), ∀ a x, ((![v2018] : Fin 1 → IVec S16 32) a x).toNat < S100000.size a := fun i k0_t1 v2018 k0_hw661 k0_h1 => k0_hw661 k0_h1

def k0_chk662 (i : grid0.Coords) (k0_t1 : Fin k0_t1_loop.trips) (v2019 : IVec S16 32) : Prop :=
  (∀ (k0_h1 : k0_cond1 i k0_t1 = 1#1), ∀ a x, ((![v2019] : Fin 1 → IVec S16 32) a x).toNat < S100000.size a)
instance k0_chk662.dec : ∀ (i : grid0.Coords) (k0_t1 : Fin k0_t1_loop.trips) (v2019 : IVec S16 32), Decidable (k0_chk662 i k0_t1 v2019) := fun i k0_t1 v2019 => decidable_of_iff' _ (Iff.of_eq (k0_chk662.eq_1 i k0_t1 v2019))
theorem k0_idx662_inb : ∀ (i : grid0.Coords) (k0_t1 : Fin k0_t1_loop.trips) (v2019 : IVec S16 32) (k0_hw662 : k0_chk662 i k0_t1 v2019), ∀ (k0_h1 : k0_cond1 i k0_t1 = 1#1), ∀ a x, ((![v2019] : Fin 1 → IVec S16 32) a x).toNat < S100000.size a := fun i k0_t1 v2019 k0_hw662 k0_h1 => k0_hw662 k0_h1

def k0_chk663 (i : grid0.Coords) (k0_t1 : Fin k0_t1_loop.trips) (v2020 : IVec S16 32) : Prop :=
  (∀ (k0_h1 : k0_cond1 i k0_t1 = 1#1), ∀ a x, ((![v2020] : Fin 1 → IVec S16 32) a x).toNat < S100000.size a)
instance k0_chk663.dec : ∀ (i : grid0.Coords) (k0_t1 : Fin k0_t1_loop.trips) (v2020 : IVec S16 32), Decidable (k0_chk663 i k0_t1 v2020) := fun i k0_t1 v2020 => decidable_of_iff' _ (Iff.of_eq (k0_chk663.eq_1 i k0_t1 v2020))
theorem k0_idx663_inb : ∀ (i : grid0.Coords) (k0_t1 : Fin k0_t1_loop.trips) (v2020 : IVec S16 32) (k0_hw663 : k0_chk663 i k0_t1 v2020), ∀ (k0_h1 : k0_cond1 i k0_t1 = 1#1), ∀ a x, ((![v2020] : Fin 1 → IVec S16 32) a x).toNat < S100000.size a := fun i k0_t1 v2020 k0_hw663 k0_h1 => k0_hw663 k0_h1

def k0_chk664 (i : grid0.Coords) (k0_t1 : Fin k0_t1_loop.trips) (v2021 : IVec S16 32) : Prop :=
  (∀ (k0_h1 : k0_cond1 i k0_t1 = 1#1), ∀ a x, ((![v2021] : Fin 1 → IVec S16 32) a x).toNat < S100000.size a)
instance k0_chk664.dec : ∀ (i : grid0.Coords) (k0_t1 : Fin k0_t1_loop.trips) (v2021 : IVec S16 32), Decidable (k0_chk664 i k0_t1 v2021) := fun i k0_t1 v2021 => decidable_of_iff' _ (Iff.of_eq (k0_chk664.eq_1 i k0_t1 v2021))
theorem k0_idx664_inb : ∀ (i : grid0.Coords) (k0_t1 : Fin k0_t1_loop.trips) (v2021 : IVec S16 32) (k0_hw664 : k0_chk664 i k0_t1 v2021), ∀ (k0_h1 : k0_cond1 i k0_t1 = 1#1), ∀ a x, ((![v2021] : Fin 1 → IVec S16 32) a x).toNat < S100000.size a := fun i k0_t1 v2021 k0_hw664 k0_h1 => k0_hw664 k0_h1

def k0_chk665 (i : grid0.Coords) (k0_t1 : Fin k0_t1_loop.trips) (v2038 : IVec S16 32) : Prop :=
  (∀ (k0_h1 : k0_cond1 i k0_t1 = 1#1), ∀ a x, ((![v2038] : Fin 1 → IVec S16 32) a x).toNat < S100000.size a)
instance k0_chk665.dec : ∀ (i : grid0.Coords) (k0_t1 : Fin k0_t1_loop.trips) (v2038 : IVec S16 32), Decidable (k0_chk665 i k0_t1 v2038) := fun i k0_t1 v2038 => decidable_of_iff' _ (Iff.of_eq (k0_chk665.eq_1 i k0_t1 v2038))
theorem k0_idx665_inb : ∀ (i : grid0.Coords) (k0_t1 : Fin k0_t1_loop.trips) (v2038 : IVec S16 32) (k0_hw665 : k0_chk665 i k0_t1 v2038), ∀ (k0_h1 : k0_cond1 i k0_t1 = 1#1), ∀ a x, ((![v2038] : Fin 1 → IVec S16 32) a x).toNat < S100000.size a := fun i k0_t1 v2038 k0_hw665 k0_h1 => k0_hw665 k0_h1

def k0_chk666 (i : grid0.Coords) (k0_t1 : Fin k0_t1_loop.trips) (v2039 : IVec S16 32) : Prop :=
  (∀ (k0_h1 : k0_cond1 i k0_t1 = 1#1), ∀ a x, ((![v2039] : Fin 1 → IVec S16 32) a x).toNat < S100000.size a)
instance k0_chk666.dec : ∀ (i : grid0.Coords) (k0_t1 : Fin k0_t1_loop.trips) (v2039 : IVec S16 32), Decidable (k0_chk666 i k0_t1 v2039) := fun i k0_t1 v2039 => decidable_of_iff' _ (Iff.of_eq (k0_chk666.eq_1 i k0_t1 v2039))
theorem k0_idx666_inb : ∀ (i : grid0.Coords) (k0_t1 : Fin k0_t1_loop.trips) (v2039 : IVec S16 32) (k0_hw666 : k0_chk666 i k0_t1 v2039), ∀ (k0_h1 : k0_cond1 i k0_t1 = 1#1), ∀ a x, ((![v2039] : Fin 1 → IVec S16 32) a x).toNat < S100000.size a := fun i k0_t1 v2039 k0_hw666 k0_h1 => k0_hw666 k0_h1

def k0_chk667 (i : grid0.Coords) (k0_t1 : Fin k0_t1_loop.trips) (v2040 : IVec S16 32) : Prop :=
  (∀ (k0_h1 : k0_cond1 i k0_t1 = 1#1), ∀ a x, ((![v2040] : Fin 1 → IVec S16 32) a x).toNat < S100000.size a)
instance k0_chk667.dec : ∀ (i : grid0.Coords) (k0_t1 : Fin k0_t1_loop.trips) (v2040 : IVec S16 32), Decidable (k0_chk667 i k0_t1 v2040) := fun i k0_t1 v2040 => decidable_of_iff' _ (Iff.of_eq (k0_chk667.eq_1 i k0_t1 v2040))
theorem k0_idx667_inb : ∀ (i : grid0.Coords) (k0_t1 : Fin k0_t1_loop.trips) (v2040 : IVec S16 32) (k0_hw667 : k0_chk667 i k0_t1 v2040), ∀ (k0_h1 : k0_cond1 i k0_t1 = 1#1), ∀ a x, ((![v2040] : Fin 1 → IVec S16 32) a x).toNat < S100000.size a := fun i k0_t1 v2040 k0_hw667 k0_h1 => k0_hw667 k0_h1

def k0_chk668 (i : grid0.Coords) (k0_t1 : Fin k0_t1_loop.trips) (v2041 : IVec S16 32) : Prop :=
  (∀ (k0_h1 : k0_cond1 i k0_t1 = 1#1), ∀ a x, ((![v2041] : Fin 1 → IVec S16 32) a x).toNat < S100000.size a)
instance k0_chk668.dec : ∀ (i : grid0.Coords) (k0_t1 : Fin k0_t1_loop.trips) (v2041 : IVec S16 32), Decidable (k0_chk668 i k0_t1 v2041) := fun i k0_t1 v2041 => decidable_of_iff' _ (Iff.of_eq (k0_chk668.eq_1 i k0_t1 v2041))
theorem k0_idx668_inb : ∀ (i : grid0.Coords) (k0_t1 : Fin k0_t1_loop.trips) (v2041 : IVec S16 32) (k0_hw668 : k0_chk668 i k0_t1 v2041), ∀ (k0_h1 : k0_cond1 i k0_t1 = 1#1), ∀ a x, ((![v2041] : Fin 1 → IVec S16 32) a x).toNat < S100000.size a := fun i k0_t1 v2041 k0_hw668 k0_h1 => k0_hw668 k0_h1

def k0_chk669 (i : grid0.Coords) (k0_t1 : Fin k0_t1_loop.trips) (v2042 : IVec S16 32) : Prop :=
  (∀ (k0_h1 : k0_cond1 i k0_t1 = 1#1), ∀ a x, ((![v2042] : Fin 1 → IVec S16 32) a x).toNat < S100000.size a)
instance k0_chk669.dec : ∀ (i : grid0.Coords) (k0_t1 : Fin k0_t1_loop.trips) (v2042 : IVec S16 32), Decidable (k0_chk669 i k0_t1 v2042) := fun i k0_t1 v2042 => decidable_of_iff' _ (Iff.of_eq (k0_chk669.eq_1 i k0_t1 v2042))
theorem k0_idx669_inb : ∀ (i : grid0.Coords) (k0_t1 : Fin k0_t1_loop.trips) (v2042 : IVec S16 32) (k0_hw669 : k0_chk669 i k0_t1 v2042), ∀ (k0_h1 : k0_cond1 i k0_t1 = 1#1), ∀ a x, ((![v2042] : Fin 1 → IVec S16 32) a x).toNat < S100000.size a := fun i k0_t1 v2042 k0_hw669 k0_h1 => k0_hw669 k0_h1

def k0_chk670 (i : grid0.Coords) (k0_t1 : Fin k0_t1_loop.trips) (v2043 : IVec S16 32) : Prop :=
  (∀ (k0_h1 : k0_cond1 i k0_t1 = 1#1), ∀ a x, ((![v2043] : Fin 1 → IVec S16 32) a x).toNat < S100000.size a)
instance k0_chk670.dec : ∀ (i : grid0.Coords) (k0_t1 : Fin k0_t1_loop.trips) (v2043 : IVec S16 32), Decidable (k0_chk670 i k0_t1 v2043) := fun i k0_t1 v2043 => decidable_of_iff' _ (Iff.of_eq (k0_chk670.eq_1 i k0_t1 v2043))
theorem k0_idx670_inb : ∀ (i : grid0.Coords) (k0_t1 : Fin k0_t1_loop.trips) (v2043 : IVec S16 32) (k0_hw670 : k0_chk670 i k0_t1 v2043), ∀ (k0_h1 : k0_cond1 i k0_t1 = 1#1), ∀ a x, ((![v2043] : Fin 1 → IVec S16 32) a x).toNat < S100000.size a := fun i k0_t1 v2043 k0_hw670 k0_h1 => k0_hw670 k0_h1

def k0_chk671 (i : grid0.Coords) (k0_t1 : Fin k0_t1_loop.trips) (v2044 : IVec S16 32) : Prop :=
  (∀ (k0_h1 : k0_cond1 i k0_t1 = 1#1), ∀ a x, ((![v2044] : Fin 1 → IVec S16 32) a x).toNat < S100000.size a)
instance k0_chk671.dec : ∀ (i : grid0.Coords) (k0_t1 : Fin k0_t1_loop.trips) (v2044 : IVec S16 32), Decidable (k0_chk671 i k0_t1 v2044) := fun i k0_t1 v2044 => decidable_of_iff' _ (Iff.of_eq (k0_chk671.eq_1 i k0_t1 v2044))
theorem k0_idx671_inb : ∀ (i : grid0.Coords) (k0_t1 : Fin k0_t1_loop.trips) (v2044 : IVec S16 32) (k0_hw671 : k0_chk671 i k0_t1 v2044), ∀ (k0_h1 : k0_cond1 i k0_t1 = 1#1), ∀ a x, ((![v2044] : Fin 1 → IVec S16 32) a x).toNat < S100000.size a := fun i k0_t1 v2044 k0_hw671 k0_h1 => k0_hw671 k0_h1

def k0_chk672 (i : grid0.Coords) (k0_t1 : Fin k0_t1_loop.trips) (v2045 : IVec S16 32) : Prop :=
  (∀ (k0_h1 : k0_cond1 i k0_t1 = 1#1), ∀ a x, ((![v2045] : Fin 1 → IVec S16 32) a x).toNat < S100000.size a)
instance k0_chk672.dec : ∀ (i : grid0.Coords) (k0_t1 : Fin k0_t1_loop.trips) (v2045 : IVec S16 32), Decidable (k0_chk672 i k0_t1 v2045) := fun i k0_t1 v2045 => decidable_of_iff' _ (Iff.of_eq (k0_chk672.eq_1 i k0_t1 v2045))
theorem k0_idx672_inb : ∀ (i : grid0.Coords) (k0_t1 : Fin k0_t1_loop.trips) (v2045 : IVec S16 32) (k0_hw672 : k0_chk672 i k0_t1 v2045), ∀ (k0_h1 : k0_cond1 i k0_t1 = 1#1), ∀ a x, ((![v2045] : Fin 1 → IVec S16 32) a x).toNat < S100000.size a := fun i k0_t1 v2045 k0_hw672 k0_h1 => k0_hw672 k0_h1

def k0_chk673 (i : grid0.Coords) (k0_t1 : Fin k0_t1_loop.trips) (v2062 : IVec S16 32) : Prop :=
  (∀ (k0_h1 : k0_cond1 i k0_t1 = 1#1), ∀ a x, ((![v2062] : Fin 1 → IVec S16 32) a x).toNat < S100000.size a)
instance k0_chk673.dec : ∀ (i : grid0.Coords) (k0_t1 : Fin k0_t1_loop.trips) (v2062 : IVec S16 32), Decidable (k0_chk673 i k0_t1 v2062) := fun i k0_t1 v2062 => decidable_of_iff' _ (Iff.of_eq (k0_chk673.eq_1 i k0_t1 v2062))
theorem k0_idx673_inb : ∀ (i : grid0.Coords) (k0_t1 : Fin k0_t1_loop.trips) (v2062 : IVec S16 32) (k0_hw673 : k0_chk673 i k0_t1 v2062), ∀ (k0_h1 : k0_cond1 i k0_t1 = 1#1), ∀ a x, ((![v2062] : Fin 1 → IVec S16 32) a x).toNat < S100000.size a := fun i k0_t1 v2062 k0_hw673 k0_h1 => k0_hw673 k0_h1

def k0_chk674 (i : grid0.Coords) (k0_t1 : Fin k0_t1_loop.trips) (v2063 : IVec S16 32) : Prop :=
  (∀ (k0_h1 : k0_cond1 i k0_t1 = 1#1), ∀ a x, ((![v2063] : Fin 1 → IVec S16 32) a x).toNat < S100000.size a)
instance k0_chk674.dec : ∀ (i : grid0.Coords) (k0_t1 : Fin k0_t1_loop.trips) (v2063 : IVec S16 32), Decidable (k0_chk674 i k0_t1 v2063) := fun i k0_t1 v2063 => decidable_of_iff' _ (Iff.of_eq (k0_chk674.eq_1 i k0_t1 v2063))
theorem k0_idx674_inb : ∀ (i : grid0.Coords) (k0_t1 : Fin k0_t1_loop.trips) (v2063 : IVec S16 32) (k0_hw674 : k0_chk674 i k0_t1 v2063), ∀ (k0_h1 : k0_cond1 i k0_t1 = 1#1), ∀ a x, ((![v2063] : Fin 1 → IVec S16 32) a x).toNat < S100000.size a := fun i k0_t1 v2063 k0_hw674 k0_h1 => k0_hw674 k0_h1

def k0_chk675 (i : grid0.Coords) (k0_t1 : Fin k0_t1_loop.trips) (v2064 : IVec S16 32) : Prop :=
  (∀ (k0_h1 : k0_cond1 i k0_t1 = 1#1), ∀ a x, ((![v2064] : Fin 1 → IVec S16 32) a x).toNat < S100000.size a)
instance k0_chk675.dec : ∀ (i : grid0.Coords) (k0_t1 : Fin k0_t1_loop.trips) (v2064 : IVec S16 32), Decidable (k0_chk675 i k0_t1 v2064) := fun i k0_t1 v2064 => decidable_of_iff' _ (Iff.of_eq (k0_chk675.eq_1 i k0_t1 v2064))
theorem k0_idx675_inb : ∀ (i : grid0.Coords) (k0_t1 : Fin k0_t1_loop.trips) (v2064 : IVec S16 32) (k0_hw675 : k0_chk675 i k0_t1 v2064), ∀ (k0_h1 : k0_cond1 i k0_t1 = 1#1), ∀ a x, ((![v2064] : Fin 1 → IVec S16 32) a x).toNat < S100000.size a := fun i k0_t1 v2064 k0_hw675 k0_h1 => k0_hw675 k0_h1

def k0_chk676 (i : grid0.Coords) (k0_t1 : Fin k0_t1_loop.trips) (v2065 : IVec S16 32) : Prop :=
  (∀ (k0_h1 : k0_cond1 i k0_t1 = 1#1), ∀ a x, ((![v2065] : Fin 1 → IVec S16 32) a x).toNat < S100000.size a)
instance k0_chk676.dec : ∀ (i : grid0.Coords) (k0_t1 : Fin k0_t1_loop.trips) (v2065 : IVec S16 32), Decidable (k0_chk676 i k0_t1 v2065) := fun i k0_t1 v2065 => decidable_of_iff' _ (Iff.of_eq (k0_chk676.eq_1 i k0_t1 v2065))
theorem k0_idx676_inb : ∀ (i : grid0.Coords) (k0_t1 : Fin k0_t1_loop.trips) (v2065 : IVec S16 32) (k0_hw676 : k0_chk676 i k0_t1 v2065), ∀ (k0_h1 : k0_cond1 i k0_t1 = 1#1), ∀ a x, ((![v2065] : Fin 1 → IVec S16 32) a x).toNat < S100000.size a := fun i k0_t1 v2065 k0_hw676 k0_h1 => k0_hw676 k0_h1

def k0_chk677 (i : grid0.Coords) (k0_t1 : Fin k0_t1_loop.trips) (v2066 : IVec S16 32) : Prop :=
  (∀ (k0_h1 : k0_cond1 i k0_t1 = 1#1), ∀ a x, ((![v2066] : Fin 1 → IVec S16 32) a x).toNat < S100000.size a)
instance k0_chk677.dec : ∀ (i : grid0.Coords) (k0_t1 : Fin k0_t1_loop.trips) (v2066 : IVec S16 32), Decidable (k0_chk677 i k0_t1 v2066) := fun i k0_t1 v2066 => decidable_of_iff' _ (Iff.of_eq (k0_chk677.eq_1 i k0_t1 v2066))
theorem k0_idx677_inb : ∀ (i : grid0.Coords) (k0_t1 : Fin k0_t1_loop.trips) (v2066 : IVec S16 32) (k0_hw677 : k0_chk677 i k0_t1 v2066), ∀ (k0_h1 : k0_cond1 i k0_t1 = 1#1), ∀ a x, ((![v2066] : Fin 1 → IVec S16 32) a x).toNat < S100000.size a := fun i k0_t1 v2066 k0_hw677 k0_h1 => k0_hw677 k0_h1

def k0_chk678 (i : grid0.Coords) (k0_t1 : Fin k0_t1_loop.trips) (v2067 : IVec S16 32) : Prop :=
  (∀ (k0_h1 : k0_cond1 i k0_t1 = 1#1), ∀ a x, ((![v2067] : Fin 1 → IVec S16 32) a x).toNat < S100000.size a)
instance k0_chk678.dec : ∀ (i : grid0.Coords) (k0_t1 : Fin k0_t1_loop.trips) (v2067 : IVec S16 32), Decidable (k0_chk678 i k0_t1 v2067) := fun i k0_t1 v2067 => decidable_of_iff' _ (Iff.of_eq (k0_chk678.eq_1 i k0_t1 v2067))
theorem k0_idx678_inb : ∀ (i : grid0.Coords) (k0_t1 : Fin k0_t1_loop.trips) (v2067 : IVec S16 32) (k0_hw678 : k0_chk678 i k0_t1 v2067), ∀ (k0_h1 : k0_cond1 i k0_t1 = 1#1), ∀ a x, ((![v2067] : Fin 1 → IVec S16 32) a x).toNat < S100000.size a := fun i k0_t1 v2067 k0_hw678 k0_h1 => k0_hw678 k0_h1

def k0_chk679 (i : grid0.Coords) (k0_t1 : Fin k0_t1_loop.trips) (v2068 : IVec S16 32) : Prop :=
  (∀ (k0_h1 : k0_cond1 i k0_t1 = 1#1), ∀ a x, ((![v2068] : Fin 1 → IVec S16 32) a x).toNat < S100000.size a)
instance k0_chk679.dec : ∀ (i : grid0.Coords) (k0_t1 : Fin k0_t1_loop.trips) (v2068 : IVec S16 32), Decidable (k0_chk679 i k0_t1 v2068) := fun i k0_t1 v2068 => decidable_of_iff' _ (Iff.of_eq (k0_chk679.eq_1 i k0_t1 v2068))
theorem k0_idx679_inb : ∀ (i : grid0.Coords) (k0_t1 : Fin k0_t1_loop.trips) (v2068 : IVec S16 32) (k0_hw679 : k0_chk679 i k0_t1 v2068), ∀ (k0_h1 : k0_cond1 i k0_t1 = 1#1), ∀ a x, ((![v2068] : Fin 1 → IVec S16 32) a x).toNat < S100000.size a := fun i k0_t1 v2068 k0_hw679 k0_h1 => k0_hw679 k0_h1

def k0_chk680 (i : grid0.Coords) (k0_t1 : Fin k0_t1_loop.trips) (v2069 : IVec S16 32) : Prop :=
  (∀ (k0_h1 : k0_cond1 i k0_t1 = 1#1), ∀ a x, ((![v2069] : Fin 1 → IVec S16 32) a x).toNat < S100000.size a)
instance k0_chk680.dec : ∀ (i : grid0.Coords) (k0_t1 : Fin k0_t1_loop.trips) (v2069 : IVec S16 32), Decidable (k0_chk680 i k0_t1 v2069) := fun i k0_t1 v2069 => decidable_of_iff' _ (Iff.of_eq (k0_chk680.eq_1 i k0_t1 v2069))
theorem k0_idx680_inb : ∀ (i : grid0.Coords) (k0_t1 : Fin k0_t1_loop.trips) (v2069 : IVec S16 32) (k0_hw680 : k0_chk680 i k0_t1 v2069), ∀ (k0_h1 : k0_cond1 i k0_t1 = 1#1), ∀ a x, ((![v2069] : Fin 1 → IVec S16 32) a x).toNat < S100000.size a := fun i k0_t1 v2069 k0_hw680 k0_h1 => k0_hw680 k0_h1

def k0_chk681 (i : grid0.Coords) (k0_t1 : Fin k0_t1_loop.trips) (v2086 : IVec S16 32) : Prop :=
  (∀ (k0_h1 : k0_cond1 i k0_t1 = 1#1), ∀ a x, ((![v2086] : Fin 1 → IVec S16 32) a x).toNat < S100000.size a)
instance k0_chk681.dec : ∀ (i : grid0.Coords) (k0_t1 : Fin k0_t1_loop.trips) (v2086 : IVec S16 32), Decidable (k0_chk681 i k0_t1 v2086) := fun i k0_t1 v2086 => decidable_of_iff' _ (Iff.of_eq (k0_chk681.eq_1 i k0_t1 v2086))
theorem k0_idx681_inb : ∀ (i : grid0.Coords) (k0_t1 : Fin k0_t1_loop.trips) (v2086 : IVec S16 32) (k0_hw681 : k0_chk681 i k0_t1 v2086), ∀ (k0_h1 : k0_cond1 i k0_t1 = 1#1), ∀ a x, ((![v2086] : Fin 1 → IVec S16 32) a x).toNat < S100000.size a := fun i k0_t1 v2086 k0_hw681 k0_h1 => k0_hw681 k0_h1

def k0_chk682 (i : grid0.Coords) (k0_t1 : Fin k0_t1_loop.trips) (v2087 : IVec S16 32) : Prop :=
  (∀ (k0_h1 : k0_cond1 i k0_t1 = 1#1), ∀ a x, ((![v2087] : Fin 1 → IVec S16 32) a x).toNat < S100000.size a)
instance k0_chk682.dec : ∀ (i : grid0.Coords) (k0_t1 : Fin k0_t1_loop.trips) (v2087 : IVec S16 32), Decidable (k0_chk682 i k0_t1 v2087) := fun i k0_t1 v2087 => decidable_of_iff' _ (Iff.of_eq (k0_chk682.eq_1 i k0_t1 v2087))
theorem k0_idx682_inb : ∀ (i : grid0.Coords) (k0_t1 : Fin k0_t1_loop.trips) (v2087 : IVec S16 32) (k0_hw682 : k0_chk682 i k0_t1 v2087), ∀ (k0_h1 : k0_cond1 i k0_t1 = 1#1), ∀ a x, ((![v2087] : Fin 1 → IVec S16 32) a x).toNat < S100000.size a := fun i k0_t1 v2087 k0_hw682 k0_h1 => k0_hw682 k0_h1

def k0_chk683 (i : grid0.Coords) (k0_t1 : Fin k0_t1_loop.trips) (v2088 : IVec S16 32) : Prop :=
  (∀ (k0_h1 : k0_cond1 i k0_t1 = 1#1), ∀ a x, ((![v2088] : Fin 1 → IVec S16 32) a x).toNat < S100000.size a)
instance k0_chk683.dec : ∀ (i : grid0.Coords) (k0_t1 : Fin k0_t1_loop.trips) (v2088 : IVec S16 32), Decidable (k0_chk683 i k0_t1 v2088) := fun i k0_t1 v2088 => decidable_of_iff' _ (Iff.of_eq (k0_chk683.eq_1 i k0_t1 v2088))
theorem k0_idx683_inb : ∀ (i : grid0.Coords) (k0_t1 : Fin k0_t1_loop.trips) (v2088 : IVec S16 32) (k0_hw683 : k0_chk683 i k0_t1 v2088), ∀ (k0_h1 : k0_cond1 i k0_t1 = 1#1), ∀ a x, ((![v2088] : Fin 1 → IVec S16 32) a x).toNat < S100000.size a := fun i k0_t1 v2088 k0_hw683 k0_h1 => k0_hw683 k0_h1

def k0_chk684 (i : grid0.Coords) (k0_t1 : Fin k0_t1_loop.trips) (v2089 : IVec S16 32) : Prop :=
  (∀ (k0_h1 : k0_cond1 i k0_t1 = 1#1), ∀ a x, ((![v2089] : Fin 1 → IVec S16 32) a x).toNat < S100000.size a)
instance k0_chk684.dec : ∀ (i : grid0.Coords) (k0_t1 : Fin k0_t1_loop.trips) (v2089 : IVec S16 32), Decidable (k0_chk684 i k0_t1 v2089) := fun i k0_t1 v2089 => decidable_of_iff' _ (Iff.of_eq (k0_chk684.eq_1 i k0_t1 v2089))
theorem k0_idx684_inb : ∀ (i : grid0.Coords) (k0_t1 : Fin k0_t1_loop.trips) (v2089 : IVec S16 32) (k0_hw684 : k0_chk684 i k0_t1 v2089), ∀ (k0_h1 : k0_cond1 i k0_t1 = 1#1), ∀ a x, ((![v2089] : Fin 1 → IVec S16 32) a x).toNat < S100000.size a := fun i k0_t1 v2089 k0_hw684 k0_h1 => k0_hw684 k0_h1

def k0_chk685 (i : grid0.Coords) (k0_t1 : Fin k0_t1_loop.trips) (v2090 : IVec S16 32) : Prop :=
  (∀ (k0_h1 : k0_cond1 i k0_t1 = 1#1), ∀ a x, ((![v2090] : Fin 1 → IVec S16 32) a x).toNat < S100000.size a)
instance k0_chk685.dec : ∀ (i : grid0.Coords) (k0_t1 : Fin k0_t1_loop.trips) (v2090 : IVec S16 32), Decidable (k0_chk685 i k0_t1 v2090) := fun i k0_t1 v2090 => decidable_of_iff' _ (Iff.of_eq (k0_chk685.eq_1 i k0_t1 v2090))
theorem k0_idx685_inb : ∀ (i : grid0.Coords) (k0_t1 : Fin k0_t1_loop.trips) (v2090 : IVec S16 32) (k0_hw685 : k0_chk685 i k0_t1 v2090), ∀ (k0_h1 : k0_cond1 i k0_t1 = 1#1), ∀ a x, ((![v2090] : Fin 1 → IVec S16 32) a x).toNat < S100000.size a := fun i k0_t1 v2090 k0_hw685 k0_h1 => k0_hw685 k0_h1

def k0_chk686 (i : grid0.Coords) (k0_t1 : Fin k0_t1_loop.trips) (v2091 : IVec S16 32) : Prop :=
  (∀ (k0_h1 : k0_cond1 i k0_t1 = 1#1), ∀ a x, ((![v2091] : Fin 1 → IVec S16 32) a x).toNat < S100000.size a)
instance k0_chk686.dec : ∀ (i : grid0.Coords) (k0_t1 : Fin k0_t1_loop.trips) (v2091 : IVec S16 32), Decidable (k0_chk686 i k0_t1 v2091) := fun i k0_t1 v2091 => decidable_of_iff' _ (Iff.of_eq (k0_chk686.eq_1 i k0_t1 v2091))
theorem k0_idx686_inb : ∀ (i : grid0.Coords) (k0_t1 : Fin k0_t1_loop.trips) (v2091 : IVec S16 32) (k0_hw686 : k0_chk686 i k0_t1 v2091), ∀ (k0_h1 : k0_cond1 i k0_t1 = 1#1), ∀ a x, ((![v2091] : Fin 1 → IVec S16 32) a x).toNat < S100000.size a := fun i k0_t1 v2091 k0_hw686 k0_h1 => k0_hw686 k0_h1

def k0_chk687 (i : grid0.Coords) (k0_t1 : Fin k0_t1_loop.trips) (v2092 : IVec S16 32) : Prop :=
  (∀ (k0_h1 : k0_cond1 i k0_t1 = 1#1), ∀ a x, ((![v2092] : Fin 1 → IVec S16 32) a x).toNat < S100000.size a)
instance k0_chk687.dec : ∀ (i : grid0.Coords) (k0_t1 : Fin k0_t1_loop.trips) (v2092 : IVec S16 32), Decidable (k0_chk687 i k0_t1 v2092) := fun i k0_t1 v2092 => decidable_of_iff' _ (Iff.of_eq (k0_chk687.eq_1 i k0_t1 v2092))
theorem k0_idx687_inb : ∀ (i : grid0.Coords) (k0_t1 : Fin k0_t1_loop.trips) (v2092 : IVec S16 32) (k0_hw687 : k0_chk687 i k0_t1 v2092), ∀ (k0_h1 : k0_cond1 i k0_t1 = 1#1), ∀ a x, ((![v2092] : Fin 1 → IVec S16 32) a x).toNat < S100000.size a := fun i k0_t1 v2092 k0_hw687 k0_h1 => k0_hw687 k0_h1

def k0_chk688 (i : grid0.Coords) (k0_t1 : Fin k0_t1_loop.trips) (v2093 : IVec S16 32) : Prop :=
  (∀ (k0_h1 : k0_cond1 i k0_t1 = 1#1), ∀ a x, ((![v2093] : Fin 1 → IVec S16 32) a x).toNat < S100000.size a)
instance k0_chk688.dec : ∀ (i : grid0.Coords) (k0_t1 : Fin k0_t1_loop.trips) (v2093 : IVec S16 32), Decidable (k0_chk688 i k0_t1 v2093) := fun i k0_t1 v2093 => decidable_of_iff' _ (Iff.of_eq (k0_chk688.eq_1 i k0_t1 v2093))
theorem k0_idx688_inb : ∀ (i : grid0.Coords) (k0_t1 : Fin k0_t1_loop.trips) (v2093 : IVec S16 32) (k0_hw688 : k0_chk688 i k0_t1 v2093), ∀ (k0_h1 : k0_cond1 i k0_t1 = 1#1), ∀ a x, ((![v2093] : Fin 1 → IVec S16 32) a x).toNat < S100000.size a := fun i k0_t1 v2093 k0_hw688 k0_h1 => k0_hw688 k0_h1

def k0_chk689 (i : grid0.Coords) (k0_t1 : Fin k0_t1_loop.trips) (v2110 : IVec S16 32) : Prop :=
  (∀ (k0_h1 : k0_cond1 i k0_t1 = 1#1), ∀ a x, ((![v2110] : Fin 1 → IVec S16 32) a x).toNat < S100000.size a)
instance k0_chk689.dec : ∀ (i : grid0.Coords) (k0_t1 : Fin k0_t1_loop.trips) (v2110 : IVec S16 32), Decidable (k0_chk689 i k0_t1 v2110) := fun i k0_t1 v2110 => decidable_of_iff' _ (Iff.of_eq (k0_chk689.eq_1 i k0_t1 v2110))
theorem k0_idx689_inb : ∀ (i : grid0.Coords) (k0_t1 : Fin k0_t1_loop.trips) (v2110 : IVec S16 32) (k0_hw689 : k0_chk689 i k0_t1 v2110), ∀ (k0_h1 : k0_cond1 i k0_t1 = 1#1), ∀ a x, ((![v2110] : Fin 1 → IVec S16 32) a x).toNat < S100000.size a := fun i k0_t1 v2110 k0_hw689 k0_h1 => k0_hw689 k0_h1

def k0_chk690 (i : grid0.Coords) (k0_t1 : Fin k0_t1_loop.trips) (v2111 : IVec S16 32) : Prop :=
  (∀ (k0_h1 : k0_cond1 i k0_t1 = 1#1), ∀ a x, ((![v2111] : Fin 1 → IVec S16 32) a x).toNat < S100000.size a)
instance k0_chk690.dec : ∀ (i : grid0.Coords) (k0_t1 : Fin k0_t1_loop.trips) (v2111 : IVec S16 32), Decidable (k0_chk690 i k0_t1 v2111) := fun i k0_t1 v2111 => decidable_of_iff' _ (Iff.of_eq (k0_chk690.eq_1 i k0_t1 v2111))
theorem k0_idx690_inb : ∀ (i : grid0.Coords) (k0_t1 : Fin k0_t1_loop.trips) (v2111 : IVec S16 32) (k0_hw690 : k0_chk690 i k0_t1 v2111), ∀ (k0_h1 : k0_cond1 i k0_t1 = 1#1), ∀ a x, ((![v2111] : Fin 1 → IVec S16 32) a x).toNat < S100000.size a := fun i k0_t1 v2111 k0_hw690 k0_h1 => k0_hw690 k0_h1

def k0_chk691 (i : grid0.Coords) (k0_t1 : Fin k0_t1_loop.trips) (v2112 : IVec S16 32) : Prop :=
  (∀ (k0_h1 : k0_cond1 i k0_t1 = 1#1), ∀ a x, ((![v2112] : Fin 1 → IVec S16 32) a x).toNat < S100000.size a)
instance k0_chk691.dec : ∀ (i : grid0.Coords) (k0_t1 : Fin k0_t1_loop.trips) (v2112 : IVec S16 32), Decidable (k0_chk691 i k0_t1 v2112) := fun i k0_t1 v2112 => decidable_of_iff' _ (Iff.of_eq (k0_chk691.eq_1 i k0_t1 v2112))
theorem k0_idx691_inb : ∀ (i : grid0.Coords) (k0_t1 : Fin k0_t1_loop.trips) (v2112 : IVec S16 32) (k0_hw691 : k0_chk691 i k0_t1 v2112), ∀ (k0_h1 : k0_cond1 i k0_t1 = 1#1), ∀ a x, ((![v2112] : Fin 1 → IVec S16 32) a x).toNat < S100000.size a := fun i k0_t1 v2112 k0_hw691 k0_h1 => k0_hw691 k0_h1

def k0_chk692 (i : grid0.Coords) (k0_t1 : Fin k0_t1_loop.trips) (v2113 : IVec S16 32) : Prop :=
  (∀ (k0_h1 : k0_cond1 i k0_t1 = 1#1), ∀ a x, ((![v2113] : Fin 1 → IVec S16 32) a x).toNat < S100000.size a)
instance k0_chk692.dec : ∀ (i : grid0.Coords) (k0_t1 : Fin k0_t1_loop.trips) (v2113 : IVec S16 32), Decidable (k0_chk692 i k0_t1 v2113) := fun i k0_t1 v2113 => decidable_of_iff' _ (Iff.of_eq (k0_chk692.eq_1 i k0_t1 v2113))
theorem k0_idx692_inb : ∀ (i : grid0.Coords) (k0_t1 : Fin k0_t1_loop.trips) (v2113 : IVec S16 32) (k0_hw692 : k0_chk692 i k0_t1 v2113), ∀ (k0_h1 : k0_cond1 i k0_t1 = 1#1), ∀ a x, ((![v2113] : Fin 1 → IVec S16 32) a x).toNat < S100000.size a := fun i k0_t1 v2113 k0_hw692 k0_h1 => k0_hw692 k0_h1

def k0_chk693 (i : grid0.Coords) (k0_t1 : Fin k0_t1_loop.trips) (v2114 : IVec S16 32) : Prop :=
  (∀ (k0_h1 : k0_cond1 i k0_t1 = 1#1), ∀ a x, ((![v2114] : Fin 1 → IVec S16 32) a x).toNat < S100000.size a)
instance k0_chk693.dec : ∀ (i : grid0.Coords) (k0_t1 : Fin k0_t1_loop.trips) (v2114 : IVec S16 32), Decidable (k0_chk693 i k0_t1 v2114) := fun i k0_t1 v2114 => decidable_of_iff' _ (Iff.of_eq (k0_chk693.eq_1 i k0_t1 v2114))
theorem k0_idx693_inb : ∀ (i : grid0.Coords) (k0_t1 : Fin k0_t1_loop.trips) (v2114 : IVec S16 32) (k0_hw693 : k0_chk693 i k0_t1 v2114), ∀ (k0_h1 : k0_cond1 i k0_t1 = 1#1), ∀ a x, ((![v2114] : Fin 1 → IVec S16 32) a x).toNat < S100000.size a := fun i k0_t1 v2114 k0_hw693 k0_h1 => k0_hw693 k0_h1

def k0_chk694 (i : grid0.Coords) (k0_t1 : Fin k0_t1_loop.trips) (v2115 : IVec S16 32) : Prop :=
  (∀ (k0_h1 : k0_cond1 i k0_t1 = 1#1), ∀ a x, ((![v2115] : Fin 1 → IVec S16 32) a x).toNat < S100000.size a)
instance k0_chk694.dec : ∀ (i : grid0.Coords) (k0_t1 : Fin k0_t1_loop.trips) (v2115 : IVec S16 32), Decidable (k0_chk694 i k0_t1 v2115) := fun i k0_t1 v2115 => decidable_of_iff' _ (Iff.of_eq (k0_chk694.eq_1 i k0_t1 v2115))
theorem k0_idx694_inb : ∀ (i : grid0.Coords) (k0_t1 : Fin k0_t1_loop.trips) (v2115 : IVec S16 32) (k0_hw694 : k0_chk694 i k0_t1 v2115), ∀ (k0_h1 : k0_cond1 i k0_t1 = 1#1), ∀ a x, ((![v2115] : Fin 1 → IVec S16 32) a x).toNat < S100000.size a := fun i k0_t1 v2115 k0_hw694 k0_h1 => k0_hw694 k0_h1

def k0_chk695 (i : grid0.Coords) (k0_t1 : Fin k0_t1_loop.trips) (v2116 : IVec S16 32) : Prop :=
  (∀ (k0_h1 : k0_cond1 i k0_t1 = 1#1), ∀ a x, ((![v2116] : Fin 1 → IVec S16 32) a x).toNat < S100000.size a)
instance k0_chk695.dec : ∀ (i : grid0.Coords) (k0_t1 : Fin k0_t1_loop.trips) (v2116 : IVec S16 32), Decidable (k0_chk695 i k0_t1 v2116) := fun i k0_t1 v2116 => decidable_of_iff' _ (Iff.of_eq (k0_chk695.eq_1 i k0_t1 v2116))
theorem k0_idx695_inb : ∀ (i : grid0.Coords) (k0_t1 : Fin k0_t1_loop.trips) (v2116 : IVec S16 32) (k0_hw695 : k0_chk695 i k0_t1 v2116), ∀ (k0_h1 : k0_cond1 i k0_t1 = 1#1), ∀ a x, ((![v2116] : Fin 1 → IVec S16 32) a x).toNat < S100000.size a := fun i k0_t1 v2116 k0_hw695 k0_h1 => k0_hw695 k0_h1

def k0_chk696 (i : grid0.Coords) (k0_t1 : Fin k0_t1_loop.trips) (v2117 : IVec S16 32) : Prop :=
  (∀ (k0_h1 : k0_cond1 i k0_t1 = 1#1), ∀ a x, ((![v2117] : Fin 1 → IVec S16 32) a x).toNat < S100000.size a)
instance k0_chk696.dec : ∀ (i : grid0.Coords) (k0_t1 : Fin k0_t1_loop.trips) (v2117 : IVec S16 32), Decidable (k0_chk696 i k0_t1 v2117) := fun i k0_t1 v2117 => decidable_of_iff' _ (Iff.of_eq (k0_chk696.eq_1 i k0_t1 v2117))
theorem k0_idx696_inb : ∀ (i : grid0.Coords) (k0_t1 : Fin k0_t1_loop.trips) (v2117 : IVec S16 32) (k0_hw696 : k0_chk696 i k0_t1 v2117), ∀ (k0_h1 : k0_cond1 i k0_t1 = 1#1), ∀ a x, ((![v2117] : Fin 1 → IVec S16 32) a x).toNat < S100000.size a := fun i k0_t1 v2117 k0_hw696 k0_h1 => k0_hw696 k0_h1

def k0_chk697 (i : grid0.Coords) (k0_t1 : Fin k0_t1_loop.trips) (v2134 : IVec S16 32) : Prop :=
  (∀ (k0_h1 : k0_cond1 i k0_t1 = 1#1), ∀ a x, ((![v2134] : Fin 1 → IVec S16 32) a x).toNat < S100000.size a)
instance k0_chk697.dec : ∀ (i : grid0.Coords) (k0_t1 : Fin k0_t1_loop.trips) (v2134 : IVec S16 32), Decidable (k0_chk697 i k0_t1 v2134) := fun i k0_t1 v2134 => decidable_of_iff' _ (Iff.of_eq (k0_chk697.eq_1 i k0_t1 v2134))
theorem k0_idx697_inb : ∀ (i : grid0.Coords) (k0_t1 : Fin k0_t1_loop.trips) (v2134 : IVec S16 32) (k0_hw697 : k0_chk697 i k0_t1 v2134), ∀ (k0_h1 : k0_cond1 i k0_t1 = 1#1), ∀ a x, ((![v2134] : Fin 1 → IVec S16 32) a x).toNat < S100000.size a := fun i k0_t1 v2134 k0_hw697 k0_h1 => k0_hw697 k0_h1

def k0_chk698 (i : grid0.Coords) (k0_t1 : Fin k0_t1_loop.trips) (v2135 : IVec S16 32) : Prop :=
  (∀ (k0_h1 : k0_cond1 i k0_t1 = 1#1), ∀ a x, ((![v2135] : Fin 1 → IVec S16 32) a x).toNat < S100000.size a)
instance k0_chk698.dec : ∀ (i : grid0.Coords) (k0_t1 : Fin k0_t1_loop.trips) (v2135 : IVec S16 32), Decidable (k0_chk698 i k0_t1 v2135) := fun i k0_t1 v2135 => decidable_of_iff' _ (Iff.of_eq (k0_chk698.eq_1 i k0_t1 v2135))
theorem k0_idx698_inb : ∀ (i : grid0.Coords) (k0_t1 : Fin k0_t1_loop.trips) (v2135 : IVec S16 32) (k0_hw698 : k0_chk698 i k0_t1 v2135), ∀ (k0_h1 : k0_cond1 i k0_t1 = 1#1), ∀ a x, ((![v2135] : Fin 1 → IVec S16 32) a x).toNat < S100000.size a := fun i k0_t1 v2135 k0_hw698 k0_h1 => k0_hw698 k0_h1

def k0_chk699 (i : grid0.Coords) (k0_t1 : Fin k0_t1_loop.trips) (v2136 : IVec S16 32) : Prop :=
  (∀ (k0_h1 : k0_cond1 i k0_t1 = 1#1), ∀ a x, ((![v2136] : Fin 1 → IVec S16 32) a x).toNat < S100000.size a)
instance k0_chk699.dec : ∀ (i : grid0.Coords) (k0_t1 : Fin k0_t1_loop.trips) (v2136 : IVec S16 32), Decidable (k0_chk699 i k0_t1 v2136) := fun i k0_t1 v2136 => decidable_of_iff' _ (Iff.of_eq (k0_chk699.eq_1 i k0_t1 v2136))
theorem k0_idx699_inb : ∀ (i : grid0.Coords) (k0_t1 : Fin k0_t1_loop.trips) (v2136 : IVec S16 32) (k0_hw699 : k0_chk699 i k0_t1 v2136), ∀ (k0_h1 : k0_cond1 i k0_t1 = 1#1), ∀ a x, ((![v2136] : Fin 1 → IVec S16 32) a x).toNat < S100000.size a := fun i k0_t1 v2136 k0_hw699 k0_h1 => k0_hw699 k0_h1

def k0_chk700 (i : grid0.Coords) (k0_t1 : Fin k0_t1_loop.trips) (v2137 : IVec S16 32) : Prop :=
  (∀ (k0_h1 : k0_cond1 i k0_t1 = 1#1), ∀ a x, ((![v2137] : Fin 1 → IVec S16 32) a x).toNat < S100000.size a)
instance k0_chk700.dec : ∀ (i : grid0.Coords) (k0_t1 : Fin k0_t1_loop.trips) (v2137 : IVec S16 32), Decidable (k0_chk700 i k0_t1 v2137) := fun i k0_t1 v2137 => decidable_of_iff' _ (Iff.of_eq (k0_chk700.eq_1 i k0_t1 v2137))
theorem k0_idx700_inb : ∀ (i : grid0.Coords) (k0_t1 : Fin k0_t1_loop.trips) (v2137 : IVec S16 32) (k0_hw700 : k0_chk700 i k0_t1 v2137), ∀ (k0_h1 : k0_cond1 i k0_t1 = 1#1), ∀ a x, ((![v2137] : Fin 1 → IVec S16 32) a x).toNat < S100000.size a := fun i k0_t1 v2137 k0_hw700 k0_h1 => k0_hw700 k0_h1

def k0_chk701 (i : grid0.Coords) (k0_t1 : Fin k0_t1_loop.trips) (v2138 : IVec S16 32) : Prop :=
  (∀ (k0_h1 : k0_cond1 i k0_t1 = 1#1), ∀ a x, ((![v2138] : Fin 1 → IVec S16 32) a x).toNat < S100000.size a)
instance k0_chk701.dec : ∀ (i : grid0.Coords) (k0_t1 : Fin k0_t1_loop.trips) (v2138 : IVec S16 32), Decidable (k0_chk701 i k0_t1 v2138) := fun i k0_t1 v2138 => decidable_of_iff' _ (Iff.of_eq (k0_chk701.eq_1 i k0_t1 v2138))
theorem k0_idx701_inb : ∀ (i : grid0.Coords) (k0_t1 : Fin k0_t1_loop.trips) (v2138 : IVec S16 32) (k0_hw701 : k0_chk701 i k0_t1 v2138), ∀ (k0_h1 : k0_cond1 i k0_t1 = 1#1), ∀ a x, ((![v2138] : Fin 1 → IVec S16 32) a x).toNat < S100000.size a := fun i k0_t1 v2138 k0_hw701 k0_h1 => k0_hw701 k0_h1

def k0_chk702 (i : grid0.Coords) (k0_t1 : Fin k0_t1_loop.trips) (v2139 : IVec S16 32) : Prop :=
  (∀ (k0_h1 : k0_cond1 i k0_t1 = 1#1), ∀ a x, ((![v2139] : Fin 1 → IVec S16 32) a x).toNat < S100000.size a)
instance k0_chk702.dec : ∀ (i : grid0.Coords) (k0_t1 : Fin k0_t1_loop.trips) (v2139 : IVec S16 32), Decidable (k0_chk702 i k0_t1 v2139) := fun i k0_t1 v2139 => decidable_of_iff' _ (Iff.of_eq (k0_chk702.eq_1 i k0_t1 v2139))
theorem k0_idx702_inb : ∀ (i : grid0.Coords) (k0_t1 : Fin k0_t1_loop.trips) (v2139 : IVec S16 32) (k0_hw702 : k0_chk702 i k0_t1 v2139), ∀ (k0_h1 : k0_cond1 i k0_t1 = 1#1), ∀ a x, ((![v2139] : Fin 1 → IVec S16 32) a x).toNat < S100000.size a := fun i k0_t1 v2139 k0_hw702 k0_h1 => k0_hw702 k0_h1

def k0_chk703 (i : grid0.Coords) (k0_t1 : Fin k0_t1_loop.trips) (v2140 : IVec S16 32) : Prop :=
  (∀ (k0_h1 : k0_cond1 i k0_t1 = 1#1), ∀ a x, ((![v2140] : Fin 1 → IVec S16 32) a x).toNat < S100000.size a)
instance k0_chk703.dec : ∀ (i : grid0.Coords) (k0_t1 : Fin k0_t1_loop.trips) (v2140 : IVec S16 32), Decidable (k0_chk703 i k0_t1 v2140) := fun i k0_t1 v2140 => decidable_of_iff' _ (Iff.of_eq (k0_chk703.eq_1 i k0_t1 v2140))
theorem k0_idx703_inb : ∀ (i : grid0.Coords) (k0_t1 : Fin k0_t1_loop.trips) (v2140 : IVec S16 32) (k0_hw703 : k0_chk703 i k0_t1 v2140), ∀ (k0_h1 : k0_cond1 i k0_t1 = 1#1), ∀ a x, ((![v2140] : Fin 1 → IVec S16 32) a x).toNat < S100000.size a := fun i k0_t1 v2140 k0_hw703 k0_h1 => k0_hw703 k0_h1

def k0_chk704 (i : grid0.Coords) (k0_t1 : Fin k0_t1_loop.trips) (v2141 : IVec S16 32) : Prop :=
  (∀ (k0_h1 : k0_cond1 i k0_t1 = 1#1), ∀ a x, ((![v2141] : Fin 1 → IVec S16 32) a x).toNat < S100000.size a)
instance k0_chk704.dec : ∀ (i : grid0.Coords) (k0_t1 : Fin k0_t1_loop.trips) (v2141 : IVec S16 32), Decidable (k0_chk704 i k0_t1 v2141) := fun i k0_t1 v2141 => decidable_of_iff' _ (Iff.of_eq (k0_chk704.eq_1 i k0_t1 v2141))
theorem k0_idx704_inb : ∀ (i : grid0.Coords) (k0_t1 : Fin k0_t1_loop.trips) (v2141 : IVec S16 32) (k0_hw704 : k0_chk704 i k0_t1 v2141), ∀ (k0_h1 : k0_cond1 i k0_t1 = 1#1), ∀ a x, ((![v2141] : Fin 1 → IVec S16 32) a x).toNat < S100000.size a := fun i k0_t1 v2141 k0_hw704 k0_h1 => k0_hw704 k0_h1

def k0_chk705 (i : grid0.Coords) (k0_t1 : Fin k0_t1_loop.trips) (v2158 : IVec S16 32) : Prop :=
  (∀ (k0_h1 : k0_cond1 i k0_t1 = 1#1), ∀ a x, ((![v2158] : Fin 1 → IVec S16 32) a x).toNat < S100000.size a)
instance k0_chk705.dec : ∀ (i : grid0.Coords) (k0_t1 : Fin k0_t1_loop.trips) (v2158 : IVec S16 32), Decidable (k0_chk705 i k0_t1 v2158) := fun i k0_t1 v2158 => decidable_of_iff' _ (Iff.of_eq (k0_chk705.eq_1 i k0_t1 v2158))
theorem k0_idx705_inb : ∀ (i : grid0.Coords) (k0_t1 : Fin k0_t1_loop.trips) (v2158 : IVec S16 32) (k0_hw705 : k0_chk705 i k0_t1 v2158), ∀ (k0_h1 : k0_cond1 i k0_t1 = 1#1), ∀ a x, ((![v2158] : Fin 1 → IVec S16 32) a x).toNat < S100000.size a := fun i k0_t1 v2158 k0_hw705 k0_h1 => k0_hw705 k0_h1

def k0_chk706 (i : grid0.Coords) (k0_t1 : Fin k0_t1_loop.trips) (v2159 : IVec S16 32) : Prop :=
  (∀ (k0_h1 : k0_cond1 i k0_t1 = 1#1), ∀ a x, ((![v2159] : Fin 1 → IVec S16 32) a x).toNat < S100000.size a)
instance k0_chk706.dec : ∀ (i : grid0.Coords) (k0_t1 : Fin k0_t1_loop.trips) (v2159 : IVec S16 32), Decidable (k0_chk706 i k0_t1 v2159) := fun i k0_t1 v2159 => decidable_of_iff' _ (Iff.of_eq (k0_chk706.eq_1 i k0_t1 v2159))
theorem k0_idx706_inb : ∀ (i : grid0.Coords) (k0_t1 : Fin k0_t1_loop.trips) (v2159 : IVec S16 32) (k0_hw706 : k0_chk706 i k0_t1 v2159), ∀ (k0_h1 : k0_cond1 i k0_t1 = 1#1), ∀ a x, ((![v2159] : Fin 1 → IVec S16 32) a x).toNat < S100000.size a := fun i k0_t1 v2159 k0_hw706 k0_h1 => k0_hw706 k0_h1

def k0_chk707 (i : grid0.Coords) (k0_t1 : Fin k0_t1_loop.trips) (v2160 : IVec S16 32) : Prop :=
  (∀ (k0_h1 : k0_cond1 i k0_t1 = 1#1), ∀ a x, ((![v2160] : Fin 1 → IVec S16 32) a x).toNat < S100000.size a)
instance k0_chk707.dec : ∀ (i : grid0.Coords) (k0_t1 : Fin k0_t1_loop.trips) (v2160 : IVec S16 32), Decidable (k0_chk707 i k0_t1 v2160) := fun i k0_t1 v2160 => decidable_of_iff' _ (Iff.of_eq (k0_chk707.eq_1 i k0_t1 v2160))
theorem k0_idx707_inb : ∀ (i : grid0.Coords) (k0_t1 : Fin k0_t1_loop.trips) (v2160 : IVec S16 32) (k0_hw707 : k0_chk707 i k0_t1 v2160), ∀ (k0_h1 : k0_cond1 i k0_t1 = 1#1), ∀ a x, ((![v2160] : Fin 1 → IVec S16 32) a x).toNat < S100000.size a := fun i k0_t1 v2160 k0_hw707 k0_h1 => k0_hw707 k0_h1

def k0_chk708 (i : grid0.Coords) (k0_t1 : Fin k0_t1_loop.trips) (v2161 : IVec S16 32) : Prop :=
  (∀ (k0_h1 : k0_cond1 i k0_t1 = 1#1), ∀ a x, ((![v2161] : Fin 1 → IVec S16 32) a x).toNat < S100000.size a)
instance k0_chk708.dec : ∀ (i : grid0.Coords) (k0_t1 : Fin k0_t1_loop.trips) (v2161 : IVec S16 32), Decidable (k0_chk708 i k0_t1 v2161) := fun i k0_t1 v2161 => decidable_of_iff' _ (Iff.of_eq (k0_chk708.eq_1 i k0_t1 v2161))
theorem k0_idx708_inb : ∀ (i : grid0.Coords) (k0_t1 : Fin k0_t1_loop.trips) (v2161 : IVec S16 32) (k0_hw708 : k0_chk708 i k0_t1 v2161), ∀ (k0_h1 : k0_cond1 i k0_t1 = 1#1), ∀ a x, ((![v2161] : Fin 1 → IVec S16 32) a x).toNat < S100000.size a := fun i k0_t1 v2161 k0_hw708 k0_h1 => k0_hw708 k0_h1

def k0_chk709 (i : grid0.Coords) (k0_t1 : Fin k0_t1_loop.trips) (v2162 : IVec S16 32) : Prop :=
  (∀ (k0_h1 : k0_cond1 i k0_t1 = 1#1), ∀ a x, ((![v2162] : Fin 1 → IVec S16 32) a x).toNat < S100000.size a)
instance k0_chk709.dec : ∀ (i : grid0.Coords) (k0_t1 : Fin k0_t1_loop.trips) (v2162 : IVec S16 32), Decidable (k0_chk709 i k0_t1 v2162) := fun i k0_t1 v2162 => decidable_of_iff' _ (Iff.of_eq (k0_chk709.eq_1 i k0_t1 v2162))
theorem k0_idx709_inb : ∀ (i : grid0.Coords) (k0_t1 : Fin k0_t1_loop.trips) (v2162 : IVec S16 32) (k0_hw709 : k0_chk709 i k0_t1 v2162), ∀ (k0_h1 : k0_cond1 i k0_t1 = 1#1), ∀ a x, ((![v2162] : Fin 1 → IVec S16 32) a x).toNat < S100000.size a := fun i k0_t1 v2162 k0_hw709 k0_h1 => k0_hw709 k0_h1

def k0_chk710 (i : grid0.Coords) (k0_t1 : Fin k0_t1_loop.trips) (v2163 : IVec S16 32) : Prop :=
  (∀ (k0_h1 : k0_cond1 i k0_t1 = 1#1), ∀ a x, ((![v2163] : Fin 1 → IVec S16 32) a x).toNat < S100000.size a)
instance k0_chk710.dec : ∀ (i : grid0.Coords) (k0_t1 : Fin k0_t1_loop.trips) (v2163 : IVec S16 32), Decidable (k0_chk710 i k0_t1 v2163) := fun i k0_t1 v2163 => decidable_of_iff' _ (Iff.of_eq (k0_chk710.eq_1 i k0_t1 v2163))
theorem k0_idx710_inb : ∀ (i : grid0.Coords) (k0_t1 : Fin k0_t1_loop.trips) (v2163 : IVec S16 32) (k0_hw710 : k0_chk710 i k0_t1 v2163), ∀ (k0_h1 : k0_cond1 i k0_t1 = 1#1), ∀ a x, ((![v2163] : Fin 1 → IVec S16 32) a x).toNat < S100000.size a := fun i k0_t1 v2163 k0_hw710 k0_h1 => k0_hw710 k0_h1

def k0_chk711 (i : grid0.Coords) (k0_t1 : Fin k0_t1_loop.trips) (v2164 : IVec S16 32) : Prop :=
  (∀ (k0_h1 : k0_cond1 i k0_t1 = 1#1), ∀ a x, ((![v2164] : Fin 1 → IVec S16 32) a x).toNat < S100000.size a)
instance k0_chk711.dec : ∀ (i : grid0.Coords) (k0_t1 : Fin k0_t1_loop.trips) (v2164 : IVec S16 32), Decidable (k0_chk711 i k0_t1 v2164) := fun i k0_t1 v2164 => decidable_of_iff' _ (Iff.of_eq (k0_chk711.eq_1 i k0_t1 v2164))
theorem k0_idx711_inb : ∀ (i : grid0.Coords) (k0_t1 : Fin k0_t1_loop.trips) (v2164 : IVec S16 32) (k0_hw711 : k0_chk711 i k0_t1 v2164), ∀ (k0_h1 : k0_cond1 i k0_t1 = 1#1), ∀ a x, ((![v2164] : Fin 1 → IVec S16 32) a x).toNat < S100000.size a := fun i k0_t1 v2164 k0_hw711 k0_h1 => k0_hw711 k0_h1

def k0_chk712 (i : grid0.Coords) (k0_t1 : Fin k0_t1_loop.trips) (v2165 : IVec S16 32) : Prop :=
  (∀ (k0_h1 : k0_cond1 i k0_t1 = 1#1), ∀ a x, ((![v2165] : Fin 1 → IVec S16 32) a x).toNat < S100000.size a)
instance k0_chk712.dec : ∀ (i : grid0.Coords) (k0_t1 : Fin k0_t1_loop.trips) (v2165 : IVec S16 32), Decidable (k0_chk712 i k0_t1 v2165) := fun i k0_t1 v2165 => decidable_of_iff' _ (Iff.of_eq (k0_chk712.eq_1 i k0_t1 v2165))
theorem k0_idx712_inb : ∀ (i : grid0.Coords) (k0_t1 : Fin k0_t1_loop.trips) (v2165 : IVec S16 32) (k0_hw712 : k0_chk712 i k0_t1 v2165), ∀ (k0_h1 : k0_cond1 i k0_t1 = 1#1), ∀ a x, ((![v2165] : Fin 1 → IVec S16 32) a x).toNat < S100000.size a := fun i k0_t1 v2165 k0_hw712 k0_h1 => k0_hw712 k0_h1

def k0_chk713 (i : grid0.Coords) (k0_t1 : Fin k0_t1_loop.trips) (v2182 : IVec S16 32) : Prop :=
  (∀ (k0_h1 : k0_cond1 i k0_t1 = 1#1), ∀ a x, ((![v2182] : Fin 1 → IVec S16 32) a x).toNat < S100000.size a)
instance k0_chk713.dec : ∀ (i : grid0.Coords) (k0_t1 : Fin k0_t1_loop.trips) (v2182 : IVec S16 32), Decidable (k0_chk713 i k0_t1 v2182) := fun i k0_t1 v2182 => decidable_of_iff' _ (Iff.of_eq (k0_chk713.eq_1 i k0_t1 v2182))
theorem k0_idx713_inb : ∀ (i : grid0.Coords) (k0_t1 : Fin k0_t1_loop.trips) (v2182 : IVec S16 32) (k0_hw713 : k0_chk713 i k0_t1 v2182), ∀ (k0_h1 : k0_cond1 i k0_t1 = 1#1), ∀ a x, ((![v2182] : Fin 1 → IVec S16 32) a x).toNat < S100000.size a := fun i k0_t1 v2182 k0_hw713 k0_h1 => k0_hw713 k0_h1

def k0_chk714 (i : grid0.Coords) (k0_t1 : Fin k0_t1_loop.trips) (v2183 : IVec S16 32) : Prop :=
  (∀ (k0_h1 : k0_cond1 i k0_t1 = 1#1), ∀ a x, ((![v2183] : Fin 1 → IVec S16 32) a x).toNat < S100000.size a)
instance k0_chk714.dec : ∀ (i : grid0.Coords) (k0_t1 : Fin k0_t1_loop.trips) (v2183 : IVec S16 32), Decidable (k0_chk714 i k0_t1 v2183) := fun i k0_t1 v2183 => decidable_of_iff' _ (Iff.of_eq (k0_chk714.eq_1 i k0_t1 v2183))
theorem k0_idx714_inb : ∀ (i : grid0.Coords) (k0_t1 : Fin k0_t1_loop.trips) (v2183 : IVec S16 32) (k0_hw714 : k0_chk714 i k0_t1 v2183), ∀ (k0_h1 : k0_cond1 i k0_t1 = 1#1), ∀ a x, ((![v2183] : Fin 1 → IVec S16 32) a x).toNat < S100000.size a := fun i k0_t1 v2183 k0_hw714 k0_h1 => k0_hw714 k0_h1

def k0_chk715 (i : grid0.Coords) (k0_t1 : Fin k0_t1_loop.trips) (v2184 : IVec S16 32) : Prop :=
  (∀ (k0_h1 : k0_cond1 i k0_t1 = 1#1), ∀ a x, ((![v2184] : Fin 1 → IVec S16 32) a x).toNat < S100000.size a)
instance k0_chk715.dec : ∀ (i : grid0.Coords) (k0_t1 : Fin k0_t1_loop.trips) (v2184 : IVec S16 32), Decidable (k0_chk715 i k0_t1 v2184) := fun i k0_t1 v2184 => decidable_of_iff' _ (Iff.of_eq (k0_chk715.eq_1 i k0_t1 v2184))
theorem k0_idx715_inb : ∀ (i : grid0.Coords) (k0_t1 : Fin k0_t1_loop.trips) (v2184 : IVec S16 32) (k0_hw715 : k0_chk715 i k0_t1 v2184), ∀ (k0_h1 : k0_cond1 i k0_t1 = 1#1), ∀ a x, ((![v2184] : Fin 1 → IVec S16 32) a x).toNat < S100000.size a := fun i k0_t1 v2184 k0_hw715 k0_h1 => k0_hw715 k0_h1

def k0_chk716 (i : grid0.Coords) (k0_t1 : Fin k0_t1_loop.trips) (v2185 : IVec S16 32) : Prop :=
  (∀ (k0_h1 : k0_cond1 i k0_t1 = 1#1), ∀ a x, ((![v2185] : Fin 1 → IVec S16 32) a x).toNat < S100000.size a)
instance k0_chk716.dec : ∀ (i : grid0.Coords) (k0_t1 : Fin k0_t1_loop.trips) (v2185 : IVec S16 32), Decidable (k0_chk716 i k0_t1 v2185) := fun i k0_t1 v2185 => decidable_of_iff' _ (Iff.of_eq (k0_chk716.eq_1 i k0_t1 v2185))
theorem k0_idx716_inb : ∀ (i : grid0.Coords) (k0_t1 : Fin k0_t1_loop.trips) (v2185 : IVec S16 32) (k0_hw716 : k0_chk716 i k0_t1 v2185), ∀ (k0_h1 : k0_cond1 i k0_t1 = 1#1), ∀ a x, ((![v2185] : Fin 1 → IVec S16 32) a x).toNat < S100000.size a := fun i k0_t1 v2185 k0_hw716 k0_h1 => k0_hw716 k0_h1

def k0_chk717 (i : grid0.Coords) (k0_t1 : Fin k0_t1_loop.trips) (v2186 : IVec S16 32) : Prop :=
  (∀ (k0_h1 : k0_cond1 i k0_t1 = 1#1), ∀ a x, ((![v2186] : Fin 1 → IVec S16 32) a x).toNat < S100000.size a)
instance k0_chk717.dec : ∀ (i : grid0.Coords) (k0_t1 : Fin k0_t1_loop.trips) (v2186 : IVec S16 32), Decidable (k0_chk717 i k0_t1 v2186) := fun i k0_t1 v2186 => decidable_of_iff' _ (Iff.of_eq (k0_chk717.eq_1 i k0_t1 v2186))
theorem k0_idx717_inb : ∀ (i : grid0.Coords) (k0_t1 : Fin k0_t1_loop.trips) (v2186 : IVec S16 32) (k0_hw717 : k0_chk717 i k0_t1 v2186), ∀ (k0_h1 : k0_cond1 i k0_t1 = 1#1), ∀ a x, ((![v2186] : Fin 1 → IVec S16 32) a x).toNat < S100000.size a := fun i k0_t1 v2186 k0_hw717 k0_h1 => k0_hw717 k0_h1

def k0_chk718 (i : grid0.Coords) (k0_t1 : Fin k0_t1_loop.trips) (v2187 : IVec S16 32) : Prop :=
  (∀ (k0_h1 : k0_cond1 i k0_t1 = 1#1), ∀ a x, ((![v2187] : Fin 1 → IVec S16 32) a x).toNat < S100000.size a)
instance k0_chk718.dec : ∀ (i : grid0.Coords) (k0_t1 : Fin k0_t1_loop.trips) (v2187 : IVec S16 32), Decidable (k0_chk718 i k0_t1 v2187) := fun i k0_t1 v2187 => decidable_of_iff' _ (Iff.of_eq (k0_chk718.eq_1 i k0_t1 v2187))
theorem k0_idx718_inb : ∀ (i : grid0.Coords) (k0_t1 : Fin k0_t1_loop.trips) (v2187 : IVec S16 32) (k0_hw718 : k0_chk718 i k0_t1 v2187), ∀ (k0_h1 : k0_cond1 i k0_t1 = 1#1), ∀ a x, ((![v2187] : Fin 1 → IVec S16 32) a x).toNat < S100000.size a := fun i k0_t1 v2187 k0_hw718 k0_h1 => k0_hw718 k0_h1

def k0_chk719 (i : grid0.Coords) (k0_t1 : Fin k0_t1_loop.trips) (v2188 : IVec S16 32) : Prop :=
  (∀ (k0_h1 : k0_cond1 i k0_t1 = 1#1), ∀ a x, ((![v2188] : Fin 1 → IVec S16 32) a x).toNat < S100000.size a)
instance k0_chk719.dec : ∀ (i : grid0.Coords) (k0_t1 : Fin k0_t1_loop.trips) (v2188 : IVec S16 32), Decidable (k0_chk719 i k0_t1 v2188) := fun i k0_t1 v2188 => decidable_of_iff' _ (Iff.of_eq (k0_chk719.eq_1 i k0_t1 v2188))
theorem k0_idx719_inb : ∀ (i : grid0.Coords) (k0_t1 : Fin k0_t1_loop.trips) (v2188 : IVec S16 32) (k0_hw719 : k0_chk719 i k0_t1 v2188), ∀ (k0_h1 : k0_cond1 i k0_t1 = 1#1), ∀ a x, ((![v2188] : Fin 1 → IVec S16 32) a x).toNat < S100000.size a := fun i k0_t1 v2188 k0_hw719 k0_h1 => k0_hw719 k0_h1

def k0_chk720 (i : grid0.Coords) (k0_t1 : Fin k0_t1_loop.trips) (v2189 : IVec S16 32) : Prop :=
  (∀ (k0_h1 : k0_cond1 i k0_t1 = 1#1), ∀ a x, ((![v2189] : Fin 1 → IVec S16 32) a x).toNat < S100000.size a)
instance k0_chk720.dec : ∀ (i : grid0.Coords) (k0_t1 : Fin k0_t1_loop.trips) (v2189 : IVec S16 32), Decidable (k0_chk720 i k0_t1 v2189) := fun i k0_t1 v2189 => decidable_of_iff' _ (Iff.of_eq (k0_chk720.eq_1 i k0_t1 v2189))
theorem k0_idx720_inb : ∀ (i : grid0.Coords) (k0_t1 : Fin k0_t1_loop.trips) (v2189 : IVec S16 32) (k0_hw720 : k0_chk720 i k0_t1 v2189), ∀ (k0_h1 : k0_cond1 i k0_t1 = 1#1), ∀ a x, ((![v2189] : Fin 1 → IVec S16 32) a x).toNat < S100000.size a := fun i k0_t1 v2189 k0_hw720 k0_h1 => k0_hw720 k0_h1

def k0_chk721 (i : grid0.Coords) (k0_t1 : Fin k0_t1_loop.trips) (v2206 : IVec S16 32) : Prop :=
  (∀ (k0_h1 : k0_cond1 i k0_t1 = 1#1), ∀ a x, ((![v2206] : Fin 1 → IVec S16 32) a x).toNat < S100000.size a)
instance k0_chk721.dec : ∀ (i : grid0.Coords) (k0_t1 : Fin k0_t1_loop.trips) (v2206 : IVec S16 32), Decidable (k0_chk721 i k0_t1 v2206) := fun i k0_t1 v2206 => decidable_of_iff' _ (Iff.of_eq (k0_chk721.eq_1 i k0_t1 v2206))
theorem k0_idx721_inb : ∀ (i : grid0.Coords) (k0_t1 : Fin k0_t1_loop.trips) (v2206 : IVec S16 32) (k0_hw721 : k0_chk721 i k0_t1 v2206), ∀ (k0_h1 : k0_cond1 i k0_t1 = 1#1), ∀ a x, ((![v2206] : Fin 1 → IVec S16 32) a x).toNat < S100000.size a := fun i k0_t1 v2206 k0_hw721 k0_h1 => k0_hw721 k0_h1

def k0_chk722 (i : grid0.Coords) (k0_t1 : Fin k0_t1_loop.trips) (v2207 : IVec S16 32) : Prop :=
  (∀ (k0_h1 : k0_cond1 i k0_t1 = 1#1), ∀ a x, ((![v2207] : Fin 1 → IVec S16 32) a x).toNat < S100000.size a)
instance k0_chk722.dec : ∀ (i : grid0.Coords) (k0_t1 : Fin k0_t1_loop.trips) (v2207 : IVec S16 32), Decidable (k0_chk722 i k0_t1 v2207) := fun i k0_t1 v2207 => decidable_of_iff' _ (Iff.of_eq (k0_chk722.eq_1 i k0_t1 v2207))
theorem k0_idx722_inb : ∀ (i : grid0.Coords) (k0_t1 : Fin k0_t1_loop.trips) (v2207 : IVec S16 32) (k0_hw722 : k0_chk722 i k0_t1 v2207), ∀ (k0_h1 : k0_cond1 i k0_t1 = 1#1), ∀ a x, ((![v2207] : Fin 1 → IVec S16 32) a x).toNat < S100000.size a := fun i k0_t1 v2207 k0_hw722 k0_h1 => k0_hw722 k0_h1

def k0_chk723 (i : grid0.Coords) (k0_t1 : Fin k0_t1_loop.trips) (v2208 : IVec S16 32) : Prop :=
  (∀ (k0_h1 : k0_cond1 i k0_t1 = 1#1), ∀ a x, ((![v2208] : Fin 1 → IVec S16 32) a x).toNat < S100000.size a)
instance k0_chk723.dec : ∀ (i : grid0.Coords) (k0_t1 : Fin k0_t1_loop.trips) (v2208 : IVec S16 32), Decidable (k0_chk723 i k0_t1 v2208) := fun i k0_t1 v2208 => decidable_of_iff' _ (Iff.of_eq (k0_chk723.eq_1 i k0_t1 v2208))
theorem k0_idx723_inb : ∀ (i : grid0.Coords) (k0_t1 : Fin k0_t1_loop.trips) (v2208 : IVec S16 32) (k0_hw723 : k0_chk723 i k0_t1 v2208), ∀ (k0_h1 : k0_cond1 i k0_t1 = 1#1), ∀ a x, ((![v2208] : Fin 1 → IVec S16 32) a x).toNat < S100000.size a := fun i k0_t1 v2208 k0_hw723 k0_h1 => k0_hw723 k0_h1

def k0_chk724 (i : grid0.Coords) (k0_t1 : Fin k0_t1_loop.trips) (v2209 : IVec S16 32) : Prop :=
  (∀ (k0_h1 : k0_cond1 i k0_t1 = 1#1), ∀ a x, ((![v2209] : Fin 1 → IVec S16 32) a x).toNat < S100000.size a)
instance k0_chk724.dec : ∀ (i : grid0.Coords) (k0_t1 : Fin k0_t1_loop.trips) (v2209 : IVec S16 32), Decidable (k0_chk724 i k0_t1 v2209) := fun i k0_t1 v2209 => decidable_of_iff' _ (Iff.of_eq (k0_chk724.eq_1 i k0_t1 v2209))
theorem k0_idx724_inb : ∀ (i : grid0.Coords) (k0_t1 : Fin k0_t1_loop.trips) (v2209 : IVec S16 32) (k0_hw724 : k0_chk724 i k0_t1 v2209), ∀ (k0_h1 : k0_cond1 i k0_t1 = 1#1), ∀ a x, ((![v2209] : Fin 1 → IVec S16 32) a x).toNat < S100000.size a := fun i k0_t1 v2209 k0_hw724 k0_h1 => k0_hw724 k0_h1

def k0_chk725 (i : grid0.Coords) (k0_t1 : Fin k0_t1_loop.trips) (v2210 : IVec S16 32) : Prop :=
  (∀ (k0_h1 : k0_cond1 i k0_t1 = 1#1), ∀ a x, ((![v2210] : Fin 1 → IVec S16 32) a x).toNat < S100000.size a)
instance k0_chk725.dec : ∀ (i : grid0.Coords) (k0_t1 : Fin k0_t1_loop.trips) (v2210 : IVec S16 32), Decidable (k0_chk725 i k0_t1 v2210) := fun i k0_t1 v2210 => decidable_of_iff' _ (Iff.of_eq (k0_chk725.eq_1 i k0_t1 v2210))
theorem k0_idx725_inb : ∀ (i : grid0.Coords) (k0_t1 : Fin k0_t1_loop.trips) (v2210 : IVec S16 32) (k0_hw725 : k0_chk725 i k0_t1 v2210), ∀ (k0_h1 : k0_cond1 i k0_t1 = 1#1), ∀ a x, ((![v2210] : Fin 1 → IVec S16 32) a x).toNat < S100000.size a := fun i k0_t1 v2210 k0_hw725 k0_h1 => k0_hw725 k0_h1

def k0_chk726 (i : grid0.Coords) (k0_t1 : Fin k0_t1_loop.trips) (v2211 : IVec S16 32) : Prop :=
  (∀ (k0_h1 : k0_cond1 i k0_t1 = 1#1), ∀ a x, ((![v2211] : Fin 1 → IVec S16 32) a x).toNat < S100000.size a)
instance k0_chk726.dec : ∀ (i : grid0.Coords) (k0_t1 : Fin k0_t1_loop.trips) (v2211 : IVec S16 32), Decidable (k0_chk726 i k0_t1 v2211) := fun i k0_t1 v2211 => decidable_of_iff' _ (Iff.of_eq (k0_chk726.eq_1 i k0_t1 v2211))
theorem k0_idx726_inb : ∀ (i : grid0.Coords) (k0_t1 : Fin k0_t1_loop.trips) (v2211 : IVec S16 32) (k0_hw726 : k0_chk726 i k0_t1 v2211), ∀ (k0_h1 : k0_cond1 i k0_t1 = 1#1), ∀ a x, ((![v2211] : Fin 1 → IVec S16 32) a x).toNat < S100000.size a := fun i k0_t1 v2211 k0_hw726 k0_h1 => k0_hw726 k0_h1

def k0_chk727 (i : grid0.Coords) (k0_t1 : Fin k0_t1_loop.trips) (v2212 : IVec S16 32) : Prop :=
  (∀ (k0_h1 : k0_cond1 i k0_t1 = 1#1), ∀ a x, ((![v2212] : Fin 1 → IVec S16 32) a x).toNat < S100000.size a)
instance k0_chk727.dec : ∀ (i : grid0.Coords) (k0_t1 : Fin k0_t1_loop.trips) (v2212 : IVec S16 32), Decidable (k0_chk727 i k0_t1 v2212) := fun i k0_t1 v2212 => decidable_of_iff' _ (Iff.of_eq (k0_chk727.eq_1 i k0_t1 v2212))
theorem k0_idx727_inb : ∀ (i : grid0.Coords) (k0_t1 : Fin k0_t1_loop.trips) (v2212 : IVec S16 32) (k0_hw727 : k0_chk727 i k0_t1 v2212), ∀ (k0_h1 : k0_cond1 i k0_t1 = 1#1), ∀ a x, ((![v2212] : Fin 1 → IVec S16 32) a x).toNat < S100000.size a := fun i k0_t1 v2212 k0_hw727 k0_h1 => k0_hw727 k0_h1

def k0_chk728 (i : grid0.Coords) (k0_t1 : Fin k0_t1_loop.trips) (v2213 : IVec S16 32) : Prop :=
  (∀ (k0_h1 : k0_cond1 i k0_t1 = 1#1), ∀ a x, ((![v2213] : Fin 1 → IVec S16 32) a x).toNat < S100000.size a)
instance k0_chk728.dec : ∀ (i : grid0.Coords) (k0_t1 : Fin k0_t1_loop.trips) (v2213 : IVec S16 32), Decidable (k0_chk728 i k0_t1 v2213) := fun i k0_t1 v2213 => decidable_of_iff' _ (Iff.of_eq (k0_chk728.eq_1 i k0_t1 v2213))
theorem k0_idx728_inb : ∀ (i : grid0.Coords) (k0_t1 : Fin k0_t1_loop.trips) (v2213 : IVec S16 32) (k0_hw728 : k0_chk728 i k0_t1 v2213), ∀ (k0_h1 : k0_cond1 i k0_t1 = 1#1), ∀ a x, ((![v2213] : Fin 1 → IVec S16 32) a x).toNat < S100000.size a := fun i k0_t1 v2213 k0_hw728 k0_h1 => k0_hw728 k0_h1

def k0_chk729 (i : grid0.Coords) (k0_t1 : Fin k0_t1_loop.trips) (v2230 : IVec S16 32) : Prop :=
  (∀ (k0_h1 : k0_cond1 i k0_t1 = 1#1), ∀ a x, ((![v2230] : Fin 1 → IVec S16 32) a x).toNat < S100000.size a)
instance k0_chk729.dec : ∀ (i : grid0.Coords) (k0_t1 : Fin k0_t1_loop.trips) (v2230 : IVec S16 32), Decidable (k0_chk729 i k0_t1 v2230) := fun i k0_t1 v2230 => decidable_of_iff' _ (Iff.of_eq (k0_chk729.eq_1 i k0_t1 v2230))
theorem k0_idx729_inb : ∀ (i : grid0.Coords) (k0_t1 : Fin k0_t1_loop.trips) (v2230 : IVec S16 32) (k0_hw729 : k0_chk729 i k0_t1 v2230), ∀ (k0_h1 : k0_cond1 i k0_t1 = 1#1), ∀ a x, ((![v2230] : Fin 1 → IVec S16 32) a x).toNat < S100000.size a := fun i k0_t1 v2230 k0_hw729 k0_h1 => k0_hw729 k0_h1

def k0_chk730 (i : grid0.Coords) (k0_t1 : Fin k0_t1_loop.trips) (v2231 : IVec S16 32) : Prop :=
  (∀ (k0_h1 : k0_cond1 i k0_t1 = 1#1), ∀ a x, ((![v2231] : Fin 1 → IVec S16 32) a x).toNat < S100000.size a)
instance k0_chk730.dec : ∀ (i : grid0.Coords) (k0_t1 : Fin k0_t1_loop.trips) (v2231 : IVec S16 32), Decidable (k0_chk730 i k0_t1 v2231) := fun i k0_t1 v2231 => decidable_of_iff' _ (Iff.of_eq (k0_chk730.eq_1 i k0_t1 v2231))
theorem k0_idx730_inb : ∀ (i : grid0.Coords) (k0_t1 : Fin k0_t1_loop.trips) (v2231 : IVec S16 32) (k0_hw730 : k0_chk730 i k0_t1 v2231), ∀ (k0_h1 : k0_cond1 i k0_t1 = 1#1), ∀ a x, ((![v2231] : Fin 1 → IVec S16 32) a x).toNat < S100000.size a := fun i k0_t1 v2231 k0_hw730 k0_h1 => k0_hw730 k0_h1

def k0_chk731 (i : grid0.Coords) (k0_t1 : Fin k0_t1_loop.trips) (v2232 : IVec S16 32) : Prop :=
  (∀ (k0_h1 : k0_cond1 i k0_t1 = 1#1), ∀ a x, ((![v2232] : Fin 1 → IVec S16 32) a x).toNat < S100000.size a)
instance k0_chk731.dec : ∀ (i : grid0.Coords) (k0_t1 : Fin k0_t1_loop.trips) (v2232 : IVec S16 32), Decidable (k0_chk731 i k0_t1 v2232) := fun i k0_t1 v2232 => decidable_of_iff' _ (Iff.of_eq (k0_chk731.eq_1 i k0_t1 v2232))
theorem k0_idx731_inb : ∀ (i : grid0.Coords) (k0_t1 : Fin k0_t1_loop.trips) (v2232 : IVec S16 32) (k0_hw731 : k0_chk731 i k0_t1 v2232), ∀ (k0_h1 : k0_cond1 i k0_t1 = 1#1), ∀ a x, ((![v2232] : Fin 1 → IVec S16 32) a x).toNat < S100000.size a := fun i k0_t1 v2232 k0_hw731 k0_h1 => k0_hw731 k0_h1

def k0_chk732 (i : grid0.Coords) (k0_t1 : Fin k0_t1_loop.trips) (v2233 : IVec S16 32) : Prop :=
  (∀ (k0_h1 : k0_cond1 i k0_t1 = 1#1), ∀ a x, ((![v2233] : Fin 1 → IVec S16 32) a x).toNat < S100000.size a)
instance k0_chk732.dec : ∀ (i : grid0.Coords) (k0_t1 : Fin k0_t1_loop.trips) (v2233 : IVec S16 32), Decidable (k0_chk732 i k0_t1 v2233) := fun i k0_t1 v2233 => decidable_of_iff' _ (Iff.of_eq (k0_chk732.eq_1 i k0_t1 v2233))
theorem k0_idx732_inb : ∀ (i : grid0.Coords) (k0_t1 : Fin k0_t1_loop.trips) (v2233 : IVec S16 32) (k0_hw732 : k0_chk732 i k0_t1 v2233), ∀ (k0_h1 : k0_cond1 i k0_t1 = 1#1), ∀ a x, ((![v2233] : Fin 1 → IVec S16 32) a x).toNat < S100000.size a := fun i k0_t1 v2233 k0_hw732 k0_h1 => k0_hw732 k0_h1

def k0_chk733 (i : grid0.Coords) (k0_t1 : Fin k0_t1_loop.trips) (v2234 : IVec S16 32) : Prop :=
  (∀ (k0_h1 : k0_cond1 i k0_t1 = 1#1), ∀ a x, ((![v2234] : Fin 1 → IVec S16 32) a x).toNat < S100000.size a)
instance k0_chk733.dec : ∀ (i : grid0.Coords) (k0_t1 : Fin k0_t1_loop.trips) (v2234 : IVec S16 32), Decidable (k0_chk733 i k0_t1 v2234) := fun i k0_t1 v2234 => decidable_of_iff' _ (Iff.of_eq (k0_chk733.eq_1 i k0_t1 v2234))
theorem k0_idx733_inb : ∀ (i : grid0.Coords) (k0_t1 : Fin k0_t1_loop.trips) (v2234 : IVec S16 32) (k0_hw733 : k0_chk733 i k0_t1 v2234), ∀ (k0_h1 : k0_cond1 i k0_t1 = 1#1), ∀ a x, ((![v2234] : Fin 1 → IVec S16 32) a x).toNat < S100000.size a := fun i k0_t1 v2234 k0_hw733 k0_h1 => k0_hw733 k0_h1

def k0_chk734 (i : grid0.Coords) (k0_t1 : Fin k0_t1_loop.trips) (v2235 : IVec S16 32) : Prop :=
  (∀ (k0_h1 : k0_cond1 i k0_t1 = 1#1), ∀ a x, ((![v2235] : Fin 1 → IVec S16 32) a x).toNat < S100000.size a)
instance k0_chk734.dec : ∀ (i : grid0.Coords) (k0_t1 : Fin k0_t1_loop.trips) (v2235 : IVec S16 32), Decidable (k0_chk734 i k0_t1 v2235) := fun i k0_t1 v2235 => decidable_of_iff' _ (Iff.of_eq (k0_chk734.eq_1 i k0_t1 v2235))
theorem k0_idx734_inb : ∀ (i : grid0.Coords) (k0_t1 : Fin k0_t1_loop.trips) (v2235 : IVec S16 32) (k0_hw734 : k0_chk734 i k0_t1 v2235), ∀ (k0_h1 : k0_cond1 i k0_t1 = 1#1), ∀ a x, ((![v2235] : Fin 1 → IVec S16 32) a x).toNat < S100000.size a := fun i k0_t1 v2235 k0_hw734 k0_h1 => k0_hw734 k0_h1

def k0_chk735 (i : grid0.Coords) (k0_t1 : Fin k0_t1_loop.trips) (v2236 : IVec S16 32) : Prop :=
  (∀ (k0_h1 : k0_cond1 i k0_t1 = 1#1), ∀ a x, ((![v2236] : Fin 1 → IVec S16 32) a x).toNat < S100000.size a)
instance k0_chk735.dec : ∀ (i : grid0.Coords) (k0_t1 : Fin k0_t1_loop.trips) (v2236 : IVec S16 32), Decidable (k0_chk735 i k0_t1 v2236) := fun i k0_t1 v2236 => decidable_of_iff' _ (Iff.of_eq (k0_chk735.eq_1 i k0_t1 v2236))
theorem k0_idx735_inb : ∀ (i : grid0.Coords) (k0_t1 : Fin k0_t1_loop.trips) (v2236 : IVec S16 32) (k0_hw735 : k0_chk735 i k0_t1 v2236), ∀ (k0_h1 : k0_cond1 i k0_t1 = 1#1), ∀ a x, ((![v2236] : Fin 1 → IVec S16 32) a x).toNat < S100000.size a := fun i k0_t1 v2236 k0_hw735 k0_h1 => k0_hw735 k0_h1

def k0_chk736 (i : grid0.Coords) (k0_t1 : Fin k0_t1_loop.trips) (v2237 : IVec S16 32) : Prop :=
  (∀ (k0_h1 : k0_cond1 i k0_t1 = 1#1), ∀ a x, ((![v2237] : Fin 1 → IVec S16 32) a x).toNat < S100000.size a)
instance k0_chk736.dec : ∀ (i : grid0.Coords) (k0_t1 : Fin k0_t1_loop.trips) (v2237 : IVec S16 32), Decidable (k0_chk736 i k0_t1 v2237) := fun i k0_t1 v2237 => decidable_of_iff' _ (Iff.of_eq (k0_chk736.eq_1 i k0_t1 v2237))
theorem k0_idx736_inb : ∀ (i : grid0.Coords) (k0_t1 : Fin k0_t1_loop.trips) (v2237 : IVec S16 32) (k0_hw736 : k0_chk736 i k0_t1 v2237), ∀ (k0_h1 : k0_cond1 i k0_t1 = 1#1), ∀ a x, ((![v2237] : Fin 1 → IVec S16 32) a x).toNat < S100000.size a := fun i k0_t1 v2237 k0_hw736 k0_h1 => k0_hw736 k0_h1

def k0_chk737 (i : grid0.Coords) (k0_t1 : Fin k0_t1_loop.trips) (v2254 : IVec S16 32) : Prop :=
  (∀ (k0_h1 : k0_cond1 i k0_t1 = 1#1), ∀ a x, ((![v2254] : Fin 1 → IVec S16 32) a x).toNat < S100000.size a)
instance k0_chk737.dec : ∀ (i : grid0.Coords) (k0_t1 : Fin k0_t1_loop.trips) (v2254 : IVec S16 32), Decidable (k0_chk737 i k0_t1 v2254) := fun i k0_t1 v2254 => decidable_of_iff' _ (Iff.of_eq (k0_chk737.eq_1 i k0_t1 v2254))
theorem k0_idx737_inb : ∀ (i : grid0.Coords) (k0_t1 : Fin k0_t1_loop.trips) (v2254 : IVec S16 32) (k0_hw737 : k0_chk737 i k0_t1 v2254), ∀ (k0_h1 : k0_cond1 i k0_t1 = 1#1), ∀ a x, ((![v2254] : Fin 1 → IVec S16 32) a x).toNat < S100000.size a := fun i k0_t1 v2254 k0_hw737 k0_h1 => k0_hw737 k0_h1

def k0_chk738 (i : grid0.Coords) (k0_t1 : Fin k0_t1_loop.trips) (v2255 : IVec S16 32) : Prop :=
  (∀ (k0_h1 : k0_cond1 i k0_t1 = 1#1), ∀ a x, ((![v2255] : Fin 1 → IVec S16 32) a x).toNat < S100000.size a)
instance k0_chk738.dec : ∀ (i : grid0.Coords) (k0_t1 : Fin k0_t1_loop.trips) (v2255 : IVec S16 32), Decidable (k0_chk738 i k0_t1 v2255) := fun i k0_t1 v2255 => decidable_of_iff' _ (Iff.of_eq (k0_chk738.eq_1 i k0_t1 v2255))
theorem k0_idx738_inb : ∀ (i : grid0.Coords) (k0_t1 : Fin k0_t1_loop.trips) (v2255 : IVec S16 32) (k0_hw738 : k0_chk738 i k0_t1 v2255), ∀ (k0_h1 : k0_cond1 i k0_t1 = 1#1), ∀ a x, ((![v2255] : Fin 1 → IVec S16 32) a x).toNat < S100000.size a := fun i k0_t1 v2255 k0_hw738 k0_h1 => k0_hw738 k0_h1

def k0_chk739 (i : grid0.Coords) (k0_t1 : Fin k0_t1_loop.trips) (v2256 : IVec S16 32) : Prop :=
  (∀ (k0_h1 : k0_cond1 i k0_t1 = 1#1), ∀ a x, ((![v2256] : Fin 1 → IVec S16 32) a x).toNat < S100000.size a)
instance k0_chk739.dec : ∀ (i : grid0.Coords) (k0_t1 : Fin k0_t1_loop.trips) (v2256 : IVec S16 32), Decidable (k0_chk739 i k0_t1 v2256) := fun i k0_t1 v2256 => decidable_of_iff' _ (Iff.of_eq (k0_chk739.eq_1 i k0_t1 v2256))
theorem k0_idx739_inb : ∀ (i : grid0.Coords) (k0_t1 : Fin k0_t1_loop.trips) (v2256 : IVec S16 32) (k0_hw739 : k0_chk739 i k0_t1 v2256), ∀ (k0_h1 : k0_cond1 i k0_t1 = 1#1), ∀ a x, ((![v2256] : Fin 1 → IVec S16 32) a x).toNat < S100000.size a := fun i k0_t1 v2256 k0_hw739 k0_h1 => k0_hw739 k0_h1

def k0_chk740 (i : grid0.Coords) (k0_t1 : Fin k0_t1_loop.trips) (v2257 : IVec S16 32) : Prop :=
  (∀ (k0_h1 : k0_cond1 i k0_t1 = 1#1), ∀ a x, ((![v2257] : Fin 1 → IVec S16 32) a x).toNat < S100000.size a)
instance k0_chk740.dec : ∀ (i : grid0.Coords) (k0_t1 : Fin k0_t1_loop.trips) (v2257 : IVec S16 32), Decidable (k0_chk740 i k0_t1 v2257) := fun i k0_t1 v2257 => decidable_of_iff' _ (Iff.of_eq (k0_chk740.eq_1 i k0_t1 v2257))
theorem k0_idx740_inb : ∀ (i : grid0.Coords) (k0_t1 : Fin k0_t1_loop.trips) (v2257 : IVec S16 32) (k0_hw740 : k0_chk740 i k0_t1 v2257), ∀ (k0_h1 : k0_cond1 i k0_t1 = 1#1), ∀ a x, ((![v2257] : Fin 1 → IVec S16 32) a x).toNat < S100000.size a := fun i k0_t1 v2257 k0_hw740 k0_h1 => k0_hw740 k0_h1

def k0_chk741 (i : grid0.Coords) (k0_t1 : Fin k0_t1_loop.trips) (v2258 : IVec S16 32) : Prop :=
  (∀ (k0_h1 : k0_cond1 i k0_t1 = 1#1), ∀ a x, ((![v2258] : Fin 1 → IVec S16 32) a x).toNat < S100000.size a)
instance k0_chk741.dec : ∀ (i : grid0.Coords) (k0_t1 : Fin k0_t1_loop.trips) (v2258 : IVec S16 32), Decidable (k0_chk741 i k0_t1 v2258) := fun i k0_t1 v2258 => decidable_of_iff' _ (Iff.of_eq (k0_chk741.eq_1 i k0_t1 v2258))
theorem k0_idx741_inb : ∀ (i : grid0.Coords) (k0_t1 : Fin k0_t1_loop.trips) (v2258 : IVec S16 32) (k0_hw741 : k0_chk741 i k0_t1 v2258), ∀ (k0_h1 : k0_cond1 i k0_t1 = 1#1), ∀ a x, ((![v2258] : Fin 1 → IVec S16 32) a x).toNat < S100000.size a := fun i k0_t1 v2258 k0_hw741 k0_h1 => k0_hw741 k0_h1

def k0_chk742 (i : grid0.Coords) (k0_t1 : Fin k0_t1_loop.trips) (v2259 : IVec S16 32) : Prop :=
  (∀ (k0_h1 : k0_cond1 i k0_t1 = 1#1), ∀ a x, ((![v2259] : Fin 1 → IVec S16 32) a x).toNat < S100000.size a)
instance k0_chk742.dec : ∀ (i : grid0.Coords) (k0_t1 : Fin k0_t1_loop.trips) (v2259 : IVec S16 32), Decidable (k0_chk742 i k0_t1 v2259) := fun i k0_t1 v2259 => decidable_of_iff' _ (Iff.of_eq (k0_chk742.eq_1 i k0_t1 v2259))
theorem k0_idx742_inb : ∀ (i : grid0.Coords) (k0_t1 : Fin k0_t1_loop.trips) (v2259 : IVec S16 32) (k0_hw742 : k0_chk742 i k0_t1 v2259), ∀ (k0_h1 : k0_cond1 i k0_t1 = 1#1), ∀ a x, ((![v2259] : Fin 1 → IVec S16 32) a x).toNat < S100000.size a := fun i k0_t1 v2259 k0_hw742 k0_h1 => k0_hw742 k0_h1

def k0_chk743 (i : grid0.Coords) (k0_t1 : Fin k0_t1_loop.trips) (v2260 : IVec S16 32) : Prop :=
  (∀ (k0_h1 : k0_cond1 i k0_t1 = 1#1), ∀ a x, ((![v2260] : Fin 1 → IVec S16 32) a x).toNat < S100000.size a)
instance k0_chk743.dec : ∀ (i : grid0.Coords) (k0_t1 : Fin k0_t1_loop.trips) (v2260 : IVec S16 32), Decidable (k0_chk743 i k0_t1 v2260) := fun i k0_t1 v2260 => decidable_of_iff' _ (Iff.of_eq (k0_chk743.eq_1 i k0_t1 v2260))
theorem k0_idx743_inb : ∀ (i : grid0.Coords) (k0_t1 : Fin k0_t1_loop.trips) (v2260 : IVec S16 32) (k0_hw743 : k0_chk743 i k0_t1 v2260), ∀ (k0_h1 : k0_cond1 i k0_t1 = 1#1), ∀ a x, ((![v2260] : Fin 1 → IVec S16 32) a x).toNat < S100000.size a := fun i k0_t1 v2260 k0_hw743 k0_h1 => k0_hw743 k0_h1

def k0_chk744 (i : grid0.Coords) (k0_t1 : Fin k0_t1_loop.trips) (v2261 : IVec S16 32) : Prop :=
  (∀ (k0_h1 : k0_cond1 i k0_t1 = 1#1), ∀ a x, ((![v2261] : Fin 1 → IVec S16 32) a x).toNat < S100000.size a)
instance k0_chk744.dec : ∀ (i : grid0.Coords) (k0_t1 : Fin k0_t1_loop.trips) (v2261 : IVec S16 32), Decidable (k0_chk744 i k0_t1 v2261) := fun i k0_t1 v2261 => decidable_of_iff' _ (Iff.of_eq (k0_chk744.eq_1 i k0_t1 v2261))
theorem k0_idx744_inb : ∀ (i : grid0.Coords) (k0_t1 : Fin k0_t1_loop.trips) (v2261 : IVec S16 32) (k0_hw744 : k0_chk744 i k0_t1 v2261), ∀ (k0_h1 : k0_cond1 i k0_t1 = 1#1), ∀ a x, ((![v2261] : Fin 1 → IVec S16 32) a x).toNat < S100000.size a := fun i k0_t1 v2261 k0_hw744 k0_h1 => k0_hw744 k0_h1

def k0_chk745 (i : grid0.Coords) (k0_t1 : Fin k0_t1_loop.trips) (v2278 : IVec S16 32) : Prop :=
  (∀ (k0_h1 : k0_cond1 i k0_t1 = 1#1), ∀ a x, ((![v2278] : Fin 1 → IVec S16 32) a x).toNat < S100000.size a)
instance k0_chk745.dec : ∀ (i : grid0.Coords) (k0_t1 : Fin k0_t1_loop.trips) (v2278 : IVec S16 32), Decidable (k0_chk745 i k0_t1 v2278) := fun i k0_t1 v2278 => decidable_of_iff' _ (Iff.of_eq (k0_chk745.eq_1 i k0_t1 v2278))
theorem k0_idx745_inb : ∀ (i : grid0.Coords) (k0_t1 : Fin k0_t1_loop.trips) (v2278 : IVec S16 32) (k0_hw745 : k0_chk745 i k0_t1 v2278), ∀ (k0_h1 : k0_cond1 i k0_t1 = 1#1), ∀ a x, ((![v2278] : Fin 1 → IVec S16 32) a x).toNat < S100000.size a := fun i k0_t1 v2278 k0_hw745 k0_h1 => k0_hw745 k0_h1

def k0_chk746 (i : grid0.Coords) (k0_t1 : Fin k0_t1_loop.trips) (v2279 : IVec S16 32) : Prop :=
  (∀ (k0_h1 : k0_cond1 i k0_t1 = 1#1), ∀ a x, ((![v2279] : Fin 1 → IVec S16 32) a x).toNat < S100000.size a)
instance k0_chk746.dec : ∀ (i : grid0.Coords) (k0_t1 : Fin k0_t1_loop.trips) (v2279 : IVec S16 32), Decidable (k0_chk746 i k0_t1 v2279) := fun i k0_t1 v2279 => decidable_of_iff' _ (Iff.of_eq (k0_chk746.eq_1 i k0_t1 v2279))
theorem k0_idx746_inb : ∀ (i : grid0.Coords) (k0_t1 : Fin k0_t1_loop.trips) (v2279 : IVec S16 32) (k0_hw746 : k0_chk746 i k0_t1 v2279), ∀ (k0_h1 : k0_cond1 i k0_t1 = 1#1), ∀ a x, ((![v2279] : Fin 1 → IVec S16 32) a x).toNat < S100000.size a := fun i k0_t1 v2279 k0_hw746 k0_h1 => k0_hw746 k0_h1

def k0_chk747 (i : grid0.Coords) (k0_t1 : Fin k0_t1_loop.trips) (v2280 : IVec S16 32) : Prop :=
  (∀ (k0_h1 : k0_cond1 i k0_t1 = 1#1), ∀ a x, ((![v2280] : Fin 1 → IVec S16 32) a x).toNat < S100000.size a)
instance k0_chk747.dec : ∀ (i : grid0.Coords) (k0_t1 : Fin k0_t1_loop.trips) (v2280 : IVec S16 32), Decidable (k0_chk747 i k0_t1 v2280) := fun i k0_t1 v2280 => decidable_of_iff' _ (Iff.of_eq (k0_chk747.eq_1 i k0_t1 v2280))
theorem k0_idx747_inb : ∀ (i : grid0.Coords) (k0_t1 : Fin k0_t1_loop.trips) (v2280 : IVec S16 32) (k0_hw747 : k0_chk747 i k0_t1 v2280), ∀ (k0_h1 : k0_cond1 i k0_t1 = 1#1), ∀ a x, ((![v2280] : Fin 1 → IVec S16 32) a x).toNat < S100000.size a := fun i k0_t1 v2280 k0_hw747 k0_h1 => k0_hw747 k0_h1

def k0_chk748 (i : grid0.Coords) (k0_t1 : Fin k0_t1_loop.trips) (v2281 : IVec S16 32) : Prop :=
  (∀ (k0_h1 : k0_cond1 i k0_t1 = 1#1), ∀ a x, ((![v2281] : Fin 1 → IVec S16 32) a x).toNat < S100000.size a)
instance k0_chk748.dec : ∀ (i : grid0.Coords) (k0_t1 : Fin k0_t1_loop.trips) (v2281 : IVec S16 32), Decidable (k0_chk748 i k0_t1 v2281) := fun i k0_t1 v2281 => decidable_of_iff' _ (Iff.of_eq (k0_chk748.eq_1 i k0_t1 v2281))
theorem k0_idx748_inb : ∀ (i : grid0.Coords) (k0_t1 : Fin k0_t1_loop.trips) (v2281 : IVec S16 32) (k0_hw748 : k0_chk748 i k0_t1 v2281), ∀ (k0_h1 : k0_cond1 i k0_t1 = 1#1), ∀ a x, ((![v2281] : Fin 1 → IVec S16 32) a x).toNat < S100000.size a := fun i k0_t1 v2281 k0_hw748 k0_h1 => k0_hw748 k0_h1

def k0_chk749 (i : grid0.Coords) (k0_t1 : Fin k0_t1_loop.trips) (v2282 : IVec S16 32) : Prop :=
  (∀ (k0_h1 : k0_cond1 i k0_t1 = 1#1), ∀ a x, ((![v2282] : Fin 1 → IVec S16 32) a x).toNat < S100000.size a)
instance k0_chk749.dec : ∀ (i : grid0.Coords) (k0_t1 : Fin k0_t1_loop.trips) (v2282 : IVec S16 32), Decidable (k0_chk749 i k0_t1 v2282) := fun i k0_t1 v2282 => decidable_of_iff' _ (Iff.of_eq (k0_chk749.eq_1 i k0_t1 v2282))
theorem k0_idx749_inb : ∀ (i : grid0.Coords) (k0_t1 : Fin k0_t1_loop.trips) (v2282 : IVec S16 32) (k0_hw749 : k0_chk749 i k0_t1 v2282), ∀ (k0_h1 : k0_cond1 i k0_t1 = 1#1), ∀ a x, ((![v2282] : Fin 1 → IVec S16 32) a x).toNat < S100000.size a := fun i k0_t1 v2282 k0_hw749 k0_h1 => k0_hw749 k0_h1

def k0_chk750 (i : grid0.Coords) (k0_t1 : Fin k0_t1_loop.trips) (v2283 : IVec S16 32) : Prop :=
  (∀ (k0_h1 : k0_cond1 i k0_t1 = 1#1), ∀ a x, ((![v2283] : Fin 1 → IVec S16 32) a x).toNat < S100000.size a)
instance k0_chk750.dec : ∀ (i : grid0.Coords) (k0_t1 : Fin k0_t1_loop.trips) (v2283 : IVec S16 32), Decidable (k0_chk750 i k0_t1 v2283) := fun i k0_t1 v2283 => decidable_of_iff' _ (Iff.of_eq (k0_chk750.eq_1 i k0_t1 v2283))
theorem k0_idx750_inb : ∀ (i : grid0.Coords) (k0_t1 : Fin k0_t1_loop.trips) (v2283 : IVec S16 32) (k0_hw750 : k0_chk750 i k0_t1 v2283), ∀ (k0_h1 : k0_cond1 i k0_t1 = 1#1), ∀ a x, ((![v2283] : Fin 1 → IVec S16 32) a x).toNat < S100000.size a := fun i k0_t1 v2283 k0_hw750 k0_h1 => k0_hw750 k0_h1

def k0_chk751 (i : grid0.Coords) (k0_t1 : Fin k0_t1_loop.trips) (v2284 : IVec S16 32) : Prop :=
  (∀ (k0_h1 : k0_cond1 i k0_t1 = 1#1), ∀ a x, ((![v2284] : Fin 1 → IVec S16 32) a x).toNat < S100000.size a)
instance k0_chk751.dec : ∀ (i : grid0.Coords) (k0_t1 : Fin k0_t1_loop.trips) (v2284 : IVec S16 32), Decidable (k0_chk751 i k0_t1 v2284) := fun i k0_t1 v2284 => decidable_of_iff' _ (Iff.of_eq (k0_chk751.eq_1 i k0_t1 v2284))
theorem k0_idx751_inb : ∀ (i : grid0.Coords) (k0_t1 : Fin k0_t1_loop.trips) (v2284 : IVec S16 32) (k0_hw751 : k0_chk751 i k0_t1 v2284), ∀ (k0_h1 : k0_cond1 i k0_t1 = 1#1), ∀ a x, ((![v2284] : Fin 1 → IVec S16 32) a x).toNat < S100000.size a := fun i k0_t1 v2284 k0_hw751 k0_h1 => k0_hw751 k0_h1

def k0_chk752 (i : grid0.Coords) (k0_t1 : Fin k0_t1_loop.trips) (v2285 : IVec S16 32) : Prop :=
  (∀ (k0_h1 : k0_cond1 i k0_t1 = 1#1), ∀ a x, ((![v2285] : Fin 1 → IVec S16 32) a x).toNat < S100000.size a)
instance k0_chk752.dec : ∀ (i : grid0.Coords) (k0_t1 : Fin k0_t1_loop.trips) (v2285 : IVec S16 32), Decidable (k0_chk752 i k0_t1 v2285) := fun i k0_t1 v2285 => decidable_of_iff' _ (Iff.of_eq (k0_chk752.eq_1 i k0_t1 v2285))
theorem k0_idx752_inb : ∀ (i : grid0.Coords) (k0_t1 : Fin k0_t1_loop.trips) (v2285 : IVec S16 32) (k0_hw752 : k0_chk752 i k0_t1 v2285), ∀ (k0_h1 : k0_cond1 i k0_t1 = 1#1), ∀ a x, ((![v2285] : Fin 1 → IVec S16 32) a x).toNat < S100000.size a := fun i k0_t1 v2285 k0_hw752 k0_h1 => k0_hw752 k0_h1

def k0_chk753 (i : grid0.Coords) (k0_t1 : Fin k0_t1_loop.trips) (v2302 : IVec S16 32) : Prop :=
  (∀ (k0_h1 : k0_cond1 i k0_t1 = 1#1), ∀ a x, ((![v2302] : Fin 1 → IVec S16 32) a x).toNat < S100000.size a)
instance k0_chk753.dec : ∀ (i : grid0.Coords) (k0_t1 : Fin k0_t1_loop.trips) (v2302 : IVec S16 32), Decidable (k0_chk753 i k0_t1 v2302) := fun i k0_t1 v2302 => decidable_of_iff' _ (Iff.of_eq (k0_chk753.eq_1 i k0_t1 v2302))
theorem k0_idx753_inb : ∀ (i : grid0.Coords) (k0_t1 : Fin k0_t1_loop.trips) (v2302 : IVec S16 32) (k0_hw753 : k0_chk753 i k0_t1 v2302), ∀ (k0_h1 : k0_cond1 i k0_t1 = 1#1), ∀ a x, ((![v2302] : Fin 1 → IVec S16 32) a x).toNat < S100000.size a := fun i k0_t1 v2302 k0_hw753 k0_h1 => k0_hw753 k0_h1

def k0_chk754 (i : grid0.Coords) (k0_t1 : Fin k0_t1_loop.trips) (v2303 : IVec S16 32) : Prop :=
  (∀ (k0_h1 : k0_cond1 i k0_t1 = 1#1), ∀ a x, ((![v2303] : Fin 1 → IVec S16 32) a x).toNat < S100000.size a)
instance k0_chk754.dec : ∀ (i : grid0.Coords) (k0_t1 : Fin k0_t1_loop.trips) (v2303 : IVec S16 32), Decidable (k0_chk754 i k0_t1 v2303) := fun i k0_t1 v2303 => decidable_of_iff' _ (Iff.of_eq (k0_chk754.eq_1 i k0_t1 v2303))
theorem k0_idx754_inb : ∀ (i : grid0.Coords) (k0_t1 : Fin k0_t1_loop.trips) (v2303 : IVec S16 32) (k0_hw754 : k0_chk754 i k0_t1 v2303), ∀ (k0_h1 : k0_cond1 i k0_t1 = 1#1), ∀ a x, ((![v2303] : Fin 1 → IVec S16 32) a x).toNat < S100000.size a := fun i k0_t1 v2303 k0_hw754 k0_h1 => k0_hw754 k0_h1

def k0_chk755 (i : grid0.Coords) (k0_t1 : Fin k0_t1_loop.trips) (v2304 : IVec S16 32) : Prop :=
  (∀ (k0_h1 : k0_cond1 i k0_t1 = 1#1), ∀ a x, ((![v2304] : Fin 1 → IVec S16 32) a x).toNat < S100000.size a)
instance k0_chk755.dec : ∀ (i : grid0.Coords) (k0_t1 : Fin k0_t1_loop.trips) (v2304 : IVec S16 32), Decidable (k0_chk755 i k0_t1 v2304) := fun i k0_t1 v2304 => decidable_of_iff' _ (Iff.of_eq (k0_chk755.eq_1 i k0_t1 v2304))
theorem k0_idx755_inb : ∀ (i : grid0.Coords) (k0_t1 : Fin k0_t1_loop.trips) (v2304 : IVec S16 32) (k0_hw755 : k0_chk755 i k0_t1 v2304), ∀ (k0_h1 : k0_cond1 i k0_t1 = 1#1), ∀ a x, ((![v2304] : Fin 1 → IVec S16 32) a x).toNat < S100000.size a := fun i k0_t1 v2304 k0_hw755 k0_h1 => k0_hw755 k0_h1

def k0_chk756 (i : grid0.Coords) (k0_t1 : Fin k0_t1_loop.trips) (v2305 : IVec S16 32) : Prop :=
  (∀ (k0_h1 : k0_cond1 i k0_t1 = 1#1), ∀ a x, ((![v2305] : Fin 1 → IVec S16 32) a x).toNat < S100000.size a)
instance k0_chk756.dec : ∀ (i : grid0.Coords) (k0_t1 : Fin k0_t1_loop.trips) (v2305 : IVec S16 32), Decidable (k0_chk756 i k0_t1 v2305) := fun i k0_t1 v2305 => decidable_of_iff' _ (Iff.of_eq (k0_chk756.eq_1 i k0_t1 v2305))
theorem k0_idx756_inb : ∀ (i : grid0.Coords) (k0_t1 : Fin k0_t1_loop.trips) (v2305 : IVec S16 32) (k0_hw756 : k0_chk756 i k0_t1 v2305), ∀ (k0_h1 : k0_cond1 i k0_t1 = 1#1), ∀ a x, ((![v2305] : Fin 1 → IVec S16 32) a x).toNat < S100000.size a := fun i k0_t1 v2305 k0_hw756 k0_h1 => k0_hw756 k0_h1

def k0_chk757 (i : grid0.Coords) (k0_t1 : Fin k0_t1_loop.trips) (v2306 : IVec S16 32) : Prop :=
  (∀ (k0_h1 : k0_cond1 i k0_t1 = 1#1), ∀ a x, ((![v2306] : Fin 1 → IVec S16 32) a x).toNat < S100000.size a)
instance k0_chk757.dec : ∀ (i : grid0.Coords) (k0_t1 : Fin k0_t1_loop.trips) (v2306 : IVec S16 32), Decidable (k0_chk757 i k0_t1 v2306) := fun i k0_t1 v2306 => decidable_of_iff' _ (Iff.of_eq (k0_chk757.eq_1 i k0_t1 v2306))
theorem k0_idx757_inb : ∀ (i : grid0.Coords) (k0_t1 : Fin k0_t1_loop.trips) (v2306 : IVec S16 32) (k0_hw757 : k0_chk757 i k0_t1 v2306), ∀ (k0_h1 : k0_cond1 i k0_t1 = 1#1), ∀ a x, ((![v2306] : Fin 1 → IVec S16 32) a x).toNat < S100000.size a := fun i k0_t1 v2306 k0_hw757 k0_h1 => k0_hw757 k0_h1

def k0_chk758 (i : grid0.Coords) (k0_t1 : Fin k0_t1_loop.trips) (v2307 : IVec S16 32) : Prop :=
  (∀ (k0_h1 : k0_cond1 i k0_t1 = 1#1), ∀ a x, ((![v2307] : Fin 1 → IVec S16 32) a x).toNat < S100000.size a)
instance k0_chk758.dec : ∀ (i : grid0.Coords) (k0_t1 : Fin k0_t1_loop.trips) (v2307 : IVec S16 32), Decidable (k0_chk758 i k0_t1 v2307) := fun i k0_t1 v2307 => decidable_of_iff' _ (Iff.of_eq (k0_chk758.eq_1 i k0_t1 v2307))
theorem k0_idx758_inb : ∀ (i : grid0.Coords) (k0_t1 : Fin k0_t1_loop.trips) (v2307 : IVec S16 32) (k0_hw758 : k0_chk758 i k0_t1 v2307), ∀ (k0_h1 : k0_cond1 i k0_t1 = 1#1), ∀ a x, ((![v2307] : Fin 1 → IVec S16 32) a x).toNat < S100000.size a := fun i k0_t1 v2307 k0_hw758 k0_h1 => k0_hw758 k0_h1

def k0_chk759 (i : grid0.Coords) (k0_t1 : Fin k0_t1_loop.trips) (v2308 : IVec S16 32) : Prop :=
  (∀ (k0_h1 : k0_cond1 i k0_t1 = 1#1), ∀ a x, ((![v2308] : Fin 1 → IVec S16 32) a x).toNat < S100000.size a)
instance k0_chk759.dec : ∀ (i : grid0.Coords) (k0_t1 : Fin k0_t1_loop.trips) (v2308 : IVec S16 32), Decidable (k0_chk759 i k0_t1 v2308) := fun i k0_t1 v2308 => decidable_of_iff' _ (Iff.of_eq (k0_chk759.eq_1 i k0_t1 v2308))
theorem k0_idx759_inb : ∀ (i : grid0.Coords) (k0_t1 : Fin k0_t1_loop.trips) (v2308 : IVec S16 32) (k0_hw759 : k0_chk759 i k0_t1 v2308), ∀ (k0_h1 : k0_cond1 i k0_t1 = 1#1), ∀ a x, ((![v2308] : Fin 1 → IVec S16 32) a x).toNat < S100000.size a := fun i k0_t1 v2308 k0_hw759 k0_h1 => k0_hw759 k0_h1

def k0_chk760 (i : grid0.Coords) (k0_t1 : Fin k0_t1_loop.trips) (v2309 : IVec S16 32) : Prop :=
  (∀ (k0_h1 : k0_cond1 i k0_t1 = 1#1), ∀ a x, ((![v2309] : Fin 1 → IVec S16 32) a x).toNat < S100000.size a)
instance k0_chk760.dec : ∀ (i : grid0.Coords) (k0_t1 : Fin k0_t1_loop.trips) (v2309 : IVec S16 32), Decidable (k0_chk760 i k0_t1 v2309) := fun i k0_t1 v2309 => decidable_of_iff' _ (Iff.of_eq (k0_chk760.eq_1 i k0_t1 v2309))
theorem k0_idx760_inb : ∀ (i : grid0.Coords) (k0_t1 : Fin k0_t1_loop.trips) (v2309 : IVec S16 32) (k0_hw760 : k0_chk760 i k0_t1 v2309), ∀ (k0_h1 : k0_cond1 i k0_t1 = 1#1), ∀ a x, ((![v2309] : Fin 1 → IVec S16 32) a x).toNat < S100000.size a := fun i k0_t1 v2309 k0_hw760 k0_h1 => k0_hw760 k0_h1

def k0_chk761 (i : grid0.Coords) (k0_t1 : Fin k0_t1_loop.trips) (v2326 : IVec S16 32) : Prop :=
  (∀ (k0_h1 : k0_cond1 i k0_t1 = 1#1), ∀ a x, ((![v2326] : Fin 1 → IVec S16 32) a x).toNat < S100000.size a)
instance k0_chk761.dec : ∀ (i : grid0.Coords) (k0_t1 : Fin k0_t1_loop.trips) (v2326 : IVec S16 32), Decidable (k0_chk761 i k0_t1 v2326) := fun i k0_t1 v2326 => decidable_of_iff' _ (Iff.of_eq (k0_chk761.eq_1 i k0_t1 v2326))
theorem k0_idx761_inb : ∀ (i : grid0.Coords) (k0_t1 : Fin k0_t1_loop.trips) (v2326 : IVec S16 32) (k0_hw761 : k0_chk761 i k0_t1 v2326), ∀ (k0_h1 : k0_cond1 i k0_t1 = 1#1), ∀ a x, ((![v2326] : Fin 1 → IVec S16 32) a x).toNat < S100000.size a := fun i k0_t1 v2326 k0_hw761 k0_h1 => k0_hw761 k0_h1

def k0_chk762 (i : grid0.Coords) (k0_t1 : Fin k0_t1_loop.trips) (v2327 : IVec S16 32) : Prop :=
  (∀ (k0_h1 : k0_cond1 i k0_t1 = 1#1), ∀ a x, ((![v2327] : Fin 1 → IVec S16 32) a x).toNat < S100000.size a)
instance k0_chk762.dec : ∀ (i : grid0.Coords) (k0_t1 : Fin k0_t1_loop.trips) (v2327 : IVec S16 32), Decidable (k0_chk762 i k0_t1 v2327) := fun i k0_t1 v2327 => decidable_of_iff' _ (Iff.of_eq (k0_chk762.eq_1 i k0_t1 v2327))
theorem k0_idx762_inb : ∀ (i : grid0.Coords) (k0_t1 : Fin k0_t1_loop.trips) (v2327 : IVec S16 32) (k0_hw762 : k0_chk762 i k0_t1 v2327), ∀ (k0_h1 : k0_cond1 i k0_t1 = 1#1), ∀ a x, ((![v2327] : Fin 1 → IVec S16 32) a x).toNat < S100000.size a := fun i k0_t1 v2327 k0_hw762 k0_h1 => k0_hw762 k0_h1

def k0_chk763 (i : grid0.Coords) (k0_t1 : Fin k0_t1_loop.trips) (v2328 : IVec S16 32) : Prop :=
  (∀ (k0_h1 : k0_cond1 i k0_t1 = 1#1), ∀ a x, ((![v2328] : Fin 1 → IVec S16 32) a x).toNat < S100000.size a)
instance k0_chk763.dec : ∀ (i : grid0.Coords) (k0_t1 : Fin k0_t1_loop.trips) (v2328 : IVec S16 32), Decidable (k0_chk763 i k0_t1 v2328) := fun i k0_t1 v2328 => decidable_of_iff' _ (Iff.of_eq (k0_chk763.eq_1 i k0_t1 v2328))
theorem k0_idx763_inb : ∀ (i : grid0.Coords) (k0_t1 : Fin k0_t1_loop.trips) (v2328 : IVec S16 32) (k0_hw763 : k0_chk763 i k0_t1 v2328), ∀ (k0_h1 : k0_cond1 i k0_t1 = 1#1), ∀ a x, ((![v2328] : Fin 1 → IVec S16 32) a x).toNat < S100000.size a := fun i k0_t1 v2328 k0_hw763 k0_h1 => k0_hw763 k0_h1

def k0_chk764 (i : grid0.Coords) (k0_t1 : Fin k0_t1_loop.trips) (v2329 : IVec S16 32) : Prop :=
  (∀ (k0_h1 : k0_cond1 i k0_t1 = 1#1), ∀ a x, ((![v2329] : Fin 1 → IVec S16 32) a x).toNat < S100000.size a)
instance k0_chk764.dec : ∀ (i : grid0.Coords) (k0_t1 : Fin k0_t1_loop.trips) (v2329 : IVec S16 32), Decidable (k0_chk764 i k0_t1 v2329) := fun i k0_t1 v2329 => decidable_of_iff' _ (Iff.of_eq (k0_chk764.eq_1 i k0_t1 v2329))
theorem k0_idx764_inb : ∀ (i : grid0.Coords) (k0_t1 : Fin k0_t1_loop.trips) (v2329 : IVec S16 32) (k0_hw764 : k0_chk764 i k0_t1 v2329), ∀ (k0_h1 : k0_cond1 i k0_t1 = 1#1), ∀ a x, ((![v2329] : Fin 1 → IVec S16 32) a x).toNat < S100000.size a := fun i k0_t1 v2329 k0_hw764 k0_h1 => k0_hw764 k0_h1

def k0_chk765 (i : grid0.Coords) (k0_t1 : Fin k0_t1_loop.trips) (v2330 : IVec S16 32) : Prop :=
  (∀ (k0_h1 : k0_cond1 i k0_t1 = 1#1), ∀ a x, ((![v2330] : Fin 1 → IVec S16 32) a x).toNat < S100000.size a)
instance k0_chk765.dec : ∀ (i : grid0.Coords) (k0_t1 : Fin k0_t1_loop.trips) (v2330 : IVec S16 32), Decidable (k0_chk765 i k0_t1 v2330) := fun i k0_t1 v2330 => decidable_of_iff' _ (Iff.of_eq (k0_chk765.eq_1 i k0_t1 v2330))
theorem k0_idx765_inb : ∀ (i : grid0.Coords) (k0_t1 : Fin k0_t1_loop.trips) (v2330 : IVec S16 32) (k0_hw765 : k0_chk765 i k0_t1 v2330), ∀ (k0_h1 : k0_cond1 i k0_t1 = 1#1), ∀ a x, ((![v2330] : Fin 1 → IVec S16 32) a x).toNat < S100000.size a := fun i k0_t1 v2330 k0_hw765 k0_h1 => k0_hw765 k0_h1

def k0_chk766 (i : grid0.Coords) (k0_t1 : Fin k0_t1_loop.trips) (v2331 : IVec S16 32) : Prop :=
  (∀ (k0_h1 : k0_cond1 i k0_t1 = 1#1), ∀ a x, ((![v2331] : Fin 1 → IVec S16 32) a x).toNat < S100000.size a)
instance k0_chk766.dec : ∀ (i : grid0.Coords) (k0_t1 : Fin k0_t1_loop.trips) (v2331 : IVec S16 32), Decidable (k0_chk766 i k0_t1 v2331) := fun i k0_t1 v2331 => decidable_of_iff' _ (Iff.of_eq (k0_chk766.eq_1 i k0_t1 v2331))
theorem k0_idx766_inb : ∀ (i : grid0.Coords) (k0_t1 : Fin k0_t1_loop.trips) (v2331 : IVec S16 32) (k0_hw766 : k0_chk766 i k0_t1 v2331), ∀ (k0_h1 : k0_cond1 i k0_t1 = 1#1), ∀ a x, ((![v2331] : Fin 1 → IVec S16 32) a x).toNat < S100000.size a := fun i k0_t1 v2331 k0_hw766 k0_h1 => k0_hw766 k0_h1

def k0_chk767 (i : grid0.Coords) (k0_t1 : Fin k0_t1_loop.trips) (v2332 : IVec S16 32) : Prop :=
  (∀ (k0_h1 : k0_cond1 i k0_t1 = 1#1), ∀ a x, ((![v2332] : Fin 1 → IVec S16 32) a x).toNat < S100000.size a)
instance k0_chk767.dec : ∀ (i : grid0.Coords) (k0_t1 : Fin k0_t1_loop.trips) (v2332 : IVec S16 32), Decidable (k0_chk767 i k0_t1 v2332) := fun i k0_t1 v2332 => decidable_of_iff' _ (Iff.of_eq (k0_chk767.eq_1 i k0_t1 v2332))
theorem k0_idx767_inb : ∀ (i : grid0.Coords) (k0_t1 : Fin k0_t1_loop.trips) (v2332 : IVec S16 32) (k0_hw767 : k0_chk767 i k0_t1 v2332), ∀ (k0_h1 : k0_cond1 i k0_t1 = 1#1), ∀ a x, ((![v2332] : Fin 1 → IVec S16 32) a x).toNat < S100000.size a := fun i k0_t1 v2332 k0_hw767 k0_h1 => k0_hw767 k0_h1

def k0_chk768 (i : grid0.Coords) (k0_t1 : Fin k0_t1_loop.trips) (v2333 : IVec S16 32) : Prop :=
  (∀ (k0_h1 : k0_cond1 i k0_t1 = 1#1), ∀ a x, ((![v2333] : Fin 1 → IVec S16 32) a x).toNat < S100000.size a)
instance k0_chk768.dec : ∀ (i : grid0.Coords) (k0_t1 : Fin k0_t1_loop.trips) (v2333 : IVec S16 32), Decidable (k0_chk768 i k0_t1 v2333) := fun i k0_t1 v2333 => decidable_of_iff' _ (Iff.of_eq (k0_chk768.eq_1 i k0_t1 v2333))
theorem k0_idx768_inb : ∀ (i : grid0.Coords) (k0_t1 : Fin k0_t1_loop.trips) (v2333 : IVec S16 32) (k0_hw768 : k0_chk768 i k0_t1 v2333), ∀ (k0_h1 : k0_cond1 i k0_t1 = 1#1), ∀ a x, ((![v2333] : Fin 1 → IVec S16 32) a x).toNat < S100000.size a := fun i k0_t1 v2333 k0_hw768 k0_h1 => k0_hw768 k0_h1
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_11 : BitVec 32 := 0#32
  let c0_i32_2 : BitVec 32 := 0#32
  let c1_i32 : BitVec 32 := 1#32
  let arg11 : BitVec 32 := Scf.iv c0_i32_2 c1_i32 k0_t1
  let c1_i32_10 : BitVec 32 := 1#32
  let v19 : BitVec 32 := Scalar.muli arg11 c1_i32_10
  let v20 : BitVec 32 := Scalar.addi c0_i32_11 v19
  let v21 : BitVec 32 := Scalar.muli c32_i32 v20
  let v22 : BitVec 32 := Scalar.addi v1 v21
  let c8192_i32 : BitVec 32 := 8192#32
  ![v22.toNat, 8192]

def k0_chk769 (i : grid0.Coords) (k0_t1 : Fin k0_t1_loop.trips) (v2358 : IVec S16 32) : Prop :=
  (∀ (k0_h1 : k0_cond1 i k0_t1 = 1#1), ∀ a x, ((![v2358] : Fin 1 → IVec S16 32) a x).toNat < S100000.size a)
instance k0_chk769.dec : ∀ (i : grid0.Coords) (k0_t1 : Fin k0_t1_loop.trips) (v2358 : IVec S16 32), Decidable (k0_chk769 i k0_t1 v2358) := fun i k0_t1 v2358 => decidable_of_iff' _ (Iff.of_eq (k0_chk769.eq_1 i k0_t1 v2358))
theorem k0_idx769_inb : ∀ (i : grid0.Coords) (k0_t1 : Fin k0_t1_loop.trips) (v2358 : IVec S16 32) (k0_hw769 : k0_chk769 i k0_t1 v2358), ∀ (k0_h1 : k0_cond1 i k0_t1 = 1#1), ∀ a x, ((![v2358] : Fin 1 → IVec S16 32) a x).toNat < S100000.size a := fun i k0_t1 v2358 k0_hw769 k0_h1 => k0_hw769 k0_h1

def k0_chk770 (i : grid0.Coords) (k0_t1 : Fin k0_t1_loop.trips) (v2359 : IVec S16 32) : Prop :=
  (∀ (k0_h1 : k0_cond1 i k0_t1 = 1#1), ∀ a x, ((![v2359] : Fin 1 → IVec S16 32) a x).toNat < S100000.size a)
instance k0_chk770.dec : ∀ (i : grid0.Coords) (k0_t1 : Fin k0_t1_loop.trips) (v2359 : IVec S16 32), Decidable (k0_chk770 i k0_t1 v2359) := fun i k0_t1 v2359 => decidable_of_iff' _ (Iff.of_eq (k0_chk770.eq_1 i k0_t1 v2359))
theorem k0_idx770_inb : ∀ (i : grid0.Coords) (k0_t1 : Fin k0_t1_loop.trips) (v2359 : IVec S16 32) (k0_hw770 : k0_chk770 i k0_t1 v2359), ∀ (k0_h1 : k0_cond1 i k0_t1 = 1#1), ∀ a x, ((![v2359] : Fin 1 → IVec S16 32) a x).toNat < S100000.size a := fun i k0_t1 v2359 k0_hw770 k0_h1 => k0_hw770 k0_h1

def k0_chk771 (i : grid0.Coords) (k0_t1 : Fin k0_t1_loop.trips) (v2360 : IVec S16 32) : Prop :=
  (∀ (k0_h1 : k0_cond1 i k0_t1 = 1#1), ∀ a x, ((![v2360] : Fin 1 → IVec S16 32) a x).toNat < S100000.size a)
instance k0_chk771.dec : ∀ (i : grid0.Coords) (k0_t1 : Fin k0_t1_loop.trips) (v2360 : IVec S16 32), Decidable (k0_chk771 i k0_t1 v2360) := fun i k0_t1 v2360 => decidable_of_iff' _ (Iff.of_eq (k0_chk771.eq_1 i k0_t1 v2360))
theorem k0_idx771_inb : ∀ (i : grid0.Coords) (k0_t1 : Fin k0_t1_loop.trips) (v2360 : IVec S16 32) (k0_hw771 : k0_chk771 i k0_t1 v2360), ∀ (k0_h1 : k0_cond1 i k0_t1 = 1#1), ∀ a x, ((![v2360] : Fin 1 → IVec S16 32) a x).toNat < S100000.size a := fun i k0_t1 v2360 k0_hw771 k0_h1 => k0_hw771 k0_h1

def k0_chk772 (i : grid0.Coords) (k0_t1 : Fin k0_t1_loop.trips) (v2361 : IVec S16 32) : Prop :=
  (∀ (k0_h1 : k0_cond1 i k0_t1 = 1#1), ∀ a x, ((![v2361] : Fin 1 → IVec S16 32) a x).toNat < S100000.size a)
instance k0_chk772.dec : ∀ (i : grid0.Coords) (k0_t1 : Fin k0_t1_loop.trips) (v2361 : IVec S16 32), Decidable (k0_chk772 i k0_t1 v2361) := fun i k0_t1 v2361 => decidable_of_iff' _ (Iff.of_eq (k0_chk772.eq_1 i k0_t1 v2361))
theorem k0_idx772_inb : ∀ (i : grid0.Coords) (k0_t1 : Fin k0_t1_loop.trips) (v2361 : IVec S16 32) (k0_hw772 : k0_chk772 i k0_t1 v2361), ∀ (k0_h1 : k0_cond1 i k0_t1 = 1#1), ∀ a x, ((![v2361] : Fin 1 → IVec S16 32) a x).toNat < S100000.size a := fun i k0_t1 v2361 k0_hw772 k0_h1 => k0_hw772 k0_h1

def k0_chk773 (i : grid0.Coords) (k0_t1 : Fin k0_t1_loop.trips) (v2362 : IVec S16 32) : Prop :=
  (∀ (k0_h1 : k0_cond1 i k0_t1 = 1#1), ∀ a x, ((![v2362] : Fin 1 → IVec S16 32) a x).toNat < S100000.size a)
instance k0_chk773.dec : ∀ (i : grid0.Coords) (k0_t1 : Fin k0_t1_loop.trips) (v2362 : IVec S16 32), Decidable (k0_chk773 i k0_t1 v2362) := fun i k0_t1 v2362 => decidable_of_iff' _ (Iff.of_eq (k0_chk773.eq_1 i k0_t1 v2362))
theorem k0_idx773_inb : ∀ (i : grid0.Coords) (k0_t1 : Fin k0_t1_loop.trips) (v2362 : IVec S16 32) (k0_hw773 : k0_chk773 i k0_t1 v2362), ∀ (k0_h1 : k0_cond1 i k0_t1 = 1#1), ∀ a x, ((![v2362] : Fin 1 → IVec S16 32) a x).toNat < S100000.size a := fun i k0_t1 v2362 k0_hw773 k0_h1 => k0_hw773 k0_h1

def k0_chk774 (i : grid0.Coords) (k0_t1 : Fin k0_t1_loop.trips) (v2363 : IVec S16 32) : Prop :=
  (∀ (k0_h1 : k0_cond1 i k0_t1 = 1#1), ∀ a x, ((![v2363] : Fin 1 → IVec S16 32) a x).toNat < S100000.size a)
instance k0_chk774.dec : ∀ (i : grid0.Coords) (k0_t1 : Fin k0_t1_loop.trips) (v2363 : IVec S16 32), Decidable (k0_chk774 i k0_t1 v2363) := fun i k0_t1 v2363 => decidable_of_iff' _ (Iff.of_eq (k0_chk774.eq_1 i k0_t1 v2363))
theorem k0_idx774_inb : ∀ (i : grid0.Coords) (k0_t1 : Fin k0_t1_loop.trips) (v2363 : IVec S16 32) (k0_hw774 : k0_chk774 i k0_t1 v2363), ∀ (k0_h1 : k0_cond1 i k0_t1 = 1#1), ∀ a x, ((![v2363] : Fin 1 → IVec S16 32) a x).toNat < S100000.size a := fun i k0_t1 v2363 k0_hw774 k0_h1 => k0_hw774 k0_h1

def k0_chk775 (i : grid0.Coords) (k0_t1 : Fin k0_t1_loop.trips) (v2364 : IVec S16 32) : Prop :=
  (∀ (k0_h1 : k0_cond1 i k0_t1 = 1#1), ∀ a x, ((![v2364] : Fin 1 → IVec S16 32) a x).toNat < S100000.size a)
instance k0_chk775.dec : ∀ (i : grid0.Coords) (k0_t1 : Fin k0_t1_loop.trips) (v2364 : IVec S16 32), Decidable (k0_chk775 i k0_t1 v2364) := fun i k0_t1 v2364 => decidable_of_iff' _ (Iff.of_eq (k0_chk775.eq_1 i k0_t1 v2364))
theorem k0_idx775_inb : ∀ (i : grid0.Coords) (k0_t1 : Fin k0_t1_loop.trips) (v2364 : IVec S16 32) (k0_hw775 : k0_chk775 i k0_t1 v2364), ∀ (k0_h1 : k0_cond1 i k0_t1 = 1#1), ∀ a x, ((![v2364] : Fin 1 → IVec S16 32) a x).toNat < S100000.size a := fun i k0_t1 v2364 k0_hw775 k0_h1 => k0_hw775 k0_h1

def k0_chk776 (i : grid0.Coords) (k0_t1 : Fin k0_t1_loop.trips) (v2365 : IVec S16 32) : Prop :=
  (∀ (k0_h1 : k0_cond1 i k0_t1 = 1#1), ∀ a x, ((![v2365] : Fin 1 → IVec S16 32) a x).toNat < S100000.size a)
instance k0_chk776.dec : ∀ (i : grid0.Coords) (k0_t1 : Fin k0_t1_loop.trips) (v2365 : IVec S16 32), Decidable (k0_chk776 i k0_t1 v2365) := fun i k0_t1 v2365 => decidable_of_iff' _ (Iff.of_eq (k0_chk776.eq_1 i k0_t1 v2365))
theorem k0_idx776_inb : ∀ (i : grid0.Coords) (k0_t1 : Fin k0_t1_loop.trips) (v2365 : IVec S16 32) (k0_hw776 : k0_chk776 i k0_t1 v2365), ∀ (k0_h1 : k0_cond1 i k0_t1 = 1#1), ∀ a x, ((![v2365] : Fin 1 → IVec S16 32) a x).toNat < S100000.size a := fun i k0_t1 v2365 k0_hw776 k0_h1 => k0_hw776 k0_h1

def k0_chk777 (i : grid0.Coords) (k0_t1 : Fin k0_t1_loop.trips) (v2382 : IVec S16 32) : Prop :=
  (∀ (k0_h1 : k0_cond1 i k0_t1 = 1#1), ∀ a x, ((![v2382] : Fin 1 → IVec S16 32) a x).toNat < S100000.size a)
instance k0_chk777.dec : ∀ (i : grid0.Coords) (k0_t1 : Fin k0_t1_loop.trips) (v2382 : IVec S16 32), Decidable (k0_chk777 i k0_t1 v2382) := fun i k0_t1 v2382 => decidable_of_iff' _ (Iff.of_eq (k0_chk777.eq_1 i k0_t1 v2382))
theorem k0_idx777_inb : ∀ (i : grid0.Coords) (k0_t1 : Fin k0_t1_loop.trips) (v2382 : IVec S16 32) (k0_hw777 : k0_chk777 i k0_t1 v2382), ∀ (k0_h1 : k0_cond1 i k0_t1 = 1#1), ∀ a x, ((![v2382] : Fin 1 → IVec S16 32) a x).toNat < S100000.size a := fun i k0_t1 v2382 k0_hw777 k0_h1 => k0_hw777 k0_h1

def k0_chk778 (i : grid0.Coords) (k0_t1 : Fin k0_t1_loop.trips) (v2383 : IVec S16 32) : Prop :=
  (∀ (k0_h1 : k0_cond1 i k0_t1 = 1#1), ∀ a x, ((![v2383] : Fin 1 → IVec S16 32) a x).toNat < S100000.size a)
instance k0_chk778.dec : ∀ (i : grid0.Coords) (k0_t1 : Fin k0_t1_loop.trips) (v2383 : IVec S16 32), Decidable (k0_chk778 i k0_t1 v2383) := fun i k0_t1 v2383 => decidable_of_iff' _ (Iff.of_eq (k0_chk778.eq_1 i k0_t1 v2383))
theorem k0_idx778_inb : ∀ (i : grid0.Coords) (k0_t1 : Fin k0_t1_loop.trips) (v2383 : IVec S16 32) (k0_hw778 : k0_chk778 i k0_t1 v2383), ∀ (k0_h1 : k0_cond1 i k0_t1 = 1#1), ∀ a x, ((![v2383] : Fin 1 → IVec S16 32) a x).toNat < S100000.size a := fun i k0_t1 v2383 k0_hw778 k0_h1 => k0_hw778 k0_h1

def k0_chk779 (i : grid0.Coords) (k0_t1 : Fin k0_t1_loop.trips) (v2384 : IVec S16 32) : Prop :=
  (∀ (k0_h1 : k0_cond1 i k0_t1 = 1#1), ∀ a x, ((![v2384] : Fin 1 → IVec S16 32) a x).toNat < S100000.size a)
instance k0_chk779.dec : ∀ (i : grid0.Coords) (k0_t1 : Fin k0_t1_loop.trips) (v2384 : IVec S16 32), Decidable (k0_chk779 i k0_t1 v2384) := fun i k0_t1 v2384 => decidable_of_iff' _ (Iff.of_eq (k0_chk779.eq_1 i k0_t1 v2384))
theorem k0_idx779_inb : ∀ (i : grid0.Coords) (k0_t1 : Fin k0_t1_loop.trips) (v2384 : IVec S16 32) (k0_hw779 : k0_chk779 i k0_t1 v2384), ∀ (k0_h1 : k0_cond1 i k0_t1 = 1#1), ∀ a x, ((![v2384] : Fin 1 → IVec S16 32) a x).toNat < S100000.size a := fun i k0_t1 v2384 k0_hw779 k0_h1 => k0_hw779 k0_h1

def k0_chk780 (i : grid0.Coords) (k0_t1 : Fin k0_t1_loop.trips) (v2385 : IVec S16 32) : Prop :=
  (∀ (k0_h1 : k0_cond1 i k0_t1 = 1#1), ∀ a x, ((![v2385] : Fin 1 → IVec S16 32) a x).toNat < S100000.size a)
instance k0_chk780.dec : ∀ (i : grid0.Coords) (k0_t1 : Fin k0_t1_loop.trips) (v2385 : IVec S16 32), Decidable (k0_chk780 i k0_t1 v2385) := fun i k0_t1 v2385 => decidable_of_iff' _ (Iff.of_eq (k0_chk780.eq_1 i k0_t1 v2385))
theorem k0_idx780_inb : ∀ (i : grid0.Coords) (k0_t1 : Fin k0_t1_loop.trips) (v2385 : IVec S16 32) (k0_hw780 : k0_chk780 i k0_t1 v2385), ∀ (k0_h1 : k0_cond1 i k0_t1 = 1#1), ∀ a x, ((![v2385] : Fin 1 → IVec S16 32) a x).toNat < S100000.size a := fun i k0_t1 v2385 k0_hw780 k0_h1 => k0_hw780 k0_h1

def k0_chk781 (i : grid0.Coords) (k0_t1 : Fin k0_t1_loop.trips) (v2386 : IVec S16 32) : Prop :=
  (∀ (k0_h1 : k0_cond1 i k0_t1 = 1#1), ∀ a x, ((![v2386] : Fin 1 → IVec S16 32) a x).toNat < S100000.size a)
instance k0_chk781.dec : ∀ (i : grid0.Coords) (k0_t1 : Fin k0_t1_loop.trips) (v2386 : IVec S16 32), Decidable (k0_chk781 i k0_t1 v2386) := fun i k0_t1 v2386 => decidable_of_iff' _ (Iff.of_eq (k0_chk781.eq_1 i k0_t1 v2386))
theorem k0_idx781_inb : ∀ (i : grid0.Coords) (k0_t1 : Fin k0_t1_loop.trips) (v2386 : IVec S16 32) (k0_hw781 : k0_chk781 i k0_t1 v2386), ∀ (k0_h1 : k0_cond1 i k0_t1 = 1#1), ∀ a x, ((![v2386] : Fin 1 → IVec S16 32) a x).toNat < S100000.size a := fun i k0_t1 v2386 k0_hw781 k0_h1 => k0_hw781 k0_h1

def k0_chk782 (i : grid0.Coords) (k0_t1 : Fin k0_t1_loop.trips) (v2387 : IVec S16 32) : Prop :=
  (∀ (k0_h1 : k0_cond1 i k0_t1 = 1#1), ∀ a x, ((![v2387] : Fin 1 → IVec S16 32) a x).toNat < S100000.size a)
instance k0_chk782.dec : ∀ (i : grid0.Coords) (k0_t1 : Fin k0_t1_loop.trips) (v2387 : IVec S16 32), Decidable (k0_chk782 i k0_t1 v2387) := fun i k0_t1 v2387 => decidable_of_iff' _ (Iff.of_eq (k0_chk782.eq_1 i k0_t1 v2387))
theorem k0_idx782_inb : ∀ (i : grid0.Coords) (k0_t1 : Fin k0_t1_loop.trips) (v2387 : IVec S16 32) (k0_hw782 : k0_chk782 i k0_t1 v2387), ∀ (k0_h1 : k0_cond1 i k0_t1 = 1#1), ∀ a x, ((![v2387] : Fin 1 → IVec S16 32) a x).toNat < S100000.size a := fun i k0_t1 v2387 k0_hw782 k0_h1 => k0_hw782 k0_h1

def k0_chk783 (i : grid0.Coords) (k0_t1 : Fin k0_t1_loop.trips) (v2388 : IVec S16 32) : Prop :=
  (∀ (k0_h1 : k0_cond1 i k0_t1 = 1#1), ∀ a x, ((![v2388] : Fin 1 → IVec S16 32) a x).toNat < S100000.size a)
instance k0_chk783.dec : ∀ (i : grid0.Coords) (k0_t1 : Fin k0_t1_loop.trips) (v2388 : IVec S16 32), Decidable (k0_chk783 i k0_t1 v2388) := fun i k0_t1 v2388 => decidable_of_iff' _ (Iff.of_eq (k0_chk783.eq_1 i k0_t1 v2388))
theorem k0_idx783_inb : ∀ (i : grid0.Coords) (k0_t1 : Fin k0_t1_loop.trips) (v2388 : IVec S16 32) (k0_hw783 : k0_chk783 i k0_t1 v2388), ∀ (k0_h1 : k0_cond1 i k0_t1 = 1#1), ∀ a x, ((![v2388] : Fin 1 → IVec S16 32) a x).toNat < S100000.size a := fun i k0_t1 v2388 k0_hw783 k0_h1 => k0_hw783 k0_h1

def k0_chk784 (i : grid0.Coords) (k0_t1 : Fin k0_t1_loop.trips) (v2389 : IVec S16 32) : Prop :=
  (∀ (k0_h1 : k0_cond1 i k0_t1 = 1#1), ∀ a x, ((![v2389] : Fin 1 → IVec S16 32) a x).toNat < S100000.size a)
instance k0_chk784.dec : ∀ (i : grid0.Coords) (k0_t1 : Fin k0_t1_loop.trips) (v2389 : IVec S16 32), Decidable (k0_chk784 i k0_t1 v2389) := fun i k0_t1 v2389 => decidable_of_iff' _ (Iff.of_eq (k0_chk784.eq_1 i k0_t1 v2389))
theorem k0_idx784_inb : ∀ (i : grid0.Coords) (k0_t1 : Fin k0_t1_loop.trips) (v2389 : IVec S16 32) (k0_hw784 : k0_chk784 i k0_t1 v2389), ∀ (k0_h1 : k0_cond1 i k0_t1 = 1#1), ∀ a x, ((![v2389] : Fin 1 → IVec S16 32) a x).toNat < S100000.size a := fun i k0_t1 v2389 k0_hw784 k0_h1 => k0_hw784 k0_h1

def k0_chk785 (i : grid0.Coords) (k0_t1 : Fin k0_t1_loop.trips) (v2406 : IVec S16 32) : Prop :=
  (∀ (k0_h1 : k0_cond1 i k0_t1 = 1#1), ∀ a x, ((![v2406] : Fin 1 → IVec S16 32) a x).toNat < S100000.size a)
instance k0_chk785.dec : ∀ (i : grid0.Coords) (k0_t1 : Fin k0_t1_loop.trips) (v2406 : IVec S16 32), Decidable (k0_chk785 i k0_t1 v2406) := fun i k0_t1 v2406 => decidable_of_iff' _ (Iff.of_eq (k0_chk785.eq_1 i k0_t1 v2406))
theorem k0_idx785_inb : ∀ (i : grid0.Coords) (k0_t1 : Fin k0_t1_loop.trips) (v2406 : IVec S16 32) (k0_hw785 : k0_chk785 i k0_t1 v2406), ∀ (k0_h1 : k0_cond1 i k0_t1 = 1#1), ∀ a x, ((![v2406] : Fin 1 → IVec S16 32) a x).toNat < S100000.size a := fun i k0_t1 v2406 k0_hw785 k0_h1 => k0_hw785 k0_h1

def k0_chk786 (i : grid0.Coords) (k0_t1 : Fin k0_t1_loop.trips) (v2407 : IVec S16 32) : Prop :=
  (∀ (k0_h1 : k0_cond1 i k0_t1 = 1#1), ∀ a x, ((![v2407] : Fin 1 → IVec S16 32) a x).toNat < S100000.size a)
instance k0_chk786.dec : ∀ (i : grid0.Coords) (k0_t1 : Fin k0_t1_loop.trips) (v2407 : IVec S16 32), Decidable (k0_chk786 i k0_t1 v2407) := fun i k0_t1 v2407 => decidable_of_iff' _ (Iff.of_eq (k0_chk786.eq_1 i k0_t1 v2407))
theorem k0_idx786_inb : ∀ (i : grid0.Coords) (k0_t1 : Fin k0_t1_loop.trips) (v2407 : IVec S16 32) (k0_hw786 : k0_chk786 i k0_t1 v2407), ∀ (k0_h1 : k0_cond1 i k0_t1 = 1#1), ∀ a x, ((![v2407] : Fin 1 → IVec S16 32) a x).toNat < S100000.size a := fun i k0_t1 v2407 k0_hw786 k0_h1 => k0_hw786 k0_h1

def k0_chk787 (i : grid0.Coords) (k0_t1 : Fin k0_t1_loop.trips) (v2408 : IVec S16 32) : Prop :=
  (∀ (k0_h1 : k0_cond1 i k0_t1 = 1#1), ∀ a x, ((![v2408] : Fin 1 → IVec S16 32) a x).toNat < S100000.size a)
instance k0_chk787.dec : ∀ (i : grid0.Coords) (k0_t1 : Fin k0_t1_loop.trips) (v2408 : IVec S16 32), Decidable (k0_chk787 i k0_t1 v2408) := fun i k0_t1 v2408 => decidable_of_iff' _ (Iff.of_eq (k0_chk787.eq_1 i k0_t1 v2408))
theorem k0_idx787_inb : ∀ (i : grid0.Coords) (k0_t1 : Fin k0_t1_loop.trips) (v2408 : IVec S16 32) (k0_hw787 : k0_chk787 i k0_t1 v2408), ∀ (k0_h1 : k0_cond1 i k0_t1 = 1#1), ∀ a x, ((![v2408] : Fin 1 → IVec S16 32) a x).toNat < S100000.size a := fun i k0_t1 v2408 k0_hw787 k0_h1 => k0_hw787 k0_h1

def k0_chk788 (i : grid0.Coords) (k0_t1 : Fin k0_t1_loop.trips) (v2409 : IVec S16 32) : Prop :=
  (∀ (k0_h1 : k0_cond1 i k0_t1 = 1#1), ∀ a x, ((![v2409] : Fin 1 → IVec S16 32) a x).toNat < S100000.size a)
instance k0_chk788.dec : ∀ (i : grid0.Coords) (k0_t1 : Fin k0_t1_loop.trips) (v2409 : IVec S16 32), Decidable (k0_chk788 i k0_t1 v2409) := fun i k0_t1 v2409 => decidable_of_iff' _ (Iff.of_eq (k0_chk788.eq_1 i k0_t1 v2409))
theorem k0_idx788_inb : ∀ (i : grid0.Coords) (k0_t1 : Fin k0_t1_loop.trips) (v2409 : IVec S16 32) (k0_hw788 : k0_chk788 i k0_t1 v2409), ∀ (k0_h1 : k0_cond1 i k0_t1 = 1#1), ∀ a x, ((![v2409] : Fin 1 → IVec S16 32) a x).toNat < S100000.size a := fun i k0_t1 v2409 k0_hw788 k0_h1 => k0_hw788 k0_h1

def k0_chk789 (i : grid0.Coords) (k0_t1 : Fin k0_t1_loop.trips) (v2410 : IVec S16 32) : Prop :=
  (∀ (k0_h1 : k0_cond1 i k0_t1 = 1#1), ∀ a x, ((![v2410] : Fin 1 → IVec S16 32) a x).toNat < S100000.size a)
instance k0_chk789.dec : ∀ (i : grid0.Coords) (k0_t1 : Fin k0_t1_loop.trips) (v2410 : IVec S16 32), Decidable (k0_chk789 i k0_t1 v2410) := fun i k0_t1 v2410 => decidable_of_iff' _ (Iff.of_eq (k0_chk789.eq_1 i k0_t1 v2410))
theorem k0_idx789_inb : ∀ (i : grid0.Coords) (k0_t1 : Fin k0_t1_loop.trips) (v2410 : IVec S16 32) (k0_hw789 : k0_chk789 i k0_t1 v2410), ∀ (k0_h1 : k0_cond1 i k0_t1 = 1#1), ∀ a x, ((![v2410] : Fin 1 → IVec S16 32) a x).toNat < S100000.size a := fun i k0_t1 v2410 k0_hw789 k0_h1 => k0_hw789 k0_h1

def k0_chk790 (i : grid0.Coords) (k0_t1 : Fin k0_t1_loop.trips) (v2411 : IVec S16 32) : Prop :=
  (∀ (k0_h1 : k0_cond1 i k0_t1 = 1#1), ∀ a x, ((![v2411] : Fin 1 → IVec S16 32) a x).toNat < S100000.size a)
instance k0_chk790.dec : ∀ (i : grid0.Coords) (k0_t1 : Fin k0_t1_loop.trips) (v2411 : IVec S16 32), Decidable (k0_chk790 i k0_t1 v2411) := fun i k0_t1 v2411 => decidable_of_iff' _ (Iff.of_eq (k0_chk790.eq_1 i k0_t1 v2411))
theorem k0_idx790_inb : ∀ (i : grid0.Coords) (k0_t1 : Fin k0_t1_loop.trips) (v2411 : IVec S16 32) (k0_hw790 : k0_chk790 i k0_t1 v2411), ∀ (k0_h1 : k0_cond1 i k0_t1 = 1#1), ∀ a x, ((![v2411] : Fin 1 → IVec S16 32) a x).toNat < S100000.size a := fun i k0_t1 v2411 k0_hw790 k0_h1 => k0_hw790 k0_h1

def k0_chk791 (i : grid0.Coords) (k0_t1 : Fin k0_t1_loop.trips) (v2412 : IVec S16 32) : Prop :=
  (∀ (k0_h1 : k0_cond1 i k0_t1 = 1#1), ∀ a x, ((![v2412] : Fin 1 → IVec S16 32) a x).toNat < S100000.size a)
instance k0_chk791.dec : ∀ (i : grid0.Coords) (k0_t1 : Fin k0_t1_loop.trips) (v2412 : IVec S16 32), Decidable (k0_chk791 i k0_t1 v2412) := fun i k0_t1 v2412 => decidable_of_iff' _ (Iff.of_eq (k0_chk791.eq_1 i k0_t1 v2412))
theorem k0_idx791_inb : ∀ (i : grid0.Coords) (k0_t1 : Fin k0_t1_loop.trips) (v2412 : IVec S16 32) (k0_hw791 : k0_chk791 i k0_t1 v2412), ∀ (k0_h1 : k0_cond1 i k0_t1 = 1#1), ∀ a x, ((![v2412] : Fin 1 → IVec S16 32) a x).toNat < S100000.size a := fun i k0_t1 v2412 k0_hw791 k0_h1 => k0_hw791 k0_h1

def k0_chk792 (i : grid0.Coords) (k0_t1 : Fin k0_t1_loop.trips) (v2413 : IVec S16 32) : Prop :=
  (∀ (k0_h1 : k0_cond1 i k0_t1 = 1#1), ∀ a x, ((![v2413] : Fin 1 → IVec S16 32) a x).toNat < S100000.size a)
instance k0_chk792.dec : ∀ (i : grid0.Coords) (k0_t1 : Fin k0_t1_loop.trips) (v2413 : IVec S16 32), Decidable (k0_chk792 i k0_t1 v2413) := fun i k0_t1 v2413 => decidable_of_iff' _ (Iff.of_eq (k0_chk792.eq_1 i k0_t1 v2413))
theorem k0_idx792_inb : ∀ (i : grid0.Coords) (k0_t1 : Fin k0_t1_loop.trips) (v2413 : IVec S16 32) (k0_hw792 : k0_chk792 i k0_t1 v2413), ∀ (k0_h1 : k0_cond1 i k0_t1 = 1#1), ∀ a x, ((![v2413] : Fin 1 → IVec S16 32) a x).toNat < S100000.size a := fun i k0_t1 v2413 k0_hw792 k0_h1 => k0_hw792 k0_h1

def k0_chk793 (i : grid0.Coords) (k0_t1 : Fin k0_t1_loop.trips) (v2430 : IVec S16 32) : Prop :=
  (∀ (k0_h1 : k0_cond1 i k0_t1 = 1#1), ∀ a x, ((![v2430] : Fin 1 → IVec S16 32) a x).toNat < S100000.size a)
instance k0_chk793.dec : ∀ (i : grid0.Coords) (k0_t1 : Fin k0_t1_loop.trips) (v2430 : IVec S16 32), Decidable (k0_chk793 i k0_t1 v2430) := fun i k0_t1 v2430 => decidable_of_iff' _ (Iff.of_eq (k0_chk793.eq_1 i k0_t1 v2430))
theorem k0_idx793_inb : ∀ (i : grid0.Coords) (k0_t1 : Fin k0_t1_loop.trips) (v2430 : IVec S16 32) (k0_hw793 : k0_chk793 i k0_t1 v2430), ∀ (k0_h1 : k0_cond1 i k0_t1 = 1#1), ∀ a x, ((![v2430] : Fin 1 → IVec S16 32) a x).toNat < S100000.size a := fun i k0_t1 v2430 k0_hw793 k0_h1 => k0_hw793 k0_h1

def k0_chk794 (i : grid0.Coords) (k0_t1 : Fin k0_t1_loop.trips) (v2431 : IVec S16 32) : Prop :=
  (∀ (k0_h1 : k0_cond1 i k0_t1 = 1#1), ∀ a x, ((![v2431] : Fin 1 → IVec S16 32) a x).toNat < S100000.size a)
instance k0_chk794.dec : ∀ (i : grid0.Coords) (k0_t1 : Fin k0_t1_loop.trips) (v2431 : IVec S16 32), Decidable (k0_chk794 i k0_t1 v2431) := fun i k0_t1 v2431 => decidable_of_iff' _ (Iff.of_eq (k0_chk794.eq_1 i k0_t1 v2431))
theorem k0_idx794_inb : ∀ (i : grid0.Coords) (k0_t1 : Fin k0_t1_loop.trips) (v2431 : IVec S16 32) (k0_hw794 : k0_chk794 i k0_t1 v2431), ∀ (k0_h1 : k0_cond1 i k0_t1 = 1#1), ∀ a x, ((![v2431] : Fin 1 → IVec S16 32) a x).toNat < S100000.size a := fun i k0_t1 v2431 k0_hw794 k0_h1 => k0_hw794 k0_h1

def k0_chk795 (i : grid0.Coords) (k0_t1 : Fin k0_t1_loop.trips) (v2432 : IVec S16 32) : Prop :=
  (∀ (k0_h1 : k0_cond1 i k0_t1 = 1#1), ∀ a x, ((![v2432] : Fin 1 → IVec S16 32) a x).toNat < S100000.size a)
instance k0_chk795.dec : ∀ (i : grid0.Coords) (k0_t1 : Fin k0_t1_loop.trips) (v2432 : IVec S16 32), Decidable (k0_chk795 i k0_t1 v2432) := fun i k0_t1 v2432 => decidable_of_iff' _ (Iff.of_eq (k0_chk795.eq_1 i k0_t1 v2432))
theorem k0_idx795_inb : ∀ (i : grid0.Coords) (k0_t1 : Fin k0_t1_loop.trips) (v2432 : IVec S16 32) (k0_hw795 : k0_chk795 i k0_t1 v2432), ∀ (k0_h1 : k0_cond1 i k0_t1 = 1#1), ∀ a x, ((![v2432] : Fin 1 → IVec S16 32) a x).toNat < S100000.size a := fun i k0_t1 v2432 k0_hw795 k0_h1 => k0_hw795 k0_h1

def k0_chk796 (i : grid0.Coords) (k0_t1 : Fin k0_t1_loop.trips) (v2433 : IVec S16 32) : Prop :=
  (∀ (k0_h1 : k0_cond1 i k0_t1 = 1#1), ∀ a x, ((![v2433] : Fin 1 → IVec S16 32) a x).toNat < S100000.size a)
instance k0_chk796.dec : ∀ (i : grid0.Coords) (k0_t1 : Fin k0_t1_loop.trips) (v2433 : IVec S16 32), Decidable (k0_chk796 i k0_t1 v2433) := fun i k0_t1 v2433 => decidable_of_iff' _ (Iff.of_eq (k0_chk796.eq_1 i k0_t1 v2433))
theorem k0_idx796_inb : ∀ (i : grid0.Coords) (k0_t1 : Fin k0_t1_loop.trips) (v2433 : IVec S16 32) (k0_hw796 : k0_chk796 i k0_t1 v2433), ∀ (k0_h1 : k0_cond1 i k0_t1 = 1#1), ∀ a x, ((![v2433] : Fin 1 → IVec S16 32) a x).toNat < S100000.size a := fun i k0_t1 v2433 k0_hw796 k0_h1 => k0_hw796 k0_h1

def k0_chk797 (i : grid0.Coords) (k0_t1 : Fin k0_t1_loop.trips) (v2434 : IVec S16 32) : Prop :=
  (∀ (k0_h1 : k0_cond1 i k0_t1 = 1#1), ∀ a x, ((![v2434] : Fin 1 → IVec S16 32) a x).toNat < S100000.size a)
instance k0_chk797.dec : ∀ (i : grid0.Coords) (k0_t1 : Fin k0_t1_loop.trips) (v2434 : IVec S16 32), Decidable (k0_chk797 i k0_t1 v2434) := fun i k0_t1 v2434 => decidable_of_iff' _ (Iff.of_eq (k0_chk797.eq_1 i k0_t1 v2434))
theorem k0_idx797_inb : ∀ (i : grid0.Coords) (k0_t1 : Fin k0_t1_loop.trips) (v2434 : IVec S16 32) (k0_hw797 : k0_chk797 i k0_t1 v2434), ∀ (k0_h1 : k0_cond1 i k0_t1 = 1#1), ∀ a x, ((![v2434] : Fin 1 → IVec S16 32) a x).toNat < S100000.size a := fun i k0_t1 v2434 k0_hw797 k0_h1 => k0_hw797 k0_h1

def k0_chk798 (i : grid0.Coords) (k0_t1 : Fin k0_t1_loop.trips) (v2435 : IVec S16 32) : Prop :=
  (∀ (k0_h1 : k0_cond1 i k0_t1 = 1#1), ∀ a x, ((![v2435] : Fin 1 → IVec S16 32) a x).toNat < S100000.size a)
instance k0_chk798.dec : ∀ (i : grid0.Coords) (k0_t1 : Fin k0_t1_loop.trips) (v2435 : IVec S16 32), Decidable (k0_chk798 i k0_t1 v2435) := fun i k0_t1 v2435 => decidable_of_iff' _ (Iff.of_eq (k0_chk798.eq_1 i k0_t1 v2435))
theorem k0_idx798_inb : ∀ (i : grid0.Coords) (k0_t1 : Fin k0_t1_loop.trips) (v2435 : IVec S16 32) (k0_hw798 : k0_chk798 i k0_t1 v2435), ∀ (k0_h1 : k0_cond1 i k0_t1 = 1#1), ∀ a x, ((![v2435] : Fin 1 → IVec S16 32) a x).toNat < S100000.size a := fun i k0_t1 v2435 k0_hw798 k0_h1 => k0_hw798 k0_h1

def k0_chk799 (i : grid0.Coords) (k0_t1 : Fin k0_t1_loop.trips) (v2436 : IVec S16 32) : Prop :=
  (∀ (k0_h1 : k0_cond1 i k0_t1 = 1#1), ∀ a x, ((![v2436] : Fin 1 → IVec S16 32) a x).toNat < S100000.size a)
instance k0_chk799.dec : ∀ (i : grid0.Coords) (k0_t1 : Fin k0_t1_loop.trips) (v2436 : IVec S16 32), Decidable (k0_chk799 i k0_t1 v2436) := fun i k0_t1 v2436 => decidable_of_iff' _ (Iff.of_eq (k0_chk799.eq_1 i k0_t1 v2436))
theorem k0_idx799_inb : ∀ (i : grid0.Coords) (k0_t1 : Fin k0_t1_loop.trips) (v2436 : IVec S16 32) (k0_hw799 : k0_chk799 i k0_t1 v2436), ∀ (k0_h1 : k0_cond1 i k0_t1 = 1#1), ∀ a x, ((![v2436] : Fin 1 → IVec S16 32) a x).toNat < S100000.size a := fun i k0_t1 v2436 k0_hw799 k0_h1 => k0_hw799 k0_h1

def k0_chk800 (i : grid0.Coords) (k0_t1 : Fin k0_t1_loop.trips) (v2437 : IVec S16 32) : Prop :=
  (∀ (k0_h1 : k0_cond1 i k0_t1 = 1#1), ∀ a x, ((![v2437] : Fin 1 → IVec S16 32) a x).toNat < S100000.size a)
instance k0_chk800.dec : ∀ (i : grid0.Coords) (k0_t1 : Fin k0_t1_loop.trips) (v2437 : IVec S16 32), Decidable (k0_chk800 i k0_t1 v2437) := fun i k0_t1 v2437 => decidable_of_iff' _ (Iff.of_eq (k0_chk800.eq_1 i k0_t1 v2437))
theorem k0_idx800_inb : ∀ (i : grid0.Coords) (k0_t1 : Fin k0_t1_loop.trips) (v2437 : IVec S16 32) (k0_hw800 : k0_chk800 i k0_t1 v2437), ∀ (k0_h1 : k0_cond1 i k0_t1 = 1#1), ∀ a x, ((![v2437] : Fin 1 → IVec S16 32) a x).toNat < S100000.size a := fun i k0_t1 v2437 k0_hw800 k0_h1 => k0_hw800 k0_h1

def k0_chk801 (i : grid0.Coords) (k0_t1 : Fin k0_t1_loop.trips) (v2454 : IVec S16 32) : Prop :=
  (∀ (k0_h1 : k0_cond1 i k0_t1 = 1#1), ∀ a x, ((![v2454] : Fin 1 → IVec S16 32) a x).toNat < S100000.size a)
instance k0_chk801.dec : ∀ (i : grid0.Coords) (k0_t1 : Fin k0_t1_loop.trips) (v2454 : IVec S16 32), Decidable (k0_chk801 i k0_t1 v2454) := fun i k0_t1 v2454 => decidable_of_iff' _ (Iff.of_eq (k0_chk801.eq_1 i k0_t1 v2454))
theorem k0_idx801_inb : ∀ (i : grid0.Coords) (k0_t1 : Fin k0_t1_loop.trips) (v2454 : IVec S16 32) (k0_hw801 : k0_chk801 i k0_t1 v2454), ∀ (k0_h1 : k0_cond1 i k0_t1 = 1#1), ∀ a x, ((![v2454] : Fin 1 → IVec S16 32) a x).toNat < S100000.size a := fun i k0_t1 v2454 k0_hw801 k0_h1 => k0_hw801 k0_h1

def k0_chk802 (i : grid0.Coords) (k0_t1 : Fin k0_t1_loop.trips) (v2455 : IVec S16 32) : Prop :=
  (∀ (k0_h1 : k0_cond1 i k0_t1 = 1#1), ∀ a x, ((![v2455] : Fin 1 → IVec S16 32) a x).toNat < S100000.size a)
instance k0_chk802.dec : ∀ (i : grid0.Coords) (k0_t1 : Fin k0_t1_loop.trips) (v2455 : IVec S16 32), Decidable (k0_chk802 i k0_t1 v2455) := fun i k0_t1 v2455 => decidable_of_iff' _ (Iff.of_eq (k0_chk802.eq_1 i k0_t1 v2455))
theorem k0_idx802_inb : ∀ (i : grid0.Coords) (k0_t1 : Fin k0_t1_loop.trips) (v2455 : IVec S16 32) (k0_hw802 : k0_chk802 i k0_t1 v2455), ∀ (k0_h1 : k0_cond1 i k0_t1 = 1#1), ∀ a x, ((![v2455] : Fin 1 → IVec S16 32) a x).toNat < S100000.size a := fun i k0_t1 v2455 k0_hw802 k0_h1 => k0_hw802 k0_h1

def k0_chk803 (i : grid0.Coords) (k0_t1 : Fin k0_t1_loop.trips) (v2456 : IVec S16 32) : Prop :=
  (∀ (k0_h1 : k0_cond1 i k0_t1 = 1#1), ∀ a x, ((![v2456] : Fin 1 → IVec S16 32) a x).toNat < S100000.size a)
instance k0_chk803.dec : ∀ (i : grid0.Coords) (k0_t1 : Fin k0_t1_loop.trips) (v2456 : IVec S16 32), Decidable (k0_chk803 i k0_t1 v2456) := fun i k0_t1 v2456 => decidable_of_iff' _ (Iff.of_eq (k0_chk803.eq_1 i k0_t1 v2456))
theorem k0_idx803_inb : ∀ (i : grid0.Coords) (k0_t1 : Fin k0_t1_loop.trips) (v2456 : IVec S16 32) (k0_hw803 : k0_chk803 i k0_t1 v2456), ∀ (k0_h1 : k0_cond1 i k0_t1 = 1#1), ∀ a x, ((![v2456] : Fin 1 → IVec S16 32) a x).toNat < S100000.size a := fun i k0_t1 v2456 k0_hw803 k0_h1 => k0_hw803 k0_h1

def k0_chk804 (i : grid0.Coords) (k0_t1 : Fin k0_t1_loop.trips) (v2457 : IVec S16 32) : Prop :=
  (∀ (k0_h1 : k0_cond1 i k0_t1 = 1#1), ∀ a x, ((![v2457] : Fin 1 → IVec S16 32) a x).toNat < S100000.size a)
instance k0_chk804.dec : ∀ (i : grid0.Coords) (k0_t1 : Fin k0_t1_loop.trips) (v2457 : IVec S16 32), Decidable (k0_chk804 i k0_t1 v2457) := fun i k0_t1 v2457 => decidable_of_iff' _ (Iff.of_eq (k0_chk804.eq_1 i k0_t1 v2457))
theorem k0_idx804_inb : ∀ (i : grid0.Coords) (k0_t1 : Fin k0_t1_loop.trips) (v2457 : IVec S16 32) (k0_hw804 : k0_chk804 i k0_t1 v2457), ∀ (k0_h1 : k0_cond1 i k0_t1 = 1#1), ∀ a x, ((![v2457] : Fin 1 → IVec S16 32) a x).toNat < S100000.size a := fun i k0_t1 v2457 k0_hw804 k0_h1 => k0_hw804 k0_h1

def k0_chk805 (i : grid0.Coords) (k0_t1 : Fin k0_t1_loop.trips) (v2458 : IVec S16 32) : Prop :=
  (∀ (k0_h1 : k0_cond1 i k0_t1 = 1#1), ∀ a x, ((![v2458] : Fin 1 → IVec S16 32) a x).toNat < S100000.size a)
instance k0_chk805.dec : ∀ (i : grid0.Coords) (k0_t1 : Fin k0_t1_loop.trips) (v2458 : IVec S16 32), Decidable (k0_chk805 i k0_t1 v2458) := fun i k0_t1 v2458 => decidable_of_iff' _ (Iff.of_eq (k0_chk805.eq_1 i k0_t1 v2458))
theorem k0_idx805_inb : ∀ (i : grid0.Coords) (k0_t1 : Fin k0_t1_loop.trips) (v2458 : IVec S16 32) (k0_hw805 : k0_chk805 i k0_t1 v2458), ∀ (k0_h1 : k0_cond1 i k0_t1 = 1#1), ∀ a x, ((![v2458] : Fin 1 → IVec S16 32) a x).toNat < S100000.size a := fun i k0_t1 v2458 k0_hw805 k0_h1 => k0_hw805 k0_h1

def k0_chk806 (i : grid0.Coords) (k0_t1 : Fin k0_t1_loop.trips) (v2459 : IVec S16 32) : Prop :=
  (∀ (k0_h1 : k0_cond1 i k0_t1 = 1#1), ∀ a x, ((![v2459] : Fin 1 → IVec S16 32) a x).toNat < S100000.size a)
instance k0_chk806.dec : ∀ (i : grid0.Coords) (k0_t1 : Fin k0_t1_loop.trips) (v2459 : IVec S16 32), Decidable (k0_chk806 i k0_t1 v2459) := fun i k0_t1 v2459 => decidable_of_iff' _ (Iff.of_eq (k0_chk806.eq_1 i k0_t1 v2459))
theorem k0_idx806_inb : ∀ (i : grid0.Coords) (k0_t1 : Fin k0_t1_loop.trips) (v2459 : IVec S16 32) (k0_hw806 : k0_chk806 i k0_t1 v2459), ∀ (k0_h1 : k0_cond1 i k0_t1 = 1#1), ∀ a x, ((![v2459] : Fin 1 → IVec S16 32) a x).toNat < S100000.size a := fun i k0_t1 v2459 k0_hw806 k0_h1 => k0_hw806 k0_h1

def k0_chk807 (i : grid0.Coords) (k0_t1 : Fin k0_t1_loop.trips) (v2460 : IVec S16 32) : Prop :=
  (∀ (k0_h1 : k0_cond1 i k0_t1 = 1#1), ∀ a x, ((![v2460] : Fin 1 → IVec S16 32) a x).toNat < S100000.size a)
instance k0_chk807.dec : ∀ (i : grid0.Coords) (k0_t1 : Fin k0_t1_loop.trips) (v2460 : IVec S16 32), Decidable (k0_chk807 i k0_t1 v2460) := fun i k0_t1 v2460 => decidable_of_iff' _ (Iff.of_eq (k0_chk807.eq_1 i k0_t1 v2460))
theorem k0_idx807_inb : ∀ (i : grid0.Coords) (k0_t1 : Fin k0_t1_loop.trips) (v2460 : IVec S16 32) (k0_hw807 : k0_chk807 i k0_t1 v2460), ∀ (k0_h1 : k0_cond1 i k0_t1 = 1#1), ∀ a x, ((![v2460] : Fin 1 → IVec S16 32) a x).toNat < S100000.size a := fun i k0_t1 v2460 k0_hw807 k0_h1 => k0_hw807 k0_h1

def k0_chk808 (i : grid0.Coords) (k0_t1 : Fin k0_t1_loop.trips) (v2461 : IVec S16 32) : Prop :=
  (∀ (k0_h1 : k0_cond1 i k0_t1 = 1#1), ∀ a x, ((![v2461] : Fin 1 → IVec S16 32) a x).toNat < S100000.size a)
instance k0_chk808.dec : ∀ (i : grid0.Coords) (k0_t1 : Fin k0_t1_loop.trips) (v2461 : IVec S16 32), Decidable (k0_chk808 i k0_t1 v2461) := fun i k0_t1 v2461 => decidable_of_iff' _ (Iff.of_eq (k0_chk808.eq_1 i k0_t1 v2461))
theorem k0_idx808_inb : ∀ (i : grid0.Coords) (k0_t1 : Fin k0_t1_loop.trips) (v2461 : IVec S16 32) (k0_hw808 : k0_chk808 i k0_t1 v2461), ∀ (k0_h1 : k0_cond1 i k0_t1 = 1#1), ∀ a x, ((![v2461] : Fin 1 → IVec S16 32) a x).toNat < S100000.size a := fun i k0_t1 v2461 k0_hw808 k0_h1 => k0_hw808 k0_h1

def k0_chk809 (i : grid0.Coords) (k0_t1 : Fin k0_t1_loop.trips) (v2478 : IVec S16 32) : Prop :=
  (∀ (k0_h1 : k0_cond1 i k0_t1 = 1#1), ∀ a x, ((![v2478] : Fin 1 → IVec S16 32) a x).toNat < S100000.size a)
instance k0_chk809.dec : ∀ (i : grid0.Coords) (k0_t1 : Fin k0_t1_loop.trips) (v2478 : IVec S16 32), Decidable (k0_chk809 i k0_t1 v2478) := fun i k0_t1 v2478 => decidable_of_iff' _ (Iff.of_eq (k0_chk809.eq_1 i k0_t1 v2478))
theorem k0_idx809_inb : ∀ (i : grid0.Coords) (k0_t1 : Fin k0_t1_loop.trips) (v2478 : IVec S16 32) (k0_hw809 : k0_chk809 i k0_t1 v2478), ∀ (k0_h1 : k0_cond1 i k0_t1 = 1#1), ∀ a x, ((![v2478] : Fin 1 → IVec S16 32) a x).toNat < S100000.size a := fun i k0_t1 v2478 k0_hw809 k0_h1 => k0_hw809 k0_h1

def k0_chk810 (i : grid0.Coords) (k0_t1 : Fin k0_t1_loop.trips) (v2479 : IVec S16 32) : Prop :=
  (∀ (k0_h1 : k0_cond1 i k0_t1 = 1#1), ∀ a x, ((![v2479] : Fin 1 → IVec S16 32) a x).toNat < S100000.size a)
instance k0_chk810.dec : ∀ (i : grid0.Coords) (k0_t1 : Fin k0_t1_loop.trips) (v2479 : IVec S16 32), Decidable (k0_chk810 i k0_t1 v2479) := fun i k0_t1 v2479 => decidable_of_iff' _ (Iff.of_eq (k0_chk810.eq_1 i k0_t1 v2479))
theorem k0_idx810_inb : ∀ (i : grid0.Coords) (k0_t1 : Fin k0_t1_loop.trips) (v2479 : IVec S16 32) (k0_hw810 : k0_chk810 i k0_t1 v2479), ∀ (k0_h1 : k0_cond1 i k0_t1 = 1#1), ∀ a x, ((![v2479] : Fin 1 → IVec S16 32) a x).toNat < S100000.size a := fun i k0_t1 v2479 k0_hw810 k0_h1 => k0_hw810 k0_h1

def k0_chk811 (i : grid0.Coords) (k0_t1 : Fin k0_t1_loop.trips) (v2480 : IVec S16 32) : Prop :=
  (∀ (k0_h1 : k0_cond1 i k0_t1 = 1#1), ∀ a x, ((![v2480] : Fin 1 → IVec S16 32) a x).toNat < S100000.size a)
instance k0_chk811.dec : ∀ (i : grid0.Coords) (k0_t1 : Fin k0_t1_loop.trips) (v2480 : IVec S16 32), Decidable (k0_chk811 i k0_t1 v2480) := fun i k0_t1 v2480 => decidable_of_iff' _ (Iff.of_eq (k0_chk811.eq_1 i k0_t1 v2480))
theorem k0_idx811_inb : ∀ (i : grid0.Coords) (k0_t1 : Fin k0_t1_loop.trips) (v2480 : IVec S16 32) (k0_hw811 : k0_chk811 i k0_t1 v2480), ∀ (k0_h1 : k0_cond1 i k0_t1 = 1#1), ∀ a x, ((![v2480] : Fin 1 → IVec S16 32) a x).toNat < S100000.size a := fun i k0_t1 v2480 k0_hw811 k0_h1 => k0_hw811 k0_h1

def k0_chk812 (i : grid0.Coords) (k0_t1 : Fin k0_t1_loop.trips) (v2481 : IVec S16 32) : Prop :=
  (∀ (k0_h1 : k0_cond1 i k0_t1 = 1#1), ∀ a x, ((![v2481] : Fin 1 → IVec S16 32) a x).toNat < S100000.size a)
instance k0_chk812.dec : ∀ (i : grid0.Coords) (k0_t1 : Fin k0_t1_loop.trips) (v2481 : IVec S16 32), Decidable (k0_chk812 i k0_t1 v2481) := fun i k0_t1 v2481 => decidable_of_iff' _ (Iff.of_eq (k0_chk812.eq_1 i k0_t1 v2481))
theorem k0_idx812_inb : ∀ (i : grid0.Coords) (k0_t1 : Fin k0_t1_loop.trips) (v2481 : IVec S16 32) (k0_hw812 : k0_chk812 i k0_t1 v2481), ∀ (k0_h1 : k0_cond1 i k0_t1 = 1#1), ∀ a x, ((![v2481] : Fin 1 → IVec S16 32) a x).toNat < S100000.size a := fun i k0_t1 v2481 k0_hw812 k0_h1 => k0_hw812 k0_h1

def k0_chk813 (i : grid0.Coords) (k0_t1 : Fin k0_t1_loop.trips) (v2482 : IVec S16 32) : Prop :=
  (∀ (k0_h1 : k0_cond1 i k0_t1 = 1#1), ∀ a x, ((![v2482] : Fin 1 → IVec S16 32) a x).toNat < S100000.size a)
instance k0_chk813.dec : ∀ (i : grid0.Coords) (k0_t1 : Fin k0_t1_loop.trips) (v2482 : IVec S16 32), Decidable (k0_chk813 i k0_t1 v2482) := fun i k0_t1 v2482 => decidable_of_iff' _ (Iff.of_eq (k0_chk813.eq_1 i k0_t1 v2482))
theorem k0_idx813_inb : ∀ (i : grid0.Coords) (k0_t1 : Fin k0_t1_loop.trips) (v2482 : IVec S16 32) (k0_hw813 : k0_chk813 i k0_t1 v2482), ∀ (k0_h1 : k0_cond1 i k0_t1 = 1#1), ∀ a x, ((![v2482] : Fin 1 → IVec S16 32) a x).toNat < S100000.size a := fun i k0_t1 v2482 k0_hw813 k0_h1 => k0_hw813 k0_h1

def k0_chk814 (i : grid0.Coords) (k0_t1 : Fin k0_t1_loop.trips) (v2483 : IVec S16 32) : Prop :=
  (∀ (k0_h1 : k0_cond1 i k0_t1 = 1#1), ∀ a x, ((![v2483] : Fin 1 → IVec S16 32) a x).toNat < S100000.size a)
instance k0_chk814.dec : ∀ (i : grid0.Coords) (k0_t1 : Fin k0_t1_loop.trips) (v2483 : IVec S16 32), Decidable (k0_chk814 i k0_t1 v2483) := fun i k0_t1 v2483 => decidable_of_iff' _ (Iff.of_eq (k0_chk814.eq_1 i k0_t1 v2483))
theorem k0_idx814_inb : ∀ (i : grid0.Coords) (k0_t1 : Fin k0_t1_loop.trips) (v2483 : IVec S16 32) (k0_hw814 : k0_chk814 i k0_t1 v2483), ∀ (k0_h1 : k0_cond1 i k0_t1 = 1#1), ∀ a x, ((![v2483] : Fin 1 → IVec S16 32) a x).toNat < S100000.size a := fun i k0_t1 v2483 k0_hw814 k0_h1 => k0_hw814 k0_h1

def k0_chk815 (i : grid0.Coords) (k0_t1 : Fin k0_t1_loop.trips) (v2484 : IVec S16 32) : Prop :=
  (∀ (k0_h1 : k0_cond1 i k0_t1 = 1#1), ∀ a x, ((![v2484] : Fin 1 → IVec S16 32) a x).toNat < S100000.size a)
instance k0_chk815.dec : ∀ (i : grid0.Coords) (k0_t1 : Fin k0_t1_loop.trips) (v2484 : IVec S16 32), Decidable (k0_chk815 i k0_t1 v2484) := fun i k0_t1 v2484 => decidable_of_iff' _ (Iff.of_eq (k0_chk815.eq_1 i k0_t1 v2484))
theorem k0_idx815_inb : ∀ (i : grid0.Coords) (k0_t1 : Fin k0_t1_loop.trips) (v2484 : IVec S16 32) (k0_hw815 : k0_chk815 i k0_t1 v2484), ∀ (k0_h1 : k0_cond1 i k0_t1 = 1#1), ∀ a x, ((![v2484] : Fin 1 → IVec S16 32) a x).toNat < S100000.size a := fun i k0_t1 v2484 k0_hw815 k0_h1 => k0_hw815 k0_h1

def k0_chk816 (i : grid0.Coords) (k0_t1 : Fin k0_t1_loop.trips) (v2485 : IVec S16 32) : Prop :=
  (∀ (k0_h1 : k0_cond1 i k0_t1 = 1#1), ∀ a x, ((![v2485] : Fin 1 → IVec S16 32) a x).toNat < S100000.size a)
instance k0_chk816.dec : ∀ (i : grid0.Coords) (k0_t1 : Fin k0_t1_loop.trips) (v2485 : IVec S16 32), Decidable (k0_chk816 i k0_t1 v2485) := fun i k0_t1 v2485 => decidable_of_iff' _ (Iff.of_eq (k0_chk816.eq_1 i k0_t1 v2485))
theorem k0_idx816_inb : ∀ (i : grid0.Coords) (k0_t1 : Fin k0_t1_loop.trips) (v2485 : IVec S16 32) (k0_hw816 : k0_chk816 i k0_t1 v2485), ∀ (k0_h1 : k0_cond1 i k0_t1 = 1#1), ∀ a x, ((![v2485] : Fin 1 → IVec S16 32) a x).toNat < S100000.size a := fun i k0_t1 v2485 k0_hw816 k0_h1 => k0_hw816 k0_h1

def k0_chk817 (i : grid0.Coords) (k0_t1 : Fin k0_t1_loop.trips) (v2502 : IVec S16 32) : Prop :=
  (∀ (k0_h1 : k0_cond1 i k0_t1 = 1#1), ∀ a x, ((![v2502] : Fin 1 → IVec S16 32) a x).toNat < S100000.size a)
instance k0_chk817.dec : ∀ (i : grid0.Coords) (k0_t1 : Fin k0_t1_loop.trips) (v2502 : IVec S16 32), Decidable (k0_chk817 i k0_t1 v2502) := fun i k0_t1 v2502 => decidable_of_iff' _ (Iff.of_eq (k0_chk817.eq_1 i k0_t1 v2502))
theorem k0_idx817_inb : ∀ (i : grid0.Coords) (k0_t1 : Fin k0_t1_loop.trips) (v2502 : IVec S16 32) (k0_hw817 : k0_chk817 i k0_t1 v2502), ∀ (k0_h1 : k0_cond1 i k0_t1 = 1#1), ∀ a x, ((![v2502] : Fin 1 → IVec S16 32) a x).toNat < S100000.size a := fun i k0_t1 v2502 k0_hw817 k0_h1 => k0_hw817 k0_h1

def k0_chk818 (i : grid0.Coords) (k0_t1 : Fin k0_t1_loop.trips) (v2503 : IVec S16 32) : Prop :=
  (∀ (k0_h1 : k0_cond1 i k0_t1 = 1#1), ∀ a x, ((![v2503] : Fin 1 → IVec S16 32) a x).toNat < S100000.size a)
instance k0_chk818.dec : ∀ (i : grid0.Coords) (k0_t1 : Fin k0_t1_loop.trips) (v2503 : IVec S16 32), Decidable (k0_chk818 i k0_t1 v2503) := fun i k0_t1 v2503 => decidable_of_iff' _ (Iff.of_eq (k0_chk818.eq_1 i k0_t1 v2503))
theorem k0_idx818_inb : ∀ (i : grid0.Coords) (k0_t1 : Fin k0_t1_loop.trips) (v2503 : IVec S16 32) (k0_hw818 : k0_chk818 i k0_t1 v2503), ∀ (k0_h1 : k0_cond1 i k0_t1 = 1#1), ∀ a x, ((![v2503] : Fin 1 → IVec S16 32) a x).toNat < S100000.size a := fun i k0_t1 v2503 k0_hw818 k0_h1 => k0_hw818 k0_h1

def k0_chk819 (i : grid0.Coords) (k0_t1 : Fin k0_t1_loop.trips) (v2504 : IVec S16 32) : Prop :=
  (∀ (k0_h1 : k0_cond1 i k0_t1 = 1#1), ∀ a x, ((![v2504] : Fin 1 → IVec S16 32) a x).toNat < S100000.size a)
instance k0_chk819.dec : ∀ (i : grid0.Coords) (k0_t1 : Fin k0_t1_loop.trips) (v2504 : IVec S16 32), Decidable (k0_chk819 i k0_t1 v2504) := fun i k0_t1 v2504 => decidable_of_iff' _ (Iff.of_eq (k0_chk819.eq_1 i k0_t1 v2504))
theorem k0_idx819_inb : ∀ (i : grid0.Coords) (k0_t1 : Fin k0_t1_loop.trips) (v2504 : IVec S16 32) (k0_hw819 : k0_chk819 i k0_t1 v2504), ∀ (k0_h1 : k0_cond1 i k0_t1 = 1#1), ∀ a x, ((![v2504] : Fin 1 → IVec S16 32) a x).toNat < S100000.size a := fun i k0_t1 v2504 k0_hw819 k0_h1 => k0_hw819 k0_h1

def k0_chk820 (i : grid0.Coords) (k0_t1 : Fin k0_t1_loop.trips) (v2505 : IVec S16 32) : Prop :=
  (∀ (k0_h1 : k0_cond1 i k0_t1 = 1#1), ∀ a x, ((![v2505] : Fin 1 → IVec S16 32) a x).toNat < S100000.size a)
instance k0_chk820.dec : ∀ (i : grid0.Coords) (k0_t1 : Fin k0_t1_loop.trips) (v2505 : IVec S16 32), Decidable (k0_chk820 i k0_t1 v2505) := fun i k0_t1 v2505 => decidable_of_iff' _ (Iff.of_eq (k0_chk820.eq_1 i k0_t1 v2505))
theorem k0_idx820_inb : ∀ (i : grid0.Coords) (k0_t1 : Fin k0_t1_loop.trips) (v2505 : IVec S16 32) (k0_hw820 : k0_chk820 i k0_t1 v2505), ∀ (k0_h1 : k0_cond1 i k0_t1 = 1#1), ∀ a x, ((![v2505] : Fin 1 → IVec S16 32) a x).toNat < S100000.size a := fun i k0_t1 v2505 k0_hw820 k0_h1 => k0_hw820 k0_h1

def k0_chk821 (i : grid0.Coords) (k0_t1 : Fin k0_t1_loop.trips) (v2506 : IVec S16 32) : Prop :=
  (∀ (k0_h1 : k0_cond1 i k0_t1 = 1#1), ∀ a x, ((![v2506] : Fin 1 → IVec S16 32) a x).toNat < S100000.size a)
instance k0_chk821.dec : ∀ (i : grid0.Coords) (k0_t1 : Fin k0_t1_loop.trips) (v2506 : IVec S16 32), Decidable (k0_chk821 i k0_t1 v2506) := fun i k0_t1 v2506 => decidable_of_iff' _ (Iff.of_eq (k0_chk821.eq_1 i k0_t1 v2506))
theorem k0_idx821_inb : ∀ (i : grid0.Coords) (k0_t1 : Fin k0_t1_loop.trips) (v2506 : IVec S16 32) (k0_hw821 : k0_chk821 i k0_t1 v2506), ∀ (k0_h1 : k0_cond1 i k0_t1 = 1#1), ∀ a x, ((![v2506] : Fin 1 → IVec S16 32) a x).toNat < S100000.size a := fun i k0_t1 v2506 k0_hw821 k0_h1 => k0_hw821 k0_h1

def k0_chk822 (i : grid0.Coords) (k0_t1 : Fin k0_t1_loop.trips) (v2507 : IVec S16 32) : Prop :=
  (∀ (k0_h1 : k0_cond1 i k0_t1 = 1#1), ∀ a x, ((![v2507] : Fin 1 → IVec S16 32) a x).toNat < S100000.size a)
instance k0_chk822.dec : ∀ (i : grid0.Coords) (k0_t1 : Fin k0_t1_loop.trips) (v2507 : IVec S16 32), Decidable (k0_chk822 i k0_t1 v2507) := fun i k0_t1 v2507 => decidable_of_iff' _ (Iff.of_eq (k0_chk822.eq_1 i k0_t1 v2507))
theorem k0_idx822_inb : ∀ (i : grid0.Coords) (k0_t1 : Fin k0_t1_loop.trips) (v2507 : IVec S16 32) (k0_hw822 : k0_chk822 i k0_t1 v2507), ∀ (k0_h1 : k0_cond1 i k0_t1 = 1#1), ∀ a x, ((![v2507] : Fin 1 → IVec S16 32) a x).toNat < S100000.size a := fun i k0_t1 v2507 k0_hw822 k0_h1 => k0_hw822 k0_h1

def k0_chk823 (i : grid0.Coords) (k0_t1 : Fin k0_t1_loop.trips) (v2508 : IVec S16 32) : Prop :=
  (∀ (k0_h1 : k0_cond1 i k0_t1 = 1#1), ∀ a x, ((![v2508] : Fin 1 → IVec S16 32) a x).toNat < S100000.size a)
instance k0_chk823.dec : ∀ (i : grid0.Coords) (k0_t1 : Fin k0_t1_loop.trips) (v2508 : IVec S16 32), Decidable (k0_chk823 i k0_t1 v2508) := fun i k0_t1 v2508 => decidable_of_iff' _ (Iff.of_eq (k0_chk823.eq_1 i k0_t1 v2508))
theorem k0_idx823_inb : ∀ (i : grid0.Coords) (k0_t1 : Fin k0_t1_loop.trips) (v2508 : IVec S16 32) (k0_hw823 : k0_chk823 i k0_t1 v2508), ∀ (k0_h1 : k0_cond1 i k0_t1 = 1#1), ∀ a x, ((![v2508] : Fin 1 → IVec S16 32) a x).toNat < S100000.size a := fun i k0_t1 v2508 k0_hw823 k0_h1 => k0_hw823 k0_h1

def k0_chk824 (i : grid0.Coords) (k0_t1 : Fin k0_t1_loop.trips) (v2509 : IVec S16 32) : Prop :=
  (∀ (k0_h1 : k0_cond1 i k0_t1 = 1#1), ∀ a x, ((![v2509] : Fin 1 → IVec S16 32) a x).toNat < S100000.size a)
instance k0_chk824.dec : ∀ (i : grid0.Coords) (k0_t1 : Fin k0_t1_loop.trips) (v2509 : IVec S16 32), Decidable (k0_chk824 i k0_t1 v2509) := fun i k0_t1 v2509 => decidable_of_iff' _ (Iff.of_eq (k0_chk824.eq_1 i k0_t1 v2509))
theorem k0_idx824_inb : ∀ (i : grid0.Coords) (k0_t1 : Fin k0_t1_loop.trips) (v2509 : IVec S16 32) (k0_hw824 : k0_chk824 i k0_t1 v2509), ∀ (k0_h1 : k0_cond1 i k0_t1 = 1#1), ∀ a x, ((![v2509] : Fin 1 → IVec S16 32) a x).toNat < S100000.size a := fun i k0_t1 v2509 k0_hw824 k0_h1 => k0_hw824 k0_h1

def k0_chk825 (i : grid0.Coords) (k0_t1 : Fin k0_t1_loop.trips) (v2526 : IVec S16 32) : Prop :=
  (∀ (k0_h1 : k0_cond1 i k0_t1 = 1#1), ∀ a x, ((![v2526] : Fin 1 → IVec S16 32) a x).toNat < S100000.size a)
instance k0_chk825.dec : ∀ (i : grid0.Coords) (k0_t1 : Fin k0_t1_loop.trips) (v2526 : IVec S16 32), Decidable (k0_chk825 i k0_t1 v2526) := fun i k0_t1 v2526 => decidable_of_iff' _ (Iff.of_eq (k0_chk825.eq_1 i k0_t1 v2526))
theorem k0_idx825_inb : ∀ (i : grid0.Coords) (k0_t1 : Fin k0_t1_loop.trips) (v2526 : IVec S16 32) (k0_hw825 : k0_chk825 i k0_t1 v2526), ∀ (k0_h1 : k0_cond1 i k0_t1 = 1#1), ∀ a x, ((![v2526] : Fin 1 → IVec S16 32) a x).toNat < S100000.size a := fun i k0_t1 v2526 k0_hw825 k0_h1 => k0_hw825 k0_h1

def k0_chk826 (i : grid0.Coords) (k0_t1 : Fin k0_t1_loop.trips) (v2527 : IVec S16 32) : Prop :=
  (∀ (k0_h1 : k0_cond1 i k0_t1 = 1#1), ∀ a x, ((![v2527] : Fin 1 → IVec S16 32) a x).toNat < S100000.size a)
instance k0_chk826.dec : ∀ (i : grid0.Coords) (k0_t1 : Fin k0_t1_loop.trips) (v2527 : IVec S16 32), Decidable (k0_chk826 i k0_t1 v2527) := fun i k0_t1 v2527 => decidable_of_iff' _ (Iff.of_eq (k0_chk826.eq_1 i k0_t1 v2527))
theorem k0_idx826_inb : ∀ (i : grid0.Coords) (k0_t1 : Fin k0_t1_loop.trips) (v2527 : IVec S16 32) (k0_hw826 : k0_chk826 i k0_t1 v2527), ∀ (k0_h1 : k0_cond1 i k0_t1 = 1#1), ∀ a x, ((![v2527] : Fin 1 → IVec S16 32) a x).toNat < S100000.size a := fun i k0_t1 v2527 k0_hw826 k0_h1 => k0_hw826 k0_h1

def k0_chk827 (i : grid0.Coords) (k0_t1 : Fin k0_t1_loop.trips) (v2528 : IVec S16 32) : Prop :=
  (∀ (k0_h1 : k0_cond1 i k0_t1 = 1#1), ∀ a x, ((![v2528] : Fin 1 → IVec S16 32) a x).toNat < S100000.size a)
instance k0_chk827.dec : ∀ (i : grid0.Coords) (k0_t1 : Fin k0_t1_loop.trips) (v2528 : IVec S16 32), Decidable (k0_chk827 i k0_t1 v2528) := fun i k0_t1 v2528 => decidable_of_iff' _ (Iff.of_eq (k0_chk827.eq_1 i k0_t1 v2528))
theorem k0_idx827_inb : ∀ (i : grid0.Coords) (k0_t1 : Fin k0_t1_loop.trips) (v2528 : IVec S16 32) (k0_hw827 : k0_chk827 i k0_t1 v2528), ∀ (k0_h1 : k0_cond1 i k0_t1 = 1#1), ∀ a x, ((![v2528] : Fin 1 → IVec S16 32) a x).toNat < S100000.size a := fun i k0_t1 v2528 k0_hw827 k0_h1 => k0_hw827 k0_h1

def k0_chk828 (i : grid0.Coords) (k0_t1 : Fin k0_t1_loop.trips) (v2529 : IVec S16 32) : Prop :=
  (∀ (k0_h1 : k0_cond1 i k0_t1 = 1#1), ∀ a x, ((![v2529] : Fin 1 → IVec S16 32) a x).toNat < S100000.size a)
instance k0_chk828.dec : ∀ (i : grid0.Coords) (k0_t1 : Fin k0_t1_loop.trips) (v2529 : IVec S16 32), Decidable (k0_chk828 i k0_t1 v2529) := fun i k0_t1 v2529 => decidable_of_iff' _ (Iff.of_eq (k0_chk828.eq_1 i k0_t1 v2529))
theorem k0_idx828_inb : ∀ (i : grid0.Coords) (k0_t1 : Fin k0_t1_loop.trips) (v2529 : IVec S16 32) (k0_hw828 : k0_chk828 i k0_t1 v2529), ∀ (k0_h1 : k0_cond1 i k0_t1 = 1#1), ∀ a x, ((![v2529] : Fin 1 → IVec S16 32) a x).toNat < S100000.size a := fun i k0_t1 v2529 k0_hw828 k0_h1 => k0_hw828 k0_h1

def k0_chk829 (i : grid0.Coords) (k0_t1 : Fin k0_t1_loop.trips) (v2530 : IVec S16 32) : Prop :=
  (∀ (k0_h1 : k0_cond1 i k0_t1 = 1#1), ∀ a x, ((![v2530] : Fin 1 → IVec S16 32) a x).toNat < S100000.size a)
instance k0_chk829.dec : ∀ (i : grid0.Coords) (k0_t1 : Fin k0_t1_loop.trips) (v2530 : IVec S16 32), Decidable (k0_chk829 i k0_t1 v2530) := fun i k0_t1 v2530 => decidable_of_iff' _ (Iff.of_eq (k0_chk829.eq_1 i k0_t1 v2530))
theorem k0_idx829_inb : ∀ (i : grid0.Coords) (k0_t1 : Fin k0_t1_loop.trips) (v2530 : IVec S16 32) (k0_hw829 : k0_chk829 i k0_t1 v2530), ∀ (k0_h1 : k0_cond1 i k0_t1 = 1#1), ∀ a x, ((![v2530] : Fin 1 → IVec S16 32) a x).toNat < S100000.size a := fun i k0_t1 v2530 k0_hw829 k0_h1 => k0_hw829 k0_h1

def k0_chk830 (i : grid0.Coords) (k0_t1 : Fin k0_t1_loop.trips) (v2531 : IVec S16 32) : Prop :=
  (∀ (k0_h1 : k0_cond1 i k0_t1 = 1#1), ∀ a x, ((![v2531] : Fin 1 → IVec S16 32) a x).toNat < S100000.size a)
instance k0_chk830.dec : ∀ (i : grid0.Coords) (k0_t1 : Fin k0_t1_loop.trips) (v2531 : IVec S16 32), Decidable (k0_chk830 i k0_t1 v2531) := fun i k0_t1 v2531 => decidable_of_iff' _ (Iff.of_eq (k0_chk830.eq_1 i k0_t1 v2531))
theorem k0_idx830_inb : ∀ (i : grid0.Coords) (k0_t1 : Fin k0_t1_loop.trips) (v2531 : IVec S16 32) (k0_hw830 : k0_chk830 i k0_t1 v2531), ∀ (k0_h1 : k0_cond1 i k0_t1 = 1#1), ∀ a x, ((![v2531] : Fin 1 → IVec S16 32) a x).toNat < S100000.size a := fun i k0_t1 v2531 k0_hw830 k0_h1 => k0_hw830 k0_h1

def k0_chk831 (i : grid0.Coords) (k0_t1 : Fin k0_t1_loop.trips) (v2532 : IVec S16 32) : Prop :=
  (∀ (k0_h1 : k0_cond1 i k0_t1 = 1#1), ∀ a x, ((![v2532] : Fin 1 → IVec S16 32) a x).toNat < S100000.size a)
instance k0_chk831.dec : ∀ (i : grid0.Coords) (k0_t1 : Fin k0_t1_loop.trips) (v2532 : IVec S16 32), Decidable (k0_chk831 i k0_t1 v2532) := fun i k0_t1 v2532 => decidable_of_iff' _ (Iff.of_eq (k0_chk831.eq_1 i k0_t1 v2532))
theorem k0_idx831_inb : ∀ (i : grid0.Coords) (k0_t1 : Fin k0_t1_loop.trips) (v2532 : IVec S16 32) (k0_hw831 : k0_chk831 i k0_t1 v2532), ∀ (k0_h1 : k0_cond1 i k0_t1 = 1#1), ∀ a x, ((![v2532] : Fin 1 → IVec S16 32) a x).toNat < S100000.size a := fun i k0_t1 v2532 k0_hw831 k0_h1 => k0_hw831 k0_h1

def k0_chk832 (i : grid0.Coords) (k0_t1 : Fin k0_t1_loop.trips) (v2533 : IVec S16 32) : Prop :=
  (∀ (k0_h1 : k0_cond1 i k0_t1 = 1#1), ∀ a x, ((![v2533] : Fin 1 → IVec S16 32) a x).toNat < S100000.size a)
instance k0_chk832.dec : ∀ (i : grid0.Coords) (k0_t1 : Fin k0_t1_loop.trips) (v2533 : IVec S16 32), Decidable (k0_chk832 i k0_t1 v2533) := fun i k0_t1 v2533 => decidable_of_iff' _ (Iff.of_eq (k0_chk832.eq_1 i k0_t1 v2533))
theorem k0_idx832_inb : ∀ (i : grid0.Coords) (k0_t1 : Fin k0_t1_loop.trips) (v2533 : IVec S16 32) (k0_hw832 : k0_chk832 i k0_t1 v2533), ∀ (k0_h1 : k0_cond1 i k0_t1 = 1#1), ∀ a x, ((![v2533] : Fin 1 → IVec S16 32) a x).toNat < S100000.size a := fun i k0_t1 v2533 k0_hw832 k0_h1 => k0_hw832 k0_h1

def k0_chk833 (i : grid0.Coords) (k0_t1 : Fin k0_t1_loop.trips) (v2550 : IVec S16 32) : Prop :=
  (∀ (k0_h1 : k0_cond1 i k0_t1 = 1#1), ∀ a x, ((![v2550] : Fin 1 → IVec S16 32) a x).toNat < S100000.size a)
instance k0_chk833.dec : ∀ (i : grid0.Coords) (k0_t1 : Fin k0_t1_loop.trips) (v2550 : IVec S16 32), Decidable (k0_chk833 i k0_t1 v2550) := fun i k0_t1 v2550 => decidable_of_iff' _ (Iff.of_eq (k0_chk833.eq_1 i k0_t1 v2550))
theorem k0_idx833_inb : ∀ (i : grid0.Coords) (k0_t1 : Fin k0_t1_loop.trips) (v2550 : IVec S16 32) (k0_hw833 : k0_chk833 i k0_t1 v2550), ∀ (k0_h1 : k0_cond1 i k0_t1 = 1#1), ∀ a x, ((![v2550] : Fin 1 → IVec S16 32) a x).toNat < S100000.size a := fun i k0_t1 v2550 k0_hw833 k0_h1 => k0_hw833 k0_h1

def k0_chk834 (i : grid0.Coords) (k0_t1 : Fin k0_t1_loop.trips) (v2551 : IVec S16 32) : Prop :=
  (∀ (k0_h1 : k0_cond1 i k0_t1 = 1#1), ∀ a x, ((![v2551] : Fin 1 → IVec S16 32) a x).toNat < S100000.size a)
instance k0_chk834.dec : ∀ (i : grid0.Coords) (k0_t1 : Fin k0_t1_loop.trips) (v2551 : IVec S16 32), Decidable (k0_chk834 i k0_t1 v2551) := fun i k0_t1 v2551 => decidable_of_iff' _ (Iff.of_eq (k0_chk834.eq_1 i k0_t1 v2551))
theorem k0_idx834_inb : ∀ (i : grid0.Coords) (k0_t1 : Fin k0_t1_loop.trips) (v2551 : IVec S16 32) (k0_hw834 : k0_chk834 i k0_t1 v2551), ∀ (k0_h1 : k0_cond1 i k0_t1 = 1#1), ∀ a x, ((![v2551] : Fin 1 → IVec S16 32) a x).toNat < S100000.size a := fun i k0_t1 v2551 k0_hw834 k0_h1 => k0_hw834 k0_h1

def k0_chk835 (i : grid0.Coords) (k0_t1 : Fin k0_t1_loop.trips) (v2552 : IVec S16 32) : Prop :=
  (∀ (k0_h1 : k0_cond1 i k0_t1 = 1#1), ∀ a x, ((![v2552] : Fin 1 → IVec S16 32) a x).toNat < S100000.size a)
instance k0_chk835.dec : ∀ (i : grid0.Coords) (k0_t1 : Fin k0_t1_loop.trips) (v2552 : IVec S16 32), Decidable (k0_chk835 i k0_t1 v2552) := fun i k0_t1 v2552 => decidable_of_iff' _ (Iff.of_eq (k0_chk835.eq_1 i k0_t1 v2552))
theorem k0_idx835_inb : ∀ (i : grid0.Coords) (k0_t1 : Fin k0_t1_loop.trips) (v2552 : IVec S16 32) (k0_hw835 : k0_chk835 i k0_t1 v2552), ∀ (k0_h1 : k0_cond1 i k0_t1 = 1#1), ∀ a x, ((![v2552] : Fin 1 → IVec S16 32) a x).toNat < S100000.size a := fun i k0_t1 v2552 k0_hw835 k0_h1 => k0_hw835 k0_h1

def k0_chk836 (i : grid0.Coords) (k0_t1 : Fin k0_t1_loop.trips) (v2553 : IVec S16 32) : Prop :=
  (∀ (k0_h1 : k0_cond1 i k0_t1 = 1#1), ∀ a x, ((![v2553] : Fin 1 → IVec S16 32) a x).toNat < S100000.size a)
instance k0_chk836.dec : ∀ (i : grid0.Coords) (k0_t1 : Fin k0_t1_loop.trips) (v2553 : IVec S16 32), Decidable (k0_chk836 i k0_t1 v2553) := fun i k0_t1 v2553 => decidable_of_iff' _ (Iff.of_eq (k0_chk836.eq_1 i k0_t1 v2553))
theorem k0_idx836_inb : ∀ (i : grid0.Coords) (k0_t1 : Fin k0_t1_loop.trips) (v2553 : IVec S16 32) (k0_hw836 : k0_chk836 i k0_t1 v2553), ∀ (k0_h1 : k0_cond1 i k0_t1 = 1#1), ∀ a x, ((![v2553] : Fin 1 → IVec S16 32) a x).toNat < S100000.size a := fun i k0_t1 v2553 k0_hw836 k0_h1 => k0_hw836 k0_h1

def k0_chk837 (i : grid0.Coords) (k0_t1 : Fin k0_t1_loop.trips) (v2554 : IVec S16 32) : Prop :=
  (∀ (k0_h1 : k0_cond1 i k0_t1 = 1#1), ∀ a x, ((![v2554] : Fin 1 → IVec S16 32) a x).toNat < S100000.size a)
instance k0_chk837.dec : ∀ (i : grid0.Coords) (k0_t1 : Fin k0_t1_loop.trips) (v2554 : IVec S16 32), Decidable (k0_chk837 i k0_t1 v2554) := fun i k0_t1 v2554 => decidable_of_iff' _ (Iff.of_eq (k0_chk837.eq_1 i k0_t1 v2554))
theorem k0_idx837_inb : ∀ (i : grid0.Coords) (k0_t1 : Fin k0_t1_loop.trips) (v2554 : IVec S16 32) (k0_hw837 : k0_chk837 i k0_t1 v2554), ∀ (k0_h1 : k0_cond1 i k0_t1 = 1#1), ∀ a x, ((![v2554] : Fin 1 → IVec S16 32) a x).toNat < S100000.size a := fun i k0_t1 v2554 k0_hw837 k0_h1 => k0_hw837 k0_h1

def k0_chk838 (i : grid0.Coords) (k0_t1 : Fin k0_t1_loop.trips) (v2555 : IVec S16 32) : Prop :=
  (∀ (k0_h1 : k0_cond1 i k0_t1 = 1#1), ∀ a x, ((![v2555] : Fin 1 → IVec S16 32) a x).toNat < S100000.size a)
instance k0_chk838.dec : ∀ (i : grid0.Coords) (k0_t1 : Fin k0_t1_loop.trips) (v2555 : IVec S16 32), Decidable (k0_chk838 i k0_t1 v2555) := fun i k0_t1 v2555 => decidable_of_iff' _ (Iff.of_eq (k0_chk838.eq_1 i k0_t1 v2555))
theorem k0_idx838_inb : ∀ (i : grid0.Coords) (k0_t1 : Fin k0_t1_loop.trips) (v2555 : IVec S16 32) (k0_hw838 : k0_chk838 i k0_t1 v2555), ∀ (k0_h1 : k0_cond1 i k0_t1 = 1#1), ∀ a x, ((![v2555] : Fin 1 → IVec S16 32) a x).toNat < S100000.size a := fun i k0_t1 v2555 k0_hw838 k0_h1 => k0_hw838 k0_h1

def k0_chk839 (i : grid0.Coords) (k0_t1 : Fin k0_t1_loop.trips) (v2556 : IVec S16 32) : Prop :=
  (∀ (k0_h1 : k0_cond1 i k0_t1 = 1#1), ∀ a x, ((![v2556] : Fin 1 → IVec S16 32) a x).toNat < S100000.size a)
instance k0_chk839.dec : ∀ (i : grid0.Coords) (k0_t1 : Fin k0_t1_loop.trips) (v2556 : IVec S16 32), Decidable (k0_chk839 i k0_t1 v2556) := fun i k0_t1 v2556 => decidable_of_iff' _ (Iff.of_eq (k0_chk839.eq_1 i k0_t1 v2556))
theorem k0_idx839_inb : ∀ (i : grid0.Coords) (k0_t1 : Fin k0_t1_loop.trips) (v2556 : IVec S16 32) (k0_hw839 : k0_chk839 i k0_t1 v2556), ∀ (k0_h1 : k0_cond1 i k0_t1 = 1#1), ∀ a x, ((![v2556] : Fin 1 → IVec S16 32) a x).toNat < S100000.size a := fun i k0_t1 v2556 k0_hw839 k0_h1 => k0_hw839 k0_h1

def k0_chk840 (i : grid0.Coords) (k0_t1 : Fin k0_t1_loop.trips) (v2557 : IVec S16 32) : Prop :=
  (∀ (k0_h1 : k0_cond1 i k0_t1 = 1#1), ∀ a x, ((![v2557] : Fin 1 → IVec S16 32) a x).toNat < S100000.size a)
instance k0_chk840.dec : ∀ (i : grid0.Coords) (k0_t1 : Fin k0_t1_loop.trips) (v2557 : IVec S16 32), Decidable (k0_chk840 i k0_t1 v2557) := fun i k0_t1 v2557 => decidable_of_iff' _ (Iff.of_eq (k0_chk840.eq_1 i k0_t1 v2557))
theorem k0_idx840_inb : ∀ (i : grid0.Coords) (k0_t1 : Fin k0_t1_loop.trips) (v2557 : IVec S16 32) (k0_hw840 : k0_chk840 i k0_t1 v2557), ∀ (k0_h1 : k0_cond1 i k0_t1 = 1#1), ∀ a x, ((![v2557] : Fin 1 → IVec S16 32) a x).toNat < S100000.size a := fun i k0_t1 v2557 k0_hw840 k0_h1 => k0_hw840 k0_h1

def k0_chk841 (i : grid0.Coords) (k0_t1 : Fin k0_t1_loop.trips) (v2574 : IVec S16 32) : Prop :=
  (∀ (k0_h1 : k0_cond1 i k0_t1 = 1#1), ∀ a x, ((![v2574] : Fin 1 → IVec S16 32) a x).toNat < S100000.size a)
instance k0_chk841.dec : ∀ (i : grid0.Coords) (k0_t1 : Fin k0_t1_loop.trips) (v2574 : IVec S16 32), Decidable (k0_chk841 i k0_t1 v2574) := fun i k0_t1 v2574 => decidable_of_iff' _ (Iff.of_eq (k0_chk841.eq_1 i k0_t1 v2574))
theorem k0_idx841_inb : ∀ (i : grid0.Coords) (k0_t1 : Fin k0_t1_loop.trips) (v2574 : IVec S16 32) (k0_hw841 : k0_chk841 i k0_t1 v2574), ∀ (k0_h1 : k0_cond1 i k0_t1 = 1#1), ∀ a x, ((![v2574] : Fin 1 → IVec S16 32) a x).toNat < S100000.size a := fun i k0_t1 v2574 k0_hw841 k0_h1 => k0_hw841 k0_h1

def k0_chk842 (i : grid0.Coords) (k0_t1 : Fin k0_t1_loop.trips) (v2575 : IVec S16 32) : Prop :=
  (∀ (k0_h1 : k0_cond1 i k0_t1 = 1#1), ∀ a x, ((![v2575] : Fin 1 → IVec S16 32) a x).toNat < S100000.size a)
instance k0_chk842.dec : ∀ (i : grid0.Coords) (k0_t1 : Fin k0_t1_loop.trips) (v2575 : IVec S16 32), Decidable (k0_chk842 i k0_t1 v2575) := fun i k0_t1 v2575 => decidable_of_iff' _ (Iff.of_eq (k0_chk842.eq_1 i k0_t1 v2575))
theorem k0_idx842_inb : ∀ (i : grid0.Coords) (k0_t1 : Fin k0_t1_loop.trips) (v2575 : IVec S16 32) (k0_hw842 : k0_chk842 i k0_t1 v2575), ∀ (k0_h1 : k0_cond1 i k0_t1 = 1#1), ∀ a x, ((![v2575] : Fin 1 → IVec S16 32) a x).toNat < S100000.size a := fun i k0_t1 v2575 k0_hw842 k0_h1 => k0_hw842 k0_h1

def k0_chk843 (i : grid0.Coords) (k0_t1 : Fin k0_t1_loop.trips) (v2576 : IVec S16 32) : Prop :=
  (∀ (k0_h1 : k0_cond1 i k0_t1 = 1#1), ∀ a x, ((![v2576] : Fin 1 → IVec S16 32) a x).toNat < S100000.size a)
instance k0_chk843.dec : ∀ (i : grid0.Coords) (k0_t1 : Fin k0_t1_loop.trips) (v2576 : IVec S16 32), Decidable (k0_chk843 i k0_t1 v2576) := fun i k0_t1 v2576 => decidable_of_iff' _ (Iff.of_eq (k0_chk843.eq_1 i k0_t1 v2576))
theorem k0_idx843_inb : ∀ (i : grid0.Coords) (k0_t1 : Fin k0_t1_loop.trips) (v2576 : IVec S16 32) (k0_hw843 : k0_chk843 i k0_t1 v2576), ∀ (k0_h1 : k0_cond1 i k0_t1 = 1#1), ∀ a x, ((![v2576] : Fin 1 → IVec S16 32) a x).toNat < S100000.size a := fun i k0_t1 v2576 k0_hw843 k0_h1 => k0_hw843 k0_h1

def k0_chk844 (i : grid0.Coords) (k0_t1 : Fin k0_t1_loop.trips) (v2577 : IVec S16 32) : Prop :=
  (∀ (k0_h1 : k0_cond1 i k0_t1 = 1#1), ∀ a x, ((![v2577] : Fin 1 → IVec S16 32) a x).toNat < S100000.size a)
instance k0_chk844.dec : ∀ (i : grid0.Coords) (k0_t1 : Fin k0_t1_loop.trips) (v2577 : IVec S16 32), Decidable (k0_chk844 i k0_t1 v2577) := fun i k0_t1 v2577 => decidable_of_iff' _ (Iff.of_eq (k0_chk844.eq_1 i k0_t1 v2577))
theorem k0_idx844_inb : ∀ (i : grid0.Coords) (k0_t1 : Fin k0_t1_loop.trips) (v2577 : IVec S16 32) (k0_hw844 : k0_chk844 i k0_t1 v2577), ∀ (k0_h1 : k0_cond1 i k0_t1 = 1#1), ∀ a x, ((![v2577] : Fin 1 → IVec S16 32) a x).toNat < S100000.size a := fun i k0_t1 v2577 k0_hw844 k0_h1 => k0_hw844 k0_h1

def k0_chk845 (i : grid0.Coords) (k0_t1 : Fin k0_t1_loop.trips) (v2578 : IVec S16 32) : Prop :=
  (∀ (k0_h1 : k0_cond1 i k0_t1 = 1#1), ∀ a x, ((![v2578] : Fin 1 → IVec S16 32) a x).toNat < S100000.size a)
instance k0_chk845.dec : ∀ (i : grid0.Coords) (k0_t1 : Fin k0_t1_loop.trips) (v2578 : IVec S16 32), Decidable (k0_chk845 i k0_t1 v2578) := fun i k0_t1 v2578 => decidable_of_iff' _ (Iff.of_eq (k0_chk845.eq_1 i k0_t1 v2578))
theorem k0_idx845_inb : ∀ (i : grid0.Coords) (k0_t1 : Fin k0_t1_loop.trips) (v2578 : IVec S16 32) (k0_hw845 : k0_chk845 i k0_t1 v2578), ∀ (k0_h1 : k0_cond1 i k0_t1 = 1#1), ∀ a x, ((![v2578] : Fin 1 → IVec S16 32) a x).toNat < S100000.size a := fun i k0_t1 v2578 k0_hw845 k0_h1 => k0_hw845 k0_h1

def k0_chk846 (i : grid0.Coords) (k0_t1 : Fin k0_t1_loop.trips) (v2579 : IVec S16 32) : Prop :=
  (∀ (k0_h1 : k0_cond1 i k0_t1 = 1#1), ∀ a x, ((![v2579] : Fin 1 → IVec S16 32) a x).toNat < S100000.size a)
instance k0_chk846.dec : ∀ (i : grid0.Coords) (k0_t1 : Fin k0_t1_loop.trips) (v2579 : IVec S16 32), Decidable (k0_chk846 i k0_t1 v2579) := fun i k0_t1 v2579 => decidable_of_iff' _ (Iff.of_eq (k0_chk846.eq_1 i k0_t1 v2579))
theorem k0_idx846_inb : ∀ (i : grid0.Coords) (k0_t1 : Fin k0_t1_loop.trips) (v2579 : IVec S16 32) (k0_hw846 : k0_chk846 i k0_t1 v2579), ∀ (k0_h1 : k0_cond1 i k0_t1 = 1#1), ∀ a x, ((![v2579] : Fin 1 → IVec S16 32) a x).toNat < S100000.size a := fun i k0_t1 v2579 k0_hw846 k0_h1 => k0_hw846 k0_h1

def k0_chk847 (i : grid0.Coords) (k0_t1 : Fin k0_t1_loop.trips) (v2580 : IVec S16 32) : Prop :=
  (∀ (k0_h1 : k0_cond1 i k0_t1 = 1#1), ∀ a x, ((![v2580] : Fin 1 → IVec S16 32) a x).toNat < S100000.size a)
instance k0_chk847.dec : ∀ (i : grid0.Coords) (k0_t1 : Fin k0_t1_loop.trips) (v2580 : IVec S16 32), Decidable (k0_chk847 i k0_t1 v2580) := fun i k0_t1 v2580 => decidable_of_iff' _ (Iff.of_eq (k0_chk847.eq_1 i k0_t1 v2580))
theorem k0_idx847_inb : ∀ (i : grid0.Coords) (k0_t1 : Fin k0_t1_loop.trips) (v2580 : IVec S16 32) (k0_hw847 : k0_chk847 i k0_t1 v2580), ∀ (k0_h1 : k0_cond1 i k0_t1 = 1#1), ∀ a x, ((![v2580] : Fin 1 → IVec S16 32) a x).toNat < S100000.size a := fun i k0_t1 v2580 k0_hw847 k0_h1 => k0_hw847 k0_h1

def k0_chk848 (i : grid0.Coords) (k0_t1 : Fin k0_t1_loop.trips) (v2581 : IVec S16 32) : Prop :=
  (∀ (k0_h1 : k0_cond1 i k0_t1 = 1#1), ∀ a x, ((![v2581] : Fin 1 → IVec S16 32) a x).toNat < S100000.size a)
instance k0_chk848.dec : ∀ (i : grid0.Coords) (k0_t1 : Fin k0_t1_loop.trips) (v2581 : IVec S16 32), Decidable (k0_chk848 i k0_t1 v2581) := fun i k0_t1 v2581 => decidable_of_iff' _ (Iff.of_eq (k0_chk848.eq_1 i k0_t1 v2581))
theorem k0_idx848_inb : ∀ (i : grid0.Coords) (k0_t1 : Fin k0_t1_loop.trips) (v2581 : IVec S16 32) (k0_hw848 : k0_chk848 i k0_t1 v2581), ∀ (k0_h1 : k0_cond1 i k0_t1 = 1#1), ∀ a x, ((![v2581] : Fin 1 → IVec S16 32) a x).toNat < S100000.size a := fun i k0_t1 v2581 k0_hw848 k0_h1 => k0_hw848 k0_h1

def k0_chk849 (i : grid0.Coords) (k0_t1 : Fin k0_t1_loop.trips) (v2598 : IVec S16 32) : Prop :=
  (∀ (k0_h1 : k0_cond1 i k0_t1 = 1#1), ∀ a x, ((![v2598] : Fin 1 → IVec S16 32) a x).toNat < S100000.size a)
instance k0_chk849.dec : ∀ (i : grid0.Coords) (k0_t1 : Fin k0_t1_loop.trips) (v2598 : IVec S16 32), Decidable (k0_chk849 i k0_t1 v2598) := fun i k0_t1 v2598 => decidable_of_iff' _ (Iff.of_eq (k0_chk849.eq_1 i k0_t1 v2598))
theorem k0_idx849_inb : ∀ (i : grid0.Coords) (k0_t1 : Fin k0_t1_loop.trips) (v2598 : IVec S16 32) (k0_hw849 : k0_chk849 i k0_t1 v2598), ∀ (k0_h1 : k0_cond1 i k0_t1 = 1#1), ∀ a x, ((![v2598] : Fin 1 → IVec S16 32) a x).toNat < S100000.size a := fun i k0_t1 v2598 k0_hw849 k0_h1 => k0_hw849 k0_h1

def k0_chk850 (i : grid0.Coords) (k0_t1 : Fin k0_t1_loop.trips) (v2599 : IVec S16 32) : Prop :=
  (∀ (k0_h1 : k0_cond1 i k0_t1 = 1#1), ∀ a x, ((![v2599] : Fin 1 → IVec S16 32) a x).toNat < S100000.size a)
instance k0_chk850.dec : ∀ (i : grid0.Coords) (k0_t1 : Fin k0_t1_loop.trips) (v2599 : IVec S16 32), Decidable (k0_chk850 i k0_t1 v2599) := fun i k0_t1 v2599 => decidable_of_iff' _ (Iff.of_eq (k0_chk850.eq_1 i k0_t1 v2599))
theorem k0_idx850_inb : ∀ (i : grid0.Coords) (k0_t1 : Fin k0_t1_loop.trips) (v2599 : IVec S16 32) (k0_hw850 : k0_chk850 i k0_t1 v2599), ∀ (k0_h1 : k0_cond1 i k0_t1 = 1#1), ∀ a x, ((![v2599] : Fin 1 → IVec S16 32) a x).toNat < S100000.size a := fun i k0_t1 v2599 k0_hw850 k0_h1 => k0_hw850 k0_h1

def k0_chk851 (i : grid0.Coords) (k0_t1 : Fin k0_t1_loop.trips) (v2600 : IVec S16 32) : Prop :=
  (∀ (k0_h1 : k0_cond1 i k0_t1 = 1#1), ∀ a x, ((![v2600] : Fin 1 → IVec S16 32) a x).toNat < S100000.size a)
instance k0_chk851.dec : ∀ (i : grid0.Coords) (k0_t1 : Fin k0_t1_loop.trips) (v2600 : IVec S16 32), Decidable (k0_chk851 i k0_t1 v2600) := fun i k0_t1 v2600 => decidable_of_iff' _ (Iff.of_eq (k0_chk851.eq_1 i k0_t1 v2600))
theorem k0_idx851_inb : ∀ (i : grid0.Coords) (k0_t1 : Fin k0_t1_loop.trips) (v2600 : IVec S16 32) (k0_hw851 : k0_chk851 i k0_t1 v2600), ∀ (k0_h1 : k0_cond1 i k0_t1 = 1#1), ∀ a x, ((![v2600] : Fin 1 → IVec S16 32) a x).toNat < S100000.size a := fun i k0_t1 v2600 k0_hw851 k0_h1 => k0_hw851 k0_h1

def k0_chk852 (i : grid0.Coords) (k0_t1 : Fin k0_t1_loop.trips) (v2601 : IVec S16 32) : Prop :=
  (∀ (k0_h1 : k0_cond1 i k0_t1 = 1#1), ∀ a x, ((![v2601] : Fin 1 → IVec S16 32) a x).toNat < S100000.size a)
instance k0_chk852.dec : ∀ (i : grid0.Coords) (k0_t1 : Fin k0_t1_loop.trips) (v2601 : IVec S16 32), Decidable (k0_chk852 i k0_t1 v2601) := fun i k0_t1 v2601 => decidable_of_iff' _ (Iff.of_eq (k0_chk852.eq_1 i k0_t1 v2601))
theorem k0_idx852_inb : ∀ (i : grid0.Coords) (k0_t1 : Fin k0_t1_loop.trips) (v2601 : IVec S16 32) (k0_hw852 : k0_chk852 i k0_t1 v2601), ∀ (k0_h1 : k0_cond1 i k0_t1 = 1#1), ∀ a x, ((![v2601] : Fin 1 → IVec S16 32) a x).toNat < S100000.size a := fun i k0_t1 v2601 k0_hw852 k0_h1 => k0_hw852 k0_h1

def k0_chk853 (i : grid0.Coords) (k0_t1 : Fin k0_t1_loop.trips) (v2602 : IVec S16 32) : Prop :=
  (∀ (k0_h1 : k0_cond1 i k0_t1 = 1#1), ∀ a x, ((![v2602] : Fin 1 → IVec S16 32) a x).toNat < S100000.size a)
instance k0_chk853.dec : ∀ (i : grid0.Coords) (k0_t1 : Fin k0_t1_loop.trips) (v2602 : IVec S16 32), Decidable (k0_chk853 i k0_t1 v2602) := fun i k0_t1 v2602 => decidable_of_iff' _ (Iff.of_eq (k0_chk853.eq_1 i k0_t1 v2602))
theorem k0_idx853_inb : ∀ (i : grid0.Coords) (k0_t1 : Fin k0_t1_loop.trips) (v2602 : IVec S16 32) (k0_hw853 : k0_chk853 i k0_t1 v2602), ∀ (k0_h1 : k0_cond1 i k0_t1 = 1#1), ∀ a x, ((![v2602] : Fin 1 → IVec S16 32) a x).toNat < S100000.size a := fun i k0_t1 v2602 k0_hw853 k0_h1 => k0_hw853 k0_h1

def k0_chk854 (i : grid0.Coords) (k0_t1 : Fin k0_t1_loop.trips) (v2603 : IVec S16 32) : Prop :=
  (∀ (k0_h1 : k0_cond1 i k0_t1 = 1#1), ∀ a x, ((![v2603] : Fin 1 → IVec S16 32) a x).toNat < S100000.size a)
instance k0_chk854.dec : ∀ (i : grid0.Coords) (k0_t1 : Fin k0_t1_loop.trips) (v2603 : IVec S16 32), Decidable (k0_chk854 i k0_t1 v2603) := fun i k0_t1 v2603 => decidable_of_iff' _ (Iff.of_eq (k0_chk854.eq_1 i k0_t1 v2603))
theorem k0_idx854_inb : ∀ (i : grid0.Coords) (k0_t1 : Fin k0_t1_loop.trips) (v2603 : IVec S16 32) (k0_hw854 : k0_chk854 i k0_t1 v2603), ∀ (k0_h1 : k0_cond1 i k0_t1 = 1#1), ∀ a x, ((![v2603] : Fin 1 → IVec S16 32) a x).toNat < S100000.size a := fun i k0_t1 v2603 k0_hw854 k0_h1 => k0_hw854 k0_h1

def k0_chk855 (i : grid0.Coords) (k0_t1 : Fin k0_t1_loop.trips) (v2604 : IVec S16 32) : Prop :=
  (∀ (k0_h1 : k0_cond1 i k0_t1 = 1#1), ∀ a x, ((![v2604] : Fin 1 → IVec S16 32) a x).toNat < S100000.size a)
instance k0_chk855.dec : ∀ (i : grid0.Coords) (k0_t1 : Fin k0_t1_loop.trips) (v2604 : IVec S16 32), Decidable (k0_chk855 i k0_t1 v2604) := fun i k0_t1 v2604 => decidable_of_iff' _ (Iff.of_eq (k0_chk855.eq_1 i k0_t1 v2604))
theorem k0_idx855_inb : ∀ (i : grid0.Coords) (k0_t1 : Fin k0_t1_loop.trips) (v2604 : IVec S16 32) (k0_hw855 : k0_chk855 i k0_t1 v2604), ∀ (k0_h1 : k0_cond1 i k0_t1 = 1#1), ∀ a x, ((![v2604] : Fin 1 → IVec S16 32) a x).toNat < S100000.size a := fun i k0_t1 v2604 k0_hw855 k0_h1 => k0_hw855 k0_h1

def k0_chk856 (i : grid0.Coords) (k0_t1 : Fin k0_t1_loop.trips) (v2605 : IVec S16 32) : Prop :=
  (∀ (k0_h1 : k0_cond1 i k0_t1 = 1#1), ∀ a x, ((![v2605] : Fin 1 → IVec S16 32) a x).toNat < S100000.size a)
instance k0_chk856.dec : ∀ (i : grid0.Coords) (k0_t1 : Fin k0_t1_loop.trips) (v2605 : IVec S16 32), Decidable (k0_chk856 i k0_t1 v2605) := fun i k0_t1 v2605 => decidable_of_iff' _ (Iff.of_eq (k0_chk856.eq_1 i k0_t1 v2605))
theorem k0_idx856_inb : ∀ (i : grid0.Coords) (k0_t1 : Fin k0_t1_loop.trips) (v2605 : IVec S16 32) (k0_hw856 : k0_chk856 i k0_t1 v2605), ∀ (k0_h1 : k0_cond1 i k0_t1 = 1#1), ∀ a x, ((![v2605] : Fin 1 → IVec S16 32) a x).toNat < S100000.size a := fun i k0_t1 v2605 k0_hw856 k0_h1 => k0_hw856 k0_h1

def k0_chk857 (i : grid0.Coords) (k0_t1 : Fin k0_t1_loop.trips) (v2622 : IVec S16 32) : Prop :=
  (∀ (k0_h1 : k0_cond1 i k0_t1 = 1#1), ∀ a x, ((![v2622] : Fin 1 → IVec S16 32) a x).toNat < S100000.size a)
instance k0_chk857.dec : ∀ (i : grid0.Coords) (k0_t1 : Fin k0_t1_loop.trips) (v2622 : IVec S16 32), Decidable (k0_chk857 i k0_t1 v2622) := fun i k0_t1 v2622 => decidable_of_iff' _ (Iff.of_eq (k0_chk857.eq_1 i k0_t1 v2622))
theorem k0_idx857_inb : ∀ (i : grid0.Coords) (k0_t1 : Fin k0_t1_loop.trips) (v2622 : IVec S16 32) (k0_hw857 : k0_chk857 i k0_t1 v2622), ∀ (k0_h1 : k0_cond1 i k0_t1 = 1#1), ∀ a x, ((![v2622] : Fin 1 → IVec S16 32) a x).toNat < S100000.size a := fun i k0_t1 v2622 k0_hw857 k0_h1 => k0_hw857 k0_h1

def k0_chk858 (i : grid0.Coords) (k0_t1 : Fin k0_t1_loop.trips) (v2623 : IVec S16 32) : Prop :=
  (∀ (k0_h1 : k0_cond1 i k0_t1 = 1#1), ∀ a x, ((![v2623] : Fin 1 → IVec S16 32) a x).toNat < S100000.size a)
instance k0_chk858.dec : ∀ (i : grid0.Coords) (k0_t1 : Fin k0_t1_loop.trips) (v2623 : IVec S16 32), Decidable (k0_chk858 i k0_t1 v2623) := fun i k0_t1 v2623 => decidable_of_iff' _ (Iff.of_eq (k0_chk858.eq_1 i k0_t1 v2623))
theorem k0_idx858_inb : ∀ (i : grid0.Coords) (k0_t1 : Fin k0_t1_loop.trips) (v2623 : IVec S16 32) (k0_hw858 : k0_chk858 i k0_t1 v2623), ∀ (k0_h1 : k0_cond1 i k0_t1 = 1#1), ∀ a x, ((![v2623] : Fin 1 → IVec S16 32) a x).toNat < S100000.size a := fun i k0_t1 v2623 k0_hw858 k0_h1 => k0_hw858 k0_h1

def k0_chk859 (i : grid0.Coords) (k0_t1 : Fin k0_t1_loop.trips) (v2624 : IVec S16 32) : Prop :=
  (∀ (k0_h1 : k0_cond1 i k0_t1 = 1#1), ∀ a x, ((![v2624] : Fin 1 → IVec S16 32) a x).toNat < S100000.size a)
instance k0_chk859.dec : ∀ (i : grid0.Coords) (k0_t1 : Fin k0_t1_loop.trips) (v2624 : IVec S16 32), Decidable (k0_chk859 i k0_t1 v2624) := fun i k0_t1 v2624 => decidable_of_iff' _ (Iff.of_eq (k0_chk859.eq_1 i k0_t1 v2624))
theorem k0_idx859_inb : ∀ (i : grid0.Coords) (k0_t1 : Fin k0_t1_loop.trips) (v2624 : IVec S16 32) (k0_hw859 : k0_chk859 i k0_t1 v2624), ∀ (k0_h1 : k0_cond1 i k0_t1 = 1#1), ∀ a x, ((![v2624] : Fin 1 → IVec S16 32) a x).toNat < S100000.size a := fun i k0_t1 v2624 k0_hw859 k0_h1 => k0_hw859 k0_h1

def k0_chk860 (i : grid0.Coords) (k0_t1 : Fin k0_t1_loop.trips) (v2625 : IVec S16 32) : Prop :=
  (∀ (k0_h1 : k0_cond1 i k0_t1 = 1#1), ∀ a x, ((![v2625] : Fin 1 → IVec S16 32) a x).toNat < S100000.size a)
instance k0_chk860.dec : ∀ (i : grid0.Coords) (k0_t1 : Fin k0_t1_loop.trips) (v2625 : IVec S16 32), Decidable (k0_chk860 i k0_t1 v2625) := fun i k0_t1 v2625 => decidable_of_iff' _ (Iff.of_eq (k0_chk860.eq_1 i k0_t1 v2625))
theorem k0_idx860_inb : ∀ (i : grid0.Coords) (k0_t1 : Fin k0_t1_loop.trips) (v2625 : IVec S16 32) (k0_hw860 : k0_chk860 i k0_t1 v2625), ∀ (k0_h1 : k0_cond1 i k0_t1 = 1#1), ∀ a x, ((![v2625] : Fin 1 → IVec S16 32) a x).toNat < S100000.size a := fun i k0_t1 v2625 k0_hw860 k0_h1 => k0_hw860 k0_h1

def k0_chk861 (i : grid0.Coords) (k0_t1 : Fin k0_t1_loop.trips) (v2626 : IVec S16 32) : Prop :=
  (∀ (k0_h1 : k0_cond1 i k0_t1 = 1#1), ∀ a x, ((![v2626] : Fin 1 → IVec S16 32) a x).toNat < S100000.size a)
instance k0_chk861.dec : ∀ (i : grid0.Coords) (k0_t1 : Fin k0_t1_loop.trips) (v2626 : IVec S16 32), Decidable (k0_chk861 i k0_t1 v2626) := fun i k0_t1 v2626 => decidable_of_iff' _ (Iff.of_eq (k0_chk861.eq_1 i k0_t1 v2626))
theorem k0_idx861_inb : ∀ (i : grid0.Coords) (k0_t1 : Fin k0_t1_loop.trips) (v2626 : IVec S16 32) (k0_hw861 : k0_chk861 i k0_t1 v2626), ∀ (k0_h1 : k0_cond1 i k0_t1 = 1#1), ∀ a x, ((![v2626] : Fin 1 → IVec S16 32) a x).toNat < S100000.size a := fun i k0_t1 v2626 k0_hw861 k0_h1 => k0_hw861 k0_h1

def k0_chk862 (i : grid0.Coords) (k0_t1 : Fin k0_t1_loop.trips) (v2627 : IVec S16 32) : Prop :=
  (∀ (k0_h1 : k0_cond1 i k0_t1 = 1#1), ∀ a x, ((![v2627] : Fin 1 → IVec S16 32) a x).toNat < S100000.size a)
instance k0_chk862.dec : ∀ (i : grid0.Coords) (k0_t1 : Fin k0_t1_loop.trips) (v2627 : IVec S16 32), Decidable (k0_chk862 i k0_t1 v2627) := fun i k0_t1 v2627 => decidable_of_iff' _ (Iff.of_eq (k0_chk862.eq_1 i k0_t1 v2627))
theorem k0_idx862_inb : ∀ (i : grid0.Coords) (k0_t1 : Fin k0_t1_loop.trips) (v2627 : IVec S16 32) (k0_hw862 : k0_chk862 i k0_t1 v2627), ∀ (k0_h1 : k0_cond1 i k0_t1 = 1#1), ∀ a x, ((![v2627] : Fin 1 → IVec S16 32) a x).toNat < S100000.size a := fun i k0_t1 v2627 k0_hw862 k0_h1 => k0_hw862 k0_h1

def k0_chk863 (i : grid0.Coords) (k0_t1 : Fin k0_t1_loop.trips) (v2628 : IVec S16 32) : Prop :=
  (∀ (k0_h1 : k0_cond1 i k0_t1 = 1#1), ∀ a x, ((![v2628] : Fin 1 → IVec S16 32) a x).toNat < S100000.size a)
instance k0_chk863.dec : ∀ (i : grid0.Coords) (k0_t1 : Fin k0_t1_loop.trips) (v2628 : IVec S16 32), Decidable (k0_chk863 i k0_t1 v2628) := fun i k0_t1 v2628 => decidable_of_iff' _ (Iff.of_eq (k0_chk863.eq_1 i k0_t1 v2628))
theorem k0_idx863_inb : ∀ (i : grid0.Coords) (k0_t1 : Fin k0_t1_loop.trips) (v2628 : IVec S16 32) (k0_hw863 : k0_chk863 i k0_t1 v2628), ∀ (k0_h1 : k0_cond1 i k0_t1 = 1#1), ∀ a x, ((![v2628] : Fin 1 → IVec S16 32) a x).toNat < S100000.size a := fun i k0_t1 v2628 k0_hw863 k0_h1 => k0_hw863 k0_h1

def k0_chk864 (i : grid0.Coords) (k0_t1 : Fin k0_t1_loop.trips) (v2629 : IVec S16 32) : Prop :=
  (∀ (k0_h1 : k0_cond1 i k0_t1 = 1#1), ∀ a x, ((![v2629] : Fin 1 → IVec S16 32) a x).toNat < S100000.size a)
instance k0_chk864.dec : ∀ (i : grid0.Coords) (k0_t1 : Fin k0_t1_loop.trips) (v2629 : IVec S16 32), Decidable (k0_chk864 i k0_t1 v2629) := fun i k0_t1 v2629 => decidable_of_iff' _ (Iff.of_eq (k0_chk864.eq_1 i k0_t1 v2629))
theorem k0_idx864_inb : ∀ (i : grid0.Coords) (k0_t1 : Fin k0_t1_loop.trips) (v2629 : IVec S16 32) (k0_hw864 : k0_chk864 i k0_t1 v2629), ∀ (k0_h1 : k0_cond1 i k0_t1 = 1#1), ∀ a x, ((![v2629] : Fin 1 → IVec S16 32) a x).toNat < S100000.size a := fun i k0_t1 v2629 k0_hw864 k0_h1 => k0_hw864 k0_h1

def k0_chk865 (i : grid0.Coords) (k0_t1 : Fin k0_t1_loop.trips) (v2646 : IVec S16 32) : Prop :=
  (∀ (k0_h1 : k0_cond1 i k0_t1 = 1#1), ∀ a x, ((![v2646] : Fin 1 → IVec S16 32) a x).toNat < S100000.size a)
instance k0_chk865.dec : ∀ (i : grid0.Coords) (k0_t1 : Fin k0_t1_loop.trips) (v2646 : IVec S16 32), Decidable (k0_chk865 i k0_t1 v2646) := fun i k0_t1 v2646 => decidable_of_iff' _ (Iff.of_eq (k0_chk865.eq_1 i k0_t1 v2646))
theorem k0_idx865_inb : ∀ (i : grid0.Coords) (k0_t1 : Fin k0_t1_loop.trips) (v2646 : IVec S16 32) (k0_hw865 : k0_chk865 i k0_t1 v2646), ∀ (k0_h1 : k0_cond1 i k0_t1 = 1#1), ∀ a x, ((![v2646] : Fin 1 → IVec S16 32) a x).toNat < S100000.size a := fun i k0_t1 v2646 k0_hw865 k0_h1 => k0_hw865 k0_h1

def k0_chk866 (i : grid0.Coords) (k0_t1 : Fin k0_t1_loop.trips) (v2647 : IVec S16 32) : Prop :=
  (∀ (k0_h1 : k0_cond1 i k0_t1 = 1#1), ∀ a x, ((![v2647] : Fin 1 → IVec S16 32) a x).toNat < S100000.size a)
instance k0_chk866.dec : ∀ (i : grid0.Coords) (k0_t1 : Fin k0_t1_loop.trips) (v2647 : IVec S16 32), Decidable (k0_chk866 i k0_t1 v2647) := fun i k0_t1 v2647 => decidable_of_iff' _ (Iff.of_eq (k0_chk866.eq_1 i k0_t1 v2647))
theorem k0_idx866_inb : ∀ (i : grid0.Coords) (k0_t1 : Fin k0_t1_loop.trips) (v2647 : IVec S16 32) (k0_hw866 : k0_chk866 i k0_t1 v2647), ∀ (k0_h1 : k0_cond1 i k0_t1 = 1#1), ∀ a x, ((![v2647] : Fin 1 → IVec S16 32) a x).toNat < S100000.size a := fun i k0_t1 v2647 k0_hw866 k0_h1 => k0_hw866 k0_h1

def k0_chk867 (i : grid0.Coords) (k0_t1 : Fin k0_t1_loop.trips) (v2648 : IVec S16 32) : Prop :=
  (∀ (k0_h1 : k0_cond1 i k0_t1 = 1#1), ∀ a x, ((![v2648] : Fin 1 → IVec S16 32) a x).toNat < S100000.size a)
instance k0_chk867.dec : ∀ (i : grid0.Coords) (k0_t1 : Fin k0_t1_loop.trips) (v2648 : IVec S16 32), Decidable (k0_chk867 i k0_t1 v2648) := fun i k0_t1 v2648 => decidable_of_iff' _ (Iff.of_eq (k0_chk867.eq_1 i k0_t1 v2648))
theorem k0_idx867_inb : ∀ (i : grid0.Coords) (k0_t1 : Fin k0_t1_loop.trips) (v2648 : IVec S16 32) (k0_hw867 : k0_chk867 i k0_t1 v2648), ∀ (k0_h1 : k0_cond1 i k0_t1 = 1#1), ∀ a x, ((![v2648] : Fin 1 → IVec S16 32) a x).toNat < S100000.size a := fun i k0_t1 v2648 k0_hw867 k0_h1 => k0_hw867 k0_h1

def k0_chk868 (i : grid0.Coords) (k0_t1 : Fin k0_t1_loop.trips) (v2649 : IVec S16 32) : Prop :=
  (∀ (k0_h1 : k0_cond1 i k0_t1 = 1#1), ∀ a x, ((![v2649] : Fin 1 → IVec S16 32) a x).toNat < S100000.size a)
instance k0_chk868.dec : ∀ (i : grid0.Coords) (k0_t1 : Fin k0_t1_loop.trips) (v2649 : IVec S16 32), Decidable (k0_chk868 i k0_t1 v2649) := fun i k0_t1 v2649 => decidable_of_iff' _ (Iff.of_eq (k0_chk868.eq_1 i k0_t1 v2649))
theorem k0_idx868_inb : ∀ (i : grid0.Coords) (k0_t1 : Fin k0_t1_loop.trips) (v2649 : IVec S16 32) (k0_hw868 : k0_chk868 i k0_t1 v2649), ∀ (k0_h1 : k0_cond1 i k0_t1 = 1#1), ∀ a x, ((![v2649] : Fin 1 → IVec S16 32) a x).toNat < S100000.size a := fun i k0_t1 v2649 k0_hw868 k0_h1 => k0_hw868 k0_h1

def k0_chk869 (i : grid0.Coords) (k0_t1 : Fin k0_t1_loop.trips) (v2650 : IVec S16 32) : Prop :=
  (∀ (k0_h1 : k0_cond1 i k0_t1 = 1#1), ∀ a x, ((![v2650] : Fin 1 → IVec S16 32) a x).toNat < S100000.size a)
instance k0_chk869.dec : ∀ (i : grid0.Coords) (k0_t1 : Fin k0_t1_loop.trips) (v2650 : IVec S16 32), Decidable (k0_chk869 i k0_t1 v2650) := fun i k0_t1 v2650 => decidable_of_iff' _ (Iff.of_eq (k0_chk869.eq_1 i k0_t1 v2650))
theorem k0_idx869_inb : ∀ (i : grid0.Coords) (k0_t1 : Fin k0_t1_loop.trips) (v2650 : IVec S16 32) (k0_hw869 : k0_chk869 i k0_t1 v2650), ∀ (k0_h1 : k0_cond1 i k0_t1 = 1#1), ∀ a x, ((![v2650] : Fin 1 → IVec S16 32) a x).toNat < S100000.size a := fun i k0_t1 v2650 k0_hw869 k0_h1 => k0_hw869 k0_h1

def k0_chk870 (i : grid0.Coords) (k0_t1 : Fin k0_t1_loop.trips) (v2651 : IVec S16 32) : Prop :=
  (∀ (k0_h1 : k0_cond1 i k0_t1 = 1#1), ∀ a x, ((![v2651] : Fin 1 → IVec S16 32) a x).toNat < S100000.size a)
instance k0_chk870.dec : ∀ (i : grid0.Coords) (k0_t1 : Fin k0_t1_loop.trips) (v2651 : IVec S16 32), Decidable (k0_chk870 i k0_t1 v2651) := fun i k0_t1 v2651 => decidable_of_iff' _ (Iff.of_eq (k0_chk870.eq_1 i k0_t1 v2651))
theorem k0_idx870_inb : ∀ (i : grid0.Coords) (k0_t1 : Fin k0_t1_loop.trips) (v2651 : IVec S16 32) (k0_hw870 : k0_chk870 i k0_t1 v2651), ∀ (k0_h1 : k0_cond1 i k0_t1 = 1#1), ∀ a x, ((![v2651] : Fin 1 → IVec S16 32) a x).toNat < S100000.size a := fun i k0_t1 v2651 k0_hw870 k0_h1 => k0_hw870 k0_h1

def k0_chk871 (i : grid0.Coords) (k0_t1 : Fin k0_t1_loop.trips) (v2652 : IVec S16 32) : Prop :=
  (∀ (k0_h1 : k0_cond1 i k0_t1 = 1#1), ∀ a x, ((![v2652] : Fin 1 → IVec S16 32) a x).toNat < S100000.size a)
instance k0_chk871.dec : ∀ (i : grid0.Coords) (k0_t1 : Fin k0_t1_loop.trips) (v2652 : IVec S16 32), Decidable (k0_chk871 i k0_t1 v2652) := fun i k0_t1 v2652 => decidable_of_iff' _ (Iff.of_eq (k0_chk871.eq_1 i k0_t1 v2652))
theorem k0_idx871_inb : ∀ (i : grid0.Coords) (k0_t1 : Fin k0_t1_loop.trips) (v2652 : IVec S16 32) (k0_hw871 : k0_chk871 i k0_t1 v2652), ∀ (k0_h1 : k0_cond1 i k0_t1 = 1#1), ∀ a x, ((![v2652] : Fin 1 → IVec S16 32) a x).toNat < S100000.size a := fun i k0_t1 v2652 k0_hw871 k0_h1 => k0_hw871 k0_h1

def k0_chk872 (i : grid0.Coords) (k0_t1 : Fin k0_t1_loop.trips) (v2653 : IVec S16 32) : Prop :=
  (∀ (k0_h1 : k0_cond1 i k0_t1 = 1#1), ∀ a x, ((![v2653] : Fin 1 → IVec S16 32) a x).toNat < S100000.size a)
instance k0_chk872.dec : ∀ (i : grid0.Coords) (k0_t1 : Fin k0_t1_loop.trips) (v2653 : IVec S16 32), Decidable (k0_chk872 i k0_t1 v2653) := fun i k0_t1 v2653 => decidable_of_iff' _ (Iff.of_eq (k0_chk872.eq_1 i k0_t1 v2653))
theorem k0_idx872_inb : ∀ (i : grid0.Coords) (k0_t1 : Fin k0_t1_loop.trips) (v2653 : IVec S16 32) (k0_hw872 : k0_chk872 i k0_t1 v2653), ∀ (k0_h1 : k0_cond1 i k0_t1 = 1#1), ∀ a x, ((![v2653] : Fin 1 → IVec S16 32) a x).toNat < S100000.size a := fun i k0_t1 v2653 k0_hw872 k0_h1 => k0_hw872 k0_h1

def k0_chk873 (i : grid0.Coords) (k0_t1 : Fin k0_t1_loop.trips) (v2670 : IVec S16 32) : Prop :=
  (∀ (k0_h1 : k0_cond1 i k0_t1 = 1#1), ∀ a x, ((![v2670] : Fin 1 → IVec S16 32) a x).toNat < S100000.size a)
instance k0_chk873.dec : ∀ (i : grid0.Coords) (k0_t1 : Fin k0_t1_loop.trips) (v2670 : IVec S16 32), Decidable (k0_chk873 i k0_t1 v2670) := fun i k0_t1 v2670 => decidable_of_iff' _ (Iff.of_eq (k0_chk873.eq_1 i k0_t1 v2670))
theorem k0_idx873_inb : ∀ (i : grid0.Coords) (k0_t1 : Fin k0_t1_loop.trips) (v2670 : IVec S16 32) (k0_hw873 : k0_chk873 i k0_t1 v2670), ∀ (k0_h1 : k0_cond1 i k0_t1 = 1#1), ∀ a x, ((![v2670] : Fin 1 → IVec S16 32) a x).toNat < S100000.size a := fun i k0_t1 v2670 k0_hw873 k0_h1 => k0_hw873 k0_h1

def k0_chk874 (i : grid0.Coords) (k0_t1 : Fin k0_t1_loop.trips) (v2671 : IVec S16 32) : Prop :=
  (∀ (k0_h1 : k0_cond1 i k0_t1 = 1#1), ∀ a x, ((![v2671] : Fin 1 → IVec S16 32) a x).toNat < S100000.size a)
instance k0_chk874.dec : ∀ (i : grid0.Coords) (k0_t1 : Fin k0_t1_loop.trips) (v2671 : IVec S16 32), Decidable (k0_chk874 i k0_t1 v2671) := fun i k0_t1 v2671 => decidable_of_iff' _ (Iff.of_eq (k0_chk874.eq_1 i k0_t1 v2671))
theorem k0_idx874_inb : ∀ (i : grid0.Coords) (k0_t1 : Fin k0_t1_loop.trips) (v2671 : IVec S16 32) (k0_hw874 : k0_chk874 i k0_t1 v2671), ∀ (k0_h1 : k0_cond1 i k0_t1 = 1#1), ∀ a x, ((![v2671] : Fin 1 → IVec S16 32) a x).toNat < S100000.size a := fun i k0_t1 v2671 k0_hw874 k0_h1 => k0_hw874 k0_h1

def k0_chk875 (i : grid0.Coords) (k0_t1 : Fin k0_t1_loop.trips) (v2672 : IVec S16 32) : Prop :=
  (∀ (k0_h1 : k0_cond1 i k0_t1 = 1#1), ∀ a x, ((![v2672] : Fin 1 → IVec S16 32) a x).toNat < S100000.size a)
instance k0_chk875.dec : ∀ (i : grid0.Coords) (k0_t1 : Fin k0_t1_loop.trips) (v2672 : IVec S16 32), Decidable (k0_chk875 i k0_t1 v2672) := fun i k0_t1 v2672 => decidable_of_iff' _ (Iff.of_eq (k0_chk875.eq_1 i k0_t1 v2672))
theorem k0_idx875_inb : ∀ (i : grid0.Coords) (k0_t1 : Fin k0_t1_loop.trips) (v2672 : IVec S16 32) (k0_hw875 : k0_chk875 i k0_t1 v2672), ∀ (k0_h1 : k0_cond1 i k0_t1 = 1#1), ∀ a x, ((![v2672] : Fin 1 → IVec S16 32) a x).toNat < S100000.size a := fun i k0_t1 v2672 k0_hw875 k0_h1 => k0_hw875 k0_h1

def k0_chk876 (i : grid0.Coords) (k0_t1 : Fin k0_t1_loop.trips) (v2673 : IVec S16 32) : Prop :=
  (∀ (k0_h1 : k0_cond1 i k0_t1 = 1#1), ∀ a x, ((![v2673] : Fin 1 → IVec S16 32) a x).toNat < S100000.size a)
instance k0_chk876.dec : ∀ (i : grid0.Coords) (k0_t1 : Fin k0_t1_loop.trips) (v2673 : IVec S16 32), Decidable (k0_chk876 i k0_t1 v2673) := fun i k0_t1 v2673 => decidable_of_iff' _ (Iff.of_eq (k0_chk876.eq_1 i k0_t1 v2673))
theorem k0_idx876_inb : ∀ (i : grid0.Coords) (k0_t1 : Fin k0_t1_loop.trips) (v2673 : IVec S16 32) (k0_hw876 : k0_chk876 i k0_t1 v2673), ∀ (k0_h1 : k0_cond1 i k0_t1 = 1#1), ∀ a x, ((![v2673] : Fin 1 → IVec S16 32) a x).toNat < S100000.size a := fun i k0_t1 v2673 k0_hw876 k0_h1 => k0_hw876 k0_h1

def k0_chk877 (i : grid0.Coords) (k0_t1 : Fin k0_t1_loop.trips) (v2674 : IVec S16 32) : Prop :=
  (∀ (k0_h1 : k0_cond1 i k0_t1 = 1#1), ∀ a x, ((![v2674] : Fin 1 → IVec S16 32) a x).toNat < S100000.size a)
instance k0_chk877.dec : ∀ (i : grid0.Coords) (k0_t1 : Fin k0_t1_loop.trips) (v2674 : IVec S16 32), Decidable (k0_chk877 i k0_t1 v2674) := fun i k0_t1 v2674 => decidable_of_iff' _ (Iff.of_eq (k0_chk877.eq_1 i k0_t1 v2674))
theorem k0_idx877_inb : ∀ (i : grid0.Coords) (k0_t1 : Fin k0_t1_loop.trips) (v2674 : IVec S16 32) (k0_hw877 : k0_chk877 i k0_t1 v2674), ∀ (k0_h1 : k0_cond1 i k0_t1 = 1#1), ∀ a x, ((![v2674] : Fin 1 → IVec S16 32) a x).toNat < S100000.size a := fun i k0_t1 v2674 k0_hw877 k0_h1 => k0_hw877 k0_h1

def k0_chk878 (i : grid0.Coords) (k0_t1 : Fin k0_t1_loop.trips) (v2675 : IVec S16 32) : Prop :=
  (∀ (k0_h1 : k0_cond1 i k0_t1 = 1#1), ∀ a x, ((![v2675] : Fin 1 → IVec S16 32) a x).toNat < S100000.size a)
instance k0_chk878.dec : ∀ (i : grid0.Coords) (k0_t1 : Fin k0_t1_loop.trips) (v2675 : IVec S16 32), Decidable (k0_chk878 i k0_t1 v2675) := fun i k0_t1 v2675 => decidable_of_iff' _ (Iff.of_eq (k0_chk878.eq_1 i k0_t1 v2675))
theorem k0_idx878_inb : ∀ (i : grid0.Coords) (k0_t1 : Fin k0_t1_loop.trips) (v2675 : IVec S16 32) (k0_hw878 : k0_chk878 i k0_t1 v2675), ∀ (k0_h1 : k0_cond1 i k0_t1 = 1#1), ∀ a x, ((![v2675] : Fin 1 → IVec S16 32) a x).toNat < S100000.size a := fun i k0_t1 v2675 k0_hw878 k0_h1 => k0_hw878 k0_h1

def k0_chk879 (i : grid0.Coords) (k0_t1 : Fin k0_t1_loop.trips) (v2676 : IVec S16 32) : Prop :=
  (∀ (k0_h1 : k0_cond1 i k0_t1 = 1#1), ∀ a x, ((![v2676] : Fin 1 → IVec S16 32) a x).toNat < S100000.size a)
instance k0_chk879.dec : ∀ (i : grid0.Coords) (k0_t1 : Fin k0_t1_loop.trips) (v2676 : IVec S16 32), Decidable (k0_chk879 i k0_t1 v2676) := fun i k0_t1 v2676 => decidable_of_iff' _ (Iff.of_eq (k0_chk879.eq_1 i k0_t1 v2676))
theorem k0_idx879_inb : ∀ (i : grid0.Coords) (k0_t1 : Fin k0_t1_loop.trips) (v2676 : IVec S16 32) (k0_hw879 : k0_chk879 i k0_t1 v2676), ∀ (k0_h1 : k0_cond1 i k0_t1 = 1#1), ∀ a x, ((![v2676] : Fin 1 → IVec S16 32) a x).toNat < S100000.size a := fun i k0_t1 v2676 k0_hw879 k0_h1 => k0_hw879 k0_h1

def k0_chk880 (i : grid0.Coords) (k0_t1 : Fin k0_t1_loop.trips) (v2677 : IVec S16 32) : Prop :=
  (∀ (k0_h1 : k0_cond1 i k0_t1 = 1#1), ∀ a x, ((![v2677] : Fin 1 → IVec S16 32) a x).toNat < S100000.size a)
instance k0_chk880.dec : ∀ (i : grid0.Coords) (k0_t1 : Fin k0_t1_loop.trips) (v2677 : IVec S16 32), Decidable (k0_chk880 i k0_t1 v2677) := fun i k0_t1 v2677 => decidable_of_iff' _ (Iff.of_eq (k0_chk880.eq_1 i k0_t1 v2677))
theorem k0_idx880_inb : ∀ (i : grid0.Coords) (k0_t1 : Fin k0_t1_loop.trips) (v2677 : IVec S16 32) (k0_hw880 : k0_chk880 i k0_t1 v2677), ∀ (k0_h1 : k0_cond1 i k0_t1 = 1#1), ∀ a x, ((![v2677] : Fin 1 → IVec S16 32) a x).toNat < S100000.size a := fun i k0_t1 v2677 k0_hw880 k0_h1 => k0_hw880 k0_h1

def k0_chk881 (i : grid0.Coords) (k0_t1 : Fin k0_t1_loop.trips) (v2694 : IVec S16 32) : Prop :=
  (∀ (k0_h1 : k0_cond1 i k0_t1 = 1#1), ∀ a x, ((![v2694] : Fin 1 → IVec S16 32) a x).toNat < S100000.size a)
instance k0_chk881.dec : ∀ (i : grid0.Coords) (k0_t1 : Fin k0_t1_loop.trips) (v2694 : IVec S16 32), Decidable (k0_chk881 i k0_t1 v2694) := fun i k0_t1 v2694 => decidable_of_iff' _ (Iff.of_eq (k0_chk881.eq_1 i k0_t1 v2694))
theorem k0_idx881_inb : ∀ (i : grid0.Coords) (k0_t1 : Fin k0_t1_loop.trips) (v2694 : IVec S16 32) (k0_hw881 : k0_chk881 i k0_t1 v2694), ∀ (k0_h1 : k0_cond1 i k0_t1 = 1#1), ∀ a x, ((![v2694] : Fin 1 → IVec S16 32) a x).toNat < S100000.size a := fun i k0_t1 v2694 k0_hw881 k0_h1 => k0_hw881 k0_h1

def k0_chk882 (i : grid0.Coords) (k0_t1 : Fin k0_t1_loop.trips) (v2695 : IVec S16 32) : Prop :=
  (∀ (k0_h1 : k0_cond1 i k0_t1 = 1#1), ∀ a x, ((![v2695] : Fin 1 → IVec S16 32) a x).toNat < S100000.size a)
instance k0_chk882.dec : ∀ (i : grid0.Coords) (k0_t1 : Fin k0_t1_loop.trips) (v2695 : IVec S16 32), Decidable (k0_chk882 i k0_t1 v2695) := fun i k0_t1 v2695 => decidable_of_iff' _ (Iff.of_eq (k0_chk882.eq_1 i k0_t1 v2695))
theorem k0_idx882_inb : ∀ (i : grid0.Coords) (k0_t1 : Fin k0_t1_loop.trips) (v2695 : IVec S16 32) (k0_hw882 : k0_chk882 i k0_t1 v2695), ∀ (k0_h1 : k0_cond1 i k0_t1 = 1#1), ∀ a x, ((![v2695] : Fin 1 → IVec S16 32) a x).toNat < S100000.size a := fun i k0_t1 v2695 k0_hw882 k0_h1 => k0_hw882 k0_h1

def k0_chk883 (i : grid0.Coords) (k0_t1 : Fin k0_t1_loop.trips) (v2696 : IVec S16 32) : Prop :=
  (∀ (k0_h1 : k0_cond1 i k0_t1 = 1#1), ∀ a x, ((![v2696] : Fin 1 → IVec S16 32) a x).toNat < S100000.size a)
instance k0_chk883.dec : ∀ (i : grid0.Coords) (k0_t1 : Fin k0_t1_loop.trips) (v2696 : IVec S16 32), Decidable (k0_chk883 i k0_t1 v2696) := fun i k0_t1 v2696 => decidable_of_iff' _ (Iff.of_eq (k0_chk883.eq_1 i k0_t1 v2696))
theorem k0_idx883_inb : ∀ (i : grid0.Coords) (k0_t1 : Fin k0_t1_loop.trips) (v2696 : IVec S16 32) (k0_hw883 : k0_chk883 i k0_t1 v2696), ∀ (k0_h1 : k0_cond1 i k0_t1 = 1#1), ∀ a x, ((![v2696] : Fin 1 → IVec S16 32) a x).toNat < S100000.size a := fun i k0_t1 v2696 k0_hw883 k0_h1 => k0_hw883 k0_h1

def k0_chk884 (i : grid0.Coords) (k0_t1 : Fin k0_t1_loop.trips) (v2697 : IVec S16 32) : Prop :=
  (∀ (k0_h1 : k0_cond1 i k0_t1 = 1#1), ∀ a x, ((![v2697] : Fin 1 → IVec S16 32) a x).toNat < S100000.size a)
instance k0_chk884.dec : ∀ (i : grid0.Coords) (k0_t1 : Fin k0_t1_loop.trips) (v2697 : IVec S16 32), Decidable (k0_chk884 i k0_t1 v2697) := fun i k0_t1 v2697 => decidable_of_iff' _ (Iff.of_eq (k0_chk884.eq_1 i k0_t1 v2697))
theorem k0_idx884_inb : ∀ (i : grid0.Coords) (k0_t1 : Fin k0_t1_loop.trips) (v2697 : IVec S16 32) (k0_hw884 : k0_chk884 i k0_t1 v2697), ∀ (k0_h1 : k0_cond1 i k0_t1 = 1#1), ∀ a x, ((![v2697] : Fin 1 → IVec S16 32) a x).toNat < S100000.size a := fun i k0_t1 v2697 k0_hw884 k0_h1 => k0_hw884 k0_h1

def k0_chk885 (i : grid0.Coords) (k0_t1 : Fin k0_t1_loop.trips) (v2698 : IVec S16 32) : Prop :=
  (∀ (k0_h1 : k0_cond1 i k0_t1 = 1#1), ∀ a x, ((![v2698] : Fin 1 → IVec S16 32) a x).toNat < S100000.size a)
instance k0_chk885.dec : ∀ (i : grid0.Coords) (k0_t1 : Fin k0_t1_loop.trips) (v2698 : IVec S16 32), Decidable (k0_chk885 i k0_t1 v2698) := fun i k0_t1 v2698 => decidable_of_iff' _ (Iff.of_eq (k0_chk885.eq_1 i k0_t1 v2698))
theorem k0_idx885_inb : ∀ (i : grid0.Coords) (k0_t1 : Fin k0_t1_loop.trips) (v2698 : IVec S16 32) (k0_hw885 : k0_chk885 i k0_t1 v2698), ∀ (k0_h1 : k0_cond1 i k0_t1 = 1#1), ∀ a x, ((![v2698] : Fin 1 → IVec S16 32) a x).toNat < S100000.size a := fun i k0_t1 v2698 k0_hw885 k0_h1 => k0_hw885 k0_h1

def k0_chk886 (i : grid0.Coords) (k0_t1 : Fin k0_t1_loop.trips) (v2699 : IVec S16 32) : Prop :=
  (∀ (k0_h1 : k0_cond1 i k0_t1 = 1#1), ∀ a x, ((![v2699] : Fin 1 → IVec S16 32) a x).toNat < S100000.size a)
instance k0_chk886.dec : ∀ (i : grid0.Coords) (k0_t1 : Fin k0_t1_loop.trips) (v2699 : IVec S16 32), Decidable (k0_chk886 i k0_t1 v2699) := fun i k0_t1 v2699 => decidable_of_iff' _ (Iff.of_eq (k0_chk886.eq_1 i k0_t1 v2699))
theorem k0_idx886_inb : ∀ (i : grid0.Coords) (k0_t1 : Fin k0_t1_loop.trips) (v2699 : IVec S16 32) (k0_hw886 : k0_chk886 i k0_t1 v2699), ∀ (k0_h1 : k0_cond1 i k0_t1 = 1#1), ∀ a x, ((![v2699] : Fin 1 → IVec S16 32) a x).toNat < S100000.size a := fun i k0_t1 v2699 k0_hw886 k0_h1 => k0_hw886 k0_h1

def k0_chk887 (i : grid0.Coords) (k0_t1 : Fin k0_t1_loop.trips) (v2700 : IVec S16 32) : Prop :=
  (∀ (k0_h1 : k0_cond1 i k0_t1 = 1#1), ∀ a x, ((![v2700] : Fin 1 → IVec S16 32) a x).toNat < S100000.size a)
instance k0_chk887.dec : ∀ (i : grid0.Coords) (k0_t1 : Fin k0_t1_loop.trips) (v2700 : IVec S16 32), Decidable (k0_chk887 i k0_t1 v2700) := fun i k0_t1 v2700 => decidable_of_iff' _ (Iff.of_eq (k0_chk887.eq_1 i k0_t1 v2700))
theorem k0_idx887_inb : ∀ (i : grid0.Coords) (k0_t1 : Fin k0_t1_loop.trips) (v2700 : IVec S16 32) (k0_hw887 : k0_chk887 i k0_t1 v2700), ∀ (k0_h1 : k0_cond1 i k0_t1 = 1#1), ∀ a x, ((![v2700] : Fin 1 → IVec S16 32) a x).toNat < S100000.size a := fun i k0_t1 v2700 k0_hw887 k0_h1 => k0_hw887 k0_h1

def k0_chk888 (i : grid0.Coords) (k0_t1 : Fin k0_t1_loop.trips) (v2701 : IVec S16 32) : Prop :=
  (∀ (k0_h1 : k0_cond1 i k0_t1 = 1#1), ∀ a x, ((![v2701] : Fin 1 → IVec S16 32) a x).toNat < S100000.size a)
instance k0_chk888.dec : ∀ (i : grid0.Coords) (k0_t1 : Fin k0_t1_loop.trips) (v2701 : IVec S16 32), Decidable (k0_chk888 i k0_t1 v2701) := fun i k0_t1 v2701 => decidable_of_iff' _ (Iff.of_eq (k0_chk888.eq_1 i k0_t1 v2701))
theorem k0_idx888_inb : ∀ (i : grid0.Coords) (k0_t1 : Fin k0_t1_loop.trips) (v2701 : IVec S16 32) (k0_hw888 : k0_chk888 i k0_t1 v2701), ∀ (k0_h1 : k0_cond1 i k0_t1 = 1#1), ∀ a x, ((![v2701] : Fin 1 → IVec S16 32) a x).toNat < S100000.size a := fun i k0_t1 v2701 k0_hw888 k0_h1 => k0_hw888 k0_h1

def k0_chk889 (i : grid0.Coords) (k0_t1 : Fin k0_t1_loop.trips) (v2718 : IVec S16 32) : Prop :=
  (∀ (k0_h1 : k0_cond1 i k0_t1 = 1#1), ∀ a x, ((![v2718] : Fin 1 → IVec S16 32) a x).toNat < S100000.size a)
instance k0_chk889.dec : ∀ (i : grid0.Coords) (k0_t1 : Fin k0_t1_loop.trips) (v2718 : IVec S16 32), Decidable (k0_chk889 i k0_t1 v2718) := fun i k0_t1 v2718 => decidable_of_iff' _ (Iff.of_eq (k0_chk889.eq_1 i k0_t1 v2718))
theorem k0_idx889_inb : ∀ (i : grid0.Coords) (k0_t1 : Fin k0_t1_loop.trips) (v2718 : IVec S16 32) (k0_hw889 : k0_chk889 i k0_t1 v2718), ∀ (k0_h1 : k0_cond1 i k0_t1 = 1#1), ∀ a x, ((![v2718] : Fin 1 → IVec S16 32) a x).toNat < S100000.size a := fun i k0_t1 v2718 k0_hw889 k0_h1 => k0_hw889 k0_h1

def k0_chk890 (i : grid0.Coords) (k0_t1 : Fin k0_t1_loop.trips) (v2719 : IVec S16 32) : Prop :=
  (∀ (k0_h1 : k0_cond1 i k0_t1 = 1#1), ∀ a x, ((![v2719] : Fin 1 → IVec S16 32) a x).toNat < S100000.size a)
instance k0_chk890.dec : ∀ (i : grid0.Coords) (k0_t1 : Fin k0_t1_loop.trips) (v2719 : IVec S16 32), Decidable (k0_chk890 i k0_t1 v2719) := fun i k0_t1 v2719 => decidable_of_iff' _ (Iff.of_eq (k0_chk890.eq_1 i k0_t1 v2719))
theorem k0_idx890_inb : ∀ (i : grid0.Coords) (k0_t1 : Fin k0_t1_loop.trips) (v2719 : IVec S16 32) (k0_hw890 : k0_chk890 i k0_t1 v2719), ∀ (k0_h1 : k0_cond1 i k0_t1 = 1#1), ∀ a x, ((![v2719] : Fin 1 → IVec S16 32) a x).toNat < S100000.size a := fun i k0_t1 v2719 k0_hw890 k0_h1 => k0_hw890 k0_h1

def k0_chk891 (i : grid0.Coords) (k0_t1 : Fin k0_t1_loop.trips) (v2720 : IVec S16 32) : Prop :=
  (∀ (k0_h1 : k0_cond1 i k0_t1 = 1#1), ∀ a x, ((![v2720] : Fin 1 → IVec S16 32) a x).toNat < S100000.size a)
instance k0_chk891.dec : ∀ (i : grid0.Coords) (k0_t1 : Fin k0_t1_loop.trips) (v2720 : IVec S16 32), Decidable (k0_chk891 i k0_t1 v2720) := fun i k0_t1 v2720 => decidable_of_iff' _ (Iff.of_eq (k0_chk891.eq_1 i k0_t1 v2720))
theorem k0_idx891_inb : ∀ (i : grid0.Coords) (k0_t1 : Fin k0_t1_loop.trips) (v2720 : IVec S16 32) (k0_hw891 : k0_chk891 i k0_t1 v2720), ∀ (k0_h1 : k0_cond1 i k0_t1 = 1#1), ∀ a x, ((![v2720] : Fin 1 → IVec S16 32) a x).toNat < S100000.size a := fun i k0_t1 v2720 k0_hw891 k0_h1 => k0_hw891 k0_h1

def k0_chk892 (i : grid0.Coords) (k0_t1 : Fin k0_t1_loop.trips) (v2721 : IVec S16 32) : Prop :=
  (∀ (k0_h1 : k0_cond1 i k0_t1 = 1#1), ∀ a x, ((![v2721] : Fin 1 → IVec S16 32) a x).toNat < S100000.size a)
instance k0_chk892.dec : ∀ (i : grid0.Coords) (k0_t1 : Fin k0_t1_loop.trips) (v2721 : IVec S16 32), Decidable (k0_chk892 i k0_t1 v2721) := fun i k0_t1 v2721 => decidable_of_iff' _ (Iff.of_eq (k0_chk892.eq_1 i k0_t1 v2721))
theorem k0_idx892_inb : ∀ (i : grid0.Coords) (k0_t1 : Fin k0_t1_loop.trips) (v2721 : IVec S16 32) (k0_hw892 : k0_chk892 i k0_t1 v2721), ∀ (k0_h1 : k0_cond1 i k0_t1 = 1#1), ∀ a x, ((![v2721] : Fin 1 → IVec S16 32) a x).toNat < S100000.size a := fun i k0_t1 v2721 k0_hw892 k0_h1 => k0_hw892 k0_h1

def k0_chk893 (i : grid0.Coords) (k0_t1 : Fin k0_t1_loop.trips) (v2722 : IVec S16 32) : Prop :=
  (∀ (k0_h1 : k0_cond1 i k0_t1 = 1#1), ∀ a x, ((![v2722] : Fin 1 → IVec S16 32) a x).toNat < S100000.size a)
instance k0_chk893.dec : ∀ (i : grid0.Coords) (k0_t1 : Fin k0_t1_loop.trips) (v2722 : IVec S16 32), Decidable (k0_chk893 i k0_t1 v2722) := fun i k0_t1 v2722 => decidable_of_iff' _ (Iff.of_eq (k0_chk893.eq_1 i k0_t1 v2722))
theorem k0_idx893_inb : ∀ (i : grid0.Coords) (k0_t1 : Fin k0_t1_loop.trips) (v2722 : IVec S16 32) (k0_hw893 : k0_chk893 i k0_t1 v2722), ∀ (k0_h1 : k0_cond1 i k0_t1 = 1#1), ∀ a x, ((![v2722] : Fin 1 → IVec S16 32) a x).toNat < S100000.size a := fun i k0_t1 v2722 k0_hw893 k0_h1 => k0_hw893 k0_h1

def k0_chk894 (i : grid0.Coords) (k0_t1 : Fin k0_t1_loop.trips) (v2723 : IVec S16 32) : Prop :=
  (∀ (k0_h1 : k0_cond1 i k0_t1 = 1#1), ∀ a x, ((![v2723] : Fin 1 → IVec S16 32) a x).toNat < S100000.size a)
instance k0_chk894.dec : ∀ (i : grid0.Coords) (k0_t1 : Fin k0_t1_loop.trips) (v2723 : IVec S16 32), Decidable (k0_chk894 i k0_t1 v2723) := fun i k0_t1 v2723 => decidable_of_iff' _ (Iff.of_eq (k0_chk894.eq_1 i k0_t1 v2723))
theorem k0_idx894_inb : ∀ (i : grid0.Coords) (k0_t1 : Fin k0_t1_loop.trips) (v2723 : IVec S16 32) (k0_hw894 : k0_chk894 i k0_t1 v2723), ∀ (k0_h1 : k0_cond1 i k0_t1 = 1#1), ∀ a x, ((![v2723] : Fin 1 → IVec S16 32) a x).toNat < S100000.size a := fun i k0_t1 v2723 k0_hw894 k0_h1 => k0_hw894 k0_h1

def k0_chk895 (i : grid0.Coords) (k0_t1 : Fin k0_t1_loop.trips) (v2724 : IVec S16 32) : Prop :=
  (∀ (k0_h1 : k0_cond1 i k0_t1 = 1#1), ∀ a x, ((![v2724] : Fin 1 → IVec S16 32) a x).toNat < S100000.size a)
instance k0_chk895.dec : ∀ (i : grid0.Coords) (k0_t1 : Fin k0_t1_loop.trips) (v2724 : IVec S16 32), Decidable (k0_chk895 i k0_t1 v2724) := fun i k0_t1 v2724 => decidable_of_iff' _ (Iff.of_eq (k0_chk895.eq_1 i k0_t1 v2724))
theorem k0_idx895_inb : ∀ (i : grid0.Coords) (k0_t1 : Fin k0_t1_loop.trips) (v2724 : IVec S16 32) (k0_hw895 : k0_chk895 i k0_t1 v2724), ∀ (k0_h1 : k0_cond1 i k0_t1 = 1#1), ∀ a x, ((![v2724] : Fin 1 → IVec S16 32) a x).toNat < S100000.size a := fun i k0_t1 v2724 k0_hw895 k0_h1 => k0_hw895 k0_h1

def k0_chk896 (i : grid0.Coords) (k0_t1 : Fin k0_t1_loop.trips) (v2725 : IVec S16 32) : Prop :=
  (∀ (k0_h1 : k0_cond1 i k0_t1 = 1#1), ∀ a x, ((![v2725] : Fin 1 → IVec S16 32) a x).toNat < S100000.size a)
instance k0_chk896.dec : ∀ (i : grid0.Coords) (k0_t1 : Fin k0_t1_loop.trips) (v2725 : IVec S16 32), Decidable (k0_chk896 i k0_t1 v2725) := fun i k0_t1 v2725 => decidable_of_iff' _ (Iff.of_eq (k0_chk896.eq_1 i k0_t1 v2725))
theorem k0_idx896_inb : ∀ (i : grid0.Coords) (k0_t1 : Fin k0_t1_loop.trips) (v2725 : IVec S16 32) (k0_hw896 : k0_chk896 i k0_t1 v2725), ∀ (k0_h1 : k0_cond1 i k0_t1 = 1#1), ∀ a x, ((![v2725] : Fin 1 → IVec S16 32) a x).toNat < S100000.size a := fun i k0_t1 v2725 k0_hw896 k0_h1 => k0_hw896 k0_h1

def k0_chk897 (i : grid0.Coords) (k0_t1 : Fin k0_t1_loop.trips) (v2742 : IVec S16 32) : Prop :=
  (∀ (k0_h1 : k0_cond1 i k0_t1 = 1#1), ∀ a x, ((![v2742] : Fin 1 → IVec S16 32) a x).toNat < S100000.size a)
instance k0_chk897.dec : ∀ (i : grid0.Coords) (k0_t1 : Fin k0_t1_loop.trips) (v2742 : IVec S16 32), Decidable (k0_chk897 i k0_t1 v2742) := fun i k0_t1 v2742 => decidable_of_iff' _ (Iff.of_eq (k0_chk897.eq_1 i k0_t1 v2742))
theorem k0_idx897_inb : ∀ (i : grid0.Coords) (k0_t1 : Fin k0_t1_loop.trips) (v2742 : IVec S16 32) (k0_hw897 : k0_chk897 i k0_t1 v2742), ∀ (k0_h1 : k0_cond1 i k0_t1 = 1#1), ∀ a x, ((![v2742] : Fin 1 → IVec S16 32) a x).toNat < S100000.size a := fun i k0_t1 v2742 k0_hw897 k0_h1 => k0_hw897 k0_h1

def k0_chk898 (i : grid0.Coords) (k0_t1 : Fin k0_t1_loop.trips) (v2743 : IVec S16 32) : Prop :=
  (∀ (k0_h1 : k0_cond1 i k0_t1 = 1#1), ∀ a x, ((![v2743] : Fin 1 → IVec S16 32) a x).toNat < S100000.size a)
instance k0_chk898.dec : ∀ (i : grid0.Coords) (k0_t1 : Fin k0_t1_loop.trips) (v2743 : IVec S16 32), Decidable (k0_chk898 i k0_t1 v2743) := fun i k0_t1 v2743 => decidable_of_iff' _ (Iff.of_eq (k0_chk898.eq_1 i k0_t1 v2743))
theorem k0_idx898_inb : ∀ (i : grid0.Coords) (k0_t1 : Fin k0_t1_loop.trips) (v2743 : IVec S16 32) (k0_hw898 : k0_chk898 i k0_t1 v2743), ∀ (k0_h1 : k0_cond1 i k0_t1 = 1#1), ∀ a x, ((![v2743] : Fin 1 → IVec S16 32) a x).toNat < S100000.size a := fun i k0_t1 v2743 k0_hw898 k0_h1 => k0_hw898 k0_h1

def k0_chk899 (i : grid0.Coords) (k0_t1 : Fin k0_t1_loop.trips) (v2744 : IVec S16 32) : Prop :=
  (∀ (k0_h1 : k0_cond1 i k0_t1 = 1#1), ∀ a x, ((![v2744] : Fin 1 → IVec S16 32) a x).toNat < S100000.size a)
instance k0_chk899.dec : ∀ (i : grid0.Coords) (k0_t1 : Fin k0_t1_loop.trips) (v2744 : IVec S16 32), Decidable (k0_chk899 i k0_t1 v2744) := fun i k0_t1 v2744 => decidable_of_iff' _ (Iff.of_eq (k0_chk899.eq_1 i k0_t1 v2744))
theorem k0_idx899_inb : ∀ (i : grid0.Coords) (k0_t1 : Fin k0_t1_loop.trips) (v2744 : IVec S16 32) (k0_hw899 : k0_chk899 i k0_t1 v2744), ∀ (k0_h1 : k0_cond1 i k0_t1 = 1#1), ∀ a x, ((![v2744] : Fin 1 → IVec S16 32) a x).toNat < S100000.size a := fun i k0_t1 v2744 k0_hw899 k0_h1 => k0_hw899 k0_h1

def k0_chk900 (i : grid0.Coords) (k0_t1 : Fin k0_t1_loop.trips) (v2745 : IVec S16 32) : Prop :=
  (∀ (k0_h1 : k0_cond1 i k0_t1 = 1#1), ∀ a x, ((![v2745] : Fin 1 → IVec S16 32) a x).toNat < S100000.size a)
instance k0_chk900.dec : ∀ (i : grid0.Coords) (k0_t1 : Fin k0_t1_loop.trips) (v2745 : IVec S16 32), Decidable (k0_chk900 i k0_t1 v2745) := fun i k0_t1 v2745 => decidable_of_iff' _ (Iff.of_eq (k0_chk900.eq_1 i k0_t1 v2745))
theorem k0_idx900_inb : ∀ (i : grid0.Coords) (k0_t1 : Fin k0_t1_loop.trips) (v2745 : IVec S16 32) (k0_hw900 : k0_chk900 i k0_t1 v2745), ∀ (k0_h1 : k0_cond1 i k0_t1 = 1#1), ∀ a x, ((![v2745] : Fin 1 → IVec S16 32) a x).toNat < S100000.size a := fun i k0_t1 v2745 k0_hw900 k0_h1 => k0_hw900 k0_h1

def k0_chk901 (i : grid0.Coords) (k0_t1 : Fin k0_t1_loop.trips) (v2746 : IVec S16 32) : Prop :=
  (∀ (k0_h1 : k0_cond1 i k0_t1 = 1#1), ∀ a x, ((![v2746] : Fin 1 → IVec S16 32) a x).toNat < S100000.size a)
instance k0_chk901.dec : ∀ (i : grid0.Coords) (k0_t1 : Fin k0_t1_loop.trips) (v2746 : IVec S16 32), Decidable (k0_chk901 i k0_t1 v2746) := fun i k0_t1 v2746 => decidable_of_iff' _ (Iff.of_eq (k0_chk901.eq_1 i k0_t1 v2746))
theorem k0_idx901_inb : ∀ (i : grid0.Coords) (k0_t1 : Fin k0_t1_loop.trips) (v2746 : IVec S16 32) (k0_hw901 : k0_chk901 i k0_t1 v2746), ∀ (k0_h1 : k0_cond1 i k0_t1 = 1#1), ∀ a x, ((![v2746] : Fin 1 → IVec S16 32) a x).toNat < S100000.size a := fun i k0_t1 v2746 k0_hw901 k0_h1 => k0_hw901 k0_h1

def k0_chk902 (i : grid0.Coords) (k0_t1 : Fin k0_t1_loop.trips) (v2747 : IVec S16 32) : Prop :=
  (∀ (k0_h1 : k0_cond1 i k0_t1 = 1#1), ∀ a x, ((![v2747] : Fin 1 → IVec S16 32) a x).toNat < S100000.size a)
instance k0_chk902.dec : ∀ (i : grid0.Coords) (k0_t1 : Fin k0_t1_loop.trips) (v2747 : IVec S16 32), Decidable (k0_chk902 i k0_t1 v2747) := fun i k0_t1 v2747 => decidable_of_iff' _ (Iff.of_eq (k0_chk902.eq_1 i k0_t1 v2747))
theorem k0_idx902_inb : ∀ (i : grid0.Coords) (k0_t1 : Fin k0_t1_loop.trips) (v2747 : IVec S16 32) (k0_hw902 : k0_chk902 i k0_t1 v2747), ∀ (k0_h1 : k0_cond1 i k0_t1 = 1#1), ∀ a x, ((![v2747] : Fin 1 → IVec S16 32) a x).toNat < S100000.size a := fun i k0_t1 v2747 k0_hw902 k0_h1 => k0_hw902 k0_h1

def k0_chk903 (i : grid0.Coords) (k0_t1 : Fin k0_t1_loop.trips) (v2748 : IVec S16 32) : Prop :=
  (∀ (k0_h1 : k0_cond1 i k0_t1 = 1#1), ∀ a x, ((![v2748] : Fin 1 → IVec S16 32) a x).toNat < S100000.size a)
instance k0_chk903.dec : ∀ (i : grid0.Coords) (k0_t1 : Fin k0_t1_loop.trips) (v2748 : IVec S16 32), Decidable (k0_chk903 i k0_t1 v2748) := fun i k0_t1 v2748 => decidable_of_iff' _ (Iff.of_eq (k0_chk903.eq_1 i k0_t1 v2748))
theorem k0_idx903_inb : ∀ (i : grid0.Coords) (k0_t1 : Fin k0_t1_loop.trips) (v2748 : IVec S16 32) (k0_hw903 : k0_chk903 i k0_t1 v2748), ∀ (k0_h1 : k0_cond1 i k0_t1 = 1#1), ∀ a x, ((![v2748] : Fin 1 → IVec S16 32) a x).toNat < S100000.size a := fun i k0_t1 v2748 k0_hw903 k0_h1 => k0_hw903 k0_h1

def k0_chk904 (i : grid0.Coords) (k0_t1 : Fin k0_t1_loop.trips) (v2749 : IVec S16 32) : Prop :=
  (∀ (k0_h1 : k0_cond1 i k0_t1 = 1#1), ∀ a x, ((![v2749] : Fin 1 → IVec S16 32) a x).toNat < S100000.size a)
instance k0_chk904.dec : ∀ (i : grid0.Coords) (k0_t1 : Fin k0_t1_loop.trips) (v2749 : IVec S16 32), Decidable (k0_chk904 i k0_t1 v2749) := fun i k0_t1 v2749 => decidable_of_iff' _ (Iff.of_eq (k0_chk904.eq_1 i k0_t1 v2749))
theorem k0_idx904_inb : ∀ (i : grid0.Coords) (k0_t1 : Fin k0_t1_loop.trips) (v2749 : IVec S16 32) (k0_hw904 : k0_chk904 i k0_t1 v2749), ∀ (k0_h1 : k0_cond1 i k0_t1 = 1#1), ∀ a x, ((![v2749] : Fin 1 → IVec S16 32) a x).toNat < S100000.size a := fun i k0_t1 v2749 k0_hw904 k0_h1 => k0_hw904 k0_h1

def k0_chk905 (i : grid0.Coords) (k0_t1 : Fin k0_t1_loop.trips) (v2766 : IVec S16 32) : Prop :=
  (∀ (k0_h1 : k0_cond1 i k0_t1 = 1#1), ∀ a x, ((![v2766] : Fin 1 → IVec S16 32) a x).toNat < S100000.size a)
instance k0_chk905.dec : ∀ (i : grid0.Coords) (k0_t1 : Fin k0_t1_loop.trips) (v2766 : IVec S16 32), Decidable (k0_chk905 i k0_t1 v2766) := fun i k0_t1 v2766 => decidable_of_iff' _ (Iff.of_eq (k0_chk905.eq_1 i k0_t1 v2766))
theorem k0_idx905_inb : ∀ (i : grid0.Coords) (k0_t1 : Fin k0_t1_loop.trips) (v2766 : IVec S16 32) (k0_hw905 : k0_chk905 i k0_t1 v2766), ∀ (k0_h1 : k0_cond1 i k0_t1 = 1#1), ∀ a x, ((![v2766] : Fin 1 → IVec S16 32) a x).toNat < S100000.size a := fun i k0_t1 v2766 k0_hw905 k0_h1 => k0_hw905 k0_h1

def k0_chk906 (i : grid0.Coords) (k0_t1 : Fin k0_t1_loop.trips) (v2767 : IVec S16 32) : Prop :=
  (∀ (k0_h1 : k0_cond1 i k0_t1 = 1#1), ∀ a x, ((![v2767] : Fin 1 → IVec S16 32) a x).toNat < S100000.size a)
instance k0_chk906.dec : ∀ (i : grid0.Coords) (k0_t1 : Fin k0_t1_loop.trips) (v2767 : IVec S16 32), Decidable (k0_chk906 i k0_t1 v2767) := fun i k0_t1 v2767 => decidable_of_iff' _ (Iff.of_eq (k0_chk906.eq_1 i k0_t1 v2767))
theorem k0_idx906_inb : ∀ (i : grid0.Coords) (k0_t1 : Fin k0_t1_loop.trips) (v2767 : IVec S16 32) (k0_hw906 : k0_chk906 i k0_t1 v2767), ∀ (k0_h1 : k0_cond1 i k0_t1 = 1#1), ∀ a x, ((![v2767] : Fin 1 → IVec S16 32) a x).toNat < S100000.size a := fun i k0_t1 v2767 k0_hw906 k0_h1 => k0_hw906 k0_h1

def k0_chk907 (i : grid0.Coords) (k0_t1 : Fin k0_t1_loop.trips) (v2768 : IVec S16 32) : Prop :=
  (∀ (k0_h1 : k0_cond1 i k0_t1 = 1#1), ∀ a x, ((![v2768] : Fin 1 → IVec S16 32) a x).toNat < S100000.size a)
instance k0_chk907.dec : ∀ (i : grid0.Coords) (k0_t1 : Fin k0_t1_loop.trips) (v2768 : IVec S16 32), Decidable (k0_chk907 i k0_t1 v2768) := fun i k0_t1 v2768 => decidable_of_iff' _ (Iff.of_eq (k0_chk907.eq_1 i k0_t1 v2768))
theorem k0_idx907_inb : ∀ (i : grid0.Coords) (k0_t1 : Fin k0_t1_loop.trips) (v2768 : IVec S16 32) (k0_hw907 : k0_chk907 i k0_t1 v2768), ∀ (k0_h1 : k0_cond1 i k0_t1 = 1#1), ∀ a x, ((![v2768] : Fin 1 → IVec S16 32) a x).toNat < S100000.size a := fun i k0_t1 v2768 k0_hw907 k0_h1 => k0_hw907 k0_h1

def k0_chk908 (i : grid0.Coords) (k0_t1 : Fin k0_t1_loop.trips) (v2769 : IVec S16 32) : Prop :=
  (∀ (k0_h1 : k0_cond1 i k0_t1 = 1#1), ∀ a x, ((![v2769] : Fin 1 → IVec S16 32) a x).toNat < S100000.size a)
instance k0_chk908.dec : ∀ (i : grid0.Coords) (k0_t1 : Fin k0_t1_loop.trips) (v2769 : IVec S16 32), Decidable (k0_chk908 i k0_t1 v2769) := fun i k0_t1 v2769 => decidable_of_iff' _ (Iff.of_eq (k0_chk908.eq_1 i k0_t1 v2769))
theorem k0_idx908_inb : ∀ (i : grid0.Coords) (k0_t1 : Fin k0_t1_loop.trips) (v2769 : IVec S16 32) (k0_hw908 : k0_chk908 i k0_t1 v2769), ∀ (k0_h1 : k0_cond1 i k0_t1 = 1#1), ∀ a x, ((![v2769] : Fin 1 → IVec S16 32) a x).toNat < S100000.size a := fun i k0_t1 v2769 k0_hw908 k0_h1 => k0_hw908 k0_h1

def k0_chk909 (i : grid0.Coords) (k0_t1 : Fin k0_t1_loop.trips) (v2770 : IVec S16 32) : Prop :=
  (∀ (k0_h1 : k0_cond1 i k0_t1 = 1#1), ∀ a x, ((![v2770] : Fin 1 → IVec S16 32) a x).toNat < S100000.size a)
instance k0_chk909.dec : ∀ (i : grid0.Coords) (k0_t1 : Fin k0_t1_loop.trips) (v2770 : IVec S16 32), Decidable (k0_chk909 i k0_t1 v2770) := fun i k0_t1 v2770 => decidable_of_iff' _ (Iff.of_eq (k0_chk909.eq_1 i k0_t1 v2770))
theorem k0_idx909_inb : ∀ (i : grid0.Coords) (k0_t1 : Fin k0_t1_loop.trips) (v2770 : IVec S16 32) (k0_hw909 : k0_chk909 i k0_t1 v2770), ∀ (k0_h1 : k0_cond1 i k0_t1 = 1#1), ∀ a x, ((![v2770] : Fin 1 → IVec S16 32) a x).toNat < S100000.size a := fun i k0_t1 v2770 k0_hw909 k0_h1 => k0_hw909 k0_h1

def k0_chk910 (i : grid0.Coords) (k0_t1 : Fin k0_t1_loop.trips) (v2771 : IVec S16 32) : Prop :=
  (∀ (k0_h1 : k0_cond1 i k0_t1 = 1#1), ∀ a x, ((![v2771] : Fin 1 → IVec S16 32) a x).toNat < S100000.size a)
instance k0_chk910.dec : ∀ (i : grid0.Coords) (k0_t1 : Fin k0_t1_loop.trips) (v2771 : IVec S16 32), Decidable (k0_chk910 i k0_t1 v2771) := fun i k0_t1 v2771 => decidable_of_iff' _ (Iff.of_eq (k0_chk910.eq_1 i k0_t1 v2771))
theorem k0_idx910_inb : ∀ (i : grid0.Coords) (k0_t1 : Fin k0_t1_loop.trips) (v2771 : IVec S16 32) (k0_hw910 : k0_chk910 i k0_t1 v2771), ∀ (k0_h1 : k0_cond1 i k0_t1 = 1#1), ∀ a x, ((![v2771] : Fin 1 → IVec S16 32) a x).toNat < S100000.size a := fun i k0_t1 v2771 k0_hw910 k0_h1 => k0_hw910 k0_h1

def k0_chk911 (i : grid0.Coords) (k0_t1 : Fin k0_t1_loop.trips) (v2772 : IVec S16 32) : Prop :=
  (∀ (k0_h1 : k0_cond1 i k0_t1 = 1#1), ∀ a x, ((![v2772] : Fin 1 → IVec S16 32) a x).toNat < S100000.size a)
instance k0_chk911.dec : ∀ (i : grid0.Coords) (k0_t1 : Fin k0_t1_loop.trips) (v2772 : IVec S16 32), Decidable (k0_chk911 i k0_t1 v2772) := fun i k0_t1 v2772 => decidable_of_iff' _ (Iff.of_eq (k0_chk911.eq_1 i k0_t1 v2772))
theorem k0_idx911_inb : ∀ (i : grid0.Coords) (k0_t1 : Fin k0_t1_loop.trips) (v2772 : IVec S16 32) (k0_hw911 : k0_chk911 i k0_t1 v2772), ∀ (k0_h1 : k0_cond1 i k0_t1 = 1#1), ∀ a x, ((![v2772] : Fin 1 → IVec S16 32) a x).toNat < S100000.size a := fun i k0_t1 v2772 k0_hw911 k0_h1 => k0_hw911 k0_h1

def k0_chk912 (i : grid0.Coords) (k0_t1 : Fin k0_t1_loop.trips) (v2773 : IVec S16 32) : Prop :=
  (∀ (k0_h1 : k0_cond1 i k0_t1 = 1#1), ∀ a x, ((![v2773] : Fin 1 → IVec S16 32) a x).toNat < S100000.size a)
instance k0_chk912.dec : ∀ (i : grid0.Coords) (k0_t1 : Fin k0_t1_loop.trips) (v2773 : IVec S16 32), Decidable (k0_chk912 i k0_t1 v2773) := fun i k0_t1 v2773 => decidable_of_iff' _ (Iff.of_eq (k0_chk912.eq_1 i k0_t1 v2773))
theorem k0_idx912_inb : ∀ (i : grid0.Coords) (k0_t1 : Fin k0_t1_loop.trips) (v2773 : IVec S16 32) (k0_hw912 : k0_chk912 i k0_t1 v2773), ∀ (k0_h1 : k0_cond1 i k0_t1 = 1#1), ∀ a x, ((![v2773] : Fin 1 → IVec S16 32) a x).toNat < S100000.size a := fun i k0_t1 v2773 k0_hw912 k0_h1 => k0_hw912 k0_h1

def k0_chk913 (i : grid0.Coords) (k0_t1 : Fin k0_t1_loop.trips) (v2790 : IVec S16 32) : Prop :=
  (∀ (k0_h1 : k0_cond1 i k0_t1 = 1#1), ∀ a x, ((![v2790] : Fin 1 → IVec S16 32) a x).toNat < S100000.size a)
instance k0_chk913.dec : ∀ (i : grid0.Coords) (k0_t1 : Fin k0_t1_loop.trips) (v2790 : IVec S16 32), Decidable (k0_chk913 i k0_t1 v2790) := fun i k0_t1 v2790 => decidable_of_iff' _ (Iff.of_eq (k0_chk913.eq_1 i k0_t1 v2790))
theorem k0_idx913_inb : ∀ (i : grid0.Coords) (k0_t1 : Fin k0_t1_loop.trips) (v2790 : IVec S16 32) (k0_hw913 : k0_chk913 i k0_t1 v2790), ∀ (k0_h1 : k0_cond1 i k0_t1 = 1#1), ∀ a x, ((![v2790] : Fin 1 → IVec S16 32) a x).toNat < S100000.size a := fun i k0_t1 v2790 k0_hw913 k0_h1 => k0_hw913 k0_h1

def k0_chk914 (i : grid0.Coords) (k0_t1 : Fin k0_t1_loop.trips) (v2791 : IVec S16 32) : Prop :=
  (∀ (k0_h1 : k0_cond1 i k0_t1 = 1#1), ∀ a x, ((![v2791] : Fin 1 → IVec S16 32) a x).toNat < S100000.size a)
instance k0_chk914.dec : ∀ (i : grid0.Coords) (k0_t1 : Fin k0_t1_loop.trips) (v2791 : IVec S16 32), Decidable (k0_chk914 i k0_t1 v2791) := fun i k0_t1 v2791 => decidable_of_iff' _ (Iff.of_eq (k0_chk914.eq_1 i k0_t1 v2791))
theorem k0_idx914_inb : ∀ (i : grid0.Coords) (k0_t1 : Fin k0_t1_loop.trips) (v2791 : IVec S16 32) (k0_hw914 : k0_chk914 i k0_t1 v2791), ∀ (k0_h1 : k0_cond1 i k0_t1 = 1#1), ∀ a x, ((![v2791] : Fin 1 → IVec S16 32) a x).toNat < S100000.size a := fun i k0_t1 v2791 k0_hw914 k0_h1 => k0_hw914 k0_h1

def k0_chk915 (i : grid0.Coords) (k0_t1 : Fin k0_t1_loop.trips) (v2792 : IVec S16 32) : Prop :=
  (∀ (k0_h1 : k0_cond1 i k0_t1 = 1#1), ∀ a x, ((![v2792] : Fin 1 → IVec S16 32) a x).toNat < S100000.size a)
instance k0_chk915.dec : ∀ (i : grid0.Coords) (k0_t1 : Fin k0_t1_loop.trips) (v2792 : IVec S16 32), Decidable (k0_chk915 i k0_t1 v2792) := fun i k0_t1 v2792 => decidable_of_iff' _ (Iff.of_eq (k0_chk915.eq_1 i k0_t1 v2792))
theorem k0_idx915_inb : ∀ (i : grid0.Coords) (k0_t1 : Fin k0_t1_loop.trips) (v2792 : IVec S16 32) (k0_hw915 : k0_chk915 i k0_t1 v2792), ∀ (k0_h1 : k0_cond1 i k0_t1 = 1#1), ∀ a x, ((![v2792] : Fin 1 → IVec S16 32) a x).toNat < S100000.size a := fun i k0_t1 v2792 k0_hw915 k0_h1 => k0_hw915 k0_h1

def k0_chk916 (i : grid0.Coords) (k0_t1 : Fin k0_t1_loop.trips) (v2793 : IVec S16 32) : Prop :=
  (∀ (k0_h1 : k0_cond1 i k0_t1 = 1#1), ∀ a x, ((![v2793] : Fin 1 → IVec S16 32) a x).toNat < S100000.size a)
instance k0_chk916.dec : ∀ (i : grid0.Coords) (k0_t1 : Fin k0_t1_loop.trips) (v2793 : IVec S16 32), Decidable (k0_chk916 i k0_t1 v2793) := fun i k0_t1 v2793 => decidable_of_iff' _ (Iff.of_eq (k0_chk916.eq_1 i k0_t1 v2793))
theorem k0_idx916_inb : ∀ (i : grid0.Coords) (k0_t1 : Fin k0_t1_loop.trips) (v2793 : IVec S16 32) (k0_hw916 : k0_chk916 i k0_t1 v2793), ∀ (k0_h1 : k0_cond1 i k0_t1 = 1#1), ∀ a x, ((![v2793] : Fin 1 → IVec S16 32) a x).toNat < S100000.size a := fun i k0_t1 v2793 k0_hw916 k0_h1 => k0_hw916 k0_h1

def k0_chk917 (i : grid0.Coords) (k0_t1 : Fin k0_t1_loop.trips) (v2794 : IVec S16 32) : Prop :=
  (∀ (k0_h1 : k0_cond1 i k0_t1 = 1#1), ∀ a x, ((![v2794] : Fin 1 → IVec S16 32) a x).toNat < S100000.size a)
instance k0_chk917.dec : ∀ (i : grid0.Coords) (k0_t1 : Fin k0_t1_loop.trips) (v2794 : IVec S16 32), Decidable (k0_chk917 i k0_t1 v2794) := fun i k0_t1 v2794 => decidable_of_iff' _ (Iff.of_eq (k0_chk917.eq_1 i k0_t1 v2794))
theorem k0_idx917_inb : ∀ (i : grid0.Coords) (k0_t1 : Fin k0_t1_loop.trips) (v2794 : IVec S16 32) (k0_hw917 : k0_chk917 i k0_t1 v2794), ∀ (k0_h1 : k0_cond1 i k0_t1 = 1#1), ∀ a x, ((![v2794] : Fin 1 → IVec S16 32) a x).toNat < S100000.size a := fun i k0_t1 v2794 k0_hw917 k0_h1 => k0_hw917 k0_h1

def k0_chk918 (i : grid0.Coords) (k0_t1 : Fin k0_t1_loop.trips) (v2795 : IVec S16 32) : Prop :=
  (∀ (k0_h1 : k0_cond1 i k0_t1 = 1#1), ∀ a x, ((![v2795] : Fin 1 → IVec S16 32) a x).toNat < S100000.size a)
instance k0_chk918.dec : ∀ (i : grid0.Coords) (k0_t1 : Fin k0_t1_loop.trips) (v2795 : IVec S16 32), Decidable (k0_chk918 i k0_t1 v2795) := fun i k0_t1 v2795 => decidable_of_iff' _ (Iff.of_eq (k0_chk918.eq_1 i k0_t1 v2795))
theorem k0_idx918_inb : ∀ (i : grid0.Coords) (k0_t1 : Fin k0_t1_loop.trips) (v2795 : IVec S16 32) (k0_hw918 : k0_chk918 i k0_t1 v2795), ∀ (k0_h1 : k0_cond1 i k0_t1 = 1#1), ∀ a x, ((![v2795] : Fin 1 → IVec S16 32) a x).toNat < S100000.size a := fun i k0_t1 v2795 k0_hw918 k0_h1 => k0_hw918 k0_h1

def k0_chk919 (i : grid0.Coords) (k0_t1 : Fin k0_t1_loop.trips) (v2796 : IVec S16 32) : Prop :=
  (∀ (k0_h1 : k0_cond1 i k0_t1 = 1#1), ∀ a x, ((![v2796] : Fin 1 → IVec S16 32) a x).toNat < S100000.size a)
instance k0_chk919.dec : ∀ (i : grid0.Coords) (k0_t1 : Fin k0_t1_loop.trips) (v2796 : IVec S16 32), Decidable (k0_chk919 i k0_t1 v2796) := fun i k0_t1 v2796 => decidable_of_iff' _ (Iff.of_eq (k0_chk919.eq_1 i k0_t1 v2796))
theorem k0_idx919_inb : ∀ (i : grid0.Coords) (k0_t1 : Fin k0_t1_loop.trips) (v2796 : IVec S16 32) (k0_hw919 : k0_chk919 i k0_t1 v2796), ∀ (k0_h1 : k0_cond1 i k0_t1 = 1#1), ∀ a x, ((![v2796] : Fin 1 → IVec S16 32) a x).toNat < S100000.size a := fun i k0_t1 v2796 k0_hw919 k0_h1 => k0_hw919 k0_h1

def k0_chk920 (i : grid0.Coords) (k0_t1 : Fin k0_t1_loop.trips) (v2797 : IVec S16 32) : Prop :=
  (∀ (k0_h1 : k0_cond1 i k0_t1 = 1#1), ∀ a x, ((![v2797] : Fin 1 → IVec S16 32) a x).toNat < S100000.size a)
instance k0_chk920.dec : ∀ (i : grid0.Coords) (k0_t1 : Fin k0_t1_loop.trips) (v2797 : IVec S16 32), Decidable (k0_chk920 i k0_t1 v2797) := fun i k0_t1 v2797 => decidable_of_iff' _ (Iff.of_eq (k0_chk920.eq_1 i k0_t1 v2797))
theorem k0_idx920_inb : ∀ (i : grid0.Coords) (k0_t1 : Fin k0_t1_loop.trips) (v2797 : IVec S16 32) (k0_hw920 : k0_chk920 i k0_t1 v2797), ∀ (k0_h1 : k0_cond1 i k0_t1 = 1#1), ∀ a x, ((![v2797] : Fin 1 → IVec S16 32) a x).toNat < S100000.size a := fun i k0_t1 v2797 k0_hw920 k0_h1 => k0_hw920 k0_h1

def k0_chk921 (i : grid0.Coords) (k0_t1 : Fin k0_t1_loop.trips) (v2814 : IVec S16 32) : Prop :=
  (∀ (k0_h1 : k0_cond1 i k0_t1 = 1#1), ∀ a x, ((![v2814] : Fin 1 → IVec S16 32) a x).toNat < S100000.size a)
instance k0_chk921.dec : ∀ (i : grid0.Coords) (k0_t1 : Fin k0_t1_loop.trips) (v2814 : IVec S16 32), Decidable (k0_chk921 i k0_t1 v2814) := fun i k0_t1 v2814 => decidable_of_iff' _ (Iff.of_eq (k0_chk921.eq_1 i k0_t1 v2814))
theorem k0_idx921_inb : ∀ (i : grid0.Coords) (k0_t1 : Fin k0_t1_loop.trips) (v2814 : IVec S16 32) (k0_hw921 : k0_chk921 i k0_t1 v2814), ∀ (k0_h1 : k0_cond1 i k0_t1 = 1#1), ∀ a x, ((![v2814] : Fin 1 → IVec S16 32) a x).toNat < S100000.size a := fun i k0_t1 v2814 k0_hw921 k0_h1 => k0_hw921 k0_h1

def k0_chk922 (i : grid0.Coords) (k0_t1 : Fin k0_t1_loop.trips) (v2815 : IVec S16 32) : Prop :=
  (∀ (k0_h1 : k0_cond1 i k0_t1 = 1#1), ∀ a x, ((![v2815] : Fin 1 → IVec S16 32) a x).toNat < S100000.size a)
instance k0_chk922.dec : ∀ (i : grid0.Coords) (k0_t1 : Fin k0_t1_loop.trips) (v2815 : IVec S16 32), Decidable (k0_chk922 i k0_t1 v2815) := fun i k0_t1 v2815 => decidable_of_iff' _ (Iff.of_eq (k0_chk922.eq_1 i k0_t1 v2815))
theorem k0_idx922_inb : ∀ (i : grid0.Coords) (k0_t1 : Fin k0_t1_loop.trips) (v2815 : IVec S16 32) (k0_hw922 : k0_chk922 i k0_t1 v2815), ∀ (k0_h1 : k0_cond1 i k0_t1 = 1#1), ∀ a x, ((![v2815] : Fin 1 → IVec S16 32) a x).toNat < S100000.size a := fun i k0_t1 v2815 k0_hw922 k0_h1 => k0_hw922 k0_h1

def k0_chk923 (i : grid0.Coords) (k0_t1 : Fin k0_t1_loop.trips) (v2816 : IVec S16 32) : Prop :=
  (∀ (k0_h1 : k0_cond1 i k0_t1 = 1#1), ∀ a x, ((![v2816] : Fin 1 → IVec S16 32) a x).toNat < S100000.size a)
instance k0_chk923.dec : ∀ (i : grid0.Coords) (k0_t1 : Fin k0_t1_loop.trips) (v2816 : IVec S16 32), Decidable (k0_chk923 i k0_t1 v2816) := fun i k0_t1 v2816 => decidable_of_iff' _ (Iff.of_eq (k0_chk923.eq_1 i k0_t1 v2816))
theorem k0_idx923_inb : ∀ (i : grid0.Coords) (k0_t1 : Fin k0_t1_loop.trips) (v2816 : IVec S16 32) (k0_hw923 : k0_chk923 i k0_t1 v2816), ∀ (k0_h1 : k0_cond1 i k0_t1 = 1#1), ∀ a x, ((![v2816] : Fin 1 → IVec S16 32) a x).toNat < S100000.size a := fun i k0_t1 v2816 k0_hw923 k0_h1 => k0_hw923 k0_h1

def k0_chk924 (i : grid0.Coords) (k0_t1 : Fin k0_t1_loop.trips) (v2817 : IVec S16 32) : Prop :=
  (∀ (k0_h1 : k0_cond1 i k0_t1 = 1#1), ∀ a x, ((![v2817] : Fin 1 → IVec S16 32) a x).toNat < S100000.size a)
instance k0_chk924.dec : ∀ (i : grid0.Coords) (k0_t1 : Fin k0_t1_loop.trips) (v2817 : IVec S16 32), Decidable (k0_chk924 i k0_t1 v2817) := fun i k0_t1 v2817 => decidable_of_iff' _ (Iff.of_eq (k0_chk924.eq_1 i k0_t1 v2817))
theorem k0_idx924_inb : ∀ (i : grid0.Coords) (k0_t1 : Fin k0_t1_loop.trips) (v2817 : IVec S16 32) (k0_hw924 : k0_chk924 i k0_t1 v2817), ∀ (k0_h1 : k0_cond1 i k0_t1 = 1#1), ∀ a x, ((![v2817] : Fin 1 → IVec S16 32) a x).toNat < S100000.size a := fun i k0_t1 v2817 k0_hw924 k0_h1 => k0_hw924 k0_h1

def k0_chk925 (i : grid0.Coords) (k0_t1 : Fin k0_t1_loop.trips) (v2818 : IVec S16 32) : Prop :=
  (∀ (k0_h1 : k0_cond1 i k0_t1 = 1#1), ∀ a x, ((![v2818] : Fin 1 → IVec S16 32) a x).toNat < S100000.size a)
instance k0_chk925.dec : ∀ (i : grid0.Coords) (k0_t1 : Fin k0_t1_loop.trips) (v2818 : IVec S16 32), Decidable (k0_chk925 i k0_t1 v2818) := fun i k0_t1 v2818 => decidable_of_iff' _ (Iff.of_eq (k0_chk925.eq_1 i k0_t1 v2818))
theorem k0_idx925_inb : ∀ (i : grid0.Coords) (k0_t1 : Fin k0_t1_loop.trips) (v2818 : IVec S16 32) (k0_hw925 : k0_chk925 i k0_t1 v2818), ∀ (k0_h1 : k0_cond1 i k0_t1 = 1#1), ∀ a x, ((![v2818] : Fin 1 → IVec S16 32) a x).toNat < S100000.size a := fun i k0_t1 v2818 k0_hw925 k0_h1 => k0_hw925 k0_h1

def k0_chk926 (i : grid0.Coords) (k0_t1 : Fin k0_t1_loop.trips) (v2819 : IVec S16 32) : Prop :=
  (∀ (k0_h1 : k0_cond1 i k0_t1 = 1#1), ∀ a x, ((![v2819] : Fin 1 → IVec S16 32) a x).toNat < S100000.size a)
instance k0_chk926.dec : ∀ (i : grid0.Coords) (k0_t1 : Fin k0_t1_loop.trips) (v2819 : IVec S16 32), Decidable (k0_chk926 i k0_t1 v2819) := fun i k0_t1 v2819 => decidable_of_iff' _ (Iff.of_eq (k0_chk926.eq_1 i k0_t1 v2819))
theorem k0_idx926_inb : ∀ (i : grid0.Coords) (k0_t1 : Fin k0_t1_loop.trips) (v2819 : IVec S16 32) (k0_hw926 : k0_chk926 i k0_t1 v2819), ∀ (k0_h1 : k0_cond1 i k0_t1 = 1#1), ∀ a x, ((![v2819] : Fin 1 → IVec S16 32) a x).toNat < S100000.size a := fun i k0_t1 v2819 k0_hw926 k0_h1 => k0_hw926 k0_h1

def k0_chk927 (i : grid0.Coords) (k0_t1 : Fin k0_t1_loop.trips) (v2820 : IVec S16 32) : Prop :=
  (∀ (k0_h1 : k0_cond1 i k0_t1 = 1#1), ∀ a x, ((![v2820] : Fin 1 → IVec S16 32) a x).toNat < S100000.size a)
instance k0_chk927.dec : ∀ (i : grid0.Coords) (k0_t1 : Fin k0_t1_loop.trips) (v2820 : IVec S16 32), Decidable (k0_chk927 i k0_t1 v2820) := fun i k0_t1 v2820 => decidable_of_iff' _ (Iff.of_eq (k0_chk927.eq_1 i k0_t1 v2820))
theorem k0_idx927_inb : ∀ (i : grid0.Coords) (k0_t1 : Fin k0_t1_loop.trips) (v2820 : IVec S16 32) (k0_hw927 : k0_chk927 i k0_t1 v2820), ∀ (k0_h1 : k0_cond1 i k0_t1 = 1#1), ∀ a x, ((![v2820] : Fin 1 → IVec S16 32) a x).toNat < S100000.size a := fun i k0_t1 v2820 k0_hw927 k0_h1 => k0_hw927 k0_h1

def k0_chk928 (i : grid0.Coords) (k0_t1 : Fin k0_t1_loop.trips) (v2821 : IVec S16 32) : Prop :=
  (∀ (k0_h1 : k0_cond1 i k0_t1 = 1#1), ∀ a x, ((![v2821] : Fin 1 → IVec S16 32) a x).toNat < S100000.size a)
instance k0_chk928.dec : ∀ (i : grid0.Coords) (k0_t1 : Fin k0_t1_loop.trips) (v2821 : IVec S16 32), Decidable (k0_chk928 i k0_t1 v2821) := fun i k0_t1 v2821 => decidable_of_iff' _ (Iff.of_eq (k0_chk928.eq_1 i k0_t1 v2821))
theorem k0_idx928_inb : ∀ (i : grid0.Coords) (k0_t1 : Fin k0_t1_loop.trips) (v2821 : IVec S16 32) (k0_hw928 : k0_chk928 i k0_t1 v2821), ∀ (k0_h1 : k0_cond1 i k0_t1 = 1#1), ∀ a x, ((![v2821] : Fin 1 → IVec S16 32) a x).toNat < S100000.size a := fun i k0_t1 v2821 k0_hw928 k0_h1 => k0_hw928 k0_h1

def k0_chk929 (i : grid0.Coords) (k0_t1 : Fin k0_t1_loop.trips) (v2838 : IVec S16 32) : Prop :=
  (∀ (k0_h1 : k0_cond1 i k0_t1 = 1#1), ∀ a x, ((![v2838] : Fin 1 → IVec S16 32) a x).toNat < S100000.size a)
instance k0_chk929.dec : ∀ (i : grid0.Coords) (k0_t1 : Fin k0_t1_loop.trips) (v2838 : IVec S16 32), Decidable (k0_chk929 i k0_t1 v2838) := fun i k0_t1 v2838 => decidable_of_iff' _ (Iff.of_eq (k0_chk929.eq_1 i k0_t1 v2838))
theorem k0_idx929_inb : ∀ (i : grid0.Coords) (k0_t1 : Fin k0_t1_loop.trips) (v2838 : IVec S16 32) (k0_hw929 : k0_chk929 i k0_t1 v2838), ∀ (k0_h1 : k0_cond1 i k0_t1 = 1#1), ∀ a x, ((![v2838] : Fin 1 → IVec S16 32) a x).toNat < S100000.size a := fun i k0_t1 v2838 k0_hw929 k0_h1 => k0_hw929 k0_h1

def k0_chk930 (i : grid0.Coords) (k0_t1 : Fin k0_t1_loop.trips) (v2839 : IVec S16 32) : Prop :=
  (∀ (k0_h1 : k0_cond1 i k0_t1 = 1#1), ∀ a x, ((![v2839] : Fin 1 → IVec S16 32) a x).toNat < S100000.size a)
instance k0_chk930.dec : ∀ (i : grid0.Coords) (k0_t1 : Fin k0_t1_loop.trips) (v2839 : IVec S16 32), Decidable (k0_chk930 i k0_t1 v2839) := fun i k0_t1 v2839 => decidable_of_iff' _ (Iff.of_eq (k0_chk930.eq_1 i k0_t1 v2839))
theorem k0_idx930_inb : ∀ (i : grid0.Coords) (k0_t1 : Fin k0_t1_loop.trips) (v2839 : IVec S16 32) (k0_hw930 : k0_chk930 i k0_t1 v2839), ∀ (k0_h1 : k0_cond1 i k0_t1 = 1#1), ∀ a x, ((![v2839] : Fin 1 → IVec S16 32) a x).toNat < S100000.size a := fun i k0_t1 v2839 k0_hw930 k0_h1 => k0_hw930 k0_h1

def k0_chk931 (i : grid0.Coords) (k0_t1 : Fin k0_t1_loop.trips) (v2840 : IVec S16 32) : Prop :=
  (∀ (k0_h1 : k0_cond1 i k0_t1 = 1#1), ∀ a x, ((![v2840] : Fin 1 → IVec S16 32) a x).toNat < S100000.size a)
instance k0_chk931.dec : ∀ (i : grid0.Coords) (k0_t1 : Fin k0_t1_loop.trips) (v2840 : IVec S16 32), Decidable (k0_chk931 i k0_t1 v2840) := fun i k0_t1 v2840 => decidable_of_iff' _ (Iff.of_eq (k0_chk931.eq_1 i k0_t1 v2840))
theorem k0_idx931_inb : ∀ (i : grid0.Coords) (k0_t1 : Fin k0_t1_loop.trips) (v2840 : IVec S16 32) (k0_hw931 : k0_chk931 i k0_t1 v2840), ∀ (k0_h1 : k0_cond1 i k0_t1 = 1#1), ∀ a x, ((![v2840] : Fin 1 → IVec S16 32) a x).toNat < S100000.size a := fun i k0_t1 v2840 k0_hw931 k0_h1 => k0_hw931 k0_h1

def k0_chk932 (i : grid0.Coords) (k0_t1 : Fin k0_t1_loop.trips) (v2841 : IVec S16 32) : Prop :=
  (∀ (k0_h1 : k0_cond1 i k0_t1 = 1#1), ∀ a x, ((![v2841] : Fin 1 → IVec S16 32) a x).toNat < S100000.size a)
instance k0_chk932.dec : ∀ (i : grid0.Coords) (k0_t1 : Fin k0_t1_loop.trips) (v2841 : IVec S16 32), Decidable (k0_chk932 i k0_t1 v2841) := fun i k0_t1 v2841 => decidable_of_iff' _ (Iff.of_eq (k0_chk932.eq_1 i k0_t1 v2841))
theorem k0_idx932_inb : ∀ (i : grid0.Coords) (k0_t1 : Fin k0_t1_loop.trips) (v2841 : IVec S16 32) (k0_hw932 : k0_chk932 i k0_t1 v2841), ∀ (k0_h1 : k0_cond1 i k0_t1 = 1#1), ∀ a x, ((![v2841] : Fin 1 → IVec S16 32) a x).toNat < S100000.size a := fun i k0_t1 v2841 k0_hw932 k0_h1 => k0_hw932 k0_h1

def k0_chk933 (i : grid0.Coords) (k0_t1 : Fin k0_t1_loop.trips) (v2842 : IVec S16 32) : Prop :=
  (∀ (k0_h1 : k0_cond1 i k0_t1 = 1#1), ∀ a x, ((![v2842] : Fin 1 → IVec S16 32) a x).toNat < S100000.size a)
instance k0_chk933.dec : ∀ (i : grid0.Coords) (k0_t1 : Fin k0_t1_loop.trips) (v2842 : IVec S16 32), Decidable (k0_chk933 i k0_t1 v2842) := fun i k0_t1 v2842 => decidable_of_iff' _ (Iff.of_eq (k0_chk933.eq_1 i k0_t1 v2842))
theorem k0_idx933_inb : ∀ (i : grid0.Coords) (k0_t1 : Fin k0_t1_loop.trips) (v2842 : IVec S16 32) (k0_hw933 : k0_chk933 i k0_t1 v2842), ∀ (k0_h1 : k0_cond1 i k0_t1 = 1#1), ∀ a x, ((![v2842] : Fin 1 → IVec S16 32) a x).toNat < S100000.size a := fun i k0_t1 v2842 k0_hw933 k0_h1 => k0_hw933 k0_h1

def k0_chk934 (i : grid0.Coords) (k0_t1 : Fin k0_t1_loop.trips) (v2843 : IVec S16 32) : Prop :=
  (∀ (k0_h1 : k0_cond1 i k0_t1 = 1#1), ∀ a x, ((![v2843] : Fin 1 → IVec S16 32) a x).toNat < S100000.size a)
instance k0_chk934.dec : ∀ (i : grid0.Coords) (k0_t1 : Fin k0_t1_loop.trips) (v2843 : IVec S16 32), Decidable (k0_chk934 i k0_t1 v2843) := fun i k0_t1 v2843 => decidable_of_iff' _ (Iff.of_eq (k0_chk934.eq_1 i k0_t1 v2843))
theorem k0_idx934_inb : ∀ (i : grid0.Coords) (k0_t1 : Fin k0_t1_loop.trips) (v2843 : IVec S16 32) (k0_hw934 : k0_chk934 i k0_t1 v2843), ∀ (k0_h1 : k0_cond1 i k0_t1 = 1#1), ∀ a x, ((![v2843] : Fin 1 → IVec S16 32) a x).toNat < S100000.size a := fun i k0_t1 v2843 k0_hw934 k0_h1 => k0_hw934 k0_h1

def k0_chk935 (i : grid0.Coords) (k0_t1 : Fin k0_t1_loop.trips) (v2844 : IVec S16 32) : Prop :=
  (∀ (k0_h1 : k0_cond1 i k0_t1 = 1#1), ∀ a x, ((![v2844] : Fin 1 → IVec S16 32) a x).toNat < S100000.size a)
instance k0_chk935.dec : ∀ (i : grid0.Coords) (k0_t1 : Fin k0_t1_loop.trips) (v2844 : IVec S16 32), Decidable (k0_chk935 i k0_t1 v2844) := fun i k0_t1 v2844 => decidable_of_iff' _ (Iff.of_eq (k0_chk935.eq_1 i k0_t1 v2844))
theorem k0_idx935_inb : ∀ (i : grid0.Coords) (k0_t1 : Fin k0_t1_loop.trips) (v2844 : IVec S16 32) (k0_hw935 : k0_chk935 i k0_t1 v2844), ∀ (k0_h1 : k0_cond1 i k0_t1 = 1#1), ∀ a x, ((![v2844] : Fin 1 → IVec S16 32) a x).toNat < S100000.size a := fun i k0_t1 v2844 k0_hw935 k0_h1 => k0_hw935 k0_h1

def k0_chk936 (i : grid0.Coords) (k0_t1 : Fin k0_t1_loop.trips) (v2845 : IVec S16 32) : Prop :=
  (∀ (k0_h1 : k0_cond1 i k0_t1 = 1#1), ∀ a x, ((![v2845] : Fin 1 → IVec S16 32) a x).toNat < S100000.size a)
instance k0_chk936.dec : ∀ (i : grid0.Coords) (k0_t1 : Fin k0_t1_loop.trips) (v2845 : IVec S16 32), Decidable (k0_chk936 i k0_t1 v2845) := fun i k0_t1 v2845 => decidable_of_iff' _ (Iff.of_eq (k0_chk936.eq_1 i k0_t1 v2845))
theorem k0_idx936_inb : ∀ (i : grid0.Coords) (k0_t1 : Fin k0_t1_loop.trips) (v2845 : IVec S16 32) (k0_hw936 : k0_chk936 i k0_t1 v2845), ∀ (k0_h1 : k0_cond1 i k0_t1 = 1#1), ∀ a x, ((![v2845] : Fin 1 → IVec S16 32) a x).toNat < S100000.size a := fun i k0_t1 v2845 k0_hw936 k0_h1 => k0_hw936 k0_h1

def k0_chk937 (i : grid0.Coords) (k0_t1 : Fin k0_t1_loop.trips) (v2862 : IVec S16 32) : Prop :=
  (∀ (k0_h1 : k0_cond1 i k0_t1 = 1#1), ∀ a x, ((![v2862] : Fin 1 → IVec S16 32) a x).toNat < S100000.size a)
instance k0_chk937.dec : ∀ (i : grid0.Coords) (k0_t1 : Fin k0_t1_loop.trips) (v2862 : IVec S16 32), Decidable (k0_chk937 i k0_t1 v2862) := fun i k0_t1 v2862 => decidable_of_iff' _ (Iff.of_eq (k0_chk937.eq_1 i k0_t1 v2862))
theorem k0_idx937_inb : ∀ (i : grid0.Coords) (k0_t1 : Fin k0_t1_loop.trips) (v2862 : IVec S16 32) (k0_hw937 : k0_chk937 i k0_t1 v2862), ∀ (k0_h1 : k0_cond1 i k0_t1 = 1#1), ∀ a x, ((![v2862] : Fin 1 → IVec S16 32) a x).toNat < S100000.size a := fun i k0_t1 v2862 k0_hw937 k0_h1 => k0_hw937 k0_h1

def k0_chk938 (i : grid0.Coords) (k0_t1 : Fin k0_t1_loop.trips) (v2863 : IVec S16 32) : Prop :=
  (∀ (k0_h1 : k0_cond1 i k0_t1 = 1#1), ∀ a x, ((![v2863] : Fin 1 → IVec S16 32) a x).toNat < S100000.size a)
instance k0_chk938.dec : ∀ (i : grid0.Coords) (k0_t1 : Fin k0_t1_loop.trips) (v2863 : IVec S16 32), Decidable (k0_chk938 i k0_t1 v2863) := fun i k0_t1 v2863 => decidable_of_iff' _ (Iff.of_eq (k0_chk938.eq_1 i k0_t1 v2863))
theorem k0_idx938_inb : ∀ (i : grid0.Coords) (k0_t1 : Fin k0_t1_loop.trips) (v2863 : IVec S16 32) (k0_hw938 : k0_chk938 i k0_t1 v2863), ∀ (k0_h1 : k0_cond1 i k0_t1 = 1#1), ∀ a x, ((![v2863] : Fin 1 → IVec S16 32) a x).toNat < S100000.size a := fun i k0_t1 v2863 k0_hw938 k0_h1 => k0_hw938 k0_h1

def k0_chk939 (i : grid0.Coords) (k0_t1 : Fin k0_t1_loop.trips) (v2864 : IVec S16 32) : Prop :=
  (∀ (k0_h1 : k0_cond1 i k0_t1 = 1#1), ∀ a x, ((![v2864] : Fin 1 → IVec S16 32) a x).toNat < S100000.size a)
instance k0_chk939.dec : ∀ (i : grid0.Coords) (k0_t1 : Fin k0_t1_loop.trips) (v2864 : IVec S16 32), Decidable (k0_chk939 i k0_t1 v2864) := fun i k0_t1 v2864 => decidable_of_iff' _ (Iff.of_eq (k0_chk939.eq_1 i k0_t1 v2864))
theorem k0_idx939_inb : ∀ (i : grid0.Coords) (k0_t1 : Fin k0_t1_loop.trips) (v2864 : IVec S16 32) (k0_hw939 : k0_chk939 i k0_t1 v2864), ∀ (k0_h1 : k0_cond1 i k0_t1 = 1#1), ∀ a x, ((![v2864] : Fin 1 → IVec S16 32) a x).toNat < S100000.size a := fun i k0_t1 v2864 k0_hw939 k0_h1 => k0_hw939 k0_h1

def k0_chk940 (i : grid0.Coords) (k0_t1 : Fin k0_t1_loop.trips) (v2865 : IVec S16 32) : Prop :=
  (∀ (k0_h1 : k0_cond1 i k0_t1 = 1#1), ∀ a x, ((![v2865] : Fin 1 → IVec S16 32) a x).toNat < S100000.size a)
instance k0_chk940.dec : ∀ (i : grid0.Coords) (k0_t1 : Fin k0_t1_loop.trips) (v2865 : IVec S16 32), Decidable (k0_chk940 i k0_t1 v2865) := fun i k0_t1 v2865 => decidable_of_iff' _ (Iff.of_eq (k0_chk940.eq_1 i k0_t1 v2865))
theorem k0_idx940_inb : ∀ (i : grid0.Coords) (k0_t1 : Fin k0_t1_loop.trips) (v2865 : IVec S16 32) (k0_hw940 : k0_chk940 i k0_t1 v2865), ∀ (k0_h1 : k0_cond1 i k0_t1 = 1#1), ∀ a x, ((![v2865] : Fin 1 → IVec S16 32) a x).toNat < S100000.size a := fun i k0_t1 v2865 k0_hw940 k0_h1 => k0_hw940 k0_h1

def k0_chk941 (i : grid0.Coords) (k0_t1 : Fin k0_t1_loop.trips) (v2866 : IVec S16 32) : Prop :=
  (∀ (k0_h1 : k0_cond1 i k0_t1 = 1#1), ∀ a x, ((![v2866] : Fin 1 → IVec S16 32) a x).toNat < S100000.size a)
instance k0_chk941.dec : ∀ (i : grid0.Coords) (k0_t1 : Fin k0_t1_loop.trips) (v2866 : IVec S16 32), Decidable (k0_chk941 i k0_t1 v2866) := fun i k0_t1 v2866 => decidable_of_iff' _ (Iff.of_eq (k0_chk941.eq_1 i k0_t1 v2866))
theorem k0_idx941_inb : ∀ (i : grid0.Coords) (k0_t1 : Fin k0_t1_loop.trips) (v2866 : IVec S16 32) (k0_hw941 : k0_chk941 i k0_t1 v2866), ∀ (k0_h1 : k0_cond1 i k0_t1 = 1#1), ∀ a x, ((![v2866] : Fin 1 → IVec S16 32) a x).toNat < S100000.size a := fun i k0_t1 v2866 k0_hw941 k0_h1 => k0_hw941 k0_h1

def k0_chk942 (i : grid0.Coords) (k0_t1 : Fin k0_t1_loop.trips) (v2867 : IVec S16 32) : Prop :=
  (∀ (k0_h1 : k0_cond1 i k0_t1 = 1#1), ∀ a x, ((![v2867] : Fin 1 → IVec S16 32) a x).toNat < S100000.size a)
instance k0_chk942.dec : ∀ (i : grid0.Coords) (k0_t1 : Fin k0_t1_loop.trips) (v2867 : IVec S16 32), Decidable (k0_chk942 i k0_t1 v2867) := fun i k0_t1 v2867 => decidable_of_iff' _ (Iff.of_eq (k0_chk942.eq_1 i k0_t1 v2867))
theorem k0_idx942_inb : ∀ (i : grid0.Coords) (k0_t1 : Fin k0_t1_loop.trips) (v2867 : IVec S16 32) (k0_hw942 : k0_chk942 i k0_t1 v2867), ∀ (k0_h1 : k0_cond1 i k0_t1 = 1#1), ∀ a x, ((![v2867] : Fin 1 → IVec S16 32) a x).toNat < S100000.size a := fun i k0_t1 v2867 k0_hw942 k0_h1 => k0_hw942 k0_h1

def k0_chk943 (i : grid0.Coords) (k0_t1 : Fin k0_t1_loop.trips) (v2868 : IVec S16 32) : Prop :=
  (∀ (k0_h1 : k0_cond1 i k0_t1 = 1#1), ∀ a x, ((![v2868] : Fin 1 → IVec S16 32) a x).toNat < S100000.size a)
instance k0_chk943.dec : ∀ (i : grid0.Coords) (k0_t1 : Fin k0_t1_loop.trips) (v2868 : IVec S16 32), Decidable (k0_chk943 i k0_t1 v2868) := fun i k0_t1 v2868 => decidable_of_iff' _ (Iff.of_eq (k0_chk943.eq_1 i k0_t1 v2868))
theorem k0_idx943_inb : ∀ (i : grid0.Coords) (k0_t1 : Fin k0_t1_loop.trips) (v2868 : IVec S16 32) (k0_hw943 : k0_chk943 i k0_t1 v2868), ∀ (k0_h1 : k0_cond1 i k0_t1 = 1#1), ∀ a x, ((![v2868] : Fin 1 → IVec S16 32) a x).toNat < S100000.size a := fun i k0_t1 v2868 k0_hw943 k0_h1 => k0_hw943 k0_h1

def k0_chk944 (i : grid0.Coords) (k0_t1 : Fin k0_t1_loop.trips) (v2869 : IVec S16 32) : Prop :=
  (∀ (k0_h1 : k0_cond1 i k0_t1 = 1#1), ∀ a x, ((![v2869] : Fin 1 → IVec S16 32) a x).toNat < S100000.size a)
instance k0_chk944.dec : ∀ (i : grid0.Coords) (k0_t1 : Fin k0_t1_loop.trips) (v2869 : IVec S16 32), Decidable (k0_chk944 i k0_t1 v2869) := fun i k0_t1 v2869 => decidable_of_iff' _ (Iff.of_eq (k0_chk944.eq_1 i k0_t1 v2869))
theorem k0_idx944_inb : ∀ (i : grid0.Coords) (k0_t1 : Fin k0_t1_loop.trips) (v2869 : IVec S16 32) (k0_hw944 : k0_chk944 i k0_t1 v2869), ∀ (k0_h1 : k0_cond1 i k0_t1 = 1#1), ∀ a x, ((![v2869] : Fin 1 → IVec S16 32) a x).toNat < S100000.size a := fun i k0_t1 v2869 k0_hw944 k0_h1 => k0_hw944 k0_h1

def k0_chk945 (i : grid0.Coords) (k0_t1 : Fin k0_t1_loop.trips) (v2886 : IVec S16 32) : Prop :=
  (∀ (k0_h1 : k0_cond1 i k0_t1 = 1#1), ∀ a x, ((![v2886] : Fin 1 → IVec S16 32) a x).toNat < S100000.size a)
instance k0_chk945.dec : ∀ (i : grid0.Coords) (k0_t1 : Fin k0_t1_loop.trips) (v2886 : IVec S16 32), Decidable (k0_chk945 i k0_t1 v2886) := fun i k0_t1 v2886 => decidable_of_iff' _ (Iff.of_eq (k0_chk945.eq_1 i k0_t1 v2886))
theorem k0_idx945_inb : ∀ (i : grid0.Coords) (k0_t1 : Fin k0_t1_loop.trips) (v2886 : IVec S16 32) (k0_hw945 : k0_chk945 i k0_t1 v2886), ∀ (k0_h1 : k0_cond1 i k0_t1 = 1#1), ∀ a x, ((![v2886] : Fin 1 → IVec S16 32) a x).toNat < S100000.size a := fun i k0_t1 v2886 k0_hw945 k0_h1 => k0_hw945 k0_h1

def k0_chk946 (i : grid0.Coords) (k0_t1 : Fin k0_t1_loop.trips) (v2887 : IVec S16 32) : Prop :=
  (∀ (k0_h1 : k0_cond1 i k0_t1 = 1#1), ∀ a x, ((![v2887] : Fin 1 → IVec S16 32) a x).toNat < S100000.size a)
instance k0_chk946.dec : ∀ (i : grid0.Coords) (k0_t1 : Fin k0_t1_loop.trips) (v2887 : IVec S16 32), Decidable (k0_chk946 i k0_t1 v2887) := fun i k0_t1 v2887 => decidable_of_iff' _ (Iff.of_eq (k0_chk946.eq_1 i k0_t1 v2887))
theorem k0_idx946_inb : ∀ (i : grid0.Coords) (k0_t1 : Fin k0_t1_loop.trips) (v2887 : IVec S16 32) (k0_hw946 : k0_chk946 i k0_t1 v2887), ∀ (k0_h1 : k0_cond1 i k0_t1 = 1#1), ∀ a x, ((![v2887] : Fin 1 → IVec S16 32) a x).toNat < S100000.size a := fun i k0_t1 v2887 k0_hw946 k0_h1 => k0_hw946 k0_h1

def k0_chk947 (i : grid0.Coords) (k0_t1 : Fin k0_t1_loop.trips) (v2888 : IVec S16 32) : Prop :=
  (∀ (k0_h1 : k0_cond1 i k0_t1 = 1#1), ∀ a x, ((![v2888] : Fin 1 → IVec S16 32) a x).toNat < S100000.size a)
instance k0_chk947.dec : ∀ (i : grid0.Coords) (k0_t1 : Fin k0_t1_loop.trips) (v2888 : IVec S16 32), Decidable (k0_chk947 i k0_t1 v2888) := fun i k0_t1 v2888 => decidable_of_iff' _ (Iff.of_eq (k0_chk947.eq_1 i k0_t1 v2888))
theorem k0_idx947_inb : ∀ (i : grid0.Coords) (k0_t1 : Fin k0_t1_loop.trips) (v2888 : IVec S16 32) (k0_hw947 : k0_chk947 i k0_t1 v2888), ∀ (k0_h1 : k0_cond1 i k0_t1 = 1#1), ∀ a x, ((![v2888] : Fin 1 → IVec S16 32) a x).toNat < S100000.size a := fun i k0_t1 v2888 k0_hw947 k0_h1 => k0_hw947 k0_h1

def k0_chk948 (i : grid0.Coords) (k0_t1 : Fin k0_t1_loop.trips) (v2889 : IVec S16 32) : Prop :=
  (∀ (k0_h1 : k0_cond1 i k0_t1 = 1#1), ∀ a x, ((![v2889] : Fin 1 → IVec S16 32) a x).toNat < S100000.size a)
instance k0_chk948.dec : ∀ (i : grid0.Coords) (k0_t1 : Fin k0_t1_loop.trips) (v2889 : IVec S16 32), Decidable (k0_chk948 i k0_t1 v2889) := fun i k0_t1 v2889 => decidable_of_iff' _ (Iff.of_eq (k0_chk948.eq_1 i k0_t1 v2889))
theorem k0_idx948_inb : ∀ (i : grid0.Coords) (k0_t1 : Fin k0_t1_loop.trips) (v2889 : IVec S16 32) (k0_hw948 : k0_chk948 i k0_t1 v2889), ∀ (k0_h1 : k0_cond1 i k0_t1 = 1#1), ∀ a x, ((![v2889] : Fin 1 → IVec S16 32) a x).toNat < S100000.size a := fun i k0_t1 v2889 k0_hw948 k0_h1 => k0_hw948 k0_h1

def k0_chk949 (i : grid0.Coords) (k0_t1 : Fin k0_t1_loop.trips) (v2890 : IVec S16 32) : Prop :=
  (∀ (k0_h1 : k0_cond1 i k0_t1 = 1#1), ∀ a x, ((![v2890] : Fin 1 → IVec S16 32) a x).toNat < S100000.size a)
instance k0_chk949.dec : ∀ (i : grid0.Coords) (k0_t1 : Fin k0_t1_loop.trips) (v2890 : IVec S16 32), Decidable (k0_chk949 i k0_t1 v2890) := fun i k0_t1 v2890 => decidable_of_iff' _ (Iff.of_eq (k0_chk949.eq_1 i k0_t1 v2890))
theorem k0_idx949_inb : ∀ (i : grid0.Coords) (k0_t1 : Fin k0_t1_loop.trips) (v2890 : IVec S16 32) (k0_hw949 : k0_chk949 i k0_t1 v2890), ∀ (k0_h1 : k0_cond1 i k0_t1 = 1#1), ∀ a x, ((![v2890] : Fin 1 → IVec S16 32) a x).toNat < S100000.size a := fun i k0_t1 v2890 k0_hw949 k0_h1 => k0_hw949 k0_h1

def k0_chk950 (i : grid0.Coords) (k0_t1 : Fin k0_t1_loop.trips) (v2891 : IVec S16 32) : Prop :=
  (∀ (k0_h1 : k0_cond1 i k0_t1 = 1#1), ∀ a x, ((![v2891] : Fin 1 → IVec S16 32) a x).toNat < S100000.size a)
instance k0_chk950.dec : ∀ (i : grid0.Coords) (k0_t1 : Fin k0_t1_loop.trips) (v2891 : IVec S16 32), Decidable (k0_chk950 i k0_t1 v2891) := fun i k0_t1 v2891 => decidable_of_iff' _ (Iff.of_eq (k0_chk950.eq_1 i k0_t1 v2891))
theorem k0_idx950_inb : ∀ (i : grid0.Coords) (k0_t1 : Fin k0_t1_loop.trips) (v2891 : IVec S16 32) (k0_hw950 : k0_chk950 i k0_t1 v2891), ∀ (k0_h1 : k0_cond1 i k0_t1 = 1#1), ∀ a x, ((![v2891] : Fin 1 → IVec S16 32) a x).toNat < S100000.size a := fun i k0_t1 v2891 k0_hw950 k0_h1 => k0_hw950 k0_h1

def k0_chk951 (i : grid0.Coords) (k0_t1 : Fin k0_t1_loop.trips) (v2892 : IVec S16 32) : Prop :=
  (∀ (k0_h1 : k0_cond1 i k0_t1 = 1#1), ∀ a x, ((![v2892] : Fin 1 → IVec S16 32) a x).toNat < S100000.size a)
instance k0_chk951.dec : ∀ (i : grid0.Coords) (k0_t1 : Fin k0_t1_loop.trips) (v2892 : IVec S16 32), Decidable (k0_chk951 i k0_t1 v2892) := fun i k0_t1 v2892 => decidable_of_iff' _ (Iff.of_eq (k0_chk951.eq_1 i k0_t1 v2892))
theorem k0_idx951_inb : ∀ (i : grid0.Coords) (k0_t1 : Fin k0_t1_loop.trips) (v2892 : IVec S16 32) (k0_hw951 : k0_chk951 i k0_t1 v2892), ∀ (k0_h1 : k0_cond1 i k0_t1 = 1#1), ∀ a x, ((![v2892] : Fin 1 → IVec S16 32) a x).toNat < S100000.size a := fun i k0_t1 v2892 k0_hw951 k0_h1 => k0_hw951 k0_h1

def k0_chk952 (i : grid0.Coords) (k0_t1 : Fin k0_t1_loop.trips) (v2893 : IVec S16 32) : Prop :=
  (∀ (k0_h1 : k0_cond1 i k0_t1 = 1#1), ∀ a x, ((![v2893] : Fin 1 → IVec S16 32) a x).toNat < S100000.size a)
instance k0_chk952.dec : ∀ (i : grid0.Coords) (k0_t1 : Fin k0_t1_loop.trips) (v2893 : IVec S16 32), Decidable (k0_chk952 i k0_t1 v2893) := fun i k0_t1 v2893 => decidable_of_iff' _ (Iff.of_eq (k0_chk952.eq_1 i k0_t1 v2893))
theorem k0_idx952_inb : ∀ (i : grid0.Coords) (k0_t1 : Fin k0_t1_loop.trips) (v2893 : IVec S16 32) (k0_hw952 : k0_chk952 i k0_t1 v2893), ∀ (k0_h1 : k0_cond1 i k0_t1 = 1#1), ∀ a x, ((![v2893] : Fin 1 → IVec S16 32) a x).toNat < S100000.size a := fun i k0_t1 v2893 k0_hw952 k0_h1 => k0_hw952 k0_h1

def k0_chk953 (i : grid0.Coords) (k0_t1 : Fin k0_t1_loop.trips) (v2910 : IVec S16 32) : Prop :=
  (∀ (k0_h1 : k0_cond1 i k0_t1 = 1#1), ∀ a x, ((![v2910] : Fin 1 → IVec S16 32) a x).toNat < S100000.size a)
instance k0_chk953.dec : ∀ (i : grid0.Coords) (k0_t1 : Fin k0_t1_loop.trips) (v2910 : IVec S16 32), Decidable (k0_chk953 i k0_t1 v2910) := fun i k0_t1 v2910 => decidable_of_iff' _ (Iff.of_eq (k0_chk953.eq_1 i k0_t1 v2910))
theorem k0_idx953_inb : ∀ (i : grid0.Coords) (k0_t1 : Fin k0_t1_loop.trips) (v2910 : IVec S16 32) (k0_hw953 : k0_chk953 i k0_t1 v2910), ∀ (k0_h1 : k0_cond1 i k0_t1 = 1#1), ∀ a x, ((![v2910] : Fin 1 → IVec S16 32) a x).toNat < S100000.size a := fun i k0_t1 v2910 k0_hw953 k0_h1 => k0_hw953 k0_h1

def k0_chk954 (i : grid0.Coords) (k0_t1 : Fin k0_t1_loop.trips) (v2911 : IVec S16 32) : Prop :=
  (∀ (k0_h1 : k0_cond1 i k0_t1 = 1#1), ∀ a x, ((![v2911] : Fin 1 → IVec S16 32) a x).toNat < S100000.size a)
instance k0_chk954.dec : ∀ (i : grid0.Coords) (k0_t1 : Fin k0_t1_loop.trips) (v2911 : IVec S16 32), Decidable (k0_chk954 i k0_t1 v2911) := fun i k0_t1 v2911 => decidable_of_iff' _ (Iff.of_eq (k0_chk954.eq_1 i k0_t1 v2911))
theorem k0_idx954_inb : ∀ (i : grid0.Coords) (k0_t1 : Fin k0_t1_loop.trips) (v2911 : IVec S16 32) (k0_hw954 : k0_chk954 i k0_t1 v2911), ∀ (k0_h1 : k0_cond1 i k0_t1 = 1#1), ∀ a x, ((![v2911] : Fin 1 → IVec S16 32) a x).toNat < S100000.size a := fun i k0_t1 v2911 k0_hw954 k0_h1 => k0_hw954 k0_h1

def k0_chk955 (i : grid0.Coords) (k0_t1 : Fin k0_t1_loop.trips) (v2912 : IVec S16 32) : Prop :=
  (∀ (k0_h1 : k0_cond1 i k0_t1 = 1#1), ∀ a x, ((![v2912] : Fin 1 → IVec S16 32) a x).toNat < S100000.size a)
instance k0_chk955.dec : ∀ (i : grid0.Coords) (k0_t1 : Fin k0_t1_loop.trips) (v2912 : IVec S16 32), Decidable (k0_chk955 i k0_t1 v2912) := fun i k0_t1 v2912 => decidable_of_iff' _ (Iff.of_eq (k0_chk955.eq_1 i k0_t1 v2912))
theorem k0_idx955_inb : ∀ (i : grid0.Coords) (k0_t1 : Fin k0_t1_loop.trips) (v2912 : IVec S16 32) (k0_hw955 : k0_chk955 i k0_t1 v2912), ∀ (k0_h1 : k0_cond1 i k0_t1 = 1#1), ∀ a x, ((![v2912] : Fin 1 → IVec S16 32) a x).toNat < S100000.size a := fun i k0_t1 v2912 k0_hw955 k0_h1 => k0_hw955 k0_h1

def k0_chk956 (i : grid0.Coords) (k0_t1 : Fin k0_t1_loop.trips) (v2913 : IVec S16 32) : Prop :=
  (∀ (k0_h1 : k0_cond1 i k0_t1 = 1#1), ∀ a x, ((![v2913] : Fin 1 → IVec S16 32) a x).toNat < S100000.size a)
instance k0_chk956.dec : ∀ (i : grid0.Coords) (k0_t1 : Fin k0_t1_loop.trips) (v2913 : IVec S16 32), Decidable (k0_chk956 i k0_t1 v2913) := fun i k0_t1 v2913 => decidable_of_iff' _ (Iff.of_eq (k0_chk956.eq_1 i k0_t1 v2913))
theorem k0_idx956_inb : ∀ (i : grid0.Coords) (k0_t1 : Fin k0_t1_loop.trips) (v2913 : IVec S16 32) (k0_hw956 : k0_chk956 i k0_t1 v2913), ∀ (k0_h1 : k0_cond1 i k0_t1 = 1#1), ∀ a x, ((![v2913] : Fin 1 → IVec S16 32) a x).toNat < S100000.size a := fun i k0_t1 v2913 k0_hw956 k0_h1 => k0_hw956 k0_h1

def k0_chk957 (i : grid0.Coords) (k0_t1 : Fin k0_t1_loop.trips) (v2914 : IVec S16 32) : Prop :=
  (∀ (k0_h1 : k0_cond1 i k0_t1 = 1#1), ∀ a x, ((![v2914] : Fin 1 → IVec S16 32) a x).toNat < S100000.size a)
instance k0_chk957.dec : ∀ (i : grid0.Coords) (k0_t1 : Fin k0_t1_loop.trips) (v2914 : IVec S16 32), Decidable (k0_chk957 i k0_t1 v2914) := fun i k0_t1 v2914 => decidable_of_iff' _ (Iff.of_eq (k0_chk957.eq_1 i k0_t1 v2914))
theorem k0_idx957_inb : ∀ (i : grid0.Coords) (k0_t1 : Fin k0_t1_loop.trips) (v2914 : IVec S16 32) (k0_hw957 : k0_chk957 i k0_t1 v2914), ∀ (k0_h1 : k0_cond1 i k0_t1 = 1#1), ∀ a x, ((![v2914] : Fin 1 → IVec S16 32) a x).toNat < S100000.size a := fun i k0_t1 v2914 k0_hw957 k0_h1 => k0_hw957 k0_h1

def k0_chk958 (i : grid0.Coords) (k0_t1 : Fin k0_t1_loop.trips) (v2915 : IVec S16 32) : Prop :=
  (∀ (k0_h1 : k0_cond1 i k0_t1 = 1#1), ∀ a x, ((![v2915] : Fin 1 → IVec S16 32) a x).toNat < S100000.size a)
instance k0_chk958.dec : ∀ (i : grid0.Coords) (k0_t1 : Fin k0_t1_loop.trips) (v2915 : IVec S16 32), Decidable (k0_chk958 i k0_t1 v2915) := fun i k0_t1 v2915 => decidable_of_iff' _ (Iff.of_eq (k0_chk958.eq_1 i k0_t1 v2915))
theorem k0_idx958_inb : ∀ (i : grid0.Coords) (k0_t1 : Fin k0_t1_loop.trips) (v2915 : IVec S16 32) (k0_hw958 : k0_chk958 i k0_t1 v2915), ∀ (k0_h1 : k0_cond1 i k0_t1 = 1#1), ∀ a x, ((![v2915] : Fin 1 → IVec S16 32) a x).toNat < S100000.size a := fun i k0_t1 v2915 k0_hw958 k0_h1 => k0_hw958 k0_h1

def k0_chk959 (i : grid0.Coords) (k0_t1 : Fin k0_t1_loop.trips) (v2916 : IVec S16 32) : Prop :=
  (∀ (k0_h1 : k0_cond1 i k0_t1 = 1#1), ∀ a x, ((![v2916] : Fin 1 → IVec S16 32) a x).toNat < S100000.size a)
instance k0_chk959.dec : ∀ (i : grid0.Coords) (k0_t1 : Fin k0_t1_loop.trips) (v2916 : IVec S16 32), Decidable (k0_chk959 i k0_t1 v2916) := fun i k0_t1 v2916 => decidable_of_iff' _ (Iff.of_eq (k0_chk959.eq_1 i k0_t1 v2916))
theorem k0_idx959_inb : ∀ (i : grid0.Coords) (k0_t1 : Fin k0_t1_loop.trips) (v2916 : IVec S16 32) (k0_hw959 : k0_chk959 i k0_t1 v2916), ∀ (k0_h1 : k0_cond1 i k0_t1 = 1#1), ∀ a x, ((![v2916] : Fin 1 → IVec S16 32) a x).toNat < S100000.size a := fun i k0_t1 v2916 k0_hw959 k0_h1 => k0_hw959 k0_h1

def k0_chk960 (i : grid0.Coords) (k0_t1 : Fin k0_t1_loop.trips) (v2917 : IVec S16 32) : Prop :=
  (∀ (k0_h1 : k0_cond1 i k0_t1 = 1#1), ∀ a x, ((![v2917] : Fin 1 → IVec S16 32) a x).toNat < S100000.size a)
instance k0_chk960.dec : ∀ (i : grid0.Coords) (k0_t1 : Fin k0_t1_loop.trips) (v2917 : IVec S16 32), Decidable (k0_chk960 i k0_t1 v2917) := fun i k0_t1 v2917 => decidable_of_iff' _ (Iff.of_eq (k0_chk960.eq_1 i k0_t1 v2917))
theorem k0_idx960_inb : ∀ (i : grid0.Coords) (k0_t1 : Fin k0_t1_loop.trips) (v2917 : IVec S16 32) (k0_hw960 : k0_chk960 i k0_t1 v2917), ∀ (k0_h1 : k0_cond1 i k0_t1 = 1#1), ∀ a x, ((![v2917] : Fin 1 → IVec S16 32) a x).toNat < S100000.size a := fun i k0_t1 v2917 k0_hw960 k0_h1 => k0_hw960 k0_h1

def k0_chk961 (i : grid0.Coords) (k0_t1 : Fin k0_t1_loop.trips) (v2934 : IVec S16 32) : Prop :=
  (∀ (k0_h1 : k0_cond1 i k0_t1 = 1#1), ∀ a x, ((![v2934] : Fin 1 → IVec S16 32) a x).toNat < S100000.size a)
instance k0_chk961.dec : ∀ (i : grid0.Coords) (k0_t1 : Fin k0_t1_loop.trips) (v2934 : IVec S16 32), Decidable (k0_chk961 i k0_t1 v2934) := fun i k0_t1 v2934 => decidable_of_iff' _ (Iff.of_eq (k0_chk961.eq_1 i k0_t1 v2934))
theorem k0_idx961_inb : ∀ (i : grid0.Coords) (k0_t1 : Fin k0_t1_loop.trips) (v2934 : IVec S16 32) (k0_hw961 : k0_chk961 i k0_t1 v2934), ∀ (k0_h1 : k0_cond1 i k0_t1 = 1#1), ∀ a x, ((![v2934] : Fin 1 → IVec S16 32) a x).toNat < S100000.size a := fun i k0_t1 v2934 k0_hw961 k0_h1 => k0_hw961 k0_h1

def k0_chk962 (i : grid0.Coords) (k0_t1 : Fin k0_t1_loop.trips) (v2935 : IVec S16 32) : Prop :=
  (∀ (k0_h1 : k0_cond1 i k0_t1 = 1#1), ∀ a x, ((![v2935] : Fin 1 → IVec S16 32) a x).toNat < S100000.size a)
instance k0_chk962.dec : ∀ (i : grid0.Coords) (k0_t1 : Fin k0_t1_loop.trips) (v2935 : IVec S16 32), Decidable (k0_chk962 i k0_t1 v2935) := fun i k0_t1 v2935 => decidable_of_iff' _ (Iff.of_eq (k0_chk962.eq_1 i k0_t1 v2935))
theorem k0_idx962_inb : ∀ (i : grid0.Coords) (k0_t1 : Fin k0_t1_loop.trips) (v2935 : IVec S16 32) (k0_hw962 : k0_chk962 i k0_t1 v2935), ∀ (k0_h1 : k0_cond1 i k0_t1 = 1#1), ∀ a x, ((![v2935] : Fin 1 → IVec S16 32) a x).toNat < S100000.size a := fun i k0_t1 v2935 k0_hw962 k0_h1 => k0_hw962 k0_h1

def k0_chk963 (i : grid0.Coords) (k0_t1 : Fin k0_t1_loop.trips) (v2936 : IVec S16 32) : Prop :=
  (∀ (k0_h1 : k0_cond1 i k0_t1 = 1#1), ∀ a x, ((![v2936] : Fin 1 → IVec S16 32) a x).toNat < S100000.size a)
instance k0_chk963.dec : ∀ (i : grid0.Coords) (k0_t1 : Fin k0_t1_loop.trips) (v2936 : IVec S16 32), Decidable (k0_chk963 i k0_t1 v2936) := fun i k0_t1 v2936 => decidable_of_iff' _ (Iff.of_eq (k0_chk963.eq_1 i k0_t1 v2936))
theorem k0_idx963_inb : ∀ (i : grid0.Coords) (k0_t1 : Fin k0_t1_loop.trips) (v2936 : IVec S16 32) (k0_hw963 : k0_chk963 i k0_t1 v2936), ∀ (k0_h1 : k0_cond1 i k0_t1 = 1#1), ∀ a x, ((![v2936] : Fin 1 → IVec S16 32) a x).toNat < S100000.size a := fun i k0_t1 v2936 k0_hw963 k0_h1 => k0_hw963 k0_h1

def k0_chk964 (i : grid0.Coords) (k0_t1 : Fin k0_t1_loop.trips) (v2937 : IVec S16 32) : Prop :=
  (∀ (k0_h1 : k0_cond1 i k0_t1 = 1#1), ∀ a x, ((![v2937] : Fin 1 → IVec S16 32) a x).toNat < S100000.size a)
instance k0_chk964.dec : ∀ (i : grid0.Coords) (k0_t1 : Fin k0_t1_loop.trips) (v2937 : IVec S16 32), Decidable (k0_chk964 i k0_t1 v2937) := fun i k0_t1 v2937 => decidable_of_iff' _ (Iff.of_eq (k0_chk964.eq_1 i k0_t1 v2937))
theorem k0_idx964_inb : ∀ (i : grid0.Coords) (k0_t1 : Fin k0_t1_loop.trips) (v2937 : IVec S16 32) (k0_hw964 : k0_chk964 i k0_t1 v2937), ∀ (k0_h1 : k0_cond1 i k0_t1 = 1#1), ∀ a x, ((![v2937] : Fin 1 → IVec S16 32) a x).toNat < S100000.size a := fun i k0_t1 v2937 k0_hw964 k0_h1 => k0_hw964 k0_h1

def k0_chk965 (i : grid0.Coords) (k0_t1 : Fin k0_t1_loop.trips) (v2938 : IVec S16 32) : Prop :=
  (∀ (k0_h1 : k0_cond1 i k0_t1 = 1#1), ∀ a x, ((![v2938] : Fin 1 → IVec S16 32) a x).toNat < S100000.size a)
instance k0_chk965.dec : ∀ (i : grid0.Coords) (k0_t1 : Fin k0_t1_loop.trips) (v2938 : IVec S16 32), Decidable (k0_chk965 i k0_t1 v2938) := fun i k0_t1 v2938 => decidable_of_iff' _ (Iff.of_eq (k0_chk965.eq_1 i k0_t1 v2938))
theorem k0_idx965_inb : ∀ (i : grid0.Coords) (k0_t1 : Fin k0_t1_loop.trips) (v2938 : IVec S16 32) (k0_hw965 : k0_chk965 i k0_t1 v2938), ∀ (k0_h1 : k0_cond1 i k0_t1 = 1#1), ∀ a x, ((![v2938] : Fin 1 → IVec S16 32) a x).toNat < S100000.size a := fun i k0_t1 v2938 k0_hw965 k0_h1 => k0_hw965 k0_h1

def k0_chk966 (i : grid0.Coords) (k0_t1 : Fin k0_t1_loop.trips) (v2939 : IVec S16 32) : Prop :=
  (∀ (k0_h1 : k0_cond1 i k0_t1 = 1#1), ∀ a x, ((![v2939] : Fin 1 → IVec S16 32) a x).toNat < S100000.size a)
instance k0_chk966.dec : ∀ (i : grid0.Coords) (k0_t1 : Fin k0_t1_loop.trips) (v2939 : IVec S16 32), Decidable (k0_chk966 i k0_t1 v2939) := fun i k0_t1 v2939 => decidable_of_iff' _ (Iff.of_eq (k0_chk966.eq_1 i k0_t1 v2939))
theorem k0_idx966_inb : ∀ (i : grid0.Coords) (k0_t1 : Fin k0_t1_loop.trips) (v2939 : IVec S16 32) (k0_hw966 : k0_chk966 i k0_t1 v2939), ∀ (k0_h1 : k0_cond1 i k0_t1 = 1#1), ∀ a x, ((![v2939] : Fin 1 → IVec S16 32) a x).toNat < S100000.size a := fun i k0_t1 v2939 k0_hw966 k0_h1 => k0_hw966 k0_h1

def k0_chk967 (i : grid0.Coords) (k0_t1 : Fin k0_t1_loop.trips) (v2940 : IVec S16 32) : Prop :=
  (∀ (k0_h1 : k0_cond1 i k0_t1 = 1#1), ∀ a x, ((![v2940] : Fin 1 → IVec S16 32) a x).toNat < S100000.size a)
instance k0_chk967.dec : ∀ (i : grid0.Coords) (k0_t1 : Fin k0_t1_loop.trips) (v2940 : IVec S16 32), Decidable (k0_chk967 i k0_t1 v2940) := fun i k0_t1 v2940 => decidable_of_iff' _ (Iff.of_eq (k0_chk967.eq_1 i k0_t1 v2940))
theorem k0_idx967_inb : ∀ (i : grid0.Coords) (k0_t1 : Fin k0_t1_loop.trips) (v2940 : IVec S16 32) (k0_hw967 : k0_chk967 i k0_t1 v2940), ∀ (k0_h1 : k0_cond1 i k0_t1 = 1#1), ∀ a x, ((![v2940] : Fin 1 → IVec S16 32) a x).toNat < S100000.size a := fun i k0_t1 v2940 k0_hw967 k0_h1 => k0_hw967 k0_h1

def k0_chk968 (i : grid0.Coords) (k0_t1 : Fin k0_t1_loop.trips) (v2941 : IVec S16 32) : Prop :=
  (∀ (k0_h1 : k0_cond1 i k0_t1 = 1#1), ∀ a x, ((![v2941] : Fin 1 → IVec S16 32) a x).toNat < S100000.size a)
instance k0_chk968.dec : ∀ (i : grid0.Coords) (k0_t1 : Fin k0_t1_loop.trips) (v2941 : IVec S16 32), Decidable (k0_chk968 i k0_t1 v2941) := fun i k0_t1 v2941 => decidable_of_iff' _ (Iff.of_eq (k0_chk968.eq_1 i k0_t1 v2941))
theorem k0_idx968_inb : ∀ (i : grid0.Coords) (k0_t1 : Fin k0_t1_loop.trips) (v2941 : IVec S16 32) (k0_hw968 : k0_chk968 i k0_t1 v2941), ∀ (k0_h1 : k0_cond1 i k0_t1 = 1#1), ∀ a x, ((![v2941] : Fin 1 → IVec S16 32) a x).toNat < S100000.size a := fun i k0_t1 v2941 k0_hw968 k0_h1 => k0_hw968 k0_h1

def k0_chk969 (i : grid0.Coords) (k0_t1 : Fin k0_t1_loop.trips) (v2958 : IVec S16 32) : Prop :=
  (∀ (k0_h1 : k0_cond1 i k0_t1 = 1#1), ∀ a x, ((![v2958] : Fin 1 → IVec S16 32) a x).toNat < S100000.size a)
instance k0_chk969.dec : ∀ (i : grid0.Coords) (k0_t1 : Fin k0_t1_loop.trips) (v2958 : IVec S16 32), Decidable (k0_chk969 i k0_t1 v2958) := fun i k0_t1 v2958 => decidable_of_iff' _ (Iff.of_eq (k0_chk969.eq_1 i k0_t1 v2958))
theorem k0_idx969_inb : ∀ (i : grid0.Coords) (k0_t1 : Fin k0_t1_loop.trips) (v2958 : IVec S16 32) (k0_hw969 : k0_chk969 i k0_t1 v2958), ∀ (k0_h1 : k0_cond1 i k0_t1 = 1#1), ∀ a x, ((![v2958] : Fin 1 → IVec S16 32) a x).toNat < S100000.size a := fun i k0_t1 v2958 k0_hw969 k0_h1 => k0_hw969 k0_h1

def k0_chk970 (i : grid0.Coords) (k0_t1 : Fin k0_t1_loop.trips) (v2959 : IVec S16 32) : Prop :=
  (∀ (k0_h1 : k0_cond1 i k0_t1 = 1#1), ∀ a x, ((![v2959] : Fin 1 → IVec S16 32) a x).toNat < S100000.size a)
instance k0_chk970.dec : ∀ (i : grid0.Coords) (k0_t1 : Fin k0_t1_loop.trips) (v2959 : IVec S16 32), Decidable (k0_chk970 i k0_t1 v2959) := fun i k0_t1 v2959 => decidable_of_iff' _ (Iff.of_eq (k0_chk970.eq_1 i k0_t1 v2959))
theorem k0_idx970_inb : ∀ (i : grid0.Coords) (k0_t1 : Fin k0_t1_loop.trips) (v2959 : IVec S16 32) (k0_hw970 : k0_chk970 i k0_t1 v2959), ∀ (k0_h1 : k0_cond1 i k0_t1 = 1#1), ∀ a x, ((![v2959] : Fin 1 → IVec S16 32) a x).toNat < S100000.size a := fun i k0_t1 v2959 k0_hw970 k0_h1 => k0_hw970 k0_h1

def k0_chk971 (i : grid0.Coords) (k0_t1 : Fin k0_t1_loop.trips) (v2960 : IVec S16 32) : Prop :=
  (∀ (k0_h1 : k0_cond1 i k0_t1 = 1#1), ∀ a x, ((![v2960] : Fin 1 → IVec S16 32) a x).toNat < S100000.size a)
instance k0_chk971.dec : ∀ (i : grid0.Coords) (k0_t1 : Fin k0_t1_loop.trips) (v2960 : IVec S16 32), Decidable (k0_chk971 i k0_t1 v2960) := fun i k0_t1 v2960 => decidable_of_iff' _ (Iff.of_eq (k0_chk971.eq_1 i k0_t1 v2960))
theorem k0_idx971_inb : ∀ (i : grid0.Coords) (k0_t1 : Fin k0_t1_loop.trips) (v2960 : IVec S16 32) (k0_hw971 : k0_chk971 i k0_t1 v2960), ∀ (k0_h1 : k0_cond1 i k0_t1 = 1#1), ∀ a x, ((![v2960] : Fin 1 → IVec S16 32) a x).toNat < S100000.size a := fun i k0_t1 v2960 k0_hw971 k0_h1 => k0_hw971 k0_h1

def k0_chk972 (i : grid0.Coords) (k0_t1 : Fin k0_t1_loop.trips) (v2961 : IVec S16 32) : Prop :=
  (∀ (k0_h1 : k0_cond1 i k0_t1 = 1#1), ∀ a x, ((![v2961] : Fin 1 → IVec S16 32) a x).toNat < S100000.size a)
instance k0_chk972.dec : ∀ (i : grid0.Coords) (k0_t1 : Fin k0_t1_loop.trips) (v2961 : IVec S16 32), Decidable (k0_chk972 i k0_t1 v2961) := fun i k0_t1 v2961 => decidable_of_iff' _ (Iff.of_eq (k0_chk972.eq_1 i k0_t1 v2961))
theorem k0_idx972_inb : ∀ (i : grid0.Coords) (k0_t1 : Fin k0_t1_loop.trips) (v2961 : IVec S16 32) (k0_hw972 : k0_chk972 i k0_t1 v2961), ∀ (k0_h1 : k0_cond1 i k0_t1 = 1#1), ∀ a x, ((![v2961] : Fin 1 → IVec S16 32) a x).toNat < S100000.size a := fun i k0_t1 v2961 k0_hw972 k0_h1 => k0_hw972 k0_h1

def k0_chk973 (i : grid0.Coords) (k0_t1 : Fin k0_t1_loop.trips) (v2962 : IVec S16 32) : Prop :=
  (∀ (k0_h1 : k0_cond1 i k0_t1 = 1#1), ∀ a x, ((![v2962] : Fin 1 → IVec S16 32) a x).toNat < S100000.size a)
instance k0_chk973.dec : ∀ (i : grid0.Coords) (k0_t1 : Fin k0_t1_loop.trips) (v2962 : IVec S16 32), Decidable (k0_chk973 i k0_t1 v2962) := fun i k0_t1 v2962 => decidable_of_iff' _ (Iff.of_eq (k0_chk973.eq_1 i k0_t1 v2962))
theorem k0_idx973_inb : ∀ (i : grid0.Coords) (k0_t1 : Fin k0_t1_loop.trips) (v2962 : IVec S16 32) (k0_hw973 : k0_chk973 i k0_t1 v2962), ∀ (k0_h1 : k0_cond1 i k0_t1 = 1#1), ∀ a x, ((![v2962] : Fin 1 → IVec S16 32) a x).toNat < S100000.size a := fun i k0_t1 v2962 k0_hw973 k0_h1 => k0_hw973 k0_h1

def k0_chk974 (i : grid0.Coords) (k0_t1 : Fin k0_t1_loop.trips) (v2963 : IVec S16 32) : Prop :=
  (∀ (k0_h1 : k0_cond1 i k0_t1 = 1#1), ∀ a x, ((![v2963] : Fin 1 → IVec S16 32) a x).toNat < S100000.size a)
instance k0_chk974.dec : ∀ (i : grid0.Coords) (k0_t1 : Fin k0_t1_loop.trips) (v2963 : IVec S16 32), Decidable (k0_chk974 i k0_t1 v2963) := fun i k0_t1 v2963 => decidable_of_iff' _ (Iff.of_eq (k0_chk974.eq_1 i k0_t1 v2963))
theorem k0_idx974_inb : ∀ (i : grid0.Coords) (k0_t1 : Fin k0_t1_loop.trips) (v2963 : IVec S16 32) (k0_hw974 : k0_chk974 i k0_t1 v2963), ∀ (k0_h1 : k0_cond1 i k0_t1 = 1#1), ∀ a x, ((![v2963] : Fin 1 → IVec S16 32) a x).toNat < S100000.size a := fun i k0_t1 v2963 k0_hw974 k0_h1 => k0_hw974 k0_h1

def k0_chk975 (i : grid0.Coords) (k0_t1 : Fin k0_t1_loop.trips) (v2964 : IVec S16 32) : Prop :=
  (∀ (k0_h1 : k0_cond1 i k0_t1 = 1#1), ∀ a x, ((![v2964] : Fin 1 → IVec S16 32) a x).toNat < S100000.size a)
instance k0_chk975.dec : ∀ (i : grid0.Coords) (k0_t1 : Fin k0_t1_loop.trips) (v2964 : IVec S16 32), Decidable (k0_chk975 i k0_t1 v2964) := fun i k0_t1 v2964 => decidable_of_iff' _ (Iff.of_eq (k0_chk975.eq_1 i k0_t1 v2964))
theorem k0_idx975_inb : ∀ (i : grid0.Coords) (k0_t1 : Fin k0_t1_loop.trips) (v2964 : IVec S16 32) (k0_hw975 : k0_chk975 i k0_t1 v2964), ∀ (k0_h1 : k0_cond1 i k0_t1 = 1#1), ∀ a x, ((![v2964] : Fin 1 → IVec S16 32) a x).toNat < S100000.size a := fun i k0_t1 v2964 k0_hw975 k0_h1 => k0_hw975 k0_h1

def k0_chk976 (i : grid0.Coords) (k0_t1 : Fin k0_t1_loop.trips) (v2965 : IVec S16 32) : Prop :=
  (∀ (k0_h1 : k0_cond1 i k0_t1 = 1#1), ∀ a x, ((![v2965] : Fin 1 → IVec S16 32) a x).toNat < S100000.size a)
instance k0_chk976.dec : ∀ (i : grid0.Coords) (k0_t1 : Fin k0_t1_loop.trips) (v2965 : IVec S16 32), Decidable (k0_chk976 i k0_t1 v2965) := fun i k0_t1 v2965 => decidable_of_iff' _ (Iff.of_eq (k0_chk976.eq_1 i k0_t1 v2965))
theorem k0_idx976_inb : ∀ (i : grid0.Coords) (k0_t1 : Fin k0_t1_loop.trips) (v2965 : IVec S16 32) (k0_hw976 : k0_chk976 i k0_t1 v2965), ∀ (k0_h1 : k0_cond1 i k0_t1 = 1#1), ∀ a x, ((![v2965] : Fin 1 → IVec S16 32) a x).toNat < S100000.size a := fun i k0_t1 v2965 k0_hw976 k0_h1 => k0_hw976 k0_h1

def k0_chk977 (i : grid0.Coords) (k0_t1 : Fin k0_t1_loop.trips) (v2982 : IVec S16 32) : Prop :=
  (∀ (k0_h1 : k0_cond1 i k0_t1 = 1#1), ∀ a x, ((![v2982] : Fin 1 → IVec S16 32) a x).toNat < S100000.size a)
instance k0_chk977.dec : ∀ (i : grid0.Coords) (k0_t1 : Fin k0_t1_loop.trips) (v2982 : IVec S16 32), Decidable (k0_chk977 i k0_t1 v2982) := fun i k0_t1 v2982 => decidable_of_iff' _ (Iff.of_eq (k0_chk977.eq_1 i k0_t1 v2982))
theorem k0_idx977_inb : ∀ (i : grid0.Coords) (k0_t1 : Fin k0_t1_loop.trips) (v2982 : IVec S16 32) (k0_hw977 : k0_chk977 i k0_t1 v2982), ∀ (k0_h1 : k0_cond1 i k0_t1 = 1#1), ∀ a x, ((![v2982] : Fin 1 → IVec S16 32) a x).toNat < S100000.size a := fun i k0_t1 v2982 k0_hw977 k0_h1 => k0_hw977 k0_h1

def k0_chk978 (i : grid0.Coords) (k0_t1 : Fin k0_t1_loop.trips) (v2983 : IVec S16 32) : Prop :=
  (∀ (k0_h1 : k0_cond1 i k0_t1 = 1#1), ∀ a x, ((![v2983] : Fin 1 → IVec S16 32) a x).toNat < S100000.size a)
instance k0_chk978.dec : ∀ (i : grid0.Coords) (k0_t1 : Fin k0_t1_loop.trips) (v2983 : IVec S16 32), Decidable (k0_chk978 i k0_t1 v2983) := fun i k0_t1 v2983 => decidable_of_iff' _ (Iff.of_eq (k0_chk978.eq_1 i k0_t1 v2983))
theorem k0_idx978_inb : ∀ (i : grid0.Coords) (k0_t1 : Fin k0_t1_loop.trips) (v2983 : IVec S16 32) (k0_hw978 : k0_chk978 i k0_t1 v2983), ∀ (k0_h1 : k0_cond1 i k0_t1 = 1#1), ∀ a x, ((![v2983] : Fin 1 → IVec S16 32) a x).toNat < S100000.size a := fun i k0_t1 v2983 k0_hw978 k0_h1 => k0_hw978 k0_h1

def k0_chk979 (i : grid0.Coords) (k0_t1 : Fin k0_t1_loop.trips) (v2984 : IVec S16 32) : Prop :=
  (∀ (k0_h1 : k0_cond1 i k0_t1 = 1#1), ∀ a x, ((![v2984] : Fin 1 → IVec S16 32) a x).toNat < S100000.size a)
instance k0_chk979.dec : ∀ (i : grid0.Coords) (k0_t1 : Fin k0_t1_loop.trips) (v2984 : IVec S16 32), Decidable (k0_chk979 i k0_t1 v2984) := fun i k0_t1 v2984 => decidable_of_iff' _ (Iff.of_eq (k0_chk979.eq_1 i k0_t1 v2984))
theorem k0_idx979_inb : ∀ (i : grid0.Coords) (k0_t1 : Fin k0_t1_loop.trips) (v2984 : IVec S16 32) (k0_hw979 : k0_chk979 i k0_t1 v2984), ∀ (k0_h1 : k0_cond1 i k0_t1 = 1#1), ∀ a x, ((![v2984] : Fin 1 → IVec S16 32) a x).toNat < S100000.size a := fun i k0_t1 v2984 k0_hw979 k0_h1 => k0_hw979 k0_h1

def k0_chk980 (i : grid0.Coords) (k0_t1 : Fin k0_t1_loop.trips) (v2985 : IVec S16 32) : Prop :=
  (∀ (k0_h1 : k0_cond1 i k0_t1 = 1#1), ∀ a x, ((![v2985] : Fin 1 → IVec S16 32) a x).toNat < S100000.size a)
instance k0_chk980.dec : ∀ (i : grid0.Coords) (k0_t1 : Fin k0_t1_loop.trips) (v2985 : IVec S16 32), Decidable (k0_chk980 i k0_t1 v2985) := fun i k0_t1 v2985 => decidable_of_iff' _ (Iff.of_eq (k0_chk980.eq_1 i k0_t1 v2985))
theorem k0_idx980_inb : ∀ (i : grid0.Coords) (k0_t1 : Fin k0_t1_loop.trips) (v2985 : IVec S16 32) (k0_hw980 : k0_chk980 i k0_t1 v2985), ∀ (k0_h1 : k0_cond1 i k0_t1 = 1#1), ∀ a x, ((![v2985] : Fin 1 → IVec S16 32) a x).toNat < S100000.size a := fun i k0_t1 v2985 k0_hw980 k0_h1 => k0_hw980 k0_h1

def k0_chk981 (i : grid0.Coords) (k0_t1 : Fin k0_t1_loop.trips) (v2986 : IVec S16 32) : Prop :=
  (∀ (k0_h1 : k0_cond1 i k0_t1 = 1#1), ∀ a x, ((![v2986] : Fin 1 → IVec S16 32) a x).toNat < S100000.size a)
instance k0_chk981.dec : ∀ (i : grid0.Coords) (k0_t1 : Fin k0_t1_loop.trips) (v2986 : IVec S16 32), Decidable (k0_chk981 i k0_t1 v2986) := fun i k0_t1 v2986 => decidable_of_iff' _ (Iff.of_eq (k0_chk981.eq_1 i k0_t1 v2986))
theorem k0_idx981_inb : ∀ (i : grid0.Coords) (k0_t1 : Fin k0_t1_loop.trips) (v2986 : IVec S16 32) (k0_hw981 : k0_chk981 i k0_t1 v2986), ∀ (k0_h1 : k0_cond1 i k0_t1 = 1#1), ∀ a x, ((![v2986] : Fin 1 → IVec S16 32) a x).toNat < S100000.size a := fun i k0_t1 v2986 k0_hw981 k0_h1 => k0_hw981 k0_h1

def k0_chk982 (i : grid0.Coords) (k0_t1 : Fin k0_t1_loop.trips) (v2987 : IVec S16 32) : Prop :=
  (∀ (k0_h1 : k0_cond1 i k0_t1 = 1#1), ∀ a x, ((![v2987] : Fin 1 → IVec S16 32) a x).toNat < S100000.size a)
instance k0_chk982.dec : ∀ (i : grid0.Coords) (k0_t1 : Fin k0_t1_loop.trips) (v2987 : IVec S16 32), Decidable (k0_chk982 i k0_t1 v2987) := fun i k0_t1 v2987 => decidable_of_iff' _ (Iff.of_eq (k0_chk982.eq_1 i k0_t1 v2987))
theorem k0_idx982_inb : ∀ (i : grid0.Coords) (k0_t1 : Fin k0_t1_loop.trips) (v2987 : IVec S16 32) (k0_hw982 : k0_chk982 i k0_t1 v2987), ∀ (k0_h1 : k0_cond1 i k0_t1 = 1#1), ∀ a x, ((![v2987] : Fin 1 → IVec S16 32) a x).toNat < S100000.size a := fun i k0_t1 v2987 k0_hw982 k0_h1 => k0_hw982 k0_h1

def k0_chk983 (i : grid0.Coords) (k0_t1 : Fin k0_t1_loop.trips) (v2988 : IVec S16 32) : Prop :=
  (∀ (k0_h1 : k0_cond1 i k0_t1 = 1#1), ∀ a x, ((![v2988] : Fin 1 → IVec S16 32) a x).toNat < S100000.size a)
instance k0_chk983.dec : ∀ (i : grid0.Coords) (k0_t1 : Fin k0_t1_loop.trips) (v2988 : IVec S16 32), Decidable (k0_chk983 i k0_t1 v2988) := fun i k0_t1 v2988 => decidable_of_iff' _ (Iff.of_eq (k0_chk983.eq_1 i k0_t1 v2988))
theorem k0_idx983_inb : ∀ (i : grid0.Coords) (k0_t1 : Fin k0_t1_loop.trips) (v2988 : IVec S16 32) (k0_hw983 : k0_chk983 i k0_t1 v2988), ∀ (k0_h1 : k0_cond1 i k0_t1 = 1#1), ∀ a x, ((![v2988] : Fin 1 → IVec S16 32) a x).toNat < S100000.size a := fun i k0_t1 v2988 k0_hw983 k0_h1 => k0_hw983 k0_h1

def k0_chk984 (i : grid0.Coords) (k0_t1 : Fin k0_t1_loop.trips) (v2989 : IVec S16 32) : Prop :=
  (∀ (k0_h1 : k0_cond1 i k0_t1 = 1#1), ∀ a x, ((![v2989] : Fin 1 → IVec S16 32) a x).toNat < S100000.size a)
instance k0_chk984.dec : ∀ (i : grid0.Coords) (k0_t1 : Fin k0_t1_loop.trips) (v2989 : IVec S16 32), Decidable (k0_chk984 i k0_t1 v2989) := fun i k0_t1 v2989 => decidable_of_iff' _ (Iff.of_eq (k0_chk984.eq_1 i k0_t1 v2989))
theorem k0_idx984_inb : ∀ (i : grid0.Coords) (k0_t1 : Fin k0_t1_loop.trips) (v2989 : IVec S16 32) (k0_hw984 : k0_chk984 i k0_t1 v2989), ∀ (k0_h1 : k0_cond1 i k0_t1 = 1#1), ∀ a x, ((![v2989] : Fin 1 → IVec S16 32) a x).toNat < S100000.size a := fun i k0_t1 v2989 k0_hw984 k0_h1 => k0_hw984 k0_h1

def k0_chk985 (i : grid0.Coords) (k0_t1 : Fin k0_t1_loop.trips) (v3006 : IVec S16 32) : Prop :=
  (∀ (k0_h1 : k0_cond1 i k0_t1 = 1#1), ∀ a x, ((![v3006] : Fin 1 → IVec S16 32) a x).toNat < S100000.size a)
instance k0_chk985.dec : ∀ (i : grid0.Coords) (k0_t1 : Fin k0_t1_loop.trips) (v3006 : IVec S16 32), Decidable (k0_chk985 i k0_t1 v3006) := fun i k0_t1 v3006 => decidable_of_iff' _ (Iff.of_eq (k0_chk985.eq_1 i k0_t1 v3006))
theorem k0_idx985_inb : ∀ (i : grid0.Coords) (k0_t1 : Fin k0_t1_loop.trips) (v3006 : IVec S16 32) (k0_hw985 : k0_chk985 i k0_t1 v3006), ∀ (k0_h1 : k0_cond1 i k0_t1 = 1#1), ∀ a x, ((![v3006] : Fin 1 → IVec S16 32) a x).toNat < S100000.size a := fun i k0_t1 v3006 k0_hw985 k0_h1 => k0_hw985 k0_h1

def k0_chk986 (i : grid0.Coords) (k0_t1 : Fin k0_t1_loop.trips) (v3007 : IVec S16 32) : Prop :=
  (∀ (k0_h1 : k0_cond1 i k0_t1 = 1#1), ∀ a x, ((![v3007] : Fin 1 → IVec S16 32) a x).toNat < S100000.size a)
instance k0_chk986.dec : ∀ (i : grid0.Coords) (k0_t1 : Fin k0_t1_loop.trips) (v3007 : IVec S16 32), Decidable (k0_chk986 i k0_t1 v3007) := fun i k0_t1 v3007 => decidable_of_iff' _ (Iff.of_eq (k0_chk986.eq_1 i k0_t1 v3007))
theorem k0_idx986_inb : ∀ (i : grid0.Coords) (k0_t1 : Fin k0_t1_loop.trips) (v3007 : IVec S16 32) (k0_hw986 : k0_chk986 i k0_t1 v3007), ∀ (k0_h1 : k0_cond1 i k0_t1 = 1#1), ∀ a x, ((![v3007] : Fin 1 → IVec S16 32) a x).toNat < S100000.size a := fun i k0_t1 v3007 k0_hw986 k0_h1 => k0_hw986 k0_h1

def k0_chk987 (i : grid0.Coords) (k0_t1 : Fin k0_t1_loop.trips) (v3008 : IVec S16 32) : Prop :=
  (∀ (k0_h1 : k0_cond1 i k0_t1 = 1#1), ∀ a x, ((![v3008] : Fin 1 → IVec S16 32) a x).toNat < S100000.size a)
instance k0_chk987.dec : ∀ (i : grid0.Coords) (k0_t1 : Fin k0_t1_loop.trips) (v3008 : IVec S16 32), Decidable (k0_chk987 i k0_t1 v3008) := fun i k0_t1 v3008 => decidable_of_iff' _ (Iff.of_eq (k0_chk987.eq_1 i k0_t1 v3008))
theorem k0_idx987_inb : ∀ (i : grid0.Coords) (k0_t1 : Fin k0_t1_loop.trips) (v3008 : IVec S16 32) (k0_hw987 : k0_chk987 i k0_t1 v3008), ∀ (k0_h1 : k0_cond1 i k0_t1 = 1#1), ∀ a x, ((![v3008] : Fin 1 → IVec S16 32) a x).toNat < S100000.size a := fun i k0_t1 v3008 k0_hw987 k0_h1 => k0_hw987 k0_h1

def k0_chk988 (i : grid0.Coords) (k0_t1 : Fin k0_t1_loop.trips) (v3009 : IVec S16 32) : Prop :=
  (∀ (k0_h1 : k0_cond1 i k0_t1 = 1#1), ∀ a x, ((![v3009] : Fin 1 → IVec S16 32) a x).toNat < S100000.size a)
instance k0_chk988.dec : ∀ (i : grid0.Coords) (k0_t1 : Fin k0_t1_loop.trips) (v3009 : IVec S16 32), Decidable (k0_chk988 i k0_t1 v3009) := fun i k0_t1 v3009 => decidable_of_iff' _ (Iff.of_eq (k0_chk988.eq_1 i k0_t1 v3009))
theorem k0_idx988_inb : ∀ (i : grid0.Coords) (k0_t1 : Fin k0_t1_loop.trips) (v3009 : IVec S16 32) (k0_hw988 : k0_chk988 i k0_t1 v3009), ∀ (k0_h1 : k0_cond1 i k0_t1 = 1#1), ∀ a x, ((![v3009] : Fin 1 → IVec S16 32) a x).toNat < S100000.size a := fun i k0_t1 v3009 k0_hw988 k0_h1 => k0_hw988 k0_h1

def k0_chk989 (i : grid0.Coords) (k0_t1 : Fin k0_t1_loop.trips) (v3010 : IVec S16 32) : Prop :=
  (∀ (k0_h1 : k0_cond1 i k0_t1 = 1#1), ∀ a x, ((![v3010] : Fin 1 → IVec S16 32) a x).toNat < S100000.size a)
instance k0_chk989.dec : ∀ (i : grid0.Coords) (k0_t1 : Fin k0_t1_loop.trips) (v3010 : IVec S16 32), Decidable (k0_chk989 i k0_t1 v3010) := fun i k0_t1 v3010 => decidable_of_iff' _ (Iff.of_eq (k0_chk989.eq_1 i k0_t1 v3010))
theorem k0_idx989_inb : ∀ (i : grid0.Coords) (k0_t1 : Fin k0_t1_loop.trips) (v3010 : IVec S16 32) (k0_hw989 : k0_chk989 i k0_t1 v3010), ∀ (k0_h1 : k0_cond1 i k0_t1 = 1#1), ∀ a x, ((![v3010] : Fin 1 → IVec S16 32) a x).toNat < S100000.size a := fun i k0_t1 v3010 k0_hw989 k0_h1 => k0_hw989 k0_h1

def k0_chk990 (i : grid0.Coords) (k0_t1 : Fin k0_t1_loop.trips) (v3011 : IVec S16 32) : Prop :=
  (∀ (k0_h1 : k0_cond1 i k0_t1 = 1#1), ∀ a x, ((![v3011] : Fin 1 → IVec S16 32) a x).toNat < S100000.size a)
instance k0_chk990.dec : ∀ (i : grid0.Coords) (k0_t1 : Fin k0_t1_loop.trips) (v3011 : IVec S16 32), Decidable (k0_chk990 i k0_t1 v3011) := fun i k0_t1 v3011 => decidable_of_iff' _ (Iff.of_eq (k0_chk990.eq_1 i k0_t1 v3011))
theorem k0_idx990_inb : ∀ (i : grid0.Coords) (k0_t1 : Fin k0_t1_loop.trips) (v3011 : IVec S16 32) (k0_hw990 : k0_chk990 i k0_t1 v3011), ∀ (k0_h1 : k0_cond1 i k0_t1 = 1#1), ∀ a x, ((![v3011] : Fin 1 → IVec S16 32) a x).toNat < S100000.size a := fun i k0_t1 v3011 k0_hw990 k0_h1 => k0_hw990 k0_h1

def k0_chk991 (i : grid0.Coords) (k0_t1 : Fin k0_t1_loop.trips) (v3012 : IVec S16 32) : Prop :=
  (∀ (k0_h1 : k0_cond1 i k0_t1 = 1#1), ∀ a x, ((![v3012] : Fin 1 → IVec S16 32) a x).toNat < S100000.size a)
instance k0_chk991.dec : ∀ (i : grid0.Coords) (k0_t1 : Fin k0_t1_loop.trips) (v3012 : IVec S16 32), Decidable (k0_chk991 i k0_t1 v3012) := fun i k0_t1 v3012 => decidable_of_iff' _ (Iff.of_eq (k0_chk991.eq_1 i k0_t1 v3012))
theorem k0_idx991_inb : ∀ (i : grid0.Coords) (k0_t1 : Fin k0_t1_loop.trips) (v3012 : IVec S16 32) (k0_hw991 : k0_chk991 i k0_t1 v3012), ∀ (k0_h1 : k0_cond1 i k0_t1 = 1#1), ∀ a x, ((![v3012] : Fin 1 → IVec S16 32) a x).toNat < S100000.size a := fun i k0_t1 v3012 k0_hw991 k0_h1 => k0_hw991 k0_h1

def k0_chk992 (i : grid0.Coords) (k0_t1 : Fin k0_t1_loop.trips) (v3013 : IVec S16 32) : Prop :=
  (∀ (k0_h1 : k0_cond1 i k0_t1 = 1#1), ∀ a x, ((![v3013] : Fin 1 → IVec S16 32) a x).toNat < S100000.size a)
instance k0_chk992.dec : ∀ (i : grid0.Coords) (k0_t1 : Fin k0_t1_loop.trips) (v3013 : IVec S16 32), Decidable (k0_chk992 i k0_t1 v3013) := fun i k0_t1 v3013 => decidable_of_iff' _ (Iff.of_eq (k0_chk992.eq_1 i k0_t1 v3013))
theorem k0_idx992_inb : ∀ (i : grid0.Coords) (k0_t1 : Fin k0_t1_loop.trips) (v3013 : IVec S16 32) (k0_hw992 : k0_chk992 i k0_t1 v3013), ∀ (k0_h1 : k0_cond1 i k0_t1 = 1#1), ∀ a x, ((![v3013] : Fin 1 → IVec S16 32) a x).toNat < S100000.size a := fun i k0_t1 v3013 k0_hw992 k0_h1 => k0_hw992 k0_h1

def k0_chk993 (i : grid0.Coords) (k0_t1 : Fin k0_t1_loop.trips) (v3030 : IVec S16 32) : Prop :=
  (∀ (k0_h1 : k0_cond1 i k0_t1 = 1#1), ∀ a x, ((![v3030] : Fin 1 → IVec S16 32) a x).toNat < S100000.size a)
instance k0_chk993.dec : ∀ (i : grid0.Coords) (k0_t1 : Fin k0_t1_loop.trips) (v3030 : IVec S16 32), Decidable (k0_chk993 i k0_t1 v3030) := fun i k0_t1 v3030 => decidable_of_iff' _ (Iff.of_eq (k0_chk993.eq_1 i k0_t1 v3030))
theorem k0_idx993_inb : ∀ (i : grid0.Coords) (k0_t1 : Fin k0_t1_loop.trips) (v3030 : IVec S16 32) (k0_hw993 : k0_chk993 i k0_t1 v3030), ∀ (k0_h1 : k0_cond1 i k0_t1 = 1#1), ∀ a x, ((![v3030] : Fin 1 → IVec S16 32) a x).toNat < S100000.size a := fun i k0_t1 v3030 k0_hw993 k0_h1 => k0_hw993 k0_h1

def k0_chk994 (i : grid0.Coords) (k0_t1 : Fin k0_t1_loop.trips) (v3031 : IVec S16 32) : Prop :=
  (∀ (k0_h1 : k0_cond1 i k0_t1 = 1#1), ∀ a x, ((![v3031] : Fin 1 → IVec S16 32) a x).toNat < S100000.size a)
instance k0_chk994.dec : ∀ (i : grid0.Coords) (k0_t1 : Fin k0_t1_loop.trips) (v3031 : IVec S16 32), Decidable (k0_chk994 i k0_t1 v3031) := fun i k0_t1 v3031 => decidable_of_iff' _ (Iff.of_eq (k0_chk994.eq_1 i k0_t1 v3031))
theorem k0_idx994_inb : ∀ (i : grid0.Coords) (k0_t1 : Fin k0_t1_loop.trips) (v3031 : IVec S16 32) (k0_hw994 : k0_chk994 i k0_t1 v3031), ∀ (k0_h1 : k0_cond1 i k0_t1 = 1#1), ∀ a x, ((![v3031] : Fin 1 → IVec S16 32) a x).toNat < S100000.size a := fun i k0_t1 v3031 k0_hw994 k0_h1 => k0_hw994 k0_h1

def k0_chk995 (i : grid0.Coords) (k0_t1 : Fin k0_t1_loop.trips) (v3032 : IVec S16 32) : Prop :=
  (∀ (k0_h1 : k0_cond1 i k0_t1 = 1#1), ∀ a x, ((![v3032] : Fin 1 → IVec S16 32) a x).toNat < S100000.size a)
instance k0_chk995.dec : ∀ (i : grid0.Coords) (k0_t1 : Fin k0_t1_loop.trips) (v3032 : IVec S16 32), Decidable (k0_chk995 i k0_t1 v3032) := fun i k0_t1 v3032 => decidable_of_iff' _ (Iff.of_eq (k0_chk995.eq_1 i k0_t1 v3032))
theorem k0_idx995_inb : ∀ (i : grid0.Coords) (k0_t1 : Fin k0_t1_loop.trips) (v3032 : IVec S16 32) (k0_hw995 : k0_chk995 i k0_t1 v3032), ∀ (k0_h1 : k0_cond1 i k0_t1 = 1#1), ∀ a x, ((![v3032] : Fin 1 → IVec S16 32) a x).toNat < S100000.size a := fun i k0_t1 v3032 k0_hw995 k0_h1 => k0_hw995 k0_h1

def k0_chk996 (i : grid0.Coords) (k0_t1 : Fin k0_t1_loop.trips) (v3033 : IVec S16 32) : Prop :=
  (∀ (k0_h1 : k0_cond1 i k0_t1 = 1#1), ∀ a x, ((![v3033] : Fin 1 → IVec S16 32) a x).toNat < S100000.size a)
instance k0_chk996.dec : ∀ (i : grid0.Coords) (k0_t1 : Fin k0_t1_loop.trips) (v3033 : IVec S16 32), Decidable (k0_chk996 i k0_t1 v3033) := fun i k0_t1 v3033 => decidable_of_iff' _ (Iff.of_eq (k0_chk996.eq_1 i k0_t1 v3033))
theorem k0_idx996_inb : ∀ (i : grid0.Coords) (k0_t1 : Fin k0_t1_loop.trips) (v3033 : IVec S16 32) (k0_hw996 : k0_chk996 i k0_t1 v3033), ∀ (k0_h1 : k0_cond1 i k0_t1 = 1#1), ∀ a x, ((![v3033] : Fin 1 → IVec S16 32) a x).toNat < S100000.size a := fun i k0_t1 v3033 k0_hw996 k0_h1 => k0_hw996 k0_h1

def k0_chk997 (i : grid0.Coords) (k0_t1 : Fin k0_t1_loop.trips) (v3034 : IVec S16 32) : Prop :=
  (∀ (k0_h1 : k0_cond1 i k0_t1 = 1#1), ∀ a x, ((![v3034] : Fin 1 → IVec S16 32) a x).toNat < S100000.size a)
instance k0_chk997.dec : ∀ (i : grid0.Coords) (k0_t1 : Fin k0_t1_loop.trips) (v3034 : IVec S16 32), Decidable (k0_chk997 i k0_t1 v3034) := fun i k0_t1 v3034 => decidable_of_iff' _ (Iff.of_eq (k0_chk997.eq_1 i k0_t1 v3034))
theorem k0_idx997_inb : ∀ (i : grid0.Coords) (k0_t1 : Fin k0_t1_loop.trips) (v3034 : IVec S16 32) (k0_hw997 : k0_chk997 i k0_t1 v3034), ∀ (k0_h1 : k0_cond1 i k0_t1 = 1#1), ∀ a x, ((![v3034] : Fin 1 → IVec S16 32) a x).toNat < S100000.size a := fun i k0_t1 v3034 k0_hw997 k0_h1 => k0_hw997 k0_h1

def k0_chk998 (i : grid0.Coords) (k0_t1 : Fin k0_t1_loop.trips) (v3035 : IVec S16 32) : Prop :=
  (∀ (k0_h1 : k0_cond1 i k0_t1 = 1#1), ∀ a x, ((![v3035] : Fin 1 → IVec S16 32) a x).toNat < S100000.size a)
instance k0_chk998.dec : ∀ (i : grid0.Coords) (k0_t1 : Fin k0_t1_loop.trips) (v3035 : IVec S16 32), Decidable (k0_chk998 i k0_t1 v3035) := fun i k0_t1 v3035 => decidable_of_iff' _ (Iff.of_eq (k0_chk998.eq_1 i k0_t1 v3035))
theorem k0_idx998_inb : ∀ (i : grid0.Coords) (k0_t1 : Fin k0_t1_loop.trips) (v3035 : IVec S16 32) (k0_hw998 : k0_chk998 i k0_t1 v3035), ∀ (k0_h1 : k0_cond1 i k0_t1 = 1#1), ∀ a x, ((![v3035] : Fin 1 → IVec S16 32) a x).toNat < S100000.size a := fun i k0_t1 v3035 k0_hw998 k0_h1 => k0_hw998 k0_h1

def k0_chk999 (i : grid0.Coords) (k0_t1 : Fin k0_t1_loop.trips) (v3036 : IVec S16 32) : Prop :=
  (∀ (k0_h1 : k0_cond1 i k0_t1 = 1#1), ∀ a x, ((![v3036] : Fin 1 → IVec S16 32) a x).toNat < S100000.size a)
instance k0_chk999.dec : ∀ (i : grid0.Coords) (k0_t1 : Fin k0_t1_loop.trips) (v3036 : IVec S16 32), Decidable (k0_chk999 i k0_t1 v3036) := fun i k0_t1 v3036 => decidable_of_iff' _ (Iff.of_eq (k0_chk999.eq_1 i k0_t1 v3036))
theorem k0_idx999_inb : ∀ (i : grid0.Coords) (k0_t1 : Fin k0_t1_loop.trips) (v3036 : IVec S16 32) (k0_hw999 : k0_chk999 i k0_t1 v3036), ∀ (k0_h1 : k0_cond1 i k0_t1 = 1#1), ∀ a x, ((![v3036] : Fin 1 → IVec S16 32) a x).toNat < S100000.size a := fun i k0_t1 v3036 k0_hw999 k0_h1 => k0_hw999 k0_h1

def k0_chk1000 (i : grid0.Coords) (k0_t1 : Fin k0_t1_loop.trips) (v3037 : IVec S16 32) : Prop :=
  (∀ (k0_h1 : k0_cond1 i k0_t1 = 1#1), ∀ a x, ((![v3037] : Fin 1 → IVec S16 32) a x).toNat < S100000.size a)
instance k0_chk1000.dec : ∀ (i : grid0.Coords) (k0_t1 : Fin k0_t1_loop.trips) (v3037 : IVec S16 32), Decidable (k0_chk1000 i k0_t1 v3037) := fun i k0_t1 v3037 => decidable_of_iff' _ (Iff.of_eq (k0_chk1000.eq_1 i k0_t1 v3037))
theorem k0_idx1000_inb : ∀ (i : grid0.Coords) (k0_t1 : Fin k0_t1_loop.trips) (v3037 : IVec S16 32) (k0_hw1000 : k0_chk1000 i k0_t1 v3037), ∀ (k0_h1 : k0_cond1 i k0_t1 = 1#1), ∀ a x, ((![v3037] : Fin 1 → IVec S16 32) a x).toNat < S100000.size a := fun i k0_t1 v3037 k0_hw1000 k0_h1 => k0_hw1000 k0_h1

def k0_chk1001 (i : grid0.Coords) (k0_t1 : Fin k0_t1_loop.trips) (v3054 : IVec S16 32) : Prop :=
  (∀ (k0_h1 : k0_cond1 i k0_t1 = 1#1), ∀ a x, ((![v3054] : Fin 1 → IVec S16 32) a x).toNat < S100000.size a)
instance k0_chk1001.dec : ∀ (i : grid0.Coords) (k0_t1 : Fin k0_t1_loop.trips) (v3054 : IVec S16 32), Decidable (k0_chk1001 i k0_t1 v3054) := fun i k0_t1 v3054 => decidable_of_iff' _ (Iff.of_eq (k0_chk1001.eq_1 i k0_t1 v3054))
theorem k0_idx1001_inb : ∀ (i : grid0.Coords) (k0_t1 : Fin k0_t1_loop.trips) (v3054 : IVec S16 32) (k0_hw1001 : k0_chk1001 i k0_t1 v3054), ∀ (k0_h1 : k0_cond1 i k0_t1 = 1#1), ∀ a x, ((![v3054] : Fin 1 → IVec S16 32) a x).toNat < S100000.size a := fun i k0_t1 v3054 k0_hw1001 k0_h1 => k0_hw1001 k0_h1

def k0_chk1002 (i : grid0.Coords) (k0_t1 : Fin k0_t1_loop.trips) (v3055 : IVec S16 32) : Prop :=
  (∀ (k0_h1 : k0_cond1 i k0_t1 = 1#1), ∀ a x, ((![v3055] : Fin 1 → IVec S16 32) a x).toNat < S100000.size a)
instance k0_chk1002.dec : ∀ (i : grid0.Coords) (k0_t1 : Fin k0_t1_loop.trips) (v3055 : IVec S16 32), Decidable (k0_chk1002 i k0_t1 v3055) := fun i k0_t1 v3055 => decidable_of_iff' _ (Iff.of_eq (k0_chk1002.eq_1 i k0_t1 v3055))
theorem k0_idx1002_inb : ∀ (i : grid0.Coords) (k0_t1 : Fin k0_t1_loop.trips) (v3055 : IVec S16 32) (k0_hw1002 : k0_chk1002 i k0_t1 v3055), ∀ (k0_h1 : k0_cond1 i k0_t1 = 1#1), ∀ a x, ((![v3055] : Fin 1 → IVec S16 32) a x).toNat < S100000.size a := fun i k0_t1 v3055 k0_hw1002 k0_h1 => k0_hw1002 k0_h1

def k0_chk1003 (i : grid0.Coords) (k0_t1 : Fin k0_t1_loop.trips) (v3056 : IVec S16 32) : Prop :=
  (∀ (k0_h1 : k0_cond1 i k0_t1 = 1#1), ∀ a x, ((![v3056] : Fin 1 → IVec S16 32) a x).toNat < S100000.size a)
instance k0_chk1003.dec : ∀ (i : grid0.Coords) (k0_t1 : Fin k0_t1_loop.trips) (v3056 : IVec S16 32), Decidable (k0_chk1003 i k0_t1 v3056) := fun i k0_t1 v3056 => decidable_of_iff' _ (Iff.of_eq (k0_chk1003.eq_1 i k0_t1 v3056))
theorem k0_idx1003_inb : ∀ (i : grid0.Coords) (k0_t1 : Fin k0_t1_loop.trips) (v3056 : IVec S16 32) (k0_hw1003 : k0_chk1003 i k0_t1 v3056), ∀ (k0_h1 : k0_cond1 i k0_t1 = 1#1), ∀ a x, ((![v3056] : Fin 1 → IVec S16 32) a x).toNat < S100000.size a := fun i k0_t1 v3056 k0_hw1003 k0_h1 => k0_hw1003 k0_h1

def k0_chk1004 (i : grid0.Coords) (k0_t1 : Fin k0_t1_loop.trips) (v3057 : IVec S16 32) : Prop :=
  (∀ (k0_h1 : k0_cond1 i k0_t1 = 1#1), ∀ a x, ((![v3057] : Fin 1 → IVec S16 32) a x).toNat < S100000.size a)
instance k0_chk1004.dec : ∀ (i : grid0.Coords) (k0_t1 : Fin k0_t1_loop.trips) (v3057 : IVec S16 32), Decidable (k0_chk1004 i k0_t1 v3057) := fun i k0_t1 v3057 => decidable_of_iff' _ (Iff.of_eq (k0_chk1004.eq_1 i k0_t1 v3057))
theorem k0_idx1004_inb : ∀ (i : grid0.Coords) (k0_t1 : Fin k0_t1_loop.trips) (v3057 : IVec S16 32) (k0_hw1004 : k0_chk1004 i k0_t1 v3057), ∀ (k0_h1 : k0_cond1 i k0_t1 = 1#1), ∀ a x, ((![v3057] : Fin 1 → IVec S16 32) a x).toNat < S100000.size a := fun i k0_t1 v3057 k0_hw1004 k0_h1 => k0_hw1004 k0_h1

def k0_chk1005 (i : grid0.Coords) (k0_t1 : Fin k0_t1_loop.trips) (v3058 : IVec S16 32) : Prop :=
  (∀ (k0_h1 : k0_cond1 i k0_t1 = 1#1), ∀ a x, ((![v3058] : Fin 1 → IVec S16 32) a x).toNat < S100000.size a)
instance k0_chk1005.dec : ∀ (i : grid0.Coords) (k0_t1 : Fin k0_t1_loop.trips) (v3058 : IVec S16 32), Decidable (k0_chk1005 i k0_t1 v3058) := fun i k0_t1 v3058 => decidable_of_iff' _ (Iff.of_eq (k0_chk1005.eq_1 i k0_t1 v3058))
theorem k0_idx1005_inb : ∀ (i : grid0.Coords) (k0_t1 : Fin k0_t1_loop.trips) (v3058 : IVec S16 32) (k0_hw1005 : k0_chk1005 i k0_t1 v3058), ∀ (k0_h1 : k0_cond1 i k0_t1 = 1#1), ∀ a x, ((![v3058] : Fin 1 → IVec S16 32) a x).toNat < S100000.size a := fun i k0_t1 v3058 k0_hw1005 k0_h1 => k0_hw1005 k0_h1

def k0_chk1006 (i : grid0.Coords) (k0_t1 : Fin k0_t1_loop.trips) (v3059 : IVec S16 32) : Prop :=
  (∀ (k0_h1 : k0_cond1 i k0_t1 = 1#1), ∀ a x, ((![v3059] : Fin 1 → IVec S16 32) a x).toNat < S100000.size a)
instance k0_chk1006.dec : ∀ (i : grid0.Coords) (k0_t1 : Fin k0_t1_loop.trips) (v3059 : IVec S16 32), Decidable (k0_chk1006 i k0_t1 v3059) := fun i k0_t1 v3059 => decidable_of_iff' _ (Iff.of_eq (k0_chk1006.eq_1 i k0_t1 v3059))
theorem k0_idx1006_inb : ∀ (i : grid0.Coords) (k0_t1 : Fin k0_t1_loop.trips) (v3059 : IVec S16 32) (k0_hw1006 : k0_chk1006 i k0_t1 v3059), ∀ (k0_h1 : k0_cond1 i k0_t1 = 1#1), ∀ a x, ((![v3059] : Fin 1 → IVec S16 32) a x).toNat < S100000.size a := fun i k0_t1 v3059 k0_hw1006 k0_h1 => k0_hw1006 k0_h1

def k0_chk1007 (i : grid0.Coords) (k0_t1 : Fin k0_t1_loop.trips) (v3060 : IVec S16 32) : Prop :=
  (∀ (k0_h1 : k0_cond1 i k0_t1 = 1#1), ∀ a x, ((![v3060] : Fin 1 → IVec S16 32) a x).toNat < S100000.size a)
instance k0_chk1007.dec : ∀ (i : grid0.Coords) (k0_t1 : Fin k0_t1_loop.trips) (v3060 : IVec S16 32), Decidable (k0_chk1007 i k0_t1 v3060) := fun i k0_t1 v3060 => decidable_of_iff' _ (Iff.of_eq (k0_chk1007.eq_1 i k0_t1 v3060))
theorem k0_idx1007_inb : ∀ (i : grid0.Coords) (k0_t1 : Fin k0_t1_loop.trips) (v3060 : IVec S16 32) (k0_hw1007 : k0_chk1007 i k0_t1 v3060), ∀ (k0_h1 : k0_cond1 i k0_t1 = 1#1), ∀ a x, ((![v3060] : Fin 1 → IVec S16 32) a x).toNat < S100000.size a := fun i k0_t1 v3060 k0_hw1007 k0_h1 => k0_hw1007 k0_h1

def k0_chk1008 (i : grid0.Coords) (k0_t1 : Fin k0_t1_loop.trips) (v3061 : IVec S16 32) : Prop :=
  (∀ (k0_h1 : k0_cond1 i k0_t1 = 1#1), ∀ a x, ((![v3061] : Fin 1 → IVec S16 32) a x).toNat < S100000.size a)
instance k0_chk1008.dec : ∀ (i : grid0.Coords) (k0_t1 : Fin k0_t1_loop.trips) (v3061 : IVec S16 32), Decidable (k0_chk1008 i k0_t1 v3061) := fun i k0_t1 v3061 => decidable_of_iff' _ (Iff.of_eq (k0_chk1008.eq_1 i k0_t1 v3061))
theorem k0_idx1008_inb : ∀ (i : grid0.Coords) (k0_t1 : Fin k0_t1_loop.trips) (v3061 : IVec S16 32) (k0_hw1008 : k0_chk1008 i k0_t1 v3061), ∀ (k0_h1 : k0_cond1 i k0_t1 = 1#1), ∀ a x, ((![v3061] : Fin 1 → IVec S16 32) a x).toNat < S100000.size a := fun i k0_t1 v3061 k0_hw1008 k0_h1 => k0_hw1008 k0_h1

def k0_chk1009 (i : grid0.Coords) (k0_t1 : Fin k0_t1_loop.trips) (v3078 : IVec S16 32) : Prop :=
  (∀ (k0_h1 : k0_cond1 i k0_t1 = 1#1), ∀ a x, ((![v3078] : Fin 1 → IVec S16 32) a x).toNat < S100000.size a)
instance k0_chk1009.dec : ∀ (i : grid0.Coords) (k0_t1 : Fin k0_t1_loop.trips) (v3078 : IVec S16 32), Decidable (k0_chk1009 i k0_t1 v3078) := fun i k0_t1 v3078 => decidable_of_iff' _ (Iff.of_eq (k0_chk1009.eq_1 i k0_t1 v3078))
theorem k0_idx1009_inb : ∀ (i : grid0.Coords) (k0_t1 : Fin k0_t1_loop.trips) (v3078 : IVec S16 32) (k0_hw1009 : k0_chk1009 i k0_t1 v3078), ∀ (k0_h1 : k0_cond1 i k0_t1 = 1#1), ∀ a x, ((![v3078] : Fin 1 → IVec S16 32) a x).toNat < S100000.size a := fun i k0_t1 v3078 k0_hw1009 k0_h1 => k0_hw1009 k0_h1

def k0_chk1010 (i : grid0.Coords) (k0_t1 : Fin k0_t1_loop.trips) (v3079 : IVec S16 32) : Prop :=
  (∀ (k0_h1 : k0_cond1 i k0_t1 = 1#1), ∀ a x, ((![v3079] : Fin 1 → IVec S16 32) a x).toNat < S100000.size a)
instance k0_chk1010.dec : ∀ (i : grid0.Coords) (k0_t1 : Fin k0_t1_loop.trips) (v3079 : IVec S16 32), Decidable (k0_chk1010 i k0_t1 v3079) := fun i k0_t1 v3079 => decidable_of_iff' _ (Iff.of_eq (k0_chk1010.eq_1 i k0_t1 v3079))
theorem k0_idx1010_inb : ∀ (i : grid0.Coords) (k0_t1 : Fin k0_t1_loop.trips) (v3079 : IVec S16 32) (k0_hw1010 : k0_chk1010 i k0_t1 v3079), ∀ (k0_h1 : k0_cond1 i k0_t1 = 1#1), ∀ a x, ((![v3079] : Fin 1 → IVec S16 32) a x).toNat < S100000.size a := fun i k0_t1 v3079 k0_hw1010 k0_h1 => k0_hw1010 k0_h1

def k0_chk1011 (i : grid0.Coords) (k0_t1 : Fin k0_t1_loop.trips) (v3080 : IVec S16 32) : Prop :=
  (∀ (k0_h1 : k0_cond1 i k0_t1 = 1#1), ∀ a x, ((![v3080] : Fin 1 → IVec S16 32) a x).toNat < S100000.size a)
instance k0_chk1011.dec : ∀ (i : grid0.Coords) (k0_t1 : Fin k0_t1_loop.trips) (v3080 : IVec S16 32), Decidable (k0_chk1011 i k0_t1 v3080) := fun i k0_t1 v3080 => decidable_of_iff' _ (Iff.of_eq (k0_chk1011.eq_1 i k0_t1 v3080))
theorem k0_idx1011_inb : ∀ (i : grid0.Coords) (k0_t1 : Fin k0_t1_loop.trips) (v3080 : IVec S16 32) (k0_hw1011 : k0_chk1011 i k0_t1 v3080), ∀ (k0_h1 : k0_cond1 i k0_t1 = 1#1), ∀ a x, ((![v3080] : Fin 1 → IVec S16 32) a x).toNat < S100000.size a := fun i k0_t1 v3080 k0_hw1011 k0_h1 => k0_hw1011 k0_h1

def k0_chk1012 (i : grid0.Coords) (k0_t1 : Fin k0_t1_loop.trips) (v3081 : IVec S16 32) : Prop :=
  (∀ (k0_h1 : k0_cond1 i k0_t1 = 1#1), ∀ a x, ((![v3081] : Fin 1 → IVec S16 32) a x).toNat < S100000.size a)
instance k0_chk1012.dec : ∀ (i : grid0.Coords) (k0_t1 : Fin k0_t1_loop.trips) (v3081 : IVec S16 32), Decidable (k0_chk1012 i k0_t1 v3081) := fun i k0_t1 v3081 => decidable_of_iff' _ (Iff.of_eq (k0_chk1012.eq_1 i k0_t1 v3081))
theorem k0_idx1012_inb : ∀ (i : grid0.Coords) (k0_t1 : Fin k0_t1_loop.trips) (v3081 : IVec S16 32) (k0_hw1012 : k0_chk1012 i k0_t1 v3081), ∀ (k0_h1 : k0_cond1 i k0_t1 = 1#1), ∀ a x, ((![v3081] : Fin 1 → IVec S16 32) a x).toNat < S100000.size a := fun i k0_t1 v3081 k0_hw1012 k0_h1 => k0_hw1012 k0_h1

def k0_chk1013 (i : grid0.Coords) (k0_t1 : Fin k0_t1_loop.trips) (v3082 : IVec S16 32) : Prop :=
  (∀ (k0_h1 : k0_cond1 i k0_t1 = 1#1), ∀ a x, ((![v3082] : Fin 1 → IVec S16 32) a x).toNat < S100000.size a)
instance k0_chk1013.dec : ∀ (i : grid0.Coords) (k0_t1 : Fin k0_t1_loop.trips) (v3082 : IVec S16 32), Decidable (k0_chk1013 i k0_t1 v3082) := fun i k0_t1 v3082 => decidable_of_iff' _ (Iff.of_eq (k0_chk1013.eq_1 i k0_t1 v3082))
theorem k0_idx1013_inb : ∀ (i : grid0.Coords) (k0_t1 : Fin k0_t1_loop.trips) (v3082 : IVec S16 32) (k0_hw1013 : k0_chk1013 i k0_t1 v3082), ∀ (k0_h1 : k0_cond1 i k0_t1 = 1#1), ∀ a x, ((![v3082] : Fin 1 → IVec S16 32) a x).toNat < S100000.size a := fun i k0_t1 v3082 k0_hw1013 k0_h1 => k0_hw1013 k0_h1

def k0_chk1014 (i : grid0.Coords) (k0_t1 : Fin k0_t1_loop.trips) (v3083 : IVec S16 32) : Prop :=
  (∀ (k0_h1 : k0_cond1 i k0_t1 = 1#1), ∀ a x, ((![v3083] : Fin 1 → IVec S16 32) a x).toNat < S100000.size a)
instance k0_chk1014.dec : ∀ (i : grid0.Coords) (k0_t1 : Fin k0_t1_loop.trips) (v3083 : IVec S16 32), Decidable (k0_chk1014 i k0_t1 v3083) := fun i k0_t1 v3083 => decidable_of_iff' _ (Iff.of_eq (k0_chk1014.eq_1 i k0_t1 v3083))
theorem k0_idx1014_inb : ∀ (i : grid0.Coords) (k0_t1 : Fin k0_t1_loop.trips) (v3083 : IVec S16 32) (k0_hw1014 : k0_chk1014 i k0_t1 v3083), ∀ (k0_h1 : k0_cond1 i k0_t1 = 1#1), ∀ a x, ((![v3083] : Fin 1 → IVec S16 32) a x).toNat < S100000.size a := fun i k0_t1 v3083 k0_hw1014 k0_h1 => k0_hw1014 k0_h1

def k0_chk1015 (i : grid0.Coords) (k0_t1 : Fin k0_t1_loop.trips) (v3084 : IVec S16 32) : Prop :=
  (∀ (k0_h1 : k0_cond1 i k0_t1 = 1#1), ∀ a x, ((![v3084] : Fin 1 → IVec S16 32) a x).toNat < S100000.size a)
instance k0_chk1015.dec : ∀ (i : grid0.Coords) (k0_t1 : Fin k0_t1_loop.trips) (v3084 : IVec S16 32), Decidable (k0_chk1015 i k0_t1 v3084) := fun i k0_t1 v3084 => decidable_of_iff' _ (Iff.of_eq (k0_chk1015.eq_1 i k0_t1 v3084))
theorem k0_idx1015_inb : ∀ (i : grid0.Coords) (k0_t1 : Fin k0_t1_loop.trips) (v3084 : IVec S16 32) (k0_hw1015 : k0_chk1015 i k0_t1 v3084), ∀ (k0_h1 : k0_cond1 i k0_t1 = 1#1), ∀ a x, ((![v3084] : Fin 1 → IVec S16 32) a x).toNat < S100000.size a := fun i k0_t1 v3084 k0_hw1015 k0_h1 => k0_hw1015 k0_h1

def k0_chk1016 (i : grid0.Coords) (k0_t1 : Fin k0_t1_loop.trips) (v3085 : IVec S16 32) : Prop :=
  (∀ (k0_h1 : k0_cond1 i k0_t1 = 1#1), ∀ a x, ((![v3085] : Fin 1 → IVec S16 32) a x).toNat < S100000.size a)
instance k0_chk1016.dec : ∀ (i : grid0.Coords) (k0_t1 : Fin k0_t1_loop.trips) (v3085 : IVec S16 32), Decidable (k0_chk1016 i k0_t1 v3085) := fun i k0_t1 v3085 => decidable_of_iff' _ (Iff.of_eq (k0_chk1016.eq_1 i k0_t1 v3085))
theorem k0_idx1016_inb : ∀ (i : grid0.Coords) (k0_t1 : Fin k0_t1_loop.trips) (v3085 : IVec S16 32) (k0_hw1016 : k0_chk1016 i k0_t1 v3085), ∀ (k0_h1 : k0_cond1 i k0_t1 = 1#1), ∀ a x, ((![v3085] : Fin 1 → IVec S16 32) a x).toNat < S100000.size a := fun i k0_t1 v3085 k0_hw1016 k0_h1 => k0_hw1016 k0_h1

def k0_chk1017 (i : grid0.Coords) (k0_t1 : Fin k0_t1_loop.trips) (v3102 : IVec S16 32) : Prop :=
  (∀ (k0_h1 : k0_cond1 i k0_t1 = 1#1), ∀ a x, ((![v3102] : Fin 1 → IVec S16 32) a x).toNat < S100000.size a)
instance k0_chk1017.dec : ∀ (i : grid0.Coords) (k0_t1 : Fin k0_t1_loop.trips) (v3102 : IVec S16 32), Decidable (k0_chk1017 i k0_t1 v3102) := fun i k0_t1 v3102 => decidable_of_iff' _ (Iff.of_eq (k0_chk1017.eq_1 i k0_t1 v3102))
theorem k0_idx1017_inb : ∀ (i : grid0.Coords) (k0_t1 : Fin k0_t1_loop.trips) (v3102 : IVec S16 32) (k0_hw1017 : k0_chk1017 i k0_t1 v3102), ∀ (k0_h1 : k0_cond1 i k0_t1 = 1#1), ∀ a x, ((![v3102] : Fin 1 → IVec S16 32) a x).toNat < S100000.size a := fun i k0_t1 v3102 k0_hw1017 k0_h1 => k0_hw1017 k0_h1

def k0_chk1018 (i : grid0.Coords) (k0_t1 : Fin k0_t1_loop.trips) (v3103 : IVec S16 32) : Prop :=
  (∀ (k0_h1 : k0_cond1 i k0_t1 = 1#1), ∀ a x, ((![v3103] : Fin 1 → IVec S16 32) a x).toNat < S100000.size a)
instance k0_chk1018.dec : ∀ (i : grid0.Coords) (k0_t1 : Fin k0_t1_loop.trips) (v3103 : IVec S16 32), Decidable (k0_chk1018 i k0_t1 v3103) := fun i k0_t1 v3103 => decidable_of_iff' _ (Iff.of_eq (k0_chk1018.eq_1 i k0_t1 v3103))
theorem k0_idx1018_inb : ∀ (i : grid0.Coords) (k0_t1 : Fin k0_t1_loop.trips) (v3103 : IVec S16 32) (k0_hw1018 : k0_chk1018 i k0_t1 v3103), ∀ (k0_h1 : k0_cond1 i k0_t1 = 1#1), ∀ a x, ((![v3103] : Fin 1 → IVec S16 32) a x).toNat < S100000.size a := fun i k0_t1 v3103 k0_hw1018 k0_h1 => k0_hw1018 k0_h1

def k0_chk1019 (i : grid0.Coords) (k0_t1 : Fin k0_t1_loop.trips) (v3104 : IVec S16 32) : Prop :=
  (∀ (k0_h1 : k0_cond1 i k0_t1 = 1#1), ∀ a x, ((![v3104] : Fin 1 → IVec S16 32) a x).toNat < S100000.size a)
instance k0_chk1019.dec : ∀ (i : grid0.Coords) (k0_t1 : Fin k0_t1_loop.trips) (v3104 : IVec S16 32), Decidable (k0_chk1019 i k0_t1 v3104) := fun i k0_t1 v3104 => decidable_of_iff' _ (Iff.of_eq (k0_chk1019.eq_1 i k0_t1 v3104))
theorem k0_idx1019_inb : ∀ (i : grid0.Coords) (k0_t1 : Fin k0_t1_loop.trips) (v3104 : IVec S16 32) (k0_hw1019 : k0_chk1019 i k0_t1 v3104), ∀ (k0_h1 : k0_cond1 i k0_t1 = 1#1), ∀ a x, ((![v3104] : Fin 1 → IVec S16 32) a x).toNat < S100000.size a := fun i k0_t1 v3104 k0_hw1019 k0_h1 => k0_hw1019 k0_h1

def k0_chk1020 (i : grid0.Coords) (k0_t1 : Fin k0_t1_loop.trips) (v3105 : IVec S16 32) : Prop :=
  (∀ (k0_h1 : k0_cond1 i k0_t1 = 1#1), ∀ a x, ((![v3105] : Fin 1 → IVec S16 32) a x).toNat < S100000.size a)
instance k0_chk1020.dec : ∀ (i : grid0.Coords) (k0_t1 : Fin k0_t1_loop.trips) (v3105 : IVec S16 32), Decidable (k0_chk1020 i k0_t1 v3105) := fun i k0_t1 v3105 => decidable_of_iff' _ (Iff.of_eq (k0_chk1020.eq_1 i k0_t1 v3105))
theorem k0_idx1020_inb : ∀ (i : grid0.Coords) (k0_t1 : Fin k0_t1_loop.trips) (v3105 : IVec S16 32) (k0_hw1020 : k0_chk1020 i k0_t1 v3105), ∀ (k0_h1 : k0_cond1 i k0_t1 = 1#1), ∀ a x, ((![v3105] : Fin 1 → IVec S16 32) a x).toNat < S100000.size a := fun i k0_t1 v3105 k0_hw1020 k0_h1 => k0_hw1020 k0_h1

def k0_chk1021 (i : grid0.Coords) (k0_t1 : Fin k0_t1_loop.trips) (v3106 : IVec S16 32) : Prop :=
  (∀ (k0_h1 : k0_cond1 i k0_t1 = 1#1), ∀ a x, ((![v3106] : Fin 1 → IVec S16 32) a x).toNat < S100000.size a)
instance k0_chk1021.dec : ∀ (i : grid0.Coords) (k0_t1 : Fin k0_t1_loop.trips) (v3106 : IVec S16 32), Decidable (k0_chk1021 i k0_t1 v3106) := fun i k0_t1 v3106 => decidable_of_iff' _ (Iff.of_eq (k0_chk1021.eq_1 i k0_t1 v3106))
theorem k0_idx1021_inb : ∀ (i : grid0.Coords) (k0_t1 : Fin k0_t1_loop.trips) (v3106 : IVec S16 32) (k0_hw1021 : k0_chk1021 i k0_t1 v3106), ∀ (k0_h1 : k0_cond1 i k0_t1 = 1#1), ∀ a x, ((![v3106] : Fin 1 → IVec S16 32) a x).toNat < S100000.size a := fun i k0_t1 v3106 k0_hw1021 k0_h1 => k0_hw1021 k0_h1

def k0_chk1022 (i : grid0.Coords) (k0_t1 : Fin k0_t1_loop.trips) (v3107 : IVec S16 32) : Prop :=
  (∀ (k0_h1 : k0_cond1 i k0_t1 = 1#1), ∀ a x, ((![v3107] : Fin 1 → IVec S16 32) a x).toNat < S100000.size a)
instance k0_chk1022.dec : ∀ (i : grid0.Coords) (k0_t1 : Fin k0_t1_loop.trips) (v3107 : IVec S16 32), Decidable (k0_chk1022 i k0_t1 v3107) := fun i k0_t1 v3107 => decidable_of_iff' _ (Iff.of_eq (k0_chk1022.eq_1 i k0_t1 v3107))
theorem k0_idx1022_inb : ∀ (i : grid0.Coords) (k0_t1 : Fin k0_t1_loop.trips) (v3107 : IVec S16 32) (k0_hw1022 : k0_chk1022 i k0_t1 v3107), ∀ (k0_h1 : k0_cond1 i k0_t1 = 1#1), ∀ a x, ((![v3107] : Fin 1 → IVec S16 32) a x).toNat < S100000.size a := fun i k0_t1 v3107 k0_hw1022 k0_h1 => k0_hw1022 k0_h1

def k0_chk1023 (i : grid0.Coords) (k0_t1 : Fin k0_t1_loop.trips) (v3108 : IVec S16 32) : Prop :=
  (∀ (k0_h1 : k0_cond1 i k0_t1 = 1#1), ∀ a x, ((![v3108] : Fin 1 → IVec S16 32) a x).toNat < S100000.size a)
instance k0_chk1023.dec : ∀ (i : grid0.Coords) (k0_t1 : Fin k0_t1_loop.trips) (v3108 : IVec S16 32), Decidable (k0_chk1023 i k0_t1 v3108) := fun i k0_t1 v3108 => decidable_of_iff' _ (Iff.of_eq (k0_chk1023.eq_1 i k0_t1 v3108))
theorem k0_idx1023_inb : ∀ (i : grid0.Coords) (k0_t1 : Fin k0_t1_loop.trips) (v3108 : IVec S16 32) (k0_hw1023 : k0_chk1023 i k0_t1 v3108), ∀ (k0_h1 : k0_cond1 i k0_t1 = 1#1), ∀ a x, ((![v3108] : Fin 1 → IVec S16 32) a x).toNat < S100000.size a := fun i k0_t1 v3108 k0_hw1023 k0_h1 => k0_hw1023 k0_h1

def k0_chk1024 (i : grid0.Coords) (k0_t1 : Fin k0_t1_loop.trips) (v3109 : IVec S16 32) : Prop :=
  (∀ (k0_h1 : k0_cond1 i k0_t1 = 1#1), ∀ a x, ((![v3109] : Fin 1 → IVec S16 32) a x).toNat < S100000.size a)
instance k0_chk1024.dec : ∀ (i : grid0.Coords) (k0_t1 : Fin k0_t1_loop.trips) (v3109 : IVec S16 32), Decidable (k0_chk1024 i k0_t1 v3109) := fun i k0_t1 v3109 => decidable_of_iff' _ (Iff.of_eq (k0_chk1024.eq_1 i k0_t1 v3109))
theorem k0_idx1024_inb : ∀ (i : grid0.Coords) (k0_t1 : Fin k0_t1_loop.trips) (v3109 : IVec S16 32) (k0_hw1024 : k0_chk1024 i k0_t1 v3109), ∀ (k0_h1 : k0_cond1 i k0_t1 = 1#1), ∀ a x, ((![v3109] : Fin 1 → IVec S16 32) a x).toNat < S100000.size a := fun i k0_t1 v3109 k0_hw1024 k0_h1 => k0_hw1024 k0_h1
def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_11 : BitVec 32 := 0#32
  let c0_i32_2 : BitVec 32 := 0#32
  let c1_i32 : BitVec 32 := 1#32
  let arg11 : BitVec 32 := Scf.iv c0_i32_2 c1_i32 k0_t1
  let c1_i32_10 : BitVec 32 := 1#32
  let v19 : BitVec 32 := Scalar.muli arg11 c1_i32_10
  let v20 : BitVec 32 := Scalar.addi c0_i32_11 v19
  let v21 : BitVec 32 := Scalar.muli c32_i32 v20
  let v22 : BitVec 32 := Scalar.addi v1 v21
  let c12288_i32 : BitVec 32 := 12288#32
  ![v22.toNat, 12288]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.Facts₀ : Prop where
  hcore0 : grid0.bound 0 ≤ τ.nSC
  hsub0 : grid0.bound 1 ≤ τ.nSub
  k0_off1_inb : ∀ i : grid0.Coords, ∀ a, (k0_off1 i) a + S1x4096.size a ≤ S300x16384.size a
  k0_off2_inb : ∀ i : grid0.Coords, ∀ a, (k0_off2 i) a + S1x4096.size a ≤ S300x16384.size a
  k0_t1_ok : k0_t1_loop.OK
  k0_off3_inb : ∀ (i : grid0.Coords) (k0_t1 : Fin k0_t1_loop.trips), ∀ (k0_h1 : k0_cond1 i k0_t1 = 1#1), ∀ a, (k0_off3 i k0_t1) a + S1x100000.size a ≤ S300x100000.size a
  k0_off4_inb : ∀ (i : grid0.Coords) (k0_t1 : Fin k0_t1_loop.trips), ∀ (k0_h1 : k0_cond1 i k0_t1 = 1#1), ∀ a, (k0_off4 i k0_t1) a + S1x4096.size a ≤ S300x16384.size a
  k0_off5_inb : ∀ (i : grid0.Coords) (k0_t1 : Fin k0_t1_loop.trips), ∀ (k0_h1 : k0_cond1 i k0_t1 = 1#1), ∀ a, (k0_off5 i k0_t1) a + S1x4096.size a ≤ S300x16384.size a
  k0_off6_inb : ∀ (i : grid0.Coords) (k0_t1 : Fin k0_t1_loop.trips), ∀ (k0_h1 : k0_cond1 i k0_t1 = 1#1), ∀ a, (k0_off6 i k0_t1) a + S1x4096.size a ≤ S300x16384.size a
  k0_off7_inb : ∀ (i : grid0.Coords) (k0_t1 : Fin k0_t1_loop.trips), ∀ (k0_h1 : k0_cond1 i k0_t1 = 1#1), ∀ a, (k0_off7 i k0_t1) a + S1x4096.size a ≤ S300x16384.size a

class Shapes1.Facts₀ : Prop where
  transposes_S100000x300_S300x100000_1_0 : S100000x300.Transposes [1, 0] S300x100000
  squeezes_S1x4096_S4096 : S1x4096.Squeezes S4096
  squeezes_S1x100000_S100000 : S1x100000.Squeezes S100000
  inb_S300x16384_S1x4096_0_0 : ∀ a, (![0, 0] : Fin 2 → Nat) a + S1x4096.size a ≤ S300x16384.size a
  inb_S16384_S16_0 : ∀ a, (![0] : Fin 1 → Nat) a + S16.size a ≤ S16384.size a
  h_S16 : 0 < S16.numel
  inb_S16384_S16_16 : ∀ a, (![16] : Fin 1 → Nat) a + S16.size a ≤ S16384.size a
  inb_S16384_S16_32 : ∀ a, (![32] : Fin 1 → Nat) a + S16.size a ≤ S16384.size a
  inb_S16384_S16_48 : ∀ a, (![48] : Fin 1 → Nat) a + S16.size a ≤ S16384.size a
  inb_S16384_S16_64 : ∀ a, (![64] : Fin 1 → Nat) a + S16.size a ≤ S16384.size a
  inb_S16384_S16_80 : ∀ a, (![80] : Fin 1 → Nat) a + S16.size a ≤ S16384.size a
  inb_S16384_S16_96 : ∀ a, (![96] : Fin 1 → Nat) a + S16.size a ≤ S16384.size a
  inb_S16384_S16_112 : ∀ a, (![112] : Fin 1 → Nat) a + S16.size a ≤ S16384.size a
  h_S100000 : 0 < S100000.numel
  inb_S4096_S16_0 : ∀ a, (![0] : Fin 1 → Nat) a + S16.size a ≤ S4096.size a
  inb_S4096_S16_16 : ∀ a, (![16] : Fin 1 → Nat) a + S16.size a ≤ S4096.size a
  inb_S4096_S16_32 : ∀ a, (![32] : Fin 1 → Nat) a + S16.size a ≤ S4096.size a
  inb_S4096_S16_48 : ∀ a, (![48] : Fin 1 → Nat) a + S16.size a ≤ S4096.size a
  inb_S4096_S16_64 : ∀ a, (![64] : Fin 1 → Nat) a + S16.size a ≤ S4096.size a
  inb_S4096_S16_80 : ∀ a, (![80] : Fin 1 → Nat) a + S16.size a ≤ S4096.size a
  inb_S4096_S16_96 : ∀ a, (![96] : Fin 1 → Nat) a + S16.size a ≤ S4096.size a
  inb_S4096_S16_112 : ∀ a, (![112] : Fin 1 → Nat) a + S16.size a ≤ S4096.size a
  inb_S16384_S16_128 : ∀ a, (![128] : Fin 1 → Nat) a + S16.size a ≤ S16384.size a
  inb_S16384_S16_144 : ∀ a, (![144] : Fin 1 → Nat) a + S16.size a ≤ S16384.size a
  inb_S16384_S16_160 : ∀ a, (![160] : Fin 1 → Nat) a + S16.size a ≤ S16384.size a
  inb_S16384_S16_176 : ∀ a, (![176] : Fin 1 → Nat) a + S16.size a ≤ S16384.size a
  inb_S16384_S16_192 : ∀ a, (![192] : Fin 1 → Nat) a + S16.size a ≤ S16384.size a
  inb_S16384_S16_208 : ∀ a, (![208] : Fin 1 → Nat) a + S16.size a ≤ S16384.size a
  inb_S16384_S16_224 : ∀ a, (![224] : Fin 1 → Nat) a + S16.size a ≤ S16384.size a
  inb_S16384_S16_240 : ∀ a, (![240] : Fin 1 → Nat) a + S16.size a ≤ S16384.size a
  inb_S4096_S16_128 : ∀ a, (![128] : Fin 1 → Nat) a + S16.size a ≤ S4096.size a
  inb_S4096_S16_144 : ∀ a, (![144] : Fin 1 → Nat) a + S16.size a ≤ S4096.size a
  inb_S4096_S16_160 : ∀ a, (![160] : Fin 1 → Nat) a + S16.size a ≤ S4096.size a
  inb_S4096_S16_176 : ∀ a, (![176] : Fin 1 → Nat) a + S16.size a ≤ S4096.size a
  inb_S4096_S16_192 : ∀ a, (![192] : Fin 1 → Nat) a + S16.size a ≤ S4096.size a
  inb_S4096_S16_208 : ∀ a, (![208] : Fin 1 → Nat) a + S16.size a ≤ S4096.size a
  inb_S4096_S16_224 : ∀ a, (![224] : Fin 1 → Nat) a + S16.size a ≤ S4096.size a
  inb_S4096_S16_240 : ∀ a, (![240] : Fin 1 → Nat) a + S16.size a ≤ S4096.size a
  inb_S16384_S16_256 : ∀ a, (![256] : Fin 1 → Nat) a + S16.size a ≤ S16384.size a
  inb_S16384_S16_272 : ∀ a, (![272] : Fin 1 → Nat) a + S16.size a ≤ S16384.size a
  inb_S16384_S16_288 : ∀ a, (![288] : Fin 1 → Nat) a + S16.size a ≤ S16384.size a
  inb_S16384_S16_304 : ∀ a, (![304] : Fin 1 → Nat) a + S16.size a ≤ S16384.size a
  inb_S16384_S16_320 : ∀ a, (![320] : Fin 1 → Nat) a + S16.size a ≤ S16384.size a
  inb_S16384_S16_336 : ∀ a, (![336] : Fin 1 → Nat) a + S16.size a ≤ S16384.size a
  inb_S16384_S16_352 : ∀ a, (![352] : Fin 1 → Nat) a + S16.size a ≤ S16384.size a
  inb_S16384_S16_368 : ∀ a, (![368] : Fin 1 → Nat) a + S16.size a ≤ S16384.size a
  inb_S4096_S16_256 : ∀ a, (![256] : Fin 1 → Nat) a + S16.size a ≤ S4096.size a
  inb_S4096_S16_272 : ∀ a, (![272] : Fin 1 → Nat) a + S16.size a ≤ S4096.size a
  inb_S4096_S16_288 : ∀ a, (![288] : Fin 1 → Nat) a + S16.size a ≤ S4096.size a
  inb_S4096_S16_304 : ∀ a, (![304] : Fin 1 → Nat) a + S16.size a ≤ S4096.size a
  inb_S4096_S16_320 : ∀ a, (![320] : Fin 1 → Nat) a + S16.size a ≤ S4096.size a
  inb_S4096_S16_336 : ∀ a, (![336] : Fin 1 → Nat) a + S16.size a ≤ S4096.size a
  inb_S4096_S16_352 : ∀ a, (![352] : Fin 1 → Nat) a + S16.size a ≤ S4096.size a
  inb_S4096_S16_368 : ∀ a, (![368] : Fin 1 → Nat) a + S16.size a ≤ S4096.size a
  inb_S16384_S16_384 : ∀ a, (![384] : Fin 1 → Nat) a + S16.size a ≤ S16384.size a
  inb_S16384_S16_400 : ∀ a, (![400] : Fin 1 → Nat) a + S16.size a ≤ S16384.size a
  inb_S16384_S16_416 : ∀ a, (![416] : Fin 1 → Nat) a + S16.size a ≤ S16384.size a
  inb_S16384_S16_432 : ∀ a, (![432] : Fin 1 → Nat) a + S16.size a ≤ S16384.size a
  inb_S16384_S16_448 : ∀ a, (![448] : Fin 1 → Nat) a + S16.size a ≤ S16384.size a
  inb_S16384_S16_464 : ∀ a, (![464] : Fin 1 → Nat) a + S16.size a ≤ S16384.size a
  inb_S16384_S16_480 : ∀ a, (![480] : Fin 1 → Nat) a + S16.size a ≤ S16384.size a
  inb_S16384_S16_496 : ∀ a, (![496] : Fin 1 → Nat) a + S16.size a ≤ S16384.size a
  inb_S4096_S16_384 : ∀ a, (![384] : Fin 1 → Nat) a + S16.size a ≤ S4096.size a
  inb_S4096_S16_400 : ∀ a, (![400] : Fin 1 → Nat) a + S16.size a ≤ S4096.size a
  inb_S4096_S16_416 : ∀ a, (![416] : Fin 1 → Nat) a + S16.size a ≤ S4096.size a
  inb_S4096_S16_432 : ∀ a, (![432] : Fin 1 → Nat) a + S16.size a ≤ S4096.size a
  inb_S4096_S16_448 : ∀ a, (![448] : Fin 1 → Nat) a + S16.size a ≤ S4096.size a
  inb_S4096_S16_464 : ∀ a, (![464] : Fin 1 → Nat) a + S16.size a ≤ S4096.size a
  inb_S4096_S16_480 : ∀ a, (![480] : Fin 1 → Nat) a + S16.size a ≤ S4096.size a
  inb_S4096_S16_496 : ∀ a, (![496] : Fin 1 → Nat) a + S16.size a ≤ S4096.size a
  inb_S16384_S16_512 : ∀ a, (![512] : Fin 1 → Nat) a + S16.size a ≤ S16384.size a
  inb_S16384_S16_528 : ∀ a, (![528] : Fin 1 → Nat) a + S16.size a ≤ S16384.size a
  inb_S16384_S16_544 : ∀ a, (![544] : Fin 1 → Nat) a + S16.size a ≤ S16384.size a
  inb_S16384_S16_560 : ∀ a, (![560] : Fin 1 → Nat) a + S16.size a ≤ S16384.size a
  inb_S16384_S16_576 : ∀ a, (![576] : Fin 1 → Nat) a + S16.size a ≤ S16384.size a
  inb_S16384_S16_592 : ∀ a, (![592] : Fin 1 → Nat) a + S16.size a ≤ S16384.size a
  inb_S16384_S16_608 : ∀ a, (![608] : Fin 1 → Nat) a + S16.size a ≤ S16384.size a
  inb_S16384_S16_624 : ∀ a, (![624] : Fin 1 → Nat) a + S16.size a ≤ S16384.size a
  inb_S4096_S16_512 : ∀ a, (![512] : Fin 1 → Nat) a + S16.size a ≤ S4096.size a
  inb_S4096_S16_528 : ∀ a, (![528] : Fin 1 → Nat) a + S16.size a ≤ S4096.size a
  inb_S4096_S16_544 : ∀ a, (![544] : Fin 1 → Nat) a + S16.size a ≤ S4096.size a
  inb_S4096_S16_560 : ∀ a, (![560] : Fin 1 → Nat) a + S16.size a ≤ S4096.size a
  inb_S4096_S16_576 : ∀ a, (![576] : Fin 1 → Nat) a + S16.size a ≤ S4096.size a
  inb_S4096_S16_592 : ∀ a, (![592] : Fin 1 → Nat) a + S16.size a ≤ S4096.size a
  inb_S4096_S16_608 : ∀ a, (![608] : Fin 1 → Nat) a + S16.size a ≤ S4096.size a
  inb_S4096_S16_624 : ∀ a, (![624] : Fin 1 → Nat) a + S16.size a ≤ S4096.size a
  inb_S16384_S16_640 : ∀ a, (![640] : Fin 1 → Nat) a + S16.size a ≤ S16384.size a
  inb_S16384_S16_656 : ∀ a, (![656] : Fin 1 → Nat) a + S16.size a ≤ S16384.size a
  inb_S16384_S16_672 : ∀ a, (![672] : Fin 1 → Nat) a + S16.size a ≤ S16384.size a
  inb_S16384_S16_688 : ∀ a, (![688] : Fin 1 → Nat) a + S16.size a ≤ S16384.size a
  inb_S16384_S16_704 : ∀ a, (![704] : Fin 1 → Nat) a + S16.size a ≤ S16384.size a
  inb_S16384_S16_720 : ∀ a, (![720] : Fin 1 → Nat) a + S16.size a ≤ S16384.size a
  inb_S16384_S16_736 : ∀ a, (![736] : Fin 1 → Nat) a + S16.size a ≤ S16384.size a
  inb_S16384_S16_752 : ∀ a, (![752] : Fin 1 → Nat) a + S16.size a ≤ S16384.size a
  inb_S4096_S16_640 : ∀ a, (![640] : Fin 1 → Nat) a + S16.size a ≤ S4096.size a
  inb_S4096_S16_656 : ∀ a, (![656] : Fin 1 → Nat) a + S16.size a ≤ S4096.size a
  inb_S4096_S16_672 : ∀ a, (![672] : Fin 1 → Nat) a + S16.size a ≤ S4096.size a
  inb_S4096_S16_688 : ∀ a, (![688] : Fin 1 → Nat) a + S16.size a ≤ S4096.size a
  inb_S4096_S16_704 : ∀ a, (![704] : Fin 1 → Nat) a + S16.size a ≤ S4096.size a
  inb_S4096_S16_720 : ∀ a, (![720] : Fin 1 → Nat) a + S16.size a ≤ S4096.size a
  inb_S4096_S16_736 : ∀ a, (![736] : Fin 1 → Nat) a + S16.size a ≤ S4096.size a
  inb_S4096_S16_752 : ∀ a, (![752] : Fin 1 → Nat) a + S16.size a ≤ S4096.size a
  inb_S16384_S16_768 : ∀ a, (![768] : Fin 1 → Nat) a + S16.size a ≤ S16384.size a
  inb_S16384_S16_784 : ∀ a, (![784] : Fin 1 → Nat) a + S16.size a ≤ S16384.size a
  inb_S16384_S16_800 : ∀ a, (![800] : Fin 1 → Nat) a + S16.size a ≤ S16384.size a
  inb_S16384_S16_816 : ∀ a, (![816] : Fin 1 → Nat) a + S16.size a ≤ S16384.size a
  inb_S16384_S16_832 : ∀ a, (![832] : Fin 1 → Nat) a + S16.size a ≤ S16384.size a
  inb_S16384_S16_848 : ∀ a, (![848] : Fin 1 → Nat) a + S16.size a ≤ S16384.size a
  inb_S16384_S16_864 : ∀ a, (![864] : Fin 1 → Nat) a + S16.size a ≤ S16384.size a
  inb_S16384_S16_880 : ∀ a, (![880] : Fin 1 → Nat) a + S16.size a ≤ S16384.size a
  inb_S4096_S16_768 : ∀ a, (![768] : Fin 1 → Nat) a + S16.size a ≤ S4096.size a
  inb_S4096_S16_784 : ∀ a, (![784] : Fin 1 → Nat) a + S16.size a ≤ S4096.size a
  inb_S4096_S16_800 : ∀ a, (![800] : Fin 1 → Nat) a + S16.size a ≤ S4096.size a
  inb_S4096_S16_816 : ∀ a, (![816] : Fin 1 → Nat) a + S16.size a ≤ S4096.size a
  inb_S4096_S16_832 : ∀ a, (![832] : Fin 1 → Nat) a + S16.size a ≤ S4096.size a
  inb_S4096_S16_848 : ∀ a, (![848] : Fin 1 → Nat) a + S16.size a ≤ S4096.size a
  inb_S4096_S16_864 : ∀ a, (![864] : Fin 1 → Nat) a + S16.size a ≤ S4096.size a
  inb_S4096_S16_880 : ∀ a, (![880] : Fin 1 → Nat) a + S16.size a ≤ S4096.size a
  inb_S16384_S16_896 : ∀ a, (![896] : Fin 1 → Nat) a + S16.size a ≤ S16384.size a
  inb_S16384_S16_912 : ∀ a, (![912] : Fin 1 → Nat) a + S16.size a ≤ S16384.size a
  inb_S16384_S16_928 : ∀ a, (![928] : Fin 1 → Nat) a + S16.size a ≤ S16384.size a
  inb_S16384_S16_944 : ∀ a, (![944] : Fin 1 → Nat) a + S16.size a ≤ S16384.size a
  inb_S16384_S16_960 : ∀ a, (![960] : Fin 1 → Nat) a + S16.size a ≤ S16384.size a
  inb_S16384_S16_976 : ∀ a, (![976] : Fin 1 → Nat) a + S16.size a ≤ S16384.size a
  inb_S16384_S16_992 : ∀ a, (![992] : Fin 1 → Nat) a + S16.size a ≤ S16384.size a
  inb_S16384_S16_1008 : ∀ a, (![1008] : Fin 1 → Nat) a + S16.size a ≤ S16384.size a
  inb_S4096_S16_896 : ∀ a, (![896] : Fin 1 → Nat) a + S16.size a ≤ S4096.size a
  inb_S4096_S16_912 : ∀ a, (![912] : Fin 1 → Nat) a + S16.size a ≤ S4096.size a
  inb_S4096_S16_928 : ∀ a, (![928] : Fin 1 → Nat) a + S16.size a ≤ S4096.size a
  inb_S4096_S16_944 : ∀ a, (![944] : Fin 1 → Nat) a + S16.size a ≤ S4096.size a
  inb_S4096_S16_960 : ∀ a, (![960] : Fin 1 → Nat) a + S16.size a ≤ S4096.size a
  inb_S4096_S16_976 : ∀ a, (![976] : Fin 1 → Nat) a + S16.size a ≤ S4096.size a
  inb_S4096_S16_992 : ∀ a, (![992] : Fin 1 → Nat) a + S16.size a ≤ S4096.size a
  inb_S4096_S16_1008 : ∀ a, (![1008] : Fin 1 → Nat) a + S16.size a ≤ S4096.size a
  inb_S16384_S16_1024 : ∀ a, (![1024] : Fin 1 → Nat) a + S16.size a ≤ S16384.size a
  inb_S16384_S16_1040 : ∀ a, (![1040] : Fin 1 → Nat) a + S16.size a ≤ S16384.size a
  inb_S16384_S16_1056 : ∀ a, (![1056] : Fin 1 → Nat) a + S16.size a ≤ S16384.size a
  inb_S16384_S16_1072 : ∀ a, (![1072] : Fin 1 → Nat) a + S16.size a ≤ S16384.size a
  inb_S16384_S16_1088 : ∀ a, (![1088] : Fin 1 → Nat) a + S16.size a ≤ S16384.size a
  inb_S16384_S16_1104 : ∀ a, (![1104] : Fin 1 → Nat) a + S16.size a ≤ S16384.size a
  inb_S16384_S16_1120 : ∀ a, (![1120] : Fin 1 → Nat) a + S16.size a ≤ S16384.size a
  inb_S16384_S16_1136 : ∀ a, (![1136] : Fin 1 → Nat) a + S16.size a ≤ S16384.size a
  inb_S4096_S16_1024 : ∀ a, (![1024] : Fin 1 → Nat) a + S16.size a ≤ S4096.size a
  inb_S4096_S16_1040 : ∀ a, (![1040] : Fin 1 → Nat) a + S16.size a ≤ S4096.size a
  inb_S4096_S16_1056 : ∀ a, (![1056] : Fin 1 → Nat) a + S16.size a ≤ S4096.size a
  inb_S4096_S16_1072 : ∀ a, (![1072] : Fin 1 → Nat) a + S16.size a ≤ S4096.size a
  inb_S4096_S16_1088 : ∀ a, (![1088] : Fin 1 → Nat) a + S16.size a ≤ S4096.size a
  inb_S4096_S16_1104 : ∀ a, (![1104] : Fin 1 → Nat) a + S16.size a ≤ S4096.size a
  inb_S4096_S16_1120 : ∀ a, (![1120] : Fin 1 → Nat) a + S16.size a ≤ S4096.size a
  inb_S4096_S16_1136 : ∀ a, (![1136] : Fin 1 → Nat) a + S16.size a ≤ S4096.size a
  inb_S16384_S16_1152 : ∀ a, (![1152] : Fin 1 → Nat) a + S16.size a ≤ S16384.size a
  inb_S16384_S16_1168 : ∀ a, (![1168] : Fin 1 → Nat) a + S16.size a ≤ S16384.size a
  inb_S16384_S16_1184 : ∀ a, (![1184] : Fin 1 → Nat) a + S16.size a ≤ S16384.size a
  inb_S16384_S16_1200 : ∀ a, (![1200] : Fin 1 → Nat) a + S16.size a ≤ S16384.size a
  inb_S16384_S16_1216 : ∀ a, (![1216] : Fin 1 → Nat) a + S16.size a ≤ S16384.size a
  inb_S16384_S16_1232 : ∀ a, (![1232] : Fin 1 → Nat) a + S16.size a ≤ S16384.size a
  inb_S16384_S16_1248 : ∀ a, (![1248] : Fin 1 → Nat) a + S16.size a ≤ S16384.size a
  inb_S16384_S16_1264 : ∀ a, (![1264] : Fin 1 → Nat) a + S16.size a ≤ S16384.size a
  inb_S4096_S16_1152 : ∀ a, (![1152] : Fin 1 → Nat) a + S16.size a ≤ S4096.size a
  inb_S4096_S16_1168 : ∀ a, (![1168] : Fin 1 → Nat) a + S16.size a ≤ S4096.size a
  inb_S4096_S16_1184 : ∀ a, (![1184] : Fin 1 → Nat) a + S16.size a ≤ S4096.size a
  inb_S4096_S16_1200 : ∀ a, (![1200] : Fin 1 → Nat) a + S16.size a ≤ S4096.size a
  inb_S4096_S16_1216 : ∀ a, (![1216] : Fin 1 → Nat) a + S16.size a ≤ S4096.size a
  inb_S4096_S16_1232 : ∀ a, (![1232] : Fin 1 → Nat) a + S16.size a ≤ S4096.size a
  inb_S4096_S16_1248 : ∀ a, (![1248] : Fin 1 → Nat) a + S16.size a ≤ S4096.size a
  inb_S4096_S16_1264 : ∀ a, (![1264] : Fin 1 → Nat) a + S16.size a ≤ S4096.size a
  inb_S16384_S16_1280 : ∀ a, (![1280] : Fin 1 → Nat) a + S16.size a ≤ S16384.size a
  inb_S16384_S16_1296 : ∀ a, (![1296] : Fin 1 → Nat) a + S16.size a ≤ S16384.size a
  inb_S16384_S16_1312 : ∀ a, (![1312] : Fin 1 → Nat) a + S16.size a ≤ S16384.size a
  inb_S16384_S16_1328 : ∀ a, (![1328] : Fin 1 → Nat) a + S16.size a ≤ S16384.size a
  inb_S16384_S16_1344 : ∀ a, (![1344] : Fin 1 → Nat) a + S16.size a ≤ S16384.size a
  inb_S16384_S16_1360 : ∀ a, (![1360] : Fin 1 → Nat) a + S16.size a ≤ S16384.size a
  inb_S16384_S16_1376 : ∀ a, (![1376] : Fin 1 → Nat) a + S16.size a ≤ S16384.size a
  inb_S16384_S16_1392 : ∀ a, (![1392] : Fin 1 → Nat) a + S16.size a ≤ S16384.size a
  inb_S4096_S16_1280 : ∀ a, (![1280] : Fin 1 → Nat) a + S16.size a ≤ S4096.size a
  inb_S4096_S16_1296 : ∀ a, (![1296] : Fin 1 → Nat) a + S16.size a ≤ S4096.size a
  inb_S4096_S16_1312 : ∀ a, (![1312] : Fin 1 → Nat) a + S16.size a ≤ S4096.size a
  inb_S4096_S16_1328 : ∀ a, (![1328] : Fin 1 → Nat) a + S16.size a ≤ S4096.size a
  inb_S4096_S16_1344 : ∀ a, (![1344] : Fin 1 → Nat) a + S16.size a ≤ S4096.size a
  inb_S4096_S16_1360 : ∀ a, (![1360] : Fin 1 → Nat) a + S16.size a ≤ S4096.size a
  inb_S4096_S16_1376 : ∀ a, (![1376] : Fin 1 → Nat) a + S16.size a ≤ S4096.size a
  inb_S4096_S16_1392 : ∀ a, (![1392] : Fin 1 → Nat) a + S16.size a ≤ S4096.size a
  inb_S16384_S16_1408 : ∀ a, (![1408] : Fin 1 → Nat) a + S16.size a ≤ S16384.size a
  inb_S16384_S16_1424 : ∀ a, (![1424] : Fin 1 → Nat) a + S16.size a ≤ S16384.size a
  inb_S16384_S16_1440 : ∀ a, (![1440] : Fin 1 → Nat) a + S16.size a ≤ S16384.size a
  inb_S16384_S16_1456 : ∀ a, (![1456] : Fin 1 → Nat) a + S16.size a ≤ S16384.size a
  inb_S16384_S16_1472 : ∀ a, (![1472] : Fin 1 → Nat) a + S16.size a ≤ S16384.size a
  inb_S16384_S16_1488 : ∀ a, (![1488] : Fin 1 → Nat) a + S16.size a ≤ S16384.size a
  inb_S16384_S16_1504 : ∀ a, (![1504] : Fin 1 → Nat) a + S16.size a ≤ S16384.size a
  inb_S16384_S16_1520 : ∀ a, (![1520] : Fin 1 → Nat) a + S16.size a ≤ S16384.size a
  inb_S4096_S16_1408 : ∀ a, (![1408] : Fin 1 → Nat) a + S16.size a ≤ S4096.size a
  inb_S4096_S16_1424 : ∀ a, (![1424] : Fin 1 → Nat) a + S16.size a ≤ S4096.size a
  inb_S4096_S16_1440 : ∀ a, (![1440] : Fin 1 → Nat) a + S16.size a ≤ S4096.size a
  inb_S4096_S16_1456 : ∀ a, (![1456] : Fin 1 → Nat) a + S16.size a ≤ S4096.size a
  inb_S4096_S16_1472 : ∀ a, (![1472] : Fin 1 → Nat) a + S16.size a ≤ S4096.size a
  inb_S4096_S16_1488 : ∀ a, (![1488] : Fin 1 → Nat) a + S16.size a ≤ S4096.size a
  inb_S4096_S16_1504 : ∀ a, (![1504] : Fin 1 → Nat) a + S16.size a ≤ S4096.size a
  inb_S4096_S16_1520 : ∀ a, (![1520] : Fin 1 → Nat) a + S16.size a ≤ S4096.size a
  inb_S16384_S16_1536 : ∀ a, (![1536] : Fin 1 → Nat) a + S16.size a ≤ S16384.size a
  inb_S16384_S16_1552 : ∀ a, (![1552] : Fin 1 → Nat) a + S16.size a ≤ S16384.size a
  inb_S16384_S16_1568 : ∀ a, (![1568] : Fin 1 → Nat) a + S16.size a ≤ S16384.size a
  inb_S16384_S16_1584 : ∀ a, (![1584] : Fin 1 → Nat) a + S16.size a ≤ S16384.size a
  inb_S16384_S16_1600 : ∀ a, (![1600] : Fin 1 → Nat) a + S16.size a ≤ S16384.size a
  inb_S16384_S16_1616 : ∀ a, (![1616] : Fin 1 → Nat) a + S16.size a ≤ S16384.size a
  inb_S16384_S16_1632 : ∀ a, (![1632] : Fin 1 → Nat) a + S16.size a ≤ S16384.size a
  inb_S16384_S16_1648 : ∀ a, (![1648] : Fin 1 → Nat) a + S16.size a ≤ S16384.size a
  inb_S4096_S16_1536 : ∀ a, (![1536] : Fin 1 → Nat) a + S16.size a ≤ S4096.size a
  inb_S4096_S16_1552 : ∀ a, (![1552] : Fin 1 → Nat) a + S16.size a ≤ S4096.size a
  inb_S4096_S16_1568 : ∀ a, (![1568] : Fin 1 → Nat) a + S16.size a ≤ S4096.size a
  inb_S4096_S16_1584 : ∀ a, (![1584] : Fin 1 → Nat) a + S16.size a ≤ S4096.size a
  inb_S4096_S16_1600 : ∀ a, (![1600] : Fin 1 → Nat) a + S16.size a ≤ S4096.size a
  inb_S4096_S16_1616 : ∀ a, (![1616] : Fin 1 → Nat) a + S16.size a ≤ S4096.size a
  inb_S4096_S16_1632 : ∀ a, (![1632] : Fin 1 → Nat) a + S16.size a ≤ S4096.size a
  inb_S4096_S16_1648 : ∀ a, (![1648] : Fin 1 → Nat) a + S16.size a ≤ S4096.size a
  inb_S16384_S16_1664 : ∀ a, (![1664] : Fin 1 → Nat) a + S16.size a ≤ S16384.size a
  inb_S16384_S16_1680 : ∀ a, (![1680] : Fin 1 → Nat) a + S16.size a ≤ S16384.size a
  inb_S16384_S16_1696 : ∀ a, (![1696] : Fin 1 → Nat) a + S16.size a ≤ S16384.size a
  inb_S16384_S16_1712 : ∀ a, (![1712] : Fin 1 → Nat) a + S16.size a ≤ S16384.size a
  inb_S16384_S16_1728 : ∀ a, (![1728] : Fin 1 → Nat) a + S16.size a ≤ S16384.size a
  inb_S16384_S16_1744 : ∀ a, (![1744] : Fin 1 → Nat) a + S16.size a ≤ S16384.size a
  inb_S16384_S16_1760 : ∀ a, (![1760] : Fin 1 → Nat) a + S16.size a ≤ S16384.size a
  inb_S16384_S16_1776 : ∀ a, (![1776] : Fin 1 → Nat) a + S16.size a ≤ S16384.size a
  inb_S4096_S16_1664 : ∀ a, (![1664] : Fin 1 → Nat) a + S16.size a ≤ S4096.size a
  inb_S4096_S16_1680 : ∀ a, (![1680] : Fin 1 → Nat) a + S16.size a ≤ S4096.size a
  inb_S4096_S16_1696 : ∀ a, (![1696] : Fin 1 → Nat) a + S16.size a ≤ S4096.size a
  inb_S4096_S16_1712 : ∀ a, (![1712] : Fin 1 → Nat) a + S16.size a ≤ S4096.size a
  inb_S4096_S16_1728 : ∀ a, (![1728] : Fin 1 → Nat) a + S16.size a ≤ S4096.size a
  inb_S4096_S16_1744 : ∀ a, (![1744] : Fin 1 → Nat) a + S16.size a ≤ S4096.size a
  inb_S4096_S16_1760 : ∀ a, (![1760] : Fin 1 → Nat) a + S16.size a ≤ S4096.size a
  inb_S4096_S16_1776 : ∀ a, (![1776] : Fin 1 → Nat) a + S16.size a ≤ S4096.size a
  inb_S16384_S16_1792 : ∀ a, (![1792] : Fin 1 → Nat) a + S16.size a ≤ S16384.size a
  inb_S16384_S16_1808 : ∀ a, (![1808] : Fin 1 → Nat) a + S16.size a ≤ S16384.size a
  inb_S16384_S16_1824 : ∀ a, (![1824] : Fin 1 → Nat) a + S16.size a ≤ S16384.size a
  inb_S16384_S16_1840 : ∀ a, (![1840] : Fin 1 → Nat) a + S16.size a ≤ S16384.size a
  inb_S16384_S16_1856 : ∀ a, (![1856] : Fin 1 → Nat) a + S16.size a ≤ S16384.size a
  inb_S16384_S16_1872 : ∀ a, (![1872] : Fin 1 → Nat) a + S16.size a ≤ S16384.size a
  inb_S16384_S16_1888 : ∀ a, (![1888] : Fin 1 → Nat) a + S16.size a ≤ S16384.size a
  inb_S16384_S16_1904 : ∀ a, (![1904] : Fin 1 → Nat) a + S16.size a ≤ S16384.size a
  inb_S4096_S16_1792 : ∀ a, (![1792] : Fin 1 → Nat) a + S16.size a ≤ S4096.size a
  inb_S4096_S16_1808 : ∀ a, (![1808] : Fin 1 → Nat) a + S16.size a ≤ S4096.size a
  inb_S4096_S16_1824 : ∀ a, (![1824] : Fin 1 → Nat) a + S16.size a ≤ S4096.size a
  inb_S4096_S16_1840 : ∀ a, (![1840] : Fin 1 → Nat) a + S16.size a ≤ S4096.size a
  inb_S4096_S16_1856 : ∀ a, (![1856] : Fin 1 → Nat) a + S16.size a ≤ S4096.size a
  inb_S4096_S16_1872 : ∀ a, (![1872] : Fin 1 → Nat) a + S16.size a ≤ S4096.size a
  inb_S4096_S16_1888 : ∀ a, (![1888] : Fin 1 → Nat) a + S16.size a ≤ S4096.size a
  inb_S4096_S16_1904 : ∀ a, (![1904] : Fin 1 → Nat) a + S16.size a ≤ S4096.size a
  inb_S16384_S16_1920 : ∀ a, (![1920] : Fin 1 → Nat) a + S16.size a ≤ S16384.size a
  inb_S16384_S16_1936 : ∀ a, (![1936] : Fin 1 → Nat) a + S16.size a ≤ S16384.size a
  inb_S16384_S16_1952 : ∀ a, (![1952] : Fin 1 → Nat) a + S16.size a ≤ S16384.size a
  inb_S16384_S16_1968 : ∀ a, (![1968] : Fin 1 → Nat) a + S16.size a ≤ S16384.size a
  inb_S16384_S16_1984 : ∀ a, (![1984] : Fin 1 → Nat) a + S16.size a ≤ S16384.size a
  inb_S16384_S16_2000 : ∀ a, (![2000] : Fin 1 → Nat) a + S16.size a ≤ S16384.size a
  inb_S16384_S16_2016 : ∀ a, (![2016] : Fin 1 → Nat) a + S16.size a ≤ S16384.size a
  inb_S16384_S16_2032 : ∀ a, (![2032] : Fin 1 → Nat) a + S16.size a ≤ S16384.size a
  inb_S4096_S16_1920 : ∀ a, (![1920] : Fin 1 → Nat) a + S16.size a ≤ S4096.size a
  inb_S4096_S16_1936 : ∀ a, (![1936] : Fin 1 → Nat) a + S16.size a ≤ S4096.size a
  inb_S4096_S16_1952 : ∀ a, (![1952] : Fin 1 → Nat) a + S16.size a ≤ S4096.size a
  inb_S4096_S16_1968 : ∀ a, (![1968] : Fin 1 → Nat) a + S16.size a ≤ S4096.size a
  inb_S4096_S16_1984 : ∀ a, (![1984] : Fin 1 → Nat) a + S16.size a ≤ S4096.size a
  inb_S4096_S16_2000 : ∀ a, (![2000] : Fin 1 → Nat) a + S16.size a ≤ S4096.size a
  inb_S4096_S16_2016 : ∀ a, (![2016] : Fin 1 → Nat) a + S16.size a ≤ S4096.size a
  inb_S4096_S16_2032 : ∀ a, (![2032] : Fin 1 → Nat) a + S16.size a ≤ S4096.size a
  inb_S16384_S16_2048 : ∀ a, (![2048] : Fin 1 → Nat) a + S16.size a ≤ S16384.size a
  inb_S16384_S16_2064 : ∀ a, (![2064] : Fin 1 → Nat) a + S16.size a ≤ S16384.size a
  inb_S16384_S16_2080 : ∀ a, (![2080] : Fin 1 → Nat) a + S16.size a ≤ S16384.size a
  inb_S16384_S16_2096 : ∀ a, (![2096] : Fin 1 → Nat) a + S16.size a ≤ S16384.size a
  inb_S16384_S16_2112 : ∀ a, (![2112] : Fin 1 → Nat) a + S16.size a ≤ S16384.size a
  inb_S16384_S16_2128 : ∀ a, (![2128] : Fin 1 → Nat) a + S16.size a ≤ S16384.size a
  inb_S16384_S16_2144 : ∀ a, (![2144] : Fin 1 → Nat) a + S16.size a ≤ S16384.size a
  inb_S16384_S16_2160 : ∀ a, (![2160] : Fin 1 → Nat) a + S16.size a ≤ S16384.size a
  inb_S4096_S16_2048 : ∀ a, (![2048] : Fin 1 → Nat) a + S16.size a ≤ S4096.size a
  inb_S4096_S16_2064 : ∀ a, (![2064] : Fin 1 → Nat) a + S16.size a ≤ S4096.size a
  inb_S4096_S16_2080 : ∀ a, (![2080] : Fin 1 → Nat) a + S16.size a ≤ S4096.size a
  inb_S4096_S16_2096 : ∀ a, (![2096] : Fin 1 → Nat) a + S16.size a ≤ S4096.size a
  inb_S4096_S16_2112 : ∀ a, (![2112] : Fin 1 → Nat) a + S16.size a ≤ S4096.size a
  inb_S4096_S16_2128 : ∀ a, (![2128] : Fin 1 → Nat) a + S16.size a ≤ S4096.size a
  inb_S4096_S16_2144 : ∀ a, (![2144] : Fin 1 → Nat) a + S16.size a ≤ S4096.size a
  inb_S4096_S16_2160 : ∀ a, (![2160] : Fin 1 → Nat) a + S16.size a ≤ S4096.size a
  inb_S16384_S16_2176 : ∀ a, (![2176] : Fin 1 → Nat) a + S16.size a ≤ S16384.size a
  inb_S16384_S16_2192 : ∀ a, (![2192] : Fin 1 → Nat) a + S16.size a ≤ S16384.size a
  inb_S16384_S16_2208 : ∀ a, (![2208] : Fin 1 → Nat) a + S16.size a ≤ S16384.size a
  inb_S16384_S16_2224 : ∀ a, (![2224] : Fin 1 → Nat) a + S16.size a ≤ S16384.size a
  inb_S16384_S16_2240 : ∀ a, (![2240] : Fin 1 → Nat) a + S16.size a ≤ S16384.size a
  inb_S16384_S16_2256 : ∀ a, (![2256] : Fin 1 → Nat) a + S16.size a ≤ S16384.size a
  inb_S16384_S16_2272 : ∀ a, (![2272] : Fin 1 → Nat) a + S16.size a ≤ S16384.size a
  inb_S16384_S16_2288 : ∀ a, (![2288] : Fin 1 → Nat) a + S16.size a ≤ S16384.size a
  inb_S4096_S16_2176 : ∀ a, (![2176] : Fin 1 → Nat) a + S16.size a ≤ S4096.size a
  inb_S4096_S16_2192 : ∀ a, (![2192] : Fin 1 → Nat) a + S16.size a ≤ S4096.size a
  inb_S4096_S16_2208 : ∀ a, (![2208] : Fin 1 → Nat) a + S16.size a ≤ S4096.size a
  inb_S4096_S16_2224 : ∀ a, (![2224] : Fin 1 → Nat) a + S16.size a ≤ S4096.size a
  inb_S4096_S16_2240 : ∀ a, (![2240] : Fin 1 → Nat) a + S16.size a ≤ S4096.size a
  inb_S4096_S16_2256 : ∀ a, (![2256] : Fin 1 → Nat) a + S16.size a ≤ S4096.size a
  inb_S4096_S16_2272 : ∀ a, (![2272] : Fin 1 → Nat) a + S16.size a ≤ S4096.size a
  inb_S4096_S16_2288 : ∀ a, (![2288] : Fin 1 → Nat) a + S16.size a ≤ S4096.size a
  inb_S16384_S16_2304 : ∀ a, (![2304] : Fin 1 → Nat) a + S16.size a ≤ S16384.size a
  inb_S16384_S16_2320 : ∀ a, (![2320] : Fin 1 → Nat) a + S16.size a ≤ S16384.size a
  inb_S16384_S16_2336 : ∀ a, (![2336] : Fin 1 → Nat) a + S16.size a ≤ S16384.size a
  inb_S16384_S16_2352 : ∀ a, (![2352] : Fin 1 → Nat) a + S16.size a ≤ S16384.size a
  inb_S16384_S16_2368 : ∀ a, (![2368] : Fin 1 → Nat) a + S16.size a ≤ S16384.size a
  inb_S16384_S16_2384 : ∀ a, (![2384] : Fin 1 → Nat) a + S16.size a ≤ S16384.size a
  inb_S16384_S16_2400 : ∀ a, (![2400] : Fin 1 → Nat) a + S16.size a ≤ S16384.size a
  inb_S16384_S16_2416 : ∀ a, (![2416] : Fin 1 → Nat) a + S16.size a ≤ S16384.size a
  inb_S4096_S16_2304 : ∀ a, (![2304] : Fin 1 → Nat) a + S16.size a ≤ S4096.size a
  inb_S4096_S16_2320 : ∀ a, (![2320] : Fin 1 → Nat) a + S16.size a ≤ S4096.size a
  inb_S4096_S16_2336 : ∀ a, (![2336] : Fin 1 → Nat) a + S16.size a ≤ S4096.size a
  inb_S4096_S16_2352 : ∀ a, (![2352] : Fin 1 → Nat) a + S16.size a ≤ S4096.size a
  inb_S4096_S16_2368 : ∀ a, (![2368] : Fin 1 → Nat) a + S16.size a ≤ S4096.size a
  inb_S4096_S16_2384 : ∀ a, (![2384] : Fin 1 → Nat) a + S16.size a ≤ S4096.size a
  inb_S4096_S16_2400 : ∀ a, (![2400] : Fin 1 → Nat) a + S16.size a ≤ S4096.size a
  inb_S4096_S16_2416 : ∀ a, (![2416] : Fin 1 → Nat) a + S16.size a ≤ S4096.size a
  inb_S16384_S16_2432 : ∀ a, (![2432] : Fin 1 → Nat) a + S16.size a ≤ S16384.size a
  inb_S16384_S16_2448 : ∀ a, (![2448] : Fin 1 → Nat) a + S16.size a ≤ S16384.size a
  inb_S16384_S16_2464 : ∀ a, (![2464] : Fin 1 → Nat) a + S16.size a ≤ S16384.size a
  inb_S16384_S16_2480 : ∀ a, (![2480] : Fin 1 → Nat) a + S16.size a ≤ S16384.size a
  inb_S16384_S16_2496 : ∀ a, (![2496] : Fin 1 → Nat) a + S16.size a ≤ S16384.size a
  inb_S16384_S16_2512 : ∀ a, (![2512] : Fin 1 → Nat) a + S16.size a ≤ S16384.size a
  inb_S16384_S16_2528 : ∀ a, (![2528] : Fin 1 → Nat) a + S16.size a ≤ S16384.size a
  inb_S16384_S16_2544 : ∀ a, (![2544] : Fin 1 → Nat) a + S16.size a ≤ S16384.size a
  inb_S4096_S16_2432 : ∀ a, (![2432] : Fin 1 → Nat) a + S16.size a ≤ S4096.size a
  inb_S4096_S16_2448 : ∀ a, (![2448] : Fin 1 → Nat) a + S16.size a ≤ S4096.size a
  inb_S4096_S16_2464 : ∀ a, (![2464] : Fin 1 → Nat) a + S16.size a ≤ S4096.size a
  inb_S4096_S16_2480 : ∀ a, (![2480] : Fin 1 → Nat) a + S16.size a ≤ S4096.size a
  inb_S4096_S16_2496 : ∀ a, (![2496] : Fin 1 → Nat) a + S16.size a ≤ S4096.size a
  inb_S4096_S16_2512 : ∀ a, (![2512] : Fin 1 → Nat) a + S16.size a ≤ S4096.size a
  inb_S4096_S16_2528 : ∀ a, (![2528] : Fin 1 → Nat) a + S16.size a ≤ S4096.size a
  inb_S4096_S16_2544 : ∀ a, (![2544] : Fin 1 → Nat) a + S16.size a ≤ S4096.size a
  inb_S16384_S16_2560 : ∀ a, (![2560] : Fin 1 → Nat) a + S16.size a ≤ S16384.size a
  inb_S16384_S16_2576 : ∀ a, (![2576] : Fin 1 → Nat) a + S16.size a ≤ S16384.size a
  inb_S16384_S16_2592 : ∀ a, (![2592] : Fin 1 → Nat) a + S16.size a ≤ S16384.size a
  inb_S16384_S16_2608 : ∀ a, (![2608] : Fin 1 → Nat) a + S16.size a ≤ S16384.size a
  inb_S16384_S16_2624 : ∀ a, (![2624] : Fin 1 → Nat) a + S16.size a ≤ S16384.size a
  inb_S16384_S16_2640 : ∀ a, (![2640] : Fin 1 → Nat) a + S16.size a ≤ S16384.size a
  inb_S16384_S16_2656 : ∀ a, (![2656] : Fin 1 → Nat) a + S16.size a ≤ S16384.size a
  inb_S16384_S16_2672 : ∀ a, (![2672] : Fin 1 → Nat) a + S16.size a ≤ S16384.size a
  inb_S4096_S16_2560 : ∀ a, (![2560] : Fin 1 → Nat) a + S16.size a ≤ S4096.size a
  inb_S4096_S16_2576 : ∀ a, (![2576] : Fin 1 → Nat) a + S16.size a ≤ S4096.size a
  inb_S4096_S16_2592 : ∀ a, (![2592] : Fin 1 → Nat) a + S16.size a ≤ S4096.size a
  inb_S4096_S16_2608 : ∀ a, (![2608] : Fin 1 → Nat) a + S16.size a ≤ S4096.size a
  inb_S4096_S16_2624 : ∀ a, (![2624] : Fin 1 → Nat) a + S16.size a ≤ S4096.size a
  inb_S4096_S16_2640 : ∀ a, (![2640] : Fin 1 → Nat) a + S16.size a ≤ S4096.size a
  inb_S4096_S16_2656 : ∀ a, (![2656] : Fin 1 → Nat) a + S16.size a ≤ S4096.size a
  inb_S4096_S16_2672 : ∀ a, (![2672] : Fin 1 → Nat) a + S16.size a ≤ S4096.size a
  inb_S16384_S16_2688 : ∀ a, (![2688] : Fin 1 → Nat) a + S16.size a ≤ S16384.size a
  inb_S16384_S16_2704 : ∀ a, (![2704] : Fin 1 → Nat) a + S16.size a ≤ S16384.size a
  inb_S16384_S16_2720 : ∀ a, (![2720] : Fin 1 → Nat) a + S16.size a ≤ S16384.size a
  inb_S16384_S16_2736 : ∀ a, (![2736] : Fin 1 → Nat) a + S16.size a ≤ S16384.size a
  inb_S16384_S16_2752 : ∀ a, (![2752] : Fin 1 → Nat) a + S16.size a ≤ S16384.size a
  inb_S16384_S16_2768 : ∀ a, (![2768] : Fin 1 → Nat) a + S16.size a ≤ S16384.size a
  inb_S16384_S16_2784 : ∀ a, (![2784] : Fin 1 → Nat) a + S16.size a ≤ S16384.size a
  inb_S16384_S16_2800 : ∀ a, (![2800] : Fin 1 → Nat) a + S16.size a ≤ S16384.size a
  inb_S4096_S16_2688 : ∀ a, (![2688] : Fin 1 → Nat) a + S16.size a ≤ S4096.size a
  inb_S4096_S16_2704 : ∀ a, (![2704] : Fin 1 → Nat) a + S16.size a ≤ S4096.size a
  inb_S4096_S16_2720 : ∀ a, (![2720] : Fin 1 → Nat) a + S16.size a ≤ S4096.size a
  inb_S4096_S16_2736 : ∀ a, (![2736] : Fin 1 → Nat) a + S16.size a ≤ S4096.size a
  inb_S4096_S16_2752 : ∀ a, (![2752] : Fin 1 → Nat) a + S16.size a ≤ S4096.size a
  inb_S4096_S16_2768 : ∀ a, (![2768] : Fin 1 → Nat) a + S16.size a ≤ S4096.size a
  inb_S4096_S16_2784 : ∀ a, (![2784] : Fin 1 → Nat) a + S16.size a ≤ S4096.size a
  inb_S4096_S16_2800 : ∀ a, (![2800] : Fin 1 → Nat) a + S16.size a ≤ S4096.size a
  inb_S16384_S16_2816 : ∀ a, (![2816] : Fin 1 → Nat) a + S16.size a ≤ S16384.size a
  inb_S16384_S16_2832 : ∀ a, (![2832] : Fin 1 → Nat) a + S16.size a ≤ S16384.size a
  inb_S16384_S16_2848 : ∀ a, (![2848] : Fin 1 → Nat) a + S16.size a ≤ S16384.size a
  inb_S16384_S16_2864 : ∀ a, (![2864] : Fin 1 → Nat) a + S16.size a ≤ S16384.size a
  inb_S16384_S16_2880 : ∀ a, (![2880] : Fin 1 → Nat) a + S16.size a ≤ S16384.size a
  inb_S16384_S16_2896 : ∀ a, (![2896] : Fin 1 → Nat) a + S16.size a ≤ S16384.size a
  inb_S16384_S16_2912 : ∀ a, (![2912] : Fin 1 → Nat) a + S16.size a ≤ S16384.size a
  inb_S16384_S16_2928 : ∀ a, (![2928] : Fin 1 → Nat) a + S16.size a ≤ S16384.size a
  inb_S4096_S16_2816 : ∀ a, (![2816] : Fin 1 → Nat) a + S16.size a ≤ S4096.size a
  inb_S4096_S16_2832 : ∀ a, (![2832] : Fin 1 → Nat) a + S16.size a ≤ S4096.size a
  inb_S4096_S16_2848 : ∀ a, (![2848] : Fin 1 → Nat) a + S16.size a ≤ S4096.size a
  inb_S4096_S16_2864 : ∀ a, (![2864] : Fin 1 → Nat) a + S16.size a ≤ S4096.size a
  inb_S4096_S16_2880 : ∀ a, (![2880] : Fin 1 → Nat) a + S16.size a ≤ S4096.size a
  inb_S4096_S16_2896 : ∀ a, (![2896] : Fin 1 → Nat) a + S16.size a ≤ S4096.size a
  inb_S4096_S16_2912 : ∀ a, (![2912] : Fin 1 → Nat) a + S16.size a ≤ S4096.size a
  inb_S4096_S16_2928 : ∀ a, (![2928] : Fin 1 → Nat) a + S16.size a ≤ S4096.size a
  inb_S16384_S16_2944 : ∀ a, (![2944] : Fin 1 → Nat) a + S16.size a ≤ S16384.size a
  inb_S16384_S16_2960 : ∀ a, (![2960] : Fin 1 → Nat) a + S16.size a ≤ S16384.size a
  inb_S16384_S16_2976 : ∀ a, (![2976] : Fin 1 → Nat) a + S16.size a ≤ S16384.size a
  inb_S16384_S16_2992 : ∀ a, (![2992] : Fin 1 → Nat) a + S16.size a ≤ S16384.size a
  inb_S16384_S16_3008 : ∀ a, (![3008] : Fin 1 → Nat) a + S16.size a ≤ S16384.size a
  inb_S16384_S16_3024 : ∀ a, (![3024] : Fin 1 → Nat) a + S16.size a ≤ S16384.size a
  inb_S16384_S16_3040 : ∀ a, (![3040] : Fin 1 → Nat) a + S16.size a ≤ S16384.size a
  inb_S16384_S16_3056 : ∀ a, (![3056] : Fin 1 → Nat) a + S16.size a ≤ S16384.size a
  inb_S4096_S16_2944 : ∀ a, (![2944] : Fin 1 → Nat) a + S16.size a ≤ S4096.size a
  inb_S4096_S16_2960 : ∀ a, (![2960] : Fin 1 → Nat) a + S16.size a ≤ S4096.size a
  inb_S4096_S16_2976 : ∀ a, (![2976] : Fin 1 → Nat) a + S16.size a ≤ S4096.size a
  inb_S4096_S16_2992 : ∀ a, (![2992] : Fin 1 → Nat) a + S16.size a ≤ S4096.size a
  inb_S4096_S16_3008 : ∀ a, (![3008] : Fin 1 → Nat) a + S16.size a ≤ S4096.size a
  inb_S4096_S16_3024 : ∀ a, (![3024] : Fin 1 → Nat) a + S16.size a ≤ S4096.size a
  inb_S4096_S16_3040 : ∀ a, (![3040] : Fin 1 → Nat) a + S16.size a ≤ S4096.size a
  inb_S4096_S16_3056 : ∀ a, (![3056] : Fin 1 → Nat) a + S16.size a ≤ S4096.size a
  inb_S16384_S16_3072 : ∀ a, (![3072] : Fin 1 → Nat) a + S16.size a ≤ S16384.size a
  inb_S16384_S16_3088 : ∀ a, (![3088] : Fin 1 → Nat) a + S16.size a ≤ S16384.size a
  inb_S16384_S16_3104 : ∀ a, (![3104] : Fin 1 → Nat) a + S16.size a ≤ S16384.size a
  inb_S16384_S16_3120 : ∀ a, (![3120] : Fin 1 → Nat) a + S16.size a ≤ S16384.size a
  inb_S16384_S16_3136 : ∀ a, (![3136] : Fin 1 → Nat) a + S16.size a ≤ S16384.size a
  inb_S16384_S16_3152 : ∀ a, (![3152] : Fin 1 → Nat) a + S16.size a ≤ S16384.size a
  inb_S16384_S16_3168 : ∀ a, (![3168] : Fin 1 → Nat) a + S16.size a ≤ S16384.size a
  inb_S16384_S16_3184 : ∀ a, (![3184] : Fin 1 → Nat) a + S16.size a ≤ S16384.size a
  inb_S4096_S16_3072 : ∀ a, (![3072] : Fin 1 → Nat) a + S16.size a ≤ S4096.size a
  inb_S4096_S16_3088 : ∀ a, (![3088] : Fin 1 → Nat) a + S16.size a ≤ S4096.size a
  inb_S4096_S16_3104 : ∀ a, (![3104] : Fin 1 → Nat) a + S16.size a ≤ S4096.size a
  inb_S4096_S16_3120 : ∀ a, (![3120] : Fin 1 → Nat) a + S16.size a ≤ S4096.size a
  inb_S4096_S16_3136 : ∀ a, (![3136] : Fin 1 → Nat) a + S16.size a ≤ S4096.size a
  inb_S4096_S16_3152 : ∀ a, (![3152] : Fin 1 → Nat) a + S16.size a ≤ S4096.size a
  inb_S4096_S16_3168 : ∀ a, (![3168] : Fin 1 → Nat) a + S16.size a ≤ S4096.size a
  inb_S4096_S16_3184 : ∀ a, (![3184] : Fin 1 → Nat) a + S16.size a ≤ S4096.size a
  inb_S16384_S16_3200 : ∀ a, (![3200] : Fin 1 → Nat) a + S16.size a ≤ S16384.size a
  inb_S16384_S16_3216 : ∀ a, (![3216] : Fin 1 → Nat) a + S16.size a ≤ S16384.size a
  inb_S16384_S16_3232 : ∀ a, (![3232] : Fin 1 → Nat) a + S16.size a ≤ S16384.size a
  inb_S16384_S16_3248 : ∀ a, (![3248] : Fin 1 → Nat) a + S16.size a ≤ S16384.size a
  inb_S16384_S16_3264 : ∀ a, (![3264] : Fin 1 → Nat) a + S16.size a ≤ S16384.size a
  inb_S16384_S16_3280 : ∀ a, (![3280] : Fin 1 → Nat) a + S16.size a ≤ S16384.size a
  inb_S16384_S16_3296 : ∀ a, (![3296] : Fin 1 → Nat) a + S16.size a ≤ S16384.size a
  inb_S16384_S16_3312 : ∀ a, (![3312] : Fin 1 → Nat) a + S16.size a ≤ S16384.size a
  inb_S4096_S16_3200 : ∀ a, (![3200] : Fin 1 → Nat) a + S16.size a ≤ S4096.size a
  inb_S4096_S16_3216 : ∀ a, (![3216] : Fin 1 → Nat) a + S16.size a ≤ S4096.size a
  inb_S4096_S16_3232 : ∀ a, (![3232] : Fin 1 → Nat) a + S16.size a ≤ S4096.size a
  inb_S4096_S16_3248 : ∀ a, (![3248] : Fin 1 → Nat) a + S16.size a ≤ S4096.size a
  inb_S4096_S16_3264 : ∀ a, (![3264] : Fin 1 → Nat) a + S16.size a ≤ S4096.size a
  inb_S4096_S16_3280 : ∀ a, (![3280] : Fin 1 → Nat) a + S16.size a ≤ S4096.size a
  inb_S4096_S16_3296 : ∀ a, (![3296] : Fin 1 → Nat) a + S16.size a ≤ S4096.size a
  inb_S4096_S16_3312 : ∀ a, (![3312] : Fin 1 → Nat) a + S16.size a ≤ S4096.size a
  inb_S16384_S16_3328 : ∀ a, (![3328] : Fin 1 → Nat) a + S16.size a ≤ S16384.size a
  inb_S16384_S16_3344 : ∀ a, (![3344] : Fin 1 → Nat) a + S16.size a ≤ S16384.size a
  inb_S16384_S16_3360 : ∀ a, (![3360] : Fin 1 → Nat) a + S16.size a ≤ S16384.size a
  inb_S16384_S16_3376 : ∀ a, (![3376] : Fin 1 → Nat) a + S16.size a ≤ S16384.size a
  inb_S16384_S16_3392 : ∀ a, (![3392] : Fin 1 → Nat) a + S16.size a ≤ S16384.size a
  inb_S16384_S16_3408 : ∀ a, (![3408] : Fin 1 → Nat) a + S16.size a ≤ S16384.size a
  inb_S16384_S16_3424 : ∀ a, (![3424] : Fin 1 → Nat) a + S16.size a ≤ S16384.size a
  inb_S16384_S16_3440 : ∀ a, (![3440] : Fin 1 → Nat) a + S16.size a ≤ S16384.size a
  inb_S4096_S16_3328 : ∀ a, (![3328] : Fin 1 → Nat) a + S16.size a ≤ S4096.size a
  inb_S4096_S16_3344 : ∀ a, (![3344] : Fin 1 → Nat) a + S16.size a ≤ S4096.size a
  inb_S4096_S16_3360 : ∀ a, (![3360] : Fin 1 → Nat) a + S16.size a ≤ S4096.size a
  inb_S4096_S16_3376 : ∀ a, (![3376] : Fin 1 → Nat) a + S16.size a ≤ S4096.size a
  inb_S4096_S16_3392 : ∀ a, (![3392] : Fin 1 → Nat) a + S16.size a ≤ S4096.size a
  inb_S4096_S16_3408 : ∀ a, (![3408] : Fin 1 → Nat) a + S16.size a ≤ S4096.size a
  inb_S4096_S16_3424 : ∀ a, (![3424] : Fin 1 → Nat) a + S16.size a ≤ S4096.size a
  inb_S4096_S16_3440 : ∀ a, (![3440] : Fin 1 → Nat) a + S16.size a ≤ S4096.size a
  inb_S16384_S16_3456 : ∀ a, (![3456] : Fin 1 → Nat) a + S16.size a ≤ S16384.size a
  inb_S16384_S16_3472 : ∀ a, (![3472] : Fin 1 → Nat) a + S16.size a ≤ S16384.size a
  inb_S16384_S16_3488 : ∀ a, (![3488] : Fin 1 → Nat) a + S16.size a ≤ S16384.size a
  inb_S16384_S16_3504 : ∀ a, (![3504] : Fin 1 → Nat) a + S16.size a ≤ S16384.size a
  inb_S16384_S16_3520 : ∀ a, (![3520] : Fin 1 → Nat) a + S16.size a ≤ S16384.size a
  inb_S16384_S16_3536 : ∀ a, (![3536] : Fin 1 → Nat) a + S16.size a ≤ S16384.size a
  inb_S16384_S16_3552 : ∀ a, (![3552] : Fin 1 → Nat) a + S16.size a ≤ S16384.size a
  inb_S16384_S16_3568 : ∀ a, (![3568] : Fin 1 → Nat) a + S16.size a ≤ S16384.size a
  inb_S4096_S16_3456 : ∀ a, (![3456] : Fin 1 → Nat) a + S16.size a ≤ S4096.size a
  inb_S4096_S16_3472 : ∀ a, (![3472] : Fin 1 → Nat) a + S16.size a ≤ S4096.size a
  inb_S4096_S16_3488 : ∀ a, (![3488] : Fin 1 → Nat) a + S16.size a ≤ S4096.size a
  inb_S4096_S16_3504 : ∀ a, (![3504] : Fin 1 → Nat) a + S16.size a ≤ S4096.size a
  inb_S4096_S16_3520 : ∀ a, (![3520] : Fin 1 → Nat) a + S16.size a ≤ S4096.size a
  inb_S4096_S16_3536 : ∀ a, (![3536] : Fin 1 → Nat) a + S16.size a ≤ S4096.size a
  inb_S4096_S16_3552 : ∀ a, (![3552] : Fin 1 → Nat) a + S16.size a ≤ S4096.size a
  inb_S4096_S16_3568 : ∀ a, (![3568] : Fin 1 → Nat) a + S16.size a ≤ S4096.size a
  inb_S16384_S16_3584 : ∀ a, (![3584] : Fin 1 → Nat) a + S16.size a ≤ S16384.size a
  inb_S16384_S16_3600 : ∀ a, (![3600] : Fin 1 → Nat) a + S16.size a ≤ S16384.size a
  inb_S16384_S16_3616 : ∀ a, (![3616] : Fin 1 → Nat) a + S16.size a ≤ S16384.size a
  inb_S16384_S16_3632 : ∀ a, (![3632] : Fin 1 → Nat) a + S16.size a ≤ S16384.size a
  inb_S16384_S16_3648 : ∀ a, (![3648] : Fin 1 → Nat) a + S16.size a ≤ S16384.size a
  inb_S16384_S16_3664 : ∀ a, (![3664] : Fin 1 → Nat) a + S16.size a ≤ S16384.size a
  inb_S16384_S16_3680 : ∀ a, (![3680] : Fin 1 → Nat) a + S16.size a ≤ S16384.size a
  inb_S16384_S16_3696 : ∀ a, (![3696] : Fin 1 → Nat) a + S16.size a ≤ S16384.size a
  inb_S4096_S16_3584 : ∀ a, (![3584] : Fin 1 → Nat) a + S16.size a ≤ S4096.size a
  inb_S4096_S16_3600 : ∀ a, (![3600] : Fin 1 → Nat) a + S16.size a ≤ S4096.size a
  inb_S4096_S16_3616 : ∀ a, (![3616] : Fin 1 → Nat) a + S16.size a ≤ S4096.size a
  inb_S4096_S16_3632 : ∀ a, (![3632] : Fin 1 → Nat) a + S16.size a ≤ S4096.size a
  inb_S4096_S16_3648 : ∀ a, (![3648] : Fin 1 → Nat) a + S16.size a ≤ S4096.size a
  inb_S4096_S16_3664 : ∀ a, (![3664] : Fin 1 → Nat) a + S16.size a ≤ S4096.size a
  inb_S4096_S16_3680 : ∀ a, (![3680] : Fin 1 → Nat) a + S16.size a ≤ S4096.size a
  inb_S4096_S16_3696 : ∀ a, (![3696] : Fin 1 → Nat) a + S16.size a ≤ S4096.size a
  inb_S16384_S16_3712 : ∀ a, (![3712] : Fin 1 → Nat) a + S16.size a ≤ S16384.size a
  inb_S16384_S16_3728 : ∀ a, (![3728] : Fin 1 → Nat) a + S16.size a ≤ S16384.size a
  inb_S16384_S16_3744 : ∀ a, (![3744] : Fin 1 → Nat) a + S16.size a ≤ S16384.size a
  inb_S16384_S16_3760 : ∀ a, (![3760] : Fin 1 → Nat) a + S16.size a ≤ S16384.size a
  inb_S16384_S16_3776 : ∀ a, (![3776] : Fin 1 → Nat) a + S16.size a ≤ S16384.size a
  inb_S16384_S16_3792 : ∀ a, (![3792] : Fin 1 → Nat) a + S16.size a ≤ S16384.size a
  inb_S16384_S16_3808 : ∀ a, (![3808] : Fin 1 → Nat) a + S16.size a ≤ S16384.size a
  inb_S16384_S16_3824 : ∀ a, (![3824] : Fin 1 → Nat) a + S16.size a ≤ S16384.size a
  inb_S4096_S16_3712 : ∀ a, (![3712] : Fin 1 → Nat) a + S16.size a ≤ S4096.size a
  inb_S4096_S16_3728 : ∀ a, (![3728] : Fin 1 → Nat) a + S16.size a ≤ S4096.size a
  inb_S4096_S16_3744 : ∀ a, (![3744] : Fin 1 → Nat) a + S16.size a ≤ S4096.size a
  inb_S4096_S16_3760 : ∀ a, (![3760] : Fin 1 → Nat) a + S16.size a ≤ S4096.size a
  inb_S4096_S16_3776 : ∀ a, (![3776] : Fin 1 → Nat) a + S16.size a ≤ S4096.size a
  inb_S4096_S16_3792 : ∀ a, (![3792] : Fin 1 → Nat) a + S16.size a ≤ S4096.size a
  inb_S4096_S16_3808 : ∀ a, (![3808] : Fin 1 → Nat) a + S16.size a ≤ S4096.size a
  inb_S4096_S16_3824 : ∀ a, (![3824] : Fin 1 → Nat) a + S16.size a ≤ S4096.size a
  inb_S16384_S16_3840 : ∀ a, (![3840] : Fin 1 → Nat) a + S16.size a ≤ S16384.size a
  inb_S16384_S16_3856 : ∀ a, (![3856] : Fin 1 → Nat) a + S16.size a ≤ S16384.size a
  inb_S16384_S16_3872 : ∀ a, (![3872] : Fin 1 → Nat) a + S16.size a ≤ S16384.size a
  inb_S16384_S16_3888 : ∀ a, (![3888] : Fin 1 → Nat) a + S16.size a ≤ S16384.size a
  inb_S16384_S16_3904 : ∀ a, (![3904] : Fin 1 → Nat) a + S16.size a ≤ S16384.size a
  inb_S16384_S16_3920 : ∀ a, (![3920] : Fin 1 → Nat) a + S16.size a ≤ S16384.size a
  inb_S16384_S16_3936 : ∀ a, (![3936] : Fin 1 → Nat) a + S16.size a ≤ S16384.size a
  inb_S16384_S16_3952 : ∀ a, (![3952] : Fin 1 → Nat) a + S16.size a ≤ S16384.size a
  inb_S4096_S16_3840 : ∀ a, (![3840] : Fin 1 → Nat) a + S16.size a ≤ S4096.size a
  inb_S4096_S16_3856 : ∀ a, (![3856] : Fin 1 → Nat) a + S16.size a ≤ S4096.size a
  inb_S4096_S16_3872 : ∀ a, (![3872] : Fin 1 → Nat) a + S16.size a ≤ S4096.size a
  inb_S4096_S16_3888 : ∀ a, (![3888] : Fin 1 → Nat) a + S16.size a ≤ S4096.size a
  inb_S4096_S16_3904 : ∀ a, (![3904] : Fin 1 → Nat) a + S16.size a ≤ S4096.size a
  inb_S4096_S16_3920 : ∀ a, (![3920] : Fin 1 → Nat) a + S16.size a ≤ S4096.size a
  inb_S4096_S16_3936 : ∀ a, (![3936] : Fin 1 → Nat) a + S16.size a ≤ S4096.size a
  inb_S4096_S16_3952 : ∀ a, (![3952] : Fin 1 → Nat) a + S16.size a ≤ S4096.size a
  inb_S16384_S16_3968 : ∀ a, (![3968] : Fin 1 → Nat) a + S16.size a ≤ S16384.size a
  inb_S16384_S16_3984 : ∀ a, (![3984] : Fin 1 → Nat) a + S16.size a ≤ S16384.size a
  inb_S16384_S16_4000 : ∀ a, (![4000] : Fin 1 → Nat) a + S16.size a ≤ S16384.size a
  inb_S16384_S16_4016 : ∀ a, (![4016] : Fin 1 → Nat) a + S16.size a ≤ S16384.size a
  inb_S16384_S16_4032 : ∀ a, (![4032] : Fin 1 → Nat) a + S16.size a ≤ S16384.size a
  inb_S16384_S16_4048 : ∀ a, (![4048] : Fin 1 → Nat) a + S16.size a ≤ S16384.size a
  inb_S16384_S16_4064 : ∀ a, (![4064] : Fin 1 → Nat) a + S16.size a ≤ S16384.size a
  inb_S16384_S16_4080 : ∀ a, (![4080] : Fin 1 → Nat) a + S16.size a ≤ S16384.size a
  inb_S4096_S16_3968 : ∀ a, (![3968] : Fin 1 → Nat) a + S16.size a ≤ S4096.size a
  inb_S4096_S16_3984 : ∀ a, (![3984] : Fin 1 → Nat) a + S16.size a ≤ S4096.size a
  inb_S4096_S16_4000 : ∀ a, (![4000] : Fin 1 → Nat) a + S16.size a ≤ S4096.size a
  inb_S4096_S16_4016 : ∀ a, (![4016] : Fin 1 → Nat) a + S16.size a ≤ S4096.size a
  inb_S4096_S16_4032 : ∀ a, (![4032] : Fin 1 → Nat) a + S16.size a ≤ S4096.size a
  inb_S4096_S16_4048 : ∀ a, (![4048] : Fin 1 → Nat) a + S16.size a ≤ S4096.size a
  inb_S4096_S16_4064 : ∀ a, (![4064] : Fin 1 → Nat) a + S16.size a ≤ S4096.size a
  inb_S4096_S16_4080 : ∀ a, (![4080] : Fin 1 → Nat) a + S16.size a ≤ S4096.size a
  inb_S16384_S16_4096 : ∀ a, (![4096] : Fin 1 → Nat) a + S16.size a ≤ S16384.size a
  inb_S16384_S16_4112 : ∀ a, (![4112] : Fin 1 → Nat) a + S16.size a ≤ S16384.size a
  inb_S16384_S16_4128 : ∀ a, (![4128] : Fin 1 → Nat) a + S16.size a ≤ S16384.size a
  inb_S16384_S16_4144 : ∀ a, (![4144] : Fin 1 → Nat) a + S16.size a ≤ S16384.size a
  inb_S16384_S16_4160 : ∀ a, (![4160] : Fin 1 → Nat) a + S16.size a ≤ S16384.size a
  inb_S16384_S16_4176 : ∀ a, (![4176] : Fin 1 → Nat) a + S16.size a ≤ S16384.size a
  inb_S16384_S16_4192 : ∀ a, (![4192] : Fin 1 → Nat) a + S16.size a ≤ S16384.size a
  inb_S16384_S16_4208 : ∀ a, (![4208] : Fin 1 → Nat) a + S16.size a ≤ S16384.size a
  inb_S16384_S16_4224 : ∀ a, (![4224] : Fin 1 → Nat) a + S16.size a ≤ S16384.size a
  inb_S16384_S16_4240 : ∀ a, (![4240] : Fin 1 → Nat) a + S16.size a ≤ S16384.size a
  inb_S16384_S16_4256 : ∀ a, (![4256] : Fin 1 → Nat) a + S16.size a ≤ S16384.size a
  inb_S16384_S16_4272 : ∀ a, (![4272] : Fin 1 → Nat) a + S16.size a ≤ S16384.size a
  inb_S16384_S16_4288 : ∀ a, (![4288] : Fin 1 → Nat) a + S16.size a ≤ S16384.size a
  inb_S16384_S16_4304 : ∀ a, (![4304] : Fin 1 → Nat) a + S16.size a ≤ S16384.size a
  inb_S16384_S16_4320 : ∀ a, (![4320] : Fin 1 → Nat) a + S16.size a ≤ S16384.size a
  inb_S16384_S16_4336 : ∀ a, (![4336] : Fin 1 → Nat) a + S16.size a ≤ S16384.size a
  inb_S16384_S16_4352 : ∀ a, (![4352] : Fin 1 → Nat) a + S16.size a ≤ S16384.size a
  inb_S16384_S16_4368 : ∀ a, (![4368] : Fin 1 → Nat) a + S16.size a ≤ S16384.size a
  inb_S16384_S16_4384 : ∀ a, (![4384] : Fin 1 → Nat) a + S16.size a ≤ S16384.size a
  inb_S16384_S16_4400 : ∀ a, (![4400] : Fin 1 → Nat) a + S16.size a ≤ S16384.size a
  inb_S16384_S16_4416 : ∀ a, (![4416] : Fin 1 → Nat) a + S16.size a ≤ S16384.size a
  inb_S16384_S16_4432 : ∀ a, (![4432] : Fin 1 → Nat) a + S16.size a ≤ S16384.size a
  inb_S16384_S16_4448 : ∀ a, (![4448] : Fin 1 → Nat) a + S16.size a ≤ S16384.size a
  inb_S16384_S16_4464 : ∀ a, (![4464] : Fin 1 → Nat) a + S16.size a ≤ S16384.size a
  inb_S16384_S16_4480 : ∀ a, (![4480] : Fin 1 → Nat) a + S16.size a ≤ S16384.size a
  inb_S16384_S16_4496 : ∀ a, (![4496] : Fin 1 → Nat) a + S16.size a ≤ S16384.size a
  inb_S16384_S16_4512 : ∀ a, (![4512] : Fin 1 → Nat) a + S16.size a ≤ S16384.size a
  inb_S16384_S16_4528 : ∀ a, (![4528] : Fin 1 → Nat) a + S16.size a ≤ S16384.size a
  inb_S16384_S16_4544 : ∀ a, (![4544] : Fin 1 → Nat) a + S16.size a ≤ S16384.size a
  inb_S16384_S16_4560 : ∀ a, (![4560] : Fin 1 → Nat) a + S16.size a ≤ S16384.size a
  inb_S16384_S16_4576 : ∀ a, (![4576] : Fin 1 → Nat) a + S16.size a ≤ S16384.size a
  inb_S16384_S16_4592 : ∀ a, (![4592] : Fin 1 → Nat) a + S16.size a ≤ S16384.size a
  inb_S16384_S16_4608 : ∀ a, (![4608] : Fin 1 → Nat) a + S16.size a ≤ S16384.size a
  inb_S16384_S16_4624 : ∀ a, (![4624] : Fin 1 → Nat) a + S16.size a ≤ S16384.size a
  inb_S16384_S16_4640 : ∀ a, (![4640] : Fin 1 → Nat) a + S16.size a ≤ S16384.size a
  inb_S16384_S16_4656 : ∀ a, (![4656] : Fin 1 → Nat) a + S16.size a ≤ S16384.size a
  inb_S16384_S16_4672 : ∀ a, (![4672] : Fin 1 → Nat) a + S16.size a ≤ S16384.size a
  inb_S16384_S16_4688 : ∀ a, (![4688] : Fin 1 → Nat) a + S16.size a ≤ S16384.size a
  inb_S16384_S16_4704 : ∀ a, (![4704] : Fin 1 → Nat) a + S16.size a ≤ S16384.size a
  inb_S16384_S16_4720 : ∀ a, (![4720] : Fin 1 → Nat) a + S16.size a ≤ S16384.size a
  inb_S16384_S16_4736 : ∀ a, (![4736] : Fin 1 → Nat) a + S16.size a ≤ S16384.size a
  inb_S16384_S16_4752 : ∀ a, (![4752] : Fin 1 → Nat) a + S16.size a ≤ S16384.size a
  inb_S16384_S16_4768 : ∀ a, (![4768] : Fin 1 → Nat) a + S16.size a ≤ S16384.size a
  inb_S16384_S16_4784 : ∀ a, (![4784] : Fin 1 → Nat) a + S16.size a ≤ S16384.size a
  inb_S16384_S16_4800 : ∀ a, (![4800] : Fin 1 → Nat) a + S16.size a ≤ S16384.size a
  inb_S16384_S16_4816 : ∀ a, (![4816] : Fin 1 → Nat) a + S16.size a ≤ S16384.size a
  inb_S16384_S16_4832 : ∀ a, (![4832] : Fin 1 → Nat) a + S16.size a ≤ S16384.size a
  inb_S16384_S16_4848 : ∀ a, (![4848] : Fin 1 → Nat) a + S16.size a ≤ S16384.size a
  inb_S16384_S16_4864 : ∀ a, (![4864] : Fin 1 → Nat) a + S16.size a ≤ S16384.size a
  inb_S16384_S16_4880 : ∀ a, (![4880] : Fin 1 → Nat) a + S16.size a ≤ S16384.size a
  inb_S16384_S16_4896 : ∀ a, (![4896] : Fin 1 → Nat) a + S16.size a ≤ S16384.size a
  inb_S16384_S16_4912 : ∀ a, (![4912] : Fin 1 → Nat) a + S16.size a ≤ S16384.size a
  inb_S16384_S16_4928 : ∀ a, (![4928] : Fin 1 → Nat) a + S16.size a ≤ S16384.size a
  inb_S16384_S16_4944 : ∀ a, (![4944] : Fin 1 → Nat) a + S16.size a ≤ S16384.size a
  inb_S16384_S16_4960 : ∀ a, (![4960] : Fin 1 → Nat) a + S16.size a ≤ S16384.size a
  inb_S16384_S16_4976 : ∀ a, (![4976] : Fin 1 → Nat) a + S16.size a ≤ S16384.size a
  inb_S16384_S16_4992 : ∀ a, (![4992] : Fin 1 → Nat) a + S16.size a ≤ S16384.size a
  inb_S16384_S16_5008 : ∀ a, (![5008] : Fin 1 → Nat) a + S16.size a ≤ S16384.size a
  inb_S16384_S16_5024 : ∀ a, (![5024] : Fin 1 → Nat) a + S16.size a ≤ S16384.size a
  inb_S16384_S16_5040 : ∀ a, (![5040] : Fin 1 → Nat) a + S16.size a ≤ S16384.size a
  inb_S16384_S16_5056 : ∀ a, (![5056] : Fin 1 → Nat) a + S16.size a ≤ S16384.size a
  inb_S16384_S16_5072 : ∀ a, (![5072] : Fin 1 → Nat) a + S16.size a ≤ S16384.size a
  inb_S16384_S16_5088 : ∀ a, (![5088] : Fin 1 → Nat) a + S16.size a ≤ S16384.size a
  inb_S16384_S16_5104 : ∀ a, (![5104] : Fin 1 → Nat) a + S16.size a ≤ S16384.size a
  inb_S16384_S16_5120 : ∀ a, (![5120] : Fin 1 → Nat) a + S16.size a ≤ S16384.size a
  inb_S16384_S16_5136 : ∀ a, (![5136] : Fin 1 → Nat) a + S16.size a ≤ S16384.size a
  inb_S16384_S16_5152 : ∀ a, (![5152] : Fin 1 → Nat) a + S16.size a ≤ S16384.size a
  inb_S16384_S16_5168 : ∀ a, (![5168] : Fin 1 → Nat) a + S16.size a ≤ S16384.size a
  inb_S16384_S16_5184 : ∀ a, (![5184] : Fin 1 → Nat) a + S16.size a ≤ S16384.size a
  inb_S16384_S16_5200 : ∀ a, (![5200] : Fin 1 → Nat) a + S16.size a ≤ S16384.size a
  inb_S16384_S16_5216 : ∀ a, (![5216] : Fin 1 → Nat) a + S16.size a ≤ S16384.size a
  inb_S16384_S16_5232 : ∀ a, (![5232] : Fin 1 → Nat) a + S16.size a ≤ S16384.size a
  inb_S16384_S16_5248 : ∀ a, (![5248] : Fin 1 → Nat) a + S16.size a ≤ S16384.size a
  inb_S16384_S16_5264 : ∀ a, (![5264] : Fin 1 → Nat) a + S16.size a ≤ S16384.size a
  inb_S16384_S16_5280 : ∀ a, (![5280] : Fin 1 → Nat) a + S16.size a ≤ S16384.size a
  inb_S16384_S16_5296 : ∀ a, (![5296] : Fin 1 → Nat) a + S16.size a ≤ S16384.size a
  inb_S16384_S16_5312 : ∀ a, (![5312] : Fin 1 → Nat) a + S16.size a ≤ S16384.size a
  inb_S16384_S16_5328 : ∀ a, (![5328] : Fin 1 → Nat) a + S16.size a ≤ S16384.size a
  inb_S16384_S16_5344 : ∀ a, (![5344] : Fin 1 → Nat) a + S16.size a ≤ S16384.size a
  inb_S16384_S16_5360 : ∀ a, (![5360] : Fin 1 → Nat) a + S16.size a ≤ S16384.size a
  inb_S16384_S16_5376 : ∀ a, (![5376] : Fin 1 → Nat) a + S16.size a ≤ S16384.size a
  inb_S16384_S16_5392 : ∀ a, (![5392] : Fin 1 → Nat) a + S16.size a ≤ S16384.size a
  inb_S16384_S16_5408 : ∀ a, (![5408] : Fin 1 → Nat) a + S16.size a ≤ S16384.size a
  inb_S16384_S16_5424 : ∀ a, (![5424] : Fin 1 → Nat) a + S16.size a ≤ S16384.size a
  inb_S16384_S16_5440 : ∀ a, (![5440] : Fin 1 → Nat) a + S16.size a ≤ S16384.size a
  inb_S16384_S16_5456 : ∀ a, (![5456] : Fin 1 → Nat) a + S16.size a ≤ S16384.size a
  inb_S16384_S16_5472 : ∀ a, (![5472] : Fin 1 → Nat) a + S16.size a ≤ S16384.size a
  inb_S16384_S16_5488 : ∀ a, (![5488] : Fin 1 → Nat) a + S16.size a ≤ S16384.size a
  inb_S16384_S16_5504 : ∀ a, (![5504] : Fin 1 → Nat) a + S16.size a ≤ S16384.size a
  inb_S16384_S16_5520 : ∀ a, (![5520] : Fin 1 → Nat) a + S16.size a ≤ S16384.size a
  inb_S16384_S16_5536 : ∀ a, (![5536] : Fin 1 → Nat) a + S16.size a ≤ S16384.size a
  inb_S16384_S16_5552 : ∀ a, (![5552] : Fin 1 → Nat) a + S16.size a ≤ S16384.size a
  inb_S16384_S16_5568 : ∀ a, (![5568] : Fin 1 → Nat) a + S16.size a ≤ S16384.size a
  inb_S16384_S16_5584 : ∀ a, (![5584] : Fin 1 → Nat) a + S16.size a ≤ S16384.size a
  inb_S16384_S16_5600 : ∀ a, (![5600] : Fin 1 → Nat) a + S16.size a ≤ S16384.size a
  inb_S16384_S16_5616 : ∀ a, (![5616] : Fin 1 → Nat) a + S16.size a ≤ S16384.size a
  inb_S16384_S16_5632 : ∀ a, (![5632] : Fin 1 → Nat) a + S16.size a ≤ S16384.size a
  inb_S16384_S16_5648 : ∀ a, (![5648] : Fin 1 → Nat) a + S16.size a ≤ S16384.size a
  inb_S16384_S16_5664 : ∀ a, (![5664] : Fin 1 → Nat) a + S16.size a ≤ S16384.size a
  inb_S16384_S16_5680 : ∀ a, (![5680] : Fin 1 → Nat) a + S16.size a ≤ S16384.size a
  inb_S16384_S16_5696 : ∀ a, (![5696] : Fin 1 → Nat) a + S16.size a ≤ S16384.size a
  inb_S16384_S16_5712 : ∀ a, (![5712] : Fin 1 → Nat) a + S16.size a ≤ S16384.size a
  inb_S16384_S16_5728 : ∀ a, (![5728] : Fin 1 → Nat) a + S16.size a ≤ S16384.size a
  inb_S16384_S16_5744 : ∀ a, (![5744] : Fin 1 → Nat) a + S16.size a ≤ S16384.size a
  inb_S16384_S16_5760 : ∀ a, (![5760] : Fin 1 → Nat) a + S16.size a ≤ S16384.size a
  inb_S16384_S16_5776 : ∀ a, (![5776] : Fin 1 → Nat) a + S16.size a ≤ S16384.size a
  inb_S16384_S16_5792 : ∀ a, (![5792] : Fin 1 → Nat) a + S16.size a ≤ S16384.size a
  inb_S16384_S16_5808 : ∀ a, (![5808] : Fin 1 → Nat) a + S16.size a ≤ S16384.size a
  inb_S16384_S16_5824 : ∀ a, (![5824] : Fin 1 → Nat) a + S16.size a ≤ S16384.size a
  inb_S16384_S16_5840 : ∀ a, (![5840] : Fin 1 → Nat) a + S16.size a ≤ S16384.size a
  inb_S16384_S16_5856 : ∀ a, (![5856] : Fin 1 → Nat) a + S16.size a ≤ S16384.size a
  inb_S16384_S16_5872 : ∀ a, (![5872] : Fin 1 → Nat) a + S16.size a ≤ S16384.size a
  inb_S16384_S16_5888 : ∀ a, (![5888] : Fin 1 → Nat) a + S16.size a ≤ S16384.size a
  inb_S16384_S16_5904 : ∀ a, (![5904] : Fin 1 → Nat) a + S16.size a ≤ S16384.size a
  inb_S16384_S16_5920 : ∀ a, (![5920] : Fin 1 → Nat) a + S16.size a ≤ S16384.size a
  inb_S16384_S16_5936 : ∀ a, (![5936] : Fin 1 → Nat) a + S16.size a ≤ S16384.size a
  inb_S16384_S16_5952 : ∀ a, (![5952] : Fin 1 → Nat) a + S16.size a ≤ S16384.size a
  inb_S16384_S16_5968 : ∀ a, (![5968] : Fin 1 → Nat) a + S16.size a ≤ S16384.size a
  inb_S16384_S16_5984 : ∀ a, (![5984] : Fin 1 → Nat) a + S16.size a ≤ S16384.size a
  inb_S16384_S16_6000 : ∀ a, (![6000] : Fin 1 → Nat) a + S16.size a ≤ S16384.size a
  inb_S16384_S16_6016 : ∀ a, (![6016] : Fin 1 → Nat) a + S16.size a ≤ S16384.size a
  inb_S16384_S16_6032 : ∀ a, (![6032] : Fin 1 → Nat) a + S16.size a ≤ S16384.size a
  inb_S16384_S16_6048 : ∀ a, (![6048] : Fin 1 → Nat) a + S16.size a ≤ S16384.size a
  inb_S16384_S16_6064 : ∀ a, (![6064] : Fin 1 → Nat) a + S16.size a ≤ S16384.size a
  inb_S16384_S16_6080 : ∀ a, (![6080] : Fin 1 → Nat) a + S16.size a ≤ S16384.size a
  inb_S16384_S16_6096 : ∀ a, (![6096] : Fin 1 → Nat) a + S16.size a ≤ S16384.size a
  inb_S16384_S16_6112 : ∀ a, (![6112] : Fin 1 → Nat) a + S16.size a ≤ S16384.size a
  inb_S16384_S16_6128 : ∀ a, (![6128] : Fin 1 → Nat) a + S16.size a ≤ S16384.size a
  inb_S16384_S16_6144 : ∀ a, (![6144] : Fin 1 → Nat) a + S16.size a ≤ S16384.size a
  inb_S16384_S16_6160 : ∀ a, (![6160] : Fin 1 → Nat) a + S16.size a ≤ S16384.size a
  inb_S16384_S16_6176 : ∀ a, (![6176] : Fin 1 → Nat) a + S16.size a ≤ S16384.size a
  inb_S16384_S16_6192 : ∀ a, (![6192] : Fin 1 → Nat) a + S16.size a ≤ S16384.size a
  inb_S16384_S16_6208 : ∀ a, (![6208] : Fin 1 → Nat) a + S16.size a ≤ S16384.size a
  inb_S16384_S16_6224 : ∀ a, (![6224] : Fin 1 → Nat) a + S16.size a ≤ S16384.size a
  inb_S16384_S16_6240 : ∀ a, (![6240] : Fin 1 → Nat) a + S16.size a ≤ S16384.size a
  inb_S16384_S16_6256 : ∀ a, (![6256] : Fin 1 → Nat) a + S16.size a ≤ S16384.size a
  inb_S16384_S16_6272 : ∀ a, (![6272] : Fin 1 → Nat) a + S16.size a ≤ S16384.size a
  inb_S16384_S16_6288 : ∀ a, (![6288] : Fin 1 → Nat) a + S16.size a ≤ S16384.size a
  inb_S16384_S16_6304 : ∀ a, (![6304] : Fin 1 → Nat) a + S16.size a ≤ S16384.size a
  inb_S16384_S16_6320 : ∀ a, (![6320] : Fin 1 → Nat) a + S16.size a ≤ S16384.size a
  inb_S16384_S16_6336 : ∀ a, (![6336] : Fin 1 → Nat) a + S16.size a ≤ S16384.size a
  inb_S16384_S16_6352 : ∀ a, (![6352] : Fin 1 → Nat) a + S16.size a ≤ S16384.size a
  inb_S16384_S16_6368 : ∀ a, (![6368] : Fin 1 → Nat) a + S16.size a ≤ S16384.size a
  inb_S16384_S16_6384 : ∀ a, (![6384] : Fin 1 → Nat) a + S16.size a ≤ S16384.size a
  inb_S16384_S16_6400 : ∀ a, (![6400] : Fin 1 → Nat) a + S16.size a ≤ S16384.size a
  inb_S16384_S16_6416 : ∀ a, (![6416] : Fin 1 → Nat) a + S16.size a ≤ S16384.size a
  inb_S16384_S16_6432 : ∀ a, (![6432] : Fin 1 → Nat) a + S16.size a ≤ S16384.size a
  inb_S16384_S16_6448 : ∀ a, (![6448] : Fin 1 → Nat) a + S16.size a ≤ S16384.size a
  inb_S16384_S16_6464 : ∀ a, (![6464] : Fin 1 → Nat) a + S16.size a ≤ S16384.size a
  inb_S16384_S16_6480 : ∀ a, (![6480] : Fin 1 → Nat) a + S16.size a ≤ S16384.size a
  inb_S16384_S16_6496 : ∀ a, (![6496] : Fin 1 → Nat) a + S16.size a ≤ S16384.size a
  inb_S16384_S16_6512 : ∀ a, (![6512] : Fin 1 → Nat) a + S16.size a ≤ S16384.size a
  inb_S16384_S16_6528 : ∀ a, (![6528] : Fin 1 → Nat) a + S16.size a ≤ S16384.size a
  inb_S16384_S16_6544 : ∀ a, (![6544] : Fin 1 → Nat) a + S16.size a ≤ S16384.size a
  inb_S16384_S16_6560 : ∀ a, (![6560] : Fin 1 → Nat) a + S16.size a ≤ S16384.size a
  inb_S16384_S16_6576 : ∀ a, (![6576] : Fin 1 → Nat) a + S16.size a ≤ S16384.size a
  inb_S16384_S16_6592 : ∀ a, (![6592] : Fin 1 → Nat) a + S16.size a ≤ S16384.size a
  inb_S16384_S16_6608 : ∀ a, (![6608] : Fin 1 → Nat) a + S16.size a ≤ S16384.size a
  inb_S16384_S16_6624 : ∀ a, (![6624] : Fin 1 → Nat) a + S16.size a ≤ S16384.size a
  inb_S16384_S16_6640 : ∀ a, (![6640] : Fin 1 → Nat) a + S16.size a ≤ S16384.size a
  inb_S16384_S16_6656 : ∀ a, (![6656] : Fin 1 → Nat) a + S16.size a ≤ S16384.size a
  inb_S16384_S16_6672 : ∀ a, (![6672] : Fin 1 → Nat) a + S16.size a ≤ S16384.size a
  inb_S16384_S16_6688 : ∀ a, (![6688] : Fin 1 → Nat) a + S16.size a ≤ S16384.size a
  inb_S16384_S16_6704 : ∀ a, (![6704] : Fin 1 → Nat) a + S16.size a ≤ S16384.size a
  inb_S16384_S16_6720 : ∀ a, (![6720] : Fin 1 → Nat) a + S16.size a ≤ S16384.size a
  inb_S16384_S16_6736 : ∀ a, (![6736] : Fin 1 → Nat) a + S16.size a ≤ S16384.size a
  inb_S16384_S16_6752 : ∀ a, (![6752] : Fin 1 → Nat) a + S16.size a ≤ S16384.size a
  inb_S16384_S16_6768 : ∀ a, (![6768] : Fin 1 → Nat) a + S16.size a ≤ S16384.size a
  inb_S16384_S16_6784 : ∀ a, (![6784] : Fin 1 → Nat) a + S16.size a ≤ S16384.size a
  inb_S16384_S16_6800 : ∀ a, (![6800] : Fin 1 → Nat) a + S16.size a ≤ S16384.size a
  inb_S16384_S16_6816 : ∀ a, (![6816] : Fin 1 → Nat) a + S16.size a ≤ S16384.size a
  inb_S16384_S16_6832 : ∀ a, (![6832] : Fin 1 → Nat) a + S16.size a ≤ S16384.size a
  inb_S16384_S16_6848 : ∀ a, (![6848] : Fin 1 → Nat) a + S16.size a ≤ S16384.size a
  inb_S16384_S16_6864 : ∀ a, (![6864] : Fin 1 → Nat) a + S16.size a ≤ S16384.size a
  inb_S16384_S16_6880 : ∀ a, (![6880] : Fin 1 → Nat) a + S16.size a ≤ S16384.size a
  inb_S16384_S16_6896 : ∀ a, (![6896] : Fin 1 → Nat) a + S16.size a ≤ S16384.size a
  inb_S16384_S16_6912 : ∀ a, (![6912] : Fin 1 → Nat) a + S16.size a ≤ S16384.size a
  inb_S16384_S16_6928 : ∀ a, (![6928] : Fin 1 → Nat) a + S16.size a ≤ S16384.size a
  inb_S16384_S16_6944 : ∀ a, (![6944] : Fin 1 → Nat) a + S16.size a ≤ S16384.size a
  inb_S16384_S16_6960 : ∀ a, (![6960] : Fin 1 → Nat) a + S16.size a ≤ S16384.size a
  inb_S16384_S16_6976 : ∀ a, (![6976] : Fin 1 → Nat) a + S16.size a ≤ S16384.size a
  inb_S16384_S16_6992 : ∀ a, (![6992] : Fin 1 → Nat) a + S16.size a ≤ S16384.size a
  inb_S16384_S16_7008 : ∀ a, (![7008] : Fin 1 → Nat) a + S16.size a ≤ S16384.size a
  inb_S16384_S16_7024 : ∀ a, (![7024] : Fin 1 → Nat) a + S16.size a ≤ S16384.size a
  inb_S16384_S16_7040 : ∀ a, (![7040] : Fin 1 → Nat) a + S16.size a ≤ S16384.size a
  inb_S16384_S16_7056 : ∀ a, (![7056] : Fin 1 → Nat) a + S16.size a ≤ S16384.size a
  inb_S16384_S16_7072 : ∀ a, (![7072] : Fin 1 → Nat) a + S16.size a ≤ S16384.size a
  inb_S16384_S16_7088 : ∀ a, (![7088] : Fin 1 → Nat) a + S16.size a ≤ S16384.size a
  inb_S16384_S16_7104 : ∀ a, (![7104] : Fin 1 → Nat) a + S16.size a ≤ S16384.size a
  inb_S16384_S16_7120 : ∀ a, (![7120] : Fin 1 → Nat) a + S16.size a ≤ S16384.size a
  inb_S16384_S16_7136 : ∀ a, (![7136] : Fin 1 → Nat) a + S16.size a ≤ S16384.size a
  inb_S16384_S16_7152 : ∀ a, (![7152] : Fin 1 → Nat) a + S16.size a ≤ S16384.size a
  inb_S16384_S16_7168 : ∀ a, (![7168] : Fin 1 → Nat) a + S16.size a ≤ S16384.size a
  inb_S16384_S16_7184 : ∀ a, (![7184] : Fin 1 → Nat) a + S16.size a ≤ S16384.size a
  inb_S16384_S16_7200 : ∀ a, (![7200] : Fin 1 → Nat) a + S16.size a ≤ S16384.size a
  inb_S16384_S16_7216 : ∀ a, (![7216] : Fin 1 → Nat) a + S16.size a ≤ S16384.size a
  inb_S16384_S16_7232 : ∀ a, (![7232] : Fin 1 → Nat) a + S16.size a ≤ S16384.size a
  inb_S16384_S16_7248 : ∀ a, (![7248] : Fin 1 → Nat) a + S16.size a ≤ S16384.size a
  inb_S16384_S16_7264 : ∀ a, (![7264] : Fin 1 → Nat) a + S16.size a ≤ S16384.size a
  inb_S16384_S16_7280 : ∀ a, (![7280] : Fin 1 → Nat) a + S16.size a ≤ S16384.size a
  inb_S16384_S16_7296 : ∀ a, (![7296] : Fin 1 → Nat) a + S16.size a ≤ S16384.size a
  inb_S16384_S16_7312 : ∀ a, (![7312] : Fin 1 → Nat) a + S16.size a ≤ S16384.size a
  inb_S16384_S16_7328 : ∀ a, (![7328] : Fin 1 → Nat) a + S16.size a ≤ S16384.size a
  inb_S16384_S16_7344 : ∀ a, (![7344] : Fin 1 → Nat) a + S16.size a ≤ S16384.size a
  inb_S16384_S16_7360 : ∀ a, (![7360] : Fin 1 → Nat) a + S16.size a ≤ S16384.size a
  inb_S16384_S16_7376 : ∀ a, (![7376] : Fin 1 → Nat) a + S16.size a ≤ S16384.size a
  inb_S16384_S16_7392 : ∀ a, (![7392] : Fin 1 → Nat) a + S16.size a ≤ S16384.size a
  inb_S16384_S16_7408 : ∀ a, (![7408] : Fin 1 → Nat) a + S16.size a ≤ S16384.size a
  inb_S16384_S16_7424 : ∀ a, (![7424] : Fin 1 → Nat) a + S16.size a ≤ S16384.size a
  inb_S16384_S16_7440 : ∀ a, (![7440] : Fin 1 → Nat) a + S16.size a ≤ S16384.size a
  inb_S16384_S16_7456 : ∀ a, (![7456] : Fin 1 → Nat) a + S16.size a ≤ S16384.size a
  inb_S16384_S16_7472 : ∀ a, (![7472] : Fin 1 → Nat) a + S16.size a ≤ S16384.size a
  inb_S16384_S16_7488 : ∀ a, (![7488] : Fin 1 → Nat) a + S16.size a ≤ S16384.size a
  inb_S16384_S16_7504 : ∀ a, (![7504] : Fin 1 → Nat) a + S16.size a ≤ S16384.size a
  inb_S16384_S16_7520 : ∀ a, (![7520] : Fin 1 → Nat) a + S16.size a ≤ S16384.size a
  inb_S16384_S16_7536 : ∀ a, (![7536] : Fin 1 → Nat) a + S16.size a ≤ S16384.size a
  inb_S16384_S16_7552 : ∀ a, (![7552] : Fin 1 → Nat) a + S16.size a ≤ S16384.size a
  inb_S16384_S16_7568 : ∀ a, (![7568] : Fin 1 → Nat) a + S16.size a ≤ S16384.size a
  inb_S16384_S16_7584 : ∀ a, (![7584] : Fin 1 → Nat) a + S16.size a ≤ S16384.size a
  inb_S16384_S16_7600 : ∀ a, (![7600] : Fin 1 → Nat) a + S16.size a ≤ S16384.size a
  inb_S16384_S16_7616 : ∀ a, (![7616] : Fin 1 → Nat) a + S16.size a ≤ S16384.size a
  inb_S16384_S16_7632 : ∀ a, (![7632] : Fin 1 → Nat) a + S16.size a ≤ S16384.size a
  inb_S16384_S16_7648 : ∀ a, (![7648] : Fin 1 → Nat) a + S16.size a ≤ S16384.size a
  inb_S16384_S16_7664 : ∀ a, (![7664] : Fin 1 → Nat) a + S16.size a ≤ S16384.size a
  inb_S16384_S16_7680 : ∀ a, (![7680] : Fin 1 → Nat) a + S16.size a ≤ S16384.size a
  inb_S16384_S16_7696 : ∀ a, (![7696] : Fin 1 → Nat) a + S16.size a ≤ S16384.size a
  inb_S16384_S16_7712 : ∀ a, (![7712] : Fin 1 → Nat) a + S16.size a ≤ S16384.size a
  inb_S16384_S16_7728 : ∀ a, (![7728] : Fin 1 → Nat) a + S16.size a ≤ S16384.size a
  inb_S16384_S16_7744 : ∀ a, (![7744] : Fin 1 → Nat) a + S16.size a ≤ S16384.size a
  inb_S16384_S16_7760 : ∀ a, (![7760] : Fin 1 → Nat) a + S16.size a ≤ S16384.size a
  inb_S16384_S16_7776 : ∀ a, (![7776] : Fin 1 → Nat) a + S16.size a ≤ S16384.size a
  inb_S16384_S16_7792 : ∀ a, (![7792] : Fin 1 → Nat) a + S16.size a ≤ S16384.size a
  inb_S16384_S16_7808 : ∀ a, (![7808] : Fin 1 → Nat) a + S16.size a ≤ S16384.size a
  inb_S16384_S16_7824 : ∀ a, (![7824] : Fin 1 → Nat) a + S16.size a ≤ S16384.size a
  inb_S16384_S16_7840 : ∀ a, (![7840] : Fin 1 → Nat) a + S16.size a ≤ S16384.size a
  inb_S16384_S16_7856 : ∀ a, (![7856] : Fin 1 → Nat) a + S16.size a ≤ S16384.size a
  inb_S16384_S16_7872 : ∀ a, (![7872] : Fin 1 → Nat) a + S16.size a ≤ S16384.size a
  inb_S16384_S16_7888 : ∀ a, (![7888] : Fin 1 → Nat) a + S16.size a ≤ S16384.size a
  inb_S16384_S16_7904 : ∀ a, (![7904] : Fin 1 → Nat) a + S16.size a ≤ S16384.size a
  inb_S16384_S16_7920 : ∀ a, (![7920] : Fin 1 → Nat) a + S16.size a ≤ S16384.size a
  inb_S16384_S16_7936 : ∀ a, (![7936] : Fin 1 → Nat) a + S16.size a ≤ S16384.size a
  inb_S16384_S16_7952 : ∀ a, (![7952] : Fin 1 → Nat) a + S16.size a ≤ S16384.size a
  inb_S16384_S16_7968 : ∀ a, (![7968] : Fin 1 → Nat) a + S16.size a ≤ S16384.size a
  inb_S16384_S16_7984 : ∀ a, (![7984] : Fin 1 → Nat) a + S16.size a ≤ S16384.size a
  inb_S16384_S16_8000 : ∀ a, (![8000] : Fin 1 → Nat) a + S16.size a ≤ S16384.size a
  inb_S16384_S16_8016 : ∀ a, (![8016] : Fin 1 → Nat) a + S16.size a ≤ S16384.size a
  inb_S16384_S16_8032 : ∀ a, (![8032] : Fin 1 → Nat) a + S16.size a ≤ S16384.size a
  inb_S16384_S16_8048 : ∀ a, (![8048] : Fin 1 → Nat) a + S16.size a ≤ S16384.size a
  inb_S16384_S16_8064 : ∀ a, (![8064] : Fin 1 → Nat) a + S16.size a ≤ S16384.size a
  inb_S16384_S16_8080 : ∀ a, (![8080] : Fin 1 → Nat) a + S16.size a ≤ S16384.size a
  inb_S16384_S16_8096 : ∀ a, (![8096] : Fin 1 → Nat) a + S16.size a ≤ S16384.size a
  inb_S16384_S16_8112 : ∀ a, (![8112] : Fin 1 → Nat) a + S16.size a ≤ S16384.size a
  inb_S16384_S16_8128 : ∀ a, (![8128] : Fin 1 → Nat) a + S16.size a ≤ S16384.size a
  inb_S16384_S16_8144 : ∀ a, (![8144] : Fin 1 → Nat) a + S16.size a ≤ S16384.size a
  inb_S16384_S16_8160 : ∀ a, (![8160] : Fin 1 → Nat) a + S16.size a ≤ S16384.size a
  inb_S16384_S16_8176 : ∀ a, (![8176] : Fin 1 → Nat) a + S16.size a ≤ S16384.size a
  inb_S16384_S16_8192 : ∀ a, (![8192] : Fin 1 → Nat) a + S16.size a ≤ S16384.size a
  inb_S16384_S16_8208 : ∀ a, (![8208] : Fin 1 → Nat) a + S16.size a ≤ S16384.size a
  inb_S16384_S16_8224 : ∀ a, (![8224] : Fin 1 → Nat) a + S16.size a ≤ S16384.size a
  inb_S16384_S16_8240 : ∀ a, (![8240] : Fin 1 → Nat) a + S16.size a ≤ S16384.size a
  inb_S16384_S16_8256 : ∀ a, (![8256] : Fin 1 → Nat) a + S16.size a ≤ S16384.size a
  inb_S16384_S16_8272 : ∀ a, (![8272] : Fin 1 → Nat) a + S16.size a ≤ S16384.size a
  inb_S16384_S16_8288 : ∀ a, (![8288] : Fin 1 → Nat) a + S16.size a ≤ S16384.size a
  inb_S16384_S16_8304 : ∀ a, (![8304] : Fin 1 → Nat) a + S16.size a ≤ S16384.size a
  inb_S16384_S16_8320 : ∀ a, (![8320] : Fin 1 → Nat) a + S16.size a ≤ S16384.size a
  inb_S16384_S16_8336 : ∀ a, (![8336] : Fin 1 → Nat) a + S16.size a ≤ S16384.size a
  inb_S16384_S16_8352 : ∀ a, (![8352] : Fin 1 → Nat) a + S16.size a ≤ S16384.size a
  inb_S16384_S16_8368 : ∀ a, (![8368] : Fin 1 → Nat) a + S16.size a ≤ S16384.size a
  inb_S16384_S16_8384 : ∀ a, (![8384] : Fin 1 → Nat) a + S16.size a ≤ S16384.size a
  inb_S16384_S16_8400 : ∀ a, (![8400] : Fin 1 → Nat) a + S16.size a ≤ S16384.size a
  inb_S16384_S16_8416 : ∀ a, (![8416] : Fin 1 → Nat) a + S16.size a ≤ S16384.size a
  inb_S16384_S16_8432 : ∀ a, (![8432] : Fin 1 → Nat) a + S16.size a ≤ S16384.size a
  inb_S16384_S16_8448 : ∀ a, (![8448] : Fin 1 → Nat) a + S16.size a ≤ S16384.size a
  inb_S16384_S16_8464 : ∀ a, (![8464] : Fin 1 → Nat) a + S16.size a ≤ S16384.size a
  inb_S16384_S16_8480 : ∀ a, (![8480] : Fin 1 → Nat) a + S16.size a ≤ S16384.size a
  inb_S16384_S16_8496 : ∀ a, (![8496] : Fin 1 → Nat) a + S16.size a ≤ S16384.size a
  inb_S16384_S16_8512 : ∀ a, (![8512] : Fin 1 → Nat) a + S16.size a ≤ S16384.size a
  inb_S16384_S16_8528 : ∀ a, (![8528] : Fin 1 → Nat) a + S16.size a ≤ S16384.size a
  inb_S16384_S16_8544 : ∀ a, (![8544] : Fin 1 → Nat) a + S16.size a ≤ S16384.size a
  inb_S16384_S16_8560 : ∀ a, (![8560] : Fin 1 → Nat) a + S16.size a ≤ S16384.size a
  inb_S16384_S16_8576 : ∀ a, (![8576] : Fin 1 → Nat) a + S16.size a ≤ S16384.size a
  inb_S16384_S16_8592 : ∀ a, (![8592] : Fin 1 → Nat) a + S16.size a ≤ S16384.size a
  inb_S16384_S16_8608 : ∀ a, (![8608] : Fin 1 → Nat) a + S16.size a ≤ S16384.size a
  inb_S16384_S16_8624 : ∀ a, (![8624] : Fin 1 → Nat) a + S16.size a ≤ S16384.size a
  inb_S16384_S16_8640 : ∀ a, (![8640] : Fin 1 → Nat) a + S16.size a ≤ S16384.size a
  inb_S16384_S16_8656 : ∀ a, (![8656] : Fin 1 → Nat) a + S16.size a ≤ S16384.size a
  inb_S16384_S16_8672 : ∀ a, (![8672] : Fin 1 → Nat) a + S16.size a ≤ S16384.size a
  inb_S16384_S16_8688 : ∀ a, (![8688] : Fin 1 → Nat) a + S16.size a ≤ S16384.size a
  inb_S16384_S16_8704 : ∀ a, (![8704] : Fin 1 → Nat) a + S16.size a ≤ S16384.size a
  inb_S16384_S16_8720 : ∀ a, (![8720] : Fin 1 → Nat) a + S16.size a ≤ S16384.size a
  inb_S16384_S16_8736 : ∀ a, (![8736] : Fin 1 → Nat) a + S16.size a ≤ S16384.size a
  inb_S16384_S16_8752 : ∀ a, (![8752] : Fin 1 → Nat) a + S16.size a ≤ S16384.size a
  inb_S16384_S16_8768 : ∀ a, (![8768] : Fin 1 → Nat) a + S16.size a ≤ S16384.size a
  inb_S16384_S16_8784 : ∀ a, (![8784] : Fin 1 → Nat) a + S16.size a ≤ S16384.size a
  inb_S16384_S16_8800 : ∀ a, (![8800] : Fin 1 → Nat) a + S16.size a ≤ S16384.size a
  inb_S16384_S16_8816 : ∀ a, (![8816] : Fin 1 → Nat) a + S16.size a ≤ S16384.size a
  inb_S16384_S16_8832 : ∀ a, (![8832] : Fin 1 → Nat) a + S16.size a ≤ S16384.size a
  inb_S16384_S16_8848 : ∀ a, (![8848] : Fin 1 → Nat) a + S16.size a ≤ S16384.size a
  inb_S16384_S16_8864 : ∀ a, (![8864] : Fin 1 → Nat) a + S16.size a ≤ S16384.size a
  inb_S16384_S16_8880 : ∀ a, (![8880] : Fin 1 → Nat) a + S16.size a ≤ S16384.size a
  inb_S16384_S16_8896 : ∀ a, (![8896] : Fin 1 → Nat) a + S16.size a ≤ S16384.size a
  inb_S16384_S16_8912 : ∀ a, (![8912] : Fin 1 → Nat) a + S16.size a ≤ S16384.size a
  inb_S16384_S16_8928 : ∀ a, (![8928] : Fin 1 → Nat) a + S16.size a ≤ S16384.size a
  inb_S16384_S16_8944 : ∀ a, (![8944] : Fin 1 → Nat) a + S16.size a ≤ S16384.size a
  inb_S16384_S16_8960 : ∀ a, (![8960] : Fin 1 → Nat) a + S16.size a ≤ S16384.size a
  inb_S16384_S16_8976 : ∀ a, (![8976] : Fin 1 → Nat) a + S16.size a ≤ S16384.size a
  inb_S16384_S16_8992 : ∀ a, (![8992] : Fin 1 → Nat) a + S16.size a ≤ S16384.size a
  inb_S16384_S16_9008 : ∀ a, (![9008] : Fin 1 → Nat) a + S16.size a ≤ S16384.size a
  inb_S16384_S16_9024 : ∀ a, (![9024] : Fin 1 → Nat) a + S16.size a ≤ S16384.size a
  inb_S16384_S16_9040 : ∀ a, (![9040] : Fin 1 → Nat) a + S16.size a ≤ S16384.size a
  inb_S16384_S16_9056 : ∀ a, (![9056] : Fin 1 → Nat) a + S16.size a ≤ S16384.size a
  inb_S16384_S16_9072 : ∀ a, (![9072] : Fin 1 → Nat) a + S16.size a ≤ S16384.size a
  inb_S16384_S16_9088 : ∀ a, (![9088] : Fin 1 → Nat) a + S16.size a ≤ S16384.size a
  inb_S16384_S16_9104 : ∀ a, (![9104] : Fin 1 → Nat) a + S16.size a ≤ S16384.size a
  inb_S16384_S16_9120 : ∀ a, (![9120] : Fin 1 → Nat) a + S16.size a ≤ S16384.size a
  inb_S16384_S16_9136 : ∀ a, (![9136] : Fin 1 → Nat) a + S16.size a ≤ S16384.size a
  inb_S16384_S16_9152 : ∀ a, (![9152] : Fin 1 → Nat) a + S16.size a ≤ S16384.size a
  inb_S16384_S16_9168 : ∀ a, (![9168] : Fin 1 → Nat) a + S16.size a ≤ S16384.size a
  inb_S16384_S16_9184 : ∀ a, (![9184] : Fin 1 → Nat) a + S16.size a ≤ S16384.size a
  inb_S16384_S16_9200 : ∀ a, (![9200] : Fin 1 → Nat) a + S16.size a ≤ S16384.size a
  inb_S16384_S16_9216 : ∀ a, (![9216] : Fin 1 → Nat) a + S16.size a ≤ S16384.size a
  inb_S16384_S16_9232 : ∀ a, (![9232] : Fin 1 → Nat) a + S16.size a ≤ S16384.size a
  inb_S16384_S16_9248 : ∀ a, (![9248] : Fin 1 → Nat) a + S16.size a ≤ S16384.size a
  inb_S16384_S16_9264 : ∀ a, (![9264] : Fin 1 → Nat) a + S16.size a ≤ S16384.size a
  inb_S16384_S16_9280 : ∀ a, (![9280] : Fin 1 → Nat) a + S16.size a ≤ S16384.size a
  inb_S16384_S16_9296 : ∀ a, (![9296] : Fin 1 → Nat) a + S16.size a ≤ S16384.size a
  inb_S16384_S16_9312 : ∀ a, (![9312] : Fin 1 → Nat) a + S16.size a ≤ S16384.size a
  inb_S16384_S16_9328 : ∀ a, (![9328] : Fin 1 → Nat) a + S16.size a ≤ S16384.size a
  inb_S16384_S16_9344 : ∀ a, (![9344] : Fin 1 → Nat) a + S16.size a ≤ S16384.size a
  inb_S16384_S16_9360 : ∀ a, (![9360] : Fin 1 → Nat) a + S16.size a ≤ S16384.size a
  inb_S16384_S16_9376 : ∀ a, (![9376] : Fin 1 → Nat) a + S16.size a ≤ S16384.size a
  inb_S16384_S16_9392 : ∀ a, (![9392] : Fin 1 → Nat) a + S16.size a ≤ S16384.size a
  inb_S16384_S16_9408 : ∀ a, (![9408] : Fin 1 → Nat) a + S16.size a ≤ S16384.size a
  inb_S16384_S16_9424 : ∀ a, (![9424] : Fin 1 → Nat) a + S16.size a ≤ S16384.size a
  inb_S16384_S16_9440 : ∀ a, (![9440] : Fin 1 → Nat) a + S16.size a ≤ S16384.size a
  inb_S16384_S16_9456 : ∀ a, (![9456] : Fin 1 → Nat) a + S16.size a ≤ S16384.size a
  inb_S16384_S16_9472 : ∀ a, (![9472] : Fin 1 → Nat) a + S16.size a ≤ S16384.size a
  inb_S16384_S16_9488 : ∀ a, (![9488] : Fin 1 → Nat) a + S16.size a ≤ S16384.size a
  inb_S16384_S16_9504 : ∀ a, (![9504] : Fin 1 → Nat) a + S16.size a ≤ S16384.size a
  inb_S16384_S16_9520 : ∀ a, (![9520] : Fin 1 → Nat) a + S16.size a ≤ S16384.size a
  inb_S16384_S16_9536 : ∀ a, (![9536] : Fin 1 → Nat) a + S16.size a ≤ S16384.size a
  inb_S16384_S16_9552 : ∀ a, (![9552] : Fin 1 → Nat) a + S16.size a ≤ S16384.size a
  inb_S16384_S16_9568 : ∀ a, (![9568] : Fin 1 → Nat) a + S16.size a ≤ S16384.size a
  inb_S16384_S16_9584 : ∀ a, (![9584] : Fin 1 → Nat) a + S16.size a ≤ S16384.size a
  inb_S16384_S16_9600 : ∀ a, (![9600] : Fin 1 → Nat) a + S16.size a ≤ S16384.size a
  inb_S16384_S16_9616 : ∀ a, (![9616] : Fin 1 → Nat) a + S16.size a ≤ S16384.size a
  inb_S16384_S16_9632 : ∀ a, (![9632] : Fin 1 → Nat) a + S16.size a ≤ S16384.size a
  inb_S16384_S16_9648 : ∀ a, (![9648] : Fin 1 → Nat) a + S16.size a ≤ S16384.size a
  inb_S16384_S16_9664 : ∀ a, (![9664] : Fin 1 → Nat) a + S16.size a ≤ S16384.size a
  inb_S16384_S16_9680 : ∀ a, (![9680] : Fin 1 → Nat) a + S16.size a ≤ S16384.size a
  inb_S16384_S16_9696 : ∀ a, (![9696] : Fin 1 → Nat) a + S16.size a ≤ S16384.size a
  inb_S16384_S16_9712 : ∀ a, (![9712] : Fin 1 → Nat) a + S16.size a ≤ S16384.size a
  inb_S16384_S16_9728 : ∀ a, (![9728] : Fin 1 → Nat) a + S16.size a ≤ S16384.size a
  inb_S16384_S16_9744 : ∀ a, (![9744] : Fin 1 → Nat) a + S16.size a ≤ S16384.size a
  inb_S16384_S16_9760 : ∀ a, (![9760] : Fin 1 → Nat) a + S16.size a ≤ S16384.size a
  inb_S16384_S16_9776 : ∀ a, (![9776] : Fin 1 → Nat) a + S16.size a ≤ S16384.size a
  inb_S16384_S16_9792 : ∀ a, (![9792] : Fin 1 → Nat) a + S16.size a ≤ S16384.size a
  inb_S16384_S16_9808 : ∀ a, (![9808] : Fin 1 → Nat) a + S16.size a ≤ S16384.size a
  inb_S16384_S16_9824 : ∀ a, (![9824] : Fin 1 → Nat) a + S16.size a ≤ S16384.size a
  inb_S16384_S16_9840 : ∀ a, (![9840] : Fin 1 → Nat) a + S16.size a ≤ S16384.size a
  inb_S16384_S16_9856 : ∀ a, (![9856] : Fin 1 → Nat) a + S16.size a ≤ S16384.size a
  inb_S16384_S16_9872 : ∀ a, (![9872] : Fin 1 → Nat) a + S16.size a ≤ S16384.size a
  inb_S16384_S16_9888 : ∀ a, (![9888] : Fin 1 → Nat) a + S16.size a ≤ S16384.size a
  inb_S16384_S16_9904 : ∀ a, (![9904] : Fin 1 → Nat) a + S16.size a ≤ S16384.size a
  inb_S16384_S16_9920 : ∀ a, (![9920] : Fin 1 → Nat) a + S16.size a ≤ S16384.size a
  inb_S16384_S16_9936 : ∀ a, (![9936] : Fin 1 → Nat) a + S16.size a ≤ S16384.size a
  inb_S16384_S16_9952 : ∀ a, (![9952] : Fin 1 → Nat) a + S16.size a ≤ S16384.size a
  inb_S16384_S16_9968 : ∀ a, (![9968] : Fin 1 → Nat) a + S16.size a ≤ S16384.size a
  inb_S16384_S16_9984 : ∀ a, (![9984] : Fin 1 → Nat) a + S16.size a ≤ S16384.size a
  inb_S16384_S16_10000 : ∀ a, (![10000] : Fin 1 → Nat) a + S16.size a ≤ S16384.size a
  inb_S16384_S16_10016 : ∀ a, (![10016] : Fin 1 → Nat) a + S16.size a ≤ S16384.size a
  inb_S16384_S16_10032 : ∀ a, (![10032] : Fin 1 → Nat) a + S16.size a ≤ S16384.size a
  inb_S16384_S16_10048 : ∀ a, (![10048] : Fin 1 → Nat) a + S16.size a ≤ S16384.size a
  inb_S16384_S16_10064 : ∀ a, (![10064] : Fin 1 → Nat) a + S16.size a ≤ S16384.size a
  inb_S16384_S16_10080 : ∀ a, (![10080] : Fin 1 → Nat) a + S16.size a ≤ S16384.size a
  inb_S16384_S16_10096 : ∀ a, (![10096] : Fin 1 → Nat) a + S16.size a ≤ S16384.size a
  inb_S16384_S16_10112 : ∀ a, (![10112] : Fin 1 → Nat) a + S16.size a ≤ S16384.size a
  inb_S16384_S16_10128 : ∀ a, (![10128] : Fin 1 → Nat) a + S16.size a ≤ S16384.size a
  inb_S16384_S16_10144 : ∀ a, (![10144] : Fin 1 → Nat) a + S16.size a ≤ S16384.size a
  inb_S16384_S16_10160 : ∀ a, (![10160] : Fin 1 → Nat) a + S16.size a ≤ S16384.size a
  inb_S16384_S16_10176 : ∀ a, (![10176] : Fin 1 → Nat) a + S16.size a ≤ S16384.size a
  inb_S16384_S16_10192 : ∀ a, (![10192] : Fin 1 → Nat) a + S16.size a ≤ S16384.size a
  inb_S16384_S16_10208 : ∀ a, (![10208] : Fin 1 → Nat) a + S16.size a ≤ S16384.size a
  inb_S16384_S16_10224 : ∀ a, (![10224] : Fin 1 → Nat) a + S16.size a ≤ S16384.size a
  inb_S16384_S16_10240 : ∀ a, (![10240] : Fin 1 → Nat) a + S16.size a ≤ S16384.size a
  inb_S16384_S16_10256 : ∀ a, (![10256] : Fin 1 → Nat) a + S16.size a ≤ S16384.size a
  inb_S16384_S16_10272 : ∀ a, (![10272] : Fin 1 → Nat) a + S16.size a ≤ S16384.size a
  inb_S16384_S16_10288 : ∀ a, (![10288] : Fin 1 → Nat) a + S16.size a ≤ S16384.size a
  inb_S16384_S16_10304 : ∀ a, (![10304] : Fin 1 → Nat) a + S16.size a ≤ S16384.size a
  inb_S16384_S16_10320 : ∀ a, (![10320] : Fin 1 → Nat) a + S16.size a ≤ S16384.size a
  inb_S16384_S16_10336 : ∀ a, (![10336] : Fin 1 → Nat) a + S16.size a ≤ S16384.size a
  inb_S16384_S16_10352 : ∀ a, (![10352] : Fin 1 → Nat) a + S16.size a ≤ S16384.size a
  inb_S16384_S16_10368 : ∀ a, (![10368] : Fin 1 → Nat) a + S16.size a ≤ S16384.size a
  inb_S16384_S16_10384 : ∀ a, (![10384] : Fin 1 → Nat) a + S16.size a ≤ S16384.size a
  inb_S16384_S16_10400 : ∀ a, (![10400] : Fin 1 → Nat) a + S16.size a ≤ S16384.size a
  inb_S16384_S16_10416 : ∀ a, (![10416] : Fin 1 → Nat) a + S16.size a ≤ S16384.size a
  inb_S16384_S16_10432 : ∀ a, (![10432] : Fin 1 → Nat) a + S16.size a ≤ S16384.size a
  inb_S16384_S16_10448 : ∀ a, (![10448] : Fin 1 → Nat) a + S16.size a ≤ S16384.size a
  inb_S16384_S16_10464 : ∀ a, (![10464] : Fin 1 → Nat) a + S16.size a ≤ S16384.size a
  inb_S16384_S16_10480 : ∀ a, (![10480] : Fin 1 → Nat) a + S16.size a ≤ S16384.size a
  inb_S16384_S16_10496 : ∀ a, (![10496] : Fin 1 → Nat) a + S16.size a ≤ S16384.size a
  inb_S16384_S16_10512 : ∀ a, (![10512] : Fin 1 → Nat) a + S16.size a ≤ S16384.size a
  inb_S16384_S16_10528 : ∀ a, (![10528] : Fin 1 → Nat) a + S16.size a ≤ S16384.size a
  inb_S16384_S16_10544 : ∀ a, (![10544] : Fin 1 → Nat) a + S16.size a ≤ S16384.size a
  inb_S16384_S16_10560 : ∀ a, (![10560] : Fin 1 → Nat) a + S16.size a ≤ S16384.size a
  inb_S16384_S16_10576 : ∀ a, (![10576] : Fin 1 → Nat) a + S16.size a ≤ S16384.size a
  inb_S16384_S16_10592 : ∀ a, (![10592] : Fin 1 → Nat) a + S16.size a ≤ S16384.size a
  inb_S16384_S16_10608 : ∀ a, (![10608] : Fin 1 → Nat) a + S16.size a ≤ S16384.size a
  inb_S16384_S16_10624 : ∀ a, (![10624] : Fin 1 → Nat) a + S16.size a ≤ S16384.size a
  inb_S16384_S16_10640 : ∀ a, (![10640] : Fin 1 → Nat) a + S16.size a ≤ S16384.size a
  inb_S16384_S16_10656 : ∀ a, (![10656] : Fin 1 → Nat) a + S16.size a ≤ S16384.size a
  inb_S16384_S16_10672 : ∀ a, (![10672] : Fin 1 → Nat) a + S16.size a ≤ S16384.size a
  inb_S16384_S16_10688 : ∀ a, (![10688] : Fin 1 → Nat) a + S16.size a ≤ S16384.size a
  inb_S16384_S16_10704 : ∀ a, (![10704] : Fin 1 → Nat) a + S16.size a ≤ S16384.size a
  inb_S16384_S16_10720 : ∀ a, (![10720] : Fin 1 → Nat) a + S16.size a ≤ S16384.size a
  inb_S16384_S16_10736 : ∀ a, (![10736] : Fin 1 → Nat) a + S16.size a ≤ S16384.size a
  inb_S16384_S16_10752 : ∀ a, (![10752] : Fin 1 → Nat) a + S16.size a ≤ S16384.size a
  inb_S16384_S16_10768 : ∀ a, (![10768] : Fin 1 → Nat) a + S16.size a ≤ S16384.size a
  inb_S16384_S16_10784 : ∀ a, (![10784] : Fin 1 → Nat) a + S16.size a ≤ S16384.size a
  inb_S16384_S16_10800 : ∀ a, (![10800] : Fin 1 → Nat) a + S16.size a ≤ S16384.size a
  inb_S16384_S16_10816 : ∀ a, (![10816] : Fin 1 → Nat) a + S16.size a ≤ S16384.size a
  inb_S16384_S16_10832 : ∀ a, (![10832] : Fin 1 → Nat) a + S16.size a ≤ S16384.size a
  inb_S16384_S16_10848 : ∀ a, (![10848] : Fin 1 → Nat) a + S16.size a ≤ S16384.size a
  inb_S16384_S16_10864 : ∀ a, (![10864] : Fin 1 → Nat) a + S16.size a ≤ S16384.size a
  inb_S16384_S16_10880 : ∀ a, (![10880] : Fin 1 → Nat) a + S16.size a ≤ S16384.size a
  inb_S16384_S16_10896 : ∀ a, (![10896] : Fin 1 → Nat) a + S16.size a ≤ S16384.size a
  inb_S16384_S16_10912 : ∀ a, (![10912] : Fin 1 → Nat) a + S16.size a ≤ S16384.size a
  inb_S16384_S16_10928 : ∀ a, (![10928] : Fin 1 → Nat) a + S16.size a ≤ S16384.size a
  inb_S16384_S16_10944 : ∀ a, (![10944] : Fin 1 → Nat) a + S16.size a ≤ S16384.size a
  inb_S16384_S16_10960 : ∀ a, (![10960] : Fin 1 → Nat) a + S16.size a ≤ S16384.size a
  inb_S16384_S16_10976 : ∀ a, (![10976] : Fin 1 → Nat) a + S16.size a ≤ S16384.size a
  inb_S16384_S16_10992 : ∀ a, (![10992] : Fin 1 → Nat) a + S16.size a ≤ S16384.size a
  inb_S16384_S16_11008 : ∀ a, (![11008] : Fin 1 → Nat) a + S16.size a ≤ S16384.size a
  inb_S16384_S16_11024 : ∀ a, (![11024] : Fin 1 → Nat) a + S16.size a ≤ S16384.size a
  inb_S16384_S16_11040 : ∀ a, (![11040] : Fin 1 → Nat) a + S16.size a ≤ S16384.size a
  inb_S16384_S16_11056 : ∀ a, (![11056] : Fin 1 → Nat) a + S16.size a ≤ S16384.size a
  inb_S16384_S16_11072 : ∀ a, (![11072] : Fin 1 → Nat) a + S16.size a ≤ S16384.size a
  inb_S16384_S16_11088 : ∀ a, (![11088] : Fin 1 → Nat) a + S16.size a ≤ S16384.size a
  inb_S16384_S16_11104 : ∀ a, (![11104] : Fin 1 → Nat) a + S16.size a ≤ S16384.size a
  inb_S16384_S16_11120 : ∀ a, (![11120] : Fin 1 → Nat) a + S16.size a ≤ S16384.size a
  inb_S16384_S16_11136 : ∀ a, (![11136] : Fin 1 → Nat) a + S16.size a ≤ S16384.size a
  inb_S16384_S16_11152 : ∀ a, (![11152] : Fin 1 → Nat) a + S16.size a ≤ S16384.size a
  inb_S16384_S16_11168 : ∀ a, (![11168] : Fin 1 → Nat) a + S16.size a ≤ S16384.size a
  inb_S16384_S16_11184 : ∀ a, (![11184] : Fin 1 → Nat) a + S16.size a ≤ S16384.size a
  inb_S16384_S16_11200 : ∀ a, (![11200] : Fin 1 → Nat) a + S16.size a ≤ S16384.size a
  inb_S16384_S16_11216 : ∀ a, (![11216] : Fin 1 → Nat) a + S16.size a ≤ S16384.size a
  inb_S16384_S16_11232 : ∀ a, (![11232] : Fin 1 → Nat) a + S16.size a ≤ S16384.size a
  inb_S16384_S16_11248 : ∀ a, (![11248] : Fin 1 → Nat) a + S16.size a ≤ S16384.size a
  inb_S16384_S16_11264 : ∀ a, (![11264] : Fin 1 → Nat) a + S16.size a ≤ S16384.size a
  inb_S16384_S16_11280 : ∀ a, (![11280] : Fin 1 → Nat) a + S16.size a ≤ S16384.size a
  inb_S16384_S16_11296 : ∀ a, (![11296] : Fin 1 → Nat) a + S16.size a ≤ S16384.size a
  inb_S16384_S16_11312 : ∀ a, (![11312] : Fin 1 → Nat) a + S16.size a ≤ S16384.size a
  inb_S16384_S16_11328 : ∀ a, (![11328] : Fin 1 → Nat) a + S16.size a ≤ S16384.size a
  inb_S16384_S16_11344 : ∀ a, (![11344] : Fin 1 → Nat) a + S16.size a ≤ S16384.size a
  inb_S16384_S16_11360 : ∀ a, (![11360] : Fin 1 → Nat) a + S16.size a ≤ S16384.size a
  inb_S16384_S16_11376 : ∀ a, (![11376] : Fin 1 → Nat) a + S16.size a ≤ S16384.size a
  inb_S16384_S16_11392 : ∀ a, (![11392] : Fin 1 → Nat) a + S16.size a ≤ S16384.size a
  inb_S16384_S16_11408 : ∀ a, (![11408] : Fin 1 → Nat) a + S16.size a ≤ S16384.size a
  inb_S16384_S16_11424 : ∀ a, (![11424] : Fin 1 → Nat) a + S16.size a ≤ S16384.size a
  inb_S16384_S16_11440 : ∀ a, (![11440] : Fin 1 → Nat) a + S16.size a ≤ S16384.size a
  inb_S16384_S16_11456 : ∀ a, (![11456] : Fin 1 → Nat) a + S16.size a ≤ S16384.size a
  inb_S16384_S16_11472 : ∀ a, (![11472] : Fin 1 → Nat) a + S16.size a ≤ S16384.size a
  inb_S16384_S16_11488 : ∀ a, (![11488] : Fin 1 → Nat) a + S16.size a ≤ S16384.size a
  inb_S16384_S16_11504 : ∀ a, (![11504] : Fin 1 → Nat) a + S16.size a ≤ S16384.size a
  inb_S16384_S16_11520 : ∀ a, (![11520] : Fin 1 → Nat) a + S16.size a ≤ S16384.size a
  inb_S16384_S16_11536 : ∀ a, (![11536] : Fin 1 → Nat) a + S16.size a ≤ S16384.size a
  inb_S16384_S16_11552 : ∀ a, (![11552] : Fin 1 → Nat) a + S16.size a ≤ S16384.size a
  inb_S16384_S16_11568 : ∀ a, (![11568] : Fin 1 → Nat) a + S16.size a ≤ S16384.size a
  inb_S16384_S16_11584 : ∀ a, (![11584] : Fin 1 → Nat) a + S16.size a ≤ S16384.size a
  inb_S16384_S16_11600 : ∀ a, (![11600] : Fin 1 → Nat) a + S16.size a ≤ S16384.size a
  inb_S16384_S16_11616 : ∀ a, (![11616] : Fin 1 → Nat) a + S16.size a ≤ S16384.size a
  inb_S16384_S16_11632 : ∀ a, (![11632] : Fin 1 → Nat) a + S16.size a ≤ S16384.size a
  inb_S16384_S16_11648 : ∀ a, (![11648] : Fin 1 → Nat) a + S16.size a ≤ S16384.size a
  inb_S16384_S16_11664 : ∀ a, (![11664] : Fin 1 → Nat) a + S16.size a ≤ S16384.size a
  inb_S16384_S16_11680 : ∀ a, (![11680] : Fin 1 → Nat) a + S16.size a ≤ S16384.size a
  inb_S16384_S16_11696 : ∀ a, (![11696] : Fin 1 → Nat) a + S16.size a ≤ S16384.size a
  inb_S16384_S16_11712 : ∀ a, (![11712] : Fin 1 → Nat) a + S16.size a ≤ S16384.size a
  inb_S16384_S16_11728 : ∀ a, (![11728] : Fin 1 → Nat) a + S16.size a ≤ S16384.size a
  inb_S16384_S16_11744 : ∀ a, (![11744] : Fin 1 → Nat) a + S16.size a ≤ S16384.size a
  inb_S16384_S16_11760 : ∀ a, (![11760] : Fin 1 → Nat) a + S16.size a ≤ S16384.size a
  inb_S16384_S16_11776 : ∀ a, (![11776] : Fin 1 → Nat) a + S16.size a ≤ S16384.size a
  inb_S16384_S16_11792 : ∀ a, (![11792] : Fin 1 → Nat) a + S16.size a ≤ S16384.size a

class Shapes2.Facts₀ : Prop where
  inb_S16384_S16_11808 : ∀ a, (![11808] : Fin 1 → Nat) a + S16.size a ≤ S16384.size a
  inb_S16384_S16_11824 : ∀ a, (![11824] : Fin 1 → Nat) a + S16.size a ≤ S16384.size a
  inb_S16384_S16_11840 : ∀ a, (![11840] : Fin 1 → Nat) a + S16.size a ≤ S16384.size a
  inb_S16384_S16_11856 : ∀ a, (![11856] : Fin 1 → Nat) a + S16.size a ≤ S16384.size a
  inb_S16384_S16_11872 : ∀ a, (![11872] : Fin 1 → Nat) a + S16.size a ≤ S16384.size a
  inb_S16384_S16_11888 : ∀ a, (![11888] : Fin 1 → Nat) a + S16.size a ≤ S16384.size a
  inb_S16384_S16_11904 : ∀ a, (![11904] : Fin 1 → Nat) a + S16.size a ≤ S16384.size a
  inb_S16384_S16_11920 : ∀ a, (![11920] : Fin 1 → Nat) a + S16.size a ≤ S16384.size a
  inb_S16384_S16_11936 : ∀ a, (![11936] : Fin 1 → Nat) a + S16.size a ≤ S16384.size a
  inb_S16384_S16_11952 : ∀ a, (![11952] : Fin 1 → Nat) a + S16.size a ≤ S16384.size a
  inb_S16384_S16_11968 : ∀ a, (![11968] : Fin 1 → Nat) a + S16.size a ≤ S16384.size a
  inb_S16384_S16_11984 : ∀ a, (![11984] : Fin 1 → Nat) a + S16.size a ≤ S16384.size a
  inb_S16384_S16_12000 : ∀ a, (![12000] : Fin 1 → Nat) a + S16.size a ≤ S16384.size a
  inb_S16384_S16_12016 : ∀ a, (![12016] : Fin 1 → Nat) a + S16.size a ≤ S16384.size a
  inb_S16384_S16_12032 : ∀ a, (![12032] : Fin 1 → Nat) a + S16.size a ≤ S16384.size a
  inb_S16384_S16_12048 : ∀ a, (![12048] : Fin 1 → Nat) a + S16.size a ≤ S16384.size a
  inb_S16384_S16_12064 : ∀ a, (![12064] : Fin 1 → Nat) a + S16.size a ≤ S16384.size a
  inb_S16384_S16_12080 : ∀ a, (![12080] : Fin 1 → Nat) a + S16.size a ≤ S16384.size a
  inb_S16384_S16_12096 : ∀ a, (![12096] : Fin 1 → Nat) a + S16.size a ≤ S16384.size a
  inb_S16384_S16_12112 : ∀ a, (![12112] : Fin 1 → Nat) a + S16.size a ≤ S16384.size a
  inb_S16384_S16_12128 : ∀ a, (![12128] : Fin 1 → Nat) a + S16.size a ≤ S16384.size a
  inb_S16384_S16_12144 : ∀ a, (![12144] : Fin 1 → Nat) a + S16.size a ≤ S16384.size a
  inb_S16384_S16_12160 : ∀ a, (![12160] : Fin 1 → Nat) a + S16.size a ≤ S16384.size a
  inb_S16384_S16_12176 : ∀ a, (![12176] : Fin 1 → Nat) a + S16.size a ≤ S16384.size a
  inb_S16384_S16_12192 : ∀ a, (![12192] : Fin 1 → Nat) a + S16.size a ≤ S16384.size a
  inb_S16384_S16_12208 : ∀ a, (![12208] : Fin 1 → Nat) a + S16.size a ≤ S16384.size a
  inb_S16384_S16_12224 : ∀ a, (![12224] : Fin 1 → Nat) a + S16.size a ≤ S16384.size a
  inb_S16384_S16_12240 : ∀ a, (![12240] : Fin 1 → Nat) a + S16.size a ≤ S16384.size a
  inb_S16384_S16_12256 : ∀ a, (![12256] : Fin 1 → Nat) a + S16.size a ≤ S16384.size a
  inb_S16384_S16_12272 : ∀ a, (![12272] : Fin 1 → Nat) a + S16.size a ≤ S16384.size a
  inb_S16384_S16_12288 : ∀ a, (![12288] : Fin 1 → Nat) a + S16.size a ≤ S16384.size a
  inb_S16384_S16_12304 : ∀ a, (![12304] : Fin 1 → Nat) a + S16.size a ≤ S16384.size a
  inb_S16384_S16_12320 : ∀ a, (![12320] : Fin 1 → Nat) a + S16.size a ≤ S16384.size a
  inb_S16384_S16_12336 : ∀ a, (![12336] : Fin 1 → Nat) a + S16.size a ≤ S16384.size a
  inb_S16384_S16_12352 : ∀ a, (![12352] : Fin 1 → Nat) a + S16.size a ≤ S16384.size a
  inb_S16384_S16_12368 : ∀ a, (![12368] : Fin 1 → Nat) a + S16.size a ≤ S16384.size a
  inb_S16384_S16_12384 : ∀ a, (![12384] : Fin 1 → Nat) a + S16.size a ≤ S16384.size a
  inb_S16384_S16_12400 : ∀ a, (![12400] : Fin 1 → Nat) a + S16.size a ≤ S16384.size a
  inb_S16384_S16_12416 : ∀ a, (![12416] : Fin 1 → Nat) a + S16.size a ≤ S16384.size a
  inb_S16384_S16_12432 : ∀ a, (![12432] : Fin 1 → Nat) a + S16.size a ≤ S16384.size a
  inb_S16384_S16_12448 : ∀ a, (![12448] : Fin 1 → Nat) a + S16.size a ≤ S16384.size a
  inb_S16384_S16_12464 : ∀ a, (![12464] : Fin 1 → Nat) a + S16.size a ≤ S16384.size a
  inb_S16384_S16_12480 : ∀ a, (![12480] : Fin 1 → Nat) a + S16.size a ≤ S16384.size a
  inb_S16384_S16_12496 : ∀ a, (![12496] : Fin 1 → Nat) a + S16.size a ≤ S16384.size a
  inb_S16384_S16_12512 : ∀ a, (![12512] : Fin 1 → Nat) a + S16.size a ≤ S16384.size a
  inb_S16384_S16_12528 : ∀ a, (![12528] : Fin 1 → Nat) a + S16.size a ≤ S16384.size a
  inb_S16384_S16_12544 : ∀ a, (![12544] : Fin 1 → Nat) a + S16.size a ≤ S16384.size a
  inb_S16384_S16_12560 : ∀ a, (![12560] : Fin 1 → Nat) a + S16.size a ≤ S16384.size a
  inb_S16384_S16_12576 : ∀ a, (![12576] : Fin 1 → Nat) a + S16.size a ≤ S16384.size a
  inb_S16384_S16_12592 : ∀ a, (![12592] : Fin 1 → Nat) a + S16.size a ≤ S16384.size a
  inb_S16384_S16_12608 : ∀ a, (![12608] : Fin 1 → Nat) a + S16.size a ≤ S16384.size a
  inb_S16384_S16_12624 : ∀ a, (![12624] : Fin 1 → Nat) a + S16.size a ≤ S16384.size a
  inb_S16384_S16_12640 : ∀ a, (![12640] : Fin 1 → Nat) a + S16.size a ≤ S16384.size a
  inb_S16384_S16_12656 : ∀ a, (![12656] : Fin 1 → Nat) a + S16.size a ≤ S16384.size a
  inb_S16384_S16_12672 : ∀ a, (![12672] : Fin 1 → Nat) a + S16.size a ≤ S16384.size a
  inb_S16384_S16_12688 : ∀ a, (![12688] : Fin 1 → Nat) a + S16.size a ≤ S16384.size a
  inb_S16384_S16_12704 : ∀ a, (![12704] : Fin 1 → Nat) a + S16.size a ≤ S16384.size a
  inb_S16384_S16_12720 : ∀ a, (![12720] : Fin 1 → Nat) a + S16.size a ≤ S16384.size a
  inb_S16384_S16_12736 : ∀ a, (![12736] : Fin 1 → Nat) a + S16.size a ≤ S16384.size a
  inb_S16384_S16_12752 : ∀ a, (![12752] : Fin 1 → Nat) a + S16.size a ≤ S16384.size a
  inb_S16384_S16_12768 : ∀ a, (![12768] : Fin 1 → Nat) a + S16.size a ≤ S16384.size a
  inb_S16384_S16_12784 : ∀ a, (![12784] : Fin 1 → Nat) a + S16.size a ≤ S16384.size a
  inb_S16384_S16_12800 : ∀ a, (![12800] : Fin 1 → Nat) a + S16.size a ≤ S16384.size a
  inb_S16384_S16_12816 : ∀ a, (![12816] : Fin 1 → Nat) a + S16.size a ≤ S16384.size a
  inb_S16384_S16_12832 : ∀ a, (![12832] : Fin 1 → Nat) a + S16.size a ≤ S16384.size a
  inb_S16384_S16_12848 : ∀ a, (![12848] : Fin 1 → Nat) a + S16.size a ≤ S16384.size a
  inb_S16384_S16_12864 : ∀ a, (![12864] : Fin 1 → Nat) a + S16.size a ≤ S16384.size a
  inb_S16384_S16_12880 : ∀ a, (![12880] : Fin 1 → Nat) a + S16.size a ≤ S16384.size a
  inb_S16384_S16_12896 : ∀ a, (![12896] : Fin 1 → Nat) a + S16.size a ≤ S16384.size a
  inb_S16384_S16_12912 : ∀ a, (![12912] : Fin 1 → Nat) a + S16.size a ≤ S16384.size a
  inb_S16384_S16_12928 : ∀ a, (![12928] : Fin 1 → Nat) a + S16.size a ≤ S16384.size a
  inb_S16384_S16_12944 : ∀ a, (![12944] : Fin 1 → Nat) a + S16.size a ≤ S16384.size a
  inb_S16384_S16_12960 : ∀ a, (![12960] : Fin 1 → Nat) a + S16.size a ≤ S16384.size a
  inb_S16384_S16_12976 : ∀ a, (![12976] : Fin 1 → Nat) a + S16.size a ≤ S16384.size a
  inb_S16384_S16_12992 : ∀ a, (![12992] : Fin 1 → Nat) a + S16.size a ≤ S16384.size a
  inb_S16384_S16_13008 : ∀ a, (![13008] : Fin 1 → Nat) a + S16.size a ≤ S16384.size a
  inb_S16384_S16_13024 : ∀ a, (![13024] : Fin 1 → Nat) a + S16.size a ≤ S16384.size a
  inb_S16384_S16_13040 : ∀ a, (![13040] : Fin 1 → Nat) a + S16.size a ≤ S16384.size a
  inb_S16384_S16_13056 : ∀ a, (![13056] : Fin 1 → Nat) a + S16.size a ≤ S16384.size a
  inb_S16384_S16_13072 : ∀ a, (![13072] : Fin 1 → Nat) a + S16.size a ≤ S16384.size a
  inb_S16384_S16_13088 : ∀ a, (![13088] : Fin 1 → Nat) a + S16.size a ≤ S16384.size a
  inb_S16384_S16_13104 : ∀ a, (![13104] : Fin 1 → Nat) a + S16.size a ≤ S16384.size a
  inb_S16384_S16_13120 : ∀ a, (![13120] : Fin 1 → Nat) a + S16.size a ≤ S16384.size a
  inb_S16384_S16_13136 : ∀ a, (![13136] : Fin 1 → Nat) a + S16.size a ≤ S16384.size a
  inb_S16384_S16_13152 : ∀ a, (![13152] : Fin 1 → Nat) a + S16.size a ≤ S16384.size a
  inb_S16384_S16_13168 : ∀ a, (![13168] : Fin 1 → Nat) a + S16.size a ≤ S16384.size a
  inb_S16384_S16_13184 : ∀ a, (![13184] : Fin 1 → Nat) a + S16.size a ≤ S16384.size a
  inb_S16384_S16_13200 : ∀ a, (![13200] : Fin 1 → Nat) a + S16.size a ≤ S16384.size a
  inb_S16384_S16_13216 : ∀ a, (![13216] : Fin 1 → Nat) a + S16.size a ≤ S16384.size a
  inb_S16384_S16_13232 : ∀ a, (![13232] : Fin 1 → Nat) a + S16.size a ≤ S16384.size a
  inb_S16384_S16_13248 : ∀ a, (![13248] : Fin 1 → Nat) a + S16.size a ≤ S16384.size a
  inb_S16384_S16_13264 : ∀ a, (![13264] : Fin 1 → Nat) a + S16.size a ≤ S16384.size a
  inb_S16384_S16_13280 : ∀ a, (![13280] : Fin 1 → Nat) a + S16.size a ≤ S16384.size a
  inb_S16384_S16_13296 : ∀ a, (![13296] : Fin 1 → Nat) a + S16.size a ≤ S16384.size a
  inb_S16384_S16_13312 : ∀ a, (![13312] : Fin 1 → Nat) a + S16.size a ≤ S16384.size a
  inb_S16384_S16_13328 : ∀ a, (![13328] : Fin 1 → Nat) a + S16.size a ≤ S16384.size a
  inb_S16384_S16_13344 : ∀ a, (![13344] : Fin 1 → Nat) a + S16.size a ≤ S16384.size a
  inb_S16384_S16_13360 : ∀ a, (![13360] : Fin 1 → Nat) a + S16.size a ≤ S16384.size a
  inb_S16384_S16_13376 : ∀ a, (![13376] : Fin 1 → Nat) a + S16.size a ≤ S16384.size a
  inb_S16384_S16_13392 : ∀ a, (![13392] : Fin 1 → Nat) a + S16.size a ≤ S16384.size a
  inb_S16384_S16_13408 : ∀ a, (![13408] : Fin 1 → Nat) a + S16.size a ≤ S16384.size a
  inb_S16384_S16_13424 : ∀ a, (![13424] : Fin 1 → Nat) a + S16.size a ≤ S16384.size a
  inb_S16384_S16_13440 : ∀ a, (![13440] : Fin 1 → Nat) a + S16.size a ≤ S16384.size a
  inb_S16384_S16_13456 : ∀ a, (![13456] : Fin 1 → Nat) a + S16.size a ≤ S16384.size a
  inb_S16384_S16_13472 : ∀ a, (![13472] : Fin 1 → Nat) a + S16.size a ≤ S16384.size a
  inb_S16384_S16_13488 : ∀ a, (![13488] : Fin 1 → Nat) a + S16.size a ≤ S16384.size a
  inb_S16384_S16_13504 : ∀ a, (![13504] : Fin 1 → Nat) a + S16.size a ≤ S16384.size a
  inb_S16384_S16_13520 : ∀ a, (![13520] : Fin 1 → Nat) a + S16.size a ≤ S16384.size a
  inb_S16384_S16_13536 : ∀ a, (![13536] : Fin 1 → Nat) a + S16.size a ≤ S16384.size a
  inb_S16384_S16_13552 : ∀ a, (![13552] : Fin 1 → Nat) a + S16.size a ≤ S16384.size a
  inb_S16384_S16_13568 : ∀ a, (![13568] : Fin 1 → Nat) a + S16.size a ≤ S16384.size a
  inb_S16384_S16_13584 : ∀ a, (![13584] : Fin 1 → Nat) a + S16.size a ≤ S16384.size a
  inb_S16384_S16_13600 : ∀ a, (![13600] : Fin 1 → Nat) a + S16.size a ≤ S16384.size a
  inb_S16384_S16_13616 : ∀ a, (![13616] : Fin 1 → Nat) a + S16.size a ≤ S16384.size a
  inb_S16384_S16_13632 : ∀ a, (![13632] : Fin 1 → Nat) a + S16.size a ≤ S16384.size a
  inb_S16384_S16_13648 : ∀ a, (![13648] : Fin 1 → Nat) a + S16.size a ≤ S16384.size a
  inb_S16384_S16_13664 : ∀ a, (![13664] : Fin 1 → Nat) a + S16.size a ≤ S16384.size a
  inb_S16384_S16_13680 : ∀ a, (![13680] : Fin 1 → Nat) a + S16.size a ≤ S16384.size a
  inb_S16384_S16_13696 : ∀ a, (![13696] : Fin 1 → Nat) a + S16.size a ≤ S16384.size a
  inb_S16384_S16_13712 : ∀ a, (![13712] : Fin 1 → Nat) a + S16.size a ≤ S16384.size a
  inb_S16384_S16_13728 : ∀ a, (![13728] : Fin 1 → Nat) a + S16.size a ≤ S16384.size a
  inb_S16384_S16_13744 : ∀ a, (![13744] : Fin 1 → Nat) a + S16.size a ≤ S16384.size a
  inb_S16384_S16_13760 : ∀ a, (![13760] : Fin 1 → Nat) a + S16.size a ≤ S16384.size a
  inb_S16384_S16_13776 : ∀ a, (![13776] : Fin 1 → Nat) a + S16.size a ≤ S16384.size a
  inb_S16384_S16_13792 : ∀ a, (![13792] : Fin 1 → Nat) a + S16.size a ≤ S16384.size a
  inb_S16384_S16_13808 : ∀ a, (![13808] : Fin 1 → Nat) a + S16.size a ≤ S16384.size a
  inb_S16384_S16_13824 : ∀ a, (![13824] : Fin 1 → Nat) a + S16.size a ≤ S16384.size a
  inb_S16384_S16_13840 : ∀ a, (![13840] : Fin 1 → Nat) a + S16.size a ≤ S16384.size a
  inb_S16384_S16_13856 : ∀ a, (![13856] : Fin 1 → Nat) a + S16.size a ≤ S16384.size a
  inb_S16384_S16_13872 : ∀ a, (![13872] : Fin 1 → Nat) a + S16.size a ≤ S16384.size a
  inb_S16384_S16_13888 : ∀ a, (![13888] : Fin 1 → Nat) a + S16.size a ≤ S16384.size a
  inb_S16384_S16_13904 : ∀ a, (![13904] : Fin 1 → Nat) a + S16.size a ≤ S16384.size a
  inb_S16384_S16_13920 : ∀ a, (![13920] : Fin 1 → Nat) a + S16.size a ≤ S16384.size a
  inb_S16384_S16_13936 : ∀ a, (![13936] : Fin 1 → Nat) a + S16.size a ≤ S16384.size a
  inb_S16384_S16_13952 : ∀ a, (![13952] : Fin 1 → Nat) a + S16.size a ≤ S16384.size a
  inb_S16384_S16_13968 : ∀ a, (![13968] : Fin 1 → Nat) a + S16.size a ≤ S16384.size a
  inb_S16384_S16_13984 : ∀ a, (![13984] : Fin 1 → Nat) a + S16.size a ≤ S16384.size a
  inb_S16384_S16_14000 : ∀ a, (![14000] : Fin 1 → Nat) a + S16.size a ≤ S16384.size a
  inb_S16384_S16_14016 : ∀ a, (![14016] : Fin 1 → Nat) a + S16.size a ≤ S16384.size a
  inb_S16384_S16_14032 : ∀ a, (![14032] : Fin 1 → Nat) a + S16.size a ≤ S16384.size a
  inb_S16384_S16_14048 : ∀ a, (![14048] : Fin 1 → Nat) a + S16.size a ≤ S16384.size a
  inb_S16384_S16_14064 : ∀ a, (![14064] : Fin 1 → Nat) a + S16.size a ≤ S16384.size a
  inb_S16384_S16_14080 : ∀ a, (![14080] : Fin 1 → Nat) a + S16.size a ≤ S16384.size a
  inb_S16384_S16_14096 : ∀ a, (![14096] : Fin 1 → Nat) a + S16.size a ≤ S16384.size a
  inb_S16384_S16_14112 : ∀ a, (![14112] : Fin 1 → Nat) a + S16.size a ≤ S16384.size a
  inb_S16384_S16_14128 : ∀ a, (![14128] : Fin 1 → Nat) a + S16.size a ≤ S16384.size a
  inb_S16384_S16_14144 : ∀ a, (![14144] : Fin 1 → Nat) a + S16.size a ≤ S16384.size a
  inb_S16384_S16_14160 : ∀ a, (![14160] : Fin 1 → Nat) a + S16.size a ≤ S16384.size a
  inb_S16384_S16_14176 : ∀ a, (![14176] : Fin 1 → Nat) a + S16.size a ≤ S16384.size a
  inb_S16384_S16_14192 : ∀ a, (![14192] : Fin 1 → Nat) a + S16.size a ≤ S16384.size a
  inb_S16384_S16_14208 : ∀ a, (![14208] : Fin 1 → Nat) a + S16.size a ≤ S16384.size a
  inb_S16384_S16_14224 : ∀ a, (![14224] : Fin 1 → Nat) a + S16.size a ≤ S16384.size a
  inb_S16384_S16_14240 : ∀ a, (![14240] : Fin 1 → Nat) a + S16.size a ≤ S16384.size a
  inb_S16384_S16_14256 : ∀ a, (![14256] : Fin 1 → Nat) a + S16.size a ≤ S16384.size a
  inb_S16384_S16_14272 : ∀ a, (![14272] : Fin 1 → Nat) a + S16.size a ≤ S16384.size a
  inb_S16384_S16_14288 : ∀ a, (![14288] : Fin 1 → Nat) a + S16.size a ≤ S16384.size a
  inb_S16384_S16_14304 : ∀ a, (![14304] : Fin 1 → Nat) a + S16.size a ≤ S16384.size a
  inb_S16384_S16_14320 : ∀ a, (![14320] : Fin 1 → Nat) a + S16.size a ≤ S16384.size a
  inb_S16384_S16_14336 : ∀ a, (![14336] : Fin 1 → Nat) a + S16.size a ≤ S16384.size a
  inb_S16384_S16_14352 : ∀ a, (![14352] : Fin 1 → Nat) a + S16.size a ≤ S16384.size a
  inb_S16384_S16_14368 : ∀ a, (![14368] : Fin 1 → Nat) a + S16.size a ≤ S16384.size a
  inb_S16384_S16_14384 : ∀ a, (![14384] : Fin 1 → Nat) a + S16.size a ≤ S16384.size a
  inb_S16384_S16_14400 : ∀ a, (![14400] : Fin 1 → Nat) a + S16.size a ≤ S16384.size a
  inb_S16384_S16_14416 : ∀ a, (![14416] : Fin 1 → Nat) a + S16.size a ≤ S16384.size a
  inb_S16384_S16_14432 : ∀ a, (![14432] : Fin 1 → Nat) a + S16.size a ≤ S16384.size a
  inb_S16384_S16_14448 : ∀ a, (![14448] : Fin 1 → Nat) a + S16.size a ≤ S16384.size a
  inb_S16384_S16_14464 : ∀ a, (![14464] : Fin 1 → Nat) a + S16.size a ≤ S16384.size a
  inb_S16384_S16_14480 : ∀ a, (![14480] : Fin 1 → Nat) a + S16.size a ≤ S16384.size a
  inb_S16384_S16_14496 : ∀ a, (![14496] : Fin 1 → Nat) a + S16.size a ≤ S16384.size a
  inb_S16384_S16_14512 : ∀ a, (![14512] : Fin 1 → Nat) a + S16.size a ≤ S16384.size a
  inb_S16384_S16_14528 : ∀ a, (![14528] : Fin 1 → Nat) a + S16.size a ≤ S16384.size a
  inb_S16384_S16_14544 : ∀ a, (![14544] : Fin 1 → Nat) a + S16.size a ≤ S16384.size a
  inb_S16384_S16_14560 : ∀ a, (![14560] : Fin 1 → Nat) a + S16.size a ≤ S16384.size a
  inb_S16384_S16_14576 : ∀ a, (![14576] : Fin 1 → Nat) a + S16.size a ≤ S16384.size a
  inb_S16384_S16_14592 : ∀ a, (![14592] : Fin 1 → Nat) a + S16.size a ≤ S16384.size a
  inb_S16384_S16_14608 : ∀ a, (![14608] : Fin 1 → Nat) a + S16.size a ≤ S16384.size a
  inb_S16384_S16_14624 : ∀ a, (![14624] : Fin 1 → Nat) a + S16.size a ≤ S16384.size a
  inb_S16384_S16_14640 : ∀ a, (![14640] : Fin 1 → Nat) a + S16.size a ≤ S16384.size a
  inb_S16384_S16_14656 : ∀ a, (![14656] : Fin 1 → Nat) a + S16.size a ≤ S16384.size a
  inb_S16384_S16_14672 : ∀ a, (![14672] : Fin 1 → Nat) a + S16.size a ≤ S16384.size a
  inb_S16384_S16_14688 : ∀ a, (![14688] : Fin 1 → Nat) a + S16.size a ≤ S16384.size a
  inb_S16384_S16_14704 : ∀ a, (![14704] : Fin 1 → Nat) a + S16.size a ≤ S16384.size a
  inb_S16384_S16_14720 : ∀ a, (![14720] : Fin 1 → Nat) a + S16.size a ≤ S16384.size a
  inb_S16384_S16_14736 : ∀ a, (![14736] : Fin 1 → Nat) a + S16.size a ≤ S16384.size a
  inb_S16384_S16_14752 : ∀ a, (![14752] : Fin 1 → Nat) a + S16.size a ≤ S16384.size a
  inb_S16384_S16_14768 : ∀ a, (![14768] : Fin 1 → Nat) a + S16.size a ≤ S16384.size a
  inb_S16384_S16_14784 : ∀ a, (![14784] : Fin 1 → Nat) a + S16.size a ≤ S16384.size a
  inb_S16384_S16_14800 : ∀ a, (![14800] : Fin 1 → Nat) a + S16.size a ≤ S16384.size a
  inb_S16384_S16_14816 : ∀ a, (![14816] : Fin 1 → Nat) a + S16.size a ≤ S16384.size a
  inb_S16384_S16_14832 : ∀ a, (![14832] : Fin 1 → Nat) a + S16.size a ≤ S16384.size a
  inb_S16384_S16_14848 : ∀ a, (![14848] : Fin 1 → Nat) a + S16.size a ≤ S16384.size a
  inb_S16384_S16_14864 : ∀ a, (![14864] : Fin 1 → Nat) a + S16.size a ≤ S16384.size a
  inb_S16384_S16_14880 : ∀ a, (![14880] : Fin 1 → Nat) a + S16.size a ≤ S16384.size a
  inb_S16384_S16_14896 : ∀ a, (![14896] : Fin 1 → Nat) a + S16.size a ≤ S16384.size a
  inb_S16384_S16_14912 : ∀ a, (![14912] : Fin 1 → Nat) a + S16.size a ≤ S16384.size a
  inb_S16384_S16_14928 : ∀ a, (![14928] : Fin 1 → Nat) a + S16.size a ≤ S16384.size a
  inb_S16384_S16_14944 : ∀ a, (![14944] : Fin 1 → Nat) a + S16.size a ≤ S16384.size a
  inb_S16384_S16_14960 : ∀ a, (![14960] : Fin 1 → Nat) a + S16.size a ≤ S16384.size a
  inb_S16384_S16_14976 : ∀ a, (![14976] : Fin 1 → Nat) a + S16.size a ≤ S16384.size a
  inb_S16384_S16_14992 : ∀ a, (![14992] : Fin 1 → Nat) a + S16.size a ≤ S16384.size a
  inb_S16384_S16_15008 : ∀ a, (![15008] : Fin 1 → Nat) a + S16.size a ≤ S16384.size a
  inb_S16384_S16_15024 : ∀ a, (![15024] : Fin 1 → Nat) a + S16.size a ≤ S16384.size a
  inb_S16384_S16_15040 : ∀ a, (![15040] : Fin 1 → Nat) a + S16.size a ≤ S16384.size a
  inb_S16384_S16_15056 : ∀ a, (![15056] : Fin 1 → Nat) a + S16.size a ≤ S16384.size a
  inb_S16384_S16_15072 : ∀ a, (![15072] : Fin 1 → Nat) a + S16.size a ≤ S16384.size a
  inb_S16384_S16_15088 : ∀ a, (![15088] : Fin 1 → Nat) a + S16.size a ≤ S16384.size a
  inb_S16384_S16_15104 : ∀ a, (![15104] : Fin 1 → Nat) a + S16.size a ≤ S16384.size a
  inb_S16384_S16_15120 : ∀ a, (![15120] : Fin 1 → Nat) a + S16.size a ≤ S16384.size a
  inb_S16384_S16_15136 : ∀ a, (![15136] : Fin 1 → Nat) a + S16.size a ≤ S16384.size a
  inb_S16384_S16_15152 : ∀ a, (![15152] : Fin 1 → Nat) a + S16.size a ≤ S16384.size a
  inb_S16384_S16_15168 : ∀ a, (![15168] : Fin 1 → Nat) a + S16.size a ≤ S16384.size a
  inb_S16384_S16_15184 : ∀ a, (![15184] : Fin 1 → Nat) a + S16.size a ≤ S16384.size a
  inb_S16384_S16_15200 : ∀ a, (![15200] : Fin 1 → Nat) a + S16.size a ≤ S16384.size a
  inb_S16384_S16_15216 : ∀ a, (![15216] : Fin 1 → Nat) a + S16.size a ≤ S16384.size a
  inb_S16384_S16_15232 : ∀ a, (![15232] : Fin 1 → Nat) a + S16.size a ≤ S16384.size a
  inb_S16384_S16_15248 : ∀ a, (![15248] : Fin 1 → Nat) a + S16.size a ≤ S16384.size a
  inb_S16384_S16_15264 : ∀ a, (![15264] : Fin 1 → Nat) a + S16.size a ≤ S16384.size a
  inb_S16384_S16_15280 : ∀ a, (![15280] : Fin 1 → Nat) a + S16.size a ≤ S16384.size a
  inb_S16384_S16_15296 : ∀ a, (![15296] : Fin 1 → Nat) a + S16.size a ≤ S16384.size a
  inb_S16384_S16_15312 : ∀ a, (![15312] : Fin 1 → Nat) a + S16.size a ≤ S16384.size a
  inb_S16384_S16_15328 : ∀ a, (![15328] : Fin 1 → Nat) a + S16.size a ≤ S16384.size a
  inb_S16384_S16_15344 : ∀ a, (![15344] : Fin 1 → Nat) a + S16.size a ≤ S16384.size a
  inb_S16384_S16_15360 : ∀ a, (![15360] : Fin 1 → Nat) a + S16.size a ≤ S16384.size a
  inb_S16384_S16_15376 : ∀ a, (![15376] : Fin 1 → Nat) a + S16.size a ≤ S16384.size a
  inb_S16384_S16_15392 : ∀ a, (![15392] : Fin 1 → Nat) a + S16.size a ≤ S16384.size a
  inb_S16384_S16_15408 : ∀ a, (![15408] : Fin 1 → Nat) a + S16.size a ≤ S16384.size a
  inb_S16384_S16_15424 : ∀ a, (![15424] : Fin 1 → Nat) a + S16.size a ≤ S16384.size a
  inb_S16384_S16_15440 : ∀ a, (![15440] : Fin 1 → Nat) a + S16.size a ≤ S16384.size a
  inb_S16384_S16_15456 : ∀ a, (![15456] : Fin 1 → Nat) a + S16.size a ≤ S16384.size a
  inb_S16384_S16_15472 : ∀ a, (![15472] : Fin 1 → Nat) a + S16.size a ≤ S16384.size a
  inb_S16384_S16_15488 : ∀ a, (![15488] : Fin 1 → Nat) a + S16.size a ≤ S16384.size a
  inb_S16384_S16_15504 : ∀ a, (![15504] : Fin 1 → Nat) a + S16.size a ≤ S16384.size a
  inb_S16384_S16_15520 : ∀ a, (![15520] : Fin 1 → Nat) a + S16.size a ≤ S16384.size a
  inb_S16384_S16_15536 : ∀ a, (![15536] : Fin 1 → Nat) a + S16.size a ≤ S16384.size a
  inb_S16384_S16_15552 : ∀ a, (![15552] : Fin 1 → Nat) a + S16.size a ≤ S16384.size a
  inb_S16384_S16_15568 : ∀ a, (![15568] : Fin 1 → Nat) a + S16.size a ≤ S16384.size a
  inb_S16384_S16_15584 : ∀ a, (![15584] : Fin 1 → Nat) a + S16.size a ≤ S16384.size a
  inb_S16384_S16_15600 : ∀ a, (![15600] : Fin 1 → Nat) a + S16.size a ≤ S16384.size a
  inb_S16384_S16_15616 : ∀ a, (![15616] : Fin 1 → Nat) a + S16.size a ≤ S16384.size a
  inb_S16384_S16_15632 : ∀ a, (![15632] : Fin 1 → Nat) a + S16.size a ≤ S16384.size a
  inb_S16384_S16_15648 : ∀ a, (![15648] : Fin 1 → Nat) a + S16.size a ≤ S16384.size a
  inb_S16384_S16_15664 : ∀ a, (![15664] : Fin 1 → Nat) a + S16.size a ≤ S16384.size a
  inb_S16384_S16_15680 : ∀ a, (![15680] : Fin 1 → Nat) a + S16.size a ≤ S16384.size a
  inb_S16384_S16_15696 : ∀ a, (![15696] : Fin 1 → Nat) a + S16.size a ≤ S16384.size a
  inb_S16384_S16_15712 : ∀ a, (![15712] : Fin 1 → Nat) a + S16.size a ≤ S16384.size a
  inb_S16384_S16_15728 : ∀ a, (![15728] : Fin 1 → Nat) a + S16.size a ≤ S16384.size a
  inb_S16384_S16_15744 : ∀ a, (![15744] : Fin 1 → Nat) a + S16.size a ≤ S16384.size a
  inb_S16384_S16_15760 : ∀ a, (![15760] : Fin 1 → Nat) a + S16.size a ≤ S16384.size a
  inb_S16384_S16_15776 : ∀ a, (![15776] : Fin 1 → Nat) a + S16.size a ≤ S16384.size a
  inb_S16384_S16_15792 : ∀ a, (![15792] : Fin 1 → Nat) a + S16.size a ≤ S16384.size a
  inb_S16384_S16_15808 : ∀ a, (![15808] : Fin 1 → Nat) a + S16.size a ≤ S16384.size a
  inb_S16384_S16_15824 : ∀ a, (![15824] : Fin 1 → Nat) a + S16.size a ≤ S16384.size a
  inb_S16384_S16_15840 : ∀ a, (![15840] : Fin 1 → Nat) a + S16.size a ≤ S16384.size a
  inb_S16384_S16_15856 : ∀ a, (![15856] : Fin 1 → Nat) a + S16.size a ≤ S16384.size a
  inb_S16384_S16_15872 : ∀ a, (![15872] : Fin 1 → Nat) a + S16.size a ≤ S16384.size a
  inb_S16384_S16_15888 : ∀ a, (![15888] : Fin 1 → Nat) a + S16.size a ≤ S16384.size a
  inb_S16384_S16_15904 : ∀ a, (![15904] : Fin 1 → Nat) a + S16.size a ≤ S16384.size a
  inb_S16384_S16_15920 : ∀ a, (![15920] : Fin 1 → Nat) a + S16.size a ≤ S16384.size a
  inb_S16384_S16_15936 : ∀ a, (![15936] : Fin 1 → Nat) a + S16.size a ≤ S16384.size a
  inb_S16384_S16_15952 : ∀ a, (![15952] : Fin 1 → Nat) a + S16.size a ≤ S16384.size a
  inb_S16384_S16_15968 : ∀ a, (![15968] : Fin 1 → Nat) a + S16.size a ≤ S16384.size a
  inb_S16384_S16_15984 : ∀ a, (![15984] : Fin 1 → Nat) a + S16.size a ≤ S16384.size a
  inb_S16384_S16_16000 : ∀ a, (![16000] : Fin 1 → Nat) a + S16.size a ≤ S16384.size a
  inb_S16384_S16_16016 : ∀ a, (![16016] : Fin 1 → Nat) a + S16.size a ≤ S16384.size a
  inb_S16384_S16_16032 : ∀ a, (![16032] : Fin 1 → Nat) a + S16.size a ≤ S16384.size a
  inb_S16384_S16_16048 : ∀ a, (![16048] : Fin 1 → Nat) a + S16.size a ≤ S16384.size a
  inb_S16384_S16_16064 : ∀ a, (![16064] : Fin 1 → Nat) a + S16.size a ≤ S16384.size a
  inb_S16384_S16_16080 : ∀ a, (![16080] : Fin 1 → Nat) a + S16.size a ≤ S16384.size a
  inb_S16384_S16_16096 : ∀ a, (![16096] : Fin 1 → Nat) a + S16.size a ≤ S16384.size a
  inb_S16384_S16_16112 : ∀ a, (![16112] : Fin 1 → Nat) a + S16.size a ≤ S16384.size a
  inb_S16384_S16_16128 : ∀ a, (![16128] : Fin 1 → Nat) a + S16.size a ≤ S16384.size a
  inb_S16384_S16_16144 : ∀ a, (![16144] : Fin 1 → Nat) a + S16.size a ≤ S16384.size a
  inb_S16384_S16_16160 : ∀ a, (![16160] : Fin 1 → Nat) a + S16.size a ≤ S16384.size a
  inb_S16384_S16_16176 : ∀ a, (![16176] : Fin 1 → Nat) a + S16.size a ≤ S16384.size a
  inb_S16384_S16_16192 : ∀ a, (![16192] : Fin 1 → Nat) a + S16.size a ≤ S16384.size a
  inb_S16384_S16_16208 : ∀ a, (![16208] : Fin 1 → Nat) a + S16.size a ≤ S16384.size a
  inb_S16384_S16_16224 : ∀ a, (![16224] : Fin 1 → Nat) a + S16.size a ≤ S16384.size a
  inb_S16384_S16_16240 : ∀ a, (![16240] : Fin 1 → Nat) a + S16.size a ≤ S16384.size a
  inb_S16384_S16_16256 : ∀ a, (![16256] : Fin 1 → Nat) a + S16.size a ≤ S16384.size a
  inb_S16384_S16_16272 : ∀ a, (![16272] : Fin 1 → Nat) a + S16.size a ≤ S16384.size a
  inb_S16384_S16_16288 : ∀ a, (![16288] : Fin 1 → Nat) a + S16.size a ≤ S16384.size a
  inb_S16384_S16_16304 : ∀ a, (![16304] : Fin 1 → Nat) a + S16.size a ≤ S16384.size a
  inb_S16384_S16_16320 : ∀ a, (![16320] : Fin 1 → Nat) a + S16.size a ≤ S16384.size a
  inb_S16384_S16_16336 : ∀ a, (![16336] : Fin 1 → Nat) a + S16.size a ≤ S16384.size a
  inb_S16384_S16_16352 : ∀ a, (![16352] : Fin 1 → Nat) a + S16.size a ≤ S16384.size a
  inb_S16384_S16_16368 : ∀ a, (![16368] : Fin 1 → Nat) a + S16.size a ≤ S16384.size a
  transposes_S300x16384_S16384x300_1_0 : S300x16384.Transposes [1, 0] S16384x300
  hcc0_scratch4 : 0 + S_.numel ≤ 4
  hcc0_scratch5 : 1 + S_.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub

class Facts₀ : Prop where
  k0 : K0.Facts₀
  shapes1 : Shapes1.Facts₀
  shapes2 : Shapes2.Facts₀
attribute [instance] Facts₀.k0 Facts₀.shapes1 Facts₀.shapes2

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1

class Facts : Prop extends Facts₀ where

variable [Facts]
-- ==== ReferenceIdeal.lean ====
abbrev S16384 : Shape := ⟨1, ![16384]⟩
abbrev S100000x300 : Shape := ⟨2, ![100000, 300]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x300 : Shape := ⟨2, ![16384, 300]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100000x300, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x300, .f32⟩
  | .hbm, ⟨21, _⟩ => ⟨S16384x300, .i1⟩
  | .hbm, ⟨22, _⟩ => ⟨S_, .f32⟩
  | .hbm, ⟨23, _⟩ => ⟨S16384x300, .f32⟩
  | .hbm, ⟨24, _⟩ => ⟨S16384x300, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x300_0 : S16384.BroadcastsInDim S16384x300 (![0] : Fin 1 → Fin S16384x300.rank)
  bcast_S_S16384x300 : S_.BroadcastsInDim S16384x300 (![] : Fin 0 → Fin S16384x300.rank)
  gather_S100000x300_S16384x1_S16384x300_1_0_n_n_0_1_1300_wf : GatherDims.WF S100000x300 S16384x1 S16384x300 [1] [0] [] [0] [] 1 ![1, 300]

variable [Facts₀]

def gather_S100000x300_S16384x1_S16384x300_1_0_n_n_0_1_1300 : GatherDims S100000x300 S16384x1 S16384x300 where
  offsetDims := [1]
  collapsedSliceDims := [0]
  operandBatchingDims := []
  startIndicesBatchingDims := []
  startIndexMap := [0]
  indexVectorDim := 1
  sliceSizes := ![1, 300]
  wf := gather_S100000x300_S16384x1_S16384x300_1_0_n_n_0_1_1300_wf

class Facts : Prop extends Facts₀ where

variable [Facts]
-- ==== Proof.KB.Setup.lean ====
/-
  The vocabulary of the lookup kernel's run. The device's thirty-two vector subcores each run the body once; subcore
  `s` of core `c` is tile number `w = 2 s + c` and moves the rows `j = w + 32 t` (`t < 10`, `j < 300`) of the
  TRANSPOSED table: row `j` is fetched whole into a scratch, gathered at the fetched indices sixteen lanes at a time
  into one of two staging chunks of 4096 words, and each chunk is copied out to columns `[4096 k, 4096 (k + 1))` of row
  `j` of the result (`k < 4`), the copy on the chunk's own semaphore, waited for before the chunk is written again.
  So every element `(j, i)` of the 300 × 16384 result belongs to exactly one (tile, trip, chunk): the result is dealt to
  the tiles chunk by chunk, the indices and the transposed table as read shares. Stated here: the places, a chunk as
  the program slices it, what a tile is handed and what it hands back, and the call's payloads.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203175_g23072564314740_cont_8to1_266_38_alg».proof.Proof.Gen.Kernel
import proofs.«203175_g23072564314740_cont_8to1_266_38_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The places -/

variable (m : (ℓ : Loc nD τ sig) → Buf (Elt F) ℓ) (ρ : Dev nD → PrngReg)

/-- The indices, the table, the transposed table, the kernel's result (300 × 16384) and the program's result, as
    locations of device `d`. -/
abbrev iLoc (d : Dev nD) : Loc nD τ sig := (SparseCore.T d).loc main_arg0
abbrev bLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

-- the kernel's memrefs, spelt as the body table passes them
abbrev aI : Memref sig .scVector .hbm S16384 .i32 := Memref.whole main_arg0_scv
abbrev aT : Memref sig .scVector .hbm S300x100000 .f32 := Memref.whole main_v0_scv
abbrev aO : Memref sig .scVector .hbm S300x16384 .f32 := Memref.whole main_v1_scv
abbrev sI : Memref sig .scVector .vmem S16384 .i32 := Memref.whole cc0_scratch0
abbrev sR : Memref sig .scVector .vmem S100000 .f32 := Memref.whole cc0_scratch1
abbrev sA : Memref sig .scVector .vmem S4096 .f32 := Memref.whole cc0_scratch2
abbrev sB : Memref sig .scVector .vmem S4096 .f32 := Memref.whole cc0_scratch3

/-! ## Tiles, trips, chunks -/

abbrev cV (L : grid0.Coords) : Fin τ.nSC := (L 0).castLE hcore0
abbrev jV (L : grid0.Coords) : Fin τ.nSub := (L 1).castLE hsub0
/-- The thread of the tile at grid coordinates `L`. -/
abbrev thrV (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

abbrev Trip : Type := Fin k0_t1_loop.trips

/-- The first nine trips run at every tile: `w + 32 t ≤ 31 + 256 < 300`. -/
theorem cond_early : ∀ (L : grid0.Coords) (t : Trip), t.val < 9 → k0_cond1 L t = 1#1 := by decide +kernel

/-- Chunk `k` of the row of trip `t`, as the body slices it out of the result (the four offset functions of the body's
    four copies out), and the two chunks the opening copies land in (row `w`, chunks 0 and 1). -/
abbrev chunk (o : Fin 2 → Nat) (h : ∀ a, o a + S1x4096.size a ≤ S300x16384.size a) : Memref sig .scVector .hbm S4096 .f32 :=
  ((aO).slice (Rect.unit (s := S300x16384) o S1x4096.size h) (fun _ => rfl)).squeeze S4096 squeezes_S1x4096_S4096
abbrev ch0 (L : grid0.Coords) (t : Trip) (h : k0_cond1 L t = 1#1) : Memref sig .scVector .hbm S4096 .f32 := chunk (k0_off4 L t) (k0_off4_inb L t h)
abbrev ch1 (L : grid0.Coords) (t : Trip) (h : k0_cond1 L t = 1#1) : Memref sig .scVector .hbm S4096 .f32 := chunk (k0_off5 L t) (k0_off5_inb L t h)
abbrev ch2 (L : grid0.Coords) (t : Trip) (h : k0_cond1 L t = 1#1) : Memref sig .scVector .hbm S4096 .f32 := chunk (k0_off6 L t) (k0_off6_inb L t h)
abbrev ch3 (L : grid0.Coords) (t : Trip) (h : k0_cond1 L t = 1#1) : Memref sig .scVector .hbm S4096 .f32 := chunk (k0_off7 L t) (k0_off7_inb L t h)
abbrev pc0 (L : grid0.Coords) : Memref sig .scVector .hbm S4096 .f32 := chunk (k0_off1 L) (k0_off1_inb L)
abbrev pc1 (L : grid0.Coords) : Memref sig .scVector .hbm S4096 .f32 := chunk (k0_off2 L) (k0_off2_inb L)

variable [FloatOps F]

/-- A chunk of the result held outright: the elements of its memref, as the tile's thread addresses them. -/
abbrev own (d : Dev nD) (L : grid0.Coords) (M : Memref sig .scVector .hbm S4096 .f32) (f : Buf (Elt F) (M.view.loc (thrV d L))) : sProp 𝕄 :=
  M.view.loc (thrV d L) ↦[M.view.set]{fullShare} f

/-- The four chunks of trip `t`'s row, at contents `f`; and at whatever they hold. -/
def rowAt (d : Dev nD) (L : grid0.Coords) (t : Trip) (h : k0_cond1 L t = 1#1) (f : Buf (Elt F) (oLoc d)) : sProp 𝕄 :=
  iprop(own d L (ch0 L t h) f ∗ own d L (ch1 L t h) f ∗ own d L (ch2 L t h) f ∗ own d L (ch3 L t h) f)
def rowEx (d : Dev nD) (L : grid0.Coords) (t : Trip) (h : k0_cond1 L t = 1#1) : sProp 𝕄 :=
  iprop((∃ f : Buf (Elt F) (oLoc d), own d L (ch0 L t h) f) ∗ (∃ f : Buf (Elt F) (oLoc d), own d L (ch1 L t h) f)
    ∗ (∃ f : Buf (Elt F) (oLoc d), own d L (ch2 L t h) f) ∗ (∃ f : Buf (Elt F) (oLoc d), own d L (ch3 L t h) f))

/-- The trips by number. -/
abbrev tr (n : Nat) (h : n < k0_t1_loop.trips := by decide) : Trip := ⟨n, h⟩

/-- The tile's read share of an array every tile reads: the core's token of the whole, the tile's token of that. -/
abbrev tileShare (L : grid0.Coords) : PosShare TreeShare :=
  Transfers.shareTok (Transfers.shareTok fullShare (grid0.bound 0) (L 0)) (grid0.bound 1) (L 1)

/-- The tile's read shares of the indices and of the transposed table. -/
abbrev idxTok (d : Dev nD) (L : grid0.Coords) : sProp 𝕄 := (aI).view.loc (thrV d L) ↦{tileShare L} m (iLoc d)
abbrev tabTok (d : Dev nD) (L : grid0.Coords) (tt : Buf (Elt F) (tLoc d)) : sProp 𝕄 := (aT).view.loc (thrV d L) ↦{tileShare L} tt

/-- The tenth trip's row, at the tiles that have one. -/
def row9At (d : Dev nD) (L : grid0.Coords) (f : Buf (Elt F) (oLoc d)) : sProp 𝕄 :=
  if h : k0_cond1 L (tr 9) = 1#1 then rowAt d L (tr 9) h f else iprop(emp)
def row9Ex (d : Dev nD) (L : grid0.Coords) : sProp 𝕄 :=
  if h : k0_cond1 L (tr 9) = 1#1 then rowEx (F := F) d L (tr 9) h else iprop(emp)

/-- The rows of the nine trips every tile runs, and of the tenth where it runs. -/
def rowsAt (d : Dev nD) (L : grid0.Coords) (f : Buf (Elt F) (oLoc d)) : sProp 𝕄 :=
  iprop(rowAt d L (tr 0) (cond_early L _ (by decide)) f ∗ rowAt d L (tr 1) (cond_early L _ (by decide)) f ∗ rowAt d L (tr 2) (cond_early L _ (by decide)) f
    ∗ rowAt d L (tr 3) (cond_early L _ (by decide)) f ∗ rowAt d L (tr 4) (cond_early L _ (by decide)) f ∗ rowAt d L (tr 5) (cond_early L _ (by decide)) f
    ∗ rowAt d L (tr 6) (cond_early L _ (by decide)) f ∗ rowAt d L (tr 7) (cond_early L _ (by decide)) f ∗ rowAt d L (tr 8) (cond_early L _ (by decide)) f
    ∗ row9At d L f)
def rowsEx (d : Dev nD) (L : grid0.Coords) : sProp 𝕄 :=
  iprop(rowEx (F := F) d L (tr 0) (cond_early L _ (by decide)) ∗ rowEx (F := F) d L (tr 1) (cond_early L _ (by decide)) ∗ rowEx (F := F) d L (tr 2) (cond_early L _ (by decide))
    ∗ rowEx (F := F) d L (tr 3) (cond_early L _ (by decide)) ∗ rowEx (F := F) d L (tr 4) (cond_early L _ (by decide)) ∗ rowEx (F := F) d L (tr 5) (cond_early L _ (by decide))
    ∗ rowEx (F := F) d L (tr 6) (cond_early L _ (by decide)) ∗ rowEx (F := F) d L (tr 7) (cond_early L _ (by decide)) ∗ rowEx (F := F) d L (tr 8) (cond_early L _ (by decide))
    ∗ row9Ex (F := F) d L)

/-- What a tile is handed — its read shares and its rows at the result's launch contents — and what it hands back: the
    shares, and its rows at what it wrote. `tt` is the transposed table as @main computed it. -/
def goRes (d : Dev nD) (L : grid0.Coords) (tt : Buf (Elt F) (tLoc d)) : sProp 𝕄 :=
  iprop(idxTok m d L ∗ tabTok d L tt ∗ rowsAt d L (m (oLoc d)))
def tdRes (d : Dev nD) (L : grid0.Coords) (tt : Buf (Elt F) (tLoc d)) : sProp 𝕄 :=
  iprop(idxTok m d L ∗ tabTok d L tt ∗ rowsEx (F := F) d L)

/-- The grid coordinates of task `i` of core `c` of the call. -/
def LL (c : Fin ((K (F := F)).nCore 0)) (i : Fin ((K (F := F)).nSub 0)) : grid0.Coords :=
  coordsV ⟨((K (F := F)).core 0 c).val, c.isLt⟩ ⟨((K (F := F)).sub 0 i).val, i.isLt⟩

end Cert.Proof.KB

end
-- ==== Proof.KB.Pay.lean ====
/-
  What the one call carries. The TensorCore hands each core its sixteen tiles' resources — each tile's read shares of
  the indices and of the transposed table and its rows of the result at the launch contents — and takes them back
  with the rows at what the tiles wrote; a core's sequencer passes each tile its own and nothing else, so the split
  among the tiles is the regrouping of a product.
-/
import proofs.«203175_g23072564314740_cont_8to1_266_38_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- The transposed table, as @main's first operation computes it from the table's launch contents. -/
def ttOf (d : Dev nD) : Buf (Elt F) (tLoc d) :=
  (transpose S300x100000 [1, 0] · transposes_S100000x300_S300x100000_1_0) (m (bLoc d))

/-- All of a core's tiles' resources, in and out. -/
def coreGo (d : Dev nD) (c : Fin ((K (F := F)).nCore 0)) : sProp 𝕄 :=
  bigSep Finset.univ fun i : Fin ((K (F := F)).nSub 0) => goRes m d (LL (F := F) c i) (ttOf m d)
def coreTd (d : Dev nD) (c : Fin ((K (F := F)).nCore 0)) : sProp 𝕄 :=
  bigSep Finset.univ fun i : Fin ((K (F := F)).nSub 0) => tdRes m d (LL (F := F) c i) (ttOf m d)

def P : (K (F := F)).Pay (nD := nD) (Val := Elt F) (Name := ℕ) (U := UU) where
  st := fun q d c => match q with | 0 => coreGo m d c
  dn := fun q d c => match q with | 0 => coreTd m d c
  go := fun q d c i => match q with | 0 => goRes m d (LL (F := F) c i) (ttOf m d)
  td := fun q d c i => match q with | 0 => tdRes m d (LL (F := F) c i) (ttOf m d)
  x := fun _ _ => iprop(emp)

instance rowAt_storable (d : Dev nD) (L : grid0.Coords) (t : Trip) (h : k0_cond1 L t = 1#1) (f : Buf (Elt F) (oLoc d)) : BI.Storable (upEmb : UEmb _ 𝕄) (rowAt d L t h f) := by
  unfold rowAt; infer_instance
instance rowEx_storable (d : Dev nD) (L : grid0.Coords) (t : Trip) (h : k0_cond1 L t = 1#1) : BI.Storable (upEmb : UEmb _ 𝕄) (rowEx (F := F) d L t h) := by
  unfold rowEx; infer_instance
instance row9At_storable (d : Dev nD) (L : grid0.Coords) (f : Buf (Elt F) (oLoc d)) : BI.Storable (upEmb : UEmb _ 𝕄) (row9At d L f) := by
  unfold row9At; split <;> infer_instance
instance row9Ex_storable (d : Dev nD) (L : grid0.Coords) : BI.Storable (upEmb : UEmb _ 𝕄) (row9Ex (F := F) d L) := by
  unfold row9Ex; split <;> infer_instance
set_option synthInstance.maxSize 4096 in
instance rowsAt_storable (d : Dev nD) (L : grid0.Coords) (f : Buf (Elt F) (oLoc d)) : BI.Storable (upEmb : UEmb _ 𝕄) (rowsAt d L f) := by
  unfold rowsAt; infer_instance
set_option synthInstance.maxSize 4096 in
instance rowsEx_storable (d : Dev nD) (L : grid0.Coords) : BI.Storable (upEmb : UEmb _ 𝕄) (rowsEx (F := F) d L) := by
  unfold rowsEx; infer_instance
instance goRes_storable (d : Dev nD) (L : grid0.Coords) (tt : Buf (Elt F) (tLoc d)) : BI.Storable (upEmb : UEmb _ 𝕄) (goRes m d L tt) := by
  unfold goRes; infer_instance
instance tdRes_storable (d : Dev nD) (L : grid0.Coords) (tt : Buf (Elt F) (tLoc d)) : BI.Storable (upEmb : UEmb _ 𝕄) (tdRes m d L tt) := by
  unfold tdRes; infer_instance

instance P_storable : (P (F := F) m).IsStorable where
  st q d c := match q with | 0 => by show BI.Storable _ (coreGo m d c); unfold coreGo; infer_instance
  dn q d c := match q with | 0 => by show BI.Storable _ (coreTd m d c); unfold coreTd; infer_instance
  go q d c i := match q with | 0 => by show BI.Storable _ (goRes m d _ _); infer_instance
  td q d c i := match q with | 0 => by show BI.Storable _ (tdRes m d _ _); infer_instance

/-- The split among a core's tiles: the core's payload IS its tiles' payloads side by side. -/
theorem vecSplit : (K (F := F)).VecSplit' (P m) 0 := by
  intro d c
  show coreGo m d c ⊢ |={Set.univ}=> iprop((bigSep Finset.univ fun i : Fin ((K (F := F)).nSub 0) => goRes m d (LL (F := F) c i) (ttOf m d))
    ∗ ((bigSep Finset.univ fun i : Fin ((K (F := F)).nSub 0) => tdRes m d (LL (F := F) c i) (ttOf m d)) -∗ coreTd m d c))
  unfold coreGo coreTd
  iintro H; imodintro
  isplitl [H]; · iexact H
  iintro H; iexact H

end Cert.Proof.KB

end
-- ==== Proof.KB.Split.lean ====
/-
  How the three arrays of the call split among the thirty-two tiles and join back. The two arrays every tile reads go
  out as read shares: the whole is what no core's token covers, and per core what no tile's token covers, and every
  tile's token. The 300 × 16384 result goes out chunk by chunk: tile `w = 2 s + c` owns, of each row `j = w + 32 t`
  (`j < 300`), the four runs of 4096 columns; every element `(j, i)` lies in exactly one such chunk — `w = j mod 32`,
  `t = j / 32`, `k = i / 4096` —, so the chunks are pairwise disjoint and cover the array.
-/
import proofs.«203175_g23072564314740_cont_8to1_266_38_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## The read shares -/

/-- What is left of a fully held array after every tile's read share is taken: the part no core's token covers, and
    of each core's token the part no tile's covers. -/
def shareRem (ℓ : Loc nD τ sig) (g : Buf (Elt F) ℓ) : sProp 𝕄 :=
  iprop((ℓ ↦{Transfers.shareDrop fullShare (grid0.bound 0)} g)
    ∗ bigSep Finset.univ fun c : Fin (grid0.bound 0) => ℓ ↦{Transfers.shareDrop (Transfers.shareTok fullShare (grid0.bound 0) c) (grid0.bound 1)} g)

omit [FloatOps F] in
/-- The same split over the grid's own index types. -/
theorem shares_split₀ (ℓ : Loc nD τ sig) (g : Buf (Elt F) ℓ) :
    (ℓ ↦{fullShare} g : sProp 𝕄) ⊣⊢ iprop(shareRem ℓ g
      ∗ bigSep Finset.univ fun c : Fin (grid0.bound 0) => bigSep Finset.univ fun i : Fin (grid0.bound 1) =>
          ℓ ↦{Transfers.shareTok (Transfers.shareTok fullShare (grid0.bound 0) c) (grid0.bound 1) i} g) := by
  have h2 : (ℓ ↦{fullShare} g : sProp 𝕄) ⊣⊢ iprop((ℓ ↦{Transfers.shareDrop fullShare (grid0.bound 0)} g)
      ∗ bigSep Finset.univ fun c : Fin (grid0.bound 0) => ℓ ↦{Transfers.shareTok fullShare (grid0.bound 0) c} g) := Transfers.pointsTo_toks _ _
  have h16 : ∀ c : Fin (grid0.bound 0), (ℓ ↦{Transfers.shareTok fullShare (grid0.bound 0) c} g : sProp 𝕄)
      ⊣⊢ iprop((ℓ ↦{Transfers.shareDrop (Transfers.shareTok fullShare (grid0.bound 0) c) (grid0.bound 1)} g)
        ∗ bigSep Finset.univ fun i : Fin (grid0.bound 1) => ℓ ↦{Transfers.shareTok (Transfers.shareTok fullShare (grid0.bound 0) c) (grid0.bound 1) i} g) :=
    fun c => Transfers.pointsTo_toks _ _
  unfold shareRem
  constructor
  · refine h2.1.trans ((sep_mono_right (bigSep_mono fun c _ => (h16 c).1)).trans ?_)
    rw [bigSep_sep']
    iintro ⟨Hd, Hc, Ht⟩
    isplitl [Hd Hc]; · isplitl [Hd]; · iexact Hd
                       iexact Hc
    iexact Ht
  · refine BIBase.Entails.trans ?_ ((sep_mono_right (bigSep_mono fun c _ => (h16 c).2)).trans h2.2)
    rw [bigSep_sep']
    iintro ⟨⟨Hd, Hc⟩, Ht⟩
    isplitl [Hd]; · iexact Hd
    isplitl [Hc]; · iexact Hc
    iexact Ht

omit [FloatOps F] in
/-- An array every tile reads: held whole, it is the remainder and every tile's read share. -/
theorem shares_split (ℓ : Loc nD τ sig) (g : Buf (Elt F) ℓ) :
    (ℓ ↦{fullShare} g : sProp 𝕄) ⊣⊢ iprop(shareRem ℓ g
      ∗ bigSep Finset.univ fun c : Fin ((K (F := F)).nCore 0) => bigSep Finset.univ fun i : Fin ((K (F := F)).nSub 0) =>
          ℓ ↦{tileShare (LL (F := F) c i)} g) :=
  shares_split₀ ℓ g

/-! ## The result, chunk by chunk -/

/-- Columns `[4096 k, 4096 (k + 1))` of row `j` of the result (no element when `300 ≤ j`). -/
def cellSet (j k : ℕ) : Finset S300x16384.Idx :=
  Finset.univ.filter fun x => (x 0 : ℕ) = j ∧ 4096 * k ≤ (x 1 : ℕ) ∧ (x 1 : ℕ) < 4096 * k + 4096

theorem mem_cellSet {j k : ℕ} {x : S300x16384.Idx} :
    x ∈ cellSet j k ↔ (x 0 : ℕ) = j ∧ 4096 * k ≤ (x 1 : ℕ) ∧ (x 1 : ℕ) < 4096 * k + 4096 := by
  simp [cellSet]

theorem cellSet_empty {j k : ℕ} (hj : 300 ≤ j) : cellSet j k = ∅ := by
  ext x
  simp only [mem_cellSet, Finset.notMem_empty, iff_false]
  have h0 : (x 0 : ℕ) < 300 := (x 0).isLt
  omega

/-- The rectangle of one row and 4096 columns at `![j, 4096 k]` is that run. -/
theorem unit_set (j k : ℕ) (h : ∀ a, (![j, 4096 * k] : Fin 2 → ℕ) a + S1x4096.size a ≤ S300x16384.size a) :
    (Rect.unit (s := S300x16384) ![j, 4096 * k] S1x4096.size h).set = cellSet j k := by
  ext x
  rw [Rect.mem_set_unit, mem_cellSet]
  constructor
  · intro hx
    have h0 := hx 0
    have h1 := hx 1
    change j ≤ (x 0 : ℕ) ∧ (x 0 : ℕ) < j + 1 at h0
    change 4096 * k ≤ (x 1 : ℕ) ∧ (x 1 : ℕ) < 4096 * k + 4096 at h1
    omega
  · intro hx a
    match a with
    | 0 => change j ≤ (x 0 : ℕ) ∧ (x 0 : ℕ) < j + 1; omega
    | 1 => change 4096 * k ≤ (x 1 : ℕ) ∧ (x 1 : ℕ) < 4096 * k + 4096; omega

/-- A chunk's elements, as the tile's memref addresses them, are its rectangle's. -/
theorem chunk_set (o : Fin 2 → Nat) (h : ∀ a, o a + S1x4096.size a ≤ S300x16384.size a) :
    (chunk o h).view.set = (Rect.unit (s := S300x16384) o S1x4096.size h).set := by
  show (((aO).view.slice (Rect.unit (s := S300x16384) o S1x4096.size h)).reshape S4096 squeezes_S1x4096_S4096.numel_eq).set = _
  rw [View.set_reshape]
  exact View.set_slice_whole _ _

theorem chunk_cell (o : Fin 2 → Nat) (h : ∀ a, o a + S1x4096.size a ≤ S300x16384.size a) (j k : ℕ) (ho : o = ![j, 4096 * k]) :
    (chunk o h).view.set = cellSet j k := by
  subst ho; rw [chunk_set, unit_set]

/-- A chunk held outright is the result held on its run of columns. -/
theorem own_cell (d : Dev nD) (L : grid0.Coords) (o : Fin 2 → Nat) (h : ∀ a, o a + S1x4096.size a ≤ S300x16384.size a) (j k : ℕ)
    (ho : o = ![j, 4096 * k]) (f : Buf (Elt F) (oLoc d)) :
    own d L (chunk o h) f = (oLoc d ↦[cellSet j k]{fullShare} f : sProp 𝕄) := by
  unfold own; rw [chunk_cell o h j k ho]

/-- The tile's number. -/
abbrev wOf (L : grid0.Coords) : ℕ := 2 * (L 1).val + (L 0).val

/-- The four runs of row `w + 32 t`, each under `Ψ`. -/
def cellsG (Ψ : Finset S300x16384.Idx → sProp 𝕄) (w t : ℕ) : sProp 𝕄 :=
  iprop(Ψ (cellSet (w + 32 * t) 0) ∗ Ψ (cellSet (w + 32 * t) 1) ∗ Ψ (cellSet (w + 32 * t) 2) ∗ Ψ (cellSet (w + 32 * t) 3))

/-- The result held on a set at `f`; and at whatever it holds. -/
abbrev pts (d : Dev nD) (f : Buf (Elt F) (oLoc d)) : Finset S300x16384.Idx → sProp 𝕄 := fun A => oLoc d ↦[A]{fullShare} f
abbrev ptsEx (d : Dev nD) : Finset S300x16384.Idx → sProp 𝕄 := fun A => iprop(∃ f : Buf (Elt F) (oLoc d), oLoc d ↦[A]{fullShare} f)

theorem rowAt_eq (d : Dev nD) (L : grid0.Coords) (t : Trip) (h : k0_cond1 L t = 1#1) (f : Buf (Elt F) (oLoc d)) :
    rowAt d L t h f = cellsG (pts d f) (wOf L) t.val := by
  unfold rowAt cellsG
  rw [own_cell d L _ _ _ 0 (k0_off4_eq L t), own_cell d L _ _ _ 1 (k0_off5_eq L t), own_cell d L _ _ _ 2 (k0_off6_eq L t),
    own_cell d L _ _ _ 3 (k0_off7_eq L t)]

theorem rowEx_eq (d : Dev nD) (L : grid0.Coords) (t : Trip) (h : k0_cond1 L t = 1#1) :
    rowEx (F := F) d L t h = cellsG (ptsEx (F := F) d) (wOf L) t.val := by
  unfold rowEx cellsG
  simp only [own_cell d L _ _ _ 0 (k0_off4_eq L t), own_cell d L _ _ _ 1 (k0_off5_eq L t), own_cell d L _ _ _ 2 (k0_off6_eq L t),
    own_cell d L _ _ _ 3 (k0_off7_eq L t)]

/-! ## A tile's rows, and all the tiles' -/

/-- The tenth trip runs exactly where its row exists. -/
theorem cond9_iff : ∀ L : grid0.Coords, (k0_cond1 L (tr 9) = 1#1 ↔ 2 * (L 1).val + (L 0).val + 32 * 9 < 300) := by decide +kernel

omit [FloatOps F] in
theorem cellsG_empty (Ψ : Finset S300x16384.Idx → sProp 𝕄) (hΨ : Ψ ∅ = iprop(emp)) {w t : ℕ} (h : 300 ≤ w + 32 * t) :
    cellsG Ψ w t = iprop(emp) := by
  unfold cellsG
  rw [cellSet_empty h, cellSet_empty h, cellSet_empty h, cellSet_empty h, hΨ]
  have h1 : (iprop(emp ∗ emp ∗ emp ∗ emp) : sProp 𝕄) ⊢ iprop(emp) := by
    iintro ⟨-, -, -, -⟩; iempintro
  have h2 : (iprop(emp) : sProp 𝕄) ⊢ iprop(emp ∗ emp ∗ emp ∗ emp) := by
    iintro -
    isplitr; · iempintro
    isplitr; · iempintro
    isplitr <;> iempintro
  exact equiv_iff.mp ⟨h1, h2⟩

include m in
theorem ptsEx_empty (d : Dev nD) : ptsEx (F := F) d ∅ = iprop(emp) := by
  show iprop(∃ f : Buf (Elt F) (oLoc d), oLoc d ↦[∅]{fullShare} f) = _
  simp only [pointsTo_empty]
  have h1 : (iprop(∃ _f : Buf (Elt F) (oLoc d), emp) : sProp 𝕄) ⊢ iprop(emp) := by
    iintro ⟨%_, H⟩; iexact H
  have h2 : (iprop(emp) : sProp 𝕄) ⊢ iprop(∃ _f : Buf (Elt F) (oLoc d), emp) := by
    iintro H; iexists (m (oLoc d)); iexact H
  exact equiv_iff.mp ⟨h1, h2⟩

theorem row9At_eq (d : Dev nD) (L : grid0.Coords) (f : Buf (Elt F) (oLoc d)) : row9At d L f = cellsG (pts d f) (wOf L) 9 := by
  unfold row9At
  split
  · next h => exact rowAt_eq d L (tr 9) h f
  · next h =>
    rw [cellsG_empty (pts d f) pointsTo_empty]
    have := (cond9_iff L).not.mp h
    show 300 ≤ 2 * (L 1).val + (L 0).val + 32 * 9
    omega

include m in
theorem row9Ex_eq (d : Dev nD) (L : grid0.Coords) : row9Ex (F := F) d L = cellsG (ptsEx (F := F) d) (wOf L) 9 := by
  unfold row9Ex
  split
  · next h => exact rowEx_eq d L (tr 9) h
  · next h =>
    rw [cellsG_empty (ptsEx (F := F) d) (ptsEx_empty m d)]
    have := (cond9_iff L).not.mp h
    show 300 ≤ 2 * (L 1).val + (L 0).val + 32 * 9
    omega

/-- The ten rows of tile `w`, each run under `Ψ` (the tenth has no element where `300 ≤ w + 288`). -/
def tileG (Ψ : Finset S300x16384.Idx → sProp 𝕄) (w : ℕ) : sProp 𝕄 :=
  iprop(cellsG Ψ w 0 ∗ cellsG Ψ w 1 ∗ cellsG Ψ w 2 ∗ cellsG Ψ w 3 ∗ cellsG Ψ w 4 ∗ cellsG Ψ w 5 ∗ cellsG Ψ w 6 ∗ cellsG Ψ w 7
    ∗ cellsG Ψ w 8 ∗ cellsG Ψ w 9)

theorem rowsAt_eq (d : Dev nD) (L : grid0.Coords) (f : Buf (Elt F) (oLoc d)) : rowsAt d L f = tileG (pts d f) (wOf L) := by
  unfold rowsAt
  rw [rowAt_eq d L (tr 0), rowAt_eq d L (tr 1), rowAt_eq d L (tr 2), rowAt_eq d L (tr 3), rowAt_eq d L (tr 4), rowAt_eq d L (tr 5),
    rowAt_eq d L (tr 6), rowAt_eq d L (tr 7), rowAt_eq d L (tr 8), row9At_eq]
  rfl

include m in
theorem rowsEx_eq (d : Dev nD) (L : grid0.Coords) : rowsEx (F := F) d L = tileG (ptsEx (F := F) d) (wOf L) := by
  unfold rowsEx
  rw [rowEx_eq d L (tr 0), rowEx_eq d L (tr 1), rowEx_eq d L (tr 2), rowEx_eq d L (tr 3), rowEx_eq d L (tr 4), rowEx_eq d L (tr 5),
    rowEx_eq d L (tr 6), rowEx_eq d L (tr 7), rowEx_eq d L (tr 8), row9Ex_eq m]
  rfl

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]
omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide, SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

omit [FloatOps F] in
theorem tileG_eq (Ψ : Finset S300x16384.Idx → sProp 𝕄) (w : ℕ) :
    tileG Ψ w = bigSep Finset.univ fun t : Fin 10 => bigSep Finset.univ fun k : Fin 4 => Ψ (cellSet (w + 32 * t.val) k.val) := by
  rw [bigSep_fin10]
  simp only [bigSep_fin4]
  rfl

/-- A chunk by its core, subcore, trip and run; and its elements. -/
abbrev CIx : Type := Fin 2 × Fin 16 × Fin 10 × Fin 4
def Kf (x : CIx) : Finset S300x16384.Idx := cellSet (2 * x.2.1.val + x.1.val + 32 * x.2.2.1.val) x.2.2.2.val

/-- Two chunks share no element: the row gives tile and trip (`w = j mod 32 < 32`, `t = j / 32`), the column the run. -/
theorem Kf_disjoint : ∀ x ∈ (Finset.univ : Finset CIx), ∀ y ∈ (Finset.univ : Finset CIx), x ≠ y → Disjoint (Kf x) (Kf y) := by
  rintro ⟨c, i, t, k⟩ - ⟨c', i', t', k'⟩ - hne
  refine Finset.disjoint_left.mpr fun z hz hz' => hne ?_
  simp only [Kf, mem_cellSet] at hz hz'
  have := c.isLt; have := c'.isLt; have := i.isLt; have := i'.isLt; have := t.isLt; have := t'.isLt; have := k.isLt; have := k'.isLt
  have e1 : c.val = c'.val := by omega
  have e2 : i.val = i'.val := by omega
  have e3 : t.val = t'.val := by omega
  have e4 : k.val = k'.val := by omega
  exact Prod.ext (Fin.ext e1) (Prod.ext (Fin.ext e2) (Prod.ext (Fin.ext e3) (Fin.ext e4)))

/-- Every element lies in a chunk. -/
theorem Kf_cover : (Finset.univ : Finset CIx).biUnion Kf = Finset.univ := by
  ext z
  simp only [Finset.mem_biUnion, Finset.mem_univ, true_and, iff_true]
  have h0 : (z 0 : ℕ) < 300 := (z 0).isLt
  have h1 : (z 1 : ℕ) < 16384 := (z 1).isLt
  refine ⟨(⟨(z 0).val % 2, by omega⟩, ⟨(z 0).val % 32 / 2, by omega⟩, ⟨(z 0).val / 32, by omega⟩, ⟨(z 1).val / 4096, by omega⟩), ?_⟩
  simp only [Kf, mem_cellSet]
  omega

omit [FloatOps F] in
/-- All the tiles' rows are all the chunks. -/
theorem tiles_eq (Ψ : Finset S300x16384.Idx → sProp 𝕄) :
    (bigSep Finset.univ fun c : Fin ((K (F := F)).nCore 0) => bigSep Finset.univ fun i : Fin ((K (F := F)).nSub 0) => tileG Ψ (wOf (LL (F := F) c i)))
      = bigSep (Finset.univ : Finset CIx) fun x => Ψ (Kf x) := by
  simp only [tileG_eq, bigSep_univ_prod]
  rfl

/-- The result, dealt to the tiles chunk by chunk: held whole at `f`, it is every tile's rows at `f`. -/
theorem rows_eq (d : Dev nD) (f : Buf (Elt F) (oLoc d)) :
    (bigSep Finset.univ fun c : Fin ((K (F := F)).nCore 0) => bigSep Finset.univ fun i : Fin ((K (F := F)).nSub 0) => rowsAt d (LL (F := F) c i) f)
      = (oLoc d ↦{fullShare} f : sProp 𝕄) := by
  simp only [rowsAt_eq]
  rw [tiles_eq (pts d f), ← pointsTo_biUnion Finset.univ (ℓ := oLoc d) Kf Kf_disjoint, Kf_cover]

theorem rows_split (d : Dev nD) (f : Buf (Elt F) (oLoc d)) :
    (oLoc d ↦{fullShare} f : sProp 𝕄) ⊣⊢ bigSep Finset.univ fun c : Fin ((K (F := F)).nCore 0) =>
      bigSep Finset.univ fun i : Fin ((K (F := F)).nSub 0) => rowsAt d (LL (F := F) c i) f :=
  (rows_eq d f) ▸ ⟨BIBase.Entails.refl, BIBase.Entails.refl⟩

include m in
/-- And back, each chunk at whatever it holds: some contents agree with every chunk's. -/
theorem rows_join (d : Dev nD) :
    (bigSep Finset.univ fun c : Fin ((K (F := F)).nCore 0) => bigSep Finset.univ fun i : Fin ((K (F := F)).nSub 0) => rowsEx (F := F) d (LL (F := F) c i))
      ⊢ (iprop(∃ f, oLoc d ↦{fullShare} f) : sProp 𝕄) := by
  simp only [rowsEx_eq m]
  rw [tiles_eq (ptsEx (F := F) d)]
  refine (bigSep_exists_pi Finset.univ (fun (x : CIx) (f : Buf (Elt F) (oLoc d)) => (oLoc d ↦[Kf x]{fullShare} f : sProp 𝕄))).trans ?_
  iintro ⟨%fs, H⟩
  ihave H' := (pointsTo_biUnion_join Finset.univ Kf fs (m (oLoc d)) Kf_disjoint) $$ H
  icases H' with ⟨%g, -, Hg⟩
  rw [Kf_cover]
  iexists g; iexact Hg

end Cert.Proof.KB

end
-- ==== Proof.KB.Launch.lean ====
/-
  The launch side of the lookup kernel's run. The TensorCore transposes the table, hands the two SparseCores' thirty-two
  tiles their read shares of the indices and of the transposed table and their rows of the 300 × 16384 result, takes
  them back, and transposes the result. Stated here: what the call takes and hands back (from the splits of the three
  arrays among the tiles), the launch element, @main on the TensorCore, and the program's run from the tile's
  obligation.
-/
import proofs.«203175_g23072564314740_cont_8to1_266_38_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## What the call takes and hands back -/

/-- The remainders @main keeps across the call: of the indices and of the transposed table. -/
def REM (d : Dev nD) : sProp 𝕄 := iprop(shareRem (iLoc d) (m (iLoc d)) ∗ shareRem (tLoc d) (ttOf m d))

theorem st0_eq (d : Dev nD) :
    (bigSep Finset.univ fun c : Fin ((K (F := F)).nCore 0) => (P m).st 0 d c)
      = bigSep Finset.univ fun c : Fin ((K (F := F)).nCore 0) => bigSep Finset.univ fun i : Fin ((K (F := F)).nSub 0) =>
          iprop(idxTok m d (LL (F := F) c i) ∗ tabTok d (LL (F := F) c i) (ttOf m d) ∗ rowsAt d (LL (F := F) c i) (m (oLoc d))) := by
  refine bigSep_congr fun c _ => ?_
  show coreGo m d c = _
  unfold coreGo goRes; rfl
theorem dn0_eq (d : Dev nD) :
    (bigSep Finset.univ fun c : Fin ((K (F := F)).nCore 0) => (P m).dn 0 d c)
      = bigSep Finset.univ fun c : Fin ((K (F := F)).nCore 0) => bigSep Finset.univ fun i : Fin ((K (F := F)).nSub 0) =>
          iprop(idxTok m d (LL (F := F) c i) ∗ tabTok d (LL (F := F) c i) (ttOf m d) ∗ rowsEx (F := F) d (LL (F := F) c i)) := by
  refine bigSep_congr fun c _ => ?_
  show coreTd m d c = _
  unfold coreTd tdRes; rfl

/-- The three arrays whole go out as the remainders and every core's payload; -/
theorem call_in (d : Dev nD) :
    iprop((iLoc d ↦{fullShare} m (iLoc d)) ∗ (tLoc d ↦{fullShare} ttOf m d) ∗ (oLoc d ↦{fullShare} m (oLoc d)))
      ⊢ (iprop(REM m d ∗ bigSep Finset.univ fun c : Fin ((K (F := F)).nCore 0) => (P m).st 0 d c) : sProp 𝕄) := by
  rw [st0_eq]
  simp only [bigSep_sep']
  unfold REM
  iintro ⟨Hi, Ht, Ho⟩
  ihave Hi' := (shares_split (F := F) (iLoc d) (m (iLoc d))).1 $$ Hi
  ihave Ht' := (shares_split (F := F) (tLoc d) (ttOf m d)).1 $$ Ht
  ihave Ho' := (rows_split (F := F) d (m (oLoc d))).1 $$ Ho
  icases Hi' with ⟨Hir, Hi⟩
  icases Ht' with ⟨Htr, Ht⟩
  isplitl [Hir Htr]; · isplitl [Hir]; · iexact Hir
                       iexact Htr
  isplitl [Hi]; · iexact Hi
  isplitl [Ht]; · iexact Ht
  iexact Ho'

/-- and come back from them, the result at whatever the tiles wrote. -/
theorem call_out (d : Dev nD) :
    (iprop(REM m d ∗ bigSep Finset.univ fun c : Fin ((K (F := F)).nCore 0) => (P m).dn 0 d c) : sProp 𝕄)
      ⊢ iprop((iLoc d ↦{fullShare} m (iLoc d)) ∗ (tLoc d ↦{fullShare} ttOf m d) ∗ ∃ f, oLoc d ↦{fullShare} f) := by
  rw [dn0_eq]
  simp only [bigSep_sep']
  unfold REM
  iintro ⟨⟨Hir, Htr⟩, Hi, Ht, Ho⟩
  isplitl [Hir Hi]
  · iapply (shares_split (F := F) (iLoc d) (m (iLoc d))).2
    isplitl [Hir]; · iexact Hir
    iexact Hi
  isplitl [Htr Ht]
  · iapply (shares_split (F := F) (tLoc d) (ttOf m d)).2
    isplitl [Htr]; · iexact Htr
    iexact Ht
  iapply (rows_join (F := F) m d); iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two host operations: the table transposed, the kernel's result transposed. -/
abbrev opT1 : HloOp τ sig (Elt F) :=
  StableHlo.unary main_arg1 main_v0 ((transpose S300x100000 [1, 0] · transposes_S100000x300_S300x100000_1_0) : (⟨S100000x300, .f32⟩ : BufTy).Contents (Elt F) → (⟨S300x100000, .f32⟩ : BufTy).Contents (Elt F))
abbrev opT2 : HloOp τ sig (Elt F) :=
  StableHlo.unary main_v1 main_v2 ((transpose S16384x300 [1, 0] · transposes_S300x16384_S16384x300_1_0) : (⟨S300x16384, .f32⟩ : BufTy).Contents (Elt F) → (⟨S16384x300, .f32⟩ : BufTy).Contents (Elt F))

abbrev S1 : Finset (DevRef τ sig) := {a1', t'}
abbrev S2 : Finset (DevRef τ sig) := {o', r'}

omit [FloatOps F] in
theorem held_S1 (d : Dev nD) (W : Valuation τ sig (Elt F)) :
    (held (T d) S1 W : sProp 𝕄) = iprop((bLoc d ↦{fullShare} W a1') ∗ tLoc d ↦{fullShare} W t') := by
  unfold held S1
  rw [SparseCore.bigSep_insert' (by decide), bigSep_singleton]
omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (bLoc d ↦{fullShare} W main_arg1) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide), bigSep_singleton]

/-- The launch valuation; and with the kernel's result at what the tiles wrote. -/
def V0 (d : Dev nD) : Valuation τ sig (Elt F) := fun b => m (d, b)
def V1 (d : Dev nD) (f : Buf (Elt F) (oLoc d)) : Valuation τ sig (Elt F) := Function.update (V0 m d) o' f

theorem V1_o (d : Dev nD) (f : Buf (Elt F) (oLoc d)) : V1 m d f o' = f := Function.update_self _ _ _
theorem V1_r (d : Dev nD) (f : Buf (Elt F) (oLoc d)) : V1 m d f r' = m (rLoc d) := Function.update_of_ne (show r' ≠ o' by decide) _ _

theorem hT1 : (opT1 (F := F)).bufs ⊆ S1 := show ({a1', t'} : Finset (DevRef τ sig)) ⊆ S1 from Finset.Subset.refl _
theorem hT2 : (opT2 (F := F)).bufs ⊆ S2 := show ({o', r'} : Finset (DevRef τ sig)) ⊆ S2 from Finset.Subset.refl _

/-- After the first transpose: the table as it was, the transposed table at `ttOf`. -/
theorem held_T1 (d : Dev nD) :
    (held (T d) S1 ((opT1 (F := F)).result (V0 m d)) : sProp 𝕄) = iprop((bLoc d ↦{fullShare} m (bLoc d)) ∗ tLoc d ↦{fullShare} ttOf m d) := by
  rw [held_S1, StableHlo.unary_result_ne (h := show (main_arg1 : Ref sig .tc) ≠ main_v0 by decide), StableHlo.unary_result]
  rfl

/-- What @main leaves the claim: the indices and the table at their launch contents. -/
def FIN (d : Dev nD) : sProp 𝕄 := iprop((iLoc d ↦{fullShare} m (iLoc d)) ∗ (bLoc d ↦{fullShare} m (bLoc d)))

/-- @main on device `d`'s TensorCore: the table transposed (`wp_hlo_within`), the call (the library's `wp_run`: the
    indices, the transposed table and the result dealt to the tiles and joined back), the result transposed; the
    indices and the table kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hbt, Ht, Ho, Hr⟩, -, -⟩, -⟩
  -- the table transposed
  iapply (wp_hlo_within 𝒱 (SparseCore.T d) none Set.univ (op := opT1) (S := S1) hT1 (V := V0 m d)) $$ [Hb Hbt Ht]
  · isplitl [Hb]; · iexact Hb
    rw [held_S1]
    isplitl [Hbt]; · iexact Hbt
    iexact Ht
  iintro ⟨Hb, Hheld⟩
  ihave Hh := (Entails.of_eq (held_T1 (F := F) m d)) $$ Hheld
  icases Hh with ⟨Hbt, Ht⟩
  rw [wp_ret]; imodintro
  -- the call
  ihave Hin := (call_in (F := F) m d) $$ [Hi Ht Ho]
  · isplitl [Hi]; · iexact Hi
    isplitl [Ht]; · iexact Ht
    iexact Ho
  icases Hin with ⟨Hrem, Hcores⟩
  iapply ((K (F := F)).wp_run (D (F := F)) 𝒱 (EH := EH) (P := P m) κ d 0) $$ [Hst Hcores Hrem Hb Hbt Hr]
  isplitr; · iexact Hctx
  isplitl [Hst]; · iexact Hst
  isplitl [Hcores]; · iexact Hcores
  iintro ⟨Hst, Hdn⟩
  ihave Hout := (call_out (F := F) m d) $$ [Hrem Hdn]
  · isplitl [Hrem]; · iexact Hrem
    iexact Hdn
  icases Hout with ⟨Hi, Ht, %f, Ho⟩
  -- the result transposed
  iapply (wp_hlo_within 𝒱 (SparseCore.T d) none Set.univ (op := opT2) (S := S2) hT2 (V := V1 m d f)) $$ [Hb Ho Hr]
  · isplitl [Hb]; · iexact Hb
    rw [held_S2, V1_o, V1_r]
    isplitl [Ho]; · iexact Ho
    iexact Hr
  iintro ⟨Hb, -⟩
  rw [wp_ret]; imodintro; imodintro
  isplitl [Hst]; · iexact Hst
  unfold FIN
  isplitl [Hi]; · iexact Hi
  iexact Hbt

def fq (d : Dev nD) (s' : Phys nD τ sig (Elt F)) : Prop := s'.mem.mem (iLoc d) = m (iLoc d) ∧ s'.mem.mem (bLoc d) = m (bLoc d)

theorem hfin (d : Dev nD) (s' : Phys nD τ sig (Elt F)) : iprop(FIN m d ∗ SI s') ⊢ (⌜fq m d s'⌝ : sProp 𝕄) := by
  unfold FIN
  iintro ⟨⟨Hi, Hx⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := bLoc d) (I := Finset.univ) (q := fullShare) (f := m (bLoc d))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (iLoc c) = m (iLoc c) ∧ r.2.mem (bLoc c) = m (bLoc c)

/-- The program's run from the tile's obligation: every weakly fair execution of the device's threads ends, the indices
    and the table as they were. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KB.TripBase.lean ====
/-
  One tile's task, its vocabulary. From its read shares of the indices and of the transposed table, its rows of the
  result, its four scratches and four transfer semaphores: the indices are fetched whole; the two staging chunks are
  copied, as they stand, into the first two chunks of the tile's first row (so that every later fill of a chunk can
  begin by waiting for the chunk's previous copy out); then, trip by trip, the trip's row of the transposed table is
  fetched, and four times over a chunk is waited for, filled — 256 times sixteen indices read, checked to name entries
  of the row, the row gathered at them, the sixteen lanes stored — and copied out to its quarter of the result's row;
  the last two copies are waited for at the end. Here: the tile's semaphores and scratches singled out of its scoped
  storage; why every index check passes (each index read is an entry of the fetched indices, below 100000 by the
  precondition); a copy out in flight; what a trip leaves; and the trip of a tile whose tenth row does not exist.
-/
import proofs.«203175_g23072564314740_cont_8to1_266_38_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- An indexed load bound to a continuation is the load of the whole scratch, the gathered lanes read off what it holds. -/
theorem vli_bind {Λ : Labels} {p : Proc τ} {s t : Shape} {e : EltTy} {α : Type} [FloatOps F] (base : Memref sig p.kind .vmem s e) (idxs : Fin s.rank → IVec t 32)
    (h : ∀ a x, (idxs a x).toNat < s.size a) (hl : base.view.Loads) (k : Vec F t e → Prog (TpuEff nD τ sig (Elt F) Λ p) α) :
    SparseCore.vectorLoadIdx base idxs h hl >>= k = .op (.load base (.whole s) (View.loadsAt_whole hl)) fun f => k (loadIdx f idxs h) := rfl

attribute [local sl_canon] vli_bind

/-- What the proof asks of the launch memory: every index names a row of the table. -/
def PreOK : Prop := ∀ (d : Dev nD) (i : S16384.Idx), (m (iLoc d) i).toNat < 100000

section Tile

variable (d : Dev nD) (L : grid0.Coords)

/-- The tile's four transfer semaphores: the two staging chunks', the index fetch's, the row fetch's. -/
abbrev cellA : GSem nD τ sig := (thrV d L, .dma cc0_scratch4.sem)
abbrev cellB : GSem nD τ sig := (thrV d L, .dma cc0_scratch5.sem)
abbrev cellI : GSem nD τ sig := (thrV d L, .dma cc0_scoped0.sem)
abbrev cellR : GSem nD τ sig := (thrV d L, .dma cc0_scoped1.sem)

theorem ownSems0_V :
    (ownSems0 (thrV d L) : sProp 𝕄)
      = iprop(semVal (cellA d L) 0 ∗ semVal (cellB d L) 0 ∗ semVal (cellI d L) 0 ∗ semVal (cellR d L) 0
          ∗ bigSep (((((ownCells (thrV d L)).erase (cellA d L)).erase (cellB d L)).erase (cellI d L)).erase (cellR d L)) fun g => semVal g 0) := by
  unfold SparseCore.Cfg.ownSems0
  rw [SparseCore.bigSep_erase' ((mem_ownCells (g := cellA d L)).mpr ⟨rfl, by
      show (SemLoc.dma cc0_scratch4.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scratch5.sem : SemLoc sig).isScoped .scVector = true; decide⟩⟩),
    SparseCore.bigSep_erase' (Finset.mem_erase.mpr ⟨by simp [cellB, cellI]; decide, Finset.mem_erase.mpr ⟨by simp [cellA, cellI]; decide,
      (mem_ownCells (g := cellI d L)).mpr ⟨rfl, by show (SemLoc.dma cc0_scoped0.sem : SemLoc sig).isScoped .scVector = true; decide⟩⟩⟩),
    SparseCore.bigSep_erase' (Finset.mem_erase.mpr ⟨by simp [cellI, cellR]; decide, Finset.mem_erase.mpr ⟨by simp [cellB, cellR]; decide,
      Finset.mem_erase.mpr ⟨by simp [cellA, cellR]; decide,
      (mem_ownCells (g := cellR d L)).mpr ⟨rfl, by show (SemLoc.dma cc0_scoped1.sem : SemLoc sig).isScoped .scVector = true; decide⟩⟩⟩⟩)]

/-- The four scratches are among the subcore's own buffers: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

variable [FloatOps F]

omit [FloatOps F] in
theorem pts_s0 (f : Buf (Elt F) ((thrV d L).loc cc0_scratch0)) : ((sI).view.loc (thrV d L) ↦{fullShare} f : sProp 𝕄) = (thrV d L).loc cc0_scratch0 ↦{fullShare} f := rfl
omit [FloatOps F] in
theorem pts_s1 (f : Buf (Elt F) ((thrV d L).loc cc0_scratch1)) : ((sR).view.loc (thrV d L) ↦{fullShare} f : sProp 𝕄) = (thrV d L).loc cc0_scratch1 ↦{fullShare} f := rfl
omit [FloatOps F] in
theorem pts_s2 (f : Buf (Elt F) ((thrV d L).loc cc0_scratch2)) : ((sA).view.loc (thrV d L) ↦{fullShare} f : sProp 𝕄) = (thrV d L).loc cc0_scratch2 ↦{fullShare} f := rfl
omit [FloatOps F] in
theorem pts_s3 (f : Buf (Elt F) ((thrV d L).loc cc0_scratch3)) : ((sB).view.loc (thrV d L) ↦{fullShare} f : sProp 𝕄) = (thrV d L).loc cc0_scratch3 ↦{fullShare} f := rfl

/-- The opening copies land in the first two chunks of the first trip's row: the same offsets. -/
theorem off4_zero : k0_off4 L (tr 0) = k0_off1 L := by
  rw [k0_off4_eq, k0_off1_eq]; rfl
theorem off5_zero : k0_off5 L (tr 0) = k0_off2 L := by
  rw [k0_off5_eq, k0_off2_eq]; rfl

omit [FloatOps F] in
/-- A chunk held at one spelling of its offsets is held at any other. -/
theorem own_congr {o o' : Fin 2 → Nat} (e : o = o') (h : ∀ a, o a + S1x4096.size a ≤ S300x16384.size a) (h' : ∀ a, o' a + S1x4096.size a ≤ S300x16384.size a)
    (f : Buf (Elt F) (oLoc d)) : (own d L (chunk o h) f : sProp 𝕄) = own d L (chunk o' h') f := by
  subst e; rfl

/-- The fetched indices are the launch indices: each names a row of the table. -/
theorem fetched_lt (hpre : PreOK m) : ∀ i, ((ReadAs.same.apply (View.read (Elt F) (aI).view (m (iLoc d))) : S16384.Idx → Elt F .i32) i).toNat < 100000 := by
  intro i
  simp only [Memref.view_whole, View.read_whole]
  exact hpre d _

/-- Sixteen indices loaded from the index scratch are entries of what it holds. -/
theorem chk_ok' (fI : Buf (Elt F) ((thrV d L).loc cc0_scratch0)) (hfI : ∀ i, (fI i).toNat < 100000)
    (o : Fin 1 → Nat) (ho : ∀ a, o a + S16.size a ≤ S16384.size a) :
    ∀ (a : Fin 1) (x : S16.Idx), ((![View.readAt (Elt F) (sI).view (Rect.unit (s := S16384) o S16.size ho).toLoadRect fI] : Fin 1 → IVec S16 32) a x).toNat < S100000.size a := by
  intro a x
  obtain rfl : a = 0 := Subsingleton.elim _ _
  simp only [Matrix.cons_val_zero, View.readAt_apply, Memref.view_whole, View.read_whole]
  exact hfI _

/-- A staging chunk's copy out in flight on its semaphore: what lands (a chunk of the result at its new contents) and
    the staging chunk lent, beside the (empty) rest of the staging scratch. -/
abbrev flyA (M : Memref sig .scVector .hbm S4096 .f32) (g : Buf (Elt F) (M.view.loc (thrV d L))) (fA : Buf (Elt F) ((thrV d L).loc cc0_scratch2)) : sProp 𝕄 :=
  iprop(Transfers.Flight countersEmb (thrV d L) (SemLoc.dma cc0_scratch4.sem) (default : HIx 1) 131072
      iprop((M.view.loc (thrV d L) ↦[M.view.set]{fullShare} g) ∗ (sA).view.loc (thrV d L) ↦[(sA).view.set]{fullShare} fA)
    ∗ (sA).view.loc (thrV d L) ↦[Finset.univ \ (sA).view.set]{fullShare} fA)
abbrev flyB (M : Memref sig .scVector .hbm S4096 .f32) (g : Buf (Elt F) (M.view.loc (thrV d L))) (fB : Buf (Elt F) ((thrV d L).loc cc0_scratch3)) : sProp 𝕄 :=
  iprop(Transfers.Flight countersEmb (thrV d L) (SemLoc.dma cc0_scratch5.sem) (default : HIx 1) 131072
      iprop((M.view.loc (thrV d L) ↦[M.view.set]{fullShare} g) ∗ (sB).view.loc (thrV d L) ↦[(sB).view.set]{fullShare} fB)
    ∗ (sB).view.loc (thrV d L) ↦[Finset.univ \ (sB).view.set]{fullShare} fB)

/-- What a trip leaves: the table's share and the index scratch as they were, the row scratch at the trip's row, the
    first two chunks of the trip's row landed, the last two in flight, the row fetch's semaphore at zero, the waits
    recorded. -/
def tripPost (t : Trip) (h : k0_cond1 L t = 1#1) (tt : Buf (Elt F) (tLoc d)) (fI : Buf (Elt F) ((thrV d L).loc cc0_scratch0))
    (O : CellTallies nD τ sig (HIx 1)) (W : Waits sig (HIx 1)) : sProp 𝕄 :=
  iprop(tabTok d L tt ∗ ((sI).view.loc (thrV d L) ↦{fullShare} fI) ∗ (∃ fR, (sR).view.loc (thrV d L) ↦{fullShare} fR)
    ∗ (∃ g : Buf (Elt F) (oLoc d), own d L (ch0 L t h) g) ∗ (∃ g : Buf (Elt F) (oLoc d), own d L (ch1 L t h) g)
    ∗ (∃ g : Buf (Elt F) (oLoc d), ∃ fA, flyA d L (ch2 L t h) g fA) ∗ (∃ g : Buf (Elt F) (oLoc d), ∃ fB, flyB d L (ch3 L t h) g fB)
    ∗ semVal (cellR d L) 0 ∗ ∃ W', ⌜∀ p ∈ W', p ∈ W ∨ p.2 = none⌝ ∗ owes (thrV d L) O W')

omit [FloatOps F] in
theorem rowAt_def (t : Trip) (h : k0_cond1 L t = 1#1) (f : Buf (Elt F) (oLoc d)) :
    (rowAt d L t h f : sProp 𝕄) = iprop(own d L (ch0 L t h) f ∗ own d L (ch1 L t h) f ∗ own d L (ch2 L t h) f ∗ own d L (ch3 L t h) f) := rfl
omit [FloatOps F] in
theorem row9At_pos (h9 : k0_cond1 L (tr 9) = 1#1) (f : Buf (Elt F) (oLoc d)) : (row9At d L f : sProp 𝕄) = rowAt d L (tr 9) h9 f := dif_pos h9
omit [FloatOps F] in
theorem row9At_neg (hn : ¬ k0_cond1 L (tr 9) = 1#1) (f : Buf (Elt F) (oLoc d)) : (row9At d L f : sProp 𝕄) = iprop(emp) := dif_neg hn
omit [FloatOps F] in
theorem row9Ex_pos (h9 : k0_cond1 L (tr 9) = 1#1) : (row9Ex (F := F) d L : sProp 𝕄) = rowEx (F := F) d L (tr 9) h9 := dif_pos h9
omit [FloatOps F] in
theorem row9Ex_neg (hn : ¬ k0_cond1 L (tr 9) = 1#1) : (row9Ex (F := F) d L : sProp 𝕄) = iprop(emp) := dif_neg hn

/-- A trip whose row does not exist does nothing. -/
theorem trip_skip (t : Trip) (hn : ¬ k0_cond1 L t = 1#1) (Φ : Unit → sProp 𝕄) :
    (Φ ⟨⟩ : sProp 𝕄) ⊢ wp frame (wpE (defs₀ (F := F)) 𝒱₀ (thrV d L) none) Set.univ
          (k0_t1_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1 t ⟨⟩) Φ := by
  iintro H
  sl_exec (disch := exact hn)
  sl_step
  iexact H

end Tile

end Cert.Proof.KB

end
-- ==== Proof.KB.TripG.lean ====
/-
  One trip of a tile's task, at any trip that runs and whatever chunks the two copies in flight land in: the two are
  waited for and handed back as they landed; the trip's row is fetched; four times a staging chunk is filled with the
  row gathered at 4096 of the indices and copied out to its quarter of the result's row.
-/
import proofs.«203175_g23072564314740_cont_8to1_266_38_alg».proof.Proof.KB.TripBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

attribute [local sl_canon] vli_bind

variable [FloatOps F]

section Tile

variable (d : Dev nD) (L : grid0.Coords)

set_option maxHeartbeats 40000000 in
/-- One trip, at any trip that runs, whatever chunks the two copies in flight land in: they are waited for and handed
    back as they land; the trip's row is fetched, gathered chunk by chunk and copied out to the trip's four chunks. -/
theorem trip_gen (t : Trip) (h : k0_cond1 L t = 1#1) (MA MB : Memref sig .scVector .hbm S4096 .f32)
    (gA : Buf (Elt F) (MA.view.loc (thrV d L))) (gB : Buf (Elt F) (MB.view.loc (thrV d L)))
    (fA : Buf (Elt F) ((thrV d L).loc cc0_scratch2)) (fB : Buf (Elt F) ((thrV d L).loc cc0_scratch3))
    (fI : Buf (Elt F) ((thrV d L).loc cc0_scratch0)) (hfI : ∀ i, (fI i).toNat < 100000) (fR : Buf (Elt F) ((thrV d L).loc cc0_scratch1))
    (f : Buf (Elt F) (oLoc d)) (tt : Buf (Elt F) (tLoc d)) (O : CellTallies nD τ sig (HIx 1)) (W : Waits sig (HIx 1)) (Φ : Unit → sProp 𝕄) :
    iprop(Transfers.MayWaits (thrV d L) (none : HIx 1) O
        ∗ tabTok d L tt ∗ ((sI).view.loc (thrV d L) ↦{fullShare} fI) ∗ ((sR).view.loc (thrV d L) ↦{fullShare} fR)
        ∗ flyA d L MA gA fA ∗ flyB d L MB gB fB ∗ semVal (cellR d L) 0 ∗ rowAt d L t h f ∗ owes (thrV d L) O W
        ∗ ((tripPost d L t h tt fI O W ∗ (MA.view.loc (thrV d L) ↦[MA.view.set]{fullShare} gA) ∗ (MB.view.loc (thrV d L) ↦[MB.view.set]{fullShare} gB)) -∗ Φ ⟨⟩))
      ⊢ wp frame (wpE (defs₀ (F := F)) 𝒱₀ (thrV d L) none) Set.univ
          (k0_t1_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1 t ⟨⟩) Φ := by
  unfold rowAt
  iintro ⟨#Hmw, Ht, HsI, HsR, ⟨HsemA, HsA⟩, ⟨HsemB, HsB⟩, HsemR, ⟨H0, H1, H2, H3⟩, HO, Hk⟩
  sl_exec_parts (disch := first | exact h | exact fun _ => chk_ok' (F := F) d L _ hfI _ _)
  sl_step
  iapply Hk
  unfold tripPost
  isplitr [HsemA_dst HsemB_dst]
  · isplitl [Ht]; · iexact Ht
    isplitl [HsI]; · iexact HsI
    isplitl [HsR]; · iexists _; iexact HsR
    isplitl [H0]; · iexists _; iexact H0
    isplitl [H1]; · iexists _; iexact H1
    isplitl [HsemA HsA]
    · iexists _; iexists _
      isplitl [HsemA]; · iexact HsemA
      iexact HsA
    isplitl [HsemB HsB]
    · iexists _; iexists _
      isplitl [HsemB]; · iexact HsemB
      iexact HsB
    isplitl [HsemR]; · iexact HsemR
    iexists (insert (SemLoc.dma cc0_scratch5.sem, (default : HIx 1)) (insert (SemLoc.dma cc0_scratch4.sem, (default : HIx 1))
      (insert (SemLoc.dma cc0_scratch5.sem, (default : HIx 1)) (insert (SemLoc.dma cc0_scratch4.sem, (default : HIx 1)) (insert (SemLoc.dma cc0_scoped1.sem, (default : HIx 1)) W))))); isplitr
    · ipureintro; intro p hp
      simp only [Finset.mem_insert] at hp
      rcases hp with rfl | rfl | rfl | rfl | rfl | hp
      all_goals first | exact .inr rfl | exact .inl hp
    · iexact HO
  · isplitl [HsemA_dst]; · iexact HsemA_dst
    iexact HsemB_dst

end Tile

end Cert.Proof.KB

end
-- ==== Proof.KB.TripN.lean ====
/-
  The generic trip, stated for the case at hand: the two copies in flight land in chunks of the result (any two, given
  by their offsets), their contents functions on the result's index space.
-/
import proofs.«203175_g23072564314740_cont_8to1_266_38_alg».proof.Proof.KB.TripG

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

theorem trip_next (t : Trip) (h : k0_cond1 L t = 1#1) (oA oB : Fin 2 → Nat)
    (hA : ∀ a, oA a + S1x4096.size a ≤ S300x16384.size a) (hB : ∀ a, oB a + S1x4096.size a ≤ S300x16384.size a)
    (gA gB : Buf (Elt F) (oLoc d))
    (fA : Buf (Elt F) ((thrV d L).loc cc0_scratch2)) (fB : Buf (Elt F) ((thrV d L).loc cc0_scratch3))
    (fI : Buf (Elt F) ((thrV d L).loc cc0_scratch0)) (hfI : ∀ i, (fI i).toNat < 100000) (fR : Buf (Elt F) ((thrV d L).loc cc0_scratch1))
    (f : Buf (Elt F) (oLoc d)) (tt : Buf (Elt F) (tLoc d)) (O : CellTallies nD τ sig (HIx 1)) (W : Waits sig (HIx 1)) (Φ : Unit → sProp 𝕄) :
    iprop(Transfers.MayWaits (thrV d L) (none : HIx 1) O
        ∗ tabTok d L tt ∗ ((sI).view.loc (thrV d L) ↦{fullShare} fI) ∗ ((sR).view.loc (thrV d L) ↦{fullShare} fR)
        ∗ flyA d L (chunk oA hA) gA fA ∗ flyB d L (chunk oB hB) gB fB ∗ semVal (cellR d L) 0 ∗ rowAt d L t h f ∗ owes (thrV d L) O W
        ∗ ((tripPost d L t h tt fI O W ∗ own d L (chunk oA hA) gA ∗ own d L (chunk oB hB) gB) -∗ Φ ⟨⟩))
      ⊢ wp frame (wpE (defs₀ (F := F)) 𝒱₀ (thrV d L) none) Set.univ
          (k0_t1_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1 t ⟨⟩) Φ :=
  trip_gen (F := F) d L t h (chunk oA hA) (chunk oB hB) gA gB fA fB fI hfI fR f tt O W Φ

end Tile

end Cert.Proof.KB

end
-- ==== Proof.KB.TripZ.lean ====
/-
  The first trip of a tile's task: the two copies in flight are the opening ones, and the chunks they land in ARE the
  first two chunks of the trip's row, at the same offsets; the trip's first two copies out then fill them.
-/
import proofs.«203175_g23072564314740_cont_8to1_266_38_alg».proof.Proof.KB.TripBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

attribute [local sl_canon] vli_bind

variable [FloatOps F]

section Tile

variable (d : Dev nD) (L : grid0.Coords)

set_option maxHeartbeats 40000000 in
/-- The first trip: the two copies in flight are the opening ones, and what they land in IS the first two chunks of the
    trip's row, which the trip's first two copies out then fill. -/
theorem trip_zero (gA gB : Buf (Elt F) (oLoc d))
    (fA : Buf (Elt F) ((thrV d L).loc cc0_scratch2)) (fB : Buf (Elt F) ((thrV d L).loc cc0_scratch3))
    (fI : Buf (Elt F) ((thrV d L).loc cc0_scratch0)) (hfI : ∀ i, (fI i).toNat < 100000) (fR : Buf (Elt F) ((thrV d L).loc cc0_scratch1))
    (f : Buf (Elt F) (oLoc d)) (tt : Buf (Elt F) (tLoc d)) (O : CellTallies nD τ sig (HIx 1)) (W : Waits sig (HIx 1)) (Φ : Unit → sProp 𝕄) :
    iprop(Transfers.MayWaits (thrV d L) (none : HIx 1) O
        ∗ tabTok d L tt ∗ ((sI).view.loc (thrV d L) ↦{fullShare} fI) ∗ ((sR).view.loc (thrV d L) ↦{fullShare} fR)
        ∗ flyA d L (pc0 L) gA fA ∗ flyB d L (pc1 L) gB fB ∗ semVal (cellR d L) 0
        ∗ own d L (ch2 L (tr 0) (cond_early L _ (by decide))) f ∗ own d L (ch3 L (tr 0) (cond_early L _ (by decide))) f ∗ owes (thrV d L) O W
        ∗ (tripPost d L (tr 0) (cond_early L _ (by decide)) tt fI O W -∗ Φ ⟨⟩))
      ⊢ wp frame (wpE (defs₀ (F := F)) 𝒱₀ (thrV d L) none) Set.univ
          (k0_t1_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1 (tr 0) ⟨⟩) Φ := by
  have h0 : k0_cond1 L (tr 0) = 1#1 := cond_early L _ (by decide)
  iintro ⟨#Hmw, Ht, HsI, HsR, ⟨HsemA, HsA⟩, ⟨HsemB, HsB⟩, HsemR, H2, H3, HO, Hk⟩
  sl_exec_parts (disch := first | exact h0 | exact fun _ => chk_ok' (F := F) d L _ hfI _ _)
  ihave H0 := (Entails.of_eq (own_congr (F := F) d L (off4_zero L).symm (k0_off1_inb L) (k0_off4_inb L (tr 0) h0) _)) $$ HsemA_dst
  sl_exec_parts (disch := first | exact h0 | exact fun _ => chk_ok' (F := F) d L _ hfI _ _)
  ihave H1 := (Entails.of_eq (own_congr (F := F) d L (off5_zero L).symm (k0_off2_inb L) (k0_off5_inb L (tr 0) h0) _)) $$ HsemB_dst
  sl_exec_parts (disch := first | exact h0 | exact fun _ => chk_ok' (F := F) d L _ hfI _ _)
  sl_step
  iapply Hk
  unfold tripPost
  isplitl [Ht]; · iexact Ht
  isplitl [HsI]; · iexact HsI
  isplitl [HsR]; · iexists _; iexact HsR
  isplitl [H0]; · iexists _; iexact H0
  isplitl [H1]; · iexists _; iexact H1
  isplitl [HsemA HsA]
  · iexists _; iexists _
    isplitl [HsemA]; · iexact HsemA
    iexact HsA
  isplitl [HsemB HsB]
  · iexists _; iexists _
    isplitl [HsemB]; · iexact HsemB
    iexact HsB
  isplitl [HsemR]; · iexact HsemR
  iexists (insert (SemLoc.dma cc0_scratch5.sem, (default : HIx 1)) (insert (SemLoc.dma cc0_scratch4.sem, (default : HIx 1))
    (insert (SemLoc.dma cc0_scratch5.sem, (default : HIx 1)) (insert (SemLoc.dma cc0_scratch4.sem, (default : HIx 1)) (insert (SemLoc.dma cc0_scoped1.sem, (default : HIx 1)) W))))); isplitr
  · ipureintro; intro p hp
    simp only [Finset.mem_insert] at hp
    rcases hp with rfl | rfl | rfl | rfl | rfl | hp
    all_goals first | exact .inr rfl | exact .inl hp
  · iexact HO

end Tile

end Cert.Proof.KB

end
-- ==== Proof.KB.Tile.lean ====
/-
  A tile's whole task from its trips: the prologue (the indices fetched, the two opening copies out), the ten trips
  in sequence — the first by its own lemma, the others by the generic one, each handed the chunks the previous trip
  left in flight and handing them back landed; the tenth only at the tiles whose tenth row exists —, the last two
  copies waited for, and the task's resources reassembled: the read shares, every chunk of the tile's rows at what
  was written, the scratches and semaphores as they must be left.
-/
import proofs.«203175_g23072564314740_cont_8to1_266_38_alg».proof.Proof.KB.TripN
import proofs.«203175_g23072564314740_cont_8to1_266_38_alg».proof.Proof.KB.TripZ
import proofs.«203175_g23072564314740_cont_8to1_266_38_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

attribute [local sl_canon] vli_bind

variable [FloatOps F]

section Tile

variable (d : Dev nD) (L : grid0.Coords)

/-- The ten trips, and that the first nine run at every tile. -/
abbrev T0 : Trip := tr 0
abbrev T1 : Trip := tr 1
abbrev T2 : Trip := tr 2
abbrev T3 : Trip := tr 3
abbrev T4 : Trip := tr 4
abbrev T5 : Trip := tr 5
abbrev T6 : Trip := tr 6
abbrev T7 : Trip := tr 7
abbrev T8 : Trip := tr 8
abbrev T9 : Trip := tr 9
theorem ce0 : k0_cond1 L T0 = 1#1 := cond_early L T0 (by decide)
theorem ce1 : k0_cond1 L T1 = 1#1 := cond_early L T1 (by decide)
theorem ce2 : k0_cond1 L T2 = 1#1 := cond_early L T2 (by decide)
theorem ce3 : k0_cond1 L T3 = 1#1 := cond_early L T3 (by decide)
theorem ce4 : k0_cond1 L T4 = 1#1 := cond_early L T4 (by decide)
theorem ce5 : k0_cond1 L T5 = 1#1 := cond_early L T5 (by decide)
theorem ce6 : k0_cond1 L T6 = 1#1 := cond_early L T6 (by decide)
theorem ce7 : k0_cond1 L T7 = 1#1 := cond_early L T7 (by decide)
theorem ce8 : k0_cond1 L T8 = 1#1 := cond_early L T8 (by decide)

set_option maxHeartbeats 4000000 in
theorem tile_body_pos (hF : (K (F := F)).Facts) (hpre : PreOK m) (h9 : k0_cond1 L T9 = 1#1) (tt : Buf (Elt F) (tLoc d)) (O : CellTallies nD τ sig (HIx 1)) (W : Waits sig (HIx 1)) (hO : ∀ g, O g none = 0) :
    iprop(levAts (K (F := F)).L (K (F := F)).lev ∗ emp ∗ goRes m d L tt ∗ scopedBufs (thrV d L) ∗ scopedSems0 (thrV d L) ∗ owes (thrV d L) O W)
      ⊢ wp frame (wpE (defs₀ (F := F)) 𝒱₀ (thrV d L) none) Set.univ
          (cc0__gather_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1)
          fun _ => iprop(tdRes m d L tt ∗ scopedBufs (thrV d L) ∗ scopedSems0 (thrV d L)
            ∗ ∃ W', ⌜∀ p ∈ W', p ∈ W ∨ p.2 = none⌝ ∗ owes (thrV d L) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold goRes rowsAt
  iintro ⟨#Hlv, -, ⟨Hi, Ht, Hr0, Hr1, Hr2, Hr3, Hr4, Hr5, Hr6, Hr7, Hr8, Hr9⟩, ⟨⟨%f0, Hs0⟩, ⟨%fRi, Hs1⟩, ⟨%fAi, Hs2⟩, ⟨%fBi, Hs3⟩, Hbufs⟩, ⟨HsemA, HsemB, HsemI, HsemR, Hsems⟩, HO⟩
  ihave Hmw := ((K (F := F)).mayWaits_none (thr := thrV d L) hO) $$ Hlv
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hr0 := (Entails.of_eq (rowAt_def (F := F) d L _ _ _)) $$ Hr0
  icases Hr0 with ⟨H00, H01, H02, H03⟩
  ihave H00 := (Entails.of_eq (own_congr (F := F) d L (off4_zero L) _ (k0_off1_inb L) _)) $$ H00
  ihave H01 := (Entails.of_eq (own_congr (F := F) d L (off5_zero L) _ (k0_off2_inb L) _)) $$ H01
  ihave Hr9 := (Entails.of_eq (row9At_pos (F := F) d L h9 _)) $$ Hr9
  -- the prologue: the indices fetched whole; the two opening copies out
  sl_exec
  have hfI : ∀ i, ((View.write (Elt F) (sI).view f0 (ReadAs.same.apply (View.read (Elt F) (aI).view (m (iLoc d)))) Finset.univ : Buf (Elt F) ((thrV d L).loc cc0_scratch0)) i).toNat < 100000 := by
    intro i; rw [View.write_whole_univ]; exact fetched_lt m d hpre i
  sl_unroll
  simp only [wp_bind]
  -- trip 0
  iapply (trip_zero (F := F) d L _ _ fAi fBi _ hfI fRi (m (oLoc d)) tt O _ _)
  isplitr; · iexact Hmw
  isplitl [Ht]; · iexact Ht
  isplitl [Hs0]; · iexact Hs0
  isplitl [Hs1]; · iexact Hs1
  isplitl [HsemA Hs2]
  · isplitl [HsemA]; · iexact HsemA
    iexact Hs2
  isplitl [HsemB Hs3]
  · isplitl [HsemB]; · iexact HsemB
    iexact Hs3
  isplitl [HsemR]; · iexact HsemR
  isplitl [H02]; · iexact H02
  isplitl [H03]; · iexact H03
  isplitl [HO]; · iexact HO
  iintro Hp
  unfold tripPost
  icases Hp with ⟨Ht, Hs0, ⟨%fR0, Hs1⟩, ⟨%g00, Hd00⟩, ⟨%g01, Hd01⟩, ⟨%gA0, %fA0, HflyA⟩, ⟨%gB0, %fB0, HflyB⟩, HsemR, ⟨%W0, %hW0, HO⟩⟩
  -- trip 1
  iapply (trip_next (F := F) d L T1 (ce1 L) (k0_off6 L T0) (k0_off7 L T0) (k0_off6_inb L T0 (ce0 L)) (k0_off7_inb L T0 (ce0 L)) gA0 gB0 fA0 fB0 _ hfI fR0 (m (oLoc d)) tt O W0 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr1]; · iexact Hr1
  isplitl [HO]; · iexact HO
  iintro ⟨Hp, Hd02, Hd03⟩
  unfold tripPost
  icases Hp with ⟨Ht, Hs0, ⟨%fR1, Hs1⟩, ⟨%g10, Hd10⟩, ⟨%g11, Hd11⟩, ⟨%gA1, %fA1, HflyA⟩, ⟨%gB1, %fB1, HflyB⟩, HsemR, ⟨%W1, %hW1, HO⟩⟩
  -- trip 2
  iapply (trip_next (F := F) d L T2 (ce2 L) (k0_off6 L T1) (k0_off7 L T1) (k0_off6_inb L T1 (ce1 L)) (k0_off7_inb L T1 (ce1 L)) gA1 gB1 fA1 fB1 _ hfI fR1 (m (oLoc d)) tt O W1 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr2]; · iexact Hr2
  isplitl [HO]; · iexact HO
  iintro ⟨Hp, Hd12, Hd13⟩
  unfold tripPost
  icases Hp with ⟨Ht, Hs0, ⟨%fR2, Hs1⟩, ⟨%g20, Hd20⟩, ⟨%g21, Hd21⟩, ⟨%gA2, %fA2, HflyA⟩, ⟨%gB2, %fB2, HflyB⟩, HsemR, ⟨%W2, %hW2, HO⟩⟩
  -- trip 3
  iapply (trip_next (F := F) d L T3 (ce3 L) (k0_off6 L T2) (k0_off7 L T2) (k0_off6_inb L T2 (ce2 L)) (k0_off7_inb L T2 (ce2 L)) gA2 gB2 fA2 fB2 _ hfI fR2 (m (oLoc d)) tt O W2 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr3]; · iexact Hr3
  isplitl [HO]; · iexact HO
  iintro ⟨Hp, Hd22, Hd23⟩
  unfold tripPost
  icases Hp with ⟨Ht, Hs0, ⟨%fR3, Hs1⟩, ⟨%g30, Hd30⟩, ⟨%g31, Hd31⟩, ⟨%gA3, %fA3, HflyA⟩, ⟨%gB3, %fB3, HflyB⟩, HsemR, ⟨%W3, %hW3, HO⟩⟩
  -- trip 4
  iapply (trip_next (F := F) d L T4 (ce4 L) (k0_off6 L T3) (k0_off7 L T3) (k0_off6_inb L T3 (ce3 L)) (k0_off7_inb L T3 (ce3 L)) gA3 gB3 fA3 fB3 _ hfI fR3 (m (oLoc d)) tt O W3 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr4]; · iexact Hr4
  isplitl [HO]; · iexact HO
  iintro ⟨Hp, Hd32, Hd33⟩
  unfold tripPost
  icases Hp with ⟨Ht, Hs0, ⟨%fR4, Hs1⟩, ⟨%g40, Hd40⟩, ⟨%g41, Hd41⟩, ⟨%gA4, %fA4, HflyA⟩, ⟨%gB4, %fB4, HflyB⟩, HsemR, ⟨%W4, %hW4, HO⟩⟩
  -- trip 5
  iapply (trip_next (F := F) d L T5 (ce5 L) (k0_off6 L T4) (k0_off7 L T4) (k0_off6_inb L T4 (ce4 L)) (k0_off7_inb L T4 (ce4 L)) gA4 gB4 fA4 fB4 _ hfI fR4 (m (oLoc d)) tt O W4 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr5]; · iexact Hr5
  isplitl [HO]; · iexact HO
  iintro ⟨Hp, Hd42, Hd43⟩
  unfold tripPost
  icases Hp with ⟨Ht, Hs0, ⟨%fR5, Hs1⟩, ⟨%g50, Hd50⟩, ⟨%g51, Hd51⟩, ⟨%gA5, %fA5, HflyA⟩, ⟨%gB5, %fB5, HflyB⟩, HsemR, ⟨%W5, %hW5, HO⟩⟩
  -- trip 6
  iapply (trip_next (F := F) d L T6 (ce6 L) (k0_off6 L T5) (k0_off7 L T5) (k0_off6_inb L T5 (ce5 L)) (k0_off7_inb L T5 (ce5 L)) gA5 gB5 fA5 fB5 _ hfI fR5 (m (oLoc d)) tt O W5 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr6]; · iexact Hr6
  isplitl [HO]; · iexact HO
  iintro ⟨Hp, Hd52, Hd53⟩
  unfold tripPost
  icases Hp with ⟨Ht, Hs0, ⟨%fR6, Hs1⟩, ⟨%g60, Hd60⟩, ⟨%g61, Hd61⟩, ⟨%gA6, %fA6, HflyA⟩, ⟨%gB6, %fB6, HflyB⟩, HsemR, ⟨%W6, %hW6, HO⟩⟩
  -- trip 7
  iapply (trip_next (F := F) d L T7 (ce7 L) (k0_off6 L T6) (k0_off7 L T6) (k0_off6_inb L T6 (ce6 L)) (k0_off7_inb L T6 (ce6 L)) gA6 gB6 fA6 fB6 _ hfI fR6 (m (oLoc d)) tt O W6 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr7]; · iexact Hr7
  isplitl [HO]; · iexact HO
  iintro ⟨Hp, Hd62, Hd63⟩
  unfold tripPost
  icases Hp with ⟨Ht, Hs0, ⟨%fR7, Hs1⟩, ⟨%g70, Hd70⟩, ⟨%g71, Hd71⟩, ⟨%gA7, %fA7, HflyA⟩, ⟨%gB7, %fB7, HflyB⟩, HsemR, ⟨%W7, %hW7, HO⟩⟩
  -- trip 8
  iapply (trip_next (F := F) d L T8 (ce8 L) (k0_off6 L T7) (k0_off7 L T7) (k0_off6_inb L T7 (ce7 L)) (k0_off7_inb L T7 (ce7 L)) gA7 gB7 fA7 fB7 _ hfI fR7 (m (oLoc d)) tt O W7 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr8]; · iexact Hr8
  isplitl [HO]; · iexact HO
  iintro ⟨Hp, Hd72, Hd73⟩
  unfold tripPost
  icases Hp with ⟨Ht, Hs0, ⟨%fR8, Hs1⟩, ⟨%g80, Hd80⟩, ⟨%g81, Hd81⟩, ⟨%gA8, %fA8, HflyA⟩, ⟨%gB8, %fB8, HflyB⟩, HsemR, ⟨%W8, %hW8, HO⟩⟩
  -- trip 9
  iapply (trip_next (F := F) d L T9 h9 (k0_off6 L T8) (k0_off7 L T8) (k0_off6_inb L T8 (ce8 L)) (k0_off7_inb L T8 (ce8 L)) gA8 gB8 fA8 fB8 _ hfI fR8 (m (oLoc d)) tt O W8 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr9]; · iexact Hr9
  isplitl [HO]; · iexact HO
  iintro ⟨Hp, Hd82, Hd83⟩
  unfold tripPost
  icases Hp with ⟨Ht, Hs0, ⟨%fR9, Hs1⟩, ⟨%g90, Hd90⟩, ⟨%g91, Hd91⟩, ⟨%gA9, %fA9, HflyA⟩, ⟨%gB9, %fB9, HflyB⟩, HsemR, ⟨%W9, %hW9, HO⟩⟩
  -- the last two copies out are waited for
  icases HflyA with ⟨HsemA, Hs2⟩
  icases HflyB with ⟨HsemB, Hs3⟩
  sl_exec
  sl_step
  unfold tdRes rowsEx
  isplitl [Hi Ht Hd00 Hd01 Hd02 Hd03 Hd10 Hd11 Hd12 Hd13 Hd20 Hd21 Hd22 Hd23 Hd30 Hd31 Hd32 Hd33 Hd40 Hd41 Hd42 Hd43 Hd50 Hd51 Hd52 Hd53 Hd60 Hd61 Hd62 Hd63 Hd70 Hd71 Hd72 Hd73 Hd80 Hd81 Hd82 Hd83 Hd90 Hd91 HsemA_dst HsemB_dst]
  · isplitl [Hi]; · iexact Hi
    isplitl [Ht]; · iexact Ht
    isplitl [Hd00 Hd01 Hd02 Hd03]
    · unfold rowEx
      isplitl [Hd00]; · iexists _; iexact Hd00
      isplitl [Hd01]; · iexists _; iexact Hd01
      isplitl [Hd02]; · iexists _; iexact Hd02
      iexists _; iexact Hd03
    isplitl [Hd10 Hd11 Hd12 Hd13]
    · unfold rowEx
      isplitl [Hd10]; · iexists _; iexact Hd10
      isplitl [Hd11]; · iexists _; iexact Hd11
      isplitl [Hd12]; · iexists _; iexact Hd12
      iexists _; iexact Hd13
    isplitl [Hd20 Hd21 Hd22 Hd23]
    · unfold rowEx
      isplitl [Hd20]; · iexists _; iexact Hd20
      isplitl [Hd21]; · iexists _; iexact Hd21
      isplitl [Hd22]; · iexists _; iexact Hd22
      iexists _; iexact Hd23
    isplitl [Hd30 Hd31 Hd32 Hd33]
    · unfold rowEx
      isplitl [Hd30]; · iexists _; iexact Hd30
      isplitl [Hd31]; · iexists _; iexact Hd31
      isplitl [Hd32]; · iexists _; iexact Hd32
      iexists _; iexact Hd33
    isplitl [Hd40 Hd41 Hd42 Hd43]
    · unfold rowEx
      isplitl [Hd40]; · iexists _; iexact Hd40
      isplitl [Hd41]; · iexists _; iexact Hd41
      isplitl [Hd42]; · iexists _; iexact Hd42
      iexists _; iexact Hd43
    isplitl [Hd50 Hd51 Hd52 Hd53]
    · unfold rowEx
      isplitl [Hd50]; · iexists _; iexact Hd50
      isplitl [Hd51]; · iexists _; iexact Hd51
      isplitl [Hd52]; · iexists _; iexact Hd52
      iexists _; iexact Hd53
    isplitl [Hd60 Hd61 Hd62 Hd63]
    · unfold rowEx
      isplitl [Hd60]; · iexists _; iexact Hd60
      isplitl [Hd61]; · iexists _; iexact Hd61
      isplitl [Hd62]; · iexists _; iexact Hd62
      iexists _; iexact Hd63
    isplitl [Hd70 Hd71 Hd72 Hd73]
    · unfold rowEx
      isplitl [Hd70]; · iexists _; iexact Hd70
      isplitl [Hd71]; · iexists _; iexact Hd71
      isplitl [Hd72]; · iexists _; iexact Hd72
      iexists _; iexact Hd73
    isplitl [Hd80 Hd81 Hd82 Hd83]
    · unfold rowEx
      isplitl [Hd80]; · iexists _; iexact Hd80
      isplitl [Hd81]; · iexists _; iexact Hd81
      isplitl [Hd82]; · iexists _; iexact Hd82
      iexists _; iexact Hd83
    rw [row9Ex_pos (F := F) d L h9]; unfold rowEx
    isplitl [Hd90]; · iexists _; iexact Hd90
    isplitl [Hd91]; · iexists _; iexact Hd91
    isplitl [HsemA_dst]; · iexists _; iexact HsemA_dst
    iexists _; iexact HsemB_dst
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [HsemA HsemB HsemI HsemR Hsems]
  · isplitl [HsemA]; · iexact HsemA
    isplitl [HsemB]; · iexact HsemB
    isplitl [HsemI]; · iexact HsemI
    isplitl [HsemR]; · iexact HsemR
    iexact Hsems
  iexists (insert (SemLoc.dma cc0_scratch5.sem, (default : HIx 1)) (insert (SemLoc.dma cc0_scratch4.sem, (default : HIx 1)) W9)); isplitr
  · ipureintro
    have k : ∀ p ∈ insert (SemLoc.dma cc0_scoped0.sem, (default : HIx 1)) W, p ∈ W ∨ p.2 = none :=
      fun p hp => (Finset.mem_insert.mp hp).elim (fun e => .inr (e ▸ rfl)) .inl
    have k : ∀ p ∈ W0, p ∈ W ∨ p.2 = none := fun p hp => (hW0 p hp).elim (k p) .inr
    have k : ∀ p ∈ W1, p ∈ W ∨ p.2 = none := fun p hp => (hW1 p hp).elim (k p) .inr
    have k : ∀ p ∈ W2, p ∈ W ∨ p.2 = none := fun p hp => (hW2 p hp).elim (k p) .inr
    have k : ∀ p ∈ W3, p ∈ W ∨ p.2 = none := fun p hp => (hW3 p hp).elim (k p) .inr
    have k : ∀ p ∈ W4, p ∈ W ∨ p.2 = none := fun p hp => (hW4 p hp).elim (k p) .inr
    have k : ∀ p ∈ W5, p ∈ W ∨ p.2 = none := fun p hp => (hW5 p hp).elim (k p) .inr
    have k : ∀ p ∈ W6, p ∈ W ∨ p.2 = none := fun p hp => (hW6 p hp).elim (k p) .inr
    have k : ∀ p ∈ W7, p ∈ W ∨ p.2 = none := fun p hp => (hW7 p hp).elim (k p) .inr
    have k : ∀ p ∈ W8, p ∈ W ∨ p.2 = none := fun p hp => (hW8 p hp).elim (k p) .inr
    have k : ∀ p ∈ W9, p ∈ W ∨ p.2 = none := fun p hp => (hW9 p hp).elim (k p) .inr
    intro p hp
    rcases Finset.mem_insert.mp hp with rfl | hp
    · exact .inr rfl
    rcases Finset.mem_insert.mp hp with rfl | hp
    · exact .inr rfl
    exact k p hp
  · iexact HO

set_option maxHeartbeats 4000000 in
theorem tile_body_neg (hF : (K (F := F)).Facts) (hpre : PreOK m) (hn : ¬ k0_cond1 L T9 = 1#1) (tt : Buf (Elt F) (tLoc d)) (O : CellTallies nD τ sig (HIx 1)) (W : Waits sig (HIx 1)) (hO : ∀ g, O g none = 0) :
    iprop(levAts (K (F := F)).L (K (F := F)).lev ∗ emp ∗ goRes m d L tt ∗ scopedBufs (thrV d L) ∗ scopedSems0 (thrV d L) ∗ owes (thrV d L) O W)
      ⊢ wp frame (wpE (defs₀ (F := F)) 𝒱₀ (thrV d L) none) Set.univ
          (cc0__gather_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1)
          fun _ => iprop(tdRes m d L tt ∗ scopedBufs (thrV d L) ∗ scopedSems0 (thrV d L)
            ∗ ∃ W', ⌜∀ p ∈ W', p ∈ W ∨ p.2 = none⌝ ∗ owes (thrV d L) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold goRes rowsAt
  iintro ⟨#Hlv, -, ⟨Hi, Ht, Hr0, Hr1, Hr2, Hr3, Hr4, Hr5, Hr6, Hr7, Hr8, Hr9⟩, ⟨⟨%f0, Hs0⟩, ⟨%fRi, Hs1⟩, ⟨%fAi, Hs2⟩, ⟨%fBi, Hs3⟩, Hbufs⟩, ⟨HsemA, HsemB, HsemI, HsemR, Hsems⟩, HO⟩
  ihave Hmw := ((K (F := F)).mayWaits_none (thr := thrV d L) hO) $$ Hlv
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hr0 := (Entails.of_eq (rowAt_def (F := F) d L _ _ _)) $$ Hr0
  icases Hr0 with ⟨H00, H01, H02, H03⟩
  ihave H00 := (Entails.of_eq (own_congr (F := F) d L (off4_zero L) _ (k0_off1_inb L) _)) $$ H00
  ihave H01 := (Entails.of_eq (own_congr (F := F) d L (off5_zero L) _ (k0_off2_inb L) _)) $$ H01
  ihave Hr9 := (Entails.of_eq (row9At_neg (F := F) d L hn _)) $$ Hr9
  -- the prologue: the indices fetched whole; the two opening copies out
  sl_exec
  have hfI : ∀ i, ((View.write (Elt F) (sI).view f0 (ReadAs.same.apply (View.read (Elt F) (aI).view (m (iLoc d)))) Finset.univ : Buf (Elt F) ((thrV d L).loc cc0_scratch0)) i).toNat < 100000 := by
    intro i; rw [View.write_whole_univ]; exact fetched_lt m d hpre i
  sl_unroll
  simp only [wp_bind]
  -- trip 0
  iapply (trip_zero (F := F) d L _ _ fAi fBi _ hfI fRi (m (oLoc d)) tt O _ _)
  isplitr; · iexact Hmw
  isplitl [Ht]; · iexact Ht
  isplitl [Hs0]; · iexact Hs0
  isplitl [Hs1]; · iexact Hs1
  isplitl [HsemA Hs2]
  · isplitl [HsemA]; · iexact HsemA
    iexact Hs2
  isplitl [HsemB Hs3]
  · isplitl [HsemB]; · iexact HsemB
    iexact Hs3
  isplitl [HsemR]; · iexact HsemR
  isplitl [H02]; · iexact H02
  isplitl [H03]; · iexact H03
  isplitl [HO]; · iexact HO
  iintro Hp
  unfold tripPost
  icases Hp with ⟨Ht, Hs0, ⟨%fR0, Hs1⟩, ⟨%g00, Hd00⟩, ⟨%g01, Hd01⟩, ⟨%gA0, %fA0, HflyA⟩, ⟨%gB0, %fB0, HflyB⟩, HsemR, ⟨%W0, %hW0, HO⟩⟩
  -- trip 1
  iapply (trip_next (F := F) d L T1 (ce1 L) (k0_off6 L T0) (k0_off7 L T0) (k0_off6_inb L T0 (ce0 L)) (k0_off7_inb L T0 (ce0 L)) gA0 gB0 fA0 fB0 _ hfI fR0 (m (oLoc d)) tt O W0 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr1]; · iexact Hr1
  isplitl [HO]; · iexact HO
  iintro ⟨Hp, Hd02, Hd03⟩
  unfold tripPost
  icases Hp with ⟨Ht, Hs0, ⟨%fR1, Hs1⟩, ⟨%g10, Hd10⟩, ⟨%g11, Hd11⟩, ⟨%gA1, %fA1, HflyA⟩, ⟨%gB1, %fB1, HflyB⟩, HsemR, ⟨%W1, %hW1, HO⟩⟩
  -- trip 2
  iapply (trip_next (F := F) d L T2 (ce2 L) (k0_off6 L T1) (k0_off7 L T1) (k0_off6_inb L T1 (ce1 L)) (k0_off7_inb L T1 (ce1 L)) gA1 gB1 fA1 fB1 _ hfI fR1 (m (oLoc d)) tt O W1 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr2]; · iexact Hr2
  isplitl [HO]; · iexact HO
  iintro ⟨Hp, Hd12, Hd13⟩
  unfold tripPost
  icases Hp with ⟨Ht, Hs0, ⟨%fR2, Hs1⟩, ⟨%g20, Hd20⟩, ⟨%g21, Hd21⟩, ⟨%gA2, %fA2, HflyA⟩, ⟨%gB2, %fB2, HflyB⟩, HsemR, ⟨%W2, %hW2, HO⟩⟩
  -- trip 3
  iapply (trip_next (F := F) d L T3 (ce3 L) (k0_off6 L T2) (k0_off7 L T2) (k0_off6_inb L T2 (ce2 L)) (k0_off7_inb L T2 (ce2 L)) gA2 gB2 fA2 fB2 _ hfI fR2 (m (oLoc d)) tt O W2 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr3]; · iexact Hr3
  isplitl [HO]; · iexact HO
  iintro ⟨Hp, Hd22, Hd23⟩
  unfold tripPost
  icases Hp with ⟨Ht, Hs0, ⟨%fR3, Hs1⟩, ⟨%g30, Hd30⟩, ⟨%g31, Hd31⟩, ⟨%gA3, %fA3, HflyA⟩, ⟨%gB3, %fB3, HflyB⟩, HsemR, ⟨%W3, %hW3, HO⟩⟩
  -- trip 4
  iapply (trip_next (F := F) d L T4 (ce4 L) (k0_off6 L T3) (k0_off7 L T3) (k0_off6_inb L T3 (ce3 L)) (k0_off7_inb L T3 (ce3 L)) gA3 gB3 fA3 fB3 _ hfI fR3 (m (oLoc d)) tt O W3 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr4]; · iexact Hr4
  isplitl [HO]; · iexact HO
  iintro ⟨Hp, Hd32, Hd33⟩
  unfold tripPost
  icases Hp with ⟨Ht, Hs0, ⟨%fR4, Hs1⟩, ⟨%g40, Hd40⟩, ⟨%g41, Hd41⟩, ⟨%gA4, %fA4, HflyA⟩, ⟨%gB4, %fB4, HflyB⟩, HsemR, ⟨%W4, %hW4, HO⟩⟩
  -- trip 5
  iapply (trip_next (F := F) d L T5 (ce5 L) (k0_off6 L T4) (k0_off7 L T4) (k0_off6_inb L T4 (ce4 L)) (k0_off7_inb L T4 (ce4 L)) gA4 gB4 fA4 fB4 _ hfI fR4 (m (oLoc d)) tt O W4 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr5]; · iexact Hr5
  isplitl [HO]; · iexact HO
  iintro ⟨Hp, Hd42, Hd43⟩
  unfold tripPost
  icases Hp with ⟨Ht, Hs0, ⟨%fR5, Hs1⟩, ⟨%g50, Hd50⟩, ⟨%g51, Hd51⟩, ⟨%gA5, %fA5, HflyA⟩, ⟨%gB5, %fB5, HflyB⟩, HsemR, ⟨%W5, %hW5, HO⟩⟩
  -- trip 6
  iapply (trip_next (F := F) d L T6 (ce6 L) (k0_off6 L T5) (k0_off7 L T5) (k0_off6_inb L T5 (ce5 L)) (k0_off7_inb L T5 (ce5 L)) gA5 gB5 fA5 fB5 _ hfI fR5 (m (oLoc d)) tt O W5 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr6]; · iexact Hr6
  isplitl [HO]; · iexact HO
  iintro ⟨Hp, Hd52, Hd53⟩
  unfold tripPost
  icases Hp with ⟨Ht, Hs0, ⟨%fR6, Hs1⟩, ⟨%g60, Hd60⟩, ⟨%g61, Hd61⟩, ⟨%gA6, %fA6, HflyA⟩, ⟨%gB6, %fB6, HflyB⟩, HsemR, ⟨%W6, %hW6, HO⟩⟩
  -- trip 7
  iapply (trip_next (F := F) d L T7 (ce7 L) (k0_off6 L T6) (k0_off7 L T6) (k0_off6_inb L T6 (ce6 L)) (k0_off7_inb L T6 (ce6 L)) gA6 gB6 fA6 fB6 _ hfI fR6 (m (oLoc d)) tt O W6 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr7]; · iexact Hr7
  isplitl [HO]; · iexact HO
  iintro ⟨Hp, Hd62, Hd63⟩
  unfold tripPost
  icases Hp with ⟨Ht, Hs0, ⟨%fR7, Hs1⟩, ⟨%g70, Hd70⟩, ⟨%g71, Hd71⟩, ⟨%gA7, %fA7, HflyA⟩, ⟨%gB7, %fB7, HflyB⟩, HsemR, ⟨%W7, %hW7, HO⟩⟩
  -- trip 8
  iapply (trip_next (F := F) d L T8 (ce8 L) (k0_off6 L T7) (k0_off7 L T7) (k0_off6_inb L T7 (ce7 L)) (k0_off7_inb L T7 (ce7 L)) gA7 gB7 fA7 fB7 _ hfI fR7 (m (oLoc d)) tt O W7 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr8]; · iexact Hr8
  isplitl [HO]; · iexact HO
  iintro ⟨Hp, Hd72, Hd73⟩
  unfold tripPost
  icases Hp with ⟨Ht, Hs0, ⟨%fR8, Hs1⟩, ⟨%g80, Hd80⟩, ⟨%g81, Hd81⟩, ⟨%gA8, %fA8, HflyA⟩, ⟨%gB8, %fB8, HflyB⟩, HsemR, ⟨%W8, %hW8, HO⟩⟩
  -- trip 9: the tile has no tenth row
  iapply (trip_skip (F := F) d L T9 hn _)
  -- the last two copies out are waited for
  icases HflyA with ⟨HsemA, Hs2⟩
  icases HflyB with ⟨HsemB, Hs3⟩
  sl_exec
  sl_step
  unfold tdRes rowsEx
  isplitl [Hi Ht Hd00 Hd01 Hd02 Hd03 Hd10 Hd11 Hd12 Hd13 Hd20 Hd21 Hd22 Hd23 Hd30 Hd31 Hd32 Hd33 Hd40 Hd41 Hd42 Hd43 Hd50 Hd51 Hd52 Hd53 Hd60 Hd61 Hd62 Hd63 Hd70 Hd71 Hd72 Hd73 Hd80 Hd81 HsemA_dst HsemB_dst]
  · isplitl [Hi]; · iexact Hi
    isplitl [Ht]; · iexact Ht
    isplitl [Hd00 Hd01 Hd02 Hd03]
    · unfold rowEx
      isplitl [Hd00]; · iexists _; iexact Hd00
      isplitl [Hd01]; · iexists _; iexact Hd01
      isplitl [Hd02]; · iexists _; iexact Hd02
      iexists _; iexact Hd03
    isplitl [Hd10 Hd11 Hd12 Hd13]
    · unfold rowEx
      isplitl [Hd10]; · iexists _; iexact Hd10
      isplitl [Hd11]; · iexists _; iexact Hd11
      isplitl [Hd12]; · iexists _; iexact Hd12
      iexists _; iexact Hd13
    isplitl [Hd20 Hd21 Hd22 Hd23]
    · unfold rowEx
      isplitl [Hd20]; · iexists _; iexact Hd20
      isplitl [Hd21]; · iexists _; iexact Hd21
      isplitl [Hd22]; · iexists _; iexact Hd22
      iexists _; iexact Hd23
    isplitl [Hd30 Hd31 Hd32 Hd33]
    · unfold rowEx
      isplitl [Hd30]; · iexists _; iexact Hd30
      isplitl [Hd31]; · iexists _; iexact Hd31
      isplitl [Hd32]; · iexists _; iexact Hd32
      iexists _; iexact Hd33
    isplitl [Hd40 Hd41 Hd42 Hd43]
    · unfold rowEx
      isplitl [Hd40]; · iexists _; iexact Hd40
      isplitl [Hd41]; · iexists _; iexact Hd41
      isplitl [Hd42]; · iexists _; iexact Hd42
      iexists _; iexact Hd43
    isplitl [Hd50 Hd51 Hd52 Hd53]
    · unfold rowEx
      isplitl [Hd50]; · iexists _; iexact Hd50
      isplitl [Hd51]; · iexists _; iexact Hd51
      isplitl [Hd52]; · iexists _; iexact Hd52
      iexists _; iexact Hd53
    isplitl [Hd60 Hd61 Hd62 Hd63]
    · unfold rowEx
      isplitl [Hd60]; · iexists _; iexact Hd60
      isplitl [Hd61]; · iexists _; iexact Hd61
      isplitl [Hd62]; · iexists _; iexact Hd62
      iexists _; iexact Hd63
    isplitl [Hd70 Hd71 Hd72 Hd73]
    · unfold rowEx
      isplitl [Hd70]; · iexists _; iexact Hd70
      isplitl [Hd71]; · iexists _; iexact Hd71
      isplitl [Hd72]; · iexists _; iexact Hd72
      iexists _; iexact Hd73
    isplitl [Hd80 Hd81 HsemA_dst HsemB_dst]
    · unfold rowEx
      isplitl [Hd80]; · iexists _; iexact Hd80
      isplitl [Hd81]; · iexists _; iexact Hd81
      isplitl [HsemA_dst]; · iexists _; iexact HsemA_dst
      iexists _; iexact HsemB_dst
    rw [row9Ex_neg (F := F) d L hn]
    iempintro
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [HsemA HsemB HsemI HsemR Hsems]
  · isplitl [HsemA]; · iexact HsemA
    isplitl [HsemB]; · iexact HsemB
    isplitl [HsemI]; · iexact HsemI
    isplitl [HsemR]; · iexact HsemR
    iexact Hsems
  iexists (insert (SemLoc.dma cc0_scratch5.sem, (default : HIx 1)) (insert (SemLoc.dma cc0_scratch4.sem, (default : HIx 1)) W8)); isplitr
  · ipureintro
    have k : ∀ p ∈ insert (SemLoc.dma cc0_scoped0.sem, (default : HIx 1)) W, p ∈ W ∨ p.2 = none :=
      fun p hp => (Finset.mem_insert.mp hp).elim (fun e => .inr (e ▸ rfl)) .inl
    have k : ∀ p ∈ W0, p ∈ W ∨ p.2 = none := fun p hp => (hW0 p hp).elim (k p) .inr
    have k : ∀ p ∈ W1, p ∈ W ∨ p.2 = none := fun p hp => (hW1 p hp).elim (k p) .inr
    have k : ∀ p ∈ W2, p ∈ W ∨ p.2 = none := fun p hp => (hW2 p hp).elim (k p) .inr
    have k : ∀ p ∈ W3, p ∈ W ∨ p.2 = none := fun p hp => (hW3 p hp).elim (k p) .inr
    have k : ∀ p ∈ W4, p ∈ W ∨ p.2 = none := fun p hp => (hW4 p hp).elim (k p) .inr
    have k : ∀ p ∈ W5, p ∈ W ∨ p.2 = none := fun p hp => (hW5 p hp).elim (k p) .inr
    have k : ∀ p ∈ W6, p ∈ W ∨ p.2 = none := fun p hp => (hW6 p hp).elim (k p) .inr
    have k : ∀ p ∈ W7, p ∈ W ∨ p.2 = none := fun p hp => (hW7 p hp).elim (k p) .inr
    have k : ∀ p ∈ W8, p ∈ W ∨ p.2 = none := fun p hp => (hW8 p hp).elim (k p) .inr
    intro p hp
    rcases Finset.mem_insert.mp hp with rfl | hp
    · exact .inr rfl
    rcases Finset.mem_insert.mp hp with rfl | hp
    · exact .inr rfl
    exact k p hp
  · iexact HO

/-- A tile's task. -/
theorem tile_body (hF : (K (F := F)).Facts) (hpre : PreOK m) (tt : Buf (Elt F) (tLoc d)) (O : CellTallies nD τ sig (HIx 1)) (W : Waits sig (HIx 1)) (hO : ∀ g, O g none = 0) :
    iprop(levAts (K (F := F)).L (K (F := F)).lev ∗ emp ∗ goRes m d L tt ∗ scopedBufs (thrV d L) ∗ scopedSems0 (thrV d L) ∗ owes (thrV d L) O W)
      ⊢ wp frame (wpE (defs₀ (F := F)) 𝒱₀ (thrV d L) none) Set.univ
          (cc0__gather_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1)
          fun _ => iprop(tdRes m d L tt ∗ scopedBufs (thrV d L) ∗ scopedSems0 (thrV d L)
            ∗ ∃ W', ⌜∀ p ∈ W', p ∈ W ∨ p.2 = none⌝ ∗ owes (thrV d L) O W') := by
  by_cases h9 : k0_cond1 L T9 = 1#1
  · exact tile_body_pos m d L hF hpre h9 tt O W hO
  · exact tile_body_neg m d L hF hpre h9 tt O W hO

end Tile

/-! ## The launch theorem's obligation -/

theorem defs₀_vector (c : Fin τ.nSC) (s : Fin τ.nSub) :
    defs₀ (F := F) (.scVector c s) 0 ()
      = SparseCore.onTile hcore0 hsub0 (fun c s => cc0__gather_body (coordsV c s)
          aI (Memref.isWhole_whole _) aT (Memref.isWhole_whole _) aO (Memref.isWhole_whole _)
          sI (Memref.isWhole_whole _) sR (Memref.isWhole_whole _) sA (Memref.isWhole_whole _) sB (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call: the tile's body at the task's grid coordinates. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre (ttOf m d) O W hO).trans (wp_mono frame _ _ fun _ => obl_post)

end Cert.Proof.KB

end
-- ==== Proof.KI.Setup.lean ====
/-
  The vocabulary of the lookup kernel's run. The device's thirty-two vector subcores each run the body once; subcore
  `s` of core `c` is tile number `w = 2 s + c` and moves the rows `j = w + 32 t` (`t < 10`, `j < 300`) of the
  TRANSPOSED table: row `j` is fetched whole into a scratch, gathered at the fetched indices sixteen lanes at a time
  into one of two staging chunks of 4096 words, and each chunk is copied out to columns `[4096 k, 4096 (k + 1))` of row
  `j` of the result (`k < 4`), the copy on the chunk's own semaphore, waited for before the chunk is written again.
  So every element `(j, i)` of the 300 × 16384 result belongs to exactly one (tile, trip, chunk): the result is dealt to
  the tiles chunk by chunk, the indices and the transposed table as read shares. Stated here: the places, a chunk as
  the program slices it, what a tile is handed and what it hands back, and the call's payloads.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203175_g23072564314740_cont_8to1_266_38_alg».proof.Proof.Gen.KernelIdeal
import proofs.«203175_g23072564314740_cont_8to1_266_38_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The places -/

variable (m : (ℓ : Loc nD τ sig) → Buf (Elt F) ℓ) (ρ : Dev nD → PrngReg)

/-- The indices, the table, the transposed table, the kernel's result (300 × 16384) and the program's result, as
    locations of device `d`. -/
abbrev iLoc (d : Dev nD) : Loc nD τ sig := (SparseCore.T d).loc main_arg0
abbrev bLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

-- the kernel's memrefs, spelt as the body table passes them
abbrev aI : Memref sig .scVector .hbm S16384 .i32 := Memref.whole main_arg0_scv
abbrev aT : Memref sig .scVector .hbm S300x100000 .f32 := Memref.whole main_v0_scv
abbrev aO : Memref sig .scVector .hbm S300x16384 .f32 := Memref.whole main_v1_scv
abbrev sI : Memref sig .scVector .vmem S16384 .i32 := Memref.whole cc0_scratch0
abbrev sR : Memref sig .scVector .vmem S100000 .f32 := Memref.whole cc0_scratch1
abbrev sA : Memref sig .scVector .vmem S4096 .f32 := Memref.whole cc0_scratch2
abbrev sB : Memref sig .scVector .vmem S4096 .f32 := Memref.whole cc0_scratch3

/-! ## Tiles, trips, chunks -/

abbrev cV (L : grid0.Coords) : Fin τ.nSC := (L 0).castLE hcore0
abbrev jV (L : grid0.Coords) : Fin τ.nSub := (L 1).castLE hsub0
/-- The thread of the tile at grid coordinates `L`. -/
abbrev thrV (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

abbrev Trip : Type := Fin k0_t1_loop.trips

/-- The first nine trips run at every tile: `w + 32 t ≤ 31 + 256 < 300`. -/
theorem cond_early : ∀ (L : grid0.Coords) (t : Trip), t.val < 9 → k0_cond1 L t = 1#1 := by decide +kernel

/-- Chunk `k` of the row of trip `t`, as the body slices it out of the result (the four offset functions of the body's
    four copies out), and the two chunks the opening copies land in (row `w`, chunks 0 and 1). -/
abbrev chunk (o : Fin 2 → Nat) (h : ∀ a, o a + S1x4096.size a ≤ S300x16384.size a) : Memref sig .scVector .hbm S4096 .f32 :=
  ((aO).slice (Rect.unit (s := S300x16384) o S1x4096.size h) (fun _ => rfl)).squeeze S4096 squeezes_S1x4096_S4096
abbrev ch0 (L : grid0.Coords) (t : Trip) (h : k0_cond1 L t = 1#1) : Memref sig .scVector .hbm S4096 .f32 := chunk (k0_off4 L t) (k0_off4_inb L t h)
abbrev ch1 (L : grid0.Coords) (t : Trip) (h : k0_cond1 L t = 1#1) : Memref sig .scVector .hbm S4096 .f32 := chunk (k0_off5 L t) (k0_off5_inb L t h)
abbrev ch2 (L : grid0.Coords) (t : Trip) (h : k0_cond1 L t = 1#1) : Memref sig .scVector .hbm S4096 .f32 := chunk (k0_off6 L t) (k0_off6_inb L t h)
abbrev ch3 (L : grid0.Coords) (t : Trip) (h : k0_cond1 L t = 1#1) : Memref sig .scVector .hbm S4096 .f32 := chunk (k0_off7 L t) (k0_off7_inb L t h)
abbrev pc0 (L : grid0.Coords) : Memref sig .scVector .hbm S4096 .f32 := chunk (k0_off1 L) (k0_off1_inb L)
abbrev pc1 (L : grid0.Coords) : Memref sig .scVector .hbm S4096 .f32 := chunk (k0_off2 L) (k0_off2_inb L)

variable [FloatOps F]

/-- A chunk of the result held outright: the elements of its memref, as the tile's thread addresses them. -/
abbrev own (d : Dev nD) (L : grid0.Coords) (M : Memref sig .scVector .hbm S4096 .f32) (f : Buf (Elt F) (M.view.loc (thrV d L))) : sProp 𝕄 :=
  M.view.loc (thrV d L) ↦[M.view.set]{fullShare} f

/-- The four chunks of trip `t`'s row, at contents `f`; and at whatever they hold. -/
def rowAt (d : Dev nD) (L : grid0.Coords) (t : Trip) (h : k0_cond1 L t = 1#1) (f : Buf (Elt F) (oLoc d)) : sProp 𝕄 :=
  iprop(own d L (ch0 L t h) f ∗ own d L (ch1 L t h) f ∗ own d L (ch2 L t h) f ∗ own d L (ch3 L t h) f)
def rowEx (d : Dev nD) (L : grid0.Coords) (t : Trip) (h : k0_cond1 L t = 1#1) : sProp 𝕄 :=
  iprop((∃ f : Buf (Elt F) (oLoc d), own d L (ch0 L t h) f) ∗ (∃ f : Buf (Elt F) (oLoc d), own d L (ch1 L t h) f)
    ∗ (∃ f : Buf (Elt F) (oLoc d), own d L (ch2 L t h) f) ∗ (∃ f : Buf (Elt F) (oLoc d), own d L (ch3 L t h) f))

/-- The trips by number. -/
abbrev tr (n : Nat) (h : n < k0_t1_loop.trips := by decide) : Trip := ⟨n, h⟩

/-- The tile's read share of an array every tile reads: the core's token of the whole, the tile's token of that. -/
abbrev tileShare (L : grid0.Coords) : PosShare TreeShare :=
  Transfers.shareTok (Transfers.shareTok fullShare (grid0.bound 0) (L 0)) (grid0.bound 1) (L 1)

/-- The tile's read shares of the indices and of the transposed table. -/
abbrev idxTok (d : Dev nD) (L : grid0.Coords) : sProp 𝕄 := (aI).view.loc (thrV d L) ↦{tileShare L} m (iLoc d)
abbrev tabTok (d : Dev nD) (L : grid0.Coords) (tt : Buf (Elt F) (tLoc d)) : sProp 𝕄 := (aT).view.loc (thrV d L) ↦{tileShare L} tt

/-- The tenth trip's row, at the tiles that have one. -/
def row9At (d : Dev nD) (L : grid0.Coords) (f : Buf (Elt F) (oLoc d)) : sProp 𝕄 :=
  if h : k0_cond1 L (tr 9) = 1#1 then rowAt d L (tr 9) h f else iprop(emp)
def row9Ex (d : Dev nD) (L : grid0.Coords) : sProp 𝕄 :=
  if h : k0_cond1 L (tr 9) = 1#1 then rowEx (F := F) d L (tr 9) h else iprop(emp)

/-- The rows of the nine trips every tile runs, and of the tenth where it runs. -/
def rowsAt (d : Dev nD) (L : grid0.Coords) (f : Buf (Elt F) (oLoc d)) : sProp 𝕄 :=
  iprop(rowAt d L (tr 0) (cond_early L _ (by decide)) f ∗ rowAt d L (tr 1) (cond_early L _ (by decide)) f ∗ rowAt d L (tr 2) (cond_early L _ (by decide)) f
    ∗ rowAt d L (tr 3) (cond_early L _ (by decide)) f ∗ rowAt d L (tr 4) (cond_early L _ (by decide)) f ∗ rowAt d L (tr 5) (cond_early L _ (by decide)) f
    ∗ rowAt d L (tr 6) (cond_early L _ (by decide)) f ∗ rowAt d L (tr 7) (cond_early L _ (by decide)) f ∗ rowAt d L (tr 8) (cond_early L _ (by decide)) f
    ∗ row9At d L f)
def rowsEx (d : Dev nD) (L : grid0.Coords) : sProp 𝕄 :=
  iprop(rowEx (F := F) d L (tr 0) (cond_early L _ (by decide)) ∗ rowEx (F := F) d L (tr 1) (cond_early L _ (by decide)) ∗ rowEx (F := F) d L (tr 2) (cond_early L _ (by decide))
    ∗ rowEx (F := F) d L (tr 3) (cond_early L _ (by decide)) ∗ rowEx (F := F) d L (tr 4) (cond_early L _ (by decide)) ∗ rowEx (F := F) d L (tr 5) (cond_early L _ (by decide))
    ∗ rowEx (F := F) d L (tr 6) (cond_early L _ (by decide)) ∗ rowEx (F := F) d L (tr 7) (cond_early L _ (by decide)) ∗ rowEx (F := F) d L (tr 8) (cond_early L _ (by decide))
    ∗ row9Ex (F := F) d L)

/-- What a tile is handed — its read shares and its rows at the result's launch contents — and what it hands back: the
    shares, and its rows at what it wrote. `tt` is the transposed table as @main computed it. -/
def goRes (d : Dev nD) (L : grid0.Coords) (tt : Buf (Elt F) (tLoc d)) : sProp 𝕄 :=
  iprop(idxTok m d L ∗ tabTok d L tt ∗ rowsAt d L (m (oLoc d)))
def tdRes (d : Dev nD) (L : grid0.Coords) (tt : Buf (Elt F) (tLoc d)) : sProp 𝕄 :=
  iprop(idxTok m d L ∗ tabTok d L tt ∗ rowsEx (F := F) d L)

/-- The grid coordinates of task `i` of core `c` of the call. -/
def LL (c : Fin ((K (F := F)).nCore 0)) (i : Fin ((K (F := F)).nSub 0)) : grid0.Coords :=
  coordsV ⟨((K (F := F)).core 0 c).val, c.isLt⟩ ⟨((K (F := F)).sub 0 i).val, i.isLt⟩

end Cert.Proof.KI

end
-- ==== Proof.KI.Pay.lean ====
/-
  What the one call carries. The TensorCore hands each core its sixteen tiles' resources — each tile's read shares of
  the indices and of the transposed table and its rows of the result at the launch contents — and takes them back
  with the rows at what the tiles wrote; a core's sequencer passes each tile its own and nothing else, so the split
  among the tiles is the regrouping of a product.
-/
import proofs.«203175_g23072564314740_cont_8to1_266_38_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- The transposed table, as @main's first operation computes it from the table's launch contents. -/
def ttOf (d : Dev nD) : Buf (Elt F) (tLoc d) :=
  (transpose S300x100000 [1, 0] · transposes_S100000x300_S300x100000_1_0) (m (bLoc d))

/-- All of a core's tiles' resources, in and out. -/
def coreGo (d : Dev nD) (c : Fin ((K (F := F)).nCore 0)) : sProp 𝕄 :=
  bigSep Finset.univ fun i : Fin ((K (F := F)).nSub 0) => goRes m d (LL (F := F) c i) (ttOf m d)
def coreTd (d : Dev nD) (c : Fin ((K (F := F)).nCore 0)) : sProp 𝕄 :=
  bigSep Finset.univ fun i : Fin ((K (F := F)).nSub 0) => tdRes m d (LL (F := F) c i) (ttOf m d)

def P : (K (F := F)).Pay (nD := nD) (Val := Elt F) (Name := ℕ) (U := UU) where
  st := fun q d c => match q with | 0 => coreGo m d c
  dn := fun q d c => match q with | 0 => coreTd m d c
  go := fun q d c i => match q with | 0 => goRes m d (LL (F := F) c i) (ttOf m d)
  td := fun q d c i => match q with | 0 => tdRes m d (LL (F := F) c i) (ttOf m d)
  x := fun _ _ => iprop(emp)

instance rowAt_storable (d : Dev nD) (L : grid0.Coords) (t : Trip) (h : k0_cond1 L t = 1#1) (f : Buf (Elt F) (oLoc d)) : BI.Storable (upEmb : UEmb _ 𝕄) (rowAt d L t h f) := by
  unfold rowAt; infer_instance
instance rowEx_storable (d : Dev nD) (L : grid0.Coords) (t : Trip) (h : k0_cond1 L t = 1#1) : BI.Storable (upEmb : UEmb _ 𝕄) (rowEx (F := F) d L t h) := by
  unfold rowEx; infer_instance
instance row9At_storable (d : Dev nD) (L : grid0.Coords) (f : Buf (Elt F) (oLoc d)) : BI.Storable (upEmb : UEmb _ 𝕄) (row9At d L f) := by
  unfold row9At; split <;> infer_instance
instance row9Ex_storable (d : Dev nD) (L : grid0.Coords) : BI.Storable (upEmb : UEmb _ 𝕄) (row9Ex (F := F) d L) := by
  unfold row9Ex; split <;> infer_instance
set_option synthInstance.maxSize 4096 in
instance rowsAt_storable (d : Dev nD) (L : grid0.Coords) (f : Buf (Elt F) (oLoc d)) : BI.Storable (upEmb : UEmb _ 𝕄) (rowsAt d L f) := by
  unfold rowsAt; infer_instance
set_option synthInstance.maxSize 4096 in
instance rowsEx_storable (d : Dev nD) (L : grid0.Coords) : BI.Storable (upEmb : UEmb _ 𝕄) (rowsEx (F := F) d L) := by
  unfold rowsEx; infer_instance
instance goRes_storable (d : Dev nD) (L : grid0.Coords) (tt : Buf (Elt F) (tLoc d)) : BI.Storable (upEmb : UEmb _ 𝕄) (goRes m d L tt) := by
  unfold goRes; infer_instance
instance tdRes_storable (d : Dev nD) (L : grid0.Coords) (tt : Buf (Elt F) (tLoc d)) : BI.Storable (upEmb : UEmb _ 𝕄) (tdRes m d L tt) := by
  unfold tdRes; infer_instance

instance P_storable : (P (F := F) m).IsStorable where
  st q d c := match q with | 0 => by show BI.Storable _ (coreGo m d c); unfold coreGo; infer_instance
  dn q d c := match q with | 0 => by show BI.Storable _ (coreTd m d c); unfold coreTd; infer_instance
  go q d c i := match q with | 0 => by show BI.Storable _ (goRes m d _ _); infer_instance
  td q d c i := match q with | 0 => by show BI.Storable _ (tdRes m d _ _); infer_instance

/-- The split among a core's tiles: the core's payload IS its tiles' payloads side by side. -/
theorem vecSplit : (K (F := F)).VecSplit' (P m) 0 := by
  intro d c
  show coreGo m d c ⊢ |={Set.univ}=> iprop((bigSep Finset.univ fun i : Fin ((K (F := F)).nSub 0) => goRes m d (LL (F := F) c i) (ttOf m d))
    ∗ ((bigSep Finset.univ fun i : Fin ((K (F := F)).nSub 0) => tdRes m d (LL (F := F) c i) (ttOf m d)) -∗ coreTd m d c))
  unfold coreGo coreTd
  iintro H; imodintro
  isplitl [H]; · iexact H
  iintro H; iexact H

end Cert.Proof.KI

end
-- ==== Proof.KI.Split.lean ====
/-
  How the three arrays of the call split among the thirty-two tiles and join back. The two arrays every tile reads go
  out as read shares: the whole is what no core's token covers, and per core what no tile's token covers, and every
  tile's token. The 300 × 16384 result goes out chunk by chunk: tile `w = 2 s + c` owns, of each row `j = w + 32 t`
  (`j < 300`), the four runs of 4096 columns; every element `(j, i)` lies in exactly one such chunk — `w = j mod 32`,
  `t = j / 32`, `k = i / 4096` —, so the chunks are pairwise disjoint and cover the array.
-/
import proofs.«203175_g23072564314740_cont_8to1_266_38_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## The read shares -/

/-- What is left of a fully held array after every tile's read share is taken: the part no core's token covers, and
    of each core's token the part no tile's covers. -/
def shareRem (ℓ : Loc nD τ sig) (g : Buf (Elt F) ℓ) : sProp 𝕄 :=
  iprop((ℓ ↦{Transfers.shareDrop fullShare (grid0.bound 0)} g)
    ∗ bigSep Finset.univ fun c : Fin (grid0.bound 0) => ℓ ↦{Transfers.shareDrop (Transfers.shareTok fullShare (grid0.bound 0) c) (grid0.bound 1)} g)

omit [FloatOps F] in
/-- The same split over the grid's own index types. -/
theorem shares_split₀ (ℓ : Loc nD τ sig) (g : Buf (Elt F) ℓ) :
    (ℓ ↦{fullShare} g : sProp 𝕄) ⊣⊢ iprop(shareRem ℓ g
      ∗ bigSep Finset.univ fun c : Fin (grid0.bound 0) => bigSep Finset.univ fun i : Fin (grid0.bound 1) =>
          ℓ ↦{Transfers.shareTok (Transfers.shareTok fullShare (grid0.bound 0) c) (grid0.bound 1) i} g) := by
  have h2 : (ℓ ↦{fullShare} g : sProp 𝕄) ⊣⊢ iprop((ℓ ↦{Transfers.shareDrop fullShare (grid0.bound 0)} g)
      ∗ bigSep Finset.univ fun c : Fin (grid0.bound 0) => ℓ ↦{Transfers.shareTok fullShare (grid0.bound 0) c} g) := Transfers.pointsTo_toks _ _
  have h16 : ∀ c : Fin (grid0.bound 0), (ℓ ↦{Transfers.shareTok fullShare (grid0.bound 0) c} g : sProp 𝕄)
      ⊣⊢ iprop((ℓ ↦{Transfers.shareDrop (Transfers.shareTok fullShare (grid0.bound 0) c) (grid0.bound 1)} g)
        ∗ bigSep Finset.univ fun i : Fin (grid0.bound 1) => ℓ ↦{Transfers.shareTok (Transfers.shareTok fullShare (grid0.bound 0) c) (grid0.bound 1) i} g) :=
    fun c => Transfers.pointsTo_toks _ _
  unfold shareRem
  constructor
  · refine h2.1.trans ((sep_mono_right (bigSep_mono fun c _ => (h16 c).1)).trans ?_)
    rw [bigSep_sep']
    iintro ⟨Hd, Hc, Ht⟩
    isplitl [Hd Hc]; · isplitl [Hd]; · iexact Hd
                       iexact Hc
    iexact Ht
  · refine BIBase.Entails.trans ?_ ((sep_mono_right (bigSep_mono fun c _ => (h16 c).2)).trans h2.2)
    rw [bigSep_sep']
    iintro ⟨⟨Hd, Hc⟩, Ht⟩
    isplitl [Hd]; · iexact Hd
    isplitl [Hc]; · iexact Hc
    iexact Ht

omit [FloatOps F] in
/-- An array every tile reads: held whole, it is the remainder and every tile's read share. -/
theorem shares_split (ℓ : Loc nD τ sig) (g : Buf (Elt F) ℓ) :
    (ℓ ↦{fullShare} g : sProp 𝕄) ⊣⊢ iprop(shareRem ℓ g
      ∗ bigSep Finset.univ fun c : Fin ((K (F := F)).nCore 0) => bigSep Finset.univ fun i : Fin ((K (F := F)).nSub 0) =>
          ℓ ↦{tileShare (LL (F := F) c i)} g) :=
  shares_split₀ ℓ g

/-! ## The result, chunk by chunk -/

/-- Columns `[4096 k, 4096 (k + 1))` of row `j` of the result (no element when `300 ≤ j`). -/
def cellSet (j k : ℕ) : Finset S300x16384.Idx :=
  Finset.univ.filter fun x => (x 0 : ℕ) = j ∧ 4096 * k ≤ (x 1 : ℕ) ∧ (x 1 : ℕ) < 4096 * k + 4096

theorem mem_cellSet {j k : ℕ} {x : S300x16384.Idx} :
    x ∈ cellSet j k ↔ (x 0 : ℕ) = j ∧ 4096 * k ≤ (x 1 : ℕ) ∧ (x 1 : ℕ) < 4096 * k + 4096 := by
  simp [cellSet]

theorem cellSet_empty {j k : ℕ} (hj : 300 ≤ j) : cellSet j k = ∅ := by
  ext x
  simp only [mem_cellSet, Finset.notMem_empty, iff_false]
  have h0 : (x 0 : ℕ) < 300 := (x 0).isLt
  omega

/-- The rectangle of one row and 4096 columns at `![j, 4096 k]` is that run. -/
theorem unit_set (j k : ℕ) (h : ∀ a, (![j, 4096 * k] : Fin 2 → ℕ) a + S1x4096.size a ≤ S300x16384.size a) :
    (Rect.unit (s := S300x16384) ![j, 4096 * k] S1x4096.size h).set = cellSet j k := by
  ext x
  rw [Rect.mem_set_unit, mem_cellSet]
  constructor
  · intro hx
    have h0 := hx 0
    have h1 := hx 1
    change j ≤ (x 0 : ℕ) ∧ (x 0 : ℕ) < j + 1 at h0
    change 4096 * k ≤ (x 1 : ℕ) ∧ (x 1 : ℕ) < 4096 * k + 4096 at h1
    omega
  · intro hx a
    match a with
    | 0 => change j ≤ (x 0 : ℕ) ∧ (x 0 : ℕ) < j + 1; omega
    | 1 => change 4096 * k ≤ (x 1 : ℕ) ∧ (x 1 : ℕ) < 4096 * k + 4096; omega

/-- A chunk's elements, as the tile's memref addresses them, are its rectangle's. -/
theorem chunk_set (o : Fin 2 → Nat) (h : ∀ a, o a + S1x4096.size a ≤ S300x16384.size a) :
    (chunk o h).view.set = (Rect.unit (s := S300x16384) o S1x4096.size h).set := by
  show (((aO).view.slice (Rect.unit (s := S300x16384) o S1x4096.size h)).reshape S4096 squeezes_S1x4096_S4096.numel_eq).set = _
  rw [View.set_reshape]
  exact View.set_slice_whole _ _

theorem chunk_cell (o : Fin 2 → Nat) (h : ∀ a, o a + S1x4096.size a ≤ S300x16384.size a) (j k : ℕ) (ho : o = ![j, 4096 * k]) :
    (chunk o h).view.set = cellSet j k := by
  subst ho; rw [chunk_set, unit_set]

/-- A chunk held outright is the result held on its run of columns. -/
theorem own_cell (d : Dev nD) (L : grid0.Coords) (o : Fin 2 → Nat) (h : ∀ a, o a + S1x4096.size a ≤ S300x16384.size a) (j k : ℕ)
    (ho : o = ![j, 4096 * k]) (f : Buf (Elt F) (oLoc d)) :
    own d L (chunk o h) f = (oLoc d ↦[cellSet j k]{fullShare} f : sProp 𝕄) := by
  unfold own; rw [chunk_cell o h j k ho]

/-- The tile's number. -/
abbrev wOf (L : grid0.Coords) : ℕ := 2 * (L 1).val + (L 0).val

/-- The four runs of row `w + 32 t`, each under `Ψ`. -/
def cellsG (Ψ : Finset S300x16384.Idx → sProp 𝕄) (w t : ℕ) : sProp 𝕄 :=
  iprop(Ψ (cellSet (w + 32 * t) 0) ∗ Ψ (cellSet (w + 32 * t) 1) ∗ Ψ (cellSet (w + 32 * t) 2) ∗ Ψ (cellSet (w + 32 * t) 3))

/-- The result held on a set at `f`; and at whatever it holds. -/
abbrev pts (d : Dev nD) (f : Buf (Elt F) (oLoc d)) : Finset S300x16384.Idx → sProp 𝕄 := fun A => oLoc d ↦[A]{fullShare} f
abbrev ptsEx (d : Dev nD) : Finset S300x16384.Idx → sProp 𝕄 := fun A => iprop(∃ f : Buf (Elt F) (oLoc d), oLoc d ↦[A]{fullShare} f)

theorem rowAt_eq (d : Dev nD) (L : grid0.Coords) (t : Trip) (h : k0_cond1 L t = 1#1) (f : Buf (Elt F) (oLoc d)) :
    rowAt d L t h f = cellsG (pts d f) (wOf L) t.val := by
  unfold rowAt cellsG
  rw [own_cell d L _ _ _ 0 (k0_off4_eq L t), own_cell d L _ _ _ 1 (k0_off5_eq L t), own_cell d L _ _ _ 2 (k0_off6_eq L t),
    own_cell d L _ _ _ 3 (k0_off7_eq L t)]

theorem rowEx_eq (d : Dev nD) (L : grid0.Coords) (t : Trip) (h : k0_cond1 L t = 1#1) :
    rowEx (F := F) d L t h = cellsG (ptsEx (F := F) d) (wOf L) t.val := by
  unfold rowEx cellsG
  simp only [own_cell d L _ _ _ 0 (k0_off4_eq L t), own_cell d L _ _ _ 1 (k0_off5_eq L t), own_cell d L _ _ _ 2 (k0_off6_eq L t),
    own_cell d L _ _ _ 3 (k0_off7_eq L t)]

/-! ## A tile's rows, and all the tiles' -/

/-- The tenth trip runs exactly where its row exists. -/
theorem cond9_iff : ∀ L : grid0.Coords, (k0_cond1 L (tr 9) = 1#1 ↔ 2 * (L 1).val + (L 0).val + 32 * 9 < 300) := by decide +kernel

omit [FloatOps F] in
theorem cellsG_empty (Ψ : Finset S300x16384.Idx → sProp 𝕄) (hΨ : Ψ ∅ = iprop(emp)) {w t : ℕ} (h : 300 ≤ w + 32 * t) :
    cellsG Ψ w t = iprop(emp) := by
  unfold cellsG
  rw [cellSet_empty h, cellSet_empty h, cellSet_empty h, cellSet_empty h, hΨ]
  have h1 : (iprop(emp ∗ emp ∗ emp ∗ emp) : sProp 𝕄) ⊢ iprop(emp) := by
    iintro ⟨-, -, -, -⟩; iempintro
  have h2 : (iprop(emp) : sProp 𝕄) ⊢ iprop(emp ∗ emp ∗ emp ∗ emp) := by
    iintro -
    isplitr; · iempintro
    isplitr; · iempintro
    isplitr <;> iempintro
  exact equiv_iff.mp ⟨h1, h2⟩

include m in
theorem ptsEx_empty (d : Dev nD) : ptsEx (F := F) d ∅ = iprop(emp) := by
  show iprop(∃ f : Buf (Elt F) (oLoc d), oLoc d ↦[∅]{fullShare} f) = _
  simp only [pointsTo_empty]
  have h1 : (iprop(∃ _f : Buf (Elt F) (oLoc d), emp) : sProp 𝕄) ⊢ iprop(emp) := by
    iintro ⟨%_, H⟩; iexact H
  have h2 : (iprop(emp) : sProp 𝕄) ⊢ iprop(∃ _f : Buf (Elt F) (oLoc d), emp) := by
    iintro H; iexists (m (oLoc d)); iexact H
  exact equiv_iff.mp ⟨h1, h2⟩

theorem row9At_eq (d : Dev nD) (L : grid0.Coords) (f : Buf (Elt F) (oLoc d)) : row9At d L f = cellsG (pts d f) (wOf L) 9 := by
  unfold row9At
  split
  · next h => exact rowAt_eq d L (tr 9) h f
  · next h =>
    rw [cellsG_empty (pts d f) pointsTo_empty]
    have := (cond9_iff L).not.mp h
    show 300 ≤ 2 * (L 1).val + (L 0).val + 32 * 9
    omega

include m in
theorem row9Ex_eq (d : Dev nD) (L : grid0.Coords) : row9Ex (F := F) d L = cellsG (ptsEx (F := F) d) (wOf L) 9 := by
  unfold row9Ex
  split
  · next h => exact rowEx_eq d L (tr 9) h
  · next h =>
    rw [cellsG_empty (ptsEx (F := F) d) (ptsEx_empty m d)]
    have := (cond9_iff L).not.mp h
    show 300 ≤ 2 * (L 1).val + (L 0).val + 32 * 9
    omega

/-- The ten rows of tile `w`, each run under `Ψ` (the tenth has no element where `300 ≤ w + 288`). -/
def tileG (Ψ : Finset S300x16384.Idx → sProp 𝕄) (w : ℕ) : sProp 𝕄 :=
  iprop(cellsG Ψ w 0 ∗ cellsG Ψ w 1 ∗ cellsG Ψ w 2 ∗ cellsG Ψ w 3 ∗ cellsG Ψ w 4 ∗ cellsG Ψ w 5 ∗ cellsG Ψ w 6 ∗ cellsG Ψ w 7
    ∗ cellsG Ψ w 8 ∗ cellsG Ψ w 9)

theorem rowsAt_eq (d : Dev nD) (L : grid0.Coords) (f : Buf (Elt F) (oLoc d)) : rowsAt d L f = tileG (pts d f) (wOf L) := by
  unfold rowsAt
  rw [rowAt_eq d L (tr 0), rowAt_eq d L (tr 1), rowAt_eq d L (tr 2), rowAt_eq d L (tr 3), rowAt_eq d L (tr 4), rowAt_eq d L (tr 5),
    rowAt_eq d L (tr 6), rowAt_eq d L (tr 7), rowAt_eq d L (tr 8), row9At_eq]
  rfl

include m in
theorem rowsEx_eq (d : Dev nD) (L : grid0.Coords) : rowsEx (F := F) d L = tileG (ptsEx (F := F) d) (wOf L) := by
  unfold rowsEx
  rw [rowEx_eq d L (tr 0), rowEx_eq d L (tr 1), rowEx_eq d L (tr 2), rowEx_eq d L (tr 3), rowEx_eq d L (tr 4), rowEx_eq d L (tr 5),
    rowEx_eq d L (tr 6), rowEx_eq d L (tr 7), rowEx_eq d L (tr 8), row9Ex_eq m]
  rfl

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]
omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide, SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

omit [FloatOps F] in
theorem tileG_eq (Ψ : Finset S300x16384.Idx → sProp 𝕄) (w : ℕ) :
    tileG Ψ w = bigSep Finset.univ fun t : Fin 10 => bigSep Finset.univ fun k : Fin 4 => Ψ (cellSet (w + 32 * t.val) k.val) := by
  rw [bigSep_fin10]
  simp only [bigSep_fin4]
  rfl

/-- A chunk by its core, subcore, trip and run; and its elements. -/
abbrev CIx : Type := Fin 2 × Fin 16 × Fin 10 × Fin 4
def Kf (x : CIx) : Finset S300x16384.Idx := cellSet (2 * x.2.1.val + x.1.val + 32 * x.2.2.1.val) x.2.2.2.val

/-- Two chunks share no element: the row gives tile and trip (`w = j mod 32 < 32`, `t = j / 32`), the column the run. -/
theorem Kf_disjoint : ∀ x ∈ (Finset.univ : Finset CIx), ∀ y ∈ (Finset.univ : Finset CIx), x ≠ y → Disjoint (Kf x) (Kf y) := by
  rintro ⟨c, i, t, k⟩ - ⟨c', i', t', k'⟩ - hne
  refine Finset.disjoint_left.mpr fun z hz hz' => hne ?_
  simp only [Kf, mem_cellSet] at hz hz'
  have := c.isLt; have := c'.isLt; have := i.isLt; have := i'.isLt; have := t.isLt; have := t'.isLt; have := k.isLt; have := k'.isLt
  have e1 : c.val = c'.val := by omega
  have e2 : i.val = i'.val := by omega
  have e3 : t.val = t'.val := by omega
  have e4 : k.val = k'.val := by omega
  exact Prod.ext (Fin.ext e1) (Prod.ext (Fin.ext e2) (Prod.ext (Fin.ext e3) (Fin.ext e4)))

/-- Every element lies in a chunk. -/
theorem Kf_cover : (Finset.univ : Finset CIx).biUnion Kf = Finset.univ := by
  ext z
  simp only [Finset.mem_biUnion, Finset.mem_univ, true_and, iff_true]
  have h0 : (z 0 : ℕ) < 300 := (z 0).isLt
  have h1 : (z 1 : ℕ) < 16384 := (z 1).isLt
  refine ⟨(⟨(z 0).val % 2, by omega⟩, ⟨(z 0).val % 32 / 2, by omega⟩, ⟨(z 0).val / 32, by omega⟩, ⟨(z 1).val / 4096, by omega⟩), ?_⟩
  simp only [Kf, mem_cellSet]
  omega

omit [FloatOps F] in
/-- All the tiles' rows are all the chunks. -/
theorem tiles_eq (Ψ : Finset S300x16384.Idx → sProp 𝕄) :
    (bigSep Finset.univ fun c : Fin ((K (F := F)).nCore 0) => bigSep Finset.univ fun i : Fin ((K (F := F)).nSub 0) => tileG Ψ (wOf (LL (F := F) c i)))
      = bigSep (Finset.univ : Finset CIx) fun x => Ψ (Kf x) := by
  simp only [tileG_eq, bigSep_univ_prod]
  rfl

/-- The result, dealt to the tiles chunk by chunk: held whole at `f`, it is every tile's rows at `f`. -/
theorem rows_eq (d : Dev nD) (f : Buf (Elt F) (oLoc d)) :
    (bigSep Finset.univ fun c : Fin ((K (F := F)).nCore 0) => bigSep Finset.univ fun i : Fin ((K (F := F)).nSub 0) => rowsAt d (LL (F := F) c i) f)
      = (oLoc d ↦{fullShare} f : sProp 𝕄) := by
  simp only [rowsAt_eq]
  rw [tiles_eq (pts d f), ← pointsTo_biUnion Finset.univ (ℓ := oLoc d) Kf Kf_disjoint, Kf_cover]

theorem rows_split (d : Dev nD) (f : Buf (Elt F) (oLoc d)) :
    (oLoc d ↦{fullShare} f : sProp 𝕄) ⊣⊢ bigSep Finset.univ fun c : Fin ((K (F := F)).nCore 0) =>
      bigSep Finset.univ fun i : Fin ((K (F := F)).nSub 0) => rowsAt d (LL (F := F) c i) f :=
  (rows_eq d f) ▸ ⟨BIBase.Entails.refl, BIBase.Entails.refl⟩

include m in
/-- And back, each chunk at whatever it holds: some contents agree with every chunk's. -/
theorem rows_join (d : Dev nD) :
    (bigSep Finset.univ fun c : Fin ((K (F := F)).nCore 0) => bigSep Finset.univ fun i : Fin ((K (F := F)).nSub 0) => rowsEx (F := F) d (LL (F := F) c i))
      ⊢ (iprop(∃ f, oLoc d ↦{fullShare} f) : sProp 𝕄) := by
  simp only [rowsEx_eq m]
  rw [tiles_eq (ptsEx (F := F) d)]
  refine (bigSep_exists_pi Finset.univ (fun (x : CIx) (f : Buf (Elt F) (oLoc d)) => (oLoc d ↦[Kf x]{fullShare} f : sProp 𝕄))).trans ?_
  iintro ⟨%fs, H⟩
  ihave H' := (pointsTo_biUnion_join Finset.univ Kf fs (m (oLoc d)) Kf_disjoint) $$ H
  icases H' with ⟨%g, -, Hg⟩
  rw [Kf_cover]
  iexists g; iexact Hg

end Cert.Proof.KI

end
-- ==== Proof.KI.Launch.lean ====
/-
  The launch side of the lookup kernel's run. The TensorCore transposes the table, hands the two SparseCores' thirty-two
  tiles their read shares of the indices and of the transposed table and their rows of the 300 × 16384 result, takes
  them back, and transposes the result. Stated here: what the call takes and hands back (from the splits of the three
  arrays among the tiles), the launch element, @main on the TensorCore, and the program's run from the tile's
  obligation.
-/
import proofs.«203175_g23072564314740_cont_8to1_266_38_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## What the call takes and hands back -/

/-- The remainders @main keeps across the call: of the indices and of the transposed table. -/
def REM (d : Dev nD) : sProp 𝕄 := iprop(shareRem (iLoc d) (m (iLoc d)) ∗ shareRem (tLoc d) (ttOf m d))

theorem st0_eq (d : Dev nD) :
    (bigSep Finset.univ fun c : Fin ((K (F := F)).nCore 0) => (P m).st 0 d c)
      = bigSep Finset.univ fun c : Fin ((K (F := F)).nCore 0) => bigSep Finset.univ fun i : Fin ((K (F := F)).nSub 0) =>
          iprop(idxTok m d (LL (F := F) c i) ∗ tabTok d (LL (F := F) c i) (ttOf m d) ∗ rowsAt d (LL (F := F) c i) (m (oLoc d))) := by
  refine bigSep_congr fun c _ => ?_
  show coreGo m d c = _
  unfold coreGo goRes; rfl
theorem dn0_eq (d : Dev nD) :
    (bigSep Finset.univ fun c : Fin ((K (F := F)).nCore 0) => (P m).dn 0 d c)
      = bigSep Finset.univ fun c : Fin ((K (F := F)).nCore 0) => bigSep Finset.univ fun i : Fin ((K (F := F)).nSub 0) =>
          iprop(idxTok m d (LL (F := F) c i) ∗ tabTok d (LL (F := F) c i) (ttOf m d) ∗ rowsEx (F := F) d (LL (F := F) c i)) := by
  refine bigSep_congr fun c _ => ?_
  show coreTd m d c = _
  unfold coreTd tdRes; rfl

/-- The three arrays whole go out as the remainders and every core's payload; -/
theorem call_in (d : Dev nD) :
    iprop((iLoc d ↦{fullShare} m (iLoc d)) ∗ (tLoc d ↦{fullShare} ttOf m d) ∗ (oLoc d ↦{fullShare} m (oLoc d)))
      ⊢ (iprop(REM m d ∗ bigSep Finset.univ fun c : Fin ((K (F := F)).nCore 0) => (P m).st 0 d c) : sProp 𝕄) := by
  rw [st0_eq]
  simp only [bigSep_sep']
  unfold REM
  iintro ⟨Hi, Ht, Ho⟩
  ihave Hi' := (shares_split (F := F) (iLoc d) (m (iLoc d))).1 $$ Hi
  ihave Ht' := (shares_split (F := F) (tLoc d) (ttOf m d)).1 $$ Ht
  ihave Ho' := (rows_split (F := F) d (m (oLoc d))).1 $$ Ho
  icases Hi' with ⟨Hir, Hi⟩
  icases Ht' with ⟨Htr, Ht⟩
  isplitl [Hir Htr]; · isplitl [Hir]; · iexact Hir
                       iexact Htr
  isplitl [Hi]; · iexact Hi
  isplitl [Ht]; · iexact Ht
  iexact Ho'

/-- and come back from them, the result at whatever the tiles wrote. -/
theorem call_out (d : Dev nD) :
    (iprop(REM m d ∗ bigSep Finset.univ fun c : Fin ((K (F := F)).nCore 0) => (P m).dn 0 d c) : sProp 𝕄)
      ⊢ iprop((iLoc d ↦{fullShare} m (iLoc d)) ∗ (tLoc d ↦{fullShare} ttOf m d) ∗ ∃ f, oLoc d ↦{fullShare} f) := by
  rw [dn0_eq]
  simp only [bigSep_sep']
  unfold REM
  iintro ⟨⟨Hir, Htr⟩, Hi, Ht, Ho⟩
  isplitl [Hir Hi]
  · iapply (shares_split (F := F) (iLoc d) (m (iLoc d))).2
    isplitl [Hir]; · iexact Hir
    iexact Hi
  isplitl [Htr Ht]
  · iapply (shares_split (F := F) (tLoc d) (ttOf m d)).2
    isplitl [Htr]; · iexact Htr
    iexact Ht
  iapply (rows_join (F := F) m d); iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two host operations: the table transposed, the kernel's result transposed. -/
abbrev opT1 : HloOp τ sig (Elt F) :=
  StableHlo.unary main_arg1 main_v0 ((transpose S300x100000 [1, 0] · transposes_S100000x300_S300x100000_1_0) : (⟨S100000x300, .f32⟩ : BufTy).Contents (Elt F) → (⟨S300x100000, .f32⟩ : BufTy).Contents (Elt F))
abbrev opT2 : HloOp τ sig (Elt F) :=
  StableHlo.unary main_v1 main_v2 ((transpose S16384x300 [1, 0] · transposes_S300x16384_S16384x300_1_0) : (⟨S300x16384, .f32⟩ : BufTy).Contents (Elt F) → (⟨S16384x300, .f32⟩ : BufTy).Contents (Elt F))

abbrev S1 : Finset (DevRef τ sig) := {a1', t'}
abbrev S2 : Finset (DevRef τ sig) := {o', r'}

omit [FloatOps F] in
theorem held_S1 (d : Dev nD) (W : Valuation τ sig (Elt F)) :
    (held (T d) S1 W : sProp 𝕄) = iprop((bLoc d ↦{fullShare} W a1') ∗ tLoc d ↦{fullShare} W t') := by
  unfold held S1
  rw [SparseCore.bigSep_insert' (by decide), bigSep_singleton]
omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (bLoc d ↦{fullShare} W main_arg1) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide), bigSep_singleton]

/-- The launch valuation; and with the kernel's result at what the tiles wrote. -/
def V0 (d : Dev nD) : Valuation τ sig (Elt F) := fun b => m (d, b)
def V1 (d : Dev nD) (f : Buf (Elt F) (oLoc d)) : Valuation τ sig (Elt F) := Function.update (V0 m d) o' f

theorem V1_o (d : Dev nD) (f : Buf (Elt F) (oLoc d)) : V1 m d f o' = f := Function.update_self _ _ _
theorem V1_r (d : Dev nD) (f : Buf (Elt F) (oLoc d)) : V1 m d f r' = m (rLoc d) := Function.update_of_ne (show r' ≠ o' by decide) _ _

theorem hT1 : (opT1 (F := F)).bufs ⊆ S1 := show ({a1', t'} : Finset (DevRef τ sig)) ⊆ S1 from Finset.Subset.refl _
theorem hT2 : (opT2 (F := F)).bufs ⊆ S2 := show ({o', r'} : Finset (DevRef τ sig)) ⊆ S2 from Finset.Subset.refl _

/-- After the first transpose: the table as it was, the transposed table at `ttOf`. -/
theorem held_T1 (d : Dev nD) :
    (held (T d) S1 ((opT1 (F := F)).result (V0 m d)) : sProp 𝕄) = iprop((bLoc d ↦{fullShare} m (bLoc d)) ∗ tLoc d ↦{fullShare} ttOf m d) := by
  rw [held_S1, StableHlo.unary_result_ne (h := show (main_arg1 : Ref sig .tc) ≠ main_v0 by decide), StableHlo.unary_result]
  rfl

/-- What @main leaves the claim: the indices and the table at their launch contents. -/
def FIN (d : Dev nD) : sProp 𝕄 := iprop((iLoc d ↦{fullShare} m (iLoc d)) ∗ (bLoc d ↦{fullShare} m (bLoc d)))

/-- @main on device `d`'s TensorCore: the table transposed (`wp_hlo_within`), the call (the library's `wp_run`: the
    indices, the transposed table and the result dealt to the tiles and joined back), the result transposed; the
    indices and the table kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hbt, Ht, Ho, Hr⟩, -, -⟩, -⟩
  -- the table transposed
  iapply (wp_hlo_within 𝒱 (SparseCore.T d) none Set.univ (op := opT1) (S := S1) hT1 (V := V0 m d)) $$ [Hb Hbt Ht]
  · isplitl [Hb]; · iexact Hb
    rw [held_S1]
    isplitl [Hbt]; · iexact Hbt
    iexact Ht
  iintro ⟨Hb, Hheld⟩
  ihave Hh := (Entails.of_eq (held_T1 (F := F) m d)) $$ Hheld
  icases Hh with ⟨Hbt, Ht⟩
  rw [wp_ret]; imodintro
  -- the call
  ihave Hin := (call_in (F := F) m d) $$ [Hi Ht Ho]
  · isplitl [Hi]; · iexact Hi
    isplitl [Ht]; · iexact Ht
    iexact Ho
  icases Hin with ⟨Hrem, Hcores⟩
  iapply ((K (F := F)).wp_run (D (F := F)) 𝒱 (EH := EH) (P := P m) κ d 0) $$ [Hst Hcores Hrem Hb Hbt Hr]
  isplitr; · iexact Hctx
  isplitl [Hst]; · iexact Hst
  isplitl [Hcores]; · iexact Hcores
  iintro ⟨Hst, Hdn⟩
  ihave Hout := (call_out (F := F) m d) $$ [Hrem Hdn]
  · isplitl [Hrem]; · iexact Hrem
    iexact Hdn
  icases Hout with ⟨Hi, Ht, %f, Ho⟩
  -- the result transposed
  iapply (wp_hlo_within 𝒱 (SparseCore.T d) none Set.univ (op := opT2) (S := S2) hT2 (V := V1 m d f)) $$ [Hb Ho Hr]
  · isplitl [Hb]; · iexact Hb
    rw [held_S2, V1_o, V1_r]
    isplitl [Ho]; · iexact Ho
    iexact Hr
  iintro ⟨Hb, -⟩
  rw [wp_ret]; imodintro; imodintro
  isplitl [Hst]; · iexact Hst
  unfold FIN
  isplitl [Hi]; · iexact Hi
  iexact Hbt

def fq (d : Dev nD) (s' : Phys nD τ sig (Elt F)) : Prop := s'.mem.mem (iLoc d) = m (iLoc d) ∧ s'.mem.mem (bLoc d) = m (bLoc d)

theorem hfin (d : Dev nD) (s' : Phys nD τ sig (Elt F)) : iprop(FIN m d ∗ SI s') ⊢ (⌜fq m d s'⌝ : sProp 𝕄) := by
  unfold FIN
  iintro ⟨⟨Hi, Hx⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := bLoc d) (I := Finset.univ) (q := fullShare) (f := m (bLoc d))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (iLoc c) = m (iLoc c) ∧ r.2.mem (bLoc c) = m (bLoc c)

/-- The program's run from the tile's obligation: every weakly fair execution of the device's threads ends, the indices
    and the table as they were. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KI.TripBase.lean ====
/-
  One tile's task, its vocabulary. From its read shares of the indices and of the transposed table, its rows of the
  result, its four scratches and four transfer semaphores: the indices are fetched whole; the two staging chunks are
  copied, as they stand, into the first two chunks of the tile's first row (so that every later fill of a chunk can
  begin by waiting for the chunk's previous copy out); then, trip by trip, the trip's row of the transposed table is
  fetched, and four times over a chunk is waited for, filled — 256 times sixteen indices read, checked to name entries
  of the row, the row gathered at them, the sixteen lanes stored — and copied out to its quarter of the result's row;
  the last two copies are waited for at the end. Here: the tile's semaphores and scratches singled out of its scoped
  storage; why every index check passes (each index read is an entry of the fetched indices, below 100000 by the
  precondition); a copy out in flight; what a trip leaves; and the trip of a tile whose tenth row does not exist.
-/
import proofs.«203175_g23072564314740_cont_8to1_266_38_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- An indexed load bound to a continuation is the load of the whole scratch, the gathered lanes read off what it holds. -/
theorem vli_bind {Λ : Labels} {p : Proc τ} {s t : Shape} {e : EltTy} {α : Type} [FloatOps F] (base : Memref sig p.kind .vmem s e) (idxs : Fin s.rank → IVec t 32)
    (h : ∀ a x, (idxs a x).toNat < s.size a) (hl : base.view.Loads) (k : Vec F t e → Prog (TpuEff nD τ sig (Elt F) Λ p) α) :
    SparseCore.vectorLoadIdx base idxs h hl >>= k = .op (.load base (.whole s) (View.loadsAt_whole hl)) fun f => k (loadIdx f idxs h) := rfl

attribute [local sl_canon] vli_bind

/-- What the proof asks of the launch memory: every index names a row of the table. -/
def PreOK : Prop := ∀ (d : Dev nD) (i : S16384.Idx), (m (iLoc d) i).toNat < 100000

section Tile

variable (d : Dev nD) (L : grid0.Coords)

/-- The tile's four transfer semaphores: the two staging chunks', the index fetch's, the row fetch's. -/
abbrev cellA : GSem nD τ sig := (thrV d L, .dma cc0_scratch4.sem)
abbrev cellB : GSem nD τ sig := (thrV d L, .dma cc0_scratch5.sem)
abbrev cellI : GSem nD τ sig := (thrV d L, .dma cc0_scoped0.sem)
abbrev cellR : GSem nD τ sig := (thrV d L, .dma cc0_scoped1.sem)

theorem ownSems0_V :
    (ownSems0 (thrV d L) : sProp 𝕄)
      = iprop(semVal (cellA d L) 0 ∗ semVal (cellB d L) 0 ∗ semVal (cellI d L) 0 ∗ semVal (cellR d L) 0
          ∗ bigSep (((((ownCells (thrV d L)).erase (cellA d L)).erase (cellB d L)).erase (cellI d L)).erase (cellR d L)) fun g => semVal g 0) := by
  unfold SparseCore.Cfg.ownSems0
  rw [SparseCore.bigSep_erase' ((mem_ownCells (g := cellA d L)).mpr ⟨rfl, by
      show (SemLoc.dma cc0_scratch4.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scratch5.sem : SemLoc sig).isScoped .scVector = true; decide⟩⟩),
    SparseCore.bigSep_erase' (Finset.mem_erase.mpr ⟨by simp [cellB, cellI]; decide, Finset.mem_erase.mpr ⟨by simp [cellA, cellI]; decide,
      (mem_ownCells (g := cellI d L)).mpr ⟨rfl, by show (SemLoc.dma cc0_scoped0.sem : SemLoc sig).isScoped .scVector = true; decide⟩⟩⟩),
    SparseCore.bigSep_erase' (Finset.mem_erase.mpr ⟨by simp [cellI, cellR]; decide, Finset.mem_erase.mpr ⟨by simp [cellB, cellR]; decide,
      Finset.mem_erase.mpr ⟨by simp [cellA, cellR]; decide,
      (mem_ownCells (g := cellR d L)).mpr ⟨rfl, by show (SemLoc.dma cc0_scoped1.sem : SemLoc sig).isScoped .scVector = true; decide⟩⟩⟩⟩)]

/-- The four scratches are among the subcore's own buffers: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

variable [FloatOps F]

omit [FloatOps F] in
theorem pts_s0 (f : Buf (Elt F) ((thrV d L).loc cc0_scratch0)) : ((sI).view.loc (thrV d L) ↦{fullShare} f : sProp 𝕄) = (thrV d L).loc cc0_scratch0 ↦{fullShare} f := rfl
omit [FloatOps F] in
theorem pts_s1 (f : Buf (Elt F) ((thrV d L).loc cc0_scratch1)) : ((sR).view.loc (thrV d L) ↦{fullShare} f : sProp 𝕄) = (thrV d L).loc cc0_scratch1 ↦{fullShare} f := rfl
omit [FloatOps F] in
theorem pts_s2 (f : Buf (Elt F) ((thrV d L).loc cc0_scratch2)) : ((sA).view.loc (thrV d L) ↦{fullShare} f : sProp 𝕄) = (thrV d L).loc cc0_scratch2 ↦{fullShare} f := rfl
omit [FloatOps F] in
theorem pts_s3 (f : Buf (Elt F) ((thrV d L).loc cc0_scratch3)) : ((sB).view.loc (thrV d L) ↦{fullShare} f : sProp 𝕄) = (thrV d L).loc cc0_scratch3 ↦{fullShare} f := rfl

/-- The opening copies land in the first two chunks of the first trip's row: the same offsets. -/
theorem off4_zero : k0_off4 L (tr 0) = k0_off1 L := by
  rw [k0_off4_eq, k0_off1_eq]; rfl
theorem off5_zero : k0_off5 L (tr 0) = k0_off2 L := by
  rw [k0_off5_eq, k0_off2_eq]; rfl

omit [FloatOps F] in
/-- A chunk held at one spelling of its offsets is held at any other. -/
theorem own_congr {o o' : Fin 2 → Nat} (e : o = o') (h : ∀ a, o a + S1x4096.size a ≤ S300x16384.size a) (h' : ∀ a, o' a + S1x4096.size a ≤ S300x16384.size a)
    (f : Buf (Elt F) (oLoc d)) : (own d L (chunk o h) f : sProp 𝕄) = own d L (chunk o' h') f := by
  subst e; rfl

/-- The fetched indices are the launch indices: each names a row of the table. -/
theorem fetched_lt (hpre : PreOK m) : ∀ i, ((ReadAs.same.apply (View.read (Elt F) (aI).view (m (iLoc d))) : S16384.Idx → Elt F .i32) i).toNat < 100000 := by
  intro i
  simp only [Memref.view_whole, View.read_whole]
  exact hpre d _

/-- Sixteen indices loaded from the index scratch are entries of what it holds. -/
theorem chk_ok' (fI : Buf (Elt F) ((thrV d L).loc cc0_scratch0)) (hfI : ∀ i, (fI i).toNat < 100000)
    (o : Fin 1 → Nat) (ho : ∀ a, o a + S16.size a ≤ S16384.size a) :
    ∀ (a : Fin 1) (x : S16.Idx), ((![View.readAt (Elt F) (sI).view (Rect.unit (s := S16384) o S16.size ho).toLoadRect fI] : Fin 1 → IVec S16 32) a x).toNat < S100000.size a := by
  intro a x
  obtain rfl : a = 0 := Subsingleton.elim _ _
  simp only [Matrix.cons_val_zero, View.readAt_apply, Memref.view_whole, View.read_whole]
  exact hfI _

/-- A staging chunk's copy out in flight on its semaphore: what lands (a chunk of the result at its new contents) and
    the staging chunk lent, beside the (empty) rest of the staging scratch. -/
abbrev flyA (M : Memref sig .scVector .hbm S4096 .f32) (g : Buf (Elt F) (M.view.loc (thrV d L))) (fA : Buf (Elt F) ((thrV d L).loc cc0_scratch2)) : sProp 𝕄 :=
  iprop(Transfers.Flight countersEmb (thrV d L) (SemLoc.dma cc0_scratch4.sem) (default : HIx 1) 131072
      iprop((M.view.loc (thrV d L) ↦[M.view.set]{fullShare} g) ∗ (sA).view.loc (thrV d L) ↦[(sA).view.set]{fullShare} fA)
    ∗ (sA).view.loc (thrV d L) ↦[Finset.univ \ (sA).view.set]{fullShare} fA)
abbrev flyB (M : Memref sig .scVector .hbm S4096 .f32) (g : Buf (Elt F) (M.view.loc (thrV d L))) (fB : Buf (Elt F) ((thrV d L).loc cc0_scratch3)) : sProp 𝕄 :=
  iprop(Transfers.Flight countersEmb (thrV d L) (SemLoc.dma cc0_scratch5.sem) (default : HIx 1) 131072
      iprop((M.view.loc (thrV d L) ↦[M.view.set]{fullShare} g) ∗ (sB).view.loc (thrV d L) ↦[(sB).view.set]{fullShare} fB)
    ∗ (sB).view.loc (thrV d L) ↦[Finset.univ \ (sB).view.set]{fullShare} fB)

/-- What a trip leaves: the table's share and the index scratch as they were, the row scratch at the trip's row, the
    first two chunks of the trip's row landed, the last two in flight, the row fetch's semaphore at zero, the waits
    recorded. -/
def tripPost (t : Trip) (h : k0_cond1 L t = 1#1) (tt : Buf (Elt F) (tLoc d)) (fI : Buf (Elt F) ((thrV d L).loc cc0_scratch0))
    (O : CellTallies nD τ sig (HIx 1)) (W : Waits sig (HIx 1)) : sProp 𝕄 :=
  iprop(tabTok d L tt ∗ ((sI).view.loc (thrV d L) ↦{fullShare} fI) ∗ (∃ fR, (sR).view.loc (thrV d L) ↦{fullShare} fR)
    ∗ (∃ g : Buf (Elt F) (oLoc d), own d L (ch0 L t h) g) ∗ (∃ g : Buf (Elt F) (oLoc d), own d L (ch1 L t h) g)
    ∗ (∃ g : Buf (Elt F) (oLoc d), ∃ fA, flyA d L (ch2 L t h) g fA) ∗ (∃ g : Buf (Elt F) (oLoc d), ∃ fB, flyB d L (ch3 L t h) g fB)
    ∗ semVal (cellR d L) 0 ∗ ∃ W', ⌜∀ p ∈ W', p ∈ W ∨ p.2 = none⌝ ∗ owes (thrV d L) O W')

omit [FloatOps F] in
theorem rowAt_def (t : Trip) (h : k0_cond1 L t = 1#1) (f : Buf (Elt F) (oLoc d)) :
    (rowAt d L t h f : sProp 𝕄) = iprop(own d L (ch0 L t h) f ∗ own d L (ch1 L t h) f ∗ own d L (ch2 L t h) f ∗ own d L (ch3 L t h) f) := rfl
omit [FloatOps F] in
theorem row9At_pos (h9 : k0_cond1 L (tr 9) = 1#1) (f : Buf (Elt F) (oLoc d)) : (row9At d L f : sProp 𝕄) = rowAt d L (tr 9) h9 f := dif_pos h9
omit [FloatOps F] in
theorem row9At_neg (hn : ¬ k0_cond1 L (tr 9) = 1#1) (f : Buf (Elt F) (oLoc d)) : (row9At d L f : sProp 𝕄) = iprop(emp) := dif_neg hn
omit [FloatOps F] in
theorem row9Ex_pos (h9 : k0_cond1 L (tr 9) = 1#1) : (row9Ex (F := F) d L : sProp 𝕄) = rowEx (F := F) d L (tr 9) h9 := dif_pos h9
omit [FloatOps F] in
theorem row9Ex_neg (hn : ¬ k0_cond1 L (tr 9) = 1#1) : (row9Ex (F := F) d L : sProp 𝕄) = iprop(emp) := dif_neg hn

/-- A trip whose row does not exist does nothing. -/
theorem trip_skip (t : Trip) (hn : ¬ k0_cond1 L t = 1#1) (Φ : Unit → sProp 𝕄) :
    (Φ ⟨⟩ : sProp 𝕄) ⊢ wp frame (wpE (defs₀ (F := F)) 𝒱₀ (thrV d L) none) Set.univ
          (k0_t1_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1 t ⟨⟩) Φ := by
  iintro H
  sl_exec (disch := exact hn)
  sl_step
  iexact H

end Tile

end Cert.Proof.KI

end
-- ==== Proof.KI.TripG.lean ====
/-
  One trip of a tile's task, at any trip that runs and whatever chunks the two copies in flight land in: the two are
  waited for and handed back as they landed; the trip's row is fetched; four times a staging chunk is filled with the
  row gathered at 4096 of the indices and copied out to its quarter of the result's row.
-/
import proofs.«203175_g23072564314740_cont_8to1_266_38_alg».proof.Proof.KI.TripBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

attribute [local sl_canon] vli_bind

variable [FloatOps F]

section Tile

variable (d : Dev nD) (L : grid0.Coords)

set_option maxHeartbeats 40000000 in
/-- One trip, at any trip that runs, whatever chunks the two copies in flight land in: they are waited for and handed
    back as they land; the trip's row is fetched, gathered chunk by chunk and copied out to the trip's four chunks. -/
theorem trip_gen (t : Trip) (h : k0_cond1 L t = 1#1) (MA MB : Memref sig .scVector .hbm S4096 .f32)
    (gA : Buf (Elt F) (MA.view.loc (thrV d L))) (gB : Buf (Elt F) (MB.view.loc (thrV d L)))
    (fA : Buf (Elt F) ((thrV d L).loc cc0_scratch2)) (fB : Buf (Elt F) ((thrV d L).loc cc0_scratch3))
    (fI : Buf (Elt F) ((thrV d L).loc cc0_scratch0)) (hfI : ∀ i, (fI i).toNat < 100000) (fR : Buf (Elt F) ((thrV d L).loc cc0_scratch1))
    (f : Buf (Elt F) (oLoc d)) (tt : Buf (Elt F) (tLoc d)) (O : CellTallies nD τ sig (HIx 1)) (W : Waits sig (HIx 1)) (Φ : Unit → sProp 𝕄) :
    iprop(Transfers.MayWaits (thrV d L) (none : HIx 1) O
        ∗ tabTok d L tt ∗ ((sI).view.loc (thrV d L) ↦{fullShare} fI) ∗ ((sR).view.loc (thrV d L) ↦{fullShare} fR)
        ∗ flyA d L MA gA fA ∗ flyB d L MB gB fB ∗ semVal (cellR d L) 0 ∗ rowAt d L t h f ∗ owes (thrV d L) O W
        ∗ ((tripPost d L t h tt fI O W ∗ (MA.view.loc (thrV d L) ↦[MA.view.set]{fullShare} gA) ∗ (MB.view.loc (thrV d L) ↦[MB.view.set]{fullShare} gB)) -∗ Φ ⟨⟩))
      ⊢ wp frame (wpE (defs₀ (F := F)) 𝒱₀ (thrV d L) none) Set.univ
          (k0_t1_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1 t ⟨⟩) Φ := by
  unfold rowAt
  iintro ⟨#Hmw, Ht, HsI, HsR, ⟨HsemA, HsA⟩, ⟨HsemB, HsB⟩, HsemR, ⟨H0, H1, H2, H3⟩, HO, Hk⟩
  sl_exec_parts (disch := first | exact h | exact fun _ => chk_ok' (F := F) d L _ hfI _ _)
  sl_step
  iapply Hk
  unfold tripPost
  isplitr [HsemA_dst HsemB_dst]
  · isplitl [Ht]; · iexact Ht
    isplitl [HsI]; · iexact HsI
    isplitl [HsR]; · iexists _; iexact HsR
    isplitl [H0]; · iexists _; iexact H0
    isplitl [H1]; · iexists _; iexact H1
    isplitl [HsemA HsA]
    · iexists _; iexists _
      isplitl [HsemA]; · iexact HsemA
      iexact HsA
    isplitl [HsemB HsB]
    · iexists _; iexists _
      isplitl [HsemB]; · iexact HsemB
      iexact HsB
    isplitl [HsemR]; · iexact HsemR
    iexists (insert (SemLoc.dma cc0_scratch5.sem, (default : HIx 1)) (insert (SemLoc.dma cc0_scratch4.sem, (default : HIx 1))
      (insert (SemLoc.dma cc0_scratch5.sem, (default : HIx 1)) (insert (SemLoc.dma cc0_scratch4.sem, (default : HIx 1)) (insert (SemLoc.dma cc0_scoped1.sem, (default : HIx 1)) W))))); isplitr
    · ipureintro; intro p hp
      simp only [Finset.mem_insert] at hp
      rcases hp with rfl | rfl | rfl | rfl | rfl | hp
      all_goals first | exact .inr rfl | exact .inl hp
    · iexact HO
  · isplitl [HsemA_dst]; · iexact HsemA_dst
    iexact HsemB_dst

end Tile

end Cert.Proof.KI

end
-- ==== Proof.KI.TripN.lean ====
/-
  The generic trip, stated for the case at hand: the two copies in flight land in chunks of the result (any two, given
  by their offsets), their contents functions on the result's index space.
-/
import proofs.«203175_g23072564314740_cont_8to1_266_38_alg».proof.Proof.KI.TripG

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

theorem trip_next (t : Trip) (h : k0_cond1 L t = 1#1) (oA oB : Fin 2 → Nat)
    (hA : ∀ a, oA a + S1x4096.size a ≤ S300x16384.size a) (hB : ∀ a, oB a + S1x4096.size a ≤ S300x16384.size a)
    (gA gB : Buf (Elt F) (oLoc d))
    (fA : Buf (Elt F) ((thrV d L).loc cc0_scratch2)) (fB : Buf (Elt F) ((thrV d L).loc cc0_scratch3))
    (fI : Buf (Elt F) ((thrV d L).loc cc0_scratch0)) (hfI : ∀ i, (fI i).toNat < 100000) (fR : Buf (Elt F) ((thrV d L).loc cc0_scratch1))
    (f : Buf (Elt F) (oLoc d)) (tt : Buf (Elt F) (tLoc d)) (O : CellTallies nD τ sig (HIx 1)) (W : Waits sig (HIx 1)) (Φ : Unit → sProp 𝕄) :
    iprop(Transfers.MayWaits (thrV d L) (none : HIx 1) O
        ∗ tabTok d L tt ∗ ((sI).view.loc (thrV d L) ↦{fullShare} fI) ∗ ((sR).view.loc (thrV d L) ↦{fullShare} fR)
        ∗ flyA d L (chunk oA hA) gA fA ∗ flyB d L (chunk oB hB) gB fB ∗ semVal (cellR d L) 0 ∗ rowAt d L t h f ∗ owes (thrV d L) O W
        ∗ ((tripPost d L t h tt fI O W ∗ own d L (chunk oA hA) gA ∗ own d L (chunk oB hB) gB) -∗ Φ ⟨⟩))
      ⊢ wp frame (wpE (defs₀ (F := F)) 𝒱₀ (thrV d L) none) Set.univ
          (k0_t1_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1 t ⟨⟩) Φ :=
  trip_gen (F := F) d L t h (chunk oA hA) (chunk oB hB) gA gB fA fB fI hfI fR f tt O W Φ

end Tile

end Cert.Proof.KI

end
-- ==== Proof.KI.TripZ.lean ====
/-
  The first trip of a tile's task: the two copies in flight are the opening ones, and the chunks they land in ARE the
  first two chunks of the trip's row, at the same offsets; the trip's first two copies out then fill them.
-/
import proofs.«203175_g23072564314740_cont_8to1_266_38_alg».proof.Proof.KI.TripBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

attribute [local sl_canon] vli_bind

variable [FloatOps F]

section Tile

variable (d : Dev nD) (L : grid0.Coords)

set_option maxHeartbeats 40000000 in
/-- The first trip: the two copies in flight are the opening ones, and what they land in IS the first two chunks of the
    trip's row, which the trip's first two copies out then fill. -/
theorem trip_zero (gA gB : Buf (Elt F) (oLoc d))
    (fA : Buf (Elt F) ((thrV d L).loc cc0_scratch2)) (fB : Buf (Elt F) ((thrV d L).loc cc0_scratch3))
    (fI : Buf (Elt F) ((thrV d L).loc cc0_scratch0)) (hfI : ∀ i, (fI i).toNat < 100000) (fR : Buf (Elt F) ((thrV d L).loc cc0_scratch1))
    (f : Buf (Elt F) (oLoc d)) (tt : Buf (Elt F) (tLoc d)) (O : CellTallies nD τ sig (HIx 1)) (W : Waits sig (HIx 1)) (Φ : Unit → sProp 𝕄) :
    iprop(Transfers.MayWaits (thrV d L) (none : HIx 1) O
        ∗ tabTok d L tt ∗ ((sI).view.loc (thrV d L) ↦{fullShare} fI) ∗ ((sR).view.loc (thrV d L) ↦{fullShare} fR)
        ∗ flyA d L (pc0 L) gA fA ∗ flyB d L (pc1 L) gB fB ∗ semVal (cellR d L) 0
        ∗ own d L (ch2 L (tr 0) (cond_early L _ (by decide))) f ∗ own d L (ch3 L (tr 0) (cond_early L _ (by decide))) f ∗ owes (thrV d L) O W
        ∗ (tripPost d L (tr 0) (cond_early L _ (by decide)) tt fI O W -∗ Φ ⟨⟩))
      ⊢ wp frame (wpE (defs₀ (F := F)) 𝒱₀ (thrV d L) none) Set.univ
          (k0_t1_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1 (tr 0) ⟨⟩) Φ := by
  have h0 : k0_cond1 L (tr 0) = 1#1 := cond_early L _ (by decide)
  iintro ⟨#Hmw, Ht, HsI, HsR, ⟨HsemA, HsA⟩, ⟨HsemB, HsB⟩, HsemR, H2, H3, HO, Hk⟩
  sl_exec_parts (disch := first | exact h0 | exact fun _ => chk_ok' (F := F) d L _ hfI _ _)
  ihave H0 := (Entails.of_eq (own_congr (F := F) d L (off4_zero L).symm (k0_off1_inb L) (k0_off4_inb L (tr 0) h0) _)) $$ HsemA_dst
  sl_exec_parts (disch := first | exact h0 | exact fun _ => chk_ok' (F := F) d L _ hfI _ _)
  ihave H1 := (Entails.of_eq (own_congr (F := F) d L (off5_zero L).symm (k0_off2_inb L) (k0_off5_inb L (tr 0) h0) _)) $$ HsemB_dst
  sl_exec_parts (disch := first | exact h0 | exact fun _ => chk_ok' (F := F) d L _ hfI _ _)
  sl_step
  iapply Hk
  unfold tripPost
  isplitl [Ht]; · iexact Ht
  isplitl [HsI]; · iexact HsI
  isplitl [HsR]; · iexists _; iexact HsR
  isplitl [H0]; · iexists _; iexact H0
  isplitl [H1]; · iexists _; iexact H1
  isplitl [HsemA HsA]
  · iexists _; iexists _
    isplitl [HsemA]; · iexact HsemA
    iexact HsA
  isplitl [HsemB HsB]
  · iexists _; iexists _
    isplitl [HsemB]; · iexact HsemB
    iexact HsB
  isplitl [HsemR]; · iexact HsemR
  iexists (insert (SemLoc.dma cc0_scratch5.sem, (default : HIx 1)) (insert (SemLoc.dma cc0_scratch4.sem, (default : HIx 1))
    (insert (SemLoc.dma cc0_scratch5.sem, (default : HIx 1)) (insert (SemLoc.dma cc0_scratch4.sem, (default : HIx 1)) (insert (SemLoc.dma cc0_scoped1.sem, (default : HIx 1)) W))))); isplitr
  · ipureintro; intro p hp
    simp only [Finset.mem_insert] at hp
    rcases hp with rfl | rfl | rfl | rfl | rfl | hp
    all_goals first | exact .inr rfl | exact .inl hp
  · iexact HO

end Tile

end Cert.Proof.KI

end
-- ==== Proof.KI.Tile.lean ====
/-
  A tile's whole task from its trips: the prologue (the indices fetched, the two opening copies out), the ten trips
  in sequence — the first by its own lemma, the others by the generic one, each handed the chunks the previous trip
  left in flight and handing them back landed; the tenth only at the tiles whose tenth row exists —, the last two
  copies waited for, and the task's resources reassembled: the read shares, every chunk of the tile's rows at what
  was written, the scratches and semaphores as they must be left.
-/
import proofs.«203175_g23072564314740_cont_8to1_266_38_alg».proof.Proof.KI.TripN
import proofs.«203175_g23072564314740_cont_8to1_266_38_alg».proof.Proof.KI.TripZ
import proofs.«203175_g23072564314740_cont_8to1_266_38_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

attribute [local sl_canon] vli_bind

variable [FloatOps F]

section Tile

variable (d : Dev nD) (L : grid0.Coords)

/-- The ten trips, and that the first nine run at every tile. -/
abbrev T0 : Trip := tr 0
abbrev T1 : Trip := tr 1
abbrev T2 : Trip := tr 2
abbrev T3 : Trip := tr 3
abbrev T4 : Trip := tr 4
abbrev T5 : Trip := tr 5
abbrev T6 : Trip := tr 6
abbrev T7 : Trip := tr 7
abbrev T8 : Trip := tr 8
abbrev T9 : Trip := tr 9
theorem ce0 : k0_cond1 L T0 = 1#1 := cond_early L T0 (by decide)
theorem ce1 : k0_cond1 L T1 = 1#1 := cond_early L T1 (by decide)
theorem ce2 : k0_cond1 L T2 = 1#1 := cond_early L T2 (by decide)
theorem ce3 : k0_cond1 L T3 = 1#1 := cond_early L T3 (by decide)
theorem ce4 : k0_cond1 L T4 = 1#1 := cond_early L T4 (by decide)
theorem ce5 : k0_cond1 L T5 = 1#1 := cond_early L T5 (by decide)
theorem ce6 : k0_cond1 L T6 = 1#1 := cond_early L T6 (by decide)
theorem ce7 : k0_cond1 L T7 = 1#1 := cond_early L T7 (by decide)
theorem ce8 : k0_cond1 L T8 = 1#1 := cond_early L T8 (by decide)

set_option maxHeartbeats 4000000 in
theorem tile_body_pos (hF : (K (F := F)).Facts) (hpre : PreOK m) (h9 : k0_cond1 L T9 = 1#1) (tt : Buf (Elt F) (tLoc d)) (O : CellTallies nD τ sig (HIx 1)) (W : Waits sig (HIx 1)) (hO : ∀ g, O g none = 0) :
    iprop(levAts (K (F := F)).L (K (F := F)).lev ∗ emp ∗ goRes m d L tt ∗ scopedBufs (thrV d L) ∗ scopedSems0 (thrV d L) ∗ owes (thrV d L) O W)
      ⊢ wp frame (wpE (defs₀ (F := F)) 𝒱₀ (thrV d L) none) Set.univ
          (cc0__gather_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1)
          fun _ => iprop(tdRes m d L tt ∗ scopedBufs (thrV d L) ∗ scopedSems0 (thrV d L)
            ∗ ∃ W', ⌜∀ p ∈ W', p ∈ W ∨ p.2 = none⌝ ∗ owes (thrV d L) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold goRes rowsAt
  iintro ⟨#Hlv, -, ⟨Hi, Ht, Hr0, Hr1, Hr2, Hr3, Hr4, Hr5, Hr6, Hr7, Hr8, Hr9⟩, ⟨⟨%f0, Hs0⟩, ⟨%fRi, Hs1⟩, ⟨%fAi, Hs2⟩, ⟨%fBi, Hs3⟩, Hbufs⟩, ⟨HsemA, HsemB, HsemI, HsemR, Hsems⟩, HO⟩
  ihave Hmw := ((K (F := F)).mayWaits_none (thr := thrV d L) hO) $$ Hlv
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hr0 := (Entails.of_eq (rowAt_def (F := F) d L _ _ _)) $$ Hr0
  icases Hr0 with ⟨H00, H01, H02, H03⟩
  ihave H00 := (Entails.of_eq (own_congr (F := F) d L (off4_zero L) _ (k0_off1_inb L) _)) $$ H00
  ihave H01 := (Entails.of_eq (own_congr (F := F) d L (off5_zero L) _ (k0_off2_inb L) _)) $$ H01
  ihave Hr9 := (Entails.of_eq (row9At_pos (F := F) d L h9 _)) $$ Hr9
  -- the prologue: the indices fetched whole; the two opening copies out
  sl_exec
  have hfI : ∀ i, ((View.write (Elt F) (sI).view f0 (ReadAs.same.apply (View.read (Elt F) (aI).view (m (iLoc d)))) Finset.univ : Buf (Elt F) ((thrV d L).loc cc0_scratch0)) i).toNat < 100000 := by
    intro i; rw [View.write_whole_univ]; exact fetched_lt m d hpre i
  sl_unroll
  simp only [wp_bind]
  -- trip 0
  iapply (trip_zero (F := F) d L _ _ fAi fBi _ hfI fRi (m (oLoc d)) tt O _ _)
  isplitr; · iexact Hmw
  isplitl [Ht]; · iexact Ht
  isplitl [Hs0]; · iexact Hs0
  isplitl [Hs1]; · iexact Hs1
  isplitl [HsemA Hs2]
  · isplitl [HsemA]; · iexact HsemA
    iexact Hs2
  isplitl [HsemB Hs3]
  · isplitl [HsemB]; · iexact HsemB
    iexact Hs3
  isplitl [HsemR]; · iexact HsemR
  isplitl [H02]; · iexact H02
  isplitl [H03]; · iexact H03
  isplitl [HO]; · iexact HO
  iintro Hp
  unfold tripPost
  icases Hp with ⟨Ht, Hs0, ⟨%fR0, Hs1⟩, ⟨%g00, Hd00⟩, ⟨%g01, Hd01⟩, ⟨%gA0, %fA0, HflyA⟩, ⟨%gB0, %fB0, HflyB⟩, HsemR, ⟨%W0, %hW0, HO⟩⟩
  -- trip 1
  iapply (trip_next (F := F) d L T1 (ce1 L) (k0_off6 L T0) (k0_off7 L T0) (k0_off6_inb L T0 (ce0 L)) (k0_off7_inb L T0 (ce0 L)) gA0 gB0 fA0 fB0 _ hfI fR0 (m (oLoc d)) tt O W0 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr1]; · iexact Hr1
  isplitl [HO]; · iexact HO
  iintro ⟨Hp, Hd02, Hd03⟩
  unfold tripPost
  icases Hp with ⟨Ht, Hs0, ⟨%fR1, Hs1⟩, ⟨%g10, Hd10⟩, ⟨%g11, Hd11⟩, ⟨%gA1, %fA1, HflyA⟩, ⟨%gB1, %fB1, HflyB⟩, HsemR, ⟨%W1, %hW1, HO⟩⟩
  -- trip 2
  iapply (trip_next (F := F) d L T2 (ce2 L) (k0_off6 L T1) (k0_off7 L T1) (k0_off6_inb L T1 (ce1 L)) (k0_off7_inb L T1 (ce1 L)) gA1 gB1 fA1 fB1 _ hfI fR1 (m (oLoc d)) tt O W1 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr2]; · iexact Hr2
  isplitl [HO]; · iexact HO
  iintro ⟨Hp, Hd12, Hd13⟩
  unfold tripPost
  icases Hp with ⟨Ht, Hs0, ⟨%fR2, Hs1⟩, ⟨%g20, Hd20⟩, ⟨%g21, Hd21⟩, ⟨%gA2, %fA2, HflyA⟩, ⟨%gB2, %fB2, HflyB⟩, HsemR, ⟨%W2, %hW2, HO⟩⟩
  -- trip 3
  iapply (trip_next (F := F) d L T3 (ce3 L) (k0_off6 L T2) (k0_off7 L T2) (k0_off6_inb L T2 (ce2 L)) (k0_off7_inb L T2 (ce2 L)) gA2 gB2 fA2 fB2 _ hfI fR2 (m (oLoc d)) tt O W2 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr3]; · iexact Hr3
  isplitl [HO]; · iexact HO
  iintro ⟨Hp, Hd22, Hd23⟩
  unfold tripPost
  icases Hp with ⟨Ht, Hs0, ⟨%fR3, Hs1⟩, ⟨%g30, Hd30⟩, ⟨%g31, Hd31⟩, ⟨%gA3, %fA3, HflyA⟩, ⟨%gB3, %fB3, HflyB⟩, HsemR, ⟨%W3, %hW3, HO⟩⟩
  -- trip 4
  iapply (trip_next (F := F) d L T4 (ce4 L) (k0_off6 L T3) (k0_off7 L T3) (k0_off6_inb L T3 (ce3 L)) (k0_off7_inb L T3 (ce3 L)) gA3 gB3 fA3 fB3 _ hfI fR3 (m (oLoc d)) tt O W3 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr4]; · iexact Hr4
  isplitl [HO]; · iexact HO
  iintro ⟨Hp, Hd32, Hd33⟩
  unfold tripPost
  icases Hp with ⟨Ht, Hs0, ⟨%fR4, Hs1⟩, ⟨%g40, Hd40⟩, ⟨%g41, Hd41⟩, ⟨%gA4, %fA4, HflyA⟩, ⟨%gB4, %fB4, HflyB⟩, HsemR, ⟨%W4, %hW4, HO⟩⟩
  -- trip 5
  iapply (trip_next (F := F) d L T5 (ce5 L) (k0_off6 L T4) (k0_off7 L T4) (k0_off6_inb L T4 (ce4 L)) (k0_off7_inb L T4 (ce4 L)) gA4 gB4 fA4 fB4 _ hfI fR4 (m (oLoc d)) tt O W4 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr5]; · iexact Hr5
  isplitl [HO]; · iexact HO
  iintro ⟨Hp, Hd42, Hd43⟩
  unfold tripPost
  icases Hp with ⟨Ht, Hs0, ⟨%fR5, Hs1⟩, ⟨%g50, Hd50⟩, ⟨%g51, Hd51⟩, ⟨%gA5, %fA5, HflyA⟩, ⟨%gB5, %fB5, HflyB⟩, HsemR, ⟨%W5, %hW5, HO⟩⟩
  -- trip 6
  iapply (trip_next (F := F) d L T6 (ce6 L) (k0_off6 L T5) (k0_off7 L T5) (k0_off6_inb L T5 (ce5 L)) (k0_off7_inb L T5 (ce5 L)) gA5 gB5 fA5 fB5 _ hfI fR5 (m (oLoc d)) tt O W5 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr6]; · iexact Hr6
  isplitl [HO]; · iexact HO
  iintro ⟨Hp, Hd52, Hd53⟩
  unfold tripPost
  icases Hp with ⟨Ht, Hs0, ⟨%fR6, Hs1⟩, ⟨%g60, Hd60⟩, ⟨%g61, Hd61⟩, ⟨%gA6, %fA6, HflyA⟩, ⟨%gB6, %fB6, HflyB⟩, HsemR, ⟨%W6, %hW6, HO⟩⟩
  -- trip 7
  iapply (trip_next (F := F) d L T7 (ce7 L) (k0_off6 L T6) (k0_off7 L T6) (k0_off6_inb L T6 (ce6 L)) (k0_off7_inb L T6 (ce6 L)) gA6 gB6 fA6 fB6 _ hfI fR6 (m (oLoc d)) tt O W6 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr7]; · iexact Hr7
  isplitl [HO]; · iexact HO
  iintro ⟨Hp, Hd62, Hd63⟩
  unfold tripPost
  icases Hp with ⟨Ht, Hs0, ⟨%fR7, Hs1⟩, ⟨%g70, Hd70⟩, ⟨%g71, Hd71⟩, ⟨%gA7, %fA7, HflyA⟩, ⟨%gB7, %fB7, HflyB⟩, HsemR, ⟨%W7, %hW7, HO⟩⟩
  -- trip 8
  iapply (trip_next (F := F) d L T8 (ce8 L) (k0_off6 L T7) (k0_off7 L T7) (k0_off6_inb L T7 (ce7 L)) (k0_off7_inb L T7 (ce7 L)) gA7 gB7 fA7 fB7 _ hfI fR7 (m (oLoc d)) tt O W7 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr8]; · iexact Hr8
  isplitl [HO]; · iexact HO
  iintro ⟨Hp, Hd72, Hd73⟩
  unfold tripPost
  icases Hp with ⟨Ht, Hs0, ⟨%fR8, Hs1⟩, ⟨%g80, Hd80⟩, ⟨%g81, Hd81⟩, ⟨%gA8, %fA8, HflyA⟩, ⟨%gB8, %fB8, HflyB⟩, HsemR, ⟨%W8, %hW8, HO⟩⟩
  -- trip 9
  iapply (trip_next (F := F) d L T9 h9 (k0_off6 L T8) (k0_off7 L T8) (k0_off6_inb L T8 (ce8 L)) (k0_off7_inb L T8 (ce8 L)) gA8 gB8 fA8 fB8 _ hfI fR8 (m (oLoc d)) tt O W8 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr9]; · iexact Hr9
  isplitl [HO]; · iexact HO
  iintro ⟨Hp, Hd82, Hd83⟩
  unfold tripPost
  icases Hp with ⟨Ht, Hs0, ⟨%fR9, Hs1⟩, ⟨%g90, Hd90⟩, ⟨%g91, Hd91⟩, ⟨%gA9, %fA9, HflyA⟩, ⟨%gB9, %fB9, HflyB⟩, HsemR, ⟨%W9, %hW9, HO⟩⟩
  -- the last two copies out are waited for
  icases HflyA with ⟨HsemA, Hs2⟩
  icases HflyB with ⟨HsemB, Hs3⟩
  sl_exec
  sl_step
  unfold tdRes rowsEx
  isplitl [Hi Ht Hd00 Hd01 Hd02 Hd03 Hd10 Hd11 Hd12 Hd13 Hd20 Hd21 Hd22 Hd23 Hd30 Hd31 Hd32 Hd33 Hd40 Hd41 Hd42 Hd43 Hd50 Hd51 Hd52 Hd53 Hd60 Hd61 Hd62 Hd63 Hd70 Hd71 Hd72 Hd73 Hd80 Hd81 Hd82 Hd83 Hd90 Hd91 HsemA_dst HsemB_dst]
  · isplitl [Hi]; · iexact Hi
    isplitl [Ht]; · iexact Ht
    isplitl [Hd00 Hd01 Hd02 Hd03]
    · unfold rowEx
      isplitl [Hd00]; · iexists _; iexact Hd00
      isplitl [Hd01]; · iexists _; iexact Hd01
      isplitl [Hd02]; · iexists _; iexact Hd02
      iexists _; iexact Hd03
    isplitl [Hd10 Hd11 Hd12 Hd13]
    · unfold rowEx
      isplitl [Hd10]; · iexists _; iexact Hd10
      isplitl [Hd11]; · iexists _; iexact Hd11
      isplitl [Hd12]; · iexists _; iexact Hd12
      iexists _; iexact Hd13
    isplitl [Hd20 Hd21 Hd22 Hd23]
    · unfold rowEx
      isplitl [Hd20]; · iexists _; iexact Hd20
      isplitl [Hd21]; · iexists _; iexact Hd21
      isplitl [Hd22]; · iexists _; iexact Hd22
      iexists _; iexact Hd23
    isplitl [Hd30 Hd31 Hd32 Hd33]
    · unfold rowEx
      isplitl [Hd30]; · iexists _; iexact Hd30
      isplitl [Hd31]; · iexists _; iexact Hd31
      isplitl [Hd32]; · iexists _; iexact Hd32
      iexists _; iexact Hd33
    isplitl [Hd40 Hd41 Hd42 Hd43]
    · unfold rowEx
      isplitl [Hd40]; · iexists _; iexact Hd40
      isplitl [Hd41]; · iexists _; iexact Hd41
      isplitl [Hd42]; · iexists _; iexact Hd42
      iexists _; iexact Hd43
    isplitl [Hd50 Hd51 Hd52 Hd53]
    · unfold rowEx
      isplitl [Hd50]; · iexists _; iexact Hd50
      isplitl [Hd51]; · iexists _; iexact Hd51
      isplitl [Hd52]; · iexists _; iexact Hd52
      iexists _; iexact Hd53
    isplitl [Hd60 Hd61 Hd62 Hd63]
    · unfold rowEx
      isplitl [Hd60]; · iexists _; iexact Hd60
      isplitl [Hd61]; · iexists _; iexact Hd61
      isplitl [Hd62]; · iexists _; iexact Hd62
      iexists _; iexact Hd63
    isplitl [Hd70 Hd71 Hd72 Hd73]
    · unfold rowEx
      isplitl [Hd70]; · iexists _; iexact Hd70
      isplitl [Hd71]; · iexists _; iexact Hd71
      isplitl [Hd72]; · iexists _; iexact Hd72
      iexists _; iexact Hd73
    isplitl [Hd80 Hd81 Hd82 Hd83]
    · unfold rowEx
      isplitl [Hd80]; · iexists _; iexact Hd80
      isplitl [Hd81]; · iexists _; iexact Hd81
      isplitl [Hd82]; · iexists _; iexact Hd82
      iexists _; iexact Hd83
    rw [row9Ex_pos (F := F) d L h9]; unfold rowEx
    isplitl [Hd90]; · iexists _; iexact Hd90
    isplitl [Hd91]; · iexists _; iexact Hd91
    isplitl [HsemA_dst]; · iexists _; iexact HsemA_dst
    iexists _; iexact HsemB_dst
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [HsemA HsemB HsemI HsemR Hsems]
  · isplitl [HsemA]; · iexact HsemA
    isplitl [HsemB]; · iexact HsemB
    isplitl [HsemI]; · iexact HsemI
    isplitl [HsemR]; · iexact HsemR
    iexact Hsems
  iexists (insert (SemLoc.dma cc0_scratch5.sem, (default : HIx 1)) (insert (SemLoc.dma cc0_scratch4.sem, (default : HIx 1)) W9)); isplitr
  · ipureintro
    have k : ∀ p ∈ insert (SemLoc.dma cc0_scoped0.sem, (default : HIx 1)) W, p ∈ W ∨ p.2 = none :=
      fun p hp => (Finset.mem_insert.mp hp).elim (fun e => .inr (e ▸ rfl)) .inl
    have k : ∀ p ∈ W0, p ∈ W ∨ p.2 = none := fun p hp => (hW0 p hp).elim (k p) .inr
    have k : ∀ p ∈ W1, p ∈ W ∨ p.2 = none := fun p hp => (hW1 p hp).elim (k p) .inr
    have k : ∀ p ∈ W2, p ∈ W ∨ p.2 = none := fun p hp => (hW2 p hp).elim (k p) .inr
    have k : ∀ p ∈ W3, p ∈ W ∨ p.2 = none := fun p hp => (hW3 p hp).elim (k p) .inr
    have k : ∀ p ∈ W4, p ∈ W ∨ p.2 = none := fun p hp => (hW4 p hp).elim (k p) .inr
    have k : ∀ p ∈ W5, p ∈ W ∨ p.2 = none := fun p hp => (hW5 p hp).elim (k p) .inr
    have k : ∀ p ∈ W6, p ∈ W ∨ p.2 = none := fun p hp => (hW6 p hp).elim (k p) .inr
    have k : ∀ p ∈ W7, p ∈ W ∨ p.2 = none := fun p hp => (hW7 p hp).elim (k p) .inr
    have k : ∀ p ∈ W8, p ∈ W ∨ p.2 = none := fun p hp => (hW8 p hp).elim (k p) .inr
    have k : ∀ p ∈ W9, p ∈ W ∨ p.2 = none := fun p hp => (hW9 p hp).elim (k p) .inr
    intro p hp
    rcases Finset.mem_insert.mp hp with rfl | hp
    · exact .inr rfl
    rcases Finset.mem_insert.mp hp with rfl | hp
    · exact .inr rfl
    exact k p hp
  · iexact HO

set_option maxHeartbeats 4000000 in
theorem tile_body_neg (hF : (K (F := F)).Facts) (hpre : PreOK m) (hn : ¬ k0_cond1 L T9 = 1#1) (tt : Buf (Elt F) (tLoc d)) (O : CellTallies nD τ sig (HIx 1)) (W : Waits sig (HIx 1)) (hO : ∀ g, O g none = 0) :
    iprop(levAts (K (F := F)).L (K (F := F)).lev ∗ emp ∗ goRes m d L tt ∗ scopedBufs (thrV d L) ∗ scopedSems0 (thrV d L) ∗ owes (thrV d L) O W)
      ⊢ wp frame (wpE (defs₀ (F := F)) 𝒱₀ (thrV d L) none) Set.univ
          (cc0__gather_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1)
          fun _ => iprop(tdRes m d L tt ∗ scopedBufs (thrV d L) ∗ scopedSems0 (thrV d L)
            ∗ ∃ W', ⌜∀ p ∈ W', p ∈ W ∨ p.2 = none⌝ ∗ owes (thrV d L) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold goRes rowsAt
  iintro ⟨#Hlv, -, ⟨Hi, Ht, Hr0, Hr1, Hr2, Hr3, Hr4, Hr5, Hr6, Hr7, Hr8, Hr9⟩, ⟨⟨%f0, Hs0⟩, ⟨%fRi, Hs1⟩, ⟨%fAi, Hs2⟩, ⟨%fBi, Hs3⟩, Hbufs⟩, ⟨HsemA, HsemB, HsemI, HsemR, Hsems⟩, HO⟩
  ihave Hmw := ((K (F := F)).mayWaits_none (thr := thrV d L) hO) $$ Hlv
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hr0 := (Entails.of_eq (rowAt_def (F := F) d L _ _ _)) $$ Hr0
  icases Hr0 with ⟨H00, H01, H02, H03⟩
  ihave H00 := (Entails.of_eq (own_congr (F := F) d L (off4_zero L) _ (k0_off1_inb L) _)) $$ H00
  ihave H01 := (Entails.of_eq (own_congr (F := F) d L (off5_zero L) _ (k0_off2_inb L) _)) $$ H01
  ihave Hr9 := (Entails.of_eq (row9At_neg (F := F) d L hn _)) $$ Hr9
  -- the prologue: the indices fetched whole; the two opening copies out
  sl_exec
  have hfI : ∀ i, ((View.write (Elt F) (sI).view f0 (ReadAs.same.apply (View.read (Elt F) (aI).view (m (iLoc d)))) Finset.univ : Buf (Elt F) ((thrV d L).loc cc0_scratch0)) i).toNat < 100000 := by
    intro i; rw [View.write_whole_univ]; exact fetched_lt m d hpre i
  sl_unroll
  simp only [wp_bind]
  -- trip 0
  iapply (trip_zero (F := F) d L _ _ fAi fBi _ hfI fRi (m (oLoc d)) tt O _ _)
  isplitr; · iexact Hmw
  isplitl [Ht]; · iexact Ht
  isplitl [Hs0]; · iexact Hs0
  isplitl [Hs1]; · iexact Hs1
  isplitl [HsemA Hs2]
  · isplitl [HsemA]; · iexact HsemA
    iexact Hs2
  isplitl [HsemB Hs3]
  · isplitl [HsemB]; · iexact HsemB
    iexact Hs3
  isplitl [HsemR]; · iexact HsemR
  isplitl [H02]; · iexact H02
  isplitl [H03]; · iexact H03
  isplitl [HO]; · iexact HO
  iintro Hp
  unfold tripPost
  icases Hp with ⟨Ht, Hs0, ⟨%fR0, Hs1⟩, ⟨%g00, Hd00⟩, ⟨%g01, Hd01⟩, ⟨%gA0, %fA0, HflyA⟩, ⟨%gB0, %fB0, HflyB⟩, HsemR, ⟨%W0, %hW0, HO⟩⟩
  -- trip 1
  iapply (trip_next (F := F) d L T1 (ce1 L) (k0_off6 L T0) (k0_off7 L T0) (k0_off6_inb L T0 (ce0 L)) (k0_off7_inb L T0 (ce0 L)) gA0 gB0 fA0 fB0 _ hfI fR0 (m (oLoc d)) tt O W0 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr1]; · iexact Hr1
  isplitl [HO]; · iexact HO
  iintro ⟨Hp, Hd02, Hd03⟩
  unfold tripPost
  icases Hp with ⟨Ht, Hs0, ⟨%fR1, Hs1⟩, ⟨%g10, Hd10⟩, ⟨%g11, Hd11⟩, ⟨%gA1, %fA1, HflyA⟩, ⟨%gB1, %fB1, HflyB⟩, HsemR, ⟨%W1, %hW1, HO⟩⟩
  -- trip 2
  iapply (trip_next (F := F) d L T2 (ce2 L) (k0_off6 L T1) (k0_off7 L T1) (k0_off6_inb L T1 (ce1 L)) (k0_off7_inb L T1 (ce1 L)) gA1 gB1 fA1 fB1 _ hfI fR1 (m (oLoc d)) tt O W1 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr2]; · iexact Hr2
  isplitl [HO]; · iexact HO
  iintro ⟨Hp, Hd12, Hd13⟩
  unfold tripPost
  icases Hp with ⟨Ht, Hs0, ⟨%fR2, Hs1⟩, ⟨%g20, Hd20⟩, ⟨%g21, Hd21⟩, ⟨%gA2, %fA2, HflyA⟩, ⟨%gB2, %fB2, HflyB⟩, HsemR, ⟨%W2, %hW2, HO⟩⟩
  -- trip 3
  iapply (trip_next (F := F) d L T3 (ce3 L) (k0_off6 L T2) (k0_off7 L T2) (k0_off6_inb L T2 (ce2 L)) (k0_off7_inb L T2 (ce2 L)) gA2 gB2 fA2 fB2 _ hfI fR2 (m (oLoc d)) tt O W2 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr3]; · iexact Hr3
  isplitl [HO]; · iexact HO
  iintro ⟨Hp, Hd22, Hd23⟩
  unfold tripPost
  icases Hp with ⟨Ht, Hs0, ⟨%fR3, Hs1⟩, ⟨%g30, Hd30⟩, ⟨%g31, Hd31⟩, ⟨%gA3, %fA3, HflyA⟩, ⟨%gB3, %fB3, HflyB⟩, HsemR, ⟨%W3, %hW3, HO⟩⟩
  -- trip 4
  iapply (trip_next (F := F) d L T4 (ce4 L) (k0_off6 L T3) (k0_off7 L T3) (k0_off6_inb L T3 (ce3 L)) (k0_off7_inb L T3 (ce3 L)) gA3 gB3 fA3 fB3 _ hfI fR3 (m (oLoc d)) tt O W3 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr4]; · iexact Hr4
  isplitl [HO]; · iexact HO
  iintro ⟨Hp, Hd32, Hd33⟩
  unfold tripPost
  icases Hp with ⟨Ht, Hs0, ⟨%fR4, Hs1⟩, ⟨%g40, Hd40⟩, ⟨%g41, Hd41⟩, ⟨%gA4, %fA4, HflyA⟩, ⟨%gB4, %fB4, HflyB⟩, HsemR, ⟨%W4, %hW4, HO⟩⟩
  -- trip 5
  iapply (trip_next (F := F) d L T5 (ce5 L) (k0_off6 L T4) (k0_off7 L T4) (k0_off6_inb L T4 (ce4 L)) (k0_off7_inb L T4 (ce4 L)) gA4 gB4 fA4 fB4 _ hfI fR4 (m (oLoc d)) tt O W4 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr5]; · iexact Hr5
  isplitl [HO]; · iexact HO
  iintro ⟨Hp, Hd42, Hd43⟩
  unfold tripPost
  icases Hp with ⟨Ht, Hs0, ⟨%fR5, Hs1⟩, ⟨%g50, Hd50⟩, ⟨%g51, Hd51⟩, ⟨%gA5, %fA5, HflyA⟩, ⟨%gB5, %fB5, HflyB⟩, HsemR, ⟨%W5, %hW5, HO⟩⟩
  -- trip 6
  iapply (trip_next (F := F) d L T6 (ce6 L) (k0_off6 L T5) (k0_off7 L T5) (k0_off6_inb L T5 (ce5 L)) (k0_off7_inb L T5 (ce5 L)) gA5 gB5 fA5 fB5 _ hfI fR5 (m (oLoc d)) tt O W5 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr6]; · iexact Hr6
  isplitl [HO]; · iexact HO
  iintro ⟨Hp, Hd52, Hd53⟩
  unfold tripPost
  icases Hp with ⟨Ht, Hs0, ⟨%fR6, Hs1⟩, ⟨%g60, Hd60⟩, ⟨%g61, Hd61⟩, ⟨%gA6, %fA6, HflyA⟩, ⟨%gB6, %fB6, HflyB⟩, HsemR, ⟨%W6, %hW6, HO⟩⟩
  -- trip 7
  iapply (trip_next (F := F) d L T7 (ce7 L) (k0_off6 L T6) (k0_off7 L T6) (k0_off6_inb L T6 (ce6 L)) (k0_off7_inb L T6 (ce6 L)) gA6 gB6 fA6 fB6 _ hfI fR6 (m (oLoc d)) tt O W6 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr7]; · iexact Hr7
  isplitl [HO]; · iexact HO
  iintro ⟨Hp, Hd62, Hd63⟩
  unfold tripPost
  icases Hp with ⟨Ht, Hs0, ⟨%fR7, Hs1⟩, ⟨%g70, Hd70⟩, ⟨%g71, Hd71⟩, ⟨%gA7, %fA7, HflyA⟩, ⟨%gB7, %fB7, HflyB⟩, HsemR, ⟨%W7, %hW7, HO⟩⟩
  -- trip 8
  iapply (trip_next (F := F) d L T8 (ce8 L) (k0_off6 L T7) (k0_off7 L T7) (k0_off6_inb L T7 (ce7 L)) (k0_off7_inb L T7 (ce7 L)) gA7 gB7 fA7 fB7 _ hfI fR7 (m (oLoc d)) tt O W7 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr8]; · iexact Hr8
  isplitl [HO]; · iexact HO
  iintro ⟨Hp, Hd72, Hd73⟩
  unfold tripPost
  icases Hp with ⟨Ht, Hs0, ⟨%fR8, Hs1⟩, ⟨%g80, Hd80⟩, ⟨%g81, Hd81⟩, ⟨%gA8, %fA8, HflyA⟩, ⟨%gB8, %fB8, HflyB⟩, HsemR, ⟨%W8, %hW8, HO⟩⟩
  -- trip 9: the tile has no tenth row
  iapply (trip_skip (F := F) d L T9 hn _)
  -- the last two copies out are waited for
  icases HflyA with ⟨HsemA, Hs2⟩
  icases HflyB with ⟨HsemB, Hs3⟩
  sl_exec
  sl_step
  unfold tdRes rowsEx
  isplitl [Hi Ht Hd00 Hd01 Hd02 Hd03 Hd10 Hd11 Hd12 Hd13 Hd20 Hd21 Hd22 Hd23 Hd30 Hd31 Hd32 Hd33 Hd40 Hd41 Hd42 Hd43 Hd50 Hd51 Hd52 Hd53 Hd60 Hd61 Hd62 Hd63 Hd70 Hd71 Hd72 Hd73 Hd80 Hd81 HsemA_dst HsemB_dst]
  · isplitl [Hi]; · iexact Hi
    isplitl [Ht]; · iexact Ht
    isplitl [Hd00 Hd01 Hd02 Hd03]
    · unfold rowEx
      isplitl [Hd00]; · iexists _; iexact Hd00
      isplitl [Hd01]; · iexists _; iexact Hd01
      isplitl [Hd02]; · iexists _; iexact Hd02
      iexists _; iexact Hd03
    isplitl [Hd10 Hd11 Hd12 Hd13]
    · unfold rowEx
      isplitl [Hd10]; · iexists _; iexact Hd10
      isplitl [Hd11]; · iexists _; iexact Hd11
      isplitl [Hd12]; · iexists _; iexact Hd12
      iexists _; iexact Hd13
    isplitl [Hd20 Hd21 Hd22 Hd23]
    · unfold rowEx
      isplitl [Hd20]; · iexists _; iexact Hd20
      isplitl [Hd21]; · iexists _; iexact Hd21
      isplitl [Hd22]; · iexists _; iexact Hd22
      iexists _; iexact Hd23
    isplitl [Hd30 Hd31 Hd32 Hd33]
    · unfold rowEx
      isplitl [Hd30]; · iexists _; iexact Hd30
      isplitl [Hd31]; · iexists _; iexact Hd31
      isplitl [Hd32]; · iexists _; iexact Hd32
      iexists _; iexact Hd33
    isplitl [Hd40 Hd41 Hd42 Hd43]
    · unfold rowEx
      isplitl [Hd40]; · iexists _; iexact Hd40
      isplitl [Hd41]; · iexists _; iexact Hd41
      isplitl [Hd42]; · iexists _; iexact Hd42
      iexists _; iexact Hd43
    isplitl [Hd50 Hd51 Hd52 Hd53]
    · unfold rowEx
      isplitl [Hd50]; · iexists _; iexact Hd50
      isplitl [Hd51]; · iexists _; iexact Hd51
      isplitl [Hd52]; · iexists _; iexact Hd52
      iexists _; iexact Hd53
    isplitl [Hd60 Hd61 Hd62 Hd63]
    · unfold rowEx
      isplitl [Hd60]; · iexists _; iexact Hd60
      isplitl [Hd61]; · iexists _; iexact Hd61
      isplitl [Hd62]; · iexists _; iexact Hd62
      iexists _; iexact Hd63
    isplitl [Hd70 Hd71 Hd72 Hd73]
    · unfold rowEx
      isplitl [Hd70]; · iexists _; iexact Hd70
      isplitl [Hd71]; · iexists _; iexact Hd71
      isplitl [Hd72]; · iexists _; iexact Hd72
      iexists _; iexact Hd73
    isplitl [Hd80 Hd81 HsemA_dst HsemB_dst]
    · unfold rowEx
      isplitl [Hd80]; · iexists _; iexact Hd80
      isplitl [Hd81]; · iexists _; iexact Hd81
      isplitl [HsemA_dst]; · iexists _; iexact HsemA_dst
      iexists _; iexact HsemB_dst
    rw [row9Ex_neg (F := F) d L hn]
    iempintro
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [HsemA HsemB HsemI HsemR Hsems]
  · isplitl [HsemA]; · iexact HsemA
    isplitl [HsemB]; · iexact HsemB
    isplitl [HsemI]; · iexact HsemI
    isplitl [HsemR]; · iexact HsemR
    iexact Hsems
  iexists (insert (SemLoc.dma cc0_scratch5.sem, (default : HIx 1)) (insert (SemLoc.dma cc0_scratch4.sem, (default : HIx 1)) W8)); isplitr
  · ipureintro
    have k : ∀ p ∈ insert (SemLoc.dma cc0_scoped0.sem, (default : HIx 1)) W, p ∈ W ∨ p.2 = none :=
      fun p hp => (Finset.mem_insert.mp hp).elim (fun e => .inr (e ▸ rfl)) .inl
    have k : ∀ p ∈ W0, p ∈ W ∨ p.2 = none := fun p hp => (hW0 p hp).elim (k p) .inr
    have k : ∀ p ∈ W1, p ∈ W ∨ p.2 = none := fun p hp => (hW1 p hp).elim (k p) .inr
    have k : ∀ p ∈ W2, p ∈ W ∨ p.2 = none := fun p hp => (hW2 p hp).elim (k p) .inr
    have k : ∀ p ∈ W3, p ∈ W ∨ p.2 = none := fun p hp => (hW3 p hp).elim (k p) .inr
    have k : ∀ p ∈ W4, p ∈ W ∨ p.2 = none := fun p hp => (hW4 p hp).elim (k p) .inr
    have k : ∀ p ∈ W5, p ∈ W ∨ p.2 = none := fun p hp => (hW5 p hp).elim (k p) .inr
    have k : ∀ p ∈ W6, p ∈ W ∨ p.2 = none := fun p hp => (hW6 p hp).elim (k p) .inr
    have k : ∀ p ∈ W7, p ∈ W ∨ p.2 = none := fun p hp => (hW7 p hp).elim (k p) .inr
    have k : ∀ p ∈ W8, p ∈ W ∨ p.2 = none := fun p hp => (hW8 p hp).elim (k p) .inr
    intro p hp
    rcases Finset.mem_insert.mp hp with rfl | hp
    · exact .inr rfl
    rcases Finset.mem_insert.mp hp with rfl | hp
    · exact .inr rfl
    exact k p hp
  · iexact HO

/-- A tile's task. -/
theorem tile_body (hF : (K (F := F)).Facts) (hpre : PreOK m) (tt : Buf (Elt F) (tLoc d)) (O : CellTallies nD τ sig (HIx 1)) (W : Waits sig (HIx 1)) (hO : ∀ g, O g none = 0) :
    iprop(levAts (K (F := F)).L (K (F := F)).lev ∗ emp ∗ goRes m d L tt ∗ scopedBufs (thrV d L) ∗ scopedSems0 (thrV d L) ∗ owes (thrV d L) O W)
      ⊢ wp frame (wpE (defs₀ (F := F)) 𝒱₀ (thrV d L) none) Set.univ
          (cc0__gather_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1)
          fun _ => iprop(tdRes m d L tt ∗ scopedBufs (thrV d L) ∗ scopedSems0 (thrV d L)
            ∗ ∃ W', ⌜∀ p ∈ W', p ∈ W ∨ p.2 = none⌝ ∗ owes (thrV d L) O W') := by
  by_cases h9 : k0_cond1 L T9 = 1#1
  · exact tile_body_pos m d L hF hpre h9 tt O W hO
  · exact tile_body_neg m d L hF hpre h9 tt O W hO

end Tile

/-! ## The launch theorem's obligation -/

theorem defs₀_vector (c : Fin τ.nSC) (s : Fin τ.nSub) :
    defs₀ (F := F) (.scVector c s) 0 ()
      = SparseCore.onTile hcore0 hsub0 (fun c s => cc0__gather_body (coordsV c s)
          aI (Memref.isWhole_whole _) aT (Memref.isWhole_whole _) aO (Memref.isWhole_whole _)
          sI (Memref.isWhole_whole _) sR (Memref.isWhole_whole _) sA (Memref.isWhole_whole _) sB (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call: the tile's body at the task's grid coordinates. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre (ttOf m d) O W hO).trans (wp_mono frame _ _ fun _ => obl_post)

end Cert.Proof.KI

end
-- ==== Proof.KI.Spec.lean ====
/-
  What the kernel computes. Its result is the 300 × 16384 array whose entry `(j, i)` is the transposed table's entry
  `(j, idx i)`: row `j` of the transposed table read at the index list. (The index is cut at the table's last row, so
  that the function is total; under the precondition every index names a row and the cut does nothing.)
-/
import proofs.«203175_g23072564314740_cont_8to1_266_38_alg».proof.Proof.KI.Pay
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)

variable {F : FTy → Type}

/-- Row `j` of `tt` read at the indices: entry `(j, i)` is `tt (j, idx i)`. -/
def gath (idx : IVec S16384 32) (tt : FVec F S300x100000 .f32) : FVec F S300x16384 .f32 :=
  fun y => tt (ix2 (y 0) ⟨min (idx (ix1 (y 1))).toNat 99999, by omega⟩)

theorem gath_apply (idx : IVec S16384 32) (tt : FVec F S300x100000 .f32) (y : S300x16384.Idx) (h : (idx (ix1 (y 1))).toNat < 100000) :
    gath idx tt y = tt (ix2 (y 0) ⟨(idx (ix1 (y 1))).toNat, h⟩) := by
  unfold gath
  congr 2
  exact Fin.ext (Nat.min_eq_left (by omega))

variable (m : (ℓ : Loc nD τ sig) → Buf (Elt F) ℓ) [FloatOps F]

/-- The kernel's result on device `d`: the transposed table gathered at the device's indices. -/
def GT (d : Dev nD) : Buf (Elt F) (oLoc d) := gath (m (iLoc d)) (ttOf m d)

end Cert.Proof.KI

end
-- ==== Proof.KI.PayV.lean ====
/-
  What the one call carries when the tiles' results are named: as before the TensorCore hands each core its sixteen
  tiles' read shares and rows of the result at the launch contents, and now takes the rows back at the specification —
  the transposed table gathered at the indices.
-/
import proofs.«203175_g23072564314740_cont_8to1_266_38_alg».proof.Proof.KI.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- What a tile hands back: its read shares, and its rows at the specification. -/
def tdResV (d : Dev nD) (L : grid0.Coords) : sProp 𝕄 :=
  iprop(idxTok m d L ∗ tabTok d L (ttOf m d) ∗ rowsAt d L (GT m d))

/-- All of a core's tiles' results. -/
def coreTdV (d : Dev nD) (c : Fin ((K (F := F)).nCore 0)) : sProp 𝕄 :=
  bigSep Finset.univ fun i : Fin ((K (F := F)).nSub 0) => tdResV m d (LL (F := F) c i)

def PV : (K (F := F)).Pay (nD := nD) (Val := Elt F) (Name := ℕ) (U := UU) where
  st := fun q d c => match q with | 0 => coreGo m d c
  dn := fun q d c => match q with | 0 => coreTdV m d c
  go := fun q d c i => match q with | 0 => goRes m d (LL (F := F) c i) (ttOf m d)
  td := fun q d c i => match q with | 0 => tdResV m d (LL (F := F) c i)
  x := fun _ _ => iprop(emp)

instance tdResV_storable (d : Dev nD) (L : grid0.Coords) : BI.Storable (upEmb : UEmb _ 𝕄) (tdResV m d L) := by
  unfold tdResV; infer_instance

instance PV_storable : (PV (F := F) m).IsStorable where
  st q d c := match q with | 0 => by show BI.Storable _ (coreGo m d c); unfold coreGo; infer_instance
  dn q d c := match q with | 0 => by show BI.Storable _ (coreTdV m d c); unfold coreTdV; infer_instance
  go q d c i := match q with | 0 => by show BI.Storable _ (goRes m d _ _); infer_instance
  td q d c i := match q with | 0 => by show BI.Storable _ (tdResV m d _); infer_instance

/-- The split among a core's tiles: the core's payload is its tiles' payloads side by side. -/
theorem vecSplitV : (K (F := F)).VecSplit' (PV m) 0 := by
  intro d c
  show coreGo m d c ⊢ |={Set.univ}=> iprop((bigSep Finset.univ fun i : Fin ((K (F := F)).nSub 0) => goRes m d (LL (F := F) c i) (ttOf m d))
    ∗ ((bigSep Finset.univ fun i : Fin ((K (F := F)).nSub 0) => tdResV m d (LL (F := F) c i)) -∗ coreTdV m d c))
  unfold coreGo coreTdV
  iintro H; imodintro
  isplitl [H]; · iexact H
  iintro H; iexact H

end Cert.Proof.KI

end
-- ==== Proof.RefSpec.lean ====
/-
  The reference side's specification: the embedding lookup as a function of the index vector and the table,
  and what the precondition says of the indices.

  `takeRows idx tab` is the array whose row `t` is row `idx[t]` of `tab` (the index read unsigned and capped at the
  last row, so the definition is total); under `idx[t] < 100000` the cap is not met (`takeRows_apply`).
  `idx_lt_of_pre`: the precondition `input_domain` — the table finite and `0 ≤ idx ≤ 99999` as signed words, all
  reduced by `and` — being all ones gives `idx[t] < 100000` for every `t`, as an unsigned reading: a signed word
  that is nonnegative reads the same unsigned.
-/
import proofs.«203175_g23072564314740_cont_8to1_266_38_alg».proof.Pre_input_domain
import Idealize.ShloMosaic.Lib.ValueIdx
import Idealize.ShloMosaic.Lib.ReduceAll

noncomputable section

namespace Cert.Proof.RefSide

open Idealize.ShloMosaic Idealize.ShloMosaic.ValueIdx

/-- The lookup: entry `(t, j)` is the table's at `(idx[t], j)`, the index read unsigned and capped at the last row. -/
def takeRows {F : FTy → Type} (idx : IVec ⟨1, ![16384]⟩ 32) (tab : FVec F ⟨2, ![100000, 300]⟩ .f32) :
    FVec F ⟨2, ![16384, 300]⟩ .f32 :=
  fun y => tab (ix2 ⟨min (idx (ix1 (y 0))).toNat 99999, by omega⟩ (y 1))

/-- Under an index below the table's row count the cap is not met. -/
theorem takeRows_apply {F : FTy → Type} (idx : IVec ⟨1, ![16384]⟩ 32) (tab : FVec F ⟨2, ![100000, 300]⟩ .f32)
    (y : (⟨2, ![16384, 300]⟩ : Shape).Idx) (h : (idx (ix1 (y 0))).toNat < 100000) :
    takeRows idx tab y = tab (ix2 ⟨(idx (ix1 (y 0))).toNat, h⟩ (y 1)) := by
  unfold takeRows
  congr 2
  exact Fin.ext (by simp only []; omega)

instance : Subsingleton Cert.Pre_input_domain.S_.Idx := ⟨fun a b => funext fun d => d.elim0⟩

/-- A signed word between 0 and 99999 reads, unsigned, below 100000. -/
theorem toNat_lt_of_signed_range (v : BitVec 32)
    (e : IntOp.andi (IntOp.cmpi .sge v 0#32) (IntOp.cmpi .sle v 99999#32) = 1#1) : v.toNat < 100000 := by
  obtain ⟨h0, h1⟩ := IntOp.andi_eq_one.1 e
  rw [IntOp.cmpi_sge, show (0#32 : BitVec 32).toInt = 0 from by decide] at h0
  rw [IntOp.cmpi_sle, show (99999#32 : BitVec 32).toInt = 99999 from by decide] at h1
  rw [BitVec.toInt_eq_toNat_cond] at h0 h1
  have := v.isLt
  split at h0 <;> omega

/-- The precondition all ones: every index is below the table's row count. -/
theorem idx_lt_of_pre {F : FTy → Type} [FloatOps F] [Cert.Pre_input_domain.Facts]
    (idx : IVec Cert.Pre_input_domain.S16384 32) (tab : FVec F Cert.Pre_input_domain.S100000x300 .f32)
    (h : Cert.Pre_input_domain.fn (F := F) idx tab = fun _ => 1#1) : ∀ i, (idx i).toNat < 100000 := by
  intro i
  have h0 := congrFun h ix0
  dsimp only [Cert.Pre_input_domain.fn] at h0
  obtain ⟨-, h9⟩ := IntOp.andi_eq_one.1 h0
  have h8 := Host.reduce_andi_all _ _ _ _ _ h9 i
  exact toNat_lt_of_signed_range (idx i) h8

end Cert.Proof.RefSide

end
-- ==== Proof.KI.LaunchV.lean ====
/-
  The launch side again, with the result named. @main hands the tiles their shares and rows as before; the rows come
  back at the specification, so the kernel's result comes back whole at the specification, and its transpose is the
  program's result: row `i` of it is row `idx[i]` of the table.
-/
import proofs.«203175_g23072564314740_cont_8to1_266_38_alg».proof.Proof.KI.PayV
import proofs.«203175_g23072564314740_cont_8to1_266_38_alg».proof.Proof.KI.Launch
import proofs.«203175_g23072564314740_cont_8to1_266_38_alg».proof.Proof.RefSpec
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## What the call takes and hands back -/

theorem dn0V_eq (d : Dev nD) :
    (bigSep Finset.univ fun c : Fin ((K (F := F)).nCore 0) => (PV m).dn 0 d c)
      = bigSep Finset.univ fun c : Fin ((K (F := F)).nCore 0) => bigSep Finset.univ fun i : Fin ((K (F := F)).nSub 0) =>
          iprop(idxTok m d (LL (F := F) c i) ∗ tabTok d (LL (F := F) c i) (ttOf m d) ∗ rowsAt d (LL (F := F) c i) (GT m d)) := by
  refine bigSep_congr fun c _ => ?_
  show coreTdV m d c = _
  unfold coreTdV tdResV; rfl

/-- The three arrays whole go out as the remainders and every core's payload (the same as before); -/
theorem call_inV (d : Dev nD) :
    iprop((iLoc d ↦{fullShare} m (iLoc d)) ∗ (tLoc d ↦{fullShare} ttOf m d) ∗ (oLoc d ↦{fullShare} m (oLoc d)))
      ⊢ (iprop(REM m d ∗ bigSep Finset.univ fun c : Fin ((K (F := F)).nCore 0) => (PV m).st 0 d c) : sProp 𝕄) :=
  call_in m d

/-- and come back from them, the result whole at the specification. -/
theorem call_outV (d : Dev nD) :
    (iprop(REM m d ∗ bigSep Finset.univ fun c : Fin ((K (F := F)).nCore 0) => (PV m).dn 0 d c) : sProp 𝕄)
      ⊢ iprop((iLoc d ↦{fullShare} m (iLoc d)) ∗ (tLoc d ↦{fullShare} ttOf m d) ∗ oLoc d ↦{fullShare} GT m d) := by
  rw [dn0V_eq]
  simp only [bigSep_sep']
  unfold REM
  iintro ⟨⟨Hir, Htr⟩, Hi, Ht, Ho⟩
  isplitl [Hir Hi]
  · iapply (shares_split (F := F) (iLoc d) (m (iLoc d))).2
    isplitl [Hir]; · iexact Hir
    iexact Hi
  isplitl [Htr Ht]
  · iapply (shares_split (F := F) (tLoc d) (ttOf m d)).2
    isplitl [Htr]; · iexact Htr
    iexact Ht
  iapply (rows_split (F := F) d (GT m d)).2; iexact Ho

/-! ## The launch element -/

theorem hu₀V : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PV m).x q thr) :=
  hu₀ m

/-! ## @main on the TensorCore -/

/-- The program's result: the kernel's, transposed. -/
def outOf (d : Dev nD) : Buf (Elt F) (rLoc d) :=
  (transpose S16384x300 [1, 0] · transposes_S300x16384_S16384x300_1_0) (GT m d)

/-- After the second transpose: the kernel's result as it was, the program's result its transpose. -/
theorem held_T2 (d : Dev nD) (f : Buf (Elt F) (oLoc d)) :
    (held (T d) S2 ((opT2 (F := F)).result (V1 m d f)) : sProp 𝕄)
      = iprop((oLoc d ↦{fullShare} f) ∗ rLoc d ↦{fullShare} (transpose S16384x300 [1, 0] · transposes_S300x16384_S16384x300_1_0) f) := by
  rw [held_S2, StableHlo.unary_result_ne (h := show (main_v1 : Ref sig .tc) ≠ main_v2 by decide), StableHlo.unary_result, V1_o]

/-- What @main leaves the claim: the indices and the table at their launch contents, the result at the
    specification's transpose. -/
def FINV (d : Dev nD) : sProp 𝕄 :=
  iprop((iLoc d ↦{fullShare} m (iLoc d)) ∗ (bLoc d ↦{fullShare} m (bLoc d)) ∗ (rLoc d ↦{fullShare} outOf m d))

theorem hmainV (κ : GSem nD τ sig → ℕ) (d : Dev nD) :
    iprop((K (F := F)).ctx EH (PV m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FINV m d) := by
  unfold SparseCore.Cfg.tcRes
  rw [unscopedBufs_eq]
  simp only [main, wp_bind, wp_pure]
  iintro ⟨#Hctx, Hst, ⟨Hb, ⟨Hi, Hbt, Ht, Ho, Hr⟩, -, -⟩, -⟩
  -- the table transposed
  iapply (wp_hlo_within 𝒱 (SparseCore.T d) none Set.univ (op := opT1) (S := S1) hT1 (V := V0 m d)) $$ [Hb Hbt Ht]
  · isplitl [Hb]; · iexact Hb
    rw [held_S1]
    isplitl [Hbt]; · iexact Hbt
    iexact Ht
  iintro ⟨Hb, Hheld⟩
  ihave Hh := (Entails.of_eq (held_T1 (F := F) m d)) $$ Hheld
  icases Hh with ⟨Hbt, Ht⟩
  rw [wp_ret]; imodintro
  -- the call
  ihave Hin := (call_inV (F := F) m d) $$ [Hi Ht Ho]
  · isplitl [Hi]; · iexact Hi
    isplitl [Ht]; · iexact Ht
    iexact Ho
  icases Hin with ⟨Hrem, Hcores⟩
  iapply ((K (F := F)).wp_run (D (F := F)) 𝒱 (EH := EH) (P := PV m) κ d 0) $$ [Hst Hcores Hrem Hb Hbt Hr]
  isplitr; · iexact Hctx
  isplitl [Hst]; · iexact Hst
  isplitl [Hcores]; · iexact Hcores
  iintro ⟨Hst, Hdn⟩
  ihave Hout := (call_outV (F := F) m d) $$ [Hrem Hdn]
  · isplitl [Hrem]; · iexact Hrem
    iexact Hdn
  icases Hout with ⟨Hi, Ht, Ho⟩
  -- the result transposed
  iapply (wp_hlo_within 𝒱 (SparseCore.T d) none Set.univ (op := opT2) (S := S2) hT2 (V := V1 m d (GT m d))) $$ [Hb Ho Hr]
  · isplitl [Hb]; · iexact Hb
    rw [held_S2, V1_o, V1_r]
    isplitl [Ho]; · iexact Ho
    iexact Hr
  iintro ⟨Hb, Hheld⟩
  ihave Hh := (Entails.of_eq (held_T2 (F := F) m d (GT m d))) $$ Hheld
  icases Hh with ⟨-, Hr⟩
  rw [wp_ret]; imodintro; imodintro
  isplitl [Hst]; · iexact Hst
  unfold FINV outOf
  isplitl [Hi]; · iexact Hi
  isplitl [Hbt]; · iexact Hbt
  iexact Hr

def fqV (d : Dev nD) (s' : Phys nD τ sig (Elt F)) : Prop :=
  s'.mem.mem (rLoc d) = outOf m d ∧ s'.mem.mem (iLoc d) = m (iLoc d) ∧ s'.mem.mem (bLoc d) = m (bLoc d)

theorem hfinV (d : Dev nD) (s' : Phys nD τ sig (Elt F)) : iprop(FINV m d ∗ SI s') ⊢ (⌜fqV m d s'⌝ : sProp 𝕄) := by
  unfold FINV
  iintro ⟨⟨Hi, Hx, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hx]
  · isplitl [HSI] <;> iassumption
  icases H with ⟨%h2, HSI, -⟩
  ihave H := (SI_pointsTo_agree (st := s') (ℓ := rLoc d) (I := Finset.univ) (q := fullShare) (f := outOf m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run, with its result -/

def QCV : PUnit × MemSt nD τ sig (Elt F) → Prop := fun r =>
  ∀ c : Dev nD, r.2.mem (rLoc c) = outOf m c ∧ r.2.mem (iLoc c) = m (iLoc c) ∧ r.2.mem (bLoc c) = m (bLoc c)

/-- The program's run from the tile's obligation at the specification: every weakly fair execution of the device's
    threads ends, the result the transposed gather, the indices and the table as they were. -/
theorem run_mainV [∀ e, Nonempty (Elt F e)] (htile : (K (F := F)).TileObl (D (F := F)) 𝒱 (PV m) v₀ 0) :
    θ_run (Cert.KernelIdeal.defs (F := F)) (Cert.KernelIdeal.threads (F := F)) ⟨m, fun _ => 0, ρ⟩ (QCV m) :=
  SparseCore.Cfg.θ_run_sc (K := K (F := F)) (D := D (F := F)) (𝒱 := 𝒱) (EH := EH) (P := PV m) facts v₀
    (fun q hq => match q with | 0 => nomatch hq)
    (fun q _ => match q with | 0 => htile)
    (fun q _ => match q with | 0 => SparseCore.Cfg.VecSplit.of_plain (vecSplitV m))
    m ρ main (fun _ => iprop(emp)) (FINV m) (u₀ (F := F)) (sep_elim_left.trans (hu₀V m)) (hmainV m ρ) (fqV m) (hfinV m) (QCV m) (fun _ h => h)

/-! ## The result, index by index -/

omit [FloatOps F] in
/-- The transposed gather of the transposed table is the lookup: entry `(i, j)` is the table's at `(idx[i], j)`. -/
theorem transpose_gath_eq_takeRows (idx : IVec S16384 32) (tab : FVec F S100000x300 .f32) :
    (transpose S16384x300 [1, 0] · transposes_S300x16384_S16384x300_1_0)
        (gath idx ((transpose S300x100000 [1, 0] · transposes_S100000x300_S300x100000_1_0) tab))
      = Cert.Proof.RefSide.takeRows idx tab := by
  funext y
  rw [eq_ix2 (n0 := 16384) (n1 := 300) y]
  refine (transpose_ix2_apply (a := 300) (b := 16384) _ transposes_S300x16384_S16384x300_1_0 (y 0) (y 1)).trans ?_
  exact transpose_ix2_apply (a := 100000) (b := 300) tab transposes_S100000x300_S300x100000_1_0 (y 1)
    ⟨min (idx (ix1 (y 0))).toNat 99999, by omega⟩

end Cert.Proof.KI

end
-- ==== Proof.KI.TripVal.lean ====
/-
  The values of one trip. A chunk of the result after a staging chunk is copied into it reads what the staging chunk
  held; a staging chunk filled sixteen lanes at a time, each store the fetched row read at sixteen fetched indices,
  reads at position `z` the row's entry at index number `4096 k + z`; the fetched row is row `j` of the transposed
  table; so the chunk at columns `[4096 k, 4096 (k + 1))` of row `j` holds the gather.
-/
import proofs.«203175_g23072564314740_cont_8to1_266_38_alg».proof.Proof.KI.Spec
import proofs.«203175_g23072564314740_cont_8to1_266_38_alg».proof.Proof.KI.Split
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## A landed chunk -/

/-- A chunk held outright depends only on what its memref reads. -/
theorem own_of_read (d : Dev nD) (L : grid0.Coords) (M : Memref sig .scVector .hbm S4096 .f32) (f g : Buf (Elt F) (M.view.loc (thrV d L)))
    (h : ∀ z, M.view.read (Elt F) f z = M.view.read (Elt F) g z) : (own d L M f : sProp 𝕄) = own d L M g := by
  unfold own
  refine pointsTo_congr fun i hi => ?_
  obtain ⟨z, -, rfl⟩ := Finset.mem_map.mp hi
  have hz := h z
  rw [View.read_apply, View.read_apply] at hz
  exact (cast_inj _).mp hz

/-- What a memref holds agrees, on its own elements, with any contents it reads the same. -/
theorem eq_on_of_read (M : Memref sig .scVector .hbm S4096 .f32) (f g : M.view.ty.Contents (Elt F))
    (h : ∀ z, M.view.read (Elt F) f z = M.view.read (Elt F) g z) : ∀ y ∈ M.view.set, f y = g y := by
  intro i hi
  obtain ⟨z, -, rfl⟩ := Finset.mem_map.mp hi
  have hz := h z
  rw [View.read_apply, View.read_apply] at hz
  exact (cast_inj _).mp hz

/-- After a copy lands whole in it, a memref reads the payload. -/
theorem read_landed (M : Memref sig .scVector .hbm S4096 .f32) (f : M.view.ty.Contents (Elt F))
    (w : (Rect.whole S4096).shape.Idx → Elt F .f32) (z : S4096.Idx) :
    M.view.read (Elt F) (M.view.writes (Elt F) f [⟨Rect.whole S4096, w⟩]) z = w z := by
  have hz := View.read_writes_cons_emb M.view f (Rect.whole S4096) w [] z
  rwa [Rect.emb_whole_apply] at hz

/-- Position `z` of a chunk is the element at the chunk's row, `z` columns past its first. -/
theorem chunk_emb (o : Fin 2 → Nat) (h : ∀ a, o a + S1x4096.size a ≤ S300x16384.size a) (z : S4096.Idx) :
    (((chunk o h).view.emb z : S300x16384.Idx) 0 : ℕ) = o 0 ∧ (((chunk o h).view.emb z : S300x16384.Idx) 1 : ℕ) = o 1 + (z 0 : ℕ) := by
  have e : (chunk o h).view.emb z = (Rect.unit (s := S300x16384) o S1x4096.size h).emb (Shape.reshapeEquiv squeezes_S1x4096_S4096.numel_eq z) := rfl
  rw [e, Shape.reshapeEquiv_cons_one]
  constructor
  · show o 0 + 1 * 0 = o 0; omega
  · show o 1 + 1 * (z 0 : ℕ) = o 1 + (z 0 : ℕ); omega

/-- A chunk the copy landed in whole, the payload the gather at the chunk's positions: it reads the gather; -/
theorem read_landed_gath (o : Fin 2 → Nat) (h : ∀ a, o a + S1x4096.size a ≤ S300x16384.size a) (f : (chunk o h).view.ty.Contents (Elt F))
    (fI : IVec S16384 32) (tt : FVec F S300x100000 .f32) (w : (Rect.whole S4096).shape.Idx → Elt F .f32)
    (hw : ∀ z : S4096.Idx, w z = gath fI tt ((chunk o h).view.emb z)) (z : S4096.Idx) :
    (chunk o h).view.read (Elt F) ((chunk o h).view.writes (Elt F) f [⟨Rect.whole S4096, w⟩]) z
      = (chunk o h).view.read (Elt F) (gath fI tt : (chunk o h).view.ty.Contents (Elt F)) z := by
  rw [read_landed (chunk o h) f w z, hw z, View.read_apply]
  rfl

/-- so held outright it is held at the gather, -/
theorem own_landed (d : Dev nD) (L : grid0.Coords) (o : Fin 2 → Nat) (h : ∀ a, o a + S1x4096.size a ≤ S300x16384.size a) (f : Buf (Elt F) (oLoc d))
    (fI : IVec S16384 32) (tt : FVec F S300x100000 .f32) (w : (Rect.whole S4096).shape.Idx → Elt F .f32)
    (hw : ∀ z : S4096.Idx, w z = gath fI tt ((chunk o h).view.emb z)) :
    (own d L (chunk o h) ((chunk o h).view.writes (Elt F) f [⟨Rect.whole S4096, w⟩]) : sProp 𝕄) = own d L (chunk o h) (gath fI tt) :=
  own_of_read d L (chunk o h) _ _ (read_landed_gath o h f fI tt w hw)

/-- and on its own elements it is the gather. -/
theorem landed_eq_on (o : Fin 2 → Nat) (h : ∀ a, o a + S1x4096.size a ≤ S300x16384.size a) (f : (chunk o h).view.ty.Contents (Elt F))
    (fI : IVec S16384 32) (tt : FVec F S300x100000 .f32) (w : (Rect.whole S4096).shape.Idx → Elt F .f32)
    (hw : ∀ z : S4096.Idx, w z = gath fI tt ((chunk o h).view.emb z)) :
    ∀ y ∈ (chunk o h).view.set, (chunk o h).view.writes (Elt F) f [⟨Rect.whole S4096, w⟩] y = (gath fI tt : (chunk o h).view.ty.Contents (Elt F)) y :=
  eq_on_of_read (chunk o h) _ _ (read_landed_gath o h f fI tt w hw)

/-! ## The fetched row, and one store of a fill -/

/-- The whole load rectangle reads at the shape's own indices. -/
theorem loadRect_whole_idx (s : Shape) (y : (LoadRect.whole s).shape.Idx) : (LoadRect.whole s).idx y = y := by
  funext a; apply Fin.ext; show 0 + 1 * (y a : ℕ) = y a; omega

/-- The memref the row fetch reads: one row of the transposed table. -/
abbrev rowM (o : Fin 2 → Nat) (h : ∀ a, o a + S1x100000.size a ≤ S300x100000.size a) : Memref sig .scVector .hbm S100000 .f32 :=
  ((aT).slice (Rect.unit (s := S300x100000) o S1x100000.size h) (fun _ => rfl)).squeeze S100000 squeezes_S1x100000_S100000

/-- Position `y` of the row memref is the element at its row, `y` columns past its first. -/
theorem rowM_emb (o : Fin 2 → Nat) (h : ∀ a, o a + S1x100000.size a ≤ S300x100000.size a) (y : S100000.Idx) :
    (((rowM o h).view.emb y : S300x100000.Idx) 0 : ℕ) = o 0 ∧ (((rowM o h).view.emb y : S300x100000.Idx) 1 : ℕ) = o 1 + (y 0 : ℕ) := by
  have e : (rowM o h).view.emb y = (Rect.unit (s := S300x100000) o S1x100000.size h).emb (Shape.reshapeEquiv squeezes_S1x100000_S100000.numel_eq y) := rfl
  rw [e, Shape.reshapeEquiv_cons_one]
  constructor
  · show o 0 + 1 * 0 = o 0; omega
  · show o 1 + 1 * (y 0 : ℕ) = o 1 + (y 0 : ℕ); omega

/-- The row scratch after the fetch of row `j` (from its first column): entry `y` is the transposed table's `(j, y)`. -/
theorem row_val (d : Dev nD) (L : grid0.Coords) (o : Fin 2 → Nat) (h : ∀ a, o a + S1x100000.size a ≤ S300x100000.size a) (ho1 : o 1 = 0)
    (j : Fin 300) (hoj : o 0 = j.val) (fR : Buf (Elt F) ((thrV d L).loc cc0_scratch1)) (tt : FVec F S300x100000 .f32) (y : S100000.Idx) :
    View.write (Elt F) (sR).view fR (ReadAs.same.apply (View.read (Elt F) (rowM o h).view (tt : Buf (Elt F) (tLoc d)))) Finset.univ y
      = tt (ix2 j (y 0)) := by
  have hw : View.write (Elt F) (sR).view fR (ReadAs.same.apply (View.read (Elt F) (rowM o h).view (tt : Buf (Elt F) (tLoc d)))) Finset.univ
      = ReadAs.same.apply (View.read (Elt F) (rowM o h).view (tt : Buf (Elt F) (tLoc d))) := View.write_whole_univ _ _ _
  rw [hw]
  show tt ((rowM o h).view.emb y) = _
  obtain ⟨e0, e1⟩ := rowM_emb o h y
  refine congrArg tt (funext fun a => ?_)
  match a with
  | ⟨0, _⟩ => exact Fin.ext (e0.trans hoj)
  | ⟨1, _⟩ => exact Fin.ext (e1.trans (by rw [ho1, Nat.zero_add]))

/-- One store of a fill: the row scratch (holding row `j` of the transposed table) read at the sixteen indices fetched
    from position `oi` of the index scratch, stored at position `os` of the staging chunk, is the gather at the
    chunk's elements under those lanes — when `oi` is the chunk's first column plus `os`. -/
theorem piece_val (d : Dev nD) (L : grid0.Coords) (o : Fin 2 → Nat) (h : ∀ a, o a + S1x4096.size a ≤ S300x16384.size a)
    (j : Fin 300) (hoj : o 0 = j.val) (c0 : ℕ) (ho1 : o 1 = c0)
    (CR : Buf (Elt F) ((thrV d L).loc cc0_scratch1)) (tt : FVec F S300x100000 .f32)
    (hCR : ∀ y : S100000.Idx, CR y = tt (ix2 j (y 0)))
    (fI : Buf (Elt F) ((thrV d L).loc cc0_scratch0)) (hfI : ∀ i, (fI i).toNat < 100000)
    (os : Fin 1 → Nat) (hos : ∀ a, os a + S16.size a ≤ S4096.size a) (oi : Fin 1 → Nat) (hoi : ∀ a, oi a + S16.size a ≤ S16384.size a)
    (hrel : oi 0 = c0 + os 0)
    (hidx : ∀ (a : Fin 1) (x : S16.Idx), ((![View.readAt (Elt F) (sI).view (Rect.unit (s := S16384) oi S16.size hoi).toLoadRect fI] : Fin 1 → IVec S16 32) a x).toNat < S100000.size a)
    (x : S16.Idx) :
    loadIdx (View.readAt (Elt F) (sR).view (LoadRect.whole S100000) CR) ![View.readAt (Elt F) (sI).view (Rect.unit (s := S16384) oi S16.size hoi).toLoadRect fI] hidx x
      = gath (fI : IVec S16384 32) tt ((chunk o h).view.emb ((Rect.unit (s := S4096) os S16.size hos).emb x)) := by
  obtain ⟨e0, e1⟩ := chunk_emb o h ((Rect.unit (s := S4096) os S16.size hos).emb x)
  have key : ((Rect.unit (s := S16384) oi S16.size hoi).toLoadRect.idx x : S16384.Idx)
      = ix1 (((chunk o h).view.emb ((Rect.unit (s := S4096) os S16.size hos).emb x) : S300x16384.Idx) 1) := by
    funext b
    obtain rfl : b = 0 := Subsingleton.elim _ _
    apply Fin.ext
    exact (show oi 0 + 1 * (x 0 : ℕ) = o 1 + (os 0 + 1 * (x 0 : ℕ)) by omega).trans e1.symm
  rw [gath_apply _ _ _ (hfI _)]
  show CR ((LoadRect.whole S100000).idx (idxAt _ hidx x)) = _
  rw [loadRect_whole_idx, hCR]
  refine congrArg tt (funext fun a => ?_)
  match a with
  | ⟨0, _⟩ => exact Fin.ext (e0.trans hoj).symm
  | ⟨1, _⟩ => exact Fin.ext (congrArg (fun i => (fI i).toNat) key)

/-- The newest `n` stores of a list tile the first `16 n` positions, newest at the highest, each the function `G` on its
    lanes. -/
def TilesOK (G : S4096.Idx → Elt F .f32) : ℕ → List (View.Piece (Elt F) S4096 .f32) → Prop
  | 0, _ => True
  | _ + 1, [] => False
  | n + 1, p :: L => (p.1.off 0 = 16 * n ∧ p.1.size 0 = 16 ∧ p.1.stride 0 = 1 ∧ ∀ x : p.1.shape.Idx, p.2 x = G (p.1.emb x)) ∧ TilesOK G n L

/-- A scratch so filled reads `G` on those positions, whatever was stored before. -/
theorem read_tiles {κ : Kind} {sp : Space} (v : View sig κ sp S4096 .f32) (f : v.ty.Contents (Elt F)) (G : S4096.Idx → Elt F .f32) :
    ∀ (n : ℕ) (Lp : List (View.Piece (Elt F) S4096 .f32)), TilesOK G n Lp → ∀ z : S4096.Idx, (z 0 : ℕ) < 16 * n →
      v.read (Elt F) (v.writes (Elt F) f Lp) z = G z
  | 0, _, _, z, hz => absurd hz (by omega)
  | n + 1, [], hL, _, _ => hL.elim
  | n + 1, p :: Lp, hL, z, hz => by
    obtain ⟨⟨hoff, hsize, hstride, hG⟩, hL'⟩ := hL
    by_cases hlo : 16 * n ≤ (z 0 : ℕ)
    · have hmem : z ∈ p.1.set := p.1.mem_set.mpr fun a => by
        obtain rfl : a = 0 := Subsingleton.elim _ _
        exact ⟨(z 0 : ℕ) - 16 * n, by rw [hsize]; omega, by rw [hoff, hstride]; omega⟩
      obtain ⟨x, rfl⟩ := p.1.exists_idx_of_mem hmem
      obtain ⟨r, w⟩ := p
      exact (View.read_writes_cons_emb v f r w Lp x).trans (hG x)
    · have hnot : z ∉ Finset.univ.map p.1.emb := by
        rw [Rect.map_emb_univ]
        intro hm
        obtain ⟨j, hj, e⟩ := p.1.mem_set.mp hm 0
        rw [hoff, hstride] at e
        omega
      rw [View.writes_cons, View.read_slice_write_of_not_mem p.1 _ _ _ hnot]
      exact read_tiles v f G n Lp hL' z (by omega)

end Cert.Proof.KI

end
-- ==== Proof.KI.TripV.lean ====
/-
  One trip of a tile's task with its values: as the generic trip, and what the trip's four chunks of the result hold
  is the gather — row `w + 32 t` of the transposed table read at the fetched indices —, the two chunks landed held
  at it, the two still in flight carrying the fact on their own elements.
-/
import proofs.«203175_g23072564314740_cont_8to1_266_38_alg».proof.Proof.KI.TripBase
import proofs.«203175_g23072564314740_cont_8to1_266_38_alg».proof.Proof.KI.TripVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

attribute [local sl_canon] vli_bind

variable [FloatOps F]

section Tile

variable (d : Dev nD) (L : grid0.Coords)

/-- What a trip leaves, with its values: the table's share and the index scratch as they were, the row scratch at
    the trip's row, the first two chunks of the trip's row landed and held at the gather, the last two in flight and
    the gather on their own elements, the row fetch's semaphore at zero, the waits recorded. -/
def tripPostV (t : Trip) (h : k0_cond1 L t = 1#1) (tt : Buf (Elt F) (tLoc d)) (fI : Buf (Elt F) ((thrV d L).loc cc0_scratch0))
    (O : CellTallies nD τ sig (HIx 1)) (W : Waits sig (HIx 1)) : sProp 𝕄 :=
  iprop(tabTok d L tt ∗ ((sI).view.loc (thrV d L) ↦{fullShare} fI) ∗ (∃ fR, (sR).view.loc (thrV d L) ↦{fullShare} fR)
    ∗ own d L (ch0 L t h) (gath (fI : IVec S16384 32) (tt : FVec F S300x100000 .f32))
    ∗ own d L (ch1 L t h) (gath (fI : IVec S16384 32) (tt : FVec F S300x100000 .f32))
    ∗ (∃ g : Buf (Elt F) (oLoc d), ⌜∀ y ∈ (ch2 L t h).view.set, g y = gath (fI : IVec S16384 32) (tt : FVec F S300x100000 .f32) y⌝ ∗ ∃ fA, flyA d L (ch2 L t h) g fA)
    ∗ (∃ g : Buf (Elt F) (oLoc d), ⌜∀ y ∈ (ch3 L t h).view.set, g y = gath (fI : IVec S16384 32) (tt : FVec F S300x100000 .f32) y⌝ ∗ ∃ fB, flyB d L (ch3 L t h) g fB)
    ∗ semVal (cellR d L) 0 ∗ ∃ W', ⌜∀ p ∈ W', p ∈ W ∨ p.2 = none⌝ ∗ owes (thrV d L) O W')

set_option maxHeartbeats 200000000 in
/-- One trip, at any trip that runs, whatever chunks the two copies in flight land in: they are waited for and handed
    back as they land; the trip's row is fetched, gathered chunk by chunk and copied out to the trip's four chunks,
    each of which then holds the gather. -/
theorem trip_genV (t : Trip) (h : k0_cond1 L t = 1#1) (MA MB : Memref sig .scVector .hbm S4096 .f32)
    (gA : Buf (Elt F) (MA.view.loc (thrV d L))) (gB : Buf (Elt F) (MB.view.loc (thrV d L)))
    (fA : Buf (Elt F) ((thrV d L).loc cc0_scratch2)) (fB : Buf (Elt F) ((thrV d L).loc cc0_scratch3))
    (fI : Buf (Elt F) ((thrV d L).loc cc0_scratch0)) (hfI : ∀ i, (fI i).toNat < 100000) (fR : Buf (Elt F) ((thrV d L).loc cc0_scratch1))
    (f : Buf (Elt F) (oLoc d)) (tt : Buf (Elt F) (tLoc d)) (O : CellTallies nD τ sig (HIx 1)) (W : Waits sig (HIx 1)) (Φ : Unit → sProp 𝕄) :
    iprop(Transfers.MayWaits (thrV d L) (none : HIx 1) O
        ∗ tabTok d L tt ∗ ((sI).view.loc (thrV d L) ↦{fullShare} fI) ∗ ((sR).view.loc (thrV d L) ↦{fullShare} fR)
        ∗ flyA d L MA gA fA ∗ flyB d L MB gB fB ∗ semVal (cellR d L) 0 ∗ rowAt d L t h f ∗ owes (thrV d L) O W
        ∗ ((tripPostV d L t h tt fI O W ∗ (MA.view.loc (thrV d L) ↦[MA.view.set]{fullShare} gA) ∗ (MB.view.loc (thrV d L) ↦[MB.view.set]{fullShare} gB)) -∗ Φ ⟨⟩))
      ⊢ wp frame (wpE (defs₀ (F := F)) 𝒱₀ (thrV d L) none) Set.univ
          (k0_t1_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1 t ⟨⟩) Φ := by
  unfold rowAt
  iintro ⟨#Hmw, Ht, HsI, HsR, ⟨HsemA, HsA⟩, ⟨HsemB, HsB⟩, HsemR, ⟨H0, H1, H2, H3⟩, HO, Hk⟩
  sl_exec_parts (disch := first | exact h | exact fun _ => chk_ok' (F := F) d L _ hfI _ _)
  sl_step
  -- the trip's row number, and the four chunks' first columns
  have hoj4 : (k0_off4 L t) 0 = wOf L + 32 * t.val := by rw [k0_off4_eq]; rfl
  have hoj5 : (k0_off5 L t) 0 = wOf L + 32 * t.val := by rw [k0_off5_eq]; rfl
  have hoj6 : (k0_off6 L t) 0 = wOf L + 32 * t.val := by rw [k0_off6_eq]; rfl
  have hoj7 : (k0_off7 L t) 0 = wOf L + 32 * t.val := by rw [k0_off7_eq]; rfl
  have ho1_4 : (k0_off4 L t) 1 = 0 := by rw [k0_off4_eq]; rfl
  have ho1_5 : (k0_off5 L t) 1 = 4096 := by rw [k0_off5_eq]; rfl
  have ho1_6 : (k0_off6 L t) 1 = 8192 := by rw [k0_off6_eq]; rfl
  have ho1_7 : (k0_off7 L t) 1 = 12288 := by rw [k0_off7_eq]; rfl
  have hlt : wOf L + 32 * t.val < 300 := by
    have h0 := k0_off4_inb L t h 0
    rw [hoj4] at h0
    change _ + 1 ≤ 300 at h0
    omega
  -- the row scratch holds the trip's row of the transposed table
  have ho31 : (k0_off3 L t) 1 = 0 := by rw [k0_off3_eq]; rfl
  have hoj3 : (k0_off3 L t) 0 = ((⟨wOf L + 32 * t.val, hlt⟩ : Fin 300) : ℕ) := by rw [k0_off3_eq]; rfl
  have hd0 : trip_genV.sl.dma0 d L t h tt = ReadAs.same.apply (View.read (Elt F) (rowM (k0_off3 L t) (k0_off3_inb L t h)).view tt) := rfl
  have hCR : ∀ y : S100000.Idx, View.write (Elt F) sR.view fR (trip_genV.sl.dma0 d L t h tt) Finset.univ y
      = (tt : FVec F S300x100000 .f32) (ix2 (⟨wOf L + 32 * t.val, hlt⟩ : Fin 300) (y 0)) := by
    intro y
    rw [hd0]
    exact row_val d L (k0_off3 L t) (k0_off3_inb L t h) ho31 ⟨wOf L + 32 * t.val, hlt⟩ hoj3 fR tt y
  -- each copy out's payload is the gather at its chunk's positions
  have hv0 : ∀ z : S4096.Idx, trip_genV.sl.dma1024 d L t h fA fI hfI fR tt z
      = gath (fI : IVec S16384 32) (tt : FVec F S300x100000 .f32) ((ch0 L t h).view.emb z) := by
    intro z
    show (sA).view.read (Elt F) ((sA).view.writes (Elt F) fA (trip_genV.sl.HsA_256 d L t h fI hfI fR tt)) z = _
    have hz : (z 0 : ℕ) < 16 * 256 := (z 0).isLt
    refine read_tiles (sA).view fA (fun z => gath (fI : IVec S16384 32) (tt : FVec F S300x100000 .f32) ((ch0 L t h).view.emb z)) 256 _ ?_ z hz
    iterate 256
      refine And.intro ⟨rfl, rfl, rfl, ?_⟩ ?_
      · intro x
        dsimp only at x ⊢
        refine piece_val d L (k0_off4 L t) (k0_off4_inb L t h) ⟨wOf L + 32 * t.val, hlt⟩ hoj4 0 ho1_4 _ tt hCR fI hfI _ _ _ _ ?_ _ x
        rfl
    exact trivial
  have hv1 : ∀ z : S4096.Idx, trip_genV.sl.dma2048 d L t h fB fI hfI fR tt z
      = gath (fI : IVec S16384 32) (tt : FVec F S300x100000 .f32) ((ch1 L t h).view.emb z) := by
    intro z
    show (sB).view.read (Elt F) ((sB).view.writes (Elt F) fB (trip_genV.sl.HsB_256 d L t h fI hfI fR tt)) z = _
    have hz : (z 0 : ℕ) < 16 * 256 := (z 0).isLt
    refine read_tiles (sB).view fB (fun z => gath (fI : IVec S16384 32) (tt : FVec F S300x100000 .f32) ((ch1 L t h).view.emb z)) 256 _ ?_ z hz
    iterate 256
      refine And.intro ⟨rfl, rfl, rfl, ?_⟩ ?_
      · intro x
        dsimp only at x ⊢
        refine piece_val d L (k0_off5 L t) (k0_off5_inb L t h) ⟨wOf L + 32 * t.val, hlt⟩ hoj5 4096 ho1_5 _ tt hCR fI hfI _ _ _ _ ?_ _ x
        rfl
    exact trivial
  have hv2 : ∀ z : S4096.Idx, trip_genV.sl.dma3072 d L t h fA fI hfI fR tt z
      = gath (fI : IVec S16384 32) (tt : FVec F S300x100000 .f32) ((ch2 L t h).view.emb z) := by
    intro z
    show (sA).view.read (Elt F) ((sA).view.writes (Elt F) fA (trip_genV.sl.HsA_512 d L t h fI hfI fR tt)) z = _
    have hz : (z 0 : ℕ) < 16 * 256 := (z 0).isLt
    refine read_tiles (sA).view fA (fun z => gath (fI : IVec S16384 32) (tt : FVec F S300x100000 .f32) ((ch2 L t h).view.emb z)) 256 _ ?_ z hz
    iterate 256
      refine And.intro ⟨rfl, rfl, rfl, ?_⟩ ?_
      · intro x
        dsimp only at x ⊢
        refine piece_val d L (k0_off6 L t) (k0_off6_inb L t h) ⟨wOf L + 32 * t.val, hlt⟩ hoj6 8192 ho1_6 _ tt hCR fI hfI _ _ _ _ ?_ _ x
        rfl
    exact trivial
  have hv3 : ∀ z : S4096.Idx, trip_genV.sl.dma4096 d L t h fB fI hfI fR tt z
      = gath (fI : IVec S16384 32) (tt : FVec F S300x100000 .f32) ((ch3 L t h).view.emb z) := by
    intro z
    show (sB).view.read (Elt F) ((sB).view.writes (Elt F) fB (trip_genV.sl.HsB_512 d L t h fI hfI fR tt)) z = _
    have hz : (z 0 : ℕ) < 16 * 256 := (z 0).isLt
    refine read_tiles (sB).view fB (fun z => gath (fI : IVec S16384 32) (tt : FVec F S300x100000 .f32) ((ch3 L t h).view.emb z)) 256 _ ?_ z hz
    iterate 256
      refine And.intro ⟨rfl, rfl, rfl, ?_⟩ ?_
      · intro x
        dsimp only at x ⊢
        refine piece_val d L (k0_off7 L t) (k0_off7_inb L t h) ⟨wOf L + 32 * t.val, hlt⟩ hoj7 12288 ho1_7 _ tt hCR fI hfI _ _ _ _ ?_ _ x
        rfl
    exact trivial
  iapply Hk
  unfold tripPostV
  isplitr [HsemA_dst HsemB_dst]
  · isplitl [Ht]; · iexact Ht
    isplitl [HsI]; · iexact HsI
    isplitl [HsR]; · iexists _; iexact HsR
    isplitl [H0]
    · iapply (Entails.of_eq (own_landed d L (k0_off4 L t) (k0_off4_inb L t h) f (fI : IVec S16384 32) (tt : FVec F S300x100000 .f32) _ hv0))
      iexact H0
    isplitl [H1]
    · iapply (Entails.of_eq (own_landed d L (k0_off5 L t) (k0_off5_inb L t h) f (fI : IVec S16384 32) (tt : FVec F S300x100000 .f32) _ hv1))
      iexact H1
    isplitl [HsemA HsA]
    · iexists _
      isplitr
      swap
      · iexists _
        isplitl [HsemA]; · iexact HsemA
        iexact HsA
      · ipureintro
        exact landed_eq_on (k0_off6 L t) (k0_off6_inb L t h) f (fI : IVec S16384 32) (tt : FVec F S300x100000 .f32) _ hv2
    isplitl [HsemB HsB]
    · iexists _
      isplitr
      swap
      · iexists _
        isplitl [HsemB]; · iexact HsemB
        iexact HsB
      · ipureintro
        exact landed_eq_on (k0_off7 L t) (k0_off7_inb L t h) f (fI : IVec S16384 32) (tt : FVec F S300x100000 .f32) _ hv3
    isplitl [HsemR]; · iexact HsemR
    iexists (insert (SemLoc.dma cc0_scratch5.sem, (default : HIx 1)) (insert (SemLoc.dma cc0_scratch4.sem, (default : HIx 1))
      (insert (SemLoc.dma cc0_scratch5.sem, (default : HIx 1)) (insert (SemLoc.dma cc0_scratch4.sem, (default : HIx 1)) (insert (SemLoc.dma cc0_scoped1.sem, (default : HIx 1)) W))))); isplitr
    · ipureintro; intro p hp
      simp only [Finset.mem_insert] at hp
      rcases hp with rfl | rfl | rfl | rfl | rfl | hp
      all_goals first | exact .inr rfl | exact .inl hp
    · iexact HO
  · isplitl [HsemA_dst]; · iexact HsemA_dst
    iexact HsemB_dst

/-- The same, the two copies in flight landing in chunks of the result given by their offsets, their contents
    functions on the result's index space. -/
theorem trip_nextV (t : Trip) (h : k0_cond1 L t = 1#1) (oA oB : Fin 2 → Nat)
    (hA : ∀ a, oA a + S1x4096.size a ≤ S300x16384.size a) (hB : ∀ a, oB a + S1x4096.size a ≤ S300x16384.size a)
    (gA gB : Buf (Elt F) (oLoc d))
    (fA : Buf (Elt F) ((thrV d L).loc cc0_scratch2)) (fB : Buf (Elt F) ((thrV d L).loc cc0_scratch3))
    (fI : Buf (Elt F) ((thrV d L).loc cc0_scratch0)) (hfI : ∀ i, (fI i).toNat < 100000) (fR : Buf (Elt F) ((thrV d L).loc cc0_scratch1))
    (f : Buf (Elt F) (oLoc d)) (tt : Buf (Elt F) (tLoc d)) (O : CellTallies nD τ sig (HIx 1)) (W : Waits sig (HIx 1)) (Φ : Unit → sProp 𝕄) :
    iprop(Transfers.MayWaits (thrV d L) (none : HIx 1) O
        ∗ tabTok d L tt ∗ ((sI).view.loc (thrV d L) ↦{fullShare} fI) ∗ ((sR).view.loc (thrV d L) ↦{fullShare} fR)
        ∗ flyA d L (chunk oA hA) gA fA ∗ flyB d L (chunk oB hB) gB fB ∗ semVal (cellR d L) 0 ∗ rowAt d L t h f ∗ owes (thrV d L) O W
        ∗ ((tripPostV d L t h tt fI O W ∗ own d L (chunk oA hA) gA ∗ own d L (chunk oB hB) gB) -∗ Φ ⟨⟩))
      ⊢ wp frame (wpE (defs₀ (F := F)) 𝒱₀ (thrV d L) none) Set.univ
          (k0_t1_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1 t ⟨⟩) Φ :=
  trip_genV (F := F) d L t h (chunk oA hA) (chunk oB hB) gA gB fA fB fI hfI fR f tt O W Φ

end Tile

end Cert.Proof.KI

end
-- ==== Proof.KI.TripFV.lean ====
/-
  The first trip of a tile's task with its values: the two copies in flight are the opening ones, and what they land in
  is the first two chunks of the trip's row, which the trip's first two copies out then fill; each of the trip's four
  chunks then holds the gather.
-/
import proofs.«203175_g23072564314740_cont_8to1_266_38_alg».proof.Proof.KI.TripV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

attribute [local sl_canon] vli_bind

variable [FloatOps F]

section Tile

variable (d : Dev nD) (L : grid0.Coords)

set_option maxHeartbeats 200000000 in
/-- A trip whose two incoming copies land in the first two chunks of the trip's own row (the first trip: the opening
    copies, at the same offsets), which the trip's first two copies out then fill; what the trip leaves is at the gather. -/
theorem trip_firstV (t : Trip) (h0 : k0_cond1 L t = 1#1) (e4 : k0_off4 L t = k0_off1 L) (e5 : k0_off5 L t = k0_off2 L)
    (gA gB : Buf (Elt F) (oLoc d))
    (fA : Buf (Elt F) ((thrV d L).loc cc0_scratch2)) (fB : Buf (Elt F) ((thrV d L).loc cc0_scratch3))
    (fI : Buf (Elt F) ((thrV d L).loc cc0_scratch0)) (hfI : ∀ i, (fI i).toNat < 100000) (fR : Buf (Elt F) ((thrV d L).loc cc0_scratch1))
    (f : Buf (Elt F) (oLoc d)) (tt : Buf (Elt F) (tLoc d)) (O : CellTallies nD τ sig (HIx 1)) (W : Waits sig (HIx 1)) (Φ : Unit → sProp 𝕄) :
    iprop(Transfers.MayWaits (thrV d L) (none : HIx 1) O
        ∗ tabTok d L tt ∗ ((sI).view.loc (thrV d L) ↦{fullShare} fI) ∗ ((sR).view.loc (thrV d L) ↦{fullShare} fR)
        ∗ flyA d L (pc0 L) gA fA ∗ flyB d L (pc1 L) gB fB ∗ semVal (cellR d L) 0
        ∗ own d L (ch2 L t h0) f ∗ own d L (ch3 L t h0) f ∗ owes (thrV d L) O W
        ∗ (tripPostV d L t h0 tt fI O W -∗ Φ ⟨⟩))
      ⊢ wp frame (wpE (defs₀ (F := F)) 𝒱₀ (thrV d L) none) Set.univ
          (k0_t1_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1 t ⟨⟩) Φ := by
  iintro ⟨#Hmw, Ht, HsI, HsR, ⟨HsemA, HsA⟩, ⟨HsemB, HsB⟩, HsemR, H2, H3, HO, Hk⟩
  sl_exec_parts (disch := first | exact h0 | exact fun _ => chk_ok' (F := F) d L _ hfI _ _)
  ihave H0 := (Entails.of_eq (own_congr (F := F) d L e4.symm (k0_off1_inb L) (k0_off4_inb L t h0) _)) $$ HsemA_dst
  sl_exec_parts (disch := first | exact h0 | exact fun _ => chk_ok' (F := F) d L _ hfI _ _)
  ihave H1 := (Entails.of_eq (own_congr (F := F) d L e5.symm (k0_off2_inb L) (k0_off5_inb L t h0) _)) $$ HsemB_dst
  sl_exec_parts (disch := first | exact h0 | exact fun _ => chk_ok' (F := F) d L _ hfI _ _)
  sl_step
  -- the trip's row number, and the four chunks' first columns
  have hoj4 : (k0_off4 L t) 0 = wOf L + 32 * t.val := by rw [k0_off4_eq]; rfl
  have hoj5 : (k0_off5 L t) 0 = wOf L + 32 * t.val := by rw [k0_off5_eq]; rfl
  have hoj6 : (k0_off6 L t) 0 = wOf L + 32 * t.val := by rw [k0_off6_eq]; rfl
  have hoj7 : (k0_off7 L t) 0 = wOf L + 32 * t.val := by rw [k0_off7_eq]; rfl
  have ho1_4 : (k0_off4 L t) 1 = 0 := by rw [k0_off4_eq]; rfl
  have ho1_5 : (k0_off5 L t) 1 = 4096 := by rw [k0_off5_eq]; rfl
  have ho1_6 : (k0_off6 L t) 1 = 8192 := by rw [k0_off6_eq]; rfl
  have ho1_7 : (k0_off7 L t) 1 = 12288 := by rw [k0_off7_eq]; rfl
  have hlt : wOf L + 32 * t.val < 300 := by
    have hb := k0_off4_inb L t h0 0
    rw [hoj4] at hb
    change _ + 1 ≤ 300 at hb
    omega
  -- the row scratch holds the trip's row of the transposed table
  have ho31 : (k0_off3 L t) 1 = 0 := by rw [k0_off3_eq]; rfl
  have hoj3 : (k0_off3 L t) 0 = ((⟨wOf L + 32 * t.val, hlt⟩ : Fin 300) : ℕ) := by rw [k0_off3_eq]; rfl
  have hd0 : trip_firstV.sl.dma0 d L t h0 tt = ReadAs.same.apply (View.read (Elt F) (rowM (k0_off3 L t) (k0_off3_inb L t h0)).view tt) := rfl
  have hCR : ∀ y : S100000.Idx, View.write (Elt F) sR.view fR (trip_firstV.sl.dma0 d L t h0 tt) Finset.univ y
      = (tt : FVec F S300x100000 .f32) (ix2 (⟨wOf L + 32 * t.val, hlt⟩ : Fin 300) (y 0)) := by
    intro y
    rw [hd0]
    exact row_val d L (k0_off3 L t) (k0_off3_inb L t h0) ho31 ⟨wOf L + 32 * t.val, hlt⟩ hoj3 fR tt y
  -- each copy out's payload is the gather at its chunk's positions
  have hv0 : ∀ z : S4096.Idx, trip_firstV.sl.dma0_1 d L t h0 fA fI hfI fR tt z
      = gath (fI : IVec S16384 32) (tt : FVec F S300x100000 .f32) ((ch0 L t h0).view.emb z) := by
    intro z
    show (sA).view.read (Elt F) ((sA).view.writes (Elt F) fA _) z = _
    have hz : (z 0 : ℕ) < 16 * 256 := (z 0).isLt
    refine read_tiles (sA).view fA (fun z => gath (fI : IVec S16384 32) (tt : FVec F S300x100000 .f32) ((ch0 L t h0).view.emb z)) 256 _ ?_ z hz
    iterate 256
      refine And.intro ⟨rfl, rfl, rfl, ?_⟩ ?_
      · intro x
        dsimp only at x ⊢
        refine piece_val d L (k0_off4 L t) (k0_off4_inb L t h0) ⟨wOf L + 32 * t.val, hlt⟩ hoj4 0 ho1_4 _ tt hCR fI hfI _ _ _ _ ?_ _ x
        rfl
    exact trivial
  have hv1 : ∀ z : S4096.Idx, trip_firstV.sl.dma0_2 d L t h0 fB fI hfI fR tt z
      = gath (fI : IVec S16384 32) (tt : FVec F S300x100000 .f32) ((ch1 L t h0).view.emb z) := by
    intro z
    show (sB).view.read (Elt F) ((sB).view.writes (Elt F) fB _) z = _
    have hz : (z 0 : ℕ) < 16 * 256 := (z 0).isLt
    refine read_tiles (sB).view fB (fun z => gath (fI : IVec S16384 32) (tt : FVec F S300x100000 .f32) ((ch1 L t h0).view.emb z)) 256 _ ?_ z hz
    iterate 256
      refine And.intro ⟨rfl, rfl, rfl, ?_⟩ ?_
      · intro x
        dsimp only at x ⊢
        refine piece_val d L (k0_off5 L t) (k0_off5_inb L t h0) ⟨wOf L + 32 * t.val, hlt⟩ hoj5 4096 ho1_5 _ tt hCR fI hfI _ _ _ _ ?_ _ x
        rfl
    exact trivial
  have hv2 : ∀ z : S4096.Idx, trip_firstV.sl.dma1024 d L t h0 fA fI hfI fR tt z
      = gath (fI : IVec S16384 32) (tt : FVec F S300x100000 .f32) ((ch2 L t h0).view.emb z) := by
    intro z
    show (sA).view.read (Elt F) ((sA).view.writes (Elt F) fA _) z = _
    have hz : (z 0 : ℕ) < 16 * 256 := (z 0).isLt
    refine read_tiles (sA).view fA (fun z => gath (fI : IVec S16384 32) (tt : FVec F S300x100000 .f32) ((ch2 L t h0).view.emb z)) 256 _ ?_ z hz
    iterate 256
      refine And.intro ⟨rfl, rfl, rfl, ?_⟩ ?_
      · intro x
        dsimp only at x ⊢
        refine piece_val d L (k0_off6 L t) (k0_off6_inb L t h0) ⟨wOf L + 32 * t.val, hlt⟩ hoj6 8192 ho1_6 _ tt hCR fI hfI _ _ _ _ ?_ _ x
        rfl
    exact trivial
  have hv3 : ∀ z : S4096.Idx, trip_firstV.sl.dma2048 d L t h0 fB fI hfI fR tt z
      = gath (fI : IVec S16384 32) (tt : FVec F S300x100000 .f32) ((ch3 L t h0).view.emb z) := by
    intro z
    show (sB).view.read (Elt F) ((sB).view.writes (Elt F) fB _) z = _
    have hz : (z 0 : ℕ) < 16 * 256 := (z 0).isLt
    refine read_tiles (sB).view fB (fun z => gath (fI : IVec S16384 32) (tt : FVec F S300x100000 .f32) ((ch3 L t h0).view.emb z)) 256 _ ?_ z hz
    iterate 256
      refine And.intro ⟨rfl, rfl, rfl, ?_⟩ ?_
      · intro x
        dsimp only at x ⊢
        refine piece_val d L (k0_off7 L t) (k0_off7_inb L t h0) ⟨wOf L + 32 * t.val, hlt⟩ hoj7 12288 ho1_7 _ tt hCR fI hfI _ _ _ _ ?_ _ x
        rfl
    exact trivial
  iapply Hk
  unfold tripPostV
  isplitl [Ht]; · iexact Ht
  isplitl [HsI]; · iexact HsI
  isplitl [HsR]; · iexists _; iexact HsR
  isplitl [H0]
  · ihave H0' := (Entails.of_eq (own_landed d L (k0_off4 L t) (k0_off4_inb L t h0) _ (fI : IVec S16384 32) (tt : FVec F S300x100000 .f32) _ hv0)) $$ H0
    iexact H0'
  isplitl [H1]
  · ihave H1' := (Entails.of_eq (own_landed d L (k0_off5 L t) (k0_off5_inb L t h0) _ (fI : IVec S16384 32) (tt : FVec F S300x100000 .f32) _ hv1)) $$ H1
    iexact H1'
  isplitl [HsemA HsA]
  · iexists _
    isplitr
    swap
    · iexists _
      isplitl [HsemA]; · iexact HsemA
      iexact HsA
    · ipureintro
      exact landed_eq_on (k0_off6 L t) (k0_off6_inb L t h0) f (fI : IVec S16384 32) (tt : FVec F S300x100000 .f32) _ hv2
  isplitl [HsemB HsB]
  · iexists _
    isplitr
    swap
    · iexists _
      isplitl [HsemB]; · iexact HsemB
      iexact HsB
    · ipureintro
      exact landed_eq_on (k0_off7 L t) (k0_off7_inb L t h0) f (fI : IVec S16384 32) (tt : FVec F S300x100000 .f32) _ hv3
  isplitl [HsemR]; · iexact HsemR
  iexists (insert (SemLoc.dma cc0_scratch5.sem, (default : HIx 1)) (insert (SemLoc.dma cc0_scratch4.sem, (default : HIx 1))
    (insert (SemLoc.dma cc0_scratch5.sem, (default : HIx 1)) (insert (SemLoc.dma cc0_scratch4.sem, (default : HIx 1)) (insert (SemLoc.dma cc0_scoped1.sem, (default : HIx 1)) W))))); isplitr
  · ipureintro; intro p hp
    simp only [Finset.mem_insert] at hp
    rcases hp with rfl | rfl | rfl | rfl | rfl | hp
    all_goals first | exact .inr rfl | exact .inl hp
  · iexact HO

end Tile

end Cert.Proof.KI

end
-- ==== Proof.KI.TileV.lean ====
/-
  A tile's whole task, with what it computes: as the frames' assembly of the task from its trips, each chunk now
  handed back holding the specification — the transposed table's row gathered at the indices — on its elements: the
  two chunks a trip leaves landed hold it outright; the two it leaves in flight carry it as a fact about what lands,
  used when the next trip (or the final wait) hands them back. The index scratch, once the fetch has landed in all of
  it, holds the launch indices, so the gather at its contents is the gather at the indices.
-/
import proofs.«203175_g23072564314740_cont_8to1_266_38_alg».proof.Proof.KI.Tile
import proofs.«203175_g23072564314740_cont_8to1_266_38_alg».proof.Proof.KI.TripV
import proofs.«203175_g23072564314740_cont_8to1_266_38_alg».proof.Proof.KI.TripFV
import proofs.«203175_g23072564314740_cont_8to1_266_38_alg».proof.Proof.KI.PayV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

attribute [local sl_canon] vli_bind

variable [FloatOps F]

section Tile

variable (d : Dev nD) (L : grid0.Coords)

omit [FloatOps F] in
/-- A chunk held at contents that agree on its elements is held at either. -/
theorem own_on (M : Memref sig .scVector .hbm S4096 .f32) (g g' : Buf (Elt F) (M.view.loc (thrV d L))) (h : ∀ y ∈ M.view.set, g y = g' y) :
    (own d L M g : sProp 𝕄) = own d L M g' := pointsTo_congr h

/-- Once the index fetch has landed in all of the index scratch, the scratch holds the launch indices. -/
theorem fetched_eq (f0 : Buf (Elt F) ((thrV d L).loc cc0_scratch0)) :
    (View.write (Elt F) (sI).view f0 (ReadAs.same.apply (View.read (Elt F) (aI).view (m (iLoc d)))) Finset.univ : Buf (Elt F) ((thrV d L).loc cc0_scratch0)) = m (iLoc d) := by
  rw [View.write_whole_univ]
  funext i
  simp only [Memref.view_whole, View.read_whole]
theorem fetched_pts (f0 : Buf (Elt F) ((thrV d L).loc cc0_scratch0)) :
    ((sI).view.loc (thrV d L) ↦{fullShare} View.write (Elt F) (sI).view f0 (ReadAs.same.apply (View.read (Elt F) (aI).view (m (iLoc d)))) Finset.univ : sProp 𝕄)
      = ((sI).view.loc (thrV d L) ↦{fullShare} (m (iLoc d) : Buf (Elt F) ((thrV d L).loc cc0_scratch0))) := by
  rw [fetched_eq]

set_option maxHeartbeats 4000000 in
theorem tile_body_posV (hF : (K (F := F)).Facts) (hpre : PreOK m) (h9 : k0_cond1 L T9 = 1#1) (O : CellTallies nD τ sig (HIx 1)) (W : Waits sig (HIx 1)) (hO : ∀ g, O g none = 0) :
    iprop(levAts (K (F := F)).L (K (F := F)).lev ∗ emp ∗ goRes m d L (ttOf m d) ∗ scopedBufs (thrV d L) ∗ scopedSems0 (thrV d L) ∗ owes (thrV d L) O W)
      ⊢ wp frame (wpE (defs₀ (F := F)) 𝒱₀ (thrV d L) none) Set.univ
          (cc0__gather_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1)
          fun _ => iprop(tdResV m d L ∗ scopedBufs (thrV d L) ∗ scopedSems0 (thrV d L)
            ∗ ∃ W', ⌜∀ p ∈ W', p ∈ W ∨ p.2 = none⌝ ∗ owes (thrV d L) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold goRes rowsAt
  iintro ⟨#Hlv, -, ⟨Hi, Ht, Hr0, Hr1, Hr2, Hr3, Hr4, Hr5, Hr6, Hr7, Hr8, Hr9⟩, ⟨⟨%f0, Hs0⟩, ⟨%fRi, Hs1⟩, ⟨%fAi, Hs2⟩, ⟨%fBi, Hs3⟩, Hbufs⟩, ⟨HsemA, HsemB, HsemI, HsemR, Hsems⟩, HO⟩
  ihave Hmw := ((K (F := F)).mayWaits_none (thr := thrV d L) hO) $$ Hlv
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hr0 := (Entails.of_eq (rowAt_def (F := F) d L _ _ _)) $$ Hr0
  icases Hr0 with ⟨H00, H01, H02, H03⟩
  ihave H00 := (Entails.of_eq (own_congr (F := F) d L (off4_zero L) _ (k0_off1_inb L) _)) $$ H00
  ihave H01 := (Entails.of_eq (own_congr (F := F) d L (off5_zero L) _ (k0_off2_inb L) _)) $$ H01
  ihave Hr9 := (Entails.of_eq (row9At_pos (F := F) d L h9 _)) $$ Hr9
  -- the prologue: the indices fetched whole; the two opening copies out
  sl_exec
  -- the index scratch now holds the launch indices
  unfold tile_body_posV.sl.dma0
  ihave Hs0 := (Entails.of_eq (fetched_pts (F := F) m d L f0)) $$ Hs0
  have hfI : ∀ i, ((m (iLoc d) : Buf (Elt F) ((thrV d L).loc cc0_scratch0)) i).toNat < 100000 := fun i => hpre d i
  sl_unroll
  simp only [wp_bind]
  -- trip 0
  iapply (trip_firstV (F := F) d L T0 (ce0 L) (off4_zero L) (off5_zero L) _ _ fAi fBi _ hfI fRi (m (oLoc d)) (ttOf m d) O _ _)
  isplitr; · iexact Hmw
  isplitl [Ht]; · iexact Ht
  isplitl [Hs0]; · iexact Hs0
  isplitl [Hs1]; · iexact Hs1
  isplitl [HsemA Hs2]
  · isplitl [HsemA]; · iexact HsemA
    iexact Hs2
  isplitl [HsemB Hs3]
  · isplitl [HsemB]; · iexact HsemB
    iexact Hs3
  isplitl [HsemR]; · iexact HsemR
  isplitl [H02]; · iexact H02
  isplitl [H03]; · iexact H03
  isplitl [HO]; · iexact HO
  iintro Hp
  unfold tripPostV
  icases Hp with ⟨Ht, Hs0, ⟨%fR0, Hs1⟩, Hd00, Hd01, ⟨%gA0, %hgA0, %fA0, HflyA⟩, ⟨%gB0, %hgB0, %fB0, HflyB⟩, HsemR, ⟨%W0, %hW0, HO⟩⟩
  -- trip 1
  iapply (trip_nextV (F := F) d L T1 (ce1 L) (k0_off6 L T0) (k0_off7 L T0) (k0_off6_inb L T0 (ce0 L)) (k0_off7_inb L T0 (ce0 L)) gA0 gB0 fA0 fB0 _ hfI fR0 (m (oLoc d)) (ttOf m d) O W0 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr1]; · iexact Hr1
  isplitl [HO]; · iexact HO
  iintro ⟨Hp, Hd02, Hd03⟩
  ihave Hd02 := (Entails.of_eq (own_on (F := F) d L _ _ _ hgA0)) $$ Hd02
  ihave Hd03 := (Entails.of_eq (own_on (F := F) d L _ _ _ hgB0)) $$ Hd03
  unfold tripPostV
  icases Hp with ⟨Ht, Hs0, ⟨%fR1, Hs1⟩, Hd10, Hd11, ⟨%gA1, %hgA1, %fA1, HflyA⟩, ⟨%gB1, %hgB1, %fB1, HflyB⟩, HsemR, ⟨%W1, %hW1, HO⟩⟩
  -- trip 2
  iapply (trip_nextV (F := F) d L T2 (ce2 L) (k0_off6 L T1) (k0_off7 L T1) (k0_off6_inb L T1 (ce1 L)) (k0_off7_inb L T1 (ce1 L)) gA1 gB1 fA1 fB1 _ hfI fR1 (m (oLoc d)) (ttOf m d) O W1 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr2]; · iexact Hr2
  isplitl [HO]; · iexact HO
  iintro ⟨Hp, Hd12, Hd13⟩
  ihave Hd12 := (Entails.of_eq (own_on (F := F) d L _ _ _ hgA1)) $$ Hd12
  ihave Hd13 := (Entails.of_eq (own_on (F := F) d L _ _ _ hgB1)) $$ Hd13
  unfold tripPostV
  icases Hp with ⟨Ht, Hs0, ⟨%fR2, Hs1⟩, Hd20, Hd21, ⟨%gA2, %hgA2, %fA2, HflyA⟩, ⟨%gB2, %hgB2, %fB2, HflyB⟩, HsemR, ⟨%W2, %hW2, HO⟩⟩
  -- trip 3
  iapply (trip_nextV (F := F) d L T3 (ce3 L) (k0_off6 L T2) (k0_off7 L T2) (k0_off6_inb L T2 (ce2 L)) (k0_off7_inb L T2 (ce2 L)) gA2 gB2 fA2 fB2 _ hfI fR2 (m (oLoc d)) (ttOf m d) O W2 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr3]; · iexact Hr3
  isplitl [HO]; · iexact HO
  iintro ⟨Hp, Hd22, Hd23⟩
  ihave Hd22 := (Entails.of_eq (own_on (F := F) d L _ _ _ hgA2)) $$ Hd22
  ihave Hd23 := (Entails.of_eq (own_on (F := F) d L _ _ _ hgB2)) $$ Hd23
  unfold tripPostV
  icases Hp with ⟨Ht, Hs0, ⟨%fR3, Hs1⟩, Hd30, Hd31, ⟨%gA3, %hgA3, %fA3, HflyA⟩, ⟨%gB3, %hgB3, %fB3, HflyB⟩, HsemR, ⟨%W3, %hW3, HO⟩⟩
  -- trip 4
  iapply (trip_nextV (F := F) d L T4 (ce4 L) (k0_off6 L T3) (k0_off7 L T3) (k0_off6_inb L T3 (ce3 L)) (k0_off7_inb L T3 (ce3 L)) gA3 gB3 fA3 fB3 _ hfI fR3 (m (oLoc d)) (ttOf m d) O W3 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr4]; · iexact Hr4
  isplitl [HO]; · iexact HO
  iintro ⟨Hp, Hd32, Hd33⟩
  ihave Hd32 := (Entails.of_eq (own_on (F := F) d L _ _ _ hgA3)) $$ Hd32
  ihave Hd33 := (Entails.of_eq (own_on (F := F) d L _ _ _ hgB3)) $$ Hd33
  unfold tripPostV
  icases Hp with ⟨Ht, Hs0, ⟨%fR4, Hs1⟩, Hd40, Hd41, ⟨%gA4, %hgA4, %fA4, HflyA⟩, ⟨%gB4, %hgB4, %fB4, HflyB⟩, HsemR, ⟨%W4, %hW4, HO⟩⟩
  -- trip 5
  iapply (trip_nextV (F := F) d L T5 (ce5 L) (k0_off6 L T4) (k0_off7 L T4) (k0_off6_inb L T4 (ce4 L)) (k0_off7_inb L T4 (ce4 L)) gA4 gB4 fA4 fB4 _ hfI fR4 (m (oLoc d)) (ttOf m d) O W4 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr5]; · iexact Hr5
  isplitl [HO]; · iexact HO
  iintro ⟨Hp, Hd42, Hd43⟩
  ihave Hd42 := (Entails.of_eq (own_on (F := F) d L _ _ _ hgA4)) $$ Hd42
  ihave Hd43 := (Entails.of_eq (own_on (F := F) d L _ _ _ hgB4)) $$ Hd43
  unfold tripPostV
  icases Hp with ⟨Ht, Hs0, ⟨%fR5, Hs1⟩, Hd50, Hd51, ⟨%gA5, %hgA5, %fA5, HflyA⟩, ⟨%gB5, %hgB5, %fB5, HflyB⟩, HsemR, ⟨%W5, %hW5, HO⟩⟩
  -- trip 6
  iapply (trip_nextV (F := F) d L T6 (ce6 L) (k0_off6 L T5) (k0_off7 L T5) (k0_off6_inb L T5 (ce5 L)) (k0_off7_inb L T5 (ce5 L)) gA5 gB5 fA5 fB5 _ hfI fR5 (m (oLoc d)) (ttOf m d) O W5 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr6]; · iexact Hr6
  isplitl [HO]; · iexact HO
  iintro ⟨Hp, Hd52, Hd53⟩
  ihave Hd52 := (Entails.of_eq (own_on (F := F) d L _ _ _ hgA5)) $$ Hd52
  ihave Hd53 := (Entails.of_eq (own_on (F := F) d L _ _ _ hgB5)) $$ Hd53
  unfold tripPostV
  icases Hp with ⟨Ht, Hs0, ⟨%fR6, Hs1⟩, Hd60, Hd61, ⟨%gA6, %hgA6, %fA6, HflyA⟩, ⟨%gB6, %hgB6, %fB6, HflyB⟩, HsemR, ⟨%W6, %hW6, HO⟩⟩
  -- trip 7
  iapply (trip_nextV (F := F) d L T7 (ce7 L) (k0_off6 L T6) (k0_off7 L T6) (k0_off6_inb L T6 (ce6 L)) (k0_off7_inb L T6 (ce6 L)) gA6 gB6 fA6 fB6 _ hfI fR6 (m (oLoc d)) (ttOf m d) O W6 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr7]; · iexact Hr7
  isplitl [HO]; · iexact HO
  iintro ⟨Hp, Hd62, Hd63⟩
  ihave Hd62 := (Entails.of_eq (own_on (F := F) d L _ _ _ hgA6)) $$ Hd62
  ihave Hd63 := (Entails.of_eq (own_on (F := F) d L _ _ _ hgB6)) $$ Hd63
  unfold tripPostV
  icases Hp with ⟨Ht, Hs0, ⟨%fR7, Hs1⟩, Hd70, Hd71, ⟨%gA7, %hgA7, %fA7, HflyA⟩, ⟨%gB7, %hgB7, %fB7, HflyB⟩, HsemR, ⟨%W7, %hW7, HO⟩⟩
  -- trip 8
  iapply (trip_nextV (F := F) d L T8 (ce8 L) (k0_off6 L T7) (k0_off7 L T7) (k0_off6_inb L T7 (ce7 L)) (k0_off7_inb L T7 (ce7 L)) gA7 gB7 fA7 fB7 _ hfI fR7 (m (oLoc d)) (ttOf m d) O W7 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr8]; · iexact Hr8
  isplitl [HO]; · iexact HO
  iintro ⟨Hp, Hd72, Hd73⟩
  ihave Hd72 := (Entails.of_eq (own_on (F := F) d L _ _ _ hgA7)) $$ Hd72
  ihave Hd73 := (Entails.of_eq (own_on (F := F) d L _ _ _ hgB7)) $$ Hd73
  unfold tripPostV
  icases Hp with ⟨Ht, Hs0, ⟨%fR8, Hs1⟩, Hd80, Hd81, ⟨%gA8, %hgA8, %fA8, HflyA⟩, ⟨%gB8, %hgB8, %fB8, HflyB⟩, HsemR, ⟨%W8, %hW8, HO⟩⟩
  -- trip 9
  iapply (trip_nextV (F := F) d L T9 h9 (k0_off6 L T8) (k0_off7 L T8) (k0_off6_inb L T8 (ce8 L)) (k0_off7_inb L T8 (ce8 L)) gA8 gB8 fA8 fB8 _ hfI fR8 (m (oLoc d)) (ttOf m d) O W8 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr9]; · iexact Hr9
  isplitl [HO]; · iexact HO
  iintro ⟨Hp, Hd82, Hd83⟩
  ihave Hd82 := (Entails.of_eq (own_on (F := F) d L _ _ _ hgA8)) $$ Hd82
  ihave Hd83 := (Entails.of_eq (own_on (F := F) d L _ _ _ hgB8)) $$ Hd83
  unfold tripPostV
  icases Hp with ⟨Ht, Hs0, ⟨%fR9, Hs1⟩, Hd90, Hd91, ⟨%gA9, %hgA9, %fA9, HflyA⟩, ⟨%gB9, %hgB9, %fB9, HflyB⟩, HsemR, ⟨%W9, %hW9, HO⟩⟩
  -- the last two copies out are waited for
  icases HflyA with ⟨HsemA, Hs2⟩
  icases HflyB with ⟨HsemB, Hs3⟩
  sl_exec
  sl_step
  ihave Hd92 := (Entails.of_eq (own_on (F := F) d L _ _ _ hgA9)) $$ HsemA_dst
  ihave Hd93 := (Entails.of_eq (own_on (F := F) d L _ _ _ hgB9)) $$ HsemB_dst
  unfold tdResV rowsAt GT
  isplitl [Hi Ht Hd00 Hd01 Hd02 Hd03 Hd10 Hd11 Hd12 Hd13 Hd20 Hd21 Hd22 Hd23 Hd30 Hd31 Hd32 Hd33 Hd40 Hd41 Hd42 Hd43 Hd50 Hd51 Hd52 Hd53 Hd60 Hd61 Hd62 Hd63 Hd70 Hd71 Hd72 Hd73 Hd80 Hd81 Hd82 Hd83 Hd90 Hd91 Hd92 Hd93]
  · isplitl [Hi]; · iexact Hi
    isplitl [Ht]; · iexact Ht
    isplitl [Hd00 Hd01 Hd02 Hd03]
    · unfold rowAt
      isplitl [Hd00]; · iexact Hd00
      isplitl [Hd01]; · iexact Hd01
      isplitl [Hd02]; · iexact Hd02
      iexact Hd03
    isplitl [Hd10 Hd11 Hd12 Hd13]
    · unfold rowAt
      isplitl [Hd10]; · iexact Hd10
      isplitl [Hd11]; · iexact Hd11
      isplitl [Hd12]; · iexact Hd12
      iexact Hd13
    isplitl [Hd20 Hd21 Hd22 Hd23]
    · unfold rowAt
      isplitl [Hd20]; · iexact Hd20
      isplitl [Hd21]; · iexact Hd21
      isplitl [Hd22]; · iexact Hd22
      iexact Hd23
    isplitl [Hd30 Hd31 Hd32 Hd33]
    · unfold rowAt
      isplitl [Hd30]; · iexact Hd30
      isplitl [Hd31]; · iexact Hd31
      isplitl [Hd32]; · iexact Hd32
      iexact Hd33
    isplitl [Hd40 Hd41 Hd42 Hd43]
    · unfold rowAt
      isplitl [Hd40]; · iexact Hd40
      isplitl [Hd41]; · iexact Hd41
      isplitl [Hd42]; · iexact Hd42
      iexact Hd43
    isplitl [Hd50 Hd51 Hd52 Hd53]
    · unfold rowAt
      isplitl [Hd50]; · iexact Hd50
      isplitl [Hd51]; · iexact Hd51
      isplitl [Hd52]; · iexact Hd52
      iexact Hd53
    isplitl [Hd60 Hd61 Hd62 Hd63]
    · unfold rowAt
      isplitl [Hd60]; · iexact Hd60
      isplitl [Hd61]; · iexact Hd61
      isplitl [Hd62]; · iexact Hd62
      iexact Hd63
    isplitl [Hd70 Hd71 Hd72 Hd73]
    · unfold rowAt
      isplitl [Hd70]; · iexact Hd70
      isplitl [Hd71]; · iexact Hd71
      isplitl [Hd72]; · iexact Hd72
      iexact Hd73
    isplitl [Hd80 Hd81 Hd82 Hd83]
    · unfold rowAt
      isplitl [Hd80]; · iexact Hd80
      isplitl [Hd81]; · iexact Hd81
      isplitl [Hd82]; · iexact Hd82
      iexact Hd83
    rw [row9At_pos (F := F) d L h9]; unfold rowAt
    isplitl [Hd90]; · iexact Hd90
    isplitl [Hd91]; · iexact Hd91
    isplitl [Hd92]; · iexact Hd92
    iexact Hd93
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [HsemA HsemB HsemI HsemR Hsems]
  · isplitl [HsemA]; · iexact HsemA
    isplitl [HsemB]; · iexact HsemB
    isplitl [HsemI]; · iexact HsemI
    isplitl [HsemR]; · iexact HsemR
    iexact Hsems
  iexists (insert (SemLoc.dma cc0_scratch5.sem, (default : HIx 1)) (insert (SemLoc.dma cc0_scratch4.sem, (default : HIx 1)) W9)); isplitr
  · ipureintro
    have k : ∀ p ∈ insert (SemLoc.dma cc0_scoped0.sem, (default : HIx 1)) W, p ∈ W ∨ p.2 = none :=
      fun p hp => (Finset.mem_insert.mp hp).elim (fun e => .inr (e ▸ rfl)) .inl
    have k : ∀ p ∈ W0, p ∈ W ∨ p.2 = none := fun p hp => (hW0 p hp).elim (k p) .inr
    have k : ∀ p ∈ W1, p ∈ W ∨ p.2 = none := fun p hp => (hW1 p hp).elim (k p) .inr
    have k : ∀ p ∈ W2, p ∈ W ∨ p.2 = none := fun p hp => (hW2 p hp).elim (k p) .inr
    have k : ∀ p ∈ W3, p ∈ W ∨ p.2 = none := fun p hp => (hW3 p hp).elim (k p) .inr
    have k : ∀ p ∈ W4, p ∈ W ∨ p.2 = none := fun p hp => (hW4 p hp).elim (k p) .inr
    have k : ∀ p ∈ W5, p ∈ W ∨ p.2 = none := fun p hp => (hW5 p hp).elim (k p) .inr
    have k : ∀ p ∈ W6, p ∈ W ∨ p.2 = none := fun p hp => (hW6 p hp).elim (k p) .inr
    have k : ∀ p ∈ W7, p ∈ W ∨ p.2 = none := fun p hp => (hW7 p hp).elim (k p) .inr
    have k : ∀ p ∈ W8, p ∈ W ∨ p.2 = none := fun p hp => (hW8 p hp).elim (k p) .inr
    have k : ∀ p ∈ W9, p ∈ W ∨ p.2 = none := fun p hp => (hW9 p hp).elim (k p) .inr
    intro p hp
    rcases Finset.mem_insert.mp hp with rfl | hp
    · exact .inr rfl
    rcases Finset.mem_insert.mp hp with rfl | hp
    · exact .inr rfl
    exact k p hp
  · iexact HO

set_option maxHeartbeats 4000000 in
theorem tile_body_negV (hF : (K (F := F)).Facts) (hpre : PreOK m) (hn : ¬ k0_cond1 L T9 = 1#1) (O : CellTallies nD τ sig (HIx 1)) (W : Waits sig (HIx 1)) (hO : ∀ g, O g none = 0) :
    iprop(levAts (K (F := F)).L (K (F := F)).lev ∗ emp ∗ goRes m d L (ttOf m d) ∗ scopedBufs (thrV d L) ∗ scopedSems0 (thrV d L) ∗ owes (thrV d L) O W)
      ⊢ wp frame (wpE (defs₀ (F := F)) 𝒱₀ (thrV d L) none) Set.univ
          (cc0__gather_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1)
          fun _ => iprop(tdResV m d L ∗ scopedBufs (thrV d L) ∗ scopedSems0 (thrV d L)
            ∗ ∃ W', ⌜∀ p ∈ W', p ∈ W ∨ p.2 = none⌝ ∗ owes (thrV d L) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold goRes rowsAt
  iintro ⟨#Hlv, -, ⟨Hi, Ht, Hr0, Hr1, Hr2, Hr3, Hr4, Hr5, Hr6, Hr7, Hr8, Hr9⟩, ⟨⟨%f0, Hs0⟩, ⟨%fRi, Hs1⟩, ⟨%fAi, Hs2⟩, ⟨%fBi, Hs3⟩, Hbufs⟩, ⟨HsemA, HsemB, HsemI, HsemR, Hsems⟩, HO⟩
  ihave Hmw := ((K (F := F)).mayWaits_none (thr := thrV d L) hO) $$ Hlv
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hr0 := (Entails.of_eq (rowAt_def (F := F) d L _ _ _)) $$ Hr0
  icases Hr0 with ⟨H00, H01, H02, H03⟩
  ihave H00 := (Entails.of_eq (own_congr (F := F) d L (off4_zero L) _ (k0_off1_inb L) _)) $$ H00
  ihave H01 := (Entails.of_eq (own_congr (F := F) d L (off5_zero L) _ (k0_off2_inb L) _)) $$ H01
  ihave Hr9 := (Entails.of_eq (row9At_neg (F := F) d L hn _)) $$ Hr9
  -- the prologue: the indices fetched whole; the two opening copies out
  sl_exec
  -- the index scratch now holds the launch indices
  unfold tile_body_negV.sl.dma0
  ihave Hs0 := (Entails.of_eq (fetched_pts (F := F) m d L f0)) $$ Hs0
  have hfI : ∀ i, ((m (iLoc d) : Buf (Elt F) ((thrV d L).loc cc0_scratch0)) i).toNat < 100000 := fun i => hpre d i
  sl_unroll
  simp only [wp_bind]
  -- trip 0
  iapply (trip_firstV (F := F) d L T0 (ce0 L) (off4_zero L) (off5_zero L) _ _ fAi fBi _ hfI fRi (m (oLoc d)) (ttOf m d) O _ _)
  isplitr; · iexact Hmw
  isplitl [Ht]; · iexact Ht
  isplitl [Hs0]; · iexact Hs0
  isplitl [Hs1]; · iexact Hs1
  isplitl [HsemA Hs2]
  · isplitl [HsemA]; · iexact HsemA
    iexact Hs2
  isplitl [HsemB Hs3]
  · isplitl [HsemB]; · iexact HsemB
    iexact Hs3
  isplitl [HsemR]; · iexact HsemR
  isplitl [H02]; · iexact H02
  isplitl [H03]; · iexact H03
  isplitl [HO]; · iexact HO
  iintro Hp
  unfold tripPostV
  icases Hp with ⟨Ht, Hs0, ⟨%fR0, Hs1⟩, Hd00, Hd01, ⟨%gA0, %hgA0, %fA0, HflyA⟩, ⟨%gB0, %hgB0, %fB0, HflyB⟩, HsemR, ⟨%W0, %hW0, HO⟩⟩
  -- trip 1
  iapply (trip_nextV (F := F) d L T1 (ce1 L) (k0_off6 L T0) (k0_off7 L T0) (k0_off6_inb L T0 (ce0 L)) (k0_off7_inb L T0 (ce0 L)) gA0 gB0 fA0 fB0 _ hfI fR0 (m (oLoc d)) (ttOf m d) O W0 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr1]; · iexact Hr1
  isplitl [HO]; · iexact HO
  iintro ⟨Hp, Hd02, Hd03⟩
  ihave Hd02 := (Entails.of_eq (own_on (F := F) d L _ _ _ hgA0)) $$ Hd02
  ihave Hd03 := (Entails.of_eq (own_on (F := F) d L _ _ _ hgB0)) $$ Hd03
  unfold tripPostV
  icases Hp with ⟨Ht, Hs0, ⟨%fR1, Hs1⟩, Hd10, Hd11, ⟨%gA1, %hgA1, %fA1, HflyA⟩, ⟨%gB1, %hgB1, %fB1, HflyB⟩, HsemR, ⟨%W1, %hW1, HO⟩⟩
  -- trip 2
  iapply (trip_nextV (F := F) d L T2 (ce2 L) (k0_off6 L T1) (k0_off7 L T1) (k0_off6_inb L T1 (ce1 L)) (k0_off7_inb L T1 (ce1 L)) gA1 gB1 fA1 fB1 _ hfI fR1 (m (oLoc d)) (ttOf m d) O W1 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr2]; · iexact Hr2
  isplitl [HO]; · iexact HO
  iintro ⟨Hp, Hd12, Hd13⟩
  ihave Hd12 := (Entails.of_eq (own_on (F := F) d L _ _ _ hgA1)) $$ Hd12
  ihave Hd13 := (Entails.of_eq (own_on (F := F) d L _ _ _ hgB1)) $$ Hd13
  unfold tripPostV
  icases Hp with ⟨Ht, Hs0, ⟨%fR2, Hs1⟩, Hd20, Hd21, ⟨%gA2, %hgA2, %fA2, HflyA⟩, ⟨%gB2, %hgB2, %fB2, HflyB⟩, HsemR, ⟨%W2, %hW2, HO⟩⟩
  -- trip 3
  iapply (trip_nextV (F := F) d L T3 (ce3 L) (k0_off6 L T2) (k0_off7 L T2) (k0_off6_inb L T2 (ce2 L)) (k0_off7_inb L T2 (ce2 L)) gA2 gB2 fA2 fB2 _ hfI fR2 (m (oLoc d)) (ttOf m d) O W2 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr3]; · iexact Hr3
  isplitl [HO]; · iexact HO
  iintro ⟨Hp, Hd22, Hd23⟩
  ihave Hd22 := (Entails.of_eq (own_on (F := F) d L _ _ _ hgA2)) $$ Hd22
  ihave Hd23 := (Entails.of_eq (own_on (F := F) d L _ _ _ hgB2)) $$ Hd23
  unfold tripPostV
  icases Hp with ⟨Ht, Hs0, ⟨%fR3, Hs1⟩, Hd30, Hd31, ⟨%gA3, %hgA3, %fA3, HflyA⟩, ⟨%gB3, %hgB3, %fB3, HflyB⟩, HsemR, ⟨%W3, %hW3, HO⟩⟩
  -- trip 4
  iapply (trip_nextV (F := F) d L T4 (ce4 L) (k0_off6 L T3) (k0_off7 L T3) (k0_off6_inb L T3 (ce3 L)) (k0_off7_inb L T3 (ce3 L)) gA3 gB3 fA3 fB3 _ hfI fR3 (m (oLoc d)) (ttOf m d) O W3 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr4]; · iexact Hr4
  isplitl [HO]; · iexact HO
  iintro ⟨Hp, Hd32, Hd33⟩
  ihave Hd32 := (Entails.of_eq (own_on (F := F) d L _ _ _ hgA3)) $$ Hd32
  ihave Hd33 := (Entails.of_eq (own_on (F := F) d L _ _ _ hgB3)) $$ Hd33
  unfold tripPostV
  icases Hp with ⟨Ht, Hs0, ⟨%fR4, Hs1⟩, Hd40, Hd41, ⟨%gA4, %hgA4, %fA4, HflyA⟩, ⟨%gB4, %hgB4, %fB4, HflyB⟩, HsemR, ⟨%W4, %hW4, HO⟩⟩
  -- trip 5
  iapply (trip_nextV (F := F) d L T5 (ce5 L) (k0_off6 L T4) (k0_off7 L T4) (k0_off6_inb L T4 (ce4 L)) (k0_off7_inb L T4 (ce4 L)) gA4 gB4 fA4 fB4 _ hfI fR4 (m (oLoc d)) (ttOf m d) O W4 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr5]; · iexact Hr5
  isplitl [HO]; · iexact HO
  iintro ⟨Hp, Hd42, Hd43⟩
  ihave Hd42 := (Entails.of_eq (own_on (F := F) d L _ _ _ hgA4)) $$ Hd42
  ihave Hd43 := (Entails.of_eq (own_on (F := F) d L _ _ _ hgB4)) $$ Hd43
  unfold tripPostV
  icases Hp with ⟨Ht, Hs0, ⟨%fR5, Hs1⟩, Hd50, Hd51, ⟨%gA5, %hgA5, %fA5, HflyA⟩, ⟨%gB5, %hgB5, %fB5, HflyB⟩, HsemR, ⟨%W5, %hW5, HO⟩⟩
  -- trip 6
  iapply (trip_nextV (F := F) d L T6 (ce6 L) (k0_off6 L T5) (k0_off7 L T5) (k0_off6_inb L T5 (ce5 L)) (k0_off7_inb L T5 (ce5 L)) gA5 gB5 fA5 fB5 _ hfI fR5 (m (oLoc d)) (ttOf m d) O W5 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr6]; · iexact Hr6
  isplitl [HO]; · iexact HO
  iintro ⟨Hp, Hd52, Hd53⟩
  ihave Hd52 := (Entails.of_eq (own_on (F := F) d L _ _ _ hgA5)) $$ Hd52
  ihave Hd53 := (Entails.of_eq (own_on (F := F) d L _ _ _ hgB5)) $$ Hd53
  unfold tripPostV
  icases Hp with ⟨Ht, Hs0, ⟨%fR6, Hs1⟩, Hd60, Hd61, ⟨%gA6, %hgA6, %fA6, HflyA⟩, ⟨%gB6, %hgB6, %fB6, HflyB⟩, HsemR, ⟨%W6, %hW6, HO⟩⟩
  -- trip 7
  iapply (trip_nextV (F := F) d L T7 (ce7 L) (k0_off6 L T6) (k0_off7 L T6) (k0_off6_inb L T6 (ce6 L)) (k0_off7_inb L T6 (ce6 L)) gA6 gB6 fA6 fB6 _ hfI fR6 (m (oLoc d)) (ttOf m d) O W6 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr7]; · iexact Hr7
  isplitl [HO]; · iexact HO
  iintro ⟨Hp, Hd62, Hd63⟩
  ihave Hd62 := (Entails.of_eq (own_on (F := F) d L _ _ _ hgA6)) $$ Hd62
  ihave Hd63 := (Entails.of_eq (own_on (F := F) d L _ _ _ hgB6)) $$ Hd63
  unfold tripPostV
  icases Hp with ⟨Ht, Hs0, ⟨%fR7, Hs1⟩, Hd70, Hd71, ⟨%gA7, %hgA7, %fA7, HflyA⟩, ⟨%gB7, %hgB7, %fB7, HflyB⟩, HsemR, ⟨%W7, %hW7, HO⟩⟩
  -- trip 8
  iapply (trip_nextV (F := F) d L T8 (ce8 L) (k0_off6 L T7) (k0_off7 L T7) (k0_off6_inb L T7 (ce7 L)) (k0_off7_inb L T7 (ce7 L)) gA7 gB7 fA7 fB7 _ hfI fR7 (m (oLoc d)) (ttOf m d) O W7 _)
  isplitr; · iexact Hmw
  isplitl [Ht]; · iexact Ht
  isplitl [Hs0]; · iexact Hs0
  isplitl [Hs1]; · iexact Hs1
  isplitl [HflyA]; · iexact HflyA
  isplitl [HflyB]; · iexact HflyB
  isplitl [HsemR]; · iexact HsemR
  isplitl [Hr8]; · iexact Hr8
  isplitl [HO]; · iexact HO
  iintro ⟨Hp, Hd72, Hd73⟩
  ihave Hd72 := (Entails.of_eq (own_on (F := F) d L _ _ _ hgA7)) $$ Hd72
  ihave Hd73 := (Entails.of_eq (own_on (F := F) d L _ _ _ hgB7)) $$ Hd73
  unfold tripPostV
  icases Hp with ⟨Ht, Hs0, ⟨%fR8, Hs1⟩, Hd80, Hd81, ⟨%gA8, %hgA8, %fA8, HflyA⟩, ⟨%gB8, %hgB8, %fB8, HflyB⟩, HsemR, ⟨%W8, %hW8, HO⟩⟩
  -- trip 9: the tile has no tenth row
  iapply (trip_skip (F := F) d L T9 hn _)
  -- the last two copies out are waited for
  icases HflyA with ⟨HsemA, Hs2⟩
  icases HflyB with ⟨HsemB, Hs3⟩
  sl_exec
  sl_step
  ihave Hd82 := (Entails.of_eq (own_on (F := F) d L _ _ _ hgA8)) $$ HsemA_dst
  ihave Hd83 := (Entails.of_eq (own_on (F := F) d L _ _ _ hgB8)) $$ HsemB_dst
  unfold tdResV rowsAt GT
  isplitl [Hi Ht Hd00 Hd01 Hd02 Hd03 Hd10 Hd11 Hd12 Hd13 Hd20 Hd21 Hd22 Hd23 Hd30 Hd31 Hd32 Hd33 Hd40 Hd41 Hd42 Hd43 Hd50 Hd51 Hd52 Hd53 Hd60 Hd61 Hd62 Hd63 Hd70 Hd71 Hd72 Hd73 Hd80 Hd81 Hd82 Hd83]
  · isplitl [Hi]; · iexact Hi
    isplitl [Ht]; · iexact Ht
    isplitl [Hd00 Hd01 Hd02 Hd03]
    · unfold rowAt
      isplitl [Hd00]; · iexact Hd00
      isplitl [Hd01]; · iexact Hd01
      isplitl [Hd02]; · iexact Hd02
      iexact Hd03
    isplitl [Hd10 Hd11 Hd12 Hd13]
    · unfold rowAt
      isplitl [Hd10]; · iexact Hd10
      isplitl [Hd11]; · iexact Hd11
      isplitl [Hd12]; · iexact Hd12
      iexact Hd13
    isplitl [Hd20 Hd21 Hd22 Hd23]
    · unfold rowAt
      isplitl [Hd20]; · iexact Hd20
      isplitl [Hd21]; · iexact Hd21
      isplitl [Hd22]; · iexact Hd22
      iexact Hd23
    isplitl [Hd30 Hd31 Hd32 Hd33]
    · unfold rowAt
      isplitl [Hd30]; · iexact Hd30
      isplitl [Hd31]; · iexact Hd31
      isplitl [Hd32]; · iexact Hd32
      iexact Hd33
    isplitl [Hd40 Hd41 Hd42 Hd43]
    · unfold rowAt
      isplitl [Hd40]; · iexact Hd40
      isplitl [Hd41]; · iexact Hd41
      isplitl [Hd42]; · iexact Hd42
      iexact Hd43
    isplitl [Hd50 Hd51 Hd52 Hd53]
    · unfold rowAt
      isplitl [Hd50]; · iexact Hd50
      isplitl [Hd51]; · iexact Hd51
      isplitl [Hd52]; · iexact Hd52
      iexact Hd53
    isplitl [Hd60 Hd61 Hd62 Hd63]
    · unfold rowAt
      isplitl [Hd60]; · iexact Hd60
      isplitl [Hd61]; · iexact Hd61
      isplitl [Hd62]; · iexact Hd62
      iexact Hd63
    isplitl [Hd70 Hd71 Hd72 Hd73]
    · unfold rowAt
      isplitl [Hd70]; · iexact Hd70
      isplitl [Hd71]; · iexact Hd71
      isplitl [Hd72]; · iexact Hd72
      iexact Hd73
    isplitl [Hd80 Hd81 Hd82 Hd83]
    · unfold rowAt
      isplitl [Hd80]; · iexact Hd80
      isplitl [Hd81]; · iexact Hd81
      isplitl [Hd82]; · iexact Hd82
      iexact Hd83
    rw [row9At_neg (F := F) d L hn]
    iempintro
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [HsemA HsemB HsemI HsemR Hsems]
  · isplitl [HsemA]; · iexact HsemA
    isplitl [HsemB]; · iexact HsemB
    isplitl [HsemI]; · iexact HsemI
    isplitl [HsemR]; · iexact HsemR
    iexact Hsems
  iexists (insert (SemLoc.dma cc0_scratch5.sem, (default : HIx 1)) (insert (SemLoc.dma cc0_scratch4.sem, (default : HIx 1)) W8)); isplitr
  · ipureintro
    have k : ∀ p ∈ insert (SemLoc.dma cc0_scoped0.sem, (default : HIx 1)) W, p ∈ W ∨ p.2 = none :=
      fun p hp => (Finset.mem_insert.mp hp).elim (fun e => .inr (e ▸ rfl)) .inl
    have k : ∀ p ∈ W0, p ∈ W ∨ p.2 = none := fun p hp => (hW0 p hp).elim (k p) .inr
    have k : ∀ p ∈ W1, p ∈ W ∨ p.2 = none := fun p hp => (hW1 p hp).elim (k p) .inr
    have k : ∀ p ∈ W2, p ∈ W ∨ p.2 = none := fun p hp => (hW2 p hp).elim (k p) .inr
    have k : ∀ p ∈ W3, p ∈ W ∨ p.2 = none := fun p hp => (hW3 p hp).elim (k p) .inr
    have k : ∀ p ∈ W4, p ∈ W ∨ p.2 = none := fun p hp => (hW4 p hp).elim (k p) .inr
    have k : ∀ p ∈ W5, p ∈ W ∨ p.2 = none := fun p hp => (hW5 p hp).elim (k p) .inr
    have k : ∀ p ∈ W6, p ∈ W ∨ p.2 = none := fun p hp => (hW6 p hp).elim (k p) .inr
    have k : ∀ p ∈ W7, p ∈ W ∨ p.2 = none := fun p hp => (hW7 p hp).elim (k p) .inr
    have k : ∀ p ∈ W8, p ∈ W ∨ p.2 = none := fun p hp => (hW8 p hp).elim (k p) .inr
    intro p hp
    rcases Finset.mem_insert.mp hp with rfl | hp
    · exact .inr rfl
    rcases Finset.mem_insert.mp hp with rfl | hp
    · exact .inr rfl
    exact k p hp
  · iexact HO

theorem tile_bodyV (hF : (K (F := F)).Facts) (hpre : PreOK m)  (O : CellTallies nD τ sig (HIx 1)) (W : Waits sig (HIx 1)) (hO : ∀ g, O g none = 0) :
    iprop(levAts (K (F := F)).L (K (F := F)).lev ∗ emp ∗ goRes m d L (ttOf m d) ∗ scopedBufs (thrV d L) ∗ scopedSems0 (thrV d L) ∗ owes (thrV d L) O W)
      ⊢ wp frame (wpE (defs₀ (F := F)) 𝒱₀ (thrV d L) none) Set.univ
          (cc0__gather_body L aI (Memref.isWhole_whole _) aT (Memref.isWhole_whole _) aO (Memref.isWhole_whole _)
            sI (Memref.isWhole_whole _) sR (Memref.isWhole_whole _) sA (Memref.isWhole_whole _) sB (Memref.isWhole_whole _)
            cc0_scratch4 cc0_scratch5 cc0_scoped0 cc0_scoped1)
          fun _ => iprop(tdResV m d L ∗ scopedBufs (thrV d L) ∗ scopedSems0 (thrV d L)
            ∗ ∃ W', ⌜∀ p ∈ W', p ∈ W ∨ p.2 = none⌝ ∗ owes (thrV d L) O W') := by
  by_cases h9 : k0_cond1 L T9 = 1#1
  · exact tile_body_posV m d L hF hpre h9 O W hO
  · exact tile_body_negV m d L hF hpre h9 O W hO

end Tile

/-- Every task of the call, with its values. -/
theorem tileOblV (hF : (K (F := F)).Facts) (hpre : PreOK m) : (K (F := F)).TileObl (D (F := F)) 𝒱 (PV m) v₀ 0 := by
  intro d c i O W hO _ _
  simp only [show (PV m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_bodyV m d (coordsV ⟨_, hc.1⟩ ⟨_, hc.2⟩) hF hpre O W hO).trans (wp_mono frame _ _ fun _ => obl_post)

end Cert.Proof.KI

end
-- ==== Proof.RefRun.lean ====
/-
  The reference's run. @main calls the lookup function, which calls the select function; with the two bodies unfolded
  at their call sites @main is a straight line of 23 host operations over the call's buffers, so every weakly fair
  execution terminates with each buffer at the operations' fold over the launch contents. The result buffer then
  holds `refTerm idx tab`, the operations' composed term: the index vector with negative entries wrapped by the
  table's row count, the gather of the table at it, and the gather kept where the wrapped index is in
  `[0, 99999]` (a quiet NaN elsewhere). The argument buffers are not written.
-/
import proofs.«203175_g23072564314740_cont_8to1_266_38_alg».proof.ReferenceIdeal
import Idealize.ShloMosaic.Lib.StableHlo.Run

noncomputable section

namespace Cert.Proof.RefSide

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The index vector after the wrap of negative entries: `idx + 100000` where `idx < 0`, else `idx`. -/
def wrapped (idx : IVec S16384 32) : IVec S16384 32 :=
  select (cmpi .slt idx (broadcastInDim S16384 ![] bcast_S_S16384 (constantI S_ 32 0#32)))
    (addi idx (broadcastInDim S16384 ![] bcast_S_S16384 (constantI S_ 32 100000#32))) idx

/-- The wrapped indices as a column: the gather's start indices. -/
def startIdx (idx : IVec S16384 32) : IVec S16384x1 32 :=
  broadcastInDim S16384x1 ![0] bcast_S16384_S16384x1_0 (wrapped idx)

/-- Per row, whether the wrapped index is in `[0, 99999]`: the two comparisons, their conjunction, reduced by
    `and` over the column axis of extent one. -/
def inBounds (idx : IVec S16384 32) : IVec S16384 1 :=
  Host.reduce IntOp.andi
    (andi (cmpi .sge (startIdx idx) (broadcastInDim S16384x1 ![] bcast_S_S16384x1 (constantI S_ 32 0#32)))
      (cmpi .sle (startIdx idx) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- The operations' composed term at the result: the gather where the row's index is in bounds, NaN elsewhere. -/
def refTerm (idx : IVec S16384 32) (tab : FVec F S100000x300 .f32) : FVec F S16384x300 .f32 :=
  select (broadcastInDim S16384x300 ![0] bcast_S16384_S16384x300_0 (inBounds idx))
    (Host.gather gather_S100000x300_S16384x1_S16384x300_1_0_n_n_0_1_1300 tab (startIdx idx))
    (broadcastInDim S16384x300 ![] bcast_S_S16384x300 (constant S_ .f32 0x7FC00000#32))

/-- @main's 23 operations, in order: the lookup function's, the select function's one at its call site, over the
    buffers of the call. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S100000x300_S16384x1_S16384x300_1_0_n_n_0_1_1300 x i),
    TRef.unary main_call0.v12 main_call0.v14 (broadcastInDim S16384x300 ![0] bcast_S16384_S16384x300_0),
    TRef.nullary main_call0.cst (constant S_ .f32 0x7FC00000#32),
    TRef.unary main_call0.cst main_call0.v15 (broadcastInDim S16384x300 ![] bcast_S_S16384x300),
    TRef.ternary main_call0.v14 main_call0.v13 main_call0.v15 main_call0.v16 select ]

set_option maxRecDepth 1024 in
/-- @main is that straight line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every weakly fair execution of @main terminates with every TensorCore buffer at the operations' fold over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The argument buffers are written by no operation. -/
theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

end Cert.Proof.RefSide

end
-- ==== Proof.RefTerm.lean ====
/-
  The reference's result as a term of its arguments. The fold of the 23 operations at the result buffer is
  `refTerm` of the two argument buffers' contents: each operation's result is read at the buffer it writes and
  the others' contents pass through; the typed references' transports are the identity at these literal
  references. With the run of the straight line this gives: every weakly fair execution of @main terminates with
  the result buffer at `refTerm idx tab` and the arguments unchanged.
-/
import proofs.«203175_g23072564314740_cont_8to1_266_38_alg».proof.Proof.RefRun

noncomputable section

namespace Cert.Proof.RefSide

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

attribute [local irreducible] Host.reduce Host.gather in
set_option maxRecDepth 8192 in
/-- The fold at the result buffer is the composed term of the two argument buffers' contents. The reduction and
    the gather are kept folded meanwhile: the equation never looks inside them. -/
theorem out_eq (V : Valuation τ sig (Elt F)) :
    after ops V (main_v0 : DevRef τ sig) = refTerm (V (main_arg0 : DevRef τ sig)) (V (main_arg1 : DevRef τ sig)) := by
  after_results
  simp only [cast_cast, cast_eq]
  unfold refTerm inBounds startIdx wrapped
  rfl

/-- Every weakly fair execution of @main terminates with the result buffer at the composed term of the arguments'
    launch contents, and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩) (run_fold m ρ)

end Cert.Proof.RefSide

end
-- ==== Proof.RefValue.lean ====
/-
  The reference's result is the lookup. Under `idx[t] < 100000` for every `t` (what the precondition gives,
  `idx_lt_of_pre`) the composed term `refTerm idx tab` is `takeRows idx tab`:
  * an index below 100000 is nonnegative as a signed word, so the wrap of negative entries is the identity;
  * it is then between 0 and 99999, so both comparisons are 1, their conjunction is 1, and the reduction by
    `and` of a column of ones from 1 is 1: the final select keeps the gather everywhere;
  * the gather at `(t, j)` reads the table at row `start[t, 0]` read signed and clamped into `[0, 99999]` — the
    one operand axis the start index map names, collapsed in the result — and column `j`, the one offset axis;
    the start index is `idx[t]`, whose signed reading is its unsigned one.
  With the run of the straight line: every weakly fair execution of @main terminates with the result buffer at
  `takeRows` of the arguments' launch contents, and the arguments unchanged.
-/
import proofs.«203175_g23072564314740_cont_8to1_266_38_alg».proof.Proof.RefSpec
import proofs.«203175_g23072564314740_cont_8to1_266_38_alg».proof.Proof.RefTerm

noncomputable section

namespace Cert.Proof.RefSide

open Cert.ReferenceIdeal Cert.ReferenceIdeal.Facts₀ Idealize.ShloMosaic Idealize.ShloMosaic.ValueIdx
  Idealize.ShloMosaic.TcCoe Idealize.SL.Sem

variable {F : FTy → Type} [FloatOps F] [Cert.ReferenceIdeal.Facts]

/-! ## Words below 100000 -/

/-- Such a word is not negative as a signed word … -/
theorem cmpi_slt_zero_of_lt (v : BitVec 32) (h : v.toNat < 100000) : IntOp.cmpi .slt v 0#32 = 0#1 := by
  apply eq_zero_of_ne_one
  rw [IntOp.cmpi_slt, show (0#32 : BitVec 32).toInt = 0 from by decide, BitVec.toInt_eq_toNat_cond]
  split <;> omega

/-- … it is at least 0 … -/
theorem cmpi_sge_zero_of_lt (v : BitVec 32) (h : v.toNat < 100000) : IntOp.cmpi .sge v 0#32 = 1#1 := by
  rw [IntOp.cmpi_sge, show (0#32 : BitVec 32).toInt = 0 from by decide, BitVec.toInt_eq_toNat_cond]
  split <;> omega

/-- … and at most 99999 … -/
theorem cmpi_sle_of_lt (v : BitVec 32) (h : v.toNat < 100000) : IntOp.cmpi .sle v 99999#32 = 1#1 := by
  rw [IntOp.cmpi_sle, show (99999#32 : BitVec 32).toInt = 99999 from by decide, BitVec.toInt_eq_toNat_cond]
  split <;> omega

/-- … and its signed reading is its unsigned one. -/
theorem toInt_toNat_of_lt (v : BitVec 32) (h : v.toNat < 100000) : v.toInt.toNat = v.toNat := by
  rw [BitVec.toInt_eq_toNat_cond]
  split <;> omega

/-! ## The wrap, the mask -/

/-- No index is negative: the wrap is the identity. -/
theorem wrapped_eq (idx : IVec S16384 32) (h : ∀ i, (idx i).toNat < 100000) : wrapped idx = idx := by
  funext i
  show Scalar.select (IntOp.cmpi .slt (idx i) 0#32) _ (idx i) = idx i
  rw [cmpi_slt_zero_of_lt _ (h i), select_zero]

/-- A left fold by `and` from 1 over ones is 1. -/
theorem foldl_andi_one {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a List.mem_cons_self, show IntOp.andi 1#1 1#1 = 1#1 from by decide]
    exact ih fun n hn => hf n (List.mem_cons_of_mem _ hn)

/-- Every start index is one of the indices. -/
theorem startIdx_lt (idx : IVec S16384 32) (h : ∀ i, (idx i).toNat < 100000) (i : S16384x1.Idx) :
    (startIdx idx i).toNat < 100000 := by
  unfold startIdx
  rw [wrapped_eq idx h]
  exact h _

/-- The start index of row `t` is `idx[t]`. -/
theorem startIdx_apply (idx : IVec S16384 32) (h : ∀ i, (idx i).toNat < 100000) (t : Fin 16384) :
    startIdx idx (ix2 t ⟨0, Nat.one_pos⟩) = idx (ix1 t) := by
  unfold startIdx
  rw [wrapped_eq idx h]
  show idx _ = idx _
  congr 1
  funext a
  match a with
  | ⟨0, _⟩ => rfl

/-- Every row is in bounds. -/
theorem inBounds_eq (idx : IVec S16384 32) (h : ∀ i, (idx i).toNat < 100000) (t : S16384.Idx) :
    inBounds idx t = 1#1 := by
  unfold inBounds
  rw [Host.reduce_eq_foldl]
  refine foldl_andi_one _ _ fun i _ => ?_
  show IntOp.andi (IntOp.cmpi .sge (startIdx idx i) 0#32) (IntOp.cmpi .sle (startIdx idx i) 99999#32) = 1#1
  rw [cmpi_sge_zero_of_lt _ (startIdx_lt idx h i), cmpi_sle_of_lt _ (startIdx_lt idx h i)]
  decide

/-! ## The gather read at an index -/

local notation "gD" => gather_S100000x300_S16384x1_S16384x300_1_0_n_n_0_1_1300

/-- The gather read at `(t, j)`: the operand at row `start[t, 0]`, read signed and clamped into `[0, 99999]`, and
    column `j`. On operand axis 0 — in the start index map, collapsed — the coordinate is the clamped start alone;
    on operand axis 1 — not in the map, the one kept axis — it is the result's coordinate on its offset axis. -/
theorem gather_apply {α : Type} (tab : S100000x300.Idx → α) (si : IVec S16384x1 32) (y : S16384x300.Idx) :
    Host.gather gD tab si y
      = tab (ix2 ⟨min (si (ix2 (y 0) ⟨0, Nat.one_pos⟩)).toInt.toNat 99999, by omega⟩ (y 1)) := by
  unfold Host.gather
  congr 1
  funext a
  refine Fin.ext ?_
  match a with
  | ⟨0, _⟩ =>
    show (gD).start y si 0 + (gD).batchCoord y 0 + (gD).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gD).startIndexMap from List.mem_singleton.mpr rfl)]
    have hsi : (gD).siIdx y ⟨List.idxOf (0 : Fin 2) (gD).startIndexMap,
        List.idxOf_lt_length_iff.2 (List.mem_singleton.mpr rfl)⟩ = ix2 (y 0) ⟨0, Nat.one_pos⟩ := by
      funext b; refine Fin.ext ?_
      match b with
      | ⟨0, _⟩ => rfl
      | ⟨1, _⟩ => rfl
    rw [hsi]
    rfl
  | ⟨1, _⟩ =>
    show (gD).start y si 1 + (gD).batchCoord y 1 + (gD).offCoord y 1 = (y 1).val
    rw [GatherDims.batchCoord_eq_zero _ _ _ List.not_mem_nil]
    unfold GatherDims.start
    rw [dif_neg (show (1 : Fin 2) ∉ (gD).startIndexMap from
      fun h => absurd (List.mem_singleton.mp (show (1 : Fin 2) ∈ [(0 : Fin 2)] from h)) (by decide))]
    simp only [Nat.zero_add, Nat.add_zero]
    unfold GatherDims.offCoord
    rw [dif_pos (show (1 : Fin 2) ∈ (gD).sKept from (GatherDims.mem_sKept _ _).mpr
      ⟨fun h => absurd (List.mem_singleton.mp (show (1 : Fin 2) ∈ [(0 : Fin 2)] from h)) (by decide), List.not_mem_nil⟩)]
    rfl

/-! ## The composed term is the lookup -/

attribute [local irreducible] inBounds startIdx Host.gather in
/-- Under indices below the table's row count the reference's composed term is the lookup: the mask is 1 at every
    row, so the select keeps the gather, which reads row `idx[t]`. -/
theorem refTerm_eq (idx : IVec S16384 32) (tab : FVec F S100000x300 .f32) (h : ∀ i, (idx i).toNat < 100000) :
    refTerm idx tab = takeRows idx tab := by
  funext y
  have hc : broadcastInDim S16384x300 ![0] bcast_S16384_S16384x300_0 (inBounds idx) y = 1#1 := inBounds_eq idx h _
  unfold refTerm
  rw [select_apply, hc, select_one, gather_apply]
  unfold takeRows
  congr 2
  refine Fin.ext ?_
  show min (startIdx idx (ix2 (y 0) ⟨0, Nat.one_pos⟩)).toInt.toNat 99999 = min (idx (ix1 (y 0))).toNat 99999
  rw [startIdx_apply idx h (y 0), toInt_toNat_of_lt _ (h _)]

/-- THE REFERENCE'S RUN. For any float values, from any memory with zero counters whose index buffer holds words
    below 100000: every weakly fair execution of @main terminates with the result buffer at the lookup of the
    arguments' launch contents, and the arguments unchanged. -/
theorem run (m : (ℓ : Loc nD τ sig) → Buf (Elt F) ℓ) (ρ : Dev nD → PrngReg)
    (hidx : ∀ (c : Dev nD) (i : S16384.Idx), (m ((c.tc : Thread nD τ).loc main_arg0) i).toNat < 100000) :
    θ_run (defs (F := F)) (onTc (τ := τ) (main (F := F))) ⟨m, fun _ => 0, ρ⟩ (fun r => ∀ c : Dev nD,
      r.2.mem ((c.tc : Thread nD τ).loc main_v0)
          = takeRows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (refTerm_eq _ _ (hidx c)), (h c).2⟩) (run_term m ρ)

end Cert.Proof.RefSide

end
-- ==== Proof.lean ====
/-
  The claim: a table lookup. The kernel deals the 300 rows of the transposed table to thirty-two vector subcores,
  each of which fetches its rows one at a time, gathers every row at the 16384 indices sixteen lanes at a time and
  copies the gathered row out; transposed back, entry (i, j) of the result is the table's entry (idx i, j), which is
  what the reference's `take` computes once every index names a row — the precondition. The three frames: the
  kernel's two by the launch theorem over the tile's task proved trip by trip (at the word level and at the ideal
  instance, one text generic in the instance), the reference's from its run; `preserves` has no entry; `algebraic`
  is the kernel's run with its result named — the gather, transposed — beside the reference's run with its result
  named — the rows taken —, the two names one function.
-/
import proofs.«203175_g23072564314740_cont_8to1_266_38_alg».proof.Defs
import proofs.«203175_g23072564314740_cont_8to1_266_38_alg».proof.Proof.Gen.Kernel
import proofs.«203175_g23072564314740_cont_8to1_266_38_alg».proof.Proof.Gen.Kernel.Skeleton
import proofs.«203175_g23072564314740_cont_8to1_266_38_alg».proof.Proof.Gen.KernelIdeal
import proofs.«203175_g23072564314740_cont_8to1_266_38_alg».proof.Proof.Gen.KernelIdeal.Skeleton
import proofs.«203175_g23072564314740_cont_8to1_266_38_alg».proof.Proof.Gen.ReferenceIdeal
import proofs.«203175_g23072564314740_cont_8to1_266_38_alg».proof.Proof.Gen.Pre_input_domain
import proofs.«203175_g23072564314740_cont_8to1_266_38_alg».proof.Proof.KB.Launch
import proofs.«203175_g23072564314740_cont_8to1_266_38_alg».proof.Proof.KB.Tile
import proofs.«203175_g23072564314740_cont_8to1_266_38_alg».proof.Proof.KI.Launch
import proofs.«203175_g23072564314740_cont_8to1_266_38_alg».proof.Proof.KI.Tile
import proofs.«203175_g23072564314740_cont_8to1_266_38_alg».proof.Proof.KI.LaunchV
import proofs.«203175_g23072564314740_cont_8to1_266_38_alg».proof.Proof.KI.TileV
import proofs.«203175_g23072564314740_cont_8to1_266_38_alg».proof.Proof.RefValue
import Idealize.ShloMosaic.Adequacy
import Idealize.ShloMosaic.Init

noncomputable section

namespace Cert.Proof

open Idealize.ShloMosaic Idealize.SL.Sem

/-- Under the precondition every index names a row of the table: at the word level, -/
theorem preok_K (m : (ℓ : Loc Cert.Kernel.nD Cert.Kernel.τ Cert.Kernel.sig) → Buf (Elt Bits) ℓ) (hpre : Cert.Pre_Kernel m) :
    Cert.Proof.KB.PreOK (F := Bits) m := fun d i => Cert.Proof.RefSide.idx_lt_of_pre _ _ (hpre d) i
/-- and at the ideal instance. -/
theorem preok_KI (m : (ℓ : Loc Cert.KernelIdeal.nD Cert.KernelIdeal.τ Cert.KernelIdeal.sig) → Buf (Elt Ideal) ℓ) (hpre : Cert.Pre_KernelIdeal m) :
    Cert.Proof.KI.PreOK (F := Ideal) m := fun d i => Cert.Proof.RefSide.idx_lt_of_pre _ _ (hpre d) i

theorem frame_K : Cert.frame_Kernel := fun m ρ hpre =>
  (θ_run Cert.Kernel.defs _ _).mono (fun _ h c => h c)
    (Cert.Proof.KB.run_main (F := Bits) m ρ (Cert.Proof.KB.tileObl m Cert.Proof.KB.facts (preok_K m hpre)))

theorem frame_KI : Cert.frame_KernelIdeal := fun m ρ hpre =>
  (θ_run Cert.KernelIdeal.defs _ _).mono (fun _ h c => h c)
    (Cert.Proof.KI.run_main (F := Ideal) m ρ (Cert.Proof.KI.tileObl m Cert.Proof.KI.facts (preok_KI m hpre)))

theorem frame_RI : Cert.frame_ReferenceIdeal := fun m g hpre =>
  (θ_run _ _ _).mono (fun _ h c => (h c).2) (Cert.Proof.RefSide.run m g (fun c => Cert.Proof.RefSide.idx_lt_of_pre _ _ (hpre c)))

/-- The kernel's result, transposed back, is the rows of the table taken at the indices. -/
theorem out_eq (m : (ℓ : Loc Cert.KernelIdeal.nD Cert.KernelIdeal.τ Cert.KernelIdeal.sig) → Buf (Elt Ideal) ℓ) (c : Dev Cert.KernelIdeal.nD) :
    Cert.Proof.KI.outOf (F := Ideal) m c
      = Cert.Proof.RefSide.takeRows (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  unfold Cert.Proof.KI.outOf Cert.Proof.KI.GT Cert.Proof.KI.ttOf
  exact Cert.Proof.KI.transpose_gath_eq_takeRows _ _

theorem algebraic : Cert.algebraic_KernelIdeal_ReferenceIdeal := by
  intro m g m' g' hpre hagree
  refine ⟨fun c => Cert.Proof.RefSide.takeRows (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans (out_eq m c), (h c).2.1, (h c).2.2⟩)
      (Cert.Proof.KI.run_mainV (F := Ideal) m g (Cert.Proof.KI.tileOblV m Cert.Proof.KI.facts (preok_KI m hpre)))
  · have hidx : ∀ (c : Dev Cert.ReferenceIdeal.nD) (i : Cert.ReferenceIdeal.S16384.Idx),
        (m' ((c.tc : Thread Cert.ReferenceIdeal.nD Cert.ReferenceIdeal.τ).loc Cert.ReferenceIdeal.main_arg0) i).toNat < 100000 := by
      intro c i; rw [(hagree c).1]; exact preok_KI m hpre c i
    refine (θ_run _ _ _).mono (fun _ h c => ⟨(h c).1.trans ?_, (h c).2.1, (h c).2.2⟩) (Cert.Proof.RefSide.run m' g' hidx)
    rw [(hagree c).1, (hagree c).2]

theorem claim : Cert.Claim :=
  ⟨Cert.Kernel.Gen.facts, Cert.KernelIdeal.Gen.facts, Cert.ReferenceIdeal.Gen.facts, Cert.Pre_input_domain.Gen.facts,
    frame_K, frame_KI, frame_RI, trivial, algebraic⟩

end Cert.Proof

end
